-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v280)) (v1 : (c : Dev Cert.KernelIdeal.nD) → Buf (Elt Ideal) ((c.tc : Thread Cert.KernelIdeal.nD Cert.KernelIdeal.τ).loc Cert.KernelIdeal.main_v287)) (v2 : (c : Dev Cert.KernelIdeal.nD) → Buf (Elt Ideal) ((c.tc : Thread Cert.KernelIdeal.nD Cert.KernelIdeal.τ).loc Cert.KernelIdeal.main_v271)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v280) = v0 c
          ∧ r.2.mem ((c.tc : Thread Cert.KernelIdeal.nD Cert.KernelIdeal.τ).loc Cert.KernelIdeal.main_v287) = v1 c
          ∧ r.2.mem ((c.tc : Thread Cert.KernelIdeal.nD Cert.KernelIdeal.τ).loc Cert.KernelIdeal.main_v271) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_v331) = v1 c
          ∧ r.2.mem ((c.tc : Thread Cert.ReferenceIdeal.nD Cert.ReferenceIdeal.τ).loc Cert.ReferenceIdeal.main_v315) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2x400000 : Shape := ⟨2, ![2, 400000]⟩
abbrev S400000 : Shape := ⟨1, ![400000]⟩
abbrev S100000x200 : Shape := ⟨2, ![100000, 200]⟩
abbrev S100000x768 : Shape := ⟨2, ![100000, 768]⟩
abbrev S768x200 : Shape := ⟨2, ![768, 200]⟩
abbrev S400x200 : Shape := ⟨2, ![400, 200]⟩
abbrev S200x200 : Shape := ⟨2, ![200, 200]⟩
abbrev S1x200 : Shape := ⟨2, ![1, 200]⟩
abbrev S200 : Shape := ⟨1, ![200]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S100000x768 : S_.BroadcastsInDim S100000x768 (![] : Fin 0 → Fin S100000x768.rank)
  reducesTo_S100000x768_S_d0_1 : S100000x768.ReducesTo [0, 1] S_
  bcast_S_S768x200 : S_.BroadcastsInDim S768x200 (![] : Fin 0 → Fin S768x200.rank)
  reducesTo_S768x200_S_d0_1 : S768x200.ReducesTo [0, 1] S_
  bcast_S_S400x200 : S_.BroadcastsInDim S400x200 (![] : Fin 0 → Fin S400x200.rank)
  reducesTo_S400x200_S_d0_1 : S400x200.ReducesTo [0, 1] S_
  bcast_S_S200x200 : S_.BroadcastsInDim S200x200 (![] : Fin 0 → Fin S200x200.rank)
  reducesTo_S200x200_S_d0_1 : S200x200.ReducesTo [0, 1] S_
  bcast_S_S1x200 : S_.BroadcastsInDim S1x200 (![] : Fin 0 → Fin S1x200.rank)
  reducesTo_S1x200_S_d0_1 : S1x200.ReducesTo [0, 1] S_
  bcast_S_S200 : S_.BroadcastsInDim S200 (![] : Fin 0 → Fin S200.rank)
  reducesTo_S200_S_d0 : S200.ReducesTo [0] S_

variable [Facts]

def fn_part5 {F : FTy → Type} [FloatOps F] (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  main_v88

def fn_part4 {F : FTy → Type} [FloatOps F] (main_arg18 : FVec F S200x200 .f32) (main_arg19 : FVec F S200x200 .f32) (main_arg20 : FVec F S1x200 .f32) (main_arg21 : FVec F S200 .f32) (main_v63 : IVec S_ 1) (main_v67 : IVec S_ 1) : IVec S_ 1 :=
  let main_v68 : IVec S_ 1 := andi main_v63 main_v67
  let main_v69 : FVec F S200x200 .f32 := Host.absf main_arg18
  let main_cst_26 : FVec F S_ .f32 := constant S_ .f32 0x7F800000#32
  let main_v70 : FVec F S200x200 .f32 := broadcastInDim S200x200 ![] bcast_S_S200x200 main_cst_26
  let main_v71 : IVec S200x200 1 := cmpf .olt main_v69 main_v70
  let main_c_27 : IVec S_ 1 := constantI S_ 1 1#1
  let main_v72 : IVec S_ 1 := (fun x v => Host.reduce IntOp.andi x v reducesTo_S200x200_S_d0_1 h_S_) main_v71 main_c_27
  let main_v73 : IVec S_ 1 := andi main_v68 main_v72
  let main_v74 : FVec F S200x200 .f32 := Host.absf main_arg19
  let main_cst_28 : FVec F S_ .f32 := constant S_ .f32 0x7F800000#32
  let main_v75 : FVec F S200x200 .f32 := broadcastInDim S200x200 ![] bcast_S_S200x200 main_cst_28
  let main_v76 : IVec S200x200 1 := cmpf .olt main_v74 main_v75
  let main_c_29 : IVec S_ 1 := constantI S_ 1 1#1
  let main_v77 : IVec S_ 1 := (fun x v => Host.reduce IntOp.andi x v reducesTo_S200x200_S_d0_1 h_S_) main_v76 main_c_29
  let main_v78 : IVec S_ 1 := andi main_v73 main_v77
  let main_v79 : FVec F S1x200 .f32 := Host.absf main_arg20
  let main_cst_30 : FVec F S_ .f32 := constant S_ .f32 0x7F800000#32
  let main_v80 : FVec F S1x200 .f32 := broadcastInDim S1x200 ![] bcast_S_S1x200 main_cst_30
  let main_v81 : IVec S1x200 1 := cmpf .olt main_v79 main_v80
  let main_c_31 : IVec S_ 1 := constantI S_ 1 1#1
  let main_v82 : IVec S_ 1 := (fun x v => Host.reduce IntOp.andi x v reducesTo_S1x200_S_d0_1 h_S_) main_v81 main_c_31
  let main_v83 : IVec S_ 1 := andi main_v78 main_v82
  let main_v84 : FVec F S200 .f32 := Host.absf main_arg21
  let main_cst_32 : FVec F S_ .f32 := constant S_ .f32 0x7F800000#32
  fn_part5 (F := F) main_v83 main_v84 main_cst_32

def fn_part3 {F : FTy → Type} [FloatOps F] (main_arg15 : FVec F S200 .f32) (main_arg16 : FVec F S200x200 .f32) (main_arg17 : FVec F S200x200 .f32) (main_arg18 : FVec F S200x200 .f32) (main_arg19 : FVec F S200x200 .f32) (main_arg20 : FVec F S1x200 .f32) (main_arg21 : FVec F S200 .f32) (main_v48 : IVec S_ 1) (main_v49 : FVec F S1x200 .f32) (main_v50 : FVec F S1x200 .f32) : IVec S_ 1 :=
  let main_v51 : IVec S1x200 1 := cmpf .olt main_v49 main_v50
  let main_c_19 : IVec S_ 1 := constantI S_ 1 1#1
  let main_v52 : IVec S_ 1 := (fun x v => Host.reduce IntOp.andi x v reducesTo_S1x200_S_d0_1 h_S_) main_v51 main_c_19
  let main_v53 : IVec S_ 1 := andi main_v48 main_v52
  let main_v54 : FVec F S200 .f32 := Host.absf main_arg15
  let main_cst_20 : FVec F S_ .f32 := constant S_ .f32 0x7F800000#32
  let main_v55 : FVec F S200 .f32 := broadcastInDim S200 ![] bcast_S_S200 main_cst_20
  let main_v56 : IVec S200 1 := cmpf .olt main_v54 main_v55
  let main_c_21 : IVec S_ 1 := constantI S_ 1 1#1
  let main_v57 : IVec S_ 1 := (fun x v => Host.reduce IntOp.andi x v reducesTo_S200_S_d0 h_S_) main_v56 main_c_21
  let main_v58 : IVec S_ 1 := andi main_v53 main_v57
  let main_v59 : FVec F S200x200 .f32 := Host.absf main_arg16
  let main_cst_22 : FVec F S_ .f32 := constant S_ .f32 0x7F800000#32
  let main_v60 : FVec F S200x200 .f32 := broadcastInDim S200x200 ![] bcast_S_S200x200 main_cst_22
  let main_v61 : IVec S200x200 1 := cmpf .olt main_v59 main_v60
  let main_c_23 : IVec S_ 1 := constantI S_ 1 1#1
  let main_v62 : IVec S_ 1 := (fun x v => Host.reduce IntOp.andi x v reducesTo_S200x200_S_d0_1 h_S_) main_v61 main_c_23
  let main_v63 : IVec S_ 1 := andi main_v58 main_v62
  let main_v64 : FVec F S200x200 .f32 := Host.absf main_arg17
  let main_cst_24 : FVec F S_ .f32 := constant S_ .f32 0x7F800000#32
  let main_v65 : FVec F S200x200 .f32 := broadcastInDim S200x200 ![] bcast_S_S200x200 main_cst_24
  let main_v66 : IVec S200x200 1 := cmpf .olt main_v64 main_v65
  let main_c_25 : IVec S_ 1 := constantI S_ 1 1#1
  let main_v67 : IVec S_ 1 := (fun x v => Host.reduce IntOp.andi x v reducesTo_S200x200_S_d0_1 h_S_) main_v66 main_c_25
  fn_part4 (F := F) main_arg18 main_arg19 main_arg20 main_arg21 main_v63 main_v67

def fn_part2 {F : FTy → Type} [FloatOps F] (main_arg11 : FVec F S200x200 .f32) (main_arg12 : FVec F S200x200 .f32) (main_arg13 : FVec F S200x200 .f32) (main_arg14 : FVec F S1x200 .f32) (main_arg15 : FVec F S200 .f32) (main_arg16 : FVec F S200x200 .f32) (main_arg17 : FVec F S200x200 .f32) (main_arg18 : FVec F S200x200 .f32) (main_arg19 : FVec F S200x200 .f32) (main_arg20 : FVec F S1x200 .f32) (main_arg21 : FVec F S200 .f32) (main_v33 : IVec S_ 1) : IVec S_ 1 :=
  let main_v34 : FVec F S200x200 .f32 := Host.absf main_arg11
  let main_cst_12 : FVec F S_ .f32 := constant S_ .f32 0x7F800000#32
  let main_v35 : FVec F S200x200 .f32 := broadcastInDim S200x200 ![] bcast_S_S200x200 main_cst_12
  let main_v36 : IVec S200x200 1 := cmpf .olt main_v34 main_v35
  let main_c_13 : IVec S_ 1 := constantI S_ 1 1#1
  let main_v37 : IVec S_ 1 := (fun x v => Host.reduce IntOp.andi x v reducesTo_S200x200_S_d0_1 h_S_) main_v36 main_c_13
  let main_v38 : IVec S_ 1 := andi main_v33 main_v37
  let main_v39 : FVec F S200x200 .f32 := Host.absf main_arg12
  let main_cst_14 : FVec F S_ .f32 := constant S_ .f32 0x7F800000#32
  let main_v40 : FVec F S200x200 .f32 := broadcastInDim S200x200 ![] bcast_S_S200x200 main_cst_14
  let main_v41 : IVec S200x200 1 := cmpf .olt main_v39 main_v40
  let main_c_15 : IVec S_ 1 := constantI S_ 1 1#1
  let main_v42 : IVec S_ 1 := (fun x v => Host.reduce IntOp.andi x v reducesTo_S200x200_S_d0_1 h_S_) main_v41 main_c_15
  let main_v43 : IVec S_ 1 := andi main_v38 main_v42
  let main_v44 : FVec F S200x200 .f32 := Host.absf main_arg13
  let main_cst_16 : FVec F S_ .f32 := constant S_ .f32 0x7F800000#32
  let main_v45 : FVec F S200x200 .f32 := broadcastInDim S200x200 ![] bcast_S_S200x200 main_cst_16
  let main_v46 : IVec S200x200 1 := cmpf .olt main_v44 main_v45
  let main_c_17 : IVec S_ 1 := constantI S_ 1 1#1
  let main_v47 : IVec S_ 1 := (fun x v => Host.reduce IntOp.andi x v reducesTo_S200x200_S_d0_1 h_S_) main_v46 main_c_17
  let main_v48 : IVec S_ 1 := andi main_v43 main_v47
  let main_v49 : FVec F S1x200 .f32 := Host.absf main_arg14
  let main_cst_18 : FVec F S_ .f32 := constant S_ .f32 0x7F800000#32
  let main_v50 : FVec F S1x200 .f32 := broadcastInDim S1x200 ![] bcast_S_S1x200 main_cst_18
  fn_part3 (F := F) main_arg15 main_arg16 main_arg17 main_arg18 main_arg19 main_arg20 main_arg21 main_v48 main_v49 main_v50

def fn_part1 {F : FTy → Type} [FloatOps F] (main_arg8 : FVec F S768x200 .f32) (main_arg9 : FVec F S400x200 .f32) (main_arg10 : FVec F S200x200 .f32) (main_arg11 : FVec F S200x200 .f32) (main_arg12 : FVec F S200x200 .f32) (main_arg13 : FVec F S200x200 .f32) (main_arg14 : FVec F S1x200 .f32) (main_arg15 : FVec F S200 .f32) (main_arg16 : FVec F S200x200 .f32) (main_arg17 : FVec F S200x200 .f32) (main_arg18 : FVec F S200x200 .f32) (main_arg19 : FVec F S200x200 .f32) (main_arg20 : FVec F S1x200 .f32) (main_arg21 : FVec F S200 .f32) (main_v13 : IVec S_ 1) (main_v16 : IVec S100000x768 1) : IVec S_ 1 :=
  let main_c_5 : IVec S_ 1 := constantI S_ 1 1#1
  let main_v17 : IVec S_ 1 := (fun x v => Host.reduce IntOp.andi x v reducesTo_S100000x768_S_d0_1 h_S_) main_v16 main_c_5
  let main_v18 : IVec S_ 1 := andi main_v13 main_v17
  let main_v19 : FVec F S768x200 .f32 := Host.absf main_arg8
  let main_cst_6 : FVec F S_ .f32 := constant S_ .f32 0x7F800000#32
  let main_v20 : FVec F S768x200 .f32 := broadcastInDim S768x200 ![] bcast_S_S768x200 main_cst_6
  let main_v21 : IVec S768x200 1 := cmpf .olt main_v19 main_v20
  let main_c_7 : IVec S_ 1 := constantI S_ 1 1#1
  let main_v22 : IVec S_ 1 := (fun x v => Host.reduce IntOp.andi x v reducesTo_S768x200_S_d0_1 h_S_) main_v21 main_c_7
  let main_v23 : IVec S_ 1 := andi main_v18 main_v22
  let main_v24 : FVec F S400x200 .f32 := Host.absf main_arg9
  let main_cst_8 : FVec F S_ .f32 := constant S_ .f32 0x7F800000#32
  let main_v25 : FVec F S400x200 .f32 := broadcastInDim S400x200 ![] bcast_S_S400x200 main_cst_8
  let main_v26 : IVec S400x200 1 := cmpf .olt main_v24 main_v25
  let main_c_9 : IVec S_ 1 := constantI S_ 1 1#1
  let main_v27 : IVec S_ 1 := (fun x v => Host.reduce IntOp.andi x v reducesTo_S400x200_S_d0_1 h_S_) main_v26 main_c_9
  let main_v28 : IVec S_ 1 := andi main_v23 main_v27
  let main_v29 : FVec F S200x200 .f32 := Host.absf main_arg10
  let main_cst_10 : FVec F S_ .f32 := constant S_ .f32 0x7F800000#32
  let main_v30 : FVec F S200x200 .f32 := broadcastInDim S200x200 ![] bcast_S_S200x200 main_cst_10
  let main_v31 : IVec S200x200 1 := cmpf .olt main_v29 main_v30
  let main_c_11 : IVec S_ 1 := constantI S_ 1 1#1
  let main_v32 : IVec S_ 1 := (fun x v => Host.reduce IntOp.andi x v reducesTo_S200x200_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : IVec S2048 32) (main_arg1 : IVec S2048 32) (main_arg2 : IVec S2x400000 32) (main_arg3 : IVec S400000 32) (main_arg4 : FVec F S100000x200 .f32) (main_arg5 : FVec F S100000x768 .f32) (main_arg6 : FVec F S768x200 .f32) (main_arg7 : FVec F S100000x768 .f32) (main_arg8 : FVec F S768x200 .f32) (main_arg9 : FVec F S400x200 .f32) (main_arg10 : FVec F S200x200 .f32) (main_arg11 : FVec F S200x200 .f32) (main_arg12 : FVec F S200x200 .f32) (main_arg13 : FVec F S200x200 .f32) (main_arg14 : FVec F S1x200 .f32) (main_arg15 : FVec F S200 .f32) (main_arg16 : FVec F S200x200 .f32) (main_arg17 : FVec F S200x200 .f32) (main_arg18 : FVec F S200x200 .f32) (main_arg19 : FVec F S200x200 .f32) (main_arg20 : FVec F S1x200 .f32) (main_arg21 : FVec F S200 .f32) : IVec S_ 1 :=
  let main_v0 : FVec F S100000x200 .f32 := Host.absf main_arg4
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S100000x768 .f32 := Host.absf main_arg5
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S768x200 .f32 := Host.absf main_arg6
  let main_cst_2 : FVec F S_ .f32 := constant S_ .f32 0x7F800000#32
  let main_v10 : FVec F S768x200 .f32 := broadcastInDim S768x200 ![] bcast_S_S768x200 main_cst_2
  let main_v11 : IVec S768x200 1 := cmpf .olt main_v9 main_v10
  let main_c_3 : IVec S_ 1 := constantI S_ 1 1#1
  let main_v12 : IVec S_ 1 := (fun x v => Host.reduce IntOp.andi x v reducesTo_S768x200_S_d0_1 h_S_) main_v11 main_c_3
  let main_v13 : IVec S_ 1 := andi main_v8 main_v12
  let main_v14 : FVec F S100000x768 .f32 := Host.absf main_arg7
  let main_cst_4 : FVec F S_ .f32 := constant S_ .f32 0x7F800000#32
  let main_v15 : FVec F S100000x768 .f32 := broadcastInDim S100000x768 ![] bcast_S_S100000x768 main_cst_4
  let main_v16 : IVec S100000x768 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S2048 : Shape := ⟨1, ![2048]⟩
abbrev S2x400000 : Shape := ⟨2, ![2, 400000]⟩
abbrev S400000 : Shape := ⟨1, ![400000]⟩
abbrev S100000x200 : Shape := ⟨2, ![100000, 200]⟩
abbrev S100000x768 : Shape := ⟨2, ![100000, 768]⟩
abbrev S768x200 : Shape := ⟨2, ![768, 200]⟩
abbrev S400x200 : Shape := ⟨2, ![400, 200]⟩
abbrev S200x200 : Shape := ⟨2, ![200, 200]⟩
abbrev S1x200 : Shape := ⟨2, ![1, 200]⟩
abbrev S200 : Shape := ⟨1, ![200]⟩
abbrev S2000x768 : Shape := ⟨2, ![2000, 768]⟩
abbrev S2000x200 : Shape := ⟨2, ![2000, 200]⟩
abbrev S401x200 : Shape := ⟨2, ![401, 200]⟩
abbrev S2x200000 : Shape := ⟨2, ![2, 200000]⟩
abbrev S200000 : Shape := ⟨1, ![200000]⟩
abbrev S1x200000 : Shape := ⟨2, ![1, 200000]⟩
abbrev S_ : Shape := ⟨0, ![]⟩
abbrev S100000 : Shape := ⟨1, ![100000]⟩
abbrev S200000x1 : Shape := ⟨2, ![200000, 1]⟩
abbrev S200000x200 : Shape := ⟨2, ![200000, 200]⟩
abbrev S4000x200 : Shape := ⟨2, ![4000, 200]⟩
abbrev S4000x1 : Shape := ⟨2, ![4000, 1]⟩
abbrev S2048x1 : Shape := ⟨2, ![2048, 1]⟩
abbrev S2048x200 : Shape := ⟨2, ![2048, 200]⟩

abbrev nBuf : Space → Nat
  | .hbm => 402
  | .vmem => 94
  | .smem => 0
  | _ => 0

abbrev hbmTy0_0 (i : Nat) : BufTy := match i % 128 with
  | 0 => ⟨S2048, .i32⟩
  | 1 => ⟨S2048, .i32⟩
  | 2 => ⟨S2x400000, .i32⟩
  | 3 => ⟨S400000, .i32⟩
  | 4 => ⟨S100000x200, .f32⟩
  | 5 => ⟨S100000x768, .f32⟩
  | 6 => ⟨S768x200, .f32⟩
  | 7 => ⟨S100000x768, .f32⟩
  | 8 => ⟨S768x200, .f32⟩
  | 9 => ⟨S400x200, .f32⟩
  | 10 => ⟨S200x200, .f32⟩
  | 11 => ⟨S200x200, .f32⟩
  | 12 => ⟨S200x200, .f32⟩
  | 13 => ⟨S200x200, .f32⟩
  | 14 => ⟨S1x200, .f32⟩
  | 15 => ⟨S200, .f32⟩
  | 16 => ⟨S200x200, .f32⟩
  | 17 => ⟨S200x200, .f32⟩
  | 18 => ⟨S200x200, .f32⟩
  | 19 => ⟨S200x200, .f32⟩
  | 20 => ⟨S1x200, .f32⟩
  | 21 => ⟨S200, .f32⟩
  | 22 => ⟨S100000x200, .f32⟩
  | 23 => ⟨S100000x200, .f32⟩
  | 24 => ⟨S401x200, .f32⟩
  | 25 => ⟨S100000x200, .f32⟩
  | 26 => ⟨S2x200000, .i32⟩
  | 27 => ⟨S200000, .i32⟩
  | 28 => ⟨S1x200000, .i32⟩
  | 29 => ⟨S200000, .i32⟩
  | 30 => ⟨S1x200000, .i32⟩
  | 31 => ⟨S200000, .i32⟩
  | 32 => ⟨S_, .f32⟩
  | 33 => ⟨S100000, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S_, .f32⟩
  | 43 => ⟨S200000, .f32⟩
  | 44 => ⟨S100000, .f32⟩
  | 45 => ⟨S_, .f32⟩
  | 46 => ⟨S100000, .f32⟩
  | 47 => ⟨S100000, .i1⟩
  | 48 => ⟨S_, .f32⟩
  | 49 => ⟨S100000, .f32⟩
  | 50 => ⟨S100000, .f32⟩
  | 51 => ⟨S100000, .f32⟩
  | 52 => ⟨S_, .f32⟩
  | 53 => ⟨S_, .f32⟩
  | 54 => ⟨S100000, .f32⟩
  | 55 => ⟨S100000, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000, .f32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000, .f32⟩
  | 74 => ⟨S200000, .f32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S200000x200, .f32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000x200, .f32⟩
  | 93 => ⟨S200000x200, .f32⟩
  | 94 => ⟨S200000x1, .f32⟩
  | 95 => ⟨S200000x200, .f32⟩
  | 96 => ⟨S_, .f32⟩
  | 97 => ⟨S100000x200, .f32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S100000x200, .f32⟩
  | 107 => ⟨S2x200000, .i32⟩
  | 108 => ⟨S200000, .i32⟩
  | 109 => ⟨S1x200000, .i32⟩
  | 110 => ⟨S200000, .i32⟩
  | 111 => ⟨S1x200000, .i32⟩
  | 112 => ⟨S200000, .i32⟩
  | 113 => ⟨S_, .f32⟩
  | 114 => ⟨S100000, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S_, .f32⟩
  | 124 => ⟨S200000, .f32⟩
  | 125 => ⟨S100000, .f32⟩
  | 126 => ⟨S_, .f32⟩
  | 127 => ⟨S100000, .f32⟩
  | _ => ⟨S2048, .i32⟩

abbrev hbmTy0_1 (i : Nat) : BufTy := match i % 128 with
  | 0 => ⟨S100000, .i1⟩
  | 1 => ⟨S_, .f32⟩
  | 2 => ⟨S100000, .f32⟩
  | 3 => ⟨S100000, .f32⟩
  | 4 => ⟨S100000, .f32⟩
  | 5 => ⟨S_, .f32⟩
  | 6 => ⟨S_, .f32⟩
  | 7 => ⟨S100000, .f32⟩
  | 8 => ⟨S100000, .f32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000, .f32⟩
  | 27 => ⟨S200000, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x200, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x200, .f32⟩
  | 46 => ⟨S200000x200, .f32⟩
  | 47 => ⟨S200000x1, .f32⟩
  | 48 => ⟨S200000x200, .f32⟩
  | 49 => ⟨S_, .f32⟩
  | 50 => ⟨S100000x200, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S100000x200, .f32⟩
  | 60 => ⟨S100000x200, .f32⟩
  | 61 => ⟨S1x200, .f32⟩
  | 62 => ⟨S100000x200, .f32⟩
  | 63 => ⟨S1x200, .f32⟩
  | 64 => ⟨S1x200, .f32⟩
  | 65 => ⟨S_, .f32⟩
  | 66 => ⟨S1x200, .f32⟩
  | 67 => ⟨S1x200, .f32⟩
  | 68 => ⟨S_, .f32⟩
  | 69 => ⟨S1x200, .f32⟩
  | 70 => ⟨S1x200, .f32⟩
  | 71 => ⟨S1x200, .f32⟩
  | 72 => ⟨S1x200, .f32⟩
  | 73 => ⟨S100000x200, .f32⟩
  | 74 => ⟨S401x200, .f32⟩
  | 75 => ⟨S400x200, .f32⟩
  | 76 => ⟨S401x200, .f32⟩
  | 77 => ⟨S100000x200, .f32⟩
  | 78 => ⟨S2x200000, .i32⟩
  | 79 => ⟨S200000, .i32⟩
  | 80 => ⟨S1x200000, .i32⟩
  | 81 => ⟨S200000, .i32⟩
  | 82 => ⟨S1x200000, .i32⟩
  | 83 => ⟨S200000, .i32⟩
  | 84 => ⟨S_, .f32⟩
  | 85 => ⟨S100000, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S_, .f32⟩
  | 95 => ⟨S200000, .f32⟩
  | 96 => ⟨S100000, .f32⟩
  | 97 => ⟨S_, .f32⟩
  | 98 => ⟨S100000, .f32⟩
  | 99 => ⟨S100000, .i1⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S200000, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000, .f32⟩
  | 126 => ⟨S200000, .f32⟩
  | 127 => ⟨S_, .i32⟩
  | _ => ⟨S2048, .i32⟩

abbrev hbmTy0_2 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x200, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000x200, .f32⟩
  | 17 => ⟨S200000x200, .f32⟩
  | 18 => ⟨S200000x1, .f32⟩
  | 19 => ⟨S200000x200, .f32⟩
  | 20 => ⟨S_, .f32⟩
  | 21 => ⟨S100000x200, .f32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S100000x200, .f32⟩
  | 31 => ⟨S2x200000, .i32⟩
  | 32 => ⟨S200000, .i32⟩
  | 33 => ⟨S1x200000, .i32⟩
  | 34 => ⟨S200000, .i32⟩
  | 35 => ⟨S1x200000, .i32⟩
  | 36 => ⟨S200000, .i32⟩
  | 37 => ⟨S_, .f32⟩
  | 38 => ⟨S100000, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S_, .f32⟩
  | 48 => ⟨S200000, .f32⟩
  | 49 => ⟨S100000, .f32⟩
  | 50 => ⟨S_, .f32⟩
  | 51 => ⟨S100000, .f32⟩
  | 52 => ⟨S100000, .i1⟩
  | 53 => ⟨S_, .f32⟩
  | 54 => ⟨S100000, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000, .f32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S200000, .f32⟩
  | 79 => ⟨S200000, .f32⟩
  | 80 => ⟨S_, .i32⟩
  | 81 => ⟨S200000, .i32⟩
  | 82 => ⟨S200000, .i1⟩
  | 83 => ⟨S_, .i32⟩
  | 84 => ⟨S200000, .i32⟩
  | 85 => ⟨S200000, .i32⟩
  | 86 => ⟨S200000, .i32⟩
  | 87 => ⟨S200000x1, .i32⟩
  | 88 => ⟨S200000x200, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x200, .f32⟩
  | 98 => ⟨S200000x200, .f32⟩
  | 99 => ⟨S200000x1, .f32⟩
  | 100 => ⟨S200000x200, .f32⟩
  | 101 => ⟨S_, .f32⟩
  | 102 => ⟨S100000x200, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S100000x200, .f32⟩
  | 112 => ⟨S100000x200, .f32⟩
  | 113 => ⟨S1x200, .f32⟩
  | 114 => ⟨S100000x200, .f32⟩
  | 115 => ⟨S1x200, .f32⟩
  | 116 => ⟨S1x200, .f32⟩
  | 117 => ⟨S_, .f32⟩
  | 118 => ⟨S1x200, .f32⟩
  | 119 => ⟨S1x200, .f32⟩
  | 120 => ⟨S_, .f32⟩
  | 121 => ⟨S1x200, .f32⟩
  | 122 => ⟨S1x200, .f32⟩
  | 123 => ⟨S1x200, .f32⟩
  | 124 => ⟨S1x200, .f32⟩
  | 125 => ⟨S100000x200, .f32⟩
  | 126 => ⟨S401x200, .f32⟩
  | 127 => ⟨S400x200, .f32⟩
  | _ => ⟨S2048, .i32⟩

abbrev hbmTy0_3 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S2048x200, .f32⟩
  | 9 => ⟨S_, .i32⟩
  | 10 => ⟨S2048, .i32⟩
  | 11 => ⟨S2048, .i1⟩
  | 12 => ⟨S_, .i32⟩
  | 13 => ⟨S2048, .i32⟩
  | 14 => ⟨S2048, .i32⟩
  | 15 => ⟨S2048, .i32⟩
  | 16 => ⟨S2048x1, .i32⟩
  | 17 => ⟨S2048x200, .f32⟩
  | _ => ⟨S2048, .i32⟩

abbrev hbmTy (i : Nat) : BufTy := match i / 128 with
  | 0 => hbmTy0_0 i
  | 1 => hbmTy0_1 i
  | 2 => hbmTy0_2 i
  | 3 => hbmTy0_3 i
  | _ => ⟨S2048, .i32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x200, .f32⟩
  | .local _ .vmem, ⟨3, _⟩ => ⟨S2000x200, .f32⟩
  | .local _ .vmem, ⟨4, _⟩ => ⟨S2000x200, .f32⟩
  | .local _ .vmem, ⟨5, _⟩ => ⟨S2000x768, .f32⟩
  | .local _ .vmem, ⟨6, _⟩ => ⟨S2000x768, .f32⟩
  | .local _ .vmem, ⟨7, _⟩ => ⟨S768x200, .f32⟩
  | .local _ .vmem, ⟨8, _⟩ => ⟨S2000x200, .f32⟩
  | .local _ .vmem, ⟨9, _⟩ => ⟨S2000x200, .f32⟩
  | .local _ .vmem, ⟨10, _⟩ => ⟨S2000x200, .f32⟩
  | .local _ .vmem, ⟨11, _⟩ => ⟨S2000x200, .f32⟩
  | .local _ .vmem, ⟨12, _⟩ => ⟨S2000x200, .f32⟩
  | .local _ .vmem, ⟨13, _⟩ => ⟨S2000x200, .f32⟩
  | .local _ .vmem, ⟨14, _⟩ => ⟨S2000x200, .f32⟩
  | .local _ .vmem, ⟨15, _⟩ => ⟨S2000x200, .f32⟩
  | .local _ .vmem, ⟨16, _⟩ => ⟨S2000x200, .f32⟩
  | .local _ .vmem, ⟨17, _⟩ => ⟨S2000x200, .f32⟩
  | .local _ .vmem, ⟨18, _⟩ => ⟨S4000x200, .f32⟩
  | .local _ .vmem, ⟨19, _⟩ => ⟨S4000x200, .f32⟩
  | .local _ .vmem, ⟨20, _⟩ => ⟨S4000x1, .f32⟩
  | .local _ .vmem, ⟨21, _⟩ => ⟨S4000x1, .f32⟩
  | .local _ .vmem, ⟨22, _⟩ => ⟨S200x200, .f32⟩
  | .local _ .vmem, ⟨23, _⟩ => ⟨S4000x200, .f32⟩
  | .local _ .vmem, ⟨24, _⟩ => ⟨S4000x200, .f32⟩
  | .local _ .vmem, ⟨25, _⟩ => ⟨S4000x200, .f32⟩
  | .local _ .vmem, ⟨26, _⟩ => ⟨S4000x200, .f32⟩
  | .local _ .vmem, ⟨27, _⟩ => ⟨S4000x1, .f32⟩
  | .local _ .vmem, ⟨28, _⟩ => ⟨S4000x1, .f32⟩
  | .local _ .vmem, ⟨29, _⟩ => ⟨S200x200, .f32⟩
  | .local _ .vmem, ⟨30, _⟩ => ⟨S4000x200, .f32⟩
  | .local _ .vmem, ⟨31, _⟩ => ⟨S4000x200, .f32⟩
  | .local _ .vmem, ⟨32, _⟩ => ⟨S2000x200, .f32⟩
  | .local _ .vmem, ⟨33, _⟩ => ⟨S2000x200, .f32⟩
  | .local _ .vmem, ⟨34, _⟩ => ⟨S1x200, .f32⟩
  | .local _ .vmem, ⟨35, _⟩ => ⟨S200x200, .f32⟩
  | .local _ .vmem, ⟨36, _⟩ => ⟨S2000x200, .f32⟩
  | .local _ .vmem, ⟨37, _⟩ => ⟨S2000x200, .f32⟩
  | .local _ .vmem, ⟨38, _⟩ => ⟨S1x200, .f32⟩
  | .local _ .vmem, ⟨39, _⟩ => ⟨S2000x200, .f32⟩
  | .local _ .vmem, ⟨40, _⟩ => ⟨S2000x200, .f32⟩
  | .local _ .vmem, ⟨41, _⟩ => ⟨S1x200, .f32⟩
  | .local _ .vmem, ⟨42, _⟩ => ⟨S1x200, .f32⟩
  | .local _ .vmem, ⟨43, _⟩ => ⟨S2000x200, .f32⟩
  | .local _ .vmem, ⟨44, _⟩ => ⟨S2000x200, .f32⟩
  | .local _ .vmem, ⟨45, _⟩ => ⟨S1x200, .f32⟩
  | .local _ .vmem, ⟨46, _⟩ => ⟨S1x200, .f32⟩
  | .local _ .vmem, ⟨47, _⟩ => ⟨S2000x200, .f32⟩
  | .local _ .vmem, ⟨48, _⟩ => ⟨S2000x200, .f32⟩
  | .local _ .vmem, ⟨49, _⟩ => ⟨S401x200, .f32⟩
  | .local _ .vmem, ⟨50, _⟩ => ⟨S200x200, .f32⟩
  | .local _ .vmem, ⟨51, _⟩ => ⟨S401x200, .f32⟩
  | .local _ .vmem, ⟨52, _⟩ => ⟨S2000x200, .f32⟩
  | .local _ .vmem, ⟨53, _⟩ => ⟨S2000x200, .f32⟩
  | .local _ .vmem, ⟨54, _⟩ => ⟨S2000x200, .f32⟩
  | .local _ .vmem, ⟨55, _⟩ => ⟨S2000x200, .f32⟩
  | .local _ .vmem, ⟨56, _⟩ => ⟨S2000x200, .f32⟩
  | .local _ .vmem, ⟨57, _⟩ => ⟨S2000x200, .f32⟩
  | .local _ .vmem, ⟨58, _⟩ => ⟨S2000x200, .f32⟩
  | .local _ .vmem, ⟨59, _⟩ => ⟨S2000x200, .f32⟩
  | .local _ .vmem, ⟨60, _⟩ => ⟨S4000x200, .f32⟩
  | .local _ .vmem, ⟨61, _⟩ => ⟨S4000x200, .f32⟩
  | .local _ .vmem, ⟨62, _⟩ => ⟨S4000x1, .f32⟩
  | .local _ .vmem, ⟨63, _⟩ => ⟨S4000x1, .f32⟩
  | .local _ .vmem, ⟨64, _⟩ => ⟨S200x200, .f32⟩
  | .local _ .vmem, ⟨65, _⟩ => ⟨S4000x200, .f32⟩
  | .local _ .vmem, ⟨66, _⟩ => ⟨S4000x200, .f32⟩
  | .local _ .vmem, ⟨67, _⟩ => ⟨S4000x200, .f32⟩
  | .local _ .vmem, ⟨68, _⟩ => ⟨S4000x200, .f32⟩
  | .local _ .vmem, ⟨69, _⟩ => ⟨S4000x1, .f32⟩
  | .local _ .vmem, ⟨70, _⟩ => ⟨S4000x1, .f32⟩
  | .local _ .vmem, ⟨71, _⟩ => ⟨S200x200, .f32⟩
  | .local _ .vmem, ⟨72, _⟩ => ⟨S4000x200, .f32⟩
  | .local _ .vmem, ⟨73, _⟩ => ⟨S4000x200, .f32⟩
  | .local _ .vmem, ⟨74, _⟩ => ⟨S2000x200, .f32⟩
  | .local _ .vmem, ⟨75, _⟩ => ⟨S2000x200, .f32⟩
  | .local _ .vmem, ⟨76, _⟩ => ⟨S1x200, .f32⟩
  | .local _ .vmem, ⟨77, _⟩ => ⟨S200x200, .f32⟩
  | .local _ .vmem, ⟨78, _⟩ => ⟨S2000x200, .f32⟩
  | .local _ .vmem, ⟨79, _⟩ => ⟨S2000x200, .f32⟩
  | .local _ .vmem, ⟨80, _⟩ => ⟨S1x200, .f32⟩
  | .local _ .vmem, ⟨81, _⟩ => ⟨S2000x200, .f32⟩
  | .local _ .vmem, ⟨82, _⟩ => ⟨S2000x200, .f32⟩
  | .local _ .vmem, ⟨83, _⟩ => ⟨S1x200, .f32⟩
  | .local _ .vmem, ⟨84, _⟩ => ⟨S1x200, .f32⟩
  | .local _ .vmem, ⟨85, _⟩ => ⟨S2000x200, .f32⟩
  | .local _ .vmem, ⟨86, _⟩ => ⟨S2000x200, .f32⟩
  | .local _ .vmem, ⟨87, _⟩ => ⟨S1x200, .f32⟩
  | .local _ .vmem, ⟨88, _⟩ => ⟨S1x200, .f32⟩
  | .local _ .vmem, ⟨89, _⟩ => ⟨S2000x200, .f32⟩
  | .local _ .vmem, ⟨90, _⟩ => ⟨S2000x200, .f32⟩
  | .local _ .vmem, ⟨91, _⟩ => ⟨S401x200, .f32⟩
  | .local _ .vmem, ⟨92, _⟩ => ⟨S200x200, .f32⟩
  | .local _ .vmem, ⟨93, _⟩ => ⟨S401x200, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_call0_v0 : Ref sig .tc := ⟨.hbm, 53, rfl⟩
abbrev main_call0_v1 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_7 : Ref sig .tc := ⟨.hbm, 65, rfl⟩
abbrev main_v32 : Ref sig .tc := ⟨.hbm, 66, rfl⟩
abbrev main_v33 : Ref sig .tc := ⟨.hbm, 67, rfl⟩
abbrev main_c_8 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_c_10 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_c_12 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_13 : Ref sig .tc := ⟨.hbm, 96, rfl⟩
abbrev main_v57 : Ref sig .tc := ⟨.hbm, 97, rfl⟩
abbrev main_c_14 : Ref sig .tc := ⟨.hbm, 98, rfl⟩
abbrev main_v58 : Ref sig .tc := ⟨.hbm, 99, rfl⟩
abbrev main_v59 : Ref sig .tc := ⟨.hbm, 100, rfl⟩
abbrev main_c_15 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_c_18 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_19 : Ref sig .tc := ⟨.hbm, 123, rfl⟩
abbrev main_v78 : Ref sig .tc := ⟨.hbm, 124, rfl⟩
abbrev main_v79 : Ref sig .tc := ⟨.hbm, 125, rfl⟩
abbrev main_cst_20 : Ref sig .tc := ⟨.hbm, 126, rfl⟩
abbrev main_v80 : Ref sig .tc := ⟨.hbm, 127, rfl⟩
abbrev main_v81 : Ref sig .tc := ⟨.hbm, 128, rfl⟩
abbrev main_cst_21 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_22 : Ref sig .tc := ⟨.hbm, 133, rfl⟩
abbrev main_call1_v0 : Ref sig .tc := ⟨.hbm, 134, rfl⟩
abbrev main_call1_v1 : Ref sig .tc := ⟨.hbm, 135, rfl⟩
abbrev main_v85 : Ref sig .tc := ⟨.hbm, 136, rfl⟩
abbrev main_c_23 : Ref sig .tc := ⟨.hbm, 137, rfl⟩
abbrev main_v86 : Ref sig .tc := ⟨.hbm, 138, rfl⟩
abbrev main_v87 : Ref sig .tc := ⟨.hbm, 139, rfl⟩
abbrev main_c_24 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_25 : Ref sig .tc := ⟨.hbm, 146, rfl⟩
abbrev main_v93 : Ref sig .tc := ⟨.hbm, 147, rfl⟩
abbrev main_v94 : Ref sig .tc := ⟨.hbm, 148, rfl⟩
abbrev main_c_26 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_c_27 : Ref sig .tc := ⟨.hbm, 156, rfl⟩
abbrev main_v101 : Ref sig .tc := ⟨.hbm, 157, rfl⟩
abbrev main_v102 : Ref sig .tc := ⟨.hbm, 158, rfl⟩
abbrev main_c_28 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_c_29 : Ref sig .tc := ⟨.hbm, 165, rfl⟩
abbrev main_v108 : Ref sig .tc := ⟨.hbm, 166, rfl⟩
abbrev main_v109 : Ref sig .tc := ⟨.hbm, 167, rfl⟩
abbrev main_c_30 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_31 : Ref sig .tc := ⟨.hbm, 177, rfl⟩
abbrev main_v118 : Ref sig .tc := ⟨.hbm, 178, rfl⟩
abbrev main_c_32 : Ref sig .tc := ⟨.hbm, 179, rfl⟩
abbrev main_v119 : Ref sig .tc := ⟨.hbm, 180, rfl⟩
abbrev main_v120 : Ref sig .tc := ⟨.hbm, 181, rfl⟩
abbrev main_c_33 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128_0 : Ref sig .tc := ⟨.hbm, 190, rfl⟩
abbrev main_v128_1 : Ref sig .tc := ⟨.hbm, 191, rfl⟩
abbrev main_v128_2 : Ref sig .tc := ⟨.hbm, 192, rfl⟩
abbrev main_cst_34 : Ref sig .tc := ⟨.hbm, 193, rfl⟩
abbrev main_v129 : Ref sig .tc := ⟨.hbm, 194, rfl⟩
abbrev main_v130 : Ref sig .tc := ⟨.hbm, 195, rfl⟩
abbrev main_cst_35 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_36 : Ref sig .tc := ⟨.hbm, 212, rfl⟩
abbrev main_v146 : Ref sig .tc := ⟨.hbm, 213, rfl⟩
abbrev main_c_37 : Ref sig .tc := ⟨.hbm, 214, rfl⟩
abbrev main_v147 : Ref sig .tc := ⟨.hbm, 215, rfl⟩
abbrev main_v148 : Ref sig .tc := ⟨.hbm, 216, rfl⟩
abbrev main_c_38 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_cst_39 : Ref sig .tc := ⟨.hbm, 222, rfl⟩
abbrev main_v153 : Ref sig .tc := ⟨.hbm, 223, rfl⟩
abbrev main_v154 : Ref sig .tc := ⟨.hbm, 224, rfl⟩
abbrev main_cst_40 : Ref sig .tc := ⟨.hbm, 225, rfl⟩
abbrev main_v155 : Ref sig .tc := ⟨.hbm, 226, rfl⟩
abbrev main_v156 : Ref sig .tc := ⟨.hbm, 227, rfl⟩
abbrev main_cst_41 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_42 : Ref sig .tc := ⟨.hbm, 232, rfl⟩
abbrev main_call2_v0 : Ref sig .tc := ⟨.hbm, 233, rfl⟩
abbrev main_call2_v1 : Ref sig .tc := ⟨.hbm, 234, rfl⟩
abbrev main_v160 : Ref sig .tc := ⟨.hbm, 235, rfl⟩
abbrev main_c_43 : Ref sig .tc := ⟨.hbm, 236, rfl⟩
abbrev main_v161 : Ref sig .tc := ⟨.hbm, 237, rfl⟩
abbrev main_v162 : Ref sig .tc := ⟨.hbm, 238, rfl⟩
abbrev main_c_44 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_c_45 : Ref sig .tc := ⟨.hbm, 245, rfl⟩
abbrev main_v168 : Ref sig .tc := ⟨.hbm, 246, rfl⟩
abbrev main_v169 : Ref sig .tc := ⟨.hbm, 247, rfl⟩
abbrev main_c_46 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_c_47 : Ref sig .tc := ⟨.hbm, 255, rfl⟩
abbrev main_v176 : Ref sig .tc := ⟨.hbm, 256, rfl⟩
abbrev main_v177 : Ref sig .tc := ⟨.hbm, 257, rfl⟩
abbrev main_c_48 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_c_49 : Ref sig .tc := ⟨.hbm, 264, rfl⟩
abbrev main_v183 : Ref sig .tc := ⟨.hbm, 265, rfl⟩
abbrev main_v184 : Ref sig .tc := ⟨.hbm, 266, rfl⟩
abbrev main_c_50 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_cst_51 : Ref sig .tc := ⟨.hbm, 276, rfl⟩
abbrev main_v193 : Ref sig .tc := ⟨.hbm, 277, rfl⟩
abbrev main_c_52 : Ref sig .tc := ⟨.hbm, 278, rfl⟩
abbrev main_v194 : Ref sig .tc := ⟨.hbm, 279, rfl⟩
abbrev main_v195 : Ref sig .tc := ⟨.hbm, 280, rfl⟩
abbrev main_c_53 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_cst_54 : Ref sig .tc := ⟨.hbm, 293, rfl⟩
abbrev main_v207 : Ref sig .tc := ⟨.hbm, 294, rfl⟩
abbrev main_c_55 : Ref sig .tc := ⟨.hbm, 295, rfl⟩
abbrev main_v208 : Ref sig .tc := ⟨.hbm, 296, rfl⟩
abbrev main_v209 : Ref sig .tc := ⟨.hbm, 297, rfl⟩
abbrev main_c_56 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_cst_57 : Ref sig .tc := ⟨.hbm, 303, rfl⟩
abbrev main_v214 : Ref sig .tc := ⟨.hbm, 304, rfl⟩
abbrev main_v215 : Ref sig .tc := ⟨.hbm, 305, rfl⟩
abbrev main_cst_58 : Ref sig .tc := ⟨.hbm, 306, rfl⟩
abbrev main_v216 : Ref sig .tc := ⟨.hbm, 307, rfl⟩
abbrev main_v217 : Ref sig .tc := ⟨.hbm, 308, rfl⟩
abbrev main_cst_59 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_cst_60 : Ref sig .tc := ⟨.hbm, 313, rfl⟩
abbrev main_call3_v0 : Ref sig .tc := ⟨.hbm, 314, rfl⟩
abbrev main_call3_v1 : Ref sig .tc := ⟨.hbm, 315, rfl⟩
abbrev main_v221 : Ref sig .tc := ⟨.hbm, 316, rfl⟩
abbrev main_c_61 : Ref sig .tc := ⟨.hbm, 317, rfl⟩
abbrev main_v222 : Ref sig .tc := ⟨.hbm, 318, rfl⟩
abbrev main_v223 : Ref sig .tc := ⟨.hbm, 319, rfl⟩
abbrev main_c_62 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_c_63 : Ref sig .tc := ⟨.hbm, 326, rfl⟩
abbrev main_v229 : Ref sig .tc := ⟨.hbm, 327, rfl⟩
abbrev main_v230 : Ref sig .tc := ⟨.hbm, 328, rfl⟩
abbrev main_c_64 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_c_65 : Ref sig .tc := ⟨.hbm, 336, rfl⟩
abbrev main_v237 : Ref sig .tc := ⟨.hbm, 337, rfl⟩
abbrev main_v238 : Ref sig .tc := ⟨.hbm, 338, rfl⟩
abbrev main_c_66 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_c_67 : Ref sig .tc := ⟨.hbm, 345, rfl⟩
abbrev main_v244 : Ref sig .tc := ⟨.hbm, 346, rfl⟩
abbrev main_v245 : Ref sig .tc := ⟨.hbm, 347, rfl⟩
abbrev main_c_68 : Ref sig .tc := ⟨.hbm, 348, rfl⟩
abbrev main_v246 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_cst_69 : Ref sig .tc := ⟨.hbm, 357, rfl⟩
abbrev main_v254 : Ref sig .tc := ⟨.hbm, 358, rfl⟩
abbrev main_c_70 : Ref sig .tc := ⟨.hbm, 359, rfl⟩
abbrev main_v255 : Ref sig .tc := ⟨.hbm, 360, rfl⟩
abbrev main_v256 : Ref sig .tc := ⟨.hbm, 361, rfl⟩
abbrev main_c_71 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_v264_0 : Ref sig .tc := ⟨.hbm, 370, rfl⟩
abbrev main_v264_1 : Ref sig .tc := ⟨.hbm, 371, rfl⟩
abbrev main_v264_2 : Ref sig .tc := ⟨.hbm, 372, rfl⟩
abbrev main_cst_72 : Ref sig .tc := ⟨.hbm, 373, rfl⟩
abbrev main_v265 : Ref sig .tc := ⟨.hbm, 374, rfl⟩
abbrev main_v266 : Ref sig .tc := ⟨.hbm, 375, rfl⟩
abbrev main_cst_73 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_c_74 : Ref sig .tc := ⟨.hbm, 384, rfl⟩
abbrev main_v274 : Ref sig .tc := ⟨.hbm, 385, rfl⟩
abbrev main_v275 : Ref sig .tc := ⟨.hbm, 386, rfl⟩
abbrev main_c_75 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_c_76 : Ref sig .tc := ⟨.hbm, 393, rfl⟩
abbrev main_v281 : Ref sig .tc := ⟨.hbm, 394, rfl⟩
abbrev main_v282 : Ref sig .tc := ⟨.hbm, 395, rfl⟩
abbrev main_c_77 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg5_1 : Ref sig .tc := ⟨.vmem, 40, rfl⟩
abbrev cc5_stg6_0 : Ref sig .tc := ⟨.vmem, 41, rfl⟩
abbrev cc5_stg7_0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg1_0 : Ref sig .tc := ⟨.vmem, 50, rfl⟩
abbrev cc7_stg2_0 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg3_1 : Ref sig .tc := ⟨.vmem, 66, rfl⟩
abbrev cc10_stg0_0 : Ref sig .tc := ⟨.vmem, 67, rfl⟩
abbrev cc10_stg0_1 : Ref sig .tc := ⟨.vmem, 68, rfl⟩
abbrev cc10_stg1_0 : Ref sig .tc := ⟨.vmem, 69, rfl⟩
abbrev cc10_stg1_1 : Ref sig .tc := ⟨.vmem, 70, rfl⟩
abbrev cc10_stg2_0 : Ref sig .tc := ⟨.vmem, 71, rfl⟩
abbrev cc10_stg3_0 : Ref sig .tc := ⟨.vmem, 72, rfl⟩
abbrev cc10_stg3_1 : Ref sig .tc := ⟨.vmem, 73, rfl⟩
abbrev cc11_stg0_0 : Ref sig .tc := ⟨.vmem, 74, rfl⟩
abbrev cc11_stg0_1 : Ref sig .tc := ⟨.vmem, 75, rfl⟩
abbrev cc11_stg1_0 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg3_1 : Ref sig .tc := ⟨.vmem, 79, rfl⟩
abbrev cc11_stg4_0 : Ref sig .tc := ⟨.vmem, 80, rfl⟩
abbrev cc11_stg5_0 : Ref sig .tc := ⟨.vmem, 81, rfl⟩
abbrev cc11_stg5_1 : Ref sig .tc := ⟨.vmem, 82, rfl⟩
abbrev cc11_stg6_0 : Ref sig .tc := ⟨.vmem, 83, rfl⟩
abbrev cc11_stg7_0 : Ref sig .tc := ⟨.vmem, 84, rfl⟩
abbrev cc12_stg0_0 : Ref sig .tc := ⟨.vmem, 85, rfl⟩
abbrev cc12_stg0_1 : Ref sig .tc := ⟨.vmem, 86, rfl⟩
abbrev cc12_stg1_0 : Ref sig .tc := ⟨.vmem, 87, rfl⟩
abbrev cc12_stg2_0 : Ref sig .tc := ⟨.vmem, 88, rfl⟩
abbrev cc12_stg3_0 : Ref sig .tc := ⟨.vmem, 89, rfl⟩
abbrev cc12_stg3_1 : Ref sig .tc := ⟨.vmem, 90, rfl⟩
abbrev cc13_stg0_0 : Ref sig .tc := ⟨.vmem, 91, rfl⟩
abbrev cc13_stg1_0 : Ref sig .tc := ⟨.vmem, 92, rfl⟩
abbrev cc13_stg2_0 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc5_sem4_0 : DmaSem sig := 38
abbrev cc5_sem5_0 : DmaSem sig := 39
abbrev cc5_sem5_1 : DmaSem sig := 40
abbrev cc5_sem6_0 : DmaSem sig := 41
abbrev cc5_sem7_0 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem1_0 : DmaSem sig := 50
abbrev cc7_sem2_0 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem3_0 : DmaSem sig := 65
abbrev cc9_sem3_1 : DmaSem sig := 66
abbrev cc10_sem0_0 : DmaSem sig := 67
abbrev cc10_sem0_1 : DmaSem sig := 68
abbrev cc10_sem1_0 : DmaSem sig := 69
abbrev cc10_sem1_1 : DmaSem sig := 70
abbrev cc10_sem2_0 : DmaSem sig := 71
abbrev cc10_sem3_0 : DmaSem sig := 72
abbrev cc10_sem3_1 : DmaSem sig := 73
abbrev cc11_sem0_0 : DmaSem sig := 74
abbrev cc11_sem0_1 : DmaSem sig := 75
abbrev cc11_sem1_0 : DmaSem sig := 76
abbrev cc11_sem2_0 : DmaSem sig := 77
abbrev cc11_sem3_0 : DmaSem sig := 78
abbrev cc11_sem3_1 : DmaSem sig := 79
abbrev cc11_sem4_0 : DmaSem sig := 80
abbrev cc11_sem5_0 : DmaSem sig := 81
abbrev cc11_sem5_1 : DmaSem sig := 82
abbrev cc11_sem6_0 : DmaSem sig := 83
abbrev cc11_sem7_0 : DmaSem sig := 84
abbrev cc12_sem0_0 : DmaSem sig := 85
abbrev cc12_sem0_1 : DmaSem sig := 86
abbrev cc12_sem1_0 : DmaSem sig := 87
abbrev cc12_sem2_0 : DmaSem sig := 88
abbrev cc12_sem3_0 : DmaSem sig := 89
abbrev cc12_sem3_1 : DmaSem sig := 90
abbrev cc13_sem0_0 : DmaSem sig := 91
abbrev cc13_sem1_0 : DmaSem sig := 92
abbrev cc13_sem2_0 : DmaSem sig := 93

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S200x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S200x200 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x200 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x200 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x200 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S200x200 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x200 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x200 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x200 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x200 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x200 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x200 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x200 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x200 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x200 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S401x200 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S200x200 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S401x200 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x200 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x200 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x200 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x200 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x200 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S200x200 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x200 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x200 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S200x200 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4000x200 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S2000x200 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x200 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S200x200 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x200 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S1x200 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x200 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x200 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x200 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x200 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x200 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x200 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x200 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 1 → Memref sig .tc .vmem S401x200 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true]

abbrev stage13_1 : Fin 1 → Memref sig .tc .vmem S200x200 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S401x200 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true]

class Facts₀ : Prop where
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x200_S768x200_0_0 : ∀ a, (![0, 0] : Fin 2 → Nat) a + S768x200.size a ≤ S768x200.size a
  h_S768x200 : 0 < S768x200.numel
  inb_S2000x200_S2000x200_0_0 : ∀ a, (![0, 0] : Fin 2 → Nat) a + S2000x200.size a ≤ S2000x200.size a
  h_S2000x200 : 0 < S2000x200.numel
  concatenates_S400x200_S1x200_S401x200_d0 : Shape.Concatenates [S400x200, S1x200] S401x200 0
  shapeCasts_S2000x200_S2000x200 : S2000x200.ShapeCasts S2000x200
  slices_S2x400000_S2x200000_0_0 : S2x400000.Slices ![0, 0] S2x200000
  slices_S400000_S200000_0 : S400000.Slices ![0] S200000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S100000 : S_.BroadcastsInDim S100000 (![] : Fin 0 → Fin S100000.rank)
  bcast_S_S200000 : S_.BroadcastsInDim S200000 (![] : Fin 0 → Fin S200000.rank)
  bcast_S200000_S200000x1_0 : S200000.BroadcastsInDim S200000x1 (![0] : Fin 1 → Fin S200000x1.rank)
  inb_S4000x200_S4000x200_0_0 : ∀ a, (![0, 0] : Fin 2 → Nat) a + S4000x200.size a ≤ S4000x200.size a
  h_S4000x200 : 0 < S4000x200.numel
  shapeCasts_S4000x200_S4000x200 : S4000x200.ShapeCasts S4000x200
  inb_S200x200_S200x200_0_0 : ∀ a, (![0, 0] : Fin 2 → Nat) a + S200x200.size a ≤ S200x200.size a
  h_S200x200 : 0 < S200x200.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x200 : S4000x1.Broadcasts S4000x200
  bcast_S_S100000x200 : S_.BroadcastsInDim S100000x200 (![] : Fin 0 → Fin S100000x200.rank)
  slices_S2x400000_S2x200000_0_200000 : S2x400000.Slices ![0, 200000] S2x200000
  slices_S400000_S200000_200000 : S400000.Slices ![200000] S200000
  shapeCasts_S200_S1x200 : S200.ShapeCasts S1x200
  inb_S1x200_S1x200_0_0 : ∀ a, (![0, 0] : Fin 2 → Nat) a + S1x200.size a ≤ S1x200.size a
  h_S1x200 : 0 < S1x200.numel
  broadcasts_S1x200_S2000x200 : S1x200.Broadcasts S2000x200
  shapeCasts_S1x200_S1x200 : S1x200.ShapeCasts S1x200
  reduces_S2000x200_S200 : S2000x200.Reduces [0] S200
  bcast_S_S1x200 : S_.BroadcastsInDim S1x200 (![] : Fin 0 → Fin S1x200.rank)
  inb_S401x200_S401x200_0_0 : ∀ a, (![0, 0] : Fin 2 → Nat) a + S401x200.size a ≤ S401x200.size a
  h_S401x200 : 0 < S401x200.numel
  shapeCasts_S401x200_S401x200 : S401x200.ShapeCasts S401x200
  slices_S401x200_S400x200_0_0 : S401x200.Slices ![0, 0] S400x200
  bcast_S_S2048 : S_.BroadcastsInDim S2048 (![] : Fin 0 → Fin S2048.rank)
  bcast_S2048_S2048x1_0 : S2048.BroadcastsInDim S2048x1 (![0] : Fin 1 → Fin S2048x1.rank)
  dot_S2000x768_S768x200_S2000x200_1_0_0_1_n_n_wf : DotDims.WF S2000x768 S768x200 S2000x200 [1] [0] [0] [1] [] []
  scatter_S100000_S200000x1_S200000_n_0_0_1_wf : ScatterDims.WF S100000 S200000x1 S200000 [] [0] [0] 1
  gather_S100000_S200000x1_S200000_n_0_n_n_0_1_1_wf : GatherDims.WF S100000 S200000x1 S200000 [] [0] [] [0] [] 1 ![1]
  gather_S100000x200_S200000x1_S200000x200_1_0_n_n_0_1_1200_wf : GatherDims.WF S100000x200 S200000x1 S200000x200 [1] [0] [] [0] [] 1 ![1, 200]
  gather_S401x200_S200000x1_S200000x200_1_0_n_n_0_1_1200_wf : GatherDims.WF S401x200 S200000x1 S200000x200 [1] [0] [] [0] [] 1 ![1, 200]
  dot_S4000x200_S200x200_S4000x200_1_0_0_1_n_n_wf : DotDims.WF S4000x200 S200x200 S4000x200 [1] [0] [0] [1] [] []
  scatter_S100000x200_S200000x1_S200000x200_1_0_0_1_wf : ScatterDims.WF S100000x200 S200000x1 S200000x200 [1] [0] [0] 1
  dot_S2000x200_S200x200_S2000x200_1_0_0_1_n_n_wf : DotDims.WF S2000x200 S200x200 S2000x200 [1] [0] [0] [1] [] []
  dot_S401x200_S200x200_S401x200_1_0_0_1_n_n_wf : DotDims.WF S401x200 S200x200 S401x200 [1] [0] [0] [1] [] []
  gather_S100000x200_S2048x1_S2048x200_1_0_n_n_0_1_1200_wf : GatherDims.WF S100000x200 S2048x1 S2048x200 [1] [0] [] [0] [] 1 ![1, 200]
  gather_S400x200_S2048x1_S2048x200_1_0_n_n_0_1_1200_wf : GatherDims.WF S400x200 S2048x1 S2048x200 [1] [0] [] [0] [] 1 ![1, 200]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x200.size a ≤ S768x200.size a
  hwx0_1 : ∀ i : grid0.Coords, EltTy.bits .f32 = 32 ∨ (Rect.block (s := S768x200) S768x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x200.size a ≤ S100000x200.size a
  hwx0_2 : ∀ i : grid0.Coords, EltTy.bits .f32 = 32 ∨ (Rect.block (s := S100000x200) S2000x200.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S100000x768.size a
  hwx1_0 : ∀ i : grid1.Coords, EltTy.bits .f32 = 32 ∨ (Rect.block (s := S100000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x200.size a ≤ S768x200.size a
  hwx1_1 : ∀ i : grid1.Coords, EltTy.bits .f32 = 32 ∨ (Rect.block (s := S768x200) S768x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x200.size a ≤ S100000x200.size a
  hwx1_2 : ∀ i : grid1.Coords, EltTy.bits .f32 = 32 ∨ (Rect.block (s := S100000x200) S2000x200.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x200.size a ≤ S100000x200.size a
  hwx2_0 : ∀ i : grid2.Coords, EltTy.bits .f32 = 32 ∨ (Rect.block (s := S100000x200) S2000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x200.size a ≤ S100000x200.size a
  hwx2_1 : ∀ i : grid2.Coords, EltTy.bits .f32 = 32 ∨ (Rect.block (s := S100000x200) S2000x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x200.size a ≤ S100000x200.size a
  hwx2_2 : ∀ i : grid2.Coords, EltTy.bits .f32 = 32 ∨ (Rect.block (s := S100000x200) S2000x200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x200.size a ≤ S100000x200.size a
  hwx2_3 : ∀ i : grid2.Coords, EltTy.bits .f32 = 32 ∨ (Rect.block (s := S100000x200) S2000x200.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x200.size a ≤ S200000x200.size a
  hwx3_0 : ∀ i : grid3.Coords, EltTy.bits .f32 = 32 ∨ (Rect.block (s := S200000x200) S4000x200.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S200000x1.size a
  hwx3_1 : ∀ i : grid3.Coords, EltTy.bits .f32 = 32 ∨ (Rect.block (s := S200000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S200x200.size a ≤ S200x200.size a
  hwx3_2 : ∀ i : grid3.Coords, EltTy.bits .f32 = 32 ∨ (Rect.block (s := S200x200) S200x200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x200.size a ≤ S200000x200.size a
  hwx3_3 : ∀ i : grid3.Coords, EltTy.bits .f32 = 32 ∨ (Rect.block (s := S200000x200) S4000x200.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x200.size a ≤ S200000x200.size a
  hwx4_0 : ∀ i : grid4.Coords, EltTy.bits .f32 = 32 ∨ (Rect.block (s := S200000x200) S4000x200.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .f32 = 32 ∨ (Rect.block (s := S200000x1) S4000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S200x200.size a ≤ S200x200.size a
  hwx4_2 : ∀ i : grid4.Coords, EltTy.bits .f32 = 32 ∨ (Rect.block (s := S200x200) S200x200.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x200.size a ≤ S200000x200.size a
  hwx4_3 : ∀ i : grid4.Coords, EltTy.bits .f32 = 32 ∨ (Rect.block (s := S200000x200) S4000x200.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x200.size a ≤ S100000x200.size a
  hwx5_0 : ∀ i : grid5.Coords, EltTy.bits .f32 = 32 ∨ (Rect.block (s := S100000x200) S2000x200.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x200.size a ≤ S1x200.size a
  hwx5_1 : ∀ i : grid5.Coords, EltTy.bits .f32 = 32 ∨ (Rect.block (s := S1x200) S1x200.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S200x200.size a ≤ S200x200.size a
  hwx5_2 : ∀ i : grid5.Coords, EltTy.bits .f32 = 32 ∨ (Rect.block (s := S200x200) S200x200.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x200.size a ≤ S100000x200.size a
  hwx5_3 : ∀ i : grid5.Coords, EltTy.bits .f32 = 32 ∨ (Rect.block (s := S100000x200) S2000x200.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x200.size a ≤ S1x200.size a
  hwx5_4 : ∀ i : grid5.Coords, EltTy.bits .f32 = 32 ∨ (Rect.block (s := S1x200) S1x200.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x200.size a ≤ S100000x200.size a
  hwx5_5 : ∀ i : grid5.Coords, EltTy.bits .f32 = 32 ∨ (Rect.block (s := S100000x200) S2000x200.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x200.size a ≤ S1x200.size a
  hwx5_6 : ∀ i : grid5.Coords, EltTy.bits .f32 = 32 ∨ (Rect.block (s := S1x200) S1x200.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x200.size a ≤ S1x200.size a
  hwx5_7 : ∀ i : grid5.Coords, EltTy.bits .f32 = 32 ∨ (Rect.block (s := S1x200) S1x200.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x200.size a ≤ S100000x200.size a
  hwx6_0 : ∀ i : grid6.Coords, EltTy.bits .f32 = 32 ∨ (Rect.block (s := S100000x200) S2000x200.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x200.size a ≤ S1x200.size a
  hwx6_1 : ∀ i : grid6.Coords, EltTy.bits .f32 = 32 ∨ (Rect.block (s := S1x200) S1x200.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x200.size a ≤ S1x200.size a
  hwx6_2 : ∀ i : grid6.Coords, EltTy.bits .f32 = 32 ∨ (Rect.block (s := S1x200) S1x200.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x200.size a ≤ S100000x200.size a
  hwx6_3 : ∀ i : grid6.Coords, EltTy.bits .f32 = 32 ∨ (Rect.block (s := S100000x200) S2000x200.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S401x200.size a ≤ S401x200.size a
  hwx7_0 : ∀ i : grid7.Coords, EltTy.bits .f32 = 32 ∨ (Rect.block (s := S401x200) S401x200.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S200x200.size a ≤ S200x200.size a
  hwx7_1 : ∀ i : grid7.Coords, EltTy.bits .f32 = 32 ∨ (Rect.block (s := S200x200) S200x200.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S401x200.size a ≤ S401x200.size a
  hwx7_2 : ∀ i : grid7.Coords, EltTy.bits .f32 = 32 ∨ (Rect.block (s := S401x200) S401x200.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x200.size a ≤ S100000x200.size a
  hwx8_0 : ∀ i : grid8.Coords, EltTy.bits .f32 = 32 ∨ (Rect.block (s := S100000x200) S2000x200.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x200.size a ≤ S100000x200.size a
  hwx8_1 : ∀ i : grid8.Coords, EltTy.bits .f32 = 32 ∨ (Rect.block (s := S100000x200) S2000x200.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x200.size a ≤ S100000x200.size a
  hwx8_2 : ∀ i : grid8.Coords, EltTy.bits .f32 = 32 ∨ (Rect.block (s := S100000x200) S2000x200.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x200.size a ≤ S100000x200.size a
  hwx8_3 : ∀ i : grid8.Coords, EltTy.bits .f32 = 32 ∨ (Rect.block (s := S100000x200) S2000x200.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x200.size a ≤ S200000x200.size a
  hwx9_0 : ∀ i : grid9.Coords, EltTy.bits .f32 = 32 ∨ (Rect.block (s := S200000x200) S4000x200.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x1.size a ≤ S200000x1.size a
  hwx9_1 : ∀ i : grid9.Coords, EltTy.bits .f32 = 32 ∨ (Rect.block (s := S200000x1) S4000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S200x200.size a ≤ S200x200.size a
  hwx9_2 : ∀ i : grid9.Coords, EltTy.bits .f32 = 32 ∨ (Rect.block (s := S200x200) S200x200.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x200.size a ≤ S200000x200.size a
  hwx9_3 : ∀ i : grid9.Coords, EltTy.bits .f32 = 32 ∨ (Rect.block (s := S200000x200) S4000x200.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x200.size a ≤ S200000x200.size a
  hwx10_0 : ∀ i : grid10.Coords, EltTy.bits .f32 = 32 ∨ (Rect.block (s := S200000x200) S4000x200.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x1.size a ≤ S200000x1.size a
  hwx10_1 : ∀ i : grid10.Coords, EltTy.bits .f32 = 32 ∨ (Rect.block (s := S200000x1) S4000x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S200x200.size a ≤ S200x200.size a
  hwx10_2 : ∀ i : grid10.Coords, EltTy.bits .f32 = 32 ∨ (Rect.block (s := S200x200) S200x200.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x200.size a ≤ S200000x200.size a
  hwx10_3 : ∀ i : grid10.Coords, EltTy.bits .f32 = 32 ∨ (Rect.block (s := S200000x200) S4000x200.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x200.size a ≤ S100000x200.size a
  hwx11_0 : ∀ i : grid11.Coords, EltTy.bits .f32 = 32 ∨ (Rect.block (s := S100000x200) S2000x200.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x200.size a ≤ S1x200.size a
  hwx11_1 : ∀ i : grid11.Coords, EltTy.bits .f32 = 32 ∨ (Rect.block (s := S1x200) S1x200.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S200x200.size a ≤ S200x200.size a
  hwx11_2 : ∀ i : grid11.Coords, EltTy.bits .f32 = 32 ∨ (Rect.block (s := S200x200) S200x200.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x200.size a ≤ S100000x200.size a
  hwx11_3 : ∀ i : grid11.Coords, EltTy.bits .f32 = 32 ∨ (Rect.block (s := S100000x200) S2000x200.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x200.size a ≤ S1x200.size a
  hwx11_4 : ∀ i : grid11.Coords, EltTy.bits .f32 = 32 ∨ (Rect.block (s := S1x200) S1x200.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x200.size a ≤ S100000x200.size a
  hwx11_5 : ∀ i : grid11.Coords, EltTy.bits .f32 = 32 ∨ (Rect.block (s := S100000x200) S2000x200.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x200.size a ≤ S1x200.size a
  hwx11_6 : ∀ i : grid11.Coords, EltTy.bits .f32 = 32 ∨ (Rect.block (s := S1x200) S1x200.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x200.size a ≤ S1x200.size a
  hwx11_7 : ∀ i : grid11.Coords, EltTy.bits .f32 = 32 ∨ (Rect.block (s := S1x200) S1x200.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x200.size a ≤ S100000x200.size a
  hwx12_0 : ∀ i : grid12.Coords, EltTy.bits .f32 = 32 ∨ (Rect.block (s := S100000x200) S2000x200.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x200.size a ≤ S1x200.size a
  hwx12_1 : ∀ i : grid12.Coords, EltTy.bits .f32 = 32 ∨ (Rect.block (s := S1x200) S1x200.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x200.size a ≤ S1x200.size a
  hwx12_2 : ∀ i : grid12.Coords, EltTy.bits .f32 = 32 ∨ (Rect.block (s := S1x200) S1x200.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x200.size a ≤ S100000x200.size a
  hwx12_3 : ∀ i : grid12.Coords, EltTy.bits .f32 = 32 ∨ (Rect.block (s := S100000x200) S2000x200.size (cc12_transform_3 i) (hinb12_3 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S401x200.size a ≤ S401x200.size a
  hwx13_0 : ∀ i : grid13.Coords, EltTy.bits .f32 = 32 ∨ (Rect.block (s := S401x200) S401x200.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S200x200.size a ≤ S200x200.size a
  hwx13_1 : ∀ i : grid13.Coords, EltTy.bits .f32 = 32 ∨ (Rect.block (s := S200x200) S200x200.size (cc13_transform_1 i) (hinb13_1 i)).WholeWords (EltTy.packing .f32)
  hstage13_2 : ∀ j, (stage13_2 j).IsWhole
  nbuf13_2 : grid13.bufCount reads13_2 false = 1
  hreads13_2 : ∀ i i' : grid13.Coords, (∀ a, reads13_2 a = true → i a = i' a) → cc13_transform_2 i = cc13_transform_2 i'
  hinb13_2 : ∀ (i : grid13.Coords) a, (cc13_transform_2 i a + 1) * S401x200.size a ≤ S401x200.size a
  hwx13_2 : ∀ i : grid13.Coords, EltTy.bits .f32 = 32 ∨ (Rect.block (s := S401x200) S401x200.size (cc13_transform_2 i) (hinb13_2 i)).WholeWords (EltTy.packing .f32)

variable [Facts₀]

def dot_S2000x768_S768x200_S2000x200_1_0_0_1_n_n : DotDims S2000x768 S768x200 S2000x200 where
  lhsContracting := [1]
  rhsContracting := [0]
  lhsNonContracting := [0]
  rhsNonContracting := [1]
  lhsBatch := []
  rhsBatch := []
  wf := dot_S2000x768_S768x200_S2000x200_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def gather_S100000x200_S200000x1_S200000x200_1_0_n_n_0_1_1200 : GatherDims S100000x200 S200000x1 S200000x200 where
  offsetDims := [1]
  collapsedSliceDims := [0]
  operandBatchingDims := []
  startIndicesBatchingDims := []
  startIndexMap := [0]
  indexVectorDim := 1
  sliceSizes := ![1, 200]
  wf := gather_S100000x200_S200000x1_S200000x200_1_0_n_n_0_1_1200_wf
def gather_S401x200_S200000x1_S200000x200_1_0_n_n_0_1_1200 : GatherDims S401x200 S200000x1 S200000x200 where
  offsetDims := [1]
  collapsedSliceDims := [0]
  operandBatchingDims := []
  startIndicesBatchingDims := []
  startIndexMap := [0]
  indexVectorDim := 1
  sliceSizes := ![1, 200]
  wf := gather_S401x200_S200000x1_S200000x200_1_0_n_n_0_1_1200_wf
def dot_S4000x200_S200x200_S4000x200_1_0_0_1_n_n : DotDims S4000x200 S200x200 S4000x200 where
  lhsContracting := [1]
  rhsContracting := [0]
  lhsNonContracting := [0]
  rhsNonContracting := [1]
  lhsBatch := []
  rhsBatch := []
  wf := dot_S4000x200_S200x200_S4000x200_1_0_0_1_n_n_wf
def scatter_S100000x200_S200000x1_S200000x200_1_0_0_1 : ScatterDims S100000x200 S200000x1 S200000x200 where
  updateWindowDims := [1]
  insertedWindowDims := [0]
  scatterDimsToOperandDims := [0]
  indexVectorDim := 1
  wf := scatter_S100000x200_S200000x1_S200000x200_1_0_0_1_wf
def dot_S2000x200_S200x200_S2000x200_1_0_0_1_n_n : DotDims S2000x200 S200x200 S2000x200 where
  lhsContracting := [1]
  rhsContracting := [0]
  lhsNonContracting := [0]
  rhsNonContracting := [1]
  lhsBatch := []
  rhsBatch := []
  wf := dot_S2000x200_S200x200_S2000x200_1_0_0_1_n_n_wf
def dot_S401x200_S200x200_S401x200_1_0_0_1_n_n : DotDims S401x200 S200x200 S401x200 where
  lhsContracting := [1]
  rhsContracting := [0]
  lhsNonContracting := [0]
  rhsNonContracting := [1]
  lhsBatch := []
  rhsBatch := []
  wf := dot_S401x200_S200x200_S401x200_1_0_0_1_n_n_wf
def gather_S100000x200_S2048x1_S2048x200_1_0_n_n_0_1_1200 : GatherDims S100000x200 S2048x1 S2048x200 where
  offsetDims := [1]
  collapsedSliceDims := [0]
  operandBatchingDims := []
  startIndicesBatchingDims := []
  startIndexMap := [0]
  indexVectorDim := 1
  sliceSizes := ![1, 200]
  wf := gather_S100000x200_S2048x1_S2048x200_1_0_n_n_0_1_1200_wf
def gather_S400x200_S2048x1_S2048x200_1_0_n_n_0_1_1200 : GatherDims S400x200 S2048x1 S2048x200 where
  offsetDims := [1]
  collapsedSliceDims := [0]
  operandBatchingDims := []
  startIndicesBatchingDims := []
  startIndexMap := [0]
  indexVectorDim := 1
  sliceSizes := ![1, 200]
  wf := gather_S400x200_S2048x1_S2048x200_1_0_n_n_0_1_1200_wf

abbrev win0_0 : Pipeline.Window sig grid0 :=
  Pipeline.Window.ofSpec (Memref.whole main_arg5) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S768x200.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg7) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S768x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S2000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2000x200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2000x200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S4000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S200x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S4000x200.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v115) S4000x200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v116) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S200x200.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v117) S4000x200.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v3) S2000x200.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S1x200.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S200x200.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S2000x200.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v127) S1x200.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v128_0) S2000x200.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v128_1) S1x200.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v128_2) S1x200.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v128_0) S2000x200.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v130) S1x200.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v134) S1x200.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v135) S2000x200.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v2) S401x200.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S200x200.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S401x200.size cc7_transform_2 reads7_2 true false 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v135) S2000x200.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v0) S2000x200.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v1) S2000x200.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v139) S2000x200.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v190) S4000x200.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v191) S4000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg16) S200x200.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v192) S4000x200.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v251) S4000x200.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v252) S4000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg17) S200x200.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v253) S4000x200.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v139) S2000x200.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg20) S1x200.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg18) S200x200.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v262) S2000x200.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v263) S1x200.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v264_0) S2000x200.size cc11_transform_5 reads11_5 true false 2 stage11_5 sem11_5
    hrank11 hreads11_5 hinb11_5 nbuf11_5 (Memref.isWhole_whole _) hwx11_5 hstage11_5

abbrev win11_6 : Pipeline.Window sig grid11 :=
  Pipeline.Window.ofSpec (Memref.whole main_v264_1) S1x200.size cc11_transform_6 reads11_6 true true 1 stage11_6 sem11_6
    hrank11 hreads11_6 hinb11_6 nbuf11_6 (Memref.isWhole_whole _) hwx11_6 hstage11_6

abbrev win11_7 : Pipeline.Window sig grid11 :=
  Pipeline.Window.ofSpec (Memref.whole main_v264_2) S1x200.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v264_0) S2000x200.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v266) S1x200.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v270) S1x200.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v271) S2000x200.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v138) S401x200.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_arg19) S200x200.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v272) S401x200.size cc13_transform_2 reads13_2 true false 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

class Facts : Prop extends Facts₀ where

variable [Facts]
-- ==== ReferenceIdeal.lean ====
abbrev S2048 : Shape := ⟨1, ![2048]⟩
abbrev S2x400000 : Shape := ⟨2, ![2, 400000]⟩
abbrev S400000 : Shape := ⟨1, ![400000]⟩
abbrev S100000x200 : Shape := ⟨2, ![100000, 200]⟩
abbrev S100000x768 : Shape := ⟨2, ![100000, 768]⟩
abbrev S768x200 : Shape := ⟨2, ![768, 200]⟩
abbrev S400x200 : Shape := ⟨2, ![400, 200]⟩
abbrev S200x200 : Shape := ⟨2, ![200, 200]⟩
abbrev S1x200 : Shape := ⟨2, ![1, 200]⟩
abbrev S200 : Shape := ⟨1, ![200]⟩
abbrev S401x200 : Shape := ⟨2, ![401, 200]⟩
abbrev S2x200000 : Shape := ⟨2, ![2, 200000]⟩
abbrev S200000 : Shape := ⟨1, ![200000]⟩
abbrev S1x200000 : Shape := ⟨2, ![1, 200000]⟩
abbrev S_ : Shape := ⟨0, ![]⟩
abbrev S100000 : Shape := ⟨1, ![100000]⟩
abbrev S200000x1 : Shape := ⟨2, ![200000, 1]⟩
abbrev S200000x200 : Shape := ⟨2, ![200000, 200]⟩
abbrev S2048x1 : Shape := ⟨2, ![2048, 1]⟩
abbrev S2048x200 : Shape := ⟨2, ![2048, 200]⟩

abbrev nBuf : Space → Nat
  | .hbm => 490
  | .vmem => 0
  | .smem => 0
  | _ => 0

abbrev hbmTy0_0 (i : Nat) : BufTy := match i % 128 with
  | 0 => ⟨S2048, .i32⟩
  | 1 => ⟨S2048, .i32⟩
  | 2 => ⟨S2x400000, .i32⟩
  | 3 => ⟨S400000, .i32⟩
  | 4 => ⟨S100000x200, .f32⟩
  | 5 => ⟨S100000x768, .f32⟩
  | 6 => ⟨S768x200, .f32⟩
  | 7 => ⟨S100000x768, .f32⟩
  | 8 => ⟨S768x200, .f32⟩
  | 9 => ⟨S400x200, .f32⟩
  | 10 => ⟨S200x200, .f32⟩
  | 11 => ⟨S200x200, .f32⟩
  | 12 => ⟨S200x200, .f32⟩
  | 13 => ⟨S200x200, .f32⟩
  | 14 => ⟨S1x200, .f32⟩
  | 15 => ⟨S200, .f32⟩
  | 16 => ⟨S200x200, .f32⟩
  | 17 => ⟨S200x200, .f32⟩
  | 18 => ⟨S200x200, .f32⟩
  | 19 => ⟨S200x200, .f32⟩
  | 20 => ⟨S1x200, .f32⟩
  | 21 => ⟨S200, .f32⟩
  | 22 => ⟨S100000x200, .f32⟩
  | 23 => ⟨S100000x200, .f32⟩
  | 24 => ⟨S401x200, .f32⟩
  | 25 => ⟨S100000x200, .f32⟩
  | 26 => ⟨S100000x200, .f32⟩
  | 27 => ⟨S2x200000, .i32⟩
  | 28 => ⟨S200000, .i32⟩
  | 29 => ⟨S1x200000, .i32⟩
  | 30 => ⟨S200000, .i32⟩
  | 31 => ⟨S1x200000, .i32⟩
  | 32 => ⟨S200000, .i32⟩
  | 33 => ⟨S_, .f32⟩
  | 34 => ⟨S100000, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S_, .f32⟩
  | 44 => ⟨S200000, .f32⟩
  | 45 => ⟨S100000, .f32⟩
  | 46 => ⟨S_, .f32⟩
  | 47 => ⟨S100000, .f32⟩
  | 48 => ⟨S100000, .i1⟩
  | 49 => ⟨S_, .f32⟩
  | 50 => ⟨S100000, .f32⟩
  | 51 => ⟨S100000, .f32⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000, .f32⟩
  | 66 => ⟨S_, .i32⟩
  | 67 => ⟨S200000, .i32⟩
  | 68 => ⟨S200000, .i1⟩
  | 69 => ⟨S_, .i32⟩
  | 70 => ⟨S200000, .i32⟩
  | 71 => ⟨S200000, .i32⟩
  | 72 => ⟨S200000, .i32⟩
  | 73 => ⟨S200000x1, .i32⟩
  | 74 => ⟨S200000, .f32⟩
  | 75 => ⟨S200000, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x200, .f32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x200, .f32⟩
  | 94 => ⟨S200000x200, .f32⟩
  | 95 => ⟨S200000x200, .f32⟩
  | 96 => ⟨S200000x1, .f32⟩
  | 97 => ⟨S200000x200, .f32⟩
  | 98 => ⟨S200000x200, .f32⟩
  | 99 => ⟨S_, .f32⟩
  | 100 => ⟨S100000x200, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S100000x200, .f32⟩
  | 110 => ⟨S2x200000, .i32⟩
  | 111 => ⟨S200000, .i32⟩
  | 112 => ⟨S1x200000, .i32⟩
  | 113 => ⟨S200000, .i32⟩
  | 114 => ⟨S1x200000, .i32⟩
  | 115 => ⟨S200000, .i32⟩
  | 116 => ⟨S_, .f32⟩
  | 117 => ⟨S100000, .f32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S_, .f32⟩
  | 127 => ⟨S200000, .f32⟩
  | _ => ⟨S2048, .i32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S_, .f32⟩
  | 5 => ⟨S100000, .f32⟩
  | 6 => ⟨S100000, .f32⟩
  | 7 => ⟨S100000, .f32⟩
  | 8 => ⟨S_, .f32⟩
  | 9 => ⟨S_, .f32⟩
  | 10 => ⟨S100000, .f32⟩
  | 11 => ⟨S100000, .f32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000, .f32⟩
  | 30 => ⟨S200000, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S200000x200, .f32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x200, .f32⟩
  | 49 => ⟨S200000x200, .f32⟩
  | 50 => ⟨S200000x200, .f32⟩
  | 51 => ⟨S200000x1, .f32⟩
  | 52 => ⟨S200000x200, .f32⟩
  | 53 => ⟨S200000x200, .f32⟩
  | 54 => ⟨S_, .f32⟩
  | 55 => ⟨S100000x200, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S100000x200, .f32⟩
  | 65 => ⟨S1x200, .f32⟩
  | 66 => ⟨S200, .f32⟩
  | 67 => ⟨S1x200, .f32⟩
  | 68 => ⟨S100000x200, .f32⟩
  | 69 => ⟨S100000x200, .f32⟩
  | 70 => ⟨S100000x200, .f32⟩
  | 71 => ⟨S100000x200, .f32⟩
  | 72 => ⟨S100000x200, .f32⟩
  | 73 => ⟨S_, .f32⟩
  | 74 => ⟨S100000x200, .f32⟩
  | 75 => ⟨S100000x200, .f32⟩
  | 76 => ⟨S1x200, .f32⟩
  | 77 => ⟨S100000x200, .f32⟩
  | 78 => ⟨S100000x200, .f32⟩
  | 79 => ⟨S_, .f32⟩
  | 80 => ⟨S200, .f32⟩
  | 81 => ⟨S_, .f32⟩
  | 82 => ⟨S200, .f32⟩
  | 83 => ⟨S200, .f32⟩
  | 84 => ⟨S_, .i32⟩
  | 85 => ⟨S_, .f32⟩
  | 86 => ⟨S200, .f32⟩
  | 87 => ⟨S1x200, .f32⟩
  | 88 => ⟨S_, .f32⟩
  | 89 => ⟨S1x200, .f32⟩
  | 90 => ⟨S1x200, .f32⟩
  | 91 => ⟨S100000x200, .f32⟩
  | 92 => ⟨S100000x200, .f32⟩
  | 93 => ⟨S100000x200, .f32⟩
  | 94 => ⟨S_, .f32⟩
  | 95 => ⟨S_, .f32⟩
  | 96 => ⟨S_, .f32⟩
  | 97 => ⟨S_, .f32⟩
  | 98 => ⟨S200, .f32⟩
  | 99 => ⟨S200, .f32⟩
  | 100 => ⟨S200, .f32⟩
  | 101 => ⟨S_, .f32⟩
  | 102 => ⟨S_, .i1⟩
  | 103 => ⟨S_, .f32⟩
  | 104 => ⟨S_, .f32⟩
  | 105 => ⟨S200, .f32⟩
  | 106 => ⟨S200, .f32⟩
  | 107 => ⟨S1x200, .f32⟩
  | 108 => ⟨S100000x200, .f32⟩
  | 109 => ⟨S100000x200, .f32⟩
  | 110 => ⟨S_, .f32⟩
  | 111 => ⟨S200, .f32⟩
  | 112 => ⟨S200, .f32⟩
  | 113 => ⟨S200, .f32⟩
  | 114 => ⟨S1x200, .f32⟩
  | 115 => ⟨S100000x200, .f32⟩
  | 116 => ⟨S100000x200, .f32⟩
  | 117 => ⟨S100000x200, .f32⟩
  | 118 => ⟨S401x200, .f32⟩
  | 119 => ⟨S400x200, .f32⟩
  | 120 => ⟨S401x200, .f32⟩
  | 121 => ⟨S100000x200, .f32⟩
  | 122 => ⟨S100000x200, .f32⟩
  | 123 => ⟨S2x200000, .i32⟩
  | 124 => ⟨S200000, .i32⟩
  | 125 => ⟨S1x200000, .i32⟩
  | 126 => ⟨S200000, .i32⟩
  | 127 => ⟨S1x200000, .i32⟩
  | _ => ⟨S2048, .i32⟩

abbrev hbmTy0_2 (i : Nat) : BufTy := match i % 128 with
  | 0 => ⟨S200000, .i32⟩
  | 1 => ⟨S_, .f32⟩
  | 2 => ⟨S100000, .f32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S_, .f32⟩
  | 12 => ⟨S200000, .f32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000, .f32⟩
  | 43 => ⟨S200000, .f32⟩
  | 44 => ⟨S_, .i32⟩
  | 45 => ⟨S200000, .i32⟩
  | 46 => ⟨S200000, .i1⟩
  | 47 => ⟨S_, .i32⟩
  | 48 => ⟨S200000, .i32⟩
  | 49 => ⟨S200000, .i32⟩
  | 50 => ⟨S200000, .i32⟩
  | 51 => ⟨S200000x1, .i32⟩
  | 52 => ⟨S200000x200, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x200, .f32⟩
  | 62 => ⟨S200000x200, .f32⟩
  | 63 => ⟨S200000x200, .f32⟩
  | 64 => ⟨S200000x1, .f32⟩
  | 65 => ⟨S200000x200, .f32⟩
  | 66 => ⟨S200000x200, .f32⟩
  | 67 => ⟨S_, .f32⟩
  | 68 => ⟨S100000x200, .f32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S100000x200, .f32⟩
  | 78 => ⟨S2x200000, .i32⟩
  | 79 => ⟨S200000, .i32⟩
  | 80 => ⟨S1x200000, .i32⟩
  | 81 => ⟨S200000, .i32⟩
  | 82 => ⟨S1x200000, .i32⟩
  | 83 => ⟨S200000, .i32⟩
  | 84 => ⟨S_, .f32⟩
  | 85 => ⟨S100000, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S_, .f32⟩
  | 95 => ⟨S200000, .f32⟩
  | 96 => ⟨S100000, .f32⟩
  | 97 => ⟨S_, .f32⟩
  | 98 => ⟨S100000, .f32⟩
  | 99 => ⟨S100000, .i1⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S200000x1, .i32⟩
  | 116 => ⟨S200000, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000, .f32⟩
  | 126 => ⟨S200000, .f32⟩
  | 127 => ⟨S_, .i32⟩
  | _ => ⟨S2048, .i32⟩

abbrev hbmTy0_3 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x200, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000x200, .f32⟩
  | 17 => ⟨S200000x200, .f32⟩
  | 18 => ⟨S200000x200, .f32⟩
  | 19 => ⟨S200000x1, .f32⟩
  | 20 => ⟨S200000x200, .f32⟩
  | 21 => ⟨S200000x200, .f32⟩
  | 22 => ⟨S_, .f32⟩
  | 23 => ⟨S100000x200, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S100000x200, .f32⟩
  | 33 => ⟨S1x200, .f32⟩
  | 34 => ⟨S200, .f32⟩
  | 35 => ⟨S1x200, .f32⟩
  | 36 => ⟨S100000x200, .f32⟩
  | 37 => ⟨S100000x200, .f32⟩
  | 38 => ⟨S100000x200, .f32⟩
  | 39 => ⟨S100000x200, .f32⟩
  | 40 => ⟨S100000x200, .f32⟩
  | 41 => ⟨S_, .f32⟩
  | 42 => ⟨S100000x200, .f32⟩
  | 43 => ⟨S100000x200, .f32⟩
  | 44 => ⟨S1x200, .f32⟩
  | 45 => ⟨S100000x200, .f32⟩
  | 46 => ⟨S100000x200, .f32⟩
  | 47 => ⟨S_, .f32⟩
  | 48 => ⟨S200, .f32⟩
  | 49 => ⟨S_, .f32⟩
  | 50 => ⟨S200, .f32⟩
  | 51 => ⟨S200, .f32⟩
  | 52 => ⟨S_, .i32⟩
  | 53 => ⟨S_, .f32⟩
  | 54 => ⟨S200, .f32⟩
  | 55 => ⟨S1x200, .f32⟩
  | 56 => ⟨S_, .f32⟩
  | 57 => ⟨S1x200, .f32⟩
  | 58 => ⟨S1x200, .f32⟩
  | 59 => ⟨S100000x200, .f32⟩
  | 60 => ⟨S100000x200, .f32⟩
  | 61 => ⟨S100000x200, .f32⟩
  | 62 => ⟨S_, .f32⟩
  | 63 => ⟨S_, .f32⟩
  | 64 => ⟨S_, .f32⟩
  | 65 => ⟨S_, .f32⟩
  | 66 => ⟨S200, .f32⟩
  | 67 => ⟨S200, .f32⟩
  | 68 => ⟨S200, .f32⟩
  | 69 => ⟨S_, .f32⟩
  | 70 => ⟨S_, .i1⟩
  | 71 => ⟨S_, .f32⟩
  | 72 => ⟨S_, .f32⟩
  | 73 => ⟨S200, .f32⟩
  | 74 => ⟨S200, .f32⟩
  | 75 => ⟨S1x200, .f32⟩
  | 76 => ⟨S100000x200, .f32⟩
  | 77 => ⟨S100000x200, .f32⟩
  | 78 => ⟨S_, .f32⟩
  | 79 => ⟨S200, .f32⟩
  | 80 => ⟨S200, .f32⟩
  | 81 => ⟨S200, .f32⟩
  | 82 => ⟨S1x200, .f32⟩
  | 83 => ⟨S100000x200, .f32⟩
  | 84 => ⟨S100000x200, .f32⟩
  | 85 => ⟨S100000x200, .f32⟩
  | 86 => ⟨S401x200, .f32⟩
  | 87 => ⟨S400x200, .f32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S2048x200, .f32⟩
  | 97 => ⟨S_, .i32⟩
  | 98 => ⟨S2048, .i32⟩
  | 99 => ⟨S2048, .i1⟩
  | 100 => ⟨S_, .i32⟩
  | 101 => ⟨S2048, .i32⟩
  | 102 => ⟨S2048, .i32⟩
  | 103 => ⟨S2048, .i32⟩
  | 104 => ⟨S2048x1, .i32⟩
  | 105 => ⟨S2048x200, .f32⟩
  | _ => ⟨S2048, .i32⟩

abbrev hbmTy (i : Nat) : BufTy := match i / 128 with
  | 0 => hbmTy0_0 i
  | 1 => hbmTy0_1 i
  | 2 => hbmTy0_2 i
  | 3 => hbmTy0_3 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_call0_v0 : Ref sig .tc := ⟨.hbm, 54, rfl⟩
abbrev main_call0_v1 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_c_6 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_7 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_c_10 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_11 : Ref sig .tc := ⟨.hbm, 85, rfl⟩
abbrev main_v48 : Ref sig .tc := ⟨.hbm, 86, rfl⟩
abbrev main_v49 : Ref sig .tc := ⟨.hbm, 87, rfl⟩
abbrev main_c_12 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_c_14 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_16 : Ref sig .tc := ⟨.hbm, 116, rfl⟩
abbrev main_v74 : Ref sig .tc := ⟨.hbm, 117, rfl⟩
abbrev main_c_17 : Ref sig .tc := ⟨.hbm, 118, rfl⟩
abbrev main_v75 : Ref sig .tc := ⟨.hbm, 119, rfl⟩
abbrev main_v76 : Ref sig .tc := ⟨.hbm, 120, rfl⟩
abbrev main_c_18 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_19 : Ref sig .tc := ⟨.hbm, 126, rfl⟩
abbrev main_v81 : Ref sig .tc := ⟨.hbm, 127, rfl⟩
abbrev main_v82 : Ref sig .tc := ⟨.hbm, 128, rfl⟩
abbrev main_cst_20 : Ref sig .tc := ⟨.hbm, 129, rfl⟩
abbrev main_v83 : Ref sig .tc := ⟨.hbm, 130, rfl⟩
abbrev main_v84 : Ref sig .tc := ⟨.hbm, 131, rfl⟩
abbrev main_cst_21 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_22 : Ref sig .tc := ⟨.hbm, 136, rfl⟩
abbrev main_call1_v0 : Ref sig .tc := ⟨.hbm, 137, rfl⟩
abbrev main_call1_v1 : Ref sig .tc := ⟨.hbm, 138, rfl⟩
abbrev main_v88 : Ref sig .tc := ⟨.hbm, 139, rfl⟩
abbrev main_c_23 : Ref sig .tc := ⟨.hbm, 140, rfl⟩
abbrev main_v89 : Ref sig .tc := ⟨.hbm, 141, rfl⟩
abbrev main_v90 : Ref sig .tc := ⟨.hbm, 142, rfl⟩
abbrev main_c_24 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_25 : Ref sig .tc := ⟨.hbm, 149, rfl⟩
abbrev main_v96 : Ref sig .tc := ⟨.hbm, 150, rfl⟩
abbrev main_v97 : Ref sig .tc := ⟨.hbm, 151, rfl⟩
abbrev main_c_26 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_c_27 : Ref sig .tc := ⟨.hbm, 159, rfl⟩
abbrev main_v104 : Ref sig .tc := ⟨.hbm, 160, rfl⟩
abbrev main_v105 : Ref sig .tc := ⟨.hbm, 161, rfl⟩
abbrev main_c_28 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_c_29 : Ref sig .tc := ⟨.hbm, 168, rfl⟩
abbrev main_v111 : Ref sig .tc := ⟨.hbm, 169, rfl⟩
abbrev main_v112 : Ref sig .tc := ⟨.hbm, 170, rfl⟩
abbrev main_c_30 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_31 : Ref sig .tc := ⟨.hbm, 182, rfl⟩
abbrev main_v123 : Ref sig .tc := ⟨.hbm, 183, rfl⟩
abbrev main_c_32 : Ref sig .tc := ⟨.hbm, 184, rfl⟩
abbrev main_v124 : Ref sig .tc := ⟨.hbm, 185, rfl⟩
abbrev main_v125 : Ref sig .tc := ⟨.hbm, 186, rfl⟩
abbrev main_c_33 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_34 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_cst_35 : Ref sig .tc := ⟨.hbm, 207, rfl⟩
abbrev main_v144 : Ref sig .tc := ⟨.hbm, 208, rfl⟩
abbrev main_cst_36 : Ref sig .tc := ⟨.hbm, 209, rfl⟩
abbrev main_v145 : Ref sig .tc := ⟨.hbm, 210, rfl⟩
abbrev main_v146 : Ref sig .tc := ⟨.hbm, 211, rfl⟩
abbrev main_c_37 : Ref sig .tc := ⟨.hbm, 212, rfl⟩
abbrev main_call2_cst : Ref sig .tc := ⟨.hbm, 213, rfl⟩
abbrev main_call2_v0 : Ref sig .tc := ⟨.hbm, 214, rfl⟩
abbrev main_call2_v1 : Ref sig .tc := ⟨.hbm, 215, rfl⟩
abbrev main_call2_cst_0 : Ref sig .tc := ⟨.hbm, 216, rfl⟩
abbrev main_call2_v2 : Ref sig .tc := ⟨.hbm, 217, rfl⟩
abbrev main_call2_v3 : Ref sig .tc := ⟨.hbm, 218, rfl⟩
abbrev main_call2_v4 : Ref sig .tc := ⟨.hbm, 219, rfl⟩
abbrev main_call2_v5 : Ref sig .tc := ⟨.hbm, 220, rfl⟩
abbrev main_call2_v6 : Ref sig .tc := ⟨.hbm, 221, rfl⟩
abbrev main_call2_v7 : Ref sig .tc := ⟨.hbm, 222, rfl⟩
abbrev main_call2_cst_1 : Ref sig .tc := ⟨.hbm, 223, rfl⟩
abbrev main_call2_v8 : Ref sig .tc := ⟨.hbm, 224, rfl⟩
abbrev main_call2_cst_2 : Ref sig .tc := ⟨.hbm, 225, rfl⟩
abbrev main_call2_v9 : Ref sig .tc := ⟨.hbm, 226, rfl⟩
abbrev main_call2_v10 : Ref sig .tc := ⟨.hbm, 227, rfl⟩
abbrev main_call2_v11 : Ref sig .tc := ⟨.hbm, 228, rfl⟩
abbrev main_call2_cst_3 : Ref sig .tc := ⟨.hbm, 229, rfl⟩
abbrev main_call2_v12 : Ref sig .tc := ⟨.hbm, 230, rfl⟩
abbrev main_call2_cst_4 : Ref sig .tc := ⟨.hbm, 231, rfl⟩
abbrev main_call2_call0_v0 : Ref sig .tc := ⟨.hbm, 232, rfl⟩
abbrev main_call2_call0_v1 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_cst_38 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_cst_39 : Ref sig .tc := ⟨.hbm, 257, rfl⟩
abbrev main_v169 : Ref sig .tc := ⟨.hbm, 258, rfl⟩
abbrev main_c_40 : Ref sig .tc := ⟨.hbm, 259, rfl⟩
abbrev main_v170 : Ref sig .tc := ⟨.hbm, 260, rfl⟩
abbrev main_v171 : Ref sig .tc := ⟨.hbm, 261, rfl⟩
abbrev main_c_41 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_cst_42 : Ref sig .tc := ⟨.hbm, 267, rfl⟩
abbrev main_v176 : Ref sig .tc := ⟨.hbm, 268, rfl⟩
abbrev main_v177 : Ref sig .tc := ⟨.hbm, 269, rfl⟩
abbrev main_cst_43 : Ref sig .tc := ⟨.hbm, 270, rfl⟩
abbrev main_v178 : Ref sig .tc := ⟨.hbm, 271, rfl⟩
abbrev main_v179 : Ref sig .tc := ⟨.hbm, 272, rfl⟩
abbrev main_cst_44 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_cst_45 : Ref sig .tc := ⟨.hbm, 277, rfl⟩
abbrev main_call3_v0 : Ref sig .tc := ⟨.hbm, 278, rfl⟩
abbrev main_call3_v1 : Ref sig .tc := ⟨.hbm, 279, rfl⟩
abbrev main_v183 : Ref sig .tc := ⟨.hbm, 280, rfl⟩
abbrev main_c_46 : Ref sig .tc := ⟨.hbm, 281, rfl⟩
abbrev main_v184 : Ref sig .tc := ⟨.hbm, 282, rfl⟩
abbrev main_v185 : Ref sig .tc := ⟨.hbm, 283, rfl⟩
abbrev main_c_47 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_c_48 : Ref sig .tc := ⟨.hbm, 290, rfl⟩
abbrev main_v191 : Ref sig .tc := ⟨.hbm, 291, rfl⟩
abbrev main_v192 : Ref sig .tc := ⟨.hbm, 292, rfl⟩
abbrev main_c_49 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_c_50 : Ref sig .tc := ⟨.hbm, 300, rfl⟩
abbrev main_v199 : Ref sig .tc := ⟨.hbm, 301, rfl⟩
abbrev main_v200 : Ref sig .tc := ⟨.hbm, 302, rfl⟩
abbrev main_c_51 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_c_52 : Ref sig .tc := ⟨.hbm, 309, rfl⟩
abbrev main_v206 : Ref sig .tc := ⟨.hbm, 310, rfl⟩
abbrev main_v207 : Ref sig .tc := ⟨.hbm, 311, rfl⟩
abbrev main_c_53 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_v213 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_cst_54 : Ref sig .tc := ⟨.hbm, 323, rfl⟩
abbrev main_v218 : Ref sig .tc := ⟨.hbm, 324, rfl⟩
abbrev main_c_55 : Ref sig .tc := ⟨.hbm, 325, rfl⟩
abbrev main_v219 : Ref sig .tc := ⟨.hbm, 326, rfl⟩
abbrev main_v220 : Ref sig .tc := ⟨.hbm, 327, rfl⟩
abbrev main_c_56 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_v224 : Ref sig .tc := ⟨.hbm, 332, rfl⟩
abbrev main_v225 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_cst_57 : Ref sig .tc := ⟨.hbm, 340, rfl⟩
abbrev main_v232 : Ref sig .tc := ⟨.hbm, 341, rfl⟩
abbrev main_c_58 : Ref sig .tc := ⟨.hbm, 342, rfl⟩
abbrev main_v233 : Ref sig .tc := ⟨.hbm, 343, rfl⟩
abbrev main_v234 : Ref sig .tc := ⟨.hbm, 344, rfl⟩
abbrev main_c_59 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_cst_60 : Ref sig .tc := ⟨.hbm, 350, rfl⟩
abbrev main_v239 : Ref sig .tc := ⟨.hbm, 351, rfl⟩
abbrev main_v240 : Ref sig .tc := ⟨.hbm, 352, rfl⟩
abbrev main_cst_61 : Ref sig .tc := ⟨.hbm, 353, rfl⟩
abbrev main_v241 : Ref sig .tc := ⟨.hbm, 354, rfl⟩
abbrev main_v242 : Ref sig .tc := ⟨.hbm, 355, rfl⟩
abbrev main_cst_62 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_cst_63 : Ref sig .tc := ⟨.hbm, 360, rfl⟩
abbrev main_call4_v0 : Ref sig .tc := ⟨.hbm, 361, rfl⟩
abbrev main_call4_v1 : Ref sig .tc := ⟨.hbm, 362, rfl⟩
abbrev main_v246 : Ref sig .tc := ⟨.hbm, 363, rfl⟩
abbrev main_c_64 : Ref sig .tc := ⟨.hbm, 364, rfl⟩
abbrev main_v247 : Ref sig .tc := ⟨.hbm, 365, rfl⟩
abbrev main_v248 : Ref sig .tc := ⟨.hbm, 366, rfl⟩
abbrev main_c_65 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_c_66 : Ref sig .tc := ⟨.hbm, 373, rfl⟩
abbrev main_v254 : Ref sig .tc := ⟨.hbm, 374, rfl⟩
abbrev main_v255 : Ref sig .tc := ⟨.hbm, 375, rfl⟩
abbrev main_c_67 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_c_68 : Ref sig .tc := ⟨.hbm, 383, rfl⟩
abbrev main_v262 : Ref sig .tc := ⟨.hbm, 384, rfl⟩
abbrev main_v263 : Ref sig .tc := ⟨.hbm, 385, rfl⟩
abbrev main_c_69 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_v268 : Ref sig .tc := ⟨.hbm, 391, rfl⟩
abbrev main_c_70 : Ref sig .tc := ⟨.hbm, 392, rfl⟩
abbrev main_v269 : Ref sig .tc := ⟨.hbm, 393, rfl⟩
abbrev main_v270 : Ref sig .tc := ⟨.hbm, 394, rfl⟩
abbrev main_c_71 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_v278 : Ref sig .tc := ⟨.hbm, 403, rfl⟩
abbrev main_v279 : Ref sig .tc := ⟨.hbm, 404, rfl⟩
abbrev main_v280 : Ref sig .tc := ⟨.hbm, 405, rfl⟩
abbrev main_cst_72 : Ref sig .tc := ⟨.hbm, 406, rfl⟩
abbrev main_v281 : Ref sig .tc := ⟨.hbm, 407, rfl⟩
abbrev main_c_73 : Ref sig .tc := ⟨.hbm, 408, rfl⟩
abbrev main_v282 : Ref sig .tc := ⟨.hbm, 409, rfl⟩
abbrev main_v283 : Ref sig .tc := ⟨.hbm, 410, rfl⟩
abbrev main_c_74 : Ref sig .tc := ⟨.hbm, 411, rfl⟩
abbrev main_v284 : Ref sig .tc := ⟨.hbm, 412, rfl⟩
abbrev main_v285 : Ref sig .tc := ⟨.hbm, 413, rfl⟩
abbrev main_v286 : Ref sig .tc := ⟨.hbm, 414, rfl⟩
abbrev main_v287 : Ref sig .tc := ⟨.hbm, 415, rfl⟩
abbrev main_v288 : Ref sig .tc := ⟨.hbm, 416, rfl⟩
abbrev main_v289 : Ref sig .tc := ⟨.hbm, 417, rfl⟩
abbrev main_v290 : Ref sig .tc := ⟨.hbm, 418, rfl⟩
abbrev main_v291 : Ref sig .tc := ⟨.hbm, 419, rfl⟩
abbrev main_v292 : Ref sig .tc := ⟨.hbm, 420, rfl⟩
abbrev main_v293 : Ref sig .tc := ⟨.hbm, 421, rfl⟩
abbrev main_v294 : Ref sig .tc := ⟨.hbm, 422, rfl⟩
abbrev main_v295 : Ref sig .tc := ⟨.hbm, 423, rfl⟩
abbrev main_v296 : Ref sig .tc := ⟨.hbm, 424, rfl⟩
abbrev main_cst_75 : Ref sig .tc := ⟨.hbm, 425, rfl⟩
abbrev main_v297 : Ref sig .tc := ⟨.hbm, 426, rfl⟩
abbrev main_v298 : Ref sig .tc := ⟨.hbm, 427, rfl⟩
abbrev main_v299 : Ref sig .tc := ⟨.hbm, 428, rfl⟩
abbrev main_v300 : Ref sig .tc := ⟨.hbm, 429, rfl⟩
abbrev main_v301 : Ref sig .tc := ⟨.hbm, 430, rfl⟩
abbrev main_cst_76 : Ref sig .tc := ⟨.hbm, 431, rfl⟩
abbrev main_v302 : Ref sig .tc := ⟨.hbm, 432, rfl⟩
abbrev main_cst_77 : Ref sig .tc := ⟨.hbm, 433, rfl⟩
abbrev main_v303 : Ref sig .tc := ⟨.hbm, 434, rfl⟩
abbrev main_v304 : Ref sig .tc := ⟨.hbm, 435, rfl⟩
abbrev main_c_78 : Ref sig .tc := ⟨.hbm, 436, rfl⟩
abbrev main_call5_cst : Ref sig .tc := ⟨.hbm, 437, rfl⟩
abbrev main_call5_v0 : Ref sig .tc := ⟨.hbm, 438, rfl⟩
abbrev main_call5_v1 : Ref sig .tc := ⟨.hbm, 439, rfl⟩
abbrev main_call5_cst_0 : Ref sig .tc := ⟨.hbm, 440, rfl⟩
abbrev main_call5_v2 : Ref sig .tc := ⟨.hbm, 441, rfl⟩
abbrev main_call5_v3 : Ref sig .tc := ⟨.hbm, 442, rfl⟩
abbrev main_call5_v4 : Ref sig .tc := ⟨.hbm, 443, rfl⟩
abbrev main_call5_v5 : Ref sig .tc := ⟨.hbm, 444, rfl⟩
abbrev main_call5_v6 : Ref sig .tc := ⟨.hbm, 445, rfl⟩
abbrev main_call5_v7 : Ref sig .tc := ⟨.hbm, 446, rfl⟩
abbrev main_call5_cst_1 : Ref sig .tc := ⟨.hbm, 447, rfl⟩
abbrev main_call5_v8 : Ref sig .tc := ⟨.hbm, 448, rfl⟩
abbrev main_call5_cst_2 : Ref sig .tc := ⟨.hbm, 449, rfl⟩
abbrev main_call5_v9 : Ref sig .tc := ⟨.hbm, 450, rfl⟩
abbrev main_call5_v10 : Ref sig .tc := ⟨.hbm, 451, rfl⟩
abbrev main_call5_v11 : Ref sig .tc := ⟨.hbm, 452, rfl⟩
abbrev main_call5_cst_3 : Ref sig .tc := ⟨.hbm, 453, rfl⟩
abbrev main_call5_v12 : Ref sig .tc := ⟨.hbm, 454, rfl⟩
abbrev main_call5_cst_4 : Ref sig .tc := ⟨.hbm, 455, rfl⟩
abbrev main_call5_call0_v0 : Ref sig .tc := ⟨.hbm, 456, rfl⟩
abbrev main_call5_call0_v1 : Ref sig .tc := ⟨.hbm, 457, rfl⟩
abbrev main_v305 : Ref sig .tc := ⟨.hbm, 458, rfl⟩
abbrev main_v306 : Ref sig .tc := ⟨.hbm, 459, rfl⟩
abbrev main_v307 : Ref sig .tc := ⟨.hbm, 460, rfl⟩
abbrev main_v308 : Ref sig .tc := ⟨.hbm, 461, rfl⟩
abbrev main_cst_79 : Ref sig .tc := ⟨.hbm, 462, rfl⟩
abbrev main_v309 : Ref sig .tc := ⟨.hbm, 463, rfl⟩
abbrev main_v310 : Ref sig .tc := ⟨.hbm, 464, rfl⟩
abbrev main_v311 : Ref sig .tc := ⟨.hbm, 465, rfl⟩
abbrev main_v312 : Ref sig .tc := ⟨.hbm, 466, rfl⟩
abbrev main_v313 : Ref sig .tc := ⟨.hbm, 467, rfl⟩
abbrev main_v314 : Ref sig .tc := ⟨.hbm, 468, rfl⟩
abbrev main_v315 : Ref sig .tc := ⟨.hbm, 469, rfl⟩
abbrev main_v316 : Ref sig .tc := ⟨.hbm, 470, rfl⟩
abbrev main_v317 : Ref sig .tc := ⟨.hbm, 471, rfl⟩
abbrev main_c_80 : Ref sig .tc := ⟨.hbm, 472, rfl⟩
abbrev main_v318 : Ref sig .tc := ⟨.hbm, 473, rfl⟩
abbrev main_v319 : Ref sig .tc := ⟨.hbm, 474, rfl⟩
abbrev main_c_81 : Ref sig .tc := ⟨.hbm, 475, rfl⟩
abbrev main_v320 : Ref sig .tc := ⟨.hbm, 476, rfl⟩
abbrev main_v321 : Ref sig .tc := ⟨.hbm, 477, rfl⟩
abbrev main_v322 : Ref sig .tc := ⟨.hbm, 478, rfl⟩
abbrev main_v323 : Ref sig .tc := ⟨.hbm, 479, rfl⟩
abbrev main_v324 : Ref sig .tc := ⟨.hbm, 480, rfl⟩
abbrev main_c_82 : Ref sig .tc := ⟨.hbm, 481, rfl⟩
abbrev main_v325 : Ref sig .tc := ⟨.hbm, 482, rfl⟩
abbrev main_v326 : Ref sig .tc := ⟨.hbm, 483, rfl⟩
abbrev main_c_83 : Ref sig .tc := ⟨.hbm, 484, rfl⟩
abbrev main_v327 : Ref sig .tc := ⟨.hbm, 485, rfl⟩
abbrev main_v328 : Ref sig .tc := ⟨.hbm, 486, rfl⟩
abbrev main_v329 : Ref sig .tc := ⟨.hbm, 487, rfl⟩
abbrev main_v330 : Ref sig .tc := ⟨.hbm, 488, rfl⟩
abbrev main_v331 : Ref sig .tc := ⟨.hbm, 489, rfl⟩

abbrev nD : Nat := 1
abbrev τ : Topo := Topo.v7x

variable {F : FTy → Type} [FloatOps F]

class Facts₀ : Prop where
  concatenates_S400x200_S1x200_S401x200_d0 : Shape.Concatenates [S400x200, S1x200] S401x200 0
  slices_S2x400000_S2x200000_0_0 : S2x400000.Slices ![0, 0] S2x200000
  slices_S400000_S200000_0 : S400000.Slices ![0] S200000
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S100000 : S_.BroadcastsInDim S100000 (![] : Fin 0 → Fin S100000.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x200_0_1 : S200000x1.BroadcastsInDim S200000x200 (![0, 1] : Fin 2 → Fin S200000x200.rank)
  bcast_S_S100000x200 : S_.BroadcastsInDim S100000x200 (![] : Fin 0 → Fin S100000x200.rank)
  slices_S2x400000_S2x200000_0_200000 : S2x400000.Slices ![0, 200000] S2x200000
  slices_S400000_S200000_200000 : S400000.Slices ![200000] S200000
  slices_S401x200_S1x200_400_0 : S401x200.Slices ![400, 0] S1x200
  shapeCasts_S1x200_S200 : S1x200.ShapeCasts S200
  bcast_S200_S1x200_1 : S200.BroadcastsInDim S1x200 (![1] : Fin 1 → Fin S1x200.rank)
  bcast_S1x200_S100000x200_0_1 : S1x200.BroadcastsInDim S100000x200 (![0, 1] : Fin 2 → Fin S100000x200.rank)
  reducesTo_S100000x200_S200_d0 : S100000x200.ReducesTo [0] S200
  h_S_ : 0 < S_.numel
  bcast_S_S200 : S_.BroadcastsInDim S200 (![] : Fin 0 → Fin S200.rank)
  bcast_S_S1x200 : S_.BroadcastsInDim S1x200 (![] : Fin 0 → Fin S1x200.rank)
  slices_S401x200_S400x200_0_0 : S401x200.Slices ![0, 0] S400x200
  bcast_S_S2048 : S_.BroadcastsInDim S2048 (![] : Fin 0 → Fin S2048.rank)
  bcast_S2048_S2048x1_0 : S2048.BroadcastsInDim S2048x1 (![0] : Fin 1 → Fin S2048x1.rank)
  dot_S100000x768_S768x200_S100000x200_1_0_0_1_n_n_wf : DotDims.WF S100000x768 S768x200 S100000x200 [1] [0] [0] [1] [] []
  scatter_S100000_S200000x1_S200000_n_0_0_1_wf : ScatterDims.WF S100000 S200000x1 S200000 [] [0] [0] 1
  gather_S100000_S200000x1_S200000_n_0_n_n_0_1_1_wf : GatherDims.WF S100000 S200000x1 S200000 [] [0] [] [0] [] 1 ![1]
  gather_S100000x200_S200000x1_S200000x200_1_0_n_n_0_1_1200_wf : GatherDims.WF S100000x200 S200000x1 S200000x200 [1] [0] [] [0] [] 1 ![1, 200]
  gather_S401x200_S200000x1_S200000x200_1_0_n_n_0_1_1200_wf : GatherDims.WF S401x200 S200000x1 S200000x200 [1] [0] [] [0] [] 1 ![1, 200]
  dot_S200000x200_S200x200_S200000x200_1_0_0_1_n_n_wf : DotDims.WF S200000x200 S200x200 S200000x200 [1] [0] [0] [1] [] []
  scatter_S100000x200_S200000x1_S200000x200_1_0_0_1_wf : ScatterDims.WF S100000x200 S200000x1 S200000x200 [1] [0] [0] 1
  dot_S100000x200_S200x200_S100000x200_1_0_0_1_n_n_wf : DotDims.WF S100000x200 S200x200 S100000x200 [1] [0] [0] [1] [] []
  dot_S401x200_S200x200_S401x200_1_0_0_1_n_n_wf : DotDims.WF S401x200 S200x200 S401x200 [1] [0] [0] [1] [] []
  gather_S100000x200_S2048x1_S2048x200_1_0_n_n_0_1_1200_wf : GatherDims.WF S100000x200 S2048x1 S2048x200 [1] [0] [] [0] [] 1 ![1, 200]
  gather_S400x200_S2048x1_S2048x200_1_0_n_n_0_1_1200_wf : GatherDims.WF S400x200 S2048x1 S2048x200 [1] [0] [] [0] [] 1 ![1, 200]

variable [Facts₀]

def dot_S100000x768_S768x200_S100000x200_1_0_0_1_n_n : DotDims S100000x768 S768x200 S100000x200 where
  lhsContracting := [1]
  rhsContracting := [0]
  lhsNonContracting := [0]
  rhsNonContracting := [1]
  lhsBatch := []
  rhsBatch := []
  wf := dot_S100000x768_S768x200_S100000x200_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def gather_S100000x200_S200000x1_S200000x200_1_0_n_n_0_1_1200 : GatherDims S100000x200 S200000x1 S200000x200 where
  offsetDims := [1]
  collapsedSliceDims := [0]
  operandBatchingDims := []
  startIndicesBatchingDims := []
  startIndexMap := [0]
  indexVectorDim := 1
  sliceSizes := ![1, 200]
  wf := gather_S100000x200_S200000x1_S200000x200_1_0_n_n_0_1_1200_wf
def gather_S401x200_S200000x1_S200000x200_1_0_n_n_0_1_1200 : GatherDims S401x200 S200000x1 S200000x200 where
  offsetDims := [1]
  collapsedSliceDims := [0]
  operandBatchingDims := []
  startIndicesBatchingDims := []
  startIndexMap := [0]
  indexVectorDim := 1
  sliceSizes := ![1, 200]
  wf := gather_S401x200_S200000x1_S200000x200_1_0_n_n_0_1_1200_wf
def dot_S200000x200_S200x200_S200000x200_1_0_0_1_n_n : DotDims S200000x200 S200x200 S200000x200 where
  lhsContracting := [1]
  rhsContracting := [0]
  lhsNonContracting := [0]
  rhsNonContracting := [1]
  lhsBatch := []
  rhsBatch := []
  wf := dot_S200000x200_S200x200_S200000x200_1_0_0_1_n_n_wf
def scatter_S100000x200_S200000x1_S200000x200_1_0_0_1 : ScatterDims S100000x200 S200000x1 S200000x200 where
  updateWindowDims := [1]
  insertedWindowDims := [0]
  scatterDimsToOperandDims := [0]
  indexVectorDim := 1
  wf := scatter_S100000x200_S200000x1_S200000x200_1_0_0_1_wf
def dot_S100000x200_S200x200_S100000x200_1_0_0_1_n_n : DotDims S100000x200 S200x200 S100000x200 where
  lhsContracting := [1]
  rhsContracting := [0]
  lhsNonContracting := [0]
  rhsNonContracting := [1]
  lhsBatch := []
  rhsBatch := []
  wf := dot_S100000x200_S200x200_S100000x200_1_0_0_1_n_n_wf
def dot_S401x200_S200x200_S401x200_1_0_0_1_n_n : DotDims S401x200 S200x200 S401x200 where
  lhsContracting := [1]
  rhsContracting := [0]
  lhsNonContracting := [0]
  rhsNonContracting := [1]
  lhsBatch := []
  rhsBatch := []
  wf := dot_S401x200_S200x200_S401x200_1_0_0_1_n_n_wf
def gather_S100000x200_S2048x1_S2048x200_1_0_n_n_0_1_1200 : GatherDims S100000x200 S2048x1 S2048x200 where
  offsetDims := [1]
  collapsedSliceDims := [0]
  operandBatchingDims := []
  startIndicesBatchingDims := []
  startIndexMap := [0]
  indexVectorDim := 1
  sliceSizes := ![1, 200]
  wf := gather_S100000x200_S2048x1_S2048x200_1_0_n_n_0_1_1200_wf
def gather_S400x200_S2048x1_S2048x200_1_0_n_n_0_1_1200 : GatherDims S400x200 S2048x1 S2048x200 where
  offsetDims := [1]
  collapsedSliceDims := [0]
  operandBatchingDims := []
  startIndicesBatchingDims := []
  startIndexMap := [0]
  indexVectorDim := 1
  sliceSizes := ![1, 200]
  wf := gather_S400x200_S2048x1_S2048x200_1_0_n_n_0_1_1200_wf

class Facts : Prop extends Facts₀ where

variable [Facts]
-- ==== Proof.KernelRun.lean ====
/-
  The kernel program's run with its result buffers read.

  The program is fourteen kernel regions among stretches of host operations.  Its contents at each boundary are a
  fold from the launch memory: a stretch of host operations applies them in order, a region replaces its output
  arrays by what its grid points wrote back.  The last boundary's contents are `Gen.W33`.  Every weakly fair
  execution terminates with every unscoped buffer at those contents; the frame claim reads only the argument
  arrays off this, the value claim reads the three result buffers.
-/
import proofs.«103573_j30391188587216_1_alg».proof.Proof.FrameKernelIdeal

set_option maxRecDepth 16384

noncomputable section

namespace Cert.KernelIdeal.HandRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting,
    with every unscoped TensorCore buffer `b` holding the last boundary's contents `Gen.W33 m ρ c b`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W33 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c b hb => h c _ (mem_uc b hb))

end Cert.KernelIdeal.HandRun

end
-- ==== Proof.LibSeq.lean ====
/- Three general facts about a straight line of host operations (Lib/StableHlo/Run.lean's `seq` and `after`): the contents
   after two lines run one after the other; an operation whose one written reference is in a list writes inside that list; and
   a property of every operation of each of two lists is one of their concatenation. -/
import Idealize.ShloMosaic.Lib.StableHlo.Run

noncomputable section

namespace Cert.SeqLib

open Idealize.ShloMosaic Idealize.ShloMosaic.StableHlo Idealize.SL.Sem

variable {τ : Topo} {sig : RefSig} {Val : EltTy → Type}

/-- The contents after two lines in turn: the second line's fold started from the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation that writes exactly the reference `y`, a member of `W`, writes inside `W`. -/
theorem writes_sub_of_mem {W : List (Ref sig .tc)} {op : HloOp τ sig Val} {y : Ref sig .tc}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map_of_mem hy

/-- What holds of every operation of two lists holds of every operation of their concatenation. -/
theorem forall_append {p : HloOp τ sig Val → Prop} {l₁ l₂ : List (HloOp τ sig Val)}
    (h₁ : l₁.Forall p) (h₂ : l₂.Forall p) : (l₁ ++ l₂).Forall p :=
  List.forall_iff_forall_mem.mpr fun op hop =>
    (List.mem_append.mp hop).elim (List.forall_iff_forall_mem.mp h₁ op) (List.forall_iff_forall_mem.mp h₂ op)

end Cert.SeqLib

end
-- ==== Proof.RefOps0.lean ====
/- The reference program's @main, statements 1 … 60 of 419, as a LIST of 62 host operations, and the window equal to the
   list run in order. Each call of an outlined function is replaced by that function's operations in order, its parameters the call's operands and its
   values the fields of the call's buffer record (a call inside the callee likewise, over the nested record); the callee returns one
   of those buffers, so a call adds no copy.
   Beside the list: every operation touches TensorCore references only, determines all it writes, and writes one reference of the
   list `W0`; so a reference outside `W0` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 62 operations, in order. -/
abbrev ops0 : List (HloOp τ sig (Elt F)) :=
  [
    binary main_arg5 main_arg6 main_v0 ((fun l r => Host.dotGeneral dot_S100000x768_S768x200_S100000x200_1_0_0_1_n_n none l r) : (⟨S100000x768, .f32⟩ : BufTy).Contents (Elt F) → (⟨S768x200, .f32⟩ : BufTy).Contents (Elt F) → (⟨S100000x200, .f32⟩ : BufTy).Contents (Elt F)),
    binary main_arg7 main_arg8 main_v1 ((fun l r => Host.dotGeneral dot_S100000x768_S768x200_S100000x200_1_0_0_1_n_n none l r) : (⟨S100000x768, .f32⟩ : BufTy).Contents (Elt F) → (⟨S768x200, .f32⟩ : BufTy).Contents (Elt F) → (⟨S100000x200, .f32⟩ : BufTy).Contents (Elt F)),
    binary main_arg9 main_arg14 main_v2 ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)),
    binary main_arg4 main_v0 main_v3 (addf : (⟨S100000x200, .f32⟩ : BufTy).Contents (Elt F) → (⟨S100000x200, .f32⟩ : BufTy).Contents (Elt F) → (⟨S100000x200, .f32⟩ : BufTy).Contents (Elt F)),
    binary main_v3 main_v1 main_v4 (addf : (⟨S100000x200, .f32⟩ : BufTy).Contents (Elt F) → (⟨S100000x200, .f32⟩ : BufTy).Contents (Elt F) → (⟨S100000x200, .f32⟩ : BufTy).Contents (Elt F)),
    unary main_arg2 main_v5 ((extractStridedSlice S2x200000 ![0, 0] · slices_S2x400000_S2x200000_0_0) : (⟨S2x400000, .i32⟩ : BufTy).Contents (Elt F) → (⟨S2x200000, .i32⟩ : BufTy).Contents (Elt F)),
    unary main_arg3 main_v6 ((extractStridedSlice S200000 ![0] · slices_S400000_S200000_0) : (⟨S400000, .i32⟩ : BufTy).Contents (Elt F) → (⟨S200000, .i32⟩ : BufTy).Contents (Elt F)),
    unary main_v5 main_v7 ((extractStridedSlice S1x200000 ![0, 0] · slices_S2x200000_S1x200000_0_0) : (⟨S2x200000, .i32⟩ : BufTy).Contents (Elt F) → (⟨S1x200000, .i32⟩ : BufTy).Contents (Elt F)),
    reshape main_v7 main_v8 rfl shapeCasts_S1x200000_S200000,
    unary main_v5 main_v9 ((extractStridedSlice S1x200000 ![1, 0] · slices_S2x200000_S1x200000_1_0) : (⟨S2x200000, .i32⟩ : BufTy).Contents (Elt F) → (⟨S1x200000, .i32⟩ : BufTy).Contents (Elt F)),
    reshape main_v9 main_v10 rfl shapeCasts_S1x200000_S200000,
    nullary main_cst (constant S_ .f32 0x00000000#32),
    unary main_cst main_v11 (broadcastInDim S100000 ![] bcast_S_S100000 : (⟨S_, .f32⟩ : BufTy).Contents (Elt F) → (⟨S100000, .f32⟩ : BufTy).Contents (Elt F)),
    nullary main_c (constantI S_ 32 0#32),
    unary main_c main_v12 (broadcastInDim S200000 ![] bcast_S_S200000 : (⟨S_, .i32⟩ : BufTy).Contents (Elt F) → (⟨S200000, .i32⟩ : BufTy).Contents (Elt F)),
    binary main_v8 main_v12 main_v13 (cmpi .slt : (⟨S200000, .i32⟩ : BufTy).Contents (Elt F) → (⟨S200000, .i32⟩ : BufTy).Contents (Elt F) → (⟨S200000, .i1⟩ : BufTy).Contents (Elt F)),
    nullary main_c_0 (constantI S_ 32 100000#32),
    unary main_c_0 main_v14 (broadcastInDim S200000 ![] bcast_S_S200000 : (⟨S_, .i32⟩ : BufTy).Contents (Elt F) → (⟨S200000, .i32⟩ : BufTy).Contents (Elt F)),
    binary main_v8 main_v14 main_v15 (addi : (⟨S200000, .i32⟩ : BufTy).Contents (Elt F) → (⟨S200000, .i32⟩ : BufTy).Contents (Elt F) → (⟨S200000, .i32⟩ : BufTy).Contents (Elt F)),
    ternary main_v13 main_v15 main_v8 main_v16 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v16 main_v17 (broadcastInDim S200000x1 ![0] bcast_S200000_S200000x1_0 : (⟨S200000, .i32⟩ : BufTy).Contents (Elt F) → (⟨S200000x1, .i32⟩ : BufTy).Contents (Elt F)),
    nullary main_cst_1 (constant S_ .f32 0x3F800000#32),
    unary main_cst_1 main_v18 (broadcastInDim S200000 ![] bcast_S_S200000 : (⟨S_, .f32⟩ : BufTy).Contents (Elt F) → (⟨S200000, .f32⟩ : BufTy).Contents (Elt F)),
    ternary main_v11 main_v17 main_v18 main_v19 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_2 (constant S_ .f32 0x00000000#32),
    unary main_cst_2 main_v20 (broadcastInDim S100000 ![] bcast_S_S100000 : (⟨S_, .f32⟩ : BufTy).Contents (Elt F) → (⟨S100000, .f32⟩ : BufTy).Contents (Elt F)),
    binary main_v19 main_v20 main_v21 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v22 (broadcastInDim S100000 ![] bcast_S_S100000 : (⟨S_, .f32⟩ : BufTy).Contents (Elt F) → (⟨S100000, .f32⟩ : BufTy).Contents (Elt F)),
    binary main_v19 main_v22 main_v23 (maximumf : (⟨S100000, .f32⟩ : BufTy).Contents (Elt F) → (⟨S100000, .f32⟩ : BufTy).Contents (Elt F) → (⟨S100000, .f32⟩ : BufTy).Contents (Elt F)),
    unary main_v23 main_v24 (Host.rsqrt : (⟨S100000, .f32⟩ : BufTy).Contents (Elt F) → (⟨S100000, .f32⟩ : BufTy).Contents (Elt F)),
    nullary main_cst_4 (constant S_ .f32 0x00000000#32),
    TRef.unary (.of main_cst_4) main_call0.v0 id,
    TRef.unary main_call0.v0 main_call0.v1 (broadcastInDim S100000 ![] bcast_S_S100000),
    TRef.ternary (.of main_v21) (.of main_v24) main_call0.v1 main_call0.v2 select,
    nullary main_c_5 (constantI S_ 32 0#32),
    unary main_c_5 main_v26 (broadcastInDim S200000 ![] bcast_S_S200000 : (⟨S_, .i32⟩ : BufTy).Contents (Elt F) → (⟨S200000, .i32⟩ : BufTy).Contents (Elt F)),
    binary main_v8 main_v26 main_v27 (cmpi .slt : (⟨S200000, .i32⟩ : BufTy).Contents (Elt F) → (⟨S200000, .i32⟩ : BufTy).Contents (Elt F) → (⟨S200000, .i1⟩ : BufTy).Contents (Elt F)),
    nullary main_c_6 (constantI S_ 32 100000#32),
    unary main_c_6 main_v28 (broadcastInDim S200000 ![] bcast_S_S200000 : (⟨S_, .i32⟩ : BufTy).Contents (Elt F) → (⟨S200000, .i32⟩ : BufTy).Contents (Elt F)),
    binary main_v8 main_v28 main_v29 (addi : (⟨S200000, .i32⟩ : BufTy).Contents (Elt F) → (⟨S200000, .i32⟩ : BufTy).Contents (Elt F) → (⟨S200000, .i32⟩ : BufTy).Contents (Elt F)),
    ternary main_v27 main_v29 main_v8 main_v30 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v30 main_v31 (broadcastInDim S200000x1 ![0] bcast_S200000_S200000x1_0 : (⟨S200000, .i32⟩ : BufTy).Contents (Elt F) → (⟨S200000x1, .i32⟩ : BufTy).Contents (Elt F)),
    binary main_v25 main_v31 main_v32 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    nullary main_c_7 (constantI S_ 32 0#32),
    unary main_c_7 main_v33 (broadcastInDim S200000 ![] bcast_S_S200000 : (⟨S_, .i32⟩ : BufTy).Contents (Elt F) → (⟨S200000, .i32⟩ : BufTy).Contents (Elt F)),
    binary main_v10 main_v33 main_v34 (cmpi .slt : (⟨S200000, .i32⟩ : BufTy).Contents (Elt F) → (⟨S200000, .i32⟩ : BufTy).Contents (Elt F) → (⟨S200000, .i1⟩ : BufTy).Contents (Elt F)),
    nullary main_c_8 (constantI S_ 32 100000#32),
    unary main_c_8 main_v35 (broadcastInDim S200000 ![] bcast_S_S200000 : (⟨S_, .i32⟩ : BufTy).Contents (Elt F) → (⟨S200000, .i32⟩ : BufTy).Contents (Elt F)),
    binary main_v10 main_v35 main_v36 (addi : (⟨S200000, .i32⟩ : BufTy).Contents (Elt F) → (⟨S200000, .i32⟩ : BufTy).Contents (Elt F) → (⟨S200000, .i32⟩ : BufTy).Contents (Elt F)),
    ternary main_v34 main_v36 main_v10 main_v37 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v37 main_v38 (broadcastInDim S200000x1 ![0] bcast_S200000_S200000x1_0 : (⟨S200000, .i32⟩ : BufTy).Contents (Elt F) → (⟨S200000x1, .i32⟩ : BufTy).Contents (Elt F)),
    binary main_v25 main_v38 main_v39 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    binary main_v32 main_v39 main_v40 (mulf : (⟨S200000, .f32⟩ : BufTy).Contents (Elt F) → (⟨S200000, .f32⟩ : BufTy).Contents (Elt F) → (⟨S200000, .f32⟩ : BufTy).Contents (Elt F)),
    nullary main_c_9 (constantI S_ 32 0#32),
    unary main_c_9 main_v41 (broadcastInDim S200000 ![] bcast_S_S200000 : (⟨S_, .i32⟩ : BufTy).Contents (Elt F) → (⟨S200000, .i32⟩ : BufTy).Contents (Elt F)),
    binary main_v8 main_v41 main_v42 (cmpi .slt : (⟨S200000, .i32⟩ : BufTy).Contents (Elt F) → (⟨S200000, .i32⟩ : BufTy).Contents (Elt F) → (⟨S200000, .i1⟩ : BufTy).Contents (Elt F)),
    nullary main_c_10 (constantI S_ 32 100000#32),
    unary main_c_10 main_v43 (broadcastInDim S200000 ![] bcast_S_S200000 : (⟨S_, .i32⟩ : BufTy).Contents (Elt F) → (⟨S200000, .i32⟩ : BufTy).Contents (Elt F)),
    binary main_v8 main_v43 main_v44 (addi : (⟨S200000, .i32⟩ : BufTy).Contents (Elt F) → (⟨S200000, .i32⟩ : BufTy).Contents (Elt F) → (⟨S200000, .i32⟩ : BufTy).Contents (Elt F)),
    ternary main_v42 main_v44 main_v8 main_v45 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v45 main_v46 (broadcastInDim S200000x1 ![0] bcast_S200000_S200000x1_0 : (⟨S200000, .i32⟩ : BufTy).Contents (Elt F) → (⟨S200000x1, .i32⟩ : BufTy).Contents (Elt F)) ]

set_option maxRecDepth 8192 in
/-- The window is that straight line: both sides are one chain of `hlo` steps once the callees' definitions are unfolded at
    their calls and sequencing is re-associated; the window's last step continued by the empty line's return is the step itself. -/
theorem part0_eq (d : Dev nD) : main_part0 (F := F) d = seq ops0 := by
  simp only [main_part0, fn_where.body, seq, bind_assoc, pure_bind]
  rfl

theorem ops0_sub : (ops0 : List (HloOp τ sig (Elt F))).Forall fun op => op.bufs ⊆ tcRefs τ sig :=
  ⟨binary_bufs_sub .., binary_bufs_sub .., binary_bufs_sub .., binary_bufs_sub .., binary_bufs_sub .., unary_bufs_sub ..,
    unary_bufs_sub .., unary_bufs_sub .., reshape_bufs_sub .., unary_bufs_sub .., reshape_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The references the window writes, one per operation, in order. -/
abbrev W0 : List (Ref sig .tc) :=
  [ main_v0, main_v1, main_v2, main_v3, main_v4, main_v5, main_v6, main_v7,
    main_v8, main_v9, main_v10, main_cst, main_v11, main_c, main_v12, main_v13,
    main_c_0, main_v14, main_v15, main_v16, main_v17, main_cst_1, main_v18, main_v19,
    main_cst_2, main_v20, main_v21, main_cst_3, main_v22, main_v23, main_v24, main_cst_4,
    main_call0.v0.ref, main_call0.v1.ref, main_call0.v2.ref, main_c_5, main_v26, main_v27, main_c_6, main_v28,
    main_v29, main_v30, main_v31, main_v32, main_c_7, main_v33, main_v34, main_c_8,
    main_v35, main_v36, main_v37, main_v38, main_v39, main_v40, main_c_9, main_v41,
    main_v42, main_c_10, main_v43, main_v44, main_v45, main_v46 ]

theorem ops0_writes : (ops0 : List (HloOp τ sig (Elt F))).Forall fun op =>
    op.writes ⊆ (W0.map (Proc.devRef (τ := τ) .tc)).toFinset :=
  ⟨writes_sub_of_mem (binary_writes ..) (by decide), writes_sub_of_mem (binary_writes ..) (by decide),
    writes_sub_of_mem (binary_writes ..) (by decide), writes_sub_of_mem (binary_writes ..) (by decide),
    writes_sub_of_mem (binary_writes ..) (by decide), writes_sub_of_mem (unary_writes ..) (by decide),
    writes_sub_of_mem (unary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (nullary_writes ..) (by decide),
    writes_sub_of_mem (unary_writes ..) (by decide), writes_sub_of_mem (ternary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide)⟩

/-- A reference the window does not write keeps its contents through it. -/
theorem kept0 {r : Ref sig .tc} (hr : r ∉ W0) (V : Valuation τ sig (Elt F)) :
    after ops0 V (Proc.devRef .tc r) = V (Proc.devRef .tc r) :=
  after_of_writes_sub ops0 V ops0_writes hr

end Cert.ReferenceIdeal.HandRun

end
-- ==== Proof.RefOps1.lean ====
/- The reference program's @main, statements 61 … 120 of 419, as a LIST of 62 host operations, and the window equal to the
   list run in order. Each call of an outlined function is replaced by that function's operations in order, its parameters the call's operands and its
   values the fields of the call's buffer record (a call inside the callee likewise, over the nested record); the callee returns one
   of those buffers, so a call adds no copy.
   Beside the list: every operation touches TensorCore references only, determines all it writes, and writes one reference of the
   list `W1`; so a reference outside `W1` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 62 operations, in order. -/
abbrev ops1 : List (HloOp τ sig (Elt F)) :=
  [
    binary main_v4 main_v46 main_v47 ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)),
    nullary main_c_11 (constantI S_ 32 0#32),
    unary main_c_11 main_v48 (broadcastInDim S200000 ![] bcast_S_S200000 : (⟨S_, .i32⟩ : BufTy).Contents (Elt F) → (⟨S200000, .i32⟩ : BufTy).Contents (Elt F)),
    binary main_v6 main_v48 main_v49 (cmpi .slt : (⟨S200000, .i32⟩ : BufTy).Contents (Elt F) → (⟨S200000, .i32⟩ : BufTy).Contents (Elt F) → (⟨S200000, .i1⟩ : BufTy).Contents (Elt F)),
    nullary main_c_12 (constantI S_ 32 401#32),
    unary main_c_12 main_v50 (broadcastInDim S200000 ![] bcast_S_S200000 : (⟨S_, .i32⟩ : BufTy).Contents (Elt F) → (⟨S200000, .i32⟩ : BufTy).Contents (Elt F)),
    binary main_v6 main_v50 main_v51 (addi : (⟨S200000, .i32⟩ : BufTy).Contents (Elt F) → (⟨S200000, .i32⟩ : BufTy).Contents (Elt F) → (⟨S200000, .i32⟩ : BufTy).Contents (Elt F)),
    ternary main_v49 main_v51 main_v6 main_v52 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v52 main_v53 (broadcastInDim S200000x1 ![0] bcast_S200000_S200000x1_0 : (⟨S200000, .i32⟩ : BufTy).Contents (Elt F) → (⟨S200000x1, .i32⟩ : BufTy).Contents (Elt F)),
    binary main_v2 main_v53 main_v54 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)),
    binary main_v47 main_v54 main_v55 (subf : (⟨S200000x200, .f32⟩ : BufTy).Contents (Elt F) → (⟨S200000x200, .f32⟩ : BufTy).Contents (Elt F) → (⟨S200000x200, .f32⟩ : BufTy).Contents (Elt F)),
    binary main_v55 main_arg10 main_v56 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_v40 main_v57 (broadcastInDim S200000x1 ![0] bcast_S200000_S200000x1_0 : (⟨S200000, .f32⟩ : BufTy).Contents (Elt F) → (⟨S200000x1, .f32⟩ : BufTy).Contents (Elt F)),
    unary main_v57 main_v58 (broadcastInDim S200000x200 ![0, 1] bcast_S200000x1_S200000x200_0_1 : (⟨S200000x1, .f32⟩ : BufTy).Contents (Elt F) → (⟨S200000x200, .f32⟩ : BufTy).Contents (Elt F)),
    binary main_v56 main_v58 main_v59 (mulf : (⟨S200000x200, .f32⟩ : BufTy).Contents (Elt F) → (⟨S200000x200, .f32⟩ : BufTy).Contents (Elt F) → (⟨S200000x200, .f32⟩ : BufTy).Contents (Elt F)),
    nullary main_cst_13 (constant S_ .f32 0x00000000#32),
    unary main_cst_13 main_v60 (broadcastInDim S100000x200 ![] bcast_S_S100000x200 : (⟨S_, .f32⟩ : BufTy).Contents (Elt F) → (⟨S100000x200, .f32⟩ : BufTy).Contents (Elt F)),
    nullary main_c_14 (constantI S_ 32 0#32),
    unary main_c_14 main_v61 (broadcastInDim S200000 ![] bcast_S_S200000 : (⟨S_, .i32⟩ : BufTy).Contents (Elt F) → (⟨S200000, .i32⟩ : BufTy).Contents (Elt F)),
    binary main_v10 main_v61 main_v62 (cmpi .slt : (⟨S200000, .i32⟩ : BufTy).Contents (Elt F) → (⟨S200000, .i32⟩ : BufTy).Contents (Elt F) → (⟨S200000, .i1⟩ : BufTy).Contents (Elt F)),
    nullary main_c_15 (constantI S_ 32 100000#32),
    unary main_c_15 main_v63 (broadcastInDim S200000 ![] bcast_S_S200000 : (⟨S_, .i32⟩ : BufTy).Contents (Elt F) → (⟨S200000, .i32⟩ : BufTy).Contents (Elt F)),
    binary main_v10 main_v63 main_v64 (addi : (⟨S200000, .i32⟩ : BufTy).Contents (Elt F) → (⟨S200000, .i32⟩ : BufTy).Contents (Elt F) → (⟨S200000, .i32⟩ : BufTy).Contents (Elt F)),
    ternary main_v62 main_v64 main_v10 main_v65 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v65 main_v66 (broadcastInDim S200000x1 ![0] bcast_S200000_S200000x1_0 : (⟨S200000, .i32⟩ : BufTy).Contents (Elt F) → (⟨S200000x1, .i32⟩ : BufTy).Contents (Elt F)),
    ternary main_v60 main_v66 main_v59 main_v67 ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)),
    unary main_arg2 main_v68 ((extractStridedSlice S2x200000 ![0, 200000] · slices_S2x400000_S2x200000_0_200000) : (⟨S2x400000, .i32⟩ : BufTy).Contents (Elt F) → (⟨S2x200000, .i32⟩ : BufTy).Contents (Elt F)),
    unary main_arg3 main_v69 ((extractStridedSlice S200000 ![200000] · slices_S400000_S200000_200000) : (⟨S400000, .i32⟩ : BufTy).Contents (Elt F) → (⟨S200000, .i32⟩ : BufTy).Contents (Elt F)),
    unary main_v68 main_v70 ((extractStridedSlice S1x200000 ![0, 0] · slices_S2x200000_S1x200000_0_0) : (⟨S2x200000, .i32⟩ : BufTy).Contents (Elt F) → (⟨S1x200000, .i32⟩ : BufTy).Contents (Elt F)),
    reshape main_v70 main_v71 rfl shapeCasts_S1x200000_S200000,
    unary main_v68 main_v72 ((extractStridedSlice S1x200000 ![1, 0] · slices_S2x200000_S1x200000_1_0) : (⟨S2x200000, .i32⟩ : BufTy).Contents (Elt F) → (⟨S1x200000, .i32⟩ : BufTy).Contents (Elt F)),
    reshape main_v72 main_v73 rfl shapeCasts_S1x200000_S200000,
    nullary main_cst_16 (constant S_ .f32 0x00000000#32),
    unary main_cst_16 main_v74 (broadcastInDim S100000 ![] bcast_S_S100000 : (⟨S_, .f32⟩ : BufTy).Contents (Elt F) → (⟨S100000, .f32⟩ : BufTy).Contents (Elt F)),
    nullary main_c_17 (constantI S_ 32 0#32),
    unary main_c_17 main_v75 (broadcastInDim S200000 ![] bcast_S_S200000 : (⟨S_, .i32⟩ : BufTy).Contents (Elt F) → (⟨S200000, .i32⟩ : BufTy).Contents (Elt F)),
    binary main_v71 main_v75 main_v76 (cmpi .slt : (⟨S200000, .i32⟩ : BufTy).Contents (Elt F) → (⟨S200000, .i32⟩ : BufTy).Contents (Elt F) → (⟨S200000, .i1⟩ : BufTy).Contents (Elt F)),
    nullary main_c_18 (constantI S_ 32 100000#32),
    unary main_c_18 main_v77 (broadcastInDim S200000 ![] bcast_S_S200000 : (⟨S_, .i32⟩ : BufTy).Contents (Elt F) → (⟨S200000, .i32⟩ : BufTy).Contents (Elt F)),
    binary main_v71 main_v77 main_v78 (addi : (⟨S200000, .i32⟩ : BufTy).Contents (Elt F) → (⟨S200000, .i32⟩ : BufTy).Contents (Elt F) → (⟨S200000, .i32⟩ : BufTy).Contents (Elt F)),
    ternary main_v76 main_v78 main_v71 main_v79 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v79 main_v80 (broadcastInDim S200000x1 ![0] bcast_S200000_S200000x1_0 : (⟨S200000, .i32⟩ : BufTy).Contents (Elt F) → (⟨S200000x1, .i32⟩ : BufTy).Contents (Elt F)),
    nullary main_cst_19 (constant S_ .f32 0x3F800000#32),
    unary main_cst_19 main_v81 (broadcastInDim S200000 ![] bcast_S_S200000 : (⟨S_, .f32⟩ : BufTy).Contents (Elt F) → (⟨S200000, .f32⟩ : BufTy).Contents (Elt F)),
    ternary main_v74 main_v80 main_v81 main_v82 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_20 (constant S_ .f32 0x00000000#32),
    unary main_cst_20 main_v83 (broadcastInDim S100000 ![] bcast_S_S100000 : (⟨S_, .f32⟩ : BufTy).Contents (Elt F) → (⟨S100000, .f32⟩ : BufTy).Contents (Elt F)),
    binary main_v82 main_v83 main_v84 (cmpf .ogt : (⟨S100000, .f32⟩ : BufTy).Contents (Elt F) → (⟨S100000, .f32⟩ : BufTy).Contents (Elt F) → (⟨S100000, .i1⟩ : BufTy).Contents (Elt F)),
    nullary main_cst_21 (constant S_ .f32 0x3F800000#32),
    unary main_cst_21 main_v85 (broadcastInDim S100000 ![] bcast_S_S100000 : (⟨S_, .f32⟩ : BufTy).Contents (Elt F) → (⟨S100000, .f32⟩ : BufTy).Contents (Elt F)),
    binary main_v82 main_v85 main_v86 (maximumf : (⟨S100000, .f32⟩ : BufTy).Contents (Elt F) → (⟨S100000, .f32⟩ : BufTy).Contents (Elt F) → (⟨S100000, .f32⟩ : BufTy).Contents (Elt F)),
    unary main_v86 main_v87 (Host.rsqrt : (⟨S100000, .f32⟩ : BufTy).Contents (Elt F) → (⟨S100000, .f32⟩ : BufTy).Contents (Elt F)),
    nullary main_cst_22 (constant S_ .f32 0x00000000#32),
    TRef.unary (.of main_cst_22) main_call1.v0 id,
    TRef.unary main_call1.v0 main_call1.v1 (broadcastInDim S100000 ![] bcast_S_S100000),
    TRef.ternary (.of main_v84) (.of main_v87) main_call1.v1 main_call1.v2 select,
    nullary main_c_23 (constantI S_ 32 0#32),
    unary main_c_23 main_v89 (broadcastInDim S200000 ![] bcast_S_S200000 : (⟨S_, .i32⟩ : BufTy).Contents (Elt F) → (⟨S200000, .i32⟩ : BufTy).Contents (Elt F)),
    binary main_v71 main_v89 main_v90 (cmpi .slt : (⟨S200000, .i32⟩ : BufTy).Contents (Elt F) → (⟨S200000, .i32⟩ : BufTy).Contents (Elt F) → (⟨S200000, .i1⟩ : BufTy).Contents (Elt F)),
    nullary main_c_24 (constantI S_ 32 100000#32),
    unary main_c_24 main_v91 (broadcastInDim S200000 ![] bcast_S_S200000 : (⟨S_, .i32⟩ : BufTy).Contents (Elt F) → (⟨S200000, .i32⟩ : BufTy).Contents (Elt F)),
    binary main_v71 main_v91 main_v92 (addi : (⟨S200000, .i32⟩ : BufTy).Contents (Elt F) → (⟨S200000, .i32⟩ : BufTy).Contents (Elt F) → (⟨S200000, .i32⟩ : BufTy).Contents (Elt F)) ]

set_option maxRecDepth 8192 in
/-- The window is that straight line: both sides are one chain of `hlo` steps once the callees' definitions are unfolded at
    their calls and sequencing is re-associated; the window's last step continued by the empty line's return is the step itself. -/
theorem part1_eq (d : Dev nD) : main_part1 (F := F) d = seq ops1 := by
  simp only [main_part1, fn_where.body, seq, bind_assoc, pure_bind]
  rfl

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., unary_bufs_sub .., unary_bufs_sub .., unary_bufs_sub .., reshape_bufs_sub ..,
    unary_bufs_sub .., reshape_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The references the window writes, one per operation, in order. -/
abbrev W1 : List (Ref sig .tc) :=
  [ main_v47, main_c_11, main_v48, main_v49, main_c_12, main_v50, main_v51, main_v52,
    main_v53, main_v54, main_v55, main_v56, main_v57, main_v58, main_v59, main_cst_13,
    main_v60, main_c_14, main_v61, main_v62, main_c_15, main_v63, main_v64, main_v65,
    main_v66, main_v67, main_v68, main_v69, main_v70, main_v71, main_v72, main_v73,
    main_cst_16, main_v74, main_c_17, main_v75, main_v76, main_c_18, main_v77, main_v78,
    main_v79, main_v80, main_cst_19, main_v81, main_v82, main_cst_20, main_v83, main_v84,
    main_cst_21, main_v85, main_v86, main_v87, main_cst_22, main_call1.v0.ref, main_call1.v1.ref, main_call1.v2.ref,
    main_c_23, main_v89, main_v90, main_c_24, main_v91, main_v92 ]

theorem ops1_writes : (ops1 : List (HloOp τ sig (Elt F))).Forall fun op =>
    op.writes ⊆ (W1.map (Proc.devRef (τ := τ) .tc)).toFinset :=
  ⟨writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (binary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (ternary_writes ..) (by decide),
    writes_sub_of_mem (unary_writes ..) (by decide), writes_sub_of_mem (unary_writes ..) (by decide),
    writes_sub_of_mem (unary_writes ..) (by decide), writes_sub_of_mem (reshape_writes ..) (by decide),
    writes_sub_of_mem (unary_writes ..) (by decide), writes_sub_of_mem (reshape_writes ..) (by decide),
    writes_sub_of_mem (nullary_writes ..) (by decide), writes_sub_of_mem (unary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (nullary_writes ..) (by decide), writes_sub_of_mem (unary_writes ..) (by decide),
    writes_sub_of_mem (ternary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (unary_writes ..) (by decide), writes_sub_of_mem (ternary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide)⟩

/-- A reference the window does not write keeps its contents through it. -/
theorem kept1 {r : Ref sig .tc} (hr : r ∉ W1) (V : Valuation τ sig (Elt F)) :
    after ops1 V (Proc.devRef .tc r) = V (Proc.devRef .tc r) :=
  after_of_writes_sub ops1 V ops1_writes hr

end Cert.ReferenceIdeal.HandRun

end
-- ==== Proof.RefOps2.lean ====
/- The reference program's @main, statements 121 … 180 of 419, as a LIST of 60 host operations, and the window equal to the
   list run in order. This window makes no call.
   Beside the list: every operation touches TensorCore references only, determines all it writes, and writes one reference of the
   list `W2`; so a reference outside `W2` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 60 operations, in order. -/
abbrev ops2 : List (HloOp τ sig (Elt F)) :=
  [
    ternary main_v90 main_v92 main_v71 main_v93 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v93 main_v94 (broadcastInDim S200000x1 ![0] bcast_S200000_S200000x1_0 : (⟨S200000, .i32⟩ : BufTy).Contents (Elt F) → (⟨S200000x1, .i32⟩ : BufTy).Contents (Elt F)),
    binary main_v88 main_v94 main_v95 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    nullary main_c_25 (constantI S_ 32 0#32),
    unary main_c_25 main_v96 (broadcastInDim S200000 ![] bcast_S_S200000 : (⟨S_, .i32⟩ : BufTy).Contents (Elt F) → (⟨S200000, .i32⟩ : BufTy).Contents (Elt F)),
    binary main_v73 main_v96 main_v97 (cmpi .slt : (⟨S200000, .i32⟩ : BufTy).Contents (Elt F) → (⟨S200000, .i32⟩ : BufTy).Contents (Elt F) → (⟨S200000, .i1⟩ : BufTy).Contents (Elt F)),
    nullary main_c_26 (constantI S_ 32 100000#32),
    unary main_c_26 main_v98 (broadcastInDim S200000 ![] bcast_S_S200000 : (⟨S_, .i32⟩ : BufTy).Contents (Elt F) → (⟨S200000, .i32⟩ : BufTy).Contents (Elt F)),
    binary main_v73 main_v98 main_v99 (addi : (⟨S200000, .i32⟩ : BufTy).Contents (Elt F) → (⟨S200000, .i32⟩ : BufTy).Contents (Elt F) → (⟨S200000, .i32⟩ : BufTy).Contents (Elt F)),
    ternary main_v97 main_v99 main_v73 main_v100 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v100 main_v101 (broadcastInDim S200000x1 ![0] bcast_S200000_S200000x1_0 : (⟨S200000, .i32⟩ : BufTy).Contents (Elt F) → (⟨S200000x1, .i32⟩ : BufTy).Contents (Elt F)),
    binary main_v88 main_v101 main_v102 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    binary main_v95 main_v102 main_v103 (mulf : (⟨S200000, .f32⟩ : BufTy).Contents (Elt F) → (⟨S200000, .f32⟩ : BufTy).Contents (Elt F) → (⟨S200000, .f32⟩ : BufTy).Contents (Elt F)),
    nullary main_c_27 (constantI S_ 32 0#32),
    unary main_c_27 main_v104 (broadcastInDim S200000 ![] bcast_S_S200000 : (⟨S_, .i32⟩ : BufTy).Contents (Elt F) → (⟨S200000, .i32⟩ : BufTy).Contents (Elt F)),
    binary main_v71 main_v104 main_v105 (cmpi .slt : (⟨S200000, .i32⟩ : BufTy).Contents (Elt F) → (⟨S200000, .i32⟩ : BufTy).Contents (Elt F) → (⟨S200000, .i1⟩ : BufTy).Contents (Elt F)),
    nullary main_c_28 (constantI S_ 32 100000#32),
    unary main_c_28 main_v106 (broadcastInDim S200000 ![] bcast_S_S200000 : (⟨S_, .i32⟩ : BufTy).Contents (Elt F) → (⟨S200000, .i32⟩ : BufTy).Contents (Elt F)),
    binary main_v71 main_v106 main_v107 (addi : (⟨S200000, .i32⟩ : BufTy).Contents (Elt F) → (⟨S200000, .i32⟩ : BufTy).Contents (Elt F) → (⟨S200000, .i32⟩ : BufTy).Contents (Elt F)),
    ternary main_v105 main_v107 main_v71 main_v108 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v108 main_v109 (broadcastInDim S200000x1 ![0] bcast_S200000_S200000x1_0 : (⟨S200000, .i32⟩ : BufTy).Contents (Elt F) → (⟨S200000x1, .i32⟩ : BufTy).Contents (Elt F)),
    binary main_v4 main_v109 main_v110 ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)),
    nullary main_c_29 (constantI S_ 32 0#32),
    unary main_c_29 main_v111 (broadcastInDim S200000 ![] bcast_S_S200000 : (⟨S_, .i32⟩ : BufTy).Contents (Elt F) → (⟨S200000, .i32⟩ : BufTy).Contents (Elt F)),
    binary main_v69 main_v111 main_v112 (cmpi .slt : (⟨S200000, .i32⟩ : BufTy).Contents (Elt F) → (⟨S200000, .i32⟩ : BufTy).Contents (Elt F) → (⟨S200000, .i1⟩ : BufTy).Contents (Elt F)),
    nullary main_c_30 (constantI S_ 32 401#32),
    unary main_c_30 main_v113 (broadcastInDim S200000 ![] bcast_S_S200000 : (⟨S_, .i32⟩ : BufTy).Contents (Elt F) → (⟨S200000, .i32⟩ : BufTy).Contents (Elt F)),
    binary main_v69 main_v113 main_v114 (addi : (⟨S200000, .i32⟩ : BufTy).Contents (Elt F) → (⟨S200000, .i32⟩ : BufTy).Contents (Elt F) → (⟨S200000, .i32⟩ : BufTy).Contents (Elt F)),
    ternary main_v112 main_v114 main_v69 main_v115 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v115 main_v116 (broadcastInDim S200000x1 ![0] bcast_S200000_S200000x1_0 : (⟨S200000, .i32⟩ : BufTy).Contents (Elt F) → (⟨S200000x1, .i32⟩ : BufTy).Contents (Elt F)),
    binary main_v2 main_v116 main_v117 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)),
    binary main_v110 main_v117 main_v118 (subf : (⟨S200000x200, .f32⟩ : BufTy).Contents (Elt F) → (⟨S200000x200, .f32⟩ : BufTy).Contents (Elt F) → (⟨S200000x200, .f32⟩ : BufTy).Contents (Elt F)),
    binary main_v118 main_arg11 main_v119 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_v103 main_v120 (broadcastInDim S200000x1 ![0] bcast_S200000_S200000x1_0 : (⟨S200000, .f32⟩ : BufTy).Contents (Elt F) → (⟨S200000x1, .f32⟩ : BufTy).Contents (Elt F)),
    unary main_v120 main_v121 (broadcastInDim S200000x200 ![0, 1] bcast_S200000x1_S200000x200_0_1 : (⟨S200000x1, .f32⟩ : BufTy).Contents (Elt F) → (⟨S200000x200, .f32⟩ : BufTy).Contents (Elt F)),
    binary main_v119 main_v121 main_v122 (mulf : (⟨S200000x200, .f32⟩ : BufTy).Contents (Elt F) → (⟨S200000x200, .f32⟩ : BufTy).Contents (Elt F) → (⟨S200000x200, .f32⟩ : BufTy).Contents (Elt F)),
    nullary main_cst_31 (constant S_ .f32 0x00000000#32),
    unary main_cst_31 main_v123 (broadcastInDim S100000x200 ![] bcast_S_S100000x200 : (⟨S_, .f32⟩ : BufTy).Contents (Elt F) → (⟨S100000x200, .f32⟩ : BufTy).Contents (Elt F)),
    nullary main_c_32 (constantI S_ 32 0#32),
    unary main_c_32 main_v124 (broadcastInDim S200000 ![] bcast_S_S200000 : (⟨S_, .i32⟩ : BufTy).Contents (Elt F) → (⟨S200000, .i32⟩ : BufTy).Contents (Elt F)),
    binary main_v73 main_v124 main_v125 (cmpi .slt : (⟨S200000, .i32⟩ : BufTy).Contents (Elt F) → (⟨S200000, .i32⟩ : BufTy).Contents (Elt F) → (⟨S200000, .i1⟩ : BufTy).Contents (Elt F)),
    nullary main_c_33 (constantI S_ 32 100000#32),
    unary main_c_33 main_v126 (broadcastInDim S200000 ![] bcast_S_S200000 : (⟨S_, .i32⟩ : BufTy).Contents (Elt F) → (⟨S200000, .i32⟩ : BufTy).Contents (Elt F)),
    binary main_v73 main_v126 main_v127 (addi : (⟨S200000, .i32⟩ : BufTy).Contents (Elt F) → (⟨S200000, .i32⟩ : BufTy).Contents (Elt F) → (⟨S200000, .i32⟩ : BufTy).Contents (Elt F)),
    ternary main_v125 main_v127 main_v73 main_v128 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v128 main_v129 (broadcastInDim S200000x1 ![0] bcast_S200000_S200000x1_0 : (⟨S200000, .i32⟩ : BufTy).Contents (Elt F) → (⟨S200000x1, .i32⟩ : BufTy).Contents (Elt F)),
    ternary main_v123 main_v129 main_v122 main_v130 ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)),
    unary main_v2 main_v131 ((extractStridedSlice S1x200 ![400, 0] · slices_S401x200_S1x200_400_0) : (⟨S401x200, .f32⟩ : BufTy).Contents (Elt F) → (⟨S1x200, .f32⟩ : BufTy).Contents (Elt F)),
    reshape main_v131 main_v132 rfl shapeCasts_S1x200_S200,
    unary main_v132 main_v133 (broadcastInDim S1x200 ![1] bcast_S200_S1x200_1 : (⟨S200, .f32⟩ : BufTy).Contents (Elt F) → (⟨S1x200, .f32⟩ : BufTy).Contents (Elt F)),
    unary main_v133 main_v134 (broadcastInDim S100000x200 ![0, 1] bcast_S1x200_S100000x200_0_1 : (⟨S1x200, .f32⟩ : BufTy).Contents (Elt F) → (⟨S100000x200, .f32⟩ : BufTy).Contents (Elt F)),
    binary main_v4 main_v134 main_v135 (subf : (⟨S100000x200, .f32⟩ : BufTy).Contents (Elt F) → (⟨S100000x200, .f32⟩ : BufTy).Contents (Elt F) → (⟨S100000x200, .f32⟩ : BufTy).Contents (Elt F)),
    binary main_v135 main_arg12 main_v136 ((fun l r => Host.dotGeneral dot_S100000x200_S200x200_S100000x200_1_0_0_1_n_n none l r) : (⟨S100000x200, .f32⟩ : BufTy).Contents (Elt F) → (⟨S200x200, .f32⟩ : BufTy).Contents (Elt F) → (⟨S100000x200, .f32⟩ : BufTy).Contents (Elt F)),
    binary main_v67 main_v130 main_v137 (addf : (⟨S100000x200, .f32⟩ : BufTy).Contents (Elt F) → (⟨S100000x200, .f32⟩ : BufTy).Contents (Elt F) → (⟨S100000x200, .f32⟩ : BufTy).Contents (Elt F)),
    binary main_v137 main_v136 main_v138 (addf : (⟨S100000x200, .f32⟩ : BufTy).Contents (Elt F) → (⟨S100000x200, .f32⟩ : BufTy).Contents (Elt F) → (⟨S100000x200, .f32⟩ : BufTy).Contents (Elt F)),
    nullary main_cst_34 (constant S_ .f32 0x3EAAAAAB#32),
    unary main_cst_34 main_v139 (broadcastInDim S100000x200 ![] bcast_S_S100000x200 : (⟨S_, .f32⟩ : BufTy).Contents (Elt F) → (⟨S100000x200, .f32⟩ : BufTy).Contents (Elt F)),
    binary main_v138 main_v139 main_v140 (mulf : (⟨S100000x200, .f32⟩ : BufTy).Contents (Elt F) → (⟨S100000x200, .f32⟩ : BufTy).Contents (Elt F) → (⟨S100000x200, .f32⟩ : BufTy).Contents (Elt F)),
    unary main_arg15 main_v141 (broadcastInDim S1x200 ![1] bcast_S200_S1x200_1 : (⟨S200, .f32⟩ : BufTy).Contents (Elt F) → (⟨S1x200, .f32⟩ : BufTy).Contents (Elt F)),
    unary main_v141 main_v142 (broadcastInDim S100000x200 ![0, 1] bcast_S1x200_S100000x200_0_1 : (⟨S1x200, .f32⟩ : BufTy).Contents (Elt F) → (⟨S100000x200, .f32⟩ : BufTy).Contents (Elt F)) ]

set_option maxRecDepth 8192 in
/-- The window is that straight line: both sides are one chain of `hlo` steps once the callees' definitions are unfolded at
    their calls and sequencing is re-associated; the window's last step continued by the empty line's return is the step itself. -/
theorem part2_eq (d : Dev nD) : main_part2 (F := F) d = seq ops2 := by
  simp only [main_part2, seq, bind_assoc, pure_bind]
  rfl

theorem ops2_sub : (ops2 : List (HloOp τ sig (Elt F))).Forall fun op => op.bufs ⊆ tcRefs τ sig :=
  ⟨ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., unary_bufs_sub ..,
    reshape_bufs_sub .., unary_bufs_sub .., unary_bufs_sub .., binary_bufs_sub .., binary_bufs_sub .., binary_bufs_sub ..,
    binary_bufs_sub .., nullary_bufs_sub .., unary_bufs_sub .., binary_bufs_sub .., unary_bufs_sub .., unary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- The references the window writes, one per operation, in order. -/
abbrev W2 : List (Ref sig .tc) :=
  [ main_v93, main_v94, main_v95, main_c_25, main_v96, main_v97, main_c_26, main_v98,
    main_v99, main_v100, main_v101, main_v102, main_v103, main_c_27, main_v104, main_v105,
    main_c_28, main_v106, main_v107, main_v108, main_v109, main_v110, main_c_29, main_v111,
    main_v112, main_c_30, main_v113, main_v114, main_v115, main_v116, main_v117, main_v118,
    main_v119, main_v120, main_v121, main_v122, main_cst_31, main_v123, main_c_32, main_v124,
    main_v125, main_c_33, main_v126, main_v127, main_v128, main_v129, main_v130, main_v131,
    main_v132, main_v133, main_v134, main_v135, main_v136, main_v137, main_v138, main_cst_34,
    main_v139, main_v140, main_v141, main_v142 ]

theorem ops2_writes : (ops2 : List (HloOp τ sig (Elt F))).Forall fun op =>
    op.writes ⊆ (W2.map (Proc.devRef (τ := τ) .tc)).toFinset :=
  ⟨writes_sub_of_mem (ternary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide), writes_sub_of_mem (binary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (ternary_writes ..) (by decide), writes_sub_of_mem (unary_writes ..) (by decide),
    writes_sub_of_mem (reshape_writes ..) (by decide), writes_sub_of_mem (unary_writes ..) (by decide),
    writes_sub_of_mem (unary_writes ..) (by decide), writes_sub_of_mem (binary_writes ..) (by decide),
    writes_sub_of_mem (binary_writes ..) (by decide), writes_sub_of_mem (binary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (unary_writes ..) (by decide)⟩

/-- A reference the window does not write keeps its contents through it. -/
theorem kept2 {r : Ref sig .tc} (hr : r ∉ W2) (V : Valuation τ sig (Elt F)) :
    after ops2 V (Proc.devRef .tc r) = V (Proc.devRef .tc r) :=
  after_of_writes_sub ops2 V ops2_writes hr

end Cert.ReferenceIdeal.HandRun

end
-- ==== Proof.RefOps3.lean ====
/- The reference program's @main, statements 181 … 240 of 419, as a LIST of 83 host operations, and the window equal to the
   list run in order. Each call of an outlined function is replaced by that function's operations in order, its parameters the call's operands and its
   values the fields of the call's buffer record (a call inside the callee likewise, over the nested record); the callee returns one
   of those buffers, so a call adds no copy.
   Beside the list: every operation touches TensorCore references only, determines all it writes, and writes one reference of the
   list `W3`; so a reference outside `W3` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 83 operations, in order. -/
abbrev ops3 : List (HloOp τ sig (Elt F)) :=
  [
    binary main_v140 main_v142 main_v143 (addf : (⟨S100000x200, .f32⟩ : BufTy).Contents (Elt F) → (⟨S100000x200, .f32⟩ : BufTy).Contents (Elt F) → (⟨S100000x200, .f32⟩ : BufTy).Contents (Elt F)),
    nullary main_cst_35 (constant S_ .f32 0x00000000#32),
    binary main_v143 main_cst_35 main_v144 ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F)),
    nullary main_cst_36 (constant S_ .f32 0x47C35000#32),
    unary main_cst_36 main_v145 (broadcastInDim S200 ![] bcast_S_S200 : (⟨S_, .f32⟩ : BufTy).Contents (Elt F) → (⟨S200, .f32⟩ : BufTy).Contents (Elt F)),
    binary main_v144 main_v145 main_v146 (Host.divf : (⟨S200, .f32⟩ : BufTy).Contents (Elt F) → (⟨S200, .f32⟩ : BufTy).Contents (Elt F) → (⟨S200, .f32⟩ : BufTy).Contents (Elt F)),
    nullary main_c_37 (constantI S_ 32 0#32),
    TRef.nullary main_call2.cst (constant S_ .f32 0x00000000#32),
    TRef.binary (.of main_v143) main_call2.cst main_call2.v0 (fun x v => Host.reduceAdd x v reducesTo_S100000x200_S200_d0 h_S_),
    TRef.unary main_call2.v0 main_call2.v1 (broadcastInDim S1x200 ![1] bcast_S200_S1x200_1),
    TRef.nullary main_call2.cst_0 (constant S_ .f32 0x47C35000#32),
    TRef.unary main_call2.cst_0 main_call2.v2 (broadcastInDim S1x200 ![] bcast_S_S1x200),
    TRef.binary main_call2.v1 main_call2.v2 main_call2.v3 Host.divf,
    TRef.unary main_call2.v3 main_call2.v4 (broadcastInDim S100000x200 ![0, 1] bcast_S1x200_S100000x200_0_1),
    TRef.binary (.of main_v143) main_call2.v4 main_call2.v5 subf,
    TRef.binary main_call2.v5 main_call2.v5 main_call2.v6 mulf,
    TRef.unary (.of main_c_37) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x200_S200_d0 h_S_),
    TRef.unary main_call2.v8 main_call2.v10 (broadcastInDim S200 ![] bcast_S_S200),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S200 ![] bcast_S_S200),
    TRef.ternary main_call2.v12 main_call2.v11 main_call2.call0.v1 main_call2.call0.v2 (fun p a b => select (broadcastInDim S200 ![] bcast_S_S200 p) a b),
    unary main_v146 main_v148 (broadcastInDim S1x200 ![1] bcast_S200_S1x200_1 : (⟨S200, .f32⟩ : BufTy).Contents (Elt F) → (⟨S1x200, .f32⟩ : BufTy).Contents (Elt F)),
    unary main_v148 main_v149 (broadcastInDim S100000x200 ![0, 1] bcast_S1x200_S100000x200_0_1 : (⟨S1x200, .f32⟩ : BufTy).Contents (Elt F) → (⟨S100000x200, .f32⟩ : BufTy).Contents (Elt F)),
    binary main_v143 main_v149 main_v150 (subf : (⟨S100000x200, .f32⟩ : BufTy).Contents (Elt F) → (⟨S100000x200, .f32⟩ : BufTy).Contents (Elt F) → (⟨S100000x200, .f32⟩ : BufTy).Contents (Elt F)),
    nullary main_cst_38 (constant S_ .f32 0x3727C5AC#32),
    unary main_cst_38 main_v151 (broadcastInDim S200 ![] bcast_S_S200 : (⟨S_, .f32⟩ : BufTy).Contents (Elt F) → (⟨S200, .f32⟩ : BufTy).Contents (Elt F)),
    binary main_v147 main_v151 main_v152 (addf : (⟨S200, .f32⟩ : BufTy).Contents (Elt F) → (⟨S200, .f32⟩ : BufTy).Contents (Elt F) → (⟨S200, .f32⟩ : BufTy).Contents (Elt F)),
    unary main_v152 main_v153 (Host.rsqrt : (⟨S200, .f32⟩ : BufTy).Contents (Elt F) → (⟨S200, .f32⟩ : BufTy).Contents (Elt F)),
    unary main_v153 main_v154 (broadcastInDim S1x200 ![1] bcast_S200_S1x200_1 : (⟨S200, .f32⟩ : BufTy).Contents (Elt F) → (⟨S1x200, .f32⟩ : BufTy).Contents (Elt F)),
    unary main_v154 main_v155 (broadcastInDim S100000x200 ![0, 1] bcast_S1x200_S100000x200_0_1 : (⟨S1x200, .f32⟩ : BufTy).Contents (Elt F) → (⟨S100000x200, .f32⟩ : BufTy).Contents (Elt F)),
    binary main_v150 main_v155 main_v156 (mulf : (⟨S100000x200, .f32⟩ : BufTy).Contents (Elt F) → (⟨S100000x200, .f32⟩ : BufTy).Contents (Elt F) → (⟨S100000x200, .f32⟩ : BufTy).Contents (Elt F)),
    unary main_v156 main_v157 (Host.tanh : (⟨S100000x200, .f32⟩ : BufTy).Contents (Elt F) → (⟨S100000x200, .f32⟩ : BufTy).Contents (Elt F)),
    binary main_v2 main_arg13 main_v158 ((fun l r => Host.dotGeneral dot_S401x200_S200x200_S401x200_1_0_0_1_n_n none l r) : (⟨S401x200, .f32⟩ : BufTy).Contents (Elt F) → (⟨S200x200, .f32⟩ : BufTy).Contents (Elt F) → (⟨S401x200, .f32⟩ : BufTy).Contents (Elt F)),
    unary main_v158 main_v159 ((extractStridedSlice S400x200 ![0, 0] · slices_S401x200_S400x200_0_0) : (⟨S401x200, .f32⟩ : BufTy).Contents (Elt F) → (⟨S400x200, .f32⟩ : BufTy).Contents (Elt F)),
    binary main_v159 main_arg20 main_v160 ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)),
    binary main_v157 main_v0 main_v161 (addf : (⟨S100000x200, .f32⟩ : BufTy).Contents (Elt F) → (⟨S100000x200, .f32⟩ : BufTy).Contents (Elt F) → (⟨S100000x200, .f32⟩ : BufTy).Contents (Elt F)),
    binary main_v161 main_v1 main_v162 (addf : (⟨S100000x200, .f32⟩ : BufTy).Contents (Elt F) → (⟨S100000x200, .f32⟩ : BufTy).Contents (Elt F) → (⟨S100000x200, .f32⟩ : BufTy).Contents (Elt F)),
    unary main_arg2 main_v163 ((extractStridedSlice S2x200000 ![0, 0] · slices_S2x400000_S2x200000_0_0) : (⟨S2x400000, .i32⟩ : BufTy).Contents (Elt F) → (⟨S2x200000, .i32⟩ : BufTy).Contents (Elt F)),
    unary main_arg3 main_v164 ((extractStridedSlice S200000 ![0] · slices_S400000_S200000_0) : (⟨S400000, .i32⟩ : BufTy).Contents (Elt F) → (⟨S200000, .i32⟩ : BufTy).Contents (Elt F)),
    unary main_v163 main_v165 ((extractStridedSlice S1x200000 ![0, 0] · slices_S2x200000_S1x200000_0_0) : (⟨S2x200000, .i32⟩ : BufTy).Contents (Elt F) → (⟨S1x200000, .i32⟩ : BufTy).Contents (Elt F)),
    reshape main_v165 main_v166 rfl shapeCasts_S1x200000_S200000,
    unary main_v163 main_v167 ((extractStridedSlice S1x200000 ![1, 0] · slices_S2x200000_S1x200000_1_0) : (⟨S2x200000, .i32⟩ : BufTy).Contents (Elt F) → (⟨S1x200000, .i32⟩ : BufTy).Contents (Elt F)),
    reshape main_v167 main_v168 rfl shapeCasts_S1x200000_S200000,
    nullary main_cst_39 (constant S_ .f32 0x00000000#32),
    unary main_cst_39 main_v169 (broadcastInDim S100000 ![] bcast_S_S100000 : (⟨S_, .f32⟩ : BufTy).Contents (Elt F) → (⟨S100000, .f32⟩ : BufTy).Contents (Elt F)),
    nullary main_c_40 (constantI S_ 32 0#32),
    unary main_c_40 main_v170 (broadcastInDim S200000 ![] bcast_S_S200000 : (⟨S_, .i32⟩ : BufTy).Contents (Elt F) → (⟨S200000, .i32⟩ : BufTy).Contents (Elt F)),
    binary main_v166 main_v170 main_v171 (cmpi .slt : (⟨S200000, .i32⟩ : BufTy).Contents (Elt F) → (⟨S200000, .i32⟩ : BufTy).Contents (Elt F) → (⟨S200000, .i1⟩ : BufTy).Contents (Elt F)),
    nullary main_c_41 (constantI S_ 32 100000#32),
    unary main_c_41 main_v172 (broadcastInDim S200000 ![] bcast_S_S200000 : (⟨S_, .i32⟩ : BufTy).Contents (Elt F) → (⟨S200000, .i32⟩ : BufTy).Contents (Elt F)),
    binary main_v166 main_v172 main_v173 (addi : (⟨S200000, .i32⟩ : BufTy).Contents (Elt F) → (⟨S200000, .i32⟩ : BufTy).Contents (Elt F) → (⟨S200000, .i32⟩ : BufTy).Contents (Elt F)),
    ternary main_v171 main_v173 main_v166 main_v174 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v174 main_v175 (broadcastInDim S200000x1 ![0] bcast_S200000_S200000x1_0 : (⟨S200000, .i32⟩ : BufTy).Contents (Elt F) → (⟨S200000x1, .i32⟩ : BufTy).Contents (Elt F)),
    nullary main_cst_42 (constant S_ .f32 0x3F800000#32),
    unary main_cst_42 main_v176 (broadcastInDim S200000 ![] bcast_S_S200000 : (⟨S_, .f32⟩ : BufTy).Contents (Elt F) → (⟨S200000, .f32⟩ : BufTy).Contents (Elt F)),
    ternary main_v169 main_v175 main_v176 main_v177 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_43 (constant S_ .f32 0x00000000#32),
    unary main_cst_43 main_v178 (broadcastInDim S100000 ![] bcast_S_S100000 : (⟨S_, .f32⟩ : BufTy).Contents (Elt F) → (⟨S100000, .f32⟩ : BufTy).Contents (Elt F)),
    binary main_v177 main_v178 main_v179 (cmpf .ogt : (⟨S100000, .f32⟩ : BufTy).Contents (Elt F) → (⟨S100000, .f32⟩ : BufTy).Contents (Elt F) → (⟨S100000, .i1⟩ : BufTy).Contents (Elt F)),
    nullary main_cst_44 (constant S_ .f32 0x3F800000#32),
    unary main_cst_44 main_v180 (broadcastInDim S100000 ![] bcast_S_S100000 : (⟨S_, .f32⟩ : BufTy).Contents (Elt F) → (⟨S100000, .f32⟩ : BufTy).Contents (Elt F)),
    binary main_v177 main_v180 main_v181 (maximumf : (⟨S100000, .f32⟩ : BufTy).Contents (Elt F) → (⟨S100000, .f32⟩ : BufTy).Contents (Elt F) → (⟨S100000, .f32⟩ : BufTy).Contents (Elt F)),
    unary main_v181 main_v182 (Host.rsqrt : (⟨S100000, .f32⟩ : BufTy).Contents (Elt F) → (⟨S100000, .f32⟩ : BufTy).Contents (Elt F)),
    nullary main_cst_45 (constant S_ .f32 0x00000000#32),
    TRef.unary (.of main_cst_45) main_call3.v0 id,
    TRef.unary main_call3.v0 main_call3.v1 (broadcastInDim S100000 ![] bcast_S_S100000),
    TRef.ternary (.of main_v179) (.of main_v182) main_call3.v1 main_call3.v2 select,
    nullary main_c_46 (constantI S_ 32 0#32),
    unary main_c_46 main_v184 (broadcastInDim S200000 ![] bcast_S_S200000 : (⟨S_, .i32⟩ : BufTy).Contents (Elt F) → (⟨S200000, .i32⟩ : BufTy).Contents (Elt F)),
    binary main_v166 main_v184 main_v185 (cmpi .slt : (⟨S200000, .i32⟩ : BufTy).Contents (Elt F) → (⟨S200000, .i32⟩ : BufTy).Contents (Elt F) → (⟨S200000, .i1⟩ : BufTy).Contents (Elt F)),
    nullary main_c_47 (constantI S_ 32 100000#32),
    unary main_c_47 main_v186 (broadcastInDim S200000 ![] bcast_S_S200000 : (⟨S_, .i32⟩ : BufTy).Contents (Elt F) → (⟨S200000, .i32⟩ : BufTy).Contents (Elt F)),
    binary main_v166 main_v186 main_v187 (addi : (⟨S200000, .i32⟩ : BufTy).Contents (Elt F) → (⟨S200000, .i32⟩ : BufTy).Contents (Elt F) → (⟨S200000, .i32⟩ : BufTy).Contents (Elt F)),
    ternary main_v185 main_v187 main_v166 main_v188 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v188 main_v189 (broadcastInDim S200000x1 ![0] bcast_S200000_S200000x1_0 : (⟨S200000, .i32⟩ : BufTy).Contents (Elt F) → (⟨S200000x1, .i32⟩ : BufTy).Contents (Elt F)) ]

set_option maxRecDepth 8192 in
/-- The window is that straight line: both sides are one chain of `hlo` steps once the callees' definitions are unfolded at
    their calls and sequencing is re-associated; the window's last step continued by the empty line's return is the step itself. -/
theorem part3_eq (d : Dev nD) : main_part3 (F := F) d = seq ops3 := by
  simp only [main_part3, fn_var.body, fn_where.body, fn_where_0.body, seq, bind_assoc, pure_bind]
  rfl

theorem ops3_sub : (ops3 : List (HloOp τ sig (Elt F))).Forall fun op => op.bufs ⊆ tcRefs τ sig :=
  ⟨binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., binary_bufs_sub .., unary_bufs_sub ..,
    binary_bufs_sub .., binary_bufs_sub .., binary_bufs_sub .., unary_bufs_sub .., unary_bufs_sub .., unary_bufs_sub ..,
    reshape_bufs_sub .., unary_bufs_sub .., reshape_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-- The references the window writes, one per operation, in order. -/
abbrev W3 : List (Ref sig .tc) :=
  [ main_v143, main_cst_35, main_v144, main_cst_36, main_v145, main_v146, main_c_37, main_call2.cst.ref,
    main_call2.v0.ref, main_call2.v1.ref, main_call2.cst_0.ref, main_call2.v2.ref, main_call2.v3.ref, main_call2.v4.ref, main_call2.v5.ref, main_call2.v6.ref,
    main_call2.v7.ref, main_call2.cst_1.ref, main_call2.v8.ref, main_call2.cst_2.ref, main_call2.v9.ref, main_call2.v10.ref, main_call2.v11.ref, main_call2.cst_3.ref,
    main_call2.v12.ref, main_call2.cst_4.ref, main_call2.call0.v0.ref, main_call2.call0.v1.ref, main_call2.call0.v2.ref, main_v148, main_v149, main_v150,
    main_cst_38, main_v151, main_v152, main_v153, main_v154, main_v155, main_v156, main_v157,
    main_v158, main_v159, main_v160, main_v161, main_v162, main_v163, main_v164, main_v165,
    main_v166, main_v167, main_v168, main_cst_39, main_v169, main_c_40, main_v170, main_v171,
    main_c_41, main_v172, main_v173, main_v174, main_v175, main_cst_42, main_v176, main_v177,
    main_cst_43, main_v178, main_v179, main_cst_44, main_v180, main_v181, main_v182, main_cst_45,
    main_call3.v0.ref, main_call3.v1.ref, main_call3.v2.ref, main_c_46, main_v184, main_v185, main_c_47, main_v186,
    main_v187, main_v188, main_v189 ]

theorem ops3_writes : (ops3 : List (HloOp τ sig (Elt F))).Forall fun op =>
    op.writes ⊆ (W3.map (Proc.devRef (τ := τ) .tc)).toFinset :=
  ⟨writes_sub_of_mem (binary_writes ..) (by decide), writes_sub_of_mem (nullary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (nullary_writes ..) (by decide),
    writes_sub_of_mem (binary_writes ..) (by decide), writes_sub_of_mem (unary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (unary_writes ..) (by decide), writes_sub_of_mem (nullary_writes ..) (by decide),
    writes_sub_of_mem (binary_writes ..) (by decide), writes_sub_of_mem (nullary_writes ..) (by decide),
    writes_sub_of_mem (binary_writes ..) (by decide), writes_sub_of_mem (unary_writes ..) (by decide),
    writes_sub_of_mem (binary_writes ..) (by decide), writes_sub_of_mem (nullary_writes ..) (by decide),
    writes_sub_of_mem (binary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (unary_writes ..) (by decide), writes_sub_of_mem (unary_writes ..) (by decide),
    writes_sub_of_mem (binary_writes ..) (by decide), writes_sub_of_mem (unary_writes ..) (by decide),
    writes_sub_of_mem (binary_writes ..) (by decide), writes_sub_of_mem (unary_writes ..) (by decide),
    writes_sub_of_mem (binary_writes ..) (by decide), writes_sub_of_mem (binary_writes ..) (by decide),
    writes_sub_of_mem (binary_writes ..) (by decide), writes_sub_of_mem (unary_writes ..) (by decide),
    writes_sub_of_mem (unary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (nullary_writes ..) (by decide),
    writes_sub_of_mem (unary_writes ..) (by decide), writes_sub_of_mem (ternary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide)⟩

/-- A reference the window does not write keeps its contents through it. -/
theorem kept3 {r : Ref sig .tc} (hr : r ∉ W3) (V : Valuation τ sig (Elt F)) :
    after ops3 V (Proc.devRef .tc r) = V (Proc.devRef .tc r) :=
  after_of_writes_sub ops3 V ops3_writes hr

end Cert.ReferenceIdeal.HandRun

end
-- ==== Proof.RefOps4.lean ====
/- The reference program's @main, statements 241 … 300 of 419, as a LIST of 60 host operations, and the window equal to the
   list run in order. This window makes no call.
   Beside the list: every operation touches TensorCore references only, determines all it writes, and writes one reference of the
   list `W4`; so a reference outside `W4` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 60 operations, in order. -/
abbrev ops4 : List (HloOp τ sig (Elt F)) :=
  [
    binary main_v183 main_v189 main_v190 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    nullary main_c_48 (constantI S_ 32 0#32),
    unary main_c_48 main_v191 (broadcastInDim S200000 ![] bcast_S_S200000 : (⟨S_, .i32⟩ : BufTy).Contents (Elt F) → (⟨S200000, .i32⟩ : BufTy).Contents (Elt F)),
    binary main_v168 main_v191 main_v192 (cmpi .slt : (⟨S200000, .i32⟩ : BufTy).Contents (Elt F) → (⟨S200000, .i32⟩ : BufTy).Contents (Elt F) → (⟨S200000, .i1⟩ : BufTy).Contents (Elt F)),
    nullary main_c_49 (constantI S_ 32 100000#32),
    unary main_c_49 main_v193 (broadcastInDim S200000 ![] bcast_S_S200000 : (⟨S_, .i32⟩ : BufTy).Contents (Elt F) → (⟨S200000, .i32⟩ : BufTy).Contents (Elt F)),
    binary main_v168 main_v193 main_v194 (addi : (⟨S200000, .i32⟩ : BufTy).Contents (Elt F) → (⟨S200000, .i32⟩ : BufTy).Contents (Elt F) → (⟨S200000, .i32⟩ : BufTy).Contents (Elt F)),
    ternary main_v192 main_v194 main_v168 main_v195 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v195 main_v196 (broadcastInDim S200000x1 ![0] bcast_S200000_S200000x1_0 : (⟨S200000, .i32⟩ : BufTy).Contents (Elt F) → (⟨S200000x1, .i32⟩ : BufTy).Contents (Elt F)),
    binary main_v183 main_v196 main_v197 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    binary main_v190 main_v197 main_v198 (mulf : (⟨S200000, .f32⟩ : BufTy).Contents (Elt F) → (⟨S200000, .f32⟩ : BufTy).Contents (Elt F) → (⟨S200000, .f32⟩ : BufTy).Contents (Elt F)),
    nullary main_c_50 (constantI S_ 32 0#32),
    unary main_c_50 main_v199 (broadcastInDim S200000 ![] bcast_S_S200000 : (⟨S_, .i32⟩ : BufTy).Contents (Elt F) → (⟨S200000, .i32⟩ : BufTy).Contents (Elt F)),
    binary main_v166 main_v199 main_v200 (cmpi .slt : (⟨S200000, .i32⟩ : BufTy).Contents (Elt F) → (⟨S200000, .i32⟩ : BufTy).Contents (Elt F) → (⟨S200000, .i1⟩ : BufTy).Contents (Elt F)),
    nullary main_c_51 (constantI S_ 32 100000#32),
    unary main_c_51 main_v201 (broadcastInDim S200000 ![] bcast_S_S200000 : (⟨S_, .i32⟩ : BufTy).Contents (Elt F) → (⟨S200000, .i32⟩ : BufTy).Contents (Elt F)),
    binary main_v166 main_v201 main_v202 (addi : (⟨S200000, .i32⟩ : BufTy).Contents (Elt F) → (⟨S200000, .i32⟩ : BufTy).Contents (Elt F) → (⟨S200000, .i32⟩ : BufTy).Contents (Elt F)),
    ternary main_v200 main_v202 main_v166 main_v203 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v203 main_v204 (broadcastInDim S200000x1 ![0] bcast_S200000_S200000x1_0 : (⟨S200000, .i32⟩ : BufTy).Contents (Elt F) → (⟨S200000x1, .i32⟩ : BufTy).Contents (Elt F)),
    binary main_v162 main_v204 main_v205 ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)),
    nullary main_c_52 (constantI S_ 32 0#32),
    unary main_c_52 main_v206 (broadcastInDim S200000 ![] bcast_S_S200000 : (⟨S_, .i32⟩ : BufTy).Contents (Elt F) → (⟨S200000, .i32⟩ : BufTy).Contents (Elt F)),
    binary main_v164 main_v206 main_v207 (cmpi .slt : (⟨S200000, .i32⟩ : BufTy).Contents (Elt F) → (⟨S200000, .i32⟩ : BufTy).Contents (Elt F) → (⟨S200000, .i1⟩ : BufTy).Contents (Elt F)),
    nullary main_c_53 (constantI S_ 32 401#32),
    unary main_c_53 main_v208 (broadcastInDim S200000 ![] bcast_S_S200000 : (⟨S_, .i32⟩ : BufTy).Contents (Elt F) → (⟨S200000, .i32⟩ : BufTy).Contents (Elt F)),
    binary main_v164 main_v208 main_v209 (addi : (⟨S200000, .i32⟩ : BufTy).Contents (Elt F) → (⟨S200000, .i32⟩ : BufTy).Contents (Elt F) → (⟨S200000, .i32⟩ : BufTy).Contents (Elt F)),
    ternary main_v207 main_v209 main_v164 main_v210 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v210 main_v211 (broadcastInDim S200000x1 ![0] bcast_S200000_S200000x1_0 : (⟨S200000, .i32⟩ : BufTy).Contents (Elt F) → (⟨S200000x1, .i32⟩ : BufTy).Contents (Elt F)),
    binary main_v160 main_v211 main_v212 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)),
    binary main_v205 main_v212 main_v213 (subf : (⟨S200000x200, .f32⟩ : BufTy).Contents (Elt F) → (⟨S200000x200, .f32⟩ : BufTy).Contents (Elt F) → (⟨S200000x200, .f32⟩ : BufTy).Contents (Elt F)),
    binary main_v213 main_arg16 main_v214 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_v198 main_v215 (broadcastInDim S200000x1 ![0] bcast_S200000_S200000x1_0 : (⟨S200000, .f32⟩ : BufTy).Contents (Elt F) → (⟨S200000x1, .f32⟩ : BufTy).Contents (Elt F)),
    unary main_v215 main_v216 (broadcastInDim S200000x200 ![0, 1] bcast_S200000x1_S200000x200_0_1 : (⟨S200000x1, .f32⟩ : BufTy).Contents (Elt F) → (⟨S200000x200, .f32⟩ : BufTy).Contents (Elt F)),
    binary main_v214 main_v216 main_v217 (mulf : (⟨S200000x200, .f32⟩ : BufTy).Contents (Elt F) → (⟨S200000x200, .f32⟩ : BufTy).Contents (Elt F) → (⟨S200000x200, .f32⟩ : BufTy).Contents (Elt F)),
    nullary main_cst_54 (constant S_ .f32 0x00000000#32),
    unary main_cst_54 main_v218 (broadcastInDim S100000x200 ![] bcast_S_S100000x200 : (⟨S_, .f32⟩ : BufTy).Contents (Elt F) → (⟨S100000x200, .f32⟩ : BufTy).Contents (Elt F)),
    nullary main_c_55 (constantI S_ 32 0#32),
    unary main_c_55 main_v219 (broadcastInDim S200000 ![] bcast_S_S200000 : (⟨S_, .i32⟩ : BufTy).Contents (Elt F) → (⟨S200000, .i32⟩ : BufTy).Contents (Elt F)),
    binary main_v168 main_v219 main_v220 (cmpi .slt : (⟨S200000, .i32⟩ : BufTy).Contents (Elt F) → (⟨S200000, .i32⟩ : BufTy).Contents (Elt F) → (⟨S200000, .i1⟩ : BufTy).Contents (Elt F)),
    nullary main_c_56 (constantI S_ 32 100000#32),
    unary main_c_56 main_v221 (broadcastInDim S200000 ![] bcast_S_S200000 : (⟨S_, .i32⟩ : BufTy).Contents (Elt F) → (⟨S200000, .i32⟩ : BufTy).Contents (Elt F)),
    binary main_v168 main_v221 main_v222 (addi : (⟨S200000, .i32⟩ : BufTy).Contents (Elt F) → (⟨S200000, .i32⟩ : BufTy).Contents (Elt F) → (⟨S200000, .i32⟩ : BufTy).Contents (Elt F)),
    ternary main_v220 main_v222 main_v168 main_v223 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v223 main_v224 (broadcastInDim S200000x1 ![0] bcast_S200000_S200000x1_0 : (⟨S200000, .i32⟩ : BufTy).Contents (Elt F) → (⟨S200000x1, .i32⟩ : BufTy).Contents (Elt F)),
    ternary main_v218 main_v224 main_v217 main_v225 ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)),
    unary main_arg2 main_v226 ((extractStridedSlice S2x200000 ![0, 200000] · slices_S2x400000_S2x200000_0_200000) : (⟨S2x400000, .i32⟩ : BufTy).Contents (Elt F) → (⟨S2x200000, .i32⟩ : BufTy).Contents (Elt F)),
    unary main_arg3 main_v227 ((extractStridedSlice S200000 ![200000] · slices_S400000_S200000_200000) : (⟨S400000, .i32⟩ : BufTy).Contents (Elt F) → (⟨S200000, .i32⟩ : BufTy).Contents (Elt F)),
    unary main_v226 main_v228 ((extractStridedSlice S1x200000 ![0, 0] · slices_S2x200000_S1x200000_0_0) : (⟨S2x200000, .i32⟩ : BufTy).Contents (Elt F) → (⟨S1x200000, .i32⟩ : BufTy).Contents (Elt F)),
    reshape main_v228 main_v229 rfl shapeCasts_S1x200000_S200000,
    unary main_v226 main_v230 ((extractStridedSlice S1x200000 ![1, 0] · slices_S2x200000_S1x200000_1_0) : (⟨S2x200000, .i32⟩ : BufTy).Contents (Elt F) → (⟨S1x200000, .i32⟩ : BufTy).Contents (Elt F)),
    reshape main_v230 main_v231 rfl shapeCasts_S1x200000_S200000,
    nullary main_cst_57 (constant S_ .f32 0x00000000#32),
    unary main_cst_57 main_v232 (broadcastInDim S100000 ![] bcast_S_S100000 : (⟨S_, .f32⟩ : BufTy).Contents (Elt F) → (⟨S100000, .f32⟩ : BufTy).Contents (Elt F)),
    nullary main_c_58 (constantI S_ 32 0#32),
    unary main_c_58 main_v233 (broadcastInDim S200000 ![] bcast_S_S200000 : (⟨S_, .i32⟩ : BufTy).Contents (Elt F) → (⟨S200000, .i32⟩ : BufTy).Contents (Elt F)),
    binary main_v229 main_v233 main_v234 (cmpi .slt : (⟨S200000, .i32⟩ : BufTy).Contents (Elt F) → (⟨S200000, .i32⟩ : BufTy).Contents (Elt F) → (⟨S200000, .i1⟩ : BufTy).Contents (Elt F)),
    nullary main_c_59 (constantI S_ 32 100000#32),
    unary main_c_59 main_v235 (broadcastInDim S200000 ![] bcast_S_S200000 : (⟨S_, .i32⟩ : BufTy).Contents (Elt F) → (⟨S200000, .i32⟩ : BufTy).Contents (Elt F)),
    binary main_v229 main_v235 main_v236 (addi : (⟨S200000, .i32⟩ : BufTy).Contents (Elt F) → (⟨S200000, .i32⟩ : BufTy).Contents (Elt F) → (⟨S200000, .i32⟩ : BufTy).Contents (Elt F)),
    ternary main_v234 main_v236 main_v229 main_v237 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) ]

set_option maxRecDepth 8192 in
/-- The window is that straight line: both sides are one chain of `hlo` steps once the callees' definitions are unfolded at
    their calls and sequencing is re-associated; the window's last step continued by the empty line's return is the step itself. -/
theorem part4_eq (d : Dev nD) : main_part4 (F := F) d = seq ops4 := by
  simp only [main_part4, seq, bind_assoc, pure_bind]
  rfl

theorem ops4_sub : (ops4 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., unary_bufs_sub .., unary_bufs_sub ..,
    reshape_bufs_sub .., unary_bufs_sub .., reshape_bufs_sub .., nullary_bufs_sub .., unary_bufs_sub .., nullary_bufs_sub ..,
    unary_bufs_sub .., binary_bufs_sub .., nullary_bufs_sub .., unary_bufs_sub .., binary_bufs_sub .., ternary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- The references the window writes, one per operation, in order. -/
abbrev W4 : List (Ref sig .tc) :=
  [ main_v190, main_c_48, main_v191, main_v192, main_c_49, main_v193, main_v194, main_v195,
    main_v196, main_v197, main_v198, main_c_50, main_v199, main_v200, main_c_51, main_v201,
    main_v202, main_v203, main_v204, main_v205, main_c_52, main_v206, main_v207, main_c_53,
    main_v208, main_v209, main_v210, main_v211, main_v212, main_v213, main_v214, main_v215,
    main_v216, main_v217, main_cst_54, main_v218, main_c_55, main_v219, main_v220, main_c_56,
    main_v221, main_v222, main_v223, main_v224, main_v225, main_v226, main_v227, main_v228,
    main_v229, main_v230, main_v231, main_cst_57, main_v232, main_c_58, main_v233, main_v234,
    main_c_59, main_v235, main_v236, main_v237 ]

theorem ops4_writes : (ops4 : List (HloOp τ sig (Elt F))).Forall fun op =>
    op.writes ⊆ (W4.map (Proc.devRef (τ := τ) .tc)).toFinset :=
  ⟨writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide), writes_sub_of_mem (binary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (ternary_writes ..) (by decide), writes_sub_of_mem (unary_writes ..) (by decide),
    writes_sub_of_mem (unary_writes ..) (by decide), writes_sub_of_mem (unary_writes ..) (by decide),
    writes_sub_of_mem (reshape_writes ..) (by decide), writes_sub_of_mem (unary_writes ..) (by decide),
    writes_sub_of_mem (reshape_writes ..) (by decide), writes_sub_of_mem (nullary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide)⟩

/-- A reference the window does not write keeps its contents through it. -/
theorem kept4 {r : Ref sig .tc} (hr : r ∉ W4) (V : Valuation τ sig (Elt F)) :
    after ops4 V (Proc.devRef .tc r) = V (Proc.devRef .tc r) :=
  after_of_writes_sub ops4 V ops4_writes hr

end Cert.ReferenceIdeal.HandRun

end
-- ==== Proof.RefOps5.lean ====
/- The reference program's @main, statements 301 … 360 of 419, as a LIST of 62 host operations, and the window equal to the
   list run in order. Each call of an outlined function is replaced by that function's operations in order, its parameters the call's operands and its
   values the fields of the call's buffer record (a call inside the callee likewise, over the nested record); the callee returns one
   of those buffers, so a call adds no copy.
   Beside the list: every operation touches TensorCore references only, determines all it writes, and writes one reference of the
   list `W5`; so a reference outside `W5` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 62 operations, in order. -/
abbrev ops5 : List (HloOp τ sig (Elt F)) :=
  [
    unary main_v237 main_v238 (broadcastInDim S200000x1 ![0] bcast_S200000_S200000x1_0 : (⟨S200000, .i32⟩ : BufTy).Contents (Elt F) → (⟨S200000x1, .i32⟩ : BufTy).Contents (Elt F)),
    nullary main_cst_60 (constant S_ .f32 0x3F800000#32),
    unary main_cst_60 main_v239 (broadcastInDim S200000 ![] bcast_S_S200000 : (⟨S_, .f32⟩ : BufTy).Contents (Elt F) → (⟨S200000, .f32⟩ : BufTy).Contents (Elt F)),
    ternary main_v232 main_v238 main_v239 main_v240 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_cst_61 (constant S_ .f32 0x00000000#32),
    unary main_cst_61 main_v241 (broadcastInDim S100000 ![] bcast_S_S100000 : (⟨S_, .f32⟩ : BufTy).Contents (Elt F) → (⟨S100000, .f32⟩ : BufTy).Contents (Elt F)),
    binary main_v240 main_v241 main_v242 (cmpf .ogt : (⟨S100000, .f32⟩ : BufTy).Contents (Elt F) → (⟨S100000, .f32⟩ : BufTy).Contents (Elt F) → (⟨S100000, .i1⟩ : BufTy).Contents (Elt F)),
    nullary main_cst_62 (constant S_ .f32 0x3F800000#32),
    unary main_cst_62 main_v243 (broadcastInDim S100000 ![] bcast_S_S100000 : (⟨S_, .f32⟩ : BufTy).Contents (Elt F) → (⟨S100000, .f32⟩ : BufTy).Contents (Elt F)),
    binary main_v240 main_v243 main_v244 (maximumf : (⟨S100000, .f32⟩ : BufTy).Contents (Elt F) → (⟨S100000, .f32⟩ : BufTy).Contents (Elt F) → (⟨S100000, .f32⟩ : BufTy).Contents (Elt F)),
    unary main_v244 main_v245 (Host.rsqrt : (⟨S100000, .f32⟩ : BufTy).Contents (Elt F) → (⟨S100000, .f32⟩ : BufTy).Contents (Elt F)),
    nullary main_cst_63 (constant S_ .f32 0x00000000#32),
    TRef.unary (.of main_cst_63) main_call4.v0 id,
    TRef.unary main_call4.v0 main_call4.v1 (broadcastInDim S100000 ![] bcast_S_S100000),
    TRef.ternary (.of main_v242) (.of main_v245) main_call4.v1 main_call4.v2 select,
    nullary main_c_64 (constantI S_ 32 0#32),
    unary main_c_64 main_v247 (broadcastInDim S200000 ![] bcast_S_S200000 : (⟨S_, .i32⟩ : BufTy).Contents (Elt F) → (⟨S200000, .i32⟩ : BufTy).Contents (Elt F)),
    binary main_v229 main_v247 main_v248 (cmpi .slt : (⟨S200000, .i32⟩ : BufTy).Contents (Elt F) → (⟨S200000, .i32⟩ : BufTy).Contents (Elt F) → (⟨S200000, .i1⟩ : BufTy).Contents (Elt F)),
    nullary main_c_65 (constantI S_ 32 100000#32),
    unary main_c_65 main_v249 (broadcastInDim S200000 ![] bcast_S_S200000 : (⟨S_, .i32⟩ : BufTy).Contents (Elt F) → (⟨S200000, .i32⟩ : BufTy).Contents (Elt F)),
    binary main_v229 main_v249 main_v250 (addi : (⟨S200000, .i32⟩ : BufTy).Contents (Elt F) → (⟨S200000, .i32⟩ : BufTy).Contents (Elt F) → (⟨S200000, .i32⟩ : BufTy).Contents (Elt F)),
    ternary main_v248 main_v250 main_v229 main_v251 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v251 main_v252 (broadcastInDim S200000x1 ![0] bcast_S200000_S200000x1_0 : (⟨S200000, .i32⟩ : BufTy).Contents (Elt F) → (⟨S200000x1, .i32⟩ : BufTy).Contents (Elt F)),
    binary main_v246 main_v252 main_v253 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    nullary main_c_66 (constantI S_ 32 0#32),
    unary main_c_66 main_v254 (broadcastInDim S200000 ![] bcast_S_S200000 : (⟨S_, .i32⟩ : BufTy).Contents (Elt F) → (⟨S200000, .i32⟩ : BufTy).Contents (Elt F)),
    binary main_v231 main_v254 main_v255 (cmpi .slt : (⟨S200000, .i32⟩ : BufTy).Contents (Elt F) → (⟨S200000, .i32⟩ : BufTy).Contents (Elt F) → (⟨S200000, .i1⟩ : BufTy).Contents (Elt F)),
    nullary main_c_67 (constantI S_ 32 100000#32),
    unary main_c_67 main_v256 (broadcastInDim S200000 ![] bcast_S_S200000 : (⟨S_, .i32⟩ : BufTy).Contents (Elt F) → (⟨S200000, .i32⟩ : BufTy).Contents (Elt F)),
    binary main_v231 main_v256 main_v257 (addi : (⟨S200000, .i32⟩ : BufTy).Contents (Elt F) → (⟨S200000, .i32⟩ : BufTy).Contents (Elt F) → (⟨S200000, .i32⟩ : BufTy).Contents (Elt F)),
    ternary main_v255 main_v257 main_v231 main_v258 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v258 main_v259 (broadcastInDim S200000x1 ![0] bcast_S200000_S200000x1_0 : (⟨S200000, .i32⟩ : BufTy).Contents (Elt F) → (⟨S200000x1, .i32⟩ : BufTy).Contents (Elt F)),
    binary main_v246 main_v259 main_v260 ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)),
    binary main_v253 main_v260 main_v261 (mulf : (⟨S200000, .f32⟩ : BufTy).Contents (Elt F) → (⟨S200000, .f32⟩ : BufTy).Contents (Elt F) → (⟨S200000, .f32⟩ : BufTy).Contents (Elt F)),
    nullary main_c_68 (constantI S_ 32 0#32),
    unary main_c_68 main_v262 (broadcastInDim S200000 ![] bcast_S_S200000 : (⟨S_, .i32⟩ : BufTy).Contents (Elt F) → (⟨S200000, .i32⟩ : BufTy).Contents (Elt F)),
    binary main_v229 main_v262 main_v263 (cmpi .slt : (⟨S200000, .i32⟩ : BufTy).Contents (Elt F) → (⟨S200000, .i32⟩ : BufTy).Contents (Elt F) → (⟨S200000, .i1⟩ : BufTy).Contents (Elt F)),
    nullary main_c_69 (constantI S_ 32 100000#32),
    unary main_c_69 main_v264 (broadcastInDim S200000 ![] bcast_S_S200000 : (⟨S_, .i32⟩ : BufTy).Contents (Elt F) → (⟨S200000, .i32⟩ : BufTy).Contents (Elt F)),
    binary main_v229 main_v264 main_v265 (addi : (⟨S200000, .i32⟩ : BufTy).Contents (Elt F) → (⟨S200000, .i32⟩ : BufTy).Contents (Elt F) → (⟨S200000, .i32⟩ : BufTy).Contents (Elt F)),
    ternary main_v263 main_v265 main_v229 main_v266 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v266 main_v267 (broadcastInDim S200000x1 ![0] bcast_S200000_S200000x1_0 : (⟨S200000, .i32⟩ : BufTy).Contents (Elt F) → (⟨S200000x1, .i32⟩ : BufTy).Contents (Elt F)),
    binary main_v162 main_v267 main_v268 ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)),
    nullary main_c_70 (constantI S_ 32 0#32),
    unary main_c_70 main_v269 (broadcastInDim S200000 ![] bcast_S_S200000 : (⟨S_, .i32⟩ : BufTy).Contents (Elt F) → (⟨S200000, .i32⟩ : BufTy).Contents (Elt F)),
    binary main_v227 main_v269 main_v270 (cmpi .slt : (⟨S200000, .i32⟩ : BufTy).Contents (Elt F) → (⟨S200000, .i32⟩ : BufTy).Contents (Elt F) → (⟨S200000, .i1⟩ : BufTy).Contents (Elt F)),
    nullary main_c_71 (constantI S_ 32 401#32),
    unary main_c_71 main_v271 (broadcastInDim S200000 ![] bcast_S_S200000 : (⟨S_, .i32⟩ : BufTy).Contents (Elt F) → (⟨S200000, .i32⟩ : BufTy).Contents (Elt F)),
    binary main_v227 main_v271 main_v272 (addi : (⟨S200000, .i32⟩ : BufTy).Contents (Elt F) → (⟨S200000, .i32⟩ : BufTy).Contents (Elt F) → (⟨S200000, .i32⟩ : BufTy).Contents (Elt F)),
    ternary main_v270 main_v272 main_v227 main_v273 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v273 main_v274 (broadcastInDim S200000x1 ![0] bcast_S200000_S200000x1_0 : (⟨S200000, .i32⟩ : BufTy).Contents (Elt F) → (⟨S200000x1, .i32⟩ : BufTy).Contents (Elt F)),
    binary main_v160 main_v274 main_v275 ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)),
    binary main_v268 main_v275 main_v276 (subf : (⟨S200000x200, .f32⟩ : BufTy).Contents (Elt F) → (⟨S200000x200, .f32⟩ : BufTy).Contents (Elt F) → (⟨S200000x200, .f32⟩ : BufTy).Contents (Elt F)),
    binary main_v276 main_arg17 main_v277 ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F)),
    unary main_v261 main_v278 (broadcastInDim S200000x1 ![0] bcast_S200000_S200000x1_0 : (⟨S200000, .f32⟩ : BufTy).Contents (Elt F) → (⟨S200000x1, .f32⟩ : BufTy).Contents (Elt F)),
    unary main_v278 main_v279 (broadcastInDim S200000x200 ![0, 1] bcast_S200000x1_S200000x200_0_1 : (⟨S200000x1, .f32⟩ : BufTy).Contents (Elt F) → (⟨S200000x200, .f32⟩ : BufTy).Contents (Elt F)),
    binary main_v277 main_v279 main_v280 (mulf : (⟨S200000x200, .f32⟩ : BufTy).Contents (Elt F) → (⟨S200000x200, .f32⟩ : BufTy).Contents (Elt F) → (⟨S200000x200, .f32⟩ : BufTy).Contents (Elt F)),
    nullary main_cst_72 (constant S_ .f32 0x00000000#32),
    unary main_cst_72 main_v281 (broadcastInDim S100000x200 ![] bcast_S_S100000x200 : (⟨S_, .f32⟩ : BufTy).Contents (Elt F) → (⟨S100000x200, .f32⟩ : BufTy).Contents (Elt F)),
    nullary main_c_73 (constantI S_ 32 0#32),
    unary main_c_73 main_v282 (broadcastInDim S200000 ![] bcast_S_S200000 : (⟨S_, .i32⟩ : BufTy).Contents (Elt F) → (⟨S200000, .i32⟩ : BufTy).Contents (Elt F)),
    binary main_v231 main_v282 main_v283 (cmpi .slt : (⟨S200000, .i32⟩ : BufTy).Contents (Elt F) → (⟨S200000, .i32⟩ : BufTy).Contents (Elt F) → (⟨S200000, .i1⟩ : BufTy).Contents (Elt F)) ]

set_option maxRecDepth 8192 in
/-- The window is that straight line: both sides are one chain of `hlo` steps once the callees' definitions are unfolded at
    their calls and sequencing is re-associated; the window's last step continued by the empty line's return is the step itself. -/
theorem part5_eq (d : Dev nD) : main_part5 (F := F) d = seq ops5 := by
  simp only [main_part5, fn_where.body, seq, bind_assoc, pure_bind]
  rfl

theorem ops5_sub : (ops5 : List (HloOp τ sig (Elt F))).Forall fun op => op.bufs ⊆ tcRefs τ sig :=
  ⟨unary_bufs_sub .., nullary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., nullary_bufs_sub ..,
    unary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The references the window writes, one per operation, in order. -/
abbrev W5 : List (Ref sig .tc) :=
  [ main_v238, main_cst_60, main_v239, main_v240, main_cst_61, main_v241, main_v242, main_cst_62,
    main_v243, main_v244, main_v245, main_cst_63, main_call4.v0.ref, main_call4.v1.ref, main_call4.v2.ref, main_c_64,
    main_v247, main_v248, main_c_65, main_v249, main_v250, main_v251, main_v252, main_v253,
    main_c_66, main_v254, main_v255, main_c_67, main_v256, main_v257, main_v258, main_v259,
    main_v260, main_v261, main_c_68, main_v262, main_v263, main_c_69, main_v264, main_v265,
    main_v266, main_v267, main_v268, main_c_70, main_v269, main_v270, main_c_71, main_v271,
    main_v272, main_v273, main_v274, main_v275, main_v276, main_v277, main_v278, main_v279,
    main_v280, main_cst_72, main_v281, main_c_73, main_v282, main_v283 ]

theorem ops5_writes : (ops5 : List (HloOp τ sig (Elt F))).Forall fun op =>
    op.writes ⊆ (W5.map (Proc.devRef (τ := τ) .tc)).toFinset :=
  ⟨writes_sub_of_mem (unary_writes ..) (by decide), writes_sub_of_mem (nullary_writes ..) (by decide),
    writes_sub_of_mem (unary_writes ..) (by decide), writes_sub_of_mem (ternary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (nullary_writes ..) (by decide),
    writes_sub_of_mem (unary_writes ..) (by decide), writes_sub_of_mem (unary_writes ..) (by decide),
    writes_sub_of_mem (ternary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (binary_writes ..) (by decide), writes_sub_of_mem (binary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (nullary_writes ..) (by decide),
    writes_sub_of_mem (unary_writes ..) (by decide), writes_sub_of_mem (binary_writes ..) (by decide)⟩

/-- A reference the window does not write keeps its contents through it. -/
theorem kept5 {r : Ref sig .tc} (hr : r ∉ W5) (V : Valuation τ sig (Elt F)) :
    after ops5 V (Proc.devRef .tc r) = V (Proc.devRef .tc r) :=
  after_of_writes_sub ops5 V ops5_writes hr

end Cert.ReferenceIdeal.HandRun

end
-- ==== Proof.RefOps6.lean ====
/- The reference program's @main, statements 361 … 419 of 419, as a LIST of 79 host operations, and the window equal to the
   list run in order. Each call of an outlined function is replaced by that function's operations in order, its parameters the call's operands and its
   values the fields of the call's buffer record (a call inside the callee likewise, over the nested record); the callee returns one
   of those buffers, so a call adds no copy.
   Beside the list: every operation touches TensorCore references only, determines all it writes, and writes one reference of the
   list `W6`; so a reference outside `W6` holds after the window what it held before. -/
import proofs.«103573_j30391188587216_1_alg».proof.Proof.Gen.ReferenceIdeal
import proofs.«103573_j30391188587216_1_alg».proof.Proof.LibSeq
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- The window's 79 operations, in order. -/
abbrev ops6 : List (HloOp τ sig (Elt F)) :=
  [
    nullary main_c_74 (constantI S_ 32 100000#32),
    unary main_c_74 main_v284 (broadcastInDim S200000 ![] bcast_S_S200000 : (⟨S_, .i32⟩ : BufTy).Contents (Elt F) → (⟨S200000, .i32⟩ : BufTy).Contents (Elt F)),
    binary main_v231 main_v284 main_v285 (addi : (⟨S200000, .i32⟩ : BufTy).Contents (Elt F) → (⟨S200000, .i32⟩ : BufTy).Contents (Elt F) → (⟨S200000, .i32⟩ : BufTy).Contents (Elt F)),
    ternary main_v283 main_v285 main_v231 main_v286 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v286 main_v287 (broadcastInDim S200000x1 ![0] bcast_S200000_S200000x1_0 : (⟨S200000, .i32⟩ : BufTy).Contents (Elt F) → (⟨S200000x1, .i32⟩ : BufTy).Contents (Elt F)),
    ternary main_v281 main_v287 main_v280 main_v288 ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)),
    unary main_v160 main_v289 ((extractStridedSlice S1x200 ![400, 0] · slices_S401x200_S1x200_400_0) : (⟨S401x200, .f32⟩ : BufTy).Contents (Elt F) → (⟨S1x200, .f32⟩ : BufTy).Contents (Elt F)),
    reshape main_v289 main_v290 rfl shapeCasts_S1x200_S200,
    unary main_v290 main_v291 (broadcastInDim S1x200 ![1] bcast_S200_S1x200_1 : (⟨S200, .f32⟩ : BufTy).Contents (Elt F) → (⟨S1x200, .f32⟩ : BufTy).Contents (Elt F)),
    unary main_v291 main_v292 (broadcastInDim S100000x200 ![0, 1] bcast_S1x200_S100000x200_0_1 : (⟨S1x200, .f32⟩ : BufTy).Contents (Elt F) → (⟨S100000x200, .f32⟩ : BufTy).Contents (Elt F)),
    binary main_v162 main_v292 main_v293 (subf : (⟨S100000x200, .f32⟩ : BufTy).Contents (Elt F) → (⟨S100000x200, .f32⟩ : BufTy).Contents (Elt F) → (⟨S100000x200, .f32⟩ : BufTy).Contents (Elt F)),
    binary main_v293 main_arg18 main_v294 ((fun l r => Host.dotGeneral dot_S100000x200_S200x200_S100000x200_1_0_0_1_n_n none l r) : (⟨S100000x200, .f32⟩ : BufTy).Contents (Elt F) → (⟨S200x200, .f32⟩ : BufTy).Contents (Elt F) → (⟨S100000x200, .f32⟩ : BufTy).Contents (Elt F)),
    binary main_v225 main_v288 main_v295 (addf : (⟨S100000x200, .f32⟩ : BufTy).Contents (Elt F) → (⟨S100000x200, .f32⟩ : BufTy).Contents (Elt F) → (⟨S100000x200, .f32⟩ : BufTy).Contents (Elt F)),
    binary main_v295 main_v294 main_v296 (addf : (⟨S100000x200, .f32⟩ : BufTy).Contents (Elt F) → (⟨S100000x200, .f32⟩ : BufTy).Contents (Elt F) → (⟨S100000x200, .f32⟩ : BufTy).Contents (Elt F)),
    nullary main_cst_75 (constant S_ .f32 0x3EAAAAAB#32),
    unary main_cst_75 main_v297 (broadcastInDim S100000x200 ![] bcast_S_S100000x200 : (⟨S_, .f32⟩ : BufTy).Contents (Elt F) → (⟨S100000x200, .f32⟩ : BufTy).Contents (Elt F)),
    binary main_v296 main_v297 main_v298 (mulf : (⟨S100000x200, .f32⟩ : BufTy).Contents (Elt F) → (⟨S100000x200, .f32⟩ : BufTy).Contents (Elt F) → (⟨S100000x200, .f32⟩ : BufTy).Contents (Elt F)),
    unary main_arg21 main_v299 (broadcastInDim S1x200 ![1] bcast_S200_S1x200_1 : (⟨S200, .f32⟩ : BufTy).Contents (Elt F) → (⟨S1x200, .f32⟩ : BufTy).Contents (Elt F)),
    unary main_v299 main_v300 (broadcastInDim S100000x200 ![0, 1] bcast_S1x200_S100000x200_0_1 : (⟨S1x200, .f32⟩ : BufTy).Contents (Elt F) → (⟨S100000x200, .f32⟩ : BufTy).Contents (Elt F)),
    binary main_v298 main_v300 main_v301 (addf : (⟨S100000x200, .f32⟩ : BufTy).Contents (Elt F) → (⟨S100000x200, .f32⟩ : BufTy).Contents (Elt F) → (⟨S100000x200, .f32⟩ : BufTy).Contents (Elt F)),
    nullary main_cst_76 (constant S_ .f32 0x00000000#32),
    binary main_v301 main_cst_76 main_v302 ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F)),
    nullary main_cst_77 (constant S_ .f32 0x47C35000#32),
    unary main_cst_77 main_v303 (broadcastInDim S200 ![] bcast_S_S200 : (⟨S_, .f32⟩ : BufTy).Contents (Elt F) → (⟨S200, .f32⟩ : BufTy).Contents (Elt F)),
    binary main_v302 main_v303 main_v304 (Host.divf : (⟨S200, .f32⟩ : BufTy).Contents (Elt F) → (⟨S200, .f32⟩ : BufTy).Contents (Elt F) → (⟨S200, .f32⟩ : BufTy).Contents (Elt F)),
    nullary main_c_78 (constantI S_ 32 0#32),
    TRef.nullary main_call5.cst (constant S_ .f32 0x00000000#32),
    TRef.binary (.of main_v301) main_call5.cst main_call5.v0 (fun x v => Host.reduceAdd x v reducesTo_S100000x200_S200_d0 h_S_),
    TRef.unary main_call5.v0 main_call5.v1 (broadcastInDim S1x200 ![1] bcast_S200_S1x200_1),
    TRef.nullary main_call5.cst_0 (constant S_ .f32 0x47C35000#32),
    TRef.unary main_call5.cst_0 main_call5.v2 (broadcastInDim S1x200 ![] bcast_S_S1x200),
    TRef.binary main_call5.v1 main_call5.v2 main_call5.v3 Host.divf,
    TRef.unary main_call5.v3 main_call5.v4 (broadcastInDim S100000x200 ![0, 1] bcast_S1x200_S100000x200_0_1),
    TRef.binary (.of main_v301) main_call5.v4 main_call5.v5 subf,
    TRef.binary main_call5.v5 main_call5.v5 main_call5.v6 mulf,
    TRef.unary (.of main_c_78) main_call5.v7 (sitofp .f32),
    TRef.nullary main_call5.cst_1 (constant S_ .f32 0x47C35000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S100000x200_S200_d0 h_S_),
    TRef.unary main_call5.v8 main_call5.v10 (broadcastInDim S200 ![] bcast_S_S200),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S200 ![] bcast_S_S200),
    TRef.ternary main_call5.v12 main_call5.v11 main_call5.call0.v1 main_call5.call0.v2 (fun p a b => select (broadcastInDim S200 ![] bcast_S_S200 p) a b),
    unary main_v304 main_v306 (broadcastInDim S1x200 ![1] bcast_S200_S1x200_1 : (⟨S200, .f32⟩ : BufTy).Contents (Elt F) → (⟨S1x200, .f32⟩ : BufTy).Contents (Elt F)),
    unary main_v306 main_v307 (broadcastInDim S100000x200 ![0, 1] bcast_S1x200_S100000x200_0_1 : (⟨S1x200, .f32⟩ : BufTy).Contents (Elt F) → (⟨S100000x200, .f32⟩ : BufTy).Contents (Elt F)),
    binary main_v301 main_v307 main_v308 (subf : (⟨S100000x200, .f32⟩ : BufTy).Contents (Elt F) → (⟨S100000x200, .f32⟩ : BufTy).Contents (Elt F) → (⟨S100000x200, .f32⟩ : BufTy).Contents (Elt F)),
    nullary main_cst_79 (constant S_ .f32 0x3727C5AC#32),
    unary main_cst_79 main_v309 (broadcastInDim S200 ![] bcast_S_S200 : (⟨S_, .f32⟩ : BufTy).Contents (Elt F) → (⟨S200, .f32⟩ : BufTy).Contents (Elt F)),
    binary main_v305 main_v309 main_v310 (addf : (⟨S200, .f32⟩ : BufTy).Contents (Elt F) → (⟨S200, .f32⟩ : BufTy).Contents (Elt F) → (⟨S200, .f32⟩ : BufTy).Contents (Elt F)),
    unary main_v310 main_v311 (Host.rsqrt : (⟨S200, .f32⟩ : BufTy).Contents (Elt F) → (⟨S200, .f32⟩ : BufTy).Contents (Elt F)),
    unary main_v311 main_v312 (broadcastInDim S1x200 ![1] bcast_S200_S1x200_1 : (⟨S200, .f32⟩ : BufTy).Contents (Elt F) → (⟨S1x200, .f32⟩ : BufTy).Contents (Elt F)),
    unary main_v312 main_v313 (broadcastInDim S100000x200 ![0, 1] bcast_S1x200_S100000x200_0_1 : (⟨S1x200, .f32⟩ : BufTy).Contents (Elt F) → (⟨S100000x200, .f32⟩ : BufTy).Contents (Elt F)),
    binary main_v308 main_v313 main_v314 (mulf : (⟨S100000x200, .f32⟩ : BufTy).Contents (Elt F) → (⟨S100000x200, .f32⟩ : BufTy).Contents (Elt F) → (⟨S100000x200, .f32⟩ : BufTy).Contents (Elt F)),
    unary main_v314 main_v315 (Host.tanh : (⟨S100000x200, .f32⟩ : BufTy).Contents (Elt F) → (⟨S100000x200, .f32⟩ : BufTy).Contents (Elt F)),
    binary main_v160 main_arg19 main_v316 ((fun l r => Host.dotGeneral dot_S401x200_S200x200_S401x200_1_0_0_1_n_n none l r) : (⟨S401x200, .f32⟩ : BufTy).Contents (Elt F) → (⟨S200x200, .f32⟩ : BufTy).Contents (Elt F) → (⟨S401x200, .f32⟩ : BufTy).Contents (Elt F)),
    unary main_v316 main_v317 ((extractStridedSlice S400x200 ![0, 0] · slices_S401x200_S400x200_0_0) : (⟨S401x200, .f32⟩ : BufTy).Contents (Elt F) → (⟨S400x200, .f32⟩ : BufTy).Contents (Elt F)),
    nullary main_c_80 (constantI S_ 32 0#32),
    unary main_c_80 main_v318 (broadcastInDim S2048 ![] bcast_S_S2048 : (⟨S_, .i32⟩ : BufTy).Contents (Elt F) → (⟨S2048, .i32⟩ : BufTy).Contents (Elt F)),
    binary main_arg0 main_v318 main_v319 (cmpi .slt : (⟨S2048, .i32⟩ : BufTy).Contents (Elt F) → (⟨S2048, .i32⟩ : BufTy).Contents (Elt F) → (⟨S2048, .i1⟩ : BufTy).Contents (Elt F)),
    nullary main_c_81 (constantI S_ 32 100000#32),
    unary main_c_81 main_v320 (broadcastInDim S2048 ![] bcast_S_S2048 : (⟨S_, .i32⟩ : BufTy).Contents (Elt F) → (⟨S2048, .i32⟩ : BufTy).Contents (Elt F)),
    binary main_arg0 main_v320 main_v321 (addi : (⟨S2048, .i32⟩ : BufTy).Contents (Elt F) → (⟨S2048, .i32⟩ : BufTy).Contents (Elt F) → (⟨S2048, .i32⟩ : BufTy).Contents (Elt F)),
    ternary main_v319 main_v321 main_arg0 main_v322 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v322 main_v323 (broadcastInDim S2048x1 ![0] bcast_S2048_S2048x1_0 : (⟨S2048, .i32⟩ : BufTy).Contents (Elt F) → (⟨S2048x1, .i32⟩ : BufTy).Contents (Elt F)),
    binary main_v315 main_v323 main_v324 ((fun x i => Host.gather gather_S100000x200_S2048x1_S2048x200_1_0_n_n_0_1_1200 x i) : (⟨S100000x200, .f32⟩ : BufTy).Contents (Elt F) → (⟨S2048x1, .i32⟩ : BufTy).Contents (Elt F) → (⟨S2048x200, .f32⟩ : BufTy).Contents (Elt F)),
    nullary main_c_82 (constantI S_ 32 0#32),
    unary main_c_82 main_v325 (broadcastInDim S2048 ![] bcast_S_S2048 : (⟨S_, .i32⟩ : BufTy).Contents (Elt F) → (⟨S2048, .i32⟩ : BufTy).Contents (Elt F)),
    binary main_arg1 main_v325 main_v326 (cmpi .slt : (⟨S2048, .i32⟩ : BufTy).Contents (Elt F) → (⟨S2048, .i32⟩ : BufTy).Contents (Elt F) → (⟨S2048, .i1⟩ : BufTy).Contents (Elt F)),
    nullary main_c_83 (constantI S_ 32 400#32),
    unary main_c_83 main_v327 (broadcastInDim S2048 ![] bcast_S_S2048 : (⟨S_, .i32⟩ : BufTy).Contents (Elt F) → (⟨S2048, .i32⟩ : BufTy).Contents (Elt F)),
    binary main_arg1 main_v327 main_v328 (addi : (⟨S2048, .i32⟩ : BufTy).Contents (Elt F) → (⟨S2048, .i32⟩ : BufTy).Contents (Elt F) → (⟨S2048, .i32⟩ : BufTy).Contents (Elt F)),
    ternary main_v326 main_v328 main_arg1 main_v329 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v329 main_v330 (broadcastInDim S2048x1 ![0] bcast_S2048_S2048x1_0 : (⟨S2048, .i32⟩ : BufTy).Contents (Elt F) → (⟨S2048x1, .i32⟩ : BufTy).Contents (Elt F)),
    binary main_v317 main_v330 main_v331 ((fun x i => Host.gather gather_S400x200_S2048x1_S2048x200_1_0_n_n_0_1_1200 x i) : (⟨S400x200, .f32⟩ : BufTy).Contents (Elt F) → (⟨S2048x1, .i32⟩ : BufTy).Contents (Elt F) → (⟨S2048x200, .f32⟩ : BufTy).Contents (Elt F)) ]

set_option maxRecDepth 8192 in
/-- The window is that straight line: both sides are one chain of `hlo` steps once the callees' definitions are unfolded at
    their calls and sequencing is re-associated (this window ends in @main's return, as the list's run does). -/
theorem part6_eq (d : Dev nD) : main_part6 (F := F) d = seq ops6 := by
  simp only [main_part6, fn_var.body, fn_where_0.body, seq, bind_assoc, pure_bind]

theorem ops6_sub : (ops6 : List (HloOp τ sig (Elt F))).Forall fun op => op.bufs ⊆ tcRefs τ sig :=
  ⟨nullary_bufs_sub .., unary_bufs_sub .., binary_bufs_sub .., ternary_bufs_sub .., unary_bufs_sub .., ternary_bufs_sub ..,
    unary_bufs_sub .., reshape_bufs_sub .., unary_bufs_sub .., unary_bufs_sub .., binary_bufs_sub .., binary_bufs_sub ..,
    binary_bufs_sub .., binary_bufs_sub .., nullary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

/-- The references the window writes, one per operation, in order. -/
abbrev W6 : List (Ref sig .tc) :=
  [ main_c_74, main_v284, main_v285, main_v286, main_v287, main_v288, main_v289, main_v290,
    main_v291, main_v292, main_v293, main_v294, main_v295, main_v296, main_cst_75, main_v297,
    main_v298, main_v299, main_v300, main_v301, main_cst_76, main_v302, main_cst_77, main_v303,
    main_v304, main_c_78, main_call5.cst.ref, main_call5.v0.ref, main_call5.v1.ref, main_call5.cst_0.ref, main_call5.v2.ref, main_call5.v3.ref,
    main_call5.v4.ref, main_call5.v5.ref, main_call5.v6.ref, main_call5.v7.ref, main_call5.cst_1.ref, main_call5.v8.ref, main_call5.cst_2.ref, main_call5.v9.ref,
    main_call5.v10.ref, main_call5.v11.ref, main_call5.cst_3.ref, main_call5.v12.ref, main_call5.cst_4.ref, main_call5.call0.v0.ref, main_call5.call0.v1.ref, main_call5.call0.v2.ref,
    main_v306, main_v307, main_v308, main_cst_79, main_v309, main_v310, main_v311, main_v312,
    main_v313, main_v314, main_v315, main_v316, main_v317, main_c_80, main_v318, main_v319,
    main_c_81, main_v320, main_v321, main_v322, main_v323, main_v324, main_c_82, main_v325,
    main_v326, main_c_83, main_v327, main_v328, main_v329, main_v330, main_v331 ]

theorem ops6_writes : (ops6 : List (HloOp τ sig (Elt F))).Forall fun op =>
    op.writes ⊆ (W6.map (Proc.devRef (τ := τ) .tc)).toFinset :=
  ⟨writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (ternary_writes ..) (by decide),
    writes_sub_of_mem (unary_writes ..) (by decide), writes_sub_of_mem (reshape_writes ..) (by decide),
    writes_sub_of_mem (unary_writes ..) (by decide), writes_sub_of_mem (unary_writes ..) (by decide),
    writes_sub_of_mem (binary_writes ..) (by decide), writes_sub_of_mem (binary_writes ..) (by decide),
    writes_sub_of_mem (binary_writes ..) (by decide), writes_sub_of_mem (binary_writes ..) (by decide),
    writes_sub_of_mem (nullary_writes ..) (by decide), writes_sub_of_mem (unary_writes ..) (by decide),
    writes_sub_of_mem (binary_writes ..) (by decide), writes_sub_of_mem (unary_writes ..) (by decide),
    writes_sub_of_mem (unary_writes ..) (by decide), writes_sub_of_mem (binary_writes ..) (by decide),
    writes_sub_of_mem (nullary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (nullary_writes ..) (by decide), writes_sub_of_mem (binary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (unary_writes ..) (by decide), writes_sub_of_mem (binary_writes ..) (by decide),
    writes_sub_of_mem (binary_writes ..) (by decide), writes_sub_of_mem (unary_writes ..) (by decide),
    writes_sub_of_mem (nullary_writes ..) (by decide), writes_sub_of_mem (binary_writes ..) (by decide),
    writes_sub_of_mem (nullary_writes ..) (by decide), writes_sub_of_mem (binary_writes ..) (by decide),
    writes_sub_of_mem (unary_writes ..) (by decide), writes_sub_of_mem (binary_writes ..) (by decide),
    writes_sub_of_mem (nullary_writes ..) (by decide), writes_sub_of_mem (binary_writes ..) (by decide),
    writes_sub_of_mem (nullary_writes ..) (by decide), writes_sub_of_mem (unary_writes ..) (by decide),
    writes_sub_of_mem (unary_writes ..) (by decide), writes_sub_of_mem (ternary_writes ..) (by decide),
    writes_sub_of_mem (unary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (unary_writes ..) (by decide), writes_sub_of_mem (unary_writes ..) (by decide),
    writes_sub_of_mem (unary_writes ..) (by decide), writes_sub_of_mem (binary_writes ..) (by decide),
    writes_sub_of_mem (unary_writes ..) (by decide), writes_sub_of_mem (binary_writes ..) (by decide),
    writes_sub_of_mem (unary_writes ..) (by decide), writes_sub_of_mem (nullary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (ternary_writes ..) (by decide),
    writes_sub_of_mem (unary_writes ..) (by decide), writes_sub_of_mem (binary_writes ..) (by decide),
    writes_sub_of_mem (nullary_writes ..) (by decide), writes_sub_of_mem (unary_writes ..) (by decide),
    writes_sub_of_mem (binary_writes ..) (by decide), writes_sub_of_mem (nullary_writes ..) (by decide),
    writes_sub_of_mem (unary_writes ..) (by decide), writes_sub_of_mem (binary_writes ..) (by decide),
    writes_sub_of_mem (ternary_writes ..) (by decide), writes_sub_of_mem (unary_writes ..) (by decide),
    writes_sub_of_mem (binary_writes ..) (by decide)⟩

/-- A reference the window does not write keeps its contents through it. -/
theorem kept6 {r : Ref sig .tc} (hr : r ∉ W6) (V : Valuation τ sig (Elt F)) :
    after ops6 V (Proc.devRef .tc r) = V (Proc.devRef .tc r) :=
  after_of_writes_sub ops6 V ops6_writes hr

end Cert.ReferenceIdeal.HandRun

end
-- ==== Proof.RefRun.lean ====
/- The reference program's @main as ONE list of its 468 host operations — the seven windows' lists concatenated, every call's
   body in its place — and its run read back: on every device, from any memory with zero counters, every weakly fair execution of
   @main terminates with each TensorCore buffer at the fold of the operations' results over its launch contents; and no operation
   writes an argument, so each argument's buffer holds at the end what it held at launch. -/
import proofs.«103573_j30391188587216_1_alg».proof.Proof.RefOps0
import proofs.«103573_j30391188587216_1_alg».proof.Proof.RefOps1
import proofs.«103573_j30391188587216_1_alg».proof.Proof.RefOps2
import proofs.«103573_j30391188587216_1_alg».proof.Proof.RefOps3
import proofs.«103573_j30391188587216_1_alg».proof.Proof.RefOps4
import proofs.«103573_j30391188587216_1_alg».proof.Proof.RefOps5
import proofs.«103573_j30391188587216_1_alg».proof.Proof.RefOps6

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- @main's 468 operations, in order: the windows' lists, right-nested. -/
abbrev ops : List (HloOp τ sig (Elt F)) := ops0 ++ (ops1 ++ (ops2 ++ (ops3 ++ (ops4 ++ (ops5 ++ ops6)))))

/-- @main runs its seven windows in order, each the run of its list; lists run one after the other are their concatenation
    run as one (`seq_append`). -/
theorem main_eq (c : Dev nD) : main (F := F) c = seq ops := by
  show (main_part0 (F := F) c >>= fun _ => main_part1 c >>= fun _ => main_part2 c >>= fun _ => main_part3 c >>= fun _ =>
      main_part4 c >>= fun _ => main_part5 c >>= fun _ => main_part6 c)
    = seq (ops0 ++ (ops1 ++ (ops2 ++ (ops3 ++ (ops4 ++ (ops5 ++ ops6))))))
  simp only [seq_append, part0_eq, part1_eq, part2_eq, part3_eq, part4_eq, part5_eq, part6_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub (forall_append ops1_sub (forall_append ops2_sub (forall_append ops3_sub
    (forall_append ops4_sub (forall_append ops5_sub ops6_sub)))))

/-- Every operation determines all it writes. -/
theorem ops_fresh : (ops : List (HloOp τ sig (Elt F))).Forall fun op => op.fresh = ∅ :=
  forall_append ops0_fresh (forall_append ops1_fresh (forall_append ops2_fresh (forall_append ops3_fresh
    (forall_append ops4_fresh (forall_append ops5_fresh ops6_fresh)))))

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The contents after @main, window by window: each window's fold started from the one before's. -/
theorem after_ops (V : Valuation τ sig (Elt F)) :
    after ops V = after ops6 (after ops5 (after ops4 (after ops3 (after ops2 (after ops1 (after ops0 V)))))) := by
  show after (ops0 ++ (ops1 ++ (ops2 ++ (ops3 ++ (ops4 ++ (ops5 ++ ops6)))))) V = _
  simp only [after_append]

/-- A reference none of the seven windows writes keeps its contents through @main: window by window, last first. -/
theorem kept {r : Ref sig .tc} (h0 : r ∉ W0) (h1 : r ∉ W1) (h2 : r ∉ W2) (h3 : r ∉ W3) (h4 : r ∉ W4) (h5 : r ∉ W5) (h6 : r ∉ W6)
    (V : Valuation τ sig (Elt F)) : after ops V (Proc.devRef .tc r) = V (Proc.devRef .tc r) := by
  rw [after_ops, kept6 h6, kept5 h5, kept4 h4, kept3 h3, kept2 h2, kept1 h1, kept0 h0]

/-! No operation writes an argument: each of the 22 is outside every window's list of written references (decided over
    references). -/

theorem kept_arg0 (V : Valuation τ sig (Elt F)) : after ops V (main_arg0 : DevRef τ sig) = V (main_arg0 : DevRef τ sig) :=
  kept (by decide) (by decide) (by decide) (by decide) (by decide) (by decide) (by decide) V
theorem kept_arg1 (V : Valuation τ sig (Elt F)) : after ops V (main_arg1 : DevRef τ sig) = V (main_arg1 : DevRef τ sig) :=
  kept (by decide) (by decide) (by decide) (by decide) (by decide) (by decide) (by decide) V
theorem kept_arg2 (V : Valuation τ sig (Elt F)) : after ops V (main_arg2 : DevRef τ sig) = V (main_arg2 : DevRef τ sig) :=
  kept (by decide) (by decide) (by decide) (by decide) (by decide) (by decide) (by decide) V
theorem kept_arg3 (V : Valuation τ sig (Elt F)) : after ops V (main_arg3 : DevRef τ sig) = V (main_arg3 : DevRef τ sig) :=
  kept (by decide) (by decide) (by decide) (by decide) (by decide) (by decide) (by decide) V
theorem kept_arg4 (V : Valuation τ sig (Elt F)) : after ops V (main_arg4 : DevRef τ sig) = V (main_arg4 : DevRef τ sig) :=
  kept (by decide) (by decide) (by decide) (by decide) (by decide) (by decide) (by decide) V
theorem kept_arg5 (V : Valuation τ sig (Elt F)) : after ops V (main_arg5 : DevRef τ sig) = V (main_arg5 : DevRef τ sig) :=
  kept (by decide) (by decide) (by decide) (by decide) (by decide) (by decide) (by decide) V
theorem kept_arg6 (V : Valuation τ sig (Elt F)) : after ops V (main_arg6 : DevRef τ sig) = V (main_arg6 : DevRef τ sig) :=
  kept (by decide) (by decide) (by decide) (by decide) (by decide) (by decide) (by decide) V
theorem kept_arg7 (V : Valuation τ sig (Elt F)) : after ops V (main_arg7 : DevRef τ sig) = V (main_arg7 : DevRef τ sig) :=
  kept (by decide) (by decide) (by decide) (by decide) (by decide) (by decide) (by decide) V
theorem kept_arg8 (V : Valuation τ sig (Elt F)) : after ops V (main_arg8 : DevRef τ sig) = V (main_arg8 : DevRef τ sig) :=
  kept (by decide) (by decide) (by decide) (by decide) (by decide) (by decide) (by decide) V
theorem kept_arg9 (V : Valuation τ sig (Elt F)) : after ops V (main_arg9 : DevRef τ sig) = V (main_arg9 : DevRef τ sig) :=
  kept (by decide) (by decide) (by decide) (by decide) (by decide) (by decide) (by decide) V
theorem kept_arg10 (V : Valuation τ sig (Elt F)) : after ops V (main_arg10 : DevRef τ sig) = V (main_arg10 : DevRef τ sig) :=
  kept (by decide) (by decide) (by decide) (by decide) (by decide) (by decide) (by decide) V
theorem kept_arg11 (V : Valuation τ sig (Elt F)) : after ops V (main_arg11 : DevRef τ sig) = V (main_arg11 : DevRef τ sig) :=
  kept (by decide) (by decide) (by decide) (by decide) (by decide) (by decide) (by decide) V
theorem kept_arg12 (V : Valuation τ sig (Elt F)) : after ops V (main_arg12 : DevRef τ sig) = V (main_arg12 : DevRef τ sig) :=
  kept (by decide) (by decide) (by decide) (by decide) (by decide) (by decide) (by decide) V
theorem kept_arg13 (V : Valuation τ sig (Elt F)) : after ops V (main_arg13 : DevRef τ sig) = V (main_arg13 : DevRef τ sig) :=
  kept (by decide) (by decide) (by decide) (by decide) (by decide) (by decide) (by decide) V
theorem kept_arg14 (V : Valuation τ sig (Elt F)) : after ops V (main_arg14 : DevRef τ sig) = V (main_arg14 : DevRef τ sig) :=
  kept (by decide) (by decide) (by decide) (by decide) (by decide) (by decide) (by decide) V
theorem kept_arg15 (V : Valuation τ sig (Elt F)) : after ops V (main_arg15 : DevRef τ sig) = V (main_arg15 : DevRef τ sig) :=
  kept (by decide) (by decide) (by decide) (by decide) (by decide) (by decide) (by decide) V
theorem kept_arg16 (V : Valuation τ sig (Elt F)) : after ops V (main_arg16 : DevRef τ sig) = V (main_arg16 : DevRef τ sig) :=
  kept (by decide) (by decide) (by decide) (by decide) (by decide) (by decide) (by decide) V
theorem kept_arg17 (V : Valuation τ sig (Elt F)) : after ops V (main_arg17 : DevRef τ sig) = V (main_arg17 : DevRef τ sig) :=
  kept (by decide) (by decide) (by decide) (by decide) (by decide) (by decide) (by decide) V
theorem kept_arg18 (V : Valuation τ sig (Elt F)) : after ops V (main_arg18 : DevRef τ sig) = V (main_arg18 : DevRef τ sig) :=
  kept (by decide) (by decide) (by decide) (by decide) (by decide) (by decide) (by decide) V
theorem kept_arg19 (V : Valuation τ sig (Elt F)) : after ops V (main_arg19 : DevRef τ sig) = V (main_arg19 : DevRef τ sig) :=
  kept (by decide) (by decide) (by decide) (by decide) (by decide) (by decide) (by decide) V
theorem kept_arg20 (V : Valuation τ sig (Elt F)) : after ops V (main_arg20 : DevRef τ sig) = V (main_arg20 : DevRef τ sig) :=
  kept (by decide) (by decide) (by decide) (by decide) (by decide) (by decide) (by decide) V
theorem kept_arg21 (V : Valuation τ sig (Elt F)) : after ops V (main_arg21 : DevRef τ sig) = V (main_arg21 : DevRef τ sig) :=
  kept (by decide) (by decide) (by decide) (by decide) (by decide) (by decide) (by decide) V

end Cert.ReferenceIdeal.HandRun

end
-- ==== Proof.BridgeBase.lean ====
/-
  The base of the comparison of the two programs' final contents.

  `Kf b` is the kernel program's final contents of buffer `b`: the last boundary's fold from the launch memory `m`.
  `Af b` is the reference's: its operations' fold from the launch memory `m'`.  Neither program writes an argument
  array, and the two launch memories hold the same argument arrays, so the 22 argument arrays agree.
-/
import proofs.«103573_j30391188587216_1_alg».proof.Defs
import proofs.«103573_j30391188587216_1_alg».proof.Proof.FrameKernelIdeal
import proofs.«103573_j30391188587216_1_alg».proof.Proof.RefRun

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two launch memories hold the same argument arrays. -/
def Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

/-- The kernel program's final contents of a buffer. -/
abbrev Kf (c : Dev Cert.KernelIdeal.nD) (b : Ref Cert.KernelIdeal.sig .tc) :=
  Cert.KernelIdeal.GenP.W33 m ρ c (Proc.devRef .tc b)

/-- The reference's final contents of a buffer. -/
abbrev Af (c : Dev Cert.ReferenceIdeal.nD) (b : Ref Cert.ReferenceIdeal.sig .tc) :=
  after (Cert.ReferenceIdeal.HandRun.ops (F := Ideal)) (launchContents m' c) (Proc.devRef .tc b)

variable (hagree : Agree m m') (c : Dev Cert.KernelIdeal.nD)
include hagree

/-- Argument 0 is the same array in both final contents. -/
theorem br_arg0 : Kf m ρ c Cert.KernelIdeal.main_arg0 = Af m' c Cert.ReferenceIdeal.main_arg0 :=
  (Cert.KernelIdeal.GenP.W33_main_arg0 m ρ c).trans (((hagree c).1).symm.trans (Cert.ReferenceIdeal.HandRun.kept_arg0 (launchContents m' c)).symm)
/-- Argument 1 is the same array in both final contents. -/
theorem br_arg1 : Kf m ρ c Cert.KernelIdeal.main_arg1 = Af m' c Cert.ReferenceIdeal.main_arg1 :=
  (Cert.KernelIdeal.GenP.W33_main_arg1 m ρ c).trans (((hagree c).2.1).symm.trans (Cert.ReferenceIdeal.HandRun.kept_arg1 (launchContents m' c)).symm)
/-- Argument 2 is the same array in both final contents. -/
theorem br_arg2 : Kf m ρ c Cert.KernelIdeal.main_arg2 = Af m' c Cert.ReferenceIdeal.main_arg2 :=
  (Cert.KernelIdeal.GenP.W33_main_arg2 m ρ c).trans (((hagree c).2.2.1).symm.trans (Cert.ReferenceIdeal.HandRun.kept_arg2 (launchContents m' c)).symm)
/-- Argument 3 is the same array in both final contents. -/
theorem br_arg3 : Kf m ρ c Cert.KernelIdeal.main_arg3 = Af m' c Cert.ReferenceIdeal.main_arg3 :=
  (Cert.KernelIdeal.GenP.W33_main_arg3 m ρ c).trans (((hagree c).2.2.2.1).symm.trans (Cert.ReferenceIdeal.HandRun.kept_arg3 (launchContents m' c)).symm)
/-- Argument 4 is the same array in both final contents. -/
theorem br_arg4 : Kf m ρ c Cert.KernelIdeal.main_arg4 = Af m' c Cert.ReferenceIdeal.main_arg4 :=
  (Cert.KernelIdeal.GenP.W33_main_arg4 m ρ c).trans (((hagree c).2.2.2.2.1).symm.trans (Cert.ReferenceIdeal.HandRun.kept_arg4 (launchContents m' c)).symm)
/-- Argument 5 is the same array in both final contents. -/
theorem br_arg5 : Kf m ρ c Cert.KernelIdeal.main_arg5 = Af m' c Cert.ReferenceIdeal.main_arg5 :=
  (Cert.KernelIdeal.GenP.W33_main_arg5 m ρ c).trans (((hagree c).2.2.2.2.2.1).symm.trans (Cert.ReferenceIdeal.HandRun.kept_arg5 (launchContents m' c)).symm)
/-- Argument 6 is the same array in both final contents. -/
theorem br_arg6 : Kf m ρ c Cert.KernelIdeal.main_arg6 = Af m' c Cert.ReferenceIdeal.main_arg6 :=
  (Cert.KernelIdeal.GenP.W33_main_arg6 m ρ c).trans (((hagree c).2.2.2.2.2.2.1).symm.trans (Cert.ReferenceIdeal.HandRun.kept_arg6 (launchContents m' c)).symm)
/-- Argument 7 is the same array in both final contents. -/
theorem br_arg7 : Kf m ρ c Cert.KernelIdeal.main_arg7 = Af m' c Cert.ReferenceIdeal.main_arg7 :=
  (Cert.KernelIdeal.GenP.W33_main_arg7 m ρ c).trans (((hagree c).2.2.2.2.2.2.2.1).symm.trans (Cert.ReferenceIdeal.HandRun.kept_arg7 (launchContents m' c)).symm)
/-- Argument 8 is the same array in both final contents. -/
theorem br_arg8 : Kf m ρ c Cert.KernelIdeal.main_arg8 = Af m' c Cert.ReferenceIdeal.main_arg8 :=
  (Cert.KernelIdeal.GenP.W33_main_arg8 m ρ c).trans (((hagree c).2.2.2.2.2.2.2.2.1).symm.trans (Cert.ReferenceIdeal.HandRun.kept_arg8 (launchContents m' c)).symm)
/-- Argument 9 is the same array in both final contents. -/
theorem br_arg9 : Kf m ρ c Cert.KernelIdeal.main_arg9 = Af m' c Cert.ReferenceIdeal.main_arg9 :=
  (Cert.KernelIdeal.GenP.W33_main_arg9 m ρ c).trans (((hagree c).2.2.2.2.2.2.2.2.2.1).symm.trans (Cert.ReferenceIdeal.HandRun.kept_arg9 (launchContents m' c)).symm)
/-- Argument 10 is the same array in both final contents. -/
theorem br_arg10 : Kf m ρ c Cert.KernelIdeal.main_arg10 = Af m' c Cert.ReferenceIdeal.main_arg10 :=
  (Cert.KernelIdeal.GenP.W33_main_arg10 m ρ c).trans (((hagree c).2.2.2.2.2.2.2.2.2.2.1).symm.trans (Cert.ReferenceIdeal.HandRun.kept_arg10 (launchContents m' c)).symm)
/-- Argument 11 is the same array in both final contents. -/
theorem br_arg11 : Kf m ρ c Cert.KernelIdeal.main_arg11 = Af m' c Cert.ReferenceIdeal.main_arg11 :=
  (Cert.KernelIdeal.GenP.W33_main_arg11 m ρ c).trans (((hagree c).2.2.2.2.2.2.2.2.2.2.2.1).symm.trans (Cert.ReferenceIdeal.HandRun.kept_arg11 (launchContents m' c)).symm)
/-- Argument 12 is the same array in both final contents. -/
theorem br_arg12 : Kf m ρ c Cert.KernelIdeal.main_arg12 = Af m' c Cert.ReferenceIdeal.main_arg12 :=
  (Cert.KernelIdeal.GenP.W33_main_arg12 m ρ c).trans (((hagree c).2.2.2.2.2.2.2.2.2.2.2.2.1).symm.trans (Cert.ReferenceIdeal.HandRun.kept_arg12 (launchContents m' c)).symm)
/-- Argument 13 is the same array in both final contents. -/
theorem br_arg13 : Kf m ρ c Cert.KernelIdeal.main_arg13 = Af m' c Cert.ReferenceIdeal.main_arg13 :=
  (Cert.KernelIdeal.GenP.W33_main_arg13 m ρ c).trans (((hagree c).2.2.2.2.2.2.2.2.2.2.2.2.2.1).symm.trans (Cert.ReferenceIdeal.HandRun.kept_arg13 (launchContents m' c)).symm)
/-- Argument 14 is the same array in both final contents. -/
theorem br_arg14 : Kf m ρ c Cert.KernelIdeal.main_arg14 = Af m' c Cert.ReferenceIdeal.main_arg14 :=
  (Cert.KernelIdeal.GenP.W33_main_arg14 m ρ c).trans (((hagree c).2.2.2.2.2.2.2.2.2.2.2.2.2.2.1).symm.trans (Cert.ReferenceIdeal.HandRun.kept_arg14 (launchContents m' c)).symm)
/-- Argument 15 is the same array in both final contents. -/
theorem br_arg15 : Kf m ρ c Cert.KernelIdeal.main_arg15 = Af m' c Cert.ReferenceIdeal.main_arg15 :=
  (Cert.KernelIdeal.GenP.W33_main_arg15 m ρ c).trans (((hagree c).2.2.2.2.2.2.2.2.2.2.2.2.2.2.2.1).symm.trans (Cert.ReferenceIdeal.HandRun.kept_arg15 (launchContents m' c)).symm)
/-- Argument 16 is the same array in both final contents. -/
theorem br_arg16 : Kf m ρ c Cert.KernelIdeal.main_arg16 = Af m' c Cert.ReferenceIdeal.main_arg16 :=
  (Cert.KernelIdeal.GenP.W33_main_arg16 m ρ c).trans (((hagree c).2.2.2.2.2.2.2.2.2.2.2.2.2.2.2.2.1).symm.trans (Cert.ReferenceIdeal.HandRun.kept_arg16 (launchContents m' c)).symm)
/-- Argument 17 is the same array in both final contents. -/
theorem br_arg17 : Kf m ρ c Cert.KernelIdeal.main_arg17 = Af m' c Cert.ReferenceIdeal.main_arg17 :=
  (Cert.KernelIdeal.GenP.W33_main_arg17 m ρ c).trans (((hagree c).2.2.2.2.2.2.2.2.2.2.2.2.2.2.2.2.2.1).symm.trans (Cert.ReferenceIdeal.HandRun.kept_arg17 (launchContents m' c)).symm)
/-- Argument 18 is the same array in both final contents. -/
theorem br_arg18 : Kf m ρ c Cert.KernelIdeal.main_arg18 = Af m' c Cert.ReferenceIdeal.main_arg18 :=
  (Cert.KernelIdeal.GenP.W33_main_arg18 m ρ c).trans (((hagree c).2.2.2.2.2.2.2.2.2.2.2.2.2.2.2.2.2.2.1).symm.trans (Cert.ReferenceIdeal.HandRun.kept_arg18 (launchContents m' c)).symm)
/-- Argument 19 is the same array in both final contents. -/
theorem br_arg19 : Kf m ρ c Cert.KernelIdeal.main_arg19 = Af m' c Cert.ReferenceIdeal.main_arg19 :=
  (Cert.KernelIdeal.GenP.W33_main_arg19 m ρ c).trans (((hagree c).2.2.2.2.2.2.2.2.2.2.2.2.2.2.2.2.2.2.2.1).symm.trans (Cert.ReferenceIdeal.HandRun.kept_arg19 (launchContents m' c)).symm)
/-- Argument 20 is the same array in both final contents. -/
theorem br_arg20 : Kf m ρ c Cert.KernelIdeal.main_arg20 = Af m' c Cert.ReferenceIdeal.main_arg20 :=
  (Cert.KernelIdeal.GenP.W33_main_arg20 m ρ c).trans (((hagree c).2.2.2.2.2.2.2.2.2.2.2.2.2.2.2.2.2.2.2.2.1).symm.trans (Cert.ReferenceIdeal.HandRun.kept_arg20 (launchContents m' c)).symm)
/-- Argument 21 is the same array in both final contents. -/
theorem br_arg21 : Kf m ρ c Cert.KernelIdeal.main_arg21 = Af m' c Cert.ReferenceIdeal.main_arg21 :=
  (Cert.KernelIdeal.GenP.W33_main_arg21 m ρ c).trans (((hagree c).2.2.2.2.2.2.2.2.2.2.2.2.2.2.2.2.2.2.2.2.2).symm.trans (Cert.ReferenceIdeal.HandRun.kept_arg21 (launchContents m' c)).symm)

end Cert.Bridge

end
-- ==== Proof.KernelEqsLib.lean ====
/-
  Straight lines of host operations in single-assignment form, and regions that write only their outputs.

  A line applies its operations in order; operation `k` rewrites the one buffer `W[k]` it writes from the contents
  just before it and leaves every other buffer alone.  Two consequences are used throughout:

  * a buffer that is not among `W` holds after the line what it held before it;
  * if the buffer `W[k]` is not written again later in the line, and the operands of operation `k` are written
    neither by it nor later, then the contents at the END of the line satisfy the operation's defining equation
    `y = f a b` with every buffer read at the end of the line: the operands no longer change after position `k`,
    and `y` no longer changes after position `k + 1`.

  So the final contents of a line in single-assignment form solve the system of equations that its operations
  spell, one equation per operation.

  A kernel region replaces the contents of its windows' arrays: an output window's array by what the grid points
  wrote back, an input window's array by what it held at entry.  Hence a region changes only its output arrays.
-/
import Idealize.ShloMosaic.Lib.StableHlo.Run

noncomputable section

namespace Cert.KernelIdeal.HandRun

open Idealize.ShloMosaic Idealize.ShloMosaic.StableHlo

variable {τ : Topo} {sig : RefSig} {Val : EltTy → Type}

/-! ## Splitting a line -/

/-- Two lines run one after the other: the second starts from what the first leaves. -/
theorem after_append (l₁ l₂ : List (HloOp τ sig Val)) (X : Valuation τ sig Val) :
    after (l₁ ++ l₂) X = after l₂ (after l₁ X) := by
  induction l₁ generalizing X with
  | nil => rfl
  | cons op l ih => simp only [List.cons_append, after_cons, ih]

/-- A buffer that nothing from position `i` on writes holds at the end what it holds before position `i`. -/
theorem after_take (ops : List (HloOp τ sig Val)) (i : Nat) (X : Valuation τ sig Val) (r : DevRef τ sig)
    (h : ∀ o ∈ ops.drop i, r ∉ o.writes) : after ops X r = after (ops.take i) X r := by
  conv_lhs => rw [← List.take_append_drop i ops]
  rw [after_append, after_of_forall_not_mem _ _ h]

/-- A buffer that nothing after position `i` writes holds at the end what operation `i` leaves in it. -/
theorem after_at : ∀ (ops : List (HloOp τ sig Val)) (i : Nat) (hi : i < ops.length) (X : Valuation τ sig Val)
    (r : DevRef τ sig), (∀ o ∈ ops.drop (i + 1), r ∉ o.writes) →
    after ops X r = (ops[i]).result (after (ops.take i) X) r
  | [], _, hi, _, _, _ => absurd hi (Nat.not_lt_zero _)
  | o :: t, 0, _, X, r, h => by
    show after t (o.result X) r = o.result X r
    exact after_of_forall_not_mem t _ h
  | o :: t, j + 1, hi, X, r, h => by
    show after t (o.result X) r = (t[j]'(Nat.lt_of_succ_lt_succ hi)).result (after (t.take j) (o.result X)) r
    exact after_at t j (Nat.lt_of_succ_lt_succ hi) (o.result X) r h

/-! ## Lines that write one listed reference per operation -/

/-- Operation `k` of the line writes exactly the reference `W[k]`. -/
abbrev WritesAt (ops : List (HloOp τ sig Val)) (W : List (Ref sig .tc)) : Prop :=
  List.Forall₂ (fun op r => op.writes = {Proc.devRef (τ := τ) .tc r}) ops W

/-- From position `i` on, the line writes only references listed from position `i` on. -/
theorem WritesAt.not_mem_writes {ops : List (HloOp τ sig Val)} {W : List (Ref sig .tc)} (h : WritesAt ops W) :
    ∀ (i : Nat) (r : Ref sig .tc), r ∉ W.drop i → ∀ o ∈ ops.drop i, Proc.devRef (τ := τ) .tc r ∉ o.writes := by
  induction h with
  | nil => intro i r _ o ho; simp at ho
  | @cons a b l₁ l₂ hab _ ih =>
    intro i r hr o ho
    cases i with
    | zero =>
      rw [List.drop_zero] at hr ho
      rcases List.mem_cons.mp ho with rfl | ho
      · rw [hab, Finset.mem_singleton]
        exact fun e => hr (Proc.devRef_injective _ e ▸ List.mem_cons_self)
      · exact ih 0 r (by rw [List.drop_zero]; exact fun hm => hr (List.mem_cons_of_mem _ hm)) o (by rw [List.drop_zero]; exact ho)
    | succ j => exact ih j r hr o ho

/-- A reference the line does not list keeps its contents. -/
theorem WritesAt.keep {ops : List (HloOp τ sig Val)} {W : List (Ref sig .tc)} (h : WritesAt ops W)
    (X : Valuation τ sig Val) {r : Ref sig .tc} (hr : r ∉ W) :
    after ops X (Proc.devRef .tc r) = X (Proc.devRef .tc r) :=
  after_of_forall_not_mem ops X (WritesAt.not_mem_writes h 0 r hr)

/-- The operand of operation `i`, written neither by it nor later, is read at the end of the line. -/
theorem WritesAt.operand {ops : List (HloOp τ sig Val)} {W : List (Ref sig .tc)} (h : WritesAt ops W)
    (X : Valuation τ sig Val) (i : Nat) {r : Ref sig .tc} (hr : r ∉ W.drop i) :
    after (ops.take i) X (Proc.devRef .tc r) = after ops X (Proc.devRef .tc r) :=
  (after_take ops i X _ (WritesAt.not_mem_writes h i r hr)).symm

/-! ## The equation each kind of operation leaves at the end of its line -/

section Final

variable {ops : List (HloOp τ sig Val)} {W : List (Ref sig .tc)}

/-- A constant: `y = v`. -/
theorem nullary_final (h : WritesAt ops W) (X : Valuation τ sig Val) (i : Nat) (hi : i < ops.length) {y : Ref sig .tc} {v : y.ty.Contents Val} {hy}
    (hop : ops[i] = nullary (τ := τ) y v hy) (hy' : y ∉ W.drop (i + 1)) :
    after ops X (Proc.devRef .tc y) = v := by
  rw [after_at ops i hi X _ (WritesAt.not_mem_writes h (i + 1) y hy'), hop, nullary_result]

/-- One operand: `y = f x`. -/
theorem unary_final (h : WritesAt ops W) (X : Valuation τ sig Val) (i : Nat) (hi : i < ops.length) {x y : Ref sig .tc} {f : x.ty.Contents Val → y.ty.Contents Val} {hx hy}
    (hop : ops[i] = unary (τ := τ) x y f hx hy) (hy' : y ∉ W.drop (i + 1)) (hx' : x ∉ W.drop i) :
    after ops X (Proc.devRef .tc y) = f (after ops X (Proc.devRef .tc x)) := by
  rw [after_at ops i hi X _ (WritesAt.not_mem_writes h (i + 1) y hy'), hop, unary_result, WritesAt.operand h X i hx']

/-- Two operands: `y = f a b`. -/
theorem binary_final (h : WritesAt ops W) (X : Valuation τ sig Val) (i : Nat) (hi : i < ops.length) {a b y : Ref sig .tc} {f : a.ty.Contents Val → b.ty.Contents Val → y.ty.Contents Val} {ha hb hy}
    (hop : ops[i] = binary (τ := τ) a b y f ha hb hy) (hy' : y ∉ W.drop (i + 1)) (ha' : a ∉ W.drop i) (hb' : b ∉ W.drop i) :
    after ops X (Proc.devRef .tc y) = f (after ops X (Proc.devRef .tc a)) (after ops X (Proc.devRef .tc b)) := by
  rw [after_at ops i hi X _ (WritesAt.not_mem_writes h (i + 1) y hy'), hop, binary_result, WritesAt.operand h X i ha', WritesAt.operand h X i hb']

/-- Three operands: `y = f c a b`. -/
theorem ternary_final (h : WritesAt ops W) (X : Valuation τ sig Val) (i : Nat) (hi : i < ops.length) {c a b y : Ref sig .tc}
    {f : c.ty.Contents Val → a.ty.Contents Val → b.ty.Contents Val → y.ty.Contents Val} {hc ha hb hy}
    (hop : ops[i] = ternary (τ := τ) c a b y f hc ha hb hy) (hy' : y ∉ W.drop (i + 1))
    (hc' : c ∉ W.drop i) (ha' : a ∉ W.drop i) (hb' : b ∉ W.drop i) :
    after ops X (Proc.devRef .tc y)
      = f (after ops X (Proc.devRef .tc c)) (after ops X (Proc.devRef .tc a)) (after ops X (Proc.devRef .tc b)) := by
  rw [after_at ops i hi X _ (WritesAt.not_mem_writes h (i + 1) y hy'), hop, ternary_result, WritesAt.operand h X i hc', WritesAt.operand h X i ha',
    WritesAt.operand h X i hb']

/-- A reshape: `y` holds `x`'s elements in row-major order at `y`'s shape. -/
theorem reshape_final (h : WritesAt ops W) (X : Valuation τ sig Val) (i : Nat) (hi : i < ops.length) {x y : Ref sig .tc} {he : x.ty.elt = y.ty.elt} {hn : x.ty.shape.ShapeCasts y.ty.shape} {hx hy}
    (hop : ops[i] = reshape (τ := τ) (Val := Val) x y he hn hx hy) (hy' : y ∉ W.drop (i + 1)) (hx' : x ∉ W.drop i) :
    after ops X (Proc.devRef .tc y) = fun j => he ▸ shapeCast y.ty.shape (after ops X (Proc.devRef .tc x)) hn j := by
  rw [after_at ops i hi X _ (WritesAt.not_mem_writes h (i + 1) y hy'), hop, reshape_result, WritesAt.operand h X i hx']

end Final

/-! ## A region changes only its output arrays -/

/-- Contents `Y` that differ from `X` at most at the arrays `arr w` of finitely many windows, and agree with `X` at
    every window that is not an output, agree with `X` at every reference that is not a listed output. -/
theorem keep_of_windows {n : Nat} (arr : Fin n → Ref sig .tc) (isOut : Fin n → Bool) (X Y : Valuation τ sig Val)
    (hne : ∀ b : Ref sig .tc, (∀ w, arr w ≠ b) → Y (Proc.devRef .tc b) = X (Proc.devRef .tc b))
    (hin : ∀ w, isOut w = false → Y (Proc.devRef .tc (arr w)) = X (Proc.devRef .tc (arr w)))
    (outs : List (Ref sig .tc)) (houts : ∀ w, isOut w = true → arr w ∈ outs)
    (b : Ref sig .tc) (hb : b ∉ outs) : Y (Proc.devRef .tc b) = X (Proc.devRef .tc b) := by
  by_cases hw : ∃ w, arr w = b
  · obtain ⟨w, rfl⟩ := hw
    cases ho : isOut w with
    | false => exact hin w ho
    | true => exact absurd (houts w ho) hb
  · exact hne b fun w e => hw ⟨w, e⟩

end Cert.KernelIdeal.HandRun

end
-- ==== Proof.KernelEqs.lean ====
/-
  The kernel program's final contents: which segment may change which buffer.

  The program is thirty-three segments: fourteen kernel regions among nineteen stretches of host operations.  The
  contents at the boundary after segment `k` are `W(k+1)`, built from `Wk`; the final contents are `W33`.

  Every buffer is written by exactly one segment.  A stretch changes only the result buffers of its operations
  (one per operation, listed in order as `hostOps…_W`); a region changes only the arrays of its output windows
  (`outsP`): an input window's array is never written back, so it leaves the region as it entered.  Hence a
  buffer that no segment from `j` on writes holds at the end what it holds at boundary `j`:
  `K b = Wj b` whenever `b` is not in `late j`, the references written by segments `j, j+1, …, 32`.
-/
import proofs.«103573_j30391188587216_1_alg».proof.Proof.FrameKernelIdeal
import proofs.«103573_j30391188587216_1_alg».proof.Proof.KernelEqsLib

set_option maxRecDepth 16384

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- The final contents of buffer `b` on core `c`. -/
abbrev K (c : Dev nD) (b : Ref sig .tc) : (Proc.devRef (τ := τ) .tc b).ty.Contents (Elt F) := W33 m ρ c (Proc.devRef .tc b)

/-! ## What each segment writes -/

/-- The arrays of region 0's output windows. -/
abbrev outs0 : List (Ref sig .tc) := [main_v0]

/-- The arrays of region 1's output windows. -/
abbrev outs1 : List (Ref sig .tc) := [main_v1]

/-- The result buffers of `hostOps2`, in the order of its operations. -/
abbrev hostOps2_W : List (Ref sig .tc) :=
  [main_v2]
/-- Operation `k` of `hostOps2` writes exactly the `k`-th of them. -/
theorem hostOps2_at : WritesAt (hostOps2 (F := F)) hostOps2_W := by
  repeat (first | exact List.Forall₂.nil | refine List.Forall₂.cons rfl ?_)

/-- The arrays of region 2's output windows. -/
abbrev outs2 : List (Ref sig .tc) := [main_v3]

/-- The result buffers of `hostOps3`, in the order of its operations. -/
abbrev hostOps3_W : List (Ref sig .tc) :=
  [main_v4, main_v5, main_v6, main_v7, main_v8, main_v9, main_cst, main_v10, main_c, main_v11, main_v12, main_c_0,
    main_v13, main_v14, main_v15, main_v16, main_cst_1, main_v17, main_v18, main_cst_2, main_v19, main_v20,
    main_cst_3, main_v21, main_v22, main_v23, main_cst_4]
/-- Operation `k` of `hostOps3` writes exactly the `k`-th of them. -/
theorem hostOps3_at : WritesAt (hostOps3 (F := F)) hostOps3_W := by
  repeat (first | exact List.Forall₂.nil | refine List.Forall₂.cons rfl ?_)

/-- The result buffers of `hostOps3_1`, in the order of its operations. -/
abbrev hostOps3_1_W : List (Ref sig .tc) :=
  [main_call0_v0, main_call0_v1, main_v24]
/-- Operation `k` of `hostOps3_1` writes exactly the `k`-th of them. -/
theorem hostOps3_1_at : WritesAt (hostOps3_1 (F := F)) hostOps3_1_W := by
  repeat (first | exact List.Forall₂.nil | refine List.Forall₂.cons rfl ?_)

/-- The result buffers of `hostOps3_2`, in the order of its operations. -/
abbrev hostOps3_2_W : List (Ref sig .tc) :=
  [main_c_5, main_v25, main_v26, main_c_6, main_v27, main_v28, main_v29, main_v30, main_v31, main_c_7, main_v32,
    main_v33, main_c_8, main_v34, main_v35, main_v36, main_v37, main_v38, main_v39, main_c_9, main_v40, main_v41,
    main_c_10, main_v42, main_v43, main_v44, main_v45, main_v46, main_c_11, main_v47, main_v48, main_c_12, main_v49,
    main_v50, main_v51, main_v52, main_v53, main_v54, main_v55]
/-- Operation `k` of `hostOps3_2` writes exactly the `k`-th of them. -/
theorem hostOps3_2_at : WritesAt (hostOps3_2 (F := F)) hostOps3_2_W := by
  repeat (first | exact List.Forall₂.nil | refine List.Forall₂.cons rfl ?_)

/-- The arrays of region 3's output windows. -/
abbrev outs3 : List (Ref sig .tc) := [main_v56]

/-- The result buffers of `hostOps4`, in the order of its operations. -/
abbrev hostOps4_W : List (Ref sig .tc) :=
  [main_cst_13, main_v57, main_c_14, main_v58, main_v59, main_c_15, main_v60, main_v61, main_v62, main_v63, main_v64,
    main_v65, main_v66, main_v67, main_v68, main_v69, main_v70, main_cst_16, main_v71, main_c_17, main_v72, main_v73,
    main_c_18, main_v74, main_v75, main_v76, main_v77, main_cst_19, main_v78, main_v79, main_cst_20, main_v80,
    main_v81, main_cst_21, main_v82, main_v83, main_v84, main_cst_22]
/-- Operation `k` of `hostOps4` writes exactly the `k`-th of them. -/
theorem hostOps4_at : WritesAt (hostOps4 (F := F)) hostOps4_W := by
  repeat (first | exact List.Forall₂.nil | refine List.Forall₂.cons rfl ?_)

/-- The result buffers of `hostOps4_1`, in the order of its operations. -/
abbrev hostOps4_1_W : List (Ref sig .tc) :=
  [main_call1_v0, main_call1_v1, main_v85]
/-- Operation `k` of `hostOps4_1` writes exactly the `k`-th of them. -/
theorem hostOps4_1_at : WritesAt (hostOps4_1 (F := F)) hostOps4_1_W := by
  repeat (first | exact List.Forall₂.nil | refine List.Forall₂.cons rfl ?_)

/-- The result buffers of `hostOps4_2`, in the order of its operations. -/
abbrev hostOps4_2_W : List (Ref sig .tc) :=
  [main_c_23, main_v86, main_v87, main_c_24, main_v88, main_v89, main_v90, main_v91, main_v92, main_c_25, main_v93,
    main_v94, main_c_26, main_v95, main_v96, main_v97, main_v98, main_v99, main_v100, main_c_27, main_v101,
    main_v102, main_c_28, main_v103, main_v104, main_v105, main_v106, main_v107, main_c_29, main_v108, main_v109,
    main_c_30, main_v110, main_v111, main_v112, main_v113, main_v114, main_v115, main_v116]
/-- Operation `k` of `hostOps4_2` writes exactly the `k`-th of them. -/
theorem hostOps4_2_at : WritesAt (hostOps4_2 (F := F)) hostOps4_2_W := by
  repeat (first | exact List.Forall₂.nil | refine List.Forall₂.cons rfl ?_)

/-- The arrays of region 4's output windows. -/
abbrev outs4 : List (Ref sig .tc) := [main_v117]

/-- The result buffers of `hostOps5`, in the order of its operations. -/
abbrev hostOps5_W : List (Ref sig .tc) :=
  [main_cst_31, main_v118, main_c_32, main_v119, main_v120, main_c_33, main_v121, main_v122, main_v123, main_v124,
    main_v125, main_v126, main_v127]
/-- Operation `k` of `hostOps5` writes exactly the `k`-th of them. -/
theorem hostOps5_at : WritesAt (hostOps5 (F := F)) hostOps5_W := by
  repeat (first | exact List.Forall₂.nil | refine List.Forall₂.cons rfl ?_)

/-- The arrays of region 5's output windows. -/
abbrev outs5 : List (Ref sig .tc) := [main_v128_0, main_v128_1, main_v128_2]

/-- The result buffers of `hostOps6`, in the order of its operations. -/
abbrev hostOps6_W : List (Ref sig .tc) :=
  [main_cst_34, main_v129, main_v130, main_cst_35, main_v131, main_v132, main_v133, main_v134]
/-- Operation `k` of `hostOps6` writes exactly the `k`-th of them. -/
theorem hostOps6_at : WritesAt (hostOps6 (F := F)) hostOps6_W := by
  repeat (first | exact List.Forall₂.nil | refine List.Forall₂.cons rfl ?_)

/-- The arrays of region 6's output windows. -/
abbrev outs6 : List (Ref sig .tc) := [main_v135]

/-- The arrays of region 7's output windows. -/
abbrev outs7 : List (Ref sig .tc) := [main_v136]

/-- The result buffers of `hostOps8`, in the order of its operations. -/
abbrev hostOps8_W : List (Ref sig .tc) :=
  [main_v137, main_v138]
/-- Operation `k` of `hostOps8` writes exactly the `k`-th of them. -/
theorem hostOps8_at : WritesAt (hostOps8 (F := F)) hostOps8_W := by
  repeat (first | exact List.Forall₂.nil | refine List.Forall₂.cons rfl ?_)

/-- The arrays of region 8's output windows. -/
abbrev outs8 : List (Ref sig .tc) := [main_v139]

/-- The result buffers of `hostOps9`, in the order of its operations. -/
abbrev hostOps9_W : List (Ref sig .tc) :=
  [main_v140, main_v141, main_v142, main_v143, main_v144, main_v145, main_cst_36, main_v146, main_c_37, main_v147,
    main_v148, main_c_38, main_v149, main_v150, main_v151, main_v152, main_cst_39, main_v153, main_v154, main_cst_40,
    main_v155, main_v156, main_cst_41, main_v157, main_v158, main_v159, main_cst_42]
/-- Operation `k` of `hostOps9` writes exactly the `k`-th of them. -/
theorem hostOps9_at : WritesAt (hostOps9 (F := F)) hostOps9_W := by
  repeat (first | exact List.Forall₂.nil | refine List.Forall₂.cons rfl ?_)

/-- The result buffers of `hostOps9_1`, in the order of its operations. -/
abbrev hostOps9_1_W : List (Ref sig .tc) :=
  [main_call2_v0, main_call2_v1, main_v160]
/-- Operation `k` of `hostOps9_1` writes exactly the `k`-th of them. -/
theorem hostOps9_1_at : WritesAt (hostOps9_1 (F := F)) hostOps9_1_W := by
  repeat (first | exact List.Forall₂.nil | refine List.Forall₂.cons rfl ?_)

/-- The result buffers of `hostOps9_2`, in the order of its operations. -/
abbrev hostOps9_2_W : List (Ref sig .tc) :=
  [main_c_43, main_v161, main_v162, main_c_44, main_v163, main_v164, main_v165, main_v166, main_v167, main_c_45,
    main_v168, main_v169, main_c_46, main_v170, main_v171, main_v172, main_v173, main_v174, main_v175, main_c_47,
    main_v176, main_v177, main_c_48, main_v178, main_v179, main_v180, main_v181, main_v182, main_c_49, main_v183,
    main_v184, main_c_50, main_v185, main_v186, main_v187, main_v188, main_v189, main_v190, main_v191]
/-- Operation `k` of `hostOps9_2` writes exactly the `k`-th of them. -/
theorem hostOps9_2_at : WritesAt (hostOps9_2 (F := F)) hostOps9_2_W := by
  repeat (first | exact List.Forall₂.nil | refine List.Forall₂.cons rfl ?_)

/-- The arrays of region 9's output windows. -/
abbrev outs9 : List (Ref sig .tc) := [main_v192]

/-- The result buffers of `hostOps10`, in the order of its operations. -/
abbrev hostOps10_W : List (Ref sig .tc) :=
  [main_cst_51, main_v193, main_c_52, main_v194, main_v195, main_c_53, main_v196, main_v197, main_v198, main_v199,
    main_v200, main_v201, main_v202, main_v203, main_v204, main_v205, main_v206, main_cst_54, main_v207, main_c_55,
    main_v208, main_v209, main_c_56, main_v210, main_v211, main_v212, main_v213, main_cst_57, main_v214, main_v215,
    main_cst_58, main_v216, main_v217, main_cst_59, main_v218, main_v219, main_v220, main_cst_60]
/-- Operation `k` of `hostOps10` writes exactly the `k`-th of them. -/
theorem hostOps10_at : WritesAt (hostOps10 (F := F)) hostOps10_W := by
  repeat (first | exact List.Forall₂.nil | refine List.Forall₂.cons rfl ?_)

/-- The result buffers of `hostOps10_1`, in the order of its operations. -/
abbrev hostOps10_1_W : List (Ref sig .tc) :=
  [main_call3_v0, main_call3_v1, main_v221]
/-- Operation `k` of `hostOps10_1` writes exactly the `k`-th of them. -/
theorem hostOps10_1_at : WritesAt (hostOps10_1 (F := F)) hostOps10_1_W := by
  repeat (first | exact List.Forall₂.nil | refine List.Forall₂.cons rfl ?_)

/-- The result buffers of `hostOps10_2`, in the order of its operations. -/
abbrev hostOps10_2_W : List (Ref sig .tc) :=
  [main_c_61, main_v222, main_v223, main_c_62, main_v224, main_v225, main_v226, main_v227, main_v228, main_c_63,
    main_v229, main_v230, main_c_64, main_v231, main_v232, main_v233, main_v234, main_v235, main_v236, main_c_65,
    main_v237, main_v238, main_c_66, main_v239, main_v240, main_v241, main_v242, main_v243, main_c_67, main_v244,
    main_v245, main_c_68, main_v246, main_v247, main_v248, main_v249, main_v250, main_v251, main_v252]
/-- Operation `k` of `hostOps10_2` writes exactly the `k`-th of them. -/
theorem hostOps10_2_at : WritesAt (hostOps10_2 (F := F)) hostOps10_2_W := by
  repeat (first | exact List.Forall₂.nil | refine List.Forall₂.cons rfl ?_)

/-- The arrays of region 10's output windows. -/
abbrev outs10 : List (Ref sig .tc) := [main_v253]

/-- The result buffers of `hostOps11`, in the order of its operations. -/
abbrev hostOps11_W : List (Ref sig .tc) :=
  [main_cst_69, main_v254, main_c_70, main_v255, main_v256, main_c_71, main_v257, main_v258, main_v259, main_v260,
    main_v261, main_v262, main_v263]
/-- Operation `k` of `hostOps11` writes exactly the `k`-th of them. -/
theorem hostOps11_at : WritesAt (hostOps11 (F := F)) hostOps11_W := by
  repeat (first | exact List.Forall₂.nil | refine List.Forall₂.cons rfl ?_)

/-- The arrays of region 11's output windows. -/
abbrev outs11 : List (Ref sig .tc) := [main_v264_0, main_v264_1, main_v264_2]

/-- The result buffers of `hostOps12`, in the order of its operations. -/
abbrev hostOps12_W : List (Ref sig .tc) :=
  [main_cst_72, main_v265, main_v266, main_cst_73, main_v267, main_v268, main_v269, main_v270]
/-- Operation `k` of `hostOps12` writes exactly the `k`-th of them. -/
theorem hostOps12_at : WritesAt (hostOps12 (F := F)) hostOps12_W := by
  repeat (first | exact List.Forall₂.nil | refine List.Forall₂.cons rfl ?_)

/-- The arrays of region 12's output windows. -/
abbrev outs12 : List (Ref sig .tc) := [main_v271]

/-- The arrays of region 13's output windows. -/
abbrev outs13 : List (Ref sig .tc) := [main_v272]

/-- The result buffers of `hostOps14`, in the order of its operations. -/
abbrev hostOps14_W : List (Ref sig .tc) :=
  [main_v273, main_c_74, main_v274, main_v275, main_c_75, main_v276, main_v277, main_v278, main_v279, main_v280,
    main_c_76, main_v281, main_v282, main_c_77, main_v283, main_v284, main_v285, main_v286, main_v287]
/-- Operation `k` of `hostOps14` writes exactly the `k`-th of them. -/
theorem hostOps14_at : WritesAt (hostOps14 (F := F)) hostOps14_W := by
  repeat (first | exact List.Forall₂.nil | refine List.Forall₂.cons rfl ?_)

/-! ## Persistence across one segment -/

/-- Segment 0 (region 0) changes only its output arrays: an input window's array leaves as it entered. -/
theorem keep0 (c : Dev nD) (b : Ref sig .tc) (hb : b ∉ outs0) :
    W1 m ρ c (Proc.devRef .tc b) = W0 m ρ c (Proc.devRef .tc b) :=
  keep_of_windows (Pipeline.arrRef spec0) (fun w => (cfg0.win w).isOut) (W0 m ρ c) (W1 m ρ c)
    (W1_of_ne m ρ c)
    (fun w hw => by rw [W1_arr, (dat0 (V0 m ρ) c).arrAt_in w hw, A_eq0])
    outs0 (by decide) b hb

/-- Segment 1 (region 1) changes only its output arrays: an input window's array leaves as it entered. -/
theorem keep1 (c : Dev nD) (b : Ref sig .tc) (hb : b ∉ outs1) :
    W2 m ρ c (Proc.devRef .tc b) = W1 m ρ c (Proc.devRef .tc b) :=
  keep_of_windows (Pipeline.arrRef spec1) (fun w => (cfg1.win w).isOut) (W1 m ρ c) (W2 m ρ c)
    (W2_of_ne m ρ c)
    (fun w hw => by rw [W2_arr, (dat1 (V1 m ρ) c).arrAt_in w hw, A_eq1])
    outs1 (by decide) b hb

/-- Segment 2 (`hostOps2`) changes only its result buffers. -/
theorem keep2 (c : Dev nD) (b : Ref sig .tc) (hb : b ∉ hostOps2_W) :
    W3 m ρ c (Proc.devRef .tc b) = W2 m ρ c (Proc.devRef .tc b) :=
  WritesAt.keep (hostOps2_at (F := F)) (W2 m ρ c) hb

/-- Segment 3 (region 2) changes only its output arrays: an input window's array leaves as it entered. -/
theorem keep3 (c : Dev nD) (b : Ref sig .tc) (hb : b ∉ outs2) :
    W4 m ρ c (Proc.devRef .tc b) = W3 m ρ c (Proc.devRef .tc b) :=
  keep_of_windows (Pipeline.arrRef spec2) (fun w => (cfg2.win w).isOut) (W3 m ρ c) (W4 m ρ c)
    (W4_of_ne m ρ c)
    (fun w hw => by rw [W4_arr, (dat2 (V3 m ρ) c).arrAt_in w hw, A_eq2])
    outs2 (by decide) b hb

/-- Segment 4 (`hostOps3`) changes only its result buffers. -/
theorem keep4 (c : Dev nD) (b : Ref sig .tc) (hb : b ∉ hostOps3_W) :
    W5 m ρ c (Proc.devRef .tc b) = W4 m ρ c (Proc.devRef .tc b) :=
  WritesAt.keep (hostOps3_at (F := F)) (W4 m ρ c) hb

/-- Segment 5 (`hostOps3_1`) changes only its result buffers. -/
theorem keep5 (c : Dev nD) (b : Ref sig .tc) (hb : b ∉ hostOps3_1_W) :
    W6 m ρ c (Proc.devRef .tc b) = W5 m ρ c (Proc.devRef .tc b) :=
  WritesAt.keep (hostOps3_1_at (F := F)) (W5 m ρ c) hb

/-- Segment 6 (`hostOps3_2`) changes only its result buffers. -/
theorem keep6 (c : Dev nD) (b : Ref sig .tc) (hb : b ∉ hostOps3_2_W) :
    W7 m ρ c (Proc.devRef .tc b) = W6 m ρ c (Proc.devRef .tc b) :=
  WritesAt.keep (hostOps3_2_at (F := F)) (W6 m ρ c) hb

/-- Segment 7 (region 3) changes only its output arrays: an input window's array leaves as it entered. -/
theorem keep7 (c : Dev nD) (b : Ref sig .tc) (hb : b ∉ outs3) :
    W8 m ρ c (Proc.devRef .tc b) = W7 m ρ c (Proc.devRef .tc b) :=
  keep_of_windows (Pipeline.arrRef spec3) (fun w => (cfg3.win w).isOut) (W7 m ρ c) (W8 m ρ c)
    (W8_of_ne m ρ c)
    (fun w hw => by rw [W8_arr, (dat3 (V7 m ρ) c).arrAt_in w hw, A_eq3])
    outs3 (by decide) b hb

/-- Segment 8 (`hostOps4`) changes only its result buffers. -/
theorem keep8 (c : Dev nD) (b : Ref sig .tc) (hb : b ∉ hostOps4_W) :
    W9 m ρ c (Proc.devRef .tc b) = W8 m ρ c (Proc.devRef .tc b) :=
  WritesAt.keep (hostOps4_at (F := F)) (W8 m ρ c) hb

/-- Segment 9 (`hostOps4_1`) changes only its result buffers. -/
theorem keep9 (c : Dev nD) (b : Ref sig .tc) (hb : b ∉ hostOps4_1_W) :
    W10 m ρ c (Proc.devRef .tc b) = W9 m ρ c (Proc.devRef .tc b) :=
  WritesAt.keep (hostOps4_1_at (F := F)) (W9 m ρ c) hb

/-- Segment 10 (`hostOps4_2`) changes only its result buffers. -/
theorem keep10 (c : Dev nD) (b : Ref sig .tc) (hb : b ∉ hostOps4_2_W) :
    W11 m ρ c (Proc.devRef .tc b) = W10 m ρ c (Proc.devRef .tc b) :=
  WritesAt.keep (hostOps4_2_at (F := F)) (W10 m ρ c) hb

/-- Segment 11 (region 4) changes only its output arrays: an input window's array leaves as it entered. -/
theorem keep11 (c : Dev nD) (b : Ref sig .tc) (hb : b ∉ outs4) :
    W12 m ρ c (Proc.devRef .tc b) = W11 m ρ c (Proc.devRef .tc b) :=
  keep_of_windows (Pipeline.arrRef spec4) (fun w => (cfg4.win w).isOut) (W11 m ρ c) (W12 m ρ c)
    (W12_of_ne m ρ c)
    (fun w hw => by rw [W12_arr, (dat4 (V11 m ρ) c).arrAt_in w hw, A_eq4])
    outs4 (by decide) b hb

/-- Segment 12 (`hostOps5`) changes only its result buffers. -/
theorem keep12 (c : Dev nD) (b : Ref sig .tc) (hb : b ∉ hostOps5_W) :
    W13 m ρ c (Proc.devRef .tc b) = W12 m ρ c (Proc.devRef .tc b) :=
  WritesAt.keep (hostOps5_at (F := F)) (W12 m ρ c) hb

/-- Segment 13 (region 5) changes only its output arrays: an input window's array leaves as it entered. -/
theorem keep13 (c : Dev nD) (b : Ref sig .tc) (hb : b ∉ outs5) :
    W14 m ρ c (Proc.devRef .tc b) = W13 m ρ c (Proc.devRef .tc b) :=
  keep_of_windows (Pipeline.arrRef spec5) (fun w => (cfg5.win w).isOut) (W13 m ρ c) (W14 m ρ c)
    (W14_of_ne m ρ c)
    (fun w hw => by rw [W14_arr, (dat5 (V13 m ρ) c).arrAt_in w hw, A_eq5])
    outs5 (by decide) b hb

/-- Segment 14 (`hostOps6`) changes only its result buffers. -/
theorem keep14 (c : Dev nD) (b : Ref sig .tc) (hb : b ∉ hostOps6_W) :
    W15 m ρ c (Proc.devRef .tc b) = W14 m ρ c (Proc.devRef .tc b) :=
  WritesAt.keep (hostOps6_at (F := F)) (W14 m ρ c) hb

/-- Segment 15 (region 6) changes only its output arrays: an input window's array leaves as it entered. -/
theorem keep15 (c : Dev nD) (b : Ref sig .tc) (hb : b ∉ outs6) :
    W16 m ρ c (Proc.devRef .tc b) = W15 m ρ c (Proc.devRef .tc b) :=
  keep_of_windows (Pipeline.arrRef spec6) (fun w => (cfg6.win w).isOut) (W15 m ρ c) (W16 m ρ c)
    (W16_of_ne m ρ c)
    (fun w hw => by rw [W16_arr, (dat6 (V15 m ρ) c).arrAt_in w hw, A_eq6])
    outs6 (by decide) b hb

/-- Segment 16 (region 7) changes only its output arrays: an input window's array leaves as it entered. -/
theorem keep16 (c : Dev nD) (b : Ref sig .tc) (hb : b ∉ outs7) :
    W17 m ρ c (Proc.devRef .tc b) = W16 m ρ c (Proc.devRef .tc b) :=
  keep_of_windows (Pipeline.arrRef spec7) (fun w => (cfg7.win w).isOut) (W16 m ρ c) (W17 m ρ c)
    (W17_of_ne m ρ c)
    (fun w hw => by rw [W17_arr, (dat7 (V16 m ρ) c).arrAt_in w hw, A_eq7])
    outs7 (by decide) b hb

/-- Segment 17 (`hostOps8`) changes only its result buffers. -/
theorem keep17 (c : Dev nD) (b : Ref sig .tc) (hb : b ∉ hostOps8_W) :
    W18 m ρ c (Proc.devRef .tc b) = W17 m ρ c (Proc.devRef .tc b) :=
  WritesAt.keep (hostOps8_at (F := F)) (W17 m ρ c) hb

/-- Segment 18 (region 8) changes only its output arrays: an input window's array leaves as it entered. -/
theorem keep18 (c : Dev nD) (b : Ref sig .tc) (hb : b ∉ outs8) :
    W19 m ρ c (Proc.devRef .tc b) = W18 m ρ c (Proc.devRef .tc b) :=
  keep_of_windows (Pipeline.arrRef spec8) (fun w => (cfg8.win w).isOut) (W18 m ρ c) (W19 m ρ c)
    (W19_of_ne m ρ c)
    (fun w hw => by rw [W19_arr, (dat8 (V18 m ρ) c).arrAt_in w hw, A_eq8])
    outs8 (by decide) b hb

/-- Segment 19 (`hostOps9`) changes only its result buffers. -/
theorem keep19 (c : Dev nD) (b : Ref sig .tc) (hb : b ∉ hostOps9_W) :
    W20 m ρ c (Proc.devRef .tc b) = W19 m ρ c (Proc.devRef .tc b) :=
  WritesAt.keep (hostOps9_at (F := F)) (W19 m ρ c) hb

/-- Segment 20 (`hostOps9_1`) changes only its result buffers. -/
theorem keep20 (c : Dev nD) (b : Ref sig .tc) (hb : b ∉ hostOps9_1_W) :
    W21 m ρ c (Proc.devRef .tc b) = W20 m ρ c (Proc.devRef .tc b) :=
  WritesAt.keep (hostOps9_1_at (F := F)) (W20 m ρ c) hb

/-- Segment 21 (`hostOps9_2`) changes only its result buffers. -/
theorem keep21 (c : Dev nD) (b : Ref sig .tc) (hb : b ∉ hostOps9_2_W) :
    W22 m ρ c (Proc.devRef .tc b) = W21 m ρ c (Proc.devRef .tc b) :=
  WritesAt.keep (hostOps9_2_at (F := F)) (W21 m ρ c) hb

/-- Segment 22 (region 9) changes only its output arrays: an input window's array leaves as it entered. -/
theorem keep22 (c : Dev nD) (b : Ref sig .tc) (hb : b ∉ outs9) :
    W23 m ρ c (Proc.devRef .tc b) = W22 m ρ c (Proc.devRef .tc b) :=
  keep_of_windows (Pipeline.arrRef spec9) (fun w => (cfg9.win w).isOut) (W22 m ρ c) (W23 m ρ c)
    (W23_of_ne m ρ c)
    (fun w hw => by rw [W23_arr, (dat9 (V22 m ρ) c).arrAt_in w hw, A_eq9])
    outs9 (by decide) b hb

/-- Segment 23 (`hostOps10`) changes only its result buffers. -/
theorem keep23 (c : Dev nD) (b : Ref sig .tc) (hb : b ∉ hostOps10_W) :
    W24 m ρ c (Proc.devRef .tc b) = W23 m ρ c (Proc.devRef .tc b) :=
  WritesAt.keep (hostOps10_at (F := F)) (W23 m ρ c) hb

/-- Segment 24 (`hostOps10_1`) changes only its result buffers. -/
theorem keep24 (c : Dev nD) (b : Ref sig .tc) (hb : b ∉ hostOps10_1_W) :
    W25 m ρ c (Proc.devRef .tc b) = W24 m ρ c (Proc.devRef .tc b) :=
  WritesAt.keep (hostOps10_1_at (F := F)) (W24 m ρ c) hb

/-- Segment 25 (`hostOps10_2`) changes only its result buffers. -/
theorem keep25 (c : Dev nD) (b : Ref sig .tc) (hb : b ∉ hostOps10_2_W) :
    W26 m ρ c (Proc.devRef .tc b) = W25 m ρ c (Proc.devRef .tc b) :=
  WritesAt.keep (hostOps10_2_at (F := F)) (W25 m ρ c) hb

/-- Segment 26 (region 10) changes only its output arrays: an input window's array leaves as it entered. -/
theorem keep26 (c : Dev nD) (b : Ref sig .tc) (hb : b ∉ outs10) :
    W27 m ρ c (Proc.devRef .tc b) = W26 m ρ c (Proc.devRef .tc b) :=
  keep_of_windows (Pipeline.arrRef spec10) (fun w => (cfg10.win w).isOut) (W26 m ρ c) (W27 m ρ c)
    (W27_of_ne m ρ c)
    (fun w hw => by rw [W27_arr, (dat10 (V26 m ρ) c).arrAt_in w hw, A_eq10])
    outs10 (by decide) b hb

/-- Segment 27 (`hostOps11`) changes only its result buffers. -/
theorem keep27 (c : Dev nD) (b : Ref sig .tc) (hb : b ∉ hostOps11_W) :
    W28 m ρ c (Proc.devRef .tc b) = W27 m ρ c (Proc.devRef .tc b) :=
  WritesAt.keep (hostOps11_at (F := F)) (W27 m ρ c) hb

/-- Segment 28 (region 11) changes only its output arrays: an input window's array leaves as it entered. -/
theorem keep28 (c : Dev nD) (b : Ref sig .tc) (hb : b ∉ outs11) :
    W29 m ρ c (Proc.devRef .tc b) = W28 m ρ c (Proc.devRef .tc b) :=
  keep_of_windows (Pipeline.arrRef spec11) (fun w => (cfg11.win w).isOut) (W28 m ρ c) (W29 m ρ c)
    (W29_of_ne m ρ c)
    (fun w hw => by rw [W29_arr, (dat11 (V28 m ρ) c).arrAt_in w hw, A_eq11])
    outs11 (by decide) b hb

/-- Segment 29 (`hostOps12`) changes only its result buffers. -/
theorem keep29 (c : Dev nD) (b : Ref sig .tc) (hb : b ∉ hostOps12_W) :
    W30 m ρ c (Proc.devRef .tc b) = W29 m ρ c (Proc.devRef .tc b) :=
  WritesAt.keep (hostOps12_at (F := F)) (W29 m ρ c) hb

/-- Segment 30 (region 12) changes only its output arrays: an input window's array leaves as it entered. -/
theorem keep30 (c : Dev nD) (b : Ref sig .tc) (hb : b ∉ outs12) :
    W31 m ρ c (Proc.devRef .tc b) = W30 m ρ c (Proc.devRef .tc b) :=
  keep_of_windows (Pipeline.arrRef spec12) (fun w => (cfg12.win w).isOut) (W30 m ρ c) (W31 m ρ c)
    (W31_of_ne m ρ c)
    (fun w hw => by rw [W31_arr, (dat12 (V30 m ρ) c).arrAt_in w hw, A_eq12])
    outs12 (by decide) b hb

/-- Segment 31 (region 13) changes only its output arrays: an input window's array leaves as it entered. -/
theorem keep31 (c : Dev nD) (b : Ref sig .tc) (hb : b ∉ outs13) :
    W32 m ρ c (Proc.devRef .tc b) = W31 m ρ c (Proc.devRef .tc b) :=
  keep_of_windows (Pipeline.arrRef spec13) (fun w => (cfg13.win w).isOut) (W31 m ρ c) (W32 m ρ c)
    (W32_of_ne m ρ c)
    (fun w hw => by rw [W32_arr, (dat13 (V31 m ρ) c).arrAt_in w hw, A_eq13])
    outs13 (by decide) b hb

/-- Segment 32 (`hostOps14`) changes only its result buffers. -/
theorem keep32 (c : Dev nD) (b : Ref sig .tc) (hb : b ∉ hostOps14_W) :
    W33 m ρ c (Proc.devRef .tc b) = W32 m ρ c (Proc.devRef .tc b) :=
  WritesAt.keep (hostOps14_at (F := F)) (W32 m ρ c) hb

/-! ## Persistence to the end -/

/-- The references written by segments 32 … 32. -/
abbrev late32 : List (Ref sig .tc) := hostOps14_W
/-- A buffer the last segment does not write ends as it stood at boundary 32. -/
theorem K_eq_W32 (c : Dev nD) (b : Ref sig .tc) (hb : b ∉ late32) : K m ρ c b = W32 m ρ c (Proc.devRef .tc b) :=
  keep32 m ρ c b hb

/-- The references written by segments 31 … 32. -/
abbrev late31 : List (Ref sig .tc) := outs13 ++ late32
/-- A buffer no segment from 31 on writes ends as it stood at boundary 31. -/
theorem K_eq_W31 (c : Dev nD) (b : Ref sig .tc) (hb : b ∉ late31) : K m ρ c b = W31 m ρ c (Proc.devRef .tc b) :=
  (K_eq_W32 m ρ c b fun h => hb (List.mem_append_right _ h)).trans (keep31 m ρ c b fun h => hb (List.mem_append_left _ h))

/-- The references written by segments 30 … 32. -/
abbrev late30 : List (Ref sig .tc) := outs12 ++ late31
/-- A buffer no segment from 30 on writes ends as it stood at boundary 30. -/
theorem K_eq_W30 (c : Dev nD) (b : Ref sig .tc) (hb : b ∉ late30) : K m ρ c b = W30 m ρ c (Proc.devRef .tc b) :=
  (K_eq_W31 m ρ c b fun h => hb (List.mem_append_right _ h)).trans (keep30 m ρ c b fun h => hb (List.mem_append_left _ h))

/-- The references written by segments 29 … 32. -/
abbrev late29 : List (Ref sig .tc) := hostOps12_W ++ late30
/-- A buffer no segment from 29 on writes ends as it stood at boundary 29. -/
theorem K_eq_W29 (c : Dev nD) (b : Ref sig .tc) (hb : b ∉ late29) : K m ρ c b = W29 m ρ c (Proc.devRef .tc b) :=
  (K_eq_W30 m ρ c b fun h => hb (List.mem_append_right _ h)).trans (keep29 m ρ c b fun h => hb (List.mem_append_left _ h))

/-- The references written by segments 28 … 32. -/
abbrev late28 : List (Ref sig .tc) := outs11 ++ late29
/-- A buffer no segment from 28 on writes ends as it stood at boundary 28. -/
theorem K_eq_W28 (c : Dev nD) (b : Ref sig .tc) (hb : b ∉ late28) : K m ρ c b = W28 m ρ c (Proc.devRef .tc b) :=
  (K_eq_W29 m ρ c b fun h => hb (List.mem_append_right _ h)).trans (keep28 m ρ c b fun h => hb (List.mem_append_left _ h))

/-- The references written by segments 27 … 32. -/
abbrev late27 : List (Ref sig .tc) := hostOps11_W ++ late28
/-- A buffer no segment from 27 on writes ends as it stood at boundary 27. -/
theorem K_eq_W27 (c : Dev nD) (b : Ref sig .tc) (hb : b ∉ late27) : K m ρ c b = W27 m ρ c (Proc.devRef .tc b) :=
  (K_eq_W28 m ρ c b fun h => hb (List.mem_append_right _ h)).trans (keep27 m ρ c b fun h => hb (List.mem_append_left _ h))

/-- The references written by segments 26 … 32. -/
abbrev late26 : List (Ref sig .tc) := outs10 ++ late27
/-- A buffer no segment from 26 on writes ends as it stood at boundary 26. -/
theorem K_eq_W26 (c : Dev nD) (b : Ref sig .tc) (hb : b ∉ late26) : K m ρ c b = W26 m ρ c (Proc.devRef .tc b) :=
  (K_eq_W27 m ρ c b fun h => hb (List.mem_append_right _ h)).trans (keep26 m ρ c b fun h => hb (List.mem_append_left _ h))

/-- The references written by segments 25 … 32. -/
abbrev late25 : List (Ref sig .tc) := hostOps10_2_W ++ late26
/-- A buffer no segment from 25 on writes ends as it stood at boundary 25. -/
theorem K_eq_W25 (c : Dev nD) (b : Ref sig .tc) (hb : b ∉ late25) : K m ρ c b = W25 m ρ c (Proc.devRef .tc b) :=
  (K_eq_W26 m ρ c b fun h => hb (List.mem_append_right _ h)).trans (keep25 m ρ c b fun h => hb (List.mem_append_left _ h))

/-- The references written by segments 24 … 32. -/
abbrev late24 : List (Ref sig .tc) := hostOps10_1_W ++ late25
/-- A buffer no segment from 24 on writes ends as it stood at boundary 24. -/
theorem K_eq_W24 (c : Dev nD) (b : Ref sig .tc) (hb : b ∉ late24) : K m ρ c b = W24 m ρ c (Proc.devRef .tc b) :=
  (K_eq_W25 m ρ c b fun h => hb (List.mem_append_right _ h)).trans (keep24 m ρ c b fun h => hb (List.mem_append_left _ h))

/-- The references written by segments 23 … 32. -/
abbrev late23 : List (Ref sig .tc) := hostOps10_W ++ late24
/-- A buffer no segment from 23 on writes ends as it stood at boundary 23. -/
theorem K_eq_W23 (c : Dev nD) (b : Ref sig .tc) (hb : b ∉ late23) : K m ρ c b = W23 m ρ c (Proc.devRef .tc b) :=
  (K_eq_W24 m ρ c b fun h => hb (List.mem_append_right _ h)).trans (keep23 m ρ c b fun h => hb (List.mem_append_left _ h))

/-- The references written by segments 22 … 32. -/
abbrev late22 : List (Ref sig .tc) := outs9 ++ late23
/-- A buffer no segment from 22 on writes ends as it stood at boundary 22. -/
theorem K_eq_W22 (c : Dev nD) (b : Ref sig .tc) (hb : b ∉ late22) : K m ρ c b = W22 m ρ c (Proc.devRef .tc b) :=
  (K_eq_W23 m ρ c b fun h => hb (List.mem_append_right _ h)).trans (keep22 m ρ c b fun h => hb (List.mem_append_left _ h))

/-- The references written by segments 21 … 32. -/
abbrev late21 : List (Ref sig .tc) := hostOps9_2_W ++ late22
/-- A buffer no segment from 21 on writes ends as it stood at boundary 21. -/
theorem K_eq_W21 (c : Dev nD) (b : Ref sig .tc) (hb : b ∉ late21) : K m ρ c b = W21 m ρ c (Proc.devRef .tc b) :=
  (K_eq_W22 m ρ c b fun h => hb (List.mem_append_right _ h)).trans (keep21 m ρ c b fun h => hb (List.mem_append_left _ h))

/-- The references written by segments 20 … 32. -/
abbrev late20 : List (Ref sig .tc) := hostOps9_1_W ++ late21
/-- A buffer no segment from 20 on writes ends as it stood at boundary 20. -/
theorem K_eq_W20 (c : Dev nD) (b : Ref sig .tc) (hb : b ∉ late20) : K m ρ c b = W20 m ρ c (Proc.devRef .tc b) :=
  (K_eq_W21 m ρ c b fun h => hb (List.mem_append_right _ h)).trans (keep20 m ρ c b fun h => hb (List.mem_append_left _ h))

/-- The references written by segments 19 … 32. -/
abbrev late19 : List (Ref sig .tc) := hostOps9_W ++ late20
/-- A buffer no segment from 19 on writes ends as it stood at boundary 19. -/
theorem K_eq_W19 (c : Dev nD) (b : Ref sig .tc) (hb : b ∉ late19) : K m ρ c b = W19 m ρ c (Proc.devRef .tc b) :=
  (K_eq_W20 m ρ c b fun h => hb (List.mem_append_right _ h)).trans (keep19 m ρ c b fun h => hb (List.mem_append_left _ h))

/-- The references written by segments 18 … 32. -/
abbrev late18 : List (Ref sig .tc) := outs8 ++ late19
/-- A buffer no segment from 18 on writes ends as it stood at boundary 18. -/
theorem K_eq_W18 (c : Dev nD) (b : Ref sig .tc) (hb : b ∉ late18) : K m ρ c b = W18 m ρ c (Proc.devRef .tc b) :=
  (K_eq_W19 m ρ c b fun h => hb (List.mem_append_right _ h)).trans (keep18 m ρ c b fun h => hb (List.mem_append_left _ h))

/-- The references written by segments 17 … 32. -/
abbrev late17 : List (Ref sig .tc) := hostOps8_W ++ late18
/-- A buffer no segment from 17 on writes ends as it stood at boundary 17. -/
theorem K_eq_W17 (c : Dev nD) (b : Ref sig .tc) (hb : b ∉ late17) : K m ρ c b = W17 m ρ c (Proc.devRef .tc b) :=
  (K_eq_W18 m ρ c b fun h => hb (List.mem_append_right _ h)).trans (keep17 m ρ c b fun h => hb (List.mem_append_left _ h))

/-- The references written by segments 16 … 32. -/
abbrev late16 : List (Ref sig .tc) := outs7 ++ late17
/-- A buffer no segment from 16 on writes ends as it stood at boundary 16. -/
theorem K_eq_W16 (c : Dev nD) (b : Ref sig .tc) (hb : b ∉ late16) : K m ρ c b = W16 m ρ c (Proc.devRef .tc b) :=
  (K_eq_W17 m ρ c b fun h => hb (List.mem_append_right _ h)).trans (keep16 m ρ c b fun h => hb (List.mem_append_left _ h))

/-- The references written by segments 15 … 32. -/
abbrev late15 : List (Ref sig .tc) := outs6 ++ late16
/-- A buffer no segment from 15 on writes ends as it stood at boundary 15. -/
theorem K_eq_W15 (c : Dev nD) (b : Ref sig .tc) (hb : b ∉ late15) : K m ρ c b = W15 m ρ c (Proc.devRef .tc b) :=
  (K_eq_W16 m ρ c b fun h => hb (List.mem_append_right _ h)).trans (keep15 m ρ c b fun h => hb (List.mem_append_left _ h))

/-- The references written by segments 14 … 32. -/
abbrev late14 : List (Ref sig .tc) := hostOps6_W ++ late15
/-- A buffer no segment from 14 on writes ends as it stood at boundary 14. -/
theorem K_eq_W14 (c : Dev nD) (b : Ref sig .tc) (hb : b ∉ late14) : K m ρ c b = W14 m ρ c (Proc.devRef .tc b) :=
  (K_eq_W15 m ρ c b fun h => hb (List.mem_append_right _ h)).trans (keep14 m ρ c b fun h => hb (List.mem_append_left _ h))

/-- The references written by segments 13 … 32. -/
abbrev late13 : List (Ref sig .tc) := outs5 ++ late14
/-- A buffer no segment from 13 on writes ends as it stood at boundary 13. -/
theorem K_eq_W13 (c : Dev nD) (b : Ref sig .tc) (hb : b ∉ late13) : K m ρ c b = W13 m ρ c (Proc.devRef .tc b) :=
  (K_eq_W14 m ρ c b fun h => hb (List.mem_append_right _ h)).trans (keep13 m ρ c b fun h => hb (List.mem_append_left _ h))

/-- The references written by segments 12 … 32. -/
abbrev late12 : List (Ref sig .tc) := hostOps5_W ++ late13
/-- A buffer no segment from 12 on writes ends as it stood at boundary 12. -/
theorem K_eq_W12 (c : Dev nD) (b : Ref sig .tc) (hb : b ∉ late12) : K m ρ c b = W12 m ρ c (Proc.devRef .tc b) :=
  (K_eq_W13 m ρ c b fun h => hb (List.mem_append_right _ h)).trans (keep12 m ρ c b fun h => hb (List.mem_append_left _ h))

/-- The references written by segments 11 … 32. -/
abbrev late11 : List (Ref sig .tc) := outs4 ++ late12
/-- A buffer no segment from 11 on writes ends as it stood at boundary 11. -/
theorem K_eq_W11 (c : Dev nD) (b : Ref sig .tc) (hb : b ∉ late11) : K m ρ c b = W11 m ρ c (Proc.devRef .tc b) :=
  (K_eq_W12 m ρ c b fun h => hb (List.mem_append_right _ h)).trans (keep11 m ρ c b fun h => hb (List.mem_append_left _ h))

/-- The references written by segments 10 … 32. -/
abbrev late10 : List (Ref sig .tc) := hostOps4_2_W ++ late11
/-- A buffer no segment from 10 on writes ends as it stood at boundary 10. -/
theorem K_eq_W10 (c : Dev nD) (b : Ref sig .tc) (hb : b ∉ late10) : K m ρ c b = W10 m ρ c (Proc.devRef .tc b) :=
  (K_eq_W11 m ρ c b fun h => hb (List.mem_append_right _ h)).trans (keep10 m ρ c b fun h => hb (List.mem_append_left _ h))

/-- The references written by segments 9 … 32. -/
abbrev late9 : List (Ref sig .tc) := hostOps4_1_W ++ late10
/-- A buffer no segment from 9 on writes ends as it stood at boundary 9. -/
theorem K_eq_W9 (c : Dev nD) (b : Ref sig .tc) (hb : b ∉ late9) : K m ρ c b = W9 m ρ c (Proc.devRef .tc b) :=
  (K_eq_W10 m ρ c b fun h => hb (List.mem_append_right _ h)).trans (keep9 m ρ c b fun h => hb (List.mem_append_left _ h))

/-- The references written by segments 8 … 32. -/
abbrev late8 : List (Ref sig .tc) := hostOps4_W ++ late9
/-- A buffer no segment from 8 on writes ends as it stood at boundary 8. -/
theorem K_eq_W8 (c : Dev nD) (b : Ref sig .tc) (hb : b ∉ late8) : K m ρ c b = W8 m ρ c (Proc.devRef .tc b) :=
  (K_eq_W9 m ρ c b fun h => hb (List.mem_append_right _ h)).trans (keep8 m ρ c b fun h => hb (List.mem_append_left _ h))

/-- The references written by segments 7 … 32. -/
abbrev late7 : List (Ref sig .tc) := outs3 ++ late8
/-- A buffer no segment from 7 on writes ends as it stood at boundary 7. -/
theorem K_eq_W7 (c : Dev nD) (b : Ref sig .tc) (hb : b ∉ late7) : K m ρ c b = W7 m ρ c (Proc.devRef .tc b) :=
  (K_eq_W8 m ρ c b fun h => hb (List.mem_append_right _ h)).trans (keep7 m ρ c b fun h => hb (List.mem_append_left _ h))

/-- The references written by segments 6 … 32. -/
abbrev late6 : List (Ref sig .tc) := hostOps3_2_W ++ late7
/-- A buffer no segment from 6 on writes ends as it stood at boundary 6. -/
theorem K_eq_W6 (c : Dev nD) (b : Ref sig .tc) (hb : b ∉ late6) : K m ρ c b = W6 m ρ c (Proc.devRef .tc b) :=
  (K_eq_W7 m ρ c b fun h => hb (List.mem_append_right _ h)).trans (keep6 m ρ c b fun h => hb (List.mem_append_left _ h))

/-- The references written by segments 5 … 32. -/
abbrev late5 : List (Ref sig .tc) := hostOps3_1_W ++ late6
/-- A buffer no segment from 5 on writes ends as it stood at boundary 5. -/
theorem K_eq_W5 (c : Dev nD) (b : Ref sig .tc) (hb : b ∉ late5) : K m ρ c b = W5 m ρ c (Proc.devRef .tc b) :=
  (K_eq_W6 m ρ c b fun h => hb (List.mem_append_right _ h)).trans (keep5 m ρ c b fun h => hb (List.mem_append_left _ h))

/-- The references written by segments 4 … 32. -/
abbrev late4 : List (Ref sig .tc) := hostOps3_W ++ late5
/-- A buffer no segment from 4 on writes ends as it stood at boundary 4. -/
theorem K_eq_W4 (c : Dev nD) (b : Ref sig .tc) (hb : b ∉ late4) : K m ρ c b = W4 m ρ c (Proc.devRef .tc b) :=
  (K_eq_W5 m ρ c b fun h => hb (List.mem_append_right _ h)).trans (keep4 m ρ c b fun h => hb (List.mem_append_left _ h))

/-- The references written by segments 3 … 32. -/
abbrev late3 : List (Ref sig .tc) := outs2 ++ late4
/-- A buffer no segment from 3 on writes ends as it stood at boundary 3. -/
theorem K_eq_W3 (c : Dev nD) (b : Ref sig .tc) (hb : b ∉ late3) : K m ρ c b = W3 m ρ c (Proc.devRef .tc b) :=
  (K_eq_W4 m ρ c b fun h => hb (List.mem_append_right _ h)).trans (keep3 m ρ c b fun h => hb (List.mem_append_left _ h))

/-- The references written by segments 2 … 32. -/
abbrev late2 : List (Ref sig .tc) := hostOps2_W ++ late3
/-- A buffer no segment from 2 on writes ends as it stood at boundary 2. -/
theorem K_eq_W2 (c : Dev nD) (b : Ref sig .tc) (hb : b ∉ late2) : K m ρ c b = W2 m ρ c (Proc.devRef .tc b) :=
  (K_eq_W3 m ρ c b fun h => hb (List.mem_append_right _ h)).trans (keep2 m ρ c b fun h => hb (List.mem_append_left _ h))

/-- The references written by segments 1 … 32. -/
abbrev late1 : List (Ref sig .tc) := outs1 ++ late2
/-- A buffer no segment from 1 on writes ends as it stood at boundary 1. -/
theorem K_eq_W1 (c : Dev nD) (b : Ref sig .tc) (hb : b ∉ late1) : K m ρ c b = W1 m ρ c (Proc.devRef .tc b) :=
  (K_eq_W2 m ρ c b fun h => hb (List.mem_append_right _ h)).trans (keep1 m ρ c b fun h => hb (List.mem_append_left _ h))

/-- The references written by segments 0 … 32. -/
abbrev late0 : List (Ref sig .tc) := outs0 ++ late1
/-- A buffer no segment from 0 on writes ends as it stood at boundary 0. -/
theorem K_eq_W0 (c : Dev nD) (b : Ref sig .tc) (hb : b ∉ late0) : K m ρ c b = W0 m ρ c (Proc.devRef .tc b) :=
  (K_eq_W1 m ρ c b fun h => hb (List.mem_append_right _ h)).trans (keep0 m ρ c b fun h => hb (List.mem_append_left _ h))

end Cert.KernelIdeal.HandRun

end
-- ==== Proof.KernelEqsRegion.lean ====
/-
  The kernel program's final contents around each region.

  Region `P` is entered at the contents `V_k` of the boundary before its segment `k` and leaves each output
  window's array at what its grid points wrote back, `(datP V_k c).arrAt w N`.  Every buffer is written once, so

  * an output array is not written again: its FINAL contents are the region's write-backs (`koutP_w`);
  * an input array was written before the region and is not written again: what the region finds in it at entry
    is already its FINAL contents (`kinP_w`).

  With these two facts a statement about a region's write-backs in terms of its entry contents becomes, by
  rewriting, an equation between final contents.
-/
import proofs.«103573_j30391188587216_1_alg».proof.Proof.KernelEqs

set_option maxRecDepth 16384

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-! ## Region 0 (segment 0) -/

/-- What region 0 finds in its input `main_arg5` (window 0) is that buffer's final contents. -/
theorem kin0_0 (c : Dev nD) : V0 m ρ c main_arg5 = K m ρ c main_arg5 :=
  (K_eq_W0 m ρ c main_arg5 (by decide)).symm

/-- What region 0 finds in its input `main_arg6` (window 1) is that buffer's final contents. -/
theorem kin0_1 (c : Dev nD) : V0 m ρ c main_arg6 = K m ρ c main_arg6 :=
  (K_eq_W0 m ρ c main_arg6 (by decide)).symm

/-- The final contents of region 0's output `main_v0` are its window 2's write-backs. -/
theorem kout0_2 (c : Dev nD) : K m ρ c main_v0 = (dat0 (V0 m ρ) c).arrAt 2 cfg0.N :=
  (K_eq_W1 m ρ c main_v0 (by decide)).trans (W1_arr m ρ c 2)

/-! ## Region 1 (segment 1) -/

/-- What region 1 finds in its input `main_arg7` (window 0) is that buffer's final contents. -/
theorem kin1_0 (c : Dev nD) : V1 m ρ c main_arg7 = K m ρ c main_arg7 :=
  (K_eq_W1 m ρ c main_arg7 (by decide)).symm

/-- What region 1 finds in its input `main_arg8` (window 1) is that buffer's final contents. -/
theorem kin1_1 (c : Dev nD) : V1 m ρ c main_arg8 = K m ρ c main_arg8 :=
  (K_eq_W1 m ρ c main_arg8 (by decide)).symm

/-- The final contents of region 1's output `main_v1` are its window 2's write-backs. -/
theorem kout1_2 (c : Dev nD) : K m ρ c main_v1 = (dat1 (V1 m ρ) c).arrAt 2 cfg1.N :=
  (K_eq_W2 m ρ c main_v1 (by decide)).trans (W2_arr m ρ c 2)

/-! ## Region 2 (segment 3) -/

/-- What region 2 finds in its input `main_arg4` (window 0) is that buffer's final contents. -/
theorem kin2_0 (c : Dev nD) : V3 m ρ c main_arg4 = K m ρ c main_arg4 :=
  (K_eq_W3 m ρ c main_arg4 (by decide)).symm

/-- What region 2 finds in its input `main_v0` (window 1) is that buffer's final contents. -/
theorem kin2_1 (c : Dev nD) : V3 m ρ c main_v0 = K m ρ c main_v0 :=
  (K_eq_W3 m ρ c main_v0 (by decide)).symm

/-- What region 2 finds in its input `main_v1` (window 2) is that buffer's final contents. -/
theorem kin2_2 (c : Dev nD) : V3 m ρ c main_v1 = K m ρ c main_v1 :=
  (K_eq_W3 m ρ c main_v1 (by decide)).symm

/-- The final contents of region 2's output `main_v3` are its window 3's write-backs. -/
theorem kout2_3 (c : Dev nD) : K m ρ c main_v3 = (dat2 (V3 m ρ) c).arrAt 3 cfg2.N :=
  (K_eq_W4 m ρ c main_v3 (by decide)).trans (W4_arr m ρ c 3)

/-! ## Region 3 (segment 7) -/

/-- What region 3 finds in its input `main_v54` (window 0) is that buffer's final contents. -/
theorem kin3_0 (c : Dev nD) : V7 m ρ c main_v54 = K m ρ c main_v54 :=
  (K_eq_W7 m ρ c main_v54 (by decide)).symm

/-- What region 3 finds in its input `main_v55` (window 1) is that buffer's final contents. -/
theorem kin3_1 (c : Dev nD) : V7 m ρ c main_v55 = K m ρ c main_v55 :=
  (K_eq_W7 m ρ c main_v55 (by decide)).symm

/-- What region 3 finds in its input `main_arg10` (window 2) is that buffer's final contents. -/
theorem kin3_2 (c : Dev nD) : V7 m ρ c main_arg10 = K m ρ c main_arg10 :=
  (K_eq_W7 m ρ c main_arg10 (by decide)).symm

/-- The final contents of region 3's output `main_v56` are its window 3's write-backs. -/
theorem kout3_3 (c : Dev nD) : K m ρ c main_v56 = (dat3 (V7 m ρ) c).arrAt 3 cfg3.N :=
  (K_eq_W8 m ρ c main_v56 (by decide)).trans (W8_arr m ρ c 3)

/-! ## Region 4 (segment 11) -/

/-- What region 4 finds in its input `main_v115` (window 0) is that buffer's final contents. -/
theorem kin4_0 (c : Dev nD) : V11 m ρ c main_v115 = K m ρ c main_v115 :=
  (K_eq_W11 m ρ c main_v115 (by decide)).symm

/-- What region 4 finds in its input `main_v116` (window 1) is that buffer's final contents. -/
theorem kin4_1 (c : Dev nD) : V11 m ρ c main_v116 = K m ρ c main_v116 :=
  (K_eq_W11 m ρ c main_v116 (by decide)).symm

/-- What region 4 finds in its input `main_arg11` (window 2) is that buffer's final contents. -/
theorem kin4_2 (c : Dev nD) : V11 m ρ c main_arg11 = K m ρ c main_arg11 :=
  (K_eq_W11 m ρ c main_arg11 (by decide)).symm

/-- The final contents of region 4's output `main_v117` are its window 3's write-backs. -/
theorem kout4_3 (c : Dev nD) : K m ρ c main_v117 = (dat4 (V11 m ρ) c).arrAt 3 cfg4.N :=
  (K_eq_W12 m ρ c main_v117 (by decide)).trans (W12_arr m ρ c 3)

/-! ## Region 5 (segment 13) -/

/-- What region 5 finds in its input `main_v3` (window 0) is that buffer's final contents. -/
theorem kin5_0 (c : Dev nD) : V13 m ρ c main_v3 = K m ρ c main_v3 :=
  (K_eq_W13 m ρ c main_v3 (by decide)).symm

/-- What region 5 finds in its input `main_arg14` (window 1) is that buffer's final contents. -/
theorem kin5_1 (c : Dev nD) : V13 m ρ c main_arg14 = K m ρ c main_arg14 :=
  (K_eq_W13 m ρ c main_arg14 (by decide)).symm

/-- What region 5 finds in its input `main_arg12` (window 2) is that buffer's final contents. -/
theorem kin5_2 (c : Dev nD) : V13 m ρ c main_arg12 = K m ρ c main_arg12 :=
  (K_eq_W13 m ρ c main_arg12 (by decide)).symm

/-- What region 5 finds in its input `main_v126` (window 3) is that buffer's final contents. -/
theorem kin5_3 (c : Dev nD) : V13 m ρ c main_v126 = K m ρ c main_v126 :=
  (K_eq_W13 m ρ c main_v126 (by decide)).symm

/-- What region 5 finds in its input `main_v127` (window 4) is that buffer's final contents. -/
theorem kin5_4 (c : Dev nD) : V13 m ρ c main_v127 = K m ρ c main_v127 :=
  (K_eq_W13 m ρ c main_v127 (by decide)).symm

/-- The final contents of region 5's output `main_v128_0` are its window 5's write-backs. -/
theorem kout5_5 (c : Dev nD) : K m ρ c main_v128_0 = (dat5 (V13 m ρ) c).arrAt 5 cfg5.N :=
  (K_eq_W14 m ρ c main_v128_0 (by decide)).trans (W14_arr m ρ c 5)

/-- The final contents of region 5's output `main_v128_1` are its window 6's write-backs. -/
theorem kout5_6 (c : Dev nD) : K m ρ c main_v128_1 = (dat5 (V13 m ρ) c).arrAt 6 cfg5.N :=
  (K_eq_W14 m ρ c main_v128_1 (by decide)).trans (W14_arr m ρ c 6)

/-- The final contents of region 5's output `main_v128_2` are its window 7's write-backs. -/
theorem kout5_7 (c : Dev nD) : K m ρ c main_v128_2 = (dat5 (V13 m ρ) c).arrAt 7 cfg5.N :=
  (K_eq_W14 m ρ c main_v128_2 (by decide)).trans (W14_arr m ρ c 7)

/-! ## Region 6 (segment 15) -/

/-- What region 6 finds in its input `main_v128_0` (window 0) is that buffer's final contents. -/
theorem kin6_0 (c : Dev nD) : V15 m ρ c main_v128_0 = K m ρ c main_v128_0 :=
  (K_eq_W15 m ρ c main_v128_0 (by decide)).symm

/-- What region 6 finds in its input `main_v130` (window 1) is that buffer's final contents. -/
theorem kin6_1 (c : Dev nD) : V15 m ρ c main_v130 = K m ρ c main_v130 :=
  (K_eq_W15 m ρ c main_v130 (by decide)).symm

/-- What region 6 finds in its input `main_v134` (window 2) is that buffer's final contents. -/
theorem kin6_2 (c : Dev nD) : V15 m ρ c main_v134 = K m ρ c main_v134 :=
  (K_eq_W15 m ρ c main_v134 (by decide)).symm

/-- The final contents of region 6's output `main_v135` are its window 3's write-backs. -/
theorem kout6_3 (c : Dev nD) : K m ρ c main_v135 = (dat6 (V15 m ρ) c).arrAt 3 cfg6.N :=
  (K_eq_W16 m ρ c main_v135 (by decide)).trans (W16_arr m ρ c 3)

/-! ## Region 7 (segment 16) -/

/-- What region 7 finds in its input `main_v2` (window 0) is that buffer's final contents. -/
theorem kin7_0 (c : Dev nD) : V16 m ρ c main_v2 = K m ρ c main_v2 :=
  (K_eq_W16 m ρ c main_v2 (by decide)).symm

/-- What region 7 finds in its input `main_arg13` (window 1) is that buffer's final contents. -/
theorem kin7_1 (c : Dev nD) : V16 m ρ c main_arg13 = K m ρ c main_arg13 :=
  (K_eq_W16 m ρ c main_arg13 (by decide)).symm

/-- The final contents of region 7's output `main_v136` are its window 2's write-backs. -/
theorem kout7_2 (c : Dev nD) : K m ρ c main_v136 = (dat7 (V16 m ρ) c).arrAt 2 cfg7.N :=
  (K_eq_W17 m ρ c main_v136 (by decide)).trans (W17_arr m ρ c 2)

/-! ## Region 8 (segment 18) -/

/-- What region 8 finds in its input `main_v135` (window 0) is that buffer's final contents. -/
theorem kin8_0 (c : Dev nD) : V18 m ρ c main_v135 = K m ρ c main_v135 :=
  (K_eq_W18 m ρ c main_v135 (by decide)).symm

/-- What region 8 finds in its input `main_v0` (window 1) is that buffer's final contents. -/
theorem kin8_1 (c : Dev nD) : V18 m ρ c main_v0 = K m ρ c main_v0 :=
  (K_eq_W18 m ρ c main_v0 (by decide)).symm

/-- What region 8 finds in its input `main_v1` (window 2) is that buffer's final contents. -/
theorem kin8_2 (c : Dev nD) : V18 m ρ c main_v1 = K m ρ c main_v1 :=
  (K_eq_W18 m ρ c main_v1 (by decide)).symm

/-- The final contents of region 8's output `main_v139` are its window 3's write-backs. -/
theorem kout8_3 (c : Dev nD) : K m ρ c main_v139 = (dat8 (V18 m ρ) c).arrAt 3 cfg8.N :=
  (K_eq_W19 m ρ c main_v139 (by decide)).trans (W19_arr m ρ c 3)

/-! ## Region 9 (segment 22) -/

/-- What region 9 finds in its input `main_v190` (window 0) is that buffer's final contents. -/
theorem kin9_0 (c : Dev nD) : V22 m ρ c main_v190 = K m ρ c main_v190 :=
  (K_eq_W22 m ρ c main_v190 (by decide)).symm

/-- What region 9 finds in its input `main_v191` (window 1) is that buffer's final contents. -/
theorem kin9_1 (c : Dev nD) : V22 m ρ c main_v191 = K m ρ c main_v191 :=
  (K_eq_W22 m ρ c main_v191 (by decide)).symm

/-- What region 9 finds in its input `main_arg16` (window 2) is that buffer's final contents. -/
theorem kin9_2 (c : Dev nD) : V22 m ρ c main_arg16 = K m ρ c main_arg16 :=
  (K_eq_W22 m ρ c main_arg16 (by decide)).symm

/-- The final contents of region 9's output `main_v192` are its window 3's write-backs. -/
theorem kout9_3 (c : Dev nD) : K m ρ c main_v192 = (dat9 (V22 m ρ) c).arrAt 3 cfg9.N :=
  (K_eq_W23 m ρ c main_v192 (by decide)).trans (W23_arr m ρ c 3)

/-! ## Region 10 (segment 26) -/

/-- What region 10 finds in its input `main_v251` (window 0) is that buffer's final contents. -/
theorem kin10_0 (c : Dev nD) : V26 m ρ c main_v251 = K m ρ c main_v251 :=
  (K_eq_W26 m ρ c main_v251 (by decide)).symm

/-- What region 10 finds in its input `main_v252` (window 1) is that buffer's final contents. -/
theorem kin10_1 (c : Dev nD) : V26 m ρ c main_v252 = K m ρ c main_v252 :=
  (K_eq_W26 m ρ c main_v252 (by decide)).symm

/-- What region 10 finds in its input `main_arg17` (window 2) is that buffer's final contents. -/
theorem kin10_2 (c : Dev nD) : V26 m ρ c main_arg17 = K m ρ c main_arg17 :=
  (K_eq_W26 m ρ c main_arg17 (by decide)).symm

/-- The final contents of region 10's output `main_v253` are its window 3's write-backs. -/
theorem kout10_3 (c : Dev nD) : K m ρ c main_v253 = (dat10 (V26 m ρ) c).arrAt 3 cfg10.N :=
  (K_eq_W27 m ρ c main_v253 (by decide)).trans (W27_arr m ρ c 3)

/-! ## Region 11 (segment 28) -/

/-- What region 11 finds in its input `main_v139` (window 0) is that buffer's final contents. -/
theorem kin11_0 (c : Dev nD) : V28 m ρ c main_v139 = K m ρ c main_v139 :=
  (K_eq_W28 m ρ c main_v139 (by decide)).symm

/-- What region 11 finds in its input `main_arg20` (window 1) is that buffer's final contents. -/
theorem kin11_1 (c : Dev nD) : V28 m ρ c main_arg20 = K m ρ c main_arg20 :=
  (K_eq_W28 m ρ c main_arg20 (by decide)).symm

/-- What region 11 finds in its input `main_arg18` (window 2) is that buffer's final contents. -/
theorem kin11_2 (c : Dev nD) : V28 m ρ c main_arg18 = K m ρ c main_arg18 :=
  (K_eq_W28 m ρ c main_arg18 (by decide)).symm

/-- What region 11 finds in its input `main_v262` (window 3) is that buffer's final contents. -/
theorem kin11_3 (c : Dev nD) : V28 m ρ c main_v262 = K m ρ c main_v262 :=
  (K_eq_W28 m ρ c main_v262 (by decide)).symm

/-- What region 11 finds in its input `main_v263` (window 4) is that buffer's final contents. -/
theorem kin11_4 (c : Dev nD) : V28 m ρ c main_v263 = K m ρ c main_v263 :=
  (K_eq_W28 m ρ c main_v263 (by decide)).symm

/-- The final contents of region 11's output `main_v264_0` are its window 5's write-backs. -/
theorem kout11_5 (c : Dev nD) : K m ρ c main_v264_0 = (dat11 (V28 m ρ) c).arrAt 5 cfg11.N :=
  (K_eq_W29 m ρ c main_v264_0 (by decide)).trans (W29_arr m ρ c 5)

/-- The final contents of region 11's output `main_v264_1` are its window 6's write-backs. -/
theorem kout11_6 (c : Dev nD) : K m ρ c main_v264_1 = (dat11 (V28 m ρ) c).arrAt 6 cfg11.N :=
  (K_eq_W29 m ρ c main_v264_1 (by decide)).trans (W29_arr m ρ c 6)

/-- The final contents of region 11's output `main_v264_2` are its window 7's write-backs. -/
theorem kout11_7 (c : Dev nD) : K m ρ c main_v264_2 = (dat11 (V28 m ρ) c).arrAt 7 cfg11.N :=
  (K_eq_W29 m ρ c main_v264_2 (by decide)).trans (W29_arr m ρ c 7)

/-! ## Region 12 (segment 30) -/

/-- What region 12 finds in its input `main_v264_0` (window 0) is that buffer's final contents. -/
theorem kin12_0 (c : Dev nD) : V30 m ρ c main_v264_0 = K m ρ c main_v264_0 :=
  (K_eq_W30 m ρ c main_v264_0 (by decide)).symm

/-- What region 12 finds in its input `main_v266` (window 1) is that buffer's final contents. -/
theorem kin12_1 (c : Dev nD) : V30 m ρ c main_v266 = K m ρ c main_v266 :=
  (K_eq_W30 m ρ c main_v266 (by decide)).symm

/-- What region 12 finds in its input `main_v270` (window 2) is that buffer's final contents. -/
theorem kin12_2 (c : Dev nD) : V30 m ρ c main_v270 = K m ρ c main_v270 :=
  (K_eq_W30 m ρ c main_v270 (by decide)).symm

/-- The final contents of region 12's output `main_v271` are its window 3's write-backs. -/
theorem kout12_3 (c : Dev nD) : K m ρ c main_v271 = (dat12 (V30 m ρ) c).arrAt 3 cfg12.N :=
  (K_eq_W31 m ρ c main_v271 (by decide)).trans (W31_arr m ρ c 3)

/-! ## Region 13 (segment 31) -/

/-- What region 13 finds in its input `main_v138` (window 0) is that buffer's final contents. -/
theorem kin13_0 (c : Dev nD) : V31 m ρ c main_v138 = K m ρ c main_v138 :=
  (K_eq_W31 m ρ c main_v138 (by decide)).symm

/-- What region 13 finds in its input `main_arg19` (window 1) is that buffer's final contents. -/
theorem kin13_1 (c : Dev nD) : V31 m ρ c main_arg19 = K m ρ c main_arg19 :=
  (K_eq_W31 m ρ c main_arg19 (by decide)).symm

/-- The final contents of region 13's output `main_v272` are its window 2's write-backs. -/
theorem kout13_2 (c : Dev nD) : K m ρ c main_v272 = (dat13 (V31 m ρ) c).arrAt 2 cfg13.N :=
  (K_eq_W32 m ρ c main_v272 (by decide)).trans (W32_arr m ρ c 2)

end Cert.KernelIdeal.HandRun

end
-- ==== Proof.KernelEqsHost2.lean ====
/-
  The equations the host operations of `hostOps2` (segment 2) leave between FINAL contents.

  The stretch is in single-assignment form: operation `i` writes the one buffer `hostOps2_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_v2` from `main_arg9`, `main_arg14`. -/
theorem eq_v2 (c : Dev nD) :
    K m ρ c main_v2
      = ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)) (K m ρ c main_arg9) (K m ρ c main_arg14) := by
  rw [K_eq_W3 m ρ c main_v2 (by decide),
    K_eq_W3 m ρ c main_arg9 (by decide),
    K_eq_W3 m ρ c main_arg14 (by decide)]
  exact binary_final (ha := by decide) (hb := by decide) (hy := by decide) (a := main_arg9) (b := main_arg14) (y := main_v2) (f := ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)))
    (hostOps2_at (F := F)) (W2 m ρ c) 0 (by show (0 : Nat) < 1; decide) rfl (by decide) (by decide) (by decide)

end Cert.KernelIdeal.HandRun

end
-- ==== Proof.KernelEqsHost3.lean ====
/-
  The equations the host operations of `hostOps3` (segment 4) leave between FINAL contents.

  The stretch is in single-assignment form: operation `i` writes the one buffer `hostOps3_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_v4` from `main_arg2`. -/
theorem eq_v4 (c : Dev nD) :
    K m ρ c main_v4
      = ((extractStridedSlice S2x200000 ![0, 0] · slices_S2x400000_S2x200000_0_0) : (⟨S2x400000, .i32⟩ : BufTy).Contents (Elt F) → (⟨S2x200000, .i32⟩ : BufTy).Contents (Elt F)) (K m ρ c main_arg2) := by
  rw [K_eq_W5 m ρ c main_v4 (by decide),
    K_eq_W5 m ρ c main_arg2 (by decide)]
  exact unary_final (hx := by decide) (hy := by decide) (x := main_arg2) (y := main_v4) (f := ((extractStridedSlice S2x200000 ![0, 0] · slices_S2x400000_S2x200000_0_0) : (⟨S2x400000, .i32⟩ : BufTy).Contents (Elt F) → (⟨S2x200000, .i32⟩ : BufTy).Contents (Elt F)))
    (hostOps3_at (F := F)) (W4 m ρ c) 0 (by show (0 : Nat) < 27; decide) rfl (by decide) (by decide)

/-- Operation 1: `main_v5` from `main_arg3`. -/
theorem eq_v5 (c : Dev nD) :
    K m ρ c main_v5
      = ((extractStridedSlice S200000 ![0] · slices_S400000_S200000_0) : (⟨S400000, .i32⟩ : BufTy).Contents (Elt F) → (⟨S200000, .i32⟩ : BufTy).Contents (Elt F)) (K m ρ c main_arg3) := by
  rw [K_eq_W5 m ρ c main_v5 (by decide),
    K_eq_W5 m ρ c main_arg3 (by decide)]
  exact unary_final (hx := by decide) (hy := by decide) (x := main_arg3) (y := main_v5) (f := ((extractStridedSlice S200000 ![0] · slices_S400000_S200000_0) : (⟨S400000, .i32⟩ : BufTy).Contents (Elt F) → (⟨S200000, .i32⟩ : BufTy).Contents (Elt F)))
    (hostOps3_at (F := F)) (W4 m ρ c) 1 (by show (1 : Nat) < 27; decide) rfl (by decide) (by decide)

/-- Operation 2: `main_v6` from `main_v4`. -/
theorem eq_v6 (c : Dev nD) :
    K m ρ c main_v6
      = ((extractStridedSlice S1x200000 ![0, 0] · slices_S2x200000_S1x200000_0_0) : (⟨S2x200000, .i32⟩ : BufTy).Contents (Elt F) → (⟨S1x200000, .i32⟩ : BufTy).Contents (Elt F)) (K m ρ c main_v4) := by
  rw [K_eq_W5 m ρ c main_v6 (by decide),
    K_eq_W5 m ρ c main_v4 (by decide)]
  exact unary_final (hx := by decide) (hy := by decide) (x := main_v4) (y := main_v6) (f := ((extractStridedSlice S1x200000 ![0, 0] · slices_S2x200000_S1x200000_0_0) : (⟨S2x200000, .i32⟩ : BufTy).Contents (Elt F) → (⟨S1x200000, .i32⟩ : BufTy).Contents (Elt F)))
    (hostOps3_at (F := F)) (W4 m ρ c) 2 (by show (2 : Nat) < 27; decide) rfl (by decide) (by decide)

/-- Operation 3: `main_v7` from `main_v6`. -/
theorem eq_v7 (c : Dev nD) :
    K m ρ c main_v7
      = fun j => shapeCast (s := S1x200000) S200000 (K m ρ c main_v6) shapeCasts_S1x200000_S200000 j := by
  rw [K_eq_W5 m ρ c main_v7 (by decide),
    K_eq_W5 m ρ c main_v6 (by decide)]
  exact reshape_final (he := rfl) (hn := shapeCasts_S1x200000_S200000) (hx := by decide) (hy := by decide) (x := main_v6) (y := main_v7)
    (hostOps3_at (F := F)) (W4 m ρ c) 3 (by show (3 : Nat) < 27; decide) rfl (by decide) (by decide)

/-- Operation 4: `main_v8` from `main_v4`. -/
theorem eq_v8 (c : Dev nD) :
    K m ρ c main_v8
      = ((extractStridedSlice S1x200000 ![1, 0] · slices_S2x200000_S1x200000_1_0) : (⟨S2x200000, .i32⟩ : BufTy).Contents (Elt F) → (⟨S1x200000, .i32⟩ : BufTy).Contents (Elt F)) (K m ρ c main_v4) := by
  rw [K_eq_W5 m ρ c main_v8 (by decide),
    K_eq_W5 m ρ c main_v4 (by decide)]
  exact unary_final (hx := by decide) (hy := by decide) (x := main_v4) (y := main_v8) (f := ((extractStridedSlice S1x200000 ![1, 0] · slices_S2x200000_S1x200000_1_0) : (⟨S2x200000, .i32⟩ : BufTy).Contents (Elt F) → (⟨S1x200000, .i32⟩ : BufTy).Contents (Elt F)))
    (hostOps3_at (F := F)) (W4 m ρ c) 4 (by show (4 : Nat) < 27; decide) rfl (by decide) (by decide)

/-- Operation 5: `main_v9` from `main_v8`. -/
theorem eq_v9 (c : Dev nD) :
    K m ρ c main_v9
      = fun j => shapeCast (s := S1x200000) S200000 (K m ρ c main_v8) shapeCasts_S1x200000_S200000 j := by
  rw [K_eq_W5 m ρ c main_v9 (by decide),
    K_eq_W5 m ρ c main_v8 (by decide)]
  exact reshape_final (he := rfl) (hn := shapeCasts_S1x200000_S200000) (hx := by decide) (hy := by decide) (x := main_v8) (y := main_v9)
    (hostOps3_at (F := F)) (W4 m ρ c) 5 (by show (5 : Nat) < 27; decide) rfl (by decide) (by decide)

/-- Operation 6: `main_cst`, a constant. -/
theorem eq_cst (c : Dev nD) :
    K m ρ c main_cst
      = ((constant S_ .f32 0x00000000#32) : (⟨S_, .f32⟩ : BufTy).Contents (Elt F)) := by
  rw [K_eq_W5 m ρ c main_cst (by decide)]
  exact nullary_final (hy := by decide) (y := main_cst) (v := ((constant S_ .f32 0x00000000#32) : (⟨S_, .f32⟩ : BufTy).Contents (Elt F)))
    (hostOps3_at (F := F)) (W4 m ρ c) 6 (by show (6 : Nat) < 27; decide) rfl (by decide)

/-- Operation 7: `main_v10` from `main_cst`. -/
theorem eq_v10 (c : Dev nD) :
    K m ρ c main_v10
      = (broadcastInDim S100000 ![] bcast_S_S100000 : (⟨S_, .f32⟩ : BufTy).Contents (Elt F) → (⟨S100000, .f32⟩ : BufTy).Contents (Elt F)) (K m ρ c main_cst) := by
  rw [K_eq_W5 m ρ c main_v10 (by decide),
    K_eq_W5 m ρ c main_cst (by decide)]
  exact unary_final (hx := by decide) (hy := by decide) (x := main_cst) (y := main_v10) (f := (broadcastInDim S100000 ![] bcast_S_S100000 : (⟨S_, .f32⟩ : BufTy).Contents (Elt F) → (⟨S100000, .f32⟩ : BufTy).Contents (Elt F)))
    (hostOps3_at (F := F)) (W4 m ρ c) 7 (by show (7 : Nat) < 27; decide) rfl (by decide) (by decide)

/-- Operation 8: `main_c`, a constant. -/
theorem eq_c (c : Dev nD) :
    K m ρ c main_c
      = ((constantI S_ 32 0#32) : (⟨S_, .i32⟩ : BufTy).Contents (Elt F)) := by
  rw [K_eq_W5 m ρ c main_c (by decide)]
  exact nullary_final (hy := by decide) (y := main_c) (v := ((constantI S_ 32 0#32) : (⟨S_, .i32⟩ : BufTy).Contents (Elt F)))
    (hostOps3_at (F := F)) (W4 m ρ c) 8 (by show (8 : Nat) < 27; decide) rfl (by decide)

/-- Operation 9: `main_v11` from `main_c`. -/
theorem eq_v11 (c : Dev nD) :
    K m ρ c main_v11
      = (broadcastInDim S200000 ![] bcast_S_S200000 : (⟨S_, .i32⟩ : BufTy).Contents (Elt F) → (⟨S200000, .i32⟩ : BufTy).Contents (Elt F)) (K m ρ c main_c) := by
  rw [K_eq_W5 m ρ c main_v11 (by decide),
    K_eq_W5 m ρ c main_c (by decide)]
  exact unary_final (hx := by decide) (hy := by decide) (x := main_c) (y := main_v11) (f := (broadcastInDim S200000 ![] bcast_S_S200000 : (⟨S_, .i32⟩ : BufTy).Contents (Elt F) → (⟨S200000, .i32⟩ : BufTy).Contents (Elt F)))
    (hostOps3_at (F := F)) (W4 m ρ c) 9 (by show (9 : Nat) < 27; decide) rfl (by decide) (by decide)

/-- Operation 10: `main_v12` from `main_v7`, `main_v11`. -/
theorem eq_v12 (c : Dev nD) :
    K m ρ c main_v12
      = (cmpi .slt : (⟨S200000, .i32⟩ : BufTy).Contents (Elt F) → (⟨S200000, .i32⟩ : BufTy).Contents (Elt F) → (⟨S200000, .i1⟩ : BufTy).Contents (Elt F)) (K m ρ c main_v7) (K m ρ c main_v11) := by
  rw [K_eq_W5 m ρ c main_v12 (by decide),
    K_eq_W5 m ρ c main_v7 (by decide),
    K_eq_W5 m ρ c main_v11 (by decide)]
  exact binary_final (ha := by decide) (hb := by decide) (hy := by decide) (a := main_v7) (b := main_v11) (y := main_v12) (f := (cmpi .slt : (⟨S200000, .i32⟩ : BufTy).Contents (Elt F) → (⟨S200000, .i32⟩ : BufTy).Contents (Elt F) → (⟨S200000, .i1⟩ : BufTy).Contents (Elt F)))
    (hostOps3_at (F := F)) (W4 m ρ c) 10 (by show (10 : Nat) < 27; decide) rfl (by decide) (by decide) (by decide)

/-- Operation 11: `main_c_0`, a constant. -/
theorem eq_c_0 (c : Dev nD) :
    K m ρ c main_c_0
      = ((constantI S_ 32 100000#32) : (⟨S_, .i32⟩ : BufTy).Contents (Elt F)) := by
  rw [K_eq_W5 m ρ c main_c_0 (by decide)]
  exact nullary_final (hy := by decide) (y := main_c_0) (v := ((constantI S_ 32 100000#32) : (⟨S_, .i32⟩ : BufTy).Contents (Elt F)))
    (hostOps3_at (F := F)) (W4 m ρ c) 11 (by show (11 : Nat) < 27; decide) rfl (by decide)

/-- Operation 12: `main_v13` from `main_c_0`. -/
theorem eq_v13 (c : Dev nD) :
    K m ρ c main_v13
      = (broadcastInDim S200000 ![] bcast_S_S200000 : (⟨S_, .i32⟩ : BufTy).Contents (Elt F) → (⟨S200000, .i32⟩ : BufTy).Contents (Elt F)) (K m ρ c main_c_0) := by
  rw [K_eq_W5 m ρ c main_v13 (by decide),
    K_eq_W5 m ρ c main_c_0 (by decide)]
  exact unary_final (hx := by decide) (hy := by decide) (x := main_c_0) (y := main_v13) (f := (broadcastInDim S200000 ![] bcast_S_S200000 : (⟨S_, .i32⟩ : BufTy).Contents (Elt F) → (⟨S200000, .i32⟩ : BufTy).Contents (Elt F)))
    (hostOps3_at (F := F)) (W4 m ρ c) 12 (by show (12 : Nat) < 27; decide) rfl (by decide) (by decide)

/-- Operation 13: `main_v14` from `main_v7`, `main_v13`. -/
theorem eq_v14 (c : Dev nD) :
    K m ρ c main_v14
      = (addi : (⟨S200000, .i32⟩ : BufTy).Contents (Elt F) → (⟨S200000, .i32⟩ : BufTy).Contents (Elt F) → (⟨S200000, .i32⟩ : BufTy).Contents (Elt F)) (K m ρ c main_v7) (K m ρ c main_v13) := by
  rw [K_eq_W5 m ρ c main_v14 (by decide),
    K_eq_W5 m ρ c main_v7 (by decide),
    K_eq_W5 m ρ c main_v13 (by decide)]
  exact binary_final (ha := by decide) (hb := by decide) (hy := by decide) (a := main_v7) (b := main_v13) (y := main_v14) (f := (addi : (⟨S200000, .i32⟩ : BufTy).Contents (Elt F) → (⟨S200000, .i32⟩ : BufTy).Contents (Elt F) → (⟨S200000, .i32⟩ : BufTy).Contents (Elt F)))
    (hostOps3_at (F := F)) (W4 m ρ c) 13 (by show (13 : Nat) < 27; decide) rfl (by decide) (by decide) (by decide)

/-- Operation 14: `main_v15` from `main_v12`, `main_v14`, `main_v7`. -/
theorem eq_v15 (c : Dev nD) :
    K m ρ c main_v15
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v12) (K m ρ c main_v14) (K m ρ c main_v7) := by
  rw [K_eq_W5 m ρ c main_v15 (by decide),
    K_eq_W5 m ρ c main_v12 (by decide),
    K_eq_W5 m ρ c main_v14 (by decide),
    K_eq_W5 m ρ c main_v7 (by decide)]
  exact ternary_final (hc := by decide) (ha := by decide) (hb := by decide) (hy := by decide) (c := main_v12) (a := main_v14) (b := main_v7) (y := main_v15) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps3_at (F := F)) (W4 m ρ c) 14 (by show (14 : Nat) < 27; decide) rfl (by decide) (by decide) (by decide) (by decide)

/-- Operation 15: `main_v16` from `main_v15`. -/
theorem eq_v16 (c : Dev nD) :
    K m ρ c main_v16
      = (broadcastInDim S200000x1 ![0] bcast_S200000_S200000x1_0 : (⟨S200000, .i32⟩ : BufTy).Contents (Elt F) → (⟨S200000x1, .i32⟩ : BufTy).Contents (Elt F)) (K m ρ c main_v15) := by
  rw [K_eq_W5 m ρ c main_v16 (by decide),
    K_eq_W5 m ρ c main_v15 (by decide)]
  exact unary_final (hx := by decide) (hy := by decide) (x := main_v15) (y := main_v16) (f := (broadcastInDim S200000x1 ![0] bcast_S200000_S200000x1_0 : (⟨S200000, .i32⟩ : BufTy).Contents (Elt F) → (⟨S200000x1, .i32⟩ : BufTy).Contents (Elt F)))
    (hostOps3_at (F := F)) (W4 m ρ c) 15 (by show (15 : Nat) < 27; decide) rfl (by decide) (by decide)

/-- Operation 16: `main_cst_1`, a constant. -/
theorem eq_cst_1 (c : Dev nD) :
    K m ρ c main_cst_1
      = ((constant S_ .f32 0x3F800000#32) : (⟨S_, .f32⟩ : BufTy).Contents (Elt F)) := by
  rw [K_eq_W5 m ρ c main_cst_1 (by decide)]
  exact nullary_final (hy := by decide) (y := main_cst_1) (v := ((constant S_ .f32 0x3F800000#32) : (⟨S_, .f32⟩ : BufTy).Contents (Elt F)))
    (hostOps3_at (F := F)) (W4 m ρ c) 16 (by show (16 : Nat) < 27; decide) rfl (by decide)

/-- Operation 17: `main_v17` from `main_cst_1`. -/
theorem eq_v17 (c : Dev nD) :
    K m ρ c main_v17
      = (broadcastInDim S200000 ![] bcast_S_S200000 : (⟨S_, .f32⟩ : BufTy).Contents (Elt F) → (⟨S200000, .f32⟩ : BufTy).Contents (Elt F)) (K m ρ c main_cst_1) := by
  rw [K_eq_W5 m ρ c main_v17 (by decide),
    K_eq_W5 m ρ c main_cst_1 (by decide)]
  exact unary_final (hx := by decide) (hy := by decide) (x := main_cst_1) (y := main_v17) (f := (broadcastInDim S200000 ![] bcast_S_S200000 : (⟨S_, .f32⟩ : BufTy).Contents (Elt F) → (⟨S200000, .f32⟩ : BufTy).Contents (Elt F)))
    (hostOps3_at (F := F)) (W4 m ρ c) 17 (by show (17 : Nat) < 27; decide) rfl (by decide) (by decide)

/-- Operation 18: `main_v18` from `main_v10`, `main_v16`, `main_v17`. -/
theorem eq_v18 (c : Dev nD) :
    K m ρ c main_v18
      = ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) (K m ρ c main_v10) (K m ρ c main_v16) (K m ρ c main_v17) := by
  rw [K_eq_W5 m ρ c main_v18 (by decide),
    K_eq_W5 m ρ c main_v10 (by decide),
    K_eq_W5 m ρ c main_v16 (by decide),
    K_eq_W5 m ρ c main_v17 (by decide)]
  exact ternary_final (hc := by decide) (ha := by decide) (hb := by decide) (hy := by decide) (c := main_v10) (a := main_v16) (b := main_v17) (y := main_v18) (f := ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)))
    (hostOps3_at (F := F)) (W4 m ρ c) 18 (by show (18 : Nat) < 27; decide) rfl (by decide) (by decide) (by decide) (by decide)

/-- Operation 19: `main_cst_2`, a constant. -/
theorem eq_cst_2 (c : Dev nD) :
    K m ρ c main_cst_2
      = ((constant S_ .f32 0x00000000#32) : (⟨S_, .f32⟩ : BufTy).Contents (Elt F)) := by
  rw [K_eq_W5 m ρ c main_cst_2 (by decide)]
  exact nullary_final (hy := by decide) (y := main_cst_2) (v := ((constant S_ .f32 0x00000000#32) : (⟨S_, .f32⟩ : BufTy).Contents (Elt F)))
    (hostOps3_at (F := F)) (W4 m ρ c) 19 (by show (19 : Nat) < 27; decide) rfl (by decide)

/-- Operation 20: `main_v19` from `main_cst_2`. -/
theorem eq_v19 (c : Dev nD) :
    K m ρ c main_v19
      = (broadcastInDim S100000 ![] bcast_S_S100000 : (⟨S_, .f32⟩ : BufTy).Contents (Elt F) → (⟨S100000, .f32⟩ : BufTy).Contents (Elt F)) (K m ρ c main_cst_2) := by
  rw [K_eq_W5 m ρ c main_v19 (by decide),
    K_eq_W5 m ρ c main_cst_2 (by decide)]
  exact unary_final (hx := by decide) (hy := by decide) (x := main_cst_2) (y := main_v19) (f := (broadcastInDim S100000 ![] bcast_S_S100000 : (⟨S_, .f32⟩ : BufTy).Contents (Elt F) → (⟨S100000, .f32⟩ : BufTy).Contents (Elt F)))
    (hostOps3_at (F := F)) (W4 m ρ c) 20 (by show (20 : Nat) < 27; decide) rfl (by decide) (by decide)

/-- Operation 21: `main_v20` from `main_v18`, `main_v19`. -/
theorem eq_v20 (c : Dev nD) :
    K m ρ c main_v20
      = (cmpf .ogt : (⟨S100000, .f32⟩ : BufTy).Contents (Elt F) → (⟨S100000, .f32⟩ : BufTy).Contents (Elt F) → (⟨S100000, .i1⟩ : BufTy).Contents (Elt F)) (K m ρ c main_v18) (K m ρ c main_v19) := by
  rw [K_eq_W5 m ρ c main_v20 (by decide),
    K_eq_W5 m ρ c main_v18 (by decide),
    K_eq_W5 m ρ c main_v19 (by decide)]
  exact binary_final (ha := by decide) (hb := by decide) (hy := by decide) (a := main_v18) (b := main_v19) (y := main_v20) (f := (cmpf .ogt : (⟨S100000, .f32⟩ : BufTy).Contents (Elt F) → (⟨S100000, .f32⟩ : BufTy).Contents (Elt F) → (⟨S100000, .i1⟩ : BufTy).Contents (Elt F)))
    (hostOps3_at (F := F)) (W4 m ρ c) 21 (by show (21 : Nat) < 27; decide) rfl (by decide) (by decide) (by decide)

/-- Operation 22: `main_cst_3`, a constant. -/
theorem eq_cst_3 (c : Dev nD) :
    K m ρ c main_cst_3
      = ((constant S_ .f32 0x3F800000#32) : (⟨S_, .f32⟩ : BufTy).Contents (Elt F)) := by
  rw [K_eq_W5 m ρ c main_cst_3 (by decide)]
  exact nullary_final (hy := by decide) (y := main_cst_3) (v := ((constant S_ .f32 0x3F800000#32) : (⟨S_, .f32⟩ : BufTy).Contents (Elt F)))
    (hostOps3_at (F := F)) (W4 m ρ c) 22 (by show (22 : Nat) < 27; decide) rfl (by decide)

/-- Operation 23: `main_v21` from `main_cst_3`. -/
theorem eq_v21 (c : Dev nD) :
    K m ρ c main_v21
      = (broadcastInDim S100000 ![] bcast_S_S100000 : (⟨S_, .f32⟩ : BufTy).Contents (Elt F) → (⟨S100000, .f32⟩ : BufTy).Contents (Elt F)) (K m ρ c main_cst_3) := by
  rw [K_eq_W5 m ρ c main_v21 (by decide),
    K_eq_W5 m ρ c main_cst_3 (by decide)]
  exact unary_final (hx := by decide) (hy := by decide) (x := main_cst_3) (y := main_v21) (f := (broadcastInDim S100000 ![] bcast_S_S100000 : (⟨S_, .f32⟩ : BufTy).Contents (Elt F) → (⟨S100000, .f32⟩ : BufTy).Contents (Elt F)))
    (hostOps3_at (F := F)) (W4 m ρ c) 23 (by show (23 : Nat) < 27; decide) rfl (by decide) (by decide)

/-- Operation 24: `main_v22` from `main_v18`, `main_v21`. -/
theorem eq_v22 (c : Dev nD) :
    K m ρ c main_v22
      = (maximumf : (⟨S100000, .f32⟩ : BufTy).Contents (Elt F) → (⟨S100000, .f32⟩ : BufTy).Contents (Elt F) → (⟨S100000, .f32⟩ : BufTy).Contents (Elt F)) (K m ρ c main_v18) (K m ρ c main_v21) := by
  rw [K_eq_W5 m ρ c main_v22 (by decide),
    K_eq_W5 m ρ c main_v18 (by decide),
    K_eq_W5 m ρ c main_v21 (by decide)]
  exact binary_final (ha := by decide) (hb := by decide) (hy := by decide) (a := main_v18) (b := main_v21) (y := main_v22) (f := (maximumf : (⟨S100000, .f32⟩ : BufTy).Contents (Elt F) → (⟨S100000, .f32⟩ : BufTy).Contents (Elt F) → (⟨S100000, .f32⟩ : BufTy).Contents (Elt F)))
    (hostOps3_at (F := F)) (W4 m ρ c) 24 (by show (24 : Nat) < 27; decide) rfl (by decide) (by decide) (by decide)

/-- Operation 25: `main_v23` from `main_v22`. -/
theorem eq_v23 (c : Dev nD) :
    K m ρ c main_v23
      = (Host.rsqrt : (⟨S100000, .f32⟩ : BufTy).Contents (Elt F) → (⟨S100000, .f32⟩ : BufTy).Contents (Elt F)) (K m ρ c main_v22) := by
  rw [K_eq_W5 m ρ c main_v23 (by decide),
    K_eq_W5 m ρ c main_v22 (by decide)]
  exact unary_final (hx := by decide) (hy := by decide) (x := main_v22) (y := main_v23) (f := (Host.rsqrt : (⟨S100000, .f32⟩ : BufTy).Contents (Elt F) → (⟨S100000, .f32⟩ : BufTy).Contents (Elt F)))
    (hostOps3_at (F := F)) (W4 m ρ c) 25 (by show (25 : Nat) < 27; decide) rfl (by decide) (by decide)

/-- Operation 26: `main_cst_4`, a constant. -/
theorem eq_cst_4 (c : Dev nD) :
    K m ρ c main_cst_4
      = ((constant S_ .f32 0x00000000#32) : (⟨S_, .f32⟩ : BufTy).Contents (Elt F)) := by
  rw [K_eq_W5 m ρ c main_cst_4 (by decide)]
  exact nullary_final (hy := by decide) (y := main_cst_4) (v := ((constant S_ .f32 0x00000000#32) : (⟨S_, .f32⟩ : BufTy).Contents (Elt F)))
    (hostOps3_at (F := F)) (W4 m ρ c) 26 (by show (26 : Nat) < 27; decide) rfl (by decide)

end Cert.KernelIdeal.HandRun

end
-- ==== Proof.KernelEqsHost3_1.lean ====
/-
  The equations the host operations of `hostOps3_1` (segment 5) leave between FINAL contents.

  The stretch is in single-assignment form: operation `i` writes the one buffer `hostOps3_1_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_call0_v0` from `main_cst_4`. -/
theorem eq_call0_v0 (c : Dev nD) :
    K m ρ c main_call0_v0
      = (id : (⟨S_, .f32⟩ : BufTy).Contents (Elt F) → (⟨S_, .f32⟩ : BufTy).Contents (Elt F)) (K m ρ c main_cst_4) := by
  rw [K_eq_W6 m ρ c main_call0_v0 (by decide),
    K_eq_W6 m ρ c main_cst_4 (by decide)]
  exact unary_final (hx := by decide) (hy := by decide) (x := main_cst_4) (y := main_call0_v0) (f := (id : (⟨S_, .f32⟩ : BufTy).Contents (Elt F) → (⟨S_, .f32⟩ : BufTy).Contents (Elt F)))
    (hostOps3_1_at (F := F)) (W5 m ρ c) 0 (by show (0 : Nat) < 3; decide) rfl (by decide) (by decide)

/-- Operation 1: `main_call0_v1` from `main_call0_v0`. -/
theorem eq_call0_v1 (c : Dev nD) :
    K m ρ c main_call0_v1
      = ((broadcastInDim S100000 ![] bcast_S_S100000) : (⟨S_, .f32⟩ : BufTy).Contents (Elt F) → (⟨S100000, .f32⟩ : BufTy).Contents (Elt F)) (K m ρ c main_call0_v0) := by
  rw [K_eq_W6 m ρ c main_call0_v1 (by decide),
    K_eq_W6 m ρ c main_call0_v0 (by decide)]
  exact unary_final (hx := by decide) (hy := by decide) (x := main_call0_v0) (y := main_call0_v1) (f := ((broadcastInDim S100000 ![] bcast_S_S100000) : (⟨S_, .f32⟩ : BufTy).Contents (Elt F) → (⟨S100000, .f32⟩ : BufTy).Contents (Elt F)))
    (hostOps3_1_at (F := F)) (W5 m ρ c) 1 (by show (1 : Nat) < 3; decide) rfl (by decide) (by decide)

/-- Operation 2: `main_v24` from `main_v20`, `main_v23`, `main_call0_v1`. -/
theorem eq_v24 (c : Dev nD) :
    K m ρ c main_v24
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (K m ρ c main_v20) (K m ρ c main_v23) (K m ρ c main_call0_v1) := by
  rw [K_eq_W6 m ρ c main_v24 (by decide),
    K_eq_W6 m ρ c main_v20 (by decide),
    K_eq_W6 m ρ c main_v23 (by decide),
    K_eq_W6 m ρ c main_call0_v1 (by decide)]
  exact ternary_final (hc := by decide) (ha := by decide) (hb := by decide) (hy := by decide) (c := main_v20) (a := main_v23) (b := main_call0_v1) (y := main_v24) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)))
    (hostOps3_1_at (F := F)) (W5 m ρ c) 2 (by show (2 : Nat) < 3; decide) rfl (by decide) (by decide) (by decide) (by decide)

end Cert.KernelIdeal.HandRun

end
-- ==== Proof.KernelEqsHost3_2.lean ====
/-
  The equations the host operations of `hostOps3_2` (segment 6) leave between FINAL contents.

  The stretch is in single-assignment form: operation `i` writes the one buffer `hostOps3_2_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_c_5`, a constant. -/
theorem eq_c_5 (c : Dev nD) :
    K m ρ c main_c_5
      = ((constantI S_ 32 0#32) : (⟨S_, .i32⟩ : BufTy).Contents (Elt F)) := by
  rw [K_eq_W7 m ρ c main_c_5 (by decide)]
  exact nullary_final (hy := by decide) (y := main_c_5) (v := ((constantI S_ 32 0#32) : (⟨S_, .i32⟩ : BufTy).Contents (Elt F)))
    (hostOps3_2_at (F := F)) (W6 m ρ c) 0 (by show (0 : Nat) < 39; decide) rfl (by decide)

/-- Operation 1: `main_v25` from `main_c_5`. -/
theorem eq_v25 (c : Dev nD) :
    K m ρ c main_v25
      = (broadcastInDim S200000 ![] bcast_S_S200000 : (⟨S_, .i32⟩ : BufTy).Contents (Elt F) → (⟨S200000, .i32⟩ : BufTy).Contents (Elt F)) (K m ρ c main_c_5) := by
  rw [K_eq_W7 m ρ c main_v25 (by decide),
    K_eq_W7 m ρ c main_c_5 (by decide)]
  exact unary_final (hx := by decide) (hy := by decide) (x := main_c_5) (y := main_v25) (f := (broadcastInDim S200000 ![] bcast_S_S200000 : (⟨S_, .i32⟩ : BufTy).Contents (Elt F) → (⟨S200000, .i32⟩ : BufTy).Contents (Elt F)))
    (hostOps3_2_at (F := F)) (W6 m ρ c) 1 (by show (1 : Nat) < 39; decide) rfl (by decide) (by decide)

/-- Operation 2: `main_v26` from `main_v7`, `main_v25`. -/
theorem eq_v26 (c : Dev nD) :
    K m ρ c main_v26
      = (cmpi .slt : (⟨S200000, .i32⟩ : BufTy).Contents (Elt F) → (⟨S200000, .i32⟩ : BufTy).Contents (Elt F) → (⟨S200000, .i1⟩ : BufTy).Contents (Elt F)) (K m ρ c main_v7) (K m ρ c main_v25) := by
  rw [K_eq_W7 m ρ c main_v26 (by decide),
    K_eq_W7 m ρ c main_v7 (by decide),
    K_eq_W7 m ρ c main_v25 (by decide)]
  exact binary_final (ha := by decide) (hb := by decide) (hy := by decide) (a := main_v7) (b := main_v25) (y := main_v26) (f := (cmpi .slt : (⟨S200000, .i32⟩ : BufTy).Contents (Elt F) → (⟨S200000, .i32⟩ : BufTy).Contents (Elt F) → (⟨S200000, .i1⟩ : BufTy).Contents (Elt F)))
    (hostOps3_2_at (F := F)) (W6 m ρ c) 2 (by show (2 : Nat) < 39; decide) rfl (by decide) (by decide) (by decide)

/-- Operation 3: `main_c_6`, a constant. -/
theorem eq_c_6 (c : Dev nD) :
    K m ρ c main_c_6
      = ((constantI S_ 32 100000#32) : (⟨S_, .i32⟩ : BufTy).Contents (Elt F)) := by
  rw [K_eq_W7 m ρ c main_c_6 (by decide)]
  exact nullary_final (hy := by decide) (y := main_c_6) (v := ((constantI S_ 32 100000#32) : (⟨S_, .i32⟩ : BufTy).Contents (Elt F)))
    (hostOps3_2_at (F := F)) (W6 m ρ c) 3 (by show (3 : Nat) < 39; decide) rfl (by decide)

/-- Operation 4: `main_v27` from `main_c_6`. -/
theorem eq_v27 (c : Dev nD) :
    K m ρ c main_v27
      = (broadcastInDim S200000 ![] bcast_S_S200000 : (⟨S_, .i32⟩ : BufTy).Contents (Elt F) → (⟨S200000, .i32⟩ : BufTy).Contents (Elt F)) (K m ρ c main_c_6) := by
  rw [K_eq_W7 m ρ c main_v27 (by decide),
    K_eq_W7 m ρ c main_c_6 (by decide)]
  exact unary_final (hx := by decide) (hy := by decide) (x := main_c_6) (y := main_v27) (f := (broadcastInDim S200000 ![] bcast_S_S200000 : (⟨S_, .i32⟩ : BufTy).Contents (Elt F) → (⟨S200000, .i32⟩ : BufTy).Contents (Elt F)))
    (hostOps3_2_at (F := F)) (W6 m ρ c) 4 (by show (4 : Nat) < 39; decide) rfl (by decide) (by decide)

/-- Operation 5: `main_v28` from `main_v7`, `main_v27`. -/
theorem eq_v28 (c : Dev nD) :
    K m ρ c main_v28
      = (addi : (⟨S200000, .i32⟩ : BufTy).Contents (Elt F) → (⟨S200000, .i32⟩ : BufTy).Contents (Elt F) → (⟨S200000, .i32⟩ : BufTy).Contents (Elt F)) (K m ρ c main_v7) (K m ρ c main_v27) := by
  rw [K_eq_W7 m ρ c main_v28 (by decide),
    K_eq_W7 m ρ c main_v7 (by decide),
    K_eq_W7 m ρ c main_v27 (by decide)]
  exact binary_final (ha := by decide) (hb := by decide) (hy := by decide) (a := main_v7) (b := main_v27) (y := main_v28) (f := (addi : (⟨S200000, .i32⟩ : BufTy).Contents (Elt F) → (⟨S200000, .i32⟩ : BufTy).Contents (Elt F) → (⟨S200000, .i32⟩ : BufTy).Contents (Elt F)))
    (hostOps3_2_at (F := F)) (W6 m ρ c) 5 (by show (5 : Nat) < 39; decide) rfl (by decide) (by decide) (by decide)

/-- Operation 6: `main_v29` from `main_v26`, `main_v28`, `main_v7`. -/
theorem eq_v29 (c : Dev nD) :
    K m ρ c main_v29
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v26) (K m ρ c main_v28) (K m ρ c main_v7) := by
  rw [K_eq_W7 m ρ c main_v29 (by decide),
    K_eq_W7 m ρ c main_v26 (by decide),
    K_eq_W7 m ρ c main_v28 (by decide),
    K_eq_W7 m ρ c main_v7 (by decide)]
  exact ternary_final (hc := by decide) (ha := by decide) (hb := by decide) (hy := by decide) (c := main_v26) (a := main_v28) (b := main_v7) (y := main_v29) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps3_2_at (F := F)) (W6 m ρ c) 6 (by show (6 : Nat) < 39; decide) rfl (by decide) (by decide) (by decide) (by decide)

/-- Operation 7: `main_v30` from `main_v29`. -/
theorem eq_v30 (c : Dev nD) :
    K m ρ c main_v30
      = (broadcastInDim S200000x1 ![0] bcast_S200000_S200000x1_0 : (⟨S200000, .i32⟩ : BufTy).Contents (Elt F) → (⟨S200000x1, .i32⟩ : BufTy).Contents (Elt F)) (K m ρ c main_v29) := by
  rw [K_eq_W7 m ρ c main_v30 (by decide),
    K_eq_W7 m ρ c main_v29 (by decide)]
  exact unary_final (hx := by decide) (hy := by decide) (x := main_v29) (y := main_v30) (f := (broadcastInDim S200000x1 ![0] bcast_S200000_S200000x1_0 : (⟨S200000, .i32⟩ : BufTy).Contents (Elt F) → (⟨S200000x1, .i32⟩ : BufTy).Contents (Elt F)))
    (hostOps3_2_at (F := F)) (W6 m ρ c) 7 (by show (7 : Nat) < 39; decide) rfl (by decide) (by decide)

/-- Operation 8: `main_v31` from `main_v24`, `main_v30`. -/
theorem eq_v31 (c : Dev nD) :
    K m ρ c main_v31
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v24) (K m ρ c main_v30) := by
  rw [K_eq_W7 m ρ c main_v31 (by decide),
    K_eq_W7 m ρ c main_v24 (by decide),
    K_eq_W7 m ρ c main_v30 (by decide)]
  exact binary_final (ha := by decide) (hb := by decide) (hy := by decide) (a := main_v24) (b := main_v30) (y := main_v31) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps3_2_at (F := F)) (W6 m ρ c) 8 (by show (8 : Nat) < 39; decide) rfl (by decide) (by decide) (by decide)

/-- Operation 9: `main_c_7`, a constant. -/
theorem eq_c_7 (c : Dev nD) :
    K m ρ c main_c_7
      = ((constantI S_ 32 0#32) : (⟨S_, .i32⟩ : BufTy).Contents (Elt F)) := by
  rw [K_eq_W7 m ρ c main_c_7 (by decide)]
  exact nullary_final (hy := by decide) (y := main_c_7) (v := ((constantI S_ 32 0#32) : (⟨S_, .i32⟩ : BufTy).Contents (Elt F)))
    (hostOps3_2_at (F := F)) (W6 m ρ c) 9 (by show (9 : Nat) < 39; decide) rfl (by decide)

/-- Operation 10: `main_v32` from `main_c_7`. -/
theorem eq_v32 (c : Dev nD) :
    K m ρ c main_v32
      = (broadcastInDim S200000 ![] bcast_S_S200000 : (⟨S_, .i32⟩ : BufTy).Contents (Elt F) → (⟨S200000, .i32⟩ : BufTy).Contents (Elt F)) (K m ρ c main_c_7) := by
  rw [K_eq_W7 m ρ c main_v32 (by decide),
    K_eq_W7 m ρ c main_c_7 (by decide)]
  exact unary_final (hx := by decide) (hy := by decide) (x := main_c_7) (y := main_v32) (f := (broadcastInDim S200000 ![] bcast_S_S200000 : (⟨S_, .i32⟩ : BufTy).Contents (Elt F) → (⟨S200000, .i32⟩ : BufTy).Contents (Elt F)))
    (hostOps3_2_at (F := F)) (W6 m ρ c) 10 (by show (10 : Nat) < 39; decide) rfl (by decide) (by decide)

/-- Operation 11: `main_v33` from `main_v9`, `main_v32`. -/
theorem eq_v33 (c : Dev nD) :
    K m ρ c main_v33
      = (cmpi .slt : (⟨S200000, .i32⟩ : BufTy).Contents (Elt F) → (⟨S200000, .i32⟩ : BufTy).Contents (Elt F) → (⟨S200000, .i1⟩ : BufTy).Contents (Elt F)) (K m ρ c main_v9) (K m ρ c main_v32) := by
  rw [K_eq_W7 m ρ c main_v33 (by decide),
    K_eq_W7 m ρ c main_v9 (by decide),
    K_eq_W7 m ρ c main_v32 (by decide)]
  exact binary_final (ha := by decide) (hb := by decide) (hy := by decide) (a := main_v9) (b := main_v32) (y := main_v33) (f := (cmpi .slt : (⟨S200000, .i32⟩ : BufTy).Contents (Elt F) → (⟨S200000, .i32⟩ : BufTy).Contents (Elt F) → (⟨S200000, .i1⟩ : BufTy).Contents (Elt F)))
    (hostOps3_2_at (F := F)) (W6 m ρ c) 11 (by show (11 : Nat) < 39; decide) rfl (by decide) (by decide) (by decide)

/-- Operation 12: `main_c_8`, a constant. -/
theorem eq_c_8 (c : Dev nD) :
    K m ρ c main_c_8
      = ((constantI S_ 32 100000#32) : (⟨S_, .i32⟩ : BufTy).Contents (Elt F)) := by
  rw [K_eq_W7 m ρ c main_c_8 (by decide)]
  exact nullary_final (hy := by decide) (y := main_c_8) (v := ((constantI S_ 32 100000#32) : (⟨S_, .i32⟩ : BufTy).Contents (Elt F)))
    (hostOps3_2_at (F := F)) (W6 m ρ c) 12 (by show (12 : Nat) < 39; decide) rfl (by decide)

/-- Operation 13: `main_v34` from `main_c_8`. -/
theorem eq_v34 (c : Dev nD) :
    K m ρ c main_v34
      = (broadcastInDim S200000 ![] bcast_S_S200000 : (⟨S_, .i32⟩ : BufTy).Contents (Elt F) → (⟨S200000, .i32⟩ : BufTy).Contents (Elt F)) (K m ρ c main_c_8) := by
  rw [K_eq_W7 m ρ c main_v34 (by decide),
    K_eq_W7 m ρ c main_c_8 (by decide)]
  exact unary_final (hx := by decide) (hy := by decide) (x := main_c_8) (y := main_v34) (f := (broadcastInDim S200000 ![] bcast_S_S200000 : (⟨S_, .i32⟩ : BufTy).Contents (Elt F) → (⟨S200000, .i32⟩ : BufTy).Contents (Elt F)))
    (hostOps3_2_at (F := F)) (W6 m ρ c) 13 (by show (13 : Nat) < 39; decide) rfl (by decide) (by decide)

/-- Operation 14: `main_v35` from `main_v9`, `main_v34`. -/
theorem eq_v35 (c : Dev nD) :
    K m ρ c main_v35
      = (addi : (⟨S200000, .i32⟩ : BufTy).Contents (Elt F) → (⟨S200000, .i32⟩ : BufTy).Contents (Elt F) → (⟨S200000, .i32⟩ : BufTy).Contents (Elt F)) (K m ρ c main_v9) (K m ρ c main_v34) := by
  rw [K_eq_W7 m ρ c main_v35 (by decide),
    K_eq_W7 m ρ c main_v9 (by decide),
    K_eq_W7 m ρ c main_v34 (by decide)]
  exact binary_final (ha := by decide) (hb := by decide) (hy := by decide) (a := main_v9) (b := main_v34) (y := main_v35) (f := (addi : (⟨S200000, .i32⟩ : BufTy).Contents (Elt F) → (⟨S200000, .i32⟩ : BufTy).Contents (Elt F) → (⟨S200000, .i32⟩ : BufTy).Contents (Elt F)))
    (hostOps3_2_at (F := F)) (W6 m ρ c) 14 (by show (14 : Nat) < 39; decide) rfl (by decide) (by decide) (by decide)

/-- Operation 15: `main_v36` from `main_v33`, `main_v35`, `main_v9`. -/
theorem eq_v36 (c : Dev nD) :
    K m ρ c main_v36
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v33) (K m ρ c main_v35) (K m ρ c main_v9) := by
  rw [K_eq_W7 m ρ c main_v36 (by decide),
    K_eq_W7 m ρ c main_v33 (by decide),
    K_eq_W7 m ρ c main_v35 (by decide),
    K_eq_W7 m ρ c main_v9 (by decide)]
  exact ternary_final (hc := by decide) (ha := by decide) (hb := by decide) (hy := by decide) (c := main_v33) (a := main_v35) (b := main_v9) (y := main_v36) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps3_2_at (F := F)) (W6 m ρ c) 15 (by show (15 : Nat) < 39; decide) rfl (by decide) (by decide) (by decide) (by decide)

/-- Operation 16: `main_v37` from `main_v36`. -/
theorem eq_v37 (c : Dev nD) :
    K m ρ c main_v37
      = (broadcastInDim S200000x1 ![0] bcast_S200000_S200000x1_0 : (⟨S200000, .i32⟩ : BufTy).Contents (Elt F) → (⟨S200000x1, .i32⟩ : BufTy).Contents (Elt F)) (K m ρ c main_v36) := by
  rw [K_eq_W7 m ρ c main_v37 (by decide),
    K_eq_W7 m ρ c main_v36 (by decide)]
  exact unary_final (hx := by decide) (hy := by decide) (x := main_v36) (y := main_v37) (f := (broadcastInDim S200000x1 ![0] bcast_S200000_S200000x1_0 : (⟨S200000, .i32⟩ : BufTy).Contents (Elt F) → (⟨S200000x1, .i32⟩ : BufTy).Contents (Elt F)))
    (hostOps3_2_at (F := F)) (W6 m ρ c) 16 (by show (16 : Nat) < 39; decide) rfl (by decide) (by decide)

/-- Operation 17: `main_v38` from `main_v24`, `main_v37`. -/
theorem eq_v38 (c : Dev nD) :
    K m ρ c main_v38
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v24) (K m ρ c main_v37) := by
  rw [K_eq_W7 m ρ c main_v38 (by decide),
    K_eq_W7 m ρ c main_v24 (by decide),
    K_eq_W7 m ρ c main_v37 (by decide)]
  exact binary_final (ha := by decide) (hb := by decide) (hy := by decide) (a := main_v24) (b := main_v37) (y := main_v38) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps3_2_at (F := F)) (W6 m ρ c) 17 (by show (17 : Nat) < 39; decide) rfl (by decide) (by decide) (by decide)

/-- Operation 18: `main_v39` from `main_v31`, `main_v38`. -/
theorem eq_v39 (c : Dev nD) :
    K m ρ c main_v39
      = (mulf : (⟨S200000, .f32⟩ : BufTy).Contents (Elt F) → (⟨S200000, .f32⟩ : BufTy).Contents (Elt F) → (⟨S200000, .f32⟩ : BufTy).Contents (Elt F)) (K m ρ c main_v31) (K m ρ c main_v38) := by
  rw [K_eq_W7 m ρ c main_v39 (by decide),
    K_eq_W7 m ρ c main_v31 (by decide),
    K_eq_W7 m ρ c main_v38 (by decide)]
  exact binary_final (ha := by decide) (hb := by decide) (hy := by decide) (a := main_v31) (b := main_v38) (y := main_v39) (f := (mulf : (⟨S200000, .f32⟩ : BufTy).Contents (Elt F) → (⟨S200000, .f32⟩ : BufTy).Contents (Elt F) → (⟨S200000, .f32⟩ : BufTy).Contents (Elt F)))
    (hostOps3_2_at (F := F)) (W6 m ρ c) 18 (by show (18 : Nat) < 39; decide) rfl (by decide) (by decide) (by decide)

/-- Operation 19: `main_c_9`, a constant. -/
theorem eq_c_9 (c : Dev nD) :
    K m ρ c main_c_9
      = ((constantI S_ 32 0#32) : (⟨S_, .i32⟩ : BufTy).Contents (Elt F)) := by
  rw [K_eq_W7 m ρ c main_c_9 (by decide)]
  exact nullary_final (hy := by decide) (y := main_c_9) (v := ((constantI S_ 32 0#32) : (⟨S_, .i32⟩ : BufTy).Contents (Elt F)))
    (hostOps3_2_at (F := F)) (W6 m ρ c) 19 (by show (19 : Nat) < 39; decide) rfl (by decide)

/-- Operation 20: `main_v40` from `main_c_9`. -/
theorem eq_v40 (c : Dev nD) :
    K m ρ c main_v40
      = (broadcastInDim S200000 ![] bcast_S_S200000 : (⟨S_, .i32⟩ : BufTy).Contents (Elt F) → (⟨S200000, .i32⟩ : BufTy).Contents (Elt F)) (K m ρ c main_c_9) := by
  rw [K_eq_W7 m ρ c main_v40 (by decide),
    K_eq_W7 m ρ c main_c_9 (by decide)]
  exact unary_final (hx := by decide) (hy := by decide) (x := main_c_9) (y := main_v40) (f := (broadcastInDim S200000 ![] bcast_S_S200000 : (⟨S_, .i32⟩ : BufTy).Contents (Elt F) → (⟨S200000, .i32⟩ : BufTy).Contents (Elt F)))
    (hostOps3_2_at (F := F)) (W6 m ρ c) 20 (by show (20 : Nat) < 39; decide) rfl (by decide) (by decide)

/-- Operation 21: `main_v41` from `main_v7`, `main_v40`. -/
theorem eq_v41 (c : Dev nD) :
    K m ρ c main_v41
      = (cmpi .slt : (⟨S200000, .i32⟩ : BufTy).Contents (Elt F) → (⟨S200000, .i32⟩ : BufTy).Contents (Elt F) → (⟨S200000, .i1⟩ : BufTy).Contents (Elt F)) (K m ρ c main_v7) (K m ρ c main_v40) := by
  rw [K_eq_W7 m ρ c main_v41 (by decide),
    K_eq_W7 m ρ c main_v7 (by decide),
    K_eq_W7 m ρ c main_v40 (by decide)]
  exact binary_final (ha := by decide) (hb := by decide) (hy := by decide) (a := main_v7) (b := main_v40) (y := main_v41) (f := (cmpi .slt : (⟨S200000, .i32⟩ : BufTy).Contents (Elt F) → (⟨S200000, .i32⟩ : BufTy).Contents (Elt F) → (⟨S200000, .i1⟩ : BufTy).Contents (Elt F)))
    (hostOps3_2_at (F := F)) (W6 m ρ c) 21 (by show (21 : Nat) < 39; decide) rfl (by decide) (by decide) (by decide)

/-- Operation 22: `main_c_10`, a constant. -/
theorem eq_c_10 (c : Dev nD) :
    K m ρ c main_c_10
      = ((constantI S_ 32 100000#32) : (⟨S_, .i32⟩ : BufTy).Contents (Elt F)) := by
  rw [K_eq_W7 m ρ c main_c_10 (by decide)]
  exact nullary_final (hy := by decide) (y := main_c_10) (v := ((constantI S_ 32 100000#32) : (⟨S_, .i32⟩ : BufTy).Contents (Elt F)))
    (hostOps3_2_at (F := F)) (W6 m ρ c) 22 (by show (22 : Nat) < 39; decide) rfl (by decide)

/-- Operation 23: `main_v42` from `main_c_10`. -/
theorem eq_v42 (c : Dev nD) :
    K m ρ c main_v42
      = (broadcastInDim S200000 ![] bcast_S_S200000 : (⟨S_, .i32⟩ : BufTy).Contents (Elt F) → (⟨S200000, .i32⟩ : BufTy).Contents (Elt F)) (K m ρ c main_c_10) := by
  rw [K_eq_W7 m ρ c main_v42 (by decide),
    K_eq_W7 m ρ c main_c_10 (by decide)]
  exact unary_final (hx := by decide) (hy := by decide) (x := main_c_10) (y := main_v42) (f := (broadcastInDim S200000 ![] bcast_S_S200000 : (⟨S_, .i32⟩ : BufTy).Contents (Elt F) → (⟨S200000, .i32⟩ : BufTy).Contents (Elt F)))
    (hostOps3_2_at (F := F)) (W6 m ρ c) 23 (by show (23 : Nat) < 39; decide) rfl (by decide) (by decide)

/-- Operation 24: `main_v43` from `main_v7`, `main_v42`. -/
theorem eq_v43 (c : Dev nD) :
    K m ρ c main_v43
      = (addi : (⟨S200000, .i32⟩ : BufTy).Contents (Elt F) → (⟨S200000, .i32⟩ : BufTy).Contents (Elt F) → (⟨S200000, .i32⟩ : BufTy).Contents (Elt F)) (K m ρ c main_v7) (K m ρ c main_v42) := by
  rw [K_eq_W7 m ρ c main_v43 (by decide),
    K_eq_W7 m ρ c main_v7 (by decide),
    K_eq_W7 m ρ c main_v42 (by decide)]
  exact binary_final (ha := by decide) (hb := by decide) (hy := by decide) (a := main_v7) (b := main_v42) (y := main_v43) (f := (addi : (⟨S200000, .i32⟩ : BufTy).Contents (Elt F) → (⟨S200000, .i32⟩ : BufTy).Contents (Elt F) → (⟨S200000, .i32⟩ : BufTy).Contents (Elt F)))
    (hostOps3_2_at (F := F)) (W6 m ρ c) 24 (by show (24 : Nat) < 39; decide) rfl (by decide) (by decide) (by decide)

/-- Operation 25: `main_v44` from `main_v41`, `main_v43`, `main_v7`. -/
theorem eq_v44 (c : Dev nD) :
    K m ρ c main_v44
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v41) (K m ρ c main_v43) (K m ρ c main_v7) := by
  rw [K_eq_W7 m ρ c main_v44 (by decide),
    K_eq_W7 m ρ c main_v41 (by decide),
    K_eq_W7 m ρ c main_v43 (by decide),
    K_eq_W7 m ρ c main_v7 (by decide)]
  exact ternary_final (hc := by decide) (ha := by decide) (hb := by decide) (hy := by decide) (c := main_v41) (a := main_v43) (b := main_v7) (y := main_v44) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps3_2_at (F := F)) (W6 m ρ c) 25 (by show (25 : Nat) < 39; decide) rfl (by decide) (by decide) (by decide) (by decide)

/-- Operation 26: `main_v45` from `main_v44`. -/
theorem eq_v45 (c : Dev nD) :
    K m ρ c main_v45
      = (broadcastInDim S200000x1 ![0] bcast_S200000_S200000x1_0 : (⟨S200000, .i32⟩ : BufTy).Contents (Elt F) → (⟨S200000x1, .i32⟩ : BufTy).Contents (Elt F)) (K m ρ c main_v44) := by
  rw [K_eq_W7 m ρ c main_v45 (by decide),
    K_eq_W7 m ρ c main_v44 (by decide)]
  exact unary_final (hx := by decide) (hy := by decide) (x := main_v44) (y := main_v45) (f := (broadcastInDim S200000x1 ![0] bcast_S200000_S200000x1_0 : (⟨S200000, .i32⟩ : BufTy).Contents (Elt F) → (⟨S200000x1, .i32⟩ : BufTy).Contents (Elt F)))
    (hostOps3_2_at (F := F)) (W6 m ρ c) 26 (by show (26 : Nat) < 39; decide) rfl (by decide) (by decide)

/-- Operation 27: `main_v46` from `main_v3`, `main_v45`. -/
theorem eq_v46 (c : Dev nD) :
    K m ρ c main_v46
      = ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)) (K m ρ c main_v3) (K m ρ c main_v45) := by
  rw [K_eq_W7 m ρ c main_v46 (by decide),
    K_eq_W7 m ρ c main_v3 (by decide),
    K_eq_W7 m ρ c main_v45 (by decide)]
  exact binary_final (ha := by decide) (hb := by decide) (hy := by decide) (a := main_v3) (b := main_v45) (y := main_v46) (f := ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)))
    (hostOps3_2_at (F := F)) (W6 m ρ c) 27 (by show (27 : Nat) < 39; decide) rfl (by decide) (by decide) (by decide)

/-- Operation 28: `main_c_11`, a constant. -/
theorem eq_c_11 (c : Dev nD) :
    K m ρ c main_c_11
      = ((constantI S_ 32 0#32) : (⟨S_, .i32⟩ : BufTy).Contents (Elt F)) := by
  rw [K_eq_W7 m ρ c main_c_11 (by decide)]
  exact nullary_final (hy := by decide) (y := main_c_11) (v := ((constantI S_ 32 0#32) : (⟨S_, .i32⟩ : BufTy).Contents (Elt F)))
    (hostOps3_2_at (F := F)) (W6 m ρ c) 28 (by show (28 : Nat) < 39; decide) rfl (by decide)

/-- Operation 29: `main_v47` from `main_c_11`. -/
theorem eq_v47 (c : Dev nD) :
    K m ρ c main_v47
      = (broadcastInDim S200000 ![] bcast_S_S200000 : (⟨S_, .i32⟩ : BufTy).Contents (Elt F) → (⟨S200000, .i32⟩ : BufTy).Contents (Elt F)) (K m ρ c main_c_11) := by
  rw [K_eq_W7 m ρ c main_v47 (by decide),
    K_eq_W7 m ρ c main_c_11 (by decide)]
  exact unary_final (hx := by decide) (hy := by decide) (x := main_c_11) (y := main_v47) (f := (broadcastInDim S200000 ![] bcast_S_S200000 : (⟨S_, .i32⟩ : BufTy).Contents (Elt F) → (⟨S200000, .i32⟩ : BufTy).Contents (Elt F)))
    (hostOps3_2_at (F := F)) (W6 m ρ c) 29 (by show (29 : Nat) < 39; decide) rfl (by decide) (by decide)

/-- Operation 30: `main_v48` from `main_v5`, `main_v47`. -/
theorem eq_v48 (c : Dev nD) :
    K m ρ c main_v48
      = (cmpi .slt : (⟨S200000, .i32⟩ : BufTy).Contents (Elt F) → (⟨S200000, .i32⟩ : BufTy).Contents (Elt F) → (⟨S200000, .i1⟩ : BufTy).Contents (Elt F)) (K m ρ c main_v5) (K m ρ c main_v47) := by
  rw [K_eq_W7 m ρ c main_v48 (by decide),
    K_eq_W7 m ρ c main_v5 (by decide),
    K_eq_W7 m ρ c main_v47 (by decide)]
  exact binary_final (ha := by decide) (hb := by decide) (hy := by decide) (a := main_v5) (b := main_v47) (y := main_v48) (f := (cmpi .slt : (⟨S200000, .i32⟩ : BufTy).Contents (Elt F) → (⟨S200000, .i32⟩ : BufTy).Contents (Elt F) → (⟨S200000, .i1⟩ : BufTy).Contents (Elt F)))
    (hostOps3_2_at (F := F)) (W6 m ρ c) 30 (by show (30 : Nat) < 39; decide) rfl (by decide) (by decide) (by decide)

/-- Operation 31: `main_c_12`, a constant. -/
theorem eq_c_12 (c : Dev nD) :
    K m ρ c main_c_12
      = ((constantI S_ 32 401#32) : (⟨S_, .i32⟩ : BufTy).Contents (Elt F)) := by
  rw [K_eq_W7 m ρ c main_c_12 (by decide)]
  exact nullary_final (hy := by decide) (y := main_c_12) (v := ((constantI S_ 32 401#32) : (⟨S_, .i32⟩ : BufTy).Contents (Elt F)))
    (hostOps3_2_at (F := F)) (W6 m ρ c) 31 (by show (31 : Nat) < 39; decide) rfl (by decide)

/-- Operation 32: `main_v49` from `main_c_12`. -/
theorem eq_v49 (c : Dev nD) :
    K m ρ c main_v49
      = (broadcastInDim S200000 ![] bcast_S_S200000 : (⟨S_, .i32⟩ : BufTy).Contents (Elt F) → (⟨S200000, .i32⟩ : BufTy).Contents (Elt F)) (K m ρ c main_c_12) := by
  rw [K_eq_W7 m ρ c main_v49 (by decide),
    K_eq_W7 m ρ c main_c_12 (by decide)]
  exact unary_final (hx := by decide) (hy := by decide) (x := main_c_12) (y := main_v49) (f := (broadcastInDim S200000 ![] bcast_S_S200000 : (⟨S_, .i32⟩ : BufTy).Contents (Elt F) → (⟨S200000, .i32⟩ : BufTy).Contents (Elt F)))
    (hostOps3_2_at (F := F)) (W6 m ρ c) 32 (by show (32 : Nat) < 39; decide) rfl (by decide) (by decide)

/-- Operation 33: `main_v50` from `main_v5`, `main_v49`. -/
theorem eq_v50 (c : Dev nD) :
    K m ρ c main_v50
      = (addi : (⟨S200000, .i32⟩ : BufTy).Contents (Elt F) → (⟨S200000, .i32⟩ : BufTy).Contents (Elt F) → (⟨S200000, .i32⟩ : BufTy).Contents (Elt F)) (K m ρ c main_v5) (K m ρ c main_v49) := by
  rw [K_eq_W7 m ρ c main_v50 (by decide),
    K_eq_W7 m ρ c main_v5 (by decide),
    K_eq_W7 m ρ c main_v49 (by decide)]
  exact binary_final (ha := by decide) (hb := by decide) (hy := by decide) (a := main_v5) (b := main_v49) (y := main_v50) (f := (addi : (⟨S200000, .i32⟩ : BufTy).Contents (Elt F) → (⟨S200000, .i32⟩ : BufTy).Contents (Elt F) → (⟨S200000, .i32⟩ : BufTy).Contents (Elt F)))
    (hostOps3_2_at (F := F)) (W6 m ρ c) 33 (by show (33 : Nat) < 39; decide) rfl (by decide) (by decide) (by decide)

/-- Operation 34: `main_v51` from `main_v48`, `main_v50`, `main_v5`. -/
theorem eq_v51 (c : Dev nD) :
    K m ρ c main_v51
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v48) (K m ρ c main_v50) (K m ρ c main_v5) := by
  rw [K_eq_W7 m ρ c main_v51 (by decide),
    K_eq_W7 m ρ c main_v48 (by decide),
    K_eq_W7 m ρ c main_v50 (by decide),
    K_eq_W7 m ρ c main_v5 (by decide)]
  exact ternary_final (hc := by decide) (ha := by decide) (hb := by decide) (hy := by decide) (c := main_v48) (a := main_v50) (b := main_v5) (y := main_v51) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps3_2_at (F := F)) (W6 m ρ c) 34 (by show (34 : Nat) < 39; decide) rfl (by decide) (by decide) (by decide) (by decide)

/-- Operation 35: `main_v52` from `main_v51`. -/
theorem eq_v52 (c : Dev nD) :
    K m ρ c main_v52
      = (broadcastInDim S200000x1 ![0] bcast_S200000_S200000x1_0 : (⟨S200000, .i32⟩ : BufTy).Contents (Elt F) → (⟨S200000x1, .i32⟩ : BufTy).Contents (Elt F)) (K m ρ c main_v51) := by
  rw [K_eq_W7 m ρ c main_v52 (by decide),
    K_eq_W7 m ρ c main_v51 (by decide)]
  exact unary_final (hx := by decide) (hy := by decide) (x := main_v51) (y := main_v52) (f := (broadcastInDim S200000x1 ![0] bcast_S200000_S200000x1_0 : (⟨S200000, .i32⟩ : BufTy).Contents (Elt F) → (⟨S200000x1, .i32⟩ : BufTy).Contents (Elt F)))
    (hostOps3_2_at (F := F)) (W6 m ρ c) 35 (by show (35 : Nat) < 39; decide) rfl (by decide) (by decide)

/-- Operation 36: `main_v53` from `main_v2`, `main_v52`. -/
theorem eq_v53 (c : Dev nD) :
    K m ρ c main_v53
      = ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)) (K m ρ c main_v2) (K m ρ c main_v52) := by
  rw [K_eq_W7 m ρ c main_v53 (by decide),
    K_eq_W7 m ρ c main_v2 (by decide),
    K_eq_W7 m ρ c main_v52 (by decide)]
  exact binary_final (ha := by decide) (hb := by decide) (hy := by decide) (a := main_v2) (b := main_v52) (y := main_v53) (f := ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)))
    (hostOps3_2_at (F := F)) (W6 m ρ c) 36 (by show (36 : Nat) < 39; decide) rfl (by decide) (by decide) (by decide)

/-- Operation 37: `main_v54` from `main_v46`, `main_v53`. -/
theorem eq_v54 (c : Dev nD) :
    K m ρ c main_v54
      = (subf : (⟨S200000x200, .f32⟩ : BufTy).Contents (Elt F) → (⟨S200000x200, .f32⟩ : BufTy).Contents (Elt F) → (⟨S200000x200, .f32⟩ : BufTy).Contents (Elt F)) (K m ρ c main_v46) (K m ρ c main_v53) := by
  rw [K_eq_W7 m ρ c main_v54 (by decide),
    K_eq_W7 m ρ c main_v46 (by decide),
    K_eq_W7 m ρ c main_v53 (by decide)]
  exact binary_final (ha := by decide) (hb := by decide) (hy := by decide) (a := main_v46) (b := main_v53) (y := main_v54) (f := (subf : (⟨S200000x200, .f32⟩ : BufTy).Contents (Elt F) → (⟨S200000x200, .f32⟩ : BufTy).Contents (Elt F) → (⟨S200000x200, .f32⟩ : BufTy).Contents (Elt F)))
    (hostOps3_2_at (F := F)) (W6 m ρ c) 37 (by show (37 : Nat) < 39; decide) rfl (by decide) (by decide) (by decide)

/-- Operation 38: `main_v55` from `main_v39`. -/
theorem eq_v55 (c : Dev nD) :
    K m ρ c main_v55
      = (broadcastInDim S200000x1 ![0] bcast_S200000_S200000x1_0 : (⟨S200000, .f32⟩ : BufTy).Contents (Elt F) → (⟨S200000x1, .f32⟩ : BufTy).Contents (Elt F)) (K m ρ c main_v39) := by
  rw [K_eq_W7 m ρ c main_v55 (by decide),
    K_eq_W7 m ρ c main_v39 (by decide)]
  exact unary_final (hx := by decide) (hy := by decide) (x := main_v39) (y := main_v55) (f := (broadcastInDim S200000x1 ![0] bcast_S200000_S200000x1_0 : (⟨S200000, .f32⟩ : BufTy).Contents (Elt F) → (⟨S200000x1, .f32⟩ : BufTy).Contents (Elt F)))
    (hostOps3_2_at (F := F)) (W6 m ρ c) 38 (by show (38 : Nat) < 39; decide) rfl (by decide) (by decide)

end Cert.KernelIdeal.HandRun

end
-- ==== Proof.KernelEqsHost4.lean ====
/-
  The equations the host operations of `hostOps4` (segment 8) leave between FINAL contents.

  The stretch is in single-assignment form: operation `i` writes the one buffer `hostOps4_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_cst_13`, a constant. -/
theorem eq_cst_13 (c : Dev nD) :
    K m ρ c main_cst_13
      = ((constant S_ .f32 0x00000000#32) : (⟨S_, .f32⟩ : BufTy).Contents (Elt F)) := by
  rw [K_eq_W9 m ρ c main_cst_13 (by decide)]
  exact nullary_final (hy := by decide) (y := main_cst_13) (v := ((constant S_ .f32 0x00000000#32) : (⟨S_, .f32⟩ : BufTy).Contents (Elt F)))
    (hostOps4_at (F := F)) (W8 m ρ c) 0 (by show (0 : Nat) < 38; decide) rfl (by decide)

/-- Operation 1: `main_v57` from `main_cst_13`. -/
theorem eq_v57 (c : Dev nD) :
    K m ρ c main_v57
      = (broadcastInDim S100000x200 ![] bcast_S_S100000x200 : (⟨S_, .f32⟩ : BufTy).Contents (Elt F) → (⟨S100000x200, .f32⟩ : BufTy).Contents (Elt F)) (K m ρ c main_cst_13) := by
  rw [K_eq_W9 m ρ c main_v57 (by decide),
    K_eq_W9 m ρ c main_cst_13 (by decide)]
  exact unary_final (hx := by decide) (hy := by decide) (x := main_cst_13) (y := main_v57) (f := (broadcastInDim S100000x200 ![] bcast_S_S100000x200 : (⟨S_, .f32⟩ : BufTy).Contents (Elt F) → (⟨S100000x200, .f32⟩ : BufTy).Contents (Elt F)))
    (hostOps4_at (F := F)) (W8 m ρ c) 1 (by show (1 : Nat) < 38; decide) rfl (by decide) (by decide)

/-- Operation 2: `main_c_14`, a constant. -/
theorem eq_c_14 (c : Dev nD) :
    K m ρ c main_c_14
      = ((constantI S_ 32 0#32) : (⟨S_, .i32⟩ : BufTy).Contents (Elt F)) := by
  rw [K_eq_W9 m ρ c main_c_14 (by decide)]
  exact nullary_final (hy := by decide) (y := main_c_14) (v := ((constantI S_ 32 0#32) : (⟨S_, .i32⟩ : BufTy).Contents (Elt F)))
    (hostOps4_at (F := F)) (W8 m ρ c) 2 (by show (2 : Nat) < 38; decide) rfl (by decide)

/-- Operation 3: `main_v58` from `main_c_14`. -/
theorem eq_v58 (c : Dev nD) :
    K m ρ c main_v58
      = (broadcastInDim S200000 ![] bcast_S_S200000 : (⟨S_, .i32⟩ : BufTy).Contents (Elt F) → (⟨S200000, .i32⟩ : BufTy).Contents (Elt F)) (K m ρ c main_c_14) := by
  rw [K_eq_W9 m ρ c main_v58 (by decide),
    K_eq_W9 m ρ c main_c_14 (by decide)]
  exact unary_final (hx := by decide) (hy := by decide) (x := main_c_14) (y := main_v58) (f := (broadcastInDim S200000 ![] bcast_S_S200000 : (⟨S_, .i32⟩ : BufTy).Contents (Elt F) → (⟨S200000, .i32⟩ : BufTy).Contents (Elt F)))
    (hostOps4_at (F := F)) (W8 m ρ c) 3 (by show (3 : Nat) < 38; decide) rfl (by decide) (by decide)

/-- Operation 4: `main_v59` from `main_v9`, `main_v58`. -/
theorem eq_v59 (c : Dev nD) :
    K m ρ c main_v59
      = (cmpi .slt : (⟨S200000, .i32⟩ : BufTy).Contents (Elt F) → (⟨S200000, .i32⟩ : BufTy).Contents (Elt F) → (⟨S200000, .i1⟩ : BufTy).Contents (Elt F)) (K m ρ c main_v9) (K m ρ c main_v58) := by
  rw [K_eq_W9 m ρ c main_v59 (by decide),
    K_eq_W9 m ρ c main_v9 (by decide),
    K_eq_W9 m ρ c main_v58 (by decide)]
  exact binary_final (ha := by decide) (hb := by decide) (hy := by decide) (a := main_v9) (b := main_v58) (y := main_v59) (f := (cmpi .slt : (⟨S200000, .i32⟩ : BufTy).Contents (Elt F) → (⟨S200000, .i32⟩ : BufTy).Contents (Elt F) → (⟨S200000, .i1⟩ : BufTy).Contents (Elt F)))
    (hostOps4_at (F := F)) (W8 m ρ c) 4 (by show (4 : Nat) < 38; decide) rfl (by decide) (by decide) (by decide)

/-- Operation 5: `main_c_15`, a constant. -/
theorem eq_c_15 (c : Dev nD) :
    K m ρ c main_c_15
      = ((constantI S_ 32 100000#32) : (⟨S_, .i32⟩ : BufTy).Contents (Elt F)) := by
  rw [K_eq_W9 m ρ c main_c_15 (by decide)]
  exact nullary_final (hy := by decide) (y := main_c_15) (v := ((constantI S_ 32 100000#32) : (⟨S_, .i32⟩ : BufTy).Contents (Elt F)))
    (hostOps4_at (F := F)) (W8 m ρ c) 5 (by show (5 : Nat) < 38; decide) rfl (by decide)

/-- Operation 6: `main_v60` from `main_c_15`. -/
theorem eq_v60 (c : Dev nD) :
    K m ρ c main_v60
      = (broadcastInDim S200000 ![] bcast_S_S200000 : (⟨S_, .i32⟩ : BufTy).Contents (Elt F) → (⟨S200000, .i32⟩ : BufTy).Contents (Elt F)) (K m ρ c main_c_15) := by
  rw [K_eq_W9 m ρ c main_v60 (by decide),
    K_eq_W9 m ρ c main_c_15 (by decide)]
  exact unary_final (hx := by decide) (hy := by decide) (x := main_c_15) (y := main_v60) (f := (broadcastInDim S200000 ![] bcast_S_S200000 : (⟨S_, .i32⟩ : BufTy).Contents (Elt F) → (⟨S200000, .i32⟩ : BufTy).Contents (Elt F)))
    (hostOps4_at (F := F)) (W8 m ρ c) 6 (by show (6 : Nat) < 38; decide) rfl (by decide) (by decide)

/-- Operation 7: `main_v61` from `main_v9`, `main_v60`. -/
theorem eq_v61 (c : Dev nD) :
    K m ρ c main_v61
      = (addi : (⟨S200000, .i32⟩ : BufTy).Contents (Elt F) → (⟨S200000, .i32⟩ : BufTy).Contents (Elt F) → (⟨S200000, .i32⟩ : BufTy).Contents (Elt F)) (K m ρ c main_v9) (K m ρ c main_v60) := by
  rw [K_eq_W9 m ρ c main_v61 (by decide),
    K_eq_W9 m ρ c main_v9 (by decide),
    K_eq_W9 m ρ c main_v60 (by decide)]
  exact binary_final (ha := by decide) (hb := by decide) (hy := by decide) (a := main_v9) (b := main_v60) (y := main_v61) (f := (addi : (⟨S200000, .i32⟩ : BufTy).Contents (Elt F) → (⟨S200000, .i32⟩ : BufTy).Contents (Elt F) → (⟨S200000, .i32⟩ : BufTy).Contents (Elt F)))
    (hostOps4_at (F := F)) (W8 m ρ c) 7 (by show (7 : Nat) < 38; decide) rfl (by decide) (by decide) (by decide)

/-- Operation 8: `main_v62` from `main_v59`, `main_v61`, `main_v9`. -/
theorem eq_v62 (c : Dev nD) :
    K m ρ c main_v62
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v59) (K m ρ c main_v61) (K m ρ c main_v9) := by
  rw [K_eq_W9 m ρ c main_v62 (by decide),
    K_eq_W9 m ρ c main_v59 (by decide),
    K_eq_W9 m ρ c main_v61 (by decide),
    K_eq_W9 m ρ c main_v9 (by decide)]
  exact ternary_final (hc := by decide) (ha := by decide) (hb := by decide) (hy := by decide) (c := main_v59) (a := main_v61) (b := main_v9) (y := main_v62) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps4_at (F := F)) (W8 m ρ c) 8 (by show (8 : Nat) < 38; decide) rfl (by decide) (by decide) (by decide) (by decide)

/-- Operation 9: `main_v63` from `main_v62`. -/
theorem eq_v63 (c : Dev nD) :
    K m ρ c main_v63
      = (broadcastInDim S200000x1 ![0] bcast_S200000_S200000x1_0 : (⟨S200000, .i32⟩ : BufTy).Contents (Elt F) → (⟨S200000x1, .i32⟩ : BufTy).Contents (Elt F)) (K m ρ c main_v62) := by
  rw [K_eq_W9 m ρ c main_v63 (by decide),
    K_eq_W9 m ρ c main_v62 (by decide)]
  exact unary_final (hx := by decide) (hy := by decide) (x := main_v62) (y := main_v63) (f := (broadcastInDim S200000x1 ![0] bcast_S200000_S200000x1_0 : (⟨S200000, .i32⟩ : BufTy).Contents (Elt F) → (⟨S200000x1, .i32⟩ : BufTy).Contents (Elt F)))
    (hostOps4_at (F := F)) (W8 m ρ c) 9 (by show (9 : Nat) < 38; decide) rfl (by decide) (by decide)

/-- Operation 10: `main_v64` from `main_v57`, `main_v63`, `main_v56`. -/
theorem eq_v64 (c : Dev nD) :
    K m ρ c main_v64
      = ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)) (K m ρ c main_v57) (K m ρ c main_v63) (K m ρ c main_v56) := by
  rw [K_eq_W9 m ρ c main_v64 (by decide),
    K_eq_W9 m ρ c main_v57 (by decide),
    K_eq_W9 m ρ c main_v63 (by decide),
    K_eq_W9 m ρ c main_v56 (by decide)]
  exact ternary_final (hc := by decide) (ha := by decide) (hb := by decide) (hy := by decide) (c := main_v57) (a := main_v63) (b := main_v56) (y := main_v64) (f := ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)))
    (hostOps4_at (F := F)) (W8 m ρ c) 10 (by show (10 : Nat) < 38; decide) rfl (by decide) (by decide) (by decide) (by decide)

/-- Operation 11: `main_v65` from `main_arg2`. -/
theorem eq_v65 (c : Dev nD) :
    K m ρ c main_v65
      = ((extractStridedSlice S2x200000 ![0, 200000] · slices_S2x400000_S2x200000_0_200000) : (⟨S2x400000, .i32⟩ : BufTy).Contents (Elt F) → (⟨S2x200000, .i32⟩ : BufTy).Contents (Elt F)) (K m ρ c main_arg2) := by
  rw [K_eq_W9 m ρ c main_v65 (by decide),
    K_eq_W9 m ρ c main_arg2 (by decide)]
  exact unary_final (hx := by decide) (hy := by decide) (x := main_arg2) (y := main_v65) (f := ((extractStridedSlice S2x200000 ![0, 200000] · slices_S2x400000_S2x200000_0_200000) : (⟨S2x400000, .i32⟩ : BufTy).Contents (Elt F) → (⟨S2x200000, .i32⟩ : BufTy).Contents (Elt F)))
    (hostOps4_at (F := F)) (W8 m ρ c) 11 (by show (11 : Nat) < 38; decide) rfl (by decide) (by decide)

/-- Operation 12: `main_v66` from `main_arg3`. -/
theorem eq_v66 (c : Dev nD) :
    K m ρ c main_v66
      = ((extractStridedSlice S200000 ![200000] · slices_S400000_S200000_200000) : (⟨S400000, .i32⟩ : BufTy).Contents (Elt F) → (⟨S200000, .i32⟩ : BufTy).Contents (Elt F)) (K m ρ c main_arg3) := by
  rw [K_eq_W9 m ρ c main_v66 (by decide),
    K_eq_W9 m ρ c main_arg3 (by decide)]
  exact unary_final (hx := by decide) (hy := by decide) (x := main_arg3) (y := main_v66) (f := ((extractStridedSlice S200000 ![200000] · slices_S400000_S200000_200000) : (⟨S400000, .i32⟩ : BufTy).Contents (Elt F) → (⟨S200000, .i32⟩ : BufTy).Contents (Elt F)))
    (hostOps4_at (F := F)) (W8 m ρ c) 12 (by show (12 : Nat) < 38; decide) rfl (by decide) (by decide)

/-- Operation 13: `main_v67` from `main_v65`. -/
theorem eq_v67 (c : Dev nD) :
    K m ρ c main_v67
      = ((extractStridedSlice S1x200000 ![0, 0] · slices_S2x200000_S1x200000_0_0) : (⟨S2x200000, .i32⟩ : BufTy).Contents (Elt F) → (⟨S1x200000, .i32⟩ : BufTy).Contents (Elt F)) (K m ρ c main_v65) := by
  rw [K_eq_W9 m ρ c main_v67 (by decide),
    K_eq_W9 m ρ c main_v65 (by decide)]
  exact unary_final (hx := by decide) (hy := by decide) (x := main_v65) (y := main_v67) (f := ((extractStridedSlice S1x200000 ![0, 0] · slices_S2x200000_S1x200000_0_0) : (⟨S2x200000, .i32⟩ : BufTy).Contents (Elt F) → (⟨S1x200000, .i32⟩ : BufTy).Contents (Elt F)))
    (hostOps4_at (F := F)) (W8 m ρ c) 13 (by show (13 : Nat) < 38; decide) rfl (by decide) (by decide)

/-- Operation 14: `main_v68` from `main_v67`. -/
theorem eq_v68 (c : Dev nD) :
    K m ρ c main_v68
      = fun j => shapeCast (s := S1x200000) S200000 (K m ρ c main_v67) shapeCasts_S1x200000_S200000 j := by
  rw [K_eq_W9 m ρ c main_v68 (by decide),
    K_eq_W9 m ρ c main_v67 (by decide)]
  exact reshape_final (he := rfl) (hn := shapeCasts_S1x200000_S200000) (hx := by decide) (hy := by decide) (x := main_v67) (y := main_v68)
    (hostOps4_at (F := F)) (W8 m ρ c) 14 (by show (14 : Nat) < 38; decide) rfl (by decide) (by decide)

/-- Operation 15: `main_v69` from `main_v65`. -/
theorem eq_v69 (c : Dev nD) :
    K m ρ c main_v69
      = ((extractStridedSlice S1x200000 ![1, 0] · slices_S2x200000_S1x200000_1_0) : (⟨S2x200000, .i32⟩ : BufTy).Contents (Elt F) → (⟨S1x200000, .i32⟩ : BufTy).Contents (Elt F)) (K m ρ c main_v65) := by
  rw [K_eq_W9 m ρ c main_v69 (by decide),
    K_eq_W9 m ρ c main_v65 (by decide)]
  exact unary_final (hx := by decide) (hy := by decide) (x := main_v65) (y := main_v69) (f := ((extractStridedSlice S1x200000 ![1, 0] · slices_S2x200000_S1x200000_1_0) : (⟨S2x200000, .i32⟩ : BufTy).Contents (Elt F) → (⟨S1x200000, .i32⟩ : BufTy).Contents (Elt F)))
    (hostOps4_at (F := F)) (W8 m ρ c) 15 (by show (15 : Nat) < 38; decide) rfl (by decide) (by decide)

/-- Operation 16: `main_v70` from `main_v69`. -/
theorem eq_v70 (c : Dev nD) :
    K m ρ c main_v70
      = fun j => shapeCast (s := S1x200000) S200000 (K m ρ c main_v69) shapeCasts_S1x200000_S200000 j := by
  rw [K_eq_W9 m ρ c main_v70 (by decide),
    K_eq_W9 m ρ c main_v69 (by decide)]
  exact reshape_final (he := rfl) (hn := shapeCasts_S1x200000_S200000) (hx := by decide) (hy := by decide) (x := main_v69) (y := main_v70)
    (hostOps4_at (F := F)) (W8 m ρ c) 16 (by show (16 : Nat) < 38; decide) rfl (by decide) (by decide)

/-- Operation 17: `main_cst_16`, a constant. -/
theorem eq_cst_16 (c : Dev nD) :
    K m ρ c main_cst_16
      = ((constant S_ .f32 0x00000000#32) : (⟨S_, .f32⟩ : BufTy).Contents (Elt F)) := by
  rw [K_eq_W9 m ρ c main_cst_16 (by decide)]
  exact nullary_final (hy := by decide) (y := main_cst_16) (v := ((constant S_ .f32 0x00000000#32) : (⟨S_, .f32⟩ : BufTy).Contents (Elt F)))
    (hostOps4_at (F := F)) (W8 m ρ c) 17 (by show (17 : Nat) < 38; decide) rfl (by decide)

/-- Operation 18: `main_v71` from `main_cst_16`. -/
theorem eq_v71 (c : Dev nD) :
    K m ρ c main_v71
      = (broadcastInDim S100000 ![] bcast_S_S100000 : (⟨S_, .f32⟩ : BufTy).Contents (Elt F) → (⟨S100000, .f32⟩ : BufTy).Contents (Elt F)) (K m ρ c main_cst_16) := by
  rw [K_eq_W9 m ρ c main_v71 (by decide),
    K_eq_W9 m ρ c main_cst_16 (by decide)]
  exact unary_final (hx := by decide) (hy := by decide) (x := main_cst_16) (y := main_v71) (f := (broadcastInDim S100000 ![] bcast_S_S100000 : (⟨S_, .f32⟩ : BufTy).Contents (Elt F) → (⟨S100000, .f32⟩ : BufTy).Contents (Elt F)))
    (hostOps4_at (F := F)) (W8 m ρ c) 18 (by show (18 : Nat) < 38; decide) rfl (by decide) (by decide)

/-- Operation 19: `main_c_17`, a constant. -/
theorem eq_c_17 (c : Dev nD) :
    K m ρ c main_c_17
      = ((constantI S_ 32 0#32) : (⟨S_, .i32⟩ : BufTy).Contents (Elt F)) := by
  rw [K_eq_W9 m ρ c main_c_17 (by decide)]
  exact nullary_final (hy := by decide) (y := main_c_17) (v := ((constantI S_ 32 0#32) : (⟨S_, .i32⟩ : BufTy).Contents (Elt F)))
    (hostOps4_at (F := F)) (W8 m ρ c) 19 (by show (19 : Nat) < 38; decide) rfl (by decide)

/-- Operation 20: `main_v72` from `main_c_17`. -/
theorem eq_v72 (c : Dev nD) :
    K m ρ c main_v72
      = (broadcastInDim S200000 ![] bcast_S_S200000 : (⟨S_, .i32⟩ : BufTy).Contents (Elt F) → (⟨S200000, .i32⟩ : BufTy).Contents (Elt F)) (K m ρ c main_c_17) := by
  rw [K_eq_W9 m ρ c main_v72 (by decide),
    K_eq_W9 m ρ c main_c_17 (by decide)]
  exact unary_final (hx := by decide) (hy := by decide) (x := main_c_17) (y := main_v72) (f := (broadcastInDim S200000 ![] bcast_S_S200000 : (⟨S_, .i32⟩ : BufTy).Contents (Elt F) → (⟨S200000, .i32⟩ : BufTy).Contents (Elt F)))
    (hostOps4_at (F := F)) (W8 m ρ c) 20 (by show (20 : Nat) < 38; decide) rfl (by decide) (by decide)

/-- Operation 21: `main_v73` from `main_v68`, `main_v72`. -/
theorem eq_v73 (c : Dev nD) :
    K m ρ c main_v73
      = (cmpi .slt : (⟨S200000, .i32⟩ : BufTy).Contents (Elt F) → (⟨S200000, .i32⟩ : BufTy).Contents (Elt F) → (⟨S200000, .i1⟩ : BufTy).Contents (Elt F)) (K m ρ c main_v68) (K m ρ c main_v72) := by
  rw [K_eq_W9 m ρ c main_v73 (by decide),
    K_eq_W9 m ρ c main_v68 (by decide),
    K_eq_W9 m ρ c main_v72 (by decide)]
  exact binary_final (ha := by decide) (hb := by decide) (hy := by decide) (a := main_v68) (b := main_v72) (y := main_v73) (f := (cmpi .slt : (⟨S200000, .i32⟩ : BufTy).Contents (Elt F) → (⟨S200000, .i32⟩ : BufTy).Contents (Elt F) → (⟨S200000, .i1⟩ : BufTy).Contents (Elt F)))
    (hostOps4_at (F := F)) (W8 m ρ c) 21 (by show (21 : Nat) < 38; decide) rfl (by decide) (by decide) (by decide)

/-- Operation 22: `main_c_18`, a constant. -/
theorem eq_c_18 (c : Dev nD) :
    K m ρ c main_c_18
      = ((constantI S_ 32 100000#32) : (⟨S_, .i32⟩ : BufTy).Contents (Elt F)) := by
  rw [K_eq_W9 m ρ c main_c_18 (by decide)]
  exact nullary_final (hy := by decide) (y := main_c_18) (v := ((constantI S_ 32 100000#32) : (⟨S_, .i32⟩ : BufTy).Contents (Elt F)))
    (hostOps4_at (F := F)) (W8 m ρ c) 22 (by show (22 : Nat) < 38; decide) rfl (by decide)

/-- Operation 23: `main_v74` from `main_c_18`. -/
theorem eq_v74 (c : Dev nD) :
    K m ρ c main_v74
      = (broadcastInDim S200000 ![] bcast_S_S200000 : (⟨S_, .i32⟩ : BufTy).Contents (Elt F) → (⟨S200000, .i32⟩ : BufTy).Contents (Elt F)) (K m ρ c main_c_18) := by
  rw [K_eq_W9 m ρ c main_v74 (by decide),
    K_eq_W9 m ρ c main_c_18 (by decide)]
  exact unary_final (hx := by decide) (hy := by decide) (x := main_c_18) (y := main_v74) (f := (broadcastInDim S200000 ![] bcast_S_S200000 : (⟨S_, .i32⟩ : BufTy).Contents (Elt F) → (⟨S200000, .i32⟩ : BufTy).Contents (Elt F)))
    (hostOps4_at (F := F)) (W8 m ρ c) 23 (by show (23 : Nat) < 38; decide) rfl (by decide) (by decide)

/-- Operation 24: `main_v75` from `main_v68`, `main_v74`. -/
theorem eq_v75 (c : Dev nD) :
    K m ρ c main_v75
      = (addi : (⟨S200000, .i32⟩ : BufTy).Contents (Elt F) → (⟨S200000, .i32⟩ : BufTy).Contents (Elt F) → (⟨S200000, .i32⟩ : BufTy).Contents (Elt F)) (K m ρ c main_v68) (K m ρ c main_v74) := by
  rw [K_eq_W9 m ρ c main_v75 (by decide),
    K_eq_W9 m ρ c main_v68 (by decide),
    K_eq_W9 m ρ c main_v74 (by decide)]
  exact binary_final (ha := by decide) (hb := by decide) (hy := by decide) (a := main_v68) (b := main_v74) (y := main_v75) (f := (addi : (⟨S200000, .i32⟩ : BufTy).Contents (Elt F) → (⟨S200000, .i32⟩ : BufTy).Contents (Elt F) → (⟨S200000, .i32⟩ : BufTy).Contents (Elt F)))
    (hostOps4_at (F := F)) (W8 m ρ c) 24 (by show (24 : Nat) < 38; decide) rfl (by decide) (by decide) (by decide)

/-- Operation 25: `main_v76` from `main_v73`, `main_v75`, `main_v68`. -/
theorem eq_v76 (c : Dev nD) :
    K m ρ c main_v76
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v73) (K m ρ c main_v75) (K m ρ c main_v68) := by
  rw [K_eq_W9 m ρ c main_v76 (by decide),
    K_eq_W9 m ρ c main_v73 (by decide),
    K_eq_W9 m ρ c main_v75 (by decide),
    K_eq_W9 m ρ c main_v68 (by decide)]
  exact ternary_final (hc := by decide) (ha := by decide) (hb := by decide) (hy := by decide) (c := main_v73) (a := main_v75) (b := main_v68) (y := main_v76) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps4_at (F := F)) (W8 m ρ c) 25 (by show (25 : Nat) < 38; decide) rfl (by decide) (by decide) (by decide) (by decide)

/-- Operation 26: `main_v77` from `main_v76`. -/
theorem eq_v77 (c : Dev nD) :
    K m ρ c main_v77
      = (broadcastInDim S200000x1 ![0] bcast_S200000_S200000x1_0 : (⟨S200000, .i32⟩ : BufTy).Contents (Elt F) → (⟨S200000x1, .i32⟩ : BufTy).Contents (Elt F)) (K m ρ c main_v76) := by
  rw [K_eq_W9 m ρ c main_v77 (by decide),
    K_eq_W9 m ρ c main_v76 (by decide)]
  exact unary_final (hx := by decide) (hy := by decide) (x := main_v76) (y := main_v77) (f := (broadcastInDim S200000x1 ![0] bcast_S200000_S200000x1_0 : (⟨S200000, .i32⟩ : BufTy).Contents (Elt F) → (⟨S200000x1, .i32⟩ : BufTy).Contents (Elt F)))
    (hostOps4_at (F := F)) (W8 m ρ c) 26 (by show (26 : Nat) < 38; decide) rfl (by decide) (by decide)

/-- Operation 27: `main_cst_19`, a constant. -/
theorem eq_cst_19 (c : Dev nD) :
    K m ρ c main_cst_19
      = ((constant S_ .f32 0x3F800000#32) : (⟨S_, .f32⟩ : BufTy).Contents (Elt F)) := by
  rw [K_eq_W9 m ρ c main_cst_19 (by decide)]
  exact nullary_final (hy := by decide) (y := main_cst_19) (v := ((constant S_ .f32 0x3F800000#32) : (⟨S_, .f32⟩ : BufTy).Contents (Elt F)))
    (hostOps4_at (F := F)) (W8 m ρ c) 27 (by show (27 : Nat) < 38; decide) rfl (by decide)

/-- Operation 28: `main_v78` from `main_cst_19`. -/
theorem eq_v78 (c : Dev nD) :
    K m ρ c main_v78
      = (broadcastInDim S200000 ![] bcast_S_S200000 : (⟨S_, .f32⟩ : BufTy).Contents (Elt F) → (⟨S200000, .f32⟩ : BufTy).Contents (Elt F)) (K m ρ c main_cst_19) := by
  rw [K_eq_W9 m ρ c main_v78 (by decide),
    K_eq_W9 m ρ c main_cst_19 (by decide)]
  exact unary_final (hx := by decide) (hy := by decide) (x := main_cst_19) (y := main_v78) (f := (broadcastInDim S200000 ![] bcast_S_S200000 : (⟨S_, .f32⟩ : BufTy).Contents (Elt F) → (⟨S200000, .f32⟩ : BufTy).Contents (Elt F)))
    (hostOps4_at (F := F)) (W8 m ρ c) 28 (by show (28 : Nat) < 38; decide) rfl (by decide) (by decide)

/-- Operation 29: `main_v79` from `main_v71`, `main_v77`, `main_v78`. -/
theorem eq_v79 (c : Dev nD) :
    K m ρ c main_v79
      = ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) (K m ρ c main_v71) (K m ρ c main_v77) (K m ρ c main_v78) := by
  rw [K_eq_W9 m ρ c main_v79 (by decide),
    K_eq_W9 m ρ c main_v71 (by decide),
    K_eq_W9 m ρ c main_v77 (by decide),
    K_eq_W9 m ρ c main_v78 (by decide)]
  exact ternary_final (hc := by decide) (ha := by decide) (hb := by decide) (hy := by decide) (c := main_v71) (a := main_v77) (b := main_v78) (y := main_v79) (f := ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)))
    (hostOps4_at (F := F)) (W8 m ρ c) 29 (by show (29 : Nat) < 38; decide) rfl (by decide) (by decide) (by decide) (by decide)

/-- Operation 30: `main_cst_20`, a constant. -/
theorem eq_cst_20 (c : Dev nD) :
    K m ρ c main_cst_20
      = ((constant S_ .f32 0x00000000#32) : (⟨S_, .f32⟩ : BufTy).Contents (Elt F)) := by
  rw [K_eq_W9 m ρ c main_cst_20 (by decide)]
  exact nullary_final (hy := by decide) (y := main_cst_20) (v := ((constant S_ .f32 0x00000000#32) : (⟨S_, .f32⟩ : BufTy).Contents (Elt F)))
    (hostOps4_at (F := F)) (W8 m ρ c) 30 (by show (30 : Nat) < 38; decide) rfl (by decide)

/-- Operation 31: `main_v80` from `main_cst_20`. -/
theorem eq_v80 (c : Dev nD) :
    K m ρ c main_v80
      = (broadcastInDim S100000 ![] bcast_S_S100000 : (⟨S_, .f32⟩ : BufTy).Contents (Elt F) → (⟨S100000, .f32⟩ : BufTy).Contents (Elt F)) (K m ρ c main_cst_20) := by
  rw [K_eq_W9 m ρ c main_v80 (by decide),
    K_eq_W9 m ρ c main_cst_20 (by decide)]
  exact unary_final (hx := by decide) (hy := by decide) (x := main_cst_20) (y := main_v80) (f := (broadcastInDim S100000 ![] bcast_S_S100000 : (⟨S_, .f32⟩ : BufTy).Contents (Elt F) → (⟨S100000, .f32⟩ : BufTy).Contents (Elt F)))
    (hostOps4_at (F := F)) (W8 m ρ c) 31 (by show (31 : Nat) < 38; decide) rfl (by decide) (by decide)

/-- Operation 32: `main_v81` from `main_v79`, `main_v80`. -/
theorem eq_v81 (c : Dev nD) :
    K m ρ c main_v81
      = (cmpf .ogt : (⟨S100000, .f32⟩ : BufTy).Contents (Elt F) → (⟨S100000, .f32⟩ : BufTy).Contents (Elt F) → (⟨S100000, .i1⟩ : BufTy).Contents (Elt F)) (K m ρ c main_v79) (K m ρ c main_v80) := by
  rw [K_eq_W9 m ρ c main_v81 (by decide),
    K_eq_W9 m ρ c main_v79 (by decide),
    K_eq_W9 m ρ c main_v80 (by decide)]
  exact binary_final (ha := by decide) (hb := by decide) (hy := by decide) (a := main_v79) (b := main_v80) (y := main_v81) (f := (cmpf .ogt : (⟨S100000, .f32⟩ : BufTy).Contents (Elt F) → (⟨S100000, .f32⟩ : BufTy).Contents (Elt F) → (⟨S100000, .i1⟩ : BufTy).Contents (Elt F)))
    (hostOps4_at (F := F)) (W8 m ρ c) 32 (by show (32 : Nat) < 38; decide) rfl (by decide) (by decide) (by decide)

/-- Operation 33: `main_cst_21`, a constant. -/
theorem eq_cst_21 (c : Dev nD) :
    K m ρ c main_cst_21
      = ((constant S_ .f32 0x3F800000#32) : (⟨S_, .f32⟩ : BufTy).Contents (Elt F)) := by
  rw [K_eq_W9 m ρ c main_cst_21 (by decide)]
  exact nullary_final (hy := by decide) (y := main_cst_21) (v := ((constant S_ .f32 0x3F800000#32) : (⟨S_, .f32⟩ : BufTy).Contents (Elt F)))
    (hostOps4_at (F := F)) (W8 m ρ c) 33 (by show (33 : Nat) < 38; decide) rfl (by decide)

/-- Operation 34: `main_v82` from `main_cst_21`. -/
theorem eq_v82 (c : Dev nD) :
    K m ρ c main_v82
      = (broadcastInDim S100000 ![] bcast_S_S100000 : (⟨S_, .f32⟩ : BufTy).Contents (Elt F) → (⟨S100000, .f32⟩ : BufTy).Contents (Elt F)) (K m ρ c main_cst_21) := by
  rw [K_eq_W9 m ρ c main_v82 (by decide),
    K_eq_W9 m ρ c main_cst_21 (by decide)]
  exact unary_final (hx := by decide) (hy := by decide) (x := main_cst_21) (y := main_v82) (f := (broadcastInDim S100000 ![] bcast_S_S100000 : (⟨S_, .f32⟩ : BufTy).Contents (Elt F) → (⟨S100000, .f32⟩ : BufTy).Contents (Elt F)))
    (hostOps4_at (F := F)) (W8 m ρ c) 34 (by show (34 : Nat) < 38; decide) rfl (by decide) (by decide)

/-- Operation 35: `main_v83` from `main_v79`, `main_v82`. -/
theorem eq_v83 (c : Dev nD) :
    K m ρ c main_v83
      = (maximumf : (⟨S100000, .f32⟩ : BufTy).Contents (Elt F) → (⟨S100000, .f32⟩ : BufTy).Contents (Elt F) → (⟨S100000, .f32⟩ : BufTy).Contents (Elt F)) (K m ρ c main_v79) (K m ρ c main_v82) := by
  rw [K_eq_W9 m ρ c main_v83 (by decide),
    K_eq_W9 m ρ c main_v79 (by decide),
    K_eq_W9 m ρ c main_v82 (by decide)]
  exact binary_final (ha := by decide) (hb := by decide) (hy := by decide) (a := main_v79) (b := main_v82) (y := main_v83) (f := (maximumf : (⟨S100000, .f32⟩ : BufTy).Contents (Elt F) → (⟨S100000, .f32⟩ : BufTy).Contents (Elt F) → (⟨S100000, .f32⟩ : BufTy).Contents (Elt F)))
    (hostOps4_at (F := F)) (W8 m ρ c) 35 (by show (35 : Nat) < 38; decide) rfl (by decide) (by decide) (by decide)

/-- Operation 36: `main_v84` from `main_v83`. -/
theorem eq_v84 (c : Dev nD) :
    K m ρ c main_v84
      = (Host.rsqrt : (⟨S100000, .f32⟩ : BufTy).Contents (Elt F) → (⟨S100000, .f32⟩ : BufTy).Contents (Elt F)) (K m ρ c main_v83) := by
  rw [K_eq_W9 m ρ c main_v84 (by decide),
    K_eq_W9 m ρ c main_v83 (by decide)]
  exact unary_final (hx := by decide) (hy := by decide) (x := main_v83) (y := main_v84) (f := (Host.rsqrt : (⟨S100000, .f32⟩ : BufTy).Contents (Elt F) → (⟨S100000, .f32⟩ : BufTy).Contents (Elt F)))
    (hostOps4_at (F := F)) (W8 m ρ c) 36 (by show (36 : Nat) < 38; decide) rfl (by decide) (by decide)

/-- Operation 37: `main_cst_22`, a constant. -/
theorem eq_cst_22 (c : Dev nD) :
    K m ρ c main_cst_22
      = ((constant S_ .f32 0x00000000#32) : (⟨S_, .f32⟩ : BufTy).Contents (Elt F)) := by
  rw [K_eq_W9 m ρ c main_cst_22 (by decide)]
  exact nullary_final (hy := by decide) (y := main_cst_22) (v := ((constant S_ .f32 0x00000000#32) : (⟨S_, .f32⟩ : BufTy).Contents (Elt F)))
    (hostOps4_at (F := F)) (W8 m ρ c) 37 (by show (37 : Nat) < 38; decide) rfl (by decide)

end Cert.KernelIdeal.HandRun

end
-- ==== Proof.KernelEqsHost4_1.lean ====
/-
  The equations the host operations of `hostOps4_1` (segment 9) leave between FINAL contents.

  The stretch is in single-assignment form: operation `i` writes the one buffer `hostOps4_1_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_call1_v0` from `main_cst_22`. -/
theorem eq_call1_v0 (c : Dev nD) :
    K m ρ c main_call1_v0
      = (id : (⟨S_, .f32⟩ : BufTy).Contents (Elt F) → (⟨S_, .f32⟩ : BufTy).Contents (Elt F)) (K m ρ c main_cst_22) := by
  rw [K_eq_W10 m ρ c main_call1_v0 (by decide),
    K_eq_W10 m ρ c main_cst_22 (by decide)]
  exact unary_final (hx := by decide) (hy := by decide) (x := main_cst_22) (y := main_call1_v0) (f := (id : (⟨S_, .f32⟩ : BufTy).Contents (Elt F) → (⟨S_, .f32⟩ : BufTy).Contents (Elt F)))
    (hostOps4_1_at (F := F)) (W9 m ρ c) 0 (by show (0 : Nat) < 3; decide) rfl (by decide) (by decide)

/-- Operation 1: `main_call1_v1` from `main_call1_v0`. -/
theorem eq_call1_v1 (c : Dev nD) :
    K m ρ c main_call1_v1
      = ((broadcastInDim S100000 ![] bcast_S_S100000) : (⟨S_, .f32⟩ : BufTy).Contents (Elt F) → (⟨S100000, .f32⟩ : BufTy).Contents (Elt F)) (K m ρ c main_call1_v0) := by
  rw [K_eq_W10 m ρ c main_call1_v1 (by decide),
    K_eq_W10 m ρ c main_call1_v0 (by decide)]
  exact unary_final (hx := by decide) (hy := by decide) (x := main_call1_v0) (y := main_call1_v1) (f := ((broadcastInDim S100000 ![] bcast_S_S100000) : (⟨S_, .f32⟩ : BufTy).Contents (Elt F) → (⟨S100000, .f32⟩ : BufTy).Contents (Elt F)))
    (hostOps4_1_at (F := F)) (W9 m ρ c) 1 (by show (1 : Nat) < 3; decide) rfl (by decide) (by decide)

/-- Operation 2: `main_v85` from `main_v81`, `main_v84`, `main_call1_v1`. -/
theorem eq_v85 (c : Dev nD) :
    K m ρ c main_v85
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (K m ρ c main_v81) (K m ρ c main_v84) (K m ρ c main_call1_v1) := by
  rw [K_eq_W10 m ρ c main_v85 (by decide),
    K_eq_W10 m ρ c main_v81 (by decide),
    K_eq_W10 m ρ c main_v84 (by decide),
    K_eq_W10 m ρ c main_call1_v1 (by decide)]
  exact ternary_final (hc := by decide) (ha := by decide) (hb := by decide) (hy := by decide) (c := main_v81) (a := main_v84) (b := main_call1_v1) (y := main_v85) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)))
    (hostOps4_1_at (F := F)) (W9 m ρ c) 2 (by show (2 : Nat) < 3; decide) rfl (by decide) (by decide) (by decide) (by decide)

end Cert.KernelIdeal.HandRun

end
-- ==== Proof.KernelEqsHost4_2.lean ====
/-
  The equations the host operations of `hostOps4_2` (segment 10) leave between FINAL contents.

  The stretch is in single-assignment form: operation `i` writes the one buffer `hostOps4_2_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_c_23`, a constant. -/
theorem eq_c_23 (c : Dev nD) :
    K m ρ c main_c_23
      = ((constantI S_ 32 0#32) : (⟨S_, .i32⟩ : BufTy).Contents (Elt F)) := by
  rw [K_eq_W11 m ρ c main_c_23 (by decide)]
  exact nullary_final (hy := by decide) (y := main_c_23) (v := ((constantI S_ 32 0#32) : (⟨S_, .i32⟩ : BufTy).Contents (Elt F)))
    (hostOps4_2_at (F := F)) (W10 m ρ c) 0 (by show (0 : Nat) < 39; decide) rfl (by decide)

/-- Operation 1: `main_v86` from `main_c_23`. -/
theorem eq_v86 (c : Dev nD) :
    K m ρ c main_v86
      = (broadcastInDim S200000 ![] bcast_S_S200000 : (⟨S_, .i32⟩ : BufTy).Contents (Elt F) → (⟨S200000, .i32⟩ : BufTy).Contents (Elt F)) (K m ρ c main_c_23) := by
  rw [K_eq_W11 m ρ c main_v86 (by decide),
    K_eq_W11 m ρ c main_c_23 (by decide)]
  exact unary_final (hx := by decide) (hy := by decide) (x := main_c_23) (y := main_v86) (f := (broadcastInDim S200000 ![] bcast_S_S200000 : (⟨S_, .i32⟩ : BufTy).Contents (Elt F) → (⟨S200000, .i32⟩ : BufTy).Contents (Elt F)))
    (hostOps4_2_at (F := F)) (W10 m ρ c) 1 (by show (1 : Nat) < 39; decide) rfl (by decide) (by decide)

/-- Operation 2: `main_v87` from `main_v68`, `main_v86`. -/
theorem eq_v87 (c : Dev nD) :
    K m ρ c main_v87
      = (cmpi .slt : (⟨S200000, .i32⟩ : BufTy).Contents (Elt F) → (⟨S200000, .i32⟩ : BufTy).Contents (Elt F) → (⟨S200000, .i1⟩ : BufTy).Contents (Elt F)) (K m ρ c main_v68) (K m ρ c main_v86) := by
  rw [K_eq_W11 m ρ c main_v87 (by decide),
    K_eq_W11 m ρ c main_v68 (by decide),
    K_eq_W11 m ρ c main_v86 (by decide)]
  exact binary_final (ha := by decide) (hb := by decide) (hy := by decide) (a := main_v68) (b := main_v86) (y := main_v87) (f := (cmpi .slt : (⟨S200000, .i32⟩ : BufTy).Contents (Elt F) → (⟨S200000, .i32⟩ : BufTy).Contents (Elt F) → (⟨S200000, .i1⟩ : BufTy).Contents (Elt F)))
    (hostOps4_2_at (F := F)) (W10 m ρ c) 2 (by show (2 : Nat) < 39; decide) rfl (by decide) (by decide) (by decide)

/-- Operation 3: `main_c_24`, a constant. -/
theorem eq_c_24 (c : Dev nD) :
    K m ρ c main_c_24
      = ((constantI S_ 32 100000#32) : (⟨S_, .i32⟩ : BufTy).Contents (Elt F)) := by
  rw [K_eq_W11 m ρ c main_c_24 (by decide)]
  exact nullary_final (hy := by decide) (y := main_c_24) (v := ((constantI S_ 32 100000#32) : (⟨S_, .i32⟩ : BufTy).Contents (Elt F)))
    (hostOps4_2_at (F := F)) (W10 m ρ c) 3 (by show (3 : Nat) < 39; decide) rfl (by decide)

/-- Operation 4: `main_v88` from `main_c_24`. -/
theorem eq_v88 (c : Dev nD) :
    K m ρ c main_v88
      = (broadcastInDim S200000 ![] bcast_S_S200000 : (⟨S_, .i32⟩ : BufTy).Contents (Elt F) → (⟨S200000, .i32⟩ : BufTy).Contents (Elt F)) (K m ρ c main_c_24) := by
  rw [K_eq_W11 m ρ c main_v88 (by decide),
    K_eq_W11 m ρ c main_c_24 (by decide)]
  exact unary_final (hx := by decide) (hy := by decide) (x := main_c_24) (y := main_v88) (f := (broadcastInDim S200000 ![] bcast_S_S200000 : (⟨S_, .i32⟩ : BufTy).Contents (Elt F) → (⟨S200000, .i32⟩ : BufTy).Contents (Elt F)))
    (hostOps4_2_at (F := F)) (W10 m ρ c) 4 (by show (4 : Nat) < 39; decide) rfl (by decide) (by decide)

/-- Operation 5: `main_v89` from `main_v68`, `main_v88`. -/
theorem eq_v89 (c : Dev nD) :
    K m ρ c main_v89
      = (addi : (⟨S200000, .i32⟩ : BufTy).Contents (Elt F) → (⟨S200000, .i32⟩ : BufTy).Contents (Elt F) → (⟨S200000, .i32⟩ : BufTy).Contents (Elt F)) (K m ρ c main_v68) (K m ρ c main_v88) := by
  rw [K_eq_W11 m ρ c main_v89 (by decide),
    K_eq_W11 m ρ c main_v68 (by decide),
    K_eq_W11 m ρ c main_v88 (by decide)]
  exact binary_final (ha := by decide) (hb := by decide) (hy := by decide) (a := main_v68) (b := main_v88) (y := main_v89) (f := (addi : (⟨S200000, .i32⟩ : BufTy).Contents (Elt F) → (⟨S200000, .i32⟩ : BufTy).Contents (Elt F) → (⟨S200000, .i32⟩ : BufTy).Contents (Elt F)))
    (hostOps4_2_at (F := F)) (W10 m ρ c) 5 (by show (5 : Nat) < 39; decide) rfl (by decide) (by decide) (by decide)

/-- Operation 6: `main_v90` from `main_v87`, `main_v89`, `main_v68`. -/
theorem eq_v90 (c : Dev nD) :
    K m ρ c main_v90
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v87) (K m ρ c main_v89) (K m ρ c main_v68) := by
  rw [K_eq_W11 m ρ c main_v90 (by decide),
    K_eq_W11 m ρ c main_v87 (by decide),
    K_eq_W11 m ρ c main_v89 (by decide),
    K_eq_W11 m ρ c main_v68 (by decide)]
  exact ternary_final (hc := by decide) (ha := by decide) (hb := by decide) (hy := by decide) (c := main_v87) (a := main_v89) (b := main_v68) (y := main_v90) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps4_2_at (F := F)) (W10 m ρ c) 6 (by show (6 : Nat) < 39; decide) rfl (by decide) (by decide) (by decide) (by decide)

/-- Operation 7: `main_v91` from `main_v90`. -/
theorem eq_v91 (c : Dev nD) :
    K m ρ c main_v91
      = (broadcastInDim S200000x1 ![0] bcast_S200000_S200000x1_0 : (⟨S200000, .i32⟩ : BufTy).Contents (Elt F) → (⟨S200000x1, .i32⟩ : BufTy).Contents (Elt F)) (K m ρ c main_v90) := by
  rw [K_eq_W11 m ρ c main_v91 (by decide),
    K_eq_W11 m ρ c main_v90 (by decide)]
  exact unary_final (hx := by decide) (hy := by decide) (x := main_v90) (y := main_v91) (f := (broadcastInDim S200000x1 ![0] bcast_S200000_S200000x1_0 : (⟨S200000, .i32⟩ : BufTy).Contents (Elt F) → (⟨S200000x1, .i32⟩ : BufTy).Contents (Elt F)))
    (hostOps4_2_at (F := F)) (W10 m ρ c) 7 (by show (7 : Nat) < 39; decide) rfl (by decide) (by decide)

/-- Operation 8: `main_v92` from `main_v85`, `main_v91`. -/
theorem eq_v92 (c : Dev nD) :
    K m ρ c main_v92
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v85) (K m ρ c main_v91) := by
  rw [K_eq_W11 m ρ c main_v92 (by decide),
    K_eq_W11 m ρ c main_v85 (by decide),
    K_eq_W11 m ρ c main_v91 (by decide)]
  exact binary_final (ha := by decide) (hb := by decide) (hy := by decide) (a := main_v85) (b := main_v91) (y := main_v92) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps4_2_at (F := F)) (W10 m ρ c) 8 (by show (8 : Nat) < 39; decide) rfl (by decide) (by decide) (by decide)

/-- Operation 9: `main_c_25`, a constant. -/
theorem eq_c_25 (c : Dev nD) :
    K m ρ c main_c_25
      = ((constantI S_ 32 0#32) : (⟨S_, .i32⟩ : BufTy).Contents (Elt F)) := by
  rw [K_eq_W11 m ρ c main_c_25 (by decide)]
  exact nullary_final (hy := by decide) (y := main_c_25) (v := ((constantI S_ 32 0#32) : (⟨S_, .i32⟩ : BufTy).Contents (Elt F)))
    (hostOps4_2_at (F := F)) (W10 m ρ c) 9 (by show (9 : Nat) < 39; decide) rfl (by decide)

/-- Operation 10: `main_v93` from `main_c_25`. -/
theorem eq_v93 (c : Dev nD) :
    K m ρ c main_v93
      = (broadcastInDim S200000 ![] bcast_S_S200000 : (⟨S_, .i32⟩ : BufTy).Contents (Elt F) → (⟨S200000, .i32⟩ : BufTy).Contents (Elt F)) (K m ρ c main_c_25) := by
  rw [K_eq_W11 m ρ c main_v93 (by decide),
    K_eq_W11 m ρ c main_c_25 (by decide)]
  exact unary_final (hx := by decide) (hy := by decide) (x := main_c_25) (y := main_v93) (f := (broadcastInDim S200000 ![] bcast_S_S200000 : (⟨S_, .i32⟩ : BufTy).Contents (Elt F) → (⟨S200000, .i32⟩ : BufTy).Contents (Elt F)))
    (hostOps4_2_at (F := F)) (W10 m ρ c) 10 (by show (10 : Nat) < 39; decide) rfl (by decide) (by decide)

/-- Operation 11: `main_v94` from `main_v70`, `main_v93`. -/
theorem eq_v94 (c : Dev nD) :
    K m ρ c main_v94
      = (cmpi .slt : (⟨S200000, .i32⟩ : BufTy).Contents (Elt F) → (⟨S200000, .i32⟩ : BufTy).Contents (Elt F) → (⟨S200000, .i1⟩ : BufTy).Contents (Elt F)) (K m ρ c main_v70) (K m ρ c main_v93) := by
  rw [K_eq_W11 m ρ c main_v94 (by decide),
    K_eq_W11 m ρ c main_v70 (by decide),
    K_eq_W11 m ρ c main_v93 (by decide)]
  exact binary_final (ha := by decide) (hb := by decide) (hy := by decide) (a := main_v70) (b := main_v93) (y := main_v94) (f := (cmpi .slt : (⟨S200000, .i32⟩ : BufTy).Contents (Elt F) → (⟨S200000, .i32⟩ : BufTy).Contents (Elt F) → (⟨S200000, .i1⟩ : BufTy).Contents (Elt F)))
    (hostOps4_2_at (F := F)) (W10 m ρ c) 11 (by show (11 : Nat) < 39; decide) rfl (by decide) (by decide) (by decide)

/-- Operation 12: `main_c_26`, a constant. -/
theorem eq_c_26 (c : Dev nD) :
    K m ρ c main_c_26
      = ((constantI S_ 32 100000#32) : (⟨S_, .i32⟩ : BufTy).Contents (Elt F)) := by
  rw [K_eq_W11 m ρ c main_c_26 (by decide)]
  exact nullary_final (hy := by decide) (y := main_c_26) (v := ((constantI S_ 32 100000#32) : (⟨S_, .i32⟩ : BufTy).Contents (Elt F)))
    (hostOps4_2_at (F := F)) (W10 m ρ c) 12 (by show (12 : Nat) < 39; decide) rfl (by decide)

/-- Operation 13: `main_v95` from `main_c_26`. -/
theorem eq_v95 (c : Dev nD) :
    K m ρ c main_v95
      = (broadcastInDim S200000 ![] bcast_S_S200000 : (⟨S_, .i32⟩ : BufTy).Contents (Elt F) → (⟨S200000, .i32⟩ : BufTy).Contents (Elt F)) (K m ρ c main_c_26) := by
  rw [K_eq_W11 m ρ c main_v95 (by decide),
    K_eq_W11 m ρ c main_c_26 (by decide)]
  exact unary_final (hx := by decide) (hy := by decide) (x := main_c_26) (y := main_v95) (f := (broadcastInDim S200000 ![] bcast_S_S200000 : (⟨S_, .i32⟩ : BufTy).Contents (Elt F) → (⟨S200000, .i32⟩ : BufTy).Contents (Elt F)))
    (hostOps4_2_at (F := F)) (W10 m ρ c) 13 (by show (13 : Nat) < 39; decide) rfl (by decide) (by decide)

/-- Operation 14: `main_v96` from `main_v70`, `main_v95`. -/
theorem eq_v96 (c : Dev nD) :
    K m ρ c main_v96
      = (addi : (⟨S200000, .i32⟩ : BufTy).Contents (Elt F) → (⟨S200000, .i32⟩ : BufTy).Contents (Elt F) → (⟨S200000, .i32⟩ : BufTy).Contents (Elt F)) (K m ρ c main_v70) (K m ρ c main_v95) := by
  rw [K_eq_W11 m ρ c main_v96 (by decide),
    K_eq_W11 m ρ c main_v70 (by decide),
    K_eq_W11 m ρ c main_v95 (by decide)]
  exact binary_final (ha := by decide) (hb := by decide) (hy := by decide) (a := main_v70) (b := main_v95) (y := main_v96) (f := (addi : (⟨S200000, .i32⟩ : BufTy).Contents (Elt F) → (⟨S200000, .i32⟩ : BufTy).Contents (Elt F) → (⟨S200000, .i32⟩ : BufTy).Contents (Elt F)))
    (hostOps4_2_at (F := F)) (W10 m ρ c) 14 (by show (14 : Nat) < 39; decide) rfl (by decide) (by decide) (by decide)

/-- Operation 15: `main_v97` from `main_v94`, `main_v96`, `main_v70`. -/
theorem eq_v97 (c : Dev nD) :
    K m ρ c main_v97
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v94) (K m ρ c main_v96) (K m ρ c main_v70) := by
  rw [K_eq_W11 m ρ c main_v97 (by decide),
    K_eq_W11 m ρ c main_v94 (by decide),
    K_eq_W11 m ρ c main_v96 (by decide),
    K_eq_W11 m ρ c main_v70 (by decide)]
  exact ternary_final (hc := by decide) (ha := by decide) (hb := by decide) (hy := by decide) (c := main_v94) (a := main_v96) (b := main_v70) (y := main_v97) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps4_2_at (F := F)) (W10 m ρ c) 15 (by show (15 : Nat) < 39; decide) rfl (by decide) (by decide) (by decide) (by decide)

/-- Operation 16: `main_v98` from `main_v97`. -/
theorem eq_v98 (c : Dev nD) :
    K m ρ c main_v98
      = (broadcastInDim S200000x1 ![0] bcast_S200000_S200000x1_0 : (⟨S200000, .i32⟩ : BufTy).Contents (Elt F) → (⟨S200000x1, .i32⟩ : BufTy).Contents (Elt F)) (K m ρ c main_v97) := by
  rw [K_eq_W11 m ρ c main_v98 (by decide),
    K_eq_W11 m ρ c main_v97 (by decide)]
  exact unary_final (hx := by decide) (hy := by decide) (x := main_v97) (y := main_v98) (f := (broadcastInDim S200000x1 ![0] bcast_S200000_S200000x1_0 : (⟨S200000, .i32⟩ : BufTy).Contents (Elt F) → (⟨S200000x1, .i32⟩ : BufTy).Contents (Elt F)))
    (hostOps4_2_at (F := F)) (W10 m ρ c) 16 (by show (16 : Nat) < 39; decide) rfl (by decide) (by decide)

/-- Operation 17: `main_v99` from `main_v85`, `main_v98`. -/
theorem eq_v99 (c : Dev nD) :
    K m ρ c main_v99
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v85) (K m ρ c main_v98) := by
  rw [K_eq_W11 m ρ c main_v99 (by decide),
    K_eq_W11 m ρ c main_v85 (by decide),
    K_eq_W11 m ρ c main_v98 (by decide)]
  exact binary_final (ha := by decide) (hb := by decide) (hy := by decide) (a := main_v85) (b := main_v98) (y := main_v99) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps4_2_at (F := F)) (W10 m ρ c) 17 (by show (17 : Nat) < 39; decide) rfl (by decide) (by decide) (by decide)

/-- Operation 18: `main_v100` from `main_v92`, `main_v99`. -/
theorem eq_v100 (c : Dev nD) :
    K m ρ c main_v100
      = (mulf : (⟨S200000, .f32⟩ : BufTy).Contents (Elt F) → (⟨S200000, .f32⟩ : BufTy).Contents (Elt F) → (⟨S200000, .f32⟩ : BufTy).Contents (Elt F)) (K m ρ c main_v92) (K m ρ c main_v99) := by
  rw [K_eq_W11 m ρ c main_v100 (by decide),
    K_eq_W11 m ρ c main_v92 (by decide),
    K_eq_W11 m ρ c main_v99 (by decide)]
  exact binary_final (ha := by decide) (hb := by decide) (hy := by decide) (a := main_v92) (b := main_v99) (y := main_v100) (f := (mulf : (⟨S200000, .f32⟩ : BufTy).Contents (Elt F) → (⟨S200000, .f32⟩ : BufTy).Contents (Elt F) → (⟨S200000, .f32⟩ : BufTy).Contents (Elt F)))
    (hostOps4_2_at (F := F)) (W10 m ρ c) 18 (by show (18 : Nat) < 39; decide) rfl (by decide) (by decide) (by decide)

/-- Operation 19: `main_c_27`, a constant. -/
theorem eq_c_27 (c : Dev nD) :
    K m ρ c main_c_27
      = ((constantI S_ 32 0#32) : (⟨S_, .i32⟩ : BufTy).Contents (Elt F)) := by
  rw [K_eq_W11 m ρ c main_c_27 (by decide)]
  exact nullary_final (hy := by decide) (y := main_c_27) (v := ((constantI S_ 32 0#32) : (⟨S_, .i32⟩ : BufTy).Contents (Elt F)))
    (hostOps4_2_at (F := F)) (W10 m ρ c) 19 (by show (19 : Nat) < 39; decide) rfl (by decide)

/-- Operation 20: `main_v101` from `main_c_27`. -/
theorem eq_v101 (c : Dev nD) :
    K m ρ c main_v101
      = (broadcastInDim S200000 ![] bcast_S_S200000 : (⟨S_, .i32⟩ : BufTy).Contents (Elt F) → (⟨S200000, .i32⟩ : BufTy).Contents (Elt F)) (K m ρ c main_c_27) := by
  rw [K_eq_W11 m ρ c main_v101 (by decide),
    K_eq_W11 m ρ c main_c_27 (by decide)]
  exact unary_final (hx := by decide) (hy := by decide) (x := main_c_27) (y := main_v101) (f := (broadcastInDim S200000 ![] bcast_S_S200000 : (⟨S_, .i32⟩ : BufTy).Contents (Elt F) → (⟨S200000, .i32⟩ : BufTy).Contents (Elt F)))
    (hostOps4_2_at (F := F)) (W10 m ρ c) 20 (by show (20 : Nat) < 39; decide) rfl (by decide) (by decide)

/-- Operation 21: `main_v102` from `main_v68`, `main_v101`. -/
theorem eq_v102 (c : Dev nD) :
    K m ρ c main_v102
      = (cmpi .slt : (⟨S200000, .i32⟩ : BufTy).Contents (Elt F) → (⟨S200000, .i32⟩ : BufTy).Contents (Elt F) → (⟨S200000, .i1⟩ : BufTy).Contents (Elt F)) (K m ρ c main_v68) (K m ρ c main_v101) := by
  rw [K_eq_W11 m ρ c main_v102 (by decide),
    K_eq_W11 m ρ c main_v68 (by decide),
    K_eq_W11 m ρ c main_v101 (by decide)]
  exact binary_final (ha := by decide) (hb := by decide) (hy := by decide) (a := main_v68) (b := main_v101) (y := main_v102) (f := (cmpi .slt : (⟨S200000, .i32⟩ : BufTy).Contents (Elt F) → (⟨S200000, .i32⟩ : BufTy).Contents (Elt F) → (⟨S200000, .i1⟩ : BufTy).Contents (Elt F)))
    (hostOps4_2_at (F := F)) (W10 m ρ c) 21 (by show (21 : Nat) < 39; decide) rfl (by decide) (by decide) (by decide)

/-- Operation 22: `main_c_28`, a constant. -/
theorem eq_c_28 (c : Dev nD) :
    K m ρ c main_c_28
      = ((constantI S_ 32 100000#32) : (⟨S_, .i32⟩ : BufTy).Contents (Elt F)) := by
  rw [K_eq_W11 m ρ c main_c_28 (by decide)]
  exact nullary_final (hy := by decide) (y := main_c_28) (v := ((constantI S_ 32 100000#32) : (⟨S_, .i32⟩ : BufTy).Contents (Elt F)))
    (hostOps4_2_at (F := F)) (W10 m ρ c) 22 (by show (22 : Nat) < 39; decide) rfl (by decide)

/-- Operation 23: `main_v103` from `main_c_28`. -/
theorem eq_v103 (c : Dev nD) :
    K m ρ c main_v103
      = (broadcastInDim S200000 ![] bcast_S_S200000 : (⟨S_, .i32⟩ : BufTy).Contents (Elt F) → (⟨S200000, .i32⟩ : BufTy).Contents (Elt F)) (K m ρ c main_c_28) := by
  rw [K_eq_W11 m ρ c main_v103 (by decide),
    K_eq_W11 m ρ c main_c_28 (by decide)]
  exact unary_final (hx := by decide) (hy := by decide) (x := main_c_28) (y := main_v103) (f := (broadcastInDim S200000 ![] bcast_S_S200000 : (⟨S_, .i32⟩ : BufTy).Contents (Elt F) → (⟨S200000, .i32⟩ : BufTy).Contents (Elt F)))
    (hostOps4_2_at (F := F)) (W10 m ρ c) 23 (by show (23 : Nat) < 39; decide) rfl (by decide) (by decide)

/-- Operation 24: `main_v104` from `main_v68`, `main_v103`. -/
theorem eq_v104 (c : Dev nD) :
    K m ρ c main_v104
      = (addi : (⟨S200000, .i32⟩ : BufTy).Contents (Elt F) → (⟨S200000, .i32⟩ : BufTy).Contents (Elt F) → (⟨S200000, .i32⟩ : BufTy).Contents (Elt F)) (K m ρ c main_v68) (K m ρ c main_v103) := by
  rw [K_eq_W11 m ρ c main_v104 (by decide),
    K_eq_W11 m ρ c main_v68 (by decide),
    K_eq_W11 m ρ c main_v103 (by decide)]
  exact binary_final (ha := by decide) (hb := by decide) (hy := by decide) (a := main_v68) (b := main_v103) (y := main_v104) (f := (addi : (⟨S200000, .i32⟩ : BufTy).Contents (Elt F) → (⟨S200000, .i32⟩ : BufTy).Contents (Elt F) → (⟨S200000, .i32⟩ : BufTy).Contents (Elt F)))
    (hostOps4_2_at (F := F)) (W10 m ρ c) 24 (by show (24 : Nat) < 39; decide) rfl (by decide) (by decide) (by decide)

/-- Operation 25: `main_v105` from `main_v102`, `main_v104`, `main_v68`. -/
theorem eq_v105 (c : Dev nD) :
    K m ρ c main_v105
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v102) (K m ρ c main_v104) (K m ρ c main_v68) := by
  rw [K_eq_W11 m ρ c main_v105 (by decide),
    K_eq_W11 m ρ c main_v102 (by decide),
    K_eq_W11 m ρ c main_v104 (by decide),
    K_eq_W11 m ρ c main_v68 (by decide)]
  exact ternary_final (hc := by decide) (ha := by decide) (hb := by decide) (hy := by decide) (c := main_v102) (a := main_v104) (b := main_v68) (y := main_v105) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps4_2_at (F := F)) (W10 m ρ c) 25 (by show (25 : Nat) < 39; decide) rfl (by decide) (by decide) (by decide) (by decide)

/-- Operation 26: `main_v106` from `main_v105`. -/
theorem eq_v106 (c : Dev nD) :
    K m ρ c main_v106
      = (broadcastInDim S200000x1 ![0] bcast_S200000_S200000x1_0 : (⟨S200000, .i32⟩ : BufTy).Contents (Elt F) → (⟨S200000x1, .i32⟩ : BufTy).Contents (Elt F)) (K m ρ c main_v105) := by
  rw [K_eq_W11 m ρ c main_v106 (by decide),
    K_eq_W11 m ρ c main_v105 (by decide)]
  exact unary_final (hx := by decide) (hy := by decide) (x := main_v105) (y := main_v106) (f := (broadcastInDim S200000x1 ![0] bcast_S200000_S200000x1_0 : (⟨S200000, .i32⟩ : BufTy).Contents (Elt F) → (⟨S200000x1, .i32⟩ : BufTy).Contents (Elt F)))
    (hostOps4_2_at (F := F)) (W10 m ρ c) 26 (by show (26 : Nat) < 39; decide) rfl (by decide) (by decide)

/-- Operation 27: `main_v107` from `main_v3`, `main_v106`. -/
theorem eq_v107 (c : Dev nD) :
    K m ρ c main_v107
      = ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)) (K m ρ c main_v3) (K m ρ c main_v106) := by
  rw [K_eq_W11 m ρ c main_v107 (by decide),
    K_eq_W11 m ρ c main_v3 (by decide),
    K_eq_W11 m ρ c main_v106 (by decide)]
  exact binary_final (ha := by decide) (hb := by decide) (hy := by decide) (a := main_v3) (b := main_v106) (y := main_v107) (f := ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)))
    (hostOps4_2_at (F := F)) (W10 m ρ c) 27 (by show (27 : Nat) < 39; decide) rfl (by decide) (by decide) (by decide)

/-- Operation 28: `main_c_29`, a constant. -/
theorem eq_c_29 (c : Dev nD) :
    K m ρ c main_c_29
      = ((constantI S_ 32 0#32) : (⟨S_, .i32⟩ : BufTy).Contents (Elt F)) := by
  rw [K_eq_W11 m ρ c main_c_29 (by decide)]
  exact nullary_final (hy := by decide) (y := main_c_29) (v := ((constantI S_ 32 0#32) : (⟨S_, .i32⟩ : BufTy).Contents (Elt F)))
    (hostOps4_2_at (F := F)) (W10 m ρ c) 28 (by show (28 : Nat) < 39; decide) rfl (by decide)

/-- Operation 29: `main_v108` from `main_c_29`. -/
theorem eq_v108 (c : Dev nD) :
    K m ρ c main_v108
      = (broadcastInDim S200000 ![] bcast_S_S200000 : (⟨S_, .i32⟩ : BufTy).Contents (Elt F) → (⟨S200000, .i32⟩ : BufTy).Contents (Elt F)) (K m ρ c main_c_29) := by
  rw [K_eq_W11 m ρ c main_v108 (by decide),
    K_eq_W11 m ρ c main_c_29 (by decide)]
  exact unary_final (hx := by decide) (hy := by decide) (x := main_c_29) (y := main_v108) (f := (broadcastInDim S200000 ![] bcast_S_S200000 : (⟨S_, .i32⟩ : BufTy).Contents (Elt F) → (⟨S200000, .i32⟩ : BufTy).Contents (Elt F)))
    (hostOps4_2_at (F := F)) (W10 m ρ c) 29 (by show (29 : Nat) < 39; decide) rfl (by decide) (by decide)

/-- Operation 30: `main_v109` from `main_v66`, `main_v108`. -/
theorem eq_v109 (c : Dev nD) :
    K m ρ c main_v109
      = (cmpi .slt : (⟨S200000, .i32⟩ : BufTy).Contents (Elt F) → (⟨S200000, .i32⟩ : BufTy).Contents (Elt F) → (⟨S200000, .i1⟩ : BufTy).Contents (Elt F)) (K m ρ c main_v66) (K m ρ c main_v108) := by
  rw [K_eq_W11 m ρ c main_v109 (by decide),
    K_eq_W11 m ρ c main_v66 (by decide),
    K_eq_W11 m ρ c main_v108 (by decide)]
  exact binary_final (ha := by decide) (hb := by decide) (hy := by decide) (a := main_v66) (b := main_v108) (y := main_v109) (f := (cmpi .slt : (⟨S200000, .i32⟩ : BufTy).Contents (Elt F) → (⟨S200000, .i32⟩ : BufTy).Contents (Elt F) → (⟨S200000, .i1⟩ : BufTy).Contents (Elt F)))
    (hostOps4_2_at (F := F)) (W10 m ρ c) 30 (by show (30 : Nat) < 39; decide) rfl (by decide) (by decide) (by decide)

/-- Operation 31: `main_c_30`, a constant. -/
theorem eq_c_30 (c : Dev nD) :
    K m ρ c main_c_30
      = ((constantI S_ 32 401#32) : (⟨S_, .i32⟩ : BufTy).Contents (Elt F)) := by
  rw [K_eq_W11 m ρ c main_c_30 (by decide)]
  exact nullary_final (hy := by decide) (y := main_c_30) (v := ((constantI S_ 32 401#32) : (⟨S_, .i32⟩ : BufTy).Contents (Elt F)))
    (hostOps4_2_at (F := F)) (W10 m ρ c) 31 (by show (31 : Nat) < 39; decide) rfl (by decide)

/-- Operation 32: `main_v110` from `main_c_30`. -/
theorem eq_v110 (c : Dev nD) :
    K m ρ c main_v110
      = (broadcastInDim S200000 ![] bcast_S_S200000 : (⟨S_, .i32⟩ : BufTy).Contents (Elt F) → (⟨S200000, .i32⟩ : BufTy).Contents (Elt F)) (K m ρ c main_c_30) := by
  rw [K_eq_W11 m ρ c main_v110 (by decide),
    K_eq_W11 m ρ c main_c_30 (by decide)]
  exact unary_final (hx := by decide) (hy := by decide) (x := main_c_30) (y := main_v110) (f := (broadcastInDim S200000 ![] bcast_S_S200000 : (⟨S_, .i32⟩ : BufTy).Contents (Elt F) → (⟨S200000, .i32⟩ : BufTy).Contents (Elt F)))
    (hostOps4_2_at (F := F)) (W10 m ρ c) 32 (by show (32 : Nat) < 39; decide) rfl (by decide) (by decide)

/-- Operation 33: `main_v111` from `main_v66`, `main_v110`. -/
theorem eq_v111 (c : Dev nD) :
    K m ρ c main_v111
      = (addi : (⟨S200000, .i32⟩ : BufTy).Contents (Elt F) → (⟨S200000, .i32⟩ : BufTy).Contents (Elt F) → (⟨S200000, .i32⟩ : BufTy).Contents (Elt F)) (K m ρ c main_v66) (K m ρ c main_v110) := by
  rw [K_eq_W11 m ρ c main_v111 (by decide),
    K_eq_W11 m ρ c main_v66 (by decide),
    K_eq_W11 m ρ c main_v110 (by decide)]
  exact binary_final (ha := by decide) (hb := by decide) (hy := by decide) (a := main_v66) (b := main_v110) (y := main_v111) (f := (addi : (⟨S200000, .i32⟩ : BufTy).Contents (Elt F) → (⟨S200000, .i32⟩ : BufTy).Contents (Elt F) → (⟨S200000, .i32⟩ : BufTy).Contents (Elt F)))
    (hostOps4_2_at (F := F)) (W10 m ρ c) 33 (by show (33 : Nat) < 39; decide) rfl (by decide) (by decide) (by decide)

/-- Operation 34: `main_v112` from `main_v109`, `main_v111`, `main_v66`. -/
theorem eq_v112 (c : Dev nD) :
    K m ρ c main_v112
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v109) (K m ρ c main_v111) (K m ρ c main_v66) := by
  rw [K_eq_W11 m ρ c main_v112 (by decide),
    K_eq_W11 m ρ c main_v109 (by decide),
    K_eq_W11 m ρ c main_v111 (by decide),
    K_eq_W11 m ρ c main_v66 (by decide)]
  exact ternary_final (hc := by decide) (ha := by decide) (hb := by decide) (hy := by decide) (c := main_v109) (a := main_v111) (b := main_v66) (y := main_v112) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps4_2_at (F := F)) (W10 m ρ c) 34 (by show (34 : Nat) < 39; decide) rfl (by decide) (by decide) (by decide) (by decide)

/-- Operation 35: `main_v113` from `main_v112`. -/
theorem eq_v113 (c : Dev nD) :
    K m ρ c main_v113
      = (broadcastInDim S200000x1 ![0] bcast_S200000_S200000x1_0 : (⟨S200000, .i32⟩ : BufTy).Contents (Elt F) → (⟨S200000x1, .i32⟩ : BufTy).Contents (Elt F)) (K m ρ c main_v112) := by
  rw [K_eq_W11 m ρ c main_v113 (by decide),
    K_eq_W11 m ρ c main_v112 (by decide)]
  exact unary_final (hx := by decide) (hy := by decide) (x := main_v112) (y := main_v113) (f := (broadcastInDim S200000x1 ![0] bcast_S200000_S200000x1_0 : (⟨S200000, .i32⟩ : BufTy).Contents (Elt F) → (⟨S200000x1, .i32⟩ : BufTy).Contents (Elt F)))
    (hostOps4_2_at (F := F)) (W10 m ρ c) 35 (by show (35 : Nat) < 39; decide) rfl (by decide) (by decide)

/-- Operation 36: `main_v114` from `main_v2`, `main_v113`. -/
theorem eq_v114 (c : Dev nD) :
    K m ρ c main_v114
      = ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)) (K m ρ c main_v2) (K m ρ c main_v113) := by
  rw [K_eq_W11 m ρ c main_v114 (by decide),
    K_eq_W11 m ρ c main_v2 (by decide),
    K_eq_W11 m ρ c main_v113 (by decide)]
  exact binary_final (ha := by decide) (hb := by decide) (hy := by decide) (a := main_v2) (b := main_v113) (y := main_v114) (f := ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)))
    (hostOps4_2_at (F := F)) (W10 m ρ c) 36 (by show (36 : Nat) < 39; decide) rfl (by decide) (by decide) (by decide)

/-- Operation 37: `main_v115` from `main_v107`, `main_v114`. -/
theorem eq_v115 (c : Dev nD) :
    K m ρ c main_v115
      = (subf : (⟨S200000x200, .f32⟩ : BufTy).Contents (Elt F) → (⟨S200000x200, .f32⟩ : BufTy).Contents (Elt F) → (⟨S200000x200, .f32⟩ : BufTy).Contents (Elt F)) (K m ρ c main_v107) (K m ρ c main_v114) := by
  rw [K_eq_W11 m ρ c main_v115 (by decide),
    K_eq_W11 m ρ c main_v107 (by decide),
    K_eq_W11 m ρ c main_v114 (by decide)]
  exact binary_final (ha := by decide) (hb := by decide) (hy := by decide) (a := main_v107) (b := main_v114) (y := main_v115) (f := (subf : (⟨S200000x200, .f32⟩ : BufTy).Contents (Elt F) → (⟨S200000x200, .f32⟩ : BufTy).Contents (Elt F) → (⟨S200000x200, .f32⟩ : BufTy).Contents (Elt F)))
    (hostOps4_2_at (F := F)) (W10 m ρ c) 37 (by show (37 : Nat) < 39; decide) rfl (by decide) (by decide) (by decide)

/-- Operation 38: `main_v116` from `main_v100`. -/
theorem eq_v116 (c : Dev nD) :
    K m ρ c main_v116
      = (broadcastInDim S200000x1 ![0] bcast_S200000_S200000x1_0 : (⟨S200000, .f32⟩ : BufTy).Contents (Elt F) → (⟨S200000x1, .f32⟩ : BufTy).Contents (Elt F)) (K m ρ c main_v100) := by
  rw [K_eq_W11 m ρ c main_v116 (by decide),
    K_eq_W11 m ρ c main_v100 (by decide)]
  exact unary_final (hx := by decide) (hy := by decide) (x := main_v100) (y := main_v116) (f := (broadcastInDim S200000x1 ![0] bcast_S200000_S200000x1_0 : (⟨S200000, .f32⟩ : BufTy).Contents (Elt F) → (⟨S200000x1, .f32⟩ : BufTy).Contents (Elt F)))
    (hostOps4_2_at (F := F)) (W10 m ρ c) 38 (by show (38 : Nat) < 39; decide) rfl (by decide) (by decide)

end Cert.KernelIdeal.HandRun

end
-- ==== Proof.KernelEqsHost5.lean ====
/-
  The equations the host operations of `hostOps5` (segment 12) leave between FINAL contents.

  The stretch is in single-assignment form: operation `i` writes the one buffer `hostOps5_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_cst_31`, a constant. -/
theorem eq_cst_31 (c : Dev nD) :
    K m ρ c main_cst_31
      = ((constant S_ .f32 0x00000000#32) : (⟨S_, .f32⟩ : BufTy).Contents (Elt F)) := by
  rw [K_eq_W13 m ρ c main_cst_31 (by decide)]
  exact nullary_final (hy := by decide) (y := main_cst_31) (v := ((constant S_ .f32 0x00000000#32) : (⟨S_, .f32⟩ : BufTy).Contents (Elt F)))
    (hostOps5_at (F := F)) (W12 m ρ c) 0 (by show (0 : Nat) < 13; decide) rfl (by decide)

/-- Operation 1: `main_v118` from `main_cst_31`. -/
theorem eq_v118 (c : Dev nD) :
    K m ρ c main_v118
      = (broadcastInDim S100000x200 ![] bcast_S_S100000x200 : (⟨S_, .f32⟩ : BufTy).Contents (Elt F) → (⟨S100000x200, .f32⟩ : BufTy).Contents (Elt F)) (K m ρ c main_cst_31) := by
  rw [K_eq_W13 m ρ c main_v118 (by decide),
    K_eq_W13 m ρ c main_cst_31 (by decide)]
  exact unary_final (hx := by decide) (hy := by decide) (x := main_cst_31) (y := main_v118) (f := (broadcastInDim S100000x200 ![] bcast_S_S100000x200 : (⟨S_, .f32⟩ : BufTy).Contents (Elt F) → (⟨S100000x200, .f32⟩ : BufTy).Contents (Elt F)))
    (hostOps5_at (F := F)) (W12 m ρ c) 1 (by show (1 : Nat) < 13; decide) rfl (by decide) (by decide)

/-- Operation 2: `main_c_32`, a constant. -/
theorem eq_c_32 (c : Dev nD) :
    K m ρ c main_c_32
      = ((constantI S_ 32 0#32) : (⟨S_, .i32⟩ : BufTy).Contents (Elt F)) := by
  rw [K_eq_W13 m ρ c main_c_32 (by decide)]
  exact nullary_final (hy := by decide) (y := main_c_32) (v := ((constantI S_ 32 0#32) : (⟨S_, .i32⟩ : BufTy).Contents (Elt F)))
    (hostOps5_at (F := F)) (W12 m ρ c) 2 (by show (2 : Nat) < 13; decide) rfl (by decide)

/-- Operation 3: `main_v119` from `main_c_32`. -/
theorem eq_v119 (c : Dev nD) :
    K m ρ c main_v119
      = (broadcastInDim S200000 ![] bcast_S_S200000 : (⟨S_, .i32⟩ : BufTy).Contents (Elt F) → (⟨S200000, .i32⟩ : BufTy).Contents (Elt F)) (K m ρ c main_c_32) := by
  rw [K_eq_W13 m ρ c main_v119 (by decide),
    K_eq_W13 m ρ c main_c_32 (by decide)]
  exact unary_final (hx := by decide) (hy := by decide) (x := main_c_32) (y := main_v119) (f := (broadcastInDim S200000 ![] bcast_S_S200000 : (⟨S_, .i32⟩ : BufTy).Contents (Elt F) → (⟨S200000, .i32⟩ : BufTy).Contents (Elt F)))
    (hostOps5_at (F := F)) (W12 m ρ c) 3 (by show (3 : Nat) < 13; decide) rfl (by decide) (by decide)

/-- Operation 4: `main_v120` from `main_v70`, `main_v119`. -/
theorem eq_v120 (c : Dev nD) :
    K m ρ c main_v120
      = (cmpi .slt : (⟨S200000, .i32⟩ : BufTy).Contents (Elt F) → (⟨S200000, .i32⟩ : BufTy).Contents (Elt F) → (⟨S200000, .i1⟩ : BufTy).Contents (Elt F)) (K m ρ c main_v70) (K m ρ c main_v119) := by
  rw [K_eq_W13 m ρ c main_v120 (by decide),
    K_eq_W13 m ρ c main_v70 (by decide),
    K_eq_W13 m ρ c main_v119 (by decide)]
  exact binary_final (ha := by decide) (hb := by decide) (hy := by decide) (a := main_v70) (b := main_v119) (y := main_v120) (f := (cmpi .slt : (⟨S200000, .i32⟩ : BufTy).Contents (Elt F) → (⟨S200000, .i32⟩ : BufTy).Contents (Elt F) → (⟨S200000, .i1⟩ : BufTy).Contents (Elt F)))
    (hostOps5_at (F := F)) (W12 m ρ c) 4 (by show (4 : Nat) < 13; decide) rfl (by decide) (by decide) (by decide)

/-- Operation 5: `main_c_33`, a constant. -/
theorem eq_c_33 (c : Dev nD) :
    K m ρ c main_c_33
      = ((constantI S_ 32 100000#32) : (⟨S_, .i32⟩ : BufTy).Contents (Elt F)) := by
  rw [K_eq_W13 m ρ c main_c_33 (by decide)]
  exact nullary_final (hy := by decide) (y := main_c_33) (v := ((constantI S_ 32 100000#32) : (⟨S_, .i32⟩ : BufTy).Contents (Elt F)))
    (hostOps5_at (F := F)) (W12 m ρ c) 5 (by show (5 : Nat) < 13; decide) rfl (by decide)

/-- Operation 6: `main_v121` from `main_c_33`. -/
theorem eq_v121 (c : Dev nD) :
    K m ρ c main_v121
      = (broadcastInDim S200000 ![] bcast_S_S200000 : (⟨S_, .i32⟩ : BufTy).Contents (Elt F) → (⟨S200000, .i32⟩ : BufTy).Contents (Elt F)) (K m ρ c main_c_33) := by
  rw [K_eq_W13 m ρ c main_v121 (by decide),
    K_eq_W13 m ρ c main_c_33 (by decide)]
  exact unary_final (hx := by decide) (hy := by decide) (x := main_c_33) (y := main_v121) (f := (broadcastInDim S200000 ![] bcast_S_S200000 : (⟨S_, .i32⟩ : BufTy).Contents (Elt F) → (⟨S200000, .i32⟩ : BufTy).Contents (Elt F)))
    (hostOps5_at (F := F)) (W12 m ρ c) 6 (by show (6 : Nat) < 13; decide) rfl (by decide) (by decide)

/-- Operation 7: `main_v122` from `main_v70`, `main_v121`. -/
theorem eq_v122 (c : Dev nD) :
    K m ρ c main_v122
      = (addi : (⟨S200000, .i32⟩ : BufTy).Contents (Elt F) → (⟨S200000, .i32⟩ : BufTy).Contents (Elt F) → (⟨S200000, .i32⟩ : BufTy).Contents (Elt F)) (K m ρ c main_v70) (K m ρ c main_v121) := by
  rw [K_eq_W13 m ρ c main_v122 (by decide),
    K_eq_W13 m ρ c main_v70 (by decide),
    K_eq_W13 m ρ c main_v121 (by decide)]
  exact binary_final (ha := by decide) (hb := by decide) (hy := by decide) (a := main_v70) (b := main_v121) (y := main_v122) (f := (addi : (⟨S200000, .i32⟩ : BufTy).Contents (Elt F) → (⟨S200000, .i32⟩ : BufTy).Contents (Elt F) → (⟨S200000, .i32⟩ : BufTy).Contents (Elt F)))
    (hostOps5_at (F := F)) (W12 m ρ c) 7 (by show (7 : Nat) < 13; decide) rfl (by decide) (by decide) (by decide)

/-- Operation 8: `main_v123` from `main_v120`, `main_v122`, `main_v70`. -/
theorem eq_v123 (c : Dev nD) :
    K m ρ c main_v123
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v120) (K m ρ c main_v122) (K m ρ c main_v70) := by
  rw [K_eq_W13 m ρ c main_v123 (by decide),
    K_eq_W13 m ρ c main_v120 (by decide),
    K_eq_W13 m ρ c main_v122 (by decide),
    K_eq_W13 m ρ c main_v70 (by decide)]
  exact ternary_final (hc := by decide) (ha := by decide) (hb := by decide) (hy := by decide) (c := main_v120) (a := main_v122) (b := main_v70) (y := main_v123) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps5_at (F := F)) (W12 m ρ c) 8 (by show (8 : Nat) < 13; decide) rfl (by decide) (by decide) (by decide) (by decide)

/-- Operation 9: `main_v124` from `main_v123`. -/
theorem eq_v124 (c : Dev nD) :
    K m ρ c main_v124
      = (broadcastInDim S200000x1 ![0] bcast_S200000_S200000x1_0 : (⟨S200000, .i32⟩ : BufTy).Contents (Elt F) → (⟨S200000x1, .i32⟩ : BufTy).Contents (Elt F)) (K m ρ c main_v123) := by
  rw [K_eq_W13 m ρ c main_v124 (by decide),
    K_eq_W13 m ρ c main_v123 (by decide)]
  exact unary_final (hx := by decide) (hy := by decide) (x := main_v123) (y := main_v124) (f := (broadcastInDim S200000x1 ![0] bcast_S200000_S200000x1_0 : (⟨S200000, .i32⟩ : BufTy).Contents (Elt F) → (⟨S200000x1, .i32⟩ : BufTy).Contents (Elt F)))
    (hostOps5_at (F := F)) (W12 m ρ c) 9 (by show (9 : Nat) < 13; decide) rfl (by decide) (by decide)

/-- Operation 10: `main_v125` from `main_v118`, `main_v124`, `main_v117`. -/
theorem eq_v125 (c : Dev nD) :
    K m ρ c main_v125
      = ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)) (K m ρ c main_v118) (K m ρ c main_v124) (K m ρ c main_v117) := by
  rw [K_eq_W13 m ρ c main_v125 (by decide),
    K_eq_W13 m ρ c main_v118 (by decide),
    K_eq_W13 m ρ c main_v124 (by decide),
    K_eq_W13 m ρ c main_v117 (by decide)]
  exact ternary_final (hc := by decide) (ha := by decide) (hb := by decide) (hy := by decide) (c := main_v118) (a := main_v124) (b := main_v117) (y := main_v125) (f := ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)))
    (hostOps5_at (F := F)) (W12 m ρ c) 10 (by show (10 : Nat) < 13; decide) rfl (by decide) (by decide) (by decide) (by decide)

/-- Operation 11: `main_v126` from `main_v64`, `main_v125`. -/
theorem eq_v126 (c : Dev nD) :
    K m ρ c main_v126
      = (addf : (⟨S100000x200, .f32⟩ : BufTy).Contents (Elt F) → (⟨S100000x200, .f32⟩ : BufTy).Contents (Elt F) → (⟨S100000x200, .f32⟩ : BufTy).Contents (Elt F)) (K m ρ c main_v64) (K m ρ c main_v125) := by
  rw [K_eq_W13 m ρ c main_v126 (by decide),
    K_eq_W13 m ρ c main_v64 (by decide),
    K_eq_W13 m ρ c main_v125 (by decide)]
  exact binary_final (ha := by decide) (hb := by decide) (hy := by decide) (a := main_v64) (b := main_v125) (y := main_v126) (f := (addf : (⟨S100000x200, .f32⟩ : BufTy).Contents (Elt F) → (⟨S100000x200, .f32⟩ : BufTy).Contents (Elt F) → (⟨S100000x200, .f32⟩ : BufTy).Contents (Elt F)))
    (hostOps5_at (F := F)) (W12 m ρ c) 11 (by show (11 : Nat) < 13; decide) rfl (by decide) (by decide) (by decide)

/-- Operation 12: `main_v127` from `main_arg15`. -/
theorem eq_v127 (c : Dev nD) :
    K m ρ c main_v127
      = fun j => shapeCast (s := S200) S1x200 (K m ρ c main_arg15) shapeCasts_S200_S1x200 j := by
  rw [K_eq_W13 m ρ c main_v127 (by decide),
    K_eq_W13 m ρ c main_arg15 (by decide)]
  exact reshape_final (he := rfl) (hn := shapeCasts_S200_S1x200) (hx := by decide) (hy := by decide) (x := main_arg15) (y := main_v127)
    (hostOps5_at (F := F)) (W12 m ρ c) 12 (by show (12 : Nat) < 13; decide) rfl (by decide) (by decide)

end Cert.KernelIdeal.HandRun

end
-- ==== Proof.KernelEqsHost6.lean ====
/-
  The equations the host operations of `hostOps6` (segment 14) leave between FINAL contents.

  The stretch is in single-assignment form: operation `i` writes the one buffer `hostOps6_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_cst_34`, a constant. -/
theorem eq_cst_34 (c : Dev nD) :
    K m ρ c main_cst_34
      = ((constant S_ .f32 0x47C35000#32) : (⟨S_, .f32⟩ : BufTy).Contents (Elt F)) := by
  rw [K_eq_W15 m ρ c main_cst_34 (by decide)]
  exact nullary_final (hy := by decide) (y := main_cst_34) (v := ((constant S_ .f32 0x47C35000#32) : (⟨S_, .f32⟩ : BufTy).Contents (Elt F)))
    (hostOps6_at (F := F)) (W14 m ρ c) 0 (by show (0 : Nat) < 8; decide) rfl (by decide)

/-- Operation 1: `main_v129` from `main_cst_34`. -/
theorem eq_v129 (c : Dev nD) :
    K m ρ c main_v129
      = (broadcastInDim S1x200 ![] bcast_S_S1x200 : (⟨S_, .f32⟩ : BufTy).Contents (Elt F) → (⟨S1x200, .f32⟩ : BufTy).Contents (Elt F)) (K m ρ c main_cst_34) := by
  rw [K_eq_W15 m ρ c main_v129 (by decide),
    K_eq_W15 m ρ c main_cst_34 (by decide)]
  exact unary_final (hx := by decide) (hy := by decide) (x := main_cst_34) (y := main_v129) (f := (broadcastInDim S1x200 ![] bcast_S_S1x200 : (⟨S_, .f32⟩ : BufTy).Contents (Elt F) → (⟨S1x200, .f32⟩ : BufTy).Contents (Elt F)))
    (hostOps6_at (F := F)) (W14 m ρ c) 1 (by show (1 : Nat) < 8; decide) rfl (by decide) (by decide)

/-- Operation 2: `main_v130` from `main_v128_1`, `main_v129`. -/
theorem eq_v130 (c : Dev nD) :
    K m ρ c main_v130
      = (Host.divf : (⟨S1x200, .f32⟩ : BufTy).Contents (Elt F) → (⟨S1x200, .f32⟩ : BufTy).Contents (Elt F) → (⟨S1x200, .f32⟩ : BufTy).Contents (Elt F)) (K m ρ c main_v128_1) (K m ρ c main_v129) := by
  rw [K_eq_W15 m ρ c main_v130 (by decide),
    K_eq_W15 m ρ c main_v128_1 (by decide),
    K_eq_W15 m ρ c main_v129 (by decide)]
  exact binary_final (ha := by decide) (hb := by decide) (hy := by decide) (a := main_v128_1) (b := main_v129) (y := main_v130) (f := (Host.divf : (⟨S1x200, .f32⟩ : BufTy).Contents (Elt F) → (⟨S1x200, .f32⟩ : BufTy).Contents (Elt F) → (⟨S1x200, .f32⟩ : BufTy).Contents (Elt F)))
    (hostOps6_at (F := F)) (W14 m ρ c) 2 (by show (2 : Nat) < 8; decide) rfl (by decide) (by decide) (by decide)

/-- Operation 3: `main_cst_35`, a constant. -/
theorem eq_cst_35 (c : Dev nD) :
    K m ρ c main_cst_35
      = ((constant S_ .f32 0x47C35000#32) : (⟨S_, .f32⟩ : BufTy).Contents (Elt F)) := by
  rw [K_eq_W15 m ρ c main_cst_35 (by decide)]
  exact nullary_final (hy := by decide) (y := main_cst_35) (v := ((constant S_ .f32 0x47C35000#32) : (⟨S_, .f32⟩ : BufTy).Contents (Elt F)))
    (hostOps6_at (F := F)) (W14 m ρ c) 3 (by show (3 : Nat) < 8; decide) rfl (by decide)

/-- Operation 4: `main_v131` from `main_cst_35`. -/
theorem eq_v131 (c : Dev nD) :
    K m ρ c main_v131
      = (broadcastInDim S1x200 ![] bcast_S_S1x200 : (⟨S_, .f32⟩ : BufTy).Contents (Elt F) → (⟨S1x200, .f32⟩ : BufTy).Contents (Elt F)) (K m ρ c main_cst_35) := by
  rw [K_eq_W15 m ρ c main_v131 (by decide),
    K_eq_W15 m ρ c main_cst_35 (by decide)]
  exact unary_final (hx := by decide) (hy := by decide) (x := main_cst_35) (y := main_v131) (f := (broadcastInDim S1x200 ![] bcast_S_S1x200 : (⟨S_, .f32⟩ : BufTy).Contents (Elt F) → (⟨S1x200, .f32⟩ : BufTy).Contents (Elt F)))
    (hostOps6_at (F := F)) (W14 m ρ c) 4 (by show (4 : Nat) < 8; decide) rfl (by decide) (by decide)

/-- Operation 5: `main_v132` from `main_v128_2`, `main_v131`. -/
theorem eq_v132 (c : Dev nD) :
    K m ρ c main_v132
      = (Host.divf : (⟨S1x200, .f32⟩ : BufTy).Contents (Elt F) → (⟨S1x200, .f32⟩ : BufTy).Contents (Elt F) → (⟨S1x200, .f32⟩ : BufTy).Contents (Elt F)) (K m ρ c main_v128_2) (K m ρ c main_v131) := by
  rw [K_eq_W15 m ρ c main_v132 (by decide),
    K_eq_W15 m ρ c main_v128_2 (by decide),
    K_eq_W15 m ρ c main_v131 (by decide)]
  exact binary_final (ha := by decide) (hb := by decide) (hy := by decide) (a := main_v128_2) (b := main_v131) (y := main_v132) (f := (Host.divf : (⟨S1x200, .f32⟩ : BufTy).Contents (Elt F) → (⟨S1x200, .f32⟩ : BufTy).Contents (Elt F) → (⟨S1x200, .f32⟩ : BufTy).Contents (Elt F)))
    (hostOps6_at (F := F)) (W14 m ρ c) 5 (by show (5 : Nat) < 8; decide) rfl (by decide) (by decide) (by decide)

/-- Operation 6: `main_v133` from `main_v130`, `main_v130`. -/
theorem eq_v133 (c : Dev nD) :
    K m ρ c main_v133
      = (mulf : (⟨S1x200, .f32⟩ : BufTy).Contents (Elt F) → (⟨S1x200, .f32⟩ : BufTy).Contents (Elt F) → (⟨S1x200, .f32⟩ : BufTy).Contents (Elt F)) (K m ρ c main_v130) (K m ρ c main_v130) := by
  rw [K_eq_W15 m ρ c main_v133 (by decide),
    K_eq_W15 m ρ c main_v130 (by decide)]
  exact binary_final (ha := by decide) (hb := by decide) (hy := by decide) (a := main_v130) (b := main_v130) (y := main_v133) (f := (mulf : (⟨S1x200, .f32⟩ : BufTy).Contents (Elt F) → (⟨S1x200, .f32⟩ : BufTy).Contents (Elt F) → (⟨S1x200, .f32⟩ : BufTy).Contents (Elt F)))
    (hostOps6_at (F := F)) (W14 m ρ c) 6 (by show (6 : Nat) < 8; decide) rfl (by decide) (by decide) (by decide)

/-- Operation 7: `main_v134` from `main_v132`, `main_v133`. -/
theorem eq_v134 (c : Dev nD) :
    K m ρ c main_v134
      = (subf : (⟨S1x200, .f32⟩ : BufTy).Contents (Elt F) → (⟨S1x200, .f32⟩ : BufTy).Contents (Elt F) → (⟨S1x200, .f32⟩ : BufTy).Contents (Elt F)) (K m ρ c main_v132) (K m ρ c main_v133) := by
  rw [K_eq_W15 m ρ c main_v134 (by decide),
    K_eq_W15 m ρ c main_v132 (by decide),
    K_eq_W15 m ρ c main_v133 (by decide)]
  exact binary_final (ha := by decide) (hb := by decide) (hy := by decide) (a := main_v132) (b := main_v133) (y := main_v134) (f := (subf : (⟨S1x200, .f32⟩ : BufTy).Contents (Elt F) → (⟨S1x200, .f32⟩ : BufTy).Contents (Elt F) → (⟨S1x200, .f32⟩ : BufTy).Contents (Elt F)))
    (hostOps6_at (F := F)) (W14 m ρ c) 7 (by show (7 : Nat) < 8; decide) rfl (by decide) (by decide) (by decide)

end Cert.KernelIdeal.HandRun

end
-- ==== Proof.KernelEqsHost8.lean ====
/-
  The equations the host operations of `hostOps8` (segment 17) leave between FINAL contents.

  The stretch is in single-assignment form: operation `i` writes the one buffer `hostOps8_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_v137` from `main_v136`. -/
theorem eq_v137 (c : Dev nD) :
    K m ρ c main_v137
      = ((extractStridedSlice S400x200 ![0, 0] · slices_S401x200_S400x200_0_0) : (⟨S401x200, .f32⟩ : BufTy).Contents (Elt F) → (⟨S400x200, .f32⟩ : BufTy).Contents (Elt F)) (K m ρ c main_v136) := by
  rw [K_eq_W18 m ρ c main_v137 (by decide),
    K_eq_W18 m ρ c main_v136 (by decide)]
  exact unary_final (hx := by decide) (hy := by decide) (x := main_v136) (y := main_v137) (f := ((extractStridedSlice S400x200 ![0, 0] · slices_S401x200_S400x200_0_0) : (⟨S401x200, .f32⟩ : BufTy).Contents (Elt F) → (⟨S400x200, .f32⟩ : BufTy).Contents (Elt F)))
    (hostOps8_at (F := F)) (W17 m ρ c) 0 (by show (0 : Nat) < 2; decide) rfl (by decide) (by decide)

/-- Operation 1: `main_v138` from `main_v137`, `main_arg20`. -/
theorem eq_v138 (c : Dev nD) :
    K m ρ c main_v138
      = ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)) (K m ρ c main_v137) (K m ρ c main_arg20) := by
  rw [K_eq_W18 m ρ c main_v138 (by decide),
    K_eq_W18 m ρ c main_v137 (by decide),
    K_eq_W18 m ρ c main_arg20 (by decide)]
  exact binary_final (ha := by decide) (hb := by decide) (hy := by decide) (a := main_v137) (b := main_arg20) (y := main_v138) (f := ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F)))
    (hostOps8_at (F := F)) (W17 m ρ c) 1 (by show (1 : Nat) < 2; decide) rfl (by decide) (by decide) (by decide)

end Cert.KernelIdeal.HandRun

end
-- ==== Proof.KernelEqsHost9.lean ====
/-
  The equations the host operations of `hostOps9` (segment 19) leave between FINAL contents.

  The stretch is in single-assignment form: operation `i` writes the one buffer `hostOps9_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_v140` from `main_arg2`. -/
theorem eq_v140 (c : Dev nD) :
    K m ρ c main_v140
      = ((extractStridedSlice S2x200000 ![0, 0] · slices_S2x400000_S2x200000_0_0) : (⟨S2x400000, .i32⟩ : BufTy).Contents (Elt F) → (⟨S2x200000, .i32⟩ : BufTy).Contents (Elt F)) (K m ρ c main_arg2) := by
  rw [K_eq_W20 m ρ c main_v140 (by decide),
    K_eq_W20 m ρ c main_arg2 (by decide)]
  exact unary_final (hx := by decide) (hy := by decide) (x := main_arg2) (y := main_v140) (f := ((extractStridedSlice S2x200000 ![0, 0] · slices_S2x400000_S2x200000_0_0) : (⟨S2x400000, .i32⟩ : BufTy).Contents (Elt F) → (⟨S2x200000, .i32⟩ : BufTy).Contents (Elt F)))
    (hostOps9_at (F := F)) (W19 m ρ c) 0 (by show (0 : Nat) < 27; decide) rfl (by decide) (by decide)

/-- Operation 1: `main_v141` from `main_arg3`. -/
theorem eq_v141 (c : Dev nD) :
    K m ρ c main_v141
      = ((extractStridedSlice S200000 ![0] · slices_S400000_S200000_0) : (⟨S400000, .i32⟩ : BufTy).Contents (Elt F) → (⟨S200000, .i32⟩ : BufTy).Contents (Elt F)) (K m ρ c main_arg3) := by
  rw [K_eq_W20 m ρ c main_v141 (by decide),
    K_eq_W20 m ρ c main_arg3 (by decide)]
  exact unary_final (hx := by decide) (hy := by decide) (x := main_arg3) (y := main_v141) (f := ((extractStridedSlice S200000 ![0] · slices_S400000_S200000_0) : (⟨S400000, .i32⟩ : BufTy).Contents (Elt F) → (⟨S200000, .i32⟩ : BufTy).Contents (Elt F)))
    (hostOps9_at (F := F)) (W19 m ρ c) 1 (by show (1 : Nat) < 27; decide) rfl (by decide) (by decide)

/-- Operation 2: `main_v142` from `main_v140`. -/
theorem eq_v142 (c : Dev nD) :
    K m ρ c main_v142
      = ((extractStridedSlice S1x200000 ![0, 0] · slices_S2x200000_S1x200000_0_0) : (⟨S2x200000, .i32⟩ : BufTy).Contents (Elt F) → (⟨S1x200000, .i32⟩ : BufTy).Contents (Elt F)) (K m ρ c main_v140) := by
  rw [K_eq_W20 m ρ c main_v142 (by decide),
    K_eq_W20 m ρ c main_v140 (by decide)]
  exact unary_final (hx := by decide) (hy := by decide) (x := main_v140) (y := main_v142) (f := ((extractStridedSlice S1x200000 ![0, 0] · slices_S2x200000_S1x200000_0_0) : (⟨S2x200000, .i32⟩ : BufTy).Contents (Elt F) → (⟨S1x200000, .i32⟩ : BufTy).Contents (Elt F)))
    (hostOps9_at (F := F)) (W19 m ρ c) 2 (by show (2 : Nat) < 27; decide) rfl (by decide) (by decide)

/-- Operation 3: `main_v143` from `main_v142`. -/
theorem eq_v143 (c : Dev nD) :
    K m ρ c main_v143
      = fun j => shapeCast (s := S1x200000) S200000 (K m ρ c main_v142) shapeCasts_S1x200000_S200000 j := by
  rw [K_eq_W20 m ρ c main_v143 (by decide),
    K_eq_W20 m ρ c main_v142 (by decide)]
  exact reshape_final (he := rfl) (hn := shapeCasts_S1x200000_S200000) (hx := by decide) (hy := by decide) (x := main_v142) (y := main_v143)
    (hostOps9_at (F := F)) (W19 m ρ c) 3 (by show (3 : Nat) < 27; decide) rfl (by decide) (by decide)

/-- Operation 4: `main_v144` from `main_v140`. -/
theorem eq_v144 (c : Dev nD) :
    K m ρ c main_v144
      = ((extractStridedSlice S1x200000 ![1, 0] · slices_S2x200000_S1x200000_1_0) : (⟨S2x200000, .i32⟩ : BufTy).Contents (Elt F) → (⟨S1x200000, .i32⟩ : BufTy).Contents (Elt F)) (K m ρ c main_v140) := by
  rw [K_eq_W20 m ρ c main_v144 (by decide),
    K_eq_W20 m ρ c main_v140 (by decide)]
  exact unary_final (hx := by decide) (hy := by decide) (x := main_v140) (y := main_v144) (f := ((extractStridedSlice S1x200000 ![1, 0] · slices_S2x200000_S1x200000_1_0) : (⟨S2x200000, .i32⟩ : BufTy).Contents (Elt F) → (⟨S1x200000, .i32⟩ : BufTy).Contents (Elt F)))
    (hostOps9_at (F := F)) (W19 m ρ c) 4 (by show (4 : Nat) < 27; decide) rfl (by decide) (by decide)

/-- Operation 5: `main_v145` from `main_v144`. -/
theorem eq_v145 (c : Dev nD) :
    K m ρ c main_v145
      = fun j => shapeCast (s := S1x200000) S200000 (K m ρ c main_v144) shapeCasts_S1x200000_S200000 j := by
  rw [K_eq_W20 m ρ c main_v145 (by decide),
    K_eq_W20 m ρ c main_v144 (by decide)]
  exact reshape_final (he := rfl) (hn := shapeCasts_S1x200000_S200000) (hx := by decide) (hy := by decide) (x := main_v144) (y := main_v145)
    (hostOps9_at (F := F)) (W19 m ρ c) 5 (by show (5 : Nat) < 27; decide) rfl (by decide) (by decide)

/-- Operation 6: `main_cst_36`, a constant. -/
theorem eq_cst_36 (c : Dev nD) :
    K m ρ c main_cst_36
      = ((constant S_ .f32 0x00000000#32) : (⟨S_, .f32⟩ : BufTy).Contents (Elt F)) := by
  rw [K_eq_W20 m ρ c main_cst_36 (by decide)]
  exact nullary_final (hy := by decide) (y := main_cst_36) (v := ((constant S_ .f32 0x00000000#32) : (⟨S_, .f32⟩ : BufTy).Contents (Elt F)))
    (hostOps9_at (F := F)) (W19 m ρ c) 6 (by show (6 : Nat) < 27; decide) rfl (by decide)

/-- Operation 7: `main_v146` from `main_cst_36`. -/
theorem eq_v146 (c : Dev nD) :
    K m ρ c main_v146
      = (broadcastInDim S100000 ![] bcast_S_S100000 : (⟨S_, .f32⟩ : BufTy).Contents (Elt F) → (⟨S100000, .f32⟩ : BufTy).Contents (Elt F)) (K m ρ c main_cst_36) := by
  rw [K_eq_W20 m ρ c main_v146 (by decide),
    K_eq_W20 m ρ c main_cst_36 (by decide)]
  exact unary_final (hx := by decide) (hy := by decide) (x := main_cst_36) (y := main_v146) (f := (broadcastInDim S100000 ![] bcast_S_S100000 : (⟨S_, .f32⟩ : BufTy).Contents (Elt F) → (⟨S100000, .f32⟩ : BufTy).Contents (Elt F)))
    (hostOps9_at (F := F)) (W19 m ρ c) 7 (by show (7 : Nat) < 27; decide) rfl (by decide) (by decide)

/-- Operation 8: `main_c_37`, a constant. -/
theorem eq_c_37 (c : Dev nD) :
    K m ρ c main_c_37
      = ((constantI S_ 32 0#32) : (⟨S_, .i32⟩ : BufTy).Contents (Elt F)) := by
  rw [K_eq_W20 m ρ c main_c_37 (by decide)]
  exact nullary_final (hy := by decide) (y := main_c_37) (v := ((constantI S_ 32 0#32) : (⟨S_, .i32⟩ : BufTy).Contents (Elt F)))
    (hostOps9_at (F := F)) (W19 m ρ c) 8 (by show (8 : Nat) < 27; decide) rfl (by decide)

/-- Operation 9: `main_v147` from `main_c_37`. -/
theorem eq_v147 (c : Dev nD) :
    K m ρ c main_v147
      = (broadcastInDim S200000 ![] bcast_S_S200000 : (⟨S_, .i32⟩ : BufTy).Contents (Elt F) → (⟨S200000, .i32⟩ : BufTy).Contents (Elt F)) (K m ρ c main_c_37) := by
  rw [K_eq_W20 m ρ c main_v147 (by decide),
    K_eq_W20 m ρ c main_c_37 (by decide)]
  exact unary_final (hx := by decide) (hy := by decide) (x := main_c_37) (y := main_v147) (f := (broadcastInDim S200000 ![] bcast_S_S200000 : (⟨S_, .i32⟩ : BufTy).Contents (Elt F) → (⟨S200000, .i32⟩ : BufTy).Contents (Elt F)))
    (hostOps9_at (F := F)) (W19 m ρ c) 9 (by show (9 : Nat) < 27; decide) rfl (by decide) (by decide)

/-- Operation 10: `main_v148` from `main_v143`, `main_v147`. -/
theorem eq_v148 (c : Dev nD) :
    K m ρ c main_v148
      = (cmpi .slt : (⟨S200000, .i32⟩ : BufTy).Contents (Elt F) → (⟨S200000, .i32⟩ : BufTy).Contents (Elt F) → (⟨S200000, .i1⟩ : BufTy).Contents (Elt F)) (K m ρ c main_v143) (K m ρ c main_v147) := by
  rw [K_eq_W20 m ρ c main_v148 (by decide),
    K_eq_W20 m ρ c main_v143 (by decide),
    K_eq_W20 m ρ c main_v147 (by decide)]
  exact binary_final (ha := by decide) (hb := by decide) (hy := by decide) (a := main_v143) (b := main_v147) (y := main_v148) (f := (cmpi .slt : (⟨S200000, .i32⟩ : BufTy).Contents (Elt F) → (⟨S200000, .i32⟩ : BufTy).Contents (Elt F) → (⟨S200000, .i1⟩ : BufTy).Contents (Elt F)))
    (hostOps9_at (F := F)) (W19 m ρ c) 10 (by show (10 : Nat) < 27; decide) rfl (by decide) (by decide) (by decide)

/-- Operation 11: `main_c_38`, a constant. -/
theorem eq_c_38 (c : Dev nD) :
    K m ρ c main_c_38
      = ((constantI S_ 32 100000#32) : (⟨S_, .i32⟩ : BufTy).Contents (Elt F)) := by
  rw [K_eq_W20 m ρ c main_c_38 (by decide)]
  exact nullary_final (hy := by decide) (y := main_c_38) (v := ((constantI S_ 32 100000#32) : (⟨S_, .i32⟩ : BufTy).Contents (Elt F)))
    (hostOps9_at (F := F)) (W19 m ρ c) 11 (by show (11 : Nat) < 27; decide) rfl (by decide)

/-- Operation 12: `main_v149` from `main_c_38`. -/
theorem eq_v149 (c : Dev nD) :
    K m ρ c main_v149
      = (broadcastInDim S200000 ![] bcast_S_S200000 : (⟨S_, .i32⟩ : BufTy).Contents (Elt F) → (⟨S200000, .i32⟩ : BufTy).Contents (Elt F)) (K m ρ c main_c_38) := by
  rw [K_eq_W20 m ρ c main_v149 (by decide),
    K_eq_W20 m ρ c main_c_38 (by decide)]
  exact unary_final (hx := by decide) (hy := by decide) (x := main_c_38) (y := main_v149) (f := (broadcastInDim S200000 ![] bcast_S_S200000 : (⟨S_, .i32⟩ : BufTy).Contents (Elt F) → (⟨S200000, .i32⟩ : BufTy).Contents (Elt F)))
    (hostOps9_at (F := F)) (W19 m ρ c) 12 (by show (12 : Nat) < 27; decide) rfl (by decide) (by decide)

/-- Operation 13: `main_v150` from `main_v143`, `main_v149`. -/
theorem eq_v150 (c : Dev nD) :
    K m ρ c main_v150
      = (addi : (⟨S200000, .i32⟩ : BufTy).Contents (Elt F) → (⟨S200000, .i32⟩ : BufTy).Contents (Elt F) → (⟨S200000, .i32⟩ : BufTy).Contents (Elt F)) (K m ρ c main_v143) (K m ρ c main_v149) := by
  rw [K_eq_W20 m ρ c main_v150 (by decide),
    K_eq_W20 m ρ c main_v143 (by decide),
    K_eq_W20 m ρ c main_v149 (by decide)]
  exact binary_final (ha := by decide) (hb := by decide) (hy := by decide) (a := main_v143) (b := main_v149) (y := main_v150) (f := (addi : (⟨S200000, .i32⟩ : BufTy).Contents (Elt F) → (⟨S200000, .i32⟩ : BufTy).Contents (Elt F) → (⟨S200000, .i32⟩ : BufTy).Contents (Elt F)))
    (hostOps9_at (F := F)) (W19 m ρ c) 13 (by show (13 : Nat) < 27; decide) rfl (by decide) (by decide) (by decide)

/-- Operation 14: `main_v151` from `main_v148`, `main_v150`, `main_v143`. -/
theorem eq_v151 (c : Dev nD) :
    K m ρ c main_v151
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v148) (K m ρ c main_v150) (K m ρ c main_v143) := by
  rw [K_eq_W20 m ρ c main_v151 (by decide),
    K_eq_W20 m ρ c main_v148 (by decide),
    K_eq_W20 m ρ c main_v150 (by decide),
    K_eq_W20 m ρ c main_v143 (by decide)]
  exact ternary_final (hc := by decide) (ha := by decide) (hb := by decide) (hy := by decide) (c := main_v148) (a := main_v150) (b := main_v143) (y := main_v151) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps9_at (F := F)) (W19 m ρ c) 14 (by show (14 : Nat) < 27; decide) rfl (by decide) (by decide) (by decide) (by decide)

/-- Operation 15: `main_v152` from `main_v151`. -/
theorem eq_v152 (c : Dev nD) :
    K m ρ c main_v152
      = (broadcastInDim S200000x1 ![0] bcast_S200000_S200000x1_0 : (⟨S200000, .i32⟩ : BufTy).Contents (Elt F) → (⟨S200000x1, .i32⟩ : BufTy).Contents (Elt F)) (K m ρ c main_v151) := by
  rw [K_eq_W20 m ρ c main_v152 (by decide),
    K_eq_W20 m ρ c main_v151 (by decide)]
  exact unary_final (hx := by decide) (hy := by decide) (x := main_v151) (y := main_v152) (f := (broadcastInDim S200000x1 ![0] bcast_S200000_S200000x1_0 : (⟨S200000, .i32⟩ : BufTy).Contents (Elt F) → (⟨S200000x1, .i32⟩ : BufTy).Contents (Elt F)))
    (hostOps9_at (F := F)) (W19 m ρ c) 15 (by show (15 : Nat) < 27; decide) rfl (by decide) (by decide)

/-- Operation 16: `main_cst_39`, a constant. -/
theorem eq_cst_39 (c : Dev nD) :
    K m ρ c main_cst_39
      = ((constant S_ .f32 0x3F800000#32) : (⟨S_, .f32⟩ : BufTy).Contents (Elt F)) := by
  rw [K_eq_W20 m ρ c main_cst_39 (by decide)]
  exact nullary_final (hy := by decide) (y := main_cst_39) (v := ((constant S_ .f32 0x3F800000#32) : (⟨S_, .f32⟩ : BufTy).Contents (Elt F)))
    (hostOps9_at (F := F)) (W19 m ρ c) 16 (by show (16 : Nat) < 27; decide) rfl (by decide)

/-- Operation 17: `main_v153` from `main_cst_39`. -/
theorem eq_v153 (c : Dev nD) :
    K m ρ c main_v153
      = (broadcastInDim S200000 ![] bcast_S_S200000 : (⟨S_, .f32⟩ : BufTy).Contents (Elt F) → (⟨S200000, .f32⟩ : BufTy).Contents (Elt F)) (K m ρ c main_cst_39) := by
  rw [K_eq_W20 m ρ c main_v153 (by decide),
    K_eq_W20 m ρ c main_cst_39 (by decide)]
  exact unary_final (hx := by decide) (hy := by decide) (x := main_cst_39) (y := main_v153) (f := (broadcastInDim S200000 ![] bcast_S_S200000 : (⟨S_, .f32⟩ : BufTy).Contents (Elt F) → (⟨S200000, .f32⟩ : BufTy).Contents (Elt F)))
    (hostOps9_at (F := F)) (W19 m ρ c) 17 (by show (17 : Nat) < 27; decide) rfl (by decide) (by decide)

/-- Operation 18: `main_v154` from `main_v146`, `main_v152`, `main_v153`. -/
theorem eq_v154 (c : Dev nD) :
    K m ρ c main_v154
      = ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) (K m ρ c main_v146) (K m ρ c main_v152) (K m ρ c main_v153) := by
  rw [K_eq_W20 m ρ c main_v154 (by decide),
    K_eq_W20 m ρ c main_v146 (by decide),
    K_eq_W20 m ρ c main_v152 (by decide),
    K_eq_W20 m ρ c main_v153 (by decide)]
  exact ternary_final (hc := by decide) (ha := by decide) (hb := by decide) (hy := by decide) (c := main_v146) (a := main_v152) (b := main_v153) (y := main_v154) (f := ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)))
    (hostOps9_at (F := F)) (W19 m ρ c) 18 (by show (18 : Nat) < 27; decide) rfl (by decide) (by decide) (by decide) (by decide)

/-- Operation 19: `main_cst_40`, a constant. -/
theorem eq_cst_40 (c : Dev nD) :
    K m ρ c main_cst_40
      = ((constant S_ .f32 0x00000000#32) : (⟨S_, .f32⟩ : BufTy).Contents (Elt F)) := by
  rw [K_eq_W20 m ρ c main_cst_40 (by decide)]
  exact nullary_final (hy := by decide) (y := main_cst_40) (v := ((constant S_ .f32 0x00000000#32) : (⟨S_, .f32⟩ : BufTy).Contents (Elt F)))
    (hostOps9_at (F := F)) (W19 m ρ c) 19 (by show (19 : Nat) < 27; decide) rfl (by decide)

/-- Operation 20: `main_v155` from `main_cst_40`. -/
theorem eq_v155 (c : Dev nD) :
    K m ρ c main_v155
      = (broadcastInDim S100000 ![] bcast_S_S100000 : (⟨S_, .f32⟩ : BufTy).Contents (Elt F) → (⟨S100000, .f32⟩ : BufTy).Contents (Elt F)) (K m ρ c main_cst_40) := by
  rw [K_eq_W20 m ρ c main_v155 (by decide),
    K_eq_W20 m ρ c main_cst_40 (by decide)]
  exact unary_final (hx := by decide) (hy := by decide) (x := main_cst_40) (y := main_v155) (f := (broadcastInDim S100000 ![] bcast_S_S100000 : (⟨S_, .f32⟩ : BufTy).Contents (Elt F) → (⟨S100000, .f32⟩ : BufTy).Contents (Elt F)))
    (hostOps9_at (F := F)) (W19 m ρ c) 20 (by show (20 : Nat) < 27; decide) rfl (by decide) (by decide)

/-- Operation 21: `main_v156` from `main_v154`, `main_v155`. -/
theorem eq_v156 (c : Dev nD) :
    K m ρ c main_v156
      = (cmpf .ogt : (⟨S100000, .f32⟩ : BufTy).Contents (Elt F) → (⟨S100000, .f32⟩ : BufTy).Contents (Elt F) → (⟨S100000, .i1⟩ : BufTy).Contents (Elt F)) (K m ρ c main_v154) (K m ρ c main_v155) := by
  rw [K_eq_W20 m ρ c main_v156 (by decide),
    K_eq_W20 m ρ c main_v154 (by decide),
    K_eq_W20 m ρ c main_v155 (by decide)]
  exact binary_final (ha := by decide) (hb := by decide) (hy := by decide) (a := main_v154) (b := main_v155) (y := main_v156) (f := (cmpf .ogt : (⟨S100000, .f32⟩ : BufTy).Contents (Elt F) → (⟨S100000, .f32⟩ : BufTy).Contents (Elt F) → (⟨S100000, .i1⟩ : BufTy).Contents (Elt F)))
    (hostOps9_at (F := F)) (W19 m ρ c) 21 (by show (21 : Nat) < 27; decide) rfl (by decide) (by decide) (by decide)

/-- Operation 22: `main_cst_41`, a constant. -/
theorem eq_cst_41 (c : Dev nD) :
    K m ρ c main_cst_41
      = ((constant S_ .f32 0x3F800000#32) : (⟨S_, .f32⟩ : BufTy).Contents (Elt F)) := by
  rw [K_eq_W20 m ρ c main_cst_41 (by decide)]
  exact nullary_final (hy := by decide) (y := main_cst_41) (v := ((constant S_ .f32 0x3F800000#32) : (⟨S_, .f32⟩ : BufTy).Contents (Elt F)))
    (hostOps9_at (F := F)) (W19 m ρ c) 22 (by show (22 : Nat) < 27; decide) rfl (by decide)

/-- Operation 23: `main_v157` from `main_cst_41`. -/
theorem eq_v157 (c : Dev nD) :
    K m ρ c main_v157
      = (broadcastInDim S100000 ![] bcast_S_S100000 : (⟨S_, .f32⟩ : BufTy).Contents (Elt F) → (⟨S100000, .f32⟩ : BufTy).Contents (Elt F)) (K m ρ c main_cst_41) := by
  rw [K_eq_W20 m ρ c main_v157 (by decide),
    K_eq_W20 m ρ c main_cst_41 (by decide)]
  exact unary_final (hx := by decide) (hy := by decide) (x := main_cst_41) (y := main_v157) (f := (broadcastInDim S100000 ![] bcast_S_S100000 : (⟨S_, .f32⟩ : BufTy).Contents (Elt F) → (⟨S100000, .f32⟩ : BufTy).Contents (Elt F)))
    (hostOps9_at (F := F)) (W19 m ρ c) 23 (by show (23 : Nat) < 27; decide) rfl (by decide) (by decide)

/-- Operation 24: `main_v158` from `main_v154`, `main_v157`. -/
theorem eq_v158 (c : Dev nD) :
    K m ρ c main_v158
      = (maximumf : (⟨S100000, .f32⟩ : BufTy).Contents (Elt F) → (⟨S100000, .f32⟩ : BufTy).Contents (Elt F) → (⟨S100000, .f32⟩ : BufTy).Contents (Elt F)) (K m ρ c main_v154) (K m ρ c main_v157) := by
  rw [K_eq_W20 m ρ c main_v158 (by decide),
    K_eq_W20 m ρ c main_v154 (by decide),
    K_eq_W20 m ρ c main_v157 (by decide)]
  exact binary_final (ha := by decide) (hb := by decide) (hy := by decide) (a := main_v154) (b := main_v157) (y := main_v158) (f := (maximumf : (⟨S100000, .f32⟩ : BufTy).Contents (Elt F) → (⟨S100000, .f32⟩ : BufTy).Contents (Elt F) → (⟨S100000, .f32⟩ : BufTy).Contents (Elt F)))
    (hostOps9_at (F := F)) (W19 m ρ c) 24 (by show (24 : Nat) < 27; decide) rfl (by decide) (by decide) (by decide)

/-- Operation 25: `main_v159` from `main_v158`. -/
theorem eq_v159 (c : Dev nD) :
    K m ρ c main_v159
      = (Host.rsqrt : (⟨S100000, .f32⟩ : BufTy).Contents (Elt F) → (⟨S100000, .f32⟩ : BufTy).Contents (Elt F)) (K m ρ c main_v158) := by
  rw [K_eq_W20 m ρ c main_v159 (by decide),
    K_eq_W20 m ρ c main_v158 (by decide)]
  exact unary_final (hx := by decide) (hy := by decide) (x := main_v158) (y := main_v159) (f := (Host.rsqrt : (⟨S100000, .f32⟩ : BufTy).Contents (Elt F) → (⟨S100000, .f32⟩ : BufTy).Contents (Elt F)))
    (hostOps9_at (F := F)) (W19 m ρ c) 25 (by show (25 : Nat) < 27; decide) rfl (by decide) (by decide)

/-- Operation 26: `main_cst_42`, a constant. -/
theorem eq_cst_42 (c : Dev nD) :
    K m ρ c main_cst_42
      = ((constant S_ .f32 0x00000000#32) : (⟨S_, .f32⟩ : BufTy).Contents (Elt F)) := by
  rw [K_eq_W20 m ρ c main_cst_42 (by decide)]
  exact nullary_final (hy := by decide) (y := main_cst_42) (v := ((constant S_ .f32 0x00000000#32) : (⟨S_, .f32⟩ : BufTy).Contents (Elt F)))
    (hostOps9_at (F := F)) (W19 m ρ c) 26 (by show (26 : Nat) < 27; decide) rfl (by decide)

end Cert.KernelIdeal.HandRun

end
-- ==== Proof.KernelEqsHost9_1.lean ====
/-
  The equations the host operations of `hostOps9_1` (segment 20) leave between FINAL contents.

  The stretch is in single-assignment form: operation `i` writes the one buffer `hostOps9_1_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_call2_v0` from `main_cst_42`. -/
theorem eq_call2_v0 (c : Dev nD) :
    K m ρ c main_call2_v0
      = (id : (⟨S_, .f32⟩ : BufTy).Contents (Elt F) → (⟨S_, .f32⟩ : BufTy).Contents (Elt F)) (K m ρ c main_cst_42) := by
  rw [K_eq_W21 m ρ c main_call2_v0 (by decide),
    K_eq_W21 m ρ c main_cst_42 (by decide)]
  exact unary_final (hx := by decide) (hy := by decide) (x := main_cst_42) (y := main_call2_v0) (f := (id : (⟨S_, .f32⟩ : BufTy).Contents (Elt F) → (⟨S_, .f32⟩ : BufTy).Contents (Elt F)))
    (hostOps9_1_at (F := F)) (W20 m ρ c) 0 (by show (0 : Nat) < 3; decide) rfl (by decide) (by decide)

/-- Operation 1: `main_call2_v1` from `main_call2_v0`. -/
theorem eq_call2_v1 (c : Dev nD) :
    K m ρ c main_call2_v1
      = ((broadcastInDim S100000 ![] bcast_S_S100000) : (⟨S_, .f32⟩ : BufTy).Contents (Elt F) → (⟨S100000, .f32⟩ : BufTy).Contents (Elt F)) (K m ρ c main_call2_v0) := by
  rw [K_eq_W21 m ρ c main_call2_v1 (by decide),
    K_eq_W21 m ρ c main_call2_v0 (by decide)]
  exact unary_final (hx := by decide) (hy := by decide) (x := main_call2_v0) (y := main_call2_v1) (f := ((broadcastInDim S100000 ![] bcast_S_S100000) : (⟨S_, .f32⟩ : BufTy).Contents (Elt F) → (⟨S100000, .f32⟩ : BufTy).Contents (Elt F)))
    (hostOps9_1_at (F := F)) (W20 m ρ c) 1 (by show (1 : Nat) < 3; decide) rfl (by decide) (by decide)

/-- Operation 2: `main_v160` from `main_v156`, `main_v159`, `main_call2_v1`. -/
theorem eq_v160 (c : Dev nD) :
    K m ρ c main_v160
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (K m ρ c main_v156) (K m ρ c main_v159) (K m ρ c main_call2_v1) := by
  rw [K_eq_W21 m ρ c main_v160 (by decide),
    K_eq_W21 m ρ c main_v156 (by decide),
    K_eq_W21 m ρ c main_v159 (by decide),
    K_eq_W21 m ρ c main_call2_v1 (by decide)]
  exact ternary_final (hc := by decide) (ha := by decide) (hb := by decide) (hy := by decide) (c := main_v156) (a := main_v159) (b := main_call2_v1) (y := main_v160) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)))
    (hostOps9_1_at (F := F)) (W20 m ρ c) 2 (by show (2 : Nat) < 3; decide) rfl (by decide) (by decide) (by decide) (by decide)

end Cert.KernelIdeal.HandRun

end
-- ==== Proof.KernelEqsHost9_2.lean ====
/-
  The equations the host operations of `hostOps9_2` (segment 21) leave between FINAL contents.

  The stretch is in single-assignment form: operation `i` writes the one buffer `hostOps9_2_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_c_43`, a constant. -/
theorem eq_c_43 (c : Dev nD) :
    K m ρ c main_c_43
      = ((constantI S_ 32 0#32) : (⟨S_, .i32⟩ : BufTy).Contents (Elt F)) := by
  rw [K_eq_W22 m ρ c main_c_43 (by decide)]
  exact nullary_final (hy := by decide) (y := main_c_43) (v := ((constantI S_ 32 0#32) : (⟨S_, .i32⟩ : BufTy).Contents (Elt F)))
    (hostOps9_2_at (F := F)) (W21 m ρ c) 0 (by show (0 : Nat) < 39; decide) rfl (by decide)

/-- Operation 1: `main_v161` from `main_c_43`. -/
theorem eq_v161 (c : Dev nD) :
    K m ρ c main_v161
      = (broadcastInDim S200000 ![] bcast_S_S200000 : (⟨S_, .i32⟩ : BufTy).Contents (Elt F) → (⟨S200000, .i32⟩ : BufTy).Contents (Elt F)) (K m ρ c main_c_43) := by
  rw [K_eq_W22 m ρ c main_v161 (by decide),
    K_eq_W22 m ρ c main_c_43 (by decide)]
  exact unary_final (hx := by decide) (hy := by decide) (x := main_c_43) (y := main_v161) (f := (broadcastInDim S200000 ![] bcast_S_S200000 : (⟨S_, .i32⟩ : BufTy).Contents (Elt F) → (⟨S200000, .i32⟩ : BufTy).Contents (Elt F)))
    (hostOps9_2_at (F := F)) (W21 m ρ c) 1 (by show (1 : Nat) < 39; decide) rfl (by decide) (by decide)

/-- Operation 2: `main_v162` from `main_v143`, `main_v161`. -/
theorem eq_v162 (c : Dev nD) :
    K m ρ c main_v162
      = (cmpi .slt : (⟨S200000, .i32⟩ : BufTy).Contents (Elt F) → (⟨S200000, .i32⟩ : BufTy).Contents (Elt F) → (⟨S200000, .i1⟩ : BufTy).Contents (Elt F)) (K m ρ c main_v143) (K m ρ c main_v161) := by
  rw [K_eq_W22 m ρ c main_v162 (by decide),
    K_eq_W22 m ρ c main_v143 (by decide),
    K_eq_W22 m ρ c main_v161 (by decide)]
  exact binary_final (ha := by decide) (hb := by decide) (hy := by decide) (a := main_v143) (b := main_v161) (y := main_v162) (f := (cmpi .slt : (⟨S200000, .i32⟩ : BufTy).Contents (Elt F) → (⟨S200000, .i32⟩ : BufTy).Contents (Elt F) → (⟨S200000, .i1⟩ : BufTy).Contents (Elt F)))
    (hostOps9_2_at (F := F)) (W21 m ρ c) 2 (by show (2 : Nat) < 39; decide) rfl (by decide) (by decide) (by decide)

/-- Operation 3: `main_c_44`, a constant. -/
theorem eq_c_44 (c : Dev nD) :
    K m ρ c main_c_44
      = ((constantI S_ 32 100000#32) : (⟨S_, .i32⟩ : BufTy).Contents (Elt F)) := by
  rw [K_eq_W22 m ρ c main_c_44 (by decide)]
  exact nullary_final (hy := by decide) (y := main_c_44) (v := ((constantI S_ 32 100000#32) : (⟨S_, .i32⟩ : BufTy).Contents (Elt F)))
    (hostOps9_2_at (F := F)) (W21 m ρ c) 3 (by show (3 : Nat) < 39; decide) rfl (by decide)

/-- Operation 4: `main_v163` from `main_c_44`. -/
theorem eq_v163 (c : Dev nD) :
    K m ρ c main_v163
      = (broadcastInDim S200000 ![] bcast_S_S200000 : (⟨S_, .i32⟩ : BufTy).Contents (Elt F) → (⟨S200000, .i32⟩ : BufTy).Contents (Elt F)) (K m ρ c main_c_44) := by
  rw [K_eq_W22 m ρ c main_v163 (by decide),
    K_eq_W22 m ρ c main_c_44 (by decide)]
  exact unary_final (hx := by decide) (hy := by decide) (x := main_c_44) (y := main_v163) (f := (broadcastInDim S200000 ![] bcast_S_S200000 : (⟨S_, .i32⟩ : BufTy).Contents (Elt F) → (⟨S200000, .i32⟩ : BufTy).Contents (Elt F)))
    (hostOps9_2_at (F := F)) (W21 m ρ c) 4 (by show (4 : Nat) < 39; decide) rfl (by decide) (by decide)

/-- Operation 5: `main_v164` from `main_v143`, `main_v163`. -/
theorem eq_v164 (c : Dev nD) :
    K m ρ c main_v164
      = (addi : (⟨S200000, .i32⟩ : BufTy).Contents (Elt F) → (⟨S200000, .i32⟩ : BufTy).Contents (Elt F) → (⟨S200000, .i32⟩ : BufTy).Contents (Elt F)) (K m ρ c main_v143) (K m ρ c main_v163) := by
  rw [K_eq_W22 m ρ c main_v164 (by decide),
    K_eq_W22 m ρ c main_v143 (by decide),
    K_eq_W22 m ρ c main_v163 (by decide)]
  exact binary_final (ha := by decide) (hb := by decide) (hy := by decide) (a := main_v143) (b := main_v163) (y := main_v164) (f := (addi : (⟨S200000, .i32⟩ : BufTy).Contents (Elt F) → (⟨S200000, .i32⟩ : BufTy).Contents (Elt F) → (⟨S200000, .i32⟩ : BufTy).Contents (Elt F)))
    (hostOps9_2_at (F := F)) (W21 m ρ c) 5 (by show (5 : Nat) < 39; decide) rfl (by decide) (by decide) (by decide)

/-- Operation 6: `main_v165` from `main_v162`, `main_v164`, `main_v143`. -/
theorem eq_v165 (c : Dev nD) :
    K m ρ c main_v165
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v162) (K m ρ c main_v164) (K m ρ c main_v143) := by
  rw [K_eq_W22 m ρ c main_v165 (by decide),
    K_eq_W22 m ρ c main_v162 (by decide),
    K_eq_W22 m ρ c main_v164 (by decide),
    K_eq_W22 m ρ c main_v143 (by decide)]
  exact ternary_final (hc := by decide) (ha := by decide) (hb := by decide) (hy := by decide) (c := main_v162) (a := main_v164) (b := main_v143) (y := main_v165) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps9_2_at (F := F)) (W21 m ρ c) 6 (by show (6 : Nat) < 39; decide) rfl (by decide) (by decide) (by decide) (by decide)

/-- Operation 7: `main_v166` from `main_v165`. -/
theorem eq_v166 (c : Dev nD) :
    K m ρ c main_v166
      = (broadcastInDim S200000x1 ![0] bcast_S200000_S200000x1_0 : (⟨S200000, .i32⟩ : BufTy).Contents (Elt F) → (⟨S200000x1, .i32⟩ : BufTy).Contents (Elt F)) (K m ρ c main_v165) := by
  rw [K_eq_W22 m ρ c main_v166 (by decide),
    K_eq_W22 m ρ c main_v165 (by decide)]
  exact unary_final (hx := by decide) (hy := by decide) (x := main_v165) (y := main_v166) (f := (broadcastInDim S200000x1 ![0] bcast_S200000_S200000x1_0 : (⟨S200000, .i32⟩ : BufTy).Contents (Elt F) → (⟨S200000x1, .i32⟩ : BufTy).Contents (Elt F)))
    (hostOps9_2_at (F := F)) (W21 m ρ c) 7 (by show (7 : Nat) < 39; decide) rfl (by decide) (by decide)

/-- Operation 8: `main_v167` from `main_v160`, `main_v166`. -/
theorem eq_v167 (c : Dev nD) :
    K m ρ c main_v167
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v160) (K m ρ c main_v166) := by
  rw [K_eq_W22 m ρ c main_v167 (by decide),
    K_eq_W22 m ρ c main_v160 (by decide),
    K_eq_W22 m ρ c main_v166 (by decide)]
  exact binary_final (ha := by decide) (hb := by decide) (hy := by decide) (a := main_v160) (b := main_v166) (y := main_v167) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps9_2_at (F := F)) (W21 m ρ c) 8 (by show (8 : Nat) < 39; decide) rfl (by decide) (by decide) (by decide)

/-- Operation 9: `main_c_45`, a constant. -/
theorem eq_c_45 (c : Dev nD) :
    K m ρ c main_c_45
      = ((constantI S_ 32 0#32) : (⟨S_, .i32⟩ : BufTy).Contents (Elt F)) := by
  rw [K_eq_W22 m ρ c main_c_45 (by decide)]
  exact nullary_final (hy := by decide) (y := main_c_45) (v := ((constantI S_ 32 0#32) : (⟨S_, .i32⟩ : BufTy).Contents (Elt F)))
    (hostOps9_2_at (F := F)) (W21 m ρ c) 9 (by show (9 : Nat) < 39; decide) rfl (by decide)

/-- Operation 10: `main_v168` from `main_c_45`. -/
theorem eq_v168 (c : Dev nD) :
    K m ρ c main_v168
      = (broadcastInDim S200000 ![] bcast_S_S200000 : (⟨S_, .i32⟩ : BufTy).Contents (Elt F) → (⟨S200000, .i32⟩ : BufTy).Contents (Elt F)) (K m ρ c main_c_45) := by
  rw [K_eq_W22 m ρ c main_v168 (by decide),
    K_eq_W22 m ρ c main_c_45 (by decide)]
  exact unary_final (hx := by decide) (hy := by decide) (x := main_c_45) (y := main_v168) (f := (broadcastInDim S200000 ![] bcast_S_S200000 : (⟨S_, .i32⟩ : BufTy).Contents (Elt F) → (⟨S200000, .i32⟩ : BufTy).Contents (Elt F)))
    (hostOps9_2_at (F := F)) (W21 m ρ c) 10 (by show (10 : Nat) < 39; decide) rfl (by decide) (by decide)

/-- Operation 11: `main_v169` from `main_v145`, `main_v168`. -/
theorem eq_v169 (c : Dev nD) :
    K m ρ c main_v169
      = (cmpi .slt : (⟨S200000, .i32⟩ : BufTy).Contents (Elt F) → (⟨S200000, .i32⟩ : BufTy).Contents (Elt F) → (⟨S200000, .i1⟩ : BufTy).Contents (Elt F)) (K m ρ c main_v145) (K m ρ c main_v168) := by
  rw [K_eq_W22 m ρ c main_v169 (by decide),
    K_eq_W22 m ρ c main_v145 (by decide),
    K_eq_W22 m ρ c main_v168 (by decide)]
  exact binary_final (ha := by decide) (hb := by decide) (hy := by decide) (a := main_v145) (b := main_v168) (y := main_v169) (f := (cmpi .slt : (⟨S200000, .i32⟩ : BufTy).Contents (Elt F) → (⟨S200000, .i32⟩ : BufTy).Contents (Elt F) → (⟨S200000, .i1⟩ : BufTy).Contents (Elt F)))
    (hostOps9_2_at (F := F)) (W21 m ρ c) 11 (by show (11 : Nat) < 39; decide) rfl (by decide) (by decide) (by decide)

/-- Operation 12: `main_c_46`, a constant. -/
theorem eq_c_46 (c : Dev nD) :
    K m ρ c main_c_46
      = ((constantI S_ 32 100000#32) : (⟨S_, .i32⟩ : BufTy).Contents (Elt F)) := by
  rw [K_eq_W22 m ρ c main_c_46 (by decide)]
  exact nullary_final (hy := by decide) (y := main_c_46) (v := ((constantI S_ 32 100000#32) : (⟨S_, .i32⟩ : BufTy).Contents (Elt F)))
    (hostOps9_2_at (F := F)) (W21 m ρ c) 12 (by show (12 : Nat) < 39; decide) rfl (by decide)

/-- Operation 13: `main_v170` from `main_c_46`. -/
theorem eq_v170 (c : Dev nD) :
    K m ρ c main_v170
      = (broadcastInDim S200000 ![] bcast_S_S200000 : (⟨S_, .i32⟩ : BufTy).Contents (Elt F) → (⟨S200000, .i32⟩ : BufTy).Contents (Elt F)) (K m ρ c main_c_46) := by
  rw [K_eq_W22 m ρ c main_v170 (by decide),
    K_eq_W22 m ρ c main_c_46 (by decide)]
  exact unary_final (hx := by decide) (hy := by decide) (x := main_c_46) (y := main_v170) (f := (broadcastInDim S200000 ![] bcast_S_S200000 : (⟨S_, .i32⟩ : BufTy).Contents (Elt F) → (⟨S200000, .i32⟩ : BufTy).Contents (Elt F)))
    (hostOps9_2_at (F := F)) (W21 m ρ c) 13 (by show (13 : Nat) < 39; decide) rfl (by decide) (by decide)

/-- Operation 14: `main_v171` from `main_v145`, `main_v170`. -/
theorem eq_v171 (c : Dev nD) :
    K m ρ c main_v171
      = (addi : (⟨S200000, .i32⟩ : BufTy).Contents (Elt F) → (⟨S200000, .i32⟩ : BufTy).Contents (Elt F) → (⟨S200000, .i32⟩ : BufTy).Contents (Elt F)) (K m ρ c main_v145) (K m ρ c main_v170) := by
  rw [K_eq_W22 m ρ c main_v171 (by decide),
    K_eq_W22 m ρ c main_v145 (by decide),
    K_eq_W22 m ρ c main_v170 (by decide)]
  exact binary_final (ha := by decide) (hb := by decide) (hy := by decide) (a := main_v145) (b := main_v170) (y := main_v171) (f := (addi : (⟨S200000, .i32⟩ : BufTy).Contents (Elt F) → (⟨S200000, .i32⟩ : BufTy).Contents (Elt F) → (⟨S200000, .i32⟩ : BufTy).Contents (Elt F)))
    (hostOps9_2_at (F := F)) (W21 m ρ c) 14 (by show (14 : Nat) < 39; decide) rfl (by decide) (by decide) (by decide)

/-- Operation 15: `main_v172` from `main_v169`, `main_v171`, `main_v145`. -/
theorem eq_v172 (c : Dev nD) :
    K m ρ c main_v172
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v169) (K m ρ c main_v171) (K m ρ c main_v145) := by
  rw [K_eq_W22 m ρ c main_v172 (by decide),
    K_eq_W22 m ρ c main_v169 (by decide),
    K_eq_W22 m ρ c main_v171 (by decide),
    K_eq_W22 m ρ c main_v145 (by decide)]
  exact ternary_final (hc := by decide) (ha := by decide) (hb := by decide) (hy := by decide) (c := main_v169) (a := main_v171) (b := main_v145) (y := main_v172) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps9_2_at (F := F)) (W21 m ρ c) 15 (by show (15 : Nat) < 39; decide) rfl (by decide) (by decide) (by decide) (by decide)

/-- Operation 16: `main_v173` from `main_v172`. -/
theorem eq_v173 (c : Dev nD) :
    K m ρ c main_v173
      = (broadcastInDim S200000x1 ![0] bcast_S200000_S200000x1_0 : (⟨S200000, .i32⟩ : BufTy).Contents (Elt F) → (⟨S200000x1, .i32⟩ : BufTy).Contents (Elt F)) (K m ρ c main_v172) := by
  rw [K_eq_W22 m ρ c main_v173 (by decide),
    K_eq_W22 m ρ c main_v172 (by decide)]
  exact unary_final (hx := by decide) (hy := by decide) (x := main_v172) (y := main_v173) (f := (broadcastInDim S200000x1 ![0] bcast_S200000_S200000x1_0 : (⟨S200000, .i32⟩ : BufTy).Contents (Elt F) → (⟨S200000x1, .i32⟩ : BufTy).Contents (Elt F)))
    (hostOps9_2_at (F := F)) (W21 m ρ c) 16 (by show (16 : Nat) < 39; decide) rfl (by decide) (by decide)

/-- Operation 17: `main_v174` from `main_v160`, `main_v173`. -/
theorem eq_v174 (c : Dev nD) :
    K m ρ c main_v174
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v160) (K m ρ c main_v173) := by
  rw [K_eq_W22 m ρ c main_v174 (by decide),
    K_eq_W22 m ρ c main_v160 (by decide),
    K_eq_W22 m ρ c main_v173 (by decide)]
  exact binary_final (ha := by decide) (hb := by decide) (hy := by decide) (a := main_v160) (b := main_v173) (y := main_v174) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps9_2_at (F := F)) (W21 m ρ c) 17 (by show (17 : Nat) < 39; decide) rfl (by decide) (by decide) (by decide)

/-- Operation 18: `main_v175` from `main_v167`, `main_v174`. -/
theorem eq_v175 (c : Dev nD) :
    K m ρ c main_v175
      = (mulf : (⟨S200000, .f32⟩ : BufTy).Contents (Elt F) → (⟨S200000, .f32⟩ : BufTy).Contents (Elt F) → (⟨S200000, .f32⟩ : BufTy).Contents (Elt F)) (K m ρ c main_v167) (K m ρ c main_v174) := by
  rw [K_eq_W22 m ρ c main_v175 (by decide),
    K_eq_W22 m ρ c main_v167 (by decide),
    K_eq_W22 m ρ c main_v174 (by decide)]
  exact binary_final (ha := by decide) (hb := by decide) (hy := by decide) (a := main_v167) (b := main_v174) (y := main_v175) (f := (mulf : (⟨S200000, .f32⟩ : BufTy).Contents (Elt F) → (⟨S200000, .f32⟩ : BufTy).Contents (Elt F) → (⟨S200000, .f32⟩ : BufTy).Contents (Elt F)))
    (hostOps9_2_at (F := F)) (W21 m ρ c) 18 (by show (18 : Nat) < 39; decide) rfl (by decide) (by decide) (by decide)

/-- Operation 19: `main_c_47`, a constant. -/
theorem eq_c_47 (c : Dev nD) :
    K m ρ c main_c_47
      = ((constantI S_ 32 0#32) : (⟨S_, .i32⟩ : BufTy).Contents (Elt F)) := by
  rw [K_eq_W22 m ρ c main_c_47 (by decide)]
  exact nullary_final (hy := by decide) (y := main_c_47) (v := ((constantI S_ 32 0#32) : (⟨S_, .i32⟩ : BufTy).Contents (Elt F)))
    (hostOps9_2_at (F := F)) (W21 m ρ c) 19 (by show (19 : Nat) < 39; decide) rfl (by decide)

/-- Operation 20: `main_v176` from `main_c_47`. -/
theorem eq_v176 (c : Dev nD) :
    K m ρ c main_v176
      = (broadcastInDim S200000 ![] bcast_S_S200000 : (⟨S_, .i32⟩ : BufTy).Contents (Elt F) → (⟨S200000, .i32⟩ : BufTy).Contents (Elt F)) (K m ρ c main_c_47) := by
  rw [K_eq_W22 m ρ c main_v176 (by decide),
    K_eq_W22 m ρ c main_c_47 (by decide)]
  exact unary_final (hx := by decide) (hy := by decide) (x := main_c_47) (y := main_v176) (f := (broadcastInDim S200000 ![] bcast_S_S200000 : (⟨S_, .i32⟩ : BufTy).Contents (Elt F) → (⟨S200000, .i32⟩ : BufTy).Contents (Elt F)))
    (hostOps9_2_at (F := F)) (W21 m ρ c) 20 (by show (20 : Nat) < 39; decide) rfl (by decide) (by decide)

/-- Operation 21: `main_v177` from `main_v143`, `main_v176`. -/
theorem eq_v177 (c : Dev nD) :
    K m ρ c main_v177
      = (cmpi .slt : (⟨S200000, .i32⟩ : BufTy).Contents (Elt F) → (⟨S200000, .i32⟩ : BufTy).Contents (Elt F) → (⟨S200000, .i1⟩ : BufTy).Contents (Elt F)) (K m ρ c main_v143) (K m ρ c main_v176) := by
  rw [K_eq_W22 m ρ c main_v177 (by decide),
    K_eq_W22 m ρ c main_v143 (by decide),
    K_eq_W22 m ρ c main_v176 (by decide)]
  exact binary_final (ha := by decide) (hb := by decide) (hy := by decide) (a := main_v143) (b := main_v176) (y := main_v177) (f := (cmpi .slt : (⟨S200000, .i32⟩ : BufTy).Contents (Elt F) → (⟨S200000, .i32⟩ : BufTy).Contents (Elt F) → (⟨S200000, .i1⟩ : BufTy).Contents (Elt F)))
    (hostOps9_2_at (F := F)) (W21 m ρ c) 21 (by show (21 : Nat) < 39; decide) rfl (by decide) (by decide) (by decide)

/-- Operation 22: `main_c_48`, a constant. -/
theorem eq_c_48 (c : Dev nD) :
    K m ρ c main_c_48
      = ((constantI S_ 32 100000#32) : (⟨S_, .i32⟩ : BufTy).Contents (Elt F)) := by
  rw [K_eq_W22 m ρ c main_c_48 (by decide)]
  exact nullary_final (hy := by decide) (y := main_c_48) (v := ((constantI S_ 32 100000#32) : (⟨S_, .i32⟩ : BufTy).Contents (Elt F)))
    (hostOps9_2_at (F := F)) (W21 m ρ c) 22 (by show (22 : Nat) < 39; decide) rfl (by decide)

/-- Operation 23: `main_v178` from `main_c_48`. -/
theorem eq_v178 (c : Dev nD) :
    K m ρ c main_v178
      = (broadcastInDim S200000 ![] bcast_S_S200000 : (⟨S_, .i32⟩ : BufTy).Contents (Elt F) → (⟨S200000, .i32⟩ : BufTy).Contents (Elt F)) (K m ρ c main_c_48) := by
  rw [K_eq_W22 m ρ c main_v178 (by decide),
    K_eq_W22 m ρ c main_c_48 (by decide)]
  exact unary_final (hx := by decide) (hy := by decide) (x := main_c_48) (y := main_v178) (f := (broadcastInDim S200000 ![] bcast_S_S200000 : (⟨S_, .i32⟩ : BufTy).Contents (Elt F) → (⟨S200000, .i32⟩ : BufTy).Contents (Elt F)))
    (hostOps9_2_at (F := F)) (W21 m ρ c) 23 (by show (23 : Nat) < 39; decide) rfl (by decide) (by decide)

/-- Operation 24: `main_v179` from `main_v143`, `main_v178`. -/
theorem eq_v179 (c : Dev nD) :
    K m ρ c main_v179
      = (addi : (⟨S200000, .i32⟩ : BufTy).Contents (Elt F) → (⟨S200000, .i32⟩ : BufTy).Contents (Elt F) → (⟨S200000, .i32⟩ : BufTy).Contents (Elt F)) (K m ρ c main_v143) (K m ρ c main_v178) := by
  rw [K_eq_W22 m ρ c main_v179 (by decide),
    K_eq_W22 m ρ c main_v143 (by decide),
    K_eq_W22 m ρ c main_v178 (by decide)]
  exact binary_final (ha := by decide) (hb := by decide) (hy := by decide) (a := main_v143) (b := main_v178) (y := main_v179) (f := (addi : (⟨S200000, .i32⟩ : BufTy).Contents (Elt F) → (⟨S200000, .i32⟩ : BufTy).Contents (Elt F) → (⟨S200000, .i32⟩ : BufTy).Contents (Elt F)))
    (hostOps9_2_at (F := F)) (W21 m ρ c) 24 (by show (24 : Nat) < 39; decide) rfl (by decide) (by decide) (by decide)

/-- Operation 25: `main_v180` from `main_v177`, `main_v179`, `main_v143`. -/
theorem eq_v180 (c : Dev nD) :
    K m ρ c main_v180
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v177) (K m ρ c main_v179) (K m ρ c main_v143) := by
  rw [K_eq_W22 m ρ c main_v180 (by decide),
    K_eq_W22 m ρ c main_v177 (by decide),
    K_eq_W22 m ρ c main_v179 (by decide),
    K_eq_W22 m ρ c main_v143 (by decide)]
  exact ternary_final (hc := by decide) (ha := by decide) (hb := by decide) (hy := by decide) (c := main_v177) (a := main_v179) (b := main_v143) (y := main_v180) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps9_2_at (F := F)) (W21 m ρ c) 25 (by show (25 : Nat) < 39; decide) rfl (by decide) (by decide) (by decide) (by decide)

/-- Operation 26: `main_v181` from `main_v180`. -/
theorem eq_v181 (c : Dev nD) :
    K m ρ c main_v181
      = (broadcastInDim S200000x1 ![0] bcast_S200000_S200000x1_0 : (⟨S200000, .i32⟩ : BufTy).Contents (Elt F) → (⟨S200000x1, .i32⟩ : BufTy).Contents (Elt F)) (K m ρ c main_v180) := by
  rw [K_eq_W22 m ρ c main_v181 (by decide),
    K_eq_W22 m ρ c main_v180 (by decide)]
  exact unary_final (hx := by decide) (hy := by decide) (x := main_v180) (y := main_v181) (f := (broadcastInDim S200000x1 ![0] bcast_S200000_S200000x1_0 : (⟨S200000, .i32⟩ : BufTy).Contents (Elt F) → (⟨S200000x1, .i32⟩ : BufTy).Contents (Elt F)))
    (hostOps9_2_at (F := F)) (W21 m ρ c) 26 (by show (26 : Nat) < 39; decide) rfl (by decide) (by decide)

/-- Operation 27: `main_v182` from `main_v139`, `main_v181`. -/
theorem eq_v182 (c : Dev nD) :
    K m ρ c main_v182
      = ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)) (K m ρ c main_v139) (K m ρ c main_v181) := by
  rw [K_eq_W22 m ρ c main_v182 (by decide),
    K_eq_W22 m ρ c main_v139 (by decide),
    K_eq_W22 m ρ c main_v181 (by decide)]
  exact binary_final (ha := by decide) (hb := by decide) (hy := by decide) (a := main_v139) (b := main_v181) (y := main_v182) (f := ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)))
    (hostOps9_2_at (F := F)) (W21 m ρ c) 27 (by show (27 : Nat) < 39; decide) rfl (by decide) (by decide) (by decide)

/-- Operation 28: `main_c_49`, a constant. -/
theorem eq_c_49 (c : Dev nD) :
    K m ρ c main_c_49
      = ((constantI S_ 32 0#32) : (⟨S_, .i32⟩ : BufTy).Contents (Elt F)) := by
  rw [K_eq_W22 m ρ c main_c_49 (by decide)]
  exact nullary_final (hy := by decide) (y := main_c_49) (v := ((constantI S_ 32 0#32) : (⟨S_, .i32⟩ : BufTy).Contents (Elt F)))
    (hostOps9_2_at (F := F)) (W21 m ρ c) 28 (by show (28 : Nat) < 39; decide) rfl (by decide)

/-- Operation 29: `main_v183` from `main_c_49`. -/
theorem eq_v183 (c : Dev nD) :
    K m ρ c main_v183
      = (broadcastInDim S200000 ![] bcast_S_S200000 : (⟨S_, .i32⟩ : BufTy).Contents (Elt F) → (⟨S200000, .i32⟩ : BufTy).Contents (Elt F)) (K m ρ c main_c_49) := by
  rw [K_eq_W22 m ρ c main_v183 (by decide),
    K_eq_W22 m ρ c main_c_49 (by decide)]
  exact unary_final (hx := by decide) (hy := by decide) (x := main_c_49) (y := main_v183) (f := (broadcastInDim S200000 ![] bcast_S_S200000 : (⟨S_, .i32⟩ : BufTy).Contents (Elt F) → (⟨S200000, .i32⟩ : BufTy).Contents (Elt F)))
    (hostOps9_2_at (F := F)) (W21 m ρ c) 29 (by show (29 : Nat) < 39; decide) rfl (by decide) (by decide)

/-- Operation 30: `main_v184` from `main_v141`, `main_v183`. -/
theorem eq_v184 (c : Dev nD) :
    K m ρ c main_v184
      = (cmpi .slt : (⟨S200000, .i32⟩ : BufTy).Contents (Elt F) → (⟨S200000, .i32⟩ : BufTy).Contents (Elt F) → (⟨S200000, .i1⟩ : BufTy).Contents (Elt F)) (K m ρ c main_v141) (K m ρ c main_v183) := by
  rw [K_eq_W22 m ρ c main_v184 (by decide),
    K_eq_W22 m ρ c main_v141 (by decide),
    K_eq_W22 m ρ c main_v183 (by decide)]
  exact binary_final (ha := by decide) (hb := by decide) (hy := by decide) (a := main_v141) (b := main_v183) (y := main_v184) (f := (cmpi .slt : (⟨S200000, .i32⟩ : BufTy).Contents (Elt F) → (⟨S200000, .i32⟩ : BufTy).Contents (Elt F) → (⟨S200000, .i1⟩ : BufTy).Contents (Elt F)))
    (hostOps9_2_at (F := F)) (W21 m ρ c) 30 (by show (30 : Nat) < 39; decide) rfl (by decide) (by decide) (by decide)

/-- Operation 31: `main_c_50`, a constant. -/
theorem eq_c_50 (c : Dev nD) :
    K m ρ c main_c_50
      = ((constantI S_ 32 401#32) : (⟨S_, .i32⟩ : BufTy).Contents (Elt F)) := by
  rw [K_eq_W22 m ρ c main_c_50 (by decide)]
  exact nullary_final (hy := by decide) (y := main_c_50) (v := ((constantI S_ 32 401#32) : (⟨S_, .i32⟩ : BufTy).Contents (Elt F)))
    (hostOps9_2_at (F := F)) (W21 m ρ c) 31 (by show (31 : Nat) < 39; decide) rfl (by decide)

/-- Operation 32: `main_v185` from `main_c_50`. -/
theorem eq_v185 (c : Dev nD) :
    K m ρ c main_v185
      = (broadcastInDim S200000 ![] bcast_S_S200000 : (⟨S_, .i32⟩ : BufTy).Contents (Elt F) → (⟨S200000, .i32⟩ : BufTy).Contents (Elt F)) (K m ρ c main_c_50) := by
  rw [K_eq_W22 m ρ c main_v185 (by decide),
    K_eq_W22 m ρ c main_c_50 (by decide)]
  exact unary_final (hx := by decide) (hy := by decide) (x := main_c_50) (y := main_v185) (f := (broadcastInDim S200000 ![] bcast_S_S200000 : (⟨S_, .i32⟩ : BufTy).Contents (Elt F) → (⟨S200000, .i32⟩ : BufTy).Contents (Elt F)))
    (hostOps9_2_at (F := F)) (W21 m ρ c) 32 (by show (32 : Nat) < 39; decide) rfl (by decide) (by decide)

/-- Operation 33: `main_v186` from `main_v141`, `main_v185`. -/
theorem eq_v186 (c : Dev nD) :
    K m ρ c main_v186
      = (addi : (⟨S200000, .i32⟩ : BufTy).Contents (Elt F) → (⟨S200000, .i32⟩ : BufTy).Contents (Elt F) → (⟨S200000, .i32⟩ : BufTy).Contents (Elt F)) (K m ρ c main_v141) (K m ρ c main_v185) := by
  rw [K_eq_W22 m ρ c main_v186 (by decide),
    K_eq_W22 m ρ c main_v141 (by decide),
    K_eq_W22 m ρ c main_v185 (by decide)]
  exact binary_final (ha := by decide) (hb := by decide) (hy := by decide) (a := main_v141) (b := main_v185) (y := main_v186) (f := (addi : (⟨S200000, .i32⟩ : BufTy).Contents (Elt F) → (⟨S200000, .i32⟩ : BufTy).Contents (Elt F) → (⟨S200000, .i32⟩ : BufTy).Contents (Elt F)))
    (hostOps9_2_at (F := F)) (W21 m ρ c) 33 (by show (33 : Nat) < 39; decide) rfl (by decide) (by decide) (by decide)

/-- Operation 34: `main_v187` from `main_v184`, `main_v186`, `main_v141`. -/
theorem eq_v187 (c : Dev nD) :
    K m ρ c main_v187
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v184) (K m ρ c main_v186) (K m ρ c main_v141) := by
  rw [K_eq_W22 m ρ c main_v187 (by decide),
    K_eq_W22 m ρ c main_v184 (by decide),
    K_eq_W22 m ρ c main_v186 (by decide),
    K_eq_W22 m ρ c main_v141 (by decide)]
  exact ternary_final (hc := by decide) (ha := by decide) (hb := by decide) (hy := by decide) (c := main_v184) (a := main_v186) (b := main_v141) (y := main_v187) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps9_2_at (F := F)) (W21 m ρ c) 34 (by show (34 : Nat) < 39; decide) rfl (by decide) (by decide) (by decide) (by decide)

/-- Operation 35: `main_v188` from `main_v187`. -/
theorem eq_v188 (c : Dev nD) :
    K m ρ c main_v188
      = (broadcastInDim S200000x1 ![0] bcast_S200000_S200000x1_0 : (⟨S200000, .i32⟩ : BufTy).Contents (Elt F) → (⟨S200000x1, .i32⟩ : BufTy).Contents (Elt F)) (K m ρ c main_v187) := by
  rw [K_eq_W22 m ρ c main_v188 (by decide),
    K_eq_W22 m ρ c main_v187 (by decide)]
  exact unary_final (hx := by decide) (hy := by decide) (x := main_v187) (y := main_v188) (f := (broadcastInDim S200000x1 ![0] bcast_S200000_S200000x1_0 : (⟨S200000, .i32⟩ : BufTy).Contents (Elt F) → (⟨S200000x1, .i32⟩ : BufTy).Contents (Elt F)))
    (hostOps9_2_at (F := F)) (W21 m ρ c) 35 (by show (35 : Nat) < 39; decide) rfl (by decide) (by decide)

/-- Operation 36: `main_v189` from `main_v138`, `main_v188`. -/
theorem eq_v189 (c : Dev nD) :
    K m ρ c main_v189
      = ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)) (K m ρ c main_v138) (K m ρ c main_v188) := by
  rw [K_eq_W22 m ρ c main_v189 (by decide),
    K_eq_W22 m ρ c main_v138 (by decide),
    K_eq_W22 m ρ c main_v188 (by decide)]
  exact binary_final (ha := by decide) (hb := by decide) (hy := by decide) (a := main_v138) (b := main_v188) (y := main_v189) (f := ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)))
    (hostOps9_2_at (F := F)) (W21 m ρ c) 36 (by show (36 : Nat) < 39; decide) rfl (by decide) (by decide) (by decide)

/-- Operation 37: `main_v190` from `main_v182`, `main_v189`. -/
theorem eq_v190 (c : Dev nD) :
    K m ρ c main_v190
      = (subf : (⟨S200000x200, .f32⟩ : BufTy).Contents (Elt F) → (⟨S200000x200, .f32⟩ : BufTy).Contents (Elt F) → (⟨S200000x200, .f32⟩ : BufTy).Contents (Elt F)) (K m ρ c main_v182) (K m ρ c main_v189) := by
  rw [K_eq_W22 m ρ c main_v190 (by decide),
    K_eq_W22 m ρ c main_v182 (by decide),
    K_eq_W22 m ρ c main_v189 (by decide)]
  exact binary_final (ha := by decide) (hb := by decide) (hy := by decide) (a := main_v182) (b := main_v189) (y := main_v190) (f := (subf : (⟨S200000x200, .f32⟩ : BufTy).Contents (Elt F) → (⟨S200000x200, .f32⟩ : BufTy).Contents (Elt F) → (⟨S200000x200, .f32⟩ : BufTy).Contents (Elt F)))
    (hostOps9_2_at (F := F)) (W21 m ρ c) 37 (by show (37 : Nat) < 39; decide) rfl (by decide) (by decide) (by decide)

/-- Operation 38: `main_v191` from `main_v175`. -/
theorem eq_v191 (c : Dev nD) :
    K m ρ c main_v191
      = (broadcastInDim S200000x1 ![0] bcast_S200000_S200000x1_0 : (⟨S200000, .f32⟩ : BufTy).Contents (Elt F) → (⟨S200000x1, .f32⟩ : BufTy).Contents (Elt F)) (K m ρ c main_v175) := by
  rw [K_eq_W22 m ρ c main_v191 (by decide),
    K_eq_W22 m ρ c main_v175 (by decide)]
  exact unary_final (hx := by decide) (hy := by decide) (x := main_v175) (y := main_v191) (f := (broadcastInDim S200000x1 ![0] bcast_S200000_S200000x1_0 : (⟨S200000, .f32⟩ : BufTy).Contents (Elt F) → (⟨S200000x1, .f32⟩ : BufTy).Contents (Elt F)))
    (hostOps9_2_at (F := F)) (W21 m ρ c) 38 (by show (38 : Nat) < 39; decide) rfl (by decide) (by decide)

end Cert.KernelIdeal.HandRun

end
-- ==== Proof.KernelEqsHost10.lean ====
/-
  The equations the host operations of `hostOps10` (segment 23) leave between FINAL contents.

  The stretch is in single-assignment form: operation `i` writes the one buffer `hostOps10_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_cst_51`, a constant. -/
theorem eq_cst_51 (c : Dev nD) :
    K m ρ c main_cst_51
      = ((constant S_ .f32 0x00000000#32) : (⟨S_, .f32⟩ : BufTy).Contents (Elt F)) := by
  rw [K_eq_W24 m ρ c main_cst_51 (by decide)]
  exact nullary_final (hy := by decide) (y := main_cst_51) (v := ((constant S_ .f32 0x00000000#32) : (⟨S_, .f32⟩ : BufTy).Contents (Elt F)))
    (hostOps10_at (F := F)) (W23 m ρ c) 0 (by show (0 : Nat) < 38; decide) rfl (by decide)

/-- Operation 1: `main_v193` from `main_cst_51`. -/
theorem eq_v193 (c : Dev nD) :
    K m ρ c main_v193
      = (broadcastInDim S100000x200 ![] bcast_S_S100000x200 : (⟨S_, .f32⟩ : BufTy).Contents (Elt F) → (⟨S100000x200, .f32⟩ : BufTy).Contents (Elt F)) (K m ρ c main_cst_51) := by
  rw [K_eq_W24 m ρ c main_v193 (by decide),
    K_eq_W24 m ρ c main_cst_51 (by decide)]
  exact unary_final (hx := by decide) (hy := by decide) (x := main_cst_51) (y := main_v193) (f := (broadcastInDim S100000x200 ![] bcast_S_S100000x200 : (⟨S_, .f32⟩ : BufTy).Contents (Elt F) → (⟨S100000x200, .f32⟩ : BufTy).Contents (Elt F)))
    (hostOps10_at (F := F)) (W23 m ρ c) 1 (by show (1 : Nat) < 38; decide) rfl (by decide) (by decide)

/-- Operation 2: `main_c_52`, a constant. -/
theorem eq_c_52 (c : Dev nD) :
    K m ρ c main_c_52
      = ((constantI S_ 32 0#32) : (⟨S_, .i32⟩ : BufTy).Contents (Elt F)) := by
  rw [K_eq_W24 m ρ c main_c_52 (by decide)]
  exact nullary_final (hy := by decide) (y := main_c_52) (v := ((constantI S_ 32 0#32) : (⟨S_, .i32⟩ : BufTy).Contents (Elt F)))
    (hostOps10_at (F := F)) (W23 m ρ c) 2 (by show (2 : Nat) < 38; decide) rfl (by decide)

/-- Operation 3: `main_v194` from `main_c_52`. -/
theorem eq_v194 (c : Dev nD) :
    K m ρ c main_v194
      = (broadcastInDim S200000 ![] bcast_S_S200000 : (⟨S_, .i32⟩ : BufTy).Contents (Elt F) → (⟨S200000, .i32⟩ : BufTy).Contents (Elt F)) (K m ρ c main_c_52) := by
  rw [K_eq_W24 m ρ c main_v194 (by decide),
    K_eq_W24 m ρ c main_c_52 (by decide)]
  exact unary_final (hx := by decide) (hy := by decide) (x := main_c_52) (y := main_v194) (f := (broadcastInDim S200000 ![] bcast_S_S200000 : (⟨S_, .i32⟩ : BufTy).Contents (Elt F) → (⟨S200000, .i32⟩ : BufTy).Contents (Elt F)))
    (hostOps10_at (F := F)) (W23 m ρ c) 3 (by show (3 : Nat) < 38; decide) rfl (by decide) (by decide)

/-- Operation 4: `main_v195` from `main_v145`, `main_v194`. -/
theorem eq_v195 (c : Dev nD) :
    K m ρ c main_v195
      = (cmpi .slt : (⟨S200000, .i32⟩ : BufTy).Contents (Elt F) → (⟨S200000, .i32⟩ : BufTy).Contents (Elt F) → (⟨S200000, .i1⟩ : BufTy).Contents (Elt F)) (K m ρ c main_v145) (K m ρ c main_v194) := by
  rw [K_eq_W24 m ρ c main_v195 (by decide),
    K_eq_W24 m ρ c main_v145 (by decide),
    K_eq_W24 m ρ c main_v194 (by decide)]
  exact binary_final (ha := by decide) (hb := by decide) (hy := by decide) (a := main_v145) (b := main_v194) (y := main_v195) (f := (cmpi .slt : (⟨S200000, .i32⟩ : BufTy).Contents (Elt F) → (⟨S200000, .i32⟩ : BufTy).Contents (Elt F) → (⟨S200000, .i1⟩ : BufTy).Contents (Elt F)))
    (hostOps10_at (F := F)) (W23 m ρ c) 4 (by show (4 : Nat) < 38; decide) rfl (by decide) (by decide) (by decide)

/-- Operation 5: `main_c_53`, a constant. -/
theorem eq_c_53 (c : Dev nD) :
    K m ρ c main_c_53
      = ((constantI S_ 32 100000#32) : (⟨S_, .i32⟩ : BufTy).Contents (Elt F)) := by
  rw [K_eq_W24 m ρ c main_c_53 (by decide)]
  exact nullary_final (hy := by decide) (y := main_c_53) (v := ((constantI S_ 32 100000#32) : (⟨S_, .i32⟩ : BufTy).Contents (Elt F)))
    (hostOps10_at (F := F)) (W23 m ρ c) 5 (by show (5 : Nat) < 38; decide) rfl (by decide)

/-- Operation 6: `main_v196` from `main_c_53`. -/
theorem eq_v196 (c : Dev nD) :
    K m ρ c main_v196
      = (broadcastInDim S200000 ![] bcast_S_S200000 : (⟨S_, .i32⟩ : BufTy).Contents (Elt F) → (⟨S200000, .i32⟩ : BufTy).Contents (Elt F)) (K m ρ c main_c_53) := by
  rw [K_eq_W24 m ρ c main_v196 (by decide),
    K_eq_W24 m ρ c main_c_53 (by decide)]
  exact unary_final (hx := by decide) (hy := by decide) (x := main_c_53) (y := main_v196) (f := (broadcastInDim S200000 ![] bcast_S_S200000 : (⟨S_, .i32⟩ : BufTy).Contents (Elt F) → (⟨S200000, .i32⟩ : BufTy).Contents (Elt F)))
    (hostOps10_at (F := F)) (W23 m ρ c) 6 (by show (6 : Nat) < 38; decide) rfl (by decide) (by decide)

/-- Operation 7: `main_v197` from `main_v145`, `main_v196`. -/
theorem eq_v197 (c : Dev nD) :
    K m ρ c main_v197
      = (addi : (⟨S200000, .i32⟩ : BufTy).Contents (Elt F) → (⟨S200000, .i32⟩ : BufTy).Contents (Elt F) → (⟨S200000, .i32⟩ : BufTy).Contents (Elt F)) (K m ρ c main_v145) (K m ρ c main_v196) := by
  rw [K_eq_W24 m ρ c main_v197 (by decide),
    K_eq_W24 m ρ c main_v145 (by decide),
    K_eq_W24 m ρ c main_v196 (by decide)]
  exact binary_final (ha := by decide) (hb := by decide) (hy := by decide) (a := main_v145) (b := main_v196) (y := main_v197) (f := (addi : (⟨S200000, .i32⟩ : BufTy).Contents (Elt F) → (⟨S200000, .i32⟩ : BufTy).Contents (Elt F) → (⟨S200000, .i32⟩ : BufTy).Contents (Elt F)))
    (hostOps10_at (F := F)) (W23 m ρ c) 7 (by show (7 : Nat) < 38; decide) rfl (by decide) (by decide) (by decide)

/-- Operation 8: `main_v198` from `main_v195`, `main_v197`, `main_v145`. -/
theorem eq_v198 (c : Dev nD) :
    K m ρ c main_v198
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v195) (K m ρ c main_v197) (K m ρ c main_v145) := by
  rw [K_eq_W24 m ρ c main_v198 (by decide),
    K_eq_W24 m ρ c main_v195 (by decide),
    K_eq_W24 m ρ c main_v197 (by decide),
    K_eq_W24 m ρ c main_v145 (by decide)]
  exact ternary_final (hc := by decide) (ha := by decide) (hb := by decide) (hy := by decide) (c := main_v195) (a := main_v197) (b := main_v145) (y := main_v198) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps10_at (F := F)) (W23 m ρ c) 8 (by show (8 : Nat) < 38; decide) rfl (by decide) (by decide) (by decide) (by decide)

/-- Operation 9: `main_v199` from `main_v198`. -/
theorem eq_v199 (c : Dev nD) :
    K m ρ c main_v199
      = (broadcastInDim S200000x1 ![0] bcast_S200000_S200000x1_0 : (⟨S200000, .i32⟩ : BufTy).Contents (Elt F) → (⟨S200000x1, .i32⟩ : BufTy).Contents (Elt F)) (K m ρ c main_v198) := by
  rw [K_eq_W24 m ρ c main_v199 (by decide),
    K_eq_W24 m ρ c main_v198 (by decide)]
  exact unary_final (hx := by decide) (hy := by decide) (x := main_v198) (y := main_v199) (f := (broadcastInDim S200000x1 ![0] bcast_S200000_S200000x1_0 : (⟨S200000, .i32⟩ : BufTy).Contents (Elt F) → (⟨S200000x1, .i32⟩ : BufTy).Contents (Elt F)))
    (hostOps10_at (F := F)) (W23 m ρ c) 9 (by show (9 : Nat) < 38; decide) rfl (by decide) (by decide)

/-- Operation 10: `main_v200` from `main_v193`, `main_v199`, `main_v192`. -/
theorem eq_v200 (c : Dev nD) :
    K m ρ c main_v200
      = ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)) (K m ρ c main_v193) (K m ρ c main_v199) (K m ρ c main_v192) := by
  rw [K_eq_W24 m ρ c main_v200 (by decide),
    K_eq_W24 m ρ c main_v193 (by decide),
    K_eq_W24 m ρ c main_v199 (by decide),
    K_eq_W24 m ρ c main_v192 (by decide)]
  exact ternary_final (hc := by decide) (ha := by decide) (hb := by decide) (hy := by decide) (c := main_v193) (a := main_v199) (b := main_v192) (y := main_v200) (f := ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)))
    (hostOps10_at (F := F)) (W23 m ρ c) 10 (by show (10 : Nat) < 38; decide) rfl (by decide) (by decide) (by decide) (by decide)

/-- Operation 11: `main_v201` from `main_arg2`. -/
theorem eq_v201 (c : Dev nD) :
    K m ρ c main_v201
      = ((extractStridedSlice S2x200000 ![0, 200000] · slices_S2x400000_S2x200000_0_200000) : (⟨S2x400000, .i32⟩ : BufTy).Contents (Elt F) → (⟨S2x200000, .i32⟩ : BufTy).Contents (Elt F)) (K m ρ c main_arg2) := by
  rw [K_eq_W24 m ρ c main_v201 (by decide),
    K_eq_W24 m ρ c main_arg2 (by decide)]
  exact unary_final (hx := by decide) (hy := by decide) (x := main_arg2) (y := main_v201) (f := ((extractStridedSlice S2x200000 ![0, 200000] · slices_S2x400000_S2x200000_0_200000) : (⟨S2x400000, .i32⟩ : BufTy).Contents (Elt F) → (⟨S2x200000, .i32⟩ : BufTy).Contents (Elt F)))
    (hostOps10_at (F := F)) (W23 m ρ c) 11 (by show (11 : Nat) < 38; decide) rfl (by decide) (by decide)

/-- Operation 12: `main_v202` from `main_arg3`. -/
theorem eq_v202 (c : Dev nD) :
    K m ρ c main_v202
      = ((extractStridedSlice S200000 ![200000] · slices_S400000_S200000_200000) : (⟨S400000, .i32⟩ : BufTy).Contents (Elt F) → (⟨S200000, .i32⟩ : BufTy).Contents (Elt F)) (K m ρ c main_arg3) := by
  rw [K_eq_W24 m ρ c main_v202 (by decide),
    K_eq_W24 m ρ c main_arg3 (by decide)]
  exact unary_final (hx := by decide) (hy := by decide) (x := main_arg3) (y := main_v202) (f := ((extractStridedSlice S200000 ![200000] · slices_S400000_S200000_200000) : (⟨S400000, .i32⟩ : BufTy).Contents (Elt F) → (⟨S200000, .i32⟩ : BufTy).Contents (Elt F)))
    (hostOps10_at (F := F)) (W23 m ρ c) 12 (by show (12 : Nat) < 38; decide) rfl (by decide) (by decide)

/-- Operation 13: `main_v203` from `main_v201`. -/
theorem eq_v203 (c : Dev nD) :
    K m ρ c main_v203
      = ((extractStridedSlice S1x200000 ![0, 0] · slices_S2x200000_S1x200000_0_0) : (⟨S2x200000, .i32⟩ : BufTy).Contents (Elt F) → (⟨S1x200000, .i32⟩ : BufTy).Contents (Elt F)) (K m ρ c main_v201) := by
  rw [K_eq_W24 m ρ c main_v203 (by decide),
    K_eq_W24 m ρ c main_v201 (by decide)]
  exact unary_final (hx := by decide) (hy := by decide) (x := main_v201) (y := main_v203) (f := ((extractStridedSlice S1x200000 ![0, 0] · slices_S2x200000_S1x200000_0_0) : (⟨S2x200000, .i32⟩ : BufTy).Contents (Elt F) → (⟨S1x200000, .i32⟩ : BufTy).Contents (Elt F)))
    (hostOps10_at (F := F)) (W23 m ρ c) 13 (by show (13 : Nat) < 38; decide) rfl (by decide) (by decide)

/-- Operation 14: `main_v204` from `main_v203`. -/
theorem eq_v204 (c : Dev nD) :
    K m ρ c main_v204
      = fun j => shapeCast (s := S1x200000) S200000 (K m ρ c main_v203) shapeCasts_S1x200000_S200000 j := by
  rw [K_eq_W24 m ρ c main_v204 (by decide),
    K_eq_W24 m ρ c main_v203 (by decide)]
  exact reshape_final (he := rfl) (hn := shapeCasts_S1x200000_S200000) (hx := by decide) (hy := by decide) (x := main_v203) (y := main_v204)
    (hostOps10_at (F := F)) (W23 m ρ c) 14 (by show (14 : Nat) < 38; decide) rfl (by decide) (by decide)

/-- Operation 15: `main_v205` from `main_v201`. -/
theorem eq_v205 (c : Dev nD) :
    K m ρ c main_v205
      = ((extractStridedSlice S1x200000 ![1, 0] · slices_S2x200000_S1x200000_1_0) : (⟨S2x200000, .i32⟩ : BufTy).Contents (Elt F) → (⟨S1x200000, .i32⟩ : BufTy).Contents (Elt F)) (K m ρ c main_v201) := by
  rw [K_eq_W24 m ρ c main_v205 (by decide),
    K_eq_W24 m ρ c main_v201 (by decide)]
  exact unary_final (hx := by decide) (hy := by decide) (x := main_v201) (y := main_v205) (f := ((extractStridedSlice S1x200000 ![1, 0] · slices_S2x200000_S1x200000_1_0) : (⟨S2x200000, .i32⟩ : BufTy).Contents (Elt F) → (⟨S1x200000, .i32⟩ : BufTy).Contents (Elt F)))
    (hostOps10_at (F := F)) (W23 m ρ c) 15 (by show (15 : Nat) < 38; decide) rfl (by decide) (by decide)

/-- Operation 16: `main_v206` from `main_v205`. -/
theorem eq_v206 (c : Dev nD) :
    K m ρ c main_v206
      = fun j => shapeCast (s := S1x200000) S200000 (K m ρ c main_v205) shapeCasts_S1x200000_S200000 j := by
  rw [K_eq_W24 m ρ c main_v206 (by decide),
    K_eq_W24 m ρ c main_v205 (by decide)]
  exact reshape_final (he := rfl) (hn := shapeCasts_S1x200000_S200000) (hx := by decide) (hy := by decide) (x := main_v205) (y := main_v206)
    (hostOps10_at (F := F)) (W23 m ρ c) 16 (by show (16 : Nat) < 38; decide) rfl (by decide) (by decide)

/-- Operation 17: `main_cst_54`, a constant. -/
theorem eq_cst_54 (c : Dev nD) :
    K m ρ c main_cst_54
      = ((constant S_ .f32 0x00000000#32) : (⟨S_, .f32⟩ : BufTy).Contents (Elt F)) := by
  rw [K_eq_W24 m ρ c main_cst_54 (by decide)]
  exact nullary_final (hy := by decide) (y := main_cst_54) (v := ((constant S_ .f32 0x00000000#32) : (⟨S_, .f32⟩ : BufTy).Contents (Elt F)))
    (hostOps10_at (F := F)) (W23 m ρ c) 17 (by show (17 : Nat) < 38; decide) rfl (by decide)

/-- Operation 18: `main_v207` from `main_cst_54`. -/
theorem eq_v207 (c : Dev nD) :
    K m ρ c main_v207
      = (broadcastInDim S100000 ![] bcast_S_S100000 : (⟨S_, .f32⟩ : BufTy).Contents (Elt F) → (⟨S100000, .f32⟩ : BufTy).Contents (Elt F)) (K m ρ c main_cst_54) := by
  rw [K_eq_W24 m ρ c main_v207 (by decide),
    K_eq_W24 m ρ c main_cst_54 (by decide)]
  exact unary_final (hx := by decide) (hy := by decide) (x := main_cst_54) (y := main_v207) (f := (broadcastInDim S100000 ![] bcast_S_S100000 : (⟨S_, .f32⟩ : BufTy).Contents (Elt F) → (⟨S100000, .f32⟩ : BufTy).Contents (Elt F)))
    (hostOps10_at (F := F)) (W23 m ρ c) 18 (by show (18 : Nat) < 38; decide) rfl (by decide) (by decide)

/-- Operation 19: `main_c_55`, a constant. -/
theorem eq_c_55 (c : Dev nD) :
    K m ρ c main_c_55
      = ((constantI S_ 32 0#32) : (⟨S_, .i32⟩ : BufTy).Contents (Elt F)) := by
  rw [K_eq_W24 m ρ c main_c_55 (by decide)]
  exact nullary_final (hy := by decide) (y := main_c_55) (v := ((constantI S_ 32 0#32) : (⟨S_, .i32⟩ : BufTy).Contents (Elt F)))
    (hostOps10_at (F := F)) (W23 m ρ c) 19 (by show (19 : Nat) < 38; decide) rfl (by decide)

/-- Operation 20: `main_v208` from `main_c_55`. -/
theorem eq_v208 (c : Dev nD) :
    K m ρ c main_v208
      = (broadcastInDim S200000 ![] bcast_S_S200000 : (⟨S_, .i32⟩ : BufTy).Contents (Elt F) → (⟨S200000, .i32⟩ : BufTy).Contents (Elt F)) (K m ρ c main_c_55) := by
  rw [K_eq_W24 m ρ c main_v208 (by decide),
    K_eq_W24 m ρ c main_c_55 (by decide)]
  exact unary_final (hx := by decide) (hy := by decide) (x := main_c_55) (y := main_v208) (f := (broadcastInDim S200000 ![] bcast_S_S200000 : (⟨S_, .i32⟩ : BufTy).Contents (Elt F) → (⟨S200000, .i32⟩ : BufTy).Contents (Elt F)))
    (hostOps10_at (F := F)) (W23 m ρ c) 20 (by show (20 : Nat) < 38; decide) rfl (by decide) (by decide)

/-- Operation 21: `main_v209` from `main_v204`, `main_v208`. -/
theorem eq_v209 (c : Dev nD) :
    K m ρ c main_v209
      = (cmpi .slt : (⟨S200000, .i32⟩ : BufTy).Contents (Elt F) → (⟨S200000, .i32⟩ : BufTy).Contents (Elt F) → (⟨S200000, .i1⟩ : BufTy).Contents (Elt F)) (K m ρ c main_v204) (K m ρ c main_v208) := by
  rw [K_eq_W24 m ρ c main_v209 (by decide),
    K_eq_W24 m ρ c main_v204 (by decide),
    K_eq_W24 m ρ c main_v208 (by decide)]
  exact binary_final (ha := by decide) (hb := by decide) (hy := by decide) (a := main_v204) (b := main_v208) (y := main_v209) (f := (cmpi .slt : (⟨S200000, .i32⟩ : BufTy).Contents (Elt F) → (⟨S200000, .i32⟩ : BufTy).Contents (Elt F) → (⟨S200000, .i1⟩ : BufTy).Contents (Elt F)))
    (hostOps10_at (F := F)) (W23 m ρ c) 21 (by show (21 : Nat) < 38; decide) rfl (by decide) (by decide) (by decide)

/-- Operation 22: `main_c_56`, a constant. -/
theorem eq_c_56 (c : Dev nD) :
    K m ρ c main_c_56
      = ((constantI S_ 32 100000#32) : (⟨S_, .i32⟩ : BufTy).Contents (Elt F)) := by
  rw [K_eq_W24 m ρ c main_c_56 (by decide)]
  exact nullary_final (hy := by decide) (y := main_c_56) (v := ((constantI S_ 32 100000#32) : (⟨S_, .i32⟩ : BufTy).Contents (Elt F)))
    (hostOps10_at (F := F)) (W23 m ρ c) 22 (by show (22 : Nat) < 38; decide) rfl (by decide)

/-- Operation 23: `main_v210` from `main_c_56`. -/
theorem eq_v210 (c : Dev nD) :
    K m ρ c main_v210
      = (broadcastInDim S200000 ![] bcast_S_S200000 : (⟨S_, .i32⟩ : BufTy).Contents (Elt F) → (⟨S200000, .i32⟩ : BufTy).Contents (Elt F)) (K m ρ c main_c_56) := by
  rw [K_eq_W24 m ρ c main_v210 (by decide),
    K_eq_W24 m ρ c main_c_56 (by decide)]
  exact unary_final (hx := by decide) (hy := by decide) (x := main_c_56) (y := main_v210) (f := (broadcastInDim S200000 ![] bcast_S_S200000 : (⟨S_, .i32⟩ : BufTy).Contents (Elt F) → (⟨S200000, .i32⟩ : BufTy).Contents (Elt F)))
    (hostOps10_at (F := F)) (W23 m ρ c) 23 (by show (23 : Nat) < 38; decide) rfl (by decide) (by decide)

/-- Operation 24: `main_v211` from `main_v204`, `main_v210`. -/
theorem eq_v211 (c : Dev nD) :
    K m ρ c main_v211
      = (addi : (⟨S200000, .i32⟩ : BufTy).Contents (Elt F) → (⟨S200000, .i32⟩ : BufTy).Contents (Elt F) → (⟨S200000, .i32⟩ : BufTy).Contents (Elt F)) (K m ρ c main_v204) (K m ρ c main_v210) := by
  rw [K_eq_W24 m ρ c main_v211 (by decide),
    K_eq_W24 m ρ c main_v204 (by decide),
    K_eq_W24 m ρ c main_v210 (by decide)]
  exact binary_final (ha := by decide) (hb := by decide) (hy := by decide) (a := main_v204) (b := main_v210) (y := main_v211) (f := (addi : (⟨S200000, .i32⟩ : BufTy).Contents (Elt F) → (⟨S200000, .i32⟩ : BufTy).Contents (Elt F) → (⟨S200000, .i32⟩ : BufTy).Contents (Elt F)))
    (hostOps10_at (F := F)) (W23 m ρ c) 24 (by show (24 : Nat) < 38; decide) rfl (by decide) (by decide) (by decide)

/-- Operation 25: `main_v212` from `main_v209`, `main_v211`, `main_v204`. -/
theorem eq_v212 (c : Dev nD) :
    K m ρ c main_v212
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v209) (K m ρ c main_v211) (K m ρ c main_v204) := by
  rw [K_eq_W24 m ρ c main_v212 (by decide),
    K_eq_W24 m ρ c main_v209 (by decide),
    K_eq_W24 m ρ c main_v211 (by decide),
    K_eq_W24 m ρ c main_v204 (by decide)]
  exact ternary_final (hc := by decide) (ha := by decide) (hb := by decide) (hy := by decide) (c := main_v209) (a := main_v211) (b := main_v204) (y := main_v212) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps10_at (F := F)) (W23 m ρ c) 25 (by show (25 : Nat) < 38; decide) rfl (by decide) (by decide) (by decide) (by decide)

/-- Operation 26: `main_v213` from `main_v212`. -/
theorem eq_v213 (c : Dev nD) :
    K m ρ c main_v213
      = (broadcastInDim S200000x1 ![0] bcast_S200000_S200000x1_0 : (⟨S200000, .i32⟩ : BufTy).Contents (Elt F) → (⟨S200000x1, .i32⟩ : BufTy).Contents (Elt F)) (K m ρ c main_v212) := by
  rw [K_eq_W24 m ρ c main_v213 (by decide),
    K_eq_W24 m ρ c main_v212 (by decide)]
  exact unary_final (hx := by decide) (hy := by decide) (x := main_v212) (y := main_v213) (f := (broadcastInDim S200000x1 ![0] bcast_S200000_S200000x1_0 : (⟨S200000, .i32⟩ : BufTy).Contents (Elt F) → (⟨S200000x1, .i32⟩ : BufTy).Contents (Elt F)))
    (hostOps10_at (F := F)) (W23 m ρ c) 26 (by show (26 : Nat) < 38; decide) rfl (by decide) (by decide)

/-- Operation 27: `main_cst_57`, a constant. -/
theorem eq_cst_57 (c : Dev nD) :
    K m ρ c main_cst_57
      = ((constant S_ .f32 0x3F800000#32) : (⟨S_, .f32⟩ : BufTy).Contents (Elt F)) := by
  rw [K_eq_W24 m ρ c main_cst_57 (by decide)]
  exact nullary_final (hy := by decide) (y := main_cst_57) (v := ((constant S_ .f32 0x3F800000#32) : (⟨S_, .f32⟩ : BufTy).Contents (Elt F)))
    (hostOps10_at (F := F)) (W23 m ρ c) 27 (by show (27 : Nat) < 38; decide) rfl (by decide)

/-- Operation 28: `main_v214` from `main_cst_57`. -/
theorem eq_v214 (c : Dev nD) :
    K m ρ c main_v214
      = (broadcastInDim S200000 ![] bcast_S_S200000 : (⟨S_, .f32⟩ : BufTy).Contents (Elt F) → (⟨S200000, .f32⟩ : BufTy).Contents (Elt F)) (K m ρ c main_cst_57) := by
  rw [K_eq_W24 m ρ c main_v214 (by decide),
    K_eq_W24 m ρ c main_cst_57 (by decide)]
  exact unary_final (hx := by decide) (hy := by decide) (x := main_cst_57) (y := main_v214) (f := (broadcastInDim S200000 ![] bcast_S_S200000 : (⟨S_, .f32⟩ : BufTy).Contents (Elt F) → (⟨S200000, .f32⟩ : BufTy).Contents (Elt F)))
    (hostOps10_at (F := F)) (W23 m ρ c) 28 (by show (28 : Nat) < 38; decide) rfl (by decide) (by decide)

/-- Operation 29: `main_v215` from `main_v207`, `main_v213`, `main_v214`. -/
theorem eq_v215 (c : Dev nD) :
    K m ρ c main_v215
      = ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) (K m ρ c main_v207) (K m ρ c main_v213) (K m ρ c main_v214) := by
  rw [K_eq_W24 m ρ c main_v215 (by decide),
    K_eq_W24 m ρ c main_v207 (by decide),
    K_eq_W24 m ρ c main_v213 (by decide),
    K_eq_W24 m ρ c main_v214 (by decide)]
  exact ternary_final (hc := by decide) (ha := by decide) (hb := by decide) (hy := by decide) (c := main_v207) (a := main_v213) (b := main_v214) (y := main_v215) (f := ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)))
    (hostOps10_at (F := F)) (W23 m ρ c) 29 (by show (29 : Nat) < 38; decide) rfl (by decide) (by decide) (by decide) (by decide)

/-- Operation 30: `main_cst_58`, a constant. -/
theorem eq_cst_58 (c : Dev nD) :
    K m ρ c main_cst_58
      = ((constant S_ .f32 0x00000000#32) : (⟨S_, .f32⟩ : BufTy).Contents (Elt F)) := by
  rw [K_eq_W24 m ρ c main_cst_58 (by decide)]
  exact nullary_final (hy := by decide) (y := main_cst_58) (v := ((constant S_ .f32 0x00000000#32) : (⟨S_, .f32⟩ : BufTy).Contents (Elt F)))
    (hostOps10_at (F := F)) (W23 m ρ c) 30 (by show (30 : Nat) < 38; decide) rfl (by decide)

/-- Operation 31: `main_v216` from `main_cst_58`. -/
theorem eq_v216 (c : Dev nD) :
    K m ρ c main_v216
      = (broadcastInDim S100000 ![] bcast_S_S100000 : (⟨S_, .f32⟩ : BufTy).Contents (Elt F) → (⟨S100000, .f32⟩ : BufTy).Contents (Elt F)) (K m ρ c main_cst_58) := by
  rw [K_eq_W24 m ρ c main_v216 (by decide),
    K_eq_W24 m ρ c main_cst_58 (by decide)]
  exact unary_final (hx := by decide) (hy := by decide) (x := main_cst_58) (y := main_v216) (f := (broadcastInDim S100000 ![] bcast_S_S100000 : (⟨S_, .f32⟩ : BufTy).Contents (Elt F) → (⟨S100000, .f32⟩ : BufTy).Contents (Elt F)))
    (hostOps10_at (F := F)) (W23 m ρ c) 31 (by show (31 : Nat) < 38; decide) rfl (by decide) (by decide)

/-- Operation 32: `main_v217` from `main_v215`, `main_v216`. -/
theorem eq_v217 (c : Dev nD) :
    K m ρ c main_v217
      = (cmpf .ogt : (⟨S100000, .f32⟩ : BufTy).Contents (Elt F) → (⟨S100000, .f32⟩ : BufTy).Contents (Elt F) → (⟨S100000, .i1⟩ : BufTy).Contents (Elt F)) (K m ρ c main_v215) (K m ρ c main_v216) := by
  rw [K_eq_W24 m ρ c main_v217 (by decide),
    K_eq_W24 m ρ c main_v215 (by decide),
    K_eq_W24 m ρ c main_v216 (by decide)]
  exact binary_final (ha := by decide) (hb := by decide) (hy := by decide) (a := main_v215) (b := main_v216) (y := main_v217) (f := (cmpf .ogt : (⟨S100000, .f32⟩ : BufTy).Contents (Elt F) → (⟨S100000, .f32⟩ : BufTy).Contents (Elt F) → (⟨S100000, .i1⟩ : BufTy).Contents (Elt F)))
    (hostOps10_at (F := F)) (W23 m ρ c) 32 (by show (32 : Nat) < 38; decide) rfl (by decide) (by decide) (by decide)

/-- Operation 33: `main_cst_59`, a constant. -/
theorem eq_cst_59 (c : Dev nD) :
    K m ρ c main_cst_59
      = ((constant S_ .f32 0x3F800000#32) : (⟨S_, .f32⟩ : BufTy).Contents (Elt F)) := by
  rw [K_eq_W24 m ρ c main_cst_59 (by decide)]
  exact nullary_final (hy := by decide) (y := main_cst_59) (v := ((constant S_ .f32 0x3F800000#32) : (⟨S_, .f32⟩ : BufTy).Contents (Elt F)))
    (hostOps10_at (F := F)) (W23 m ρ c) 33 (by show (33 : Nat) < 38; decide) rfl (by decide)

/-- Operation 34: `main_v218` from `main_cst_59`. -/
theorem eq_v218 (c : Dev nD) :
    K m ρ c main_v218
      = (broadcastInDim S100000 ![] bcast_S_S100000 : (⟨S_, .f32⟩ : BufTy).Contents (Elt F) → (⟨S100000, .f32⟩ : BufTy).Contents (Elt F)) (K m ρ c main_cst_59) := by
  rw [K_eq_W24 m ρ c main_v218 (by decide),
    K_eq_W24 m ρ c main_cst_59 (by decide)]
  exact unary_final (hx := by decide) (hy := by decide) (x := main_cst_59) (y := main_v218) (f := (broadcastInDim S100000 ![] bcast_S_S100000 : (⟨S_, .f32⟩ : BufTy).Contents (Elt F) → (⟨S100000, .f32⟩ : BufTy).Contents (Elt F)))
    (hostOps10_at (F := F)) (W23 m ρ c) 34 (by show (34 : Nat) < 38; decide) rfl (by decide) (by decide)

/-- Operation 35: `main_v219` from `main_v215`, `main_v218`. -/
theorem eq_v219 (c : Dev nD) :
    K m ρ c main_v219
      = (maximumf : (⟨S100000, .f32⟩ : BufTy).Contents (Elt F) → (⟨S100000, .f32⟩ : BufTy).Contents (Elt F) → (⟨S100000, .f32⟩ : BufTy).Contents (Elt F)) (K m ρ c main_v215) (K m ρ c main_v218) := by
  rw [K_eq_W24 m ρ c main_v219 (by decide),
    K_eq_W24 m ρ c main_v215 (by decide),
    K_eq_W24 m ρ c main_v218 (by decide)]
  exact binary_final (ha := by decide) (hb := by decide) (hy := by decide) (a := main_v215) (b := main_v218) (y := main_v219) (f := (maximumf : (⟨S100000, .f32⟩ : BufTy).Contents (Elt F) → (⟨S100000, .f32⟩ : BufTy).Contents (Elt F) → (⟨S100000, .f32⟩ : BufTy).Contents (Elt F)))
    (hostOps10_at (F := F)) (W23 m ρ c) 35 (by show (35 : Nat) < 38; decide) rfl (by decide) (by decide) (by decide)

/-- Operation 36: `main_v220` from `main_v219`. -/
theorem eq_v220 (c : Dev nD) :
    K m ρ c main_v220
      = (Host.rsqrt : (⟨S100000, .f32⟩ : BufTy).Contents (Elt F) → (⟨S100000, .f32⟩ : BufTy).Contents (Elt F)) (K m ρ c main_v219) := by
  rw [K_eq_W24 m ρ c main_v220 (by decide),
    K_eq_W24 m ρ c main_v219 (by decide)]
  exact unary_final (hx := by decide) (hy := by decide) (x := main_v219) (y := main_v220) (f := (Host.rsqrt : (⟨S100000, .f32⟩ : BufTy).Contents (Elt F) → (⟨S100000, .f32⟩ : BufTy).Contents (Elt F)))
    (hostOps10_at (F := F)) (W23 m ρ c) 36 (by show (36 : Nat) < 38; decide) rfl (by decide) (by decide)

/-- Operation 37: `main_cst_60`, a constant. -/
theorem eq_cst_60 (c : Dev nD) :
    K m ρ c main_cst_60
      = ((constant S_ .f32 0x00000000#32) : (⟨S_, .f32⟩ : BufTy).Contents (Elt F)) := by
  rw [K_eq_W24 m ρ c main_cst_60 (by decide)]
  exact nullary_final (hy := by decide) (y := main_cst_60) (v := ((constant S_ .f32 0x00000000#32) : (⟨S_, .f32⟩ : BufTy).Contents (Elt F)))
    (hostOps10_at (F := F)) (W23 m ρ c) 37 (by show (37 : Nat) < 38; decide) rfl (by decide)

end Cert.KernelIdeal.HandRun

end
-- ==== Proof.KernelEqsHost10_1.lean ====
/-
  The equations the host operations of `hostOps10_1` (segment 24) leave between FINAL contents.

  The stretch is in single-assignment form: operation `i` writes the one buffer `hostOps10_1_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_call3_v0` from `main_cst_60`. -/
theorem eq_call3_v0 (c : Dev nD) :
    K m ρ c main_call3_v0
      = (id : (⟨S_, .f32⟩ : BufTy).Contents (Elt F) → (⟨S_, .f32⟩ : BufTy).Contents (Elt F)) (K m ρ c main_cst_60) := by
  rw [K_eq_W25 m ρ c main_call3_v0 (by decide),
    K_eq_W25 m ρ c main_cst_60 (by decide)]
  exact unary_final (hx := by decide) (hy := by decide) (x := main_cst_60) (y := main_call3_v0) (f := (id : (⟨S_, .f32⟩ : BufTy).Contents (Elt F) → (⟨S_, .f32⟩ : BufTy).Contents (Elt F)))
    (hostOps10_1_at (F := F)) (W24 m ρ c) 0 (by show (0 : Nat) < 3; decide) rfl (by decide) (by decide)

/-- Operation 1: `main_call3_v1` from `main_call3_v0`. -/
theorem eq_call3_v1 (c : Dev nD) :
    K m ρ c main_call3_v1
      = ((broadcastInDim S100000 ![] bcast_S_S100000) : (⟨S_, .f32⟩ : BufTy).Contents (Elt F) → (⟨S100000, .f32⟩ : BufTy).Contents (Elt F)) (K m ρ c main_call3_v0) := by
  rw [K_eq_W25 m ρ c main_call3_v1 (by decide),
    K_eq_W25 m ρ c main_call3_v0 (by decide)]
  exact unary_final (hx := by decide) (hy := by decide) (x := main_call3_v0) (y := main_call3_v1) (f := ((broadcastInDim S100000 ![] bcast_S_S100000) : (⟨S_, .f32⟩ : BufTy).Contents (Elt F) → (⟨S100000, .f32⟩ : BufTy).Contents (Elt F)))
    (hostOps10_1_at (F := F)) (W24 m ρ c) 1 (by show (1 : Nat) < 3; decide) rfl (by decide) (by decide)

/-- Operation 2: `main_v221` from `main_v217`, `main_v220`, `main_call3_v1`. -/
theorem eq_v221 (c : Dev nD) :
    K m ρ c main_v221
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (K m ρ c main_v217) (K m ρ c main_v220) (K m ρ c main_call3_v1) := by
  rw [K_eq_W25 m ρ c main_v221 (by decide),
    K_eq_W25 m ρ c main_v217 (by decide),
    K_eq_W25 m ρ c main_v220 (by decide),
    K_eq_W25 m ρ c main_call3_v1 (by decide)]
  exact ternary_final (hc := by decide) (ha := by decide) (hb := by decide) (hy := by decide) (c := main_v217) (a := main_v220) (b := main_call3_v1) (y := main_v221) (f := (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)))
    (hostOps10_1_at (F := F)) (W24 m ρ c) 2 (by show (2 : Nat) < 3; decide) rfl (by decide) (by decide) (by decide) (by decide)

end Cert.KernelIdeal.HandRun

end
-- ==== Proof.KernelEqsHost10_2.lean ====
/-
  The equations the host operations of `hostOps10_2` (segment 25) leave between FINAL contents.

  The stretch is in single-assignment form: operation `i` writes the one buffer `hostOps10_2_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_c_61`, a constant. -/
theorem eq_c_61 (c : Dev nD) :
    K m ρ c main_c_61
      = ((constantI S_ 32 0#32) : (⟨S_, .i32⟩ : BufTy).Contents (Elt F)) := by
  rw [K_eq_W26 m ρ c main_c_61 (by decide)]
  exact nullary_final (hy := by decide) (y := main_c_61) (v := ((constantI S_ 32 0#32) : (⟨S_, .i32⟩ : BufTy).Contents (Elt F)))
    (hostOps10_2_at (F := F)) (W25 m ρ c) 0 (by show (0 : Nat) < 39; decide) rfl (by decide)

/-- Operation 1: `main_v222` from `main_c_61`. -/
theorem eq_v222 (c : Dev nD) :
    K m ρ c main_v222
      = (broadcastInDim S200000 ![] bcast_S_S200000 : (⟨S_, .i32⟩ : BufTy).Contents (Elt F) → (⟨S200000, .i32⟩ : BufTy).Contents (Elt F)) (K m ρ c main_c_61) := by
  rw [K_eq_W26 m ρ c main_v222 (by decide),
    K_eq_W26 m ρ c main_c_61 (by decide)]
  exact unary_final (hx := by decide) (hy := by decide) (x := main_c_61) (y := main_v222) (f := (broadcastInDim S200000 ![] bcast_S_S200000 : (⟨S_, .i32⟩ : BufTy).Contents (Elt F) → (⟨S200000, .i32⟩ : BufTy).Contents (Elt F)))
    (hostOps10_2_at (F := F)) (W25 m ρ c) 1 (by show (1 : Nat) < 39; decide) rfl (by decide) (by decide)

/-- Operation 2: `main_v223` from `main_v204`, `main_v222`. -/
theorem eq_v223 (c : Dev nD) :
    K m ρ c main_v223
      = (cmpi .slt : (⟨S200000, .i32⟩ : BufTy).Contents (Elt F) → (⟨S200000, .i32⟩ : BufTy).Contents (Elt F) → (⟨S200000, .i1⟩ : BufTy).Contents (Elt F)) (K m ρ c main_v204) (K m ρ c main_v222) := by
  rw [K_eq_W26 m ρ c main_v223 (by decide),
    K_eq_W26 m ρ c main_v204 (by decide),
    K_eq_W26 m ρ c main_v222 (by decide)]
  exact binary_final (ha := by decide) (hb := by decide) (hy := by decide) (a := main_v204) (b := main_v222) (y := main_v223) (f := (cmpi .slt : (⟨S200000, .i32⟩ : BufTy).Contents (Elt F) → (⟨S200000, .i32⟩ : BufTy).Contents (Elt F) → (⟨S200000, .i1⟩ : BufTy).Contents (Elt F)))
    (hostOps10_2_at (F := F)) (W25 m ρ c) 2 (by show (2 : Nat) < 39; decide) rfl (by decide) (by decide) (by decide)

/-- Operation 3: `main_c_62`, a constant. -/
theorem eq_c_62 (c : Dev nD) :
    K m ρ c main_c_62
      = ((constantI S_ 32 100000#32) : (⟨S_, .i32⟩ : BufTy).Contents (Elt F)) := by
  rw [K_eq_W26 m ρ c main_c_62 (by decide)]
  exact nullary_final (hy := by decide) (y := main_c_62) (v := ((constantI S_ 32 100000#32) : (⟨S_, .i32⟩ : BufTy).Contents (Elt F)))
    (hostOps10_2_at (F := F)) (W25 m ρ c) 3 (by show (3 : Nat) < 39; decide) rfl (by decide)

/-- Operation 4: `main_v224` from `main_c_62`. -/
theorem eq_v224 (c : Dev nD) :
    K m ρ c main_v224
      = (broadcastInDim S200000 ![] bcast_S_S200000 : (⟨S_, .i32⟩ : BufTy).Contents (Elt F) → (⟨S200000, .i32⟩ : BufTy).Contents (Elt F)) (K m ρ c main_c_62) := by
  rw [K_eq_W26 m ρ c main_v224 (by decide),
    K_eq_W26 m ρ c main_c_62 (by decide)]
  exact unary_final (hx := by decide) (hy := by decide) (x := main_c_62) (y := main_v224) (f := (broadcastInDim S200000 ![] bcast_S_S200000 : (⟨S_, .i32⟩ : BufTy).Contents (Elt F) → (⟨S200000, .i32⟩ : BufTy).Contents (Elt F)))
    (hostOps10_2_at (F := F)) (W25 m ρ c) 4 (by show (4 : Nat) < 39; decide) rfl (by decide) (by decide)

/-- Operation 5: `main_v225` from `main_v204`, `main_v224`. -/
theorem eq_v225 (c : Dev nD) :
    K m ρ c main_v225
      = (addi : (⟨S200000, .i32⟩ : BufTy).Contents (Elt F) → (⟨S200000, .i32⟩ : BufTy).Contents (Elt F) → (⟨S200000, .i32⟩ : BufTy).Contents (Elt F)) (K m ρ c main_v204) (K m ρ c main_v224) := by
  rw [K_eq_W26 m ρ c main_v225 (by decide),
    K_eq_W26 m ρ c main_v204 (by decide),
    K_eq_W26 m ρ c main_v224 (by decide)]
  exact binary_final (ha := by decide) (hb := by decide) (hy := by decide) (a := main_v204) (b := main_v224) (y := main_v225) (f := (addi : (⟨S200000, .i32⟩ : BufTy).Contents (Elt F) → (⟨S200000, .i32⟩ : BufTy).Contents (Elt F) → (⟨S200000, .i32⟩ : BufTy).Contents (Elt F)))
    (hostOps10_2_at (F := F)) (W25 m ρ c) 5 (by show (5 : Nat) < 39; decide) rfl (by decide) (by decide) (by decide)

/-- Operation 6: `main_v226` from `main_v223`, `main_v225`, `main_v204`. -/
theorem eq_v226 (c : Dev nD) :
    K m ρ c main_v226
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v223) (K m ρ c main_v225) (K m ρ c main_v204) := by
  rw [K_eq_W26 m ρ c main_v226 (by decide),
    K_eq_W26 m ρ c main_v223 (by decide),
    K_eq_W26 m ρ c main_v225 (by decide),
    K_eq_W26 m ρ c main_v204 (by decide)]
  exact ternary_final (hc := by decide) (ha := by decide) (hb := by decide) (hy := by decide) (c := main_v223) (a := main_v225) (b := main_v204) (y := main_v226) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps10_2_at (F := F)) (W25 m ρ c) 6 (by show (6 : Nat) < 39; decide) rfl (by decide) (by decide) (by decide) (by decide)

/-- Operation 7: `main_v227` from `main_v226`. -/
theorem eq_v227 (c : Dev nD) :
    K m ρ c main_v227
      = (broadcastInDim S200000x1 ![0] bcast_S200000_S200000x1_0 : (⟨S200000, .i32⟩ : BufTy).Contents (Elt F) → (⟨S200000x1, .i32⟩ : BufTy).Contents (Elt F)) (K m ρ c main_v226) := by
  rw [K_eq_W26 m ρ c main_v227 (by decide),
    K_eq_W26 m ρ c main_v226 (by decide)]
  exact unary_final (hx := by decide) (hy := by decide) (x := main_v226) (y := main_v227) (f := (broadcastInDim S200000x1 ![0] bcast_S200000_S200000x1_0 : (⟨S200000, .i32⟩ : BufTy).Contents (Elt F) → (⟨S200000x1, .i32⟩ : BufTy).Contents (Elt F)))
    (hostOps10_2_at (F := F)) (W25 m ρ c) 7 (by show (7 : Nat) < 39; decide) rfl (by decide) (by decide)

/-- Operation 8: `main_v228` from `main_v221`, `main_v227`. -/
theorem eq_v228 (c : Dev nD) :
    K m ρ c main_v228
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v221) (K m ρ c main_v227) := by
  rw [K_eq_W26 m ρ c main_v228 (by decide),
    K_eq_W26 m ρ c main_v221 (by decide),
    K_eq_W26 m ρ c main_v227 (by decide)]
  exact binary_final (ha := by decide) (hb := by decide) (hy := by decide) (a := main_v221) (b := main_v227) (y := main_v228) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps10_2_at (F := F)) (W25 m ρ c) 8 (by show (8 : Nat) < 39; decide) rfl (by decide) (by decide) (by decide)

/-- Operation 9: `main_c_63`, a constant. -/
theorem eq_c_63 (c : Dev nD) :
    K m ρ c main_c_63
      = ((constantI S_ 32 0#32) : (⟨S_, .i32⟩ : BufTy).Contents (Elt F)) := by
  rw [K_eq_W26 m ρ c main_c_63 (by decide)]
  exact nullary_final (hy := by decide) (y := main_c_63) (v := ((constantI S_ 32 0#32) : (⟨S_, .i32⟩ : BufTy).Contents (Elt F)))
    (hostOps10_2_at (F := F)) (W25 m ρ c) 9 (by show (9 : Nat) < 39; decide) rfl (by decide)

/-- Operation 10: `main_v229` from `main_c_63`. -/
theorem eq_v229 (c : Dev nD) :
    K m ρ c main_v229
      = (broadcastInDim S200000 ![] bcast_S_S200000 : (⟨S_, .i32⟩ : BufTy).Contents (Elt F) → (⟨S200000, .i32⟩ : BufTy).Contents (Elt F)) (K m ρ c main_c_63) := by
  rw [K_eq_W26 m ρ c main_v229 (by decide),
    K_eq_W26 m ρ c main_c_63 (by decide)]
  exact unary_final (hx := by decide) (hy := by decide) (x := main_c_63) (y := main_v229) (f := (broadcastInDim S200000 ![] bcast_S_S200000 : (⟨S_, .i32⟩ : BufTy).Contents (Elt F) → (⟨S200000, .i32⟩ : BufTy).Contents (Elt F)))
    (hostOps10_2_at (F := F)) (W25 m ρ c) 10 (by show (10 : Nat) < 39; decide) rfl (by decide) (by decide)

/-- Operation 11: `main_v230` from `main_v206`, `main_v229`. -/
theorem eq_v230 (c : Dev nD) :
    K m ρ c main_v230
      = (cmpi .slt : (⟨S200000, .i32⟩ : BufTy).Contents (Elt F) → (⟨S200000, .i32⟩ : BufTy).Contents (Elt F) → (⟨S200000, .i1⟩ : BufTy).Contents (Elt F)) (K m ρ c main_v206) (K m ρ c main_v229) := by
  rw [K_eq_W26 m ρ c main_v230 (by decide),
    K_eq_W26 m ρ c main_v206 (by decide),
    K_eq_W26 m ρ c main_v229 (by decide)]
  exact binary_final (ha := by decide) (hb := by decide) (hy := by decide) (a := main_v206) (b := main_v229) (y := main_v230) (f := (cmpi .slt : (⟨S200000, .i32⟩ : BufTy).Contents (Elt F) → (⟨S200000, .i32⟩ : BufTy).Contents (Elt F) → (⟨S200000, .i1⟩ : BufTy).Contents (Elt F)))
    (hostOps10_2_at (F := F)) (W25 m ρ c) 11 (by show (11 : Nat) < 39; decide) rfl (by decide) (by decide) (by decide)

/-- Operation 12: `main_c_64`, a constant. -/
theorem eq_c_64 (c : Dev nD) :
    K m ρ c main_c_64
      = ((constantI S_ 32 100000#32) : (⟨S_, .i32⟩ : BufTy).Contents (Elt F)) := by
  rw [K_eq_W26 m ρ c main_c_64 (by decide)]
  exact nullary_final (hy := by decide) (y := main_c_64) (v := ((constantI S_ 32 100000#32) : (⟨S_, .i32⟩ : BufTy).Contents (Elt F)))
    (hostOps10_2_at (F := F)) (W25 m ρ c) 12 (by show (12 : Nat) < 39; decide) rfl (by decide)

/-- Operation 13: `main_v231` from `main_c_64`. -/
theorem eq_v231 (c : Dev nD) :
    K m ρ c main_v231
      = (broadcastInDim S200000 ![] bcast_S_S200000 : (⟨S_, .i32⟩ : BufTy).Contents (Elt F) → (⟨S200000, .i32⟩ : BufTy).Contents (Elt F)) (K m ρ c main_c_64) := by
  rw [K_eq_W26 m ρ c main_v231 (by decide),
    K_eq_W26 m ρ c main_c_64 (by decide)]
  exact unary_final (hx := by decide) (hy := by decide) (x := main_c_64) (y := main_v231) (f := (broadcastInDim S200000 ![] bcast_S_S200000 : (⟨S_, .i32⟩ : BufTy).Contents (Elt F) → (⟨S200000, .i32⟩ : BufTy).Contents (Elt F)))
    (hostOps10_2_at (F := F)) (W25 m ρ c) 13 (by show (13 : Nat) < 39; decide) rfl (by decide) (by decide)

/-- Operation 14: `main_v232` from `main_v206`, `main_v231`. -/
theorem eq_v232 (c : Dev nD) :
    K m ρ c main_v232
      = (addi : (⟨S200000, .i32⟩ : BufTy).Contents (Elt F) → (⟨S200000, .i32⟩ : BufTy).Contents (Elt F) → (⟨S200000, .i32⟩ : BufTy).Contents (Elt F)) (K m ρ c main_v206) (K m ρ c main_v231) := by
  rw [K_eq_W26 m ρ c main_v232 (by decide),
    K_eq_W26 m ρ c main_v206 (by decide),
    K_eq_W26 m ρ c main_v231 (by decide)]
  exact binary_final (ha := by decide) (hb := by decide) (hy := by decide) (a := main_v206) (b := main_v231) (y := main_v232) (f := (addi : (⟨S200000, .i32⟩ : BufTy).Contents (Elt F) → (⟨S200000, .i32⟩ : BufTy).Contents (Elt F) → (⟨S200000, .i32⟩ : BufTy).Contents (Elt F)))
    (hostOps10_2_at (F := F)) (W25 m ρ c) 14 (by show (14 : Nat) < 39; decide) rfl (by decide) (by decide) (by decide)

/-- Operation 15: `main_v233` from `main_v230`, `main_v232`, `main_v206`. -/
theorem eq_v233 (c : Dev nD) :
    K m ρ c main_v233
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v230) (K m ρ c main_v232) (K m ρ c main_v206) := by
  rw [K_eq_W26 m ρ c main_v233 (by decide),
    K_eq_W26 m ρ c main_v230 (by decide),
    K_eq_W26 m ρ c main_v232 (by decide),
    K_eq_W26 m ρ c main_v206 (by decide)]
  exact ternary_final (hc := by decide) (ha := by decide) (hb := by decide) (hy := by decide) (c := main_v230) (a := main_v232) (b := main_v206) (y := main_v233) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps10_2_at (F := F)) (W25 m ρ c) 15 (by show (15 : Nat) < 39; decide) rfl (by decide) (by decide) (by decide) (by decide)

/-- Operation 16: `main_v234` from `main_v233`. -/
theorem eq_v234 (c : Dev nD) :
    K m ρ c main_v234
      = (broadcastInDim S200000x1 ![0] bcast_S200000_S200000x1_0 : (⟨S200000, .i32⟩ : BufTy).Contents (Elt F) → (⟨S200000x1, .i32⟩ : BufTy).Contents (Elt F)) (K m ρ c main_v233) := by
  rw [K_eq_W26 m ρ c main_v234 (by decide),
    K_eq_W26 m ρ c main_v233 (by decide)]
  exact unary_final (hx := by decide) (hy := by decide) (x := main_v233) (y := main_v234) (f := (broadcastInDim S200000x1 ![0] bcast_S200000_S200000x1_0 : (⟨S200000, .i32⟩ : BufTy).Contents (Elt F) → (⟨S200000x1, .i32⟩ : BufTy).Contents (Elt F)))
    (hostOps10_2_at (F := F)) (W25 m ρ c) 16 (by show (16 : Nat) < 39; decide) rfl (by decide) (by decide)

/-- Operation 17: `main_v235` from `main_v221`, `main_v234`. -/
theorem eq_v235 (c : Dev nD) :
    K m ρ c main_v235
      = ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)) (K m ρ c main_v221) (K m ρ c main_v234) := by
  rw [K_eq_W26 m ρ c main_v235 (by decide),
    K_eq_W26 m ρ c main_v221 (by decide),
    K_eq_W26 m ρ c main_v234 (by decide)]
  exact binary_final (ha := by decide) (hb := by decide) (hy := by decide) (a := main_v221) (b := main_v234) (y := main_v235) (f := ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F)))
    (hostOps10_2_at (F := F)) (W25 m ρ c) 17 (by show (17 : Nat) < 39; decide) rfl (by decide) (by decide) (by decide)

/-- Operation 18: `main_v236` from `main_v228`, `main_v235`. -/
theorem eq_v236 (c : Dev nD) :
    K m ρ c main_v236
      = (mulf : (⟨S200000, .f32⟩ : BufTy).Contents (Elt F) → (⟨S200000, .f32⟩ : BufTy).Contents (Elt F) → (⟨S200000, .f32⟩ : BufTy).Contents (Elt F)) (K m ρ c main_v228) (K m ρ c main_v235) := by
  rw [K_eq_W26 m ρ c main_v236 (by decide),
    K_eq_W26 m ρ c main_v228 (by decide),
    K_eq_W26 m ρ c main_v235 (by decide)]
  exact binary_final (ha := by decide) (hb := by decide) (hy := by decide) (a := main_v228) (b := main_v235) (y := main_v236) (f := (mulf : (⟨S200000, .f32⟩ : BufTy).Contents (Elt F) → (⟨S200000, .f32⟩ : BufTy).Contents (Elt F) → (⟨S200000, .f32⟩ : BufTy).Contents (Elt F)))
    (hostOps10_2_at (F := F)) (W25 m ρ c) 18 (by show (18 : Nat) < 39; decide) rfl (by decide) (by decide) (by decide)

/-- Operation 19: `main_c_65`, a constant. -/
theorem eq_c_65 (c : Dev nD) :
    K m ρ c main_c_65
      = ((constantI S_ 32 0#32) : (⟨S_, .i32⟩ : BufTy).Contents (Elt F)) := by
  rw [K_eq_W26 m ρ c main_c_65 (by decide)]
  exact nullary_final (hy := by decide) (y := main_c_65) (v := ((constantI S_ 32 0#32) : (⟨S_, .i32⟩ : BufTy).Contents (Elt F)))
    (hostOps10_2_at (F := F)) (W25 m ρ c) 19 (by show (19 : Nat) < 39; decide) rfl (by decide)

/-- Operation 20: `main_v237` from `main_c_65`. -/
theorem eq_v237 (c : Dev nD) :
    K m ρ c main_v237
      = (broadcastInDim S200000 ![] bcast_S_S200000 : (⟨S_, .i32⟩ : BufTy).Contents (Elt F) → (⟨S200000, .i32⟩ : BufTy).Contents (Elt F)) (K m ρ c main_c_65) := by
  rw [K_eq_W26 m ρ c main_v237 (by decide),
    K_eq_W26 m ρ c main_c_65 (by decide)]
  exact unary_final (hx := by decide) (hy := by decide) (x := main_c_65) (y := main_v237) (f := (broadcastInDim S200000 ![] bcast_S_S200000 : (⟨S_, .i32⟩ : BufTy).Contents (Elt F) → (⟨S200000, .i32⟩ : BufTy).Contents (Elt F)))
    (hostOps10_2_at (F := F)) (W25 m ρ c) 20 (by show (20 : Nat) < 39; decide) rfl (by decide) (by decide)

/-- Operation 21: `main_v238` from `main_v204`, `main_v237`. -/
theorem eq_v238 (c : Dev nD) :
    K m ρ c main_v238
      = (cmpi .slt : (⟨S200000, .i32⟩ : BufTy).Contents (Elt F) → (⟨S200000, .i32⟩ : BufTy).Contents (Elt F) → (⟨S200000, .i1⟩ : BufTy).Contents (Elt F)) (K m ρ c main_v204) (K m ρ c main_v237) := by
  rw [K_eq_W26 m ρ c main_v238 (by decide),
    K_eq_W26 m ρ c main_v204 (by decide),
    K_eq_W26 m ρ c main_v237 (by decide)]
  exact binary_final (ha := by decide) (hb := by decide) (hy := by decide) (a := main_v204) (b := main_v237) (y := main_v238) (f := (cmpi .slt : (⟨S200000, .i32⟩ : BufTy).Contents (Elt F) → (⟨S200000, .i32⟩ : BufTy).Contents (Elt F) → (⟨S200000, .i1⟩ : BufTy).Contents (Elt F)))
    (hostOps10_2_at (F := F)) (W25 m ρ c) 21 (by show (21 : Nat) < 39; decide) rfl (by decide) (by decide) (by decide)

/-- Operation 22: `main_c_66`, a constant. -/
theorem eq_c_66 (c : Dev nD) :
    K m ρ c main_c_66
      = ((constantI S_ 32 100000#32) : (⟨S_, .i32⟩ : BufTy).Contents (Elt F)) := by
  rw [K_eq_W26 m ρ c main_c_66 (by decide)]
  exact nullary_final (hy := by decide) (y := main_c_66) (v := ((constantI S_ 32 100000#32) : (⟨S_, .i32⟩ : BufTy).Contents (Elt F)))
    (hostOps10_2_at (F := F)) (W25 m ρ c) 22 (by show (22 : Nat) < 39; decide) rfl (by decide)

/-- Operation 23: `main_v239` from `main_c_66`. -/
theorem eq_v239 (c : Dev nD) :
    K m ρ c main_v239
      = (broadcastInDim S200000 ![] bcast_S_S200000 : (⟨S_, .i32⟩ : BufTy).Contents (Elt F) → (⟨S200000, .i32⟩ : BufTy).Contents (Elt F)) (K m ρ c main_c_66) := by
  rw [K_eq_W26 m ρ c main_v239 (by decide),
    K_eq_W26 m ρ c main_c_66 (by decide)]
  exact unary_final (hx := by decide) (hy := by decide) (x := main_c_66) (y := main_v239) (f := (broadcastInDim S200000 ![] bcast_S_S200000 : (⟨S_, .i32⟩ : BufTy).Contents (Elt F) → (⟨S200000, .i32⟩ : BufTy).Contents (Elt F)))
    (hostOps10_2_at (F := F)) (W25 m ρ c) 23 (by show (23 : Nat) < 39; decide) rfl (by decide) (by decide)

/-- Operation 24: `main_v240` from `main_v204`, `main_v239`. -/
theorem eq_v240 (c : Dev nD) :
    K m ρ c main_v240
      = (addi : (⟨S200000, .i32⟩ : BufTy).Contents (Elt F) → (⟨S200000, .i32⟩ : BufTy).Contents (Elt F) → (⟨S200000, .i32⟩ : BufTy).Contents (Elt F)) (K m ρ c main_v204) (K m ρ c main_v239) := by
  rw [K_eq_W26 m ρ c main_v240 (by decide),
    K_eq_W26 m ρ c main_v204 (by decide),
    K_eq_W26 m ρ c main_v239 (by decide)]
  exact binary_final (ha := by decide) (hb := by decide) (hy := by decide) (a := main_v204) (b := main_v239) (y := main_v240) (f := (addi : (⟨S200000, .i32⟩ : BufTy).Contents (Elt F) → (⟨S200000, .i32⟩ : BufTy).Contents (Elt F) → (⟨S200000, .i32⟩ : BufTy).Contents (Elt F)))
    (hostOps10_2_at (F := F)) (W25 m ρ c) 24 (by show (24 : Nat) < 39; decide) rfl (by decide) (by decide) (by decide)

/-- Operation 25: `main_v241` from `main_v238`, `main_v240`, `main_v204`. -/
theorem eq_v241 (c : Dev nD) :
    K m ρ c main_v241
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v238) (K m ρ c main_v240) (K m ρ c main_v204) := by
  rw [K_eq_W26 m ρ c main_v241 (by decide),
    K_eq_W26 m ρ c main_v238 (by decide),
    K_eq_W26 m ρ c main_v240 (by decide),
    K_eq_W26 m ρ c main_v204 (by decide)]
  exact ternary_final (hc := by decide) (ha := by decide) (hb := by decide) (hy := by decide) (c := main_v238) (a := main_v240) (b := main_v204) (y := main_v241) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps10_2_at (F := F)) (W25 m ρ c) 25 (by show (25 : Nat) < 39; decide) rfl (by decide) (by decide) (by decide) (by decide)

/-- Operation 26: `main_v242` from `main_v241`. -/
theorem eq_v242 (c : Dev nD) :
    K m ρ c main_v242
      = (broadcastInDim S200000x1 ![0] bcast_S200000_S200000x1_0 : (⟨S200000, .i32⟩ : BufTy).Contents (Elt F) → (⟨S200000x1, .i32⟩ : BufTy).Contents (Elt F)) (K m ρ c main_v241) := by
  rw [K_eq_W26 m ρ c main_v242 (by decide),
    K_eq_W26 m ρ c main_v241 (by decide)]
  exact unary_final (hx := by decide) (hy := by decide) (x := main_v241) (y := main_v242) (f := (broadcastInDim S200000x1 ![0] bcast_S200000_S200000x1_0 : (⟨S200000, .i32⟩ : BufTy).Contents (Elt F) → (⟨S200000x1, .i32⟩ : BufTy).Contents (Elt F)))
    (hostOps10_2_at (F := F)) (W25 m ρ c) 26 (by show (26 : Nat) < 39; decide) rfl (by decide) (by decide)

/-- Operation 27: `main_v243` from `main_v139`, `main_v242`. -/
theorem eq_v243 (c : Dev nD) :
    K m ρ c main_v243
      = ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)) (K m ρ c main_v139) (K m ρ c main_v242) := by
  rw [K_eq_W26 m ρ c main_v243 (by decide),
    K_eq_W26 m ρ c main_v139 (by decide),
    K_eq_W26 m ρ c main_v242 (by decide)]
  exact binary_final (ha := by decide) (hb := by decide) (hy := by decide) (a := main_v139) (b := main_v242) (y := main_v243) (f := ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F)))
    (hostOps10_2_at (F := F)) (W25 m ρ c) 27 (by show (27 : Nat) < 39; decide) rfl (by decide) (by decide) (by decide)

/-- Operation 28: `main_c_67`, a constant. -/
theorem eq_c_67 (c : Dev nD) :
    K m ρ c main_c_67
      = ((constantI S_ 32 0#32) : (⟨S_, .i32⟩ : BufTy).Contents (Elt F)) := by
  rw [K_eq_W26 m ρ c main_c_67 (by decide)]
  exact nullary_final (hy := by decide) (y := main_c_67) (v := ((constantI S_ 32 0#32) : (⟨S_, .i32⟩ : BufTy).Contents (Elt F)))
    (hostOps10_2_at (F := F)) (W25 m ρ c) 28 (by show (28 : Nat) < 39; decide) rfl (by decide)

/-- Operation 29: `main_v244` from `main_c_67`. -/
theorem eq_v244 (c : Dev nD) :
    K m ρ c main_v244
      = (broadcastInDim S200000 ![] bcast_S_S200000 : (⟨S_, .i32⟩ : BufTy).Contents (Elt F) → (⟨S200000, .i32⟩ : BufTy).Contents (Elt F)) (K m ρ c main_c_67) := by
  rw [K_eq_W26 m ρ c main_v244 (by decide),
    K_eq_W26 m ρ c main_c_67 (by decide)]
  exact unary_final (hx := by decide) (hy := by decide) (x := main_c_67) (y := main_v244) (f := (broadcastInDim S200000 ![] bcast_S_S200000 : (⟨S_, .i32⟩ : BufTy).Contents (Elt F) → (⟨S200000, .i32⟩ : BufTy).Contents (Elt F)))
    (hostOps10_2_at (F := F)) (W25 m ρ c) 29 (by show (29 : Nat) < 39; decide) rfl (by decide) (by decide)

/-- Operation 30: `main_v245` from `main_v202`, `main_v244`. -/
theorem eq_v245 (c : Dev nD) :
    K m ρ c main_v245
      = (cmpi .slt : (⟨S200000, .i32⟩ : BufTy).Contents (Elt F) → (⟨S200000, .i32⟩ : BufTy).Contents (Elt F) → (⟨S200000, .i1⟩ : BufTy).Contents (Elt F)) (K m ρ c main_v202) (K m ρ c main_v244) := by
  rw [K_eq_W26 m ρ c main_v245 (by decide),
    K_eq_W26 m ρ c main_v202 (by decide),
    K_eq_W26 m ρ c main_v244 (by decide)]
  exact binary_final (ha := by decide) (hb := by decide) (hy := by decide) (a := main_v202) (b := main_v244) (y := main_v245) (f := (cmpi .slt : (⟨S200000, .i32⟩ : BufTy).Contents (Elt F) → (⟨S200000, .i32⟩ : BufTy).Contents (Elt F) → (⟨S200000, .i1⟩ : BufTy).Contents (Elt F)))
    (hostOps10_2_at (F := F)) (W25 m ρ c) 30 (by show (30 : Nat) < 39; decide) rfl (by decide) (by decide) (by decide)

/-- Operation 31: `main_c_68`, a constant. -/
theorem eq_c_68 (c : Dev nD) :
    K m ρ c main_c_68
      = ((constantI S_ 32 401#32) : (⟨S_, .i32⟩ : BufTy).Contents (Elt F)) := by
  rw [K_eq_W26 m ρ c main_c_68 (by decide)]
  exact nullary_final (hy := by decide) (y := main_c_68) (v := ((constantI S_ 32 401#32) : (⟨S_, .i32⟩ : BufTy).Contents (Elt F)))
    (hostOps10_2_at (F := F)) (W25 m ρ c) 31 (by show (31 : Nat) < 39; decide) rfl (by decide)

/-- Operation 32: `main_v246` from `main_c_68`. -/
theorem eq_v246 (c : Dev nD) :
    K m ρ c main_v246
      = (broadcastInDim S200000 ![] bcast_S_S200000 : (⟨S_, .i32⟩ : BufTy).Contents (Elt F) → (⟨S200000, .i32⟩ : BufTy).Contents (Elt F)) (K m ρ c main_c_68) := by
  rw [K_eq_W26 m ρ c main_v246 (by decide),
    K_eq_W26 m ρ c main_c_68 (by decide)]
  exact unary_final (hx := by decide) (hy := by decide) (x := main_c_68) (y := main_v246) (f := (broadcastInDim S200000 ![] bcast_S_S200000 : (⟨S_, .i32⟩ : BufTy).Contents (Elt F) → (⟨S200000, .i32⟩ : BufTy).Contents (Elt F)))
    (hostOps10_2_at (F := F)) (W25 m ρ c) 32 (by show (32 : Nat) < 39; decide) rfl (by decide) (by decide)

/-- Operation 33: `main_v247` from `main_v202`, `main_v246`. -/
theorem eq_v247 (c : Dev nD) :
    K m ρ c main_v247
      = (addi : (⟨S200000, .i32⟩ : BufTy).Contents (Elt F) → (⟨S200000, .i32⟩ : BufTy).Contents (Elt F) → (⟨S200000, .i32⟩ : BufTy).Contents (Elt F)) (K m ρ c main_v202) (K m ρ c main_v246) := by
  rw [K_eq_W26 m ρ c main_v247 (by decide),
    K_eq_W26 m ρ c main_v202 (by decide),
    K_eq_W26 m ρ c main_v246 (by decide)]
  exact binary_final (ha := by decide) (hb := by decide) (hy := by decide) (a := main_v202) (b := main_v246) (y := main_v247) (f := (addi : (⟨S200000, .i32⟩ : BufTy).Contents (Elt F) → (⟨S200000, .i32⟩ : BufTy).Contents (Elt F) → (⟨S200000, .i32⟩ : BufTy).Contents (Elt F)))
    (hostOps10_2_at (F := F)) (W25 m ρ c) 33 (by show (33 : Nat) < 39; decide) rfl (by decide) (by decide) (by decide)

/-- Operation 34: `main_v248` from `main_v245`, `main_v247`, `main_v202`. -/
theorem eq_v248 (c : Dev nD) :
    K m ρ c main_v248
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v245) (K m ρ c main_v247) (K m ρ c main_v202) := by
  rw [K_eq_W26 m ρ c main_v248 (by decide),
    K_eq_W26 m ρ c main_v245 (by decide),
    K_eq_W26 m ρ c main_v247 (by decide),
    K_eq_W26 m ρ c main_v202 (by decide)]
  exact ternary_final (hc := by decide) (ha := by decide) (hb := by decide) (hy := by decide) (c := main_v245) (a := main_v247) (b := main_v202) (y := main_v248) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps10_2_at (F := F)) (W25 m ρ c) 34 (by show (34 : Nat) < 39; decide) rfl (by decide) (by decide) (by decide) (by decide)

/-- Operation 35: `main_v249` from `main_v248`. -/
theorem eq_v249 (c : Dev nD) :
    K m ρ c main_v249
      = (broadcastInDim S200000x1 ![0] bcast_S200000_S200000x1_0 : (⟨S200000, .i32⟩ : BufTy).Contents (Elt F) → (⟨S200000x1, .i32⟩ : BufTy).Contents (Elt F)) (K m ρ c main_v248) := by
  rw [K_eq_W26 m ρ c main_v249 (by decide),
    K_eq_W26 m ρ c main_v248 (by decide)]
  exact unary_final (hx := by decide) (hy := by decide) (x := main_v248) (y := main_v249) (f := (broadcastInDim S200000x1 ![0] bcast_S200000_S200000x1_0 : (⟨S200000, .i32⟩ : BufTy).Contents (Elt F) → (⟨S200000x1, .i32⟩ : BufTy).Contents (Elt F)))
    (hostOps10_2_at (F := F)) (W25 m ρ c) 35 (by show (35 : Nat) < 39; decide) rfl (by decide) (by decide)

/-- Operation 36: `main_v250` from `main_v138`, `main_v249`. -/
theorem eq_v250 (c : Dev nD) :
    K m ρ c main_v250
      = ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)) (K m ρ c main_v138) (K m ρ c main_v249) := by
  rw [K_eq_W26 m ρ c main_v250 (by decide),
    K_eq_W26 m ρ c main_v138 (by decide),
    K_eq_W26 m ρ c main_v249 (by decide)]
  exact binary_final (ha := by decide) (hb := by decide) (hy := by decide) (a := main_v138) (b := main_v249) (y := main_v250) (f := ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F)))
    (hostOps10_2_at (F := F)) (W25 m ρ c) 36 (by show (36 : Nat) < 39; decide) rfl (by decide) (by decide) (by decide)

/-- Operation 37: `main_v251` from `main_v243`, `main_v250`. -/
theorem eq_v251 (c : Dev nD) :
    K m ρ c main_v251
      = (subf : (⟨S200000x200, .f32⟩ : BufTy).Contents (Elt F) → (⟨S200000x200, .f32⟩ : BufTy).Contents (Elt F) → (⟨S200000x200, .f32⟩ : BufTy).Contents (Elt F)) (K m ρ c main_v243) (K m ρ c main_v250) := by
  rw [K_eq_W26 m ρ c main_v251 (by decide),
    K_eq_W26 m ρ c main_v243 (by decide),
    K_eq_W26 m ρ c main_v250 (by decide)]
  exact binary_final (ha := by decide) (hb := by decide) (hy := by decide) (a := main_v243) (b := main_v250) (y := main_v251) (f := (subf : (⟨S200000x200, .f32⟩ : BufTy).Contents (Elt F) → (⟨S200000x200, .f32⟩ : BufTy).Contents (Elt F) → (⟨S200000x200, .f32⟩ : BufTy).Contents (Elt F)))
    (hostOps10_2_at (F := F)) (W25 m ρ c) 37 (by show (37 : Nat) < 39; decide) rfl (by decide) (by decide) (by decide)

/-- Operation 38: `main_v252` from `main_v236`. -/
theorem eq_v252 (c : Dev nD) :
    K m ρ c main_v252
      = (broadcastInDim S200000x1 ![0] bcast_S200000_S200000x1_0 : (⟨S200000, .f32⟩ : BufTy).Contents (Elt F) → (⟨S200000x1, .f32⟩ : BufTy).Contents (Elt F)) (K m ρ c main_v236) := by
  rw [K_eq_W26 m ρ c main_v252 (by decide),
    K_eq_W26 m ρ c main_v236 (by decide)]
  exact unary_final (hx := by decide) (hy := by decide) (x := main_v236) (y := main_v252) (f := (broadcastInDim S200000x1 ![0] bcast_S200000_S200000x1_0 : (⟨S200000, .f32⟩ : BufTy).Contents (Elt F) → (⟨S200000x1, .f32⟩ : BufTy).Contents (Elt F)))
    (hostOps10_2_at (F := F)) (W25 m ρ c) 38 (by show (38 : Nat) < 39; decide) rfl (by decide) (by decide)

end Cert.KernelIdeal.HandRun

end
-- ==== Proof.KernelEqsHost11.lean ====
/-
  The equations the host operations of `hostOps11` (segment 27) leave between FINAL contents.

  The stretch is in single-assignment form: operation `i` writes the one buffer `hostOps11_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_cst_69`, a constant. -/
theorem eq_cst_69 (c : Dev nD) :
    K m ρ c main_cst_69
      = ((constant S_ .f32 0x00000000#32) : (⟨S_, .f32⟩ : BufTy).Contents (Elt F)) := by
  rw [K_eq_W28 m ρ c main_cst_69 (by decide)]
  exact nullary_final (hy := by decide) (y := main_cst_69) (v := ((constant S_ .f32 0x00000000#32) : (⟨S_, .f32⟩ : BufTy).Contents (Elt F)))
    (hostOps11_at (F := F)) (W27 m ρ c) 0 (by show (0 : Nat) < 13; decide) rfl (by decide)

/-- Operation 1: `main_v254` from `main_cst_69`. -/
theorem eq_v254 (c : Dev nD) :
    K m ρ c main_v254
      = (broadcastInDim S100000x200 ![] bcast_S_S100000x200 : (⟨S_, .f32⟩ : BufTy).Contents (Elt F) → (⟨S100000x200, .f32⟩ : BufTy).Contents (Elt F)) (K m ρ c main_cst_69) := by
  rw [K_eq_W28 m ρ c main_v254 (by decide),
    K_eq_W28 m ρ c main_cst_69 (by decide)]
  exact unary_final (hx := by decide) (hy := by decide) (x := main_cst_69) (y := main_v254) (f := (broadcastInDim S100000x200 ![] bcast_S_S100000x200 : (⟨S_, .f32⟩ : BufTy).Contents (Elt F) → (⟨S100000x200, .f32⟩ : BufTy).Contents (Elt F)))
    (hostOps11_at (F := F)) (W27 m ρ c) 1 (by show (1 : Nat) < 13; decide) rfl (by decide) (by decide)

/-- Operation 2: `main_c_70`, a constant. -/
theorem eq_c_70 (c : Dev nD) :
    K m ρ c main_c_70
      = ((constantI S_ 32 0#32) : (⟨S_, .i32⟩ : BufTy).Contents (Elt F)) := by
  rw [K_eq_W28 m ρ c main_c_70 (by decide)]
  exact nullary_final (hy := by decide) (y := main_c_70) (v := ((constantI S_ 32 0#32) : (⟨S_, .i32⟩ : BufTy).Contents (Elt F)))
    (hostOps11_at (F := F)) (W27 m ρ c) 2 (by show (2 : Nat) < 13; decide) rfl (by decide)

/-- Operation 3: `main_v255` from `main_c_70`. -/
theorem eq_v255 (c : Dev nD) :
    K m ρ c main_v255
      = (broadcastInDim S200000 ![] bcast_S_S200000 : (⟨S_, .i32⟩ : BufTy).Contents (Elt F) → (⟨S200000, .i32⟩ : BufTy).Contents (Elt F)) (K m ρ c main_c_70) := by
  rw [K_eq_W28 m ρ c main_v255 (by decide),
    K_eq_W28 m ρ c main_c_70 (by decide)]
  exact unary_final (hx := by decide) (hy := by decide) (x := main_c_70) (y := main_v255) (f := (broadcastInDim S200000 ![] bcast_S_S200000 : (⟨S_, .i32⟩ : BufTy).Contents (Elt F) → (⟨S200000, .i32⟩ : BufTy).Contents (Elt F)))
    (hostOps11_at (F := F)) (W27 m ρ c) 3 (by show (3 : Nat) < 13; decide) rfl (by decide) (by decide)

/-- Operation 4: `main_v256` from `main_v206`, `main_v255`. -/
theorem eq_v256 (c : Dev nD) :
    K m ρ c main_v256
      = (cmpi .slt : (⟨S200000, .i32⟩ : BufTy).Contents (Elt F) → (⟨S200000, .i32⟩ : BufTy).Contents (Elt F) → (⟨S200000, .i1⟩ : BufTy).Contents (Elt F)) (K m ρ c main_v206) (K m ρ c main_v255) := by
  rw [K_eq_W28 m ρ c main_v256 (by decide),
    K_eq_W28 m ρ c main_v206 (by decide),
    K_eq_W28 m ρ c main_v255 (by decide)]
  exact binary_final (ha := by decide) (hb := by decide) (hy := by decide) (a := main_v206) (b := main_v255) (y := main_v256) (f := (cmpi .slt : (⟨S200000, .i32⟩ : BufTy).Contents (Elt F) → (⟨S200000, .i32⟩ : BufTy).Contents (Elt F) → (⟨S200000, .i1⟩ : BufTy).Contents (Elt F)))
    (hostOps11_at (F := F)) (W27 m ρ c) 4 (by show (4 : Nat) < 13; decide) rfl (by decide) (by decide) (by decide)

/-- Operation 5: `main_c_71`, a constant. -/
theorem eq_c_71 (c : Dev nD) :
    K m ρ c main_c_71
      = ((constantI S_ 32 100000#32) : (⟨S_, .i32⟩ : BufTy).Contents (Elt F)) := by
  rw [K_eq_W28 m ρ c main_c_71 (by decide)]
  exact nullary_final (hy := by decide) (y := main_c_71) (v := ((constantI S_ 32 100000#32) : (⟨S_, .i32⟩ : BufTy).Contents (Elt F)))
    (hostOps11_at (F := F)) (W27 m ρ c) 5 (by show (5 : Nat) < 13; decide) rfl (by decide)

/-- Operation 6: `main_v257` from `main_c_71`. -/
theorem eq_v257 (c : Dev nD) :
    K m ρ c main_v257
      = (broadcastInDim S200000 ![] bcast_S_S200000 : (⟨S_, .i32⟩ : BufTy).Contents (Elt F) → (⟨S200000, .i32⟩ : BufTy).Contents (Elt F)) (K m ρ c main_c_71) := by
  rw [K_eq_W28 m ρ c main_v257 (by decide),
    K_eq_W28 m ρ c main_c_71 (by decide)]
  exact unary_final (hx := by decide) (hy := by decide) (x := main_c_71) (y := main_v257) (f := (broadcastInDim S200000 ![] bcast_S_S200000 : (⟨S_, .i32⟩ : BufTy).Contents (Elt F) → (⟨S200000, .i32⟩ : BufTy).Contents (Elt F)))
    (hostOps11_at (F := F)) (W27 m ρ c) 6 (by show (6 : Nat) < 13; decide) rfl (by decide) (by decide)

/-- Operation 7: `main_v258` from `main_v206`, `main_v257`. -/
theorem eq_v258 (c : Dev nD) :
    K m ρ c main_v258
      = (addi : (⟨S200000, .i32⟩ : BufTy).Contents (Elt F) → (⟨S200000, .i32⟩ : BufTy).Contents (Elt F) → (⟨S200000, .i32⟩ : BufTy).Contents (Elt F)) (K m ρ c main_v206) (K m ρ c main_v257) := by
  rw [K_eq_W28 m ρ c main_v258 (by decide),
    K_eq_W28 m ρ c main_v206 (by decide),
    K_eq_W28 m ρ c main_v257 (by decide)]
  exact binary_final (ha := by decide) (hb := by decide) (hy := by decide) (a := main_v206) (b := main_v257) (y := main_v258) (f := (addi : (⟨S200000, .i32⟩ : BufTy).Contents (Elt F) → (⟨S200000, .i32⟩ : BufTy).Contents (Elt F) → (⟨S200000, .i32⟩ : BufTy).Contents (Elt F)))
    (hostOps11_at (F := F)) (W27 m ρ c) 7 (by show (7 : Nat) < 13; decide) rfl (by decide) (by decide) (by decide)

/-- Operation 8: `main_v259` from `main_v256`, `main_v258`, `main_v206`. -/
theorem eq_v259 (c : Dev nD) :
    K m ρ c main_v259
      = (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)) (K m ρ c main_v256) (K m ρ c main_v258) (K m ρ c main_v206) := by
  rw [K_eq_W28 m ρ c main_v259 (by decide),
    K_eq_W28 m ρ c main_v256 (by decide),
    K_eq_W28 m ρ c main_v258 (by decide),
    K_eq_W28 m ρ c main_v206 (by decide)]
  exact ternary_final (hc := by decide) (ha := by decide) (hb := by decide) (hy := by decide) (c := main_v256) (a := main_v258) (b := main_v206) (y := main_v259) (f := (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)))
    (hostOps11_at (F := F)) (W27 m ρ c) 8 (by show (8 : Nat) < 13; decide) rfl (by decide) (by decide) (by decide) (by decide)

/-- Operation 9: `main_v260` from `main_v259`. -/
theorem eq_v260 (c : Dev nD) :
    K m ρ c main_v260
      = (broadcastInDim S200000x1 ![0] bcast_S200000_S200000x1_0 : (⟨S200000, .i32⟩ : BufTy).Contents (Elt F) → (⟨S200000x1, .i32⟩ : BufTy).Contents (Elt F)) (K m ρ c main_v259) := by
  rw [K_eq_W28 m ρ c main_v260 (by decide),
    K_eq_W28 m ρ c main_v259 (by decide)]
  exact unary_final (hx := by decide) (hy := by decide) (x := main_v259) (y := main_v260) (f := (broadcastInDim S200000x1 ![0] bcast_S200000_S200000x1_0 : (⟨S200000, .i32⟩ : BufTy).Contents (Elt F) → (⟨S200000x1, .i32⟩ : BufTy).Contents (Elt F)))
    (hostOps11_at (F := F)) (W27 m ρ c) 9 (by show (9 : Nat) < 13; decide) rfl (by decide) (by decide)

/-- Operation 10: `main_v261` from `main_v254`, `main_v260`, `main_v253`. -/
theorem eq_v261 (c : Dev nD) :
    K m ρ c main_v261
      = ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)) (K m ρ c main_v254) (K m ρ c main_v260) (K m ρ c main_v253) := by
  rw [K_eq_W28 m ρ c main_v261 (by decide),
    K_eq_W28 m ρ c main_v254 (by decide),
    K_eq_W28 m ρ c main_v260 (by decide),
    K_eq_W28 m ρ c main_v253 (by decide)]
  exact ternary_final (hc := by decide) (ha := by decide) (hb := by decide) (hy := by decide) (c := main_v254) (a := main_v260) (b := main_v253) (y := main_v261) (f := ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F)))
    (hostOps11_at (F := F)) (W27 m ρ c) 10 (by show (10 : Nat) < 13; decide) rfl (by decide) (by decide) (by decide) (by decide)

/-- Operation 11: `main_v262` from `main_v200`, `main_v261`. -/
theorem eq_v262 (c : Dev nD) :
    K m ρ c main_v262
      = (addf : (⟨S100000x200, .f32⟩ : BufTy).Contents (Elt F) → (⟨S100000x200, .f32⟩ : BufTy).Contents (Elt F) → (⟨S100000x200, .f32⟩ : BufTy).Contents (Elt F)) (K m ρ c main_v200) (K m ρ c main_v261) := by
  rw [K_eq_W28 m ρ c main_v262 (by decide),
    K_eq_W28 m ρ c main_v200 (by decide),
    K_eq_W28 m ρ c main_v261 (by decide)]
  exact binary_final (ha := by decide) (hb := by decide) (hy := by decide) (a := main_v200) (b := main_v261) (y := main_v262) (f := (addf : (⟨S100000x200, .f32⟩ : BufTy).Contents (Elt F) → (⟨S100000x200, .f32⟩ : BufTy).Contents (Elt F) → (⟨S100000x200, .f32⟩ : BufTy).Contents (Elt F)))
    (hostOps11_at (F := F)) (W27 m ρ c) 11 (by show (11 : Nat) < 13; decide) rfl (by decide) (by decide) (by decide)

/-- Operation 12: `main_v263` from `main_arg21`. -/
theorem eq_v263 (c : Dev nD) :
    K m ρ c main_v263
      = fun j => shapeCast (s := S200) S1x200 (K m ρ c main_arg21) shapeCasts_S200_S1x200 j := by
  rw [K_eq_W28 m ρ c main_v263 (by decide),
    K_eq_W28 m ρ c main_arg21 (by decide)]
  exact reshape_final (he := rfl) (hn := shapeCasts_S200_S1x200) (hx := by decide) (hy := by decide) (x := main_arg21) (y := main_v263)
    (hostOps11_at (F := F)) (W27 m ρ c) 12 (by show (12 : Nat) < 13; decide) rfl (by decide) (by decide)

end Cert.KernelIdeal.HandRun

end
-- ==== Proof.KernelEqsHost12.lean ====
/-
  The equations the host operations of `hostOps12` (segment 29) leave between FINAL contents.

  The stretch is in single-assignment form: operation `i` writes the one buffer `hostOps12_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_cst_72`, a constant. -/
theorem eq_cst_72 (c : Dev nD) :
    K m ρ c main_cst_72
      = ((constant S_ .f32 0x47C35000#32) : (⟨S_, .f32⟩ : BufTy).Contents (Elt F)) := by
  rw [K_eq_W30 m ρ c main_cst_72 (by decide)]
  exact nullary_final (hy := by decide) (y := main_cst_72) (v := ((constant S_ .f32 0x47C35000#32) : (⟨S_, .f32⟩ : BufTy).Contents (Elt F)))
    (hostOps12_at (F := F)) (W29 m ρ c) 0 (by show (0 : Nat) < 8; decide) rfl (by decide)

/-- Operation 1: `main_v265` from `main_cst_72`. -/
theorem eq_v265 (c : Dev nD) :
    K m ρ c main_v265
      = (broadcastInDim S1x200 ![] bcast_S_S1x200 : (⟨S_, .f32⟩ : BufTy).Contents (Elt F) → (⟨S1x200, .f32⟩ : BufTy).Contents (Elt F)) (K m ρ c main_cst_72) := by
  rw [K_eq_W30 m ρ c main_v265 (by decide),
    K_eq_W30 m ρ c main_cst_72 (by decide)]
  exact unary_final (hx := by decide) (hy := by decide) (x := main_cst_72) (y := main_v265) (f := (broadcastInDim S1x200 ![] bcast_S_S1x200 : (⟨S_, .f32⟩ : BufTy).Contents (Elt F) → (⟨S1x200, .f32⟩ : BufTy).Contents (Elt F)))
    (hostOps12_at (F := F)) (W29 m ρ c) 1 (by show (1 : Nat) < 8; decide) rfl (by decide) (by decide)

/-- Operation 2: `main_v266` from `main_v264_1`, `main_v265`. -/
theorem eq_v266 (c : Dev nD) :
    K m ρ c main_v266
      = (Host.divf : (⟨S1x200, .f32⟩ : BufTy).Contents (Elt F) → (⟨S1x200, .f32⟩ : BufTy).Contents (Elt F) → (⟨S1x200, .f32⟩ : BufTy).Contents (Elt F)) (K m ρ c main_v264_1) (K m ρ c main_v265) := by
  rw [K_eq_W30 m ρ c main_v266 (by decide),
    K_eq_W30 m ρ c main_v264_1 (by decide),
    K_eq_W30 m ρ c main_v265 (by decide)]
  exact binary_final (ha := by decide) (hb := by decide) (hy := by decide) (a := main_v264_1) (b := main_v265) (y := main_v266) (f := (Host.divf : (⟨S1x200, .f32⟩ : BufTy).Contents (Elt F) → (⟨S1x200, .f32⟩ : BufTy).Contents (Elt F) → (⟨S1x200, .f32⟩ : BufTy).Contents (Elt F)))
    (hostOps12_at (F := F)) (W29 m ρ c) 2 (by show (2 : Nat) < 8; decide) rfl (by decide) (by decide) (by decide)

/-- Operation 3: `main_cst_73`, a constant. -/
theorem eq_cst_73 (c : Dev nD) :
    K m ρ c main_cst_73
      = ((constant S_ .f32 0x47C35000#32) : (⟨S_, .f32⟩ : BufTy).Contents (Elt F)) := by
  rw [K_eq_W30 m ρ c main_cst_73 (by decide)]
  exact nullary_final (hy := by decide) (y := main_cst_73) (v := ((constant S_ .f32 0x47C35000#32) : (⟨S_, .f32⟩ : BufTy).Contents (Elt F)))
    (hostOps12_at (F := F)) (W29 m ρ c) 3 (by show (3 : Nat) < 8; decide) rfl (by decide)

/-- Operation 4: `main_v267` from `main_cst_73`. -/
theorem eq_v267 (c : Dev nD) :
    K m ρ c main_v267
      = (broadcastInDim S1x200 ![] bcast_S_S1x200 : (⟨S_, .f32⟩ : BufTy).Contents (Elt F) → (⟨S1x200, .f32⟩ : BufTy).Contents (Elt F)) (K m ρ c main_cst_73) := by
  rw [K_eq_W30 m ρ c main_v267 (by decide),
    K_eq_W30 m ρ c main_cst_73 (by decide)]
  exact unary_final (hx := by decide) (hy := by decide) (x := main_cst_73) (y := main_v267) (f := (broadcastInDim S1x200 ![] bcast_S_S1x200 : (⟨S_, .f32⟩ : BufTy).Contents (Elt F) → (⟨S1x200, .f32⟩ : BufTy).Contents (Elt F)))
    (hostOps12_at (F := F)) (W29 m ρ c) 4 (by show (4 : Nat) < 8; decide) rfl (by decide) (by decide)

/-- Operation 5: `main_v268` from `main_v264_2`, `main_v267`. -/
theorem eq_v268 (c : Dev nD) :
    K m ρ c main_v268
      = (Host.divf : (⟨S1x200, .f32⟩ : BufTy).Contents (Elt F) → (⟨S1x200, .f32⟩ : BufTy).Contents (Elt F) → (⟨S1x200, .f32⟩ : BufTy).Contents (Elt F)) (K m ρ c main_v264_2) (K m ρ c main_v267) := by
  rw [K_eq_W30 m ρ c main_v268 (by decide),
    K_eq_W30 m ρ c main_v264_2 (by decide),
    K_eq_W30 m ρ c main_v267 (by decide)]
  exact binary_final (ha := by decide) (hb := by decide) (hy := by decide) (a := main_v264_2) (b := main_v267) (y := main_v268) (f := (Host.divf : (⟨S1x200, .f32⟩ : BufTy).Contents (Elt F) → (⟨S1x200, .f32⟩ : BufTy).Contents (Elt F) → (⟨S1x200, .f32⟩ : BufTy).Contents (Elt F)))
    (hostOps12_at (F := F)) (W29 m ρ c) 5 (by show (5 : Nat) < 8; decide) rfl (by decide) (by decide) (by decide)

/-- Operation 6: `main_v269` from `main_v266`, `main_v266`. -/
theorem eq_v269 (c : Dev nD) :
    K m ρ c main_v269
      = (mulf : (⟨S1x200, .f32⟩ : BufTy).Contents (Elt F) → (⟨S1x200, .f32⟩ : BufTy).Contents (Elt F) → (⟨S1x200, .f32⟩ : BufTy).Contents (Elt F)) (K m ρ c main_v266) (K m ρ c main_v266) := by
  rw [K_eq_W30 m ρ c main_v269 (by decide),
    K_eq_W30 m ρ c main_v266 (by decide)]
  exact binary_final (ha := by decide) (hb := by decide) (hy := by decide) (a := main_v266) (b := main_v266) (y := main_v269) (f := (mulf : (⟨S1x200, .f32⟩ : BufTy).Contents (Elt F) → (⟨S1x200, .f32⟩ : BufTy).Contents (Elt F) → (⟨S1x200, .f32⟩ : BufTy).Contents (Elt F)))
    (hostOps12_at (F := F)) (W29 m ρ c) 6 (by show (6 : Nat) < 8; decide) rfl (by decide) (by decide) (by decide)

/-- Operation 7: `main_v270` from `main_v268`, `main_v269`. -/
theorem eq_v270 (c : Dev nD) :
    K m ρ c main_v270
      = (subf : (⟨S1x200, .f32⟩ : BufTy).Contents (Elt F) → (⟨S1x200, .f32⟩ : BufTy).Contents (Elt F) → (⟨S1x200, .f32⟩ : BufTy).Contents (Elt F)) (K m ρ c main_v268) (K m ρ c main_v269) := by
  rw [K_eq_W30 m ρ c main_v270 (by decide),
    K_eq_W30 m ρ c main_v268 (by decide),
    K_eq_W30 m ρ c main_v269 (by decide)]
  exact binary_final (ha := by decide) (hb := by decide) (hy := by decide) (a := main_v268) (b := main_v269) (y := main_v270) (f := (subf : (⟨S1x200, .f32⟩ : BufTy).Contents (Elt F) → (⟨S1x200, .f32⟩ : BufTy).Contents (Elt F) → (⟨S1x200, .f32⟩ : BufTy).Contents (Elt F)))
    (hostOps12_at (F := F)) (W29 m ρ c) 7 (by show (7 : Nat) < 8; decide) rfl (by decide) (by decide) (by decide)

end Cert.KernelIdeal.HandRun

end
-- ==== Proof.KernelEqsHost14.lean ====
/-
  The equations the host operations of `hostOps14` (segment 32) leave between FINAL contents.

  The stretch is in single-assignment form: operation `i` writes the one buffer `hostOps14_W[i]`, which nothing later
  in the stretch and no later segment writes again, and reads buffers that neither it nor anything later writes.
  So at the end of the program each result buffer `y` and its operands `a, b, …` hold what they held when the
  operation ran, and the operation's defining equation `y = f a b …` holds between their final contents `K`.
  One equation per operation, named after its result buffer.
-/
import proofs.«103573_j30391188587216_1_alg».proof.Proof.KernelEqs

set_option maxRecDepth 16384
-- positions deep in a long stretch of operations: the membership facts are decided over lists of up to 39 references
set_option maxHeartbeats 2000000

noncomputable section

namespace Cert.KernelIdeal.HandRun

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- Operation 0: `main_v273` from `main_v272`. -/
theorem eq_v273 (c : Dev nD) :
    K m ρ c main_v273
      = ((extractStridedSlice S400x200 ![0, 0] · slices_S401x200_S400x200_0_0) : (⟨S401x200, .f32⟩ : BufTy).Contents (Elt F) → (⟨S400x200, .f32⟩ : BufTy).Contents (Elt F)) (K m ρ c main_v272) := by
  exact unary_final (hx := by decide) (hy := by decide) (x := main_v272) (y := main_v273) (f := ((extractStridedSlice S400x200 ![0, 0] · slices_S401x200_S400x200_0_0) : (⟨S401x200, .f32⟩ : BufTy).Contents (Elt F) → (⟨S400x200, .f32⟩ : BufTy).Contents (Elt F)))
    (hostOps14_at (F := F)) (W32 m ρ c) 0 (by show (0 : Nat) < 19; decide) rfl (by decide) (by decide)

/-- Operation 1: `main_c_74`, a constant. -/
theorem eq_c_74 (c : Dev nD) :
    K m ρ c main_c_74
      = ((constantI S_ 32 0#32) : (⟨S_, .i32⟩ : BufTy).Contents (Elt F)) := by
  exact nullary_final (hy := by decide) (y := main_c_74) (v := ((constantI S_ 32 0#32) : (⟨S_, .i32⟩ : BufTy).Contents (Elt F)))
    (hostOps14_at (F := F)) (W32 m ρ c) 1 (by show (1 : Nat) < 19; decide) rfl (by decide)

/-- Operation 2: `main_v274` from `main_c_74`. -/
theorem eq_v274 (c : Dev nD) :
    K m ρ c main_v274
      = (broadcastInDim S2048 ![] bcast_S_S2048 : (⟨S_, .i32⟩ : BufTy).Contents (Elt F) → (⟨S2048, .i32⟩ : BufTy).Contents (Elt F)) (K m ρ c main_c_74) := by
  exact unary_final (hx := by decide) (hy := by decide) (x := main_c_74) (y := main_v274) (f := (broadcastInDim S2048 ![] bcast_S_S2048 : (⟨S_, .i32⟩ : BufTy).Contents (Elt F) → (⟨S2048, .i32⟩ : BufTy).Contents (Elt F)))
    (hostOps14_at (F := F)) (W32 m ρ c) 2 (by show (2 : Nat) < 19; decide) rfl (by decide) (by decide)

/-- Operation 3: `main_v275` from `main_arg0`, `main_v274`. -/
theorem eq_v275 (c : Dev nD) :
    K m ρ c main_v275
      = (cmpi .slt : (⟨S2048, .i32⟩ : BufTy).Contents (Elt F) → (⟨S2048, .i32⟩ : BufTy).Contents (Elt F) → (⟨S2048, .i1⟩ : BufTy).Contents (Elt F)) (K m ρ c main_arg0) (K m ρ c main_v274) := by
  exact binary_final (ha := by decide) (hb := by decide) (hy := by decide) (a := main_arg0) (b := main_v274) (y := main_v275) (f := (cmpi .slt : (⟨S2048, .i32⟩ : BufTy).Contents (Elt F) → (⟨S2048, .i32⟩ : BufTy).Contents (Elt F) → (⟨S2048, .i1⟩ : BufTy).Contents (Elt F)))
    (hostOps14_at (F := F)) (W32 m ρ c) 3 (by show (3 : Nat) < 19; decide) rfl (by decide) (by decide) (by decide)

/-- Operation 4: `main_c_75`, a constant. -/
theorem eq_c_75 (c : Dev nD) :
    K m ρ c main_c_75
      = ((constantI S_ 32 100000#32) : (⟨S_, .i32⟩ : BufTy).Contents (Elt F)) := by
  exact nullary_final (hy := by decide) (y := main_c_75) (v := ((constantI S_ 32 100000#32) : (⟨S_, .i32⟩ : BufTy).Contents (Elt F)))
    (hostOps14_at (F := F)) (W32 m ρ c) 4 (by show (4 : Nat) < 19; decide) rfl (by decide)

/-- Operation 5: `main_v276` from `main_c_75`. -/
theorem eq_v276 (c : Dev nD) :
    K m ρ c main_v276
      = (broadcastInDim S2048 ![] bcast_S_S2048 : (⟨S_, .i32⟩ : BufTy).Contents (Elt F) → (⟨S2048, .i32⟩ : BufTy).Contents (Elt F)) (K m ρ c main_c_75) := by
  exact unary_final (hx := by decide) (hy := by decide) (x := main_c_75) (y := main_v276) (f := (broadcastInDim S2048 ![] bcast_S_S2048 : (⟨S_, .i32⟩ : BufTy).Contents (Elt F) → (⟨S2048, .i32⟩ : BufTy).Contents (Elt F)))
    (hostOps14_at (F := F)) (W32 m ρ c) 5 (by show (5 : Nat) < 19; decide) rfl (by decide) (by decide)

/-- Operation 6: `main_v277` from `main_arg0`, `main_v276`. -/
theorem eq_v277 (c : Dev nD) :
    K m ρ c main_v277
      = (addi : (⟨S2048, .i32⟩ : BufTy).Contents (Elt F) → (⟨S2048, .i32⟩ : BufTy).Contents (Elt F) → (⟨S2048, .i32⟩ : BufTy).Contents (Elt F)) (K m ρ c main_arg0) (K m ρ c main_v276) := by
  exact binary_final (ha := by decide) (hb := by decide) (hy := by decide) (a := main_arg0) (b := main_v276) (y := main_v277) (f := (addi : (⟨S2048, .i32⟩ : BufTy).Contents (Elt F) → (⟨S2048, .i32⟩ : BufTy).Contents (Elt F) → (⟨S2048, .i32⟩ : BufTy).Contents (Elt F)))
    (hostOps14_at (F := F)) (W32 m ρ c) 6 (by show (6 : Nat) < 19; decide) rfl (by decide) (by decide) (by decide)

/-- Operation 7: `main_v278` from `main_v275`, `main_v277`, `main_arg0`. -/
theorem eq_v278 (c : Dev nD) :
    K m ρ c main_v278
      = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (K m ρ c main_v275) (K m ρ c main_v277) (K m ρ c main_arg0) := by
  exact ternary_final (hc := by decide) (ha := by decide) (hb := by decide) (hy := by decide) (c := main_v275) (a := main_v277) (b := main_arg0) (y := main_v278) (f := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)))
    (hostOps14_at (F := F)) (W32 m ρ c) 7 (by show (7 : Nat) < 19; decide) rfl (by decide) (by decide) (by decide) (by decide)

/-- Operation 8: `main_v279` from `main_v278`. -/
theorem eq_v279 (c : Dev nD) :
    K m ρ c main_v279
      = (broadcastInDim S2048x1 ![0] bcast_S2048_S2048x1_0 : (⟨S2048, .i32⟩ : BufTy).Contents (Elt F) → (⟨S2048x1, .i32⟩ : BufTy).Contents (Elt F)) (K m ρ c main_v278) := by
  exact unary_final (hx := by decide) (hy := by decide) (x := main_v278) (y := main_v279) (f := (broadcastInDim S2048x1 ![0] bcast_S2048_S2048x1_0 : (⟨S2048, .i32⟩ : BufTy).Contents (Elt F) → (⟨S2048x1, .i32⟩ : BufTy).Contents (Elt F)))
    (hostOps14_at (F := F)) (W32 m ρ c) 8 (by show (8 : Nat) < 19; decide) rfl (by decide) (by decide)

/-- Operation 9: `main_v280` from `main_v271`, `main_v279`. -/
theorem eq_v280 (c : Dev nD) :
    K m ρ c main_v280
      = ((fun x i => Host.gather gather_S100000x200_S2048x1_S2048x200_1_0_n_n_0_1_1200 x i) : (⟨S100000x200, .f32⟩ : BufTy).Contents (Elt F) → (⟨S2048x1, .i32⟩ : BufTy).Contents (Elt F) → (⟨S2048x200, .f32⟩ : BufTy).Contents (Elt F)) (K m ρ c main_v271) (K m ρ c main_v279) := by
  exact binary_final (ha := by decide) (hb := by decide) (hy := by decide) (a := main_v271) (b := main_v279) (y := main_v280) (f := ((fun x i => Host.gather gather_S100000x200_S2048x1_S2048x200_1_0_n_n_0_1_1200 x i) : (⟨S100000x200, .f32⟩ : BufTy).Contents (Elt F) → (⟨S2048x1, .i32⟩ : BufTy).Contents (Elt F) → (⟨S2048x200, .f32⟩ : BufTy).Contents (Elt F)))
    (hostOps14_at (F := F)) (W32 m ρ c) 9 (by show (9 : Nat) < 19; decide) rfl (by decide) (by decide) (by decide)

/-- Operation 10: `main_c_76`, a constant. -/
theorem eq_c_76 (c : Dev nD) :
    K m ρ c main_c_76
      = ((constantI S_ 32 0#32) : (⟨S_, .i32⟩ : BufTy).Contents (Elt F)) := by
  exact nullary_final (hy := by decide) (y := main_c_76) (v := ((constantI S_ 32 0#32) : (⟨S_, .i32⟩ : BufTy).Contents (Elt F)))
    (hostOps14_at (F := F)) (W32 m ρ c) 10 (by show (10 : Nat) < 19; decide) rfl (by decide)

/-- Operation 11: `main_v281` from `main_c_76`. -/
theorem eq_v281 (c : Dev nD) :
    K m ρ c main_v281
      = (broadcastInDim S2048 ![] bcast_S_S2048 : (⟨S_, .i32⟩ : BufTy).Contents (Elt F) → (⟨S2048, .i32⟩ : BufTy).Contents (Elt F)) (K m ρ c main_c_76) := by
  exact unary_final (hx := by decide) (hy := by decide) (x := main_c_76) (y := main_v281) (f := (broadcastInDim S2048 ![] bcast_S_S2048 : (⟨S_, .i32⟩ : BufTy).Contents (Elt F) → (⟨S2048, .i32⟩ : BufTy).Contents (Elt F)))
    (hostOps14_at (F := F)) (W32 m ρ c) 11 (by show (11 : Nat) < 19; decide) rfl (by decide) (by decide)

/-- Operation 12: `main_v282` from `main_arg1`, `main_v281`. -/
theorem eq_v282 (c : Dev nD) :
    K m ρ c main_v282
      = (cmpi .slt : (⟨S2048, .i32⟩ : BufTy).Contents (Elt F) → (⟨S2048, .i32⟩ : BufTy).Contents (Elt F) → (⟨S2048, .i1⟩ : BufTy).Contents (Elt F)) (K m ρ c main_arg1) (K m ρ c main_v281) := by
  exact binary_final (ha := by decide) (hb := by decide) (hy := by decide) (a := main_arg1) (b := main_v281) (y := main_v282) (f := (cmpi .slt : (⟨S2048, .i32⟩ : BufTy).Contents (Elt F) → (⟨S2048, .i32⟩ : BufTy).Contents (Elt F) → (⟨S2048, .i1⟩ : BufTy).Contents (Elt F)))
    (hostOps14_at (F := F)) (W32 m ρ c) 12 (by show (12 : Nat) < 19; decide) rfl (by decide) (by decide) (by decide)

/-- Operation 13: `main_c_77`, a constant. -/
theorem eq_c_77 (c : Dev nD) :
    K m ρ c main_c_77
      = ((constantI S_ 32 400#32) : (⟨S_, .i32⟩ : BufTy).Contents (Elt F)) := by
  exact nullary_final (hy := by decide) (y := main_c_77) (v := ((constantI S_ 32 400#32) : (⟨S_, .i32⟩ : BufTy).Contents (Elt F)))
    (hostOps14_at (F := F)) (W32 m ρ c) 13 (by show (13 : Nat) < 19; decide) rfl (by decide)

/-- Operation 14: `main_v283` from `main_c_77`. -/
theorem eq_v283 (c : Dev nD) :
    K m ρ c main_v283
      = (broadcastInDim S2048 ![] bcast_S_S2048 : (⟨S_, .i32⟩ : BufTy).Contents (Elt F) → (⟨S2048, .i32⟩ : BufTy).Contents (Elt F)) (K m ρ c main_c_77) := by
  exact unary_final (hx := by decide) (hy := by decide) (x := main_c_77) (y := main_v283) (f := (broadcastInDim S2048 ![] bcast_S_S2048 : (⟨S_, .i32⟩ : BufTy).Contents (Elt F) → (⟨S2048, .i32⟩ : BufTy).Contents (Elt F)))
    (hostOps14_at (F := F)) (W32 m ρ c) 14 (by show (14 : Nat) < 19; decide) rfl (by decide) (by decide)

/-- Operation 15: `main_v284` from `main_arg1`, `main_v283`. -/
theorem eq_v284 (c : Dev nD) :
    K m ρ c main_v284
      = (addi : (⟨S2048, .i32⟩ : BufTy).Contents (Elt F) → (⟨S2048, .i32⟩ : BufTy).Contents (Elt F) → (⟨S2048, .i32⟩ : BufTy).Contents (Elt F)) (K m ρ c main_arg1) (K m ρ c main_v283) := by
  exact binary_final (ha := by decide) (hb := by decide) (hy := by decide) (a := main_arg1) (b := main_v283) (y := main_v284) (f := (addi : (⟨S2048, .i32⟩ : BufTy).Contents (Elt F) → (⟨S2048, .i32⟩ : BufTy).Contents (Elt F) → (⟨S2048, .i32⟩ : BufTy).Contents (Elt F)))
    (hostOps14_at (F := F)) (W32 m ρ c) 15 (by show (15 : Nat) < 19; decide) rfl (by decide) (by decide) (by decide)

/-- Operation 16: `main_v285` from `main_v282`, `main_v284`, `main_arg1`. -/
theorem eq_v285 (c : Dev nD) :
    K m ρ c main_v285
      = (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) (K m ρ c main_v282) (K m ρ c main_v284) (K m ρ c main_arg1) := by
  exact ternary_final (hc := by decide) (ha := by decide) (hb := by decide) (hy := by decide) (c := main_v282) (a := main_v284) (b := main_arg1) (y := main_v285) (f := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)))
    (hostOps14_at (F := F)) (W32 m ρ c) 16 (by show (16 : Nat) < 19; decide) rfl (by decide) (by decide) (by decide) (by decide)

/-- Operation 17: `main_v286` from `main_v285`. -/
theorem eq_v286 (c : Dev nD) :
    K m ρ c main_v286
      = (broadcastInDim S2048x1 ![0] bcast_S2048_S2048x1_0 : (⟨S2048, .i32⟩ : BufTy).Contents (Elt F) → (⟨S2048x1, .i32⟩ : BufTy).Contents (Elt F)) (K m ρ c main_v285) := by
  exact unary_final (hx := by decide) (hy := by decide) (x := main_v285) (y := main_v286) (f := (broadcastInDim S2048x1 ![0] bcast_S2048_S2048x1_0 : (⟨S2048, .i32⟩ : BufTy).Contents (Elt F) → (⟨S2048x1, .i32⟩ : BufTy).Contents (Elt F)))
    (hostOps14_at (F := F)) (W32 m ρ c) 17 (by show (17 : Nat) < 19; decide) rfl (by decide) (by decide)

/-- Operation 18: `main_v287` from `main_v273`, `main_v286`. -/
theorem eq_v287 (c : Dev nD) :
    K m ρ c main_v287
      = ((fun x i => Host.gather gather_S400x200_S2048x1_S2048x200_1_0_n_n_0_1_1200 x i) : (⟨S400x200, .f32⟩ : BufTy).Contents (Elt F) → (⟨S2048x1, .i32⟩ : BufTy).Contents (Elt F) → (⟨S2048x200, .f32⟩ : BufTy).Contents (Elt F)) (K m ρ c main_v273) (K m ρ c main_v286) := by
  exact binary_final (ha := by decide) (hb := by decide) (hy := by decide) (a := main_v273) (b := main_v286) (y := main_v287) (f := ((fun x i => Host.gather gather_S400x200_S2048x1_S2048x200_1_0_n_n_0_1_1200 x i) : (⟨S400x200, .f32⟩ : BufTy).Contents (Elt F) → (⟨S2048x1, .i32⟩ : BufTy).Contents (Elt F) → (⟨S2048x200, .f32⟩ : BufTy).Contents (Elt F)))
    (hostOps14_at (F := F)) (W32 m ρ c) 18 (by show (18 : Nat) < 19; decide) rfl (by decide) (by decide) (by decide)

end Cert.KernelIdeal.HandRun

end
-- ==== Proof.KernelEqsAll.lean ====
/-
  The kernel program's final contents as a system of equations, gathered: persistence of every buffer from the
  boundary after its one write to the end, the two facts around each region, and one equation per host operation.
-/
import proofs.«103573_j30391188587216_1_alg».proof.Proof.KernelEqs
import proofs.«103573_j30391188587216_1_alg».proof.Proof.KernelEqsRegion
import proofs.«103573_j30391188587216_1_alg».proof.Proof.KernelEqsHost2
import proofs.«103573_j30391188587216_1_alg».proof.Proof.KernelEqsHost3
import proofs.«103573_j30391188587216_1_alg».proof.Proof.KernelEqsHost3_1
import proofs.«103573_j30391188587216_1_alg».proof.Proof.KernelEqsHost3_2
import proofs.«103573_j30391188587216_1_alg».proof.Proof.KernelEqsHost4
import proofs.«103573_j30391188587216_1_alg».proof.Proof.KernelEqsHost4_1
import proofs.«103573_j30391188587216_1_alg».proof.Proof.KernelEqsHost4_2
import proofs.«103573_j30391188587216_1_alg».proof.Proof.KernelEqsHost5
import proofs.«103573_j30391188587216_1_alg».proof.Proof.KernelEqsHost6
import proofs.«103573_j30391188587216_1_alg».proof.Proof.KernelEqsHost8
import proofs.«103573_j30391188587216_1_alg».proof.Proof.KernelEqsHost9
import proofs.«103573_j30391188587216_1_alg».proof.Proof.KernelEqsHost9_1
import proofs.«103573_j30391188587216_1_alg».proof.Proof.KernelEqsHost9_2
import proofs.«103573_j30391188587216_1_alg».proof.Proof.KernelEqsHost10
import proofs.«103573_j30391188587216_1_alg».proof.Proof.KernelEqsHost10_1
import proofs.«103573_j30391188587216_1_alg».proof.Proof.KernelEqsHost10_2
import proofs.«103573_j30391188587216_1_alg».proof.Proof.KernelEqsHost11
import proofs.«103573_j30391188587216_1_alg».proof.Proof.KernelEqsHost12
import proofs.«103573_j30391188587216_1_alg».proof.Proof.KernelEqsHost14
-- ==== Proof.LibSsa.lean ====
/- A straight line of host operations in which every reference is written once, before it is read: the contents after the
   whole line satisfy ONE EQUATION PER OPERATION — the written reference holds the operation's function of the final contents of
   its operands.
   The line is described by the list `W` of the references its operations write, in order (`WritesEach`). Cut the line at
   operation `k`: a reference outside `W.drop k` is written by no operation from `k` on, so it holds at the end what it held
   before operation `k` (`ssa_kept`); the reference operation `k` writes, if outside `W.drop (k + 1)`, holds at the end what that
   operation put there (`ssa_result`). The builders' result lemmas then give the equation, kind by kind. -/
import proofs.«103573_j30391188587216_1_alg».proof.Proof.LibSeq
import Idealize.ShloMosaic.Lib.StableHlo.Run
import Mathlib.Data.List.Forall2

noncomputable section

namespace Cert.SeqLib

open Idealize.ShloMosaic Idealize.ShloMosaic.StableHlo Idealize.ShloMosaic.TcCoe Idealize.SL.Sem

variable {τ : Topo} {sig : RefSig} {Val : EltTy → Type}

/-- Operation by operation, the one reference each writes. -/
abbrev WritesEach (ops : List (HloOp τ sig Val)) (W : List (Ref sig .tc)) : Prop :=
  List.Forall₂ (fun op y => op.writes = {Proc.devRef (τ := τ) .tc y}) ops W

theorem WritesEach.append {l₁ l₂ : List (HloOp τ sig Val)} {W₁ W₂ : List (Ref sig .tc)}
    (h₁ : WritesEach l₁ W₁) (h₂ : WritesEach l₂ W₂) : WritesEach (l₁ ++ l₂) (W₁ ++ W₂) := by
  induction h₁ with
  | nil => exact h₂
  | cons h _ ih => exact .cons h ih

theorem WritesEach.exists_mem {ops : List (HloOp τ sig Val)} {W : List (Ref sig .tc)} (h : WritesEach ops W) :
    ∀ op ∈ ops, ∃ y ∈ W, op.writes = {Proc.devRef (τ := τ) .tc y} := by
  induction h with
  | nil => intro op hop; cases hop
  | @cons o y l W' hoy _ ih =>
    intro op hop
    rcases List.mem_cons.mp hop with rfl | hop
    · exact ⟨y, List.mem_cons_self, hoy⟩
    · obtain ⟨y', hy', e⟩ := ih op hop
      exact ⟨y', List.mem_cons_of_mem _ hy', e⟩

/-- A reference the line does not write keeps its contents through it. -/
theorem WritesEach.kept {ops : List (HloOp τ sig Val)} {W : List (Ref sig .tc)} (h : WritesEach ops W)
    {r : Ref sig .tc} (hr : r ∉ W) (V : Valuation τ sig Val) :
    after ops V (Proc.devRef .tc r) = V (Proc.devRef .tc r) :=
  after_of_forall_not_mem ops V fun op hop hb => by
    obtain ⟨y, hy, e⟩ := h.exists_mem op hop
    rw [e, Finset.mem_singleton] at hb
    have hry : r = y := Proc.devRef_injective _ hb
    exact hr (hry ▸ hy)

/-- The contents after the line, cut at operation `k`: the operations after it, run from its result over the contents the
    operations before it leave. -/
theorem after_at {ops : List (HloOp τ sig Val)} {k : Nat} {op : HloOp τ sig Val} (hk : ops[k]? = some op)
    (V : Valuation τ sig Val) :
    after ops V = after (ops.drop (k + 1)) (op.result (after (ops.take k) V)) := by
  obtain ⟨hlt, rfl⟩ := List.getElem?_eq_some_iff.mp hk
  have e : ops = ops.take k ++ ops[k] :: ops.drop (k + 1) := by
    rw [← List.drop_eq_getElem_cons hlt, List.take_append_drop]
  exact (congrArg (fun l => after l V) e).trans (by rw [after_append, after_cons])

/-- A reference no operation from `k` on writes holds at the end what it held before operation `k`. -/
theorem ssa_kept {ops : List (HloOp τ sig Val)} {W : List (Ref sig .tc)} (h : WritesEach ops W) (k : Nat)
    {r : Ref sig .tc} (hr : r ∉ W.drop k) (V : Valuation τ sig Val) :
    after ops V (Proc.devRef .tc r) = after (ops.take k) V (Proc.devRef .tc r) := by
  have e : after ops V = after (ops.drop k) (after (ops.take k) V) := by
    rw [← after_append, List.take_append_drop]
  rw [e]
  exact WritesEach.kept (List.forall₂_drop k h) hr _

/-- The reference operation `k` writes, written by no later one, holds at the end what that operation put there. -/
theorem ssa_result {ops : List (HloOp τ sig Val)} {W : List (Ref sig .tc)} (h : WritesEach ops W) (k : Nat)
    {op : HloOp τ sig Val} (hk : ops[k]? = some op) {y : Ref sig .tc} (hy : y ∉ W.drop (k + 1)) (V : Valuation τ sig Val) :
    after ops V (Proc.devRef .tc y) = op.result (after (ops.take k) V) (Proc.devRef .tc y) := by
  rw [after_at hk V]
  exact WritesEach.kept (List.forall₂_drop (k + 1) h) hy _

/-! ## The equation of operation `k`, kind by kind -/

section Kinds

variable {ops : List (HloOp τ sig Val)} {W : List (Ref sig .tc)} (h : WritesEach ops W) (k : Nat)
include h

theorem nullary_ssa {y : Ref sig .tc} {v : y.ty.Contents Val} {hy}
    (hk : ops[k]? = some (nullary (τ := τ) y v hy)) (hy' : y ∉ W.drop (k + 1)) (V : Valuation τ sig Val) :
    after ops V (y : DevRef τ sig) = v := by
  rw [ssa_result h k hk hy' V, nullary_result]

theorem unary_ssa {x y : Ref sig .tc} {f : x.ty.Contents Val → y.ty.Contents Val} {hx hy}
    (hk : ops[k]? = some (unary (τ := τ) x y f hx hy)) (hy' : y ∉ W.drop (k + 1)) (hx' : x ∉ W.drop k)
    (V : Valuation τ sig Val) :
    after ops V (y : DevRef τ sig) = f (after ops V (x : DevRef τ sig)) := by
  rw [ssa_result h k hk hy' V, unary_result]
  exact congrArg f (ssa_kept h k hx' V).symm

theorem binary_ssa {a b y : Ref sig .tc} {f : a.ty.Contents Val → b.ty.Contents Val → y.ty.Contents Val} {ha hb hy}
    (hk : ops[k]? = some (binary (τ := τ) a b y f ha hb hy)) (hy' : y ∉ W.drop (k + 1)) (ha' : a ∉ W.drop k)
    (hb' : b ∉ W.drop k) (V : Valuation τ sig Val) :
    after ops V (y : DevRef τ sig) = f (after ops V (a : DevRef τ sig)) (after ops V (b : DevRef τ sig)) := by
  rw [ssa_result h k hk hy' V, binary_result]
  exact congr (congrArg f (ssa_kept h k ha' V).symm) (ssa_kept h k hb' V).symm

theorem ternary_ssa {c a b y : Ref sig .tc}
    {f : c.ty.Contents Val → a.ty.Contents Val → b.ty.Contents Val → y.ty.Contents Val} {hc ha hb hy}
    (hk : ops[k]? = some (ternary (τ := τ) c a b y f hc ha hb hy)) (hy' : y ∉ W.drop (k + 1)) (hc' : c ∉ W.drop k)
    (ha' : a ∉ W.drop k) (hb' : b ∉ W.drop k) (V : Valuation τ sig Val) :
    after ops V (y : DevRef τ sig)
      = f (after ops V (c : DevRef τ sig)) (after ops V (a : DevRef τ sig)) (after ops V (b : DevRef τ sig)) := by
  rw [ssa_result h k hk hy' V, ternary_result]
  exact congr (congr (congrArg f (ssa_kept h k hc' V).symm) (ssa_kept h k ha' V).symm) (ssa_kept h k hb' V).symm

/-- A reshape's function: the operand's elements in row-major order at the result's shape. -/
def reshapeFn (x y : Ref sig .tc) (he : x.ty.elt = y.ty.elt) (hn : x.ty.shape.ShapeCasts y.ty.shape)
    (v : x.ty.Contents Val) : y.ty.Contents Val :=
  fun i => he ▸ shapeCast y.ty.shape v hn i

theorem reshape_ssa {x y : Ref sig .tc} {he : x.ty.elt = y.ty.elt} {hn : x.ty.shape.ShapeCasts y.ty.shape} {hx hy}
    (hk : ops[k]? = some (reshape (τ := τ) (Val := Val) x y he hn hx hy)) (hy' : y ∉ W.drop (k + 1)) (hx' : x ∉ W.drop k)
    (V : Valuation τ sig Val) :
    after ops V (y : DevRef τ sig) = reshapeFn x y he hn (after ops V (x : DevRef τ sig)) := by
  rw [ssa_result h k hk hy' V, reshape_result]
  exact congrArg (reshapeFn x y he hn) (ssa_kept h k hx' V).symm

end Kinds

end Cert.SeqLib

end
-- ==== Proof.RefWrites.lean ====
/- The references the reference program's 468 host operations write, operation by operation (`WritesEach`): window by window
   from each operation's own `writes`, then for the whole line. Every reference is written once and only read afterwards, which the
   per-operation equations (the modules after this one) use through the decidable facts "this reference is not among those written
   from operation k on". -/
import proofs.«103573_j30391188587216_1_alg».proof.Proof.RefRun
import proofs.«103573_j30391188587216_1_alg».proof.Proof.LibSsa

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

/-- Window 0's operations write, one each and in order, the references of `W0`. -/
theorem ops0_wr : WritesEach (τ := τ) (ops0 (F := F)) W0 :=
  .cons (binary_writes ..)
  (.cons (binary_writes ..)
  (.cons (binary_writes ..)
  (.cons (binary_writes ..)
  (.cons (binary_writes ..)
  (.cons (unary_writes ..)
  (.cons (unary_writes ..)
  (.cons (unary_writes ..)
  (.cons (reshape_writes ..)
  (.cons (unary_writes ..)
  (.cons (reshape_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (nullary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (unary_writes ..)
  (.cons (nullary_writes ..)
  (.cons (unary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..) (.nil))))))))))))))))))))))))))))))))))))))))))))))))))))))))))))))

/-- Window 1's operations write, one each and in order, the references of `W1`. -/
theorem ops1_wr : WritesEach (τ := τ) (ops1 (F := F)) W1 :=
  .cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (binary_writes ..)
  (.cons (unary_writes ..)
  (.cons (unary_writes ..)
  (.cons (binary_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (ternary_writes ..)
  (.cons (unary_writes ..)
  (.cons (unary_writes ..)
  (.cons (unary_writes ..)
  (.cons (reshape_writes ..)
  (.cons (unary_writes ..)
  (.cons (reshape_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (nullary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (unary_writes ..)
  (.cons (nullary_writes ..)
  (.cons (unary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..) (.nil))))))))))))))))))))))))))))))))))))))))))))))))))))))))))))))

/-- Window 2's operations write, one each and in order, the references of `W2`. -/
theorem ops2_wr : WritesEach (τ := τ) (ops2 (F := F)) W2 :=
  .cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (binary_writes ..)
  (.cons (unary_writes ..)
  (.cons (unary_writes ..)
  (.cons (binary_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (ternary_writes ..)
  (.cons (unary_writes ..)
  (.cons (reshape_writes ..)
  (.cons (unary_writes ..)
  (.cons (unary_writes ..)
  (.cons (binary_writes ..)
  (.cons (binary_writes ..)
  (.cons (binary_writes ..)
  (.cons (binary_writes ..)
  (.cons (nullary_writes ..)
  (.cons (unary_writes ..)
  (.cons (binary_writes ..)
  (.cons (unary_writes ..)
  (.cons (unary_writes ..) (.nil))))))))))))))))))))))))))))))))))))))))))))))))))))))))))))

/-- Window 3's operations write, one each and in order, the references of `W3`. -/
theorem ops3_wr : WritesEach (τ := τ) (ops3 (F := F)) W3 :=
  .cons (binary_writes ..)
  (.cons (nullary_writes ..)
  (.cons (binary_writes ..)
  (.cons (nullary_writes ..)
  (.cons (unary_writes ..)
  (.cons (binary_writes ..)
  (.cons (nullary_writes ..)
  (.cons (nullary_writes ..)
  (.cons (binary_writes ..)
  (.cons (unary_writes ..)
  (.cons (nullary_writes ..)
  (.cons (unary_writes ..)
  (.cons (binary_writes ..)
  (.cons (unary_writes ..)
  (.cons (binary_writes ..)
  (.cons (binary_writes ..)
  (.cons (unary_writes ..)
  (.cons (nullary_writes ..)
  (.cons (binary_writes ..)
  (.cons (nullary_writes ..)
  (.cons (binary_writes ..)
  (.cons (unary_writes ..)
  (.cons (binary_writes ..)
  (.cons (nullary_writes ..)
  (.cons (binary_writes ..)
  (.cons (nullary_writes ..)
  (.cons (unary_writes ..)
  (.cons (unary_writes ..)
  (.cons (ternary_writes ..)
  (.cons (unary_writes ..)
  (.cons (unary_writes ..)
  (.cons (binary_writes ..)
  (.cons (nullary_writes ..)
  (.cons (unary_writes ..)
  (.cons (binary_writes ..)
  (.cons (unary_writes ..)
  (.cons (unary_writes ..)
  (.cons (unary_writes ..)
  (.cons (binary_writes ..)
  (.cons (unary_writes ..)
  (.cons (binary_writes ..)
  (.cons (unary_writes ..)
  (.cons (binary_writes ..)
  (.cons (binary_writes ..)
  (.cons (binary_writes ..)
  (.cons (unary_writes ..)
  (.cons (unary_writes ..)
  (.cons (unary_writes ..)
  (.cons (reshape_writes ..)
  (.cons (unary_writes ..)
  (.cons (reshape_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (nullary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (unary_writes ..)
  (.cons (nullary_writes ..)
  (.cons (unary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..) (.nil)))))))))))))))))))))))))))))))))))))))))))))))))))))))))))))))))))))))))))))))))))

/-- Window 4's operations write, one each and in order, the references of `W4`. -/
theorem ops4_wr : WritesEach (τ := τ) (ops4 (F := F)) W4 :=
  .cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (binary_writes ..)
  (.cons (unary_writes ..)
  (.cons (unary_writes ..)
  (.cons (binary_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (ternary_writes ..)
  (.cons (unary_writes ..)
  (.cons (unary_writes ..)
  (.cons (unary_writes ..)
  (.cons (reshape_writes ..)
  (.cons (unary_writes ..)
  (.cons (reshape_writes ..)
  (.cons (nullary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..) (.nil))))))))))))))))))))))))))))))))))))))))))))))))))))))))))))

/-- Window 5's operations write, one each and in order, the references of `W5`. -/
theorem ops5_wr : WritesEach (τ := τ) (ops5 (F := F)) W5 :=
  .cons (unary_writes ..)
  (.cons (nullary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (unary_writes ..)
  (.cons (nullary_writes ..)
  (.cons (unary_writes ..)
  (.cons (unary_writes ..)
  (.cons (ternary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (binary_writes ..)
  (.cons (binary_writes ..)
  (.cons (unary_writes ..)
  (.cons (unary_writes ..)
  (.cons (binary_writes ..)
  (.cons (nullary_writes ..)
  (.cons (unary_writes ..)
  (.cons (nullary_writes ..)
  (.cons (unary_writes ..)
  (.cons (binary_writes ..) (.nil))))))))))))))))))))))))))))))))))))))))))))))))))))))))))))))

/-- Window 6's operations write, one each and in order, the references of `W6`. -/
theorem ops6_wr : WritesEach (τ := τ) (ops6 (F := F)) W6 :=
  .cons (nullary_writes ..)
  (.cons (unary_writes ..)
  (.cons (binary_writes ..)
  (.cons (ternary_writes ..)
  (.cons (unary_writes ..)
  (.cons (ternary_writes ..)
  (.cons (unary_writes ..)
  (.cons (reshape_writes ..)
  (.cons (unary_writes ..)
  (.cons (unary_writes ..)
  (.cons (binary_writes ..)
  (.cons (binary_writes ..)
  (.cons (binary_writes ..)
  (.cons (binary_writes ..)
  (.cons (nullary_writes ..)
  (.cons (unary_writes ..)
  (.cons (binary_writes ..)
  (.cons (unary_writes ..)
  (.cons (unary_writes ..)
  (.cons (binary_writes ..)
  (.cons (nullary_writes ..)
  (.cons (binary_writes ..)
  (.cons (nullary_writes ..)
  (.cons (unary_writes ..)
  (.cons (binary_writes ..)
  (.cons (nullary_writes ..)
  (.cons (nullary_writes ..)
  (.cons (binary_writes ..)
  (.cons (unary_writes ..)
  (.cons (nullary_writes ..)
  (.cons (unary_writes ..)
  (.cons (binary_writes ..)
  (.cons (unary_writes ..)
  (.cons (binary_writes ..)
  (.cons (binary_writes ..)
  (.cons (unary_writes ..)
  (.cons (nullary_writes ..)
  (.cons (binary_writes ..)
  (.cons (nullary_writes ..)
  (.cons (binary_writes ..)
  (.cons (unary_writes ..)
  (.cons (binary_writes ..)
  (.cons (nullary_writes ..)
  (.cons (binary_writes ..)
  (.cons (nullary_writes ..)
  (.cons (unary_writes ..)
  (.cons (unary_writes ..)
  (.cons (ternary_writes ..)
  (.cons (unary_writes ..)
  (.cons (unary_writes ..)
  (.cons (binary_writes ..)
  (.cons (nullary_writes ..)
  (.cons (unary_writes ..)
  (.cons (binary_writes ..)
  (.cons (unary_writes ..)
  (.cons (unary_writes ..)
  (.cons (unary_writes ..)
  (.cons (binary_writes ..)
  (.cons (unary_writes ..)
  (.cons (binary_writes ..)
  (.cons (unary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..)
  (.cons (nullary_writes ..)
  (.cons (unary_writes ..)
  (.cons (binary_writes ..)
  (.cons (nullary_writes ..)
  (.cons (unary_writes ..)
  (.cons (binary_writes ..)
  (.cons (ternary_writes ..)
  (.cons (unary_writes ..)
  (.cons (binary_writes ..) (.nil)))))))))))))))))))))))))))))))))))))))))))))))))))))))))))))))))))))))))))))))

/-- The references @main's 468 operations write, in order. -/
abbrev W : List (Ref sig .tc) := W0 ++ (W1 ++ (W2 ++ (W3 ++ (W4 ++ (W5 ++ W6)))))

theorem ops_wr : WritesEach (τ := τ) (ops (F := F)) W :=
  ops0_wr.append (ops1_wr.append (ops2_wr.append (ops3_wr.append (ops4_wr.append (ops5_wr.append ops6_wr)))))

end Cert.ReferenceIdeal.HandRun

end
-- ==== Proof.RefEqs0.lean ====
/- One equation per host operation of the reference program's @main, operations 0 … 61 of 0 … 467 (window 0): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_v0 (V : Valuation τ sig (Elt F)) :
    after ops V (main_v0 : DevRef τ sig) =
      ((fun l r => Host.dotGeneral dot_S100000x768_S768x200_S100000x200_1_0_0_1_n_n none l r) : (⟨S100000x768, .f32⟩ : BufTy).Contents (Elt F) → (⟨S768x200, .f32⟩ : BufTy).Contents (Elt F) → (⟨S100000x200, .f32⟩ : BufTy).Contents (Elt F))
        (after ops V (main_arg5 : DevRef τ sig)) (after ops V (main_arg6 : DevRef τ sig)) :=
  binary_ssa (a := main_arg5) (b := main_arg6) (y := main_v0) ops_wr 0 rfl (by decide) (by decide) (by decide) V

theorem eq_v1 (V : Valuation τ sig (Elt F)) :
    after ops V (main_v1 : DevRef τ sig) =
      ((fun l r => Host.dotGeneral dot_S100000x768_S768x200_S100000x200_1_0_0_1_n_n none l r) : (⟨S100000x768, .f32⟩ : BufTy).Contents (Elt F) → (⟨S768x200, .f32⟩ : BufTy).Contents (Elt F) → (⟨S100000x200, .f32⟩ : BufTy).Contents (Elt F))
        (after ops V (main_arg7 : DevRef τ sig)) (after ops V (main_arg8 : DevRef τ sig)) :=
  binary_ssa (a := main_arg7) (b := main_arg8) (y := main_v1) ops_wr 1 rfl (by decide) (by decide) (by decide) V

theorem eq_v2 (V : Valuation τ sig (Elt F)) :
    after ops V (main_v2 : DevRef τ sig) =
      ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F))
        (after ops V (main_arg9 : DevRef τ sig)) (after ops V (main_arg14 : DevRef τ sig)) :=
  binary_ssa (a := main_arg9) (b := main_arg14) (y := main_v2) ops_wr 2 rfl (by decide) (by decide) (by decide) V

theorem eq_v3 (V : Valuation τ sig (Elt F)) :
    after ops V (main_v3 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_arg4 : DevRef τ sig)) (after ops V (main_v0 : DevRef τ sig)) :=
  binary_ssa (a := main_arg4) (b := main_v0) (y := main_v3) ops_wr 3 rfl (by decide) (by decide) (by decide) V

theorem eq_v4 (V : Valuation τ sig (Elt F)) :
    after ops V (main_v4 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v3 : DevRef τ sig)) (after ops V (main_v1 : DevRef τ sig)) :=
  binary_ssa (a := main_v3) (b := main_v1) (y := main_v4) ops_wr 4 rfl (by decide) (by decide) (by decide) V

theorem eq_v5 (V : Valuation τ sig (Elt F)) :
    after ops V (main_v5 : DevRef τ sig) =
      ((extractStridedSlice S2x200000 ![0, 0] · slices_S2x400000_S2x200000_0_0) : (⟨S2x400000, .i32⟩ : BufTy).Contents (Elt F) → (⟨S2x200000, .i32⟩ : BufTy).Contents (Elt F))
        (after ops V (main_arg2 : DevRef τ sig)) :=
  unary_ssa (x := main_arg2) (y := main_v5) ops_wr 5 rfl (by decide) (by decide) V

theorem eq_v6 (V : Valuation τ sig (Elt F)) :
    after ops V (main_v6 : DevRef τ sig) =
      ((extractStridedSlice S200000 ![0] · slices_S400000_S200000_0) : (⟨S400000, .i32⟩ : BufTy).Contents (Elt F) → (⟨S200000, .i32⟩ : BufTy).Contents (Elt F))
        (after ops V (main_arg3 : DevRef τ sig)) :=
  unary_ssa (x := main_arg3) (y := main_v6) ops_wr 6 rfl (by decide) (by decide) V

theorem eq_v7 (V : Valuation τ sig (Elt F)) :
    after ops V (main_v7 : DevRef τ sig) =
      ((extractStridedSlice S1x200000 ![0, 0] · slices_S2x200000_S1x200000_0_0) : (⟨S2x200000, .i32⟩ : BufTy).Contents (Elt F) → (⟨S1x200000, .i32⟩ : BufTy).Contents (Elt F))
        (after ops V (main_v5 : DevRef τ sig)) :=
  unary_ssa (x := main_v5) (y := main_v7) ops_wr 7 rfl (by decide) (by decide) V

theorem eq_v8 (V : Valuation τ sig (Elt F)) :
    after ops V (main_v8 : DevRef τ sig) = reshapeFn main_v7 main_v8 rfl shapeCasts_S1x200000_S200000 (after ops V (main_v7 : DevRef τ sig)) :=
  reshape_ssa (x := main_v7) (y := main_v8) ops_wr 8 rfl (by decide) (by decide) V

theorem eq_v9 (V : Valuation τ sig (Elt F)) :
    after ops V (main_v9 : DevRef τ sig) =
      ((extractStridedSlice S1x200000 ![1, 0] · slices_S2x200000_S1x200000_1_0) : (⟨S2x200000, .i32⟩ : BufTy).Contents (Elt F) → (⟨S1x200000, .i32⟩ : BufTy).Contents (Elt F))
        (after ops V (main_v5 : DevRef τ sig)) :=
  unary_ssa (x := main_v5) (y := main_v9) ops_wr 9 rfl (by decide) (by decide) V

theorem eq_v10 (V : Valuation τ sig (Elt F)) :
    after ops V (main_v10 : DevRef τ sig) = reshapeFn main_v9 main_v10 rfl shapeCasts_S1x200000_S200000 (after ops V (main_v9 : DevRef τ sig)) :=
  reshape_ssa (x := main_v9) (y := main_v10) ops_wr 10 rfl (by decide) (by decide) V

theorem eq_cst (V : Valuation τ sig (Elt F)) :
    after ops V (main_cst : DevRef τ sig) = (constant S_ .f32 0x00000000#32) :=
  nullary_ssa (y := main_cst) ops_wr 11 rfl (by decide) V

theorem eq_v11 (V : Valuation τ sig (Elt F)) :
    after ops V (main_v11 : DevRef τ sig) =
      (broadcastInDim S100000 ![] bcast_S_S100000 : (⟨S_, .f32⟩ : BufTy).Contents (Elt F) → (⟨S100000, .f32⟩ : BufTy).Contents (Elt F))
        (after ops V (main_cst : DevRef τ sig)) :=
  unary_ssa (x := main_cst) (y := main_v11) ops_wr 12 rfl (by decide) (by decide) V

theorem eq_c (V : Valuation τ sig (Elt F)) :
    after ops V (main_c : DevRef τ sig) = (constantI S_ 32 0#32) :=
  nullary_ssa (y := main_c) ops_wr 13 rfl (by decide) V

theorem eq_v12 (V : Valuation τ sig (Elt F)) :
    after ops V (main_v12 : DevRef τ sig) =
      (broadcastInDim S200000 ![] bcast_S_S200000 : (⟨S_, .i32⟩ : BufTy).Contents (Elt F) → (⟨S200000, .i32⟩ : BufTy).Contents (Elt F))
        (after ops V (main_c : DevRef τ sig)) :=
  unary_ssa (x := main_c) (y := main_v12) ops_wr 14 rfl (by decide) (by decide) V

theorem eq_v13 (V : Valuation τ sig (Elt F)) :
    after ops V (main_v13 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v8 : DevRef τ sig)) (after ops V (main_v12 : DevRef τ sig)) :=
  binary_ssa (a := main_v8) (b := main_v12) (y := main_v13) ops_wr 15 rfl (by decide) (by decide) (by decide) V

theorem eq_c_0 (V : Valuation τ sig (Elt F)) :
    after ops V (main_c_0 : DevRef τ sig) = (constantI S_ 32 100000#32) :=
  nullary_ssa (y := main_c_0) ops_wr 16 rfl (by decide) V

theorem eq_v14 (V : Valuation τ sig (Elt F)) :
    after ops V (main_v14 : DevRef τ sig) =
      (broadcastInDim S200000 ![] bcast_S_S200000 : (⟨S_, .i32⟩ : BufTy).Contents (Elt F) → (⟨S200000, .i32⟩ : BufTy).Contents (Elt F))
        (after ops V (main_c_0 : DevRef τ sig)) :=
  unary_ssa (x := main_c_0) (y := main_v14) ops_wr 17 rfl (by decide) (by decide) V

theorem eq_v15 (V : Valuation τ sig (Elt F)) :
    after ops V (main_v15 : DevRef τ sig) =
      (addi : (⟨S200000, .i32⟩ : BufTy).Contents (Elt F) → (⟨S200000, .i32⟩ : BufTy).Contents (Elt F) → (⟨S200000, .i32⟩ : BufTy).Contents (Elt F))
        (after ops V (main_v8 : DevRef τ sig)) (after ops V (main_v14 : DevRef τ sig)) :=
  binary_ssa (a := main_v8) (b := main_v14) (y := main_v15) ops_wr 18 rfl (by decide) (by decide) (by decide) V

theorem eq_v16 (V : Valuation τ sig (Elt F)) :
    after ops V (main_v16 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v13 : DevRef τ sig)) (after ops V (main_v15 : DevRef τ sig)) (after ops V (main_v8 : DevRef τ sig)) :=
  ternary_ssa (c := main_v13) (a := main_v15) (b := main_v8) (y := main_v16) ops_wr 19 rfl (by decide) (by decide) (by decide) (by decide) V

theorem eq_v17 (V : Valuation τ sig (Elt F)) :
    after ops V (main_v17 : DevRef τ sig) =
      (broadcastInDim S200000x1 ![0] bcast_S200000_S200000x1_0 : (⟨S200000, .i32⟩ : BufTy).Contents (Elt F) → (⟨S200000x1, .i32⟩ : BufTy).Contents (Elt F))
        (after ops V (main_v16 : DevRef τ sig)) :=
  unary_ssa (x := main_v16) (y := main_v17) ops_wr 20 rfl (by decide) (by decide) V

theorem eq_cst_1 (V : Valuation τ sig (Elt F)) :
    after ops V (main_cst_1 : DevRef τ sig) = (constant S_ .f32 0x3F800000#32) :=
  nullary_ssa (y := main_cst_1) ops_wr 21 rfl (by decide) V

theorem eq_v18 (V : Valuation τ sig (Elt F)) :
    after ops V (main_v18 : DevRef τ sig) =
      (broadcastInDim S200000 ![] bcast_S_S200000 : (⟨S_, .f32⟩ : BufTy).Contents (Elt F) → (⟨S200000, .f32⟩ : BufTy).Contents (Elt F))
        (after ops V (main_cst_1 : DevRef τ sig)) :=
  unary_ssa (x := main_cst_1) (y := main_v18) ops_wr 22 rfl (by decide) (by decide) V

theorem eq_v19 (V : Valuation τ sig (Elt F)) :
    after ops V (main_v19 : DevRef τ sig) =
      ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F))
        (after ops V (main_v11 : DevRef τ sig)) (after ops V (main_v17 : DevRef τ sig)) (after ops V (main_v18 : DevRef τ sig)) :=
  ternary_ssa (c := main_v11) (a := main_v17) (b := main_v18) (y := main_v19) ops_wr 23 rfl (by decide) (by decide) (by decide) (by decide) V

theorem eq_cst_2 (V : Valuation τ sig (Elt F)) :
    after ops V (main_cst_2 : DevRef τ sig) = (constant S_ .f32 0x00000000#32) :=
  nullary_ssa (y := main_cst_2) ops_wr 24 rfl (by decide) V

theorem eq_v20 (V : Valuation τ sig (Elt F)) :
    after ops V (main_v20 : DevRef τ sig) =
      (broadcastInDim S100000 ![] bcast_S_S100000 : (⟨S_, .f32⟩ : BufTy).Contents (Elt F) → (⟨S100000, .f32⟩ : BufTy).Contents (Elt F))
        (after ops V (main_cst_2 : DevRef τ sig)) :=
  unary_ssa (x := main_cst_2) (y := main_v20) ops_wr 25 rfl (by decide) (by decide) V

theorem eq_v21 (V : Valuation τ sig (Elt F)) :
    after ops V (main_v21 : DevRef τ sig) =
      (cmpf .ogt : (⟨S100000, .f32⟩ : BufTy).Contents (Elt F) → (⟨S100000, .f32⟩ : BufTy).Contents (Elt F) → (⟨S100000, .i1⟩ : BufTy).Contents (Elt F))
        (after ops V (main_v19 : DevRef τ sig)) (after ops V (main_v20 : DevRef τ sig)) :=
  binary_ssa (a := main_v19) (b := main_v20) (y := main_v21) ops_wr 26 rfl (by decide) (by decide) (by decide) V

theorem eq_cst_3 (V : Valuation τ sig (Elt F)) :
    after ops V (main_cst_3 : DevRef τ sig) = (constant S_ .f32 0x3F800000#32) :=
  nullary_ssa (y := main_cst_3) ops_wr 27 rfl (by decide) V

theorem eq_v22 (V : Valuation τ sig (Elt F)) :
    after ops V (main_v22 : DevRef τ sig) =
      (broadcastInDim S100000 ![] bcast_S_S100000 : (⟨S_, .f32⟩ : BufTy).Contents (Elt F) → (⟨S100000, .f32⟩ : BufTy).Contents (Elt F))
        (after ops V (main_cst_3 : DevRef τ sig)) :=
  unary_ssa (x := main_cst_3) (y := main_v22) ops_wr 28 rfl (by decide) (by decide) V

theorem eq_v23 (V : Valuation τ sig (Elt F)) :
    after ops V (main_v23 : DevRef τ sig) =
      (maximumf : (⟨S100000, .f32⟩ : BufTy).Contents (Elt F) → (⟨S100000, .f32⟩ : BufTy).Contents (Elt F) → (⟨S100000, .f32⟩ : BufTy).Contents (Elt F))
        (after ops V (main_v19 : DevRef τ sig)) (after ops V (main_v22 : DevRef τ sig)) :=
  binary_ssa (a := main_v19) (b := main_v22) (y := main_v23) ops_wr 29 rfl (by decide) (by decide) (by decide) V

theorem eq_v24 (V : Valuation τ sig (Elt F)) :
    after ops V (main_v24 : DevRef τ sig) =
      (Host.rsqrt : (⟨S100000, .f32⟩ : BufTy).Contents (Elt F) → (⟨S100000, .f32⟩ : BufTy).Contents (Elt F))
        (after ops V (main_v23 : DevRef τ sig)) :=
  unary_ssa (x := main_v23) (y := main_v24) ops_wr 30 rfl (by decide) (by decide) V

theorem eq_cst_4 (V : Valuation τ sig (Elt F)) :
    after ops V (main_cst_4 : DevRef τ sig) = (constant S_ .f32 0x00000000#32) :=
  nullary_ssa (y := main_cst_4) ops_wr 31 rfl (by decide) V

theorem eq_call0_v0 (V : Valuation τ sig (Elt F)) :
    after ops V (main_call0_v0 : DevRef τ sig) =
      (id : (⟨S_, .f32⟩ : BufTy).Contents (Elt F) → (⟨S_, .f32⟩ : BufTy).Contents (Elt F))
        (after ops V (main_cst_4 : DevRef τ sig)) := by
  have h := unary_ssa (x := main_cst_4) (y := main_call0_v0) ops_wr 32 rfl (by decide) (by decide) V
  generalize after ops V (main_call0_v0 : DevRef τ sig) = x0 at h ⊢
  generalize after ops V (main_cst_4 : DevRef τ sig) = x1 at h ⊢
  exact h

theorem eq_call0_v1 (V : Valuation τ sig (Elt F)) :
    after ops V (main_call0_v1 : DevRef τ sig) =
      ((broadcastInDim S100000 ![] bcast_S_S100000) : (⟨S_, .f32⟩ : BufTy).Contents (Elt F) → (⟨S100000, .f32⟩ : BufTy).Contents (Elt F))
        (after ops V (main_call0_v0 : DevRef τ sig)) := by
  have h := unary_ssa (x := main_call0_v0) (y := main_call0_v1) ops_wr 33 rfl (by decide) (by decide) V
  generalize after ops V (main_call0_v1 : DevRef τ sig) = x0 at h ⊢
  generalize after ops V (main_call0_v0 : DevRef τ sig) = x1 at h ⊢
  exact h

theorem eq_v25 (V : Valuation τ sig (Elt F)) :
    after ops V (main_v25 : DevRef τ sig) =
      (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))
        (after ops V (main_v21 : DevRef τ sig)) (after ops V (main_v24 : DevRef τ sig)) (after ops V (main_call0_v1 : DevRef τ sig)) := by
  have h := ternary_ssa (c := main_v21) (a := main_v24) (b := main_call0_v1) (y := main_v25) ops_wr 34 rfl (by decide) (by decide) (by decide) (by decide) V
  generalize after ops V (main_v25 : DevRef τ sig) = x0 at h ⊢
  generalize after ops V (main_v21 : DevRef τ sig) = x1 at h ⊢
  generalize after ops V (main_v24 : DevRef τ sig) = x2 at h ⊢
  generalize after ops V (main_call0_v1 : DevRef τ sig) = x3 at h ⊢
  exact h

theorem eq_c_5 (V : Valuation τ sig (Elt F)) :
    after ops V (main_c_5 : DevRef τ sig) = (constantI S_ 32 0#32) :=
  nullary_ssa (y := main_c_5) ops_wr 35 rfl (by decide) V

theorem eq_v26 (V : Valuation τ sig (Elt F)) :
    after ops V (main_v26 : DevRef τ sig) =
      (broadcastInDim S200000 ![] bcast_S_S200000 : (⟨S_, .i32⟩ : BufTy).Contents (Elt F) → (⟨S200000, .i32⟩ : BufTy).Contents (Elt F))
        (after ops V (main_c_5 : DevRef τ sig)) :=
  unary_ssa (x := main_c_5) (y := main_v26) ops_wr 36 rfl (by decide) (by decide) V

theorem eq_v27 (V : Valuation τ sig (Elt F)) :
    after ops V (main_v27 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v8 : DevRef τ sig)) (after ops V (main_v26 : DevRef τ sig)) :=
  binary_ssa (a := main_v8) (b := main_v26) (y := main_v27) ops_wr 37 rfl (by decide) (by decide) (by decide) V

theorem eq_c_6 (V : Valuation τ sig (Elt F)) :
    after ops V (main_c_6 : DevRef τ sig) = (constantI S_ 32 100000#32) :=
  nullary_ssa (y := main_c_6) ops_wr 38 rfl (by decide) V

theorem eq_v28 (V : Valuation τ sig (Elt F)) :
    after ops V (main_v28 : DevRef τ sig) =
      (broadcastInDim S200000 ![] bcast_S_S200000 : (⟨S_, .i32⟩ : BufTy).Contents (Elt F) → (⟨S200000, .i32⟩ : BufTy).Contents (Elt F))
        (after ops V (main_c_6 : DevRef τ sig)) :=
  unary_ssa (x := main_c_6) (y := main_v28) ops_wr 39 rfl (by decide) (by decide) V

theorem eq_v29 (V : Valuation τ sig (Elt F)) :
    after ops V (main_v29 : DevRef τ sig) =
      (addi : (⟨S200000, .i32⟩ : BufTy).Contents (Elt F) → (⟨S200000, .i32⟩ : BufTy).Contents (Elt F) → (⟨S200000, .i32⟩ : BufTy).Contents (Elt F))
        (after ops V (main_v8 : DevRef τ sig)) (after ops V (main_v28 : DevRef τ sig)) :=
  binary_ssa (a := main_v8) (b := main_v28) (y := main_v29) ops_wr 40 rfl (by decide) (by decide) (by decide) V

theorem eq_v30 (V : Valuation τ sig (Elt F)) :
    after ops V (main_v30 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v27 : DevRef τ sig)) (after ops V (main_v29 : DevRef τ sig)) (after ops V (main_v8 : DevRef τ sig)) :=
  ternary_ssa (c := main_v27) (a := main_v29) (b := main_v8) (y := main_v30) ops_wr 41 rfl (by decide) (by decide) (by decide) (by decide) V

theorem eq_v31 (V : Valuation τ sig (Elt F)) :
    after ops V (main_v31 : DevRef τ sig) =
      (broadcastInDim S200000x1 ![0] bcast_S200000_S200000x1_0 : (⟨S200000, .i32⟩ : BufTy).Contents (Elt F) → (⟨S200000x1, .i32⟩ : BufTy).Contents (Elt F))
        (after ops V (main_v30 : DevRef τ sig)) :=
  unary_ssa (x := main_v30) (y := main_v31) ops_wr 42 rfl (by decide) (by decide) V

theorem eq_v32 (V : Valuation τ sig (Elt F)) :
    after ops V (main_v32 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v25 : DevRef τ sig)) (after ops V (main_v31 : DevRef τ sig)) :=
  binary_ssa (a := main_v25) (b := main_v31) (y := main_v32) ops_wr 43 rfl (by decide) (by decide) (by decide) V

theorem eq_c_7 (V : Valuation τ sig (Elt F)) :
    after ops V (main_c_7 : DevRef τ sig) = (constantI S_ 32 0#32) :=
  nullary_ssa (y := main_c_7) ops_wr 44 rfl (by decide) V

theorem eq_v33 (V : Valuation τ sig (Elt F)) :
    after ops V (main_v33 : DevRef τ sig) =
      (broadcastInDim S200000 ![] bcast_S_S200000 : (⟨S_, .i32⟩ : BufTy).Contents (Elt F) → (⟨S200000, .i32⟩ : BufTy).Contents (Elt F))
        (after ops V (main_c_7 : DevRef τ sig)) :=
  unary_ssa (x := main_c_7) (y := main_v33) ops_wr 45 rfl (by decide) (by decide) V

theorem eq_v34 (V : Valuation τ sig (Elt F)) :
    after ops V (main_v34 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v10 : DevRef τ sig)) (after ops V (main_v33 : DevRef τ sig)) :=
  binary_ssa (a := main_v10) (b := main_v33) (y := main_v34) ops_wr 46 rfl (by decide) (by decide) (by decide) V

theorem eq_c_8 (V : Valuation τ sig (Elt F)) :
    after ops V (main_c_8 : DevRef τ sig) = (constantI S_ 32 100000#32) :=
  nullary_ssa (y := main_c_8) ops_wr 47 rfl (by decide) V

theorem eq_v35 (V : Valuation τ sig (Elt F)) :
    after ops V (main_v35 : DevRef τ sig) =
      (broadcastInDim S200000 ![] bcast_S_S200000 : (⟨S_, .i32⟩ : BufTy).Contents (Elt F) → (⟨S200000, .i32⟩ : BufTy).Contents (Elt F))
        (after ops V (main_c_8 : DevRef τ sig)) :=
  unary_ssa (x := main_c_8) (y := main_v35) ops_wr 48 rfl (by decide) (by decide) V

theorem eq_v36 (V : Valuation τ sig (Elt F)) :
    after ops V (main_v36 : DevRef τ sig) =
      (addi : (⟨S200000, .i32⟩ : BufTy).Contents (Elt F) → (⟨S200000, .i32⟩ : BufTy).Contents (Elt F) → (⟨S200000, .i32⟩ : BufTy).Contents (Elt F))
        (after ops V (main_v10 : DevRef τ sig)) (after ops V (main_v35 : DevRef τ sig)) :=
  binary_ssa (a := main_v10) (b := main_v35) (y := main_v36) ops_wr 49 rfl (by decide) (by decide) (by decide) V

theorem eq_v37 (V : Valuation τ sig (Elt F)) :
    after ops V (main_v37 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v34 : DevRef τ sig)) (after ops V (main_v36 : DevRef τ sig)) (after ops V (main_v10 : DevRef τ sig)) :=
  ternary_ssa (c := main_v34) (a := main_v36) (b := main_v10) (y := main_v37) ops_wr 50 rfl (by decide) (by decide) (by decide) (by decide) V

theorem eq_v38 (V : Valuation τ sig (Elt F)) :
    after ops V (main_v38 : DevRef τ sig) =
      (broadcastInDim S200000x1 ![0] bcast_S200000_S200000x1_0 : (⟨S200000, .i32⟩ : BufTy).Contents (Elt F) → (⟨S200000x1, .i32⟩ : BufTy).Contents (Elt F))
        (after ops V (main_v37 : DevRef τ sig)) :=
  unary_ssa (x := main_v37) (y := main_v38) ops_wr 51 rfl (by decide) (by decide) V

theorem eq_v39 (V : Valuation τ sig (Elt F)) :
    after ops V (main_v39 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v25 : DevRef τ sig)) (after ops V (main_v38 : DevRef τ sig)) :=
  binary_ssa (a := main_v25) (b := main_v38) (y := main_v39) ops_wr 52 rfl (by decide) (by decide) (by decide) V

theorem eq_v40 (V : Valuation τ sig (Elt F)) :
    after ops V (main_v40 : DevRef τ sig) =
      (mulf : (⟨S200000, .f32⟩ : BufTy).Contents (Elt F) → (⟨S200000, .f32⟩ : BufTy).Contents (Elt F) → (⟨S200000, .f32⟩ : BufTy).Contents (Elt F))
        (after ops V (main_v32 : DevRef τ sig)) (after ops V (main_v39 : DevRef τ sig)) :=
  binary_ssa (a := main_v32) (b := main_v39) (y := main_v40) ops_wr 53 rfl (by decide) (by decide) (by decide) V

theorem eq_c_9 (V : Valuation τ sig (Elt F)) :
    after ops V (main_c_9 : DevRef τ sig) = (constantI S_ 32 0#32) :=
  nullary_ssa (y := main_c_9) ops_wr 54 rfl (by decide) V

theorem eq_v41 (V : Valuation τ sig (Elt F)) :
    after ops V (main_v41 : DevRef τ sig) =
      (broadcastInDim S200000 ![] bcast_S_S200000 : (⟨S_, .i32⟩ : BufTy).Contents (Elt F) → (⟨S200000, .i32⟩ : BufTy).Contents (Elt F))
        (after ops V (main_c_9 : DevRef τ sig)) :=
  unary_ssa (x := main_c_9) (y := main_v41) ops_wr 55 rfl (by decide) (by decide) V

theorem eq_v42 (V : Valuation τ sig (Elt F)) :
    after ops V (main_v42 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v8 : DevRef τ sig)) (after ops V (main_v41 : DevRef τ sig)) :=
  binary_ssa (a := main_v8) (b := main_v41) (y := main_v42) ops_wr 56 rfl (by decide) (by decide) (by decide) V

theorem eq_c_10 (V : Valuation τ sig (Elt F)) :
    after ops V (main_c_10 : DevRef τ sig) = (constantI S_ 32 100000#32) :=
  nullary_ssa (y := main_c_10) ops_wr 57 rfl (by decide) V

theorem eq_v43 (V : Valuation τ sig (Elt F)) :
    after ops V (main_v43 : DevRef τ sig) =
      (broadcastInDim S200000 ![] bcast_S_S200000 : (⟨S_, .i32⟩ : BufTy).Contents (Elt F) → (⟨S200000, .i32⟩ : BufTy).Contents (Elt F))
        (after ops V (main_c_10 : DevRef τ sig)) :=
  unary_ssa (x := main_c_10) (y := main_v43) ops_wr 58 rfl (by decide) (by decide) V

theorem eq_v44 (V : Valuation τ sig (Elt F)) :
    after ops V (main_v44 : DevRef τ sig) =
      (addi : (⟨S200000, .i32⟩ : BufTy).Contents (Elt F) → (⟨S200000, .i32⟩ : BufTy).Contents (Elt F) → (⟨S200000, .i32⟩ : BufTy).Contents (Elt F))
        (after ops V (main_v8 : DevRef τ sig)) (after ops V (main_v43 : DevRef τ sig)) :=
  binary_ssa (a := main_v8) (b := main_v43) (y := main_v44) ops_wr 59 rfl (by decide) (by decide) (by decide) V

theorem eq_v45 (V : Valuation τ sig (Elt F)) :
    after ops V (main_v45 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v42 : DevRef τ sig)) (after ops V (main_v44 : DevRef τ sig)) (after ops V (main_v8 : DevRef τ sig)) :=
  ternary_ssa (c := main_v42) (a := main_v44) (b := main_v8) (y := main_v45) ops_wr 60 rfl (by decide) (by decide) (by decide) (by decide) V

theorem eq_v46 (V : Valuation τ sig (Elt F)) :
    after ops V (main_v46 : DevRef τ sig) =
      (broadcastInDim S200000x1 ![0] bcast_S200000_S200000x1_0 : (⟨S200000, .i32⟩ : BufTy).Contents (Elt F) → (⟨S200000x1, .i32⟩ : BufTy).Contents (Elt F))
        (after ops V (main_v45 : DevRef τ sig)) :=
  unary_ssa (x := main_v45) (y := main_v46) ops_wr 61 rfl (by decide) (by decide) V

end Cert.ReferenceIdeal.HandRun

end
-- ==== Proof.RefEqs1.lean ====
/- One equation per host operation of the reference program's @main, operations 62 … 123 of 0 … 467 (window 1): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_v47 (V : Valuation τ sig (Elt F)) :
    after ops V (main_v47 : DevRef τ sig) =
      ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F))
        (after ops V (main_v4 : DevRef τ sig)) (after ops V (main_v46 : DevRef τ sig)) :=
  binary_ssa (a := main_v4) (b := main_v46) (y := main_v47) ops_wr 62 rfl (by decide) (by decide) (by decide) V

theorem eq_c_11 (V : Valuation τ sig (Elt F)) :
    after ops V (main_c_11 : DevRef τ sig) = (constantI S_ 32 0#32) :=
  nullary_ssa (y := main_c_11) ops_wr 63 rfl (by decide) V

theorem eq_v48 (V : Valuation τ sig (Elt F)) :
    after ops V (main_v48 : DevRef τ sig) =
      (broadcastInDim S200000 ![] bcast_S_S200000 : (⟨S_, .i32⟩ : BufTy).Contents (Elt F) → (⟨S200000, .i32⟩ : BufTy).Contents (Elt F))
        (after ops V (main_c_11 : DevRef τ sig)) :=
  unary_ssa (x := main_c_11) (y := main_v48) ops_wr 64 rfl (by decide) (by decide) V

theorem eq_v49 (V : Valuation τ sig (Elt F)) :
    after ops V (main_v49 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v6 : DevRef τ sig)) (after ops V (main_v48 : DevRef τ sig)) :=
  binary_ssa (a := main_v6) (b := main_v48) (y := main_v49) ops_wr 65 rfl (by decide) (by decide) (by decide) V

theorem eq_c_12 (V : Valuation τ sig (Elt F)) :
    after ops V (main_c_12 : DevRef τ sig) = (constantI S_ 32 401#32) :=
  nullary_ssa (y := main_c_12) ops_wr 66 rfl (by decide) V

theorem eq_v50 (V : Valuation τ sig (Elt F)) :
    after ops V (main_v50 : DevRef τ sig) =
      (broadcastInDim S200000 ![] bcast_S_S200000 : (⟨S_, .i32⟩ : BufTy).Contents (Elt F) → (⟨S200000, .i32⟩ : BufTy).Contents (Elt F))
        (after ops V (main_c_12 : DevRef τ sig)) :=
  unary_ssa (x := main_c_12) (y := main_v50) ops_wr 67 rfl (by decide) (by decide) V

theorem eq_v51 (V : Valuation τ sig (Elt F)) :
    after ops V (main_v51 : DevRef τ sig) =
      (addi : (⟨S200000, .i32⟩ : BufTy).Contents (Elt F) → (⟨S200000, .i32⟩ : BufTy).Contents (Elt F) → (⟨S200000, .i32⟩ : BufTy).Contents (Elt F))
        (after ops V (main_v6 : DevRef τ sig)) (after ops V (main_v50 : DevRef τ sig)) :=
  binary_ssa (a := main_v6) (b := main_v50) (y := main_v51) ops_wr 68 rfl (by decide) (by decide) (by decide) V

theorem eq_v52 (V : Valuation τ sig (Elt F)) :
    after ops V (main_v52 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v49 : DevRef τ sig)) (after ops V (main_v51 : DevRef τ sig)) (after ops V (main_v6 : DevRef τ sig)) :=
  ternary_ssa (c := main_v49) (a := main_v51) (b := main_v6) (y := main_v52) ops_wr 69 rfl (by decide) (by decide) (by decide) (by decide) V

theorem eq_v53 (V : Valuation τ sig (Elt F)) :
    after ops V (main_v53 : DevRef τ sig) =
      (broadcastInDim S200000x1 ![0] bcast_S200000_S200000x1_0 : (⟨S200000, .i32⟩ : BufTy).Contents (Elt F) → (⟨S200000x1, .i32⟩ : BufTy).Contents (Elt F))
        (after ops V (main_v52 : DevRef τ sig)) :=
  unary_ssa (x := main_v52) (y := main_v53) ops_wr 70 rfl (by decide) (by decide) V

theorem eq_v54 (V : Valuation τ sig (Elt F)) :
    after ops V (main_v54 : DevRef τ sig) =
      ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F))
        (after ops V (main_v2 : DevRef τ sig)) (after ops V (main_v53 : DevRef τ sig)) :=
  binary_ssa (a := main_v2) (b := main_v53) (y := main_v54) ops_wr 71 rfl (by decide) (by decide) (by decide) V

theorem eq_v55 (V : Valuation τ sig (Elt F)) :
    after ops V (main_v55 : DevRef τ sig) =
      (subf : (⟨S200000x200, .f32⟩ : BufTy).Contents (Elt F) → (⟨S200000x200, .f32⟩ : BufTy).Contents (Elt F) → (⟨S200000x200, .f32⟩ : BufTy).Contents (Elt F))
        (after ops V (main_v47 : DevRef τ sig)) (after ops V (main_v54 : DevRef τ sig)) :=
  binary_ssa (a := main_v47) (b := main_v54) (y := main_v55) ops_wr 72 rfl (by decide) (by decide) (by decide) V

theorem eq_v56 (V : Valuation τ sig (Elt F)) :
    after ops V (main_v56 : DevRef τ sig) =
      ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F))
        (after ops V (main_v55 : DevRef τ sig)) (after ops V (main_arg10 : DevRef τ sig)) :=
  binary_ssa (a := main_v55) (b := main_arg10) (y := main_v56) ops_wr 73 rfl (by decide) (by decide) (by decide) V

theorem eq_v57 (V : Valuation τ sig (Elt F)) :
    after ops V (main_v57 : DevRef τ sig) =
      (broadcastInDim S200000x1 ![0] bcast_S200000_S200000x1_0 : (⟨S200000, .f32⟩ : BufTy).Contents (Elt F) → (⟨S200000x1, .f32⟩ : BufTy).Contents (Elt F))
        (after ops V (main_v40 : DevRef τ sig)) :=
  unary_ssa (x := main_v40) (y := main_v57) ops_wr 74 rfl (by decide) (by decide) V

theorem eq_v58 (V : Valuation τ sig (Elt F)) :
    after ops V (main_v58 : DevRef τ sig) =
      (broadcastInDim S200000x200 ![0, 1] bcast_S200000x1_S200000x200_0_1 : (⟨S200000x1, .f32⟩ : BufTy).Contents (Elt F) → (⟨S200000x200, .f32⟩ : BufTy).Contents (Elt F))
        (after ops V (main_v57 : DevRef τ sig)) :=
  unary_ssa (x := main_v57) (y := main_v58) ops_wr 75 rfl (by decide) (by decide) V

theorem eq_v59 (V : Valuation τ sig (Elt F)) :
    after ops V (main_v59 : DevRef τ sig) =
      (mulf : (⟨S200000x200, .f32⟩ : BufTy).Contents (Elt F) → (⟨S200000x200, .f32⟩ : BufTy).Contents (Elt F) → (⟨S200000x200, .f32⟩ : BufTy).Contents (Elt F))
        (after ops V (main_v56 : DevRef τ sig)) (after ops V (main_v58 : DevRef τ sig)) :=
  binary_ssa (a := main_v56) (b := main_v58) (y := main_v59) ops_wr 76 rfl (by decide) (by decide) (by decide) V

theorem eq_cst_13 (V : Valuation τ sig (Elt F)) :
    after ops V (main_cst_13 : DevRef τ sig) = (constant S_ .f32 0x00000000#32) :=
  nullary_ssa (y := main_cst_13) ops_wr 77 rfl (by decide) V

theorem eq_v60 (V : Valuation τ sig (Elt F)) :
    after ops V (main_v60 : DevRef τ sig) =
      (broadcastInDim S100000x200 ![] bcast_S_S100000x200 : (⟨S_, .f32⟩ : BufTy).Contents (Elt F) → (⟨S100000x200, .f32⟩ : BufTy).Contents (Elt F))
        (after ops V (main_cst_13 : DevRef τ sig)) :=
  unary_ssa (x := main_cst_13) (y := main_v60) ops_wr 78 rfl (by decide) (by decide) V

theorem eq_c_14 (V : Valuation τ sig (Elt F)) :
    after ops V (main_c_14 : DevRef τ sig) = (constantI S_ 32 0#32) :=
  nullary_ssa (y := main_c_14) ops_wr 79 rfl (by decide) V

theorem eq_v61 (V : Valuation τ sig (Elt F)) :
    after ops V (main_v61 : DevRef τ sig) =
      (broadcastInDim S200000 ![] bcast_S_S200000 : (⟨S_, .i32⟩ : BufTy).Contents (Elt F) → (⟨S200000, .i32⟩ : BufTy).Contents (Elt F))
        (after ops V (main_c_14 : DevRef τ sig)) :=
  unary_ssa (x := main_c_14) (y := main_v61) ops_wr 80 rfl (by decide) (by decide) V

theorem eq_v62 (V : Valuation τ sig (Elt F)) :
    after ops V (main_v62 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v10 : DevRef τ sig)) (after ops V (main_v61 : DevRef τ sig)) :=
  binary_ssa (a := main_v10) (b := main_v61) (y := main_v62) ops_wr 81 rfl (by decide) (by decide) (by decide) V

theorem eq_c_15 (V : Valuation τ sig (Elt F)) :
    after ops V (main_c_15 : DevRef τ sig) = (constantI S_ 32 100000#32) :=
  nullary_ssa (y := main_c_15) ops_wr 82 rfl (by decide) V

theorem eq_v63 (V : Valuation τ sig (Elt F)) :
    after ops V (main_v63 : DevRef τ sig) =
      (broadcastInDim S200000 ![] bcast_S_S200000 : (⟨S_, .i32⟩ : BufTy).Contents (Elt F) → (⟨S200000, .i32⟩ : BufTy).Contents (Elt F))
        (after ops V (main_c_15 : DevRef τ sig)) :=
  unary_ssa (x := main_c_15) (y := main_v63) ops_wr 83 rfl (by decide) (by decide) V

theorem eq_v64 (V : Valuation τ sig (Elt F)) :
    after ops V (main_v64 : DevRef τ sig) =
      (addi : (⟨S200000, .i32⟩ : BufTy).Contents (Elt F) → (⟨S200000, .i32⟩ : BufTy).Contents (Elt F) → (⟨S200000, .i32⟩ : BufTy).Contents (Elt F))
        (after ops V (main_v10 : DevRef τ sig)) (after ops V (main_v63 : DevRef τ sig)) :=
  binary_ssa (a := main_v10) (b := main_v63) (y := main_v64) ops_wr 84 rfl (by decide) (by decide) (by decide) V

theorem eq_v65 (V : Valuation τ sig (Elt F)) :
    after ops V (main_v65 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v62 : DevRef τ sig)) (after ops V (main_v64 : DevRef τ sig)) (after ops V (main_v10 : DevRef τ sig)) :=
  ternary_ssa (c := main_v62) (a := main_v64) (b := main_v10) (y := main_v65) ops_wr 85 rfl (by decide) (by decide) (by decide) (by decide) V

theorem eq_v66 (V : Valuation τ sig (Elt F)) :
    after ops V (main_v66 : DevRef τ sig) =
      (broadcastInDim S200000x1 ![0] bcast_S200000_S200000x1_0 : (⟨S200000, .i32⟩ : BufTy).Contents (Elt F) → (⟨S200000x1, .i32⟩ : BufTy).Contents (Elt F))
        (after ops V (main_v65 : DevRef τ sig)) :=
  unary_ssa (x := main_v65) (y := main_v66) ops_wr 86 rfl (by decide) (by decide) V

theorem eq_v67 (V : Valuation τ sig (Elt F)) :
    after ops V (main_v67 : DevRef τ sig) =
      ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F))
        (after ops V (main_v60 : DevRef τ sig)) (after ops V (main_v66 : DevRef τ sig)) (after ops V (main_v59 : DevRef τ sig)) :=
  ternary_ssa (c := main_v60) (a := main_v66) (b := main_v59) (y := main_v67) ops_wr 87 rfl (by decide) (by decide) (by decide) (by decide) V

theorem eq_v68 (V : Valuation τ sig (Elt F)) :
    after ops V (main_v68 : DevRef τ sig) =
      ((extractStridedSlice S2x200000 ![0, 200000] · slices_S2x400000_S2x200000_0_200000) : (⟨S2x400000, .i32⟩ : BufTy).Contents (Elt F) → (⟨S2x200000, .i32⟩ : BufTy).Contents (Elt F))
        (after ops V (main_arg2 : DevRef τ sig)) :=
  unary_ssa (x := main_arg2) (y := main_v68) ops_wr 88 rfl (by decide) (by decide) V

theorem eq_v69 (V : Valuation τ sig (Elt F)) :
    after ops V (main_v69 : DevRef τ sig) =
      ((extractStridedSlice S200000 ![200000] · slices_S400000_S200000_200000) : (⟨S400000, .i32⟩ : BufTy).Contents (Elt F) → (⟨S200000, .i32⟩ : BufTy).Contents (Elt F))
        (after ops V (main_arg3 : DevRef τ sig)) :=
  unary_ssa (x := main_arg3) (y := main_v69) ops_wr 89 rfl (by decide) (by decide) V

theorem eq_v70 (V : Valuation τ sig (Elt F)) :
    after ops V (main_v70 : DevRef τ sig) =
      ((extractStridedSlice S1x200000 ![0, 0] · slices_S2x200000_S1x200000_0_0) : (⟨S2x200000, .i32⟩ : BufTy).Contents (Elt F) → (⟨S1x200000, .i32⟩ : BufTy).Contents (Elt F))
        (after ops V (main_v68 : DevRef τ sig)) :=
  unary_ssa (x := main_v68) (y := main_v70) ops_wr 90 rfl (by decide) (by decide) V

theorem eq_v71 (V : Valuation τ sig (Elt F)) :
    after ops V (main_v71 : DevRef τ sig) = reshapeFn main_v70 main_v71 rfl shapeCasts_S1x200000_S200000 (after ops V (main_v70 : DevRef τ sig)) :=
  reshape_ssa (x := main_v70) (y := main_v71) ops_wr 91 rfl (by decide) (by decide) V

theorem eq_v72 (V : Valuation τ sig (Elt F)) :
    after ops V (main_v72 : DevRef τ sig) =
      ((extractStridedSlice S1x200000 ![1, 0] · slices_S2x200000_S1x200000_1_0) : (⟨S2x200000, .i32⟩ : BufTy).Contents (Elt F) → (⟨S1x200000, .i32⟩ : BufTy).Contents (Elt F))
        (after ops V (main_v68 : DevRef τ sig)) :=
  unary_ssa (x := main_v68) (y := main_v72) ops_wr 92 rfl (by decide) (by decide) V

theorem eq_v73 (V : Valuation τ sig (Elt F)) :
    after ops V (main_v73 : DevRef τ sig) = reshapeFn main_v72 main_v73 rfl shapeCasts_S1x200000_S200000 (after ops V (main_v72 : DevRef τ sig)) :=
  reshape_ssa (x := main_v72) (y := main_v73) ops_wr 93 rfl (by decide) (by decide) V

theorem eq_cst_16 (V : Valuation τ sig (Elt F)) :
    after ops V (main_cst_16 : DevRef τ sig) = (constant S_ .f32 0x00000000#32) :=
  nullary_ssa (y := main_cst_16) ops_wr 94 rfl (by decide) V

theorem eq_v74 (V : Valuation τ sig (Elt F)) :
    after ops V (main_v74 : DevRef τ sig) =
      (broadcastInDim S100000 ![] bcast_S_S100000 : (⟨S_, .f32⟩ : BufTy).Contents (Elt F) → (⟨S100000, .f32⟩ : BufTy).Contents (Elt F))
        (after ops V (main_cst_16 : DevRef τ sig)) :=
  unary_ssa (x := main_cst_16) (y := main_v74) ops_wr 95 rfl (by decide) (by decide) V

theorem eq_c_17 (V : Valuation τ sig (Elt F)) :
    after ops V (main_c_17 : DevRef τ sig) = (constantI S_ 32 0#32) :=
  nullary_ssa (y := main_c_17) ops_wr 96 rfl (by decide) V

theorem eq_v75 (V : Valuation τ sig (Elt F)) :
    after ops V (main_v75 : DevRef τ sig) =
      (broadcastInDim S200000 ![] bcast_S_S200000 : (⟨S_, .i32⟩ : BufTy).Contents (Elt F) → (⟨S200000, .i32⟩ : BufTy).Contents (Elt F))
        (after ops V (main_c_17 : DevRef τ sig)) :=
  unary_ssa (x := main_c_17) (y := main_v75) ops_wr 97 rfl (by decide) (by decide) V

theorem eq_v76 (V : Valuation τ sig (Elt F)) :
    after ops V (main_v76 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v71 : DevRef τ sig)) (after ops V (main_v75 : DevRef τ sig)) :=
  binary_ssa (a := main_v71) (b := main_v75) (y := main_v76) ops_wr 98 rfl (by decide) (by decide) (by decide) V

theorem eq_c_18 (V : Valuation τ sig (Elt F)) :
    after ops V (main_c_18 : DevRef τ sig) = (constantI S_ 32 100000#32) :=
  nullary_ssa (y := main_c_18) ops_wr 99 rfl (by decide) V

theorem eq_v77 (V : Valuation τ sig (Elt F)) :
    after ops V (main_v77 : DevRef τ sig) =
      (broadcastInDim S200000 ![] bcast_S_S200000 : (⟨S_, .i32⟩ : BufTy).Contents (Elt F) → (⟨S200000, .i32⟩ : BufTy).Contents (Elt F))
        (after ops V (main_c_18 : DevRef τ sig)) :=
  unary_ssa (x := main_c_18) (y := main_v77) ops_wr 100 rfl (by decide) (by decide) V

theorem eq_v78 (V : Valuation τ sig (Elt F)) :
    after ops V (main_v78 : DevRef τ sig) =
      (addi : (⟨S200000, .i32⟩ : BufTy).Contents (Elt F) → (⟨S200000, .i32⟩ : BufTy).Contents (Elt F) → (⟨S200000, .i32⟩ : BufTy).Contents (Elt F))
        (after ops V (main_v71 : DevRef τ sig)) (after ops V (main_v77 : DevRef τ sig)) :=
  binary_ssa (a := main_v71) (b := main_v77) (y := main_v78) ops_wr 101 rfl (by decide) (by decide) (by decide) V

theorem eq_v79 (V : Valuation τ sig (Elt F)) :
    after ops V (main_v79 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v76 : DevRef τ sig)) (after ops V (main_v78 : DevRef τ sig)) (after ops V (main_v71 : DevRef τ sig)) :=
  ternary_ssa (c := main_v76) (a := main_v78) (b := main_v71) (y := main_v79) ops_wr 102 rfl (by decide) (by decide) (by decide) (by decide) V

theorem eq_v80 (V : Valuation τ sig (Elt F)) :
    after ops V (main_v80 : DevRef τ sig) =
      (broadcastInDim S200000x1 ![0] bcast_S200000_S200000x1_0 : (⟨S200000, .i32⟩ : BufTy).Contents (Elt F) → (⟨S200000x1, .i32⟩ : BufTy).Contents (Elt F))
        (after ops V (main_v79 : DevRef τ sig)) :=
  unary_ssa (x := main_v79) (y := main_v80) ops_wr 103 rfl (by decide) (by decide) V

theorem eq_cst_19 (V : Valuation τ sig (Elt F)) :
    after ops V (main_cst_19 : DevRef τ sig) = (constant S_ .f32 0x3F800000#32) :=
  nullary_ssa (y := main_cst_19) ops_wr 104 rfl (by decide) V

theorem eq_v81 (V : Valuation τ sig (Elt F)) :
    after ops V (main_v81 : DevRef τ sig) =
      (broadcastInDim S200000 ![] bcast_S_S200000 : (⟨S_, .f32⟩ : BufTy).Contents (Elt F) → (⟨S200000, .f32⟩ : BufTy).Contents (Elt F))
        (after ops V (main_cst_19 : DevRef τ sig)) :=
  unary_ssa (x := main_cst_19) (y := main_v81) ops_wr 105 rfl (by decide) (by decide) V

theorem eq_v82 (V : Valuation τ sig (Elt F)) :
    after ops V (main_v82 : DevRef τ sig) =
      ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F))
        (after ops V (main_v74 : DevRef τ sig)) (after ops V (main_v80 : DevRef τ sig)) (after ops V (main_v81 : DevRef τ sig)) :=
  ternary_ssa (c := main_v74) (a := main_v80) (b := main_v81) (y := main_v82) ops_wr 106 rfl (by decide) (by decide) (by decide) (by decide) V

theorem eq_cst_20 (V : Valuation τ sig (Elt F)) :
    after ops V (main_cst_20 : DevRef τ sig) = (constant S_ .f32 0x00000000#32) :=
  nullary_ssa (y := main_cst_20) ops_wr 107 rfl (by decide) V

theorem eq_v83 (V : Valuation τ sig (Elt F)) :
    after ops V (main_v83 : DevRef τ sig) =
      (broadcastInDim S100000 ![] bcast_S_S100000 : (⟨S_, .f32⟩ : BufTy).Contents (Elt F) → (⟨S100000, .f32⟩ : BufTy).Contents (Elt F))
        (after ops V (main_cst_20 : DevRef τ sig)) :=
  unary_ssa (x := main_cst_20) (y := main_v83) ops_wr 108 rfl (by decide) (by decide) V

theorem eq_v84 (V : Valuation τ sig (Elt F)) :
    after ops V (main_v84 : DevRef τ sig) =
      (cmpf .ogt : (⟨S100000, .f32⟩ : BufTy).Contents (Elt F) → (⟨S100000, .f32⟩ : BufTy).Contents (Elt F) → (⟨S100000, .i1⟩ : BufTy).Contents (Elt F))
        (after ops V (main_v82 : DevRef τ sig)) (after ops V (main_v83 : DevRef τ sig)) :=
  binary_ssa (a := main_v82) (b := main_v83) (y := main_v84) ops_wr 109 rfl (by decide) (by decide) (by decide) V

theorem eq_cst_21 (V : Valuation τ sig (Elt F)) :
    after ops V (main_cst_21 : DevRef τ sig) = (constant S_ .f32 0x3F800000#32) :=
  nullary_ssa (y := main_cst_21) ops_wr 110 rfl (by decide) V

theorem eq_v85 (V : Valuation τ sig (Elt F)) :
    after ops V (main_v85 : DevRef τ sig) =
      (broadcastInDim S100000 ![] bcast_S_S100000 : (⟨S_, .f32⟩ : BufTy).Contents (Elt F) → (⟨S100000, .f32⟩ : BufTy).Contents (Elt F))
        (after ops V (main_cst_21 : DevRef τ sig)) :=
  unary_ssa (x := main_cst_21) (y := main_v85) ops_wr 111 rfl (by decide) (by decide) V

theorem eq_v86 (V : Valuation τ sig (Elt F)) :
    after ops V (main_v86 : DevRef τ sig) =
      (maximumf : (⟨S100000, .f32⟩ : BufTy).Contents (Elt F) → (⟨S100000, .f32⟩ : BufTy).Contents (Elt F) → (⟨S100000, .f32⟩ : BufTy).Contents (Elt F))
        (after ops V (main_v82 : DevRef τ sig)) (after ops V (main_v85 : DevRef τ sig)) :=
  binary_ssa (a := main_v82) (b := main_v85) (y := main_v86) ops_wr 112 rfl (by decide) (by decide) (by decide) V

theorem eq_v87 (V : Valuation τ sig (Elt F)) :
    after ops V (main_v87 : DevRef τ sig) =
      (Host.rsqrt : (⟨S100000, .f32⟩ : BufTy).Contents (Elt F) → (⟨S100000, .f32⟩ : BufTy).Contents (Elt F))
        (after ops V (main_v86 : DevRef τ sig)) :=
  unary_ssa (x := main_v86) (y := main_v87) ops_wr 113 rfl (by decide) (by decide) V

theorem eq_cst_22 (V : Valuation τ sig (Elt F)) :
    after ops V (main_cst_22 : DevRef τ sig) = (constant S_ .f32 0x00000000#32) :=
  nullary_ssa (y := main_cst_22) ops_wr 114 rfl (by decide) V

theorem eq_call1_v0 (V : Valuation τ sig (Elt F)) :
    after ops V (main_call1_v0 : DevRef τ sig) =
      (id : (⟨S_, .f32⟩ : BufTy).Contents (Elt F) → (⟨S_, .f32⟩ : BufTy).Contents (Elt F))
        (after ops V (main_cst_22 : DevRef τ sig)) := by
  have h := unary_ssa (x := main_cst_22) (y := main_call1_v0) ops_wr 115 rfl (by decide) (by decide) V
  generalize after ops V (main_call1_v0 : DevRef τ sig) = x0 at h ⊢
  generalize after ops V (main_cst_22 : DevRef τ sig) = x1 at h ⊢
  exact h

theorem eq_call1_v1 (V : Valuation τ sig (Elt F)) :
    after ops V (main_call1_v1 : DevRef τ sig) =
      ((broadcastInDim S100000 ![] bcast_S_S100000) : (⟨S_, .f32⟩ : BufTy).Contents (Elt F) → (⟨S100000, .f32⟩ : BufTy).Contents (Elt F))
        (after ops V (main_call1_v0 : DevRef τ sig)) := by
  have h := unary_ssa (x := main_call1_v0) (y := main_call1_v1) ops_wr 116 rfl (by decide) (by decide) V
  generalize after ops V (main_call1_v1 : DevRef τ sig) = x0 at h ⊢
  generalize after ops V (main_call1_v0 : DevRef τ sig) = x1 at h ⊢
  exact h

theorem eq_v88 (V : Valuation τ sig (Elt F)) :
    after ops V (main_v88 : DevRef τ sig) =
      (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))
        (after ops V (main_v84 : DevRef τ sig)) (after ops V (main_v87 : DevRef τ sig)) (after ops V (main_call1_v1 : DevRef τ sig)) := by
  have h := ternary_ssa (c := main_v84) (a := main_v87) (b := main_call1_v1) (y := main_v88) ops_wr 117 rfl (by decide) (by decide) (by decide) (by decide) V
  generalize after ops V (main_v88 : DevRef τ sig) = x0 at h ⊢
  generalize after ops V (main_v84 : DevRef τ sig) = x1 at h ⊢
  generalize after ops V (main_v87 : DevRef τ sig) = x2 at h ⊢
  generalize after ops V (main_call1_v1 : DevRef τ sig) = x3 at h ⊢
  exact h

theorem eq_c_23 (V : Valuation τ sig (Elt F)) :
    after ops V (main_c_23 : DevRef τ sig) = (constantI S_ 32 0#32) :=
  nullary_ssa (y := main_c_23) ops_wr 118 rfl (by decide) V

theorem eq_v89 (V : Valuation τ sig (Elt F)) :
    after ops V (main_v89 : DevRef τ sig) =
      (broadcastInDim S200000 ![] bcast_S_S200000 : (⟨S_, .i32⟩ : BufTy).Contents (Elt F) → (⟨S200000, .i32⟩ : BufTy).Contents (Elt F))
        (after ops V (main_c_23 : DevRef τ sig)) :=
  unary_ssa (x := main_c_23) (y := main_v89) ops_wr 119 rfl (by decide) (by decide) V

theorem eq_v90 (V : Valuation τ sig (Elt F)) :
    after ops V (main_v90 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v71 : DevRef τ sig)) (after ops V (main_v89 : DevRef τ sig)) :=
  binary_ssa (a := main_v71) (b := main_v89) (y := main_v90) ops_wr 120 rfl (by decide) (by decide) (by decide) V

theorem eq_c_24 (V : Valuation τ sig (Elt F)) :
    after ops V (main_c_24 : DevRef τ sig) = (constantI S_ 32 100000#32) :=
  nullary_ssa (y := main_c_24) ops_wr 121 rfl (by decide) V

theorem eq_v91 (V : Valuation τ sig (Elt F)) :
    after ops V (main_v91 : DevRef τ sig) =
      (broadcastInDim S200000 ![] bcast_S_S200000 : (⟨S_, .i32⟩ : BufTy).Contents (Elt F) → (⟨S200000, .i32⟩ : BufTy).Contents (Elt F))
        (after ops V (main_c_24 : DevRef τ sig)) :=
  unary_ssa (x := main_c_24) (y := main_v91) ops_wr 122 rfl (by decide) (by decide) V

theorem eq_v92 (V : Valuation τ sig (Elt F)) :
    after ops V (main_v92 : DevRef τ sig) =
      (addi : (⟨S200000, .i32⟩ : BufTy).Contents (Elt F) → (⟨S200000, .i32⟩ : BufTy).Contents (Elt F) → (⟨S200000, .i32⟩ : BufTy).Contents (Elt F))
        (after ops V (main_v71 : DevRef τ sig)) (after ops V (main_v91 : DevRef τ sig)) :=
  binary_ssa (a := main_v71) (b := main_v91) (y := main_v92) ops_wr 123 rfl (by decide) (by decide) (by decide) V

end Cert.ReferenceIdeal.HandRun

end
-- ==== Proof.RefEqs2.lean ====
/- One equation per host operation of the reference program's @main, operations 124 … 183 of 0 … 467 (window 2): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_v93 (V : Valuation τ sig (Elt F)) :
    after ops V (main_v93 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v90 : DevRef τ sig)) (after ops V (main_v92 : DevRef τ sig)) (after ops V (main_v71 : DevRef τ sig)) :=
  ternary_ssa (c := main_v90) (a := main_v92) (b := main_v71) (y := main_v93) ops_wr 124 rfl (by decide) (by decide) (by decide) (by decide) V

theorem eq_v94 (V : Valuation τ sig (Elt F)) :
    after ops V (main_v94 : DevRef τ sig) =
      (broadcastInDim S200000x1 ![0] bcast_S200000_S200000x1_0 : (⟨S200000, .i32⟩ : BufTy).Contents (Elt F) → (⟨S200000x1, .i32⟩ : BufTy).Contents (Elt F))
        (after ops V (main_v93 : DevRef τ sig)) :=
  unary_ssa (x := main_v93) (y := main_v94) ops_wr 125 rfl (by decide) (by decide) V

theorem eq_v95 (V : Valuation τ sig (Elt F)) :
    after ops V (main_v95 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v88 : DevRef τ sig)) (after ops V (main_v94 : DevRef τ sig)) :=
  binary_ssa (a := main_v88) (b := main_v94) (y := main_v95) ops_wr 126 rfl (by decide) (by decide) (by decide) V

theorem eq_c_25 (V : Valuation τ sig (Elt F)) :
    after ops V (main_c_25 : DevRef τ sig) = (constantI S_ 32 0#32) :=
  nullary_ssa (y := main_c_25) ops_wr 127 rfl (by decide) V

theorem eq_v96 (V : Valuation τ sig (Elt F)) :
    after ops V (main_v96 : DevRef τ sig) =
      (broadcastInDim S200000 ![] bcast_S_S200000 : (⟨S_, .i32⟩ : BufTy).Contents (Elt F) → (⟨S200000, .i32⟩ : BufTy).Contents (Elt F))
        (after ops V (main_c_25 : DevRef τ sig)) :=
  unary_ssa (x := main_c_25) (y := main_v96) ops_wr 128 rfl (by decide) (by decide) V

theorem eq_v97 (V : Valuation τ sig (Elt F)) :
    after ops V (main_v97 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v73 : DevRef τ sig)) (after ops V (main_v96 : DevRef τ sig)) :=
  binary_ssa (a := main_v73) (b := main_v96) (y := main_v97) ops_wr 129 rfl (by decide) (by decide) (by decide) V

theorem eq_c_26 (V : Valuation τ sig (Elt F)) :
    after ops V (main_c_26 : DevRef τ sig) = (constantI S_ 32 100000#32) :=
  nullary_ssa (y := main_c_26) ops_wr 130 rfl (by decide) V

theorem eq_v98 (V : Valuation τ sig (Elt F)) :
    after ops V (main_v98 : DevRef τ sig) =
      (broadcastInDim S200000 ![] bcast_S_S200000 : (⟨S_, .i32⟩ : BufTy).Contents (Elt F) → (⟨S200000, .i32⟩ : BufTy).Contents (Elt F))
        (after ops V (main_c_26 : DevRef τ sig)) :=
  unary_ssa (x := main_c_26) (y := main_v98) ops_wr 131 rfl (by decide) (by decide) V

theorem eq_v99 (V : Valuation τ sig (Elt F)) :
    after ops V (main_v99 : DevRef τ sig) =
      (addi : (⟨S200000, .i32⟩ : BufTy).Contents (Elt F) → (⟨S200000, .i32⟩ : BufTy).Contents (Elt F) → (⟨S200000, .i32⟩ : BufTy).Contents (Elt F))
        (after ops V (main_v73 : DevRef τ sig)) (after ops V (main_v98 : DevRef τ sig)) :=
  binary_ssa (a := main_v73) (b := main_v98) (y := main_v99) ops_wr 132 rfl (by decide) (by decide) (by decide) V

theorem eq_v100 (V : Valuation τ sig (Elt F)) :
    after ops V (main_v100 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v97 : DevRef τ sig)) (after ops V (main_v99 : DevRef τ sig)) (after ops V (main_v73 : DevRef τ sig)) :=
  ternary_ssa (c := main_v97) (a := main_v99) (b := main_v73) (y := main_v100) ops_wr 133 rfl (by decide) (by decide) (by decide) (by decide) V

theorem eq_v101 (V : Valuation τ sig (Elt F)) :
    after ops V (main_v101 : DevRef τ sig) =
      (broadcastInDim S200000x1 ![0] bcast_S200000_S200000x1_0 : (⟨S200000, .i32⟩ : BufTy).Contents (Elt F) → (⟨S200000x1, .i32⟩ : BufTy).Contents (Elt F))
        (after ops V (main_v100 : DevRef τ sig)) :=
  unary_ssa (x := main_v100) (y := main_v101) ops_wr 134 rfl (by decide) (by decide) V

theorem eq_v102 (V : Valuation τ sig (Elt F)) :
    after ops V (main_v102 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v88 : DevRef τ sig)) (after ops V (main_v101 : DevRef τ sig)) :=
  binary_ssa (a := main_v88) (b := main_v101) (y := main_v102) ops_wr 135 rfl (by decide) (by decide) (by decide) V

theorem eq_v103 (V : Valuation τ sig (Elt F)) :
    after ops V (main_v103 : DevRef τ sig) =
      (mulf : (⟨S200000, .f32⟩ : BufTy).Contents (Elt F) → (⟨S200000, .f32⟩ : BufTy).Contents (Elt F) → (⟨S200000, .f32⟩ : BufTy).Contents (Elt F))
        (after ops V (main_v95 : DevRef τ sig)) (after ops V (main_v102 : DevRef τ sig)) :=
  binary_ssa (a := main_v95) (b := main_v102) (y := main_v103) ops_wr 136 rfl (by decide) (by decide) (by decide) V

theorem eq_c_27 (V : Valuation τ sig (Elt F)) :
    after ops V (main_c_27 : DevRef τ sig) = (constantI S_ 32 0#32) :=
  nullary_ssa (y := main_c_27) ops_wr 137 rfl (by decide) V

theorem eq_v104 (V : Valuation τ sig (Elt F)) :
    after ops V (main_v104 : DevRef τ sig) =
      (broadcastInDim S200000 ![] bcast_S_S200000 : (⟨S_, .i32⟩ : BufTy).Contents (Elt F) → (⟨S200000, .i32⟩ : BufTy).Contents (Elt F))
        (after ops V (main_c_27 : DevRef τ sig)) :=
  unary_ssa (x := main_c_27) (y := main_v104) ops_wr 138 rfl (by decide) (by decide) V

theorem eq_v105 (V : Valuation τ sig (Elt F)) :
    after ops V (main_v105 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v71 : DevRef τ sig)) (after ops V (main_v104 : DevRef τ sig)) :=
  binary_ssa (a := main_v71) (b := main_v104) (y := main_v105) ops_wr 139 rfl (by decide) (by decide) (by decide) V

theorem eq_c_28 (V : Valuation τ sig (Elt F)) :
    after ops V (main_c_28 : DevRef τ sig) = (constantI S_ 32 100000#32) :=
  nullary_ssa (y := main_c_28) ops_wr 140 rfl (by decide) V

theorem eq_v106 (V : Valuation τ sig (Elt F)) :
    after ops V (main_v106 : DevRef τ sig) =
      (broadcastInDim S200000 ![] bcast_S_S200000 : (⟨S_, .i32⟩ : BufTy).Contents (Elt F) → (⟨S200000, .i32⟩ : BufTy).Contents (Elt F))
        (after ops V (main_c_28 : DevRef τ sig)) :=
  unary_ssa (x := main_c_28) (y := main_v106) ops_wr 141 rfl (by decide) (by decide) V

theorem eq_v107 (V : Valuation τ sig (Elt F)) :
    after ops V (main_v107 : DevRef τ sig) =
      (addi : (⟨S200000, .i32⟩ : BufTy).Contents (Elt F) → (⟨S200000, .i32⟩ : BufTy).Contents (Elt F) → (⟨S200000, .i32⟩ : BufTy).Contents (Elt F))
        (after ops V (main_v71 : DevRef τ sig)) (after ops V (main_v106 : DevRef τ sig)) :=
  binary_ssa (a := main_v71) (b := main_v106) (y := main_v107) ops_wr 142 rfl (by decide) (by decide) (by decide) V

theorem eq_v108 (V : Valuation τ sig (Elt F)) :
    after ops V (main_v108 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v105 : DevRef τ sig)) (after ops V (main_v107 : DevRef τ sig)) (after ops V (main_v71 : DevRef τ sig)) :=
  ternary_ssa (c := main_v105) (a := main_v107) (b := main_v71) (y := main_v108) ops_wr 143 rfl (by decide) (by decide) (by decide) (by decide) V

theorem eq_v109 (V : Valuation τ sig (Elt F)) :
    after ops V (main_v109 : DevRef τ sig) =
      (broadcastInDim S200000x1 ![0] bcast_S200000_S200000x1_0 : (⟨S200000, .i32⟩ : BufTy).Contents (Elt F) → (⟨S200000x1, .i32⟩ : BufTy).Contents (Elt F))
        (after ops V (main_v108 : DevRef τ sig)) :=
  unary_ssa (x := main_v108) (y := main_v109) ops_wr 144 rfl (by decide) (by decide) V

theorem eq_v110 (V : Valuation τ sig (Elt F)) :
    after ops V (main_v110 : DevRef τ sig) =
      ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F))
        (after ops V (main_v4 : DevRef τ sig)) (after ops V (main_v109 : DevRef τ sig)) :=
  binary_ssa (a := main_v4) (b := main_v109) (y := main_v110) ops_wr 145 rfl (by decide) (by decide) (by decide) V

theorem eq_c_29 (V : Valuation τ sig (Elt F)) :
    after ops V (main_c_29 : DevRef τ sig) = (constantI S_ 32 0#32) :=
  nullary_ssa (y := main_c_29) ops_wr 146 rfl (by decide) V

theorem eq_v111 (V : Valuation τ sig (Elt F)) :
    after ops V (main_v111 : DevRef τ sig) =
      (broadcastInDim S200000 ![] bcast_S_S200000 : (⟨S_, .i32⟩ : BufTy).Contents (Elt F) → (⟨S200000, .i32⟩ : BufTy).Contents (Elt F))
        (after ops V (main_c_29 : DevRef τ sig)) :=
  unary_ssa (x := main_c_29) (y := main_v111) ops_wr 147 rfl (by decide) (by decide) V

theorem eq_v112 (V : Valuation τ sig (Elt F)) :
    after ops V (main_v112 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v69 : DevRef τ sig)) (after ops V (main_v111 : DevRef τ sig)) :=
  binary_ssa (a := main_v69) (b := main_v111) (y := main_v112) ops_wr 148 rfl (by decide) (by decide) (by decide) V

theorem eq_c_30 (V : Valuation τ sig (Elt F)) :
    after ops V (main_c_30 : DevRef τ sig) = (constantI S_ 32 401#32) :=
  nullary_ssa (y := main_c_30) ops_wr 149 rfl (by decide) V

theorem eq_v113 (V : Valuation τ sig (Elt F)) :
    after ops V (main_v113 : DevRef τ sig) =
      (broadcastInDim S200000 ![] bcast_S_S200000 : (⟨S_, .i32⟩ : BufTy).Contents (Elt F) → (⟨S200000, .i32⟩ : BufTy).Contents (Elt F))
        (after ops V (main_c_30 : DevRef τ sig)) :=
  unary_ssa (x := main_c_30) (y := main_v113) ops_wr 150 rfl (by decide) (by decide) V

theorem eq_v114 (V : Valuation τ sig (Elt F)) :
    after ops V (main_v114 : DevRef τ sig) =
      (addi : (⟨S200000, .i32⟩ : BufTy).Contents (Elt F) → (⟨S200000, .i32⟩ : BufTy).Contents (Elt F) → (⟨S200000, .i32⟩ : BufTy).Contents (Elt F))
        (after ops V (main_v69 : DevRef τ sig)) (after ops V (main_v113 : DevRef τ sig)) :=
  binary_ssa (a := main_v69) (b := main_v113) (y := main_v114) ops_wr 151 rfl (by decide) (by decide) (by decide) V

theorem eq_v115 (V : Valuation τ sig (Elt F)) :
    after ops V (main_v115 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v112 : DevRef τ sig)) (after ops V (main_v114 : DevRef τ sig)) (after ops V (main_v69 : DevRef τ sig)) :=
  ternary_ssa (c := main_v112) (a := main_v114) (b := main_v69) (y := main_v115) ops_wr 152 rfl (by decide) (by decide) (by decide) (by decide) V

theorem eq_v116 (V : Valuation τ sig (Elt F)) :
    after ops V (main_v116 : DevRef τ sig) =
      (broadcastInDim S200000x1 ![0] bcast_S200000_S200000x1_0 : (⟨S200000, .i32⟩ : BufTy).Contents (Elt F) → (⟨S200000x1, .i32⟩ : BufTy).Contents (Elt F))
        (after ops V (main_v115 : DevRef τ sig)) :=
  unary_ssa (x := main_v115) (y := main_v116) ops_wr 153 rfl (by decide) (by decide) V

theorem eq_v117 (V : Valuation τ sig (Elt F)) :
    after ops V (main_v117 : DevRef τ sig) =
      ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F))
        (after ops V (main_v2 : DevRef τ sig)) (after ops V (main_v116 : DevRef τ sig)) :=
  binary_ssa (a := main_v2) (b := main_v116) (y := main_v117) ops_wr 154 rfl (by decide) (by decide) (by decide) V

theorem eq_v118 (V : Valuation τ sig (Elt F)) :
    after ops V (main_v118 : DevRef τ sig) =
      (subf : (⟨S200000x200, .f32⟩ : BufTy).Contents (Elt F) → (⟨S200000x200, .f32⟩ : BufTy).Contents (Elt F) → (⟨S200000x200, .f32⟩ : BufTy).Contents (Elt F))
        (after ops V (main_v110 : DevRef τ sig)) (after ops V (main_v117 : DevRef τ sig)) :=
  binary_ssa (a := main_v110) (b := main_v117) (y := main_v118) ops_wr 155 rfl (by decide) (by decide) (by decide) V

theorem eq_v119 (V : Valuation τ sig (Elt F)) :
    after ops V (main_v119 : DevRef τ sig) =
      ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F))
        (after ops V (main_v118 : DevRef τ sig)) (after ops V (main_arg11 : DevRef τ sig)) :=
  binary_ssa (a := main_v118) (b := main_arg11) (y := main_v119) ops_wr 156 rfl (by decide) (by decide) (by decide) V

theorem eq_v120 (V : Valuation τ sig (Elt F)) :
    after ops V (main_v120 : DevRef τ sig) =
      (broadcastInDim S200000x1 ![0] bcast_S200000_S200000x1_0 : (⟨S200000, .f32⟩ : BufTy).Contents (Elt F) → (⟨S200000x1, .f32⟩ : BufTy).Contents (Elt F))
        (after ops V (main_v103 : DevRef τ sig)) :=
  unary_ssa (x := main_v103) (y := main_v120) ops_wr 157 rfl (by decide) (by decide) V

theorem eq_v121 (V : Valuation τ sig (Elt F)) :
    after ops V (main_v121 : DevRef τ sig) =
      (broadcastInDim S200000x200 ![0, 1] bcast_S200000x1_S200000x200_0_1 : (⟨S200000x1, .f32⟩ : BufTy).Contents (Elt F) → (⟨S200000x200, .f32⟩ : BufTy).Contents (Elt F))
        (after ops V (main_v120 : DevRef τ sig)) :=
  unary_ssa (x := main_v120) (y := main_v121) ops_wr 158 rfl (by decide) (by decide) V

theorem eq_v122 (V : Valuation τ sig (Elt F)) :
    after ops V (main_v122 : DevRef τ sig) =
      (mulf : (⟨S200000x200, .f32⟩ : BufTy).Contents (Elt F) → (⟨S200000x200, .f32⟩ : BufTy).Contents (Elt F) → (⟨S200000x200, .f32⟩ : BufTy).Contents (Elt F))
        (after ops V (main_v119 : DevRef τ sig)) (after ops V (main_v121 : DevRef τ sig)) :=
  binary_ssa (a := main_v119) (b := main_v121) (y := main_v122) ops_wr 159 rfl (by decide) (by decide) (by decide) V

theorem eq_cst_31 (V : Valuation τ sig (Elt F)) :
    after ops V (main_cst_31 : DevRef τ sig) = (constant S_ .f32 0x00000000#32) :=
  nullary_ssa (y := main_cst_31) ops_wr 160 rfl (by decide) V

theorem eq_v123 (V : Valuation τ sig (Elt F)) :
    after ops V (main_v123 : DevRef τ sig) =
      (broadcastInDim S100000x200 ![] bcast_S_S100000x200 : (⟨S_, .f32⟩ : BufTy).Contents (Elt F) → (⟨S100000x200, .f32⟩ : BufTy).Contents (Elt F))
        (after ops V (main_cst_31 : DevRef τ sig)) :=
  unary_ssa (x := main_cst_31) (y := main_v123) ops_wr 161 rfl (by decide) (by decide) V

theorem eq_c_32 (V : Valuation τ sig (Elt F)) :
    after ops V (main_c_32 : DevRef τ sig) = (constantI S_ 32 0#32) :=
  nullary_ssa (y := main_c_32) ops_wr 162 rfl (by decide) V

theorem eq_v124 (V : Valuation τ sig (Elt F)) :
    after ops V (main_v124 : DevRef τ sig) =
      (broadcastInDim S200000 ![] bcast_S_S200000 : (⟨S_, .i32⟩ : BufTy).Contents (Elt F) → (⟨S200000, .i32⟩ : BufTy).Contents (Elt F))
        (after ops V (main_c_32 : DevRef τ sig)) :=
  unary_ssa (x := main_c_32) (y := main_v124) ops_wr 163 rfl (by decide) (by decide) V

theorem eq_v125 (V : Valuation τ sig (Elt F)) :
    after ops V (main_v125 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v73 : DevRef τ sig)) (after ops V (main_v124 : DevRef τ sig)) :=
  binary_ssa (a := main_v73) (b := main_v124) (y := main_v125) ops_wr 164 rfl (by decide) (by decide) (by decide) V

theorem eq_c_33 (V : Valuation τ sig (Elt F)) :
    after ops V (main_c_33 : DevRef τ sig) = (constantI S_ 32 100000#32) :=
  nullary_ssa (y := main_c_33) ops_wr 165 rfl (by decide) V

theorem eq_v126 (V : Valuation τ sig (Elt F)) :
    after ops V (main_v126 : DevRef τ sig) =
      (broadcastInDim S200000 ![] bcast_S_S200000 : (⟨S_, .i32⟩ : BufTy).Contents (Elt F) → (⟨S200000, .i32⟩ : BufTy).Contents (Elt F))
        (after ops V (main_c_33 : DevRef τ sig)) :=
  unary_ssa (x := main_c_33) (y := main_v126) ops_wr 166 rfl (by decide) (by decide) V

theorem eq_v127 (V : Valuation τ sig (Elt F)) :
    after ops V (main_v127 : DevRef τ sig) =
      (addi : (⟨S200000, .i32⟩ : BufTy).Contents (Elt F) → (⟨S200000, .i32⟩ : BufTy).Contents (Elt F) → (⟨S200000, .i32⟩ : BufTy).Contents (Elt F))
        (after ops V (main_v73 : DevRef τ sig)) (after ops V (main_v126 : DevRef τ sig)) :=
  binary_ssa (a := main_v73) (b := main_v126) (y := main_v127) ops_wr 167 rfl (by decide) (by decide) (by decide) V

theorem eq_v128 (V : Valuation τ sig (Elt F)) :
    after ops V (main_v128 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v125 : DevRef τ sig)) (after ops V (main_v127 : DevRef τ sig)) (after ops V (main_v73 : DevRef τ sig)) :=
  ternary_ssa (c := main_v125) (a := main_v127) (b := main_v73) (y := main_v128) ops_wr 168 rfl (by decide) (by decide) (by decide) (by decide) V

theorem eq_v129 (V : Valuation τ sig (Elt F)) :
    after ops V (main_v129 : DevRef τ sig) =
      (broadcastInDim S200000x1 ![0] bcast_S200000_S200000x1_0 : (⟨S200000, .i32⟩ : BufTy).Contents (Elt F) → (⟨S200000x1, .i32⟩ : BufTy).Contents (Elt F))
        (after ops V (main_v128 : DevRef τ sig)) :=
  unary_ssa (x := main_v128) (y := main_v129) ops_wr 169 rfl (by decide) (by decide) V

theorem eq_v130 (V : Valuation τ sig (Elt F)) :
    after ops V (main_v130 : DevRef τ sig) =
      ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F))
        (after ops V (main_v123 : DevRef τ sig)) (after ops V (main_v129 : DevRef τ sig)) (after ops V (main_v122 : DevRef τ sig)) :=
  ternary_ssa (c := main_v123) (a := main_v129) (b := main_v122) (y := main_v130) ops_wr 170 rfl (by decide) (by decide) (by decide) (by decide) V

theorem eq_v131 (V : Valuation τ sig (Elt F)) :
    after ops V (main_v131 : DevRef τ sig) =
      ((extractStridedSlice S1x200 ![400, 0] · slices_S401x200_S1x200_400_0) : (⟨S401x200, .f32⟩ : BufTy).Contents (Elt F) → (⟨S1x200, .f32⟩ : BufTy).Contents (Elt F))
        (after ops V (main_v2 : DevRef τ sig)) :=
  unary_ssa (x := main_v2) (y := main_v131) ops_wr 171 rfl (by decide) (by decide) V

theorem eq_v132 (V : Valuation τ sig (Elt F)) :
    after ops V (main_v132 : DevRef τ sig) = reshapeFn main_v131 main_v132 rfl shapeCasts_S1x200_S200 (after ops V (main_v131 : DevRef τ sig)) :=
  reshape_ssa (x := main_v131) (y := main_v132) ops_wr 172 rfl (by decide) (by decide) V

theorem eq_v133 (V : Valuation τ sig (Elt F)) :
    after ops V (main_v133 : DevRef τ sig) =
      (broadcastInDim S1x200 ![1] bcast_S200_S1x200_1 : (⟨S200, .f32⟩ : BufTy).Contents (Elt F) → (⟨S1x200, .f32⟩ : BufTy).Contents (Elt F))
        (after ops V (main_v132 : DevRef τ sig)) :=
  unary_ssa (x := main_v132) (y := main_v133) ops_wr 173 rfl (by decide) (by decide) V

theorem eq_v134 (V : Valuation τ sig (Elt F)) :
    after ops V (main_v134 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v133 : DevRef τ sig)) :=
  unary_ssa (x := main_v133) (y := main_v134) ops_wr 174 rfl (by decide) (by decide) V

theorem eq_v135 (V : Valuation τ sig (Elt F)) :
    after ops V (main_v135 : DevRef τ sig) =
      (subf : (⟨S100000x200, .f32⟩ : BufTy).Contents (Elt F) → (⟨S100000x200, .f32⟩ : BufTy).Contents (Elt F) → (⟨S100000x200, .f32⟩ : BufTy).Contents (Elt F))
        (after ops V (main_v4 : DevRef τ sig)) (after ops V (main_v134 : DevRef τ sig)) :=
  binary_ssa (a := main_v4) (b := main_v134) (y := main_v135) ops_wr 175 rfl (by decide) (by decide) (by decide) V

theorem eq_v136 (V : Valuation τ sig (Elt F)) :
    after ops V (main_v136 : DevRef τ sig) =
      ((fun l r => Host.dotGeneral dot_S100000x200_S200x200_S100000x200_1_0_0_1_n_n none l r) : (⟨S100000x200, .f32⟩ : BufTy).Contents (Elt F) → (⟨S200x200, .f32⟩ : BufTy).Contents (Elt F) → (⟨S100000x200, .f32⟩ : BufTy).Contents (Elt F))
        (after ops V (main_v135 : DevRef τ sig)) (after ops V (main_arg12 : DevRef τ sig)) :=
  binary_ssa (a := main_v135) (b := main_arg12) (y := main_v136) ops_wr 176 rfl (by decide) (by decide) (by decide) V

theorem eq_v137 (V : Valuation τ sig (Elt F)) :
    after ops V (main_v137 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v67 : DevRef τ sig)) (after ops V (main_v130 : DevRef τ sig)) :=
  binary_ssa (a := main_v67) (b := main_v130) (y := main_v137) ops_wr 177 rfl (by decide) (by decide) (by decide) V

theorem eq_v138 (V : Valuation τ sig (Elt F)) :
    after ops V (main_v138 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v137 : DevRef τ sig)) (after ops V (main_v136 : DevRef τ sig)) :=
  binary_ssa (a := main_v137) (b := main_v136) (y := main_v138) ops_wr 178 rfl (by decide) (by decide) (by decide) V

theorem eq_cst_34 (V : Valuation τ sig (Elt F)) :
    after ops V (main_cst_34 : DevRef τ sig) = (constant S_ .f32 0x3EAAAAAB#32) :=
  nullary_ssa (y := main_cst_34) ops_wr 179 rfl (by decide) V

theorem eq_v139 (V : Valuation τ sig (Elt F)) :
    after ops V (main_v139 : DevRef τ sig) =
      (broadcastInDim S100000x200 ![] bcast_S_S100000x200 : (⟨S_, .f32⟩ : BufTy).Contents (Elt F) → (⟨S100000x200, .f32⟩ : BufTy).Contents (Elt F))
        (after ops V (main_cst_34 : DevRef τ sig)) :=
  unary_ssa (x := main_cst_34) (y := main_v139) ops_wr 180 rfl (by decide) (by decide) V

theorem eq_v140 (V : Valuation τ sig (Elt F)) :
    after ops V (main_v140 : DevRef τ sig) =
      (mulf : (⟨S100000x200, .f32⟩ : BufTy).Contents (Elt F) → (⟨S100000x200, .f32⟩ : BufTy).Contents (Elt F) → (⟨S100000x200, .f32⟩ : BufTy).Contents (Elt F))
        (after ops V (main_v138 : DevRef τ sig)) (after ops V (main_v139 : DevRef τ sig)) :=
  binary_ssa (a := main_v138) (b := main_v139) (y := main_v140) ops_wr 181 rfl (by decide) (by decide) (by decide) V

theorem eq_v141 (V : Valuation τ sig (Elt F)) :
    after ops V (main_v141 : DevRef τ sig) =
      (broadcastInDim S1x200 ![1] bcast_S200_S1x200_1 : (⟨S200, .f32⟩ : BufTy).Contents (Elt F) → (⟨S1x200, .f32⟩ : BufTy).Contents (Elt F))
        (after ops V (main_arg15 : DevRef τ sig)) :=
  unary_ssa (x := main_arg15) (y := main_v141) ops_wr 182 rfl (by decide) (by decide) V

theorem eq_v142 (V : Valuation τ sig (Elt F)) :
    after ops V (main_v142 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v141 : DevRef τ sig)) :=
  unary_ssa (x := main_v141) (y := main_v142) ops_wr 183 rfl (by decide) (by decide) V

end Cert.ReferenceIdeal.HandRun

end
-- ==== Proof.RefEqs3.lean ====
/- One equation per host operation of the reference program's @main, operations 184 … 266 of 0 … 467 (window 3): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_v143 (V : Valuation τ sig (Elt F)) :
    after ops V (main_v143 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v140 : DevRef τ sig)) (after ops V (main_v142 : DevRef τ sig)) :=
  binary_ssa (a := main_v140) (b := main_v142) (y := main_v143) ops_wr 184 rfl (by decide) (by decide) (by decide) V

theorem eq_cst_35 (V : Valuation τ sig (Elt F)) :
    after ops V (main_cst_35 : DevRef τ sig) = (constant S_ .f32 0x00000000#32) :=
  nullary_ssa (y := main_cst_35) ops_wr 185 rfl (by decide) V

theorem eq_v144 (V : Valuation τ sig (Elt F)) :
    after ops V (main_v144 : DevRef τ sig) =
      ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F))
        (after ops V (main_v143 : DevRef τ sig)) (after ops V (main_cst_35 : DevRef τ sig)) :=
  binary_ssa (a := main_v143) (b := main_cst_35) (y := main_v144) ops_wr 186 rfl (by decide) (by decide) (by decide) V

theorem eq_cst_36 (V : Valuation τ sig (Elt F)) :
    after ops V (main_cst_36 : DevRef τ sig) = (constant S_ .f32 0x47C35000#32) :=
  nullary_ssa (y := main_cst_36) ops_wr 187 rfl (by decide) V

theorem eq_v145 (V : Valuation τ sig (Elt F)) :
    after ops V (main_v145 : DevRef τ sig) =
      (broadcastInDim S200 ![] bcast_S_S200 : (⟨S_, .f32⟩ : BufTy).Contents (Elt F) → (⟨S200, .f32⟩ : BufTy).Contents (Elt F))
        (after ops V (main_cst_36 : DevRef τ sig)) :=
  unary_ssa (x := main_cst_36) (y := main_v145) ops_wr 188 rfl (by decide) (by decide) V

theorem eq_v146 (V : Valuation τ sig (Elt F)) :
    after ops V (main_v146 : DevRef τ sig) =
      (Host.divf : (⟨S200, .f32⟩ : BufTy).Contents (Elt F) → (⟨S200, .f32⟩ : BufTy).Contents (Elt F) → (⟨S200, .f32⟩ : BufTy).Contents (Elt F))
        (after ops V (main_v144 : DevRef τ sig)) (after ops V (main_v145 : DevRef τ sig)) :=
  binary_ssa (a := main_v144) (b := main_v145) (y := main_v146) ops_wr 189 rfl (by decide) (by decide) (by decide) V

theorem eq_c_37 (V : Valuation τ sig (Elt F)) :
    after ops V (main_c_37 : DevRef τ sig) = (constantI S_ 32 0#32) :=
  nullary_ssa (y := main_c_37) ops_wr 190 rfl (by decide) V

theorem eq_call2_cst (V : Valuation τ sig (Elt F)) :
    after ops V (main_call2_cst : DevRef τ sig) = ((constant S_ .f32 0x00000000#32) : (⟨S_, .f32⟩ : BufTy).Contents (Elt F)) := by
  have h := nullary_ssa (y := main_call2_cst) ops_wr 191 rfl (by decide) V
  generalize after ops V (main_call2_cst : DevRef τ sig) = x0 at h ⊢
  exact h

theorem eq_call2_v0 (V : Valuation τ sig (Elt F)) :
    after ops V (main_call2_v0 : DevRef τ sig) =
      ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F))
        (after ops V (main_v143 : DevRef τ sig)) (after ops V (main_call2_cst : DevRef τ sig)) := by
  have h := binary_ssa (a := main_v143) (b := main_call2_cst) (y := main_call2_v0) ops_wr 192 rfl (by decide) (by decide) (by decide) V
  generalize after ops V (main_call2_v0 : DevRef τ sig) = x0 at h ⊢
  generalize after ops V (main_v143 : DevRef τ sig) = x1 at h ⊢
  generalize after ops V (main_call2_cst : DevRef τ sig) = x2 at h ⊢
  exact h

theorem eq_call2_v1 (V : Valuation τ sig (Elt F)) :
    after ops V (main_call2_v1 : DevRef τ sig) =
      ((broadcastInDim S1x200 ![1] bcast_S200_S1x200_1) : (⟨S200, .f32⟩ : BufTy).Contents (Elt F) → (⟨S1x200, .f32⟩ : BufTy).Contents (Elt F))
        (after ops V (main_call2_v0 : DevRef τ sig)) := by
  have h := unary_ssa (x := main_call2_v0) (y := main_call2_v1) ops_wr 193 rfl (by decide) (by decide) V
  generalize after ops V (main_call2_v1 : DevRef τ sig) = x0 at h ⊢
  generalize after ops V (main_call2_v0 : DevRef τ sig) = x1 at h ⊢
  exact h

theorem eq_call2_cst_0 (V : Valuation τ sig (Elt F)) :
    after ops V (main_call2_cst_0 : DevRef τ sig) = ((constant S_ .f32 0x47C35000#32) : (⟨S_, .f32⟩ : BufTy).Contents (Elt F)) := by
  have h := nullary_ssa (y := main_call2_cst_0) ops_wr 194 rfl (by decide) V
  generalize after ops V (main_call2_cst_0 : DevRef τ sig) = x0 at h ⊢
  exact h

theorem eq_call2_v2 (V : Valuation τ sig (Elt F)) :
    after ops V (main_call2_v2 : DevRef τ sig) =
      ((broadcastInDim S1x200 ![] bcast_S_S1x200) : (⟨S_, .f32⟩ : BufTy).Contents (Elt F) → (⟨S1x200, .f32⟩ : BufTy).Contents (Elt F))
        (after ops V (main_call2_cst_0 : DevRef τ sig)) := by
  have h := unary_ssa (x := main_call2_cst_0) (y := main_call2_v2) ops_wr 195 rfl (by decide) (by decide) V
  generalize after ops V (main_call2_v2 : DevRef τ sig) = x0 at h ⊢
  generalize after ops V (main_call2_cst_0 : DevRef τ sig) = x1 at h ⊢
  exact h

theorem eq_call2_v3 (V : Valuation τ sig (Elt F)) :
    after ops V (main_call2_v3 : DevRef τ sig) =
      (Host.divf : (⟨S1x200, .f32⟩ : BufTy).Contents (Elt F) → (⟨S1x200, .f32⟩ : BufTy).Contents (Elt F) → (⟨S1x200, .f32⟩ : BufTy).Contents (Elt F))
        (after ops V (main_call2_v1 : DevRef τ sig)) (after ops V (main_call2_v2 : DevRef τ sig)) := by
  have h := binary_ssa (a := main_call2_v1) (b := main_call2_v2) (y := main_call2_v3) ops_wr 196 rfl (by decide) (by decide) (by decide) V
  generalize after ops V (main_call2_v3 : DevRef τ sig) = x0 at h ⊢
  generalize after ops V (main_call2_v1 : DevRef τ sig) = x1 at h ⊢
  generalize after ops V (main_call2_v2 : DevRef τ sig) = x2 at h ⊢
  exact h

theorem eq_call2_v4 (V : Valuation τ sig (Elt F)) :
    after ops V (main_call2_v4 : DevRef τ sig) =
      ((broadcastInDim S100000x200 ![0, 1] bcast_S1x200_S100000x200_0_1) : (⟨S1x200, .f32⟩ : BufTy).Contents (Elt F) → (⟨S100000x200, .f32⟩ : BufTy).Contents (Elt F))
        (after ops V (main_call2_v3 : DevRef τ sig)) := by
  have h := unary_ssa (x := main_call2_v3) (y := main_call2_v4) ops_wr 197 rfl (by decide) (by decide) V
  generalize after ops V (main_call2_v4 : DevRef τ sig) = x0 at h ⊢
  generalize after ops V (main_call2_v3 : DevRef τ sig) = x1 at h ⊢
  exact h

theorem eq_call2_v5 (V : Valuation τ sig (Elt F)) :
    after ops V (main_call2_v5 : DevRef τ sig) =
      (subf : (⟨S100000x200, .f32⟩ : BufTy).Contents (Elt F) → (⟨S100000x200, .f32⟩ : BufTy).Contents (Elt F) → (⟨S100000x200, .f32⟩ : BufTy).Contents (Elt F))
        (after ops V (main_v143 : DevRef τ sig)) (after ops V (main_call2_v4 : DevRef τ sig)) := by
  have h := binary_ssa (a := main_v143) (b := main_call2_v4) (y := main_call2_v5) ops_wr 198 rfl (by decide) (by decide) (by decide) V
  generalize after ops V (main_call2_v5 : DevRef τ sig) = x0 at h ⊢
  generalize after ops V (main_v143 : DevRef τ sig) = x1 at h ⊢
  generalize after ops V (main_call2_v4 : DevRef τ sig) = x2 at h ⊢
  exact h

theorem eq_call2_v6 (V : Valuation τ sig (Elt F)) :
    after ops V (main_call2_v6 : DevRef τ sig) =
      (mulf : (⟨S100000x200, .f32⟩ : BufTy).Contents (Elt F) → (⟨S100000x200, .f32⟩ : BufTy).Contents (Elt F) → (⟨S100000x200, .f32⟩ : BufTy).Contents (Elt F))
        (after ops V (main_call2_v5 : DevRef τ sig)) (after ops V (main_call2_v5 : DevRef τ sig)) := by
  have h := binary_ssa (a := main_call2_v5) (b := main_call2_v5) (y := main_call2_v6) ops_wr 199 rfl (by decide) (by decide) (by decide) V
  generalize after ops V (main_call2_v6 : DevRef τ sig) = x0 at h ⊢
  generalize after ops V (main_call2_v5 : DevRef τ sig) = x1 at h ⊢
  exact h

theorem eq_call2_v7 (V : Valuation τ sig (Elt F)) :
    after ops V (main_call2_v7 : DevRef τ sig) =
      ((sitofp .f32) : (⟨S_, .i32⟩ : BufTy).Contents (Elt F) → (⟨S_, .f32⟩ : BufTy).Contents (Elt F))
        (after ops V (main_c_37 : DevRef τ sig)) := by
  have h := unary_ssa (x := main_c_37) (y := main_call2_v7) ops_wr 200 rfl (by decide) (by decide) V
  generalize after ops V (main_call2_v7 : DevRef τ sig) = x0 at h ⊢
  generalize after ops V (main_c_37 : DevRef τ sig) = x1 at h ⊢
  exact h

theorem eq_call2_cst_1 (V : Valuation τ sig (Elt F)) :
    after ops V (main_call2_cst_1 : DevRef τ sig) = ((constant S_ .f32 0x47C35000#32) : (⟨S_, .f32⟩ : BufTy).Contents (Elt F)) := by
  have h := nullary_ssa (y := main_call2_cst_1) ops_wr 201 rfl (by decide) V
  generalize after ops V (main_call2_cst_1 : DevRef τ sig) = x0 at h ⊢
  exact h

theorem eq_call2_v8 (V : Valuation τ sig (Elt F)) :
    after ops V (main_call2_v8 : DevRef τ sig) =
      (subf : (⟨S_, .f32⟩ : BufTy).Contents (Elt F) → (⟨S_, .f32⟩ : BufTy).Contents (Elt F) → (⟨S_, .f32⟩ : BufTy).Contents (Elt F))
        (after ops V (main_call2_cst_1 : DevRef τ sig)) (after ops V (main_call2_v7 : DevRef τ sig)) := by
  have h := binary_ssa (a := main_call2_cst_1) (b := main_call2_v7) (y := main_call2_v8) ops_wr 202 rfl (by decide) (by decide) (by decide) V
  generalize after ops V (main_call2_v8 : DevRef τ sig) = x0 at h ⊢
  generalize after ops V (main_call2_cst_1 : DevRef τ sig) = x1 at h ⊢
  generalize after ops V (main_call2_v7 : DevRef τ sig) = x2 at h ⊢
  exact h

theorem eq_call2_cst_2 (V : Valuation τ sig (Elt F)) :
    after ops V (main_call2_cst_2 : DevRef τ sig) = ((constant S_ .f32 0x00000000#32) : (⟨S_, .f32⟩ : BufTy).Contents (Elt F)) := by
  have h := nullary_ssa (y := main_call2_cst_2) ops_wr 203 rfl (by decide) V
  generalize after ops V (main_call2_cst_2 : DevRef τ sig) = x0 at h ⊢
  exact h

theorem eq_call2_v9 (V : Valuation τ sig (Elt F)) :
    after ops V (main_call2_v9 : DevRef τ sig) =
      ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F))
        (after ops V (main_call2_v6 : DevRef τ sig)) (after ops V (main_call2_cst_2 : DevRef τ sig)) := by
  have h := binary_ssa (a := main_call2_v6) (b := main_call2_cst_2) (y := main_call2_v9) ops_wr 204 rfl (by decide) (by decide) (by decide) V
  generalize after ops V (main_call2_v9 : DevRef τ sig) = x0 at h ⊢
  generalize after ops V (main_call2_v6 : DevRef τ sig) = x1 at h ⊢
  generalize after ops V (main_call2_cst_2 : DevRef τ sig) = x2 at h ⊢
  exact h

theorem eq_call2_v10 (V : Valuation τ sig (Elt F)) :
    after ops V (main_call2_v10 : DevRef τ sig) =
      ((broadcastInDim S200 ![] bcast_S_S200) : (⟨S_, .f32⟩ : BufTy).Contents (Elt F) → (⟨S200, .f32⟩ : BufTy).Contents (Elt F))
        (after ops V (main_call2_v8 : DevRef τ sig)) := by
  have h := unary_ssa (x := main_call2_v8) (y := main_call2_v10) ops_wr 205 rfl (by decide) (by decide) V
  generalize after ops V (main_call2_v10 : DevRef τ sig) = x0 at h ⊢
  generalize after ops V (main_call2_v8 : DevRef τ sig) = x1 at h ⊢
  exact h

theorem eq_call2_v11 (V : Valuation τ sig (Elt F)) :
    after ops V (main_call2_v11 : DevRef τ sig) =
      (Host.divf : (⟨S200, .f32⟩ : BufTy).Contents (Elt F) → (⟨S200, .f32⟩ : BufTy).Contents (Elt F) → (⟨S200, .f32⟩ : BufTy).Contents (Elt F))
        (after ops V (main_call2_v9 : DevRef τ sig)) (after ops V (main_call2_v10 : DevRef τ sig)) := by
  have h := binary_ssa (a := main_call2_v9) (b := main_call2_v10) (y := main_call2_v11) ops_wr 206 rfl (by decide) (by decide) (by decide) V
  generalize after ops V (main_call2_v11 : DevRef τ sig) = x0 at h ⊢
  generalize after ops V (main_call2_v9 : DevRef τ sig) = x1 at h ⊢
  generalize after ops V (main_call2_v10 : DevRef τ sig) = x2 at h ⊢
  exact h

theorem eq_call2_cst_3 (V : Valuation τ sig (Elt F)) :
    after ops V (main_call2_cst_3 : DevRef τ sig) = ((constant S_ .f32 0x00000000#32) : (⟨S_, .f32⟩ : BufTy).Contents (Elt F)) := by
  have h := nullary_ssa (y := main_call2_cst_3) ops_wr 207 rfl (by decide) V
  generalize after ops V (main_call2_cst_3 : DevRef τ sig) = x0 at h ⊢
  exact h

theorem eq_call2_v12 (V : Valuation τ sig (Elt F)) :
    after ops V (main_call2_v12 : DevRef τ sig) =
      ((cmpf .ogt) : (⟨S_, .f32⟩ : BufTy).Contents (Elt F) → (⟨S_, .f32⟩ : BufTy).Contents (Elt F) → (⟨S_, .i1⟩ : BufTy).Contents (Elt F))
        (after ops V (main_call2_v8 : DevRef τ sig)) (after ops V (main_call2_cst_3 : DevRef τ sig)) := by
  have h := binary_ssa (a := main_call2_v8) (b := main_call2_cst_3) (y := main_call2_v12) ops_wr 208 rfl (by decide) (by decide) (by decide) V
  generalize after ops V (main_call2_v12 : DevRef τ sig) = x0 at h ⊢
  generalize after ops V (main_call2_v8 : DevRef τ sig) = x1 at h ⊢
  generalize after ops V (main_call2_cst_3 : DevRef τ sig) = x2 at h ⊢
  exact h

theorem eq_call2_cst_4 (V : Valuation τ sig (Elt F)) :
    after ops V (main_call2_cst_4 : DevRef τ sig) = ((constant S_ .f32 0x7FC00000#32) : (⟨S_, .f32⟩ : BufTy).Contents (Elt F)) := by
  have h := nullary_ssa (y := main_call2_cst_4) ops_wr 209 rfl (by decide) V
  generalize after ops V (main_call2_cst_4 : DevRef τ sig) = x0 at h ⊢
  exact h

theorem eq_call2_call0_v0 (V : Valuation τ sig (Elt F)) :
    after ops V (main_call2_call0_v0 : DevRef τ sig) =
      (id : (⟨S_, .f32⟩ : BufTy).Contents (Elt F) → (⟨S_, .f32⟩ : BufTy).Contents (Elt F))
        (after ops V (main_call2_cst_4 : DevRef τ sig)) := by
  have h := unary_ssa (x := main_call2_cst_4) (y := main_call2_call0_v0) ops_wr 210 rfl (by decide) (by decide) V
  generalize after ops V (main_call2_call0_v0 : DevRef τ sig) = x0 at h ⊢
  generalize after ops V (main_call2_cst_4 : DevRef τ sig) = x1 at h ⊢
  exact h

theorem eq_call2_call0_v1 (V : Valuation τ sig (Elt F)) :
    after ops V (main_call2_call0_v1 : DevRef τ sig) =
      ((broadcastInDim S200 ![] bcast_S_S200) : (⟨S_, .f32⟩ : BufTy).Contents (Elt F) → (⟨S200, .f32⟩ : BufTy).Contents (Elt F))
        (after ops V (main_call2_call0_v0 : DevRef τ sig)) := by
  have h := unary_ssa (x := main_call2_call0_v0) (y := main_call2_call0_v1) ops_wr 211 rfl (by decide) (by decide) V
  generalize after ops V (main_call2_call0_v1 : DevRef τ sig) = x0 at h ⊢
  generalize after ops V (main_call2_call0_v0 : DevRef τ sig) = x1 at h ⊢
  exact h

theorem eq_v147 (V : Valuation τ sig (Elt F)) :
    after ops V (main_v147 : DevRef τ sig) =
      ((fun p a b => select (broadcastInDim S200 ![] bcast_S_S200 p) a b) : (⟨S_, .i1⟩ : BufTy).Contents (Elt F) → (⟨S200, .f32⟩ : BufTy).Contents (Elt F) → (⟨S200, .f32⟩ : BufTy).Contents (Elt F) → (⟨S200, .f32⟩ : BufTy).Contents (Elt F))
        (after ops V (main_call2_v12 : DevRef τ sig)) (after ops V (main_call2_v11 : DevRef τ sig)) (after ops V (main_call2_call0_v1 : DevRef τ sig)) := by
  have h := ternary_ssa (c := main_call2_v12) (a := main_call2_v11) (b := main_call2_call0_v1) (y := main_v147) ops_wr 212 rfl (by decide) (by decide) (by decide) (by decide) V
  generalize after ops V (main_v147 : DevRef τ sig) = x0 at h ⊢
  generalize after ops V (main_call2_v12 : DevRef τ sig) = x1 at h ⊢
  generalize after ops V (main_call2_v11 : DevRef τ sig) = x2 at h ⊢
  generalize after ops V (main_call2_call0_v1 : DevRef τ sig) = x3 at h ⊢
  exact h

theorem eq_v148 (V : Valuation τ sig (Elt F)) :
    after ops V (main_v148 : DevRef τ sig) =
      (broadcastInDim S1x200 ![1] bcast_S200_S1x200_1 : (⟨S200, .f32⟩ : BufTy).Contents (Elt F) → (⟨S1x200, .f32⟩ : BufTy).Contents (Elt F))
        (after ops V (main_v146 : DevRef τ sig)) :=
  unary_ssa (x := main_v146) (y := main_v148) ops_wr 213 rfl (by decide) (by decide) V

theorem eq_v149 (V : Valuation τ sig (Elt F)) :
    after ops V (main_v149 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v148 : DevRef τ sig)) :=
  unary_ssa (x := main_v148) (y := main_v149) ops_wr 214 rfl (by decide) (by decide) V

theorem eq_v150 (V : Valuation τ sig (Elt F)) :
    after ops V (main_v150 : DevRef τ sig) =
      (subf : (⟨S100000x200, .f32⟩ : BufTy).Contents (Elt F) → (⟨S100000x200, .f32⟩ : BufTy).Contents (Elt F) → (⟨S100000x200, .f32⟩ : BufTy).Contents (Elt F))
        (after ops V (main_v143 : DevRef τ sig)) (after ops V (main_v149 : DevRef τ sig)) :=
  binary_ssa (a := main_v143) (b := main_v149) (y := main_v150) ops_wr 215 rfl (by decide) (by decide) (by decide) V

theorem eq_cst_38 (V : Valuation τ sig (Elt F)) :
    after ops V (main_cst_38 : DevRef τ sig) = (constant S_ .f32 0x3727C5AC#32) :=
  nullary_ssa (y := main_cst_38) ops_wr 216 rfl (by decide) V

theorem eq_v151 (V : Valuation τ sig (Elt F)) :
    after ops V (main_v151 : DevRef τ sig) =
      (broadcastInDim S200 ![] bcast_S_S200 : (⟨S_, .f32⟩ : BufTy).Contents (Elt F) → (⟨S200, .f32⟩ : BufTy).Contents (Elt F))
        (after ops V (main_cst_38 : DevRef τ sig)) :=
  unary_ssa (x := main_cst_38) (y := main_v151) ops_wr 217 rfl (by decide) (by decide) V

theorem eq_v152 (V : Valuation τ sig (Elt F)) :
    after ops V (main_v152 : DevRef τ sig) =
      (addf : (⟨S200, .f32⟩ : BufTy).Contents (Elt F) → (⟨S200, .f32⟩ : BufTy).Contents (Elt F) → (⟨S200, .f32⟩ : BufTy).Contents (Elt F))
        (after ops V (main_v147 : DevRef τ sig)) (after ops V (main_v151 : DevRef τ sig)) :=
  binary_ssa (a := main_v147) (b := main_v151) (y := main_v152) ops_wr 218 rfl (by decide) (by decide) (by decide) V

theorem eq_v153 (V : Valuation τ sig (Elt F)) :
    after ops V (main_v153 : DevRef τ sig) =
      (Host.rsqrt : (⟨S200, .f32⟩ : BufTy).Contents (Elt F) → (⟨S200, .f32⟩ : BufTy).Contents (Elt F))
        (after ops V (main_v152 : DevRef τ sig)) :=
  unary_ssa (x := main_v152) (y := main_v153) ops_wr 219 rfl (by decide) (by decide) V

theorem eq_v154 (V : Valuation τ sig (Elt F)) :
    after ops V (main_v154 : DevRef τ sig) =
      (broadcastInDim S1x200 ![1] bcast_S200_S1x200_1 : (⟨S200, .f32⟩ : BufTy).Contents (Elt F) → (⟨S1x200, .f32⟩ : BufTy).Contents (Elt F))
        (after ops V (main_v153 : DevRef τ sig)) :=
  unary_ssa (x := main_v153) (y := main_v154) ops_wr 220 rfl (by decide) (by decide) V

theorem eq_v155 (V : Valuation τ sig (Elt F)) :
    after ops V (main_v155 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v154 : DevRef τ sig)) :=
  unary_ssa (x := main_v154) (y := main_v155) ops_wr 221 rfl (by decide) (by decide) V

theorem eq_v156 (V : Valuation τ sig (Elt F)) :
    after ops V (main_v156 : DevRef τ sig) =
      (mulf : (⟨S100000x200, .f32⟩ : BufTy).Contents (Elt F) → (⟨S100000x200, .f32⟩ : BufTy).Contents (Elt F) → (⟨S100000x200, .f32⟩ : BufTy).Contents (Elt F))
        (after ops V (main_v150 : DevRef τ sig)) (after ops V (main_v155 : DevRef τ sig)) :=
  binary_ssa (a := main_v150) (b := main_v155) (y := main_v156) ops_wr 222 rfl (by decide) (by decide) (by decide) V

theorem eq_v157 (V : Valuation τ sig (Elt F)) :
    after ops V (main_v157 : DevRef τ sig) =
      (Host.tanh : (⟨S100000x200, .f32⟩ : BufTy).Contents (Elt F) → (⟨S100000x200, .f32⟩ : BufTy).Contents (Elt F))
        (after ops V (main_v156 : DevRef τ sig)) :=
  unary_ssa (x := main_v156) (y := main_v157) ops_wr 223 rfl (by decide) (by decide) V

theorem eq_v158 (V : Valuation τ sig (Elt F)) :
    after ops V (main_v158 : DevRef τ sig) =
      ((fun l r => Host.dotGeneral dot_S401x200_S200x200_S401x200_1_0_0_1_n_n none l r) : (⟨S401x200, .f32⟩ : BufTy).Contents (Elt F) → (⟨S200x200, .f32⟩ : BufTy).Contents (Elt F) → (⟨S401x200, .f32⟩ : BufTy).Contents (Elt F))
        (after ops V (main_v2 : DevRef τ sig)) (after ops V (main_arg13 : DevRef τ sig)) :=
  binary_ssa (a := main_v2) (b := main_arg13) (y := main_v158) ops_wr 224 rfl (by decide) (by decide) (by decide) V

theorem eq_v159 (V : Valuation τ sig (Elt F)) :
    after ops V (main_v159 : DevRef τ sig) =
      ((extractStridedSlice S400x200 ![0, 0] · slices_S401x200_S400x200_0_0) : (⟨S401x200, .f32⟩ : BufTy).Contents (Elt F) → (⟨S400x200, .f32⟩ : BufTy).Contents (Elt F))
        (after ops V (main_v158 : DevRef τ sig)) :=
  unary_ssa (x := main_v158) (y := main_v159) ops_wr 225 rfl (by decide) (by decide) V

theorem eq_v160 (V : Valuation τ sig (Elt F)) :
    after ops V (main_v160 : DevRef τ sig) =
      ((fun a b => concatenate S401x200 0 [⟨S400x200, a⟩, ⟨S1x200, b⟩] concatenates_S400x200_S1x200_S401x200_d0) : (⟨S400x200, .f32⟩ : BufTy).Contents (Elt F) → (⟨S1x200, .f32⟩ : BufTy).Contents (Elt F) → (⟨S401x200, .f32⟩ : BufTy).Contents (Elt F))
        (after ops V (main_v159 : DevRef τ sig)) (after ops V (main_arg20 : DevRef τ sig)) :=
  binary_ssa (a := main_v159) (b := main_arg20) (y := main_v160) ops_wr 226 rfl (by decide) (by decide) (by decide) V

theorem eq_v161 (V : Valuation τ sig (Elt F)) :
    after ops V (main_v161 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v157 : DevRef τ sig)) (after ops V (main_v0 : DevRef τ sig)) :=
  binary_ssa (a := main_v157) (b := main_v0) (y := main_v161) ops_wr 227 rfl (by decide) (by decide) (by decide) V

theorem eq_v162 (V : Valuation τ sig (Elt F)) :
    after ops V (main_v162 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v161 : DevRef τ sig)) (after ops V (main_v1 : DevRef τ sig)) :=
  binary_ssa (a := main_v161) (b := main_v1) (y := main_v162) ops_wr 228 rfl (by decide) (by decide) (by decide) V

theorem eq_v163 (V : Valuation τ sig (Elt F)) :
    after ops V (main_v163 : DevRef τ sig) =
      ((extractStridedSlice S2x200000 ![0, 0] · slices_S2x400000_S2x200000_0_0) : (⟨S2x400000, .i32⟩ : BufTy).Contents (Elt F) → (⟨S2x200000, .i32⟩ : BufTy).Contents (Elt F))
        (after ops V (main_arg2 : DevRef τ sig)) :=
  unary_ssa (x := main_arg2) (y := main_v163) ops_wr 229 rfl (by decide) (by decide) V

theorem eq_v164 (V : Valuation τ sig (Elt F)) :
    after ops V (main_v164 : DevRef τ sig) =
      ((extractStridedSlice S200000 ![0] · slices_S400000_S200000_0) : (⟨S400000, .i32⟩ : BufTy).Contents (Elt F) → (⟨S200000, .i32⟩ : BufTy).Contents (Elt F))
        (after ops V (main_arg3 : DevRef τ sig)) :=
  unary_ssa (x := main_arg3) (y := main_v164) ops_wr 230 rfl (by decide) (by decide) V

theorem eq_v165 (V : Valuation τ sig (Elt F)) :
    after ops V (main_v165 : DevRef τ sig) =
      ((extractStridedSlice S1x200000 ![0, 0] · slices_S2x200000_S1x200000_0_0) : (⟨S2x200000, .i32⟩ : BufTy).Contents (Elt F) → (⟨S1x200000, .i32⟩ : BufTy).Contents (Elt F))
        (after ops V (main_v163 : DevRef τ sig)) :=
  unary_ssa (x := main_v163) (y := main_v165) ops_wr 231 rfl (by decide) (by decide) V

theorem eq_v166 (V : Valuation τ sig (Elt F)) :
    after ops V (main_v166 : DevRef τ sig) = reshapeFn main_v165 main_v166 rfl shapeCasts_S1x200000_S200000 (after ops V (main_v165 : DevRef τ sig)) :=
  reshape_ssa (x := main_v165) (y := main_v166) ops_wr 232 rfl (by decide) (by decide) V

theorem eq_v167 (V : Valuation τ sig (Elt F)) :
    after ops V (main_v167 : DevRef τ sig) =
      ((extractStridedSlice S1x200000 ![1, 0] · slices_S2x200000_S1x200000_1_0) : (⟨S2x200000, .i32⟩ : BufTy).Contents (Elt F) → (⟨S1x200000, .i32⟩ : BufTy).Contents (Elt F))
        (after ops V (main_v163 : DevRef τ sig)) :=
  unary_ssa (x := main_v163) (y := main_v167) ops_wr 233 rfl (by decide) (by decide) V

theorem eq_v168 (V : Valuation τ sig (Elt F)) :
    after ops V (main_v168 : DevRef τ sig) = reshapeFn main_v167 main_v168 rfl shapeCasts_S1x200000_S200000 (after ops V (main_v167 : DevRef τ sig)) :=
  reshape_ssa (x := main_v167) (y := main_v168) ops_wr 234 rfl (by decide) (by decide) V

theorem eq_cst_39 (V : Valuation τ sig (Elt F)) :
    after ops V (main_cst_39 : DevRef τ sig) = (constant S_ .f32 0x00000000#32) :=
  nullary_ssa (y := main_cst_39) ops_wr 235 rfl (by decide) V

theorem eq_v169 (V : Valuation τ sig (Elt F)) :
    after ops V (main_v169 : DevRef τ sig) =
      (broadcastInDim S100000 ![] bcast_S_S100000 : (⟨S_, .f32⟩ : BufTy).Contents (Elt F) → (⟨S100000, .f32⟩ : BufTy).Contents (Elt F))
        (after ops V (main_cst_39 : DevRef τ sig)) :=
  unary_ssa (x := main_cst_39) (y := main_v169) ops_wr 236 rfl (by decide) (by decide) V

theorem eq_c_40 (V : Valuation τ sig (Elt F)) :
    after ops V (main_c_40 : DevRef τ sig) = (constantI S_ 32 0#32) :=
  nullary_ssa (y := main_c_40) ops_wr 237 rfl (by decide) V

theorem eq_v170 (V : Valuation τ sig (Elt F)) :
    after ops V (main_v170 : DevRef τ sig) =
      (broadcastInDim S200000 ![] bcast_S_S200000 : (⟨S_, .i32⟩ : BufTy).Contents (Elt F) → (⟨S200000, .i32⟩ : BufTy).Contents (Elt F))
        (after ops V (main_c_40 : DevRef τ sig)) :=
  unary_ssa (x := main_c_40) (y := main_v170) ops_wr 238 rfl (by decide) (by decide) V

theorem eq_v171 (V : Valuation τ sig (Elt F)) :
    after ops V (main_v171 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v166 : DevRef τ sig)) (after ops V (main_v170 : DevRef τ sig)) :=
  binary_ssa (a := main_v166) (b := main_v170) (y := main_v171) ops_wr 239 rfl (by decide) (by decide) (by decide) V

theorem eq_c_41 (V : Valuation τ sig (Elt F)) :
    after ops V (main_c_41 : DevRef τ sig) = (constantI S_ 32 100000#32) :=
  nullary_ssa (y := main_c_41) ops_wr 240 rfl (by decide) V

theorem eq_v172 (V : Valuation τ sig (Elt F)) :
    after ops V (main_v172 : DevRef τ sig) =
      (broadcastInDim S200000 ![] bcast_S_S200000 : (⟨S_, .i32⟩ : BufTy).Contents (Elt F) → (⟨S200000, .i32⟩ : BufTy).Contents (Elt F))
        (after ops V (main_c_41 : DevRef τ sig)) :=
  unary_ssa (x := main_c_41) (y := main_v172) ops_wr 241 rfl (by decide) (by decide) V

theorem eq_v173 (V : Valuation τ sig (Elt F)) :
    after ops V (main_v173 : DevRef τ sig) =
      (addi : (⟨S200000, .i32⟩ : BufTy).Contents (Elt F) → (⟨S200000, .i32⟩ : BufTy).Contents (Elt F) → (⟨S200000, .i32⟩ : BufTy).Contents (Elt F))
        (after ops V (main_v166 : DevRef τ sig)) (after ops V (main_v172 : DevRef τ sig)) :=
  binary_ssa (a := main_v166) (b := main_v172) (y := main_v173) ops_wr 242 rfl (by decide) (by decide) (by decide) V

theorem eq_v174 (V : Valuation τ sig (Elt F)) :
    after ops V (main_v174 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v171 : DevRef τ sig)) (after ops V (main_v173 : DevRef τ sig)) (after ops V (main_v166 : DevRef τ sig)) :=
  ternary_ssa (c := main_v171) (a := main_v173) (b := main_v166) (y := main_v174) ops_wr 243 rfl (by decide) (by decide) (by decide) (by decide) V

theorem eq_v175 (V : Valuation τ sig (Elt F)) :
    after ops V (main_v175 : DevRef τ sig) =
      (broadcastInDim S200000x1 ![0] bcast_S200000_S200000x1_0 : (⟨S200000, .i32⟩ : BufTy).Contents (Elt F) → (⟨S200000x1, .i32⟩ : BufTy).Contents (Elt F))
        (after ops V (main_v174 : DevRef τ sig)) :=
  unary_ssa (x := main_v174) (y := main_v175) ops_wr 244 rfl (by decide) (by decide) V

theorem eq_cst_42 (V : Valuation τ sig (Elt F)) :
    after ops V (main_cst_42 : DevRef τ sig) = (constant S_ .f32 0x3F800000#32) :=
  nullary_ssa (y := main_cst_42) ops_wr 245 rfl (by decide) V

theorem eq_v176 (V : Valuation τ sig (Elt F)) :
    after ops V (main_v176 : DevRef τ sig) =
      (broadcastInDim S200000 ![] bcast_S_S200000 : (⟨S_, .f32⟩ : BufTy).Contents (Elt F) → (⟨S200000, .f32⟩ : BufTy).Contents (Elt F))
        (after ops V (main_cst_42 : DevRef τ sig)) :=
  unary_ssa (x := main_cst_42) (y := main_v176) ops_wr 246 rfl (by decide) (by decide) V

theorem eq_v177 (V : Valuation τ sig (Elt F)) :
    after ops V (main_v177 : DevRef τ sig) =
      ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F))
        (after ops V (main_v169 : DevRef τ sig)) (after ops V (main_v175 : DevRef τ sig)) (after ops V (main_v176 : DevRef τ sig)) :=
  ternary_ssa (c := main_v169) (a := main_v175) (b := main_v176) (y := main_v177) ops_wr 247 rfl (by decide) (by decide) (by decide) (by decide) V

theorem eq_cst_43 (V : Valuation τ sig (Elt F)) :
    after ops V (main_cst_43 : DevRef τ sig) = (constant S_ .f32 0x00000000#32) :=
  nullary_ssa (y := main_cst_43) ops_wr 248 rfl (by decide) V

theorem eq_v178 (V : Valuation τ sig (Elt F)) :
    after ops V (main_v178 : DevRef τ sig) =
      (broadcastInDim S100000 ![] bcast_S_S100000 : (⟨S_, .f32⟩ : BufTy).Contents (Elt F) → (⟨S100000, .f32⟩ : BufTy).Contents (Elt F))
        (after ops V (main_cst_43 : DevRef τ sig)) :=
  unary_ssa (x := main_cst_43) (y := main_v178) ops_wr 249 rfl (by decide) (by decide) V

theorem eq_v179 (V : Valuation τ sig (Elt F)) :
    after ops V (main_v179 : DevRef τ sig) =
      (cmpf .ogt : (⟨S100000, .f32⟩ : BufTy).Contents (Elt F) → (⟨S100000, .f32⟩ : BufTy).Contents (Elt F) → (⟨S100000, .i1⟩ : BufTy).Contents (Elt F))
        (after ops V (main_v177 : DevRef τ sig)) (after ops V (main_v178 : DevRef τ sig)) :=
  binary_ssa (a := main_v177) (b := main_v178) (y := main_v179) ops_wr 250 rfl (by decide) (by decide) (by decide) V

theorem eq_cst_44 (V : Valuation τ sig (Elt F)) :
    after ops V (main_cst_44 : DevRef τ sig) = (constant S_ .f32 0x3F800000#32) :=
  nullary_ssa (y := main_cst_44) ops_wr 251 rfl (by decide) V

theorem eq_v180 (V : Valuation τ sig (Elt F)) :
    after ops V (main_v180 : DevRef τ sig) =
      (broadcastInDim S100000 ![] bcast_S_S100000 : (⟨S_, .f32⟩ : BufTy).Contents (Elt F) → (⟨S100000, .f32⟩ : BufTy).Contents (Elt F))
        (after ops V (main_cst_44 : DevRef τ sig)) :=
  unary_ssa (x := main_cst_44) (y := main_v180) ops_wr 252 rfl (by decide) (by decide) V

theorem eq_v181 (V : Valuation τ sig (Elt F)) :
    after ops V (main_v181 : DevRef τ sig) =
      (maximumf : (⟨S100000, .f32⟩ : BufTy).Contents (Elt F) → (⟨S100000, .f32⟩ : BufTy).Contents (Elt F) → (⟨S100000, .f32⟩ : BufTy).Contents (Elt F))
        (after ops V (main_v177 : DevRef τ sig)) (after ops V (main_v180 : DevRef τ sig)) :=
  binary_ssa (a := main_v177) (b := main_v180) (y := main_v181) ops_wr 253 rfl (by decide) (by decide) (by decide) V

theorem eq_v182 (V : Valuation τ sig (Elt F)) :
    after ops V (main_v182 : DevRef τ sig) =
      (Host.rsqrt : (⟨S100000, .f32⟩ : BufTy).Contents (Elt F) → (⟨S100000, .f32⟩ : BufTy).Contents (Elt F))
        (after ops V (main_v181 : DevRef τ sig)) :=
  unary_ssa (x := main_v181) (y := main_v182) ops_wr 254 rfl (by decide) (by decide) V

theorem eq_cst_45 (V : Valuation τ sig (Elt F)) :
    after ops V (main_cst_45 : DevRef τ sig) = (constant S_ .f32 0x00000000#32) :=
  nullary_ssa (y := main_cst_45) ops_wr 255 rfl (by decide) V

theorem eq_call3_v0 (V : Valuation τ sig (Elt F)) :
    after ops V (main_call3_v0 : DevRef τ sig) =
      (id : (⟨S_, .f32⟩ : BufTy).Contents (Elt F) → (⟨S_, .f32⟩ : BufTy).Contents (Elt F))
        (after ops V (main_cst_45 : DevRef τ sig)) := by
  have h := unary_ssa (x := main_cst_45) (y := main_call3_v0) ops_wr 256 rfl (by decide) (by decide) V
  generalize after ops V (main_call3_v0 : DevRef τ sig) = x0 at h ⊢
  generalize after ops V (main_cst_45 : DevRef τ sig) = x1 at h ⊢
  exact h

theorem eq_call3_v1 (V : Valuation τ sig (Elt F)) :
    after ops V (main_call3_v1 : DevRef τ sig) =
      ((broadcastInDim S100000 ![] bcast_S_S100000) : (⟨S_, .f32⟩ : BufTy).Contents (Elt F) → (⟨S100000, .f32⟩ : BufTy).Contents (Elt F))
        (after ops V (main_call3_v0 : DevRef τ sig)) := by
  have h := unary_ssa (x := main_call3_v0) (y := main_call3_v1) ops_wr 257 rfl (by decide) (by decide) V
  generalize after ops V (main_call3_v1 : DevRef τ sig) = x0 at h ⊢
  generalize after ops V (main_call3_v0 : DevRef τ sig) = x1 at h ⊢
  exact h

theorem eq_v183 (V : Valuation τ sig (Elt F)) :
    after ops V (main_v183 : DevRef τ sig) =
      (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))
        (after ops V (main_v179 : DevRef τ sig)) (after ops V (main_v182 : DevRef τ sig)) (after ops V (main_call3_v1 : DevRef τ sig)) := by
  have h := ternary_ssa (c := main_v179) (a := main_v182) (b := main_call3_v1) (y := main_v183) ops_wr 258 rfl (by decide) (by decide) (by decide) (by decide) V
  generalize after ops V (main_v183 : DevRef τ sig) = x0 at h ⊢
  generalize after ops V (main_v179 : DevRef τ sig) = x1 at h ⊢
  generalize after ops V (main_v182 : DevRef τ sig) = x2 at h ⊢
  generalize after ops V (main_call3_v1 : DevRef τ sig) = x3 at h ⊢
  exact h

theorem eq_c_46 (V : Valuation τ sig (Elt F)) :
    after ops V (main_c_46 : DevRef τ sig) = (constantI S_ 32 0#32) :=
  nullary_ssa (y := main_c_46) ops_wr 259 rfl (by decide) V

theorem eq_v184 (V : Valuation τ sig (Elt F)) :
    after ops V (main_v184 : DevRef τ sig) =
      (broadcastInDim S200000 ![] bcast_S_S200000 : (⟨S_, .i32⟩ : BufTy).Contents (Elt F) → (⟨S200000, .i32⟩ : BufTy).Contents (Elt F))
        (after ops V (main_c_46 : DevRef τ sig)) :=
  unary_ssa (x := main_c_46) (y := main_v184) ops_wr 260 rfl (by decide) (by decide) V

theorem eq_v185 (V : Valuation τ sig (Elt F)) :
    after ops V (main_v185 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v166 : DevRef τ sig)) (after ops V (main_v184 : DevRef τ sig)) :=
  binary_ssa (a := main_v166) (b := main_v184) (y := main_v185) ops_wr 261 rfl (by decide) (by decide) (by decide) V

theorem eq_c_47 (V : Valuation τ sig (Elt F)) :
    after ops V (main_c_47 : DevRef τ sig) = (constantI S_ 32 100000#32) :=
  nullary_ssa (y := main_c_47) ops_wr 262 rfl (by decide) V

theorem eq_v186 (V : Valuation τ sig (Elt F)) :
    after ops V (main_v186 : DevRef τ sig) =
      (broadcastInDim S200000 ![] bcast_S_S200000 : (⟨S_, .i32⟩ : BufTy).Contents (Elt F) → (⟨S200000, .i32⟩ : BufTy).Contents (Elt F))
        (after ops V (main_c_47 : DevRef τ sig)) :=
  unary_ssa (x := main_c_47) (y := main_v186) ops_wr 263 rfl (by decide) (by decide) V

theorem eq_v187 (V : Valuation τ sig (Elt F)) :
    after ops V (main_v187 : DevRef τ sig) =
      (addi : (⟨S200000, .i32⟩ : BufTy).Contents (Elt F) → (⟨S200000, .i32⟩ : BufTy).Contents (Elt F) → (⟨S200000, .i32⟩ : BufTy).Contents (Elt F))
        (after ops V (main_v166 : DevRef τ sig)) (after ops V (main_v186 : DevRef τ sig)) :=
  binary_ssa (a := main_v166) (b := main_v186) (y := main_v187) ops_wr 264 rfl (by decide) (by decide) (by decide) V

theorem eq_v188 (V : Valuation τ sig (Elt F)) :
    after ops V (main_v188 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v185 : DevRef τ sig)) (after ops V (main_v187 : DevRef τ sig)) (after ops V (main_v166 : DevRef τ sig)) :=
  ternary_ssa (c := main_v185) (a := main_v187) (b := main_v166) (y := main_v188) ops_wr 265 rfl (by decide) (by decide) (by decide) (by decide) V

theorem eq_v189 (V : Valuation τ sig (Elt F)) :
    after ops V (main_v189 : DevRef τ sig) =
      (broadcastInDim S200000x1 ![0] bcast_S200000_S200000x1_0 : (⟨S200000, .i32⟩ : BufTy).Contents (Elt F) → (⟨S200000x1, .i32⟩ : BufTy).Contents (Elt F))
        (after ops V (main_v188 : DevRef τ sig)) :=
  unary_ssa (x := main_v188) (y := main_v189) ops_wr 266 rfl (by decide) (by decide) V

end Cert.ReferenceIdeal.HandRun

end
-- ==== Proof.RefEqs4.lean ====
/- One equation per host operation of the reference program's @main, operations 267 … 326 of 0 … 467 (window 4): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_v190 (V : Valuation τ sig (Elt F)) :
    after ops V (main_v190 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v183 : DevRef τ sig)) (after ops V (main_v189 : DevRef τ sig)) :=
  binary_ssa (a := main_v183) (b := main_v189) (y := main_v190) ops_wr 267 rfl (by decide) (by decide) (by decide) V

theorem eq_c_48 (V : Valuation τ sig (Elt F)) :
    after ops V (main_c_48 : DevRef τ sig) = (constantI S_ 32 0#32) :=
  nullary_ssa (y := main_c_48) ops_wr 268 rfl (by decide) V

theorem eq_v191 (V : Valuation τ sig (Elt F)) :
    after ops V (main_v191 : DevRef τ sig) =
      (broadcastInDim S200000 ![] bcast_S_S200000 : (⟨S_, .i32⟩ : BufTy).Contents (Elt F) → (⟨S200000, .i32⟩ : BufTy).Contents (Elt F))
        (after ops V (main_c_48 : DevRef τ sig)) :=
  unary_ssa (x := main_c_48) (y := main_v191) ops_wr 269 rfl (by decide) (by decide) V

theorem eq_v192 (V : Valuation τ sig (Elt F)) :
    after ops V (main_v192 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v168 : DevRef τ sig)) (after ops V (main_v191 : DevRef τ sig)) :=
  binary_ssa (a := main_v168) (b := main_v191) (y := main_v192) ops_wr 270 rfl (by decide) (by decide) (by decide) V

theorem eq_c_49 (V : Valuation τ sig (Elt F)) :
    after ops V (main_c_49 : DevRef τ sig) = (constantI S_ 32 100000#32) :=
  nullary_ssa (y := main_c_49) ops_wr 271 rfl (by decide) V

theorem eq_v193 (V : Valuation τ sig (Elt F)) :
    after ops V (main_v193 : DevRef τ sig) =
      (broadcastInDim S200000 ![] bcast_S_S200000 : (⟨S_, .i32⟩ : BufTy).Contents (Elt F) → (⟨S200000, .i32⟩ : BufTy).Contents (Elt F))
        (after ops V (main_c_49 : DevRef τ sig)) :=
  unary_ssa (x := main_c_49) (y := main_v193) ops_wr 272 rfl (by decide) (by decide) V

theorem eq_v194 (V : Valuation τ sig (Elt F)) :
    after ops V (main_v194 : DevRef τ sig) =
      (addi : (⟨S200000, .i32⟩ : BufTy).Contents (Elt F) → (⟨S200000, .i32⟩ : BufTy).Contents (Elt F) → (⟨S200000, .i32⟩ : BufTy).Contents (Elt F))
        (after ops V (main_v168 : DevRef τ sig)) (after ops V (main_v193 : DevRef τ sig)) :=
  binary_ssa (a := main_v168) (b := main_v193) (y := main_v194) ops_wr 273 rfl (by decide) (by decide) (by decide) V

theorem eq_v195 (V : Valuation τ sig (Elt F)) :
    after ops V (main_v195 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v192 : DevRef τ sig)) (after ops V (main_v194 : DevRef τ sig)) (after ops V (main_v168 : DevRef τ sig)) :=
  ternary_ssa (c := main_v192) (a := main_v194) (b := main_v168) (y := main_v195) ops_wr 274 rfl (by decide) (by decide) (by decide) (by decide) V

theorem eq_v196 (V : Valuation τ sig (Elt F)) :
    after ops V (main_v196 : DevRef τ sig) =
      (broadcastInDim S200000x1 ![0] bcast_S200000_S200000x1_0 : (⟨S200000, .i32⟩ : BufTy).Contents (Elt F) → (⟨S200000x1, .i32⟩ : BufTy).Contents (Elt F))
        (after ops V (main_v195 : DevRef τ sig)) :=
  unary_ssa (x := main_v195) (y := main_v196) ops_wr 275 rfl (by decide) (by decide) V

theorem eq_v197 (V : Valuation τ sig (Elt F)) :
    after ops V (main_v197 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v183 : DevRef τ sig)) (after ops V (main_v196 : DevRef τ sig)) :=
  binary_ssa (a := main_v183) (b := main_v196) (y := main_v197) ops_wr 276 rfl (by decide) (by decide) (by decide) V

theorem eq_v198 (V : Valuation τ sig (Elt F)) :
    after ops V (main_v198 : DevRef τ sig) =
      (mulf : (⟨S200000, .f32⟩ : BufTy).Contents (Elt F) → (⟨S200000, .f32⟩ : BufTy).Contents (Elt F) → (⟨S200000, .f32⟩ : BufTy).Contents (Elt F))
        (after ops V (main_v190 : DevRef τ sig)) (after ops V (main_v197 : DevRef τ sig)) :=
  binary_ssa (a := main_v190) (b := main_v197) (y := main_v198) ops_wr 277 rfl (by decide) (by decide) (by decide) V

theorem eq_c_50 (V : Valuation τ sig (Elt F)) :
    after ops V (main_c_50 : DevRef τ sig) = (constantI S_ 32 0#32) :=
  nullary_ssa (y := main_c_50) ops_wr 278 rfl (by decide) V

theorem eq_v199 (V : Valuation τ sig (Elt F)) :
    after ops V (main_v199 : DevRef τ sig) =
      (broadcastInDim S200000 ![] bcast_S_S200000 : (⟨S_, .i32⟩ : BufTy).Contents (Elt F) → (⟨S200000, .i32⟩ : BufTy).Contents (Elt F))
        (after ops V (main_c_50 : DevRef τ sig)) :=
  unary_ssa (x := main_c_50) (y := main_v199) ops_wr 279 rfl (by decide) (by decide) V

theorem eq_v200 (V : Valuation τ sig (Elt F)) :
    after ops V (main_v200 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v166 : DevRef τ sig)) (after ops V (main_v199 : DevRef τ sig)) :=
  binary_ssa (a := main_v166) (b := main_v199) (y := main_v200) ops_wr 280 rfl (by decide) (by decide) (by decide) V

theorem eq_c_51 (V : Valuation τ sig (Elt F)) :
    after ops V (main_c_51 : DevRef τ sig) = (constantI S_ 32 100000#32) :=
  nullary_ssa (y := main_c_51) ops_wr 281 rfl (by decide) V

theorem eq_v201 (V : Valuation τ sig (Elt F)) :
    after ops V (main_v201 : DevRef τ sig) =
      (broadcastInDim S200000 ![] bcast_S_S200000 : (⟨S_, .i32⟩ : BufTy).Contents (Elt F) → (⟨S200000, .i32⟩ : BufTy).Contents (Elt F))
        (after ops V (main_c_51 : DevRef τ sig)) :=
  unary_ssa (x := main_c_51) (y := main_v201) ops_wr 282 rfl (by decide) (by decide) V

theorem eq_v202 (V : Valuation τ sig (Elt F)) :
    after ops V (main_v202 : DevRef τ sig) =
      (addi : (⟨S200000, .i32⟩ : BufTy).Contents (Elt F) → (⟨S200000, .i32⟩ : BufTy).Contents (Elt F) → (⟨S200000, .i32⟩ : BufTy).Contents (Elt F))
        (after ops V (main_v166 : DevRef τ sig)) (after ops V (main_v201 : DevRef τ sig)) :=
  binary_ssa (a := main_v166) (b := main_v201) (y := main_v202) ops_wr 283 rfl (by decide) (by decide) (by decide) V

theorem eq_v203 (V : Valuation τ sig (Elt F)) :
    after ops V (main_v203 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v200 : DevRef τ sig)) (after ops V (main_v202 : DevRef τ sig)) (after ops V (main_v166 : DevRef τ sig)) :=
  ternary_ssa (c := main_v200) (a := main_v202) (b := main_v166) (y := main_v203) ops_wr 284 rfl (by decide) (by decide) (by decide) (by decide) V

theorem eq_v204 (V : Valuation τ sig (Elt F)) :
    after ops V (main_v204 : DevRef τ sig) =
      (broadcastInDim S200000x1 ![0] bcast_S200000_S200000x1_0 : (⟨S200000, .i32⟩ : BufTy).Contents (Elt F) → (⟨S200000x1, .i32⟩ : BufTy).Contents (Elt F))
        (after ops V (main_v203 : DevRef τ sig)) :=
  unary_ssa (x := main_v203) (y := main_v204) ops_wr 285 rfl (by decide) (by decide) V

theorem eq_v205 (V : Valuation τ sig (Elt F)) :
    after ops V (main_v205 : DevRef τ sig) =
      ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F))
        (after ops V (main_v162 : DevRef τ sig)) (after ops V (main_v204 : DevRef τ sig)) :=
  binary_ssa (a := main_v162) (b := main_v204) (y := main_v205) ops_wr 286 rfl (by decide) (by decide) (by decide) V

theorem eq_c_52 (V : Valuation τ sig (Elt F)) :
    after ops V (main_c_52 : DevRef τ sig) = (constantI S_ 32 0#32) :=
  nullary_ssa (y := main_c_52) ops_wr 287 rfl (by decide) V

theorem eq_v206 (V : Valuation τ sig (Elt F)) :
    after ops V (main_v206 : DevRef τ sig) =
      (broadcastInDim S200000 ![] bcast_S_S200000 : (⟨S_, .i32⟩ : BufTy).Contents (Elt F) → (⟨S200000, .i32⟩ : BufTy).Contents (Elt F))
        (after ops V (main_c_52 : DevRef τ sig)) :=
  unary_ssa (x := main_c_52) (y := main_v206) ops_wr 288 rfl (by decide) (by decide) V

theorem eq_v207 (V : Valuation τ sig (Elt F)) :
    after ops V (main_v207 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v164 : DevRef τ sig)) (after ops V (main_v206 : DevRef τ sig)) :=
  binary_ssa (a := main_v164) (b := main_v206) (y := main_v207) ops_wr 289 rfl (by decide) (by decide) (by decide) V

theorem eq_c_53 (V : Valuation τ sig (Elt F)) :
    after ops V (main_c_53 : DevRef τ sig) = (constantI S_ 32 401#32) :=
  nullary_ssa (y := main_c_53) ops_wr 290 rfl (by decide) V

theorem eq_v208 (V : Valuation τ sig (Elt F)) :
    after ops V (main_v208 : DevRef τ sig) =
      (broadcastInDim S200000 ![] bcast_S_S200000 : (⟨S_, .i32⟩ : BufTy).Contents (Elt F) → (⟨S200000, .i32⟩ : BufTy).Contents (Elt F))
        (after ops V (main_c_53 : DevRef τ sig)) :=
  unary_ssa (x := main_c_53) (y := main_v208) ops_wr 291 rfl (by decide) (by decide) V

theorem eq_v209 (V : Valuation τ sig (Elt F)) :
    after ops V (main_v209 : DevRef τ sig) =
      (addi : (⟨S200000, .i32⟩ : BufTy).Contents (Elt F) → (⟨S200000, .i32⟩ : BufTy).Contents (Elt F) → (⟨S200000, .i32⟩ : BufTy).Contents (Elt F))
        (after ops V (main_v164 : DevRef τ sig)) (after ops V (main_v208 : DevRef τ sig)) :=
  binary_ssa (a := main_v164) (b := main_v208) (y := main_v209) ops_wr 292 rfl (by decide) (by decide) (by decide) V

theorem eq_v210 (V : Valuation τ sig (Elt F)) :
    after ops V (main_v210 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v207 : DevRef τ sig)) (after ops V (main_v209 : DevRef τ sig)) (after ops V (main_v164 : DevRef τ sig)) :=
  ternary_ssa (c := main_v207) (a := main_v209) (b := main_v164) (y := main_v210) ops_wr 293 rfl (by decide) (by decide) (by decide) (by decide) V

theorem eq_v211 (V : Valuation τ sig (Elt F)) :
    after ops V (main_v211 : DevRef τ sig) =
      (broadcastInDim S200000x1 ![0] bcast_S200000_S200000x1_0 : (⟨S200000, .i32⟩ : BufTy).Contents (Elt F) → (⟨S200000x1, .i32⟩ : BufTy).Contents (Elt F))
        (after ops V (main_v210 : DevRef τ sig)) :=
  unary_ssa (x := main_v210) (y := main_v211) ops_wr 294 rfl (by decide) (by decide) V

theorem eq_v212 (V : Valuation τ sig (Elt F)) :
    after ops V (main_v212 : DevRef τ sig) =
      ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F))
        (after ops V (main_v160 : DevRef τ sig)) (after ops V (main_v211 : DevRef τ sig)) :=
  binary_ssa (a := main_v160) (b := main_v211) (y := main_v212) ops_wr 295 rfl (by decide) (by decide) (by decide) V

theorem eq_v213 (V : Valuation τ sig (Elt F)) :
    after ops V (main_v213 : DevRef τ sig) =
      (subf : (⟨S200000x200, .f32⟩ : BufTy).Contents (Elt F) → (⟨S200000x200, .f32⟩ : BufTy).Contents (Elt F) → (⟨S200000x200, .f32⟩ : BufTy).Contents (Elt F))
        (after ops V (main_v205 : DevRef τ sig)) (after ops V (main_v212 : DevRef τ sig)) :=
  binary_ssa (a := main_v205) (b := main_v212) (y := main_v213) ops_wr 296 rfl (by decide) (by decide) (by decide) V

theorem eq_v214 (V : Valuation τ sig (Elt F)) :
    after ops V (main_v214 : DevRef τ sig) =
      ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F))
        (after ops V (main_v213 : DevRef τ sig)) (after ops V (main_arg16 : DevRef τ sig)) :=
  binary_ssa (a := main_v213) (b := main_arg16) (y := main_v214) ops_wr 297 rfl (by decide) (by decide) (by decide) V

theorem eq_v215 (V : Valuation τ sig (Elt F)) :
    after ops V (main_v215 : DevRef τ sig) =
      (broadcastInDim S200000x1 ![0] bcast_S200000_S200000x1_0 : (⟨S200000, .f32⟩ : BufTy).Contents (Elt F) → (⟨S200000x1, .f32⟩ : BufTy).Contents (Elt F))
        (after ops V (main_v198 : DevRef τ sig)) :=
  unary_ssa (x := main_v198) (y := main_v215) ops_wr 298 rfl (by decide) (by decide) V

theorem eq_v216 (V : Valuation τ sig (Elt F)) :
    after ops V (main_v216 : DevRef τ sig) =
      (broadcastInDim S200000x200 ![0, 1] bcast_S200000x1_S200000x200_0_1 : (⟨S200000x1, .f32⟩ : BufTy).Contents (Elt F) → (⟨S200000x200, .f32⟩ : BufTy).Contents (Elt F))
        (after ops V (main_v215 : DevRef τ sig)) :=
  unary_ssa (x := main_v215) (y := main_v216) ops_wr 299 rfl (by decide) (by decide) V

theorem eq_v217 (V : Valuation τ sig (Elt F)) :
    after ops V (main_v217 : DevRef τ sig) =
      (mulf : (⟨S200000x200, .f32⟩ : BufTy).Contents (Elt F) → (⟨S200000x200, .f32⟩ : BufTy).Contents (Elt F) → (⟨S200000x200, .f32⟩ : BufTy).Contents (Elt F))
        (after ops V (main_v214 : DevRef τ sig)) (after ops V (main_v216 : DevRef τ sig)) :=
  binary_ssa (a := main_v214) (b := main_v216) (y := main_v217) ops_wr 300 rfl (by decide) (by decide) (by decide) V

theorem eq_cst_54 (V : Valuation τ sig (Elt F)) :
    after ops V (main_cst_54 : DevRef τ sig) = (constant S_ .f32 0x00000000#32) :=
  nullary_ssa (y := main_cst_54) ops_wr 301 rfl (by decide) V

theorem eq_v218 (V : Valuation τ sig (Elt F)) :
    after ops V (main_v218 : DevRef τ sig) =
      (broadcastInDim S100000x200 ![] bcast_S_S100000x200 : (⟨S_, .f32⟩ : BufTy).Contents (Elt F) → (⟨S100000x200, .f32⟩ : BufTy).Contents (Elt F))
        (after ops V (main_cst_54 : DevRef τ sig)) :=
  unary_ssa (x := main_cst_54) (y := main_v218) ops_wr 302 rfl (by decide) (by decide) V

theorem eq_c_55 (V : Valuation τ sig (Elt F)) :
    after ops V (main_c_55 : DevRef τ sig) = (constantI S_ 32 0#32) :=
  nullary_ssa (y := main_c_55) ops_wr 303 rfl (by decide) V

theorem eq_v219 (V : Valuation τ sig (Elt F)) :
    after ops V (main_v219 : DevRef τ sig) =
      (broadcastInDim S200000 ![] bcast_S_S200000 : (⟨S_, .i32⟩ : BufTy).Contents (Elt F) → (⟨S200000, .i32⟩ : BufTy).Contents (Elt F))
        (after ops V (main_c_55 : DevRef τ sig)) :=
  unary_ssa (x := main_c_55) (y := main_v219) ops_wr 304 rfl (by decide) (by decide) V

theorem eq_v220 (V : Valuation τ sig (Elt F)) :
    after ops V (main_v220 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v168 : DevRef τ sig)) (after ops V (main_v219 : DevRef τ sig)) :=
  binary_ssa (a := main_v168) (b := main_v219) (y := main_v220) ops_wr 305 rfl (by decide) (by decide) (by decide) V

theorem eq_c_56 (V : Valuation τ sig (Elt F)) :
    after ops V (main_c_56 : DevRef τ sig) = (constantI S_ 32 100000#32) :=
  nullary_ssa (y := main_c_56) ops_wr 306 rfl (by decide) V

theorem eq_v221 (V : Valuation τ sig (Elt F)) :
    after ops V (main_v221 : DevRef τ sig) =
      (broadcastInDim S200000 ![] bcast_S_S200000 : (⟨S_, .i32⟩ : BufTy).Contents (Elt F) → (⟨S200000, .i32⟩ : BufTy).Contents (Elt F))
        (after ops V (main_c_56 : DevRef τ sig)) :=
  unary_ssa (x := main_c_56) (y := main_v221) ops_wr 307 rfl (by decide) (by decide) V

theorem eq_v222 (V : Valuation τ sig (Elt F)) :
    after ops V (main_v222 : DevRef τ sig) =
      (addi : (⟨S200000, .i32⟩ : BufTy).Contents (Elt F) → (⟨S200000, .i32⟩ : BufTy).Contents (Elt F) → (⟨S200000, .i32⟩ : BufTy).Contents (Elt F))
        (after ops V (main_v168 : DevRef τ sig)) (after ops V (main_v221 : DevRef τ sig)) :=
  binary_ssa (a := main_v168) (b := main_v221) (y := main_v222) ops_wr 308 rfl (by decide) (by decide) (by decide) V

theorem eq_v223 (V : Valuation τ sig (Elt F)) :
    after ops V (main_v223 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v220 : DevRef τ sig)) (after ops V (main_v222 : DevRef τ sig)) (after ops V (main_v168 : DevRef τ sig)) :=
  ternary_ssa (c := main_v220) (a := main_v222) (b := main_v168) (y := main_v223) ops_wr 309 rfl (by decide) (by decide) (by decide) (by decide) V

theorem eq_v224 (V : Valuation τ sig (Elt F)) :
    after ops V (main_v224 : DevRef τ sig) =
      (broadcastInDim S200000x1 ![0] bcast_S200000_S200000x1_0 : (⟨S200000, .i32⟩ : BufTy).Contents (Elt F) → (⟨S200000x1, .i32⟩ : BufTy).Contents (Elt F))
        (after ops V (main_v223 : DevRef τ sig)) :=
  unary_ssa (x := main_v223) (y := main_v224) ops_wr 310 rfl (by decide) (by decide) V

theorem eq_v225 (V : Valuation τ sig (Elt F)) :
    after ops V (main_v225 : DevRef τ sig) =
      ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F))
        (after ops V (main_v218 : DevRef τ sig)) (after ops V (main_v224 : DevRef τ sig)) (after ops V (main_v217 : DevRef τ sig)) :=
  ternary_ssa (c := main_v218) (a := main_v224) (b := main_v217) (y := main_v225) ops_wr 311 rfl (by decide) (by decide) (by decide) (by decide) V

theorem eq_v226 (V : Valuation τ sig (Elt F)) :
    after ops V (main_v226 : DevRef τ sig) =
      ((extractStridedSlice S2x200000 ![0, 200000] · slices_S2x400000_S2x200000_0_200000) : (⟨S2x400000, .i32⟩ : BufTy).Contents (Elt F) → (⟨S2x200000, .i32⟩ : BufTy).Contents (Elt F))
        (after ops V (main_arg2 : DevRef τ sig)) :=
  unary_ssa (x := main_arg2) (y := main_v226) ops_wr 312 rfl (by decide) (by decide) V

theorem eq_v227 (V : Valuation τ sig (Elt F)) :
    after ops V (main_v227 : DevRef τ sig) =
      ((extractStridedSlice S200000 ![200000] · slices_S400000_S200000_200000) : (⟨S400000, .i32⟩ : BufTy).Contents (Elt F) → (⟨S200000, .i32⟩ : BufTy).Contents (Elt F))
        (after ops V (main_arg3 : DevRef τ sig)) :=
  unary_ssa (x := main_arg3) (y := main_v227) ops_wr 313 rfl (by decide) (by decide) V

theorem eq_v228 (V : Valuation τ sig (Elt F)) :
    after ops V (main_v228 : DevRef τ sig) =
      ((extractStridedSlice S1x200000 ![0, 0] · slices_S2x200000_S1x200000_0_0) : (⟨S2x200000, .i32⟩ : BufTy).Contents (Elt F) → (⟨S1x200000, .i32⟩ : BufTy).Contents (Elt F))
        (after ops V (main_v226 : DevRef τ sig)) :=
  unary_ssa (x := main_v226) (y := main_v228) ops_wr 314 rfl (by decide) (by decide) V

theorem eq_v229 (V : Valuation τ sig (Elt F)) :
    after ops V (main_v229 : DevRef τ sig) = reshapeFn main_v228 main_v229 rfl shapeCasts_S1x200000_S200000 (after ops V (main_v228 : DevRef τ sig)) :=
  reshape_ssa (x := main_v228) (y := main_v229) ops_wr 315 rfl (by decide) (by decide) V

theorem eq_v230 (V : Valuation τ sig (Elt F)) :
    after ops V (main_v230 : DevRef τ sig) =
      ((extractStridedSlice S1x200000 ![1, 0] · slices_S2x200000_S1x200000_1_0) : (⟨S2x200000, .i32⟩ : BufTy).Contents (Elt F) → (⟨S1x200000, .i32⟩ : BufTy).Contents (Elt F))
        (after ops V (main_v226 : DevRef τ sig)) :=
  unary_ssa (x := main_v226) (y := main_v230) ops_wr 316 rfl (by decide) (by decide) V

theorem eq_v231 (V : Valuation τ sig (Elt F)) :
    after ops V (main_v231 : DevRef τ sig) = reshapeFn main_v230 main_v231 rfl shapeCasts_S1x200000_S200000 (after ops V (main_v230 : DevRef τ sig)) :=
  reshape_ssa (x := main_v230) (y := main_v231) ops_wr 317 rfl (by decide) (by decide) V

theorem eq_cst_57 (V : Valuation τ sig (Elt F)) :
    after ops V (main_cst_57 : DevRef τ sig) = (constant S_ .f32 0x00000000#32) :=
  nullary_ssa (y := main_cst_57) ops_wr 318 rfl (by decide) V

theorem eq_v232 (V : Valuation τ sig (Elt F)) :
    after ops V (main_v232 : DevRef τ sig) =
      (broadcastInDim S100000 ![] bcast_S_S100000 : (⟨S_, .f32⟩ : BufTy).Contents (Elt F) → (⟨S100000, .f32⟩ : BufTy).Contents (Elt F))
        (after ops V (main_cst_57 : DevRef τ sig)) :=
  unary_ssa (x := main_cst_57) (y := main_v232) ops_wr 319 rfl (by decide) (by decide) V

theorem eq_c_58 (V : Valuation τ sig (Elt F)) :
    after ops V (main_c_58 : DevRef τ sig) = (constantI S_ 32 0#32) :=
  nullary_ssa (y := main_c_58) ops_wr 320 rfl (by decide) V

theorem eq_v233 (V : Valuation τ sig (Elt F)) :
    after ops V (main_v233 : DevRef τ sig) =
      (broadcastInDim S200000 ![] bcast_S_S200000 : (⟨S_, .i32⟩ : BufTy).Contents (Elt F) → (⟨S200000, .i32⟩ : BufTy).Contents (Elt F))
        (after ops V (main_c_58 : DevRef τ sig)) :=
  unary_ssa (x := main_c_58) (y := main_v233) ops_wr 321 rfl (by decide) (by decide) V

theorem eq_v234 (V : Valuation τ sig (Elt F)) :
    after ops V (main_v234 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v229 : DevRef τ sig)) (after ops V (main_v233 : DevRef τ sig)) :=
  binary_ssa (a := main_v229) (b := main_v233) (y := main_v234) ops_wr 322 rfl (by decide) (by decide) (by decide) V

theorem eq_c_59 (V : Valuation τ sig (Elt F)) :
    after ops V (main_c_59 : DevRef τ sig) = (constantI S_ 32 100000#32) :=
  nullary_ssa (y := main_c_59) ops_wr 323 rfl (by decide) V

theorem eq_v235 (V : Valuation τ sig (Elt F)) :
    after ops V (main_v235 : DevRef τ sig) =
      (broadcastInDim S200000 ![] bcast_S_S200000 : (⟨S_, .i32⟩ : BufTy).Contents (Elt F) → (⟨S200000, .i32⟩ : BufTy).Contents (Elt F))
        (after ops V (main_c_59 : DevRef τ sig)) :=
  unary_ssa (x := main_c_59) (y := main_v235) ops_wr 324 rfl (by decide) (by decide) V

theorem eq_v236 (V : Valuation τ sig (Elt F)) :
    after ops V (main_v236 : DevRef τ sig) =
      (addi : (⟨S200000, .i32⟩ : BufTy).Contents (Elt F) → (⟨S200000, .i32⟩ : BufTy).Contents (Elt F) → (⟨S200000, .i32⟩ : BufTy).Contents (Elt F))
        (after ops V (main_v229 : DevRef τ sig)) (after ops V (main_v235 : DevRef τ sig)) :=
  binary_ssa (a := main_v229) (b := main_v235) (y := main_v236) ops_wr 325 rfl (by decide) (by decide) (by decide) V

theorem eq_v237 (V : Valuation τ sig (Elt F)) :
    after ops V (main_v237 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v234 : DevRef τ sig)) (after ops V (main_v236 : DevRef τ sig)) (after ops V (main_v229 : DevRef τ sig)) :=
  ternary_ssa (c := main_v234) (a := main_v236) (b := main_v229) (y := main_v237) ops_wr 326 rfl (by decide) (by decide) (by decide) (by decide) V

end Cert.ReferenceIdeal.HandRun

end
-- ==== Proof.RefEqs5.lean ====
/- One equation per host operation of the reference program's @main, operations 327 … 388 of 0 … 467 (window 5): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_v238 (V : Valuation τ sig (Elt F)) :
    after ops V (main_v238 : DevRef τ sig) =
      (broadcastInDim S200000x1 ![0] bcast_S200000_S200000x1_0 : (⟨S200000, .i32⟩ : BufTy).Contents (Elt F) → (⟨S200000x1, .i32⟩ : BufTy).Contents (Elt F))
        (after ops V (main_v237 : DevRef τ sig)) :=
  unary_ssa (x := main_v237) (y := main_v238) ops_wr 327 rfl (by decide) (by decide) V

theorem eq_cst_60 (V : Valuation τ sig (Elt F)) :
    after ops V (main_cst_60 : DevRef τ sig) = (constant S_ .f32 0x3F800000#32) :=
  nullary_ssa (y := main_cst_60) ops_wr 328 rfl (by decide) V

theorem eq_v239 (V : Valuation τ sig (Elt F)) :
    after ops V (main_v239 : DevRef τ sig) =
      (broadcastInDim S200000 ![] bcast_S_S200000 : (⟨S_, .f32⟩ : BufTy).Contents (Elt F) → (⟨S200000, .f32⟩ : BufTy).Contents (Elt F))
        (after ops V (main_cst_60 : DevRef τ sig)) :=
  unary_ssa (x := main_cst_60) (y := main_v239) ops_wr 329 rfl (by decide) (by decide) V

theorem eq_v240 (V : Valuation τ sig (Elt F)) :
    after ops V (main_v240 : DevRef τ sig) =
      ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F))
        (after ops V (main_v232 : DevRef τ sig)) (after ops V (main_v238 : DevRef τ sig)) (after ops V (main_v239 : DevRef τ sig)) :=
  ternary_ssa (c := main_v232) (a := main_v238) (b := main_v239) (y := main_v240) ops_wr 330 rfl (by decide) (by decide) (by decide) (by decide) V

theorem eq_cst_61 (V : Valuation τ sig (Elt F)) :
    after ops V (main_cst_61 : DevRef τ sig) = (constant S_ .f32 0x00000000#32) :=
  nullary_ssa (y := main_cst_61) ops_wr 331 rfl (by decide) V

theorem eq_v241 (V : Valuation τ sig (Elt F)) :
    after ops V (main_v241 : DevRef τ sig) =
      (broadcastInDim S100000 ![] bcast_S_S100000 : (⟨S_, .f32⟩ : BufTy).Contents (Elt F) → (⟨S100000, .f32⟩ : BufTy).Contents (Elt F))
        (after ops V (main_cst_61 : DevRef τ sig)) :=
  unary_ssa (x := main_cst_61) (y := main_v241) ops_wr 332 rfl (by decide) (by decide) V

theorem eq_v242 (V : Valuation τ sig (Elt F)) :
    after ops V (main_v242 : DevRef τ sig) =
      (cmpf .ogt : (⟨S100000, .f32⟩ : BufTy).Contents (Elt F) → (⟨S100000, .f32⟩ : BufTy).Contents (Elt F) → (⟨S100000, .i1⟩ : BufTy).Contents (Elt F))
        (after ops V (main_v240 : DevRef τ sig)) (after ops V (main_v241 : DevRef τ sig)) :=
  binary_ssa (a := main_v240) (b := main_v241) (y := main_v242) ops_wr 333 rfl (by decide) (by decide) (by decide) V

theorem eq_cst_62 (V : Valuation τ sig (Elt F)) :
    after ops V (main_cst_62 : DevRef τ sig) = (constant S_ .f32 0x3F800000#32) :=
  nullary_ssa (y := main_cst_62) ops_wr 334 rfl (by decide) V

theorem eq_v243 (V : Valuation τ sig (Elt F)) :
    after ops V (main_v243 : DevRef τ sig) =
      (broadcastInDim S100000 ![] bcast_S_S100000 : (⟨S_, .f32⟩ : BufTy).Contents (Elt F) → (⟨S100000, .f32⟩ : BufTy).Contents (Elt F))
        (after ops V (main_cst_62 : DevRef τ sig)) :=
  unary_ssa (x := main_cst_62) (y := main_v243) ops_wr 335 rfl (by decide) (by decide) V

theorem eq_v244 (V : Valuation τ sig (Elt F)) :
    after ops V (main_v244 : DevRef τ sig) =
      (maximumf : (⟨S100000, .f32⟩ : BufTy).Contents (Elt F) → (⟨S100000, .f32⟩ : BufTy).Contents (Elt F) → (⟨S100000, .f32⟩ : BufTy).Contents (Elt F))
        (after ops V (main_v240 : DevRef τ sig)) (after ops V (main_v243 : DevRef τ sig)) :=
  binary_ssa (a := main_v240) (b := main_v243) (y := main_v244) ops_wr 336 rfl (by decide) (by decide) (by decide) V

theorem eq_v245 (V : Valuation τ sig (Elt F)) :
    after ops V (main_v245 : DevRef τ sig) =
      (Host.rsqrt : (⟨S100000, .f32⟩ : BufTy).Contents (Elt F) → (⟨S100000, .f32⟩ : BufTy).Contents (Elt F))
        (after ops V (main_v244 : DevRef τ sig)) :=
  unary_ssa (x := main_v244) (y := main_v245) ops_wr 337 rfl (by decide) (by decide) V

theorem eq_cst_63 (V : Valuation τ sig (Elt F)) :
    after ops V (main_cst_63 : DevRef τ sig) = (constant S_ .f32 0x00000000#32) :=
  nullary_ssa (y := main_cst_63) ops_wr 338 rfl (by decide) V

theorem eq_call4_v0 (V : Valuation τ sig (Elt F)) :
    after ops V (main_call4_v0 : DevRef τ sig) =
      (id : (⟨S_, .f32⟩ : BufTy).Contents (Elt F) → (⟨S_, .f32⟩ : BufTy).Contents (Elt F))
        (after ops V (main_cst_63 : DevRef τ sig)) := by
  have h := unary_ssa (x := main_cst_63) (y := main_call4_v0) ops_wr 339 rfl (by decide) (by decide) V
  generalize after ops V (main_call4_v0 : DevRef τ sig) = x0 at h ⊢
  generalize after ops V (main_cst_63 : DevRef τ sig) = x1 at h ⊢
  exact h

theorem eq_call4_v1 (V : Valuation τ sig (Elt F)) :
    after ops V (main_call4_v1 : DevRef τ sig) =
      ((broadcastInDim S100000 ![] bcast_S_S100000) : (⟨S_, .f32⟩ : BufTy).Contents (Elt F) → (⟨S100000, .f32⟩ : BufTy).Contents (Elt F))
        (after ops V (main_call4_v0 : DevRef τ sig)) := by
  have h := unary_ssa (x := main_call4_v0) (y := main_call4_v1) ops_wr 340 rfl (by decide) (by decide) V
  generalize after ops V (main_call4_v1 : DevRef τ sig) = x0 at h ⊢
  generalize after ops V (main_call4_v0 : DevRef τ sig) = x1 at h ⊢
  exact h

theorem eq_v246 (V : Valuation τ sig (Elt F)) :
    after ops V (main_v246 : DevRef τ sig) =
      (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))
        (after ops V (main_v242 : DevRef τ sig)) (after ops V (main_v245 : DevRef τ sig)) (after ops V (main_call4_v1 : DevRef τ sig)) := by
  have h := ternary_ssa (c := main_v242) (a := main_v245) (b := main_call4_v1) (y := main_v246) ops_wr 341 rfl (by decide) (by decide) (by decide) (by decide) V
  generalize after ops V (main_v246 : DevRef τ sig) = x0 at h ⊢
  generalize after ops V (main_v242 : DevRef τ sig) = x1 at h ⊢
  generalize after ops V (main_v245 : DevRef τ sig) = x2 at h ⊢
  generalize after ops V (main_call4_v1 : DevRef τ sig) = x3 at h ⊢
  exact h

theorem eq_c_64 (V : Valuation τ sig (Elt F)) :
    after ops V (main_c_64 : DevRef τ sig) = (constantI S_ 32 0#32) :=
  nullary_ssa (y := main_c_64) ops_wr 342 rfl (by decide) V

theorem eq_v247 (V : Valuation τ sig (Elt F)) :
    after ops V (main_v247 : DevRef τ sig) =
      (broadcastInDim S200000 ![] bcast_S_S200000 : (⟨S_, .i32⟩ : BufTy).Contents (Elt F) → (⟨S200000, .i32⟩ : BufTy).Contents (Elt F))
        (after ops V (main_c_64 : DevRef τ sig)) :=
  unary_ssa (x := main_c_64) (y := main_v247) ops_wr 343 rfl (by decide) (by decide) V

theorem eq_v248 (V : Valuation τ sig (Elt F)) :
    after ops V (main_v248 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v229 : DevRef τ sig)) (after ops V (main_v247 : DevRef τ sig)) :=
  binary_ssa (a := main_v229) (b := main_v247) (y := main_v248) ops_wr 344 rfl (by decide) (by decide) (by decide) V

theorem eq_c_65 (V : Valuation τ sig (Elt F)) :
    after ops V (main_c_65 : DevRef τ sig) = (constantI S_ 32 100000#32) :=
  nullary_ssa (y := main_c_65) ops_wr 345 rfl (by decide) V

theorem eq_v249 (V : Valuation τ sig (Elt F)) :
    after ops V (main_v249 : DevRef τ sig) =
      (broadcastInDim S200000 ![] bcast_S_S200000 : (⟨S_, .i32⟩ : BufTy).Contents (Elt F) → (⟨S200000, .i32⟩ : BufTy).Contents (Elt F))
        (after ops V (main_c_65 : DevRef τ sig)) :=
  unary_ssa (x := main_c_65) (y := main_v249) ops_wr 346 rfl (by decide) (by decide) V

theorem eq_v250 (V : Valuation τ sig (Elt F)) :
    after ops V (main_v250 : DevRef τ sig) =
      (addi : (⟨S200000, .i32⟩ : BufTy).Contents (Elt F) → (⟨S200000, .i32⟩ : BufTy).Contents (Elt F) → (⟨S200000, .i32⟩ : BufTy).Contents (Elt F))
        (after ops V (main_v229 : DevRef τ sig)) (after ops V (main_v249 : DevRef τ sig)) :=
  binary_ssa (a := main_v229) (b := main_v249) (y := main_v250) ops_wr 347 rfl (by decide) (by decide) (by decide) V

theorem eq_v251 (V : Valuation τ sig (Elt F)) :
    after ops V (main_v251 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v248 : DevRef τ sig)) (after ops V (main_v250 : DevRef τ sig)) (after ops V (main_v229 : DevRef τ sig)) :=
  ternary_ssa (c := main_v248) (a := main_v250) (b := main_v229) (y := main_v251) ops_wr 348 rfl (by decide) (by decide) (by decide) (by decide) V

theorem eq_v252 (V : Valuation τ sig (Elt F)) :
    after ops V (main_v252 : DevRef τ sig) =
      (broadcastInDim S200000x1 ![0] bcast_S200000_S200000x1_0 : (⟨S200000, .i32⟩ : BufTy).Contents (Elt F) → (⟨S200000x1, .i32⟩ : BufTy).Contents (Elt F))
        (after ops V (main_v251 : DevRef τ sig)) :=
  unary_ssa (x := main_v251) (y := main_v252) ops_wr 349 rfl (by decide) (by decide) V

theorem eq_v253 (V : Valuation τ sig (Elt F)) :
    after ops V (main_v253 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v246 : DevRef τ sig)) (after ops V (main_v252 : DevRef τ sig)) :=
  binary_ssa (a := main_v246) (b := main_v252) (y := main_v253) ops_wr 350 rfl (by decide) (by decide) (by decide) V

theorem eq_c_66 (V : Valuation τ sig (Elt F)) :
    after ops V (main_c_66 : DevRef τ sig) = (constantI S_ 32 0#32) :=
  nullary_ssa (y := main_c_66) ops_wr 351 rfl (by decide) V

theorem eq_v254 (V : Valuation τ sig (Elt F)) :
    after ops V (main_v254 : DevRef τ sig) =
      (broadcastInDim S200000 ![] bcast_S_S200000 : (⟨S_, .i32⟩ : BufTy).Contents (Elt F) → (⟨S200000, .i32⟩ : BufTy).Contents (Elt F))
        (after ops V (main_c_66 : DevRef τ sig)) :=
  unary_ssa (x := main_c_66) (y := main_v254) ops_wr 352 rfl (by decide) (by decide) V

theorem eq_v255 (V : Valuation τ sig (Elt F)) :
    after ops V (main_v255 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v231 : DevRef τ sig)) (after ops V (main_v254 : DevRef τ sig)) :=
  binary_ssa (a := main_v231) (b := main_v254) (y := main_v255) ops_wr 353 rfl (by decide) (by decide) (by decide) V

theorem eq_c_67 (V : Valuation τ sig (Elt F)) :
    after ops V (main_c_67 : DevRef τ sig) = (constantI S_ 32 100000#32) :=
  nullary_ssa (y := main_c_67) ops_wr 354 rfl (by decide) V

theorem eq_v256 (V : Valuation τ sig (Elt F)) :
    after ops V (main_v256 : DevRef τ sig) =
      (broadcastInDim S200000 ![] bcast_S_S200000 : (⟨S_, .i32⟩ : BufTy).Contents (Elt F) → (⟨S200000, .i32⟩ : BufTy).Contents (Elt F))
        (after ops V (main_c_67 : DevRef τ sig)) :=
  unary_ssa (x := main_c_67) (y := main_v256) ops_wr 355 rfl (by decide) (by decide) V

theorem eq_v257 (V : Valuation τ sig (Elt F)) :
    after ops V (main_v257 : DevRef τ sig) =
      (addi : (⟨S200000, .i32⟩ : BufTy).Contents (Elt F) → (⟨S200000, .i32⟩ : BufTy).Contents (Elt F) → (⟨S200000, .i32⟩ : BufTy).Contents (Elt F))
        (after ops V (main_v231 : DevRef τ sig)) (after ops V (main_v256 : DevRef τ sig)) :=
  binary_ssa (a := main_v231) (b := main_v256) (y := main_v257) ops_wr 356 rfl (by decide) (by decide) (by decide) V

theorem eq_v258 (V : Valuation τ sig (Elt F)) :
    after ops V (main_v258 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v255 : DevRef τ sig)) (after ops V (main_v257 : DevRef τ sig)) (after ops V (main_v231 : DevRef τ sig)) :=
  ternary_ssa (c := main_v255) (a := main_v257) (b := main_v231) (y := main_v258) ops_wr 357 rfl (by decide) (by decide) (by decide) (by decide) V

theorem eq_v259 (V : Valuation τ sig (Elt F)) :
    after ops V (main_v259 : DevRef τ sig) =
      (broadcastInDim S200000x1 ![0] bcast_S200000_S200000x1_0 : (⟨S200000, .i32⟩ : BufTy).Contents (Elt F) → (⟨S200000x1, .i32⟩ : BufTy).Contents (Elt F))
        (after ops V (main_v258 : DevRef τ sig)) :=
  unary_ssa (x := main_v258) (y := main_v259) ops_wr 358 rfl (by decide) (by decide) V

theorem eq_v260 (V : Valuation τ sig (Elt F)) :
    after ops V (main_v260 : DevRef τ sig) =
      ((fun x i => Host.gather gather_S100000_S200000x1_S200000_n_0_n_n_0_1_1 x i) : (⟨S100000, .f32⟩ : BufTy).Contents (Elt F) → (⟨S200000x1, .i32⟩ : BufTy).Contents (Elt F) → (⟨S200000, .f32⟩ : BufTy).Contents (Elt F))
        (after ops V (main_v246 : DevRef τ sig)) (after ops V (main_v259 : DevRef τ sig)) :=
  binary_ssa (a := main_v246) (b := main_v259) (y := main_v260) ops_wr 359 rfl (by decide) (by decide) (by decide) V

theorem eq_v261 (V : Valuation τ sig (Elt F)) :
    after ops V (main_v261 : DevRef τ sig) =
      (mulf : (⟨S200000, .f32⟩ : BufTy).Contents (Elt F) → (⟨S200000, .f32⟩ : BufTy).Contents (Elt F) → (⟨S200000, .f32⟩ : BufTy).Contents (Elt F))
        (after ops V (main_v253 : DevRef τ sig)) (after ops V (main_v260 : DevRef τ sig)) :=
  binary_ssa (a := main_v253) (b := main_v260) (y := main_v261) ops_wr 360 rfl (by decide) (by decide) (by decide) V

theorem eq_c_68 (V : Valuation τ sig (Elt F)) :
    after ops V (main_c_68 : DevRef τ sig) = (constantI S_ 32 0#32) :=
  nullary_ssa (y := main_c_68) ops_wr 361 rfl (by decide) V

theorem eq_v262 (V : Valuation τ sig (Elt F)) :
    after ops V (main_v262 : DevRef τ sig) =
      (broadcastInDim S200000 ![] bcast_S_S200000 : (⟨S_, .i32⟩ : BufTy).Contents (Elt F) → (⟨S200000, .i32⟩ : BufTy).Contents (Elt F))
        (after ops V (main_c_68 : DevRef τ sig)) :=
  unary_ssa (x := main_c_68) (y := main_v262) ops_wr 362 rfl (by decide) (by decide) V

theorem eq_v263 (V : Valuation τ sig (Elt F)) :
    after ops V (main_v263 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v229 : DevRef τ sig)) (after ops V (main_v262 : DevRef τ sig)) :=
  binary_ssa (a := main_v229) (b := main_v262) (y := main_v263) ops_wr 363 rfl (by decide) (by decide) (by decide) V

theorem eq_c_69 (V : Valuation τ sig (Elt F)) :
    after ops V (main_c_69 : DevRef τ sig) = (constantI S_ 32 100000#32) :=
  nullary_ssa (y := main_c_69) ops_wr 364 rfl (by decide) V

theorem eq_v264 (V : Valuation τ sig (Elt F)) :
    after ops V (main_v264 : DevRef τ sig) =
      (broadcastInDim S200000 ![] bcast_S_S200000 : (⟨S_, .i32⟩ : BufTy).Contents (Elt F) → (⟨S200000, .i32⟩ : BufTy).Contents (Elt F))
        (after ops V (main_c_69 : DevRef τ sig)) :=
  unary_ssa (x := main_c_69) (y := main_v264) ops_wr 365 rfl (by decide) (by decide) V

theorem eq_v265 (V : Valuation τ sig (Elt F)) :
    after ops V (main_v265 : DevRef τ sig) =
      (addi : (⟨S200000, .i32⟩ : BufTy).Contents (Elt F) → (⟨S200000, .i32⟩ : BufTy).Contents (Elt F) → (⟨S200000, .i32⟩ : BufTy).Contents (Elt F))
        (after ops V (main_v229 : DevRef τ sig)) (after ops V (main_v264 : DevRef τ sig)) :=
  binary_ssa (a := main_v229) (b := main_v264) (y := main_v265) ops_wr 366 rfl (by decide) (by decide) (by decide) V

theorem eq_v266 (V : Valuation τ sig (Elt F)) :
    after ops V (main_v266 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v263 : DevRef τ sig)) (after ops V (main_v265 : DevRef τ sig)) (after ops V (main_v229 : DevRef τ sig)) :=
  ternary_ssa (c := main_v263) (a := main_v265) (b := main_v229) (y := main_v266) ops_wr 367 rfl (by decide) (by decide) (by decide) (by decide) V

theorem eq_v267 (V : Valuation τ sig (Elt F)) :
    after ops V (main_v267 : DevRef τ sig) =
      (broadcastInDim S200000x1 ![0] bcast_S200000_S200000x1_0 : (⟨S200000, .i32⟩ : BufTy).Contents (Elt F) → (⟨S200000x1, .i32⟩ : BufTy).Contents (Elt F))
        (after ops V (main_v266 : DevRef τ sig)) :=
  unary_ssa (x := main_v266) (y := main_v267) ops_wr 368 rfl (by decide) (by decide) V

theorem eq_v268 (V : Valuation τ sig (Elt F)) :
    after ops V (main_v268 : DevRef τ sig) =
      ((fun x i => Host.gather gather_S100000x200_S200000x1_S200000x200_1_0_n_n_0_1_1200 x i) : (⟨S100000x200, .f32⟩ : BufTy).Contents (Elt F) → (⟨S200000x1, .i32⟩ : BufTy).Contents (Elt F) → (⟨S200000x200, .f32⟩ : BufTy).Contents (Elt F))
        (after ops V (main_v162 : DevRef τ sig)) (after ops V (main_v267 : DevRef τ sig)) :=
  binary_ssa (a := main_v162) (b := main_v267) (y := main_v268) ops_wr 369 rfl (by decide) (by decide) (by decide) V

theorem eq_c_70 (V : Valuation τ sig (Elt F)) :
    after ops V (main_c_70 : DevRef τ sig) = (constantI S_ 32 0#32) :=
  nullary_ssa (y := main_c_70) ops_wr 370 rfl (by decide) V

theorem eq_v269 (V : Valuation τ sig (Elt F)) :
    after ops V (main_v269 : DevRef τ sig) =
      (broadcastInDim S200000 ![] bcast_S_S200000 : (⟨S_, .i32⟩ : BufTy).Contents (Elt F) → (⟨S200000, .i32⟩ : BufTy).Contents (Elt F))
        (after ops V (main_c_70 : DevRef τ sig)) :=
  unary_ssa (x := main_c_70) (y := main_v269) ops_wr 371 rfl (by decide) (by decide) V

theorem eq_v270 (V : Valuation τ sig (Elt F)) :
    after ops V (main_v270 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v227 : DevRef τ sig)) (after ops V (main_v269 : DevRef τ sig)) :=
  binary_ssa (a := main_v227) (b := main_v269) (y := main_v270) ops_wr 372 rfl (by decide) (by decide) (by decide) V

theorem eq_c_71 (V : Valuation τ sig (Elt F)) :
    after ops V (main_c_71 : DevRef τ sig) = (constantI S_ 32 401#32) :=
  nullary_ssa (y := main_c_71) ops_wr 373 rfl (by decide) V

theorem eq_v271 (V : Valuation τ sig (Elt F)) :
    after ops V (main_v271 : DevRef τ sig) =
      (broadcastInDim S200000 ![] bcast_S_S200000 : (⟨S_, .i32⟩ : BufTy).Contents (Elt F) → (⟨S200000, .i32⟩ : BufTy).Contents (Elt F))
        (after ops V (main_c_71 : DevRef τ sig)) :=
  unary_ssa (x := main_c_71) (y := main_v271) ops_wr 374 rfl (by decide) (by decide) V

theorem eq_v272 (V : Valuation τ sig (Elt F)) :
    after ops V (main_v272 : DevRef τ sig) =
      (addi : (⟨S200000, .i32⟩ : BufTy).Contents (Elt F) → (⟨S200000, .i32⟩ : BufTy).Contents (Elt F) → (⟨S200000, .i32⟩ : BufTy).Contents (Elt F))
        (after ops V (main_v227 : DevRef τ sig)) (after ops V (main_v271 : DevRef τ sig)) :=
  binary_ssa (a := main_v227) (b := main_v271) (y := main_v272) ops_wr 375 rfl (by decide) (by decide) (by decide) V

theorem eq_v273 (V : Valuation τ sig (Elt F)) :
    after ops V (main_v273 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v270 : DevRef τ sig)) (after ops V (main_v272 : DevRef τ sig)) (after ops V (main_v227 : DevRef τ sig)) :=
  ternary_ssa (c := main_v270) (a := main_v272) (b := main_v227) (y := main_v273) ops_wr 376 rfl (by decide) (by decide) (by decide) (by decide) V

theorem eq_v274 (V : Valuation τ sig (Elt F)) :
    after ops V (main_v274 : DevRef τ sig) =
      (broadcastInDim S200000x1 ![0] bcast_S200000_S200000x1_0 : (⟨S200000, .i32⟩ : BufTy).Contents (Elt F) → (⟨S200000x1, .i32⟩ : BufTy).Contents (Elt F))
        (after ops V (main_v273 : DevRef τ sig)) :=
  unary_ssa (x := main_v273) (y := main_v274) ops_wr 377 rfl (by decide) (by decide) V

theorem eq_v275 (V : Valuation τ sig (Elt F)) :
    after ops V (main_v275 : DevRef τ sig) =
      ((fun x i => Host.gather gather_S401x200_S200000x1_S200000x200_1_0_n_n_0_1_1200 x i) : (⟨S401x200, .f32⟩ : BufTy).Contents (Elt F) → (⟨S200000x1, .i32⟩ : BufTy).Contents (Elt F) → (⟨S200000x200, .f32⟩ : BufTy).Contents (Elt F))
        (after ops V (main_v160 : DevRef τ sig)) (after ops V (main_v274 : DevRef τ sig)) :=
  binary_ssa (a := main_v160) (b := main_v274) (y := main_v275) ops_wr 378 rfl (by decide) (by decide) (by decide) V

theorem eq_v276 (V : Valuation τ sig (Elt F)) :
    after ops V (main_v276 : DevRef τ sig) =
      (subf : (⟨S200000x200, .f32⟩ : BufTy).Contents (Elt F) → (⟨S200000x200, .f32⟩ : BufTy).Contents (Elt F) → (⟨S200000x200, .f32⟩ : BufTy).Contents (Elt F))
        (after ops V (main_v268 : DevRef τ sig)) (after ops V (main_v275 : DevRef τ sig)) :=
  binary_ssa (a := main_v268) (b := main_v275) (y := main_v276) ops_wr 379 rfl (by decide) (by decide) (by decide) V

theorem eq_v277 (V : Valuation τ sig (Elt F)) :
    after ops V (main_v277 : DevRef τ sig) =
      ((fun l r => Host.dotGeneral dot_S200000x200_S200x200_S200000x200_1_0_0_1_n_n none l r) : (⟨S200000x200, .f32⟩ : BufTy).Contents (Elt F) → (⟨S200x200, .f32⟩ : BufTy).Contents (Elt F) → (⟨S200000x200, .f32⟩ : BufTy).Contents (Elt F))
        (after ops V (main_v276 : DevRef τ sig)) (after ops V (main_arg17 : DevRef τ sig)) :=
  binary_ssa (a := main_v276) (b := main_arg17) (y := main_v277) ops_wr 380 rfl (by decide) (by decide) (by decide) V

theorem eq_v278 (V : Valuation τ sig (Elt F)) :
    after ops V (main_v278 : DevRef τ sig) =
      (broadcastInDim S200000x1 ![0] bcast_S200000_S200000x1_0 : (⟨S200000, .f32⟩ : BufTy).Contents (Elt F) → (⟨S200000x1, .f32⟩ : BufTy).Contents (Elt F))
        (after ops V (main_v261 : DevRef τ sig)) :=
  unary_ssa (x := main_v261) (y := main_v278) ops_wr 381 rfl (by decide) (by decide) V

theorem eq_v279 (V : Valuation τ sig (Elt F)) :
    after ops V (main_v279 : DevRef τ sig) =
      (broadcastInDim S200000x200 ![0, 1] bcast_S200000x1_S200000x200_0_1 : (⟨S200000x1, .f32⟩ : BufTy).Contents (Elt F) → (⟨S200000x200, .f32⟩ : BufTy).Contents (Elt F))
        (after ops V (main_v278 : DevRef τ sig)) :=
  unary_ssa (x := main_v278) (y := main_v279) ops_wr 382 rfl (by decide) (by decide) V

theorem eq_v280 (V : Valuation τ sig (Elt F)) :
    after ops V (main_v280 : DevRef τ sig) =
      (mulf : (⟨S200000x200, .f32⟩ : BufTy).Contents (Elt F) → (⟨S200000x200, .f32⟩ : BufTy).Contents (Elt F) → (⟨S200000x200, .f32⟩ : BufTy).Contents (Elt F))
        (after ops V (main_v277 : DevRef τ sig)) (after ops V (main_v279 : DevRef τ sig)) :=
  binary_ssa (a := main_v277) (b := main_v279) (y := main_v280) ops_wr 383 rfl (by decide) (by decide) (by decide) V

theorem eq_cst_72 (V : Valuation τ sig (Elt F)) :
    after ops V (main_cst_72 : DevRef τ sig) = (constant S_ .f32 0x00000000#32) :=
  nullary_ssa (y := main_cst_72) ops_wr 384 rfl (by decide) V

theorem eq_v281 (V : Valuation τ sig (Elt F)) :
    after ops V (main_v281 : DevRef τ sig) =
      (broadcastInDim S100000x200 ![] bcast_S_S100000x200 : (⟨S_, .f32⟩ : BufTy).Contents (Elt F) → (⟨S100000x200, .f32⟩ : BufTy).Contents (Elt F))
        (after ops V (main_cst_72 : DevRef τ sig)) :=
  unary_ssa (x := main_cst_72) (y := main_v281) ops_wr 385 rfl (by decide) (by decide) V

theorem eq_c_73 (V : Valuation τ sig (Elt F)) :
    after ops V (main_c_73 : DevRef τ sig) = (constantI S_ 32 0#32) :=
  nullary_ssa (y := main_c_73) ops_wr 386 rfl (by decide) V

theorem eq_v282 (V : Valuation τ sig (Elt F)) :
    after ops V (main_v282 : DevRef τ sig) =
      (broadcastInDim S200000 ![] bcast_S_S200000 : (⟨S_, .i32⟩ : BufTy).Contents (Elt F) → (⟨S200000, .i32⟩ : BufTy).Contents (Elt F))
        (after ops V (main_c_73 : DevRef τ sig)) :=
  unary_ssa (x := main_c_73) (y := main_v282) ops_wr 387 rfl (by decide) (by decide) V

theorem eq_v283 (V : Valuation τ sig (Elt F)) :
    after ops V (main_v283 : DevRef τ sig) =
      (cmpi .slt : (⟨S200000, .i32⟩ : BufTy).Contents (Elt F) → (⟨S200000, .i32⟩ : BufTy).Contents (Elt F) → (⟨S200000, .i1⟩ : BufTy).Contents (Elt F))
        (after ops V (main_v231 : DevRef τ sig)) (after ops V (main_v282 : DevRef τ sig)) :=
  binary_ssa (a := main_v231) (b := main_v282) (y := main_v283) ops_wr 388 rfl (by decide) (by decide) (by decide) V

end Cert.ReferenceIdeal.HandRun

end
-- ==== Proof.RefEqs6.lean ====
/- One equation per host operation of the reference program's @main, operations 389 … 467 of 0 … 467 (window 6): with
   `after ops V` the contents when @main has ended, the reference an operation writes holds the operation's function of the
   final contents of its operands — every reference being written once, before any operation reads it. An operation of an
   outlined function appears at its call, over the call's own buffers, with its function at the types the callee declares. Each
   equation is the general fact for its kind of operation (unary, binary, …) at the operation's place `k` in the list. -/
import proofs.«103573_j30391188587216_1_alg».proof.Proof.RefWrites

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.SeqLib

variable {F : FTy → Type} [FloatOps F]

theorem eq_c_74 (V : Valuation τ sig (Elt F)) :
    after ops V (main_c_74 : DevRef τ sig) = (constantI S_ 32 100000#32) :=
  nullary_ssa (y := main_c_74) ops_wr 389 rfl (by decide) V

theorem eq_v284 (V : Valuation τ sig (Elt F)) :
    after ops V (main_v284 : DevRef τ sig) =
      (broadcastInDim S200000 ![] bcast_S_S200000 : (⟨S_, .i32⟩ : BufTy).Contents (Elt F) → (⟨S200000, .i32⟩ : BufTy).Contents (Elt F))
        (after ops V (main_c_74 : DevRef τ sig)) :=
  unary_ssa (x := main_c_74) (y := main_v284) ops_wr 390 rfl (by decide) (by decide) V

theorem eq_v285 (V : Valuation τ sig (Elt F)) :
    after ops V (main_v285 : DevRef τ sig) =
      (addi : (⟨S200000, .i32⟩ : BufTy).Contents (Elt F) → (⟨S200000, .i32⟩ : BufTy).Contents (Elt F) → (⟨S200000, .i32⟩ : BufTy).Contents (Elt F))
        (after ops V (main_v231 : DevRef τ sig)) (after ops V (main_v284 : DevRef τ sig)) :=
  binary_ssa (a := main_v231) (b := main_v284) (y := main_v285) ops_wr 391 rfl (by decide) (by decide) (by decide) V

theorem eq_v286 (V : Valuation τ sig (Elt F)) :
    after ops V (main_v286 : DevRef τ sig) =
      (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
        (after ops V (main_v283 : DevRef τ sig)) (after ops V (main_v285 : DevRef τ sig)) (after ops V (main_v231 : DevRef τ sig)) :=
  ternary_ssa (c := main_v283) (a := main_v285) (b := main_v231) (y := main_v286) ops_wr 392 rfl (by decide) (by decide) (by decide) (by decide) V

theorem eq_v287 (V : Valuation τ sig (Elt F)) :
    after ops V (main_v287 : DevRef τ sig) =
      (broadcastInDim S200000x1 ![0] bcast_S200000_S200000x1_0 : (⟨S200000, .i32⟩ : BufTy).Contents (Elt F) → (⟨S200000x1, .i32⟩ : BufTy).Contents (Elt F))
        (after ops V (main_v286 : DevRef τ sig)) :=
  unary_ssa (x := main_v286) (y := main_v287) ops_wr 393 rfl (by decide) (by decide) V

theorem eq_v288 (V : Valuation τ sig (Elt F)) :
    after ops V (main_v288 : DevRef τ sig) =
      ((fun x i u => Host.scatterAdd scatter_S100000x200_S200000x1_S200000x200_1_0_0_1 x i u) : (⟨S100000x200, .f32⟩ : BufTy).Contents (Elt F) → (⟨S200000x1, .i32⟩ : BufTy).Contents (Elt F) → (⟨S200000x200, .f32⟩ : BufTy).Contents (Elt F) → (⟨S100000x200, .f32⟩ : BufTy).Contents (Elt F))
        (after ops V (main_v281 : DevRef τ sig)) (after ops V (main_v287 : DevRef τ sig)) (after ops V (main_v280 : DevRef τ sig)) :=
  ternary_ssa (c := main_v281) (a := main_v287) (b := main_v280) (y := main_v288) ops_wr 394 rfl (by decide) (by decide) (by decide) (by decide) V

theorem eq_v289 (V : Valuation τ sig (Elt F)) :
    after ops V (main_v289 : DevRef τ sig) =
      ((extractStridedSlice S1x200 ![400, 0] · slices_S401x200_S1x200_400_0) : (⟨S401x200, .f32⟩ : BufTy).Contents (Elt F) → (⟨S1x200, .f32⟩ : BufTy).Contents (Elt F))
        (after ops V (main_v160 : DevRef τ sig)) :=
  unary_ssa (x := main_v160) (y := main_v289) ops_wr 395 rfl (by decide) (by decide) V

theorem eq_v290 (V : Valuation τ sig (Elt F)) :
    after ops V (main_v290 : DevRef τ sig) = reshapeFn main_v289 main_v290 rfl shapeCasts_S1x200_S200 (after ops V (main_v289 : DevRef τ sig)) :=
  reshape_ssa (x := main_v289) (y := main_v290) ops_wr 396 rfl (by decide) (by decide) V

theorem eq_v291 (V : Valuation τ sig (Elt F)) :
    after ops V (main_v291 : DevRef τ sig) =
      (broadcastInDim S1x200 ![1] bcast_S200_S1x200_1 : (⟨S200, .f32⟩ : BufTy).Contents (Elt F) → (⟨S1x200, .f32⟩ : BufTy).Contents (Elt F))
        (after ops V (main_v290 : DevRef τ sig)) :=
  unary_ssa (x := main_v290) (y := main_v291) ops_wr 397 rfl (by decide) (by decide) V

theorem eq_v292 (V : Valuation τ sig (Elt F)) :
    after ops V (main_v292 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v291 : DevRef τ sig)) :=
  unary_ssa (x := main_v291) (y := main_v292) ops_wr 398 rfl (by decide) (by decide) V

theorem eq_v293 (V : Valuation τ sig (Elt F)) :
    after ops V (main_v293 : DevRef τ sig) =
      (subf : (⟨S100000x200, .f32⟩ : BufTy).Contents (Elt F) → (⟨S100000x200, .f32⟩ : BufTy).Contents (Elt F) → (⟨S100000x200, .f32⟩ : BufTy).Contents (Elt F))
        (after ops V (main_v162 : DevRef τ sig)) (after ops V (main_v292 : DevRef τ sig)) :=
  binary_ssa (a := main_v162) (b := main_v292) (y := main_v293) ops_wr 399 rfl (by decide) (by decide) (by decide) V

theorem eq_v294 (V : Valuation τ sig (Elt F)) :
    after ops V (main_v294 : DevRef τ sig) =
      ((fun l r => Host.dotGeneral dot_S100000x200_S200x200_S100000x200_1_0_0_1_n_n none l r) : (⟨S100000x200, .f32⟩ : BufTy).Contents (Elt F) → (⟨S200x200, .f32⟩ : BufTy).Contents (Elt F) → (⟨S100000x200, .f32⟩ : BufTy).Contents (Elt F))
        (after ops V (main_v293 : DevRef τ sig)) (after ops V (main_arg18 : DevRef τ sig)) :=
  binary_ssa (a := main_v293) (b := main_arg18) (y := main_v294) ops_wr 400 rfl (by decide) (by decide) (by decide) V

theorem eq_v295 (V : Valuation τ sig (Elt F)) :
    after ops V (main_v295 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v225 : DevRef τ sig)) (after ops V (main_v288 : DevRef τ sig)) :=
  binary_ssa (a := main_v225) (b := main_v288) (y := main_v295) ops_wr 401 rfl (by decide) (by decide) (by decide) V

theorem eq_v296 (V : Valuation τ sig (Elt F)) :
    after ops V (main_v296 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v295 : DevRef τ sig)) (after ops V (main_v294 : DevRef τ sig)) :=
  binary_ssa (a := main_v295) (b := main_v294) (y := main_v296) ops_wr 402 rfl (by decide) (by decide) (by decide) V

theorem eq_cst_75 (V : Valuation τ sig (Elt F)) :
    after ops V (main_cst_75 : DevRef τ sig) = (constant S_ .f32 0x3EAAAAAB#32) :=
  nullary_ssa (y := main_cst_75) ops_wr 403 rfl (by decide) V

theorem eq_v297 (V : Valuation τ sig (Elt F)) :
    after ops V (main_v297 : DevRef τ sig) =
      (broadcastInDim S100000x200 ![] bcast_S_S100000x200 : (⟨S_, .f32⟩ : BufTy).Contents (Elt F) → (⟨S100000x200, .f32⟩ : BufTy).Contents (Elt F))
        (after ops V (main_cst_75 : DevRef τ sig)) :=
  unary_ssa (x := main_cst_75) (y := main_v297) ops_wr 404 rfl (by decide) (by decide) V

theorem eq_v298 (V : Valuation τ sig (Elt F)) :
    after ops V (main_v298 : DevRef τ sig) =
      (mulf : (⟨S100000x200, .f32⟩ : BufTy).Contents (Elt F) → (⟨S100000x200, .f32⟩ : BufTy).Contents (Elt F) → (⟨S100000x200, .f32⟩ : BufTy).Contents (Elt F))
        (after ops V (main_v296 : DevRef τ sig)) (after ops V (main_v297 : DevRef τ sig)) :=
  binary_ssa (a := main_v296) (b := main_v297) (y := main_v298) ops_wr 405 rfl (by decide) (by decide) (by decide) V

theorem eq_v299 (V : Valuation τ sig (Elt F)) :
    after ops V (main_v299 : DevRef τ sig) =
      (broadcastInDim S1x200 ![1] bcast_S200_S1x200_1 : (⟨S200, .f32⟩ : BufTy).Contents (Elt F) → (⟨S1x200, .f32⟩ : BufTy).Contents (Elt F))
        (after ops V (main_arg21 : DevRef τ sig)) :=
  unary_ssa (x := main_arg21) (y := main_v299) ops_wr 406 rfl (by decide) (by decide) V

theorem eq_v300 (V : Valuation τ sig (Elt F)) :
    after ops V (main_v300 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v299 : DevRef τ sig)) :=
  unary_ssa (x := main_v299) (y := main_v300) ops_wr 407 rfl (by decide) (by decide) V

theorem eq_v301 (V : Valuation τ sig (Elt F)) :
    after ops V (main_v301 : DevRef τ sig) =
      (addf : (⟨S100000x200, .f32⟩ : BufTy).Contents (Elt F) → (⟨S100000x200, .f32⟩ : BufTy).Contents (Elt F) → (⟨S100000x200, .f32⟩ : BufTy).Contents (Elt F))
        (after ops V (main_v298 : DevRef τ sig)) (after ops V (main_v300 : DevRef τ sig)) :=
  binary_ssa (a := main_v298) (b := main_v300) (y := main_v301) ops_wr 408 rfl (by decide) (by decide) (by decide) V

theorem eq_cst_76 (V : Valuation τ sig (Elt F)) :
    after ops V (main_cst_76 : DevRef τ sig) = (constant S_ .f32 0x00000000#32) :=
  nullary_ssa (y := main_cst_76) ops_wr 409 rfl (by decide) V

theorem eq_v302 (V : Valuation τ sig (Elt F)) :
    after ops V (main_v302 : DevRef τ sig) =
      ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F))
        (after ops V (main_v301 : DevRef τ sig)) (after ops V (main_cst_76 : DevRef τ sig)) :=
  binary_ssa (a := main_v301) (b := main_cst_76) (y := main_v302) ops_wr 410 rfl (by decide) (by decide) (by decide) V

theorem eq_cst_77 (V : Valuation τ sig (Elt F)) :
    after ops V (main_cst_77 : DevRef τ sig) = (constant S_ .f32 0x47C35000#32) :=
  nullary_ssa (y := main_cst_77) ops_wr 411 rfl (by decide) V

theorem eq_v303 (V : Valuation τ sig (Elt F)) :
    after ops V (main_v303 : DevRef τ sig) =
      (broadcastInDim S200 ![] bcast_S_S200 : (⟨S_, .f32⟩ : BufTy).Contents (Elt F) → (⟨S200, .f32⟩ : BufTy).Contents (Elt F))
        (after ops V (main_cst_77 : DevRef τ sig)) :=
  unary_ssa (x := main_cst_77) (y := main_v303) ops_wr 412 rfl (by decide) (by decide) V

theorem eq_v304 (V : Valuation τ sig (Elt F)) :
    after ops V (main_v304 : DevRef τ sig) =
      (Host.divf : (⟨S200, .f32⟩ : BufTy).Contents (Elt F) → (⟨S200, .f32⟩ : BufTy).Contents (Elt F) → (⟨S200, .f32⟩ : BufTy).Contents (Elt F))
        (after ops V (main_v302 : DevRef τ sig)) (after ops V (main_v303 : DevRef τ sig)) :=
  binary_ssa (a := main_v302) (b := main_v303) (y := main_v304) ops_wr 413 rfl (by decide) (by decide) (by decide) V

theorem eq_c_78 (V : Valuation τ sig (Elt F)) :
    after ops V (main_c_78 : DevRef τ sig) = (constantI S_ 32 0#32) :=
  nullary_ssa (y := main_c_78) ops_wr 414 rfl (by decide) V

theorem eq_call5_cst (V : Valuation τ sig (Elt F)) :
    after ops V (main_call5_cst : DevRef τ sig) = ((constant S_ .f32 0x00000000#32) : (⟨S_, .f32⟩ : BufTy).Contents (Elt F)) := by
  have h := nullary_ssa (y := main_call5_cst) ops_wr 415 rfl (by decide) V
  generalize after ops V (main_call5_cst : DevRef τ sig) = x0 at h ⊢
  exact h

theorem eq_call5_v0 (V : Valuation τ sig (Elt F)) :
    after ops V (main_call5_v0 : DevRef τ sig) =
      ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F))
        (after ops V (main_v301 : DevRef τ sig)) (after ops V (main_call5_cst : DevRef τ sig)) := by
  have h := binary_ssa (a := main_v301) (b := main_call5_cst) (y := main_call5_v0) ops_wr 416 rfl (by decide) (by decide) (by decide) V
  generalize after ops V (main_call5_v0 : DevRef τ sig) = x0 at h ⊢
  generalize after ops V (main_v301 : DevRef τ sig) = x1 at h ⊢
  generalize after ops V (main_call5_cst : DevRef τ sig) = x2 at h ⊢
  exact h

theorem eq_call5_v1 (V : Valuation τ sig (Elt F)) :
    after ops V (main_call5_v1 : DevRef τ sig) =
      ((broadcastInDim S1x200 ![1] bcast_S200_S1x200_1) : (⟨S200, .f32⟩ : BufTy).Contents (Elt F) → (⟨S1x200, .f32⟩ : BufTy).Contents (Elt F))
        (after ops V (main_call5_v0 : DevRef τ sig)) := by
  have h := unary_ssa (x := main_call5_v0) (y := main_call5_v1) ops_wr 417 rfl (by decide) (by decide) V
  generalize after ops V (main_call5_v1 : DevRef τ sig) = x0 at h ⊢
  generalize after ops V (main_call5_v0 : DevRef τ sig) = x1 at h ⊢
  exact h

theorem eq_call5_cst_0 (V : Valuation τ sig (Elt F)) :
    after ops V (main_call5_cst_0 : DevRef τ sig) = ((constant S_ .f32 0x47C35000#32) : (⟨S_, .f32⟩ : BufTy).Contents (Elt F)) := by
  have h := nullary_ssa (y := main_call5_cst_0) ops_wr 418 rfl (by decide) V
  generalize after ops V (main_call5_cst_0 : DevRef τ sig) = x0 at h ⊢
  exact h

theorem eq_call5_v2 (V : Valuation τ sig (Elt F)) :
    after ops V (main_call5_v2 : DevRef τ sig) =
      ((broadcastInDim S1x200 ![] bcast_S_S1x200) : (⟨S_, .f32⟩ : BufTy).Contents (Elt F) → (⟨S1x200, .f32⟩ : BufTy).Contents (Elt F))
        (after ops V (main_call5_cst_0 : DevRef τ sig)) := by
  have h := unary_ssa (x := main_call5_cst_0) (y := main_call5_v2) ops_wr 419 rfl (by decide) (by decide) V
  generalize after ops V (main_call5_v2 : DevRef τ sig) = x0 at h ⊢
  generalize after ops V (main_call5_cst_0 : DevRef τ sig) = x1 at h ⊢
  exact h

theorem eq_call5_v3 (V : Valuation τ sig (Elt F)) :
    after ops V (main_call5_v3 : DevRef τ sig) =
      (Host.divf : (⟨S1x200, .f32⟩ : BufTy).Contents (Elt F) → (⟨S1x200, .f32⟩ : BufTy).Contents (Elt F) → (⟨S1x200, .f32⟩ : BufTy).Contents (Elt F))
        (after ops V (main_call5_v1 : DevRef τ sig)) (after ops V (main_call5_v2 : DevRef τ sig)) := by
  have h := binary_ssa (a := main_call5_v1) (b := main_call5_v2) (y := main_call5_v3) ops_wr 420 rfl (by decide) (by decide) (by decide) V
  generalize after ops V (main_call5_v3 : DevRef τ sig) = x0 at h ⊢
  generalize after ops V (main_call5_v1 : DevRef τ sig) = x1 at h ⊢
  generalize after ops V (main_call5_v2 : DevRef τ sig) = x2 at h ⊢
  exact h

theorem eq_call5_v4 (V : Valuation τ sig (Elt F)) :
    after ops V (main_call5_v4 : DevRef τ sig) =
      ((broadcastInDim S100000x200 ![0, 1] bcast_S1x200_S100000x200_0_1) : (⟨S1x200, .f32⟩ : BufTy).Contents (Elt F) → (⟨S100000x200, .f32⟩ : BufTy).Contents (Elt F))
        (after ops V (main_call5_v3 : DevRef τ sig)) := by
  have h := unary_ssa (x := main_call5_v3) (y := main_call5_v4) ops_wr 421 rfl (by decide) (by decide) V
  generalize after ops V (main_call5_v4 : DevRef τ sig) = x0 at h ⊢
  generalize after ops V (main_call5_v3 : DevRef τ sig) = x1 at h ⊢
  exact h

theorem eq_call5_v5 (V : Valuation τ sig (Elt F)) :
    after ops V (main_call5_v5 : DevRef τ sig) =
      (subf : (⟨S100000x200, .f32⟩ : BufTy).Contents (Elt F) → (⟨S100000x200, .f32⟩ : BufTy).Contents (Elt F) → (⟨S100000x200, .f32⟩ : BufTy).Contents (Elt F))
        (after ops V (main_v301 : DevRef τ sig)) (after ops V (main_call5_v4 : DevRef τ sig)) := by
  have h := binary_ssa (a := main_v301) (b := main_call5_v4) (y := main_call5_v5) ops_wr 422 rfl (by decide) (by decide) (by decide) V
  generalize after ops V (main_call5_v5 : DevRef τ sig) = x0 at h ⊢
  generalize after ops V (main_v301 : DevRef τ sig) = x1 at h ⊢
  generalize after ops V (main_call5_v4 : DevRef τ sig) = x2 at h ⊢
  exact h

theorem eq_call5_v6 (V : Valuation τ sig (Elt F)) :
    after ops V (main_call5_v6 : DevRef τ sig) =
      (mulf : (⟨S100000x200, .f32⟩ : BufTy).Contents (Elt F) → (⟨S100000x200, .f32⟩ : BufTy).Contents (Elt F) → (⟨S100000x200, .f32⟩ : BufTy).Contents (Elt F))
        (after ops V (main_call5_v5 : DevRef τ sig)) (after ops V (main_call5_v5 : DevRef τ sig)) := by
  have h := binary_ssa (a := main_call5_v5) (b := main_call5_v5) (y := main_call5_v6) ops_wr 423 rfl (by decide) (by decide) (by decide) V
  generalize after ops V (main_call5_v6 : DevRef τ sig) = x0 at h ⊢
  generalize after ops V (main_call5_v5 : DevRef τ sig) = x1 at h ⊢
  exact h

theorem eq_call5_v7 (V : Valuation τ sig (Elt F)) :
    after ops V (main_call5_v7 : DevRef τ sig) =
      ((sitofp .f32) : (⟨S_, .i32⟩ : BufTy).Contents (Elt F) → (⟨S_, .f32⟩ : BufTy).Contents (Elt F))
        (after ops V (main_c_78 : DevRef τ sig)) := by
  have h := unary_ssa (x := main_c_78) (y := main_call5_v7) ops_wr 424 rfl (by decide) (by decide) V
  generalize after ops V (main_call5_v7 : DevRef τ sig) = x0 at h ⊢
  generalize after ops V (main_c_78 : DevRef τ sig) = x1 at h ⊢
  exact h

theorem eq_call5_cst_1 (V : Valuation τ sig (Elt F)) :
    after ops V (main_call5_cst_1 : DevRef τ sig) = ((constant S_ .f32 0x47C35000#32) : (⟨S_, .f32⟩ : BufTy).Contents (Elt F)) := by
  have h := nullary_ssa (y := main_call5_cst_1) ops_wr 425 rfl (by decide) V
  generalize after ops V (main_call5_cst_1 : DevRef τ sig) = x0 at h ⊢
  exact h

theorem eq_call5_v8 (V : Valuation τ sig (Elt F)) :
    after ops V (main_call5_v8 : DevRef τ sig) =
      (subf : (⟨S_, .f32⟩ : BufTy).Contents (Elt F) → (⟨S_, .f32⟩ : BufTy).Contents (Elt F) → (⟨S_, .f32⟩ : BufTy).Contents (Elt F))
        (after ops V (main_call5_cst_1 : DevRef τ sig)) (after ops V (main_call5_v7 : DevRef τ sig)) := by
  have h := binary_ssa (a := main_call5_cst_1) (b := main_call5_v7) (y := main_call5_v8) ops_wr 426 rfl (by decide) (by decide) (by decide) V
  generalize after ops V (main_call5_v8 : DevRef τ sig) = x0 at h ⊢
  generalize after ops V (main_call5_cst_1 : DevRef τ sig) = x1 at h ⊢
  generalize after ops V (main_call5_v7 : DevRef τ sig) = x2 at h ⊢
  exact h

theorem eq_call5_cst_2 (V : Valuation τ sig (Elt F)) :
    after ops V (main_call5_cst_2 : DevRef τ sig) = ((constant S_ .f32 0x00000000#32) : (⟨S_, .f32⟩ : BufTy).Contents (Elt F)) := by
  have h := nullary_ssa (y := main_call5_cst_2) ops_wr 427 rfl (by decide) V
  generalize after ops V (main_call5_cst_2 : DevRef τ sig) = x0 at h ⊢
  exact h

theorem eq_call5_v9 (V : Valuation τ sig (Elt F)) :
    after ops V (main_call5_v9 : DevRef τ sig) =
      ((fun x v => Host.reduceAdd x v reducesTo_S100000x200_S200_d0 h_S_) : (⟨S100000x200, .f32⟩ : BufTy).Contents (Elt F) → (⟨S_, .f32⟩ : BufTy).Contents (Elt F) → (⟨S200, .f32⟩ : BufTy).Contents (Elt F))
        (after ops V (main_call5_v6 : DevRef τ sig)) (after ops V (main_call5_cst_2 : DevRef τ sig)) := by
  have h := binary_ssa (a := main_call5_v6) (b := main_call5_cst_2) (y := main_call5_v9) ops_wr 428 rfl (by decide) (by decide) (by decide) V
  generalize after ops V (main_call5_v9 : DevRef τ sig) = x0 at h ⊢
  generalize after ops V (main_call5_v6 : DevRef τ sig) = x1 at h ⊢
  generalize after ops V (main_call5_cst_2 : DevRef τ sig) = x2 at h ⊢
  exact h

theorem eq_call5_v10 (V : Valuation τ sig (Elt F)) :
    after ops V (main_call5_v10 : DevRef τ sig) =
      ((broadcastInDim S200 ![] bcast_S_S200) : (⟨S_, .f32⟩ : BufTy).Contents (Elt F) → (⟨S200, .f32⟩ : BufTy).Contents (Elt F))
        (after ops V (main_call5_v8 : DevRef τ sig)) := by
  have h := unary_ssa (x := main_call5_v8) (y := main_call5_v10) ops_wr 429 rfl (by decide) (by decide) V
  generalize after ops V (main_call5_v10 : DevRef τ sig) = x0 at h ⊢
  generalize after ops V (main_call5_v8 : DevRef τ sig) = x1 at h ⊢
  exact h

theorem eq_call5_v11 (V : Valuation τ sig (Elt F)) :
    after ops V (main_call5_v11 : DevRef τ sig) =
      (Host.divf : (⟨S200, .f32⟩ : BufTy).Contents (Elt F) → (⟨S200, .f32⟩ : BufTy).Contents (Elt F) → (⟨S200, .f32⟩ : BufTy).Contents (Elt F))
        (after ops V (main_call5_v9 : DevRef τ sig)) (after ops V (main_call5_v10 : DevRef τ sig)) := by
  have h := binary_ssa (a := main_call5_v9) (b := main_call5_v10) (y := main_call5_v11) ops_wr 430 rfl (by decide) (by decide) (by decide) V
  generalize after ops V (main_call5_v11 : DevRef τ sig) = x0 at h ⊢
  generalize after ops V (main_call5_v9 : DevRef τ sig) = x1 at h ⊢
  generalize after ops V (main_call5_v10 : DevRef τ sig) = x2 at h ⊢
  exact h

theorem eq_call5_cst_3 (V : Valuation τ sig (Elt F)) :
    after ops V (main_call5_cst_3 : DevRef τ sig) = ((constant S_ .f32 0x00000000#32) : (⟨S_, .f32⟩ : BufTy).Contents (Elt F)) := by
  have h := nullary_ssa (y := main_call5_cst_3) ops_wr 431 rfl (by decide) V
  generalize after ops V (main_call5_cst_3 : DevRef τ sig) = x0 at h ⊢
  exact h

theorem eq_call5_v12 (V : Valuation τ sig (Elt F)) :
    after ops V (main_call5_v12 : DevRef τ sig) =
      ((cmpf .ogt) : (⟨S_, .f32⟩ : BufTy).Contents (Elt F) → (⟨S_, .f32⟩ : BufTy).Contents (Elt F) → (⟨S_, .i1⟩ : BufTy).Contents (Elt F))
        (after ops V (main_call5_v8 : DevRef τ sig)) (after ops V (main_call5_cst_3 : DevRef τ sig)) := by
  have h := binary_ssa (a := main_call5_v8) (b := main_call5_cst_3) (y := main_call5_v12) ops_wr 432 rfl (by decide) (by decide) (by decide) V
  generalize after ops V (main_call5_v12 : DevRef τ sig) = x0 at h ⊢
  generalize after ops V (main_call5_v8 : DevRef τ sig) = x1 at h ⊢
  generalize after ops V (main_call5_cst_3 : DevRef τ sig) = x2 at h ⊢
  exact h

theorem eq_call5_cst_4 (V : Valuation τ sig (Elt F)) :
    after ops V (main_call5_cst_4 : DevRef τ sig) = ((constant S_ .f32 0x7FC00000#32) : (⟨S_, .f32⟩ : BufTy).Contents (Elt F)) := by
  have h := nullary_ssa (y := main_call5_cst_4) ops_wr 433 rfl (by decide) V
  generalize after ops V (main_call5_cst_4 : DevRef τ sig) = x0 at h ⊢
  exact h

theorem eq_call5_call0_v0 (V : Valuation τ sig (Elt F)) :
    after ops V (main_call5_call0_v0 : DevRef τ sig) =
      (id : (⟨S_, .f32⟩ : BufTy).Contents (Elt F) → (⟨S_, .f32⟩ : BufTy).Contents (Elt F))
        (after ops V (main_call5_cst_4 : DevRef τ sig)) := by
  have h := unary_ssa (x := main_call5_cst_4) (y := main_call5_call0_v0) ops_wr 434 rfl (by decide) (by decide) V
  generalize after ops V (main_call5_call0_v0 : DevRef τ sig) = x0 at h ⊢
  generalize after ops V (main_call5_cst_4 : DevRef τ sig) = x1 at h ⊢
  exact h

theorem eq_call5_call0_v1 (V : Valuation τ sig (Elt F)) :
    after ops V (main_call5_call0_v1 : DevRef τ sig) =
      ((broadcastInDim S200 ![] bcast_S_S200) : (⟨S_, .f32⟩ : BufTy).Contents (Elt F) → (⟨S200, .f32⟩ : BufTy).Contents (Elt F))
        (after ops V (main_call5_call0_v0 : DevRef τ sig)) := by
  have h := unary_ssa (x := main_call5_call0_v0) (y := main_call5_call0_v1) ops_wr 435 rfl (by decide) (by decide) V
  generalize after ops V (main_call5_call0_v1 : DevRef τ sig) = x0 at h ⊢
  generalize after ops V (main_call5_call0_v0 : DevRef τ sig) = x1 at h ⊢
  exact h

theorem eq_v305 (V : Valuation τ sig (Elt F)) :
    after ops V (main_v305 : DevRef τ sig) =
      ((fun p a b => select (broadcastInDim S200 ![] bcast_S_S200 p) a b) : (⟨S_, .i1⟩ : BufTy).Contents (Elt F) → (⟨S200, .f32⟩ : BufTy).Contents (Elt F) → (⟨S200, .f32⟩ : BufTy).Contents (Elt F) → (⟨S200, .f32⟩ : BufTy).Contents (Elt F))
        (after ops V (main_call5_v12 : DevRef τ sig)) (after ops V (main_call5_v11 : DevRef τ sig)) (after ops V (main_call5_call0_v1 : DevRef τ sig)) := by
  have h := ternary_ssa (c := main_call5_v12) (a := main_call5_v11) (b := main_call5_call0_v1) (y := main_v305) ops_wr 436 rfl (by decide) (by decide) (by decide) (by decide) V
  generalize after ops V (main_v305 : DevRef τ sig) = x0 at h ⊢
  generalize after ops V (main_call5_v12 : DevRef τ sig) = x1 at h ⊢
  generalize after ops V (main_call5_v11 : DevRef τ sig) = x2 at h ⊢
  generalize after ops V (main_call5_call0_v1 : DevRef τ sig) = x3 at h ⊢
  exact h

theorem eq_v306 (V : Valuation τ sig (Elt F)) :
    after ops V (main_v306 : DevRef τ sig) =
      (broadcastInDim S1x200 ![1] bcast_S200_S1x200_1 : (⟨S200, .f32⟩ : BufTy).Contents (Elt F) → (⟨S1x200, .f32⟩ : BufTy).Contents (Elt F))
        (after ops V (main_v304 : DevRef τ sig)) :=
  unary_ssa (x := main_v304) (y := main_v306) ops_wr 437 rfl (by decide) (by decide) V

theorem eq_v307 (V : Valuation τ sig (Elt F)) :
    after ops V (main_v307 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v306 : DevRef τ sig)) :=
  unary_ssa (x := main_v306) (y := main_v307) ops_wr 438 rfl (by decide) (by decide) V

theorem eq_v308 (V : Valuation τ sig (Elt F)) :
    after ops V (main_v308 : DevRef τ sig) =
      (subf : (⟨S100000x200, .f32⟩ : BufTy).Contents (Elt F) → (⟨S100000x200, .f32⟩ : BufTy).Contents (Elt F) → (⟨S100000x200, .f32⟩ : BufTy).Contents (Elt F))
        (after ops V (main_v301 : DevRef τ sig)) (after ops V (main_v307 : DevRef τ sig)) :=
  binary_ssa (a := main_v301) (b := main_v307) (y := main_v308) ops_wr 439 rfl (by decide) (by decide) (by decide) V

theorem eq_cst_79 (V : Valuation τ sig (Elt F)) :
    after ops V (main_cst_79 : DevRef τ sig) = (constant S_ .f32 0x3727C5AC#32) :=
  nullary_ssa (y := main_cst_79) ops_wr 440 rfl (by decide) V

theorem eq_v309 (V : Valuation τ sig (Elt F)) :
    after ops V (main_v309 : DevRef τ sig) =
      (broadcastInDim S200 ![] bcast_S_S200 : (⟨S_, .f32⟩ : BufTy).Contents (Elt F) → (⟨S200, .f32⟩ : BufTy).Contents (Elt F))
        (after ops V (main_cst_79 : DevRef τ sig)) :=
  unary_ssa (x := main_cst_79) (y := main_v309) ops_wr 441 rfl (by decide) (by decide) V

theorem eq_v310 (V : Valuation τ sig (Elt F)) :
    after ops V (main_v310 : DevRef τ sig) =
      (addf : (⟨S200, .f32⟩ : BufTy).Contents (Elt F) → (⟨S200, .f32⟩ : BufTy).Contents (Elt F) → (⟨S200, .f32⟩ : BufTy).Contents (Elt F))
        (after ops V (main_v305 : DevRef τ sig)) (after ops V (main_v309 : DevRef τ sig)) :=
  binary_ssa (a := main_v305) (b := main_v309) (y := main_v310) ops_wr 442 rfl (by decide) (by decide) (by decide) V

theorem eq_v311 (V : Valuation τ sig (Elt F)) :
    after ops V (main_v311 : DevRef τ sig) =
      (Host.rsqrt : (⟨S200, .f32⟩ : BufTy).Contents (Elt F) → (⟨S200, .f32⟩ : BufTy).Contents (Elt F))
        (after ops V (main_v310 : DevRef τ sig)) :=
  unary_ssa (x := main_v310) (y := main_v311) ops_wr 443 rfl (by decide) (by decide) V

theorem eq_v312 (V : Valuation τ sig (Elt F)) :
    after ops V (main_v312 : DevRef τ sig) =
      (broadcastInDim S1x200 ![1] bcast_S200_S1x200_1 : (⟨S200, .f32⟩ : BufTy).Contents (Elt F) → (⟨S1x200, .f32⟩ : BufTy).Contents (Elt F))
        (after ops V (main_v311 : DevRef τ sig)) :=
  unary_ssa (x := main_v311) (y := main_v312) ops_wr 444 rfl (by decide) (by decide) V

theorem eq_v313 (V : Valuation τ sig (Elt F)) :
    after ops V (main_v313 : DevRef τ sig) =
      (broadcastInDim S100000x200 ![0, 1] bcast_S1x200_S100000x200_0_1 : (⟨S1x200, .f32⟩ : BufTy).Contents (Elt F) → (⟨S100000x200, .f32⟩ : BufTy).Contents (Elt F))
        (after ops V (main_v312 : DevRef τ sig)) :=
  unary_ssa (x := main_v312) (y := main_v313) ops_wr 445 rfl (by decide) (by decide) V

theorem eq_v314 (V : Valuation τ sig (Elt F)) :
    after ops V (main_v314 : DevRef τ sig) =
      (mulf : (⟨S100000x200, .f32⟩ : BufTy).Contents (Elt F) → (⟨S100000x200, .f32⟩ : BufTy).Contents (Elt F) → (⟨S100000x200, .f32⟩ : BufTy).Contents (Elt F))
        (after ops V (main_v308 : DevRef τ sig)) (after ops V (main_v313 : DevRef τ sig)) :=
  binary_ssa (a := main_v308) (b := main_v313) (y := main_v314) ops_wr 446 rfl (by decide) (by decide) (by decide) V

theorem eq_v315 (V : Valuation τ sig (Elt F)) :
    after ops V (main_v315 : DevRef τ sig) =
      (Host.tanh : (⟨S100000x200, .f32⟩ : BufTy).Contents (Elt F) → (⟨S100000x200, .f32⟩ : BufTy).Contents (Elt F))
        (after ops V (main_v314 : DevRef τ sig)) :=
  unary_ssa (x := main_v314) (y := main_v315) ops_wr 447 rfl (by decide) (by decide) V

theorem eq_v316 (V : Valuation τ sig (Elt F)) :
    after ops V (main_v316 : DevRef τ sig) =
      ((fun l r => Host.dotGeneral dot_S401x200_S200x200_S401x200_1_0_0_1_n_n none l r) : (⟨S401x200, .f32⟩ : BufTy).Contents (Elt F) → (⟨S200x200, .f32⟩ : BufTy).Contents (Elt F) → (⟨S401x200, .f32⟩ : BufTy).Contents (Elt F))
        (after ops V (main_v160 : DevRef τ sig)) (after ops V (main_arg19 : DevRef τ sig)) :=
  binary_ssa (a := main_v160) (b := main_arg19) (y := main_v316) ops_wr 448 rfl (by decide) (by decide) (by decide) V

theorem eq_v317 (V : Valuation τ sig (Elt F)) :
    after ops V (main_v317 : DevRef τ sig) =
      ((extractStridedSlice S400x200 ![0, 0] · slices_S401x200_S400x200_0_0) : (⟨S401x200, .f32⟩ : BufTy).Contents (Elt F) → (⟨S400x200, .f32⟩ : BufTy).Contents (Elt F))
        (after ops V (main_v316 : DevRef τ sig)) :=
  unary_ssa (x := main_v316) (y := main_v317) ops_wr 449 rfl (by decide) (by decide) V

theorem eq_c_80 (V : Valuation τ sig (Elt F)) :
    after ops V (main_c_80 : DevRef τ sig) = (constantI S_ 32 0#32) :=
  nullary_ssa (y := main_c_80) ops_wr 450 rfl (by decide) V

theorem eq_v318 (V : Valuation τ sig (Elt F)) :
    after ops V (main_v318 : DevRef τ sig) =
      (broadcastInDim S2048 ![] bcast_S_S2048 : (⟨S_, .i32⟩ : BufTy).Contents (Elt F) → (⟨S2048, .i32⟩ : BufTy).Contents (Elt F))
        (after ops V (main_c_80 : DevRef τ sig)) :=
  unary_ssa (x := main_c_80) (y := main_v318) ops_wr 451 rfl (by decide) (by decide) V

theorem eq_v319 (V : Valuation τ sig (Elt F)) :
    after ops V (main_v319 : DevRef τ sig) =
      (cmpi .slt : (⟨S2048, .i32⟩ : BufTy).Contents (Elt F) → (⟨S2048, .i32⟩ : BufTy).Contents (Elt F) → (⟨S2048, .i1⟩ : BufTy).Contents (Elt F))
        (after ops V (main_arg0 : DevRef τ sig)) (after ops V (main_v318 : DevRef τ sig)) :=
  binary_ssa (a := main_arg0) (b := main_v318) (y := main_v319) ops_wr 452 rfl (by decide) (by decide) (by decide) V

theorem eq_c_81 (V : Valuation τ sig (Elt F)) :
    after ops V (main_c_81 : DevRef τ sig) = (constantI S_ 32 100000#32) :=
  nullary_ssa (y := main_c_81) ops_wr 453 rfl (by decide) V

theorem eq_v320 (V : Valuation τ sig (Elt F)) :
    after ops V (main_v320 : DevRef τ sig) =
      (broadcastInDim S2048 ![] bcast_S_S2048 : (⟨S_, .i32⟩ : BufTy).Contents (Elt F) → (⟨S2048, .i32⟩ : BufTy).Contents (Elt F))
        (after ops V (main_c_81 : DevRef τ sig)) :=
  unary_ssa (x := main_c_81) (y := main_v320) ops_wr 454 rfl (by decide) (by decide) V

theorem eq_v321 (V : Valuation τ sig (Elt F)) :
    after ops V (main_v321 : DevRef τ sig) =
      (addi : (⟨S2048, .i32⟩ : BufTy).Contents (Elt F) → (⟨S2048, .i32⟩ : BufTy).Contents (Elt F) → (⟨S2048, .i32⟩ : BufTy).Contents (Elt F))
        (after ops V (main_arg0 : DevRef τ sig)) (after ops V (main_v320 : DevRef τ sig)) :=
  binary_ssa (a := main_arg0) (b := main_v320) (y := main_v321) ops_wr 455 rfl (by decide) (by decide) (by decide) V

theorem eq_v322 (V : Valuation τ sig (Elt F)) :
    after ops V (main_v322 : DevRef τ sig) =
      (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
        (after ops V (main_v319 : DevRef τ sig)) (after ops V (main_v321 : DevRef τ sig)) (after ops V (main_arg0 : DevRef τ sig)) :=
  ternary_ssa (c := main_v319) (a := main_v321) (b := main_arg0) (y := main_v322) ops_wr 456 rfl (by decide) (by decide) (by decide) (by decide) V

theorem eq_v323 (V : Valuation τ sig (Elt F)) :
    after ops V (main_v323 : DevRef τ sig) =
      (broadcastInDim S2048x1 ![0] bcast_S2048_S2048x1_0 : (⟨S2048, .i32⟩ : BufTy).Contents (Elt F) → (⟨S2048x1, .i32⟩ : BufTy).Contents (Elt F))
        (after ops V (main_v322 : DevRef τ sig)) :=
  unary_ssa (x := main_v322) (y := main_v323) ops_wr 457 rfl (by decide) (by decide) V

theorem eq_v324 (V : Valuation τ sig (Elt F)) :
    after ops V (main_v324 : DevRef τ sig) =
      ((fun x i => Host.gather gather_S100000x200_S2048x1_S2048x200_1_0_n_n_0_1_1200 x i) : (⟨S100000x200, .f32⟩ : BufTy).Contents (Elt F) → (⟨S2048x1, .i32⟩ : BufTy).Contents (Elt F) → (⟨S2048x200, .f32⟩ : BufTy).Contents (Elt F))
        (after ops V (main_v315 : DevRef τ sig)) (after ops V (main_v323 : DevRef τ sig)) :=
  binary_ssa (a := main_v315) (b := main_v323) (y := main_v324) ops_wr 458 rfl (by decide) (by decide) (by decide) V

theorem eq_c_82 (V : Valuation τ sig (Elt F)) :
    after ops V (main_c_82 : DevRef τ sig) = (constantI S_ 32 0#32) :=
  nullary_ssa (y := main_c_82) ops_wr 459 rfl (by decide) V

theorem eq_v325 (V : Valuation τ sig (Elt F)) :
    after ops V (main_v325 : DevRef τ sig) =
      (broadcastInDim S2048 ![] bcast_S_S2048 : (⟨S_, .i32⟩ : BufTy).Contents (Elt F) → (⟨S2048, .i32⟩ : BufTy).Contents (Elt F))
        (after ops V (main_c_82 : DevRef τ sig)) :=
  unary_ssa (x := main_c_82) (y := main_v325) ops_wr 460 rfl (by decide) (by decide) V

theorem eq_v326 (V : Valuation τ sig (Elt F)) :
    after ops V (main_v326 : DevRef τ sig) =
      (cmpi .slt : (⟨S2048, .i32⟩ : BufTy).Contents (Elt F) → (⟨S2048, .i32⟩ : BufTy).Contents (Elt F) → (⟨S2048, .i1⟩ : BufTy).Contents (Elt F))
        (after ops V (main_arg1 : DevRef τ sig)) (after ops V (main_v325 : DevRef τ sig)) :=
  binary_ssa (a := main_arg1) (b := main_v325) (y := main_v326) ops_wr 461 rfl (by decide) (by decide) (by decide) V

theorem eq_c_83 (V : Valuation τ sig (Elt F)) :
    after ops V (main_c_83 : DevRef τ sig) = (constantI S_ 32 400#32) :=
  nullary_ssa (y := main_c_83) ops_wr 462 rfl (by decide) V

theorem eq_v327 (V : Valuation τ sig (Elt F)) :
    after ops V (main_v327 : DevRef τ sig) =
      (broadcastInDim S2048 ![] bcast_S_S2048 : (⟨S_, .i32⟩ : BufTy).Contents (Elt F) → (⟨S2048, .i32⟩ : BufTy).Contents (Elt F))
        (after ops V (main_c_83 : DevRef τ sig)) :=
  unary_ssa (x := main_c_83) (y := main_v327) ops_wr 463 rfl (by decide) (by decide) V

theorem eq_v328 (V : Valuation τ sig (Elt F)) :
    after ops V (main_v328 : DevRef τ sig) =
      (addi : (⟨S2048, .i32⟩ : BufTy).Contents (Elt F) → (⟨S2048, .i32⟩ : BufTy).Contents (Elt F) → (⟨S2048, .i32⟩ : BufTy).Contents (Elt F))
        (after ops V (main_arg1 : DevRef τ sig)) (after ops V (main_v327 : DevRef τ sig)) :=
  binary_ssa (a := main_arg1) (b := main_v327) (y := main_v328) ops_wr 464 rfl (by decide) (by decide) (by decide) V

theorem eq_v329 (V : Valuation τ sig (Elt F)) :
    after ops V (main_v329 : DevRef τ sig) =
      (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
        (after ops V (main_v326 : DevRef τ sig)) (after ops V (main_v328 : DevRef τ sig)) (after ops V (main_arg1 : DevRef τ sig)) :=
  ternary_ssa (c := main_v326) (a := main_v328) (b := main_arg1) (y := main_v329) ops_wr 465 rfl (by decide) (by decide) (by decide) (by decide) V

theorem eq_v330 (V : Valuation τ sig (Elt F)) :
    after ops V (main_v330 : DevRef τ sig) =
      (broadcastInDim S2048x1 ![0] bcast_S2048_S2048x1_0 : (⟨S2048, .i32⟩ : BufTy).Contents (Elt F) → (⟨S2048x1, .i32⟩ : BufTy).Contents (Elt F))
        (after ops V (main_v329 : DevRef τ sig)) :=
  unary_ssa (x := main_v329) (y := main_v330) ops_wr 466 rfl (by decide) (by decide) V

theorem eq_v331 (V : Valuation τ sig (Elt F)) :
    after ops V (main_v331 : DevRef τ sig) =
      ((fun x i => Host.gather gather_S400x200_S2048x1_S2048x200_1_0_n_n_0_1_1200 x i) : (⟨S400x200, .f32⟩ : BufTy).Contents (Elt F) → (⟨S2048x1, .i32⟩ : BufTy).Contents (Elt F) → (⟨S2048x200, .f32⟩ : BufTy).Contents (Elt F))
        (after ops V (main_v317 : DevRef τ sig)) (after ops V (main_v330 : DevRef τ sig)) :=
  binary_ssa (a := main_v317) (b := main_v330) (y := main_v331) ops_wr 467 rfl (by decide) (by decide) (by decide) V

end Cert.ReferenceIdeal.HandRun

end
-- ==== Proof.RefEqs.lean ====
/- The per-operation equations of the reference program's final contents, all seven windows. -/
import proofs.«103573_j30391188587216_1_alg».proof.Proof.RefEqs0
import proofs.«103573_j30391188587216_1_alg».proof.Proof.RefEqs1
import proofs.«103573_j30391188587216_1_alg».proof.Proof.RefEqs2
import proofs.«103573_j30391188587216_1_alg».proof.Proof.RefEqs3
import proofs.«103573_j30391188587216_1_alg».proof.Proof.RefEqs4
import proofs.«103573_j30391188587216_1_alg».proof.Proof.RefEqs5
import proofs.«103573_j30391188587216_1_alg».proof.Proof.RefEqs6
-- ==== Proof.GlueBridge1.lean ====
/-
  The irregular steps agree: every host operation of the kernel program has a twin among the reference's operations —
  the same function of operands that are themselves twins — so their final contents are equal as soon as the
  operands' are.  The table pairs the operations in program order; the equalities of the dense results (the outputs
  of the kernel regions against the reference's dense operations) enter as hypotheses `hs_…`, each lemma taking
  exactly those it depends on.  The two programs name their dimension records and shapes separately; they are the
  same records, which the closing `rfl` sees.
-/
import proofs.«103573_j30391188587216_1_alg».proof.Proof.BridgeBase
import proofs.«103573_j30391188587216_1_alg».proof.Proof.KernelEqsAll
import proofs.«103573_j30391188587216_1_alg».proof.Proof.RefEqs

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

/-! The argument arrays agree (`BridgeBase`), restated with the same spelling of the two final contents as every equation
    of this table, so that they rewrite its goals. -/

/-- Argument 0 is the same array in both final contents, stated over the two programs' final contents as the equations below write them. -/
theorem bk_arg0 :
    Cert.KernelIdeal.HandRun.K m ρ c Cert.KernelIdeal.main_arg0 = after (Cert.ReferenceIdeal.HandRun.ops (F := Ideal)) (launchContents m' c) (Cert.ReferenceIdeal.main_arg0 : DevRef Cert.ReferenceIdeal.τ Cert.ReferenceIdeal.sig) :=
  br_arg0 m ρ m' hagree c

/-- Argument 1 is the same array in both final contents, stated over the two programs' final contents as the equations below write them. -/
theorem bk_arg1 :
    Cert.KernelIdeal.HandRun.K m ρ c Cert.KernelIdeal.main_arg1 = after (Cert.ReferenceIdeal.HandRun.ops (F := Ideal)) (launchContents m' c) (Cert.ReferenceIdeal.main_arg1 : DevRef Cert.ReferenceIdeal.τ Cert.ReferenceIdeal.sig) :=
  br_arg1 m ρ m' hagree c

/-- Argument 2 is the same array in both final contents, stated over the two programs' final contents as the equations below write them. -/
theorem bk_arg2 :
    Cert.KernelIdeal.HandRun.K m ρ c Cert.KernelIdeal.main_arg2 = after (Cert.ReferenceIdeal.HandRun.ops (F := Ideal)) (launchContents m' c) (Cert.ReferenceIdeal.main_arg2 : DevRef Cert.ReferenceIdeal.τ Cert.ReferenceIdeal.sig) :=
  br_arg2 m ρ m' hagree c

/-- Argument 3 is the same array in both final contents, stated over the two programs' final contents as the equations below write them. -/
theorem bk_arg3 :
    Cert.KernelIdeal.HandRun.K m ρ c Cert.KernelIdeal.main_arg3 = after (Cert.ReferenceIdeal.HandRun.ops (F := Ideal)) (launchContents m' c) (Cert.ReferenceIdeal.main_arg3 : DevRef Cert.ReferenceIdeal.τ Cert.ReferenceIdeal.sig) :=
  br_arg3 m ρ m' hagree c

/-- Argument 4 is the same array in both final contents, stated over the two programs' final contents as the equations below write them. -/
theorem bk_arg4 :
    Cert.KernelIdeal.HandRun.K m ρ c Cert.KernelIdeal.main_arg4 = after (Cert.ReferenceIdeal.HandRun.ops (F := Ideal)) (launchContents m' c) (Cert.ReferenceIdeal.main_arg4 : DevRef Cert.ReferenceIdeal.τ Cert.ReferenceIdeal.sig) :=
  br_arg4 m ρ m' hagree c

/-- Argument 5 is the same array in both final contents, stated over the two programs' final contents as the equations below write them. -/
theorem bk_arg5 :
    Cert.KernelIdeal.HandRun.K m ρ c Cert.KernelIdeal.main_arg5 = after (Cert.ReferenceIdeal.HandRun.ops (F := Ideal)) (launchContents m' c) (Cert.ReferenceIdeal.main_arg5 : DevRef Cert.ReferenceIdeal.τ Cert.ReferenceIdeal.sig) :=
  br_arg5 m ρ m' hagree c

/-- Argument 6 is the same array in both final contents, stated over the two programs' final contents as the equations below write them. -/
theorem bk_arg6 :
    Cert.KernelIdeal.HandRun.K m ρ c Cert.KernelIdeal.main_arg6 = after (Cert.ReferenceIdeal.HandRun.ops (F := Ideal)) (launchContents m' c) (Cert.ReferenceIdeal.main_arg6 : DevRef Cert.ReferenceIdeal.τ Cert.ReferenceIdeal.sig) :=
  br_arg6 m ρ m' hagree c

/-- Argument 7 is the same array in both final contents, stated over the two programs' final contents as the equations below write them. -/
theorem bk_arg7 :
    Cert.KernelIdeal.HandRun.K m ρ c Cert.KernelIdeal.main_arg7 = after (Cert.ReferenceIdeal.HandRun.ops (F := Ideal)) (launchContents m' c) (Cert.ReferenceIdeal.main_arg7 : DevRef Cert.ReferenceIdeal.τ Cert.ReferenceIdeal.sig) :=
  br_arg7 m ρ m' hagree c

/-- Argument 8 is the same array in both final contents, stated over the two programs' final contents as the equations below write them. -/
theorem bk_arg8 :
    Cert.KernelIdeal.HandRun.K m ρ c Cert.KernelIdeal.main_arg8 = after (Cert.ReferenceIdeal.HandRun.ops (F := Ideal)) (launchContents m' c) (Cert.ReferenceIdeal.main_arg8 : DevRef Cert.ReferenceIdeal.τ Cert.ReferenceIdeal.sig) :=
  br_arg8 m ρ m' hagree c

/-- Argument 9 is the same array in both final contents, stated over the two programs' final contents as the equations below write them. -/
theorem bk_arg9 :
    Cert.KernelIdeal.HandRun.K m ρ c Cert.KernelIdeal.main_arg9 = after (Cert.ReferenceIdeal.HandRun.ops (F := Ideal)) (launchContents m' c) (Cert.ReferenceIdeal.main_arg9 : DevRef Cert.ReferenceIdeal.τ Cert.ReferenceIdeal.sig) :=
  br_arg9 m ρ m' hagree c

/-- Argument 10 is the same array in both final contents, stated over the two programs' final contents as the equations below write them. -/
theorem bk_arg10 :
    Cert.KernelIdeal.HandRun.K m ρ c Cert.KernelIdeal.main_arg10 = after (Cert.ReferenceIdeal.HandRun.ops (F := Ideal)) (launchContents m' c) (Cert.ReferenceIdeal.main_arg10 : DevRef Cert.ReferenceIdeal.τ Cert.ReferenceIdeal.sig) :=
  br_arg10 m ρ m' hagree c

/-- Argument 11 is the same array in both final contents, stated over the two programs' final contents as the equations below write them. -/
theorem bk_arg11 :
    Cert.KernelIdeal.HandRun.K m ρ c Cert.KernelIdeal.main_arg11 = after (Cert.ReferenceIdeal.HandRun.ops (F := Ideal)) (launchContents m' c) (Cert.ReferenceIdeal.main_arg11 : DevRef Cert.ReferenceIdeal.τ Cert.ReferenceIdeal.sig) :=
  br_arg11 m ρ m' hagree c

/-- Argument 12 is the same array in both final contents, stated over the two programs' final contents as the equations below write them. -/
theorem bk_arg12 :
    Cert.KernelIdeal.HandRun.K m ρ c Cert.KernelIdeal.main_arg12 = after (Cert.ReferenceIdeal.HandRun.ops (F := Ideal)) (launchContents m' c) (Cert.ReferenceIdeal.main_arg12 : DevRef Cert.ReferenceIdeal.τ Cert.ReferenceIdeal.sig) :=
  br_arg12 m ρ m' hagree c

/-- Argument 13 is the same array in both final contents, stated over the two programs' final contents as the equations below write them. -/
theorem bk_arg13 :
    Cert.KernelIdeal.HandRun.K m ρ c Cert.KernelIdeal.main_arg13 = after (Cert.ReferenceIdeal.HandRun.ops (F := Ideal)) (launchContents m' c) (Cert.ReferenceIdeal.main_arg13 : DevRef Cert.ReferenceIdeal.τ Cert.ReferenceIdeal.sig) :=
  br_arg13 m ρ m' hagree c

/-- Argument 14 is the same array in both final contents, stated over the two programs' final contents as the equations below write them. -/
theorem bk_arg14 :
    Cert.KernelIdeal.HandRun.K m ρ c Cert.KernelIdeal.main_arg14 = after (Cert.ReferenceIdeal.HandRun.ops (F := Ideal)) (launchContents m' c) (Cert.ReferenceIdeal.main_arg14 : DevRef Cert.ReferenceIdeal.τ Cert.ReferenceIdeal.sig) :=
  br_arg14 m ρ m' hagree c

/-- Argument 15 is the same array in both final contents, stated over the two programs' final contents as the equations below write them. -/
theorem bk_arg15 :
    Cert.KernelIdeal.HandRun.K m ρ c Cert.KernelIdeal.main_arg15 = after (Cert.ReferenceIdeal.HandRun.ops (F := Ideal)) (launchContents m' c) (Cert.ReferenceIdeal.main_arg15 : DevRef Cert.ReferenceIdeal.τ Cert.ReferenceIdeal.sig) :=
  br_arg15 m ρ m' hagree c

/-- Argument 16 is the same array in both final contents, stated over the two programs' final contents as the equations below write them. -/
theorem bk_arg16 :
    Cert.KernelIdeal.HandRun.K m ρ c Cert.KernelIdeal.main_arg16 = after (Cert.ReferenceIdeal.HandRun.ops (F := Ideal)) (launchContents m' c) (Cert.ReferenceIdeal.main_arg16 : DevRef Cert.ReferenceIdeal.τ Cert.ReferenceIdeal.sig) :=
  br_arg16 m ρ m' hagree c

/-- Argument 17 is the same array in both final contents, stated over the two programs' final contents as the equations below write them. -/
theorem bk_arg17 :
    Cert.KernelIdeal.HandRun.K m ρ c Cert.KernelIdeal.main_arg17 = after (Cert.ReferenceIdeal.HandRun.ops (F := Ideal)) (launchContents m' c) (Cert.ReferenceIdeal.main_arg17 : DevRef Cert.ReferenceIdeal.τ Cert.ReferenceIdeal.sig) :=
  br_arg17 m ρ m' hagree c

/-- Argument 18 is the same array in both final contents, stated over the two programs' final contents as the equations below write them. -/
theorem bk_arg18 :
    Cert.KernelIdeal.HandRun.K m ρ c Cert.KernelIdeal.main_arg18 = after (Cert.ReferenceIdeal.HandRun.ops (F := Ideal)) (launchContents m' c) (Cert.ReferenceIdeal.main_arg18 : DevRef Cert.ReferenceIdeal.τ Cert.ReferenceIdeal.sig) :=
  br_arg18 m ρ m' hagree c

/-- Argument 19 is the same array in both final contents, stated over the two programs' final contents as the equations below write them. -/
theorem bk_arg19 :
    Cert.KernelIdeal.HandRun.K m ρ c Cert.KernelIdeal.main_arg19 = after (Cert.ReferenceIdeal.HandRun.ops (F := Ideal)) (launchContents m' c) (Cert.ReferenceIdeal.main_arg19 : DevRef Cert.ReferenceIdeal.τ Cert.ReferenceIdeal.sig) :=
  br_arg19 m ρ m' hagree c

/-- Argument 20 is the same array in both final contents, stated over the two programs' final contents as the equations below write them. -/
theorem bk_arg20 :
    Cert.KernelIdeal.HandRun.K m ρ c Cert.KernelIdeal.main_arg20 = after (Cert.ReferenceIdeal.HandRun.ops (F := Ideal)) (launchContents m' c) (Cert.ReferenceIdeal.main_arg20 : DevRef Cert.ReferenceIdeal.τ Cert.ReferenceIdeal.sig) :=
  br_arg20 m ρ m' hagree c

/-- Argument 21 is the same array in both final contents, stated over the two programs' final contents as the equations below write them. -/
theorem bk_arg21 :
    Cert.KernelIdeal.HandRun.K m ρ c Cert.KernelIdeal.main_arg21 = after (Cert.ReferenceIdeal.HandRun.ops (F := Ideal)) (launchContents m' c) (Cert.ReferenceIdeal.main_arg21 : DevRef Cert.ReferenceIdeal.τ Cert.ReferenceIdeal.sig) :=
  br_arg21 m ρ m' hagree c

theorem br_v2 :
    Cert.KernelIdeal.HandRun.K m ρ c Cert.KernelIdeal.main_v2 = after (Cert.ReferenceIdeal.HandRun.ops (F := Ideal)) (launchContents m' c) (Cert.ReferenceIdeal.main_v2 : DevRef Cert.ReferenceIdeal.τ Cert.ReferenceIdeal.sig) := by
  rw [Cert.KernelIdeal.HandRun.eq_v2 m ρ c,
    Cert.ReferenceIdeal.HandRun.eq_v2 (launchContents m' c),
    (bk_arg9 m ρ m' hagree c),
    (bk_arg14 m ρ m' hagree c)]
  all_goals rfl

theorem br_v4 :
    Cert.KernelIdeal.HandRun.K m ρ c Cert.KernelIdeal.main_v4 = after (Cert.ReferenceIdeal.HandRun.ops (F := Ideal)) (launchContents m' c) (Cert.ReferenceIdeal.main_v5 : DevRef Cert.ReferenceIdeal.τ Cert.ReferenceIdeal.sig) := by
  rw [Cert.KernelIdeal.HandRun.eq_v4 m ρ c,
    Cert.ReferenceIdeal.HandRun.eq_v5 (launchContents m' c),
    (bk_arg2 m ρ m' hagree c)]
  all_goals rfl

theorem br_v5 :
    Cert.KernelIdeal.HandRun.K m ρ c Cert.KernelIdeal.main_v5 = after (Cert.ReferenceIdeal.HandRun.ops (F := Ideal)) (launchContents m' c) (Cert.ReferenceIdeal.main_v6 : DevRef Cert.ReferenceIdeal.τ Cert.ReferenceIdeal.sig) := by
  rw [Cert.KernelIdeal.HandRun.eq_v5 m ρ c,
    Cert.ReferenceIdeal.HandRun.eq_v6 (launchContents m' c),
    (bk_arg3 m ρ m' hagree c)]
  all_goals rfl

theorem br_v6 :
    Cert.KernelIdeal.HandRun.K m ρ c Cert.KernelIdeal.main_v6 = after (Cert.ReferenceIdeal.HandRun.ops (F := Ideal)) (launchContents m' c) (Cert.ReferenceIdeal.main_v7 : DevRef Cert.ReferenceIdeal.τ Cert.ReferenceIdeal.sig) := by
  rw [Cert.KernelIdeal.HandRun.eq_v6 m ρ c,
    Cert.ReferenceIdeal.HandRun.eq_v7 (launchContents m' c),
    (br_v4 m ρ m' hagree c)]
  all_goals rfl

theorem br_v7 :
    Cert.KernelIdeal.HandRun.K m ρ c Cert.KernelIdeal.main_v7 = after (Cert.ReferenceIdeal.HandRun.ops (F := Ideal)) (launchContents m' c) (Cert.ReferenceIdeal.main_v8 : DevRef Cert.ReferenceIdeal.τ Cert.ReferenceIdeal.sig) := by
  rw [Cert.KernelIdeal.HandRun.eq_v7 m ρ c,
    Cert.ReferenceIdeal.HandRun.eq_v8 (launchContents m' c),
    (br_v6 m ρ m' hagree c)]
  all_goals rfl

theorem br_v8 :
    Cert.KernelIdeal.HandRun.K m ρ c Cert.KernelIdeal.main_v8 = after (Cert.ReferenceIdeal.HandRun.ops (F := Ideal)) (launchContents m' c) (Cert.ReferenceIdeal.main_v9 : DevRef Cert.ReferenceIdeal.τ Cert.ReferenceIdeal.sig) := by
  rw [Cert.KernelIdeal.HandRun.eq_v8 m ρ c,
    Cert.ReferenceIdeal.HandRun.eq_v9 (launchContents m' c),
    (br_v4 m ρ m' hagree c)]
  all_goals rfl

theorem br_v9 :
    Cert.KernelIdeal.HandRun.K m ρ c Cert.KernelIdeal.main_v9 = after (Cert.ReferenceIdeal.HandRun.ops (F := Ideal)) (launchContents m' c) (Cert.ReferenceIdeal.main_v10 : DevRef Cert.ReferenceIdeal.τ Cert.ReferenceIdeal.sig) := by
  rw [Cert.KernelIdeal.HandRun.eq_v9 m ρ c,
    Cert.ReferenceIdeal.HandRun.eq_v10 (launchContents m' c),
    (br_v8 m ρ m' hagree c)]
  all_goals rfl

theorem br_cst :
    Cert.KernelIdeal.HandRun.K m ρ c Cert.KernelIdeal.main_cst = after (Cert.ReferenceIdeal.HandRun.ops (F := Ideal)) (launchContents m' c) (Cert.ReferenceIdeal.main_cst : DevRef Cert.ReferenceIdeal.τ Cert.ReferenceIdeal.sig) := by
  rw [Cert.KernelIdeal.HandRun.eq_cst m ρ c,
    Cert.ReferenceIdeal.HandRun.eq_cst (launchContents m' c)]
  all_goals rfl

theorem br_v10 :
    Cert.KernelIdeal.HandRun.K m ρ c Cert.KernelIdeal.main_v10 = after (Cert.ReferenceIdeal.HandRun.ops (F := Ideal)) (launchContents m' c) (Cert.ReferenceIdeal.main_v11 : DevRef Cert.ReferenceIdeal.τ Cert.ReferenceIdeal.sig) := by
  rw [Cert.KernelIdeal.HandRun.eq_v10 m ρ c,
    Cert.ReferenceIdeal.HandRun.eq_v11 (launchContents m' c),
    (br_cst m ρ m' hagree c)]
  all_goals rfl

theorem br_c :
    Cert.KernelIdeal.HandRun.K m ρ c Cert.KernelIdeal.main_c = after (Cert.ReferenceIdeal.HandRun.ops (F := Ideal)) (launchContents m' c) (Cert.ReferenceIdeal.main_c : DevRef Cert.ReferenceIdeal.τ Cert.ReferenceIdeal.sig) := by
  rw [Cert.KernelIdeal.HandRun.eq_c m ρ c,
    Cert.ReferenceIdeal.HandRun.eq_c (launchContents m' c)]
  all_goals rfl

theorem br_v11 :
    Cert.KernelIdeal.HandRun.K m ρ c Cert.KernelIdeal.main_v11 = after (Cert.ReferenceIdeal.HandRun.ops (F := Ideal)) (launchContents m' c) (Cert.ReferenceIdeal.main_v12 : DevRef Cert.ReferenceIdeal.τ Cert.ReferenceIdeal.sig) := by
  rw [Cert.KernelIdeal.HandRun.eq_v11 m ρ c,
    Cert.ReferenceIdeal.HandRun.eq_v12 (launchContents m' c),
    (br_c m ρ m' hagree c)]
  all_goals rfl

theorem br_v12 :
    Cert.KernelIdeal.HandRun.K m ρ c Cert.KernelIdeal.main_v12 = after (Cert.ReferenceIdeal.HandRun.ops (F := Ideal)) (launchContents m' c) (Cert.ReferenceIdeal.main_v13 : DevRef Cert.ReferenceIdeal.τ Cert.ReferenceIdeal.sig) := by
  rw [Cert.KernelIdeal.HandRun.eq_v12 m ρ c,
    Cert.ReferenceIdeal.HandRun.eq_v13 (launchContents m' c),
    (br_v7 m ρ m' hagree c),
    (br_v11 m ρ m' hagree c)]
  all_goals rfl

theorem br_c_0 :
    Cert.KernelIdeal.HandRun.K m ρ c Cert.KernelIdeal.main_c_0 = after (Cert.ReferenceIdeal.HandRun.ops (F := Ideal)) (launchContents m' c) (Cert.ReferenceIdeal.main_c_0 : DevRef Cert.ReferenceIdeal.τ Cert.ReferenceIdeal.sig) := by
  rw [Cert.KernelIdeal.HandRun.eq_c_0 m ρ c,
    Cert.ReferenceIdeal.HandRun.eq_c_0 (launchContents m' c)]
  all_goals rfl

theorem br_v13 :
    Cert.KernelIdeal.HandRun.K m ρ c Cert.KernelIdeal.main_v13 = after (Cert.ReferenceIdeal.HandRun.ops (F := Ideal)) (launchContents m' c) (Cert.ReferenceIdeal.main_v14 : DevRef Cert.ReferenceIdeal.τ Cert.ReferenceIdeal.sig) := by
  rw [Cert.KernelIdeal.HandRun.eq_v13 m ρ c,
    Cert.ReferenceIdeal.HandRun.eq_v14 (launchContents m' c),
    (br_c_0 m ρ m' hagree c)]
  all_goals rfl

theorem br_v14 :
    Cert.KernelIdeal.HandRun.K m ρ c Cert.KernelIdeal.main_v14 = after (Cert.ReferenceIdeal.HandRun.ops (F := Ideal)) (launchContents m' c) (Cert.ReferenceIdeal.main_v15 : DevRef Cert.ReferenceIdeal.τ Cert.ReferenceIdeal.sig) := by
  rw [Cert.KernelIdeal.HandRun.eq_v14 m ρ c,
    Cert.ReferenceIdeal.HandRun.eq_v15 (launchContents m' c),
    (br_v7 m ρ m' hagree c),
    (br_v13 m ρ m' hagree c)]
  all_goals rfl

theorem br_v15 :
    Cert.KernelIdeal.HandRun.K m ρ c Cert.KernelIdeal.main_v15 = after (Cert.ReferenceIdeal.HandRun.ops (F := Ideal)) (launchContents m' c) (Cert.ReferenceIdeal.main_v16 : DevRef Cert.ReferenceIdeal.τ Cert.ReferenceIdeal.sig) := by
  rw [Cert.KernelIdeal.HandRun.eq_v15 m ρ c,
    Cert.ReferenceIdeal.HandRun.eq_v16 (launchContents m' c),
    (br_v12 m ρ m' hagree c),
    (br_v14 m ρ m' hagree c),
    (br_v7 m ρ m' hagree c)]
  all_goals rfl

theorem br_v16 :
    Cert.KernelIdeal.HandRun.K m ρ c Cert.KernelIdeal.main_v16 = after (Cert.ReferenceIdeal.HandRun.ops (F := Ideal)) (launchContents m' c) (Cert.ReferenceIdeal.main_v17 : DevRef Cert.ReferenceIdeal.τ Cert.ReferenceIdeal.sig) := by
  rw [Cert.KernelIdeal.HandRun.eq_v16 m ρ c,
    Cert.ReferenceIdeal.HandRun.eq_v17 (launchContents m' c),
    (br_v15 m ρ m' hagree c)]
  all_goals rfl

theorem br_cst_1 :
    Cert.KernelIdeal.HandRun.K m ρ c Cert.KernelIdeal.main_cst_1 = after (Cert.ReferenceIdeal.HandRun.ops (F := Ideal)) (launchContents m' c) (Cert.ReferenceIdeal.main_cst_1 : DevRef Cert.ReferenceIdeal.τ Cert.ReferenceIdeal.sig) := by
  rw [Cert.KernelIdeal.HandRun.eq_cst_1 m ρ c,
    Cert.ReferenceIdeal.HandRun.eq_cst_1 (launchContents m' c)]
  all_goals rfl

theorem br_v17 :
    Cert.KernelIdeal.HandRun.K m ρ c Cert.KernelIdeal.main_v17 = after (Cert.ReferenceIdeal.HandRun.ops (F := Ideal)) (launchContents m' c) (Cert.ReferenceIdeal.main_v18 : DevRef Cert.ReferenceIdeal.τ Cert.ReferenceIdeal.sig) := by
  rw [Cert.KernelIdeal.HandRun.eq_v17 m ρ c,
    Cert.ReferenceIdeal.HandRun.eq_v18 (launchContents m' c),
    (br_cst_1 m ρ m' hagree c)]
  all_goals rfl

theorem br_v18 :
    Cert.KernelIdeal.HandRun.K m ρ c Cert.KernelIdeal.main_v18 = after (Cert.ReferenceIdeal.HandRun.ops (F := Ideal)) (launchContents m' c) (Cert.ReferenceIdeal.main_v19 : DevRef Cert.ReferenceIdeal.τ Cert.ReferenceIdeal.sig) := by
  rw [Cert.KernelIdeal.HandRun.eq_v18 m ρ c,
    Cert.ReferenceIdeal.HandRun.eq_v19 (launchContents m' c),
    (br_v10 m ρ m' hagree c),
    (br_v16 m ρ m' hagree c),
    (br_v17 m ρ m' hagree c)]
  all_goals rfl

theorem br_cst_2 :
    Cert.KernelIdeal.HandRun.K m ρ c Cert.KernelIdeal.main_cst_2 = after (Cert.ReferenceIdeal.HandRun.ops (F := Ideal)) (launchContents m' c) (Cert.ReferenceIdeal.main_cst_2 : DevRef Cert.ReferenceIdeal.τ Cert.ReferenceIdeal.sig) := by
  rw [Cert.KernelIdeal.HandRun.eq_cst_2 m ρ c,
    Cert.ReferenceIdeal.HandRun.eq_cst_2 (launchContents m' c)]
  all_goals rfl

theorem br_v19 :
    Cert.KernelIdeal.HandRun.K m ρ c Cert.KernelIdeal.main_v19 = after (Cert.ReferenceIdeal.HandRun.ops (F := Ideal)) (launchContents m' c) (Cert.ReferenceIdeal.main_v20 : DevRef Cert.ReferenceIdeal.τ Cert.ReferenceIdeal.sig) := by
  rw [Cert.KernelIdeal.HandRun.eq_v19 m ρ c,
    Cert.ReferenceIdeal.HandRun.eq_v20 (launchContents m' c),
    (br_cst_2 m ρ m' hagree c)]
  all_goals rfl

theorem br_v20 :
    Cert.KernelIdeal.HandRun.K m ρ c Cert.KernelIdeal.main_v20 = after (Cert.ReferenceIdeal.HandRun.ops (F := Ideal)) (launchContents m' c) (Cert.ReferenceIdeal.main_v21 : DevRef Cert.ReferenceIdeal.τ Cert.ReferenceIdeal.sig) := by
  rw [Cert.KernelIdeal.HandRun.eq_v20 m ρ c,
    Cert.ReferenceIdeal.HandRun.eq_v21 (launchContents m' c),
    (br_v18 m ρ m' hagree c),
    (br_v19 m ρ m' hagree c)]
  all_goals rfl

theorem br_cst_3 :
    Cert.KernelIdeal.HandRun.K m ρ c Cert.KernelIdeal.main_cst_3 = after (Cert.ReferenceIdeal.HandRun.ops (F := Ideal)) (launchContents m' c) (Cert.ReferenceIdeal.main_cst_3 : DevRef Cert.ReferenceIdeal.τ Cert.ReferenceIdeal.sig) := by
  rw [Cert.KernelIdeal.HandRun.eq_cst_3 m ρ c,
    Cert.ReferenceIdeal.HandRun.eq_cst_3 (launchContents m' c)]
  all_goals rfl

theorem br_v21 :
    Cert.KernelIdeal.HandRun.K m ρ c Cert.KernelIdeal.main_v21 = after (Cert.ReferenceIdeal.HandRun.ops (F := Ideal)) (launchContents m' c) (Cert.ReferenceIdeal.main_v22 : DevRef Cert.ReferenceIdeal.τ Cert.ReferenceIdeal.sig) := by
  rw [Cert.KernelIdeal.HandRun.eq_v21 m ρ c,
    Cert.ReferenceIdeal.HandRun.eq_v22 (launchContents m' c),
    (br_cst_3 m ρ m' hagree c)]
  all_goals rfl

theorem br_v22 :
    Cert.KernelIdeal.HandRun.K m ρ c Cert.KernelIdeal.main_v22 = after (Cert.ReferenceIdeal.HandRun.ops (F := Ideal)) (launchContents m' c) (Cert.ReferenceIdeal.main_v23 : DevRef Cert.ReferenceIdeal.τ Cert.ReferenceIdeal.sig) := by
  rw [Cert.KernelIdeal.HandRun.eq_v22 m ρ c,
    Cert.ReferenceIdeal.HandRun.eq_v23 (launchContents m' c),
    (br_v18 m ρ m' hagree c),
    (br_v21 m ρ m' hagree c)]
  all_goals rfl

theorem br_v23 :
    Cert.KernelIdeal.HandRun.K m ρ c Cert.KernelIdeal.main_v23 = after (Cert.ReferenceIdeal.HandRun.ops (F := Ideal)) (launchContents m' c) (Cert.ReferenceIdeal.main_v24 : DevRef Cert.ReferenceIdeal.τ Cert.ReferenceIdeal.sig) := by
  rw [Cert.KernelIdeal.HandRun.eq_v23 m ρ c,
    Cert.ReferenceIdeal.HandRun.eq_v24 (launchContents m' c),
    (br_v22 m ρ m' hagree c)]
  all_goals rfl

theorem br_cst_4 :
    Cert.KernelIdeal.HandRun.K m ρ c Cert.KernelIdeal.main_cst_4 = after (Cert.ReferenceIdeal.HandRun.ops (F := Ideal)) (launchContents m' c) (Cert.ReferenceIdeal.main_cst_4 : DevRef Cert.ReferenceIdeal.τ Cert.ReferenceIdeal.sig) := by
  rw [Cert.KernelIdeal.HandRun.eq_cst_4 m ρ c,
    Cert.ReferenceIdeal.HandRun.eq_cst_4 (launchContents m' c)]
  all_goals rfl

theorem br_call0_v0 :
    Cert.KernelIdeal.HandRun.K m ρ c Cert.KernelIdeal.main_call0_v0 = after (Cert.ReferenceIdeal.HandRun.ops (F := Ideal)) (launchContents m' c) (Cert.ReferenceIdeal.main_call0_v0 : DevRef Cert.ReferenceIdeal.τ Cert.ReferenceIdeal.sig) := by
  rw [Cert.KernelIdeal.HandRun.eq_call0_v0 m ρ c,
    Cert.ReferenceIdeal.HandRun.eq_call0_v0 (launchContents m' c),
    (br_cst_4 m ρ m' hagree c)]
  all_goals rfl

theorem br_call0_v1 :
    Cert.KernelIdeal.HandRun.K m ρ c Cert.KernelIdeal.main_call0_v1 = after (Cert.ReferenceIdeal.HandRun.ops (F := Ideal)) (launchContents m' c) (Cert.ReferenceIdeal.main_call0_v1 : DevRef Cert.ReferenceIdeal.τ Cert.ReferenceIdeal.sig) := by
  rw [Cert.KernelIdeal.HandRun.eq_call0_v1 m ρ c,
    Cert.ReferenceIdeal.HandRun.eq_call0_v1 (launchContents m' c),
    (br_call0_v0 m ρ m' hagree c)]
  all_goals rfl

theorem br_v24 :
    Cert.KernelIdeal.HandRun.K m ρ c Cert.KernelIdeal.main_v24 = after (Cert.ReferenceIdeal.HandRun.ops (F := Ideal)) (launchContents m' c) (Cert.ReferenceIdeal.main_v25 : DevRef Cert.ReferenceIdeal.τ Cert.ReferenceIdeal.sig) := by
  rw [Cert.KernelIdeal.HandRun.eq_v24 m ρ c,
    Cert.ReferenceIdeal.HandRun.eq_v25 (launchContents m' c),
    (br_v20 m ρ m' hagree c),
    (br_v23 m ρ m' hagree c),
    (br_call0_v1 m ρ m' hagree c)]
  all_goals rfl

theorem br_c_5 :
    Cert.KernelIdeal.HandRun.K m ρ c Cert.KernelIdeal.main_c_5 = after (Cert.ReferenceIdeal.HandRun.ops (F := Ideal)) (launchContents m' c) (Cert.ReferenceIdeal.main_c_5 : DevRef Cert.ReferenceIdeal.τ Cert.ReferenceIdeal.sig) := by
  rw [Cert.KernelIdeal.HandRun.eq_c_5 m ρ c,
    Cert.ReferenceIdeal.HandRun.eq_c_5 (launchContents m' c)]
  all_goals rfl

theorem br_v25 :
    Cert.KernelIdeal.HandRun.K m ρ c Cert.KernelIdeal.main_v25 = after (Cert.ReferenceIdeal.HandRun.ops (F := Ideal)) (launchContents m' c) (Cert.ReferenceIdeal.main_v26 : DevRef Cert.ReferenceIdeal.τ Cert.ReferenceIdeal.sig) := by
  rw [Cert.KernelIdeal.HandRun.eq_v25 m ρ c,
    Cert.ReferenceIdeal.HandRun.eq_v26 (launchContents m' c),
    (br_c_5 m ρ m' hagree c)]
  all_goals rfl

theorem br_v26 :
    Cert.KernelIdeal.HandRun.K m ρ c Cert.KernelIdeal.main_v26 = after (Cert.ReferenceIdeal.HandRun.ops (F := Ideal)) (launchContents m' c) (Cert.ReferenceIdeal.main_v27 : DevRef Cert.ReferenceIdeal.τ Cert.ReferenceIdeal.sig) := by
  rw [Cert.KernelIdeal.HandRun.eq_v26 m ρ c,
    Cert.ReferenceIdeal.HandRun.eq_v27 (launchContents m' c),
    (br_v7 m ρ m' hagree c),
    (br_v25 m ρ m' hagree c)]
  all_goals rfl

theorem br_c_6 :
    Cert.KernelIdeal.HandRun.K m ρ c Cert.KernelIdeal.main_c_6 = after (Cert.ReferenceIdeal.HandRun.ops (F := Ideal)) (launchContents m' c) (Cert.ReferenceIdeal.main_c_6 : DevRef Cert.ReferenceIdeal.τ Cert.ReferenceIdeal.sig) := by
  rw [Cert.KernelIdeal.HandRun.eq_c_6 m ρ c,
    Cert.ReferenceIdeal.HandRun.eq_c_6 (launchContents m' c)]
  all_goals rfl

theorem br_v27 :
    Cert.KernelIdeal.HandRun.K m ρ c Cert.KernelIdeal.main_v27 = after (Cert.ReferenceIdeal.HandRun.ops (F := Ideal)) (launchContents m' c) (Cert.ReferenceIdeal.main_v28 : DevRef Cert.ReferenceIdeal.τ Cert.ReferenceIdeal.sig) := by
  rw [Cert.KernelIdeal.HandRun.eq_v27 m ρ c,
    Cert.ReferenceIdeal.HandRun.eq_v28 (launchContents m' c),
    (br_c_6 m ρ m' hagree c)]
  all_goals rfl

theorem br_v28 :
    Cert.KernelIdeal.HandRun.K m ρ c Cert.KernelIdeal.main_v28 = after (Cert.ReferenceIdeal.HandRun.ops (F := Ideal)) (launchContents m' c) (Cert.ReferenceIdeal.main_v29 : DevRef Cert.ReferenceIdeal.τ Cert.ReferenceIdeal.sig) := by
  rw [Cert.KernelIdeal.HandRun.eq_v28 m ρ c,
    Cert.ReferenceIdeal.HandRun.eq_v29 (launchContents m' c),
    (br_v7 m ρ m' hagree c),
    (br_v27 m ρ m' hagree c)]
  all_goals rfl

theorem br_v29 :
    Cert.KernelIdeal.HandRun.K m ρ c Cert.KernelIdeal.main_v29 = after (Cert.ReferenceIdeal.HandRun.ops (F := Ideal)) (launchContents m' c) (Cert.ReferenceIdeal.main_v30 : DevRef Cert.ReferenceIdeal.τ Cert.ReferenceIdeal.sig) := by
  rw [Cert.KernelIdeal.HandRun.eq_v29 m ρ c,
    Cert.ReferenceIdeal.HandRun.eq_v30 (launchContents m' c),
    (br_v26 m ρ m' hagree c),
    (br_v28 m ρ m' hagree c),
    (br_v7 m ρ m' hagree c)]
  all_goals rfl

theorem br_v30 :
    Cert.KernelIdeal.HandRun.K m ρ c Cert.KernelIdeal.main_v30 = after (Cert.ReferenceIdeal.HandRun.ops (F := Ideal)) (launchContents m' c) (Cert.ReferenceIdeal.main_v31 : DevRef Cert.ReferenceIdeal.τ Cert.ReferenceIdeal.sig) := by
  rw [Cert.KernelIdeal.HandRun.eq_v30 m ρ c,
    Cert.ReferenceIdeal.HandRun.eq_v31 (launchContents m' c),
    (br_v29 m ρ m' hagree c)]
  all_goals rfl

theorem br_v31 :
    Cert.KernelIdeal.HandRun.K m ρ c Cert.KernelIdeal.main_v31 = after (Cert.ReferenceIdeal.HandRun.ops (F := Ideal)) (launchContents m' c) (Cert.ReferenceIdeal.main_v32 : DevRef Cert.ReferenceIdeal.τ Cert.ReferenceIdeal.sig) := by
  rw [Cert.KernelIdeal.HandRun.eq_v31 m ρ c,
    Cert.ReferenceIdeal.HandRun.eq_v32 (launchContents m' c),
    (br_v24 m ρ m' hagree c),
    (br_v30 m ρ m' hagree c)]
  all_goals rfl

theorem br_c_7 :
    Cert.KernelIdeal.HandRun.K m ρ c Cert.KernelIdeal.main_c_7 = after (Cert.ReferenceIdeal.HandRun.ops (F := Ideal)) (launchContents m' c) (Cert.ReferenceIdeal.main_c_7 : DevRef Cert.ReferenceIdeal.τ Cert.ReferenceIdeal.sig) := by
  rw [Cert.KernelIdeal.HandRun.eq_c_7 m ρ c,
    Cert.ReferenceIdeal.HandRun.eq_c_7 (launchContents m' c)]
  all_goals rfl

theorem br_v32 :
    Cert.KernelIdeal.HandRun.K m ρ c Cert.KernelIdeal.main_v32 = after (Cert.ReferenceIdeal.HandRun.ops (F := Ideal)) (launchContents m' c) (Cert.ReferenceIdeal.main_v33 : DevRef Cert.ReferenceIdeal.τ Cert.ReferenceIdeal.sig) := by
  rw [Cert.KernelIdeal.HandRun.eq_v32 m ρ c,
    Cert.ReferenceIdeal.HandRun.eq_v33 (launchContents m' c),
    (br_c_7 m ρ m' hagree c)]
  all_goals rfl

theorem br_v33 :
    Cert.KernelIdeal.HandRun.K m ρ c Cert.KernelIdeal.main_v33 = after (Cert.ReferenceIdeal.HandRun.ops (F := Ideal)) (launchContents m' c) (Cert.ReferenceIdeal.main_v34 : DevRef Cert.ReferenceIdeal.τ Cert.ReferenceIdeal.sig) := by
  rw [Cert.KernelIdeal.HandRun.eq_v33 m ρ c,
    Cert.ReferenceIdeal.HandRun.eq_v34 (launchContents m' c),
    (br_v9 m ρ m' hagree c),
    (br_v32 m ρ m' hagree c)]
  all_goals rfl

theorem br_c_8 :
    Cert.KernelIdeal.HandRun.K m ρ c Cert.KernelIdeal.main_c_8 = after (Cert.ReferenceIdeal.HandRun.ops (F := Ideal)) (launchContents m' c) (Cert.ReferenceIdeal.main_c_8 : DevRef Cert.ReferenceIdeal.τ Cert.ReferenceIdeal.sig) := by
  rw [Cert.KernelIdeal.HandRun.eq_c_8 m ρ c,
    Cert.ReferenceIdeal.HandRun.eq_c_8 (launchContents m' c)]
  all_goals rfl

theorem br_v34 :
    Cert.KernelIdeal.HandRun.K m ρ c Cert.KernelIdeal.main_v34 = after (Cert.ReferenceIdeal.HandRun.ops (F := Ideal)) (launchContents m' c) (Cert.ReferenceIdeal.main_v35 : DevRef Cert.ReferenceIdeal.τ Cert.ReferenceIdeal.sig) := by
  rw [Cert.KernelIdeal.HandRun.eq_v34 m ρ c,
    Cert.ReferenceIdeal.HandRun.eq_v35 (launchContents m' c),
    (br_c_8 m ρ m' hagree c)]
  all_goals rfl

theorem br_v35 :
    Cert.KernelIdeal.HandRun.K m ρ c Cert.KernelIdeal.main_v35 = after (Cert.ReferenceIdeal.HandRun.ops (F := Ideal)) (launchContents m' c) (Cert.ReferenceIdeal.main_v36 : DevRef Cert.ReferenceIdeal.τ Cert.ReferenceIdeal.sig) := by
  rw [Cert.KernelIdeal.HandRun.eq_v35 m ρ c,
    Cert.ReferenceIdeal.HandRun.eq_v36 (launchContents m' c),
    (br_v9 m ρ m' hagree c),
    (br_v34 m ρ m' hagree c)]
  all_goals rfl

theorem br_v36 :
    Cert.KernelIdeal.HandRun.K m ρ c Cert.KernelIdeal.main_v36 = after (Cert.ReferenceIdeal.HandRun.ops (F := Ideal)) (launchContents m' c) (Cert.ReferenceIdeal.main_v37 : DevRef Cert.ReferenceIdeal.τ Cert.ReferenceIdeal.sig) := by
  rw [Cert.KernelIdeal.HandRun.eq_v36 m ρ c,
    Cert.ReferenceIdeal.HandRun.eq_v37 (launchContents m' c),
    (br_v33 m ρ m' hagree c),
    (br_v35 m ρ m' hagree c),
    (br_v9 m ρ m' hagree c)]
  all_goals rfl

theorem br_v37 :
    Cert.KernelIdeal.HandRun.K m ρ c Cert.KernelIdeal.main_v37 = after (Cert.ReferenceIdeal.HandRun.ops (F := Ideal)) (launchContents m' c) (Cert.ReferenceIdeal.main_v38 : DevRef Cert.ReferenceIdeal.τ Cert.ReferenceIdeal.sig) := by
  rw [Cert.KernelIdeal.HandRun.eq_v37 m ρ c,
    Cert.ReferenceIdeal.HandRun.eq_v38 (launchContents m' c),
    (br_v36 m ρ m' hagree c)]
  all_goals rfl

theorem br_v38 :
    Cert.KernelIdeal.HandRun.K m ρ c Cert.KernelIdeal.main_v38 = after (Cert.ReferenceIdeal.HandRun.ops (F := Ideal)) (launchContents m' c) (Cert.ReferenceIdeal.main_v39 : DevRef Cert.ReferenceIdeal.τ Cert.ReferenceIdeal.sig) := by
  rw [Cert.KernelIdeal.HandRun.eq_v38 m ρ c,
    Cert.ReferenceIdeal.HandRun.eq_v39 (launchContents m' c),
    (br_v24 m ρ m' hagree c),
    (br_v37 m ρ m' hagree c)]
  all_goals rfl

theorem br_v39 :
    Cert.KernelIdeal.HandRun.K m ρ c Cert.KernelIdeal.main_v39 = after (Cert.ReferenceIdeal.HandRun.ops (F := Ideal)) (launchContents m' c) (Cert.ReferenceIdeal.main_v40 : DevRef Cert.ReferenceIdeal.τ Cert.ReferenceIdeal.sig) := by
  rw [Cert.KernelIdeal.HandRun.eq_v39 m ρ c,
    Cert.ReferenceIdeal.HandRun.eq_v40 (launchContents m' c),
    (br_v31 m ρ m' hagree c),
    (br_v38 m ρ m' hagree c)]
  all_goals rfl

end Cert.Bridge

end
-- ==== Proof.GlueBridge2.lean ====
/-
  The irregular steps agree, continued: the next operations of the table, in program order.
-/
import proofs.«103573_j30391188587216_1_alg».proof.Proof.GlueBridge1

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

theorem br_c_9 :
    Cert.KernelIdeal.HandRun.K m ρ c Cert.KernelIdeal.main_c_9 = after (Cert.ReferenceIdeal.HandRun.ops (F := Ideal)) (launchContents m' c) (Cert.ReferenceIdeal.main_c_9 : DevRef Cert.ReferenceIdeal.τ Cert.ReferenceIdeal.sig) := by
  rw [Cert.KernelIdeal.HandRun.eq_c_9 m ρ c,
    Cert.ReferenceIdeal.HandRun.eq_c_9 (launchContents m' c)]
  all_goals rfl

theorem br_v40 :
    Cert.KernelIdeal.HandRun.K m ρ c Cert.KernelIdeal.main_v40 = after (Cert.ReferenceIdeal.HandRun.ops (F := Ideal)) (launchContents m' c) (Cert.ReferenceIdeal.main_v41 : DevRef Cert.ReferenceIdeal.τ Cert.ReferenceIdeal.sig) := by
  rw [Cert.KernelIdeal.HandRun.eq_v40 m ρ c,
    Cert.ReferenceIdeal.HandRun.eq_v41 (launchContents m' c),
    (br_c_9 m ρ m' hagree c)]
  all_goals rfl

theorem br_v41 :
    Cert.KernelIdeal.HandRun.K m ρ c Cert.KernelIdeal.main_v41 = after (Cert.ReferenceIdeal.HandRun.ops (F := Ideal)) (launchContents m' c) (Cert.ReferenceIdeal.main_v42 : DevRef Cert.ReferenceIdeal.τ Cert.ReferenceIdeal.sig) := by
  rw [Cert.KernelIdeal.HandRun.eq_v41 m ρ c,
    Cert.ReferenceIdeal.HandRun.eq_v42 (launchContents m' c),
    (br_v7 m ρ m' hagree c),
    (br_v40 m ρ m' hagree c)]
  all_goals rfl

theorem br_c_10 :
    Cert.KernelIdeal.HandRun.K m ρ c Cert.KernelIdeal.main_c_10 = after (Cert.ReferenceIdeal.HandRun.ops (F := Ideal)) (launchContents m' c) (Cert.ReferenceIdeal.main_c_10 : DevRef Cert.ReferenceIdeal.τ Cert.ReferenceIdeal.sig) := by
  rw [Cert.KernelIdeal.HandRun.eq_c_10 m ρ c,
    Cert.ReferenceIdeal.HandRun.eq_c_10 (launchContents m' c)]
  all_goals rfl

theorem br_v42 :
    Cert.KernelIdeal.HandRun.K m ρ c Cert.KernelIdeal.main_v42 = after (Cert.ReferenceIdeal.HandRun.ops (F := Ideal)) (launchContents m' c) (Cert.ReferenceIdeal.main_v43 : DevRef Cert.ReferenceIdeal.τ Cert.ReferenceIdeal.sig) := by
  rw [Cert.KernelIdeal.HandRun.eq_v42 m ρ c,
    Cert.ReferenceIdeal.HandRun.eq_v43 (launchContents m' c),
    (br_c_10 m ρ m' hagree c)]
  all_goals rfl

theorem br_v43 :
    Cert.KernelIdeal.HandRun.K m ρ c Cert.KernelIdeal.main_v43 = after (Cert.ReferenceIdeal.HandRun.ops (F := Ideal)) (launchContents m' c) (Cert.ReferenceIdeal.main_v44 : DevRef Cert.ReferenceIdeal.τ Cert.ReferenceIdeal.sig) := by
  rw [Cert.KernelIdeal.HandRun.eq_v43 m ρ c,
    Cert.ReferenceIdeal.HandRun.eq_v44 (launchContents m' c),
    (br_v7 m ρ m' hagree c),
    (br_v42 m ρ m' hagree c)]
  all_goals rfl

theorem br_v44 :
    Cert.KernelIdeal.HandRun.K m ρ c Cert.KernelIdeal.main_v44 = after (Cert.ReferenceIdeal.HandRun.ops (F := Ideal)) (launchContents m' c) (Cert.ReferenceIdeal.main_v45 : DevRef Cert.ReferenceIdeal.τ Cert.ReferenceIdeal.sig) := by
  rw [Cert.KernelIdeal.HandRun.eq_v44 m ρ c,
    Cert.ReferenceIdeal.HandRun.eq_v45 (launchContents m' c),
    (br_v41 m ρ m' hagree c),
    (br_v43 m ρ m' hagree c),
    (br_v7 m ρ m' hagree c)]
  all_goals rfl

theorem br_v45 :
    Cert.KernelIdeal.HandRun.K m ρ c Cert.KernelIdeal.main_v45 = after (Cert.ReferenceIdeal.HandRun.ops (F := Ideal)) (launchContents m' c) (Cert.ReferenceIdeal.main_v46 : DevRef Cert.ReferenceIdeal.τ Cert.ReferenceIdeal.sig) := by
  rw [Cert.KernelIdeal.HandRun.eq_v45 m ρ c,
    Cert.ReferenceIdeal.HandRun.eq_v46 (launchContents m' c),
    (br_v44 m ρ m' hagree c)]
  all_goals rfl

theorem br_v46
    (hs_v3 : Cert.KernelIdeal.HandRun.K m ρ c Cert.KernelIdeal.main_v3 = after (Cert.ReferenceIdeal.HandRun.ops (F := Ideal)) (launchContents m' c) (Cert.ReferenceIdeal.main_v4 : DevRef Cert.ReferenceIdeal.τ Cert.ReferenceIdeal.sig)) :
    Cert.KernelIdeal.HandRun.K m ρ c Cert.KernelIdeal.main_v46 = after (Cert.ReferenceIdeal.HandRun.ops (F := Ideal)) (launchContents m' c) (Cert.ReferenceIdeal.main_v47 : DevRef Cert.ReferenceIdeal.τ Cert.ReferenceIdeal.sig) := by
  rw [Cert.KernelIdeal.HandRun.eq_v46 m ρ c,
    Cert.ReferenceIdeal.HandRun.eq_v47 (launchContents m' c),
    hs_v3,
    (br_v45 m ρ m' hagree c)]
  all_goals rfl

theorem br_c_11 :
    Cert.KernelIdeal.HandRun.K m ρ c Cert.KernelIdeal.main_c_11 = after (Cert.ReferenceIdeal.HandRun.ops (F := Ideal)) (launchContents m' c) (Cert.ReferenceIdeal.main_c_11 : DevRef Cert.ReferenceIdeal.τ Cert.ReferenceIdeal.sig) := by
  rw [Cert.KernelIdeal.HandRun.eq_c_11 m ρ c,
    Cert.ReferenceIdeal.HandRun.eq_c_11 (launchContents m' c)]
  all_goals rfl

theorem br_v47 :
    Cert.KernelIdeal.HandRun.K m ρ c Cert.KernelIdeal.main_v47 = after (Cert.ReferenceIdeal.HandRun.ops (F := Ideal)) (launchContents m' c) (Cert.ReferenceIdeal.main_v48 : DevRef Cert.ReferenceIdeal.τ Cert.ReferenceIdeal.sig) := by
  rw [Cert.KernelIdeal.HandRun.eq_v47 m ρ c,
    Cert.ReferenceIdeal.HandRun.eq_v48 (launchContents m' c),
    (br_c_11 m ρ m' hagree c)]
  all_goals rfl

theorem br_v48 :
    Cert.KernelIdeal.HandRun.K m ρ c Cert.KernelIdeal.main_v48 = after (Cert.ReferenceIdeal.HandRun.ops (F := Ideal)) (launchContents m' c) (Cert.ReferenceIdeal.main_v49 : DevRef Cert.ReferenceIdeal.τ Cert.ReferenceIdeal.sig) := by
  rw [Cert.KernelIdeal.HandRun.eq_v48 m ρ c,
    Cert.ReferenceIdeal.HandRun.eq_v49 (launchContents m' c),
    (br_v5 m ρ m' hagree c),
    (br_v47 m ρ m' hagree c)]
  all_goals rfl

theorem br_c_12 :
    Cert.KernelIdeal.HandRun.K m ρ c Cert.KernelIdeal.main_c_12 = after (Cert.ReferenceIdeal.HandRun.ops (F := Ideal)) (launchContents m' c) (Cert.ReferenceIdeal.main_c_12 : DevRef Cert.ReferenceIdeal.τ Cert.ReferenceIdeal.sig) := by
  rw [Cert.KernelIdeal.HandRun.eq_c_12 m ρ c,
    Cert.ReferenceIdeal.HandRun.eq_c_12 (launchContents m' c)]
  all_goals rfl

theorem br_v49 :
    Cert.KernelIdeal.HandRun.K m ρ c Cert.KernelIdeal.main_v49 = after (Cert.ReferenceIdeal.HandRun.ops (F := Ideal)) (launchContents m' c) (Cert.ReferenceIdeal.main_v50 : DevRef Cert.ReferenceIdeal.τ Cert.ReferenceIdeal.sig) := by
  rw [Cert.KernelIdeal.HandRun.eq_v49 m ρ c,
    Cert.ReferenceIdeal.HandRun.eq_v50 (launchContents m' c),
    (br_c_12 m ρ m' hagree c)]
  all_goals rfl

theorem br_v50 :
    Cert.KernelIdeal.HandRun.K m ρ c Cert.KernelIdeal.main_v50 = after (Cert.ReferenceIdeal.HandRun.ops (F := Ideal)) (launchContents m' c) (Cert.ReferenceIdeal.main_v51 : DevRef Cert.ReferenceIdeal.τ Cert.ReferenceIdeal.sig) := by
  rw [Cert.KernelIdeal.HandRun.eq_v50 m ρ c,
    Cert.ReferenceIdeal.HandRun.eq_v51 (launchContents m' c),
    (br_v5 m ρ m' hagree c),
    (br_v49 m ρ m' hagree c)]
  all_goals rfl

theorem br_v51 :
    Cert.KernelIdeal.HandRun.K m ρ c Cert.KernelIdeal.main_v51 = after (Cert.ReferenceIdeal.HandRun.ops (F := Ideal)) (launchContents m' c) (Cert.ReferenceIdeal.main_v52 : DevRef Cert.ReferenceIdeal.τ Cert.ReferenceIdeal.sig) := by
  rw [Cert.KernelIdeal.HandRun.eq_v51 m ρ c,
    Cert.ReferenceIdeal.HandRun.eq_v52 (launchContents m' c),
    (br_v48 m ρ m' hagree c),
    (br_v50 m ρ m' hagree c),
    (br_v5 m ρ m' hagree c)]
  all_goals rfl

theorem br_v52 :
    Cert.KernelIdeal.HandRun.K m ρ c Cert.KernelIdeal.main_v52 = after (Cert.ReferenceIdeal.HandRun.ops (F := Ideal)) (launchContents m' c) (Cert.ReferenceIdeal.main_v53 : DevRef Cert.ReferenceIdeal.τ Cert.ReferenceIdeal.sig) := by
  rw [Cert.KernelIdeal.HandRun.eq_v52 m ρ c,
    Cert.ReferenceIdeal.HandRun.eq_v53 (launchContents m' c),
    (br_v51 m ρ m' hagree c)]
  all_goals rfl

theorem br_v53 :
    Cert.KernelIdeal.HandRun.K m ρ c Cert.KernelIdeal.main_v53 = after (Cert.ReferenceIdeal.HandRun.ops (F := Ideal)) (launchContents m' c) (Cert.ReferenceIdeal.main_v54 : DevRef Cert.ReferenceIdeal.τ Cert.ReferenceIdeal.sig) := by
  rw [Cert.KernelIdeal.HandRun.eq_v53 m ρ c,
    Cert.ReferenceIdeal.HandRun.eq_v54 (launchContents m' c),
    (br_v2 m ρ m' hagree c),
    (br_v52 m ρ m' hagree c)]
  all_goals rfl

theorem br_v54
    (hs_v3 : Cert.KernelIdeal.HandRun.K m ρ c Cert.KernelIdeal.main_v3 = after (Cert.ReferenceIdeal.HandRun.ops (F := Ideal)) (launchContents m' c) (Cert.ReferenceIdeal.main_v4 : DevRef Cert.ReferenceIdeal.τ Cert.ReferenceIdeal.sig)) :
    Cert.KernelIdeal.HandRun.K m ρ c Cert.KernelIdeal.main_v54 = after (Cert.ReferenceIdeal.HandRun.ops (F := Ideal)) (launchContents m' c) (Cert.ReferenceIdeal.main_v55 : DevRef Cert.ReferenceIdeal.τ Cert.ReferenceIdeal.sig) := by
  rw [Cert.KernelIdeal.HandRun.eq_v54 m ρ c,
    Cert.ReferenceIdeal.HandRun.eq_v55 (launchContents m' c),
    (br_v46 m ρ m' hagree c hs_v3),
    (br_v53 m ρ m' hagree c)]
  all_goals rfl

theorem br_v55 :
    Cert.KernelIdeal.HandRun.K m ρ c Cert.KernelIdeal.main_v55 = after (Cert.ReferenceIdeal.HandRun.ops (F := Ideal)) (launchContents m' c) (Cert.ReferenceIdeal.main_v57 : DevRef Cert.ReferenceIdeal.τ Cert.ReferenceIdeal.sig) := by
  rw [Cert.KernelIdeal.HandRun.eq_v55 m ρ c,
    Cert.ReferenceIdeal.HandRun.eq_v57 (launchContents m' c),
    (br_v39 m ρ m' hagree c)]
  all_goals rfl

theorem br_cst_13 :
    Cert.KernelIdeal.HandRun.K m ρ c Cert.KernelIdeal.main_cst_13 = after (Cert.ReferenceIdeal.HandRun.ops (F := Ideal)) (launchContents m' c) (Cert.ReferenceIdeal.main_cst_13 : DevRef Cert.ReferenceIdeal.τ Cert.ReferenceIdeal.sig) := by
  rw [Cert.KernelIdeal.HandRun.eq_cst_13 m ρ c,
    Cert.ReferenceIdeal.HandRun.eq_cst_13 (launchContents m' c)]
  all_goals rfl

theorem br_v57 :
    Cert.KernelIdeal.HandRun.K m ρ c Cert.KernelIdeal.main_v57 = after (Cert.ReferenceIdeal.HandRun.ops (F := Ideal)) (launchContents m' c) (Cert.ReferenceIdeal.main_v60 : DevRef Cert.ReferenceIdeal.τ Cert.ReferenceIdeal.sig) := by
  rw [Cert.KernelIdeal.HandRun.eq_v57 m ρ c,
    Cert.ReferenceIdeal.HandRun.eq_v60 (launchContents m' c),
    (br_cst_13 m ρ m' hagree c)]
  all_goals rfl

theorem br_c_14 :
    Cert.KernelIdeal.HandRun.K m ρ c Cert.KernelIdeal.main_c_14 = after (Cert.ReferenceIdeal.HandRun.ops (F := Ideal)) (launchContents m' c) (Cert.ReferenceIdeal.main_c_14 : DevRef Cert.ReferenceIdeal.τ Cert.ReferenceIdeal.sig) := by
  rw [Cert.KernelIdeal.HandRun.eq_c_14 m ρ c,
    Cert.ReferenceIdeal.HandRun.eq_c_14 (launchContents m' c)]
  all_goals rfl

theorem br_v58 :
    Cert.KernelIdeal.HandRun.K m ρ c Cert.KernelIdeal.main_v58 = after (Cert.ReferenceIdeal.HandRun.ops (F := Ideal)) (launchContents m' c) (Cert.ReferenceIdeal.main_v61 : DevRef Cert.ReferenceIdeal.τ Cert.ReferenceIdeal.sig) := by
  rw [Cert.KernelIdeal.HandRun.eq_v58 m ρ c,
    Cert.ReferenceIdeal.HandRun.eq_v61 (launchContents m' c),
    (br_c_14 m ρ m' hagree c)]
  all_goals rfl

theorem br_v59 :
    Cert.KernelIdeal.HandRun.K m ρ c Cert.KernelIdeal.main_v59 = after (Cert.ReferenceIdeal.HandRun.ops (F := Ideal)) (launchContents m' c) (Cert.ReferenceIdeal.main_v62 : DevRef Cert.ReferenceIdeal.τ Cert.ReferenceIdeal.sig) := by
  rw [Cert.KernelIdeal.HandRun.eq_v59 m ρ c,
    Cert.ReferenceIdeal.HandRun.eq_v62 (launchContents m' c),
    (br_v9 m ρ m' hagree c),
    (br_v58 m ρ m' hagree c)]
  all_goals rfl

theorem br_c_15 :
    Cert.KernelIdeal.HandRun.K m ρ c Cert.KernelIdeal.main_c_15 = after (Cert.ReferenceIdeal.HandRun.ops (F := Ideal)) (launchContents m' c) (Cert.ReferenceIdeal.main_c_15 : DevRef Cert.ReferenceIdeal.τ Cert.ReferenceIdeal.sig) := by
  rw [Cert.KernelIdeal.HandRun.eq_c_15 m ρ c,
    Cert.ReferenceIdeal.HandRun.eq_c_15 (launchContents m' c)]
  all_goals rfl

theorem br_v60 :
    Cert.KernelIdeal.HandRun.K m ρ c Cert.KernelIdeal.main_v60 = after (Cert.ReferenceIdeal.HandRun.ops (F := Ideal)) (launchContents m' c) (Cert.ReferenceIdeal.main_v63 : DevRef Cert.ReferenceIdeal.τ Cert.ReferenceIdeal.sig) := by
  rw [Cert.KernelIdeal.HandRun.eq_v60 m ρ c,
    Cert.ReferenceIdeal.HandRun.eq_v63 (launchContents m' c),
    (br_c_15 m ρ m' hagree c)]
  all_goals rfl

theorem br_v61 :
    Cert.KernelIdeal.HandRun.K m ρ c Cert.KernelIdeal.main_v61 = after (Cert.ReferenceIdeal.HandRun.ops (F := Ideal)) (launchContents m' c) (Cert.ReferenceIdeal.main_v64 : DevRef Cert.ReferenceIdeal.τ Cert.ReferenceIdeal.sig) := by
  rw [Cert.KernelIdeal.HandRun.eq_v61 m ρ c,
    Cert.ReferenceIdeal.HandRun.eq_v64 (launchContents m' c),
    (br_v9 m ρ m' hagree c),
    (br_v60 m ρ m' hagree c)]
  all_goals rfl

theorem br_v62 :
    Cert.KernelIdeal.HandRun.K m ρ c Cert.KernelIdeal.main_v62 = after (Cert.ReferenceIdeal.HandRun.ops (F := Ideal)) (launchContents m' c) (Cert.ReferenceIdeal.main_v65 : DevRef Cert.ReferenceIdeal.τ Cert.ReferenceIdeal.sig) := by
  rw [Cert.KernelIdeal.HandRun.eq_v62 m ρ c,
    Cert.ReferenceIdeal.HandRun.eq_v65 (launchContents m' c),
    (br_v59 m ρ m' hagree c),
    (br_v61 m ρ m' hagree c),
    (br_v9 m ρ m' hagree c)]
  all_goals rfl

theorem br_v63 :
    Cert.KernelIdeal.HandRun.K m ρ c Cert.KernelIdeal.main_v63 = after (Cert.ReferenceIdeal.HandRun.ops (F := Ideal)) (launchContents m' c) (Cert.ReferenceIdeal.main_v66 : DevRef Cert.ReferenceIdeal.τ Cert.ReferenceIdeal.sig) := by
  rw [Cert.KernelIdeal.HandRun.eq_v63 m ρ c,
    Cert.ReferenceIdeal.HandRun.eq_v66 (launchContents m' c),
    (br_v62 m ρ m' hagree c)]
  all_goals rfl

theorem br_v64
    (hs_v56 : Cert.KernelIdeal.HandRun.K m ρ c Cert.KernelIdeal.main_v56 = after (Cert.ReferenceIdeal.HandRun.ops (F := Ideal)) (launchContents m' c) (Cert.ReferenceIdeal.main_v59 : DevRef Cert.ReferenceIdeal.τ Cert.ReferenceIdeal.sig)) :
    Cert.KernelIdeal.HandRun.K m ρ c Cert.KernelIdeal.main_v64 = after (Cert.ReferenceIdeal.HandRun.ops (F := Ideal)) (launchContents m' c) (Cert.ReferenceIdeal.main_v67 : DevRef Cert.ReferenceIdeal.τ Cert.ReferenceIdeal.sig) := by
  rw [Cert.KernelIdeal.HandRun.eq_v64 m ρ c,
    Cert.ReferenceIdeal.HandRun.eq_v67 (launchContents m' c),
    (br_v57 m ρ m' hagree c),
    (br_v63 m ρ m' hagree c),
    hs_v56]
  all_goals rfl

theorem br_v65 :
    Cert.KernelIdeal.HandRun.K m ρ c Cert.KernelIdeal.main_v65 = after (Cert.ReferenceIdeal.HandRun.ops (F := Ideal)) (launchContents m' c) (Cert.ReferenceIdeal.main_v68 : DevRef Cert.ReferenceIdeal.τ Cert.ReferenceIdeal.sig) := by
  rw [Cert.KernelIdeal.HandRun.eq_v65 m ρ c,
    Cert.ReferenceIdeal.HandRun.eq_v68 (launchContents m' c),
    (bk_arg2 m ρ m' hagree c)]
  all_goals rfl

theorem br_v66 :
    Cert.KernelIdeal.HandRun.K m ρ c Cert.KernelIdeal.main_v66 = after (Cert.ReferenceIdeal.HandRun.ops (F := Ideal)) (launchContents m' c) (Cert.ReferenceIdeal.main_v69 : DevRef Cert.ReferenceIdeal.τ Cert.ReferenceIdeal.sig) := by
  rw [Cert.KernelIdeal.HandRun.eq_v66 m ρ c,
    Cert.ReferenceIdeal.HandRun.eq_v69 (launchContents m' c),
    (bk_arg3 m ρ m' hagree c)]
  all_goals rfl

theorem br_v67 :
    Cert.KernelIdeal.HandRun.K m ρ c Cert.KernelIdeal.main_v67 = after (Cert.ReferenceIdeal.HandRun.ops (F := Ideal)) (launchContents m' c) (Cert.ReferenceIdeal.main_v70 : DevRef Cert.ReferenceIdeal.τ Cert.ReferenceIdeal.sig) := by
  rw [Cert.KernelIdeal.HandRun.eq_v67 m ρ c,
    Cert.ReferenceIdeal.HandRun.eq_v70 (launchContents m' c),
    (br_v65 m ρ m' hagree c)]
  all_goals rfl

theorem br_v68 :
    Cert.KernelIdeal.HandRun.K m ρ c Cert.KernelIdeal.main_v68 = after (Cert.ReferenceIdeal.HandRun.ops (F := Ideal)) (launchContents m' c) (Cert.ReferenceIdeal.main_v71 : DevRef Cert.ReferenceIdeal.τ Cert.ReferenceIdeal.sig) := by
  rw [Cert.KernelIdeal.HandRun.eq_v68 m ρ c,
    Cert.ReferenceIdeal.HandRun.eq_v71 (launchContents m' c),
    (br_v67 m ρ m' hagree c)]
  all_goals rfl

theorem br_v69 :
    Cert.KernelIdeal.HandRun.K m ρ c Cert.KernelIdeal.main_v69 = after (Cert.ReferenceIdeal.HandRun.ops (F := Ideal)) (launchContents m' c) (Cert.ReferenceIdeal.main_v72 : DevRef Cert.ReferenceIdeal.τ Cert.ReferenceIdeal.sig) := by
  rw [Cert.KernelIdeal.HandRun.eq_v69 m ρ c,
    Cert.ReferenceIdeal.HandRun.eq_v72 (launchContents m' c),
    (br_v65 m ρ m' hagree c)]
  all_goals rfl

theorem br_v70 :
    Cert.KernelIdeal.HandRun.K m ρ c Cert.KernelIdeal.main_v70 = after (Cert.ReferenceIdeal.HandRun.ops (F := Ideal)) (launchContents m' c) (Cert.ReferenceIdeal.main_v73 : DevRef Cert.ReferenceIdeal.τ Cert.ReferenceIdeal.sig) := by
  rw [Cert.KernelIdeal.HandRun.eq_v70 m ρ c,
    Cert.ReferenceIdeal.HandRun.eq_v73 (launchContents m' c),
    (br_v69 m ρ m' hagree c)]
  all_goals rfl

theorem br_cst_16 :
    Cert.KernelIdeal.HandRun.K m ρ c Cert.KernelIdeal.main_cst_16 = after (Cert.ReferenceIdeal.HandRun.ops (F := Ideal)) (launchContents m' c) (Cert.ReferenceIdeal.main_cst_16 : DevRef Cert.ReferenceIdeal.τ Cert.ReferenceIdeal.sig) := by
  rw [Cert.KernelIdeal.HandRun.eq_cst_16 m ρ c,
    Cert.ReferenceIdeal.HandRun.eq_cst_16 (launchContents m' c)]
  all_goals rfl

theorem br_v71 :
    Cert.KernelIdeal.HandRun.K m ρ c Cert.KernelIdeal.main_v71 = after (Cert.ReferenceIdeal.HandRun.ops (F := Ideal)) (launchContents m' c) (Cert.ReferenceIdeal.main_v74 : DevRef Cert.ReferenceIdeal.τ Cert.ReferenceIdeal.sig) := by
  rw [Cert.KernelIdeal.HandRun.eq_v71 m ρ c,
    Cert.ReferenceIdeal.HandRun.eq_v74 (launchContents m' c),
    (br_cst_16 m ρ m' hagree c)]
  all_goals rfl

theorem br_c_17 :
    Cert.KernelIdeal.HandRun.K m ρ c Cert.KernelIdeal.main_c_17 = after (Cert.ReferenceIdeal.HandRun.ops (F := Ideal)) (launchContents m' c) (Cert.ReferenceIdeal.main_c_17 : DevRef Cert.ReferenceIdeal.τ Cert.ReferenceIdeal.sig) := by
  rw [Cert.KernelIdeal.HandRun.eq_c_17 m ρ c,
    Cert.ReferenceIdeal.HandRun.eq_c_17 (launchContents m' c)]
  all_goals rfl

theorem br_v72 :
    Cert.KernelIdeal.HandRun.K m ρ c Cert.KernelIdeal.main_v72 = after (Cert.ReferenceIdeal.HandRun.ops (F := Ideal)) (launchContents m' c) (Cert.ReferenceIdeal.main_v75 : DevRef Cert.ReferenceIdeal.τ Cert.ReferenceIdeal.sig) := by
  rw [Cert.KernelIdeal.HandRun.eq_v72 m ρ c,
    Cert.ReferenceIdeal.HandRun.eq_v75 (launchContents m' c),
    (br_c_17 m ρ m' hagree c)]
  all_goals rfl

theorem br_v73 :
    Cert.KernelIdeal.HandRun.K m ρ c Cert.KernelIdeal.main_v73 = after (Cert.ReferenceIdeal.HandRun.ops (F := Ideal)) (launchContents m' c) (Cert.ReferenceIdeal.main_v76 : DevRef Cert.ReferenceIdeal.τ Cert.ReferenceIdeal.sig) := by
  rw [Cert.KernelIdeal.HandRun.eq_v73 m ρ c,
    Cert.ReferenceIdeal.HandRun.eq_v76 (launchContents m' c),
    (br_v68 m ρ m' hagree c),
    (br_v72 m ρ m' hagree c)]
  all_goals rfl

theorem br_c_18 :
    Cert.KernelIdeal.HandRun.K m ρ c Cert.KernelIdeal.main_c_18 = after (Cert.ReferenceIdeal.HandRun.ops (F := Ideal)) (launchContents m' c) (Cert.ReferenceIdeal.main_c_18 : DevRef Cert.ReferenceIdeal.τ Cert.ReferenceIdeal.sig) := by
  rw [Cert.KernelIdeal.HandRun.eq_c_18 m ρ c,
    Cert.ReferenceIdeal.HandRun.eq_c_18 (launchContents m' c)]
  all_goals rfl

theorem br_v74 :
    Cert.KernelIdeal.HandRun.K m ρ c Cert.KernelIdeal.main_v74 = after (Cert.ReferenceIdeal.HandRun.ops (F := Ideal)) (launchContents m' c) (Cert.ReferenceIdeal.main_v77 : DevRef Cert.ReferenceIdeal.τ Cert.ReferenceIdeal.sig) := by
  rw [Cert.KernelIdeal.HandRun.eq_v74 m ρ c,
    Cert.ReferenceIdeal.HandRun.eq_v77 (launchContents m' c),
    (br_c_18 m ρ m' hagree c)]
  all_goals rfl

theorem br_v75 :
    Cert.KernelIdeal.HandRun.K m ρ c Cert.KernelIdeal.main_v75 = after (Cert.ReferenceIdeal.HandRun.ops (F := Ideal)) (launchContents m' c) (Cert.ReferenceIdeal.main_v78 : DevRef Cert.ReferenceIdeal.τ Cert.ReferenceIdeal.sig) := by
  rw [Cert.KernelIdeal.HandRun.eq_v75 m ρ c,
    Cert.ReferenceIdeal.HandRun.eq_v78 (launchContents m' c),
    (br_v68 m ρ m' hagree c),
    (br_v74 m ρ m' hagree c)]
  all_goals rfl

theorem br_v76 :
    Cert.KernelIdeal.HandRun.K m ρ c Cert.KernelIdeal.main_v76 = after (Cert.ReferenceIdeal.HandRun.ops (F := Ideal)) (launchContents m' c) (Cert.ReferenceIdeal.main_v79 : DevRef Cert.ReferenceIdeal.τ Cert.ReferenceIdeal.sig) := by
  rw [Cert.KernelIdeal.HandRun.eq_v76 m ρ c,
    Cert.ReferenceIdeal.HandRun.eq_v79 (launchContents m' c),
    (br_v73 m ρ m' hagree c),
    (br_v75 m ρ m' hagree c),
    (br_v68 m ρ m' hagree c)]
  all_goals rfl

theorem br_v77 :
    Cert.KernelIdeal.HandRun.K m ρ c Cert.KernelIdeal.main_v77 = after (Cert.ReferenceIdeal.HandRun.ops (F := Ideal)) (launchContents m' c) (Cert.ReferenceIdeal.main_v80 : DevRef Cert.ReferenceIdeal.τ Cert.ReferenceIdeal.sig) := by
  rw [Cert.KernelIdeal.HandRun.eq_v77 m ρ c,
    Cert.ReferenceIdeal.HandRun.eq_v80 (launchContents m' c),
    (br_v76 m ρ m' hagree c)]
  all_goals rfl

theorem br_cst_19 :
    Cert.KernelIdeal.HandRun.K m ρ c Cert.KernelIdeal.main_cst_19 = after (Cert.ReferenceIdeal.HandRun.ops (F := Ideal)) (launchContents m' c) (Cert.ReferenceIdeal.main_cst_19 : DevRef Cert.ReferenceIdeal.τ Cert.ReferenceIdeal.sig) := by
  rw [Cert.KernelIdeal.HandRun.eq_cst_19 m ρ c,
    Cert.ReferenceIdeal.HandRun.eq_cst_19 (launchContents m' c)]
  all_goals rfl

theorem br_v78 :
    Cert.KernelIdeal.HandRun.K m ρ c Cert.KernelIdeal.main_v78 = after (Cert.ReferenceIdeal.HandRun.ops (F := Ideal)) (launchContents m' c) (Cert.ReferenceIdeal.main_v81 : DevRef Cert.ReferenceIdeal.τ Cert.ReferenceIdeal.sig) := by
  rw [Cert.KernelIdeal.HandRun.eq_v78 m ρ c,
    Cert.ReferenceIdeal.HandRun.eq_v81 (launchContents m' c),
    (br_cst_19 m ρ m' hagree c)]
  all_goals rfl

theorem br_v79 :
    Cert.KernelIdeal.HandRun.K m ρ c Cert.KernelIdeal.main_v79 = after (Cert.ReferenceIdeal.HandRun.ops (F := Ideal)) (launchContents m' c) (Cert.ReferenceIdeal.main_v82 : DevRef Cert.ReferenceIdeal.τ Cert.ReferenceIdeal.sig) := by
  rw [Cert.KernelIdeal.HandRun.eq_v79 m ρ c,
    Cert.ReferenceIdeal.HandRun.eq_v82 (launchContents m' c),
    (br_v71 m ρ m' hagree c),
    (br_v77 m ρ m' hagree c),
    (br_v78 m ρ m' hagree c)]
  all_goals rfl

end Cert.Bridge

end
-- ==== Proof.GlueBridge3.lean ====
/-
  The irregular steps agree, continued: the next operations of the table, in program order.
-/
import proofs.«103573_j30391188587216_1_alg».proof.Proof.GlueBridge2

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

theorem br_cst_20 :
    Cert.KernelIdeal.HandRun.K m ρ c Cert.KernelIdeal.main_cst_20 = after (Cert.ReferenceIdeal.HandRun.ops (F := Ideal)) (launchContents m' c) (Cert.ReferenceIdeal.main_cst_20 : DevRef Cert.ReferenceIdeal.τ Cert.ReferenceIdeal.sig) := by
  rw [Cert.KernelIdeal.HandRun.eq_cst_20 m ρ c,
    Cert.ReferenceIdeal.HandRun.eq_cst_20 (launchContents m' c)]
  all_goals rfl

theorem br_v80 :
    Cert.KernelIdeal.HandRun.K m ρ c Cert.KernelIdeal.main_v80 = after (Cert.ReferenceIdeal.HandRun.ops (F := Ideal)) (launchContents m' c) (Cert.ReferenceIdeal.main_v83 : DevRef Cert.ReferenceIdeal.τ Cert.ReferenceIdeal.sig) := by
  rw [Cert.KernelIdeal.HandRun.eq_v80 m ρ c,
    Cert.ReferenceIdeal.HandRun.eq_v83 (launchContents m' c),
    (br_cst_20 m ρ m' hagree c)]
  all_goals rfl

theorem br_v81 :
    Cert.KernelIdeal.HandRun.K m ρ c Cert.KernelIdeal.main_v81 = after (Cert.ReferenceIdeal.HandRun.ops (F := Ideal)) (launchContents m' c) (Cert.ReferenceIdeal.main_v84 : DevRef Cert.ReferenceIdeal.τ Cert.ReferenceIdeal.sig) := by
  rw [Cert.KernelIdeal.HandRun.eq_v81 m ρ c,
    Cert.ReferenceIdeal.HandRun.eq_v84 (launchContents m' c),
    (br_v79 m ρ m' hagree c),
    (br_v80 m ρ m' hagree c)]
  all_goals rfl

theorem br_cst_21 :
    Cert.KernelIdeal.HandRun.K m ρ c Cert.KernelIdeal.main_cst_21 = after (Cert.ReferenceIdeal.HandRun.ops (F := Ideal)) (launchContents m' c) (Cert.ReferenceIdeal.main_cst_21 : DevRef Cert.ReferenceIdeal.τ Cert.ReferenceIdeal.sig) := by
  rw [Cert.KernelIdeal.HandRun.eq_cst_21 m ρ c,
    Cert.ReferenceIdeal.HandRun.eq_cst_21 (launchContents m' c)]
  all_goals rfl

theorem br_v82 :
    Cert.KernelIdeal.HandRun.K m ρ c Cert.KernelIdeal.main_v82 = after (Cert.ReferenceIdeal.HandRun.ops (F := Ideal)) (launchContents m' c) (Cert.ReferenceIdeal.main_v85 : DevRef Cert.ReferenceIdeal.τ Cert.ReferenceIdeal.sig) := by
  rw [Cert.KernelIdeal.HandRun.eq_v82 m ρ c,
    Cert.ReferenceIdeal.HandRun.eq_v85 (launchContents m' c),
    (br_cst_21 m ρ m' hagree c)]
  all_goals rfl

theorem br_v83 :
    Cert.KernelIdeal.HandRun.K m ρ c Cert.KernelIdeal.main_v83 = after (Cert.ReferenceIdeal.HandRun.ops (F := Ideal)) (launchContents m' c) (Cert.ReferenceIdeal.main_v86 : DevRef Cert.ReferenceIdeal.τ Cert.ReferenceIdeal.sig) := by
  rw [Cert.KernelIdeal.HandRun.eq_v83 m ρ c,
    Cert.ReferenceIdeal.HandRun.eq_v86 (launchContents m' c),
    (br_v79 m ρ m' hagree c),
    (br_v82 m ρ m' hagree c)]
  all_goals rfl

theorem br_v84 :
    Cert.KernelIdeal.HandRun.K m ρ c Cert.KernelIdeal.main_v84 = after (Cert.ReferenceIdeal.HandRun.ops (F := Ideal)) (launchContents m' c) (Cert.ReferenceIdeal.main_v87 : DevRef Cert.ReferenceIdeal.τ Cert.ReferenceIdeal.sig) := by
  rw [Cert.KernelIdeal.HandRun.eq_v84 m ρ c,
    Cert.ReferenceIdeal.HandRun.eq_v87 (launchContents m' c),
    (br_v83 m ρ m' hagree c)]
  all_goals rfl

theorem br_cst_22 :
    Cert.KernelIdeal.HandRun.K m ρ c Cert.KernelIdeal.main_cst_22 = after (Cert.ReferenceIdeal.HandRun.ops (F := Ideal)) (launchContents m' c) (Cert.ReferenceIdeal.main_cst_22 : DevRef Cert.ReferenceIdeal.τ Cert.ReferenceIdeal.sig) := by
  rw [Cert.KernelIdeal.HandRun.eq_cst_22 m ρ c,
    Cert.ReferenceIdeal.HandRun.eq_cst_22 (launchContents m' c)]
  all_goals rfl

theorem br_call1_v0 :
    Cert.KernelIdeal.HandRun.K m ρ c Cert.KernelIdeal.main_call1_v0 = after (Cert.ReferenceIdeal.HandRun.ops (F := Ideal)) (launchContents m' c) (Cert.ReferenceIdeal.main_call1_v0 : DevRef Cert.ReferenceIdeal.τ Cert.ReferenceIdeal.sig) := by
  rw [Cert.KernelIdeal.HandRun.eq_call1_v0 m ρ c,
    Cert.ReferenceIdeal.HandRun.eq_call1_v0 (launchContents m' c),
    (br_cst_22 m ρ m' hagree c)]
  all_goals rfl

theorem br_call1_v1 :
    Cert.KernelIdeal.HandRun.K m ρ c Cert.KernelIdeal.main_call1_v1 = after (Cert.ReferenceIdeal.HandRun.ops (F := Ideal)) (launchContents m' c) (Cert.ReferenceIdeal.main_call1_v1 : DevRef Cert.ReferenceIdeal.τ Cert.ReferenceIdeal.sig) := by
  rw [Cert.KernelIdeal.HandRun.eq_call1_v1 m ρ c,
    Cert.ReferenceIdeal.HandRun.eq_call1_v1 (launchContents m' c),
    (br_call1_v0 m ρ m' hagree c)]
  all_goals rfl

theorem br_v85 :
    Cert.KernelIdeal.HandRun.K m ρ c Cert.KernelIdeal.main_v85 = after (Cert.ReferenceIdeal.HandRun.ops (F := Ideal)) (launchContents m' c) (Cert.ReferenceIdeal.main_v88 : DevRef Cert.ReferenceIdeal.τ Cert.ReferenceIdeal.sig) := by
  rw [Cert.KernelIdeal.HandRun.eq_v85 m ρ c,
    Cert.ReferenceIdeal.HandRun.eq_v88 (launchContents m' c),
    (br_v81 m ρ m' hagree c),
    (br_v84 m ρ m' hagree c),
    (br_call1_v1 m ρ m' hagree c)]
  all_goals rfl

theorem br_c_23 :
    Cert.KernelIdeal.HandRun.K m ρ c Cert.KernelIdeal.main_c_23 = after (Cert.ReferenceIdeal.HandRun.ops (F := Ideal)) (launchContents m' c) (Cert.ReferenceIdeal.main_c_23 : DevRef Cert.ReferenceIdeal.τ Cert.ReferenceIdeal.sig) := by
  rw [Cert.KernelIdeal.HandRun.eq_c_23 m ρ c,
    Cert.ReferenceIdeal.HandRun.eq_c_23 (launchContents m' c)]
  all_goals rfl

theorem br_v86 :
    Cert.KernelIdeal.HandRun.K m ρ c Cert.KernelIdeal.main_v86 = after (Cert.ReferenceIdeal.HandRun.ops (F := Ideal)) (launchContents m' c) (Cert.ReferenceIdeal.main_v89 : DevRef Cert.ReferenceIdeal.τ Cert.ReferenceIdeal.sig) := by
  rw [Cert.KernelIdeal.HandRun.eq_v86 m ρ c,
    Cert.ReferenceIdeal.HandRun.eq_v89 (launchContents m' c),
    (br_c_23 m ρ m' hagree c)]
  all_goals rfl

theorem br_v87 :
    Cert.KernelIdeal.HandRun.K m ρ c Cert.KernelIdeal.main_v87 = after (Cert.ReferenceIdeal.HandRun.ops (F := Ideal)) (launchContents m' c) (Cert.ReferenceIdeal.main_v90 : DevRef Cert.ReferenceIdeal.τ Cert.ReferenceIdeal.sig) := by
  rw [Cert.KernelIdeal.HandRun.eq_v87 m ρ c,
    Cert.ReferenceIdeal.HandRun.eq_v90 (launchContents m' c),
    (br_v68 m ρ m' hagree c),
    (br_v86 m ρ m' hagree c)]
  all_goals rfl

theorem br_c_24 :
    Cert.KernelIdeal.HandRun.K m ρ c Cert.KernelIdeal.main_c_24 = after (Cert.ReferenceIdeal.HandRun.ops (F := Ideal)) (launchContents m' c) (Cert.ReferenceIdeal.main_c_24 : DevRef Cert.ReferenceIdeal.τ Cert.ReferenceIdeal.sig) := by
  rw [Cert.KernelIdeal.HandRun.eq_c_24 m ρ c,
    Cert.ReferenceIdeal.HandRun.eq_c_24 (launchContents m' c)]
  all_goals rfl

theorem br_v88 :
    Cert.KernelIdeal.HandRun.K m ρ c Cert.KernelIdeal.main_v88 = after (Cert.ReferenceIdeal.HandRun.ops (F := Ideal)) (launchContents m' c) (Cert.ReferenceIdeal.main_v91 : DevRef Cert.ReferenceIdeal.τ Cert.ReferenceIdeal.sig) := by
  rw [Cert.KernelIdeal.HandRun.eq_v88 m ρ c,
    Cert.ReferenceIdeal.HandRun.eq_v91 (launchContents m' c),
    (br_c_24 m ρ m' hagree c)]
  all_goals rfl

theorem br_v89 :
    Cert.KernelIdeal.HandRun.K m ρ c Cert.KernelIdeal.main_v89 = after (Cert.ReferenceIdeal.HandRun.ops (F := Ideal)) (launchContents m' c) (Cert.ReferenceIdeal.main_v92 : DevRef Cert.ReferenceIdeal.τ Cert.ReferenceIdeal.sig) := by
  rw [Cert.KernelIdeal.HandRun.eq_v89 m ρ c,
    Cert.ReferenceIdeal.HandRun.eq_v92 (launchContents m' c),
    (br_v68 m ρ m' hagree c),
    (br_v88 m ρ m' hagree c)]
  all_goals rfl

theorem br_v90 :
    Cert.KernelIdeal.HandRun.K m ρ c Cert.KernelIdeal.main_v90 = after (Cert.ReferenceIdeal.HandRun.ops (F := Ideal)) (launchContents m' c) (Cert.ReferenceIdeal.main_v93 : DevRef Cert.ReferenceIdeal.τ Cert.ReferenceIdeal.sig) := by
  rw [Cert.KernelIdeal.HandRun.eq_v90 m ρ c,
    Cert.ReferenceIdeal.HandRun.eq_v93 (launchContents m' c),
    (br_v87 m ρ m' hagree c),
    (br_v89 m ρ m' hagree c),
    (br_v68 m ρ m' hagree c)]
  all_goals rfl

theorem br_v91 :
    Cert.KernelIdeal.HandRun.K m ρ c Cert.KernelIdeal.main_v91 = after (Cert.ReferenceIdeal.HandRun.ops (F := Ideal)) (launchContents m' c) (Cert.ReferenceIdeal.main_v94 : DevRef Cert.ReferenceIdeal.τ Cert.ReferenceIdeal.sig) := by
  rw [Cert.KernelIdeal.HandRun.eq_v91 m ρ c,
    Cert.ReferenceIdeal.HandRun.eq_v94 (launchContents m' c),
    (br_v90 m ρ m' hagree c)]
  all_goals rfl

theorem br_v92 :
    Cert.KernelIdeal.HandRun.K m ρ c Cert.KernelIdeal.main_v92 = after (Cert.ReferenceIdeal.HandRun.ops (F := Ideal)) (launchContents m' c) (Cert.ReferenceIdeal.main_v95 : DevRef Cert.ReferenceIdeal.τ Cert.ReferenceIdeal.sig) := by
  rw [Cert.KernelIdeal.HandRun.eq_v92 m ρ c,
    Cert.ReferenceIdeal.HandRun.eq_v95 (launchContents m' c),
    (br_v85 m ρ m' hagree c),
    (br_v91 m ρ m' hagree c)]
  all_goals rfl

theorem br_c_25 :
    Cert.KernelIdeal.HandRun.K m ρ c Cert.KernelIdeal.main_c_25 = after (Cert.ReferenceIdeal.HandRun.ops (F := Ideal)) (launchContents m' c) (Cert.ReferenceIdeal.main_c_25 : DevRef Cert.ReferenceIdeal.τ Cert.ReferenceIdeal.sig) := by
  rw [Cert.KernelIdeal.HandRun.eq_c_25 m ρ c,
    Cert.ReferenceIdeal.HandRun.eq_c_25 (launchContents m' c)]
  all_goals rfl

theorem br_v93 :
    Cert.KernelIdeal.HandRun.K m ρ c Cert.KernelIdeal.main_v93 = after (Cert.ReferenceIdeal.HandRun.ops (F := Ideal)) (launchContents m' c) (Cert.ReferenceIdeal.main_v96 : DevRef Cert.ReferenceIdeal.τ Cert.ReferenceIdeal.sig) := by
  rw [Cert.KernelIdeal.HandRun.eq_v93 m ρ c,
    Cert.ReferenceIdeal.HandRun.eq_v96 (launchContents m' c),
    (br_c_25 m ρ m' hagree c)]
  all_goals rfl

theorem br_v94 :
    Cert.KernelIdeal.HandRun.K m ρ c Cert.KernelIdeal.main_v94 = after (Cert.ReferenceIdeal.HandRun.ops (F := Ideal)) (launchContents m' c) (Cert.ReferenceIdeal.main_v97 : DevRef Cert.ReferenceIdeal.τ Cert.ReferenceIdeal.sig) := by
  rw [Cert.KernelIdeal.HandRun.eq_v94 m ρ c,
    Cert.ReferenceIdeal.HandRun.eq_v97 (launchContents m' c),
    (br_v70 m ρ m' hagree c),
    (br_v93 m ρ m' hagree c)]
  all_goals rfl

theorem br_c_26 :
    Cert.KernelIdeal.HandRun.K m ρ c Cert.KernelIdeal.main_c_26 = after (Cert.ReferenceIdeal.HandRun.ops (F := Ideal)) (launchContents m' c) (Cert.ReferenceIdeal.main_c_26 : DevRef Cert.ReferenceIdeal.τ Cert.ReferenceIdeal.sig) := by
  rw [Cert.KernelIdeal.HandRun.eq_c_26 m ρ c,
    Cert.ReferenceIdeal.HandRun.eq_c_26 (launchContents m' c)]
  all_goals rfl

theorem br_v95 :
    Cert.KernelIdeal.HandRun.K m ρ c Cert.KernelIdeal.main_v95 = after (Cert.ReferenceIdeal.HandRun.ops (F := Ideal)) (launchContents m' c) (Cert.ReferenceIdeal.main_v98 : DevRef Cert.ReferenceIdeal.τ Cert.ReferenceIdeal.sig) := by
  rw [Cert.KernelIdeal.HandRun.eq_v95 m ρ c,
    Cert.ReferenceIdeal.HandRun.eq_v98 (launchContents m' c),
    (br_c_26 m ρ m' hagree c)]
  all_goals rfl

theorem br_v96 :
    Cert.KernelIdeal.HandRun.K m ρ c Cert.KernelIdeal.main_v96 = after (Cert.ReferenceIdeal.HandRun.ops (F := Ideal)) (launchContents m' c) (Cert.ReferenceIdeal.main_v99 : DevRef Cert.ReferenceIdeal.τ Cert.ReferenceIdeal.sig) := by
  rw [Cert.KernelIdeal.HandRun.eq_v96 m ρ c,
    Cert.ReferenceIdeal.HandRun.eq_v99 (launchContents m' c),
    (br_v70 m ρ m' hagree c),
    (br_v95 m ρ m' hagree c)]
  all_goals rfl

theorem br_v97 :
    Cert.KernelIdeal.HandRun.K m ρ c Cert.KernelIdeal.main_v97 = after (Cert.ReferenceIdeal.HandRun.ops (F := Ideal)) (launchContents m' c) (Cert.ReferenceIdeal.main_v100 : DevRef Cert.ReferenceIdeal.τ Cert.ReferenceIdeal.sig) := by
  rw [Cert.KernelIdeal.HandRun.eq_v97 m ρ c,
    Cert.ReferenceIdeal.HandRun.eq_v100 (launchContents m' c),
    (br_v94 m ρ m' hagree c),
    (br_v96 m ρ m' hagree c),
    (br_v70 m ρ m' hagree c)]
  all_goals rfl

theorem br_v98 :
    Cert.KernelIdeal.HandRun.K m ρ c Cert.KernelIdeal.main_v98 = after (Cert.ReferenceIdeal.HandRun.ops (F := Ideal)) (launchContents m' c) (Cert.ReferenceIdeal.main_v101 : DevRef Cert.ReferenceIdeal.τ Cert.ReferenceIdeal.sig) := by
  rw [Cert.KernelIdeal.HandRun.eq_v98 m ρ c,
    Cert.ReferenceIdeal.HandRun.eq_v101 (launchContents m' c),
    (br_v97 m ρ m' hagree c)]
  all_goals rfl

theorem br_v99 :
    Cert.KernelIdeal.HandRun.K m ρ c Cert.KernelIdeal.main_v99 = after (Cert.ReferenceIdeal.HandRun.ops (F := Ideal)) (launchContents m' c) (Cert.ReferenceIdeal.main_v102 : DevRef Cert.ReferenceIdeal.τ Cert.ReferenceIdeal.sig) := by
  rw [Cert.KernelIdeal.HandRun.eq_v99 m ρ c,
    Cert.ReferenceIdeal.HandRun.eq_v102 (launchContents m' c),
    (br_v85 m ρ m' hagree c),
    (br_v98 m ρ m' hagree c)]
  all_goals rfl

theorem br_v100 :
    Cert.KernelIdeal.HandRun.K m ρ c Cert.KernelIdeal.main_v100 = after (Cert.ReferenceIdeal.HandRun.ops (F := Ideal)) (launchContents m' c) (Cert.ReferenceIdeal.main_v103 : DevRef Cert.ReferenceIdeal.τ Cert.ReferenceIdeal.sig) := by
  rw [Cert.KernelIdeal.HandRun.eq_v100 m ρ c,
    Cert.ReferenceIdeal.HandRun.eq_v103 (launchContents m' c),
    (br_v92 m ρ m' hagree c),
    (br_v99 m ρ m' hagree c)]
  all_goals rfl

theorem br_c_27 :
    Cert.KernelIdeal.HandRun.K m ρ c Cert.KernelIdeal.main_c_27 = after (Cert.ReferenceIdeal.HandRun.ops (F := Ideal)) (launchContents m' c) (Cert.ReferenceIdeal.main_c_27 : DevRef Cert.ReferenceIdeal.τ Cert.ReferenceIdeal.sig) := by
  rw [Cert.KernelIdeal.HandRun.eq_c_27 m ρ c,
    Cert.ReferenceIdeal.HandRun.eq_c_27 (launchContents m' c)]
  all_goals rfl

theorem br_v101 :
    Cert.KernelIdeal.HandRun.K m ρ c Cert.KernelIdeal.main_v101 = after (Cert.ReferenceIdeal.HandRun.ops (F := Ideal)) (launchContents m' c) (Cert.ReferenceIdeal.main_v104 : DevRef Cert.ReferenceIdeal.τ Cert.ReferenceIdeal.sig) := by
  rw [Cert.KernelIdeal.HandRun.eq_v101 m ρ c,
    Cert.ReferenceIdeal.HandRun.eq_v104 (launchContents m' c),
    (br_c_27 m ρ m' hagree c)]
  all_goals rfl

theorem br_v102 :
    Cert.KernelIdeal.HandRun.K m ρ c Cert.KernelIdeal.main_v102 = after (Cert.ReferenceIdeal.HandRun.ops (F := Ideal)) (launchContents m' c) (Cert.ReferenceIdeal.main_v105 : DevRef Cert.ReferenceIdeal.τ Cert.ReferenceIdeal.sig) := by
  rw [Cert.KernelIdeal.HandRun.eq_v102 m ρ c,
    Cert.ReferenceIdeal.HandRun.eq_v105 (launchContents m' c),
    (br_v68 m ρ m' hagree c),
    (br_v101 m ρ m' hagree c)]
  all_goals rfl

theorem br_c_28 :
    Cert.KernelIdeal.HandRun.K m ρ c Cert.KernelIdeal.main_c_28 = after (Cert.ReferenceIdeal.HandRun.ops (F := Ideal)) (launchContents m' c) (Cert.ReferenceIdeal.main_c_28 : DevRef Cert.ReferenceIdeal.τ Cert.ReferenceIdeal.sig) := by
  rw [Cert.KernelIdeal.HandRun.eq_c_28 m ρ c,
    Cert.ReferenceIdeal.HandRun.eq_c_28 (launchContents m' c)]
  all_goals rfl

theorem br_v103 :
    Cert.KernelIdeal.HandRun.K m ρ c Cert.KernelIdeal.main_v103 = after (Cert.ReferenceIdeal.HandRun.ops (F := Ideal)) (launchContents m' c) (Cert.ReferenceIdeal.main_v106 : DevRef Cert.ReferenceIdeal.τ Cert.ReferenceIdeal.sig) := by
  rw [Cert.KernelIdeal.HandRun.eq_v103 m ρ c,
    Cert.ReferenceIdeal.HandRun.eq_v106 (launchContents m' c),
    (br_c_28 m ρ m' hagree c)]
  all_goals rfl

theorem br_v104 :
    Cert.KernelIdeal.HandRun.K m ρ c Cert.KernelIdeal.main_v104 = after (Cert.ReferenceIdeal.HandRun.ops (F := Ideal)) (launchContents m' c) (Cert.ReferenceIdeal.main_v107 : DevRef Cert.ReferenceIdeal.τ Cert.ReferenceIdeal.sig) := by
  rw [Cert.KernelIdeal.HandRun.eq_v104 m ρ c,
    Cert.ReferenceIdeal.HandRun.eq_v107 (launchContents m' c),
    (br_v68 m ρ m' hagree c),
    (br_v103 m ρ m' hagree c)]
  all_goals rfl

theorem br_v105 :
    Cert.KernelIdeal.HandRun.K m ρ c Cert.KernelIdeal.main_v105 = after (Cert.ReferenceIdeal.HandRun.ops (F := Ideal)) (launchContents m' c) (Cert.ReferenceIdeal.main_v108 : DevRef Cert.ReferenceIdeal.τ Cert.ReferenceIdeal.sig) := by
  rw [Cert.KernelIdeal.HandRun.eq_v105 m ρ c,
    Cert.ReferenceIdeal.HandRun.eq_v108 (launchContents m' c),
    (br_v102 m ρ m' hagree c),
    (br_v104 m ρ m' hagree c),
    (br_v68 m ρ m' hagree c)]
  all_goals rfl

theorem br_v106 :
    Cert.KernelIdeal.HandRun.K m ρ c Cert.KernelIdeal.main_v106 = after (Cert.ReferenceIdeal.HandRun.ops (F := Ideal)) (launchContents m' c) (Cert.ReferenceIdeal.main_v109 : DevRef Cert.ReferenceIdeal.τ Cert.ReferenceIdeal.sig) := by
  rw [Cert.KernelIdeal.HandRun.eq_v106 m ρ c,
    Cert.ReferenceIdeal.HandRun.eq_v109 (launchContents m' c),
    (br_v105 m ρ m' hagree c)]
  all_goals rfl

theorem br_v107
    (hs_v3 : Cert.KernelIdeal.HandRun.K m ρ c Cert.KernelIdeal.main_v3 = after (Cert.ReferenceIdeal.HandRun.ops (F := Ideal)) (launchContents m' c) (Cert.ReferenceIdeal.main_v4 : DevRef Cert.ReferenceIdeal.τ Cert.ReferenceIdeal.sig)) :
    Cert.KernelIdeal.HandRun.K m ρ c Cert.KernelIdeal.main_v107 = after (Cert.ReferenceIdeal.HandRun.ops (F := Ideal)) (launchContents m' c) (Cert.ReferenceIdeal.main_v110 : DevRef Cert.ReferenceIdeal.τ Cert.ReferenceIdeal.sig) := by
  rw [Cert.KernelIdeal.HandRun.eq_v107 m ρ c,
    Cert.ReferenceIdeal.HandRun.eq_v110 (launchContents m' c),
    hs_v3,
    (br_v106 m ρ m' hagree c)]
  all_goals rfl

theorem br_c_29 :
    Cert.KernelIdeal.HandRun.K m ρ c Cert.KernelIdeal.main_c_29 = after (Cert.ReferenceIdeal.HandRun.ops (F := Ideal)) (launchContents m' c) (Cert.ReferenceIdeal.main_c_29 : DevRef Cert.ReferenceIdeal.τ Cert.ReferenceIdeal.sig) := by
  rw [Cert.KernelIdeal.HandRun.eq_c_29 m ρ c,
    Cert.ReferenceIdeal.HandRun.eq_c_29 (launchContents m' c)]
  all_goals rfl

theorem br_v108 :
    Cert.KernelIdeal.HandRun.K m ρ c Cert.KernelIdeal.main_v108 = after (Cert.ReferenceIdeal.HandRun.ops (F := Ideal)) (launchContents m' c) (Cert.ReferenceIdeal.main_v111 : DevRef Cert.ReferenceIdeal.τ Cert.ReferenceIdeal.sig) := by
  rw [Cert.KernelIdeal.HandRun.eq_v108 m ρ c,
    Cert.ReferenceIdeal.HandRun.eq_v111 (launchContents m' c),
    (br_c_29 m ρ m' hagree c)]
  all_goals rfl

theorem br_v109 :
    Cert.KernelIdeal.HandRun.K m ρ c Cert.KernelIdeal.main_v109 = after (Cert.ReferenceIdeal.HandRun.ops (F := Ideal)) (launchContents m' c) (Cert.ReferenceIdeal.main_v112 : DevRef Cert.ReferenceIdeal.τ Cert.ReferenceIdeal.sig) := by
  rw [Cert.KernelIdeal.HandRun.eq_v109 m ρ c,
    Cert.ReferenceIdeal.HandRun.eq_v112 (launchContents m' c),
    (br_v66 m ρ m' hagree c),
    (br_v108 m ρ m' hagree c)]
  all_goals rfl

theorem br_c_30 :
    Cert.KernelIdeal.HandRun.K m ρ c Cert.KernelIdeal.main_c_30 = after (Cert.ReferenceIdeal.HandRun.ops (F := Ideal)) (launchContents m' c) (Cert.ReferenceIdeal.main_c_30 : DevRef Cert.ReferenceIdeal.τ Cert.ReferenceIdeal.sig) := by
  rw [Cert.KernelIdeal.HandRun.eq_c_30 m ρ c,
    Cert.ReferenceIdeal.HandRun.eq_c_30 (launchContents m' c)]
  all_goals rfl

theorem br_v110 :
    Cert.KernelIdeal.HandRun.K m ρ c Cert.KernelIdeal.main_v110 = after (Cert.ReferenceIdeal.HandRun.ops (F := Ideal)) (launchContents m' c) (Cert.ReferenceIdeal.main_v113 : DevRef Cert.ReferenceIdeal.τ Cert.ReferenceIdeal.sig) := by
  rw [Cert.KernelIdeal.HandRun.eq_v110 m ρ c,
    Cert.ReferenceIdeal.HandRun.eq_v113 (launchContents m' c),
    (br_c_30 m ρ m' hagree c)]
  all_goals rfl

theorem br_v111 :
    Cert.KernelIdeal.HandRun.K m ρ c Cert.KernelIdeal.main_v111 = after (Cert.ReferenceIdeal.HandRun.ops (F := Ideal)) (launchContents m' c) (Cert.ReferenceIdeal.main_v114 : DevRef Cert.ReferenceIdeal.τ Cert.ReferenceIdeal.sig) := by
  rw [Cert.KernelIdeal.HandRun.eq_v111 m ρ c,
    Cert.ReferenceIdeal.HandRun.eq_v114 (launchContents m' c),
    (br_v66 m ρ m' hagree c),
    (br_v110 m ρ m' hagree c)]
  all_goals rfl

theorem br_v112 :
    Cert.KernelIdeal.HandRun.K m ρ c Cert.KernelIdeal.main_v112 = after (Cert.ReferenceIdeal.HandRun.ops (F := Ideal)) (launchContents m' c) (Cert.ReferenceIdeal.main_v115 : DevRef Cert.ReferenceIdeal.τ Cert.ReferenceIdeal.sig) := by
  rw [Cert.KernelIdeal.HandRun.eq_v112 m ρ c,
    Cert.ReferenceIdeal.HandRun.eq_v115 (launchContents m' c),
    (br_v109 m ρ m' hagree c),
    (br_v111 m ρ m' hagree c),
    (br_v66 m ρ m' hagree c)]
  all_goals rfl

theorem br_v113 :
    Cert.KernelIdeal.HandRun.K m ρ c Cert.KernelIdeal.main_v113 = after (Cert.ReferenceIdeal.HandRun.ops (F := Ideal)) (launchContents m' c) (Cert.ReferenceIdeal.main_v116 : DevRef Cert.ReferenceIdeal.τ Cert.ReferenceIdeal.sig) := by
  rw [Cert.KernelIdeal.HandRun.eq_v113 m ρ c,
    Cert.ReferenceIdeal.HandRun.eq_v116 (launchContents m' c),
    (br_v112 m ρ m' hagree c)]
  all_goals rfl

theorem br_v114 :
    Cert.KernelIdeal.HandRun.K m ρ c Cert.KernelIdeal.main_v114 = after (Cert.ReferenceIdeal.HandRun.ops (F := Ideal)) (launchContents m' c) (Cert.ReferenceIdeal.main_v117 : DevRef Cert.ReferenceIdeal.τ Cert.ReferenceIdeal.sig) := by
  rw [Cert.KernelIdeal.HandRun.eq_v114 m ρ c,
    Cert.ReferenceIdeal.HandRun.eq_v117 (launchContents m' c),
    (br_v2 m ρ m' hagree c),
    (br_v113 m ρ m' hagree c)]
  all_goals rfl

theorem br_v115
    (hs_v3 : Cert.KernelIdeal.HandRun.K m ρ c Cert.KernelIdeal.main_v3 = after (Cert.ReferenceIdeal.HandRun.ops (F := Ideal)) (launchContents m' c) (Cert.ReferenceIdeal.main_v4 : DevRef Cert.ReferenceIdeal.τ Cert.ReferenceIdeal.sig)) :
    Cert.KernelIdeal.HandRun.K m ρ c Cert.KernelIdeal.main_v115 = after (Cert.ReferenceIdeal.HandRun.ops (F := Ideal)) (launchContents m' c) (Cert.ReferenceIdeal.main_v118 : DevRef Cert.ReferenceIdeal.τ Cert.ReferenceIdeal.sig) := by
  rw [Cert.KernelIdeal.HandRun.eq_v115 m ρ c,
    Cert.ReferenceIdeal.HandRun.eq_v118 (launchContents m' c),
    (br_v107 m ρ m' hagree c hs_v3),
    (br_v114 m ρ m' hagree c)]
  all_goals rfl

theorem br_v116 :
    Cert.KernelIdeal.HandRun.K m ρ c Cert.KernelIdeal.main_v116 = after (Cert.ReferenceIdeal.HandRun.ops (F := Ideal)) (launchContents m' c) (Cert.ReferenceIdeal.main_v120 : DevRef Cert.ReferenceIdeal.τ Cert.ReferenceIdeal.sig) := by
  rw [Cert.KernelIdeal.HandRun.eq_v116 m ρ c,
    Cert.ReferenceIdeal.HandRun.eq_v120 (launchContents m' c),
    (br_v100 m ρ m' hagree c)]
  all_goals rfl

end Cert.Bridge

end
-- ==== Proof.GlueBridge4.lean ====
/-
  The irregular steps agree, continued: the next operations of the table, in program order.
-/
import proofs.«103573_j30391188587216_1_alg».proof.Proof.GlueBridge3

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

theorem br_cst_31 :
    Cert.KernelIdeal.HandRun.K m ρ c Cert.KernelIdeal.main_cst_31 = after (Cert.ReferenceIdeal.HandRun.ops (F := Ideal)) (launchContents m' c) (Cert.ReferenceIdeal.main_cst_31 : DevRef Cert.ReferenceIdeal.τ Cert.ReferenceIdeal.sig) := by
  rw [Cert.KernelIdeal.HandRun.eq_cst_31 m ρ c,
    Cert.ReferenceIdeal.HandRun.eq_cst_31 (launchContents m' c)]
  all_goals rfl

theorem br_v118 :
    Cert.KernelIdeal.HandRun.K m ρ c Cert.KernelIdeal.main_v118 = after (Cert.ReferenceIdeal.HandRun.ops (F := Ideal)) (launchContents m' c) (Cert.ReferenceIdeal.main_v123 : DevRef Cert.ReferenceIdeal.τ Cert.ReferenceIdeal.sig) := by
  rw [Cert.KernelIdeal.HandRun.eq_v118 m ρ c,
    Cert.ReferenceIdeal.HandRun.eq_v123 (launchContents m' c),
    (br_cst_31 m ρ m' hagree c)]
  all_goals rfl

theorem br_c_32 :
    Cert.KernelIdeal.HandRun.K m ρ c Cert.KernelIdeal.main_c_32 = after (Cert.ReferenceIdeal.HandRun.ops (F := Ideal)) (launchContents m' c) (Cert.ReferenceIdeal.main_c_32 : DevRef Cert.ReferenceIdeal.τ Cert.ReferenceIdeal.sig) := by
  rw [Cert.KernelIdeal.HandRun.eq_c_32 m ρ c,
    Cert.ReferenceIdeal.HandRun.eq_c_32 (launchContents m' c)]
  all_goals rfl

theorem br_v119 :
    Cert.KernelIdeal.HandRun.K m ρ c Cert.KernelIdeal.main_v119 = after (Cert.ReferenceIdeal.HandRun.ops (F := Ideal)) (launchContents m' c) (Cert.ReferenceIdeal.main_v124 : DevRef Cert.ReferenceIdeal.τ Cert.ReferenceIdeal.sig) := by
  rw [Cert.KernelIdeal.HandRun.eq_v119 m ρ c,
    Cert.ReferenceIdeal.HandRun.eq_v124 (launchContents m' c),
    (br_c_32 m ρ m' hagree c)]
  all_goals rfl

theorem br_v120 :
    Cert.KernelIdeal.HandRun.K m ρ c Cert.KernelIdeal.main_v120 = after (Cert.ReferenceIdeal.HandRun.ops (F := Ideal)) (launchContents m' c) (Cert.ReferenceIdeal.main_v125 : DevRef Cert.ReferenceIdeal.τ Cert.ReferenceIdeal.sig) := by
  rw [Cert.KernelIdeal.HandRun.eq_v120 m ρ c,
    Cert.ReferenceIdeal.HandRun.eq_v125 (launchContents m' c),
    (br_v70 m ρ m' hagree c),
    (br_v119 m ρ m' hagree c)]
  all_goals rfl

theorem br_c_33 :
    Cert.KernelIdeal.HandRun.K m ρ c Cert.KernelIdeal.main_c_33 = after (Cert.ReferenceIdeal.HandRun.ops (F := Ideal)) (launchContents m' c) (Cert.ReferenceIdeal.main_c_33 : DevRef Cert.ReferenceIdeal.τ Cert.ReferenceIdeal.sig) := by
  rw [Cert.KernelIdeal.HandRun.eq_c_33 m ρ c,
    Cert.ReferenceIdeal.HandRun.eq_c_33 (launchContents m' c)]
  all_goals rfl

theorem br_v121 :
    Cert.KernelIdeal.HandRun.K m ρ c Cert.KernelIdeal.main_v121 = after (Cert.ReferenceIdeal.HandRun.ops (F := Ideal)) (launchContents m' c) (Cert.ReferenceIdeal.main_v126 : DevRef Cert.ReferenceIdeal.τ Cert.ReferenceIdeal.sig) := by
  rw [Cert.KernelIdeal.HandRun.eq_v121 m ρ c,
    Cert.ReferenceIdeal.HandRun.eq_v126 (launchContents m' c),
    (br_c_33 m ρ m' hagree c)]
  all_goals rfl

theorem br_v122 :
    Cert.KernelIdeal.HandRun.K m ρ c Cert.KernelIdeal.main_v122 = after (Cert.ReferenceIdeal.HandRun.ops (F := Ideal)) (launchContents m' c) (Cert.ReferenceIdeal.main_v127 : DevRef Cert.ReferenceIdeal.τ Cert.ReferenceIdeal.sig) := by
  rw [Cert.KernelIdeal.HandRun.eq_v122 m ρ c,
    Cert.ReferenceIdeal.HandRun.eq_v127 (launchContents m' c),
    (br_v70 m ρ m' hagree c),
    (br_v121 m ρ m' hagree c)]
  all_goals rfl

theorem br_v123 :
    Cert.KernelIdeal.HandRun.K m ρ c Cert.KernelIdeal.main_v123 = after (Cert.ReferenceIdeal.HandRun.ops (F := Ideal)) (launchContents m' c) (Cert.ReferenceIdeal.main_v128 : DevRef Cert.ReferenceIdeal.τ Cert.ReferenceIdeal.sig) := by
  rw [Cert.KernelIdeal.HandRun.eq_v123 m ρ c,
    Cert.ReferenceIdeal.HandRun.eq_v128 (launchContents m' c),
    (br_v120 m ρ m' hagree c),
    (br_v122 m ρ m' hagree c),
    (br_v70 m ρ m' hagree c)]
  all_goals rfl

theorem br_v124 :
    Cert.KernelIdeal.HandRun.K m ρ c Cert.KernelIdeal.main_v124 = after (Cert.ReferenceIdeal.HandRun.ops (F := Ideal)) (launchContents m' c) (Cert.ReferenceIdeal.main_v129 : DevRef Cert.ReferenceIdeal.τ Cert.ReferenceIdeal.sig) := by
  rw [Cert.KernelIdeal.HandRun.eq_v124 m ρ c,
    Cert.ReferenceIdeal.HandRun.eq_v129 (launchContents m' c),
    (br_v123 m ρ m' hagree c)]
  all_goals rfl

theorem br_v125
    (hs_v117 : Cert.KernelIdeal.HandRun.K m ρ c Cert.KernelIdeal.main_v117 = after (Cert.ReferenceIdeal.HandRun.ops (F := Ideal)) (launchContents m' c) (Cert.ReferenceIdeal.main_v122 : DevRef Cert.ReferenceIdeal.τ Cert.ReferenceIdeal.sig)) :
    Cert.KernelIdeal.HandRun.K m ρ c Cert.KernelIdeal.main_v125 = after (Cert.ReferenceIdeal.HandRun.ops (F := Ideal)) (launchContents m' c) (Cert.ReferenceIdeal.main_v130 : DevRef Cert.ReferenceIdeal.τ Cert.ReferenceIdeal.sig) := by
  rw [Cert.KernelIdeal.HandRun.eq_v125 m ρ c,
    Cert.ReferenceIdeal.HandRun.eq_v130 (launchContents m' c),
    (br_v118 m ρ m' hagree c),
    (br_v124 m ρ m' hagree c),
    hs_v117]
  all_goals rfl

theorem br_v126
    (hs_v56 : Cert.KernelIdeal.HandRun.K m ρ c Cert.KernelIdeal.main_v56 = after (Cert.ReferenceIdeal.HandRun.ops (F := Ideal)) (launchContents m' c) (Cert.ReferenceIdeal.main_v59 : DevRef Cert.ReferenceIdeal.τ Cert.ReferenceIdeal.sig))
    (hs_v117 : Cert.KernelIdeal.HandRun.K m ρ c Cert.KernelIdeal.main_v117 = after (Cert.ReferenceIdeal.HandRun.ops (F := Ideal)) (launchContents m' c) (Cert.ReferenceIdeal.main_v122 : DevRef Cert.ReferenceIdeal.τ Cert.ReferenceIdeal.sig)) :
    Cert.KernelIdeal.HandRun.K m ρ c Cert.KernelIdeal.main_v126 = after (Cert.ReferenceIdeal.HandRun.ops (F := Ideal)) (launchContents m' c) (Cert.ReferenceIdeal.main_v137 : DevRef Cert.ReferenceIdeal.τ Cert.ReferenceIdeal.sig) := by
  rw [Cert.KernelIdeal.HandRun.eq_v126 m ρ c,
    Cert.ReferenceIdeal.HandRun.eq_v137 (launchContents m' c),
    (br_v64 m ρ m' hagree c hs_v56),
    (br_v125 m ρ m' hagree c hs_v117)]
  all_goals rfl

theorem br_v137
    (hs_v136 : Cert.KernelIdeal.HandRun.K m ρ c Cert.KernelIdeal.main_v136 = after (Cert.ReferenceIdeal.HandRun.ops (F := Ideal)) (launchContents m' c) (Cert.ReferenceIdeal.main_v158 : DevRef Cert.ReferenceIdeal.τ Cert.ReferenceIdeal.sig)) :
    Cert.KernelIdeal.HandRun.K m ρ c Cert.KernelIdeal.main_v137 = after (Cert.ReferenceIdeal.HandRun.ops (F := Ideal)) (launchContents m' c) (Cert.ReferenceIdeal.main_v159 : DevRef Cert.ReferenceIdeal.τ Cert.ReferenceIdeal.sig) := by
  rw [Cert.KernelIdeal.HandRun.eq_v137 m ρ c,
    Cert.ReferenceIdeal.HandRun.eq_v159 (launchContents m' c),
    hs_v136]
  all_goals rfl

theorem br_v138
    (hs_v136 : Cert.KernelIdeal.HandRun.K m ρ c Cert.KernelIdeal.main_v136 = after (Cert.ReferenceIdeal.HandRun.ops (F := Ideal)) (launchContents m' c) (Cert.ReferenceIdeal.main_v158 : DevRef Cert.ReferenceIdeal.τ Cert.ReferenceIdeal.sig)) :
    Cert.KernelIdeal.HandRun.K m ρ c Cert.KernelIdeal.main_v138 = after (Cert.ReferenceIdeal.HandRun.ops (F := Ideal)) (launchContents m' c) (Cert.ReferenceIdeal.main_v160 : DevRef Cert.ReferenceIdeal.τ Cert.ReferenceIdeal.sig) := by
  rw [Cert.KernelIdeal.HandRun.eq_v138 m ρ c,
    Cert.ReferenceIdeal.HandRun.eq_v160 (launchContents m' c),
    (br_v137 m ρ m' hagree c hs_v136),
    (bk_arg20 m ρ m' hagree c)]
  all_goals rfl

theorem br_v140 :
    Cert.KernelIdeal.HandRun.K m ρ c Cert.KernelIdeal.main_v140 = after (Cert.ReferenceIdeal.HandRun.ops (F := Ideal)) (launchContents m' c) (Cert.ReferenceIdeal.main_v163 : DevRef Cert.ReferenceIdeal.τ Cert.ReferenceIdeal.sig) := by
  rw [Cert.KernelIdeal.HandRun.eq_v140 m ρ c,
    Cert.ReferenceIdeal.HandRun.eq_v163 (launchContents m' c),
    (bk_arg2 m ρ m' hagree c)]
  all_goals rfl

theorem br_v141 :
    Cert.KernelIdeal.HandRun.K m ρ c Cert.KernelIdeal.main_v141 = after (Cert.ReferenceIdeal.HandRun.ops (F := Ideal)) (launchContents m' c) (Cert.ReferenceIdeal.main_v164 : DevRef Cert.ReferenceIdeal.τ Cert.ReferenceIdeal.sig) := by
  rw [Cert.KernelIdeal.HandRun.eq_v141 m ρ c,
    Cert.ReferenceIdeal.HandRun.eq_v164 (launchContents m' c),
    (bk_arg3 m ρ m' hagree c)]
  all_goals rfl

theorem br_v142 :
    Cert.KernelIdeal.HandRun.K m ρ c Cert.KernelIdeal.main_v142 = after (Cert.ReferenceIdeal.HandRun.ops (F := Ideal)) (launchContents m' c) (Cert.ReferenceIdeal.main_v165 : DevRef Cert.ReferenceIdeal.τ Cert.ReferenceIdeal.sig) := by
  rw [Cert.KernelIdeal.HandRun.eq_v142 m ρ c,
    Cert.ReferenceIdeal.HandRun.eq_v165 (launchContents m' c),
    (br_v140 m ρ m' hagree c)]
  all_goals rfl

theorem br_v143 :
    Cert.KernelIdeal.HandRun.K m ρ c Cert.KernelIdeal.main_v143 = after (Cert.ReferenceIdeal.HandRun.ops (F := Ideal)) (launchContents m' c) (Cert.ReferenceIdeal.main_v166 : DevRef Cert.ReferenceIdeal.τ Cert.ReferenceIdeal.sig) := by
  rw [Cert.KernelIdeal.HandRun.eq_v143 m ρ c,
    Cert.ReferenceIdeal.HandRun.eq_v166 (launchContents m' c),
    (br_v142 m ρ m' hagree c)]
  all_goals rfl

theorem br_v144 :
    Cert.KernelIdeal.HandRun.K m ρ c Cert.KernelIdeal.main_v144 = after (Cert.ReferenceIdeal.HandRun.ops (F := Ideal)) (launchContents m' c) (Cert.ReferenceIdeal.main_v167 : DevRef Cert.ReferenceIdeal.τ Cert.ReferenceIdeal.sig) := by
  rw [Cert.KernelIdeal.HandRun.eq_v144 m ρ c,
    Cert.ReferenceIdeal.HandRun.eq_v167 (launchContents m' c),
    (br_v140 m ρ m' hagree c)]
  all_goals rfl

theorem br_v145 :
    Cert.KernelIdeal.HandRun.K m ρ c Cert.KernelIdeal.main_v145 = after (Cert.ReferenceIdeal.HandRun.ops (F := Ideal)) (launchContents m' c) (Cert.ReferenceIdeal.main_v168 : DevRef Cert.ReferenceIdeal.τ Cert.ReferenceIdeal.sig) := by
  rw [Cert.KernelIdeal.HandRun.eq_v145 m ρ c,
    Cert.ReferenceIdeal.HandRun.eq_v168 (launchContents m' c),
    (br_v144 m ρ m' hagree c)]
  all_goals rfl

theorem br_cst_36 :
    Cert.KernelIdeal.HandRun.K m ρ c Cert.KernelIdeal.main_cst_36 = after (Cert.ReferenceIdeal.HandRun.ops (F := Ideal)) (launchContents m' c) (Cert.ReferenceIdeal.main_cst_39 : DevRef Cert.ReferenceIdeal.τ Cert.ReferenceIdeal.sig) := by
  rw [Cert.KernelIdeal.HandRun.eq_cst_36 m ρ c,
    Cert.ReferenceIdeal.HandRun.eq_cst_39 (launchContents m' c)]
  all_goals rfl

theorem br_v146 :
    Cert.KernelIdeal.HandRun.K m ρ c Cert.KernelIdeal.main_v146 = after (Cert.ReferenceIdeal.HandRun.ops (F := Ideal)) (launchContents m' c) (Cert.ReferenceIdeal.main_v169 : DevRef Cert.ReferenceIdeal.τ Cert.ReferenceIdeal.sig) := by
  rw [Cert.KernelIdeal.HandRun.eq_v146 m ρ c,
    Cert.ReferenceIdeal.HandRun.eq_v169 (launchContents m' c),
    (br_cst_36 m ρ m' hagree c)]
  all_goals rfl

theorem br_c_37 :
    Cert.KernelIdeal.HandRun.K m ρ c Cert.KernelIdeal.main_c_37 = after (Cert.ReferenceIdeal.HandRun.ops (F := Ideal)) (launchContents m' c) (Cert.ReferenceIdeal.main_c_40 : DevRef Cert.ReferenceIdeal.τ Cert.ReferenceIdeal.sig) := by
  rw [Cert.KernelIdeal.HandRun.eq_c_37 m ρ c,
    Cert.ReferenceIdeal.HandRun.eq_c_40 (launchContents m' c)]
  all_goals rfl

theorem br_v147 :
    Cert.KernelIdeal.HandRun.K m ρ c Cert.KernelIdeal.main_v147 = after (Cert.ReferenceIdeal.HandRun.ops (F := Ideal)) (launchContents m' c) (Cert.ReferenceIdeal.main_v170 : DevRef Cert.ReferenceIdeal.τ Cert.ReferenceIdeal.sig) := by
  rw [Cert.KernelIdeal.HandRun.eq_v147 m ρ c,
    Cert.ReferenceIdeal.HandRun.eq_v170 (launchContents m' c),
    (br_c_37 m ρ m' hagree c)]
  all_goals rfl

theorem br_v148 :
    Cert.KernelIdeal.HandRun.K m ρ c Cert.KernelIdeal.main_v148 = after (Cert.ReferenceIdeal.HandRun.ops (F := Ideal)) (launchContents m' c) (Cert.ReferenceIdeal.main_v171 : DevRef Cert.ReferenceIdeal.τ Cert.ReferenceIdeal.sig) := by
  rw [Cert.KernelIdeal.HandRun.eq_v148 m ρ c,
    Cert.ReferenceIdeal.HandRun.eq_v171 (launchContents m' c),
    (br_v143 m ρ m' hagree c),
    (br_v147 m ρ m' hagree c)]
  all_goals rfl

theorem br_c_38 :
    Cert.KernelIdeal.HandRun.K m ρ c Cert.KernelIdeal.main_c_38 = after (Cert.ReferenceIdeal.HandRun.ops (F := Ideal)) (launchContents m' c) (Cert.ReferenceIdeal.main_c_41 : DevRef Cert.ReferenceIdeal.τ Cert.ReferenceIdeal.sig) := by
  rw [Cert.KernelIdeal.HandRun.eq_c_38 m ρ c,
    Cert.ReferenceIdeal.HandRun.eq_c_41 (launchContents m' c)]
  all_goals rfl

theorem br_v149 :
    Cert.KernelIdeal.HandRun.K m ρ c Cert.KernelIdeal.main_v149 = after (Cert.ReferenceIdeal.HandRun.ops (F := Ideal)) (launchContents m' c) (Cert.ReferenceIdeal.main_v172 : DevRef Cert.ReferenceIdeal.τ Cert.ReferenceIdeal.sig) := by
  rw [Cert.KernelIdeal.HandRun.eq_v149 m ρ c,
    Cert.ReferenceIdeal.HandRun.eq_v172 (launchContents m' c),
    (br_c_38 m ρ m' hagree c)]
  all_goals rfl

theorem br_v150 :
    Cert.KernelIdeal.HandRun.K m ρ c Cert.KernelIdeal.main_v150 = after (Cert.ReferenceIdeal.HandRun.ops (F := Ideal)) (launchContents m' c) (Cert.ReferenceIdeal.main_v173 : DevRef Cert.ReferenceIdeal.τ Cert.ReferenceIdeal.sig) := by
  rw [Cert.KernelIdeal.HandRun.eq_v150 m ρ c,
    Cert.ReferenceIdeal.HandRun.eq_v173 (launchContents m' c),
    (br_v143 m ρ m' hagree c),
    (br_v149 m ρ m' hagree c)]
  all_goals rfl

theorem br_v151 :
    Cert.KernelIdeal.HandRun.K m ρ c Cert.KernelIdeal.main_v151 = after (Cert.ReferenceIdeal.HandRun.ops (F := Ideal)) (launchContents m' c) (Cert.ReferenceIdeal.main_v174 : DevRef Cert.ReferenceIdeal.τ Cert.ReferenceIdeal.sig) := by
  rw [Cert.KernelIdeal.HandRun.eq_v151 m ρ c,
    Cert.ReferenceIdeal.HandRun.eq_v174 (launchContents m' c),
    (br_v148 m ρ m' hagree c),
    (br_v150 m ρ m' hagree c),
    (br_v143 m ρ m' hagree c)]
  all_goals rfl

theorem br_v152 :
    Cert.KernelIdeal.HandRun.K m ρ c Cert.KernelIdeal.main_v152 = after (Cert.ReferenceIdeal.HandRun.ops (F := Ideal)) (launchContents m' c) (Cert.ReferenceIdeal.main_v175 : DevRef Cert.ReferenceIdeal.τ Cert.ReferenceIdeal.sig) := by
  rw [Cert.KernelIdeal.HandRun.eq_v152 m ρ c,
    Cert.ReferenceIdeal.HandRun.eq_v175 (launchContents m' c),
    (br_v151 m ρ m' hagree c)]
  all_goals rfl

theorem br_cst_39 :
    Cert.KernelIdeal.HandRun.K m ρ c Cert.KernelIdeal.main_cst_39 = after (Cert.ReferenceIdeal.HandRun.ops (F := Ideal)) (launchContents m' c) (Cert.ReferenceIdeal.main_cst_42 : DevRef Cert.ReferenceIdeal.τ Cert.ReferenceIdeal.sig) := by
  rw [Cert.KernelIdeal.HandRun.eq_cst_39 m ρ c,
    Cert.ReferenceIdeal.HandRun.eq_cst_42 (launchContents m' c)]
  all_goals rfl

theorem br_v153 :
    Cert.KernelIdeal.HandRun.K m ρ c Cert.KernelIdeal.main_v153 = after (Cert.ReferenceIdeal.HandRun.ops (F := Ideal)) (launchContents m' c) (Cert.ReferenceIdeal.main_v176 : DevRef Cert.ReferenceIdeal.τ Cert.ReferenceIdeal.sig) := by
  rw [Cert.KernelIdeal.HandRun.eq_v153 m ρ c,
    Cert.ReferenceIdeal.HandRun.eq_v176 (launchContents m' c),
    (br_cst_39 m ρ m' hagree c)]
  all_goals rfl

theorem br_v154 :
    Cert.KernelIdeal.HandRun.K m ρ c Cert.KernelIdeal.main_v154 = after (Cert.ReferenceIdeal.HandRun.ops (F := Ideal)) (launchContents m' c) (Cert.ReferenceIdeal.main_v177 : DevRef Cert.ReferenceIdeal.τ Cert.ReferenceIdeal.sig) := by
  rw [Cert.KernelIdeal.HandRun.eq_v154 m ρ c,
    Cert.ReferenceIdeal.HandRun.eq_v177 (launchContents m' c),
    (br_v146 m ρ m' hagree c),
    (br_v152 m ρ m' hagree c),
    (br_v153 m ρ m' hagree c)]
  all_goals rfl

theorem br_cst_40 :
    Cert.KernelIdeal.HandRun.K m ρ c Cert.KernelIdeal.main_cst_40 = after (Cert.ReferenceIdeal.HandRun.ops (F := Ideal)) (launchContents m' c) (Cert.ReferenceIdeal.main_cst_43 : DevRef Cert.ReferenceIdeal.τ Cert.ReferenceIdeal.sig) := by
  rw [Cert.KernelIdeal.HandRun.eq_cst_40 m ρ c,
    Cert.ReferenceIdeal.HandRun.eq_cst_43 (launchContents m' c)]
  all_goals rfl

theorem br_v155 :
    Cert.KernelIdeal.HandRun.K m ρ c Cert.KernelIdeal.main_v155 = after (Cert.ReferenceIdeal.HandRun.ops (F := Ideal)) (launchContents m' c) (Cert.ReferenceIdeal.main_v178 : DevRef Cert.ReferenceIdeal.τ Cert.ReferenceIdeal.sig) := by
  rw [Cert.KernelIdeal.HandRun.eq_v155 m ρ c,
    Cert.ReferenceIdeal.HandRun.eq_v178 (launchContents m' c),
    (br_cst_40 m ρ m' hagree c)]
  all_goals rfl

theorem br_v156 :
    Cert.KernelIdeal.HandRun.K m ρ c Cert.KernelIdeal.main_v156 = after (Cert.ReferenceIdeal.HandRun.ops (F := Ideal)) (launchContents m' c) (Cert.ReferenceIdeal.main_v179 : DevRef Cert.ReferenceIdeal.τ Cert.ReferenceIdeal.sig) := by
  rw [Cert.KernelIdeal.HandRun.eq_v156 m ρ c,
    Cert.ReferenceIdeal.HandRun.eq_v179 (launchContents m' c),
    (br_v154 m ρ m' hagree c),
    (br_v155 m ρ m' hagree c)]
  all_goals rfl

theorem br_cst_41 :
    Cert.KernelIdeal.HandRun.K m ρ c Cert.KernelIdeal.main_cst_41 = after (Cert.ReferenceIdeal.HandRun.ops (F := Ideal)) (launchContents m' c) (Cert.ReferenceIdeal.main_cst_44 : DevRef Cert.ReferenceIdeal.τ Cert.ReferenceIdeal.sig) := by
  rw [Cert.KernelIdeal.HandRun.eq_cst_41 m ρ c,
    Cert.ReferenceIdeal.HandRun.eq_cst_44 (launchContents m' c)]
  all_goals rfl

theorem br_v157 :
    Cert.KernelIdeal.HandRun.K m ρ c Cert.KernelIdeal.main_v157 = after (Cert.ReferenceIdeal.HandRun.ops (F := Ideal)) (launchContents m' c) (Cert.ReferenceIdeal.main_v180 : DevRef Cert.ReferenceIdeal.τ Cert.ReferenceIdeal.sig) := by
  rw [Cert.KernelIdeal.HandRun.eq_v157 m ρ c,
    Cert.ReferenceIdeal.HandRun.eq_v180 (launchContents m' c),
    (br_cst_41 m ρ m' hagree c)]
  all_goals rfl

theorem br_v158 :
    Cert.KernelIdeal.HandRun.K m ρ c Cert.KernelIdeal.main_v158 = after (Cert.ReferenceIdeal.HandRun.ops (F := Ideal)) (launchContents m' c) (Cert.ReferenceIdeal.main_v181 : DevRef Cert.ReferenceIdeal.τ Cert.ReferenceIdeal.sig) := by
  rw [Cert.KernelIdeal.HandRun.eq_v158 m ρ c,
    Cert.ReferenceIdeal.HandRun.eq_v181 (launchContents m' c),
    (br_v154 m ρ m' hagree c),
    (br_v157 m ρ m' hagree c)]
  all_goals rfl

theorem br_v159 :
    Cert.KernelIdeal.HandRun.K m ρ c Cert.KernelIdeal.main_v159 = after (Cert.ReferenceIdeal.HandRun.ops (F := Ideal)) (launchContents m' c) (Cert.ReferenceIdeal.main_v182 : DevRef Cert.ReferenceIdeal.τ Cert.ReferenceIdeal.sig) := by
  rw [Cert.KernelIdeal.HandRun.eq_v159 m ρ c,
    Cert.ReferenceIdeal.HandRun.eq_v182 (launchContents m' c),
    (br_v158 m ρ m' hagree c)]
  all_goals rfl

theorem br_cst_42 :
    Cert.KernelIdeal.HandRun.K m ρ c Cert.KernelIdeal.main_cst_42 = after (Cert.ReferenceIdeal.HandRun.ops (F := Ideal)) (launchContents m' c) (Cert.ReferenceIdeal.main_cst_45 : DevRef Cert.ReferenceIdeal.τ Cert.ReferenceIdeal.sig) := by
  rw [Cert.KernelIdeal.HandRun.eq_cst_42 m ρ c,
    Cert.ReferenceIdeal.HandRun.eq_cst_45 (launchContents m' c)]
  all_goals rfl

theorem br_call2_v0 :
    Cert.KernelIdeal.HandRun.K m ρ c Cert.KernelIdeal.main_call2_v0 = after (Cert.ReferenceIdeal.HandRun.ops (F := Ideal)) (launchContents m' c) (Cert.ReferenceIdeal.main_call3_v0 : DevRef Cert.ReferenceIdeal.τ Cert.ReferenceIdeal.sig) := by
  rw [Cert.KernelIdeal.HandRun.eq_call2_v0 m ρ c,
    Cert.ReferenceIdeal.HandRun.eq_call3_v0 (launchContents m' c),
    (br_cst_42 m ρ m' hagree c)]
  all_goals rfl

theorem br_call2_v1 :
    Cert.KernelIdeal.HandRun.K m ρ c Cert.KernelIdeal.main_call2_v1 = after (Cert.ReferenceIdeal.HandRun.ops (F := Ideal)) (launchContents m' c) (Cert.ReferenceIdeal.main_call3_v1 : DevRef Cert.ReferenceIdeal.τ Cert.ReferenceIdeal.sig) := by
  rw [Cert.KernelIdeal.HandRun.eq_call2_v1 m ρ c,
    Cert.ReferenceIdeal.HandRun.eq_call3_v1 (launchContents m' c),
    (br_call2_v0 m ρ m' hagree c)]
  all_goals rfl

theorem br_v160 :
    Cert.KernelIdeal.HandRun.K m ρ c Cert.KernelIdeal.main_v160 = after (Cert.ReferenceIdeal.HandRun.ops (F := Ideal)) (launchContents m' c) (Cert.ReferenceIdeal.main_v183 : DevRef Cert.ReferenceIdeal.τ Cert.ReferenceIdeal.sig) := by
  rw [Cert.KernelIdeal.HandRun.eq_v160 m ρ c,
    Cert.ReferenceIdeal.HandRun.eq_v183 (launchContents m' c),
    (br_v156 m ρ m' hagree c),
    (br_v159 m ρ m' hagree c),
    (br_call2_v1 m ρ m' hagree c)]
  all_goals rfl

theorem br_c_43 :
    Cert.KernelIdeal.HandRun.K m ρ c Cert.KernelIdeal.main_c_43 = after (Cert.ReferenceIdeal.HandRun.ops (F := Ideal)) (launchContents m' c) (Cert.ReferenceIdeal.main_c_46 : DevRef Cert.ReferenceIdeal.τ Cert.ReferenceIdeal.sig) := by
  rw [Cert.KernelIdeal.HandRun.eq_c_43 m ρ c,
    Cert.ReferenceIdeal.HandRun.eq_c_46 (launchContents m' c)]
  all_goals rfl

theorem br_v161 :
    Cert.KernelIdeal.HandRun.K m ρ c Cert.KernelIdeal.main_v161 = after (Cert.ReferenceIdeal.HandRun.ops (F := Ideal)) (launchContents m' c) (Cert.ReferenceIdeal.main_v184 : DevRef Cert.ReferenceIdeal.τ Cert.ReferenceIdeal.sig) := by
  rw [Cert.KernelIdeal.HandRun.eq_v161 m ρ c,
    Cert.ReferenceIdeal.HandRun.eq_v184 (launchContents m' c),
    (br_c_43 m ρ m' hagree c)]
  all_goals rfl

theorem br_v162 :
    Cert.KernelIdeal.HandRun.K m ρ c Cert.KernelIdeal.main_v162 = after (Cert.ReferenceIdeal.HandRun.ops (F := Ideal)) (launchContents m' c) (Cert.ReferenceIdeal.main_v185 : DevRef Cert.ReferenceIdeal.τ Cert.ReferenceIdeal.sig) := by
  rw [Cert.KernelIdeal.HandRun.eq_v162 m ρ c,
    Cert.ReferenceIdeal.HandRun.eq_v185 (launchContents m' c),
    (br_v143 m ρ m' hagree c),
    (br_v161 m ρ m' hagree c)]
  all_goals rfl

theorem br_c_44 :
    Cert.KernelIdeal.HandRun.K m ρ c Cert.KernelIdeal.main_c_44 = after (Cert.ReferenceIdeal.HandRun.ops (F := Ideal)) (launchContents m' c) (Cert.ReferenceIdeal.main_c_47 : DevRef Cert.ReferenceIdeal.τ Cert.ReferenceIdeal.sig) := by
  rw [Cert.KernelIdeal.HandRun.eq_c_44 m ρ c,
    Cert.ReferenceIdeal.HandRun.eq_c_47 (launchContents m' c)]
  all_goals rfl

theorem br_v163 :
    Cert.KernelIdeal.HandRun.K m ρ c Cert.KernelIdeal.main_v163 = after (Cert.ReferenceIdeal.HandRun.ops (F := Ideal)) (launchContents m' c) (Cert.ReferenceIdeal.main_v186 : DevRef Cert.ReferenceIdeal.τ Cert.ReferenceIdeal.sig) := by
  rw [Cert.KernelIdeal.HandRun.eq_v163 m ρ c,
    Cert.ReferenceIdeal.HandRun.eq_v186 (launchContents m' c),
    (br_c_44 m ρ m' hagree c)]
  all_goals rfl

theorem br_v164 :
    Cert.KernelIdeal.HandRun.K m ρ c Cert.KernelIdeal.main_v164 = after (Cert.ReferenceIdeal.HandRun.ops (F := Ideal)) (launchContents m' c) (Cert.ReferenceIdeal.main_v187 : DevRef Cert.ReferenceIdeal.τ Cert.ReferenceIdeal.sig) := by
  rw [Cert.KernelIdeal.HandRun.eq_v164 m ρ c,
    Cert.ReferenceIdeal.HandRun.eq_v187 (launchContents m' c),
    (br_v143 m ρ m' hagree c),
    (br_v163 m ρ m' hagree c)]
  all_goals rfl

end Cert.Bridge

end
-- ==== Proof.GlueBridge5.lean ====
/-
  The irregular steps agree, continued: the next operations of the table, in program order.
-/
import proofs.«103573_j30391188587216_1_alg».proof.Proof.GlueBridge4

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

theorem br_v165 :
    Cert.KernelIdeal.HandRun.K m ρ c Cert.KernelIdeal.main_v165 = after (Cert.ReferenceIdeal.HandRun.ops (F := Ideal)) (launchContents m' c) (Cert.ReferenceIdeal.main_v188 : DevRef Cert.ReferenceIdeal.τ Cert.ReferenceIdeal.sig) := by
  rw [Cert.KernelIdeal.HandRun.eq_v165 m ρ c,
    Cert.ReferenceIdeal.HandRun.eq_v188 (launchContents m' c),
    (br_v162 m ρ m' hagree c),
    (br_v164 m ρ m' hagree c),
    (br_v143 m ρ m' hagree c)]
  all_goals rfl

theorem br_v166 :
    Cert.KernelIdeal.HandRun.K m ρ c Cert.KernelIdeal.main_v166 = after (Cert.ReferenceIdeal.HandRun.ops (F := Ideal)) (launchContents m' c) (Cert.ReferenceIdeal.main_v189 : DevRef Cert.ReferenceIdeal.τ Cert.ReferenceIdeal.sig) := by
  rw [Cert.KernelIdeal.HandRun.eq_v166 m ρ c,
    Cert.ReferenceIdeal.HandRun.eq_v189 (launchContents m' c),
    (br_v165 m ρ m' hagree c)]
  all_goals rfl

theorem br_v167 :
    Cert.KernelIdeal.HandRun.K m ρ c Cert.KernelIdeal.main_v167 = after (Cert.ReferenceIdeal.HandRun.ops (F := Ideal)) (launchContents m' c) (Cert.ReferenceIdeal.main_v190 : DevRef Cert.ReferenceIdeal.τ Cert.ReferenceIdeal.sig) := by
  rw [Cert.KernelIdeal.HandRun.eq_v167 m ρ c,
    Cert.ReferenceIdeal.HandRun.eq_v190 (launchContents m' c),
    (br_v160 m ρ m' hagree c),
    (br_v166 m ρ m' hagree c)]
  all_goals rfl

theorem br_c_45 :
    Cert.KernelIdeal.HandRun.K m ρ c Cert.KernelIdeal.main_c_45 = after (Cert.ReferenceIdeal.HandRun.ops (F := Ideal)) (launchContents m' c) (Cert.ReferenceIdeal.main_c_48 : DevRef Cert.ReferenceIdeal.τ Cert.ReferenceIdeal.sig) := by
  rw [Cert.KernelIdeal.HandRun.eq_c_45 m ρ c,
    Cert.ReferenceIdeal.HandRun.eq_c_48 (launchContents m' c)]
  all_goals rfl

theorem br_v168 :
    Cert.KernelIdeal.HandRun.K m ρ c Cert.KernelIdeal.main_v168 = after (Cert.ReferenceIdeal.HandRun.ops (F := Ideal)) (launchContents m' c) (Cert.ReferenceIdeal.main_v191 : DevRef Cert.ReferenceIdeal.τ Cert.ReferenceIdeal.sig) := by
  rw [Cert.KernelIdeal.HandRun.eq_v168 m ρ c,
    Cert.ReferenceIdeal.HandRun.eq_v191 (launchContents m' c),
    (br_c_45 m ρ m' hagree c)]
  all_goals rfl

theorem br_v169 :
    Cert.KernelIdeal.HandRun.K m ρ c Cert.KernelIdeal.main_v169 = after (Cert.ReferenceIdeal.HandRun.ops (F := Ideal)) (launchContents m' c) (Cert.ReferenceIdeal.main_v192 : DevRef Cert.ReferenceIdeal.τ Cert.ReferenceIdeal.sig) := by
  rw [Cert.KernelIdeal.HandRun.eq_v169 m ρ c,
    Cert.ReferenceIdeal.HandRun.eq_v192 (launchContents m' c),
    (br_v145 m ρ m' hagree c),
    (br_v168 m ρ m' hagree c)]
  all_goals rfl

theorem br_c_46 :
    Cert.KernelIdeal.HandRun.K m ρ c Cert.KernelIdeal.main_c_46 = after (Cert.ReferenceIdeal.HandRun.ops (F := Ideal)) (launchContents m' c) (Cert.ReferenceIdeal.main_c_49 : DevRef Cert.ReferenceIdeal.τ Cert.ReferenceIdeal.sig) := by
  rw [Cert.KernelIdeal.HandRun.eq_c_46 m ρ c,
    Cert.ReferenceIdeal.HandRun.eq_c_49 (launchContents m' c)]
  all_goals rfl

theorem br_v170 :
    Cert.KernelIdeal.HandRun.K m ρ c Cert.KernelIdeal.main_v170 = after (Cert.ReferenceIdeal.HandRun.ops (F := Ideal)) (launchContents m' c) (Cert.ReferenceIdeal.main_v193 : DevRef Cert.ReferenceIdeal.τ Cert.ReferenceIdeal.sig) := by
  rw [Cert.KernelIdeal.HandRun.eq_v170 m ρ c,
    Cert.ReferenceIdeal.HandRun.eq_v193 (launchContents m' c),
    (br_c_46 m ρ m' hagree c)]
  all_goals rfl

theorem br_v171 :
    Cert.KernelIdeal.HandRun.K m ρ c Cert.KernelIdeal.main_v171 = after (Cert.ReferenceIdeal.HandRun.ops (F := Ideal)) (launchContents m' c) (Cert.ReferenceIdeal.main_v194 : DevRef Cert.ReferenceIdeal.τ Cert.ReferenceIdeal.sig) := by
  rw [Cert.KernelIdeal.HandRun.eq_v171 m ρ c,
    Cert.ReferenceIdeal.HandRun.eq_v194 (launchContents m' c),
    (br_v145 m ρ m' hagree c),
    (br_v170 m ρ m' hagree c)]
  all_goals rfl

theorem br_v172 :
    Cert.KernelIdeal.HandRun.K m ρ c Cert.KernelIdeal.main_v172 = after (Cert.ReferenceIdeal.HandRun.ops (F := Ideal)) (launchContents m' c) (Cert.ReferenceIdeal.main_v195 : DevRef Cert.ReferenceIdeal.τ Cert.ReferenceIdeal.sig) := by
  rw [Cert.KernelIdeal.HandRun.eq_v172 m ρ c,
    Cert.ReferenceIdeal.HandRun.eq_v195 (launchContents m' c),
    (br_v169 m ρ m' hagree c),
    (br_v171 m ρ m' hagree c),
    (br_v145 m ρ m' hagree c)]
  all_goals rfl

theorem br_v173 :
    Cert.KernelIdeal.HandRun.K m ρ c Cert.KernelIdeal.main_v173 = after (Cert.ReferenceIdeal.HandRun.ops (F := Ideal)) (launchContents m' c) (Cert.ReferenceIdeal.main_v196 : DevRef Cert.ReferenceIdeal.τ Cert.ReferenceIdeal.sig) := by
  rw [Cert.KernelIdeal.HandRun.eq_v173 m ρ c,
    Cert.ReferenceIdeal.HandRun.eq_v196 (launchContents m' c),
    (br_v172 m ρ m' hagree c)]
  all_goals rfl

theorem br_v174 :
    Cert.KernelIdeal.HandRun.K m ρ c Cert.KernelIdeal.main_v174 = after (Cert.ReferenceIdeal.HandRun.ops (F := Ideal)) (launchContents m' c) (Cert.ReferenceIdeal.main_v197 : DevRef Cert.ReferenceIdeal.τ Cert.ReferenceIdeal.sig) := by
  rw [Cert.KernelIdeal.HandRun.eq_v174 m ρ c,
    Cert.ReferenceIdeal.HandRun.eq_v197 (launchContents m' c),
    (br_v160 m ρ m' hagree c),
    (br_v173 m ρ m' hagree c)]
  all_goals rfl

theorem br_v175 :
    Cert.KernelIdeal.HandRun.K m ρ c Cert.KernelIdeal.main_v175 = after (Cert.ReferenceIdeal.HandRun.ops (F := Ideal)) (launchContents m' c) (Cert.ReferenceIdeal.main_v198 : DevRef Cert.ReferenceIdeal.τ Cert.ReferenceIdeal.sig) := by
  rw [Cert.KernelIdeal.HandRun.eq_v175 m ρ c,
    Cert.ReferenceIdeal.HandRun.eq_v198 (launchContents m' c),
    (br_v167 m ρ m' hagree c),
    (br_v174 m ρ m' hagree c)]
  all_goals rfl

theorem br_c_47 :
    Cert.KernelIdeal.HandRun.K m ρ c Cert.KernelIdeal.main_c_47 = after (Cert.ReferenceIdeal.HandRun.ops (F := Ideal)) (launchContents m' c) (Cert.ReferenceIdeal.main_c_50 : DevRef Cert.ReferenceIdeal.τ Cert.ReferenceIdeal.sig) := by
  rw [Cert.KernelIdeal.HandRun.eq_c_47 m ρ c,
    Cert.ReferenceIdeal.HandRun.eq_c_50 (launchContents m' c)]
  all_goals rfl

theorem br_v176 :
    Cert.KernelIdeal.HandRun.K m ρ c Cert.KernelIdeal.main_v176 = after (Cert.ReferenceIdeal.HandRun.ops (F := Ideal)) (launchContents m' c) (Cert.ReferenceIdeal.main_v199 : DevRef Cert.ReferenceIdeal.τ Cert.ReferenceIdeal.sig) := by
  rw [Cert.KernelIdeal.HandRun.eq_v176 m ρ c,
    Cert.ReferenceIdeal.HandRun.eq_v199 (launchContents m' c),
    (br_c_47 m ρ m' hagree c)]
  all_goals rfl

theorem br_v177 :
    Cert.KernelIdeal.HandRun.K m ρ c Cert.KernelIdeal.main_v177 = after (Cert.ReferenceIdeal.HandRun.ops (F := Ideal)) (launchContents m' c) (Cert.ReferenceIdeal.main_v200 : DevRef Cert.ReferenceIdeal.τ Cert.ReferenceIdeal.sig) := by
  rw [Cert.KernelIdeal.HandRun.eq_v177 m ρ c,
    Cert.ReferenceIdeal.HandRun.eq_v200 (launchContents m' c),
    (br_v143 m ρ m' hagree c),
    (br_v176 m ρ m' hagree c)]
  all_goals rfl

theorem br_c_48 :
    Cert.KernelIdeal.HandRun.K m ρ c Cert.KernelIdeal.main_c_48 = after (Cert.ReferenceIdeal.HandRun.ops (F := Ideal)) (launchContents m' c) (Cert.ReferenceIdeal.main_c_51 : DevRef Cert.ReferenceIdeal.τ Cert.ReferenceIdeal.sig) := by
  rw [Cert.KernelIdeal.HandRun.eq_c_48 m ρ c,
    Cert.ReferenceIdeal.HandRun.eq_c_51 (launchContents m' c)]
  all_goals rfl

theorem br_v178 :
    Cert.KernelIdeal.HandRun.K m ρ c Cert.KernelIdeal.main_v178 = after (Cert.ReferenceIdeal.HandRun.ops (F := Ideal)) (launchContents m' c) (Cert.ReferenceIdeal.main_v201 : DevRef Cert.ReferenceIdeal.τ Cert.ReferenceIdeal.sig) := by
  rw [Cert.KernelIdeal.HandRun.eq_v178 m ρ c,
    Cert.ReferenceIdeal.HandRun.eq_v201 (launchContents m' c),
    (br_c_48 m ρ m' hagree c)]
  all_goals rfl

theorem br_v179 :
    Cert.KernelIdeal.HandRun.K m ρ c Cert.KernelIdeal.main_v179 = after (Cert.ReferenceIdeal.HandRun.ops (F := Ideal)) (launchContents m' c) (Cert.ReferenceIdeal.main_v202 : DevRef Cert.ReferenceIdeal.τ Cert.ReferenceIdeal.sig) := by
  rw [Cert.KernelIdeal.HandRun.eq_v179 m ρ c,
    Cert.ReferenceIdeal.HandRun.eq_v202 (launchContents m' c),
    (br_v143 m ρ m' hagree c),
    (br_v178 m ρ m' hagree c)]
  all_goals rfl

theorem br_v180 :
    Cert.KernelIdeal.HandRun.K m ρ c Cert.KernelIdeal.main_v180 = after (Cert.ReferenceIdeal.HandRun.ops (F := Ideal)) (launchContents m' c) (Cert.ReferenceIdeal.main_v203 : DevRef Cert.ReferenceIdeal.τ Cert.ReferenceIdeal.sig) := by
  rw [Cert.KernelIdeal.HandRun.eq_v180 m ρ c,
    Cert.ReferenceIdeal.HandRun.eq_v203 (launchContents m' c),
    (br_v177 m ρ m' hagree c),
    (br_v179 m ρ m' hagree c),
    (br_v143 m ρ m' hagree c)]
  all_goals rfl

theorem br_v181 :
    Cert.KernelIdeal.HandRun.K m ρ c Cert.KernelIdeal.main_v181 = after (Cert.ReferenceIdeal.HandRun.ops (F := Ideal)) (launchContents m' c) (Cert.ReferenceIdeal.main_v204 : DevRef Cert.ReferenceIdeal.τ Cert.ReferenceIdeal.sig) := by
  rw [Cert.KernelIdeal.HandRun.eq_v181 m ρ c,
    Cert.ReferenceIdeal.HandRun.eq_v204 (launchContents m' c),
    (br_v180 m ρ m' hagree c)]
  all_goals rfl

theorem br_v182
    (hs_v139 : Cert.KernelIdeal.HandRun.K m ρ c Cert.KernelIdeal.main_v139 = after (Cert.ReferenceIdeal.HandRun.ops (F := Ideal)) (launchContents m' c) (Cert.ReferenceIdeal.main_v162 : DevRef Cert.ReferenceIdeal.τ Cert.ReferenceIdeal.sig)) :
    Cert.KernelIdeal.HandRun.K m ρ c Cert.KernelIdeal.main_v182 = after (Cert.ReferenceIdeal.HandRun.ops (F := Ideal)) (launchContents m' c) (Cert.ReferenceIdeal.main_v205 : DevRef Cert.ReferenceIdeal.τ Cert.ReferenceIdeal.sig) := by
  rw [Cert.KernelIdeal.HandRun.eq_v182 m ρ c,
    Cert.ReferenceIdeal.HandRun.eq_v205 (launchContents m' c),
    hs_v139,
    (br_v181 m ρ m' hagree c)]
  all_goals rfl

theorem br_c_49 :
    Cert.KernelIdeal.HandRun.K m ρ c Cert.KernelIdeal.main_c_49 = after (Cert.ReferenceIdeal.HandRun.ops (F := Ideal)) (launchContents m' c) (Cert.ReferenceIdeal.main_c_52 : DevRef Cert.ReferenceIdeal.τ Cert.ReferenceIdeal.sig) := by
  rw [Cert.KernelIdeal.HandRun.eq_c_49 m ρ c,
    Cert.ReferenceIdeal.HandRun.eq_c_52 (launchContents m' c)]
  all_goals rfl

theorem br_v183 :
    Cert.KernelIdeal.HandRun.K m ρ c Cert.KernelIdeal.main_v183 = after (Cert.ReferenceIdeal.HandRun.ops (F := Ideal)) (launchContents m' c) (Cert.ReferenceIdeal.main_v206 : DevRef Cert.ReferenceIdeal.τ Cert.ReferenceIdeal.sig) := by
  rw [Cert.KernelIdeal.HandRun.eq_v183 m ρ c,
    Cert.ReferenceIdeal.HandRun.eq_v206 (launchContents m' c),
    (br_c_49 m ρ m' hagree c)]
  all_goals rfl

theorem br_v184 :
    Cert.KernelIdeal.HandRun.K m ρ c Cert.KernelIdeal.main_v184 = after (Cert.ReferenceIdeal.HandRun.ops (F := Ideal)) (launchContents m' c) (Cert.ReferenceIdeal.main_v207 : DevRef Cert.ReferenceIdeal.τ Cert.ReferenceIdeal.sig) := by
  rw [Cert.KernelIdeal.HandRun.eq_v184 m ρ c,
    Cert.ReferenceIdeal.HandRun.eq_v207 (launchContents m' c),
    (br_v141 m ρ m' hagree c),
    (br_v183 m ρ m' hagree c)]
  all_goals rfl

theorem br_c_50 :
    Cert.KernelIdeal.HandRun.K m ρ c Cert.KernelIdeal.main_c_50 = after (Cert.ReferenceIdeal.HandRun.ops (F := Ideal)) (launchContents m' c) (Cert.ReferenceIdeal.main_c_53 : DevRef Cert.ReferenceIdeal.τ Cert.ReferenceIdeal.sig) := by
  rw [Cert.KernelIdeal.HandRun.eq_c_50 m ρ c,
    Cert.ReferenceIdeal.HandRun.eq_c_53 (launchContents m' c)]
  all_goals rfl

theorem br_v185 :
    Cert.KernelIdeal.HandRun.K m ρ c Cert.KernelIdeal.main_v185 = after (Cert.ReferenceIdeal.HandRun.ops (F := Ideal)) (launchContents m' c) (Cert.ReferenceIdeal.main_v208 : DevRef Cert.ReferenceIdeal.τ Cert.ReferenceIdeal.sig) := by
  rw [Cert.KernelIdeal.HandRun.eq_v185 m ρ c,
    Cert.ReferenceIdeal.HandRun.eq_v208 (launchContents m' c),
    (br_c_50 m ρ m' hagree c)]
  all_goals rfl

theorem br_v186 :
    Cert.KernelIdeal.HandRun.K m ρ c Cert.KernelIdeal.main_v186 = after (Cert.ReferenceIdeal.HandRun.ops (F := Ideal)) (launchContents m' c) (Cert.ReferenceIdeal.main_v209 : DevRef Cert.ReferenceIdeal.τ Cert.ReferenceIdeal.sig) := by
  rw [Cert.KernelIdeal.HandRun.eq_v186 m ρ c,
    Cert.ReferenceIdeal.HandRun.eq_v209 (launchContents m' c),
    (br_v141 m ρ m' hagree c),
    (br_v185 m ρ m' hagree c)]
  all_goals rfl

theorem br_v187 :
    Cert.KernelIdeal.HandRun.K m ρ c Cert.KernelIdeal.main_v187 = after (Cert.ReferenceIdeal.HandRun.ops (F := Ideal)) (launchContents m' c) (Cert.ReferenceIdeal.main_v210 : DevRef Cert.ReferenceIdeal.τ Cert.ReferenceIdeal.sig) := by
  rw [Cert.KernelIdeal.HandRun.eq_v187 m ρ c,
    Cert.ReferenceIdeal.HandRun.eq_v210 (launchContents m' c),
    (br_v184 m ρ m' hagree c),
    (br_v186 m ρ m' hagree c),
    (br_v141 m ρ m' hagree c)]
  all_goals rfl

theorem br_v188 :
    Cert.KernelIdeal.HandRun.K m ρ c Cert.KernelIdeal.main_v188 = after (Cert.ReferenceIdeal.HandRun.ops (F := Ideal)) (launchContents m' c) (Cert.ReferenceIdeal.main_v211 : DevRef Cert.ReferenceIdeal.τ Cert.ReferenceIdeal.sig) := by
  rw [Cert.KernelIdeal.HandRun.eq_v188 m ρ c,
    Cert.ReferenceIdeal.HandRun.eq_v211 (launchContents m' c),
    (br_v187 m ρ m' hagree c)]
  all_goals rfl

theorem br_v189
    (hs_v136 : Cert.KernelIdeal.HandRun.K m ρ c Cert.KernelIdeal.main_v136 = after (Cert.ReferenceIdeal.HandRun.ops (F := Ideal)) (launchContents m' c) (Cert.ReferenceIdeal.main_v158 : DevRef Cert.ReferenceIdeal.τ Cert.ReferenceIdeal.sig)) :
    Cert.KernelIdeal.HandRun.K m ρ c Cert.KernelIdeal.main_v189 = after (Cert.ReferenceIdeal.HandRun.ops (F := Ideal)) (launchContents m' c) (Cert.ReferenceIdeal.main_v212 : DevRef Cert.ReferenceIdeal.τ Cert.ReferenceIdeal.sig) := by
  rw [Cert.KernelIdeal.HandRun.eq_v189 m ρ c,
    Cert.ReferenceIdeal.HandRun.eq_v212 (launchContents m' c),
    (br_v138 m ρ m' hagree c hs_v136),
    (br_v188 m ρ m' hagree c)]
  all_goals rfl

theorem br_v190
    (hs_v139 : Cert.KernelIdeal.HandRun.K m ρ c Cert.KernelIdeal.main_v139 = after (Cert.ReferenceIdeal.HandRun.ops (F := Ideal)) (launchContents m' c) (Cert.ReferenceIdeal.main_v162 : DevRef Cert.ReferenceIdeal.τ Cert.ReferenceIdeal.sig))
    (hs_v136 : Cert.KernelIdeal.HandRun.K m ρ c Cert.KernelIdeal.main_v136 = after (Cert.ReferenceIdeal.HandRun.ops (F := Ideal)) (launchContents m' c) (Cert.ReferenceIdeal.main_v158 : DevRef Cert.ReferenceIdeal.τ Cert.ReferenceIdeal.sig)) :
    Cert.KernelIdeal.HandRun.K m ρ c Cert.KernelIdeal.main_v190 = after (Cert.ReferenceIdeal.HandRun.ops (F := Ideal)) (launchContents m' c) (Cert.ReferenceIdeal.main_v213 : DevRef Cert.ReferenceIdeal.τ Cert.ReferenceIdeal.sig) := by
  rw [Cert.KernelIdeal.HandRun.eq_v190 m ρ c,
    Cert.ReferenceIdeal.HandRun.eq_v213 (launchContents m' c),
    (br_v182 m ρ m' hagree c hs_v139),
    (br_v189 m ρ m' hagree c hs_v136)]
  all_goals rfl

theorem br_v191 :
    Cert.KernelIdeal.HandRun.K m ρ c Cert.KernelIdeal.main_v191 = after (Cert.ReferenceIdeal.HandRun.ops (F := Ideal)) (launchContents m' c) (Cert.ReferenceIdeal.main_v215 : DevRef Cert.ReferenceIdeal.τ Cert.ReferenceIdeal.sig) := by
  rw [Cert.KernelIdeal.HandRun.eq_v191 m ρ c,
    Cert.ReferenceIdeal.HandRun.eq_v215 (launchContents m' c),
    (br_v175 m ρ m' hagree c)]
  all_goals rfl

theorem br_cst_51 :
    Cert.KernelIdeal.HandRun.K m ρ c Cert.KernelIdeal.main_cst_51 = after (Cert.ReferenceIdeal.HandRun.ops (F := Ideal)) (launchContents m' c) (Cert.ReferenceIdeal.main_cst_54 : DevRef Cert.ReferenceIdeal.τ Cert.ReferenceIdeal.sig) := by
  rw [Cert.KernelIdeal.HandRun.eq_cst_51 m ρ c,
    Cert.ReferenceIdeal.HandRun.eq_cst_54 (launchContents m' c)]
  all_goals rfl

theorem br_v193 :
    Cert.KernelIdeal.HandRun.K m ρ c Cert.KernelIdeal.main_v193 = after (Cert.ReferenceIdeal.HandRun.ops (F := Ideal)) (launchContents m' c) (Cert.ReferenceIdeal.main_v218 : DevRef Cert.ReferenceIdeal.τ Cert.ReferenceIdeal.sig) := by
  rw [Cert.KernelIdeal.HandRun.eq_v193 m ρ c,
    Cert.ReferenceIdeal.HandRun.eq_v218 (launchContents m' c),
    (br_cst_51 m ρ m' hagree c)]
  all_goals rfl

theorem br_c_52 :
    Cert.KernelIdeal.HandRun.K m ρ c Cert.KernelIdeal.main_c_52 = after (Cert.ReferenceIdeal.HandRun.ops (F := Ideal)) (launchContents m' c) (Cert.ReferenceIdeal.main_c_55 : DevRef Cert.ReferenceIdeal.τ Cert.ReferenceIdeal.sig) := by
  rw [Cert.KernelIdeal.HandRun.eq_c_52 m ρ c,
    Cert.ReferenceIdeal.HandRun.eq_c_55 (launchContents m' c)]
  all_goals rfl

theorem br_v194 :
    Cert.KernelIdeal.HandRun.K m ρ c Cert.KernelIdeal.main_v194 = after (Cert.ReferenceIdeal.HandRun.ops (F := Ideal)) (launchContents m' c) (Cert.ReferenceIdeal.main_v219 : DevRef Cert.ReferenceIdeal.τ Cert.ReferenceIdeal.sig) := by
  rw [Cert.KernelIdeal.HandRun.eq_v194 m ρ c,
    Cert.ReferenceIdeal.HandRun.eq_v219 (launchContents m' c),
    (br_c_52 m ρ m' hagree c)]
  all_goals rfl

theorem br_v195 :
    Cert.KernelIdeal.HandRun.K m ρ c Cert.KernelIdeal.main_v195 = after (Cert.ReferenceIdeal.HandRun.ops (F := Ideal)) (launchContents m' c) (Cert.ReferenceIdeal.main_v220 : DevRef Cert.ReferenceIdeal.τ Cert.ReferenceIdeal.sig) := by
  rw [Cert.KernelIdeal.HandRun.eq_v195 m ρ c,
    Cert.ReferenceIdeal.HandRun.eq_v220 (launchContents m' c),
    (br_v145 m ρ m' hagree c),
    (br_v194 m ρ m' hagree c)]
  all_goals rfl

theorem br_c_53 :
    Cert.KernelIdeal.HandRun.K m ρ c Cert.KernelIdeal.main_c_53 = after (Cert.ReferenceIdeal.HandRun.ops (F := Ideal)) (launchContents m' c) (Cert.ReferenceIdeal.main_c_56 : DevRef Cert.ReferenceIdeal.τ Cert.ReferenceIdeal.sig) := by
  rw [Cert.KernelIdeal.HandRun.eq_c_53 m ρ c,
    Cert.ReferenceIdeal.HandRun.eq_c_56 (launchContents m' c)]
  all_goals rfl

theorem br_v196 :
    Cert.KernelIdeal.HandRun.K m ρ c Cert.KernelIdeal.main_v196 = after (Cert.ReferenceIdeal.HandRun.ops (F := Ideal)) (launchContents m' c) (Cert.ReferenceIdeal.main_v221 : DevRef Cert.ReferenceIdeal.τ Cert.ReferenceIdeal.sig) := by
  rw [Cert.KernelIdeal.HandRun.eq_v196 m ρ c,
    Cert.ReferenceIdeal.HandRun.eq_v221 (launchContents m' c),
    (br_c_53 m ρ m' hagree c)]
  all_goals rfl

theorem br_v197 :
    Cert.KernelIdeal.HandRun.K m ρ c Cert.KernelIdeal.main_v197 = after (Cert.ReferenceIdeal.HandRun.ops (F := Ideal)) (launchContents m' c) (Cert.ReferenceIdeal.main_v222 : DevRef Cert.ReferenceIdeal.τ Cert.ReferenceIdeal.sig) := by
  rw [Cert.KernelIdeal.HandRun.eq_v197 m ρ c,
    Cert.ReferenceIdeal.HandRun.eq_v222 (launchContents m' c),
    (br_v145 m ρ m' hagree c),
    (br_v196 m ρ m' hagree c)]
  all_goals rfl

theorem br_v198 :
    Cert.KernelIdeal.HandRun.K m ρ c Cert.KernelIdeal.main_v198 = after (Cert.ReferenceIdeal.HandRun.ops (F := Ideal)) (launchContents m' c) (Cert.ReferenceIdeal.main_v223 : DevRef Cert.ReferenceIdeal.τ Cert.ReferenceIdeal.sig) := by
  rw [Cert.KernelIdeal.HandRun.eq_v198 m ρ c,
    Cert.ReferenceIdeal.HandRun.eq_v223 (launchContents m' c),
    (br_v195 m ρ m' hagree c),
    (br_v197 m ρ m' hagree c),
    (br_v145 m ρ m' hagree c)]
  all_goals rfl

theorem br_v199 :
    Cert.KernelIdeal.HandRun.K m ρ c Cert.KernelIdeal.main_v199 = after (Cert.ReferenceIdeal.HandRun.ops (F := Ideal)) (launchContents m' c) (Cert.ReferenceIdeal.main_v224 : DevRef Cert.ReferenceIdeal.τ Cert.ReferenceIdeal.sig) := by
  rw [Cert.KernelIdeal.HandRun.eq_v199 m ρ c,
    Cert.ReferenceIdeal.HandRun.eq_v224 (launchContents m' c),
    (br_v198 m ρ m' hagree c)]
  all_goals rfl

theorem br_v200
    (hs_v192 : Cert.KernelIdeal.HandRun.K m ρ c Cert.KernelIdeal.main_v192 = after (Cert.ReferenceIdeal.HandRun.ops (F := Ideal)) (launchContents m' c) (Cert.ReferenceIdeal.main_v217 : DevRef Cert.ReferenceIdeal.τ Cert.ReferenceIdeal.sig)) :
    Cert.KernelIdeal.HandRun.K m ρ c Cert.KernelIdeal.main_v200 = after (Cert.ReferenceIdeal.HandRun.ops (F := Ideal)) (launchContents m' c) (Cert.ReferenceIdeal.main_v225 : DevRef Cert.ReferenceIdeal.τ Cert.ReferenceIdeal.sig) := by
  rw [Cert.KernelIdeal.HandRun.eq_v200 m ρ c,
    Cert.ReferenceIdeal.HandRun.eq_v225 (launchContents m' c),
    (br_v193 m ρ m' hagree c),
    (br_v199 m ρ m' hagree c),
    hs_v192]
  all_goals rfl

theorem br_v201 :
    Cert.KernelIdeal.HandRun.K m ρ c Cert.KernelIdeal.main_v201 = after (Cert.ReferenceIdeal.HandRun.ops (F := Ideal)) (launchContents m' c) (Cert.ReferenceIdeal.main_v226 : DevRef Cert.ReferenceIdeal.τ Cert.ReferenceIdeal.sig) := by
  rw [Cert.KernelIdeal.HandRun.eq_v201 m ρ c,
    Cert.ReferenceIdeal.HandRun.eq_v226 (launchContents m' c),
    (bk_arg2 m ρ m' hagree c)]
  all_goals rfl

theorem br_v202 :
    Cert.KernelIdeal.HandRun.K m ρ c Cert.KernelIdeal.main_v202 = after (Cert.ReferenceIdeal.HandRun.ops (F := Ideal)) (launchContents m' c) (Cert.ReferenceIdeal.main_v227 : DevRef Cert.ReferenceIdeal.τ Cert.ReferenceIdeal.sig) := by
  rw [Cert.KernelIdeal.HandRun.eq_v202 m ρ c,
    Cert.ReferenceIdeal.HandRun.eq_v227 (launchContents m' c),
    (bk_arg3 m ρ m' hagree c)]
  all_goals rfl

theorem br_v203 :
    Cert.KernelIdeal.HandRun.K m ρ c Cert.KernelIdeal.main_v203 = after (Cert.ReferenceIdeal.HandRun.ops (F := Ideal)) (launchContents m' c) (Cert.ReferenceIdeal.main_v228 : DevRef Cert.ReferenceIdeal.τ Cert.ReferenceIdeal.sig) := by
  rw [Cert.KernelIdeal.HandRun.eq_v203 m ρ c,
    Cert.ReferenceIdeal.HandRun.eq_v228 (launchContents m' c),
    (br_v201 m ρ m' hagree c)]
  all_goals rfl

theorem br_v204 :
    Cert.KernelIdeal.HandRun.K m ρ c Cert.KernelIdeal.main_v204 = after (Cert.ReferenceIdeal.HandRun.ops (F := Ideal)) (launchContents m' c) (Cert.ReferenceIdeal.main_v229 : DevRef Cert.ReferenceIdeal.τ Cert.ReferenceIdeal.sig) := by
  rw [Cert.KernelIdeal.HandRun.eq_v204 m ρ c,
    Cert.ReferenceIdeal.HandRun.eq_v229 (launchContents m' c),
    (br_v203 m ρ m' hagree c)]
  all_goals rfl

theorem br_v205 :
    Cert.KernelIdeal.HandRun.K m ρ c Cert.KernelIdeal.main_v205 = after (Cert.ReferenceIdeal.HandRun.ops (F := Ideal)) (launchContents m' c) (Cert.ReferenceIdeal.main_v230 : DevRef Cert.ReferenceIdeal.τ Cert.ReferenceIdeal.sig) := by
  rw [Cert.KernelIdeal.HandRun.eq_v205 m ρ c,
    Cert.ReferenceIdeal.HandRun.eq_v230 (launchContents m' c),
    (br_v201 m ρ m' hagree c)]
  all_goals rfl

theorem br_v206 :
    Cert.KernelIdeal.HandRun.K m ρ c Cert.KernelIdeal.main_v206 = after (Cert.ReferenceIdeal.HandRun.ops (F := Ideal)) (launchContents m' c) (Cert.ReferenceIdeal.main_v231 : DevRef Cert.ReferenceIdeal.τ Cert.ReferenceIdeal.sig) := by
  rw [Cert.KernelIdeal.HandRun.eq_v206 m ρ c,
    Cert.ReferenceIdeal.HandRun.eq_v231 (launchContents m' c),
    (br_v205 m ρ m' hagree c)]
  all_goals rfl

end Cert.Bridge

end
-- ==== Proof.GlueBridge6.lean ====
/-
  The irregular steps agree, continued: the next operations of the table, in program order.
-/
import proofs.«103573_j30391188587216_1_alg».proof.Proof.GlueBridge5

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

theorem br_cst_54 :
    Cert.KernelIdeal.HandRun.K m ρ c Cert.KernelIdeal.main_cst_54 = after (Cert.ReferenceIdeal.HandRun.ops (F := Ideal)) (launchContents m' c) (Cert.ReferenceIdeal.main_cst_57 : DevRef Cert.ReferenceIdeal.τ Cert.ReferenceIdeal.sig) := by
  rw [Cert.KernelIdeal.HandRun.eq_cst_54 m ρ c,
    Cert.ReferenceIdeal.HandRun.eq_cst_57 (launchContents m' c)]
  all_goals rfl

theorem br_v207 :
    Cert.KernelIdeal.HandRun.K m ρ c Cert.KernelIdeal.main_v207 = after (Cert.ReferenceIdeal.HandRun.ops (F := Ideal)) (launchContents m' c) (Cert.ReferenceIdeal.main_v232 : DevRef Cert.ReferenceIdeal.τ Cert.ReferenceIdeal.sig) := by
  rw [Cert.KernelIdeal.HandRun.eq_v207 m ρ c,
    Cert.ReferenceIdeal.HandRun.eq_v232 (launchContents m' c),
    (br_cst_54 m ρ m' hagree c)]
  all_goals rfl

theorem br_c_55 :
    Cert.KernelIdeal.HandRun.K m ρ c Cert.KernelIdeal.main_c_55 = after (Cert.ReferenceIdeal.HandRun.ops (F := Ideal)) (launchContents m' c) (Cert.ReferenceIdeal.main_c_58 : DevRef Cert.ReferenceIdeal.τ Cert.ReferenceIdeal.sig) := by
  rw [Cert.KernelIdeal.HandRun.eq_c_55 m ρ c,
    Cert.ReferenceIdeal.HandRun.eq_c_58 (launchContents m' c)]
  all_goals rfl

theorem br_v208 :
    Cert.KernelIdeal.HandRun.K m ρ c Cert.KernelIdeal.main_v208 = after (Cert.ReferenceIdeal.HandRun.ops (F := Ideal)) (launchContents m' c) (Cert.ReferenceIdeal.main_v233 : DevRef Cert.ReferenceIdeal.τ Cert.ReferenceIdeal.sig) := by
  rw [Cert.KernelIdeal.HandRun.eq_v208 m ρ c,
    Cert.ReferenceIdeal.HandRun.eq_v233 (launchContents m' c),
    (br_c_55 m ρ m' hagree c)]
  all_goals rfl

theorem br_v209 :
    Cert.KernelIdeal.HandRun.K m ρ c Cert.KernelIdeal.main_v209 = after (Cert.ReferenceIdeal.HandRun.ops (F := Ideal)) (launchContents m' c) (Cert.ReferenceIdeal.main_v234 : DevRef Cert.ReferenceIdeal.τ Cert.ReferenceIdeal.sig) := by
  rw [Cert.KernelIdeal.HandRun.eq_v209 m ρ c,
    Cert.ReferenceIdeal.HandRun.eq_v234 (launchContents m' c),
    (br_v204 m ρ m' hagree c),
    (br_v208 m ρ m' hagree c)]
  all_goals rfl

theorem br_c_56 :
    Cert.KernelIdeal.HandRun.K m ρ c Cert.KernelIdeal.main_c_56 = after (Cert.ReferenceIdeal.HandRun.ops (F := Ideal)) (launchContents m' c) (Cert.ReferenceIdeal.main_c_59 : DevRef Cert.ReferenceIdeal.τ Cert.ReferenceIdeal.sig) := by
  rw [Cert.KernelIdeal.HandRun.eq_c_56 m ρ c,
    Cert.ReferenceIdeal.HandRun.eq_c_59 (launchContents m' c)]
  all_goals rfl

theorem br_v210 :
    Cert.KernelIdeal.HandRun.K m ρ c Cert.KernelIdeal.main_v210 = after (Cert.ReferenceIdeal.HandRun.ops (F := Ideal)) (launchContents m' c) (Cert.ReferenceIdeal.main_v235 : DevRef Cert.ReferenceIdeal.τ Cert.ReferenceIdeal.sig) := by
  rw [Cert.KernelIdeal.HandRun.eq_v210 m ρ c,
    Cert.ReferenceIdeal.HandRun.eq_v235 (launchContents m' c),
    (br_c_56 m ρ m' hagree c)]
  all_goals rfl

theorem br_v211 :
    Cert.KernelIdeal.HandRun.K m ρ c Cert.KernelIdeal.main_v211 = after (Cert.ReferenceIdeal.HandRun.ops (F := Ideal)) (launchContents m' c) (Cert.ReferenceIdeal.main_v236 : DevRef Cert.ReferenceIdeal.τ Cert.ReferenceIdeal.sig) := by
  rw [Cert.KernelIdeal.HandRun.eq_v211 m ρ c,
    Cert.ReferenceIdeal.HandRun.eq_v236 (launchContents m' c),
    (br_v204 m ρ m' hagree c),
    (br_v210 m ρ m' hagree c)]
  all_goals rfl

theorem br_v212 :
    Cert.KernelIdeal.HandRun.K m ρ c Cert.KernelIdeal.main_v212 = after (Cert.ReferenceIdeal.HandRun.ops (F := Ideal)) (launchContents m' c) (Cert.ReferenceIdeal.main_v237 : DevRef Cert.ReferenceIdeal.τ Cert.ReferenceIdeal.sig) := by
  rw [Cert.KernelIdeal.HandRun.eq_v212 m ρ c,
    Cert.ReferenceIdeal.HandRun.eq_v237 (launchContents m' c),
    (br_v209 m ρ m' hagree c),
    (br_v211 m ρ m' hagree c),
    (br_v204 m ρ m' hagree c)]
  all_goals rfl

theorem br_v213 :
    Cert.KernelIdeal.HandRun.K m ρ c Cert.KernelIdeal.main_v213 = after (Cert.ReferenceIdeal.HandRun.ops (F := Ideal)) (launchContents m' c) (Cert.ReferenceIdeal.main_v238 : DevRef Cert.ReferenceIdeal.τ Cert.ReferenceIdeal.sig) := by
  rw [Cert.KernelIdeal.HandRun.eq_v213 m ρ c,
    Cert.ReferenceIdeal.HandRun.eq_v238 (launchContents m' c),
    (br_v212 m ρ m' hagree c)]
  all_goals rfl

theorem br_cst_57 :
    Cert.KernelIdeal.HandRun.K m ρ c Cert.KernelIdeal.main_cst_57 = after (Cert.ReferenceIdeal.HandRun.ops (F := Ideal)) (launchContents m' c) (Cert.ReferenceIdeal.main_cst_60 : DevRef Cert.ReferenceIdeal.τ Cert.ReferenceIdeal.sig) := by
  rw [Cert.KernelIdeal.HandRun.eq_cst_57 m ρ c,
    Cert.ReferenceIdeal.HandRun.eq_cst_60 (launchContents m' c)]
  all_goals rfl

theorem br_v214 :
    Cert.KernelIdeal.HandRun.K m ρ c Cert.KernelIdeal.main_v214 = after (Cert.ReferenceIdeal.HandRun.ops (F := Ideal)) (launchContents m' c) (Cert.ReferenceIdeal.main_v239 : DevRef Cert.ReferenceIdeal.τ Cert.ReferenceIdeal.sig) := by
  rw [Cert.KernelIdeal.HandRun.eq_v214 m ρ c,
    Cert.ReferenceIdeal.HandRun.eq_v239 (launchContents m' c),
    (br_cst_57 m ρ m' hagree c)]
  all_goals rfl

theorem br_v215 :
    Cert.KernelIdeal.HandRun.K m ρ c Cert.KernelIdeal.main_v215 = after (Cert.ReferenceIdeal.HandRun.ops (F := Ideal)) (launchContents m' c) (Cert.ReferenceIdeal.main_v240 : DevRef Cert.ReferenceIdeal.τ Cert.ReferenceIdeal.sig) := by
  rw [Cert.KernelIdeal.HandRun.eq_v215 m ρ c,
    Cert.ReferenceIdeal.HandRun.eq_v240 (launchContents m' c),
    (br_v207 m ρ m' hagree c),
    (br_v213 m ρ m' hagree c),
    (br_v214 m ρ m' hagree c)]
  all_goals rfl

theorem br_cst_58 :
    Cert.KernelIdeal.HandRun.K m ρ c Cert.KernelIdeal.main_cst_58 = after (Cert.ReferenceIdeal.HandRun.ops (F := Ideal)) (launchContents m' c) (Cert.ReferenceIdeal.main_cst_61 : DevRef Cert.ReferenceIdeal.τ Cert.ReferenceIdeal.sig) := by
  rw [Cert.KernelIdeal.HandRun.eq_cst_58 m ρ c,
    Cert.ReferenceIdeal.HandRun.eq_cst_61 (launchContents m' c)]
  all_goals rfl

theorem br_v216 :
    Cert.KernelIdeal.HandRun.K m ρ c Cert.KernelIdeal.main_v216 = after (Cert.ReferenceIdeal.HandRun.ops (F := Ideal)) (launchContents m' c) (Cert.ReferenceIdeal.main_v241 : DevRef Cert.ReferenceIdeal.τ Cert.ReferenceIdeal.sig) := by
  rw [Cert.KernelIdeal.HandRun.eq_v216 m ρ c,
    Cert.ReferenceIdeal.HandRun.eq_v241 (launchContents m' c),
    (br_cst_58 m ρ m' hagree c)]
  all_goals rfl

theorem br_v217 :
    Cert.KernelIdeal.HandRun.K m ρ c Cert.KernelIdeal.main_v217 = after (Cert.ReferenceIdeal.HandRun.ops (F := Ideal)) (launchContents m' c) (Cert.ReferenceIdeal.main_v242 : DevRef Cert.ReferenceIdeal.τ Cert.ReferenceIdeal.sig) := by
  rw [Cert.KernelIdeal.HandRun.eq_v217 m ρ c,
    Cert.ReferenceIdeal.HandRun.eq_v242 (launchContents m' c),
    (br_v215 m ρ m' hagree c),
    (br_v216 m ρ m' hagree c)]
  all_goals rfl

theorem br_cst_59 :
    Cert.KernelIdeal.HandRun.K m ρ c Cert.KernelIdeal.main_cst_59 = after (Cert.ReferenceIdeal.HandRun.ops (F := Ideal)) (launchContents m' c) (Cert.ReferenceIdeal.main_cst_62 : DevRef Cert.ReferenceIdeal.τ Cert.ReferenceIdeal.sig) := by
  rw [Cert.KernelIdeal.HandRun.eq_cst_59 m ρ c,
    Cert.ReferenceIdeal.HandRun.eq_cst_62 (launchContents m' c)]
  all_goals rfl

theorem br_v218 :
    Cert.KernelIdeal.HandRun.K m ρ c Cert.KernelIdeal.main_v218 = after (Cert.ReferenceIdeal.HandRun.ops (F := Ideal)) (launchContents m' c) (Cert.ReferenceIdeal.main_v243 : DevRef Cert.ReferenceIdeal.τ Cert.ReferenceIdeal.sig) := by
  rw [Cert.KernelIdeal.HandRun.eq_v218 m ρ c,
    Cert.ReferenceIdeal.HandRun.eq_v243 (launchContents m' c),
    (br_cst_59 m ρ m' hagree c)]
  all_goals rfl

theorem br_v219 :
    Cert.KernelIdeal.HandRun.K m ρ c Cert.KernelIdeal.main_v219 = after (Cert.ReferenceIdeal.HandRun.ops (F := Ideal)) (launchContents m' c) (Cert.ReferenceIdeal.main_v244 : DevRef Cert.ReferenceIdeal.τ Cert.ReferenceIdeal.sig) := by
  rw [Cert.KernelIdeal.HandRun.eq_v219 m ρ c,
    Cert.ReferenceIdeal.HandRun.eq_v244 (launchContents m' c),
    (br_v215 m ρ m' hagree c),
    (br_v218 m ρ m' hagree c)]
  all_goals rfl

theorem br_v220 :
    Cert.KernelIdeal.HandRun.K m ρ c Cert.KernelIdeal.main_v220 = after (Cert.ReferenceIdeal.HandRun.ops (F := Ideal)) (launchContents m' c) (Cert.ReferenceIdeal.main_v245 : DevRef Cert.ReferenceIdeal.τ Cert.ReferenceIdeal.sig) := by
  rw [Cert.KernelIdeal.HandRun.eq_v220 m ρ c,
    Cert.ReferenceIdeal.HandRun.eq_v245 (launchContents m' c),
    (br_v219 m ρ m' hagree c)]
  all_goals rfl

theorem br_cst_60 :
    Cert.KernelIdeal.HandRun.K m ρ c Cert.KernelIdeal.main_cst_60 = after (Cert.ReferenceIdeal.HandRun.ops (F := Ideal)) (launchContents m' c) (Cert.ReferenceIdeal.main_cst_63 : DevRef Cert.ReferenceIdeal.τ Cert.ReferenceIdeal.sig) := by
  rw [Cert.KernelIdeal.HandRun.eq_cst_60 m ρ c,
    Cert.ReferenceIdeal.HandRun.eq_cst_63 (launchContents m' c)]
  all_goals rfl

theorem br_call3_v0 :
    Cert.KernelIdeal.HandRun.K m ρ c Cert.KernelIdeal.main_call3_v0 = after (Cert.ReferenceIdeal.HandRun.ops (F := Ideal)) (launchContents m' c) (Cert.ReferenceIdeal.main_call4_v0 : DevRef Cert.ReferenceIdeal.τ Cert.ReferenceIdeal.sig) := by
  rw [Cert.KernelIdeal.HandRun.eq_call3_v0 m ρ c,
    Cert.ReferenceIdeal.HandRun.eq_call4_v0 (launchContents m' c),
    (br_cst_60 m ρ m' hagree c)]
  all_goals rfl

theorem br_call3_v1 :
    Cert.KernelIdeal.HandRun.K m ρ c Cert.KernelIdeal.main_call3_v1 = after (Cert.ReferenceIdeal.HandRun.ops (F := Ideal)) (launchContents m' c) (Cert.ReferenceIdeal.main_call4_v1 : DevRef Cert.ReferenceIdeal.τ Cert.ReferenceIdeal.sig) := by
  rw [Cert.KernelIdeal.HandRun.eq_call3_v1 m ρ c,
    Cert.ReferenceIdeal.HandRun.eq_call4_v1 (launchContents m' c),
    (br_call3_v0 m ρ m' hagree c)]
  all_goals rfl

theorem br_v221 :
    Cert.KernelIdeal.HandRun.K m ρ c Cert.KernelIdeal.main_v221 = after (Cert.ReferenceIdeal.HandRun.ops (F := Ideal)) (launchContents m' c) (Cert.ReferenceIdeal.main_v246 : DevRef Cert.ReferenceIdeal.τ Cert.ReferenceIdeal.sig) := by
  rw [Cert.KernelIdeal.HandRun.eq_v221 m ρ c,
    Cert.ReferenceIdeal.HandRun.eq_v246 (launchContents m' c),
    (br_v217 m ρ m' hagree c),
    (br_v220 m ρ m' hagree c),
    (br_call3_v1 m ρ m' hagree c)]
  all_goals rfl

theorem br_c_61 :
    Cert.KernelIdeal.HandRun.K m ρ c Cert.KernelIdeal.main_c_61 = after (Cert.ReferenceIdeal.HandRun.ops (F := Ideal)) (launchContents m' c) (Cert.ReferenceIdeal.main_c_64 : DevRef Cert.ReferenceIdeal.τ Cert.ReferenceIdeal.sig) := by
  rw [Cert.KernelIdeal.HandRun.eq_c_61 m ρ c,
    Cert.ReferenceIdeal.HandRun.eq_c_64 (launchContents m' c)]
  all_goals rfl

theorem br_v222 :
    Cert.KernelIdeal.HandRun.K m ρ c Cert.KernelIdeal.main_v222 = after (Cert.ReferenceIdeal.HandRun.ops (F := Ideal)) (launchContents m' c) (Cert.ReferenceIdeal.main_v247 : DevRef Cert.ReferenceIdeal.τ Cert.ReferenceIdeal.sig) := by
  rw [Cert.KernelIdeal.HandRun.eq_v222 m ρ c,
    Cert.ReferenceIdeal.HandRun.eq_v247 (launchContents m' c),
    (br_c_61 m ρ m' hagree c)]
  all_goals rfl

theorem br_v223 :
    Cert.KernelIdeal.HandRun.K m ρ c Cert.KernelIdeal.main_v223 = after (Cert.ReferenceIdeal.HandRun.ops (F := Ideal)) (launchContents m' c) (Cert.ReferenceIdeal.main_v248 : DevRef Cert.ReferenceIdeal.τ Cert.ReferenceIdeal.sig) := by
  rw [Cert.KernelIdeal.HandRun.eq_v223 m ρ c,
    Cert.ReferenceIdeal.HandRun.eq_v248 (launchContents m' c),
    (br_v204 m ρ m' hagree c),
    (br_v222 m ρ m' hagree c)]
  all_goals rfl

theorem br_c_62 :
    Cert.KernelIdeal.HandRun.K m ρ c Cert.KernelIdeal.main_c_62 = after (Cert.ReferenceIdeal.HandRun.ops (F := Ideal)) (launchContents m' c) (Cert.ReferenceIdeal.main_c_65 : DevRef Cert.ReferenceIdeal.τ Cert.ReferenceIdeal.sig) := by
  rw [Cert.KernelIdeal.HandRun.eq_c_62 m ρ c,
    Cert.ReferenceIdeal.HandRun.eq_c_65 (launchContents m' c)]
  all_goals rfl

theorem br_v224 :
    Cert.KernelIdeal.HandRun.K m ρ c Cert.KernelIdeal.main_v224 = after (Cert.ReferenceIdeal.HandRun.ops (F := Ideal)) (launchContents m' c) (Cert.ReferenceIdeal.main_v249 : DevRef Cert.ReferenceIdeal.τ Cert.ReferenceIdeal.sig) := by
  rw [Cert.KernelIdeal.HandRun.eq_v224 m ρ c,
    Cert.ReferenceIdeal.HandRun.eq_v249 (launchContents m' c),
    (br_c_62 m ρ m' hagree c)]
  all_goals rfl

theorem br_v225 :
    Cert.KernelIdeal.HandRun.K m ρ c Cert.KernelIdeal.main_v225 = after (Cert.ReferenceIdeal.HandRun.ops (F := Ideal)) (launchContents m' c) (Cert.ReferenceIdeal.main_v250 : DevRef Cert.ReferenceIdeal.τ Cert.ReferenceIdeal.sig) := by
  rw [Cert.KernelIdeal.HandRun.eq_v225 m ρ c,
    Cert.ReferenceIdeal.HandRun.eq_v250 (launchContents m' c),
    (br_v204 m ρ m' hagree c),
    (br_v224 m ρ m' hagree c)]
  all_goals rfl

theorem br_v226 :
    Cert.KernelIdeal.HandRun.K m ρ c Cert.KernelIdeal.main_v226 = after (Cert.ReferenceIdeal.HandRun.ops (F := Ideal)) (launchContents m' c) (Cert.ReferenceIdeal.main_v251 : DevRef Cert.ReferenceIdeal.τ Cert.ReferenceIdeal.sig) := by
  rw [Cert.KernelIdeal.HandRun.eq_v226 m ρ c,
    Cert.ReferenceIdeal.HandRun.eq_v251 (launchContents m' c),
    (br_v223 m ρ m' hagree c),
    (br_v225 m ρ m' hagree c),
    (br_v204 m ρ m' hagree c)]
  all_goals rfl

theorem br_v227 :
    Cert.KernelIdeal.HandRun.K m ρ c Cert.KernelIdeal.main_v227 = after (Cert.ReferenceIdeal.HandRun.ops (F := Ideal)) (launchContents m' c) (Cert.ReferenceIdeal.main_v252 : DevRef Cert.ReferenceIdeal.τ Cert.ReferenceIdeal.sig) := by
  rw [Cert.KernelIdeal.HandRun.eq_v227 m ρ c,
    Cert.ReferenceIdeal.HandRun.eq_v252 (launchContents m' c),
    (br_v226 m ρ m' hagree c)]
  all_goals rfl

theorem br_v228 :
    Cert.KernelIdeal.HandRun.K m ρ c Cert.KernelIdeal.main_v228 = after (Cert.ReferenceIdeal.HandRun.ops (F := Ideal)) (launchContents m' c) (Cert.ReferenceIdeal.main_v253 : DevRef Cert.ReferenceIdeal.τ Cert.ReferenceIdeal.sig) := by
  rw [Cert.KernelIdeal.HandRun.eq_v228 m ρ c,
    Cert.ReferenceIdeal.HandRun.eq_v253 (launchContents m' c),
    (br_v221 m ρ m' hagree c),
    (br_v227 m ρ m' hagree c)]
  all_goals rfl

theorem br_c_63 :
    Cert.KernelIdeal.HandRun.K m ρ c Cert.KernelIdeal.main_c_63 = after (Cert.ReferenceIdeal.HandRun.ops (F := Ideal)) (launchContents m' c) (Cert.ReferenceIdeal.main_c_66 : DevRef Cert.ReferenceIdeal.τ Cert.ReferenceIdeal.sig) := by
  rw [Cert.KernelIdeal.HandRun.eq_c_63 m ρ c,
    Cert.ReferenceIdeal.HandRun.eq_c_66 (launchContents m' c)]
  all_goals rfl

theorem br_v229 :
    Cert.KernelIdeal.HandRun.K m ρ c Cert.KernelIdeal.main_v229 = after (Cert.ReferenceIdeal.HandRun.ops (F := Ideal)) (launchContents m' c) (Cert.ReferenceIdeal.main_v254 : DevRef Cert.ReferenceIdeal.τ Cert.ReferenceIdeal.sig) := by
  rw [Cert.KernelIdeal.HandRun.eq_v229 m ρ c,
    Cert.ReferenceIdeal.HandRun.eq_v254 (launchContents m' c),
    (br_c_63 m ρ m' hagree c)]
  all_goals rfl

theorem br_v230 :
    Cert.KernelIdeal.HandRun.K m ρ c Cert.KernelIdeal.main_v230 = after (Cert.ReferenceIdeal.HandRun.ops (F := Ideal)) (launchContents m' c) (Cert.ReferenceIdeal.main_v255 : DevRef Cert.ReferenceIdeal.τ Cert.ReferenceIdeal.sig) := by
  rw [Cert.KernelIdeal.HandRun.eq_v230 m ρ c,
    Cert.ReferenceIdeal.HandRun.eq_v255 (launchContents m' c),
    (br_v206 m ρ m' hagree c),
    (br_v229 m ρ m' hagree c)]
  all_goals rfl

theorem br_c_64 :
    Cert.KernelIdeal.HandRun.K m ρ c Cert.KernelIdeal.main_c_64 = after (Cert.ReferenceIdeal.HandRun.ops (F := Ideal)) (launchContents m' c) (Cert.ReferenceIdeal.main_c_67 : DevRef Cert.ReferenceIdeal.τ Cert.ReferenceIdeal.sig) := by
  rw [Cert.KernelIdeal.HandRun.eq_c_64 m ρ c,
    Cert.ReferenceIdeal.HandRun.eq_c_67 (launchContents m' c)]
  all_goals rfl

theorem br_v231 :
    Cert.KernelIdeal.HandRun.K m ρ c Cert.KernelIdeal.main_v231 = after (Cert.ReferenceIdeal.HandRun.ops (F := Ideal)) (launchContents m' c) (Cert.ReferenceIdeal.main_v256 : DevRef Cert.ReferenceIdeal.τ Cert.ReferenceIdeal.sig) := by
  rw [Cert.KernelIdeal.HandRun.eq_v231 m ρ c,
    Cert.ReferenceIdeal.HandRun.eq_v256 (launchContents m' c),
    (br_c_64 m ρ m' hagree c)]
  all_goals rfl

theorem br_v232 :
    Cert.KernelIdeal.HandRun.K m ρ c Cert.KernelIdeal.main_v232 = after (Cert.ReferenceIdeal.HandRun.ops (F := Ideal)) (launchContents m' c) (Cert.ReferenceIdeal.main_v257 : DevRef Cert.ReferenceIdeal.τ Cert.ReferenceIdeal.sig) := by
  rw [Cert.KernelIdeal.HandRun.eq_v232 m ρ c,
    Cert.ReferenceIdeal.HandRun.eq_v257 (launchContents m' c),
    (br_v206 m ρ m' hagree c),
    (br_v231 m ρ m' hagree c)]
  all_goals rfl

theorem br_v233 :
    Cert.KernelIdeal.HandRun.K m ρ c Cert.KernelIdeal.main_v233 = after (Cert.ReferenceIdeal.HandRun.ops (F := Ideal)) (launchContents m' c) (Cert.ReferenceIdeal.main_v258 : DevRef Cert.ReferenceIdeal.τ Cert.ReferenceIdeal.sig) := by
  rw [Cert.KernelIdeal.HandRun.eq_v233 m ρ c,
    Cert.ReferenceIdeal.HandRun.eq_v258 (launchContents m' c),
    (br_v230 m ρ m' hagree c),
    (br_v232 m ρ m' hagree c),
    (br_v206 m ρ m' hagree c)]
  all_goals rfl

theorem br_v234 :
    Cert.KernelIdeal.HandRun.K m ρ c Cert.KernelIdeal.main_v234 = after (Cert.ReferenceIdeal.HandRun.ops (F := Ideal)) (launchContents m' c) (Cert.ReferenceIdeal.main_v259 : DevRef Cert.ReferenceIdeal.τ Cert.ReferenceIdeal.sig) := by
  rw [Cert.KernelIdeal.HandRun.eq_v234 m ρ c,
    Cert.ReferenceIdeal.HandRun.eq_v259 (launchContents m' c),
    (br_v233 m ρ m' hagree c)]
  all_goals rfl

theorem br_v235 :
    Cert.KernelIdeal.HandRun.K m ρ c Cert.KernelIdeal.main_v235 = after (Cert.ReferenceIdeal.HandRun.ops (F := Ideal)) (launchContents m' c) (Cert.ReferenceIdeal.main_v260 : DevRef Cert.ReferenceIdeal.τ Cert.ReferenceIdeal.sig) := by
  rw [Cert.KernelIdeal.HandRun.eq_v235 m ρ c,
    Cert.ReferenceIdeal.HandRun.eq_v260 (launchContents m' c),
    (br_v221 m ρ m' hagree c),
    (br_v234 m ρ m' hagree c)]
  all_goals rfl

theorem br_v236 :
    Cert.KernelIdeal.HandRun.K m ρ c Cert.KernelIdeal.main_v236 = after (Cert.ReferenceIdeal.HandRun.ops (F := Ideal)) (launchContents m' c) (Cert.ReferenceIdeal.main_v261 : DevRef Cert.ReferenceIdeal.τ Cert.ReferenceIdeal.sig) := by
  rw [Cert.KernelIdeal.HandRun.eq_v236 m ρ c,
    Cert.ReferenceIdeal.HandRun.eq_v261 (launchContents m' c),
    (br_v228 m ρ m' hagree c),
    (br_v235 m ρ m' hagree c)]
  all_goals rfl

theorem br_c_65 :
    Cert.KernelIdeal.HandRun.K m ρ c Cert.KernelIdeal.main_c_65 = after (Cert.ReferenceIdeal.HandRun.ops (F := Ideal)) (launchContents m' c) (Cert.ReferenceIdeal.main_c_68 : DevRef Cert.ReferenceIdeal.τ Cert.ReferenceIdeal.sig) := by
  rw [Cert.KernelIdeal.HandRun.eq_c_65 m ρ c,
    Cert.ReferenceIdeal.HandRun.eq_c_68 (launchContents m' c)]
  all_goals rfl

theorem br_v237 :
    Cert.KernelIdeal.HandRun.K m ρ c Cert.KernelIdeal.main_v237 = after (Cert.ReferenceIdeal.HandRun.ops (F := Ideal)) (launchContents m' c) (Cert.ReferenceIdeal.main_v262 : DevRef Cert.ReferenceIdeal.τ Cert.ReferenceIdeal.sig) := by
  rw [Cert.KernelIdeal.HandRun.eq_v237 m ρ c,
    Cert.ReferenceIdeal.HandRun.eq_v262 (launchContents m' c),
    (br_c_65 m ρ m' hagree c)]
  all_goals rfl

theorem br_v238 :
    Cert.KernelIdeal.HandRun.K m ρ c Cert.KernelIdeal.main_v238 = after (Cert.ReferenceIdeal.HandRun.ops (F := Ideal)) (launchContents m' c) (Cert.ReferenceIdeal.main_v263 : DevRef Cert.ReferenceIdeal.τ Cert.ReferenceIdeal.sig) := by
  rw [Cert.KernelIdeal.HandRun.eq_v238 m ρ c,
    Cert.ReferenceIdeal.HandRun.eq_v263 (launchContents m' c),
    (br_v204 m ρ m' hagree c),
    (br_v237 m ρ m' hagree c)]
  all_goals rfl

theorem br_c_66 :
    Cert.KernelIdeal.HandRun.K m ρ c Cert.KernelIdeal.main_c_66 = after (Cert.ReferenceIdeal.HandRun.ops (F := Ideal)) (launchContents m' c) (Cert.ReferenceIdeal.main_c_69 : DevRef Cert.ReferenceIdeal.τ Cert.ReferenceIdeal.sig) := by
  rw [Cert.KernelIdeal.HandRun.eq_c_66 m ρ c,
    Cert.ReferenceIdeal.HandRun.eq_c_69 (launchContents m' c)]
  all_goals rfl

theorem br_v239 :
    Cert.KernelIdeal.HandRun.K m ρ c Cert.KernelIdeal.main_v239 = after (Cert.ReferenceIdeal.HandRun.ops (F := Ideal)) (launchContents m' c) (Cert.ReferenceIdeal.main_v264 : DevRef Cert.ReferenceIdeal.τ Cert.ReferenceIdeal.sig) := by
  rw [Cert.KernelIdeal.HandRun.eq_v239 m ρ c,
    Cert.ReferenceIdeal.HandRun.eq_v264 (launchContents m' c),
    (br_c_66 m ρ m' hagree c)]
  all_goals rfl

theorem br_v240 :
    Cert.KernelIdeal.HandRun.K m ρ c Cert.KernelIdeal.main_v240 = after (Cert.ReferenceIdeal.HandRun.ops (F := Ideal)) (launchContents m' c) (Cert.ReferenceIdeal.main_v265 : DevRef Cert.ReferenceIdeal.τ Cert.ReferenceIdeal.sig) := by
  rw [Cert.KernelIdeal.HandRun.eq_v240 m ρ c,
    Cert.ReferenceIdeal.HandRun.eq_v265 (launchContents m' c),
    (br_v204 m ρ m' hagree c),
    (br_v239 m ρ m' hagree c)]
  all_goals rfl

theorem br_v241 :
    Cert.KernelIdeal.HandRun.K m ρ c Cert.KernelIdeal.main_v241 = after (Cert.ReferenceIdeal.HandRun.ops (F := Ideal)) (launchContents m' c) (Cert.ReferenceIdeal.main_v266 : DevRef Cert.ReferenceIdeal.τ Cert.ReferenceIdeal.sig) := by
  rw [Cert.KernelIdeal.HandRun.eq_v241 m ρ c,
    Cert.ReferenceIdeal.HandRun.eq_v266 (launchContents m' c),
    (br_v238 m ρ m' hagree c),
    (br_v240 m ρ m' hagree c),
    (br_v204 m ρ m' hagree c)]
  all_goals rfl

end Cert.Bridge

end
-- ==== Proof.GlueBridge7.lean ====
/-
  The irregular steps agree, continued: the next operations of the table, in program order.
-/
import proofs.«103573_j30391188587216_1_alg».proof.Proof.GlueBridge6

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

theorem br_v242 :
    Cert.KernelIdeal.HandRun.K m ρ c Cert.KernelIdeal.main_v242 = after (Cert.ReferenceIdeal.HandRun.ops (F := Ideal)) (launchContents m' c) (Cert.ReferenceIdeal.main_v267 : DevRef Cert.ReferenceIdeal.τ Cert.ReferenceIdeal.sig) := by
  rw [Cert.KernelIdeal.HandRun.eq_v242 m ρ c,
    Cert.ReferenceIdeal.HandRun.eq_v267 (launchContents m' c),
    (br_v241 m ρ m' hagree c)]
  all_goals rfl

theorem br_v243
    (hs_v139 : Cert.KernelIdeal.HandRun.K m ρ c Cert.KernelIdeal.main_v139 = after (Cert.ReferenceIdeal.HandRun.ops (F := Ideal)) (launchContents m' c) (Cert.ReferenceIdeal.main_v162 : DevRef Cert.ReferenceIdeal.τ Cert.ReferenceIdeal.sig)) :
    Cert.KernelIdeal.HandRun.K m ρ c Cert.KernelIdeal.main_v243 = after (Cert.ReferenceIdeal.HandRun.ops (F := Ideal)) (launchContents m' c) (Cert.ReferenceIdeal.main_v268 : DevRef Cert.ReferenceIdeal.τ Cert.ReferenceIdeal.sig) := by
  rw [Cert.KernelIdeal.HandRun.eq_v243 m ρ c,
    Cert.ReferenceIdeal.HandRun.eq_v268 (launchContents m' c),
    hs_v139,
    (br_v242 m ρ m' hagree c)]
  all_goals rfl

theorem br_c_67 :
    Cert.KernelIdeal.HandRun.K m ρ c Cert.KernelIdeal.main_c_67 = after (Cert.ReferenceIdeal.HandRun.ops (F := Ideal)) (launchContents m' c) (Cert.ReferenceIdeal.main_c_70 : DevRef Cert.ReferenceIdeal.τ Cert.ReferenceIdeal.sig) := by
  rw [Cert.KernelIdeal.HandRun.eq_c_67 m ρ c,
    Cert.ReferenceIdeal.HandRun.eq_c_70 (launchContents m' c)]
  all_goals rfl

theorem br_v244 :
    Cert.KernelIdeal.HandRun.K m ρ c Cert.KernelIdeal.main_v244 = after (Cert.ReferenceIdeal.HandRun.ops (F := Ideal)) (launchContents m' c) (Cert.ReferenceIdeal.main_v269 : DevRef Cert.ReferenceIdeal.τ Cert.ReferenceIdeal.sig) := by
  rw [Cert.KernelIdeal.HandRun.eq_v244 m ρ c,
    Cert.ReferenceIdeal.HandRun.eq_v269 (launchContents m' c),
    (br_c_67 m ρ m' hagree c)]
  all_goals rfl

theorem br_v245 :
    Cert.KernelIdeal.HandRun.K m ρ c Cert.KernelIdeal.main_v245 = after (Cert.ReferenceIdeal.HandRun.ops (F := Ideal)) (launchContents m' c) (Cert.ReferenceIdeal.main_v270 : DevRef Cert.ReferenceIdeal.τ Cert.ReferenceIdeal.sig) := by
  rw [Cert.KernelIdeal.HandRun.eq_v245 m ρ c,
    Cert.ReferenceIdeal.HandRun.eq_v270 (launchContents m' c),
    (br_v202 m ρ m' hagree c),
    (br_v244 m ρ m' hagree c)]
  all_goals rfl

theorem br_c_68 :
    Cert.KernelIdeal.HandRun.K m ρ c Cert.KernelIdeal.main_c_68 = after (Cert.ReferenceIdeal.HandRun.ops (F := Ideal)) (launchContents m' c) (Cert.ReferenceIdeal.main_c_71 : DevRef Cert.ReferenceIdeal.τ Cert.ReferenceIdeal.sig) := by
  rw [Cert.KernelIdeal.HandRun.eq_c_68 m ρ c,
    Cert.ReferenceIdeal.HandRun.eq_c_71 (launchContents m' c)]
  all_goals rfl

theorem br_v246 :
    Cert.KernelIdeal.HandRun.K m ρ c Cert.KernelIdeal.main_v246 = after (Cert.ReferenceIdeal.HandRun.ops (F := Ideal)) (launchContents m' c) (Cert.ReferenceIdeal.main_v271 : DevRef Cert.ReferenceIdeal.τ Cert.ReferenceIdeal.sig) := by
  rw [Cert.KernelIdeal.HandRun.eq_v246 m ρ c,
    Cert.ReferenceIdeal.HandRun.eq_v271 (launchContents m' c),
    (br_c_68 m ρ m' hagree c)]
  all_goals rfl

theorem br_v247 :
    Cert.KernelIdeal.HandRun.K m ρ c Cert.KernelIdeal.main_v247 = after (Cert.ReferenceIdeal.HandRun.ops (F := Ideal)) (launchContents m' c) (Cert.ReferenceIdeal.main_v272 : DevRef Cert.ReferenceIdeal.τ Cert.ReferenceIdeal.sig) := by
  rw [Cert.KernelIdeal.HandRun.eq_v247 m ρ c,
    Cert.ReferenceIdeal.HandRun.eq_v272 (launchContents m' c),
    (br_v202 m ρ m' hagree c),
    (br_v246 m ρ m' hagree c)]
  all_goals rfl

theorem br_v248 :
    Cert.KernelIdeal.HandRun.K m ρ c Cert.KernelIdeal.main_v248 = after (Cert.ReferenceIdeal.HandRun.ops (F := Ideal)) (launchContents m' c) (Cert.ReferenceIdeal.main_v273 : DevRef Cert.ReferenceIdeal.τ Cert.ReferenceIdeal.sig) := by
  rw [Cert.KernelIdeal.HandRun.eq_v248 m ρ c,
    Cert.ReferenceIdeal.HandRun.eq_v273 (launchContents m' c),
    (br_v245 m ρ m' hagree c),
    (br_v247 m ρ m' hagree c),
    (br_v202 m ρ m' hagree c)]
  all_goals rfl

theorem br_v249 :
    Cert.KernelIdeal.HandRun.K m ρ c Cert.KernelIdeal.main_v249 = after (Cert.ReferenceIdeal.HandRun.ops (F := Ideal)) (launchContents m' c) (Cert.ReferenceIdeal.main_v274 : DevRef Cert.ReferenceIdeal.τ Cert.ReferenceIdeal.sig) := by
  rw [Cert.KernelIdeal.HandRun.eq_v249 m ρ c,
    Cert.ReferenceIdeal.HandRun.eq_v274 (launchContents m' c),
    (br_v248 m ρ m' hagree c)]
  all_goals rfl

theorem br_v250
    (hs_v136 : Cert.KernelIdeal.HandRun.K m ρ c Cert.KernelIdeal.main_v136 = after (Cert.ReferenceIdeal.HandRun.ops (F := Ideal)) (launchContents m' c) (Cert.ReferenceIdeal.main_v158 : DevRef Cert.ReferenceIdeal.τ Cert.ReferenceIdeal.sig)) :
    Cert.KernelIdeal.HandRun.K m ρ c Cert.KernelIdeal.main_v250 = after (Cert.ReferenceIdeal.HandRun.ops (F := Ideal)) (launchContents m' c) (Cert.ReferenceIdeal.main_v275 : DevRef Cert.ReferenceIdeal.τ Cert.ReferenceIdeal.sig) := by
  rw [Cert.KernelIdeal.HandRun.eq_v250 m ρ c,
    Cert.ReferenceIdeal.HandRun.eq_v275 (launchContents m' c),
    (br_v138 m ρ m' hagree c hs_v136),
    (br_v249 m ρ m' hagree c)]
  all_goals rfl

theorem br_v251
    (hs_v139 : Cert.KernelIdeal.HandRun.K m ρ c Cert.KernelIdeal.main_v139 = after (Cert.ReferenceIdeal.HandRun.ops (F := Ideal)) (launchContents m' c) (Cert.ReferenceIdeal.main_v162 : DevRef Cert.ReferenceIdeal.τ Cert.ReferenceIdeal.sig))
    (hs_v136 : Cert.KernelIdeal.HandRun.K m ρ c Cert.KernelIdeal.main_v136 = after (Cert.ReferenceIdeal.HandRun.ops (F := Ideal)) (launchContents m' c) (Cert.ReferenceIdeal.main_v158 : DevRef Cert.ReferenceIdeal.τ Cert.ReferenceIdeal.sig)) :
    Cert.KernelIdeal.HandRun.K m ρ c Cert.KernelIdeal.main_v251 = after (Cert.ReferenceIdeal.HandRun.ops (F := Ideal)) (launchContents m' c) (Cert.ReferenceIdeal.main_v276 : DevRef Cert.ReferenceIdeal.τ Cert.ReferenceIdeal.sig) := by
  rw [Cert.KernelIdeal.HandRun.eq_v251 m ρ c,
    Cert.ReferenceIdeal.HandRun.eq_v276 (launchContents m' c),
    (br_v243 m ρ m' hagree c hs_v139),
    (br_v250 m ρ m' hagree c hs_v136)]
  all_goals rfl

theorem br_v252 :
    Cert.KernelIdeal.HandRun.K m ρ c Cert.KernelIdeal.main_v252 = after (Cert.ReferenceIdeal.HandRun.ops (F := Ideal)) (launchContents m' c) (Cert.ReferenceIdeal.main_v278 : DevRef Cert.ReferenceIdeal.τ Cert.ReferenceIdeal.sig) := by
  rw [Cert.KernelIdeal.HandRun.eq_v252 m ρ c,
    Cert.ReferenceIdeal.HandRun.eq_v278 (launchContents m' c),
    (br_v236 m ρ m' hagree c)]
  all_goals rfl

theorem br_cst_69 :
    Cert.KernelIdeal.HandRun.K m ρ c Cert.KernelIdeal.main_cst_69 = after (Cert.ReferenceIdeal.HandRun.ops (F := Ideal)) (launchContents m' c) (Cert.ReferenceIdeal.main_cst_72 : DevRef Cert.ReferenceIdeal.τ Cert.ReferenceIdeal.sig) := by
  rw [Cert.KernelIdeal.HandRun.eq_cst_69 m ρ c,
    Cert.ReferenceIdeal.HandRun.eq_cst_72 (launchContents m' c)]
  all_goals rfl

theorem br_v254 :
    Cert.KernelIdeal.HandRun.K m ρ c Cert.KernelIdeal.main_v254 = after (Cert.ReferenceIdeal.HandRun.ops (F := Ideal)) (launchContents m' c) (Cert.ReferenceIdeal.main_v281 : DevRef Cert.ReferenceIdeal.τ Cert.ReferenceIdeal.sig) := by
  rw [Cert.KernelIdeal.HandRun.eq_v254 m ρ c,
    Cert.ReferenceIdeal.HandRun.eq_v281 (launchContents m' c),
    (br_cst_69 m ρ m' hagree c)]
  all_goals rfl

theorem br_c_70 :
    Cert.KernelIdeal.HandRun.K m ρ c Cert.KernelIdeal.main_c_70 = after (Cert.ReferenceIdeal.HandRun.ops (F := Ideal)) (launchContents m' c) (Cert.ReferenceIdeal.main_c_73 : DevRef Cert.ReferenceIdeal.τ Cert.ReferenceIdeal.sig) := by
  rw [Cert.KernelIdeal.HandRun.eq_c_70 m ρ c,
    Cert.ReferenceIdeal.HandRun.eq_c_73 (launchContents m' c)]
  all_goals rfl

theorem br_v255 :
    Cert.KernelIdeal.HandRun.K m ρ c Cert.KernelIdeal.main_v255 = after (Cert.ReferenceIdeal.HandRun.ops (F := Ideal)) (launchContents m' c) (Cert.ReferenceIdeal.main_v282 : DevRef Cert.ReferenceIdeal.τ Cert.ReferenceIdeal.sig) := by
  rw [Cert.KernelIdeal.HandRun.eq_v255 m ρ c,
    Cert.ReferenceIdeal.HandRun.eq_v282 (launchContents m' c),
    (br_c_70 m ρ m' hagree c)]
  all_goals rfl

theorem br_v256 :
    Cert.KernelIdeal.HandRun.K m ρ c Cert.KernelIdeal.main_v256 = after (Cert.ReferenceIdeal.HandRun.ops (F := Ideal)) (launchContents m' c) (Cert.ReferenceIdeal.main_v283 : DevRef Cert.ReferenceIdeal.τ Cert.ReferenceIdeal.sig) := by
  rw [Cert.KernelIdeal.HandRun.eq_v256 m ρ c,
    Cert.ReferenceIdeal.HandRun.eq_v283 (launchContents m' c),
    (br_v206 m ρ m' hagree c),
    (br_v255 m ρ m' hagree c)]
  all_goals rfl

theorem br_c_71 :
    Cert.KernelIdeal.HandRun.K m ρ c Cert.KernelIdeal.main_c_71 = after (Cert.ReferenceIdeal.HandRun.ops (F := Ideal)) (launchContents m' c) (Cert.ReferenceIdeal.main_c_74 : DevRef Cert.ReferenceIdeal.τ Cert.ReferenceIdeal.sig) := by
  rw [Cert.KernelIdeal.HandRun.eq_c_71 m ρ c,
    Cert.ReferenceIdeal.HandRun.eq_c_74 (launchContents m' c)]
  all_goals rfl

theorem br_v257 :
    Cert.KernelIdeal.HandRun.K m ρ c Cert.KernelIdeal.main_v257 = after (Cert.ReferenceIdeal.HandRun.ops (F := Ideal)) (launchContents m' c) (Cert.ReferenceIdeal.main_v284 : DevRef Cert.ReferenceIdeal.τ Cert.ReferenceIdeal.sig) := by
  rw [Cert.KernelIdeal.HandRun.eq_v257 m ρ c,
    Cert.ReferenceIdeal.HandRun.eq_v284 (launchContents m' c),
    (br_c_71 m ρ m' hagree c)]
  all_goals rfl

theorem br_v258 :
    Cert.KernelIdeal.HandRun.K m ρ c Cert.KernelIdeal.main_v258 = after (Cert.ReferenceIdeal.HandRun.ops (F := Ideal)) (launchContents m' c) (Cert.ReferenceIdeal.main_v285 : DevRef Cert.ReferenceIdeal.τ Cert.ReferenceIdeal.sig) := by
  rw [Cert.KernelIdeal.HandRun.eq_v258 m ρ c,
    Cert.ReferenceIdeal.HandRun.eq_v285 (launchContents m' c),
    (br_v206 m ρ m' hagree c),
    (br_v257 m ρ m' hagree c)]
  all_goals rfl

theorem br_v259 :
    Cert.KernelIdeal.HandRun.K m ρ c Cert.KernelIdeal.main_v259 = after (Cert.ReferenceIdeal.HandRun.ops (F := Ideal)) (launchContents m' c) (Cert.ReferenceIdeal.main_v286 : DevRef Cert.ReferenceIdeal.τ Cert.ReferenceIdeal.sig) := by
  rw [Cert.KernelIdeal.HandRun.eq_v259 m ρ c,
    Cert.ReferenceIdeal.HandRun.eq_v286 (launchContents m' c),
    (br_v256 m ρ m' hagree c),
    (br_v258 m ρ m' hagree c),
    (br_v206 m ρ m' hagree c)]
  all_goals rfl

theorem br_v260 :
    Cert.KernelIdeal.HandRun.K m ρ c Cert.KernelIdeal.main_v260 = after (Cert.ReferenceIdeal.HandRun.ops (F := Ideal)) (launchContents m' c) (Cert.ReferenceIdeal.main_v287 : DevRef Cert.ReferenceIdeal.τ Cert.ReferenceIdeal.sig) := by
  rw [Cert.KernelIdeal.HandRun.eq_v260 m ρ c,
    Cert.ReferenceIdeal.HandRun.eq_v287 (launchContents m' c),
    (br_v259 m ρ m' hagree c)]
  all_goals rfl

theorem br_v261
    (hs_v253 : Cert.KernelIdeal.HandRun.K m ρ c Cert.KernelIdeal.main_v253 = after (Cert.ReferenceIdeal.HandRun.ops (F := Ideal)) (launchContents m' c) (Cert.ReferenceIdeal.main_v280 : DevRef Cert.ReferenceIdeal.τ Cert.ReferenceIdeal.sig)) :
    Cert.KernelIdeal.HandRun.K m ρ c Cert.KernelIdeal.main_v261 = after (Cert.ReferenceIdeal.HandRun.ops (F := Ideal)) (launchContents m' c) (Cert.ReferenceIdeal.main_v288 : DevRef Cert.ReferenceIdeal.τ Cert.ReferenceIdeal.sig) := by
  rw [Cert.KernelIdeal.HandRun.eq_v261 m ρ c,
    Cert.ReferenceIdeal.HandRun.eq_v288 (launchContents m' c),
    (br_v254 m ρ m' hagree c),
    (br_v260 m ρ m' hagree c),
    hs_v253]
  all_goals rfl

theorem br_v262
    (hs_v192 : Cert.KernelIdeal.HandRun.K m ρ c Cert.KernelIdeal.main_v192 = after (Cert.ReferenceIdeal.HandRun.ops (F := Ideal)) (launchContents m' c) (Cert.ReferenceIdeal.main_v217 : DevRef Cert.ReferenceIdeal.τ Cert.ReferenceIdeal.sig))
    (hs_v253 : Cert.KernelIdeal.HandRun.K m ρ c Cert.KernelIdeal.main_v253 = after (Cert.ReferenceIdeal.HandRun.ops (F := Ideal)) (launchContents m' c) (Cert.ReferenceIdeal.main_v280 : DevRef Cert.ReferenceIdeal.τ Cert.ReferenceIdeal.sig)) :
    Cert.KernelIdeal.HandRun.K m ρ c Cert.KernelIdeal.main_v262 = after (Cert.ReferenceIdeal.HandRun.ops (F := Ideal)) (launchContents m' c) (Cert.ReferenceIdeal.main_v295 : DevRef Cert.ReferenceIdeal.τ Cert.ReferenceIdeal.sig) := by
  rw [Cert.KernelIdeal.HandRun.eq_v262 m ρ c,
    Cert.ReferenceIdeal.HandRun.eq_v295 (launchContents m' c),
    (br_v200 m ρ m' hagree c hs_v192),
    (br_v261 m ρ m' hagree c hs_v253)]
  all_goals rfl

theorem br_v273
    (hs_v272 : Cert.KernelIdeal.HandRun.K m ρ c Cert.KernelIdeal.main_v272 = after (Cert.ReferenceIdeal.HandRun.ops (F := Ideal)) (launchContents m' c) (Cert.ReferenceIdeal.main_v316 : DevRef Cert.ReferenceIdeal.τ Cert.ReferenceIdeal.sig)) :
    Cert.KernelIdeal.HandRun.K m ρ c Cert.KernelIdeal.main_v273 = after (Cert.ReferenceIdeal.HandRun.ops (F := Ideal)) (launchContents m' c) (Cert.ReferenceIdeal.main_v317 : DevRef Cert.ReferenceIdeal.τ Cert.ReferenceIdeal.sig) := by
  rw [Cert.KernelIdeal.HandRun.eq_v273 m ρ c,
    Cert.ReferenceIdeal.HandRun.eq_v317 (launchContents m' c),
    hs_v272]
  all_goals rfl

theorem br_c_74 :
    Cert.KernelIdeal.HandRun.K m ρ c Cert.KernelIdeal.main_c_74 = after (Cert.ReferenceIdeal.HandRun.ops (F := Ideal)) (launchContents m' c) (Cert.ReferenceIdeal.main_c_80 : DevRef Cert.ReferenceIdeal.τ Cert.ReferenceIdeal.sig) := by
  rw [Cert.KernelIdeal.HandRun.eq_c_74 m ρ c,
    Cert.ReferenceIdeal.HandRun.eq_c_80 (launchContents m' c)]
  all_goals rfl

theorem br_v274 :
    Cert.KernelIdeal.HandRun.K m ρ c Cert.KernelIdeal.main_v274 = after (Cert.ReferenceIdeal.HandRun.ops (F := Ideal)) (launchContents m' c) (Cert.ReferenceIdeal.main_v318 : DevRef Cert.ReferenceIdeal.τ Cert.ReferenceIdeal.sig) := by
  rw [Cert.KernelIdeal.HandRun.eq_v274 m ρ c,
    Cert.ReferenceIdeal.HandRun.eq_v318 (launchContents m' c),
    (br_c_74 m ρ m' hagree c)]
  all_goals rfl

theorem br_v275 :
    Cert.KernelIdeal.HandRun.K m ρ c Cert.KernelIdeal.main_v275 = after (Cert.ReferenceIdeal.HandRun.ops (F := Ideal)) (launchContents m' c) (Cert.ReferenceIdeal.main_v319 : DevRef Cert.ReferenceIdeal.τ Cert.ReferenceIdeal.sig) := by
  rw [Cert.KernelIdeal.HandRun.eq_v275 m ρ c,
    Cert.ReferenceIdeal.HandRun.eq_v319 (launchContents m' c),
    (bk_arg0 m ρ m' hagree c),
    (br_v274 m ρ m' hagree c)]
  all_goals rfl

theorem br_c_75 :
    Cert.KernelIdeal.HandRun.K m ρ c Cert.KernelIdeal.main_c_75 = after (Cert.ReferenceIdeal.HandRun.ops (F := Ideal)) (launchContents m' c) (Cert.ReferenceIdeal.main_c_81 : DevRef Cert.ReferenceIdeal.τ Cert.ReferenceIdeal.sig) := by
  rw [Cert.KernelIdeal.HandRun.eq_c_75 m ρ c,
    Cert.ReferenceIdeal.HandRun.eq_c_81 (launchContents m' c)]
  all_goals rfl

theorem br_v276 :
    Cert.KernelIdeal.HandRun.K m ρ c Cert.KernelIdeal.main_v276 = after (Cert.ReferenceIdeal.HandRun.ops (F := Ideal)) (launchContents m' c) (Cert.ReferenceIdeal.main_v320 : DevRef Cert.ReferenceIdeal.τ Cert.ReferenceIdeal.sig) := by
  rw [Cert.KernelIdeal.HandRun.eq_v276 m ρ c,
    Cert.ReferenceIdeal.HandRun.eq_v320 (launchContents m' c),
    (br_c_75 m ρ m' hagree c)]
  all_goals rfl

theorem br_v277 :
    Cert.KernelIdeal.HandRun.K m ρ c Cert.KernelIdeal.main_v277 = after (Cert.ReferenceIdeal.HandRun.ops (F := Ideal)) (launchContents m' c) (Cert.ReferenceIdeal.main_v321 : DevRef Cert.ReferenceIdeal.τ Cert.ReferenceIdeal.sig) := by
  rw [Cert.KernelIdeal.HandRun.eq_v277 m ρ c,
    Cert.ReferenceIdeal.HandRun.eq_v321 (launchContents m' c),
    (bk_arg0 m ρ m' hagree c),
    (br_v276 m ρ m' hagree c)]
  all_goals rfl

theorem br_v278 :
    Cert.KernelIdeal.HandRun.K m ρ c Cert.KernelIdeal.main_v278 = after (Cert.ReferenceIdeal.HandRun.ops (F := Ideal)) (launchContents m' c) (Cert.ReferenceIdeal.main_v322 : DevRef Cert.ReferenceIdeal.τ Cert.ReferenceIdeal.sig) := by
  rw [Cert.KernelIdeal.HandRun.eq_v278 m ρ c,
    Cert.ReferenceIdeal.HandRun.eq_v322 (launchContents m' c),
    (br_v275 m ρ m' hagree c),
    (br_v277 m ρ m' hagree c),
    (bk_arg0 m ρ m' hagree c)]
  all_goals rfl

theorem br_v279 :
    Cert.KernelIdeal.HandRun.K m ρ c Cert.KernelIdeal.main_v279 = after (Cert.ReferenceIdeal.HandRun.ops (F := Ideal)) (launchContents m' c) (Cert.ReferenceIdeal.main_v323 : DevRef Cert.ReferenceIdeal.τ Cert.ReferenceIdeal.sig) := by
  rw [Cert.KernelIdeal.HandRun.eq_v279 m ρ c,
    Cert.ReferenceIdeal.HandRun.eq_v323 (launchContents m' c),
    (br_v278 m ρ m' hagree c)]
  all_goals rfl

theorem br_v280
    (hs_v271 : Cert.KernelIdeal.HandRun.K m ρ c Cert.KernelIdeal.main_v271 = after (Cert.ReferenceIdeal.HandRun.ops (F := Ideal)) (launchContents m' c) (Cert.ReferenceIdeal.main_v315 : DevRef Cert.ReferenceIdeal.τ Cert.ReferenceIdeal.sig)) :
    Cert.KernelIdeal.HandRun.K m ρ c Cert.KernelIdeal.main_v280 = after (Cert.ReferenceIdeal.HandRun.ops (F := Ideal)) (launchContents m' c) (Cert.ReferenceIdeal.main_v324 : DevRef Cert.ReferenceIdeal.τ Cert.ReferenceIdeal.sig) := by
  rw [Cert.KernelIdeal.HandRun.eq_v280 m ρ c,
    Cert.ReferenceIdeal.HandRun.eq_v324 (launchContents m' c),
    hs_v271,
    (br_v279 m ρ m' hagree c)]
  all_goals rfl

theorem br_c_76 :
    Cert.KernelIdeal.HandRun.K m ρ c Cert.KernelIdeal.main_c_76 = after (Cert.ReferenceIdeal.HandRun.ops (F := Ideal)) (launchContents m' c) (Cert.ReferenceIdeal.main_c_82 : DevRef Cert.ReferenceIdeal.τ Cert.ReferenceIdeal.sig) := by
  rw [Cert.KernelIdeal.HandRun.eq_c_76 m ρ c,
    Cert.ReferenceIdeal.HandRun.eq_c_82 (launchContents m' c)]
  all_goals rfl

theorem br_v281 :
    Cert.KernelIdeal.HandRun.K m ρ c Cert.KernelIdeal.main_v281 = after (Cert.ReferenceIdeal.HandRun.ops (F := Ideal)) (launchContents m' c) (Cert.ReferenceIdeal.main_v325 : DevRef Cert.ReferenceIdeal.τ Cert.ReferenceIdeal.sig) := by
  rw [Cert.KernelIdeal.HandRun.eq_v281 m ρ c,
    Cert.ReferenceIdeal.HandRun.eq_v325 (launchContents m' c),
    (br_c_76 m ρ m' hagree c)]
  all_goals rfl

theorem br_v282 :
    Cert.KernelIdeal.HandRun.K m ρ c Cert.KernelIdeal.main_v282 = after (Cert.ReferenceIdeal.HandRun.ops (F := Ideal)) (launchContents m' c) (Cert.ReferenceIdeal.main_v326 : DevRef Cert.ReferenceIdeal.τ Cert.ReferenceIdeal.sig) := by
  rw [Cert.KernelIdeal.HandRun.eq_v282 m ρ c,
    Cert.ReferenceIdeal.HandRun.eq_v326 (launchContents m' c),
    (bk_arg1 m ρ m' hagree c),
    (br_v281 m ρ m' hagree c)]
  all_goals rfl

theorem br_c_77 :
    Cert.KernelIdeal.HandRun.K m ρ c Cert.KernelIdeal.main_c_77 = after (Cert.ReferenceIdeal.HandRun.ops (F := Ideal)) (launchContents m' c) (Cert.ReferenceIdeal.main_c_83 : DevRef Cert.ReferenceIdeal.τ Cert.ReferenceIdeal.sig) := by
  rw [Cert.KernelIdeal.HandRun.eq_c_77 m ρ c,
    Cert.ReferenceIdeal.HandRun.eq_c_83 (launchContents m' c)]
  all_goals rfl

theorem br_v283 :
    Cert.KernelIdeal.HandRun.K m ρ c Cert.KernelIdeal.main_v283 = after (Cert.ReferenceIdeal.HandRun.ops (F := Ideal)) (launchContents m' c) (Cert.ReferenceIdeal.main_v327 : DevRef Cert.ReferenceIdeal.τ Cert.ReferenceIdeal.sig) := by
  rw [Cert.KernelIdeal.HandRun.eq_v283 m ρ c,
    Cert.ReferenceIdeal.HandRun.eq_v327 (launchContents m' c),
    (br_c_77 m ρ m' hagree c)]
  all_goals rfl

theorem br_v284 :
    Cert.KernelIdeal.HandRun.K m ρ c Cert.KernelIdeal.main_v284 = after (Cert.ReferenceIdeal.HandRun.ops (F := Ideal)) (launchContents m' c) (Cert.ReferenceIdeal.main_v328 : DevRef Cert.ReferenceIdeal.τ Cert.ReferenceIdeal.sig) := by
  rw [Cert.KernelIdeal.HandRun.eq_v284 m ρ c,
    Cert.ReferenceIdeal.HandRun.eq_v328 (launchContents m' c),
    (bk_arg1 m ρ m' hagree c),
    (br_v283 m ρ m' hagree c)]
  all_goals rfl

theorem br_v285 :
    Cert.KernelIdeal.HandRun.K m ρ c Cert.KernelIdeal.main_v285 = after (Cert.ReferenceIdeal.HandRun.ops (F := Ideal)) (launchContents m' c) (Cert.ReferenceIdeal.main_v329 : DevRef Cert.ReferenceIdeal.τ Cert.ReferenceIdeal.sig) := by
  rw [Cert.KernelIdeal.HandRun.eq_v285 m ρ c,
    Cert.ReferenceIdeal.HandRun.eq_v329 (launchContents m' c),
    (br_v282 m ρ m' hagree c),
    (br_v284 m ρ m' hagree c),
    (bk_arg1 m ρ m' hagree c)]
  all_goals rfl

theorem br_v286 :
    Cert.KernelIdeal.HandRun.K m ρ c Cert.KernelIdeal.main_v286 = after (Cert.ReferenceIdeal.HandRun.ops (F := Ideal)) (launchContents m' c) (Cert.ReferenceIdeal.main_v330 : DevRef Cert.ReferenceIdeal.τ Cert.ReferenceIdeal.sig) := by
  rw [Cert.KernelIdeal.HandRun.eq_v286 m ρ c,
    Cert.ReferenceIdeal.HandRun.eq_v330 (launchContents m' c),
    (br_v285 m ρ m' hagree c)]
  all_goals rfl

theorem br_v287
    (hs_v272 : Cert.KernelIdeal.HandRun.K m ρ c Cert.KernelIdeal.main_v272 = after (Cert.ReferenceIdeal.HandRun.ops (F := Ideal)) (launchContents m' c) (Cert.ReferenceIdeal.main_v316 : DevRef Cert.ReferenceIdeal.τ Cert.ReferenceIdeal.sig)) :
    Cert.KernelIdeal.HandRun.K m ρ c Cert.KernelIdeal.main_v287 = after (Cert.ReferenceIdeal.HandRun.ops (F := Ideal)) (launchContents m' c) (Cert.ReferenceIdeal.main_v331 : DevRef Cert.ReferenceIdeal.τ Cert.ReferenceIdeal.sig) := by
  rw [Cert.KernelIdeal.HandRun.eq_v287 m ρ c,
    Cert.ReferenceIdeal.HandRun.eq_v331 (launchContents m' c),
    (br_v273 m ρ m' hagree c hs_v272),
    (br_v286 m ρ m' hagree c)]
  all_goals rfl

end Cert.Bridge

end
-- ==== Proof.GlueBridge.lean ====
/-
  The irregular steps agree: every host operation of the kernel program has a twin among the reference's operations,
  the same function of twin operands.  The table of pairs, in program order, is cut into seven parts.
-/
import proofs.«103573_j30391188587216_1_alg».proof.Proof.GlueBridge7
-- ==== Proof.LibMatEntry.lean ====
/-
  A matrix product into a zero accumulator, read at one entry.

  A contraction whose dimension numbers say "the left operand's second axis against the right operand's first axis,
  no batch axis" is the plain product of an M×K by a K×N matrix, whatever name the record carries: the record is
  determined by its six axis lists.  At the exact values the product accumulated into a zero array has, at row `r` and
  column `q`, the entry `∑ₖ A r k · B k q`; a change of float format on the way in does not change an exact value,
  and neither does a reshape to the same shape.
-/
import Idealize.ShloMosaic.Lib.StackMember

noncomputable section

open scoped BigOperators

namespace Cert.MatEntry

open Idealize.ShloMosaic Idealize.ShloMosaic.ValueIdx

variable {M K N : Nat}

/-- Dimension numbers with these six axis lists are the plain ones. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  obtain ⟨lc, rc, ln, rn, lb, rb, wf⟩ := d
  dsimp only at h1 h2 h3 h4 h5 h6
  subst h1 h2 h3 h4 h5 h6
  rfl

/-- The product into a zero accumulator at row `r`, column `q`: the sum over the contracted coordinate. -/
theorem matmul_zero_entry {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (A : FVec Ideal ⟨2, ![M, K]⟩ φ₁) (B : FVec Ideal ⟨2, ![K, N]⟩ φ₂)
    (r : Fin M) (q : Fin N) :
    matmul d prec A B (constant ⟨2, ![M, N]⟩ .f32 0x00000000#32) (ix2 r q) = ∑ k : Fin K, A (ix2 r k) * B (ix2 k q) := by
  rw [eq_plain d h1 h2 h3 h4 h5 h6, matmul_zero_eq_dotGeneral]
  exact StackMember.dotGeneral_plain_apply prec A B r q

/-- The same with both operands first narrowed to another float format, as a kernel body does before its product. -/
theorem matmul_zero_entry_narrowed {φ ψ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hb : ψ.bits < φ.bits) (A : FVec Ideal ⟨2, ![M, K]⟩ φ) (B : FVec Ideal ⟨2, ![K, N]⟩ φ)
    (r : Fin M) (q : Fin N) :
    matmul d prec (truncf ψ A hb) (truncf ψ B hb) (constant ⟨2, ![M, N]⟩ .f32 0x00000000#32) (ix2 r q)
      = ∑ k : Fin K, A (ix2 r k) * B (ix2 k q) :=
  matmul_zero_entry d h1 h2 h3 h4 h5 h6 prec (truncf ψ A hb) (truncf ψ B hb) r q

/-- With the factors named: whatever row `r` of the left operand and column `q` of the right operand are known to be,
    the entry is the sum of their products. -/
theorem narrowed_entry_of_eq {φ ψ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hb : ψ.bits < φ.bits) (A : FVec Ideal ⟨2, ![M, K]⟩ φ) (B : FVec Ideal ⟨2, ![K, N]⟩ φ)
    (r : Fin M) (q : Fin N) (L R : Fin K → EReal) (hL : ∀ k, A (ix2 r k) = L k) (hR : ∀ k, B (ix2 k q) = R k) :
    matmul d prec (truncf ψ A hb) (truncf ψ B hb) (constant ⟨2, ![M, N]⟩ .f32 0x00000000#32) (ix2 r q)
      = ∑ k : Fin K, L k * R k :=
  (matmul_zero_entry_narrowed d h1 h2 h3 h4 h5 h6 prec hb A B r q).trans
    (Finset.sum_congr rfl fun k _ => by rw [hL k, hR k])

/-- The same when the left operand is first reshaped to its own shape. -/
theorem recast_narrowed_entry_of_eq {φ ψ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (hb : ψ.bits < φ.bits) (hc : (⟨2, ![M, K]⟩ : Shape).ShapeCasts ⟨2, ![M, K]⟩)
    (A : FVec Ideal ⟨2, ![M, K]⟩ φ) (B : FVec Ideal ⟨2, ![K, N]⟩ φ)
    (r : Fin M) (q : Fin N) (L R : Fin K → EReal) (hL : ∀ k, A (ix2 r k) = L k) (hR : ∀ k, B (ix2 k q) = R k) :
    matmul d prec (truncf ψ (shapeCast ⟨2, ![M, K]⟩ A hc) hb) (truncf ψ B hb) (constant ⟨2, ![M, N]⟩ .f32 0x00000000#32) (ix2 r q)
      = ∑ k : Fin K, L k * R k := by
  rw [shapeCast_self]
  exact narrowed_entry_of_eq d h1 h2 h3 h4 h5 h6 prec hb A B r q L R hL hR

end Cert.MatEntry

end
-- ==== Proof.MatmulPayload.lean ====
/-
  What the four matrix-product bodies store, read at one entry.

  Each body narrows its two loaded blocks to a shorter float format (the second-layer bodies first reshape the left
  block to its own shape), multiplies them into a zero accumulator and stores the product.  At the exact values the
  stored block has, at row `p` and column `q`, the entry `∑ₖ x₀ p k · x₁ k q`.  The lemmas take the rows of the left
  block and the columns of the right block as whatever they are known to be, so that a block read off a larger array
  can be put in directly.
-/
import proofs.«103573_j30391188587216_1_alg».proof.Proof.Gen.KernelIdeal.Skeleton
import proofs.«103573_j30391188587216_1_alg».proof.Proof.LibMatEntry

noncomputable section

open scoped BigOperators

namespace Cert.KernelIdeal.MatmulValue

open Cert.KernelIdeal Cert.KernelIdeal.Gen
open Idealize.ShloMosaic Idealize.ShloMosaic.ValueIdx

/-- The first modality projection's stored block: 2000 rows of 768 features times the 768×200 weights. -/
theorem pay0_entry (x0 : Vec Ideal S2000x768 .f32) (x1 : Vec Ideal S768x200 .f32) (p : Fin 2000) (q : Fin 200)
    (L R : Fin 768 → EReal) (hL : ∀ k, x0 (ix2 p k) = L k) (hR : ∀ k, x1 (ix2 k q) = R k) :
    k0_pay1 (F := Ideal) x0 x1 (ix2 p q) = ∑ k : Fin 768, L k * R k :=
  Cert.MatEntry.narrowed_entry_of_eq dot_S2000x768_S768x200_S2000x200_1_0_0_1_n_n rfl rfl rfl rfl rfl rfl none
    bitsLt_bf16_f32 x0 x1 p q L R hL hR

/-- The second modality projection's stored block: the same product on its own operands. -/
theorem pay1_entry (x0 : Vec Ideal S2000x768 .f32) (x1 : Vec Ideal S768x200 .f32) (p : Fin 2000) (q : Fin 200)
    (L R : Fin 768 → EReal) (hL : ∀ k, x0 (ix2 p k) = L k) (hR : ∀ k, x1 (ix2 k q) = R k) :
    k1_pay1 (F := Ideal) x0 x1 (ix2 p q) = ∑ k : Fin 768, L k * R k :=
  Cert.MatEntry.narrowed_entry_of_eq dot_S2000x768_S768x200_S2000x200_1_0_0_1_n_n rfl rfl rfl rfl rfl rfl none
    bitsLt_bf16_f32 x0 x1 p q L R hL hR

/-- The first layer's relation update: the 401 relation embeddings times the 200×200 relation weights. -/
theorem pay7_entry (x0 : Vec Ideal S401x200 .f32) (x1 : Vec Ideal S200x200 .f32) (p : Fin 401) (q : Fin 200)
    (L R : Fin 200 → EReal) (hL : ∀ k, x0 (ix2 p k) = L k) (hR : ∀ k, x1 (ix2 k q) = R k) :
    k7_pay1 (F := Ideal) x0 x1 (ix2 p q) = ∑ k : Fin 200, L k * R k :=
  Cert.MatEntry.recast_narrowed_entry_of_eq dot_S401x200_S200x200_S401x200_1_0_0_1_n_n rfl rfl rfl rfl rfl rfl none
    bitsLt_bf16_f32 shapeCasts_S401x200_S401x200 x0 x1 p q L R hL hR

/-- The second layer's relation update: the same product on its own operands. -/
theorem pay13_entry (x0 : Vec Ideal S401x200 .f32) (x1 : Vec Ideal S200x200 .f32) (p : Fin 401) (q : Fin 200)
    (L R : Fin 200 → EReal) (hL : ∀ k, x0 (ix2 p k) = L k) (hR : ∀ k, x1 (ix2 k q) = R k) :
    k13_pay1 (F := Ideal) x0 x1 (ix2 p q) = ∑ k : Fin 200, L k * R k :=
  Cert.MatEntry.recast_narrowed_entry_of_eq dot_S401x200_S200x200_S401x200_1_0_0_1_n_n rfl rfl rfl rfl rfl rfl none
    bitsLt_bf16_f32 shapeCasts_S401x200_S401x200 x0 x1 p q L R hL hR

end Cert.KernelIdeal.MatmulValue

end
-- ==== Proof.MatmulBlocks.lean ====
/-
  How the four matrix-product regions cut their arrays into blocks.

  The two modality projections run over fifty points; point `t` loads rows `2000 t … 2000 t + 1999` of the left
  operand (all 768 columns), the whole right operand, and writes the same rows of the result.  The two relation
  updates run over a single point whose blocks are the whole arrays (401 rows).  In every region the result's row
  blocks tile its rows, so every entry of the result array lies in the block of exactly the point `row / block rows`.
-/
import proofs.«103573_j30391188587216_1_alg».proof.Proof.Gen.KernelIdeal.Points
import Idealize.ShloMosaic.Lib.Pipeline.Value

set_option maxRecDepth 16384

noncomputable section

namespace Cert.KernelIdeal.MatmulValue

open Cert.KernelIdeal Cert.KernelIdeal.Gen
open Idealize.ShloMosaic Idealize.ShloMosaic.TcCoe Idealize.SL.Sem
open Idealize.ShloMosaic.Pipeline (Dat Cfg Window)

/-- The origin of a two-axis block. -/
theorem origin2 : (![0, 0] : Fin 2 → Nat) = fun _ => 0 := funext fun a => by fin_cases a <;> rfl

/-! ## Region 0: 50 points, point `t` holding rows `2000 t … 2000 t + 1999` -/

/-- The left operand's row block is the result's row block; every other block index is `0`. -/
theorem block_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) ≤ 49 ∧ win0_2.index t (1 : Fin 2) = 0 :=
  (by decide +kernel : ∀ t : Fin grid0.N, _)

/-- Every row block of the result is some point's. -/
theorem block_onto0 : ∀ q0 : Fin 50, ∃ t : Fin cfg0.N, win0_2.index t = ![q0.val, 0] :=
  (by decide +kernel : ∀ q0 : Fin 50, ∃ t : Fin grid0.N, win0_2.index t = ![q0.val, 0])

/-- An index of the result array is in point `t`'s block iff each coordinate is in the block's range on its axis. -/
theorem mem_blk0 (t : Fin cfg0.N) (i : S100000x200.Idx) :
    i ∈ ((cfg0.win 2).blk t).view.set ↔ ∀ a : Fin 2, win0_2.index t a * S2000x200.size a ≤ (i a).val
      ∧ (i a).val < win0_2.index t a * S2000x200.size a + S2000x200.size a := by
  show i ∈ ((View.whole main_v0).slice (win0_2.rect t)).set ↔ _
  rw [View.set_slice_whole, Rect.mem_set_unit]
  exact Iff.rfl

/-- Row `r` lies in the block of the point whose row block is `r / 2000`: the blocks cover the result array. -/
theorem cover0 (i : S100000x200.Idx) :
    ∃ t : Fin cfg0.N, (cfg0.win 2).flush t = true ∧ i ∈ ((cfg0.win 2).blk t).view.set := by
  have hi0 : (i 0).val < 100000 := (i 0).isLt
  have hi1 : (i 1).val < 200 := (i 1).isLt
  obtain ⟨t, ht⟩ := block_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 200 ≤ (i 1).val ∧ (i 1).val < win0_2.index t (1 : Fin 2) * 200 + 200; omega

/-! ## Region 1: 50 points, point `t` holding rows `2000 t … 2000 t + 1999` -/

/-- The left operand's row block is the result's row block; every other block index is `0`. -/
theorem block_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) ≤ 49 ∧ win1_2.index t (1 : Fin 2) = 0 :=
  (by decide +kernel : ∀ t : Fin grid1.N, _)

/-- Every row block of the result is some point's. -/
theorem block_onto1 : ∀ q0 : Fin 50, ∃ t : Fin cfg1.N, win1_2.index t = ![q0.val, 0] :=
  (by decide +kernel : ∀ q0 : Fin 50, ∃ t : Fin grid1.N, win1_2.index t = ![q0.val, 0])

/-- An index of the result array is in point `t`'s block iff each coordinate is in the block's range on its axis. -/
theorem mem_blk1 (t : Fin cfg1.N) (i : S100000x200.Idx) :
    i ∈ ((cfg1.win 2).blk t).view.set ↔ ∀ a : Fin 2, win1_2.index t a * S2000x200.size a ≤ (i a).val
      ∧ (i a).val < win1_2.index t a * S2000x200.size a + S2000x200.size a := by
  show i ∈ ((View.whole main_v1).slice (win1_2.rect t)).set ↔ _
  rw [View.set_slice_whole, Rect.mem_set_unit]
  exact Iff.rfl

/-- Row `r` lies in the block of the point whose row block is `r / 2000`: the blocks cover the result array. -/
theorem cover1 (i : S100000x200.Idx) :
    ∃ t : Fin cfg1.N, (cfg1.win 2).flush t = true ∧ i ∈ ((cfg1.win 2).blk t).view.set := by
  have hi0 : (i 0).val < 100000 := (i 0).isLt
  have hi1 : (i 1).val < 200 := (i 1).isLt
  obtain ⟨t, ht⟩ := block_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 200 ≤ (i 1).val ∧ (i 1).val < win1_2.index t (1 : Fin 2) * 200 + 200; omega

/-! ## Region 7: one point, whose blocks are the whole arrays -/

/-- The left operand's row block is the result's row block; every other block index is `0`. -/
theorem block_facts7 : ∀ t : Fin cfg7.N,
    win7_0.index t (0 : Fin 2) = win7_2.index t (0 : Fin 2) ∧ win7_0.index t (1 : Fin 2) = 0
    ∧ win7_1.index t (0 : Fin 2) = 0 ∧ win7_1.index t (1 : Fin 2) = 0
    ∧ win7_2.index t (0 : Fin 2) ≤ 0 ∧ win7_2.index t (1 : Fin 2) = 0 :=
  (by decide +kernel : ∀ t : Fin grid7.N, _)

/-- Every row block of the result is some point's. -/
theorem block_onto7 : ∀ q0 : Fin 1, ∃ t : Fin cfg7.N, win7_2.index t = ![q0.val, 0] :=
  (by decide +kernel : ∀ q0 : Fin 1, ∃ t : Fin grid7.N, win7_2.index t = ![q0.val, 0])

/-- An index of the result array is in point `t`'s block iff each coordinate is in the block's range on its axis. -/
theorem mem_blk7 (t : Fin cfg7.N) (i : S401x200.Idx) :
    i ∈ ((cfg7.win 2).blk t).view.set ↔ ∀ a : Fin 2, win7_2.index t a * S401x200.size a ≤ (i a).val
      ∧ (i a).val < win7_2.index t a * S401x200.size a + S401x200.size a := by
  show i ∈ ((View.whole main_v136).slice (win7_2.rect t)).set ↔ _
  rw [View.set_slice_whole, Rect.mem_set_unit]
  exact Iff.rfl

/-- Row `r` lies in the block of the point whose row block is `r / 401`: the blocks cover the result array. -/
theorem cover7 (i : S401x200.Idx) :
    ∃ t : Fin cfg7.N, (cfg7.win 2).flush t = true ∧ i ∈ ((cfg7.win 2).blk t).view.set := by
  have hi0 : (i 0).val < 401 := (i 0).isLt
  have hi1 : (i 1).val < 200 := (i 1).isLt
  obtain ⟨t, ht⟩ := block_onto7 ⟨(i 0).val / 401, by omega⟩
  have q0 : win7_2.index t (0 : Fin 2) = (i 0).val / 401 := congrFun ht 0
  have q1 : win7_2.index t (1 : Fin 2) = 0 := congrFun ht 1
  refine ⟨t, flush7_2 t, ?_⟩
  rw [mem_blk7]
  intro a
  match a with
  | ⟨0, _⟩ => show win7_2.index t (0 : Fin 2) * 401 ≤ (i 0).val ∧ (i 0).val < win7_2.index t (0 : Fin 2) * 401 + 401; omega
  | ⟨1, _⟩ => show win7_2.index t (1 : Fin 2) * 200 ≤ (i 1).val ∧ (i 1).val < win7_2.index t (1 : Fin 2) * 200 + 200; omega

/-! ## Region 13: one point, whose blocks are the whole arrays -/

/-- The left operand's row block is the result's row block; every other block index is `0`. -/
theorem block_facts13 : ∀ t : Fin cfg13.N,
    win13_0.index t (0 : Fin 2) = win13_2.index t (0 : Fin 2) ∧ win13_0.index t (1 : Fin 2) = 0
    ∧ win13_1.index t (0 : Fin 2) = 0 ∧ win13_1.index t (1 : Fin 2) = 0
    ∧ win13_2.index t (0 : Fin 2) ≤ 0 ∧ win13_2.index t (1 : Fin 2) = 0 :=
  (by decide +kernel : ∀ t : Fin grid13.N, _)

/-- Every row block of the result is some point's. -/
theorem block_onto13 : ∀ q0 : Fin 1, ∃ t : Fin cfg13.N, win13_2.index t = ![q0.val, 0] :=
  (by decide +kernel : ∀ q0 : Fin 1, ∃ t : Fin grid13.N, win13_2.index t = ![q0.val, 0])

/-- An index of the result array is in point `t`'s block iff each coordinate is in the block's range on its axis. -/
theorem mem_blk13 (t : Fin cfg13.N) (i : S401x200.Idx) :
    i ∈ ((cfg13.win 2).blk t).view.set ↔ ∀ a : Fin 2, win13_2.index t a * S401x200.size a ≤ (i a).val
      ∧ (i a).val < win13_2.index t a * S401x200.size a + S401x200.size a := by
  show i ∈ ((View.whole main_v272).slice (win13_2.rect t)).set ↔ _
  rw [View.set_slice_whole, Rect.mem_set_unit]
  exact Iff.rfl

/-- Row `r` lies in the block of the point whose row block is `r / 401`: the blocks cover the result array. -/
theorem cover13 (i : S401x200.Idx) :
    ∃ t : Fin cfg13.N, (cfg13.win 2).flush t = true ∧ i ∈ ((cfg13.win 2).blk t).view.set := by
  have hi0 : (i 0).val < 401 := (i 0).isLt
  have hi1 : (i 1).val < 200 := (i 1).isLt
  obtain ⟨t, ht⟩ := block_onto13 ⟨(i 0).val / 401, by omega⟩
  have q0 : win13_2.index t (0 : Fin 2) = (i 0).val / 401 := congrFun ht 0
  have q1 : win13_2.index t (1 : Fin 2) = 0 := congrFun ht 1
  refine ⟨t, flush13_2 t, ?_⟩
  rw [mem_blk13]
  intro a
  match a with
  | ⟨0, _⟩ => show win13_2.index t (0 : Fin 2) * 401 ≤ (i 0).val ∧ (i 0).val < win13_2.index t (0 : Fin 2) * 401 + 401; omega
  | ⟨1, _⟩ => show win13_2.index t (1 : Fin 2) * 200 ≤ (i 1).val ∧ (i 1).val < win13_2.index t (1 : Fin 2) * 200 + 200; omega

end Cert.KernelIdeal.MatmulValue

end
-- ==== Proof.Spec.lean ====
/-
  The mathematics both programs compute, on the extended reals.

  A layer of the network takes node features, two projected modality feature arrays, relation embeddings and edge
  lists, and produces new node features and new relation embeddings.  Its dense steps are: a matrix product; the
  entrywise sum of three arrays; an edge message (a matrix product scaled row by row by the edge's normaliser); the
  combination `(s + (h − ℓ)·W) · (1/3) + b` of the scattered messages `s` with the self-loop product; the column sums
  and column sums of squares of the combined array; the mean and the variance taken from those two moments; and the
  normalised hyperbolic tangent.  The irregular steps (gathering rows by index, adding rows into indexed rows) are
  the same operations on both sides and are not specified here.

  Arrays are functions of explicit coordinates, `Fin M → Fin N → EReal`, so that every statement about an entry is
  at literal coordinate types.  The three float literals are kept as their binary words; the same word appears on
  both sides and is never evaluated, except that `100000` must be recognised as the number of rows.
-/
import Idealize.ShloMosaic.PureOps.Ideal
import Idealize.ShloMosaic.Lib.ValueIdx

noncomputable section

open scoped BigOperators

namespace Cert.GraphConv

open Idealize.ShloMosaic Idealize.ShloMosaic.ValueIdx

/-- The literal `1/3` rounded to single precision, as both programs spell it. -/
abbrev third : EReal := Ideal.ofBits .f32 0x3EAAAAAB#32
/-- The literal `1e-5` rounded to single precision, as both programs spell it. -/
abbrev eps : EReal := Ideal.ofBits .f32 0x3727C5AC#32
/-- The number of rows, `100000`, as both programs spell it. -/
abbrev rows : EReal := Ideal.ofBits .f32 0x47C35000#32

variable {M K N E D : Nat}

/-- The matrix product `(A B) r c = ∑ₖ A r k · B k c`. -/
def matProd (A : Fin M → Fin K → EReal) (B : Fin K → Fin N → EReal) : Fin M → Fin N → EReal :=
  fun r c => ∑ k : Fin K, A r k * B k c

/-- The entrywise sum `(a + b) + c`. -/
def sum3 (a b c : Fin M → Fin N → EReal) : Fin M → Fin N → EReal := fun r q => (a r q + b r q) + c r q

/-- An edge message: the projected difference, scaled by the edge's normaliser. -/
def message (diff : Fin E → Fin K → EReal) (norm : Fin E → EReal) (w : Fin K → Fin N → EReal) : Fin E → Fin N → EReal :=
  fun e q => matProd diff w e q * norm e

/-- The combined pre-activation `(s + (h − ℓ) W) · (1/3) + b`. -/
def combine (h : Fin M → Fin K → EReal) (loopRel : Fin K → EReal) (w : Fin K → Fin N → EReal)
    (s : Fin M → Fin N → EReal) (b : Fin N → EReal) : Fin M → Fin N → EReal :=
  fun r q => (s r q + ∑ k : Fin K, (h r k - loopRel k) * w k q) * third + b q

/-- The column sums. -/
def colSum (x : Fin M → Fin N → EReal) : Fin N → EReal := fun q => ∑ r : Fin M, x r q

/-- The column sums of squares. -/
def colSumSq (x : Fin M → Fin N → EReal) : Fin N → EReal := fun q => ∑ r : Fin M, x r q * x r q

/-- The column means from the column sums: a division by the number of rows. -/
def meanOf (s1 : Fin N → EReal) : Fin N → EReal := fun q => Ideal.div (s1 q) rows

/-- The variance from the two moments: `S₂/n − (S₁/n)²`. -/
def varOfMoments (s1 s2 : Fin N → EReal) : Fin N → EReal :=
  fun q => Ideal.div (s2 q) rows - meanOf s1 q * meanOf s1 q

/-- The variance as the mean squared deviation from the mean: `(∑ᵣ (x r − μ)²)/n`. -/
def varCentred (x : Fin M → Fin N → EReal) : Fin N → EReal :=
  fun q => Ideal.div (∑ r : Fin M, (x r q - meanOf (colSum x) q) * (x r q - meanOf (colSum x) q)) rows

/-- The normalised activation `tanh ((x − μ) · (σ² + ε)^(−1/2))`. -/
def normTanh (x : Fin M → Fin N → EReal) (mean var : Fin N → EReal) : Fin M → Fin N → EReal :=
  fun r q => Ideal.tanh ((x r q - mean q) * Ideal.rsqrt (var q + eps))

/-- A two-axis array of the programs read through explicit coordinates. -/
abbrev at2 {n0 n1 : Nat} (a : (⟨2, ![n0, n1]⟩ : Shape).Idx → EReal) : Fin n0 → Fin n1 → EReal := fun r c => a (ix2 r c)

/-- A one-axis array of the programs read through its coordinate. -/
abbrev at1 {n : Nat} (a : (⟨1, ![n]⟩ : Shape).Idx → EReal) : Fin n → EReal := fun r => a (ix1 r)

/-- Two two-axis arrays are equal when they agree at every pair of coordinates. -/
theorem ext2 {n0 n1 : Nat} {a b : (⟨2, ![n0, n1]⟩ : Shape).Idx → EReal} (h : ∀ r c, a (ix2 r c) = b (ix2 r c)) : a = b :=
  funext fun j => by rw [eq_ix2 j]; exact h _ _

end Cert.GraphConv

end
-- ==== Proof.MatmulValue0.lean ====
/-
  The first modality projection, as one array.

  The region multiplies the 100000×768 array of first-modality features by the 768×200 projection weights.  Its grid
  has fifty points; point `t` loads rows `2000 t … 2000 t + 1999` of the features and the whole weight array, and writes
  the same rows of the result.  A row of a product depends only on the same row of the left operand, so the block a
  point writes is that block of the product of the whole arrays; the fifty row blocks tile the 100000 rows, so after
  the region the result array is the product, entry by entry `∑ₖ A r k · B k q`.
-/
import proofs.«103573_j30391188587216_1_alg».proof.Proof.FrameKernelIdeal
import proofs.«103573_j30391188587216_1_alg».proof.Proof.MatmulPayload
import proofs.«103573_j30391188587216_1_alg».proof.Proof.MatmulBlocks
import proofs.«103573_j30391188587216_1_alg».proof.Proof.Spec
import Idealize.ShloMosaic.Lib.Pipeline.Value

set_option maxRecDepth 16384

noncomputable section

open scoped BigOperators

namespace Cert.KernelIdeal.MatmulValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product array: its entry at row `r`, column `q` is `∑ₖ A r k · B k q`. -/
abbrev prod0 (A : S100000x768.Idx → EReal) (B : S768x200.Idx → EReal) : S100000x200.Idx → EReal :=
  fun i => Cert.GraphConv.matProd (Cert.GraphConv.at2 A) (Cert.GraphConv.at2 B) (i 0) (i 1)

/-- What point `t` writes back is block `t` of the product of the two operand arrays as the region found them:
    the left block's row `p` is row `2000 t + p` of the left array, and the right block is the whole right array. -/
theorem flushed0_eq (c : Dev nD) (t : Fin cfg0.N) :
    (dat0 V c).flushed 2 t = ((cfg0.win 2).blk t).view.read (Elt Ideal) (prod0 (V c main_arg5) (V c main_arg6)) := by
  show (cfg0.win 2).cut (grid0.coords t) ((dat0 V c).after 2 t) = _
  rw [after0_2]
  unfold out0_2
  rw [View.canon_unit_zero origin2]
  simp only [View.ld_unit_zero (S := S2000x768) origin2, View.ld_unit_zero (S := S768x200) origin2]
  obtain ⟨e0, e1, e2, e3, e4, e5⟩ := block_facts0 t
  refine Cert.GraphConv.ext2 (n0 := 2000) (n1 := 200) fun p q => ?_
  show k0_pay1 (F := Ideal) (iblk0 V c 0 t) (iblk0 V c 1 t) (ix2 p q)
    = Cert.GraphConv.matProd (Cert.GraphConv.at2 (V c main_arg5)) (Cert.GraphConv.at2 (V c main_arg6))
        ((((cfg0.win 2).blk t).view.emb (ix2 p q)) 0) ((((cfg0.win 2).blk t).view.emb (ix2 p q)) 1)
  refine pay0_entry (iblk0 V c 0 t) (iblk0 V c 1 t) p q
    (fun k => Cert.GraphConv.at2 (V c main_arg5) ((((cfg0.win 2).blk t).view.emb (ix2 p q)) 0) k)
    (fun k => Cert.GraphConv.at2 (V c main_arg6) k ((((cfg0.win 2).blk t).view.emb (ix2 p q)) 1)) (fun k => ?_) (fun k => ?_)
  · show V c main_arg5 (((cfg0.win 0).blk t).view.emb (ix2 p k)) = V c main_arg5 (ix2 ((((cfg0.win 2).blk t).view.emb (ix2 p q)) 0) k)
    refine congrArg (V c main_arg5) ?_
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 768 + 1 * k.val = k.val; omega
  · show V c main_arg6 (((cfg0.win 1).blk t).view.emb (ix2 k q)) = V c main_arg6 (ix2 k ((((cfg0.win 2).blk t).view.emb (ix2 p q)) 1))
    refine congrArg (V c main_arg6) ?_
    funext a; apply Fin.ext
    match a with
    | ⟨0, _⟩ => show win0_1.index t (0 : Fin 2) * 768 + 1 * k.val = k.val; omega
    | ⟨1, _⟩ => show win0_1.index t (1 : Fin 2) * 200 + 1 * q.val = win0_2.index t (1 : Fin 2) * 200 + 1 * q.val; omega

/-- After the region the result array is the product of the two operand arrays as the region found them. -/
theorem array0_eq (c : Dev nD) : (dat0 V c).arrAt 2 cfg0.N = prod0 (V c main_arg5) (V c main_arg6) :=
  (dat0 V c).arrAt_eq_of_cover 2 (prod0 (V c main_arg5) (V c main_arg6)) (fun t _ => flushed0_eq V c t) cover0

/-- Entry by entry: row `r`, column `q` of the result is `∑ₖ A r k · B k q`. -/
theorem entry0 (c : Dev nD) (r : Fin 100000) (q : Fin 200) :
    (dat0 V c).arrAt 2 cfg0.N (ix2 r q)
      = Cert.GraphConv.matProd (Cert.GraphConv.at2 (V c main_arg5)) (Cert.GraphConv.at2 (V c main_arg6)) r q :=
  congrFun (array0_eq V c) (ix2 r q)

end Cert.KernelIdeal.MatmulValue

end
-- ==== Proof.MatmulValue1.lean ====
/-
  The second modality projection, as one array.

  The region multiplies the 100000×768 array of second-modality features by the 768×200 projection weights.  Its
  grid has fifty points; point `t` loads rows `2000 t … 2000 t + 1999` of the features and the whole weight array, and
  writes the same rows of the result.  A row of a product depends only on the same row of the left operand, so the
  block a point writes is that block of the product of the whole arrays; the fifty row blocks tile the 100000 rows, so
  after the region the result array is the product, entry by entry `∑ₖ A r k · B k q`.
-/
import proofs.«103573_j30391188587216_1_alg».proof.Proof.FrameKernelIdeal
import proofs.«103573_j30391188587216_1_alg».proof.Proof.MatmulPayload
import proofs.«103573_j30391188587216_1_alg».proof.Proof.MatmulBlocks
import proofs.«103573_j30391188587216_1_alg».proof.Proof.Spec
import Idealize.ShloMosaic.Lib.Pipeline.Value

set_option maxRecDepth 16384

noncomputable section

open scoped BigOperators

namespace Cert.KernelIdeal.MatmulValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product array: its entry at row `r`, column `q` is `∑ₖ A r k · B k q`. -/
abbrev prod1 (A : S100000x768.Idx → EReal) (B : S768x200.Idx → EReal) : S100000x200.Idx → EReal :=
  fun i => Cert.GraphConv.matProd (Cert.GraphConv.at2 A) (Cert.GraphConv.at2 B) (i 0) (i 1)

/-- What point `t` writes back is block `t` of the product of the two operand arrays as the region found them:
    the left block's row `p` is row `2000 t + p` of the left array, and the right block is the whole right array. -/
theorem flushed1_eq (c : Dev nD) (t : Fin cfg1.N) :
    (dat1 V c).flushed 2 t = ((cfg1.win 2).blk t).view.read (Elt Ideal) (prod1 (V c main_arg7) (V c main_arg8)) := by
  show (cfg1.win 2).cut (grid1.coords t) ((dat1 V c).after 2 t) = _
  rw [after1_2]
  unfold out1_2
  rw [View.canon_unit_zero origin2]
  simp only [View.ld_unit_zero (S := S2000x768) origin2, View.ld_unit_zero (S := S768x200) origin2]
  obtain ⟨e0, e1, e2, e3, e4, e5⟩ := block_facts1 t
  refine Cert.GraphConv.ext2 (n0 := 2000) (n1 := 200) fun p q => ?_
  show k1_pay1 (F := Ideal) (iblk1 V c 0 t) (iblk1 V c 1 t) (ix2 p q)
    = Cert.GraphConv.matProd (Cert.GraphConv.at2 (V c main_arg7)) (Cert.GraphConv.at2 (V c main_arg8))
        ((((cfg1.win 2).blk t).view.emb (ix2 p q)) 0) ((((cfg1.win 2).blk t).view.emb (ix2 p q)) 1)
  refine pay1_entry (iblk1 V c 0 t) (iblk1 V c 1 t) p q
    (fun k => Cert.GraphConv.at2 (V c main_arg7) ((((cfg1.win 2).blk t).view.emb (ix2 p q)) 0) k)
    (fun k => Cert.GraphConv.at2 (V c main_arg8) k ((((cfg1.win 2).blk t).view.emb (ix2 p q)) 1)) (fun k => ?_) (fun k => ?_)
  · show V c main_arg7 (((cfg1.win 0).blk t).view.emb (ix2 p k)) = V c main_arg7 (ix2 ((((cfg1.win 2).blk t).view.emb (ix2 p q)) 0) k)
    refine congrArg (V c main_arg7) ?_
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 768 + 1 * k.val = k.val; omega
  · show V c main_arg8 (((cfg1.win 1).blk t).view.emb (ix2 k q)) = V c main_arg8 (ix2 k ((((cfg1.win 2).blk t).view.emb (ix2 p q)) 1))
    refine congrArg (V c main_arg8) ?_
    funext a; apply Fin.ext
    match a with
    | ⟨0, _⟩ => show win1_1.index t (0 : Fin 2) * 768 + 1 * k.val = k.val; omega
    | ⟨1, _⟩ => show win1_1.index t (1 : Fin 2) * 200 + 1 * q.val = win1_2.index t (1 : Fin 2) * 200 + 1 * q.val; omega

/-- After the region the result array is the product of the two operand arrays as the region found them. -/
theorem array1_eq (c : Dev nD) : (dat1 V c).arrAt 2 cfg1.N = prod1 (V c main_arg7) (V c main_arg8) :=
  (dat1 V c).arrAt_eq_of_cover 2 (prod1 (V c main_arg7) (V c main_arg8)) (fun t _ => flushed1_eq V c t) cover1

/-- Entry by entry: row `r`, column `q` of the result is `∑ₖ A r k · B k q`. -/
theorem entry1 (c : Dev nD) (r : Fin 100000) (q : Fin 200) :
    (dat1 V c).arrAt 2 cfg1.N (ix2 r q)
      = Cert.GraphConv.matProd (Cert.GraphConv.at2 (V c main_arg7)) (Cert.GraphConv.at2 (V c main_arg8)) r q :=
  congrFun (array1_eq V c) (ix2 r q)

end Cert.KernelIdeal.MatmulValue

end
-- ==== Proof.MatmulValue7.lean ====
/-
  The first layer's relation update, as one array.

  The region multiplies the 401×200 array of relation embeddings by the 200×200 relation weights.  Its grid has a
  single point, whose blocks are the whole arrays: what that point writes is the product of the two arrays, and it
  fills the result array, entry by entry `∑ₖ A r k · B k q`.
-/
import proofs.«103573_j30391188587216_1_alg».proof.Proof.FrameKernelIdeal
import proofs.«103573_j30391188587216_1_alg».proof.Proof.MatmulPayload
import proofs.«103573_j30391188587216_1_alg».proof.Proof.MatmulBlocks
import proofs.«103573_j30391188587216_1_alg».proof.Proof.Spec
import Idealize.ShloMosaic.Lib.Pipeline.Value

set_option maxRecDepth 16384

noncomputable section

open scoped BigOperators

namespace Cert.KernelIdeal.MatmulValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product array: its entry at row `r`, column `q` is `∑ₖ A r k · B k q`. -/
abbrev prod7 (A : S401x200.Idx → EReal) (B : S200x200.Idx → EReal) : S401x200.Idx → EReal :=
  fun i => Cert.GraphConv.matProd (Cert.GraphConv.at2 A) (Cert.GraphConv.at2 B) (i 0) (i 1)

/-- What point `t` writes back is block `t` of the product of the two operand arrays as the region found them:
    the left block's row `p` is row `p` of the left array, and the right block is the whole right array. -/
theorem flushed7_eq (c : Dev nD) (t : Fin cfg7.N) :
    (dat7 V c).flushed 2 t = ((cfg7.win 2).blk t).view.read (Elt Ideal) (prod7 (V c main_v2) (V c main_arg13)) := by
  show (cfg7.win 2).cut (grid7.coords t) ((dat7 V c).after 2 t) = _
  rw [after7_2]
  unfold out7_2
  rw [View.canon_unit_zero origin2]
  simp only [View.ld_unit_zero (S := S401x200) origin2, View.ld_unit_zero (S := S200x200) origin2]
  obtain ⟨e0, e1, e2, e3, e4, e5⟩ := block_facts7 t
  refine Cert.GraphConv.ext2 (n0 := 401) (n1 := 200) fun p q => ?_
  show k7_pay1 (F := Ideal) (iblk7 V c 0 t) (iblk7 V c 1 t) (ix2 p q)
    = Cert.GraphConv.matProd (Cert.GraphConv.at2 (V c main_v2)) (Cert.GraphConv.at2 (V c main_arg13))
        ((((cfg7.win 2).blk t).view.emb (ix2 p q)) 0) ((((cfg7.win 2).blk t).view.emb (ix2 p q)) 1)
  refine pay7_entry (iblk7 V c 0 t) (iblk7 V c 1 t) p q
    (fun k => Cert.GraphConv.at2 (V c main_v2) ((((cfg7.win 2).blk t).view.emb (ix2 p q)) 0) k)
    (fun k => Cert.GraphConv.at2 (V c main_arg13) k ((((cfg7.win 2).blk t).view.emb (ix2 p q)) 1)) (fun k => ?_) (fun k => ?_)
  · show V c main_v2 (((cfg7.win 0).blk t).view.emb (ix2 p k)) = V c main_v2 (ix2 ((((cfg7.win 2).blk t).view.emb (ix2 p q)) 0) k)
    refine congrArg (V c main_v2) ?_
    funext a; apply Fin.ext
    match a with
    | ⟨0, _⟩ => show win7_0.index t (0 : Fin 2) * 401 + 1 * p.val = win7_2.index t (0 : Fin 2) * 401 + 1 * p.val; omega
    | ⟨1, _⟩ => show win7_0.index t (1 : Fin 2) * 200 + 1 * k.val = k.val; omega
  · show V c main_arg13 (((cfg7.win 1).blk t).view.emb (ix2 k q)) = V c main_arg13 (ix2 k ((((cfg7.win 2).blk t).view.emb (ix2 p q)) 1))
    refine congrArg (V c main_arg13) ?_
    funext a; apply Fin.ext
    match a with
    | ⟨0, _⟩ => show win7_1.index t (0 : Fin 2) * 200 + 1 * k.val = k.val; omega
    | ⟨1, _⟩ => show win7_1.index t (1 : Fin 2) * 200 + 1 * q.val = win7_2.index t (1 : Fin 2) * 200 + 1 * q.val; omega

/-- After the region the result array is the product of the two operand arrays as the region found them. -/
theorem array7_eq (c : Dev nD) : (dat7 V c).arrAt 2 cfg7.N = prod7 (V c main_v2) (V c main_arg13) :=
  (dat7 V c).arrAt_eq_of_cover 2 (prod7 (V c main_v2) (V c main_arg13)) (fun t _ => flushed7_eq V c t) cover7

/-- Entry by entry: row `r`, column `q` of the result is `∑ₖ A r k · B k q`. -/
theorem entry7 (c : Dev nD) (r : Fin 401) (q : Fin 200) :
    (dat7 V c).arrAt 2 cfg7.N (ix2 r q)
      = Cert.GraphConv.matProd (Cert.GraphConv.at2 (V c main_v2)) (Cert.GraphConv.at2 (V c main_arg13)) r q :=
  congrFun (array7_eq V c) (ix2 r q)

end Cert.KernelIdeal.MatmulValue

end
-- ==== Proof.MatmulValue13.lean ====
/-
  The second layer's relation update, as one array.

  The region multiplies the 401×200 array of the first layer's relation embeddings by the second layer's 200×200
  relation weights.  Its grid has a single point, whose blocks are the whole arrays: what that point writes is the
  product of the two arrays, and it fills the result array, entry by entry `∑ₖ A r k · B k q`.
-/
import proofs.«103573_j30391188587216_1_alg».proof.Proof.FrameKernelIdeal
import proofs.«103573_j30391188587216_1_alg».proof.Proof.MatmulPayload
import proofs.«103573_j30391188587216_1_alg».proof.Proof.MatmulBlocks
import proofs.«103573_j30391188587216_1_alg».proof.Proof.Spec
import Idealize.ShloMosaic.Lib.Pipeline.Value

set_option maxRecDepth 16384

noncomputable section

open scoped BigOperators

namespace Cert.KernelIdeal.MatmulValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The product array: its entry at row `r`, column `q` is `∑ₖ A r k · B k q`. -/
abbrev prod13 (A : S401x200.Idx → EReal) (B : S200x200.Idx → EReal) : S401x200.Idx → EReal :=
  fun i => Cert.GraphConv.matProd (Cert.GraphConv.at2 A) (Cert.GraphConv.at2 B) (i 0) (i 1)

/-- What point `t` writes back is block `t` of the product of the two operand arrays as the region found them:
    the left block's row `p` is row `p` of the left array, and the right block is the whole right array. -/
theorem flushed13_eq (c : Dev nD) (t : Fin cfg13.N) :
    (dat13 V c).flushed 2 t = ((cfg13.win 2).blk t).view.read (Elt Ideal) (prod13 (V c main_v138) (V c main_arg19)) := by
  show (cfg13.win 2).cut (grid13.coords t) ((dat13 V c).after 2 t) = _
  rw [after13_2]
  unfold out13_2
  rw [View.canon_unit_zero origin2]
  simp only [View.ld_unit_zero (S := S401x200) origin2, View.ld_unit_zero (S := S200x200) origin2]
  obtain ⟨e0, e1, e2, e3, e4, e5⟩ := block_facts13 t
  refine Cert.GraphConv.ext2 (n0 := 401) (n1 := 200) fun p q => ?_
  show k13_pay1 (F := Ideal) (iblk13 V c 0 t) (iblk13 V c 1 t) (ix2 p q)
    = Cert.GraphConv.matProd (Cert.GraphConv.at2 (V c main_v138)) (Cert.GraphConv.at2 (V c main_arg19))
        ((((cfg13.win 2).blk t).view.emb (ix2 p q)) 0) ((((cfg13.win 2).blk t).view.emb (ix2 p q)) 1)
  refine pay13_entry (iblk13 V c 0 t) (iblk13 V c 1 t) p q
    (fun k => Cert.GraphConv.at2 (V c main_v138) ((((cfg13.win 2).blk t).view.emb (ix2 p q)) 0) k)
    (fun k => Cert.GraphConv.at2 (V c main_arg19) k ((((cfg13.win 2).blk t).view.emb (ix2 p q)) 1)) (fun k => ?_) (fun k => ?_)
  · show V c main_v138 (((cfg13.win 0).blk t).view.emb (ix2 p k)) = V c main_v138 (ix2 ((((cfg13.win 2).blk t).view.emb (ix2 p q)) 0) k)
    refine congrArg (V c main_v138) ?_
    funext a; apply Fin.ext
    match a with
    | ⟨0, _⟩ => show win13_0.index t (0 : Fin 2) * 401 + 1 * p.val = win13_2.index t (0 : Fin 2) * 401 + 1 * p.val; omega
    | ⟨1, _⟩ => show win13_0.index t (1 : Fin 2) * 200 + 1 * k.val = k.val; omega
  · show V c main_arg19 (((cfg13.win 1).blk t).view.emb (ix2 k q)) = V c main_arg19 (ix2 k ((((cfg13.win 2).blk t).view.emb (ix2 p q)) 1))
    refine congrArg (V c main_arg19) ?_
    funext a; apply Fin.ext
    match a with
    | ⟨0, _⟩ => show win13_1.index t (0 : Fin 2) * 200 + 1 * k.val = k.val; omega
    | ⟨1, _⟩ => show win13_1.index t (1 : Fin 2) * 200 + 1 * q.val = win13_2.index t (1 : Fin 2) * 200 + 1 * q.val; omega

/-- After the region the result array is the product of the two operand arrays as the region found them. -/
theorem array13_eq (c : Dev nD) : (dat13 V c).arrAt 2 cfg13.N = prod13 (V c main_v138) (V c main_arg19) :=
  (dat13 V c).arrAt_eq_of_cover 2 (prod13 (V c main_v138) (V c main_arg19)) (fun t _ => flushed13_eq V c t) cover13

/-- Entry by entry: row `r`, column `q` of the result is `∑ₖ A r k · B k q`. -/
theorem entry13 (c : Dev nD) (r : Fin 401) (q : Fin 200) :
    (dat13 V c).arrAt 2 cfg13.N (ix2 r q)
      = Cert.GraphConv.matProd (Cert.GraphConv.at2 (V c main_v138)) (Cert.GraphConv.at2 (V c main_arg19)) r q :=
  congrFun (array13_eq V c) (ix2 r q)

end Cert.KernelIdeal.MatmulValue

end
-- ==== Proof.KernelEqsSpecMatmul.lean ====
/-
  The matrix products of the program, between final contents on the extended reals.

  Each of the four product regions leaves in its output the matrix product of the two arrays it finds at entry;
  none of the three buffers is written again, so the product formula holds between their final contents.
-/
import proofs.«103573_j30391188587216_1_alg».proof.Proof.KernelEqsRegion
import proofs.«103573_j30391188587216_1_alg».proof.Proof.MatmulValue0
import proofs.«103573_j30391188587216_1_alg».proof.Proof.MatmulValue1
import proofs.«103573_j30391188587216_1_alg».proof.Proof.MatmulValue7
import proofs.«103573_j30391188587216_1_alg».proof.Proof.MatmulValue13
import proofs.«103573_j30391188587216_1_alg».proof.Proof.Spec

set_option maxRecDepth 16384

noncomputable section

namespace Cert.KernelIdeal.HandRun

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)
open Cert.GraphConv (matProd sum3 message combine colSum colSumSq normTanh at2)

variable (mI : (ℓ : Loc nD τ sig) → Buf (Elt Ideal) ℓ) (ρ : Dev nD → PrngReg)

/-- `main_v0 = main_arg5 · main_arg6`, entry by entry, at the end of the program. -/
theorem spec_v0 (c : Dev nD) (r : Fin 100000) (q : Fin 200) :
    K mI ρ c main_v0 (ix2 r q)
      = matProd (at2 (n0 := 100000) (n1 := 768) (K mI ρ c main_arg5)) (at2 (n0 := 768) (n1 := 200) (K mI ρ c main_arg6)) r q := by
  first
    | (rw [kout0_2 mI ρ c, MatmulValue.entry0 (V0 mI ρ) c r q]; rw [← kin0_0 mI ρ c, ← kin0_1 mI ρ c]; done)
    | exact (congrFun (kout0_2 mI ρ c) (ix2 r q)).trans ((MatmulValue.entry0 (V0 mI ρ) c r q).trans (by rw [kin0_0 mI ρ c, kin0_1 mI ρ c]))
    | exact (congrFun (kout0_2 mI ρ c) (ix2 r q)).trans ((MatmulValue.entry0 (V0 mI ρ) c r q).trans (by simp only [kin0_0 mI ρ c, kin0_1 mI ρ c]))

/-- `main_v1 = main_arg7 · main_arg8`, entry by entry, at the end of the program. -/
theorem spec_v1 (c : Dev nD) (r : Fin 100000) (q : Fin 200) :
    K mI ρ c main_v1 (ix2 r q)
      = matProd (at2 (n0 := 100000) (n1 := 768) (K mI ρ c main_arg7)) (at2 (n0 := 768) (n1 := 200) (K mI ρ c main_arg8)) r q := by
  first
    | (rw [kout1_2 mI ρ c, MatmulValue.entry1 (V1 mI ρ) c r q]; rw [← kin1_0 mI ρ c, ← kin1_1 mI ρ c]; done)
    | exact (congrFun (kout1_2 mI ρ c) (ix2 r q)).trans ((MatmulValue.entry1 (V1 mI ρ) c r q).trans (by rw [kin1_0 mI ρ c, kin1_1 mI ρ c]))
    | exact (congrFun (kout1_2 mI ρ c) (ix2 r q)).trans ((MatmulValue.entry1 (V1 mI ρ) c r q).trans (by simp only [kin1_0 mI ρ c, kin1_1 mI ρ c]))

/-- `main_v136 = main_v2 · main_arg13`, entry by entry, at the end of the program. -/
theorem spec_v136 (c : Dev nD) (r : Fin 401) (q : Fin 200) :
    K mI ρ c main_v136 (ix2 r q)
      = matProd (at2 (n0 := 401) (n1 := 200) (K mI ρ c main_v2)) (at2 (n0 := 200) (n1 := 200) (K mI ρ c main_arg13)) r q := by
  first
    | (rw [kout7_2 mI ρ c, MatmulValue.entry7 (V16 mI ρ) c r q]; rw [← kin7_0 mI ρ c, ← kin7_1 mI ρ c]; done)
    | exact (congrFun (kout7_2 mI ρ c) (ix2 r q)).trans ((MatmulValue.entry7 (V16 mI ρ) c r q).trans (by rw [kin7_0 mI ρ c, kin7_1 mI ρ c]))
    | exact (congrFun (kout7_2 mI ρ c) (ix2 r q)).trans ((MatmulValue.entry7 (V16 mI ρ) c r q).trans (by simp only [kin7_0 mI ρ c, kin7_1 mI ρ c]))

/-- `main_v272 = main_v138 · main_arg19`, entry by entry, at the end of the program. -/
theorem spec_v272 (c : Dev nD) (r : Fin 401) (q : Fin 200) :
    K mI ρ c main_v272 (ix2 r q)
      = matProd (at2 (n0 := 401) (n1 := 200) (K mI ρ c main_v138)) (at2 (n0 := 200) (n1 := 200) (K mI ρ c main_arg19)) r q := by
  first
    | (rw [kout13_2 mI ρ c, MatmulValue.entry13 (V31 mI ρ) c r q]; rw [← kin13_0 mI ρ c, ← kin13_1 mI ρ c]; done)
    | exact (congrFun (kout13_2 mI ρ c) (ix2 r q)).trans ((MatmulValue.entry13 (V31 mI ρ) c r q).trans (by rw [kin13_0 mI ρ c, kin13_1 mI ρ c]))
    | exact (congrFun (kout13_2 mI ρ c) (ix2 r q)).trans ((MatmulValue.entry13 (V31 mI ρ) c r q).trans (by simp only [kin13_0 mI ρ c, kin13_1 mI ρ c]))

end Cert.KernelIdeal.HandRun

end
-- ==== Proof.FuseValue.lean ====
/-
  The fused node features of the first layer, as one array.

  The region adds, entry by entry, the node features and the two projected modality features.  Its grid has fifty
  points; point `t` loads rows `2000 t … 2000 t + 1999` of the three operand arrays and writes the same rows of the
  result.  The fifty row blocks tile the 100000 rows, so after the region the result array is the entrywise sum
  `(a₀ + a₁) + a₂` of the three operand arrays as the region found them.
-/
import proofs.«103573_j30391188587216_1_alg».proof.Proof.FrameKernelIdeal
import proofs.«103573_j30391188587216_1_alg».proof.Proof.Spec
import Idealize.ShloMosaic.Lib.Pipeline.Value

set_option maxRecDepth 16384

noncomputable section

namespace Cert.KernelIdeal.FuseValue

open Cert.KernelIdeal Cert.KernelIdeal.Gen Cert.KernelIdeal.GenP
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

/-- The origin of a two-axis block. -/
theorem origin2 : (![0, 0] : Fin 2 → Nat) = fun _ => 0 := funext fun a => by fin_cases a <;> rfl

/-- The entrywise sum `(a₀ + a₁) + a₂` of three arrays of node features. -/
abbrev sum3 (a0 a1 a2 : S100000x200.Idx → Elt F .f32) : S100000x200.Idx → Elt F .f32 :=
  fun i => FloatOps.addf (FloatOps.addf (a0 i) (a1 i)) (a2 i)

/-- What the body stores is the entrywise sum of its three loaded blocks. -/
theorem payload_eq (x0 x1 x2 : Vec F S2000x200 .f32) : k2_pay1 x0 x1 x2 = addf (addf x0 x1) x2 := by
  unfold k2_pay1
  simp only [shapeCast_self]

/-- Every operand's block index at a point is the result's block index: row block `t`, column block `0`. -/
theorem block_rows : ∀ t : Fin cfg2.N,
    win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) ≤ 49 ∧ win2_3.index t (1 : Fin 2) ≤ 0 :=
  (by decide +kernel : ∀ t : Fin grid2.N, _)

/-- Every one of the fifty row blocks is some point's. -/
theorem block_onto : ∀ q0 : Fin 50, ∃ t : Fin cfg2.N, win2_3.index t = ![q0.val, 0] :=
  (by decide +kernel : ∀ q0 : Fin 50, ∃ t : Fin grid2.N, win2_3.index t = ![q0.val, 0])

/-- What point `t` writes back is block `t` of the entrywise sum of the operand arrays. -/
theorem flushed_eq (c : Dev nD) (t : Fin cfg2.N) :
    (dat2 V c).flushed 3 t = ((cfg2.win 3).blk t).view.read (Elt F) (sum3 (V c main_arg4) (V c main_v0) (V c main_v1)) := by
  show (cfg2.win 3).cut (grid2.coords t) ((dat2 V c).after 3 t) = _
  rw [after2_3]
  unfold out2_3
  rw [View.canon_unit_zero origin2]
  simp only [View.ld_unit_zero (S := S2000x200) origin2]
  rw [payload_eq]
  obtain ⟨e0, e1, e2, e3, e4, e5, _, _⟩ := block_rows t
  funext j
  show FloatOps.addf (FloatOps.addf (V c main_arg4 (((cfg2.win 0).blk t).view.emb j)) (V c main_v0 (((cfg2.win 1).blk t).view.emb j)))
        (V c main_v1 (((cfg2.win 2).blk t).view.emb j))
      = FloatOps.addf (FloatOps.addf (V c main_arg4 (((cfg2.win 3).blk t).view.emb j)) (V c main_v0 (((cfg2.win 3).blk t).view.emb j)))
        (V c main_v1 (((cfg2.win 3).blk t).view.emb j))
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 200 + 1 * (j 1).val = win2_3.index t (1 : Fin 2) * 200 + 1 * (j 1).val; omega
  have h1 : ((cfg2.win 1).blk t).view.emb j = ((cfg2.win 3).blk t).view.emb j := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 200 + 1 * (j 1).val = win2_3.index t (1 : Fin 2) * 200 + 1 * (j 1).val; omega
  have h2 : ((cfg2.win 2).blk t).view.emb j = ((cfg2.win 3).blk t).view.emb j := by
    funext a; apply Fin.ext
    match a with
    | ⟨0, _⟩ => show win2_2.index t (0 : Fin 2) * 2000 + 1 * (j 0).val = win2_3.index t (0 : Fin 2) * 2000 + 1 * (j 0).val; omega
    | ⟨1, _⟩ => show win2_2.index t (1 : Fin 2) * 200 + 1 * (j 1).val = win2_3.index t (1 : Fin 2) * 200 + 1 * (j 1).val; omega
  rw [h0, h1, h2]

/-- An index of the array is in point `t`'s block iff each coordinate is in the block's range on its axis. -/
theorem mem_blk (t : Fin cfg2.N) (i : S100000x200.Idx) :
    i ∈ ((cfg2.win 3).blk t).view.set ↔ ∀ a : Fin 2, win2_3.index t a * S2000x200.size a ≤ (i a).val
      ∧ (i a).val < win2_3.index t a * S2000x200.size a + S2000x200.size a := by
  show i ∈ ((View.whole main_v3).slice (win2_3.rect t)).set ↔ _
  rw [View.set_slice_whole, Rect.mem_set_unit]
  exact Iff.rfl

/-- Row `r` lies in the block of the point whose row block is `r / 2000`: the blocks cover the array. -/
theorem cover (i : S100000x200.Idx) :
    ∃ t : Fin cfg2.N, (cfg2.win 3).flush t = true ∧ i ∈ ((cfg2.win 3).blk t).view.set := by
  have hi0 : (i 0).val < 100000 := (i 0).isLt
  have hi1 : (i 1).val < 200 := (i 1).isLt
  obtain ⟨t, ht⟩ := block_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 200 ≤ (i 1).val ∧ (i 1).val < win2_3.index t (1 : Fin 2) * 200 + 200; omega

/-- After the region the result array is the entrywise sum of the three operand arrays as the region found them. -/
theorem array_eq (c : Dev nD) :
    (dat2 V c).arrAt 3 cfg2.N = sum3 (V c main_arg4) (V c main_v0) (V c main_v1) :=
  (dat2 V c).arrAt_eq_of_cover 3 _ (fun t _ => flushed_eq V c t) cover

/-! ## At the exact instance -/

section Exact

open Idealize.ShloMosaic.ValueIdx
open Cert.GraphConv (at2)

variable (V : (c : Dev nD) → (b : Ref sig .tc) → Buf (Elt Ideal) ((c : Thread nD τ).loc b))

/-- The region's result, entry by entry, is the specification's sum of three arrays. -/
theorem entry2 (c : Dev nD) (r : Fin 100000) (q : Fin 200) :
    (dat2 V c).arrAt 3 cfg2.N (ix2 r q)
      = Cert.GraphConv.sum3 (at2 (V c main_arg4)) (at2 (V c main_v0)) (at2 (V c main_v1)) r q := by
  rw [array_eq V c]
  rfl

end Exact

end Cert.KernelIdeal.FuseValue

end
-- ==== Proof.FuseValue8.lean ====
/-
  The fused node features of the second layer, as one array.

  The region adds, entry by entry, the first layer's activation and the two projected modality features: the same
  body as the first layer's fusion, on other arrays.  Point `t` of its fifty loads rows `2000 t … 2000 t + 1999` of
  the three operands and writes the same rows of the result; the row blocks tile the 100000 rows, so after the region
  the result array is the entrywise sum `(a₀ + a₁) + a₂` of the three operand arrays as the region found them.
-/
import proofs.«103573_j30391188587216_1_alg».proof.Proof.FuseValue

set_option maxRecDepth 16384

noncomputable section

namespace Cert.KernelIdeal.FuseValue

open Cert.KernelIdeal Cert.KernelIdeal.Gen Cert.KernelIdeal.GenP
open Idealize.ShloMosaic Idealize.ShloMosaic.TcCoe Idealize.SL.Sem
open Idealize.ShloMosaic.Pipeline (Dat Cfg Window)

section Generic

variable {F : FTy → Type} [FloatOps F]
variable (V : (c : Dev nD) → (b : Ref sig .tc) → Buf (Elt F) ((c : Thread nD τ).loc b))

/-- What the body stores is the entrywise sum of its three loaded blocks. -/
theorem payload8_eq (x0 x1 x2 : Vec F S2000x200 .f32) : k8_pay1 x0 x1 x2 = addf (addf x0 x1) x2 := by
  unfold k8_pay1
  simp only [shapeCast_self]

/-- Every operand's block index at a point is the result's block index: row block `t`, column block `0`. -/
theorem block_rows8 : ∀ t : Fin cfg8.N,
    win8_0.index t (0 : Fin 2) = win8_3.index t (0 : Fin 2) ∧ win8_0.index t (1 : Fin 2) = win8_3.index t (1 : Fin 2)
    ∧ win8_1.index t (0 : Fin 2) = win8_3.index t (0 : Fin 2) ∧ win8_1.index t (1 : Fin 2) = win8_3.index t (1 : Fin 2)
    ∧ win8_2.index t (0 : Fin 2) = win8_3.index t (0 : Fin 2) ∧ win8_2.index t (1 : Fin 2) = win8_3.index t (1 : Fin 2)
    ∧ win8_3.index t (0 : Fin 2) ≤ 49 ∧ win8_3.index t (1 : Fin 2) ≤ 0 :=
  (by decide +kernel : ∀ t : Fin grid8.N, _)

/-- Every one of the fifty row blocks is some point's. -/
theorem block_onto8 : ∀ q0 : Fin 50, ∃ t : Fin cfg8.N, win8_3.index t = ![q0.val, 0] :=
  (by decide +kernel : ∀ q0 : Fin 50, ∃ t : Fin grid8.N, win8_3.index t = ![q0.val, 0])

/-- What point `t` writes back is block `t` of the entrywise sum of the operand arrays. -/
theorem flushed8_eq (c : Dev nD) (t : Fin cfg8.N) :
    (dat8 V c).flushed 3 t = ((cfg8.win 3).blk t).view.read (Elt F) (sum3 (V c main_v135) (V c main_v0) (V c main_v1)) := by
  show (cfg8.win 3).cut (grid8.coords t) ((dat8 V c).after 3 t) = _
  rw [after8_3]
  unfold out8_3
  rw [View.canon_unit_zero origin2]
  simp only [View.ld_unit_zero (S := S2000x200) origin2]
  rw [payload8_eq]
  obtain ⟨e0, e1, e2, e3, e4, e5, _, _⟩ := block_rows8 t
  funext j
  show FloatOps.addf (FloatOps.addf (V c main_v135 (((cfg8.win 0).blk t).view.emb j)) (V c main_v0 (((cfg8.win 1).blk t).view.emb j)))
        (V c main_v1 (((cfg8.win 2).blk t).view.emb j))
      = FloatOps.addf (FloatOps.addf (V c main_v135 (((cfg8.win 3).blk t).view.emb j)) (V c main_v0 (((cfg8.win 3).blk t).view.emb j)))
        (V c main_v1 (((cfg8.win 3).blk t).view.emb j))
  have h0 : ((cfg8.win 0).blk t).view.emb j = ((cfg8.win 3).blk t).view.emb j := by
    funext a; apply Fin.ext
    match a with
    | ⟨0, _⟩ => show win8_0.index t (0 : Fin 2) * 2000 + 1 * (j 0).val = win8_3.index t (0 : Fin 2) * 2000 + 1 * (j 0).val; omega
    | ⟨1, _⟩ => show win8_0.index t (1 : Fin 2) * 200 + 1 * (j 1).val = win8_3.index t (1 : Fin 2) * 200 + 1 * (j 1).val; omega
  have h1 : ((cfg8.win 1).blk t).view.emb j = ((cfg8.win 3).blk t).view.emb j := by
    funext a; apply Fin.ext
    match a with
    | ⟨0, _⟩ => show win8_1.index t (0 : Fin 2) * 2000 + 1 * (j 0).val = win8_3.index t (0 : Fin 2) * 2000 + 1 * (j 0).val; omega
    | ⟨1, _⟩ => show win8_1.index t (1 : Fin 2) * 200 + 1 * (j 1).val = win8_3.index t (1 : Fin 2) * 200 + 1 * (j 1).val; omega
  have h2 : ((cfg8.win 2).blk t).view.emb j = ((cfg8.win 3).blk t).view.emb j := by
    funext a; apply Fin.ext
    match a with
    | ⟨0, _⟩ => show win8_2.index t (0 : Fin 2) * 2000 + 1 * (j 0).val = win8_3.index t (0 : Fin 2) * 2000 + 1 * (j 0).val; omega
    | ⟨1, _⟩ => show win8_2.index t (1 : Fin 2) * 200 + 1 * (j 1).val = win8_3.index t (1 : Fin 2) * 200 + 1 * (j 1).val; omega
  rw [h0, h1, h2]

/-- An index of the array is in point `t`'s block iff each coordinate is in the block's range on its axis. -/
theorem mem_blk8 (t : Fin cfg8.N) (i : S100000x200.Idx) :
    i ∈ ((cfg8.win 3).blk t).view.set ↔ ∀ a : Fin 2, win8_3.index t a * S2000x200.size a ≤ (i a).val
      ∧ (i a).val < win8_3.index t a * S2000x200.size a + S2000x200.size a := by
  show i ∈ ((View.whole main_v139).slice (win8_3.rect t)).set ↔ _
  rw [View.set_slice_whole, Rect.mem_set_unit]
  exact Iff.rfl

/-- Row `r` lies in the block of the point whose row block is `r / 2000`: the blocks cover the array. -/
theorem cover8 (i : S100000x200.Idx) :
    ∃ t : Fin cfg8.N, (cfg8.win 3).flush t = true ∧ i ∈ ((cfg8.win 3).blk t).view.set := by
  have hi0 : (i 0).val < 100000 := (i 0).isLt
  have hi1 : (i 1).val < 200 := (i 1).isLt
  obtain ⟨t, ht⟩ := block_onto8 ⟨(i 0).val / 2000, by omega⟩
  have q0 : win8_3.index t (0 : Fin 2) = (i 0).val / 2000 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 200 ≤ (i 1).val ∧ (i 1).val < win8_3.index t (1 : Fin 2) * 200 + 200; omega

/-- After the region the result array is the entrywise sum of the three operand arrays as the region found them. -/
theorem array8_eq (c : Dev nD) :
    (dat8 V c).arrAt 3 cfg8.N = sum3 (V c main_v135) (V c main_v0) (V c main_v1) :=
  (dat8 V c).arrAt_eq_of_cover 3 _ (fun t _ => flushed8_eq V c t) cover8

end Generic

/-! ## At the exact instance -/

section Exact

open Idealize.ShloMosaic.ValueIdx
open Cert.GraphConv (at2)

variable (V : (c : Dev nD) → (b : Ref sig .tc) → Buf (Elt Ideal) ((c : Thread nD τ).loc b))

/-- The region's result, entry by entry, is the specification's sum of three arrays. -/
theorem entry8 (c : Dev nD) (r : Fin 100000) (q : Fin 200) :
    (dat8 V c).arrAt 3 cfg8.N (ix2 r q)
      = Cert.GraphConv.sum3 (at2 (V c main_v135)) (at2 (V c main_v0)) (at2 (V c main_v1)) r q := by
  rw [array8_eq V c]
  rfl

end Exact

end Cert.KernelIdeal.FuseValue

end
-- ==== Proof.KernelEqsSpecFuse.lean ====
/-
  The fused node features of both layers, between final contents on the extended reals.

  Each of the two fuse regions leaves in its output the entrywise sum `(a + b) + c` of the three arrays it finds at
  entry; none of the four buffers is written again, so the sum holds between their final contents.
-/
import proofs.«103573_j30391188587216_1_alg».proof.Proof.KernelEqsRegion
import proofs.«103573_j30391188587216_1_alg».proof.Proof.FuseValue
import proofs.«103573_j30391188587216_1_alg».proof.Proof.FuseValue8
import proofs.«103573_j30391188587216_1_alg».proof.Proof.Spec

set_option maxRecDepth 16384

noncomputable section

namespace Cert.KernelIdeal.HandRun

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)
open Cert.GraphConv (matProd sum3 message combine colSum colSumSq normTanh at2)

variable (mI : (ℓ : Loc nD τ sig) → Buf (Elt Ideal) ℓ) (ρ : Dev nD → PrngReg)

/-- `main_v3 = (main_arg4 + main_v0) + main_v1`, entry by entry, at the end of the program. -/
theorem spec_v3 (c : Dev nD) (r : Fin 100000) (q : Fin 200) :
    K mI ρ c main_v3 (ix2 r q)
      = sum3 (at2 (n0 := 100000) (n1 := 200) (K mI ρ c main_arg4)) (at2 (n0 := 100000) (n1 := 200) (K mI ρ c main_v0))
          (at2 (n0 := 100000) (n1 := 200) (K mI ρ c main_v1)) r q := by
  first
    | (rw [kout2_3 mI ρ c, FuseValue.entry2 (V3 mI ρ) c r q]; rw [← kin2_0 mI ρ c, ← kin2_1 mI ρ c, ← kin2_2 mI ρ c]; done)
    | exact (congrFun (kout2_3 mI ρ c) (ix2 r q)).trans ((FuseValue.entry2 (V3 mI ρ) c r q).trans (by rw [kin2_0 mI ρ c, kin2_1 mI ρ c, kin2_2 mI ρ c]))
    | exact (congrFun (kout2_3 mI ρ c) (ix2 r q)).trans ((FuseValue.entry2 (V3 mI ρ) c r q).trans (by simp only [kin2_0 mI ρ c, kin2_1 mI ρ c, kin2_2 mI ρ c]))

/-- `main_v139 = (main_v135 + main_v0) + main_v1`, entry by entry, at the end of the program. -/
theorem spec_v139 (c : Dev nD) (r : Fin 100000) (q : Fin 200) :
    K mI ρ c main_v139 (ix2 r q)
      = sum3 (at2 (n0 := 100000) (n1 := 200) (K mI ρ c main_v135)) (at2 (n0 := 100000) (n1 := 200) (K mI ρ c main_v0))
          (at2 (n0 := 100000) (n1 := 200) (K mI ρ c main_v1)) r q := by
  first
    | (rw [kout8_3 mI ρ c, FuseValue.entry8 (V18 mI ρ) c r q]; rw [← kin8_0 mI ρ c, ← kin8_1 mI ρ c, ← kin8_2 mI ρ c]; done)
    | exact (congrFun (kout8_3 mI ρ c) (ix2 r q)).trans ((FuseValue.entry8 (V18 mI ρ) c r q).trans (by rw [kin8_0 mI ρ c, kin8_1 mI ρ c, kin8_2 mI ρ c]))
    | exact (congrFun (kout8_3 mI ρ c) (ix2 r q)).trans ((FuseValue.entry8 (V18 mI ρ) c r q).trans (by simp only [kin8_0 mI ρ c, kin8_1 mI ρ c, kin8_2 mI ρ c]))

end Cert.KernelIdeal.HandRun

end
-- ==== Proof.MessagePoint.lean ====
/-
  The edge messages of the two layers: one entry of a block, and the blocks' places in the array.

  Each layer sends a message along every edge in each direction.  The message of edge `e` is the row vector
  `(d_e · W) · ν_e`: the edge's difference row `d_e` (200 entries) times the 200 × 200 weight matrix `W`, every entry
  scaled by the edge's normaliser `ν_e`.  A region computes these for all 200000 edges.  Its grid has fifty points; point
  `t` loads rows `4000 t … 4000 t + 3999` of the difference array and of the one-column normaliser array, the whole weight
  matrix, and writes the same rows of the result.

  This module reads what the body stores at one entry of its block.  Both matrix operands change float format (the
  identity on exact values), the product is accumulated into a zero matrix, and the normaliser column is copied along the
  200 columns before the entrywise product; so the entry at row `r`, column `q` is `(∑ₖ x₀ r k · x₂ k q) · x₁ r 0` of the
  three loaded blocks.  It also fixes where the blocks lie: the difference and normaliser blocks of a point are the rows
  of the result's block, the weight block is the whole matrix, and the fifty row blocks cover the 200000 rows.  The four
  regions (two directions, two layers) differ only in which arrays they read and write.
-/
import proofs.«103573_j30391188587216_1_alg».proof.Proof.Gen.KernelIdeal.Skeleton
import proofs.«103573_j30391188587216_1_alg».proof.Proof.Gen.KernelIdeal.Points
import proofs.«103573_j30391188587216_1_alg».proof.Proof.Spec
import proofs.«103573_j30391188587216_1_alg».proof.Proof.LibMatEntry
import Idealize.ShloMosaic.Lib.Pipeline.FrameBody
import Idealize.ShloMosaic.Lib.Pipeline.Value
import Idealize.ShloMosaic.Lib.ValueLayout

set_option maxRecDepth 16384

noncomputable section

open scoped BigOperators

namespace Cert.KernelIdeal.MessageValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Two facts used by every region -/

/-- The origin of a two-axis block. -/
theorem origin2 : (![0, 0] : Fin 2 → Nat) = fun _ => 0 := funext fun a => by fin_cases a <;> rfl

/-- A column `[a, 1]` copied along the columns to `[a, b]` reads, at `(p, c)`, the column's entry of row `p`. -/
theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The message array as one function of the array index: at `(e, q)` the message of edge `e` at column `q`, of a
    difference array, a one-column normaliser array and a weight matrix. -/
abbrev msg (diff : S200000x200.Idx → EReal) (norm : S200000x1.Idx → EReal) (w : S200x200.Idx → EReal) :
    S200000x200.Idx → EReal :=
  fun i => Cert.GraphConv.message (Cert.GraphConv.at2 diff) (fun e => norm (ix2 e (0 : Fin 1))) (Cert.GraphConv.at2 w)
    ⟨(i 0).val, idx2_lt0 i⟩ ⟨(i 1).val, idx2_lt1 i⟩

/-! ## The message region whose result array is `main_v56`

Differences `main_v54`, normalisers `main_v55`, weights `main_arg10`. -/

/-- What the body stores at row `r`, column `q` of its block: the row of the difference block against the column of the
    weights, times the row's normaliser. -/
theorem payload3_entry (x0 : Vec Ideal S4000x200 .f32) (x2 : Vec Ideal S200x200 .f32) (x1 : Vec Ideal S4000x1 .f32)
    (r : Fin 4000) (q : Fin 200) :
    k3_pay1 x0 x2 x1 (ix2 r q) = (∑ k : Fin 200, x0 (ix2 r k) * x2 (ix2 k q)) * x1 (ix2 r (0 : Fin 1)) := by
  have e0 : shapeCast S4000x200 x0 shapeCasts_S4000x200_S4000x200 = x0 := shapeCast_self x0 _
  have e1 : shapeCast S4000x1 x1 shapeCasts_S4000x1_S4000x1 = x1 := shapeCast_self x1 _
  unfold k3_pay1
  rw [e0, e1]
  refine (mulf_apply _ _ (ix2 r q)).trans ?_
  exact congrArg₂ (fun a b : EReal => a * b)
    (Cert.MatEntry.matmul_zero_entry_narrowed dot_S4000x200_S200x200_S4000x200_1_0_0_1_n_n rfl rfl rfl rfl rfl rfl none
      bitsLt_bf16_f32 x0 x2 r q)
    (column_broadcast_apply x1 broadcasts_S4000x1_S4000x200 r q)

/-- The same with each loaded entry named by the array entry it is: the message of edge `e` at column `q`. -/
theorem point3 (x0 : Vec Ideal S4000x200 .f32) (x1 : Vec Ideal S4000x1 .f32) (x2 : Vec Ideal S200x200 .f32)
    (diff : S200000x200.Idx → EReal) (norm : S200000x1.Idx → EReal) (w : S200x200.Idx → EReal)
    (e : Fin 200000) (r : Fin 4000) (q : Fin 200)
    (h0 : ∀ k : Fin 200, x0 (ix2 r k) = diff (ix2 e k))
    (h2 : ∀ k : Fin 200, x2 (ix2 k q) = w (ix2 k q))
    (h1 : x1 (ix2 r (0 : Fin 1)) = norm (ix2 e (0 : Fin 1))) :
    k3_pay1 x0 x2 x1 (ix2 r q)
      = Cert.GraphConv.message (Cert.GraphConv.at2 diff) (fun e => norm (ix2 e (0 : Fin 1))) (Cert.GraphConv.at2 w) e q := by
  rw [payload3_entry, h1]
  show _ = (∑ k : Fin 200, diff (ix2 e k) * w (ix2 k q)) * norm (ix2 e (0 : Fin 1))
  refine congrArg (fun s : EReal => s * norm (ix2 e (0 : Fin 1))) ?_
  exact Finset.sum_congr rfl fun k _ => by rw [h0 k, h2 k]

/-- The block indices at a point: the difference and normaliser blocks are the result's row block, their column block
    and both of the weights' are `0`, and the row block is below fifty. -/
theorem block_facts3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) ≤ 49 ∧ win3_3.index t (1 : Fin 2) = 0 :=
  (by decide +kernel : ∀ t : Fin grid3.N, _)

/-- Every one of the fifty row blocks is some point's. -/
theorem block_onto3 : ∀ q0 : Fin 50, ∃ t : Fin cfg3.N, win3_3.index t = ![q0.val, 0] :=
  (by decide +kernel : ∀ q0 : Fin 50, ∃ t : Fin grid3.N, win3_3.index t = ![q0.val, 0])

/-- The edge whose message point `t`'s block holds in its row `r`: edge `4000 · (row block) + r`. -/
abbrev edge3 (t : Fin cfg3.N) (r : Fin 4000) : Fin 200000 :=
  ⟨win3_3.index t (0 : Fin 2) * 4000 + r.val, by
    have h := (block_facts3 t).2.2.2.2.2.2.1
    have hr := r.isLt
    omega⟩

/-- An index of the array is in point `t`'s block iff each coordinate is in the block's range on its axis. -/
theorem mem_blk3 (t : Fin cfg3.N) (i : S200000x200.Idx) :
    i ∈ ((cfg3.win 3).blk t).view.set ↔ ∀ a : Fin 2, win3_3.index t a * S4000x200.size a ≤ (i a).val
      ∧ (i a).val < win3_3.index t a * S4000x200.size a + S4000x200.size a := by
  show i ∈ ((View.whole main_v56).slice (win3_3.rect t)).set ↔ _
  rw [View.set_slice_whole, Rect.mem_set_unit]
  exact Iff.rfl

/-- Edge `e` lies in the block of the point whose row block is `e / 4000`: the fifty blocks cover the array. -/
theorem cover3 (i : S200000x200.Idx) :
    ∃ t : Fin cfg3.N, (cfg3.win 3).flush t = true ∧ i ∈ ((cfg3.win 3).blk t).view.set := by
  have hi0 : (i 0).val < 200000 := (i 0).isLt
  have hi1 : (i 1).val < 200 := (i 1).isLt
  obtain ⟨t, ht⟩ := block_onto3 ⟨(i 0).val / 4000, by omega⟩
  have q0 : win3_3.index t (0 : Fin 2) = (i 0).val / 4000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 200 ≤ (i 1).val ∧ (i 1).val < win3_3.index t (1 : Fin 2) * 200 + 200; omega

/-! ## The message region whose result array is `main_v117`

Differences `main_v115`, normalisers `main_v116`, weights `main_arg11`. -/

/-- What the body stores at row `r`, column `q` of its block: the row of the difference block against the column of the
    weights, times the row's normaliser. -/
theorem payload4_entry (x0 : Vec Ideal S4000x200 .f32) (x2 : Vec Ideal S200x200 .f32) (x1 : Vec Ideal S4000x1 .f32)
    (r : Fin 4000) (q : Fin 200) :
    k4_pay1 x0 x2 x1 (ix2 r q) = (∑ k : Fin 200, x0 (ix2 r k) * x2 (ix2 k q)) * x1 (ix2 r (0 : Fin 1)) := by
  have e0 : shapeCast S4000x200 x0 shapeCasts_S4000x200_S4000x200 = x0 := shapeCast_self x0 _
  have e1 : shapeCast S4000x1 x1 shapeCasts_S4000x1_S4000x1 = x1 := shapeCast_self x1 _
  unfold k4_pay1
  rw [e0, e1]
  refine (mulf_apply _ _ (ix2 r q)).trans ?_
  exact congrArg₂ (fun a b : EReal => a * b)
    (Cert.MatEntry.matmul_zero_entry_narrowed dot_S4000x200_S200x200_S4000x200_1_0_0_1_n_n rfl rfl rfl rfl rfl rfl none
      bitsLt_bf16_f32 x0 x2 r q)
    (column_broadcast_apply x1 broadcasts_S4000x1_S4000x200 r q)

/-- The same with each loaded entry named by the array entry it is: the message of edge `e` at column `q`. -/
theorem point4 (x0 : Vec Ideal S4000x200 .f32) (x1 : Vec Ideal S4000x1 .f32) (x2 : Vec Ideal S200x200 .f32)
    (diff : S200000x200.Idx → EReal) (norm : S200000x1.Idx → EReal) (w : S200x200.Idx → EReal)
    (e : Fin 200000) (r : Fin 4000) (q : Fin 200)
    (h0 : ∀ k : Fin 200, x0 (ix2 r k) = diff (ix2 e k))
    (h2 : ∀ k : Fin 200, x2 (ix2 k q) = w (ix2 k q))
    (h1 : x1 (ix2 r (0 : Fin 1)) = norm (ix2 e (0 : Fin 1))) :
    k4_pay1 x0 x2 x1 (ix2 r q)
      = Cert.GraphConv.message (Cert.GraphConv.at2 diff) (fun e => norm (ix2 e (0 : Fin 1))) (Cert.GraphConv.at2 w) e q := by
  rw [payload4_entry, h1]
  show _ = (∑ k : Fin 200, diff (ix2 e k) * w (ix2 k q)) * norm (ix2 e (0 : Fin 1))
  refine congrArg (fun s : EReal => s * norm (ix2 e (0 : Fin 1))) ?_
  exact Finset.sum_congr rfl fun k _ => by rw [h0 k, h2 k]

/-- The block indices at a point: the difference and normaliser blocks are the result's row block, their column block
    and both of the weights' are `0`, and the row block is below fifty. -/
theorem block_facts4 : ∀ t : Fin cfg4.N,
    win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (0 : Fin 2) ≤ 49 ∧ win4_3.index t (1 : Fin 2) = 0 :=
  (by decide +kernel : ∀ t : Fin grid4.N, _)

/-- Every one of the fifty row blocks is some point's. -/
theorem block_onto4 : ∀ q0 : Fin 50, ∃ t : Fin cfg4.N, win4_3.index t = ![q0.val, 0] :=
  (by decide +kernel : ∀ q0 : Fin 50, ∃ t : Fin grid4.N, win4_3.index t = ![q0.val, 0])

/-- The edge whose message point `t`'s block holds in its row `r`: edge `4000 · (row block) + r`. -/
abbrev edge4 (t : Fin cfg4.N) (r : Fin 4000) : Fin 200000 :=
  ⟨win4_3.index t (0 : Fin 2) * 4000 + r.val, by
    have h := (block_facts4 t).2.2.2.2.2.2.1
    have hr := r.isLt
    omega⟩

/-- An index of the array is in point `t`'s block iff each coordinate is in the block's range on its axis. -/
theorem mem_blk4 (t : Fin cfg4.N) (i : S200000x200.Idx) :
    i ∈ ((cfg4.win 3).blk t).view.set ↔ ∀ a : Fin 2, win4_3.index t a * S4000x200.size a ≤ (i a).val
      ∧ (i a).val < win4_3.index t a * S4000x200.size a + S4000x200.size a := by
  show i ∈ ((View.whole main_v117).slice (win4_3.rect t)).set ↔ _
  rw [View.set_slice_whole, Rect.mem_set_unit]
  exact Iff.rfl

/-- Edge `e` lies in the block of the point whose row block is `e / 4000`: the fifty blocks cover the array. -/
theorem cover4 (i : S200000x200.Idx) :
    ∃ t : Fin cfg4.N, (cfg4.win 3).flush t = true ∧ i ∈ ((cfg4.win 3).blk t).view.set := by
  have hi0 : (i 0).val < 200000 := (i 0).isLt
  have hi1 : (i 1).val < 200 := (i 1).isLt
  obtain ⟨t, ht⟩ := block_onto4 ⟨(i 0).val / 4000, by omega⟩
  have q0 : win4_3.index t (0 : Fin 2) = (i 0).val / 4000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 200 ≤ (i 1).val ∧ (i 1).val < win4_3.index t (1 : Fin 2) * 200 + 200; omega

/-! ## The message region whose result array is `main_v192`

Differences `main_v190`, normalisers `main_v191`, weights `main_arg16`. -/

/-- What the body stores at row `r`, column `q` of its block: the row of the difference block against the column of the
    weights, times the row's normaliser. -/
theorem payload9_entry (x0 : Vec Ideal S4000x200 .f32) (x2 : Vec Ideal S200x200 .f32) (x1 : Vec Ideal S4000x1 .f32)
    (r : Fin 4000) (q : Fin 200) :
    k9_pay1 x0 x2 x1 (ix2 r q) = (∑ k : Fin 200, x0 (ix2 r k) * x2 (ix2 k q)) * x1 (ix2 r (0 : Fin 1)) := by
  have e0 : shapeCast S4000x200 x0 shapeCasts_S4000x200_S4000x200 = x0 := shapeCast_self x0 _
  have e1 : shapeCast S4000x1 x1 shapeCasts_S4000x1_S4000x1 = x1 := shapeCast_self x1 _
  unfold k9_pay1
  rw [e0, e1]
  refine (mulf_apply _ _ (ix2 r q)).trans ?_
  exact congrArg₂ (fun a b : EReal => a * b)
    (Cert.MatEntry.matmul_zero_entry_narrowed dot_S4000x200_S200x200_S4000x200_1_0_0_1_n_n rfl rfl rfl rfl rfl rfl none
      bitsLt_bf16_f32 x0 x2 r q)
    (column_broadcast_apply x1 broadcasts_S4000x1_S4000x200 r q)

/-- The same with each loaded entry named by the array entry it is: the message of edge `e` at column `q`. -/
theorem point9 (x0 : Vec Ideal S4000x200 .f32) (x1 : Vec Ideal S4000x1 .f32) (x2 : Vec Ideal S200x200 .f32)
    (diff : S200000x200.Idx → EReal) (norm : S200000x1.Idx → EReal) (w : S200x200.Idx → EReal)
    (e : Fin 200000) (r : Fin 4000) (q : Fin 200)
    (h0 : ∀ k : Fin 200, x0 (ix2 r k) = diff (ix2 e k))
    (h2 : ∀ k : Fin 200, x2 (ix2 k q) = w (ix2 k q))
    (h1 : x1 (ix2 r (0 : Fin 1)) = norm (ix2 e (0 : Fin 1))) :
    k9_pay1 x0 x2 x1 (ix2 r q)
      = Cert.GraphConv.message (Cert.GraphConv.at2 diff) (fun e => norm (ix2 e (0 : Fin 1))) (Cert.GraphConv.at2 w) e q := by
  rw [payload9_entry, h1]
  show _ = (∑ k : Fin 200, diff (ix2 e k) * w (ix2 k q)) * norm (ix2 e (0 : Fin 1))
  refine congrArg (fun s : EReal => s * norm (ix2 e (0 : Fin 1))) ?_
  exact Finset.sum_congr rfl fun k _ => by rw [h0 k, h2 k]

/-- The block indices at a point: the difference and normaliser blocks are the result's row block, their column block
    and both of the weights' are `0`, and the row block is below fifty. -/
theorem block_facts9 : ∀ t : Fin cfg9.N,
    win9_0.index t (0 : Fin 2) = win9_3.index t (0 : Fin 2) ∧ win9_0.index t (1 : Fin 2) = 0
    ∧ win9_1.index t (0 : Fin 2) = win9_3.index t (0 : Fin 2) ∧ win9_1.index t (1 : Fin 2) = 0
    ∧ win9_2.index t (0 : Fin 2) = 0 ∧ win9_2.index t (1 : Fin 2) = 0
    ∧ win9_3.index t (0 : Fin 2) ≤ 49 ∧ win9_3.index t (1 : Fin 2) = 0 :=
  (by decide +kernel : ∀ t : Fin grid9.N, _)

/-- Every one of the fifty row blocks is some point's. -/
theorem block_onto9 : ∀ q0 : Fin 50, ∃ t : Fin cfg9.N, win9_3.index t = ![q0.val, 0] :=
  (by decide +kernel : ∀ q0 : Fin 50, ∃ t : Fin grid9.N, win9_3.index t = ![q0.val, 0])

/-- The edge whose message point `t`'s block holds in its row `r`: edge `4000 · (row block) + r`. -/
abbrev edge9 (t : Fin cfg9.N) (r : Fin 4000) : Fin 200000 :=
  ⟨win9_3.index t (0 : Fin 2) * 4000 + r.val, by
    have h := (block_facts9 t).2.2.2.2.2.2.1
    have hr := r.isLt
    omega⟩

/-- An index of the array is in point `t`'s block iff each coordinate is in the block's range on its axis. -/
theorem mem_blk9 (t : Fin cfg9.N) (i : S200000x200.Idx) :
    i ∈ ((cfg9.win 3).blk t).view.set ↔ ∀ a : Fin 2, win9_3.index t a * S4000x200.size a ≤ (i a).val
      ∧ (i a).val < win9_3.index t a * S4000x200.size a + S4000x200.size a := by
  show i ∈ ((View.whole main_v192).slice (win9_3.rect t)).set ↔ _
  rw [View.set_slice_whole, Rect.mem_set_unit]
  exact Iff.rfl

/-- Edge `e` lies in the block of the point whose row block is `e / 4000`: the fifty blocks cover the array. -/
theorem cover9 (i : S200000x200.Idx) :
    ∃ t : Fin cfg9.N, (cfg9.win 3).flush t = true ∧ i ∈ ((cfg9.win 3).blk t).view.set := by
  have hi0 : (i 0).val < 200000 := (i 0).isLt
  have hi1 : (i 1).val < 200 := (i 1).isLt
  obtain ⟨t, ht⟩ := block_onto9 ⟨(i 0).val / 4000, by omega⟩
  have q0 : win9_3.index t (0 : Fin 2) = (i 0).val / 4000 := congrFun ht 0
  have q1 : win9_3.index t (1 : Fin 2) = 0 := congrFun ht 1
  refine ⟨t, flush9_3 t, ?_⟩
  rw [mem_blk9]
  intro a
  match a with
  | ⟨0, _⟩ => show win9_3.index t (0 : Fin 2) * 4000 ≤ (i 0).val ∧ (i 0).val < win9_3.index t (0 : Fin 2) * 4000 + 4000; omega
  | ⟨1, _⟩ => show win9_3.index t (1 : Fin 2) * 200 ≤ (i 1).val ∧ (i 1).val < win9_3.index t (1 : Fin 2) * 200 + 200; omega

/-! ## The message region whose result array is `main_v253`

Differences `main_v251`, normalisers `main_v252`, weights `main_arg17`. -/

/-- What the body stores at row `r`, column `q` of its block: the row of the difference block against the column of the
    weights, times the row's normaliser. -/
theorem payload10_entry (x0 : Vec Ideal S4000x200 .f32) (x2 : Vec Ideal S200x200 .f32) (x1 : Vec Ideal S4000x1 .f32)
    (r : Fin 4000) (q : Fin 200) :
    k10_pay1 x0 x2 x1 (ix2 r q) = (∑ k : Fin 200, x0 (ix2 r k) * x2 (ix2 k q)) * x1 (ix2 r (0 : Fin 1)) := by
  have e0 : shapeCast S4000x200 x0 shapeCasts_S4000x200_S4000x200 = x0 := shapeCast_self x0 _
  have e1 : shapeCast S4000x1 x1 shapeCasts_S4000x1_S4000x1 = x1 := shapeCast_self x1 _
  unfold k10_pay1
  rw [e0, e1]
  refine (mulf_apply _ _ (ix2 r q)).trans ?_
  exact congrArg₂ (fun a b : EReal => a * b)
    (Cert.MatEntry.matmul_zero_entry_narrowed dot_S4000x200_S200x200_S4000x200_1_0_0_1_n_n rfl rfl rfl rfl rfl rfl none
      bitsLt_bf16_f32 x0 x2 r q)
    (column_broadcast_apply x1 broadcasts_S4000x1_S4000x200 r q)

/-- The same with each loaded entry named by the array entry it is: the message of edge `e` at column `q`. -/
theorem point10 (x0 : Vec Ideal S4000x200 .f32) (x1 : Vec Ideal S4000x1 .f32) (x2 : Vec Ideal S200x200 .f32)
    (diff : S200000x200.Idx → EReal) (norm : S200000x1.Idx → EReal) (w : S200x200.Idx → EReal)
    (e : Fin 200000) (r : Fin 4000) (q : Fin 200)
    (h0 : ∀ k : Fin 200, x0 (ix2 r k) = diff (ix2 e k))
    (h2 : ∀ k : Fin 200, x2 (ix2 k q) = w (ix2 k q))
    (h1 : x1 (ix2 r (0 : Fin 1)) = norm (ix2 e (0 : Fin 1))) :
    k10_pay1 x0 x2 x1 (ix2 r q)
      = Cert.GraphConv.message (Cert.GraphConv.at2 diff) (fun e => norm (ix2 e (0 : Fin 1))) (Cert.GraphConv.at2 w) e q := by
  rw [payload10_entry, h1]
  show _ = (∑ k : Fin 200, diff (ix2 e k) * w (ix2 k q)) * norm (ix2 e (0 : Fin 1))
  refine congrArg (fun s : EReal => s * norm (ix2 e (0 : Fin 1))) ?_
  exact Finset.sum_congr rfl fun k _ => by rw [h0 k, h2 k]

/-- The block indices at a point: the difference and normaliser blocks are the result's row block, their column block
    and both of the weights' are `0`, and the row block is below fifty. -/
theorem block_facts10 : ∀ t : Fin cfg10.N,
    win10_0.index t (0 : Fin 2) = win10_3.index t (0 : Fin 2) ∧ win10_0.index t (1 : Fin 2) = 0
    ∧ win10_1.index t (0 : Fin 2) = win10_3.index t (0 : Fin 2) ∧ win10_1.index t (1 : Fin 2) = 0
    ∧ win10_2.index t (0 : Fin 2) = 0 ∧ win10_2.index t (1 : Fin 2) = 0
    ∧ win10_3.index t (0 : Fin 2) ≤ 49 ∧ win10_3.index t (1 : Fin 2) = 0 :=
  (by decide +kernel : ∀ t : Fin grid10.N, _)

/-- Every one of the fifty row blocks is some point's. -/
theorem block_onto10 : ∀ q0 : Fin 50, ∃ t : Fin cfg10.N, win10_3.index t = ![q0.val, 0] :=
  (by decide +kernel : ∀ q0 : Fin 50, ∃ t : Fin grid10.N, win10_3.index t = ![q0.val, 0])

/-- The edge whose message point `t`'s block holds in its row `r`: edge `4000 · (row block) + r`. -/
abbrev edge10 (t : Fin cfg10.N) (r : Fin 4000) : Fin 200000 :=
  ⟨win10_3.index t (0 : Fin 2) * 4000 + r.val, by
    have h := (block_facts10 t).2.2.2.2.2.2.1
    have hr := r.isLt
    omega⟩

/-- An index of the array is in point `t`'s block iff each coordinate is in the block's range on its axis. -/
theorem mem_blk10 (t : Fin cfg10.N) (i : S200000x200.Idx) :
    i ∈ ((cfg10.win 3).blk t).view.set ↔ ∀ a : Fin 2, win10_3.index t a * S4000x200.size a ≤ (i a).val
      ∧ (i a).val < win10_3.index t a * S4000x200.size a + S4000x200.size a := by
  show i ∈ ((View.whole main_v253).slice (win10_3.rect t)).set ↔ _
  rw [View.set_slice_whole, Rect.mem_set_unit]
  exact Iff.rfl

/-- Edge `e` lies in the block of the point whose row block is `e / 4000`: the fifty blocks cover the array. -/
theorem cover10 (i : S200000x200.Idx) :
    ∃ t : Fin cfg10.N, (cfg10.win 3).flush t = true ∧ i ∈ ((cfg10.win 3).blk t).view.set := by
  have hi0 : (i 0).val < 200000 := (i 0).isLt
  have hi1 : (i 1).val < 200 := (i 1).isLt
  obtain ⟨t, ht⟩ := block_onto10 ⟨(i 0).val / 4000, by omega⟩
  have q0 : win10_3.index t (0 : Fin 2) = (i 0).val / 4000 := congrFun ht 0
  have q1 : win10_3.index t (1 : Fin 2) = 0 := congrFun ht 1
  refine ⟨t, flush10_3 t, ?_⟩
  rw [mem_blk10]
  intro a
  match a with
  | ⟨0, _⟩ => show win10_3.index t (0 : Fin 2) * 4000 ≤ (i 0).val ∧ (i 0).val < win10_3.index t (0 : Fin 2) * 4000 + 4000; omega
  | ⟨1, _⟩ => show win10_3.index t (1 : Fin 2) * 200 ≤ (i 1).val ∧ (i 1).val < win10_3.index t (1 : Fin 2) * 200 + 200; omega

end Cert.KernelIdeal.MessageValue

end
-- ==== Proof.MessageValue.lean ====
/-
  The edge messages of the two layers, as arrays.

  A message region's grid has fifty points; point `t` writes rows `4000 t … 4000 t + 3999` of the result.  What it writes
  at row `r`, column `q` of its block is the message of edge `4000 t + r` at column `q`, `(∑ₖ d e k · W k q) · ν e`, of
  the difference array `d`, the normaliser column `ν` and the weight matrix `W` as the region found them: the loaded
  blocks are those rows of `d` and `ν` and the whole of `W`.  The fifty row blocks tile the 200000 rows, so after the
  region the result array is the message array, entry by entry.  The four regions (two directions, two layers) differ
  only in which arrays they read and write.
-/
import proofs.«103573_j30391188587216_1_alg».proof.Proof.FrameKernelIdeal
import proofs.«103573_j30391188587216_1_alg».proof.Proof.MessagePoint

set_option maxRecDepth 16384

noncomputable section

open scoped BigOperators

namespace Cert.KernelIdeal.MessageValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The message region whose result array is `main_v56`

Differences `main_v54`, normalisers `main_v55`, weights `main_arg10`. -/

/-- What point `t` writes back is block `t` of the message array of the three operand arrays as the region found them. -/
theorem flushed_eq3 (c : Dev nD) (t : Fin cfg3.N) :
    (dat3 V c).flushed 3 t
      = ((cfg3.win 3).blk t).view.read (Elt Ideal) (msg (V c main_v54) (V c main_v55) (V c main_arg10)) := by
  show (cfg3.win 3).cut (grid3.coords t) ((dat3 V c).after 3 t) = _
  rw [after3_3]
  unfold out3_3
  rw [View.canon_unit_zero origin2]
  simp only [View.ld_unit_zero (S := S4000x200) origin2, View.ld_unit_zero (S := S200x200) origin2,
    View.ld_unit_zero (S := S4000x1) origin2]
  obtain ⟨e0, e1, e2, e3, e4, e5, e6, e7⟩ := block_facts3 t
  funext j
  obtain ⟨r, q, rfl⟩ : ∃ (r : Fin 4000) (q : Fin 200), j = ix2 r q := ⟨j 0, j 1, eq_ix2 j⟩
  show k3_pay1 (iblk3 V c 0 t) (iblk3 V c 2 t) (iblk3 V c 1 t) (ix2 r q)
      = msg (V c main_v54) (V c main_v55) (V c main_arg10) (((cfg3.win 3).blk t).view.emb (ix2 r q))
  have hout : ((cfg3.win 3).blk t).view.emb (ix2 r q) = ix2 (edge3 t r) q := by
    funext a; apply Fin.ext
    match a with
    | ⟨0, _⟩ => show win3_3.index t (0 : Fin 2) * 4000 + 1 * r.val = win3_3.index t (0 : Fin 2) * 4000 + r.val; omega
    | ⟨1, _⟩ => show win3_3.index t (1 : Fin 2) * 200 + 1 * q.val = q.val; omega
  rw [hout]
  refine point3 (iblk3 V c 0 t) (iblk3 V c 1 t) (iblk3 V c 2 t) (V c main_v54) (V c main_v55) (V c main_arg10)
    (edge3 t r) r q ?_ ?_ ?_
  · intro k
    show V c main_v54 (((cfg3.win 0).blk t).view.emb (ix2 r k)) = V c main_v54 (ix2 (edge3 t r) k)
    refine congrArg (V c main_v54) ?_
    funext a; apply Fin.ext
    match a with
    | ⟨0, _⟩ => show win3_0.index t (0 : Fin 2) * 4000 + 1 * r.val = win3_3.index t (0 : Fin 2) * 4000 + r.val; omega
    | ⟨1, _⟩ => show win3_0.index t (1 : Fin 2) * 200 + 1 * k.val = k.val; omega
  · intro k
    show V c main_arg10 (((cfg3.win 2).blk t).view.emb (ix2 k q)) = V c main_arg10 (ix2 k q)
    refine congrArg (V c main_arg10) ?_
    funext a; apply Fin.ext
    match a with
    | ⟨0, _⟩ => show win3_2.index t (0 : Fin 2) * 200 + 1 * k.val = k.val; omega
    | ⟨1, _⟩ => show win3_2.index t (1 : Fin 2) * 200 + 1 * q.val = q.val; omega
  · show V c main_v55 (((cfg3.win 1).blk t).view.emb (ix2 r (0 : Fin 1))) = V c main_v55 (ix2 (edge3 t r) (0 : Fin 1))
    refine congrArg (V c main_v55) ?_
    funext a; apply Fin.ext
    match a with
    | ⟨0, _⟩ => show win3_1.index t (0 : Fin 2) * 4000 + 1 * r.val = win3_3.index t (0 : Fin 2) * 4000 + r.val; omega
    | ⟨1, _⟩ => show win3_1.index t (1 : Fin 2) * 1 + 1 * (0 : Fin 1).val = (0 : Fin 1).val; omega

/-- After the region the result array is the message array of the three operand arrays as the region found them. -/
theorem array_eq3 (c : Dev nD) :
    (dat3 V c).arrAt 3 cfg3.N = msg (V c main_v54) (V c main_v55) (V c main_arg10) :=
  (dat3 V c).arrAt_eq_of_cover 3 _ (fun t _ => flushed_eq3 V c t) cover3

/-- Entry by entry: after the region, row `e`, column `q` of the result is the message of edge `e` at column `q`. -/
theorem entry3 (c : Dev nD) (e : Fin 200000) (q : Fin 200) :
    (dat3 V c).arrAt 3 cfg3.N (ix2 e q)
      = Cert.GraphConv.message (Cert.GraphConv.at2 (V c main_v54)) (fun e => V c main_v55 (ix2 e (0 : Fin 1)))
          (Cert.GraphConv.at2 (V c main_arg10)) e q := by
  refine (congrFun (array_eq3 V c) (ix2 e q)).trans ?_
  rfl

/-! ## The message region whose result array is `main_v117`

Differences `main_v115`, normalisers `main_v116`, weights `main_arg11`. -/

/-- What point `t` writes back is block `t` of the message array of the three operand arrays as the region found them. -/
theorem flushed_eq4 (c : Dev nD) (t : Fin cfg4.N) :
    (dat4 V c).flushed 3 t
      = ((cfg4.win 3).blk t).view.read (Elt Ideal) (msg (V c main_v115) (V c main_v116) (V c main_arg11)) := by
  show (cfg4.win 3).cut (grid4.coords t) ((dat4 V c).after 3 t) = _
  rw [after4_3]
  unfold out4_3
  rw [View.canon_unit_zero origin2]
  simp only [View.ld_unit_zero (S := S4000x200) origin2, View.ld_unit_zero (S := S200x200) origin2,
    View.ld_unit_zero (S := S4000x1) origin2]
  obtain ⟨e0, e1, e2, e3, e4, e5, e6, e7⟩ := block_facts4 t
  funext j
  obtain ⟨r, q, rfl⟩ : ∃ (r : Fin 4000) (q : Fin 200), j = ix2 r q := ⟨j 0, j 1, eq_ix2 j⟩
  show k4_pay1 (iblk4 V c 0 t) (iblk4 V c 2 t) (iblk4 V c 1 t) (ix2 r q)
      = msg (V c main_v115) (V c main_v116) (V c main_arg11) (((cfg4.win 3).blk t).view.emb (ix2 r q))
  have hout : ((cfg4.win 3).blk t).view.emb (ix2 r q) = ix2 (edge4 t r) q := by
    funext a; apply Fin.ext
    match a with
    | ⟨0, _⟩ => show win4_3.index t (0 : Fin 2) * 4000 + 1 * r.val = win4_3.index t (0 : Fin 2) * 4000 + r.val; omega
    | ⟨1, _⟩ => show win4_3.index t (1 : Fin 2) * 200 + 1 * q.val = q.val; omega
  rw [hout]
  refine point4 (iblk4 V c 0 t) (iblk4 V c 1 t) (iblk4 V c 2 t) (V c main_v115) (V c main_v116) (V c main_arg11)
    (edge4 t r) r q ?_ ?_ ?_
  · intro k
    show V c main_v115 (((cfg4.win 0).blk t).view.emb (ix2 r k)) = V c main_v115 (ix2 (edge4 t r) k)
    refine congrArg (V c main_v115) ?_
    funext a; apply Fin.ext
    match a with
    | ⟨0, _⟩ => show win4_0.index t (0 : Fin 2) * 4000 + 1 * r.val = win4_3.index t (0 : Fin 2) * 4000 + r.val; omega
    | ⟨1, _⟩ => show win4_0.index t (1 : Fin 2) * 200 + 1 * k.val = k.val; omega
  · intro k
    show V c main_arg11 (((cfg4.win 2).blk t).view.emb (ix2 k q)) = V c main_arg11 (ix2 k q)
    refine congrArg (V c main_arg11) ?_
    funext a; apply Fin.ext
    match a with
    | ⟨0, _⟩ => show win4_2.index t (0 : Fin 2) * 200 + 1 * k.val = k.val; omega
    | ⟨1, _⟩ => show win4_2.index t (1 : Fin 2) * 200 + 1 * q.val = q.val; omega
  · show V c main_v116 (((cfg4.win 1).blk t).view.emb (ix2 r (0 : Fin 1))) = V c main_v116 (ix2 (edge4 t r) (0 : Fin 1))
    refine congrArg (V c main_v116) ?_
    funext a; apply Fin.ext
    match a with
    | ⟨0, _⟩ => show win4_1.index t (0 : Fin 2) * 4000 + 1 * r.val = win4_3.index t (0 : Fin 2) * 4000 + r.val; omega
    | ⟨1, _⟩ => show win4_1.index t (1 : Fin 2) * 1 + 1 * (0 : Fin 1).val = (0 : Fin 1).val; omega

/-- After the region the result array is the message array of the three operand arrays as the region found them. -/
theorem array_eq4 (c : Dev nD) :
    (dat4 V c).arrAt 3 cfg4.N = msg (V c main_v115) (V c main_v116) (V c main_arg11) :=
  (dat4 V c).arrAt_eq_of_cover 3 _ (fun t _ => flushed_eq4 V c t) cover4

/-- Entry by entry: after the region, row `e`, column `q` of the result is the message of edge `e` at column `q`. -/
theorem entry4 (c : Dev nD) (e : Fin 200000) (q : Fin 200) :
    (dat4 V c).arrAt 3 cfg4.N (ix2 e q)
      = Cert.GraphConv.message (Cert.GraphConv.at2 (V c main_v115)) (fun e => V c main_v116 (ix2 e (0 : Fin 1)))
          (Cert.GraphConv.at2 (V c main_arg11)) e q := by
  refine (congrFun (array_eq4 V c) (ix2 e q)).trans ?_
  rfl

/-! ## The message region whose result array is `main_v192`

Differences `main_v190`, normalisers `main_v191`, weights `main_arg16`. -/

/-- What point `t` writes back is block `t` of the message array of the three operand arrays as the region found them. -/
theorem flushed_eq9 (c : Dev nD) (t : Fin cfg9.N) :
    (dat9 V c).flushed 3 t
      = ((cfg9.win 3).blk t).view.read (Elt Ideal) (msg (V c main_v190) (V c main_v191) (V c main_arg16)) := by
  show (cfg9.win 3).cut (grid9.coords t) ((dat9 V c).after 3 t) = _
  rw [after9_3]
  unfold out9_3
  rw [View.canon_unit_zero origin2]
  simp only [View.ld_unit_zero (S := S4000x200) origin2, View.ld_unit_zero (S := S200x200) origin2,
    View.ld_unit_zero (S := S4000x1) origin2]
  obtain ⟨e0, e1, e2, e3, e4, e5, e6, e7⟩ := block_facts9 t
  funext j
  obtain ⟨r, q, rfl⟩ : ∃ (r : Fin 4000) (q : Fin 200), j = ix2 r q := ⟨j 0, j 1, eq_ix2 j⟩
  show k9_pay1 (iblk9 V c 0 t) (iblk9 V c 2 t) (iblk9 V c 1 t) (ix2 r q)
      = msg (V c main_v190) (V c main_v191) (V c main_arg16) (((cfg9.win 3).blk t).view.emb (ix2 r q))
  have hout : ((cfg9.win 3).blk t).view.emb (ix2 r q) = ix2 (edge9 t r) q := by
    funext a; apply Fin.ext
    match a with
    | ⟨0, _⟩ => show win9_3.index t (0 : Fin 2) * 4000 + 1 * r.val = win9_3.index t (0 : Fin 2) * 4000 + r.val; omega
    | ⟨1, _⟩ => show win9_3.index t (1 : Fin 2) * 200 + 1 * q.val = q.val; omega
  rw [hout]
  refine point9 (iblk9 V c 0 t) (iblk9 V c 1 t) (iblk9 V c 2 t) (V c main_v190) (V c main_v191) (V c main_arg16)
    (edge9 t r) r q ?_ ?_ ?_
  · intro k
    show V c main_v190 (((cfg9.win 0).blk t).view.emb (ix2 r k)) = V c main_v190 (ix2 (edge9 t r) k)
    refine congrArg (V c main_v190) ?_
    funext a; apply Fin.ext
    match a with
    | ⟨0, _⟩ => show win9_0.index t (0 : Fin 2) * 4000 + 1 * r.val = win9_3.index t (0 : Fin 2) * 4000 + r.val; omega
    | ⟨1, _⟩ => show win9_0.index t (1 : Fin 2) * 200 + 1 * k.val = k.val; omega
  · intro k
    show V c main_arg16 (((cfg9.win 2).blk t).view.emb (ix2 k q)) = V c main_arg16 (ix2 k q)
    refine congrArg (V c main_arg16) ?_
    funext a; apply Fin.ext
    match a with
    | ⟨0, _⟩ => show win9_2.index t (0 : Fin 2) * 200 + 1 * k.val = k.val; omega
    | ⟨1, _⟩ => show win9_2.index t (1 : Fin 2) * 200 + 1 * q.val = q.val; omega
  · show V c main_v191 (((cfg9.win 1).blk t).view.emb (ix2 r (0 : Fin 1))) = V c main_v191 (ix2 (edge9 t r) (0 : Fin 1))
    refine congrArg (V c main_v191) ?_
    funext a; apply Fin.ext
    match a with
    | ⟨0, _⟩ => show win9_1.index t (0 : Fin 2) * 4000 + 1 * r.val = win9_3.index t (0 : Fin 2) * 4000 + r.val; omega
    | ⟨1, _⟩ => show win9_1.index t (1 : Fin 2) * 1 + 1 * (0 : Fin 1).val = (0 : Fin 1).val; omega

/-- After the region the result array is the message array of the three operand arrays as the region found them. -/
theorem array_eq9 (c : Dev nD) :
    (dat9 V c).arrAt 3 cfg9.N = msg (V c main_v190) (V c main_v191) (V c main_arg16) :=
  (dat9 V c).arrAt_eq_of_cover 3 _ (fun t _ => flushed_eq9 V c t) cover9

/-- Entry by entry: after the region, row `e`, column `q` of the result is the message of edge `e` at column `q`. -/
theorem entry9 (c : Dev nD) (e : Fin 200000) (q : Fin 200) :
    (dat9 V c).arrAt 3 cfg9.N (ix2 e q)
      = Cert.GraphConv.message (Cert.GraphConv.at2 (V c main_v190)) (fun e => V c main_v191 (ix2 e (0 : Fin 1)))
          (Cert.GraphConv.at2 (V c main_arg16)) e q := by
  refine (congrFun (array_eq9 V c) (ix2 e q)).trans ?_
  rfl

/-! ## The message region whose result array is `main_v253`

Differences `main_v251`, normalisers `main_v252`, weights `main_arg17`. -/

/-- What point `t` writes back is block `t` of the message array of the three operand arrays as the region found them. -/
theorem flushed_eq10 (c : Dev nD) (t : Fin cfg10.N) :
    (dat10 V c).flushed 3 t
      = ((cfg10.win 3).blk t).view.read (Elt Ideal) (msg (V c main_v251) (V c main_v252) (V c main_arg17)) := by
  show (cfg10.win 3).cut (grid10.coords t) ((dat10 V c).after 3 t) = _
  rw [after10_3]
  unfold out10_3
  rw [View.canon_unit_zero origin2]
  simp only [View.ld_unit_zero (S := S4000x200) origin2, View.ld_unit_zero (S := S200x200) origin2,
    View.ld_unit_zero (S := S4000x1) origin2]
  obtain ⟨e0, e1, e2, e3, e4, e5, e6, e7⟩ := block_facts10 t
  funext j
  obtain ⟨r, q, rfl⟩ : ∃ (r : Fin 4000) (q : Fin 200), j = ix2 r q := ⟨j 0, j 1, eq_ix2 j⟩
  show k10_pay1 (iblk10 V c 0 t) (iblk10 V c 2 t) (iblk10 V c 1 t) (ix2 r q)
      = msg (V c main_v251) (V c main_v252) (V c main_arg17) (((cfg10.win 3).blk t).view.emb (ix2 r q))
  have hout : ((cfg10.win 3).blk t).view.emb (ix2 r q) = ix2 (edge10 t r) q := by
    funext a; apply Fin.ext
    match a with
    | ⟨0, _⟩ => show win10_3.index t (0 : Fin 2) * 4000 + 1 * r.val = win10_3.index t (0 : Fin 2) * 4000 + r.val; omega
    | ⟨1, _⟩ => show win10_3.index t (1 : Fin 2) * 200 + 1 * q.val = q.val; omega
  rw [hout]
  refine point10 (iblk10 V c 0 t) (iblk10 V c 1 t) (iblk10 V c 2 t) (V c main_v251) (V c main_v252) (V c main_arg17)
    (edge10 t r) r q ?_ ?_ ?_
  · intro k
    show V c main_v251 (((cfg10.win 0).blk t).view.emb (ix2 r k)) = V c main_v251 (ix2 (edge10 t r) k)
    refine congrArg (V c main_v251) ?_
    funext a; apply Fin.ext
    match a with
    | ⟨0, _⟩ => show win10_0.index t (0 : Fin 2) * 4000 + 1 * r.val = win10_3.index t (0 : Fin 2) * 4000 + r.val; omega
    | ⟨1, _⟩ => show win10_0.index t (1 : Fin 2) * 200 + 1 * k.val = k.val; omega
  · intro k
    show V c main_arg17 (((cfg10.win 2).blk t).view.emb (ix2 k q)) = V c main_arg17 (ix2 k q)
    refine congrArg (V c main_arg17) ?_
    funext a; apply Fin.ext
    match a with
    | ⟨0, _⟩ => show win10_2.index t (0 : Fin 2) * 200 + 1 * k.val = k.val; omega
    | ⟨1, _⟩ => show win10_2.index t (1 : Fin 2) * 200 + 1 * q.val = q.val; omega
  · show V c main_v252 (((cfg10.win 1).blk t).view.emb (ix2 r (0 : Fin 1))) = V c main_v252 (ix2 (edge10 t r) (0 : Fin 1))
    refine congrArg (V c main_v252) ?_
    funext a; apply Fin.ext
    match a with
    | ⟨0, _⟩ => show win10_1.index t (0 : Fin 2) * 4000 + 1 * r.val = win10_3.index t (0 : Fin 2) * 4000 + r.val; omega
    | ⟨1, _⟩ => show win10_1.index t (1 : Fin 2) * 1 + 1 * (0 : Fin 1).val = (0 : Fin 1).val; omega

/-- After the region the result array is the message array of the three operand arrays as the region found them. -/
theorem array_eq10 (c : Dev nD) :
    (dat10 V c).arrAt 3 cfg10.N = msg (V c main_v251) (V c main_v252) (V c main_arg17) :=
  (dat10 V c).arrAt_eq_of_cover 3 _ (fun t _ => flushed_eq10 V c t) cover10

/-- Entry by entry: after the region, row `e`, column `q` of the result is the message of edge `e` at column `q`. -/
theorem entry10 (c : Dev nD) (e : Fin 200000) (q : Fin 200) :
    (dat10 V c).arrAt 3 cfg10.N (ix2 e q)
      = Cert.GraphConv.message (Cert.GraphConv.at2 (V c main_v251)) (fun e => V c main_v252 (ix2 e (0 : Fin 1)))
          (Cert.GraphConv.at2 (V c main_arg17)) e q := by
  refine (congrFun (array_eq10 V c) (ix2 e q)).trans ?_
  rfl

end Cert.KernelIdeal.MessageValue

end
-- ==== Proof.KernelEqsSpecMessage.lean ====
/-
  The edge messages of the program, between final contents on the extended reals.

  Each of the four message regions leaves in its output, row by row, the projected difference scaled by the
  edge's normaliser, of the three arrays it finds at entry; none of the four buffers is written again.
-/
import proofs.«103573_j30391188587216_1_alg».proof.Proof.KernelEqsRegion
import proofs.«103573_j30391188587216_1_alg».proof.Proof.MessageValue
import proofs.«103573_j30391188587216_1_alg».proof.Proof.Spec

set_option maxRecDepth 16384

noncomputable section

namespace Cert.KernelIdeal.HandRun

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)
open Cert.GraphConv (matProd sum3 message combine colSum colSumSq normTanh at2)

variable (mI : (ℓ : Loc nD τ sig) → Buf (Elt Ideal) ℓ) (ρ : Dev nD → PrngReg)

/-- `main_v56` is the message of `main_v54` (differences), `main_v55` (normalisers) and `main_arg10` (weights), at the end of the program. -/
theorem spec_v56 (c : Dev nD) (e : Fin 200000) (q : Fin 200) :
    K mI ρ c main_v56 (ix2 e q)
      = message (at2 (K mI ρ c main_v54)) (fun e => K mI ρ c main_v55 (ix2 e (0 : Fin 1))) (at2 (K mI ρ c main_arg10)) e q := by
  first
    | (rw [kout3_3 mI ρ c, MessageValue.entry3 (V7 mI ρ) c e q]; rw [← kin3_0 mI ρ c, ← kin3_1 mI ρ c, ← kin3_2 mI ρ c]; done)
    | exact (congrFun (kout3_3 mI ρ c) (ix2 e q)).trans ((MessageValue.entry3 (V7 mI ρ) c e q).trans (by rw [kin3_0 mI ρ c, kin3_1 mI ρ c, kin3_2 mI ρ c]))
    | exact (congrFun (kout3_3 mI ρ c) (ix2 e q)).trans ((MessageValue.entry3 (V7 mI ρ) c e q).trans (by simp only [kin3_0 mI ρ c, kin3_1 mI ρ c, kin3_2 mI ρ c]))

/-- `main_v117` is the message of `main_v115` (differences), `main_v116` (normalisers) and `main_arg11` (weights), at the end of the program. -/
theorem spec_v117 (c : Dev nD) (e : Fin 200000) (q : Fin 200) :
    K mI ρ c main_v117 (ix2 e q)
      = message (at2 (K mI ρ c main_v115)) (fun e => K mI ρ c main_v116 (ix2 e (0 : Fin 1))) (at2 (K mI ρ c main_arg11)) e q := by
  first
    | (rw [kout4_3 mI ρ c, MessageValue.entry4 (V11 mI ρ) c e q]; rw [← kin4_0 mI ρ c, ← kin4_1 mI ρ c, ← kin4_2 mI ρ c]; done)
    | exact (congrFun (kout4_3 mI ρ c) (ix2 e q)).trans ((MessageValue.entry4 (V11 mI ρ) c e q).trans (by rw [kin4_0 mI ρ c, kin4_1 mI ρ c, kin4_2 mI ρ c]))
    | exact (congrFun (kout4_3 mI ρ c) (ix2 e q)).trans ((MessageValue.entry4 (V11 mI ρ) c e q).trans (by simp only [kin4_0 mI ρ c, kin4_1 mI ρ c, kin4_2 mI ρ c]))

/-- `main_v192` is the message of `main_v190` (differences), `main_v191` (normalisers) and `main_arg16` (weights), at the end of the program. -/
theorem spec_v192 (c : Dev nD) (e : Fin 200000) (q : Fin 200) :
    K mI ρ c main_v192 (ix2 e q)
      = message (at2 (K mI ρ c main_v190)) (fun e => K mI ρ c main_v191 (ix2 e (0 : Fin 1))) (at2 (K mI ρ c main_arg16)) e q := by
  first
    | (rw [kout9_3 mI ρ c, MessageValue.entry9 (V22 mI ρ) c e q]; rw [← kin9_0 mI ρ c, ← kin9_1 mI ρ c, ← kin9_2 mI ρ c]; done)
    | exact (congrFun (kout9_3 mI ρ c) (ix2 e q)).trans ((MessageValue.entry9 (V22 mI ρ) c e q).trans (by rw [kin9_0 mI ρ c, kin9_1 mI ρ c, kin9_2 mI ρ c]))
    | exact (congrFun (kout9_3 mI ρ c) (ix2 e q)).trans ((MessageValue.entry9 (V22 mI ρ) c e q).trans (by simp only [kin9_0 mI ρ c, kin9_1 mI ρ c, kin9_2 mI ρ c]))

/-- `main_v253` is the message of `main_v251` (differences), `main_v252` (normalisers) and `main_arg17` (weights), at the end of the program. -/
theorem spec_v253 (c : Dev nD) (e : Fin 200000) (q : Fin 200) :
    K mI ρ c main_v253 (ix2 e q)
      = message (at2 (K mI ρ c main_v251)) (fun e => K mI ρ c main_v252 (ix2 e (0 : Fin 1))) (at2 (K mI ρ c main_arg17)) e q := by
  first
    | (rw [kout10_3 mI ρ c, MessageValue.entry10 (V26 mI ρ) c e q]; rw [← kin10_0 mI ρ c, ← kin10_1 mI ρ c, ← kin10_2 mI ρ c]; done)
    | exact (congrFun (kout10_3 mI ρ c) (ix2 e q)).trans ((MessageValue.entry10 (V26 mI ρ) c e q).trans (by rw [kin10_0 mI ρ c, kin10_1 mI ρ c, kin10_2 mI ρ c]))
    | exact (congrFun (kout10_3 mI ρ c) (ix2 e q)).trans ((MessageValue.entry10 (V26 mI ρ) c e q).trans (by simp only [kin10_0 mI ρ c, kin10_1 mI ρ c, kin10_2 mI ρ c]))

end Cert.KernelIdeal.HandRun

end
-- ==== Proof.LibStage.lean ====
/- The reference program's dense steps, read entry by entry over the shared specification (Spec): a host matrix product at a row
   and a column is the sum over the contracted coordinate; a vector broadcast first to one column (or one row) and then across is
   the vector's entry at the row (or the column); a product scaled by such a column broadcast is the edge message; a host
   reduction of a two-axis array along its rows, from an initial value, is that value plus the column sum; divided by the
   broadcast row count it is the column mean; the normalised hyperbolic tangent and the combined pre-activation entrywise; and
   the row added to a table, cut out again and flattened, is that row. All at the exact values. -/
import proofs.«103573_j30391188587216_1_alg».proof.Proof.Spec
import Idealize.ShloMosaic.Lib.StackMember
import Idealize.ShloMosaic.Lib.IdealHost
import Idealize.ShloMosaic.Lib.KernelVsHost
import Idealize.ShloMosaic.Lib.Pipeline.Value

noncomputable section

open scoped BigOperators

namespace Cert.GraphConv

open Idealize.ShloMosaic Idealize.ShloMosaic.ValueIdx

variable {M K N E : Nat}

/-- A host matrix product whose dimension numbers are the plain ones, at row `r` and column `q`. -/
theorem dot_entry (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (r : Fin M) (q : Fin N) :
    Host.dotGeneral d none A B (ix2 r q) = matProd (at2 A) (at2 B) r q := by
  subst hd
  exact StackMember.dotGeneral_plain_apply none A B r q

/-- Two entrywise sums in a row, at an entry. -/
theorem sum3_entry (a b c : FVec Ideal ⟨2, ![M, N]⟩ .f32) (r : Fin M) (q : Fin N) :
    addf (addf a b) c (ix2 r q) = sum3 (at2 a) (at2 b) (at2 c) r q := rfl

/-- A vector broadcast to one column, then across the columns: entry (e, q) is the vector's entry e. -/
theorem bcast_col_entry {α : Type} (h1 : (⟨1, ![E]⟩ : Shape).BroadcastsInDim ⟨2, ![E, 1]⟩ ![0])
    (h2 : (⟨2, ![E, 1]⟩ : Shape).BroadcastsInDim ⟨2, ![E, N]⟩ ![0, 1]) (x : (⟨1, ![E]⟩ : Shape).Idx → α)
    (e : Fin E) (q : Fin N) :
    broadcastInDim ⟨2, ![E, N]⟩ ![0, 1] h2 (broadcastInDim ⟨2, ![E, 1]⟩ ![0] h1 x) (ix2 e q) = x (ix1 e) := by
  refine (broadcastInDim_apply ![0, 1] h2 _ (ix2 e q) (ix2 e (0 : Fin 1)) ?_).trans
    (broadcastInDim_apply ![0] h1 x (ix2 e (0 : Fin 1)) (ix1 e) ?_)
  · intro a
    fin_cases a
    · show e.val = if E = 1 then 0 else e.val
      split_ifs with hE
      · have := e.isLt; omega
      · rfl
    · show (0 : ℕ) = if (1 : ℕ) = 1 then 0 else _
      simp
  · intro a
    fin_cases a
    show e.val = if E = 1 then 0 else e.val
    split_ifs with hE
    · have := e.isLt; omega
    · rfl

/-- A vector broadcast to one row, then down the rows: entry (r, q) is the vector's entry q. -/
theorem bcast_row_entry {α : Type} (h1 : (⟨1, ![N]⟩ : Shape).BroadcastsInDim ⟨2, ![1, N]⟩ ![1])
    (h2 : (⟨2, ![1, N]⟩ : Shape).BroadcastsInDim ⟨2, ![M, N]⟩ ![0, 1]) (x : (⟨1, ![N]⟩ : Shape).Idx → α)
    (r : Fin M) (q : Fin N) :
    broadcastInDim ⟨2, ![M, N]⟩ ![0, 1] h2 (broadcastInDim ⟨2, ![1, N]⟩ ![1] h1 x) (ix2 r q) = x (ix1 q) := by
  refine (broadcastInDim_oneRow_apply h2 _ r q).trans
    (broadcastInDim_apply ![1] h1 x (ix2 (0 : Fin 1) q) (ix1 q) ?_)
  intro a
  fin_cases a
  show q.val = if N = 1 then 0 else q.val
  split_ifs with hN
  · have := q.isLt; omega
  · rfl

/-- A scalar broadcast to any shape, at an entry. -/
theorem bcast_scalar_entry {α : Type} {T : Shape} (h : (⟨0, ![]⟩ : Shape).BroadcastsInDim T ![])
    (x : (⟨0, ![]⟩ : Shape).Idx → α) (j : T.Idx) : broadcastInDim T ![] h x j = x ix0 :=
  broadcastInDim_scalar_apply h x j

/-- The edge message: a plain matrix product, each row scaled by the broadcast normaliser. -/
theorem message_entry (d : DotDims ⟨2, ![E, K]⟩ ⟨2, ![K, N]⟩ ⟨2, ![E, N]⟩) (hd : d = DotDims.plain E K N)
    (h1 : (⟨1, ![E]⟩ : Shape).BroadcastsInDim ⟨2, ![E, 1]⟩ ![0])
    (h2 : (⟨2, ![E, 1]⟩ : Shape).BroadcastsInDim ⟨2, ![E, N]⟩ ![0, 1])
    (D : FVec Ideal ⟨2, ![E, K]⟩ .f32) (W : FVec Ideal ⟨2, ![K, N]⟩ .f32) (nrm : FVec Ideal ⟨1, ![E]⟩ .f32)
    (e : Fin E) (q : Fin N) :
    mulf (Host.dotGeneral d none D W)
        (broadcastInDim ⟨2, ![E, N]⟩ ![0, 1] h2 (broadcastInDim ⟨2, ![E, 1]⟩ ![0] h1 nrm)) (ix2 e q)
      = message (at2 D) (at1 nrm) (at2 W) e q :=
  congrArg₂ (· * ·) (dot_entry d hd D W e q) (bcast_col_entry h1 h2 nrm e q)

/-- A host reduction along the rows of a 100000 × 200 array from an initial value: that value plus the column sum. -/
theorem colsum_entry (hr' : (⟨2, ![100000, 200]⟩ : Shape).ReducesTo [0] ⟨1, ![200]⟩)
    (x : FVec Ideal ⟨2, ![100000, 200]⟩ .f32) (init : EReal) (q : Fin 200) :
    Ideal.hostReduceAdd hr' x init (ix1 q) = init + colSum (at2 x) q := by
  have hr : (⟨2, ![100000, 200]⟩ : Shape).Reduces [0] ⟨1, ![200]⟩ := by decide
  rw [Ideal.hostReduceAdd_single hr' hr]
  refine congrArg (init + ·) (Finset.sum_congr rfl fun k _ => congrArg x ?_)
  funext a
  apply Fin.ext
  match a with
  | ⟨0, _⟩ => rfl
  | ⟨1, _⟩ => rfl

/-- The column mean as the program computes it: the rows' reduction from the literal zero, divided by the broadcast literal
    row count. -/
theorem mean_entry (hr' : (⟨2, ![100000, 200]⟩ : Shape).ReducesTo [0] ⟨1, ![200]⟩) (hs : 0 < (⟨0, ![]⟩ : Shape).numel)
    (hb : (⟨0, ![]⟩ : Shape).BroadcastsInDim ⟨1, ![200]⟩ ![])
    (x : FVec Ideal ⟨2, ![100000, 200]⟩ .f32) (q : Fin 200) :
    Host.divf (Host.reduceAdd x (constant (F := Ideal) ⟨0, ![]⟩ .f32 0x00000000#32) hr' hs)
        (broadcastInDim ⟨1, ![200]⟩ ![] hb (constant (F := Ideal) ⟨0, ![]⟩ .f32 0x47C35000#32)) (ix1 q)
      = meanOf (colSum (at2 x)) q := by
  rw [hostDivf_apply, hostReduceAdd_apply, colsum_entry, bcast_scalar_entry, constant_apply, constant_apply,
    Ideal.ofBits_zero_f32, zero_add]
  rfl

/-- The normalised hyperbolic tangent as the program computes it: the array less the broadcast mean, times the broadcast
    reciprocal square root of the variance plus the broadcast literal, under the hyperbolic tangent. -/
theorem normTanh_entry (h1 : (⟨1, ![N]⟩ : Shape).BroadcastsInDim ⟨2, ![1, N]⟩ ![1])
    (h2 : (⟨2, ![1, N]⟩ : Shape).BroadcastsInDim ⟨2, ![M, N]⟩ ![0, 1])
    (he : (⟨0, ![]⟩ : Shape).BroadcastsInDim ⟨1, ![N]⟩ ![])
    (x : FVec Ideal ⟨2, ![M, N]⟩ .f32) (mean var : FVec Ideal ⟨1, ![N]⟩ .f32) (r : Fin M) (q : Fin N) :
    Host.tanh (mulf (subf x (broadcastInDim ⟨2, ![M, N]⟩ ![0, 1] h2 (broadcastInDim ⟨2, ![1, N]⟩ ![1] h1 mean)))
        (broadcastInDim ⟨2, ![M, N]⟩ ![0, 1] h2 (broadcastInDim ⟨2, ![1, N]⟩ ![1] h1
          (Host.rsqrt (addf var (broadcastInDim ⟨1, ![N]⟩ ![] he (constant (F := Ideal) ⟨0, ![]⟩ .f32 0x3727C5AC#32)))))))
        (ix2 r q)
      = normTanh (at2 x) (at1 mean) (at1 var) r q := by
  show Ideal.tanh ((x (ix2 r q) - broadcastInDim ⟨2, ![M, N]⟩ ![0, 1] h2 (broadcastInDim ⟨2, ![1, N]⟩ ![1] h1 mean) (ix2 r q))
      * broadcastInDim ⟨2, ![M, N]⟩ ![0, 1] h2 (broadcastInDim ⟨2, ![1, N]⟩ ![1] h1
          (Host.rsqrt (addf var (broadcastInDim ⟨1, ![N]⟩ ![] he (constant (F := Ideal) ⟨0, ![]⟩ .f32 0x3727C5AC#32))))) (ix2 r q)) = _
  rw [bcast_row_entry h1 h2, bcast_row_entry h1 h2]
  show Ideal.tanh ((x (ix2 r q) - mean (ix1 q))
      * Ideal.rsqrt (var (ix1 q) + broadcastInDim ⟨1, ![N]⟩ ![] he (constant (F := Ideal) ⟨0, ![]⟩ .f32 0x3727C5AC#32) (ix1 q))) = _
  rw [bcast_scalar_entry, constant_apply]
  rfl

/-- A one-column array broadcast across the columns: entry (e, q) is the column's entry e. -/
theorem bcast_across_entry {α : Type} (h2 : (⟨2, ![E, 1]⟩ : Shape).BroadcastsInDim ⟨2, ![E, N]⟩ ![0, 1])
    (c : (⟨2, ![E, 1]⟩ : Shape).Idx → α) (e : Fin E) (q : Fin N) :
    broadcastInDim ⟨2, ![E, N]⟩ ![0, 1] h2 c (ix2 e q) = c (ix2 e (0 : Fin 1)) := by
  refine broadcastInDim_apply ![0, 1] h2 c (ix2 e q) (ix2 e (0 : Fin 1)) ?_
  intro a
  fin_cases a
  · show e.val = if E = 1 then 0 else e.val
    split_ifs with hE
    · have := e.isLt; omega
    · rfl
  · show (0 : ℕ) = if (1 : ℕ) = 1 then 0 else _
    simp

/-- A vector broadcast to one row: entry (0, q) is the vector's entry q. -/
theorem bcast_unitRow_entry {α : Type} (h1 : (⟨1, ![N]⟩ : Shape).BroadcastsInDim ⟨2, ![1, N]⟩ ![1])
    (x : (⟨1, ![N]⟩ : Shape).Idx → α) (q : Fin N) :
    broadcastInDim ⟨2, ![1, N]⟩ ![1] h1 x (ix2 (0 : Fin 1) q) = x (ix1 q) := by
  refine broadcastInDim_apply ![1] h1 x (ix2 (0 : Fin 1) q) (ix1 q) ?_
  intro a
  fin_cases a
  show q.val = if N = 1 then 0 else q.val
  split_ifs with hN
  · have := q.isLt; omega
  · rfl

/-- The edge message with the normaliser given as a one-column array. -/
theorem message_col_entry (d : DotDims ⟨2, ![E, K]⟩ ⟨2, ![K, N]⟩ ⟨2, ![E, N]⟩) (hd : d = DotDims.plain E K N)
    (h2 : (⟨2, ![E, 1]⟩ : Shape).BroadcastsInDim ⟨2, ![E, N]⟩ ![0, 1])
    (D : FVec Ideal ⟨2, ![E, K]⟩ .f32) (W : FVec Ideal ⟨2, ![K, N]⟩ .f32) (c : FVec Ideal ⟨2, ![E, 1]⟩ .f32)
    (e : Fin E) (q : Fin N) :
    mulf (Host.dotGeneral d none D W) (broadcastInDim ⟨2, ![E, N]⟩ ![0, 1] h2 c) (ix2 e q)
      = message (at2 D) (fun e => c (ix2 e (0 : Fin 1))) (at2 W) e q :=
  congrArg₂ (· * ·) (dot_entry d hd D W e q) (bcast_across_entry h2 c e q)

/-- A reshape that drops a leading unit axis, read at `k`: the operand at (0, k). -/
theorem dropUnit_entry {α : Type} {n : Nat} (hn : (⟨2, ![1, n]⟩ : Shape).ShapeCasts ⟨1, ![n]⟩)
    (v : (⟨2, ![1, n]⟩ : Shape).Idx → α) (k : Fin n) :
    shapeCast ⟨1, ![n]⟩ v hn (ix1 k) = v (ix2 (0 : Fin 1) k) := by
  refine (shapeCast_dropUnit_apply (n := 1) ![n] v hn (ix1 k)).trans (congrArg v ?_)
  funext c
  match c with
  | ⟨0, _⟩ => rfl
  | ⟨1, _⟩ => rfl

/-- The last row of a table extended by one row, cut out and flattened, is the added row: entry k of the flattened
    slice [400, 401) of the concatenation of a 400 × 200 array with a 1 × 200 array is the latter's entry (0, k). -/
theorem loopRow_entry (hc : Shape.Concatenates [(⟨2, ![400, 200]⟩ : Shape), ⟨2, ![1, 200]⟩] ⟨2, ![401, 200]⟩ 0)
    (hs : (⟨2, ![401, 200]⟩ : Shape).Slices ![400, 0] ⟨2, ![1, 200]⟩)
    (hn : (⟨2, ![1, 200]⟩ : Shape).ShapeCasts ⟨1, ![200]⟩)
    (a : FVec Ideal ⟨2, ![400, 200]⟩ .f32) (b : FVec Ideal ⟨2, ![1, 200]⟩ .f32) (k : Fin 200) :
    shapeCast ⟨1, ![200]⟩
        (extractStridedSlice ⟨2, ![1, 200]⟩ ![400, 0]
          (concatenate ⟨2, ![401, 200]⟩ 0 [⟨⟨2, ![400, 200]⟩, a⟩, ⟨⟨2, ![1, 200]⟩, b⟩] hc) hs) hn (ix1 k)
      = b (ix2 (0 : Fin 1) k) := by
  rw [dropUnit_entry]
  rw [extractStridedSlice_apply ![400, 0] _ hs (ix2 (0 : Fin 1) k) (ix2 (⟨400, by decide⟩ : Fin 401) k) (by
    intro c
    fin_cases c
    · rfl
    · exact (Nat.zero_add _).symm)]
  refine concatenate_pair_apply_right _ a b hc (ix2 (⟨400, by decide⟩ : Fin 401) k) rfl rfl (ix2 (0 : Fin 1) k) ?_ ?_
  · intro c hcne
    fin_cases c
    · exact absurd rfl hcne
    · rfl
  · rfl

/-- The combined pre-activation as the program computes it: the scattered sum plus the product of the array less the
    broadcast self-loop row, times the broadcast literal third, plus the broadcast bias. -/
theorem combine_entry (d : DotDims ⟨2, ![M, K]⟩ ⟨2, ![K, N]⟩ ⟨2, ![M, N]⟩) (hd : d = DotDims.plain M K N)
    (hl1 : (⟨1, ![K]⟩ : Shape).BroadcastsInDim ⟨2, ![1, K]⟩ ![1])
    (hl2 : (⟨2, ![1, K]⟩ : Shape).BroadcastsInDim ⟨2, ![M, K]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (hc : (⟨0, ![]⟩ : Shape).BroadcastsInDim ⟨2, ![M, N]⟩ ![])
    (h : FVec Ideal ⟨2, ![M, K]⟩ .f32) (loop : FVec Ideal ⟨1, ![K]⟩ .f32) (w : FVec Ideal ⟨2, ![K, N]⟩ .f32)
    (s : FVec Ideal ⟨2, ![M, N]⟩ .f32) (b : FVec Ideal ⟨1, ![N]⟩ .f32) (r : Fin M) (q : Fin N) :
    addf (mulf (addf s (Host.dotGeneral d none
            (subf h (broadcastInDim ⟨2, ![M, K]⟩ ![0, 1] hl2 (broadcastInDim ⟨2, ![1, K]⟩ ![1] hl1 loop))) w))
          (broadcastInDim ⟨2, ![M, N]⟩ ![] hc (constant (F := Ideal) ⟨0, ![]⟩ .f32 0x3EAAAAAB#32)))
        (broadcastInDim ⟨2, ![M, N]⟩ ![0, 1] hb2 (broadcastInDim ⟨2, ![1, N]⟩ ![1] hb1 b)) (ix2 r q)
      = combine (at2 h) (at1 loop) (at2 w) (at2 s) (at1 b) r q := by
  show (s (ix2 r q) + Host.dotGeneral d none
          (subf h (broadcastInDim ⟨2, ![M, K]⟩ ![0, 1] hl2 (broadcastInDim ⟨2, ![1, K]⟩ ![1] hl1 loop))) w (ix2 r q))
        * broadcastInDim ⟨2, ![M, N]⟩ ![] hc (constant (F := Ideal) ⟨0, ![]⟩ .f32 0x3EAAAAAB#32) (ix2 r q)
      + broadcastInDim ⟨2, ![M, N]⟩ ![0, 1] hb2 (broadcastInDim ⟨2, ![1, N]⟩ ![1] hb1 b) (ix2 r q)
      = (s (ix2 r q) + ∑ k : Fin K, (h (ix2 r k) - loop (ix1 k)) * w (ix2 k q)) * third + b (ix1 q)
  rw [dot_entry d hd, bcast_scalar_entry, constant_apply, bcast_row_entry hb1 hb2]
  refine congrArg (fun t => (s (ix2 r q) + t) * third + b (ix1 q)) (Finset.sum_congr rfl fun k _ => ?_)
  show (h (ix2 r k) - broadcastInDim ⟨2, ![M, K]⟩ ![0, 1] hl2 (broadcastInDim ⟨2, ![1, K]⟩ ![1] hl1 loop) (ix2 r k)) * w (ix2 k q)
      = (h (ix2 r k) - loop (ix1 k)) * w (ix2 k q)
  rw [bcast_row_entry hl1 hl2]

/-! ## The centred variance, as the outlined variance function computes it -/

/-- The column mean computed as a one-row array and broadcast down the rows: entry (r, q) is the mean of column q. -/
theorem meanRow_entry (hr' : (⟨2, ![100000, 200]⟩ : Shape).ReducesTo [0] ⟨1, ![200]⟩) (hs : 0 < (⟨0, ![]⟩ : Shape).numel)
    (h1 : (⟨1, ![200]⟩ : Shape).BroadcastsInDim ⟨2, ![1, 200]⟩ ![1])
    (hs1 : (⟨0, ![]⟩ : Shape).BroadcastsInDim ⟨2, ![1, 200]⟩ ![])
    (h2 : (⟨2, ![1, 200]⟩ : Shape).BroadcastsInDim ⟨2, ![100000, 200]⟩ ![0, 1])
    (x : FVec Ideal ⟨2, ![100000, 200]⟩ .f32) (r : Fin 100000) (q : Fin 200) :
    broadcastInDim ⟨2, ![100000, 200]⟩ ![0, 1] h2
        (Host.divf (broadcastInDim ⟨2, ![1, 200]⟩ ![1] h1
            (Host.reduceAdd x (constant (F := Ideal) ⟨0, ![]⟩ .f32 0x00000000#32) hr' hs))
          (broadcastInDim ⟨2, ![1, 200]⟩ ![] hs1 (constant (F := Ideal) ⟨0, ![]⟩ .f32 0x47C35000#32))) (ix2 r q)
      = meanOf (colSum (at2 x)) q := by
  rw [broadcastInDim_oneRow_apply h2 _ r q, hostDivf_apply, bcast_unitRow_entry h1, hostReduceAdd_apply, colsum_entry,
    bcast_scalar_entry, constant_apply, constant_apply, Ideal.ofBits_zero_f32, zero_add]
  rfl

/-- The row count less the integer zero converted: the row count. -/
theorem count_entry :
    subf (constant (F := Ideal) ⟨0, ![]⟩ .f32 0x47C35000#32) (sitofp .f32 (constantI ⟨0, ![]⟩ 32 0#32)) ix0 = rows := by
  show Ideal.ofBits .f32 0x47C35000#32 - (Scalar.sitofp .f32 0#32 : Ideal .f32) = rows
  rw [sitofp_zero, sub_zero]

/-- The comparison "the row count exceeds zero" is the true bit, the row count being positive. -/
theorem count_pos_bit (hpos : (0 : EReal) < rows) :
    cmpf .ogt (subf (constant (F := Ideal) ⟨0, ![]⟩ .f32 0x47C35000#32) (sitofp .f32 (constantI ⟨0, ![]⟩ 32 0#32)))
        (constant (F := Ideal) ⟨0, ![]⟩ .f32 0x00000000#32) ix0 = 1#1 := by
  rw [cmpf_apply, count_entry, constant_apply, Ideal.ofBits_zero_f32]
  show Ideal.cmp .ogt rows 0 = 1#1
  simp [Ideal.cmp, hpos]

/-- A select on a broadcast scalar condition that is the true bit takes its first branch. -/
theorem select_true_entry {α : Type} (hsv : (⟨0, ![]⟩ : Shape).BroadcastsInDim ⟨1, ![200]⟩ ![])
    (p : IVec ⟨0, ![]⟩ 1) (hp : p ix0 = 1#1) (a b : (⟨1, ![200]⟩ : Shape).Idx → α) (q : Fin 200) :
    select (broadcastInDim ⟨1, ![200]⟩ ![] hsv p) a b (ix1 q) = a (ix1 q) := by
  rw [select_apply, bcast_scalar_entry, hp]
  rfl

/-- The outlined variance of a 100000 × 200 array along its rows, with no degrees of freedom removed: the mean squared
    deviation from the column mean. The guard "the divisor is positive" holds, so the quotient is what is selected. -/
theorem var_entry (hpos : (0 : EReal) < rows)
    (hr' : (⟨2, ![100000, 200]⟩ : Shape).ReducesTo [0] ⟨1, ![200]⟩) (hs : 0 < (⟨0, ![]⟩ : Shape).numel)
    (h1 : (⟨1, ![200]⟩ : Shape).BroadcastsInDim ⟨2, ![1, 200]⟩ ![1])
    (hs1 : (⟨0, ![]⟩ : Shape).BroadcastsInDim ⟨2, ![1, 200]⟩ ![])
    (h2 : (⟨2, ![1, 200]⟩ : Shape).BroadcastsInDim ⟨2, ![100000, 200]⟩ ![0, 1])
    (hsv : (⟨0, ![]⟩ : Shape).BroadcastsInDim ⟨1, ![200]⟩ ![])
    (x : FVec Ideal ⟨2, ![100000, 200]⟩ .f32) (dev : FVec Ideal ⟨2, ![100000, 200]⟩ .f32)
    (hdev : dev = subf x (broadcastInDim ⟨2, ![100000, 200]⟩ ![0, 1] h2
        (Host.divf (broadcastInDim ⟨2, ![1, 200]⟩ ![1] h1
            (Host.reduceAdd x (constant (F := Ideal) ⟨0, ![]⟩ .f32 0x00000000#32) hr' hs))
          (broadcastInDim ⟨2, ![1, 200]⟩ ![] hs1 (constant (F := Ideal) ⟨0, ![]⟩ .f32 0x47C35000#32)))))
    (nan : FVec Ideal ⟨1, ![200]⟩ .f32) (q : Fin 200) :
    select (broadcastInDim ⟨1, ![200]⟩ ![] hsv
          (cmpf .ogt (subf (constant (F := Ideal) ⟨0, ![]⟩ .f32 0x47C35000#32) (sitofp .f32 (constantI ⟨0, ![]⟩ 32 0#32)))
            (constant (F := Ideal) ⟨0, ![]⟩ .f32 0x00000000#32)))
        (Host.divf (Host.reduceAdd (mulf dev dev) (constant (F := Ideal) ⟨0, ![]⟩ .f32 0x00000000#32) hr' hs)
          (broadcastInDim ⟨1, ![200]⟩ ![] hsv
            (subf (constant (F := Ideal) ⟨0, ![]⟩ .f32 0x47C35000#32) (sitofp .f32 (constantI ⟨0, ![]⟩ 32 0#32)))))
        nan (ix1 q)
      = varCentred (at2 x) q := by
  rw [select_true_entry hsv _ (count_pos_bit hpos), hostDivf_apply, hostReduceAdd_apply, colsum_entry, bcast_scalar_entry,
    count_entry, constant_apply, Ideal.ofBits_zero_f32, zero_add]
  refine congrArg (Ideal.div · rows) (Finset.sum_congr rfl fun r _ => ?_)
  show dev (ix2 r q) * dev (ix2 r q)
      = (x (ix2 r q) - meanOf (colSum (at2 x)) q) * (x (ix2 r q) - meanOf (colSum (at2 x)) q)
  have hd : dev (ix2 r q) = x (ix2 r q) - meanOf (colSum (at2 x)) q := by
    rw [hdev]
    show x (ix2 r q) - _ = _
    rw [meanRow_entry]
  rw [hd]

end Cert.GraphConv

end
-- ==== Proof.LibMoments.lean ====
/-
  Real-valued extended reals, and the two ways of computing a variance.

  On the extended reals `EReal = ℝ ∪ {⊥, ⊤}` the ring laws hold only partly: the product does
  not distribute over the sum at the infinities (`⊤ + ⊥ = ⊥`, `0 * ⊤ = 0`). They all hold on the
  image of `ℝ`, and that image is closed under every exact float operation that has no pole on
  it. This file names that image (`IsReal`), proves its closure under the operations a
  normalisation layer uses — sum, difference, product, a finite sum, division by a nonzero
  real, maximum, hyperbolic tangent (of ANY extended real), reciprocal square root of a
  positive real — and proves on it the textbook identity between the two formulas of a
  (population) variance,

      (1/N) ∑ (xᵢ - μ)²  =  (1/N) ∑ xᵢ² - μ²,      μ = (1/N) ∑ xᵢ,

  written with the extended reals' own `+ - *` and with division by the real `N` as the
  total function `Ideal.div`. The variance is a nonnegative real, so adding a positive real
  `ε` to it and taking the reciprocal square root gives a (positive) real again.
-/
import Idealize.ShloMosaic.PureOps.Ideal

open scoped BigOperators

namespace Idealize.LibMoments

open Idealize.ShloMosaic

/-! ### The real numbers inside the extended reals -/

/-- An extended real is *real* when it is the image of a real number: it is neither `⊤` nor `⊥`. -/
def IsReal (x : EReal) : Prop := ∃ r : ℝ, x = (r : EReal)

/-- The image of a real number is real. -/
theorem isReal_coe (r : ℝ) : IsReal (r : EReal) := ⟨r, rfl⟩

/-- `0` is real. -/
theorem isReal_zero : IsReal 0 := ⟨0, rfl⟩

/-- `1` is real. -/
theorem isReal_one : IsReal 1 := ⟨1, rfl⟩

/-- A real extended real is not `⊤`. -/
theorem IsReal.ne_top {x : EReal} (hx : IsReal x) : x ≠ ⊤ := by
  obtain ⟨r, rfl⟩ := hx; exact EReal.coe_ne_top r

/-- A real extended real is not `⊥`. -/
theorem IsReal.ne_bot {x : EReal} (hx : IsReal x) : x ≠ ⊥ := by
  obtain ⟨r, rfl⟩ := hx; exact EReal.coe_ne_bot r

/-- An extended real is real exactly when it is neither of the two infinities. -/
theorem isReal_iff {x : EReal} : IsReal x ↔ x ≠ ⊤ ∧ x ≠ ⊥ :=
  ⟨fun h => ⟨h.ne_top, h.ne_bot⟩, fun h => ⟨x.toReal, (EReal.coe_toReal h.1 h.2).symm⟩⟩

/-- A real extended real is the image of its real part. -/
theorem IsReal.coe_toReal {x : EReal} (hx : IsReal x) : ((x.toReal : ℝ) : EReal) = x :=
  EReal.coe_toReal hx.ne_top hx.ne_bot

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The negative of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The product of a real extended real with (the image of) a real number is real. -/
theorem IsReal.mul_coe {x : EReal} (hx : IsReal x) (c : ℝ) : IsReal (x * (c : EReal)) :=
  hx.mul (isReal_coe c)

/-- The product of (the image of) a real number with a real extended real is real. -/
theorem IsReal.coe_mul {x : EReal} (c : ℝ) (hx : IsReal x) : IsReal ((c : EReal) * x) :=
  (isReal_coe c).mul hx

/-- The maximum of two reals is real (it is one of the two). -/
theorem IsReal.max {x y : EReal} (hx : IsReal x) (hy : IsReal y) : IsReal (max x y) := by
  rcases max_choice x y with h | h <;> rw [h] <;> assumption

/-- The minimum of two reals is real (it is one of the two). -/
theorem IsReal.min {x y : EReal} (hx : IsReal x) (hy : IsReal y) : IsReal (min x y) := by
  rcases min_choice x y with h | h <;> rw [h] <;> assumption

/-! ### Finite sums -/

/-- The image of a finite sum of real numbers is the sum of the images: on the image of `ℝ` the
    extended reals' addition is the reals'. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_finset_sum {ι : Type*} (s : Finset ι) (x : ι → EReal) (hx : ∀ i ∈ s, IsReal (x i)) :
    IsReal (∑ i ∈ s, x i) := by
  classical
  induction s using Finset.induction_on with
  | empty => simpa using isReal_zero
  | insert a s ha ih =>
    rw [Finset.sum_insert ha]
    exact (hx a (Finset.mem_insert_self a s)).add (ih fun i hi => hx i (Finset.mem_insert_of_mem hi))

/-- A sum of reals over a finite type is real. -/
theorem isReal_sum {ι : Type*} [Fintype ι] (x : ι → EReal) (hx : ∀ i, IsReal (x i)) :
    IsReal (∑ i, x i) :=
  isReal_finset_sum Finset.univ x fun i _ => hx i

/-! ### Division by a nonzero real, hyperbolic tangent, reciprocal square root -/

/-- The exact quotient of (the image of) a real number by a nonzero real number is (the image
    of) the real quotient. -/
theorem div_coe_coe (a : ℝ) {n : ℝ} (hn : n ≠ 0) :
    Ideal.div (a : EReal) (n : EReal) = ((a / n : ℝ) : EReal) := by
  rw [Ideal.div_coe hn, ← EReal.coe_mul, ← div_eq_mul_one_div]

/-- The exact quotient of a real by a nonzero real number is real. -/
theorem IsReal.div_coe {x : EReal} (hx : IsReal x) {n : ℝ} (hn : n ≠ 0) :
    IsReal (Ideal.div x (n : EReal)) := by
  obtain ⟨a, rfl⟩ := hx
  exact ⟨a / n, div_coe_coe a hn⟩

/-- The hyperbolic tangent of ANY extended real is real: `tanh ⊥ = -1`, `tanh ⊤ = 1`, and on a
    real number it is the real hyperbolic tangent. -/
theorem isReal_tanh (x : EReal) : IsReal (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The hyperbolic tangent of any extended real lies in `[-1, 1]`. -/
theorem tanh_mem_Icc (x : EReal) : -1 ≤ Ideal.tanh x ∧ Ideal.tanh x ≤ 1 := by
  have h11 : (-1 : EReal) ≤ 1 := by
    have h : ((-1 : ℝ) : EReal) ≤ ((1 : ℝ) : EReal) := EReal.coe_le_coe_iff.mpr (by norm_num)
    simpa using h
  induction x using EReal.rec with
  | bot => rw [Ideal.tanh_bot]; exact ⟨le_refl _, h11⟩
  | top => rw [Ideal.tanh_top]; exact ⟨h11, le_refl _⟩
  | coe r =>
    rw [Ideal.tanh_coe]
    refine ⟨?_, ?_⟩
    · have h : ((-1 : ℝ) : EReal) ≤ (Real.tanh r : EReal) :=
        EReal.coe_le_coe_iff.mpr (Real.neg_one_lt_tanh r).le
      simpa using h
    · have h : (Real.tanh r : EReal) ≤ ((1 : ℝ) : EReal) :=
        EReal.coe_le_coe_iff.mpr (Real.tanh_lt_one r).le
      simpa using h

/-- The reciprocal square root of (the image of) a POSITIVE real number `r` is (the image of) the
    real number `(√r)⁻¹`. (At `0` it is `⊤`, and on a negative real it is the junk value `⊥`: the
    next two statements. So positivity cannot be dropped.) -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of `0` is `⊤` (not real). -/
theorem rsqrt_zero : Ideal.rsqrt 0 = ⊤ := by
  rw [← EReal.coe_zero, Ideal.rsqrt_coe, if_neg (lt_irrefl 0), if_pos rfl]

/-- The reciprocal square root of (the image of) a negative real number is `⊥` (not real). -/
theorem rsqrt_coe_of_neg {r : ℝ} (hr : r < 0) : Ideal.rsqrt (r : EReal) = ⊥ := by
  rw [Ideal.rsqrt_coe, if_pos hr]

/-- The reciprocal square root of a positive real is real. -/
theorem IsReal.rsqrt {x : EReal} (hx : IsReal x) (hpos : 0 < x) : IsReal (Ideal.rsqrt x) := by
  obtain ⟨r, rfl⟩ := hx
  exact ⟨(Real.sqrt r)⁻¹, rsqrt_coe_of_pos (EReal.coe_pos.mp hpos)⟩

/-- The reciprocal square root of a positive real is positive. -/
theorem IsReal.rsqrt_pos {x : EReal} (hx : IsReal x) (hpos : 0 < x) : 0 < Ideal.rsqrt x := by
  obtain ⟨r, rfl⟩ := hx
  have hr : 0 < r := EReal.coe_pos.mp hpos
  rw [rsqrt_coe_of_pos hr]
  exact EReal.coe_pos.mpr (inv_pos.mpr (Real.sqrt_pos.mpr hr))

/-! ### The two formulas of a variance -/

/-- The variance identity on the real numbers, over a finite set `s` of `N` elements
    (`N ≠ 0`): with `μ = (∑ f) / N`,
    `(∑ᵢ (fᵢ - μ)²) / N = (∑ᵢ fᵢ²) / N - μ²`.
    Expand the square, sum termwise (`∑ μ² = N μ²` because `s` has `N` elements) and substitute
    `∑ f = N μ`. -/
theorem real_variance_identity {ι : Type*} (s : Finset ι) (f : ι → ℝ) {N : ℝ} (hN : N ≠ 0)
    (hcard : (s.card : ℝ) = N) :
    (∑ i ∈ s, (f i - (∑ j ∈ s, f j) / N) * (f i - (∑ j ∈ s, f j) / N)) / N
      = (∑ i ∈ s, f i * f i) / N - (∑ j ∈ s, f j) / N * ((∑ j ∈ s, f j) / N) := by
  generalize hS : (∑ j ∈ s, f j) = S
  generalize hm : S / N = m
  have h1 : ∑ i ∈ s, (f i - m) * (f i - m)
      = (∑ i ∈ s, f i * f i) - 2 * m * S + N * (m * m) := by
    have h2 : ∀ i, (f i - m) * (f i - m) = f i * f i - 2 * m * f i + m * m := fun i => by ring
    simp only [h2]
    rw [Finset.sum_add_distrib, Finset.sum_sub_distrib, ← Finset.mul_sum, Finset.sum_const,
      nsmul_eq_mul, hcard, hS]
  rw [h1, ← hm]
  field_simp
  ring

/-- The variance identity on the extended reals, over a finite set `s` of `N` elements
    (`N ≠ 0` a real number), for a family `x` all of whose members on `s` are real:
    with `μ = (∑ x) / N`, `(∑ᵢ (xᵢ - μ) * (xᵢ - μ)) / N = (∑ᵢ xᵢ * xᵢ) / N - μ * μ`, where `+ - *`
    and `∑` are the extended reals' own and `/` is the exact division `Ideal.div` by (the image
    of) `N`. (Realness is needed: the product does not distribute over the sum at `±∞`.) -/
theorem variance_identity_finset {ι : Type*} (s : Finset ι) (x : ι → EReal) {N : ℝ} (hN : N ≠ 0)
    (hcard : (s.card : ℝ) = N) (hx : ∀ i ∈ s, IsReal (x i)) :
    Ideal.div (∑ i ∈ s, (x i - Ideal.div (∑ j ∈ s, x j) (N : EReal))
        * (x i - Ideal.div (∑ j ∈ s, x j) (N : EReal))) (N : EReal)
      = Ideal.div (∑ i ∈ s, x i * x i) (N : EReal)
        - Ideal.div (∑ j ∈ s, x j) (N : EReal) * Ideal.div (∑ j ∈ s, x j) (N : EReal) := by
  -- real witnesses: `x i = ↑(f i)` on `s`
  have hf : ∃ f : ι → ℝ, ∀ i ∈ s, x i = ((f i : ℝ) : EReal) :=
    ⟨fun i => (x i).toReal, fun i hi => ((hx i hi).coe_toReal).symm⟩
  obtain ⟨f, hf⟩ := hf
  -- the three sums are images of real sums
  have e1 : (∑ j ∈ s, x j) = ((∑ j ∈ s, f j : ℝ) : EReal) := by
    rw [← coe_finset_sum]; exact Finset.sum_congr rfl hf
  have e2 : (∑ i ∈ s, x i * x i) = ((∑ i ∈ s, f i * f i : ℝ) : EReal) := by
    rw [← coe_finset_sum]
    exact Finset.sum_congr rfl fun i hi => by rw [hf i hi, ← EReal.coe_mul]
  rw [e1, e2, div_coe_coe _ hN, div_coe_coe _ hN]
  have e3 : (∑ i ∈ s, (x i - (((∑ j ∈ s, f j) / N : ℝ) : EReal))
        * (x i - (((∑ j ∈ s, f j) / N : ℝ) : EReal)))
      = ((∑ i ∈ s, (f i - (∑ j ∈ s, f j) / N) * (f i - (∑ j ∈ s, f j) / N) : ℝ) : EReal) := by
    rw [← coe_finset_sum]
    exact Finset.sum_congr rfl fun i hi => by rw [hf i hi, ← EReal.coe_sub, ← EReal.coe_mul]
  rw [e3, div_coe_coe _ hN, ← EReal.coe_mul, ← EReal.coe_sub, real_variance_identity s f hN hcard]

/-- The variance identity on the extended reals over a finite index type of `N` elements: for a
    family `x` of real extended reals and `μ = (∑ x) / N`,
    `(∑ᵢ (xᵢ - μ) * (xᵢ - μ)) / N = (∑ᵢ xᵢ * xᵢ) / N - μ * μ` — the mean of the squared deviations
    is the mean of the squares minus the square of the mean — with the extended reals' own
    `+ - *` and `Ideal.div` by (the image of) the real number `N`. -/
theorem variance_identity {ι : Type*} [Fintype ι] (x : ι → EReal) {N : ℝ} (hN : N ≠ 0)
    (hcard : (Fintype.card ι : ℝ) = N) (hx : ∀ i, IsReal (x i)) :
    Ideal.div (∑ i, (x i - Ideal.div (∑ j, x j) (N : EReal))
        * (x i - Ideal.div (∑ j, x j) (N : EReal))) (N : EReal)
      = Ideal.div (∑ i, x i * x i) (N : EReal)
        - Ideal.div (∑ j, x j) (N : EReal) * Ideal.div (∑ j, x j) (N : EReal) :=
  variance_identity_finset Finset.univ x hN (by rw [Finset.card_univ]; exact hcard) fun i _ => hx i

/-! ### The variance is a nonnegative real, and its reciprocal square root is real -/

/-- The mean of a family of reals over a finite set, by a nonzero real `N`, is real. -/
theorem isReal_mean_finset {ι : Type*} (s : Finset ι) (x : ι → EReal) {N : ℝ} (hN : N ≠ 0)
    (hx : ∀ i ∈ s, IsReal (x i)) : IsReal (Ideal.div (∑ j ∈ s, x j) (N : EReal)) :=
  (isReal_finset_sum s x hx).div_coe hN

/-- The mean of the squared deviations from the mean, of a family of reals over a finite set
    (division by a nonzero real `N`), is real. -/
theorem isReal_variance_finset {ι : Type*} (s : Finset ι) (x : ι → EReal) {N : ℝ} (hN : N ≠ 0)
    (hx : ∀ i ∈ s, IsReal (x i)) :
    IsReal (Ideal.div (∑ i ∈ s, (x i - Ideal.div (∑ j ∈ s, x j) (N : EReal))
        * (x i - Ideal.div (∑ j ∈ s, x j) (N : EReal))) (N : EReal)) :=
  (isReal_finset_sum s _ fun i hi =>
    ((hx i hi).sub (isReal_mean_finset s x hN hx)).mul
      ((hx i hi).sub (isReal_mean_finset s x hN hx))).div_coe hN

/-- The mean of the squares minus the square of the mean, of a family of reals over a finite
    set (division by a nonzero real `N`), is real. -/
theorem isReal_variance'_finset {ι : Type*} (s : Finset ι) (x : ι → EReal) {N : ℝ} (hN : N ≠ 0)
    (hx : ∀ i ∈ s, IsReal (x i)) :
    IsReal (Ideal.div (∑ i ∈ s, x i * x i) (N : EReal)
        - Ideal.div (∑ j ∈ s, x j) (N : EReal) * Ideal.div (∑ j ∈ s, x j) (N : EReal)) :=
  ((isReal_finset_sum s _ fun i hi => (hx i hi).mul (hx i hi)).div_coe hN).sub
    ((isReal_mean_finset s x hN hx).mul (isReal_mean_finset s x hN hx))

/-- The square of a real is nonnegative. -/
theorem IsReal.mul_self_nonneg {x : EReal} (hx : IsReal x) : 0 ≤ x * x := by
  obtain ⟨a, rfl⟩ := hx
  rw [← EReal.coe_mul]
  exact EReal.coe_nonneg.mpr (_root_.mul_self_nonneg a)

/-- The exact quotient of a nonnegative real by a positive real number is nonnegative. -/
theorem IsReal.div_coe_nonneg {x : EReal} (hx : IsReal x) (h0 : 0 ≤ x) {n : ℝ} (hn : 0 < n) :
    0 ≤ Ideal.div x (n : EReal) := by
  obtain ⟨a, rfl⟩ := hx
  rw [div_coe_coe a hn.ne']
  exact EReal.coe_nonneg.mpr (div_nonneg (EReal.coe_nonneg.mp h0) hn.le)

/-- The mean of the squared deviations from the mean, of a family of reals over a finite set
    (division by a POSITIVE real `N`), is nonnegative: it is a sum of squares of reals over a
    positive number. -/
theorem variance_nonneg_finset {ι : Type*} (s : Finset ι) (x : ι → EReal) {N : ℝ} (hN : 0 < N)
    (hx : ∀ i ∈ s, IsReal (x i)) :
    0 ≤ Ideal.div (∑ i ∈ s, (x i - Ideal.div (∑ j ∈ s, x j) (N : EReal))
        * (x i - Ideal.div (∑ j ∈ s, x j) (N : EReal))) (N : EReal) := by
  have hμ := isReal_mean_finset s x hN.ne' hx
  refine IsReal.div_coe_nonneg
    (isReal_finset_sum s _ fun i hi => ((hx i hi).sub hμ).mul ((hx i hi).sub hμ)) ?_ hN
  exact Finset.sum_nonneg fun i hi => ((hx i hi).sub hμ).mul_self_nonneg

/-- The mean of the squares minus the square of the mean, of a family of reals over a finite
    set of `N > 0` elements, is nonnegative: it is the mean of the squared deviations. -/
theorem variance'_nonneg_finset {ι : Type*} (s : Finset ι) (x : ι → EReal) {N : ℝ} (hN : 0 < N)
    (hcard : (s.card : ℝ) = N) (hx : ∀ i ∈ s, IsReal (x i)) :
    0 ≤ Ideal.div (∑ i ∈ s, x i * x i) (N : EReal)
        - Ideal.div (∑ j ∈ s, x j) (N : EReal) * Ideal.div (∑ j ∈ s, x j) (N : EReal) := by
  rw [← variance_identity_finset s x hN.ne' hcard hx]
  exact variance_nonneg_finset s x hN hx

/-- A nonnegative real plus (the image of) a positive real number is positive. -/
theorem IsReal.add_coe_pos {v : EReal} (hv : IsReal v) (h0 : 0 ≤ v) {ε : ℝ} (hε : 0 < ε) :
    0 < v + (ε : EReal) := by
  obtain ⟨r, rfl⟩ := hv
  rw [← EReal.coe_add]
  exact EReal.coe_pos.mpr (add_pos_of_nonneg_of_pos (EReal.coe_nonneg.mp h0) hε)

/-- A nonnegative real plus (the image of) a positive real number `ε` has a real reciprocal
    square root: the sum is a positive real. -/
theorem IsReal.rsqrt_add_coe {v : EReal} (hv : IsReal v) (h0 : 0 ≤ v) {ε : ℝ} (hε : 0 < ε) :
    IsReal (Ideal.rsqrt (v + (ε : EReal))) :=
  (hv.add (isReal_coe ε)).rsqrt (hv.add_coe_pos h0 hε)

/-- A nonnegative real plus (the image of) a positive real number `ε` has a positive reciprocal
    square root. -/
theorem IsReal.rsqrt_add_coe_pos {v : EReal} (hv : IsReal v) (h0 : 0 ≤ v) {ε : ℝ} (hε : 0 < ε) :
    0 < Ideal.rsqrt (v + (ε : EReal)) :=
  (hv.add (isReal_coe ε)).rsqrt_pos (hv.add_coe_pos h0 hε)

/-- The same with the summands in the other order: `rsqrt (ε + v)` is real. -/
theorem IsReal.rsqrt_coe_add {v : EReal} (hv : IsReal v) (h0 : 0 ≤ v) {ε : ℝ} (hε : 0 < ε) :
    IsReal (Ideal.rsqrt ((ε : EReal) + v)) := by
  rw [add_comm]; exact hv.rsqrt_add_coe h0 hε

/-- `rsqrt (variance + ε)` is real, for the variance computed as the mean of the squared
    deviations of a family of reals over a finite set (division by a positive real `N`) and a
    positive real `ε`. -/
theorem isReal_rsqrt_variance_add_finset {ι : Type*} (s : Finset ι) (x : ι → EReal) {N : ℝ}
    (hN : 0 < N) (hx : ∀ i ∈ s, IsReal (x i)) {ε : ℝ} (hε : 0 < ε) :
    IsReal (Ideal.rsqrt (Ideal.div (∑ i ∈ s, (x i - Ideal.div (∑ j ∈ s, x j) (N : EReal))
        * (x i - Ideal.div (∑ j ∈ s, x j) (N : EReal))) (N : EReal) + (ε : EReal))) :=
  (isReal_variance_finset s x hN.ne' hx).rsqrt_add_coe (variance_nonneg_finset s x hN hx) hε

/-- `rsqrt (variance + ε)` is real, for the variance computed as the mean of the squares minus
    the square of the mean of a family of reals over a finite set of `N > 0` elements and a
    positive real `ε`. -/
theorem isReal_rsqrt_variance'_add_finset {ι : Type*} (s : Finset ι) (x : ι → EReal) {N : ℝ}
    (hN : 0 < N) (hcard : (s.card : ℝ) = N) (hx : ∀ i ∈ s, IsReal (x i)) {ε : ℝ} (hε : 0 < ε) :
    IsReal (Ideal.rsqrt (Ideal.div (∑ i ∈ s, x i * x i) (N : EReal)
        - Ideal.div (∑ j ∈ s, x j) (N : EReal) * Ideal.div (∑ j ∈ s, x j) (N : EReal)
        + (ε : EReal))) :=
  (isReal_variance'_finset s x hN.ne' hx).rsqrt_add_coe
    (variance'_nonneg_finset s x hN hcard hx) hε

/-! The same over a finite index type. -/

section Fintype
variable {ι : Type*} [Fintype ι] (x : ι → EReal) {N : ℝ}

/-- The mean of a family of reals over a finite type, by a nonzero real `N`, is real. -/
theorem isReal_mean (hN : N ≠ 0) (hx : ∀ i, IsReal (x i)) :
    IsReal (Ideal.div (∑ j, x j) (N : EReal)) :=
  isReal_mean_finset Finset.univ x hN fun i _ => hx i

/-- The mean of the squared deviations from the mean of a family of reals over a finite type is
    real. -/
theorem isReal_variance (hN : N ≠ 0) (hx : ∀ i, IsReal (x i)) :
    IsReal (Ideal.div (∑ i, (x i - Ideal.div (∑ j, x j) (N : EReal))
        * (x i - Ideal.div (∑ j, x j) (N : EReal))) (N : EReal)) :=
  isReal_variance_finset Finset.univ x hN fun i _ => hx i

/-- The mean of the squares minus the square of the mean of a family of reals over a finite type
    is real. -/
theorem isReal_variance' (hN : N ≠ 0) (hx : ∀ i, IsReal (x i)) :
    IsReal (Ideal.div (∑ i, x i * x i) (N : EReal)
        - Ideal.div (∑ j, x j) (N : EReal) * Ideal.div (∑ j, x j) (N : EReal)) :=
  isReal_variance'_finset Finset.univ x hN fun i _ => hx i

/-- The mean of the squared deviations from the mean of a family of reals over a finite type
    (division by a positive real) is nonnegative. -/
theorem variance_nonneg (hN : 0 < N) (hx : ∀ i, IsReal (x i)) :
    0 ≤ Ideal.div (∑ i, (x i - Ideal.div (∑ j, x j) (N : EReal))
        * (x i - Ideal.div (∑ j, x j) (N : EReal))) (N : EReal) :=
  variance_nonneg_finset Finset.univ x hN fun i _ => hx i

/-- The mean of the squares minus the square of the mean of a family of reals over a finite type
    of `N > 0` elements is nonnegative. -/
theorem variance'_nonneg (hN : 0 < N) (hcard : (Fintype.card ι : ℝ) = N) (hx : ∀ i, IsReal (x i)) :
    0 ≤ Ideal.div (∑ i, x i * x i) (N : EReal)
        - Ideal.div (∑ j, x j) (N : EReal) * Ideal.div (∑ j, x j) (N : EReal) :=
  variance'_nonneg_finset Finset.univ x hN (by rw [Finset.card_univ]; exact hcard) fun i _ => hx i

/-- `rsqrt (variance + ε)` is real (variance as the mean of the squared deviations, `N > 0`,
    `ε > 0`). -/
theorem isReal_rsqrt_variance_add (hN : 0 < N) (hx : ∀ i, IsReal (x i)) {ε : ℝ} (hε : 0 < ε) :
    IsReal (Ideal.rsqrt (Ideal.div (∑ i, (x i - Ideal.div (∑ j, x j) (N : EReal))
        * (x i - Ideal.div (∑ j, x j) (N : EReal))) (N : EReal) + (ε : EReal))) :=
  isReal_rsqrt_variance_add_finset Finset.univ x hN (fun i _ => hx i) hε

/-- `rsqrt (variance + ε)` is real (variance as the mean of the squares minus the square of the
    mean over a type of `N > 0` elements, `ε > 0`). -/
theorem isReal_rsqrt_variance'_add (hN : 0 < N) (hcard : (Fintype.card ι : ℝ) = N)
    (hx : ∀ i, IsReal (x i)) {ε : ℝ} (hε : 0 < ε) :
    IsReal (Ideal.rsqrt (Ideal.div (∑ i, x i * x i) (N : EReal)
        - Ideal.div (∑ j, x j) (N : EReal) * Ideal.div (∑ j, x j) (N : EReal) + (ε : EReal))) :=
  isReal_rsqrt_variance'_add_finset Finset.univ x hN (by rw [Finset.card_univ]; exact hcard)
    (fun i _ => hx i) hε

/-- The two normalisation factors agree: `rsqrt (variance + e)` is the same extended real for
    the two formulas of the variance (any extended real `e` added), for a family of reals over a
    finite type of `N ≠ 0` elements. -/
theorem rsqrt_variance_add_eq (hN : N ≠ 0) (hcard : (Fintype.card ι : ℝ) = N)
    (hx : ∀ i, IsReal (x i)) (e : EReal) :
    Ideal.rsqrt (Ideal.div (∑ i, (x i - Ideal.div (∑ j, x j) (N : EReal))
        * (x i - Ideal.div (∑ j, x j) (N : EReal))) (N : EReal) + e)
      = Ideal.rsqrt (Ideal.div (∑ i, x i * x i) (N : EReal)
        - Ideal.div (∑ j, x j) (N : EReal) * Ideal.div (∑ j, x j) (N : EReal) + e) := by
  rw [variance_identity x hN hcard hx]

end Fintype

/-! ### Regrouping a sum over `a * b` indices into `a` blocks of `b` -/

/-- The `p`-th index of the `t`-th block of `b` consecutive indices lies below `a * b`. -/
theorem block_index_lt {a b : ℕ} (t : Fin a) (p : Fin b) : b * t.val + p.val < a * b := by
  have h1 : b * t.val + p.val < b * (t.val + 1) := by
    rw [Nat.mul_succ]; exact Nat.add_lt_add_left p.isLt _
  have h2 : b * (t.val + 1) ≤ a * b := by
    rw [Nat.mul_comm a b]; exact Nat.mul_le_mul_left b t.isLt
  exact lt_of_lt_of_le h1 h2

/-- A sum over `a * b` consecutive indices is the sum over `a` blocks of the sums over the `b`
    indices of each block: `∑ₜ ∑ₚ f (b t + p) = ∑ᵣ f r`, in any commutative additive monoid (so
    on the extended reals, with no finiteness hypothesis). -/
theorem sum_blocks {A : Type*} [AddCommMonoid A] (a b : ℕ) (f : Fin (a * b) → A) :
    (∑ t : Fin a, ∑ p : Fin b, f ⟨b * t.val + p.val, block_index_lt t p⟩) = ∑ r : Fin (a * b), f r := by
  rw [← (finProdFinEquiv (m := a) (n := b)).sum_comp f, Fintype.sum_prod_type]
  refine Finset.sum_congr rfl fun t _ => Finset.sum_congr rfl fun p _ => congrArg f (Fin.ext ?_)
  simp only [finProdFinEquiv_apply_val]
  exact Nat.add_comm _ _

/-- A sum over `100000` consecutive indices taken in `50` blocks of `2000`:
    `∑ₜ ∑ₚ f (2000 t + p) = ∑ᵣ f r`. -/
theorem sum_blocks_50_2000 {A : Type*} [AddCommMonoid A] (f : Fin 100000 → A) :
    (∑ t : Fin 50, ∑ p : Fin 2000, f ⟨2000 * t.val + p.val, by have := t.isLt; have := p.isLt; omega⟩)
      = ∑ r : Fin 100000, f r :=
  sum_blocks 50 2000 f

end Idealize.LibMoments
-- ==== Proof.LibFiniteOps.lean ====
/-
  "Every entry is a real number" is preserved by the vector operations of a program read at the
  exact (extended-real) instance.

  A float vector at the exact instance is a family `v : S.Idx → EReal`. It is *all real*
  (`AllReal v`) when no entry is `⊤` or `⊥`. This file proves that the property passes through
  each operation that has no pole on the reals: the pointwise sum, difference, product and
  maximum; a selection between two all-real vectors; every re-indexing (broadcast, slice, shape
  cast, transpose, concatenation, gather, padding); a constant whose word is a finite number;
  division by a nonzero real constant; the hyperbolic tangent (of anything); the reciprocal
  square root of positive reals; a sum along axes from a real initial value; a contraction (a
  finite sum of products); an accumulating scatter (a finite sum of updates added to an entry).
-/
import proofs.«103573_j30391188587216_1_alg».proof.Proof.LibMoments
import Idealize.ShloMosaic.PureOps.Ideal
import Idealize.ShloMosaic.PureOps.Ideal.Laws

open scoped BigOperators

namespace Idealize.LibFiniteOps

open Idealize.ShloMosaic Idealize.LibMoments

/-! ### All-real families -/

/-- A family of extended reals is *all real* when every member is a real number (neither `⊤`
    nor `⊥`). A float vector of shape `S` at the exact instance, `FVec Ideal S φ`, is by
    definition a function `S.Idx → EReal`, so this applies to it as it stands. -/
def AllReal {ι : Type*} (v : ι → EReal) : Prop := ∀ i, IsReal (v i)

/-- The constant family at a real is all real. -/
theorem allReal_const {ι : Type*} {c : EReal} (hc : IsReal c) : AllReal (fun _ : ι => c) :=
  fun _ => hc

/-- A family equal entrywise to real numbers is all real. -/
theorem allReal_of_eq_coe {ι : Type*} {v : ι → EReal} (f : ι → ℝ) (h : ∀ i, v i = ((f i : ℝ) : EReal)) :
    AllReal v := fun i => ⟨f i, h i⟩

/-- Any re-indexing of an all-real family is all real: its entries are entries of the family. -/
theorem AllReal.comp {ι κ : Type*} {v : ι → EReal} (hv : AllReal v) (g : κ → ι) :
    AllReal (fun j => v (g j)) := fun j => hv (g j)

section Elementwise
variable {s : Shape} {φ : FTy}

/-! ### Pointwise arithmetic -/

/-- The pointwise sum of two all-real vectors is all real. -/
theorem allReal_addf {x y : FVec Ideal s φ} (hx : AllReal x) (hy : AllReal y) : AllReal (addf x y) :=
  fun i => (hx i).add (hy i)

/-- The pointwise difference of two all-real vectors is all real. -/
theorem allReal_subf {x y : FVec Ideal s φ} (hx : AllReal x) (hy : AllReal y) : AllReal (subf x y) :=
  fun i => (hx i).sub (hy i)

/-- The pointwise product of two all-real vectors is all real. -/
theorem allReal_mulf {x y : FVec Ideal s φ} (hx : AllReal x) (hy : AllReal y) : AllReal (mulf x y) :=
  fun i => (hx i).mul (hy i)

/-- The pointwise negative of an all-real vector is all real. -/
theorem allReal_negf {x : FVec Ideal s φ} (hx : AllReal x) : AllReal (negf x) :=
  fun i => (hx i).neg

/-- The pointwise maximum of two all-real vectors is all real. -/
theorem allReal_maximumf {x y : FVec Ideal s φ} (hx : AllReal x) (hy : AllReal y) :
    AllReal (maximumf x y) :=
  fun i => (hx i).max (hy i)

/-- The pointwise minimum of two all-real vectors is all real. -/
theorem allReal_minimumf {x y : FVec Ideal s φ} (hx : AllReal x) (hy : AllReal y) :
    AllReal (minimumf x y) :=
  fun i => (hx i).min (hy i)

/-- Each entry of a pointwise maximum is at least the second operand's entry. -/
theorem le_maximumf_right (x y : FVec Ideal s φ) (i : s.Idx) : y i ≤ maximumf x y i :=
  le_max_right (x i) (y i)

/-- Each entry of a pointwise maximum is at least the first operand's entry. -/
theorem le_maximumf_left (x y : FVec Ideal s φ) (i : s.Idx) : x i ≤ maximumf x y i :=
  le_max_left (x i) (y i)

/-- The pointwise maximum with a vector of ones has every entry at least `1`, hence positive. -/
theorem one_le_maximumf_of_right_eq_one (x : FVec Ideal s φ) {y : FVec Ideal s φ} (hy : ∀ i, y i = 1)
    (i : s.Idx) : 1 ≤ maximumf x y i ∧ 0 < maximumf x y i := by
  have h1 : (1 : EReal) ≤ maximumf x y i := by rw [← hy i]; exact le_maximumf_right x y i
  exact ⟨h1, lt_of_lt_of_le zero_lt_one h1⟩

/-- A selection, entry by entry, between two all-real vectors is all real: each entry is an entry
    of one of the two. -/
theorem allReal_select (c : IVec s 1) {a b : FVec Ideal s φ} (ha : AllReal a) (hb : AllReal b) :
    AllReal (select c a b) := by
  intro i
  show IsReal (if c i = 1 then a i else b i)
  split
  · exact ha i
  · exact hb i

end Elementwise

/-! ### Constants -/

/-- An `f32` word whose exponent field is not all ones denotes a real number (a zero, a subnormal
    or a normal number: a dyadic rational); only the all-ones exponent gives `±∞` or the junk `⊥`. -/
theorem isReal_ofBits_f32 (w : BitVec 32) (hw : (w.extractLsb' 23 8).toNat ≠ 2 ^ 8 - 1) :
    IsReal (Ideal.ofBits .f32 w) := by
  show IsReal (Ideal.ieee 8 23 w)
  unfold Ideal.ieee
  simp only
  rw [if_neg hw]
  split
  · exact isReal_coe _
  · exact isReal_coe _

/-- The splat of a finite `f32` word (exponent field not all ones) is all real. -/
theorem allReal_constant_f32 (s : Shape) (w : BitVec 32) (hw : (w.extractLsb' 23 8).toNat ≠ 2 ^ 8 - 1) :
    AllReal (constant (F := Ideal) s .f32 w) :=
  fun _ => isReal_ofBits_f32 w hw

/-- The word `0x00000000` denotes `0`. -/
theorem ofBits_f32_zero : Ideal.ofBits .f32 0x00000000#32 = 0 := Ideal.ofBits_zero_f32

/-- The word `0x3F800000` denotes `1`. -/
theorem ofBits_f32_one : Ideal.ofBits .f32 0x3F800000#32 = 1 := by
  simp [Ideal.ofBits, Ideal.ieee, -EReal.coe_mul]; norm_num

/-- The word `0x47C35000` denotes `100000`. -/
theorem ofBits_f32_100000 : Ideal.ofBits .f32 0x47C35000#32 = ((100000 : ℝ) : EReal) := by
  simp [Ideal.ofBits, Ideal.ieee, -EReal.coe_mul]; norm_num

/-- The word `0x3EAAAAAB` (the `f32` nearest `1/3`) denotes the dyadic rational `11184811 / 2 ^ 25`. -/
theorem ofBits_f32_third : Ideal.ofBits .f32 0x3EAAAAAB#32 = ((11184811 / 2 ^ 25 : ℝ) : EReal) := by
  simp [Ideal.ofBits, Ideal.ieee, -EReal.coe_mul]; norm_num

/-- The word `0x3727C5AC` (the `f32` nearest `1e-5`) denotes the dyadic rational `10995116 / 2 ^ 40`. -/
theorem ofBits_f32_1em5 : Ideal.ofBits .f32 0x3727C5AC#32 = ((10995116 / 2 ^ 40 : ℝ) : EReal) := by
  simp [Ideal.ofBits, Ideal.ieee, -EReal.coe_mul]; norm_num

/-- The `f32` nearest `1e-5` is a positive real. -/
theorem ofBits_f32_1em5_pos : ∃ ε : ℝ, 0 < ε ∧ Ideal.ofBits .f32 0x3727C5AC#32 = (ε : EReal) :=
  ⟨10995116 / 2 ^ 40, by positivity, ofBits_f32_1em5⟩

/-- The `f32` nearest `1/3` is a positive real. -/
theorem ofBits_f32_third_pos : ∃ c : ℝ, 0 < c ∧ Ideal.ofBits .f32 0x3EAAAAAB#32 = (c : EReal) :=
  ⟨11184811 / 2 ^ 25, by positivity, ofBits_f32_third⟩

/-- The splat of the word of `0.0` is all real. -/
theorem allReal_constant_f32_zero (s : Shape) : AllReal (constant (F := Ideal) s .f32 0x00000000#32) :=
  allReal_constant_f32 s _ (by decide)

/-- The splat of the word of `1.0` is all real. -/
theorem allReal_constant_f32_one (s : Shape) : AllReal (constant (F := Ideal) s .f32 0x3F800000#32) :=
  allReal_constant_f32 s _ (by decide)

/-- The splat of the word of the `f32` nearest `1/3` is all real. -/
theorem allReal_constant_f32_third (s : Shape) : AllReal (constant (F := Ideal) s .f32 0x3EAAAAAB#32) :=
  allReal_constant_f32 s _ (by decide)

/-- The splat of the word of the `f32` nearest `1e-5` is all real. -/
theorem allReal_constant_f32_1em5 (s : Shape) : AllReal (constant (F := Ideal) s .f32 0x3727C5AC#32) :=
  allReal_constant_f32 s _ (by decide)

/-- The splat of the word of `100000.0` is all real. -/
theorem allReal_constant_f32_100000 (s : Shape) : AllReal (constant (F := Ideal) s .f32 0x47C35000#32) :=
  allReal_constant_f32 s _ (by decide)

/-- Each entry of a constant is what its word denotes. -/
theorem constant_apply (s : Shape) (φ : FTy) (w : BitVec φ.bits) (i : s.Idx) :
    constant (F := Ideal) s φ w i = Ideal.ofBits φ w := rfl

/-- A signed integer converted to a float denotes that integer: real. -/
theorem allReal_sitofp {s : Shape} {w : Nat} (φ : FTy) (x : IVec s w) : AllReal (sitofp (F := Ideal) φ x) :=
  fun i => ⟨((x i).toInt : ℝ), rfl⟩

/-! ### Re-indexings: every entry of the result is an entry of an operand -/

section Reindex
variable {s t : Shape}

/-- The splat of a real is all real. -/
theorem allReal_broadcast (t : Shape) {c : EReal} (hc : IsReal c) : AllReal (broadcast t c) :=
  fun _ => hc

/-- A broadcast along named axes of an all-real operand is all real. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast along leading axes of an all-real operand is all real. -/
theorem allReal_broadcastTo (t : Shape) {x : s.Idx → EReal} (hx : AllReal x) (h : s.Broadcasts t) :
    AllReal (broadcastTo t x h) :=
  fun _ => hx _

/-- A shape cast (the same entries in row-major order) of an all-real operand is all real. -/
theorem allReal_shapeCast (t : Shape) {x : s.Idx → EReal} (hx : AllReal x) (h : s.ShapeCasts t) :
    AllReal (shapeCast t x h) :=
  fun _ => hx _

/-- A unit-stride slice of an all-real operand is all real. -/
theorem allReal_extractStridedSlice (t : Shape) (off : Fin s.rank → Nat) {x : s.Idx → EReal}
    (hx : AllReal x) (h : s.Slices off t) : AllReal (extractStridedSlice t off x h) :=
  fun _ => hx _

/-- A strided slice of an all-real operand is all real. -/
theorem allReal_hostSlice (t : Shape) (start strides : Fin s.rank → Nat) {x : s.Idx → EReal}
    (hx : AllReal x) (h : s.SlicesBy start strides t) : AllReal (Host.slice t start strides x h) :=
  fun _ => hx _

/-- A transpose of an all-real operand is all real. -/
theorem allReal_transpose (t : Shape) (perm : List (Fin s.rank)) {x : s.Idx → EReal} (hx : AllReal x)
    (h : s.Transposes perm t) : AllReal (transpose t perm x h) :=
  fun _ => hx _

/-- A gather from an all-real operand is all real, WHATEVER the index vector holds: each result
    entry is the operand's entry at the operand index the dimension numbers compute, which is an
    index of the operand by construction (the operation's definition clamps each start so that
    the slice fits), so there is no out-of-range value to account for. -/
theorem allReal_hostGather {si : Shape} {w : Nat} (d : GatherDims s si t) {x : s.Idx → EReal}
    (hx : AllReal x) (idx : IVec si w) : AllReal (Host.gather d x idx) :=
  fun _ => hx _

/-- Each entry of a gather is the operand's entry at the operand index the dimension numbers
    compute. -/
theorem hostGather_apply {si : Shape} {w : Nat} (d : GatherDims s si t) (x : s.Idx → EReal)
    (idx : IVec si w) (j : t.Idx) : Host.gather d x idx j = x (d.operandIdx j idx) := rfl

end Reindex

/-! ### Division, hyperbolic tangent, reciprocal square root -/

section Unary
variable {s : Shape} {φ : FTy}

/-- Each entry of the host's quotient is the exact quotient of the entries. -/
theorem hostDivf_apply (x y : FVec Ideal s φ) (i : s.Idx) : Host.divf x y i = Ideal.div (x i) (y i) := rfl

/-- The quotient of an all-real vector by a vector every entry of which is one nonzero real
    number `n` (a broadcast constant) is all real. -/
theorem allReal_hostDivf_of_eq_coe {x y : FVec Ideal s φ} (hx : AllReal x) {n : ℝ} (hn : n ≠ 0)
    (hy : ∀ i, y i = (n : EReal)) : AllReal (Host.divf x y) := by
  intro i
  rw [hostDivf_apply, hy i]
  exact (hx i).div_coe hn

/-- The same for the kernel-side pointwise quotient. -/
theorem allReal_divf_of_eq_coe {x y : FVec Ideal s φ} (hx : AllReal x) {n : ℝ} (hn : n ≠ 0)
    (hy : ∀ i, y i = (n : EReal)) : AllReal (divf x y) := by
  intro i
  show IsReal (Ideal.div (x i) (y i))
  rw [hy i]
  exact (hx i).div_coe hn

/-- The quotient of an all-real vector by an all-real vector with no zero entry is all real. -/
theorem allReal_hostDivf {x y : FVec Ideal s φ} (hx : AllReal x) (hy : AllReal y) (hy0 : ∀ i, y i ≠ 0) :
    AllReal (Host.divf x y) := by
  intro i
  rw [hostDivf_apply]
  obtain ⟨n, hn⟩ := hy i
  rw [hn]
  exact (hx i).div_coe (fun h0 => hy0 i (by rw [hn, h0, EReal.coe_zero]))

/-- The host's hyperbolic tangent of ANY vector is all real (`tanh (±∞) = ±1`). -/
theorem allReal_hostTanh (x : FVec Ideal s φ) : AllReal (Host.tanh x) :=
  fun i => isReal_tanh (x i)

/-- The kernel-side hyperbolic tangent of any vector is all real. -/
theorem allReal_tanh (x : FVec Ideal s φ) : AllReal (tanh x) :=
  fun i => isReal_tanh (x i)

/-- Each entry of the host's reciprocal square root is the exact one of the entry. -/
theorem hostRsqrt_apply (x : FVec Ideal s φ) (i : s.Idx) : Host.rsqrt x i = Ideal.rsqrt (x i) := rfl

/-- The host's reciprocal square root of a vector of POSITIVE reals is all real (at a zero entry
    it would be `⊤`, at a negative one the junk `⊥`). -/
theorem allReal_hostRsqrt {x : FVec Ideal s φ} (hx : AllReal x) (hpos : ∀ i, 0 < x i) :
    AllReal (Host.rsqrt x) :=
  fun i => (hx i).rsqrt (hpos i)

/-- ... and its entries are positive. -/
theorem hostRsqrt_pos {x : FVec Ideal s φ} (hx : AllReal x) (hpos : ∀ i, 0 < x i) (i : s.Idx) :
    0 < Host.rsqrt x i :=
  (hx i).rsqrt_pos (hpos i)

/-- The kernel-side reciprocal square root of a vector of positive reals is all real. -/
theorem allReal_rsqrt {x : FVec Ideal s φ} (hx : AllReal x) (hpos : ∀ i, 0 < x i) : AllReal (rsqrt x) :=
  fun i => (hx i).rsqrt (hpos i)

end Unary

/-! ### Sums: reductions, contractions, accumulating scatter -/

section Sums
variable {φ : FTy}

/-- The host's sum along axes, at an index of the result: the initial value plus the sum of the
    operand's entries that reduce to that index. -/
theorem hostReduceAdd_apply {s t u : Shape} {axes : List (Fin s.rank)} (x : FVec Ideal s φ)
    (init : u.Idx → Ideal φ) (h : s.ReducesTo axes t) (hu : 0 < u.numel) (j : t.Idx) :
    Host.reduceAdd x init h hu j
      = init (Shape.Idx.first hu) + ∑ i ∈ Finset.univ.filter (fun i => h.drop i = j), x i := rfl

/-- The host's sum along axes of an all-real operand from a real initial value is all real: each
    entry is the initial value plus a finite sum of entries. -/
theorem allReal_hostReduceAdd {s t u : Shape} {axes : List (Fin s.rank)} {x : FVec Ideal s φ}
    {init : u.Idx → Ideal φ} (hx : AllReal x) (hinit : AllReal init) (h : s.ReducesTo axes t)
    (hu : 0 < u.numel) : AllReal (Host.reduceAdd x init h hu) := by
  intro j
  rw [hostReduceAdd_apply]
  exact (hinit _).add (isReal_finset_sum _ _ fun i _ => hx i)

/-- A kernel's sum along axes of an all-real vector is all real: each entry is a finite sum of
    entries. -/
theorem allReal_multiReduction_add {s t : Shape} (axes : List (Fin s.rank)) {src : FVec Ideal s φ}
    (hsrc : AllReal src) (acc : BitVec φ.bits) (h : s.Reduces axes t) (hφ : FKind.Formats φ)
    (hacc : acc = FKind.add.neutral φ hφ) : AllReal (multiReduction .add axes t src acc h hφ hacc) := by
  intro j
  show IsReal (∑ i ∈ Finset.univ.filter (fun i => h.drop i = j), src i)
  exact isReal_finset_sum _ _ fun i _ => hsrc i

/-- The host's contraction of two all-real operands is all real: each entry is a finite sum of
    products of entries. -/
theorem allReal_hostDotGeneral {sl sr so : Shape} {φ₁ φ₂ : FTy} (d : DotDims sl sr so)
    (prec : Option ContractPrecision) {lhs : FVec Ideal sl φ₁} {rhs : FVec Ideal sr φ₂}
    (hl : AllReal lhs) (hr : AllReal rhs) : AllReal (Host.dotGeneral d prec lhs rhs) := by
  intro j
  show IsReal (FloatOps.dotGeneral d prec .single lhs rhs j)
  rw [Ideal.dotGeneral_apply]
  exact isReal_sum _ fun k => (hl _).mul (hr _)

/-- A kernel's matrix product of two all-real operands into an all-real accumulator is all real:
    each entry is the accumulator's plus a finite sum of products of entries. -/
theorem allReal_matmul {sl sr so : Shape} {φ₁ φ₂ : FTy} (d : DotDims sl sr so)
    (prec : Option ContractPrecision) {lhs : FVec Ideal sl φ₁} {rhs : FVec Ideal sr φ₂}
    {acc : FVec Ideal so .f32} (hl : AllReal lhs) (hr : AllReal rhs) (hacc : AllReal acc) :
    AllReal (matmul d prec lhs rhs acc) := by
  intro j
  show IsReal (FloatOps.matmul d prec lhs rhs acc j)
  rw [Ideal.matmul_apply]
  exact (hacc j).add (isReal_sum _ fun k => (hl _).mul (hr _))

/-- A kernel's matrix product of two all-real operands into the zero accumulator is all real. -/
theorem allReal_matmul_zero {sl sr so : Shape} {φ₁ φ₂ : FTy} (d : DotDims sl sr so)
    (prec : Option ContractPrecision) {lhs : FVec Ideal sl φ₁} {rhs : FVec Ideal sr φ₂}
    (hl : AllReal lhs) (hr : AllReal rhs) :
    AllReal (matmul d prec lhs rhs (constant so .f32 0x00000000#32)) :=
  allReal_matmul d prec hl hr (allReal_constant_f32_zero so)

/-- The host's accumulating scatter, at an index of the operand: the operand's entry plus the sum
    of the updates whose result index is that index (an update whose index falls outside the
    operand has no result index and is dropped). -/
theorem hostScatterAdd_apply {s si u : Shape} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := rfl

/-- The host's accumulating scatter of all-real updates into an all-real operand is all real,
    whatever the indices: each entry is an entry plus a finite sum of updates. -/
theorem allReal_hostScatterAdd {s si u : Shape} {w : Nat} (d : ScatterDims s si u) {x : FVec Ideal s φ}
    (idx : IVec si w) {upd : FVec Ideal u φ} (hx : AllReal x) (hupd : AllReal upd) :
    AllReal (Host.scatterAdd d x idx upd) := by
  intro i
  rw [hostScatterAdd_apply]
  exact (hx i).add (isReal_finset_sum _ _ fun j _ => hupd j)

end Sums

/-! ### Concatenation and padding -/

/-- A concatenation of all-real vectors is all real: each entry is an entry of one of them. -/
theorem allReal_concatenate (t : Shape) (a : Fin t.rank) (xs : List ((s : Shape) × (s.Idx → EReal)))
    (hxs : ∀ p ∈ xs, AllReal p.2) (h : Shape.Concatenates (xs.map (·.1)) t a) :
    AllReal (concatenate t a xs h) := by
  intro j
  unfold concatenate
  exact hxs _ (List.getElem_mem _) _

/-- A concatenation of two all-real vectors is all real. -/
theorem allReal_concatenate₂ (t : Shape) (a : Fin t.rank) {s₁ s₂ : Shape} {x₁ : s₁.Idx → EReal}
    {x₂ : s₂.Idx → EReal} (h₁ : AllReal x₁) (h₂ : AllReal x₂) (h : Shape.Concatenates [s₁, s₂] t a) :
    AllReal (concatenate t a [⟨s₁, x₁⟩, ⟨s₂, x₂⟩] h) := by
  refine allReal_concatenate t a [⟨s₁, x₁⟩, ⟨s₂, x₂⟩] ?_ h
  intro p hp
  rcases List.mem_cons.mp hp with rfl | hp
  · exact h₁
  · rcases List.mem_cons.mp hp with rfl | hp
    · exact h₂
    · exact absurd hp (List.not_mem_nil)

/-- A padding of an all-real vector with the entry of an all-real (one-entry) vector is all real. -/
theorem allReal_pad {s t u : Shape} (lo hi interior : Fin s.rank → Nat) {x : s.Idx → EReal}
    {v : u.Idx → EReal} (hx : AllReal x) (hv : AllReal v) (h : s.Pads lo hi interior t)
    (hu : 0 < u.numel) : AllReal (pad t lo hi interior x v h hu) := by
  intro j
  unfold pad
  split
  · exact hx _
  · exact hv _

/-! ### A broadcast constant as a divisor -/

/-- Each entry of a broadcast of a constant is what the constant's word denotes. -/
theorem broadcastInDim_constant_apply {s t : Shape} {φ : FTy} (dims : Fin s.rank → Fin t.rank)
    (h : s.BroadcastsInDim t dims) (w : BitVec φ.bits) (j : t.Idx) :
    broadcastInDim t dims h (constant (F := Ideal) s φ w) j = Ideal.ofBits φ w := rfl

/-- The quotient of an all-real vector by a vector every entry of which is the word of
    `100000.0` is all real, and each entry is the exact quotient by the real number `100000`. -/
theorem allReal_hostDivf_100000 {s : Shape} {x y : FVec Ideal s .f32} (hx : AllReal x)
    (hy : ∀ i, y i = Ideal.ofBits .f32 0x47C35000#32) :
    AllReal (Host.divf x y) ∧ ∀ i, Host.divf x y i = Ideal.div (x i) ((100000 : ℝ) : EReal) := by
  have hy' : ∀ i, y i = ((100000 : ℝ) : EReal) := fun i => (hy i).trans ofBits_f32_100000
  exact ⟨allReal_hostDivf_of_eq_coe hx (by norm_num) hy', fun i => by rw [hostDivf_apply, hy' i]⟩

end Idealize.LibFiniteOps
-- ==== Proof.RefStages.lean ====
/- The reference program's dense stages, read over the shared specification: each an equation between ENTRIES of the final
   contents (`after ops V`: the buffers when @main has ended; an argument's buffer holds its launch contents `V`). Each follows
   from the per-operation equations of the buffers involved and the entrywise reading of the operations between them. The
   matrix products, the edge messages, the three-term sums, the column means, the normalised hyperbolic tangents, the self-loop rows, the combined
   pre-activations and the centred variances of both layers. -/
import proofs.«103573_j30391188587216_1_alg».proof.Proof.RefEqs
import proofs.«103573_j30391188587216_1_alg».proof.Proof.LibStage
import proofs.«103573_j30391188587216_1_alg».proof.Proof.LibFiniteOps

noncomputable section

open scoped BigOperators

namespace Cert.ReferenceIdeal.HandRun

open Cert.ReferenceIdeal Cert.ReferenceIdeal.Gen Idealize.ShloMosaic Idealize.ShloMosaic.TcCoe Idealize.SL.Sem Idealize.ShloMosaic.StableHlo
open Cert.SeqLib Cert.GraphConv Idealize.ShloMosaic.ValueIdx

/-- `v0` is the matrix product of `arg5` and `arg6`, entry by entry. -/
theorem st_v0 (V : Valuation τ sig (Elt Ideal)) (r : Fin 100000) (q : Fin 200) :
    after ops V (main_v0 : DevRef τ sig) (ix2 r q)
      = matProd (at2 (n0 := 100000) (n1 := 768) (V (main_arg5 : DevRef τ sig))) (at2 (n0 := 768) (n1 := 200) (V (main_arg6 : DevRef τ sig))) r q := by
  rw [eq_v0, kept_arg5, kept_arg6]

  exact dot_entry (M := 100000) (K := 768) (N := 200) _ rfl _ _ r q

/-- `v1` is the matrix product of `arg7` and `arg8`, entry by entry. -/
theorem st_v1 (V : Valuation τ sig (Elt Ideal)) (r : Fin 100000) (q : Fin 200) :
    after ops V (main_v1 : DevRef τ sig) (ix2 r q)
      = matProd (at2 (n0 := 100000) (n1 := 768) (V (main_arg7 : DevRef τ sig))) (at2 (n0 := 768) (n1 := 200) (V (main_arg8 : DevRef τ sig))) r q := by
  rw [eq_v1, kept_arg7, kept_arg8]

  exact dot_entry (M := 100000) (K := 768) (N := 200) _ rfl _ _ r q

/-- `v56` is the matrix product of `v55` and `arg10`, entry by entry. -/
theorem st_v56 (V : Valuation τ sig (Elt Ideal)) (r : Fin 200000) (q : Fin 200) :
    after ops V (main_v56 : DevRef τ sig) (ix2 r q)
      = matProd (at2 (n0 := 200000) (n1 := 200) (after ops V (main_v55 : DevRef τ sig))) (at2 (n0 := 200) (n1 := 200) (V (main_arg10 : DevRef τ sig))) r q := by
  rw [eq_v56, kept_arg10]
  generalize after ops V (main_v55 : DevRef τ sig) = X0
  exact dot_entry (M := 200000) (K := 200) (N := 200) _ rfl _ _ r q

/-- `v119` is the matrix product of `v118` and `arg11`, entry by entry. -/
theorem st_v119 (V : Valuation τ sig (Elt Ideal)) (r : Fin 200000) (q : Fin 200) :
    after ops V (main_v119 : DevRef τ sig) (ix2 r q)
      = matProd (at2 (n0 := 200000) (n1 := 200) (after ops V (main_v118 : DevRef τ sig))) (at2 (n0 := 200) (n1 := 200) (V (main_arg11 : DevRef τ sig))) r q := by
  rw [eq_v119, kept_arg11]
  generalize after ops V (main_v118 : DevRef τ sig) = X0
  exact dot_entry (M := 200000) (K := 200) (N := 200) _ rfl _ _ r q

/-- `v136` is the matrix product of `v135` and `arg12`, entry by entry. -/
theorem st_v136 (V : Valuation τ sig (Elt Ideal)) (r : Fin 100000) (q : Fin 200) :
    after ops V (main_v136 : DevRef τ sig) (ix2 r q)
      = matProd (at2 (n0 := 100000) (n1 := 200) (after ops V (main_v135 : DevRef τ sig))) (at2 (n0 := 200) (n1 := 200) (V (main_arg12 : DevRef τ sig))) r q := by
  rw [eq_v136, kept_arg12]
  generalize after ops V (main_v135 : DevRef τ sig) = X0
  exact dot_entry (M := 100000) (K := 200) (N := 200) _ rfl _ _ r q

/-- `v158` is the matrix product of `v2` and `arg13`, entry by entry. -/
theorem st_v158 (V : Valuation τ sig (Elt Ideal)) (r : Fin 401) (q : Fin 200) :
    after ops V (main_v158 : DevRef τ sig) (ix2 r q)
      = matProd (at2 (n0 := 401) (n1 := 200) (after ops V (main_v2 : DevRef τ sig))) (at2 (n0 := 200) (n1 := 200) (V (main_arg13 : DevRef τ sig))) r q := by
  rw [eq_v158, kept_arg13]
  generalize after ops V (main_v2 : DevRef τ sig) = X0
  exact dot_entry (M := 401) (K := 200) (N := 200) _ rfl _ _ r q

/-- `v214` is the matrix product of `v213` and `arg16`, entry by entry. -/
theorem st_v214 (V : Valuation τ sig (Elt Ideal)) (r : Fin 200000) (q : Fin 200) :
    after ops V (main_v214 : DevRef τ sig) (ix2 r q)
      = matProd (at2 (n0 := 200000) (n1 := 200) (after ops V (main_v213 : DevRef τ sig))) (at2 (n0 := 200) (n1 := 200) (V (main_arg16 : DevRef τ sig))) r q := by
  rw [eq_v214, kept_arg16]
  generalize after ops V (main_v213 : DevRef τ sig) = X0
  exact dot_entry (M := 200000) (K := 200) (N := 200) _ rfl _ _ r q

/-- `v277` is the matrix product of `v276` and `arg17`, entry by entry. -/
theorem st_v277 (V : Valuation τ sig (Elt Ideal)) (r : Fin 200000) (q : Fin 200) :
    after ops V (main_v277 : DevRef τ sig) (ix2 r q)
      = matProd (at2 (n0 := 200000) (n1 := 200) (after ops V (main_v276 : DevRef τ sig))) (at2 (n0 := 200) (n1 := 200) (V (main_arg17 : DevRef τ sig))) r q := by
  rw [eq_v277, kept_arg17]
  generalize after ops V (main_v276 : DevRef τ sig) = X0
  exact dot_entry (M := 200000) (K := 200) (N := 200) _ rfl _ _ r q

/-- `v294` is the matrix product of `v293` and `arg18`, entry by entry. -/
theorem st_v294 (V : Valuation τ sig (Elt Ideal)) (r : Fin 100000) (q : Fin 200) :
    after ops V (main_v294 : DevRef τ sig) (ix2 r q)
      = matProd (at2 (n0 := 100000) (n1 := 200) (after ops V (main_v293 : DevRef τ sig))) (at2 (n0 := 200) (n1 := 200) (V (main_arg18 : DevRef τ sig))) r q := by
  rw [eq_v294, kept_arg18]
  generalize after ops V (main_v293 : DevRef τ sig) = X0
  exact dot_entry (M := 100000) (K := 200) (N := 200) _ rfl _ _ r q

/-- `v316` is the matrix product of `v160` and `arg19`, entry by entry. -/
theorem st_v316 (V : Valuation τ sig (Elt Ideal)) (r : Fin 401) (q : Fin 200) :
    after ops V (main_v316 : DevRef τ sig) (ix2 r q)
      = matProd (at2 (n0 := 401) (n1 := 200) (after ops V (main_v160 : DevRef τ sig))) (at2 (n0 := 200) (n1 := 200) (V (main_arg19 : DevRef τ sig))) r q := by
  rw [eq_v316, kept_arg19]
  generalize after ops V (main_v160 : DevRef τ sig) = X0
  exact dot_entry (M := 401) (K := 200) (N := 200) _ rfl _ _ r q

/-- `v4` is `(arg4 + v0) + v1`, entry by entry. -/
theorem st_v4 (V : Valuation τ sig (Elt Ideal)) (r : Fin 100000) (q : Fin 200) :
    after ops V (main_v4 : DevRef τ sig) (ix2 r q)
      = sum3 (at2 (n0 := 100000) (n1 := 200) (V (main_arg4 : DevRef τ sig))) (at2 (n0 := 100000) (n1 := 200) (after ops V (main_v0 : DevRef τ sig))) (at2 (n0 := 100000) (n1 := 200) (after ops V (main_v1 : DevRef τ sig))) r q := by
  rw [eq_v4, eq_v3, kept_arg4]
  generalize after ops V (main_v0 : DevRef τ sig) = X0
  generalize after ops V (main_v1 : DevRef τ sig) = X1
  exact sum3_entry (M := 100000) (N := 200) _ _ _ r q

/-- `v162` is `(v157 + v0) + v1`, entry by entry. -/
theorem st_v162 (V : Valuation τ sig (Elt Ideal)) (r : Fin 100000) (q : Fin 200) :
    after ops V (main_v162 : DevRef τ sig) (ix2 r q)
      = sum3 (at2 (n0 := 100000) (n1 := 200) (after ops V (main_v157 : DevRef τ sig))) (at2 (n0 := 100000) (n1 := 200) (after ops V (main_v0 : DevRef τ sig))) (at2 (n0 := 100000) (n1 := 200) (after ops V (main_v1 : DevRef τ sig))) r q := by
  rw [eq_v162, eq_v161]
  generalize after ops V (main_v157 : DevRef τ sig) = X0
  generalize after ops V (main_v0 : DevRef τ sig) = X1
  generalize after ops V (main_v1 : DevRef τ sig) = X2
  exact sum3_entry (M := 100000) (N := 200) _ _ _ r q

/-- `v146` is the column mean of `v143`: its column sum, from the literal zero, divided by the literal row count. -/
theorem st_v146 (V : Valuation τ sig (Elt Ideal)) (q : Fin 200) :
    after ops V (main_v146 : DevRef τ sig) (ix1 q)
      = meanOf (colSum (at2 (n0 := 100000) (n1 := 200) (after ops V (main_v143 : DevRef τ sig)))) q := by
  rw [eq_v146, eq_v144, eq_v145, eq_cst_35, eq_cst_36]
  generalize after ops V (main_v143 : DevRef τ sig) = X0
  exact mean_entry _ _ _ _ q

/-- `v304` is the column mean of `v301`: its column sum, from the literal zero, divided by the literal row count. -/
theorem st_v304 (V : Valuation τ sig (Elt Ideal)) (q : Fin 200) :
    after ops V (main_v304 : DevRef τ sig) (ix1 q)
      = meanOf (colSum (at2 (n0 := 100000) (n1 := 200) (after ops V (main_v301 : DevRef τ sig)))) q := by
  rw [eq_v304, eq_v302, eq_v303, eq_cst_76, eq_cst_77]
  generalize after ops V (main_v301 : DevRef τ sig) = X0
  exact mean_entry _ _ _ _ q

/-- `v59` is the edge message: `v55` times `arg10`, each row scaled by the one-column buffer `v57`'s entry. -/
theorem st_v59 (V : Valuation τ sig (Elt Ideal)) (e : Fin 200000) (q : Fin 200) :
    after ops V (main_v59 : DevRef τ sig) (ix2 e q)
      = message (at2 (n0 := 200000) (n1 := 200) (after ops V (main_v55 : DevRef τ sig))) (fun e => after ops V (main_v57 : DevRef τ sig) (ix2 e (0 : Fin 1))) (at2 (n0 := 200) (n1 := 200) (V (main_arg10 : DevRef τ sig))) e q := by
  rw [eq_v59, eq_v56, eq_v58, kept_arg10]
  generalize after ops V (main_v55 : DevRef τ sig) = X0
  generalize after ops V (main_v57 : DevRef τ sig) = X1
  exact message_col_entry (E := 200000) (K := 200) (N := 200) _ rfl _ _ _ _ e q

/-- `v59` is the edge message: `v55` times `arg10`, each row scaled by `v40`'s entry. -/
theorem st_v59_vec (V : Valuation τ sig (Elt Ideal)) (e : Fin 200000) (q : Fin 200) :
    after ops V (main_v59 : DevRef τ sig) (ix2 e q)
      = message (at2 (n0 := 200000) (n1 := 200) (after ops V (main_v55 : DevRef τ sig))) (at1 (n := 200000) (after ops V (main_v40 : DevRef τ sig))) (at2 (n0 := 200) (n1 := 200) (V (main_arg10 : DevRef τ sig))) e q := by
  rw [eq_v59, eq_v56, eq_v58, eq_v57, kept_arg10]
  generalize after ops V (main_v55 : DevRef τ sig) = X0
  generalize after ops V (main_v40 : DevRef τ sig) = X1
  exact message_entry (E := 200000) (K := 200) (N := 200) _ rfl _ _ _ _ _ e q

/-- `v122` is the edge message: `v118` times `arg11`, each row scaled by the one-column buffer `v120`'s entry. -/
theorem st_v122 (V : Valuation τ sig (Elt Ideal)) (e : Fin 200000) (q : Fin 200) :
    after ops V (main_v122 : DevRef τ sig) (ix2 e q)
      = message (at2 (n0 := 200000) (n1 := 200) (after ops V (main_v118 : DevRef τ sig))) (fun e => after ops V (main_v120 : DevRef τ sig) (ix2 e (0 : Fin 1))) (at2 (n0 := 200) (n1 := 200) (V (main_arg11 : DevRef τ sig))) e q := by
  rw [eq_v122, eq_v119, eq_v121, kept_arg11]
  generalize after ops V (main_v118 : DevRef τ sig) = X0
  generalize after ops V (main_v120 : DevRef τ sig) = X1
  exact message_col_entry (E := 200000) (K := 200) (N := 200) _ rfl _ _ _ _ e q

/-- `v122` is the edge message: `v118` times `arg11`, each row scaled by `v103`'s entry. -/
theorem st_v122_vec (V : Valuation τ sig (Elt Ideal)) (e : Fin 200000) (q : Fin 200) :
    after ops V (main_v122 : DevRef τ sig) (ix2 e q)
      = message (at2 (n0 := 200000) (n1 := 200) (after ops V (main_v118 : DevRef τ sig))) (at1 (n := 200000) (after ops V (main_v103 : DevRef τ sig))) (at2 (n0 := 200) (n1 := 200) (V (main_arg11 : DevRef τ sig))) e q := by
  rw [eq_v122, eq_v119, eq_v121, eq_v120, kept_arg11]
  generalize after ops V (main_v118 : DevRef τ sig) = X0
  generalize after ops V (main_v103 : DevRef τ sig) = X1
  exact message_entry (E := 200000) (K := 200) (N := 200) _ rfl _ _ _ _ _ e q

/-- `v217` is the edge message: `v213` times `arg16`, each row scaled by the one-column buffer `v215`'s entry. -/
theorem st_v217 (V : Valuation τ sig (Elt Ideal)) (e : Fin 200000) (q : Fin 200) :
    after ops V (main_v217 : DevRef τ sig) (ix2 e q)
      = message (at2 (n0 := 200000) (n1 := 200) (after ops V (main_v213 : DevRef τ sig))) (fun e => after ops V (main_v215 : DevRef τ sig) (ix2 e (0 : Fin 1))) (at2 (n0 := 200) (n1 := 200) (V (main_arg16 : DevRef τ sig))) e q := by
  rw [eq_v217, eq_v214, eq_v216, kept_arg16]
  generalize after ops V (main_v213 : DevRef τ sig) = X0
  generalize after ops V (main_v215 : DevRef τ sig) = X1
  exact message_col_entry (E := 200000) (K := 200) (N := 200) _ rfl _ _ _ _ e q

/-- `v217` is the edge message: `v213` times `arg16`, each row scaled by `v198`'s entry. -/
theorem st_v217_vec (V : Valuation τ sig (Elt Ideal)) (e : Fin 200000) (q : Fin 200) :
    after ops V (main_v217 : DevRef τ sig) (ix2 e q)
      = message (at2 (n0 := 200000) (n1 := 200) (after ops V (main_v213 : DevRef τ sig))) (at1 (n := 200000) (after ops V (main_v198 : DevRef τ sig))) (at2 (n0 := 200) (n1 := 200) (V (main_arg16 : DevRef τ sig))) e q := by
  rw [eq_v217, eq_v214, eq_v216, eq_v215, kept_arg16]
  generalize after ops V (main_v213 : DevRef τ sig) = X0
  generalize after ops V (main_v198 : DevRef τ sig) = X1
  exact message_entry (E := 200000) (K := 200) (N := 200) _ rfl _ _ _ _ _ e q

/-- `v280` is the edge message: `v276` times `arg17`, each row scaled by the one-column buffer `v278`'s entry. -/
theorem st_v280 (V : Valuation τ sig (Elt Ideal)) (e : Fin 200000) (q : Fin 200) :
    after ops V (main_v280 : DevRef τ sig) (ix2 e q)
      = message (at2 (n0 := 200000) (n1 := 200) (after ops V (main_v276 : DevRef τ sig))) (fun e => after ops V (main_v278 : DevRef τ sig) (ix2 e (0 : Fin 1))) (at2 (n0 := 200) (n1 := 200) (V (main_arg17 : DevRef τ sig))) e q := by
  rw [eq_v280, eq_v277, eq_v279, kept_arg17]
  generalize after ops V (main_v276 : DevRef τ sig) = X0
  generalize after ops V (main_v278 : DevRef τ sig) = X1
  exact message_col_entry (E := 200000) (K := 200) (N := 200) _ rfl _ _ _ _ e q

/-- `v280` is the edge message: `v276` times `arg17`, each row scaled by `v261`'s entry. -/
theorem st_v280_vec (V : Valuation τ sig (Elt Ideal)) (e : Fin 200000) (q : Fin 200) :
    after ops V (main_v280 : DevRef τ sig) (ix2 e q)
      = message (at2 (n0 := 200000) (n1 := 200) (after ops V (main_v276 : DevRef τ sig))) (at1 (n := 200000) (after ops V (main_v261 : DevRef τ sig))) (at2 (n0 := 200) (n1 := 200) (V (main_arg17 : DevRef τ sig))) e q := by
  rw [eq_v280, eq_v277, eq_v279, eq_v278, kept_arg17]
  generalize after ops V (main_v276 : DevRef τ sig) = X0
  generalize after ops V (main_v261 : DevRef τ sig) = X1
  exact message_entry (E := 200000) (K := 200) (N := 200) _ rfl _ _ _ _ _ e q

/-- `v157` is the normalised hyperbolic tangent of `v143` with mean `v146` and variance `v147`. -/
theorem st_v157 (V : Valuation τ sig (Elt Ideal)) (r : Fin 100000) (q : Fin 200) :
    after ops V (main_v157 : DevRef τ sig) (ix2 r q)
      = normTanh (at2 (n0 := 100000) (n1 := 200) (after ops V (main_v143 : DevRef τ sig))) (at1 (n := 200) (after ops V (main_v146 : DevRef τ sig))) (at1 (n := 200) (after ops V (main_v147 : DevRef τ sig))) r q := by
  rw [eq_v157, eq_v156, eq_v150, eq_v149, eq_v148, eq_v155, eq_v154, eq_v153, eq_v152, eq_v151, eq_cst_38]
  generalize after ops V (main_v143 : DevRef τ sig) = X0
  generalize after ops V (main_v146 : DevRef τ sig) = X1
  generalize after ops V (main_v147 : DevRef τ sig) = X2
  exact normTanh_entry (M := 100000) (N := 200) _ _ _ _ _ _ r q

/-- `v315` is the normalised hyperbolic tangent of `v301` with mean `v304` and variance `v305`. -/
theorem st_v315 (V : Valuation τ sig (Elt Ideal)) (r : Fin 100000) (q : Fin 200) :
    after ops V (main_v315 : DevRef τ sig) (ix2 r q)
      = normTanh (at2 (n0 := 100000) (n1 := 200) (after ops V (main_v301 : DevRef τ sig))) (at1 (n := 200) (after ops V (main_v304 : DevRef τ sig))) (at1 (n := 200) (after ops V (main_v305 : DevRef τ sig))) r q := by
  rw [eq_v315, eq_v314, eq_v308, eq_v307, eq_v306, eq_v313, eq_v312, eq_v311, eq_v310, eq_v309, eq_cst_79]
  generalize after ops V (main_v301 : DevRef τ sig) = X0
  generalize after ops V (main_v304 : DevRef τ sig) = X1
  generalize after ops V (main_v305 : DevRef τ sig) = X2
  exact normTanh_entry (M := 100000) (N := 200) _ _ _ _ _ _ r q

/-- The self-loop row `v132` — row 400 of the extended table `v2`, flattened — is `arg14`'s one row. -/
theorem rd_v132 (V : Valuation τ sig (Elt Ideal)) (k : Fin 200) :
    after ops V (main_v132 : DevRef τ sig) (ix1 k) = V (main_arg14 : DevRef τ sig) (ix2 (0 : Fin 1) k) := by
  rw [eq_v132, eq_v131, eq_v2, kept_arg9, kept_arg14]

  unfold reshapeFn
  exact loopRow_entry concatenates_S400x200_S1x200_S401x200_d0 slices_S401x200_S1x200_400_0 shapeCasts_S1x200_S200 _ _ k

/-- `v143` is the combined pre-activation of `v4`, the self-loop row `v132`, `arg12`, the scattered sum `v137` and
    the bias `arg15`. -/
theorem st_v143_loop (V : Valuation τ sig (Elt Ideal)) (r : Fin 100000) (q : Fin 200) :
    after ops V (main_v143 : DevRef τ sig) (ix2 r q)
      = combine (at2 (n0 := 100000) (n1 := 200) (after ops V (main_v4 : DevRef τ sig))) (at1 (n := 200) (after ops V (main_v132 : DevRef τ sig))) (at2 (n0 := 200) (n1 := 200) (V (main_arg12 : DevRef τ sig)))
          (at2 (n0 := 100000) (n1 := 200) (after ops V (main_v137 : DevRef τ sig))) (at1 (n := 200) (V (main_arg15 : DevRef τ sig))) r q := by
  rw [eq_v143, eq_v140, eq_v138, eq_v136, eq_v135, eq_v134, eq_v133, eq_v139, eq_cst_34, eq_v142, eq_v141, kept_arg12, kept_arg15]
  generalize after ops V (main_v4 : DevRef τ sig) = X0
  generalize after ops V (main_v132 : DevRef τ sig) = X1
  generalize after ops V (main_v137 : DevRef τ sig) = X2
  exact combine_entry (M := 100000) (K := 200) (N := 200) _ rfl _ _ _ _ _ _ _ _ _ _ r q

/-- The same with the self-loop row read as `arg14`'s row. -/
theorem st_v143 (V : Valuation τ sig (Elt Ideal)) (r : Fin 100000) (q : Fin 200) :
    after ops V (main_v143 : DevRef τ sig) (ix2 r q)
      = combine (at2 (n0 := 100000) (n1 := 200) (after ops V (main_v4 : DevRef τ sig))) (fun k => V (main_arg14 : DevRef τ sig) (ix2 (0 : Fin 1) k)) (at2 (n0 := 200) (n1 := 200) (V (main_arg12 : DevRef τ sig)))
          (at2 (n0 := 100000) (n1 := 200) (after ops V (main_v137 : DevRef τ sig))) (at1 (n := 200) (V (main_arg15 : DevRef τ sig))) r q :=
  (st_v143_loop V r q).trans
    (congrArg (fun l : Fin 200 → EReal => combine (at2 (n0 := 100000) (n1 := 200) (after ops V (main_v4 : DevRef τ sig))) l (at2 (n0 := 200) (n1 := 200) (V (main_arg12 : DevRef τ sig)))
        (at2 (n0 := 100000) (n1 := 200) (after ops V (main_v137 : DevRef τ sig))) (at1 (n := 200) (V (main_arg15 : DevRef τ sig))) r q)
      (funext fun k => rd_v132 V k))

/-- The self-loop row `v290` — row 400 of the extended table `v160`, flattened — is `arg20`'s one row. -/
theorem rd_v290 (V : Valuation τ sig (Elt Ideal)) (k : Fin 200) :
    after ops V (main_v290 : DevRef τ sig) (ix1 k) = V (main_arg20 : DevRef τ sig) (ix2 (0 : Fin 1) k) := by
  rw [eq_v290, eq_v289, eq_v160, kept_arg20]
  generalize after ops V (main_v159 : DevRef τ sig) = X0
  unfold reshapeFn
  exact loopRow_entry concatenates_S400x200_S1x200_S401x200_d0 slices_S401x200_S1x200_400_0 shapeCasts_S1x200_S200 _ _ k

/-- `v301` is the combined pre-activation of `v162`, the self-loop row `v290`, `arg18`, the scattered sum `v295` and
    the bias `arg21`. -/
theorem st_v301_loop (V : Valuation τ sig (Elt Ideal)) (r : Fin 100000) (q : Fin 200) :
    after ops V (main_v301 : DevRef τ sig) (ix2 r q)
      = combine (at2 (n0 := 100000) (n1 := 200) (after ops V (main_v162 : DevRef τ sig))) (at1 (n := 200) (after ops V (main_v290 : DevRef τ sig))) (at2 (n0 := 200) (n1 := 200) (V (main_arg18 : DevRef τ sig)))
          (at2 (n0 := 100000) (n1 := 200) (after ops V (main_v295 : DevRef τ sig))) (at1 (n := 200) (V (main_arg21 : DevRef τ sig))) r q := by
  rw [eq_v301, eq_v298, eq_v296, eq_v294, eq_v293, eq_v292, eq_v291, eq_v297, eq_cst_75, eq_v300, eq_v299, kept_arg18, kept_arg21]
  generalize after ops V (main_v162 : DevRef τ sig) = X0
  generalize after ops V (main_v290 : DevRef τ sig) = X1
  generalize after ops V (main_v295 : DevRef τ sig) = X2
  exact combine_entry (M := 100000) (K := 200) (N := 200) _ rfl _ _ _ _ _ _ _ _ _ _ r q

/-- The same with the self-loop row read as `arg20`'s row. -/
theorem st_v301 (V : Valuation τ sig (Elt Ideal)) (r : Fin 100000) (q : Fin 200) :
    after ops V (main_v301 : DevRef τ sig) (ix2 r q)
      = combine (at2 (n0 := 100000) (n1 := 200) (after ops V (main_v162 : DevRef τ sig))) (fun k => V (main_arg20 : DevRef τ sig) (ix2 (0 : Fin 1) k)) (at2 (n0 := 200) (n1 := 200) (V (main_arg18 : DevRef τ sig)))
          (at2 (n0 := 100000) (n1 := 200) (after ops V (main_v295 : DevRef τ sig))) (at1 (n := 200) (V (main_arg21 : DevRef τ sig))) r q :=
  (st_v301_loop V r q).trans
    (congrArg (fun l : Fin 200 → EReal => combine (at2 (n0 := 100000) (n1 := 200) (after ops V (main_v162 : DevRef τ sig))) l (at2 (n0 := 200) (n1 := 200) (V (main_arg18 : DevRef τ sig)))
        (at2 (n0 := 100000) (n1 := 200) (after ops V (main_v295 : DevRef τ sig))) (at1 (n := 200) (V (main_arg21 : DevRef τ sig))) r q)
      (funext fun k => rd_v290 V k))
/-- The literal row count is positive. -/
theorem rows_pos : (0 : EReal) < rows := by
  show (0 : EReal) < Ideal.ofBits .f32 0x47C35000#32
  rw [Idealize.LibFiniteOps.ofBits_f32_100000]
  exact EReal.coe_pos.mpr (by norm_num)

/-- `v147` is the centred variance of `v143`'s columns: the outlined variance function's operations, its guard "the
    divisor is positive" true. -/
theorem st_v147 (V : Valuation τ sig (Elt Ideal)) (q : Fin 200) :
    after ops V (main_v147 : DevRef τ sig) (ix1 q)
      = varCentred (at2 (n0 := 100000) (n1 := 200) (after ops V (main_v143 : DevRef τ sig))) q := by
  have hdev := eq_call2_v5 V
  rw [eq_call2_v4, eq_call2_v3, eq_call2_v1, eq_call2_v0, eq_call2_cst, eq_call2_v2, eq_call2_cst_0] at hdev
  rw [eq_v147, eq_call2_v12, eq_call2_v11, eq_call2_v9, eq_call2_v6, eq_call2_v10, eq_call2_v8, eq_call2_v7, eq_c_37, eq_call2_cst_1, eq_call2_cst_2,
    eq_call2_cst_3]
  generalize after ops V (main_call2_v5 : DevRef τ sig) = dev at hdev ⊢
  generalize after ops V (main_v143 : DevRef τ sig) = X at hdev ⊢
  generalize after ops V (main_call2_call0_v1 : DevRef τ sig) = nan
  exact var_entry rows_pos _ _ _ _ _ _ X dev hdev nan q

/-- `v305` is the centred variance of `v301`'s columns: the outlined variance function's operations, its guard "the
    divisor is positive" true. -/
theorem st_v305 (V : Valuation τ sig (Elt Ideal)) (q : Fin 200) :
    after ops V (main_v305 : DevRef τ sig) (ix1 q)
      = varCentred (at2 (n0 := 100000) (n1 := 200) (after ops V (main_v301 : DevRef τ sig))) q := by
  have hdev := eq_call5_v5 V
  rw [eq_call5_v4, eq_call5_v3, eq_call5_v1, eq_call5_v0, eq_call5_cst, eq_call5_v2, eq_call5_cst_0] at hdev
  rw [eq_v305, eq_call5_v12, eq_call5_v11, eq_call5_v9, eq_call5_v6, eq_call5_v10, eq_call5_v8, eq_call5_v7, eq_c_78, eq_call5_cst_1, eq_call5_cst_2,
    eq_call5_cst_3]
  generalize after ops V (main_call5_v5 : DevRef τ sig) = dev at hdev ⊢
  generalize after ops V (main_v301 : DevRef τ sig) = X at hdev ⊢
  generalize after ops V (main_call5_call0_v1 : DevRef τ sig) = nan
  exact var_entry rows_pos _ _ _ _ _ _ X dev hdev nan q

end Cert.ReferenceIdeal.HandRun

end
-- ==== Proof.SeedsA.lean ====
/-
  The dense results of the first layer that involve no batch statistics agree: the two modality projections, the
  fused node features, the two directions' edge messages and the projected relation table.  On each side the result
  is the same specified function (matrix product, sum of three, edge message) of final contents that are equal —
  arguments, earlier dense results, or results of the irregular steps.
-/
import proofs.«103573_j30391188587216_1_alg».proof.Proof.GlueBridge
import proofs.«103573_j30391188587216_1_alg».proof.Proof.KernelEqsSpecMatmul
import proofs.«103573_j30391188587216_1_alg».proof.Proof.KernelEqsSpecFuse
import proofs.«103573_j30391188587216_1_alg».proof.Proof.KernelEqsSpecMessage
import proofs.«103573_j30391188587216_1_alg».proof.Proof.RefStages

set_option maxRecDepth 16384

noncomputable section

namespace Cert.Bridge

open Idealize.ShloMosaic Idealize.ShloMosaic.TcCoe Idealize.SL.Sem Idealize.ShloMosaic.StableHlo Idealize.ShloMosaic.ValueIdx
open Cert.GraphConv

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

local notation "𝐊" => Cert.KernelIdeal.HandRun.K m ρ c
local notation "𝐀" b => after (Cert.ReferenceIdeal.HandRun.ops (F := Ideal)) (launchContents m' c) (b : DevRef Cert.ReferenceIdeal.τ Cert.ReferenceIdeal.sig)

/-- The first modality projection: both sides are the matrix product of the same two argument arrays. -/
theorem seed_v0 : 𝐊 Cert.KernelIdeal.main_v0 = 𝐀 Cert.ReferenceIdeal.main_v0 := by
  refine ext2 (n0 := 100000) (n1 := 200) fun r q => ?_
  rw [Cert.KernelIdeal.HandRun.spec_v0 m ρ c r q, Cert.ReferenceIdeal.HandRun.st_v0 (launchContents m' c) r q,
    bk_arg5 m ρ m' hagree c, bk_arg6 m ρ m' hagree c,
    Cert.ReferenceIdeal.HandRun.kept_arg5 (launchContents m' c), Cert.ReferenceIdeal.HandRun.kept_arg6 (launchContents m' c)]

/-- The second modality projection. -/
theorem seed_v1 : 𝐊 Cert.KernelIdeal.main_v1 = 𝐀 Cert.ReferenceIdeal.main_v1 := by
  refine ext2 (n0 := 100000) (n1 := 200) fun r q => ?_
  rw [Cert.KernelIdeal.HandRun.spec_v1 m ρ c r q, Cert.ReferenceIdeal.HandRun.st_v1 (launchContents m' c) r q,
    bk_arg7 m ρ m' hagree c, bk_arg8 m ρ m' hagree c,
    Cert.ReferenceIdeal.HandRun.kept_arg7 (launchContents m' c), Cert.ReferenceIdeal.HandRun.kept_arg8 (launchContents m' c)]

/-- The fused node features: the sum of the same three arrays. -/
theorem seed_v3 : 𝐊 Cert.KernelIdeal.main_v3 = 𝐀 Cert.ReferenceIdeal.main_v4 := by
  refine ext2 (n0 := 100000) (n1 := 200) fun r q => ?_
  rw [Cert.KernelIdeal.HandRun.spec_v3 m ρ c r q, Cert.ReferenceIdeal.HandRun.st_v4 (launchContents m' c) r q,
    bk_arg4 m ρ m' hagree c, seed_v0 m ρ m' hagree c, seed_v1 m ρ m' hagree c,
    Cert.ReferenceIdeal.HandRun.kept_arg4 (launchContents m' c)]

/-- The incoming edge messages: the same projected difference scaled by the same normaliser. -/
theorem seed_v56 : 𝐊 Cert.KernelIdeal.main_v56 = 𝐀 Cert.ReferenceIdeal.main_v59 := by
  refine ext2 (n0 := 200000) (n1 := 200) fun e q => ?_
  rw [Cert.KernelIdeal.HandRun.spec_v56 m ρ c e q, Cert.ReferenceIdeal.HandRun.st_v59 (launchContents m' c) e q,
    (br_v54 m ρ m' hagree c (seed_v3 m ρ m' hagree c)), (br_v55 m ρ m' hagree c), bk_arg10 m ρ m' hagree c, Cert.ReferenceIdeal.HandRun.kept_arg10 (launchContents m' c)]

/-- The outgoing edge messages. -/
theorem seed_v117 : 𝐊 Cert.KernelIdeal.main_v117 = 𝐀 Cert.ReferenceIdeal.main_v122 := by
  refine ext2 (n0 := 200000) (n1 := 200) fun e q => ?_
  rw [Cert.KernelIdeal.HandRun.spec_v117 m ρ c e q, Cert.ReferenceIdeal.HandRun.st_v122 (launchContents m' c) e q,
    (br_v115 m ρ m' hagree c (seed_v3 m ρ m' hagree c)), (br_v116 m ρ m' hagree c), bk_arg11 m ρ m' hagree c, Cert.ReferenceIdeal.HandRun.kept_arg11 (launchContents m' c)]

/-- The projected relation table: the same matrix product. -/
theorem seed_v136  : 𝐊 Cert.KernelIdeal.main_v136 = 𝐀 Cert.ReferenceIdeal.main_v158 := by
  refine ext2 (n0 := 401) (n1 := 200) fun r q => ?_
  rw [Cert.KernelIdeal.HandRun.spec_v136 m ρ c r q, Cert.ReferenceIdeal.HandRun.st_v158 (launchContents m' c) r q, (br_v2 m ρ m' hagree c), bk_arg13 m ρ m' hagree c, Cert.ReferenceIdeal.HandRun.kept_arg13 (launchContents m' c)]

end Cert.Bridge

end
-- ==== Proof.CombinePoint.lean ====
/-
  A block of the combined pre-activation, its column sums and the column sums of its squares, entry by entry.

  The two combine-and-accumulate kernels compute, at every grid point, the block `(s + (h − ℓ) W) · c + b` of 2000
  rows from the row blocks `h` and `s`, the one-row arrays `ℓ` and `b` laid along every row, and the whole matrix
  `W`, with `c` the single-precision word of one third.  The product is accumulated into zero, so at the entry
  `(p, q)` it is the sum over the contracted coordinate `k` of `(h p k − ℓ k) · W k q`; a change of float format is
  the identity on the extended reals.  The kernel then adds to a running one-row array the sums over the block's rows
  of its columns, and to another the sums over the rows of the squares: at column `q` these are the sums over the row
  coordinate `p` of the block's entries `(p, q)`, and of their squares.
-/
import proofs.«103573_j30391188587216_1_alg».proof.Proof.Gen.KernelIdeal.Skeleton
import Idealize.ShloMosaic.PureOps.Ideal.Laws
import Idealize.ShloMosaic.Lib.ValueLayout

noncomputable section

open scoped BigOperators

namespace Cert.KernelIdeal.CombinePoint

open Cert.KernelIdeal Cert.KernelIdeal.Gen
open Idealize.ShloMosaic Idealize.ShloMosaic.ValueIdx

/-- A matrix product accumulated into zero, at the entry `(a, b)`: the sum over the contracted coordinate. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B (constant ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum over the rows of an `m × n` block, at column `q`: the sum over the row coordinate. -/
theorem rowsum_ix1 {m n : Nat} (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ) (q : Fin n) :
    multiReduction .add [0] ⟨1, ![n]⟩ src 0x00000000#32 h hφ hacc (ix1 q) = ∑ p : Fin m, src (ix2 p q) := by
  refine (Ideal.multiReduction_add_single src _ h hφ hacc (ix1 q)).trans ?_
  show ∑ p : Fin m, src (h.lift (ix1 q) p) = _
  refine Finset.sum_congr rfl fun p _ => congrArg src ?_
  funext a; apply Fin.ext
  match a with
  | ⟨0, _⟩ => rfl
  | ⟨1, _⟩ => rfl

/-- The kernels' matrix product, at the entry `(p, q)`. -/
theorem matmul_block_apply (A : FVec Ideal S2000x200 .bf16) (B : FVec Ideal S200x200 .bf16) (p : Fin 2000) (q : Fin 200) :
    matmul dot_S2000x200_S200x200_S2000x200_1_0_0_1_n_n none A B (constant S2000x200 .f32 0x00000000#32) (ix2 p q)
      = ∑ k : Fin 200, A (ix2 p k) * B (ix2 k q) :=
  matmul_zero_ix2 dot_S2000x200_S200x200_S2000x200_1_0_0_1_n_n_wf none A B p q

/-- The block `(s + (h − ℓ) W) · c + b` at the entry `(p, q)`, from the block `x0` of `h`, the row `x1` = `ℓ`, the matrix
    `x2` = `W`, the block `x3` of `s` and the row `x4` = `b`. -/
def blockOut (x0 : Vec Ideal S2000x200 .f32) (x1 : Vec Ideal S1x200 .f32) (x2 : Vec Ideal S200x200 .f32)
    (x3 : Vec Ideal S2000x200 .f32) (x4 : Vec Ideal S1x200 .f32) (p : Fin 2000) (q : Fin 200) : EReal :=
  (x3 (ix2 p q) + ∑ k : Fin 200, (x0 (ix2 p k) - x1 (ix2 (0 : Fin 1) k)) * x2 (ix2 k q)) * Ideal.ofBits .f32 0x3EAAAAAB#32
    + x4 (ix2 (0 : Fin 1) q)

/-! ## The first layer's kernel -/

/-- What the body stores in the result block is the combined block. -/
theorem pay4_apply (x0 : Vec Ideal S2000x200 .f32) (x1 : Vec Ideal S1x200 .f32) (x2 : Vec Ideal S200x200 .f32)
    (x3 : Vec Ideal S2000x200 .f32) (x4 : Vec Ideal S1x200 .f32) (p : Fin 2000) (q : Fin 200) :
    k5_pay4 (F := Ideal) x0 x1 x2 x3 x4 (ix2 p q) = blockOut x0 x1 x2 x3 x4 p q := by
  unfold k5_pay4 blockOut
  simp only [shapeCast_self, addf_apply, mulf_apply, broadcast_apply]
  rw [matmul_block_apply, broadcastTo_1b_ab_apply x4 _ p q]
  simp only [truncf_apply, subf_apply, broadcastTo_1b_ab_apply, Ideal.ofBits_def]

/-- What the body stores in the running column sums: what was there plus the block's column sums. -/
theorem pay5_apply (x0 : Vec Ideal S2000x200 .f32) (x1 : Vec Ideal S1x200 .f32) (x2 : Vec Ideal S200x200 .f32)
    (x3 : Vec Ideal S2000x200 .f32) (x4 : Vec Ideal S1x200 .f32) (xo : Vec Ideal S1x200 .f32) (u : Fin 1) (q : Fin 200) :
    k5_pay5 (F := Ideal) x0 x1 x2 x3 x4 xo (ix2 u q) = xo (ix2 u q) + ∑ p : Fin 2000, blockOut x0 x1 x2 x3 x4 p q := by
  unfold k5_pay5
  simp only [shapeCast_self, addf_apply]
  refine congrArg (xo (ix2 u q) + ·) ?_
  refine (shapeCast_a_1a_apply _ _ u q).trans ?_
  refine (rowsum_ix1 (k5_pay4 (F := Ideal) x0 x1 x2 x3 x4) _ (.inl rfl) rfl q).trans ?_
  exact Finset.sum_congr rfl fun p _ => pay4_apply x0 x1 x2 x3 x4 p q

/-- What the body stores in the running column sums of squares: what was there plus the block's. -/
theorem pay17_apply (x0 : Vec Ideal S2000x200 .f32) (x1 : Vec Ideal S1x200 .f32) (x2 : Vec Ideal S200x200 .f32)
    (x3 : Vec Ideal S2000x200 .f32) (x4 : Vec Ideal S1x200 .f32) (xo : Vec Ideal S1x200 .f32) (u : Fin 1) (q : Fin 200) :
    k5_pay1 (F := Ideal) (k5_pay6 xo) (k5_pay7 x0 x1 x2 x3 x4) (ix2 u q)
      = xo (ix2 u q) + ∑ p : Fin 2000, blockOut x0 x1 x2 x3 x4 p q * blockOut x0 x1 x2 x3 x4 p q := by
  unfold k5_pay1 k5_pay6 k5_pay7
  simp only [shapeCast_self, addf_apply]
  refine congrArg (xo (ix2 u q) + ·) ?_
  refine (shapeCast_a_1a_apply _ _ u q).trans ?_
  refine (rowsum_ix1 (mulf (k5_pay4 (F := Ideal) x0 x1 x2 x3 x4) (k5_pay4 (F := Ideal) x0 x1 x2 x3 x4)) _ (.inl rfl) rfl q).trans ?_
  refine Finset.sum_congr rfl fun p _ => ?_
  rw [mulf_apply, pay4_apply]

/-- The two running arrays are reset to zero at the first point. -/
theorem pay2_apply (u : Fin 1) (q : Fin 200) : k5_pay2 (F := Ideal) (ix2 u q) = 0 := by
  unfold k5_pay2
  simp only [broadcast_apply, Ideal.ofBits_def]
  exact Ideal.ofBits_zero_f32
theorem pay3_apply (u : Fin 1) (q : Fin 200) : k5_pay3 (F := Ideal) (ix2 u q) = 0 := by
  unfold k5_pay3
  simp only [broadcast_apply, Ideal.ofBits_def]
  exact Ideal.ofBits_zero_f32

/-! ## The second layer's kernel: the same arithmetic -/

theorem pay4_apply' (x0 : Vec Ideal S2000x200 .f32) (x1 : Vec Ideal S1x200 .f32) (x2 : Vec Ideal S200x200 .f32)
    (x3 : Vec Ideal S2000x200 .f32) (x4 : Vec Ideal S1x200 .f32) (p : Fin 2000) (q : Fin 200) :
    k11_pay4 (F := Ideal) x0 x1 x2 x3 x4 (ix2 p q) = blockOut x0 x1 x2 x3 x4 p q :=
  pay4_apply x0 x1 x2 x3 x4 p q

theorem pay5_apply' (x0 : Vec Ideal S2000x200 .f32) (x1 : Vec Ideal S1x200 .f32) (x2 : Vec Ideal S200x200 .f32)
    (x3 : Vec Ideal S2000x200 .f32) (x4 : Vec Ideal S1x200 .f32) (xo : Vec Ideal S1x200 .f32) (u : Fin 1) (q : Fin 200) :
    k11_pay5 (F := Ideal) x0 x1 x2 x3 x4 xo (ix2 u q) = xo (ix2 u q) + ∑ p : Fin 2000, blockOut x0 x1 x2 x3 x4 p q :=
  pay5_apply x0 x1 x2 x3 x4 xo u q

theorem pay17_apply' (x0 : Vec Ideal S2000x200 .f32) (x1 : Vec Ideal S1x200 .f32) (x2 : Vec Ideal S200x200 .f32)
    (x3 : Vec Ideal S2000x200 .f32) (x4 : Vec Ideal S1x200 .f32) (xo : Vec Ideal S1x200 .f32) (u : Fin 1) (q : Fin 200) :
    k11_pay1 (F := Ideal) (k11_pay6 xo) (k11_pay7 x0 x1 x2 x3 x4) (ix2 u q)
      = xo (ix2 u q) + ∑ p : Fin 2000, blockOut x0 x1 x2 x3 x4 p q * blockOut x0 x1 x2 x3 x4 p q :=
  pay17_apply x0 x1 x2 x3 x4 xo u q

theorem pay2_apply' (u : Fin 1) (q : Fin 200) : k11_pay2 (F := Ideal) (ix2 u q) = 0 := pay2_apply u q
theorem pay3_apply' (u : Fin 1) (q : Fin 200) : k11_pay3 (F := Ideal) (ix2 u q) = 0 := pay3_apply u q

end Cert.KernelIdeal.CombinePoint

end
-- ==== Proof.CombineSum.lean ====
/-
  Regrouping a sum over the rows of an array cut into equal row blocks.

  An array of `n * m` rows is cut into `n` blocks of `m` consecutive rows; row `j` of block `t` is row `t * m + j`
  of the array.  A sum over all rows is the sum, over the blocks, of the sums over each block's rows: addition in a
  commutative monoid needs nothing else, so on the extended reals no finiteness is asked.  The running form — the sum
  over the first `k + 1` blocks is the sum over the first `k` blocks plus block `k` — is what an accumulator that adds
  one block's sum per step computes.
-/
import Mathlib.Algebra.BigOperators.Fin
import Mathlib.Algebra.BigOperators.Intervals
import Mathlib.Logic.Equiv.Fin.Basic

open scoped BigOperators

namespace Cert.KernelIdeal.CombineSum

variable {M : Type*} [AddCommMonoid M]

/-- Row `j` of block `t` is a row of the array. -/
theorem row_lt {n m N : Nat} (h : n * m = N) (t : Fin n) (j : Fin m) : t.val * m + j.val < N := by
  have ht := t.isLt
  have hj := j.isLt
  calc t.val * m + j.val < t.val * m + m := by omega
    _ = (t.val + 1) * m := by rw [Nat.add_mul, Nat.one_mul]
    _ ≤ n * m := Nat.mul_le_mul_right m ht
    _ = N := h

/-- The sum over all `n * m` rows is the sum over the `n` blocks of the sums over each block's `m` rows. -/
theorem sum_rows_eq_sum_blocks {n m N : Nat} (h : n * m = N) (f : Fin N → M) :
    ∑ r : Fin N, f r = ∑ t : Fin n, ∑ j : Fin m, f ⟨t.val * m + j.val, row_lt h t j⟩ := by
  subst h
  rw [← Equiv.sum_comp finProdFinEquiv f, Fintype.sum_prod_type]
  refine Finset.sum_congr rfl fun t _ => Finset.sum_congr rfl fun j _ => ?_
  refine congrArg f (Fin.ext ?_)
  show j.val + m * t.val = t.val * m + j.val
  rw [Nat.mul_comm, Nat.add_comm]

/-- The sum of the first `k + 1` terms of a sequence, as an accumulator builds it: the first `k` terms, then term `k`. -/
theorem sum_range_step (B : Nat → M) (k : Nat) :
    ∑ t ∈ Finset.range (k + 1 + 1), B t = ∑ t ∈ Finset.range (k + 1), B t + B (k + 1) :=
  Finset.sum_range_succ B (k + 1)

/-- The first term alone. -/
theorem sum_range_one' (B : Nat → M) : ∑ t ∈ Finset.range (0 + 1), B t = B 0 := by
  rw [Nat.zero_add, Finset.sum_range_one]

end Cert.KernelIdeal.CombineSum
-- ==== Proof.CombineValue.lean ====
/-
  The combined pre-activation and its two column moments, as arrays after the combine-and-accumulate region.

  The region's grid has fifty points.  Point `t` loads rows `2000 t … 2000 t + 1999` of the node features `h` and of the
  scattered messages `s`, and the whole of the self-loop relation `ℓ`, the weight matrix `W` and the bias `b`; it
  writes the same rows of the result `(s + (h − ℓ) W) · (1/3) + b`, and adds the column sums of that block, and the
  column sums of its squares, to two one-row arrays that stay in place from point to point and are set to zero at the
  first point.  The fifty row blocks tile the 100000 rows, so after the region the result array is the combined
  array, and after the last point the two one-row arrays hold the sums over the fifty blocks of the blocks' column
  sums — which, regrouped over all 100000 rows, are the column sums and the column sums of squares of the combined
  array.  Sums on the extended reals commute and associate, so the regrouping asks nothing of the entries.
-/
import proofs.«103573_j30391188587216_1_alg».proof.Proof.FrameKernelIdeal
import proofs.«103573_j30391188587216_1_alg».proof.Proof.CombinePoint
import proofs.«103573_j30391188587216_1_alg».proof.Proof.CombineSum
import proofs.«103573_j30391188587216_1_alg».proof.Proof.Spec
import Idealize.ShloMosaic.Lib.Pipeline.Value
import Idealize.ShloMosaic.Lib.Tactic

set_option maxRecDepth 16384

noncomputable section

open scoped BigOperators

namespace Cert.KernelIdeal.CombineValue

open Cert.KernelIdeal Cert.KernelIdeal.Gen Cert.KernelIdeal.GenP Cert.KernelIdeal.CombinePoint
open Idealize.ShloMosaic Idealize.ShloMosaic.TcCoe Idealize.ShloMosaic.ValueIdx Idealize.SL.Sem
open Idealize.ShloMosaic.Pipeline (Dat Cfg Window)
open Cert.GraphConv (at2)

/-- The origin of a two-axis block. -/
theorem origin2 : (![0, 0] : Fin 2 → Nat) = fun _ => 0 := funext fun a => by fin_cases a <;> rfl

/-! ## What each case of the body leaves in the three result blocks -/

section Pieces
variable {F : FTy → Type} [FloatOps F]

/-- At a later point the result block is the combined block of the loaded blocks. -/
theorem out_B_5 (c : Dev nD) (i : grid5.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : ¬cond5_0 i)
    (x0 : Vec F S2000x200 .f32) (x1 : Vec F S1x200 .f32) (x2 : Vec F S200x200 .f32) (x3 : Vec F S2000x200 .f32) (x4 : Vec F S1x200 .f32) (xo6 xo7 : Vec F S1x200 .f32) :
    out5_B_5 c i a1 h1 a2 h2 a3 h3 a4 h4 a5 h5 a6 h6 a7 h7 a8 h8 hc x0 x1 x2 x3 x4 xo6 xo7 = k5_pay4 x0 x1 x2 x3 x4 := by
  unfold out5_B_5
  rw [View.read_writes_junk_eq_canon]
  unfold kernelRun5_B
  dsimp only
  rw [View.canon_unit_zero origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At a later point the running column sums are what was there plus the block's. -/
theorem out_B_6 (c : Dev nD) (i : grid5.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : ¬cond5_0 i)
    (x0 : Vec F S2000x200 .f32) (x1 : Vec F S1x200 .f32) (x2 : Vec F S200x200 .f32) (x3 : Vec F S2000x200 .f32) (x4 : Vec F S1x200 .f32) (xo6 xo7 : Vec F S1x200 .f32) :
    out5_B_6 c i a1 h1 a2 h2 a3 h3 a4 h4 a5 h5 a6 h6 a7 h7 a8 h8 hc x0 x1 x2 x3 x4 xo6 xo7 = k5_pay5 x0 x1 x2 x3 x4 xo6 := by
  unfold out5_B_6
  rw [View.read_writes_junk_eq_canon]
  unfold kernelRun5_B
  dsimp only
  rw [View.canon_unit_zero origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At a later point the running column sums of squares are what was there plus the block's. -/
theorem out_B_7 (c : Dev nD) (i : grid5.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : ¬cond5_0 i)
    (x0 : Vec F S2000x200 .f32) (x1 : Vec F S1x200 .f32) (x2 : Vec F S200x200 .f32) (x3 : Vec F S2000x200 .f32) (x4 : Vec F S1x200 .f32) (xo6 xo7 : Vec F S1x200 .f32) :
    out5_B_7 c i a1 h1 a2 h2 a3 h3 a4 h4 a5 h5 a6 h6 a7 h7 a8 h8 hc x0 x1 x2 x3 x4 xo6 xo7 = k5_pay1 (k5_pay6 xo7) (k5_pay7 x0 x1 x2 x3 x4) := by
  unfold out5_B_7
  rw [View.read_writes_junk_eq_canon]
  unfold kernelRun5_B
  dsimp only
  sl_unfold_words
  rw [View.canon_unit_zero origin2]
  first | simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2] | skip

/-- At the first point the result block is the combined block of the loaded blocks. -/
theorem out_A_5 (c : Dev nD) (i : grid5.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : cond5_0 i)
    (x0 : Vec F S2000x200 .f32) (x1 : Vec F S1x200 .f32) (x2 : Vec F S200x200 .f32) (x3 : Vec F S2000x200 .f32) (x4 : Vec F S1x200 .f32) :
    out5_A_5 c i a1 h1 a2 h2 a3 h3 a4 h4 a5 h5 a6 h6 a7 h7 a8 h8 hc x0 x1 x2 x3 x4 = k5_pay4 x0 x1 x2 x3 x4 := by
  unfold out5_A_5
  rw [View.read_writes_junk_eq_canon]
  unfold kernelRun5_A
  dsimp only
  sl_unfold_words
  rw [View.canon_unit_zero origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At the first point the running column sums are zero plus the block's: the zero block is stored, read back and
    added to. -/
theorem out_A_6 (c : Dev nD) (i : grid5.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : cond5_0 i)
    (x0 : Vec F S2000x200 .f32) (x1 : Vec F S1x200 .f32) (x2 : Vec F S200x200 .f32) (x3 : Vec F S2000x200 .f32) (x4 : Vec F S1x200 .f32) :
    out5_A_6 c i a1 h1 a2 h2 a3 h3 a4 h4 a5 h5 a6 h6 a7 h7 a8 h8 hc x0 x1 x2 x3 x4 = k5_pay5 x0 x1 x2 x3 x4 (k5_pay2 (F := F)) := by
  unfold out5_A_6
  rw [View.read_writes_junk_eq_canon]
  unfold kernelRun5_A
  dsimp only
  sl_unfold_words
  rw [View.canon_cons_unit_zero (S := S1x200) origin2, View.readCov_unit_zero (S := S1x200) _ origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At the first point the running column sums of squares are zero plus the block's. -/
theorem out_A_7 (c : Dev nD) (i : grid5.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : cond5_0 i)
    (x0 : Vec F S2000x200 .f32) (x1 : Vec F S1x200 .f32) (x2 : Vec F S200x200 .f32) (x3 : Vec F S2000x200 .f32) (x4 : Vec F S1x200 .f32) :
    out5_A_7 c i a1 h1 a2 h2 a3 h3 a4 h4 a5 h5 a6 h6 a7 h7 a8 h8 hc x0 x1 x2 x3 x4 = k5_pay1 (k5_pay6 (k5_pay3 (F := F))) (k5_pay7 x0 x1 x2 x3 x4) := by
  unfold out5_A_7
  rw [View.read_writes_junk_eq_canon]
  unfold kernelRun5_A
  dsimp only
  sl_unfold_words
  rw [View.canon_cons_unit_zero (S := S1x200) origin2, View.readCov_unit_zero (S := S1x200) _ origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

end Pieces

/-! ## The three result blocks after each point, by the point's case -/

variable (V : (c : Dev nD) → (b : Ref sig .tc) → Buf (Elt Ideal) ((c : Thread nD τ).loc b))

/-- After the first point: the combined block of the point's blocks, and its two column moments added to zero. -/
theorem outs_first (c : Dev nD) (t : Fin cfg5.N) (h0 : t.val % 50 = 0) :
    outsAt5 V c t.val t.isLt
      = (k5_pay4 (iblk5 V c 0 t) (iblk5 V c 1 t) (iblk5 V c 2 t) (iblk5 V c 3 t) (iblk5 V c 4 t), k5_pay5 (iblk5 V c 0 t) (iblk5 V c 1 t) (iblk5 V c 2 t) (iblk5 V c 3 t) (iblk5 V c 4 t) (k5_pay2 (F := Ideal)),
          k5_pay1 (k5_pay6 (k5_pay3 (F := Ideal))) (k5_pay7 (iblk5 V c 0 t) (iblk5 V c 1 t) (iblk5 V c 2 t) (iblk5 V c 3 t) (iblk5 V c 4 t))) := by
  rw [outsAt5_A V c t h0]
  exact congrArg₂ Prod.mk (out_A_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t))
    (congrArg₂ Prod.mk (out_A_6 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t))
      (out_A_7 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t)))

/-- After a later point: the combined block of the point's blocks, and its two column moments added to what the
    point before left. -/
theorem outs_later (c : Dev nD) (t : Fin cfg5.N) (h0 : ¬t.val % 50 = 0) :
    outsAt5 V c t.val t.isLt
      = (k5_pay4 (iblk5 V c 0 t) (iblk5 V c 1 t) (iblk5 V c 2 t) (iblk5 V c 3 t) (iblk5 V c 4 t), k5_pay5 (iblk5 V c 0 t) (iblk5 V c 1 t) (iblk5 V c 2 t) (iblk5 V c 3 t) (iblk5 V c 4 t) (outsAt5 V c (t.val - 1) (Nat.lt_of_le_of_lt (Nat.sub_le _ _) t.isLt)).2.1,
          k5_pay1 (k5_pay6 (outsAt5 V c (t.val - 1) (Nat.lt_of_le_of_lt (Nat.sub_le _ _) t.isLt)).2.2) (k5_pay7 (iblk5 V c 0 t) (iblk5 V c 1 t) (iblk5 V c 2 t) (iblk5 V c 3 t) (iblk5 V c 4 t))) := by
  rw [outsAt5_B V c t h0]
  exact congrArg₂ Prod.mk (out_B_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.1 (outsAt5 V c (t.val - 1) (Nat.lt_of_le_of_lt (Nat.sub_le _ _) t.isLt)).2.2)
    (congrArg₂ Prod.mk (out_B_6 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.1 (outsAt5 V c (t.val - 1) (Nat.lt_of_le_of_lt (Nat.sub_le _ _) t.isLt)).2.2)
      (out_B_7 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.1 (outsAt5 V c (t.val - 1) (Nat.lt_of_le_of_lt (Nat.sub_le _ _) t.isLt)).2.2))

/-! ## The blocks the windows read -/

/-- The block index of every window at a point: row block `t` for the three row-blocked arrays, the one block for the
    arrays loaded whole and for the two one-row results. -/
theorem block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Row `p` of block `t` is a row of the array. -/
theorem row_lt (t : Fin cfg5.N) (p : Fin 2000) : t.val * 2000 + p.val < 100000 := by
  have hN : t.val < 50 := lt_of_lt_of_eq t.isLt (show cfg5.N = 50 from N_5)
  have hp := p.isLt
  omega

/-- Row `p` of block `t`, as a row of the array. -/
abbrev rowOf (t : Fin cfg5.N) (p : Fin 2000) : Fin 100000 := ⟨t.val * 2000 + p.val, row_lt t p⟩

/-- The node-feature block at a point is rows `2000 t …` of the node features. -/
theorem read_h (c : Dev nD) (t : Fin cfg5.N) (p : Fin 2000) (k : Fin 200) :
    (iblk5 V c 0 t : Vec Ideal S2000x200 .f32) (ix2 p k) = V c main_v3 (ix2 (rowOf t p) k) := by
  obtain ⟨e00, e01, e10, e11, e20, e21, e30, e31, e40, e41, -⟩ := block_index t
  unfold iblk5
  show V c main_v3 (((cfg5.win 0).blk t).view.emb (ix2 p k)) = _
  refine congrArg (V c main_v3) (funext fun a => Fin.ext ?_)
  match a with
  | ⟨0, _⟩ => show win5_0.index t (0 : Fin 2) * 2000 + 1 * p.val = _; rw [e00]; show t.val * 2000 + 1 * p.val = t.val * 2000 + p.val; omega
  | ⟨1, _⟩ => show win5_0.index t (1 : Fin 2) * 200 + 1 * k.val = _; rw [e01]; show 0 * 200 + 1 * k.val = k.val; omega

/-- The self-loop relation is loaded whole. -/
theorem read_l (c : Dev nD) (t : Fin cfg5.N) (k : Fin 200) :
    (iblk5 V c 1 t : Vec Ideal S1x200 .f32) (ix2 (0 : Fin 1) k) = V c main_arg14 (ix2 (0 : Fin 1) k) := by
  obtain ⟨e00, e01, e10, e11, e20, e21, e30, e31, e40, e41, -⟩ := block_index t
  unfold iblk5
  show V c main_arg14 (((cfg5.win 1).blk t).view.emb (ix2 (0 : Fin 1) k)) = _
  refine congrArg (V c main_arg14) (funext fun a => Fin.ext ?_)
  match a with
  | ⟨0, _⟩ => show win5_1.index t (0 : Fin 2) * 1 + 1 * 0 = _; rw [e10]; rfl
  | ⟨1, _⟩ => show win5_1.index t (1 : Fin 2) * 200 + 1 * k.val = _; rw [e11]; show 0 * 200 + 1 * k.val = k.val; omega

/-- The weight matrix is loaded whole. -/
theorem read_w (c : Dev nD) (t : Fin cfg5.N) (k q : Fin 200) :
    (iblk5 V c 2 t : Vec Ideal S200x200 .f32) (ix2 k q) = V c main_arg12 (ix2 k q) := by
  obtain ⟨e00, e01, e10, e11, e20, e21, e30, e31, e40, e41, -⟩ := block_index t
  unfold iblk5
  show V c main_arg12 (((cfg5.win 2).blk t).view.emb (ix2 k q)) = _
  refine congrArg (V c main_arg12) (funext fun a => Fin.ext ?_)
  match a with
  | ⟨0, _⟩ => show win5_2.index t (0 : Fin 2) * 200 + 1 * k.val = _; rw [e20]; show 0 * 200 + 1 * k.val = k.val; omega
  | ⟨1, _⟩ => show win5_2.index t (1 : Fin 2) * 200 + 1 * q.val = _; rw [e21]; show 0 * 200 + 1 * q.val = q.val; omega

/-- The message block at a point is rows `2000 t …` of the scattered messages. -/
theorem read_s (c : Dev nD) (t : Fin cfg5.N) (p : Fin 2000) (q : Fin 200) :
    (iblk5 V c 3 t : Vec Ideal S2000x200 .f32) (ix2 p q) = V c main_v126 (ix2 (rowOf t p) q) := by
  obtain ⟨e00, e01, e10, e11, e20, e21, e30, e31, e40, e41, -⟩ := block_index t
  unfold iblk5
  show V c main_v126 (((cfg5.win 3).blk t).view.emb (ix2 p q)) = _
  refine congrArg (V c main_v126) (funext fun a => Fin.ext ?_)
  match a with
  | ⟨0, _⟩ => show win5_3.index t (0 : Fin 2) * 2000 + 1 * p.val = _; rw [e30]; show t.val * 2000 + 1 * p.val = t.val * 2000 + p.val; omega
  | ⟨1, _⟩ => show win5_3.index t (1 : Fin 2) * 200 + 1 * q.val = _; rw [e31]; show 0 * 200 + 1 * q.val = q.val; omega

/-- The bias is loaded whole. -/
theorem read_b (c : Dev nD) (t : Fin cfg5.N) (q : Fin 200) :
    (iblk5 V c 4 t : Vec Ideal S1x200 .f32) (ix2 (0 : Fin 1) q) = V c main_v127 (ix2 (0 : Fin 1) q) := by
  obtain ⟨e00, e01, e10, e11, e20, e21, e30, e31, e40, e41, -⟩ := block_index t
  unfold iblk5
  show V c main_v127 (((cfg5.win 4).blk t).view.emb (ix2 (0 : Fin 1) q)) = _
  refine congrArg (V c main_v127) (funext fun a => Fin.ext ?_)
  match a with
  | ⟨0, _⟩ => show win5_4.index t (0 : Fin 2) * 1 + 1 * 0 = _; rw [e40]; rfl
  | ⟨1, _⟩ => show win5_4.index t (1 : Fin 2) * 200 + 1 * q.val = _; rw [e41]; show 0 * 200 + 1 * q.val = q.val; omega

/-- The combined pre-activation of the arrays as the region finds them. -/
abbrev pre5 (c : Dev nD) : Fin 100000 → Fin 200 → EReal :=
  Cert.GraphConv.combine (at2 (n0 := 100000) (n1 := 200) (V c main_v3)) (fun k => V c main_arg14 (ix2 (0 : Fin 1) k))
    (at2 (n0 := 200) (n1 := 200) (V c main_arg12)) (at2 (n0 := 100000) (n1 := 200) (V c main_v126)) (fun q => V c main_v127 (ix2 (0 : Fin 1) q))

/-- The combined block at an entry, from what its five operands hold at the entries it reads. -/
theorem blockOut_eq_of (x0 : Vec Ideal S2000x200 .f32) (x1 : Vec Ideal S1x200 .f32) (x2 : Vec Ideal S200x200 .f32)
    (x3 : Vec Ideal S2000x200 .f32) (x4 : Vec Ideal S1x200 .f32) (p : Fin 2000) (q : Fin 200)
    (A L W : Fin 200 → EReal) (S B : EReal)
    (h0 : ∀ k, x0 (ix2 p k) = A k) (h1 : ∀ k, x1 (ix2 (0 : Fin 1) k) = L k) (h2 : ∀ k, x2 (ix2 k q) = W k)
    (h3 : x3 (ix2 p q) = S) (h4 : x4 (ix2 (0 : Fin 1) q) = B) :
    blockOut x0 x1 x2 x3 x4 p q = (S + ∑ k : Fin 200, (A k - L k) * W k) * Ideal.ofBits .f32 0x3EAAAAAB#32 + B := by
  unfold blockOut
  rw [h3, h4]
  exact congrArg (fun z : EReal => (S + z) * Ideal.ofBits .f32 0x3EAAAAAB#32 + B)
    (Finset.sum_congr rfl fun k _ => by rw [h0 k, h1 k, h2 k])

/-- The combined block of the blocks loaded at point `t` is rows `2000 t …` of the combined pre-activation. -/
theorem block_eq (c : Dev nD) (t : Fin cfg5.N) (p : Fin 2000) (q : Fin 200) :
    blockOut (iblk5 V c 0 t) (iblk5 V c 1 t) (iblk5 V c 2 t) (iblk5 V c 3 t) (iblk5 V c 4 t) p q = pre5 V c (rowOf t p) q :=
  (blockOut_eq_of (iblk5 V c 0 t) (iblk5 V c 1 t) (iblk5 V c 2 t) (iblk5 V c 3 t) (iblk5 V c 4 t) p q
    (fun k => V c main_v3 (ix2 (rowOf t p) k)) (fun k => V c main_arg14 (ix2 (0 : Fin 1) k)) (fun k => V c main_arg12 (ix2 k q))
    (V c main_v126 (ix2 (rowOf t p) q)) (V c main_v127 (ix2 (0 : Fin 1) q))
    (read_h V c t p) (read_l V c t) (fun k => read_w V c t k q) (read_s V c t p q) (read_b V c t q)).trans rfl

/-! ## The two running one-row arrays after each point -/

/-- The column sums of row block `t` of the combined pre-activation (zero past the last block). -/
def colBlock (c : Dev nD) (t : Nat) (q : Fin 200) : EReal :=
  if h : t < cfg5.N then ∑ p : Fin 2000, pre5 V c (rowOf ⟨t, h⟩ p) q else 0

/-- The column sums of squares of row block `t` of the combined pre-activation (zero past the last block). -/
def sqBlock (c : Dev nD) (t : Nat) (q : Fin 200) : EReal :=
  if h : t < cfg5.N then ∑ p : Fin 2000, pre5 V c (rowOf ⟨t, h⟩ p) q * pre5 V c (rowOf ⟨t, h⟩ p) q else 0

/-- The column sums of the combined block loaded at point `t` are those of row block `t`. -/
theorem colBlock_eq (c : Dev nD) (t : Fin cfg5.N) (q : Fin 200) :
    ∑ p : Fin 2000, blockOut (iblk5 V c 0 t) (iblk5 V c 1 t) (iblk5 V c 2 t) (iblk5 V c 3 t) (iblk5 V c 4 t) p q = colBlock V c t.val q := by
  unfold colBlock
  rw [dif_pos t.isLt]
  exact Finset.sum_congr rfl fun p _ => block_eq V c t p q

/-- The column sums of squares of the combined block loaded at point `t` are those of row block `t`. -/
theorem sqBlock_eq (c : Dev nD) (t : Fin cfg5.N) (q : Fin 200) :
    ∑ p : Fin 2000, blockOut (iblk5 V c 0 t) (iblk5 V c 1 t) (iblk5 V c 2 t) (iblk5 V c 3 t) (iblk5 V c 4 t) p q * blockOut (iblk5 V c 0 t) (iblk5 V c 1 t) (iblk5 V c 2 t) (iblk5 V c 3 t) (iblk5 V c 4 t) p q = sqBlock V c t.val q := by
  unfold sqBlock
  rw [dif_pos t.isLt]
  exact Finset.sum_congr rfl fun p _ => by rw [block_eq V c t p q]

/-- At the first point the two running arrays are the first block's column sums and column sums of squares. -/
theorem sums_first (c : Dev nD) (t : Fin cfg5.N) (h0 : t.val % 50 = 0) (u : Fin 1) (q : Fin 200) :
    ((outsAt5 V c t.val t.isLt).2.1 : Vec Ideal S1x200 .f32) (ix2 u q) = colBlock V c t.val q
    ∧ ((outsAt5 V c t.val t.isLt).2.2 : Vec Ideal S1x200 .f32) (ix2 u q) = sqBlock V c t.val q := by
  rw [outs_first V c t h0]
  refine ⟨?_, ?_⟩
  · show k5_pay5 (F := Ideal) (iblk5 V c 0 t) (iblk5 V c 1 t) (iblk5 V c 2 t) (iblk5 V c 3 t) (iblk5 V c 4 t) (k5_pay2 (F := Ideal)) (ix2 u q) = _
    rw [pay5_apply (iblk5 V c 0 t) (iblk5 V c 1 t) (iblk5 V c 2 t) (iblk5 V c 3 t) (iblk5 V c 4 t) (k5_pay2 (F := Ideal)) u q, pay2_apply u q]
    exact (zero_add _).trans (colBlock_eq V c t q)
  · show k5_pay1 (F := Ideal) (k5_pay6 (k5_pay3 (F := Ideal))) (k5_pay7 (iblk5 V c 0 t) (iblk5 V c 1 t) (iblk5 V c 2 t) (iblk5 V c 3 t) (iblk5 V c 4 t)) (ix2 u q) = _
    rw [pay17_apply (iblk5 V c 0 t) (iblk5 V c 1 t) (iblk5 V c 2 t) (iblk5 V c 3 t) (iblk5 V c 4 t) (k5_pay3 (F := Ideal)) u q, pay3_apply u q]
    exact (zero_add _).trans (sqBlock_eq V c t q)

/-- At a later point each running array is what the point before left plus the block's. -/
theorem sums_later (c : Dev nD) (t : Fin cfg5.N) (h0 : ¬t.val % 50 = 0) (u : Fin 1) (q : Fin 200) :
    ((outsAt5 V c t.val t.isLt).2.1 : Vec Ideal S1x200 .f32) (ix2 u q)
        = ((outsAt5 V c (t.val - 1) (Nat.lt_of_le_of_lt (Nat.sub_le _ _) t.isLt)).2.1 : Vec Ideal S1x200 .f32) (ix2 u q) + colBlock V c t.val q
    ∧ ((outsAt5 V c t.val t.isLt).2.2 : Vec Ideal S1x200 .f32) (ix2 u q)
        = ((outsAt5 V c (t.val - 1) (Nat.lt_of_le_of_lt (Nat.sub_le _ _) t.isLt)).2.2 : Vec Ideal S1x200 .f32) (ix2 u q) + sqBlock V c t.val q := by
  rw [outs_later V c t h0]
  refine ⟨?_, ?_⟩
  · show k5_pay5 (F := Ideal) (iblk5 V c 0 t) (iblk5 V c 1 t) (iblk5 V c 2 t) (iblk5 V c 3 t) (iblk5 V c 4 t) (outsAt5 V c (t.val - 1) (Nat.lt_of_le_of_lt (Nat.sub_le _ _) t.isLt)).2.1 (ix2 u q) = _
    rw [pay5_apply (iblk5 V c 0 t) (iblk5 V c 1 t) (iblk5 V c 2 t) (iblk5 V c 3 t) (iblk5 V c 4 t) (outsAt5 V c (t.val - 1) (Nat.lt_of_le_of_lt (Nat.sub_le _ _) t.isLt)).2.1 u q]
    exact congrArg (_ + ·) (colBlock_eq V c t q)
  · show k5_pay1 (F := Ideal) (k5_pay6 (outsAt5 V c (t.val - 1) (Nat.lt_of_le_of_lt (Nat.sub_le _ _) t.isLt)).2.2) (k5_pay7 (iblk5 V c 0 t) (iblk5 V c 1 t) (iblk5 V c 2 t) (iblk5 V c 3 t) (iblk5 V c 4 t)) (ix2 u q) = _
    rw [pay17_apply (iblk5 V c 0 t) (iblk5 V c 1 t) (iblk5 V c 2 t) (iblk5 V c 3 t) (iblk5 V c 4 t) (outsAt5 V c (t.val - 1) (Nat.lt_of_le_of_lt (Nat.sub_le _ _) t.isLt)).2.2 u q]
    exact congrArg (_ + ·) (sqBlock_eq V c t q)

/-- After point `n` the two running arrays hold the sums, over the blocks `0 … n`, of the blocks' column sums and
    column sums of squares: by induction on the point. -/
theorem acc_eq (c : Dev nD) : ∀ (n : Nat) (h : n < cfg5.N),
    (∀ (u : Fin 1) (q : Fin 200), ((outsAt5 V c n h).2.1 : Vec Ideal S1x200 .f32) (ix2 u q)
        = ∑ t ∈ Finset.range (n + 1), colBlock V c t q)
    ∧ (∀ (u : Fin 1) (q : Fin 200), ((outsAt5 V c n h).2.2 : Vec Ideal S1x200 .f32) (ix2 u q)
        = ∑ t ∈ Finset.range (n + 1), sqBlock V c t q)
  | 0, h => by
    refine ⟨fun u q => ?_, fun u q => ?_⟩
    · exact ((sums_first V c ⟨0, h⟩ rfl u q).1).trans (CombineSum.sum_range_one' (fun t => colBlock V c t q)).symm
    · exact ((sums_first V c ⟨0, h⟩ rfl u q).2).trans (CombineSum.sum_range_one' (fun t => sqBlock V c t q)).symm
  | n + 1, h => by
    have hN : cfg5.N = 50 := N_5
    have hB : ¬(⟨n + 1, h⟩ : Fin cfg5.N).val % 50 = 0 := by dsimp only; omega
    obtain ⟨ih6, ih7⟩ := acc_eq c n (Nat.lt_of_succ_lt h)
    refine ⟨fun u q => ?_, fun u q => ?_⟩
    · rw [Finset.sum_range_succ _ (n + 1)]
      exact ((sums_later V c ⟨n + 1, h⟩ hB u q).1).trans (congrArg (· + colBlock V c (n + 1) q) (ih6 u q))
    · rw [Finset.sum_range_succ _ (n + 1)]
      exact ((sums_later V c ⟨n + 1, h⟩ hB u q).2).trans (congrArg (· + sqBlock V c (n + 1) q) (ih7 u q))

/-- Over all fifty blocks the blocks' column sums add up to the column sums over all rows. -/
theorem colBlock_total (c : Dev nD) (q : Fin 200) :
    ∑ t ∈ Finset.range 50, colBlock V c t q = Cert.GraphConv.colSum (pre5 V c) q := by
  unfold Cert.GraphConv.colSum
  rw [CombineSum.sum_rows_eq_sum_blocks (n := 50) (m := 2000) (N := 100000) (by decide) (fun r => pre5 V c r q), Finset.sum_range]
  refine Finset.sum_congr rfl fun t _ => ?_
  unfold colBlock
  rw [dif_pos (lt_of_lt_of_eq t.isLt (N_5).symm)]

/-- Over all fifty blocks the blocks' column sums of squares add up to those over all rows. -/
theorem sqBlock_total (c : Dev nD) (q : Fin 200) :
    ∑ t ∈ Finset.range 50, sqBlock V c t q = Cert.GraphConv.colSumSq (pre5 V c) q := by
  unfold Cert.GraphConv.colSumSq
  rw [CombineSum.sum_rows_eq_sum_blocks (n := 50) (m := 2000) (N := 100000) (by decide) (fun r => pre5 V c r q * pre5 V c r q), Finset.sum_range]
  refine Finset.sum_congr rfl fun t _ => ?_
  unfold sqBlock
  rw [dif_pos (lt_of_lt_of_eq t.isLt (N_5).symm)]

/-! ## The result array -/

/-- The combined pre-activation as an array of the program. -/
def outArr (c : Dev nD) : S100000x200.Idx → EReal := fun i => pre5 V c ⟨(i 0).val, idx2_lt0 i⟩ ⟨(i 1).val, idx2_lt1 i⟩

/-- What point `t` writes back of the result is block `t` of any array that holds, at row `2000 t + p`, the combined
    block's row `p`. -/
theorem flushed5_of (c : Dev nD) (t : Fin cfg5.N) (G : S100000x200.Idx → EReal)
    (hG : ∀ (p : Fin 2000) (q : Fin 200), k5_pay4 (F := Ideal) (iblk5 V c 0 t) (iblk5 V c 1 t) (iblk5 V c 2 t) (iblk5 V c 3 t) (iblk5 V c 4 t) (ix2 p q) = G (ix2 (rowOf t p) q)) :
    (dat5 V c).flushed 5 t = ((cfg5.win 5).blk t).view.read (Elt Ideal) G := by
  obtain ⟨-, -, -, -, -, -, -, -, -, -, e50, e51, -⟩ := block_index t
  show (cfg5.win 5).cut (grid5.coords t) ((dat5 V c).after 5 t) = _
  rw [after5_5]
  have hout : (outsAt5 V c t.val t.isLt).1 = k5_pay4 (iblk5 V c 0 t) (iblk5 V c 1 t) (iblk5 V c 2 t) (iblk5 V c 3 t) (iblk5 V c 4 t) := by
    by_cases h0 : t.val % 50 = 0
    · exact (congrArg Prod.fst (outs_first V c t h0)).trans rfl
    · exact (congrArg Prod.fst (outs_later V c t h0)).trans rfl
  rw [hout]
  funext j
  obtain ⟨p, q, rfl⟩ : ∃ (p : Fin 2000) (q : Fin 200), j = ix2 p q := ⟨j 0, j 1, eq_ix2 j⟩
  show k5_pay4 (F := Ideal) (iblk5 V c 0 t) (iblk5 V c 1 t) (iblk5 V c 2 t) (iblk5 V c 3 t) (iblk5 V c 4 t) (ix2 p q) = G (((cfg5.win 5).blk t).view.emb (ix2 p q))
  rw [hG p q]
  refine (congrArg G (funext fun a => Fin.ext ?_)).symm
  match a with
  | ⟨0, _⟩ => show win5_5.index t (0 : Fin 2) * 2000 + 1 * p.val = _; rw [e50]; show t.val * 2000 + 1 * p.val = t.val * 2000 + p.val; omega
  | ⟨1, _⟩ => show win5_5.index t (1 : Fin 2) * 200 + 1 * q.val = _; rw [e51]; show 0 * 200 + 1 * q.val = q.val; omega

/-- What point `t` writes back of the result is block `t` of the combined pre-activation. -/
theorem flushed5_eq (c : Dev nD) (t : Fin cfg5.N) :
    (dat5 V c).flushed 5 t = ((cfg5.win 5).blk t).view.read (Elt Ideal) (outArr V c) := by
  refine flushed5_of V c t (outArr V c) fun p q => ?_
  rw [pay4_apply (iblk5 V c 0 t) (iblk5 V c 1 t) (iblk5 V c 2 t) (iblk5 V c 3 t) (iblk5 V c 4 t) p q, block_eq V c t p q]
  rfl

/-- Every one of the fifty row blocks is some point's. -/
theorem block_onto : ∀ q0 : Fin 50, ∃ t : Fin cfg5.N, win5_5.index t = ![q0.val, 0] :=
  (by decide +kernel : ∀ q0 : Fin 50, ∃ t : Fin grid5.N, win5_5.index t = ![q0.val, 0])

/-- Row `r` lies in the block of the point whose row block is `r / 2000`: the blocks cover the array. -/
theorem cover5 (i : S100000x200.Idx) :
    ∃ t : Fin cfg5.N, (cfg5.win 5).flush t = true ∧ i ∈ ((cfg5.win 5).blk t).view.set := by
  have hi0 : (i 0).val < 100000 := (i 0).isLt
  have hi1 : (i 1).val < 200 := (i 1).isLt
  obtain ⟨t, ht⟩ := block_onto ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  show i ∈ ((View.whole main_v128_0).slice (win5_5.rect t)).set
  rw [View.set_slice_whole, Rect.mem_set_unit]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 200 ≤ (i 1).val ∧ (i 1).val < win5_5.index t (1 : Fin 2) * 200 + 200; omega

/-- After the region the result array is the combined pre-activation. -/
theorem array5_eq (c : Dev nD) : (dat5 V c).arrAt 5 cfg5.N = outArr V c :=
  (dat5 V c).arrAt_eq_of_cover 5 _ (fun t _ => flushed5_eq V c t) cover5

/-! ## The two one-row arrays -/

/-- The last point of the grid. -/
abbrev lastPt : Fin cfg5.N := ⟨49, by rw [show cfg5.N = 50 from N_5]; decide⟩

/-- The column sums of the combined pre-activation as a one-row array of the program. -/
def sumArr (c : Dev nD) : S1x200.Idx → EReal := fun i => Cert.GraphConv.colSum (pre5 V c) ⟨(i 1).val, idx2_lt1 i⟩

/-- What a point writes back of this one-row array is any one-row array that holds, at column `q`, what the running
    array holds there after the point. -/
theorem flushed6_of (c : Dev nD) (t : Fin cfg5.N) (G : S1x200.Idx → EReal)
    (hG : ∀ (u : Fin 1) (q : Fin 200), ((outsAt5 V c t.val t.isLt).2.1 : Vec Ideal S1x200 .f32) (ix2 u q) = G (ix2 (0 : Fin 1) q)) :
    (dat5 V c).flushed 6 t = ((cfg5.win 6).blk t).view.read (Elt Ideal) G := by
  obtain ⟨-, -, -, -, -, -, -, -, -, -, -, -, e60, e61, e70, e71⟩ := block_index t
  show (cfg5.win 6).cut (grid5.coords t) ((dat5 V c).after 6 t) = _
  rw [after5_6]
  funext j
  obtain ⟨u, q, rfl⟩ : ∃ (u : Fin 1) (q : Fin 200), j = ix2 u q := ⟨j 0, j 1, eq_ix2 j⟩
  show ((outsAt5 V c t.val t.isLt).2.1 : Vec Ideal S1x200 .f32) (ix2 u q) = G (((cfg5.win 6).blk t).view.emb (ix2 u q))
  rw [hG u q]
  have hu : u.val = 0 := by have := u.isLt; omega
  refine (congrArg G (funext fun a => Fin.ext ?_)).symm
  match a with
  | ⟨0, _⟩ => show win5_6.index t (0 : Fin 2) * 1 + 1 * u.val = _; rw [e60]; show 0 * 1 + 1 * u.val = 0; omega
  | ⟨1, _⟩ => show win5_6.index t (1 : Fin 2) * 200 + 1 * q.val = _; rw [e61]; show 0 * 200 + 1 * q.val = q.val; omega

/-- The one write-back of this one-row array, after the last point, writes those sums. -/
theorem flushed6_eq (c : Dev nD) (t : Fin cfg5.N) (hf : (cfg5.win 6).flush t = true) :
    (dat5 V c).flushed 6 t = ((cfg5.win 6).blk t).view.read (Elt Ideal) (sumArr V c) := by
  have hN : cfg5.N = 50 := N_5
  have h49 : t.val = 49 := by have h1 := (flush5_6 t).mp hf; have h2 := t.isLt; omega
  refine flushed6_of V c t (sumArr V c) fun u q => ?_
  rw [(acc_eq V c t.val t.isLt).1 u q, h49]
  exact colBlock_total V c q

/-- The last point's block is the whole one-row array. -/
theorem cover6 (i : S1x200.Idx) :
    ∃ t : Fin cfg5.N, (cfg5.win 6).flush t = true ∧ i ∈ ((cfg5.win 6).blk t).view.set := by
  have hi0 : (i 0).val < 1 := (i 0).isLt
  have hi1 : (i 1).val < 200 := (i 1).isLt
  refine ⟨lastPt, (flush5_6 lastPt).mpr rfl, ?_⟩
  obtain ⟨-, -, -, -, -, -, -, -, -, -, -, -, e60, e61, e70, e71⟩ := block_index lastPt
  show i ∈ ((View.whole main_v128_1).slice (win5_6.rect lastPt)).set
  rw [View.set_slice_whole, Rect.mem_set_unit]
  intro a
  match a with
  | ⟨0, _⟩ => show win5_6.index lastPt (0 : Fin 2) * 1 ≤ (i 0).val ∧ (i 0).val < win5_6.index lastPt (0 : Fin 2) * 1 + 1; rw [e60]; omega
  | ⟨1, _⟩ => show win5_6.index lastPt (1 : Fin 2) * 200 ≤ (i 1).val ∧ (i 1).val < win5_6.index lastPt (1 : Fin 2) * 200 + 200; rw [e61]; omega

/-- After the region the first one-row array holds the column sums of the combined pre-activation. -/
theorem array6_eq (c : Dev nD) : (dat5 V c).arrAt 6 cfg5.N = sumArr V c :=
  (dat5 V c).arrAt_eq_of_cover 6 _ (flushed6_eq V c) cover6

/-- The column sums of squares of the combined pre-activation as a one-row array of the program. -/
def sumSqArr (c : Dev nD) : S1x200.Idx → EReal := fun i => Cert.GraphConv.colSumSq (pre5 V c) ⟨(i 1).val, idx2_lt1 i⟩

/-- What a point writes back of this one-row array is any one-row array that holds, at column `q`, what the running
    array holds there after the point. -/
theorem flushed7_of (c : Dev nD) (t : Fin cfg5.N) (G : S1x200.Idx → EReal)
    (hG : ∀ (u : Fin 1) (q : Fin 200), ((outsAt5 V c t.val t.isLt).2.2 : Vec Ideal S1x200 .f32) (ix2 u q) = G (ix2 (0 : Fin 1) q)) :
    (dat5 V c).flushed 7 t = ((cfg5.win 7).blk t).view.read (Elt Ideal) G := by
  obtain ⟨-, -, -, -, -, -, -, -, -, -, -, -, e60, e61, e70, e71⟩ := block_index t
  show (cfg5.win 7).cut (grid5.coords t) ((dat5 V c).after 7 t) = _
  rw [after5_7]
  funext j
  obtain ⟨u, q, rfl⟩ : ∃ (u : Fin 1) (q : Fin 200), j = ix2 u q := ⟨j 0, j 1, eq_ix2 j⟩
  show ((outsAt5 V c t.val t.isLt).2.2 : Vec Ideal S1x200 .f32) (ix2 u q) = G (((cfg5.win 7).blk t).view.emb (ix2 u q))
  rw [hG u q]
  have hu : u.val = 0 := by have := u.isLt; omega
  refine (congrArg G (funext fun a => Fin.ext ?_)).symm
  match a with
  | ⟨0, _⟩ => show win5_7.index t (0 : Fin 2) * 1 + 1 * u.val = _; rw [e70]; show 0 * 1 + 1 * u.val = 0; omega
  | ⟨1, _⟩ => show win5_7.index t (1 : Fin 2) * 200 + 1 * q.val = _; rw [e71]; show 0 * 200 + 1 * q.val = q.val; omega

/-- The one write-back of this one-row array, after the last point, writes those sums. -/
theorem flushed7_eq (c : Dev nD) (t : Fin cfg5.N) (hf : (cfg5.win 7).flush t = true) :
    (dat5 V c).flushed 7 t = ((cfg5.win 7).blk t).view.read (Elt Ideal) (sumSqArr V c) := by
  have hN : cfg5.N = 50 := N_5
  have h49 : t.val = 49 := by have h1 := (flush5_7 t).mp hf; have h2 := t.isLt; omega
  refine flushed7_of V c t (sumSqArr V c) fun u q => ?_
  rw [(acc_eq V c t.val t.isLt).2 u q, h49]
  exact sqBlock_total V c q

/-- The last point's block is the whole one-row array. -/
theorem cover7 (i : S1x200.Idx) :
    ∃ t : Fin cfg5.N, (cfg5.win 7).flush t = true ∧ i ∈ ((cfg5.win 7).blk t).view.set := by
  have hi0 : (i 0).val < 1 := (i 0).isLt
  have hi1 : (i 1).val < 200 := (i 1).isLt
  refine ⟨lastPt, (flush5_7 lastPt).mpr rfl, ?_⟩
  obtain ⟨-, -, -, -, -, -, -, -, -, -, -, -, e60, e61, e70, e71⟩ := block_index lastPt
  show i ∈ ((View.whole main_v128_2).slice (win5_7.rect lastPt)).set
  rw [View.set_slice_whole, Rect.mem_set_unit]
  intro a
  match a with
  | ⟨0, _⟩ => show win5_7.index lastPt (0 : Fin 2) * 1 ≤ (i 0).val ∧ (i 0).val < win5_7.index lastPt (0 : Fin 2) * 1 + 1; rw [e70]; omega
  | ⟨1, _⟩ => show win5_7.index lastPt (1 : Fin 2) * 200 ≤ (i 1).val ∧ (i 1).val < win5_7.index lastPt (1 : Fin 2) * 200 + 200; rw [e71]; omega

/-- After the region the second one-row array holds the column sums of squares of the combined pre-activation. -/
theorem array7_eq (c : Dev nD) : (dat5 V c).arrAt 7 cfg5.N = sumSqArr V c :=
  (dat5 V c).arrAt_eq_of_cover 7 _ (flushed7_eq V c) cover7

/-! ## Entry by entry -/

/-- The result array, entry by entry. -/
theorem entry5_out (c : Dev nD) (r : Fin 100000) (q : Fin 200) :
    (dat5 V c).arrAt 5 cfg5.N (ix2 r q) = pre5 V c r q := by
  rw [array5_eq]; rfl

/-- The column sums, entry by entry. -/
theorem entry5_sum (c : Dev nD) (q : Fin 200) :
    (dat5 V c).arrAt 6 cfg5.N (ix2 (0 : Fin 1) q) = Cert.GraphConv.colSum (pre5 V c) q := by
  rw [array6_eq]; rfl

/-- The column sums of squares, entry by entry. -/
theorem entry5_sumsq (c : Dev nD) (q : Fin 200) :
    (dat5 V c).arrAt 7 cfg5.N (ix2 (0 : Fin 1) q) = Cert.GraphConv.colSumSq (pre5 V c) q := by
  rw [array7_eq]; rfl

end Cert.KernelIdeal.CombineValue

end
-- ==== Proof.CombineValue2.lean ====
/-
  The combined pre-activation and its two column moments, as arrays after the combine-and-accumulate region.

  The region's grid has fifty points.  Point `t` loads rows `2000 t … 2000 t + 1999` of the node features `h` and of the
  scattered messages `s`, and the whole of the self-loop relation `ℓ`, the weight matrix `W` and the bias `b`; it
  writes the same rows of the result `(s + (h − ℓ) W) · (1/3) + b`, and adds the column sums of that block, and the
  column sums of its squares, to two one-row arrays that stay in place from point to point and are set to zero at the
  first point.  The fifty row blocks tile the 100000 rows, so after the region the result array is the combined
  array, and after the last point the two one-row arrays hold the sums over the fifty blocks of the blocks' column
  sums — which, regrouped over all 100000 rows, are the column sums and the column sums of squares of the combined
  array.  Sums on the extended reals commute and associate, so the regrouping asks nothing of the entries.
-/
import proofs.«103573_j30391188587216_1_alg».proof.Proof.FrameKernelIdeal
import proofs.«103573_j30391188587216_1_alg».proof.Proof.CombinePoint
import proofs.«103573_j30391188587216_1_alg».proof.Proof.CombineSum
import proofs.«103573_j30391188587216_1_alg».proof.Proof.Spec
import Idealize.ShloMosaic.Lib.Pipeline.Value
import Idealize.ShloMosaic.Lib.Tactic

set_option maxRecDepth 16384

noncomputable section

open scoped BigOperators

namespace Cert.KernelIdeal.CombineValue2

open Cert.KernelIdeal Cert.KernelIdeal.Gen Cert.KernelIdeal.GenP Cert.KernelIdeal.CombinePoint
open Idealize.ShloMosaic Idealize.ShloMosaic.TcCoe Idealize.ShloMosaic.ValueIdx Idealize.SL.Sem
open Idealize.ShloMosaic.Pipeline (Dat Cfg Window)
open Cert.GraphConv (at2)

/-- The origin of a two-axis block. -/
theorem origin2 : (![0, 0] : Fin 2 → Nat) = fun _ => 0 := funext fun a => by fin_cases a <;> rfl

/-! ## What each case of the body leaves in the three result blocks -/

section Pieces
variable {F : FTy → Type} [FloatOps F]

/-- At a later point the result block is the combined block of the loaded blocks. -/
theorem out_B_5 (c : Dev nD) (i : grid11.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : ¬cond11_0 i)
    (x0 : Vec F S2000x200 .f32) (x1 : Vec F S1x200 .f32) (x2 : Vec F S200x200 .f32) (x3 : Vec F S2000x200 .f32) (x4 : Vec F S1x200 .f32) (xo6 xo7 : Vec F S1x200 .f32) :
    out11_B_5 c i a1 h1 a2 h2 a3 h3 a4 h4 a5 h5 a6 h6 a7 h7 a8 h8 hc x0 x1 x2 x3 x4 xo6 xo7 = k11_pay4 x0 x1 x2 x3 x4 := by
  unfold out11_B_5
  rw [View.read_writes_junk_eq_canon]
  unfold kernelRun11_B
  dsimp only
  rw [View.canon_unit_zero origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At a later point the running column sums are what was there plus the block's. -/
theorem out_B_6 (c : Dev nD) (i : grid11.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : ¬cond11_0 i)
    (x0 : Vec F S2000x200 .f32) (x1 : Vec F S1x200 .f32) (x2 : Vec F S200x200 .f32) (x3 : Vec F S2000x200 .f32) (x4 : Vec F S1x200 .f32) (xo6 xo7 : Vec F S1x200 .f32) :
    out11_B_6 c i a1 h1 a2 h2 a3 h3 a4 h4 a5 h5 a6 h6 a7 h7 a8 h8 hc x0 x1 x2 x3 x4 xo6 xo7 = k11_pay5 x0 x1 x2 x3 x4 xo6 := by
  unfold out11_B_6
  rw [View.read_writes_junk_eq_canon]
  unfold kernelRun11_B
  dsimp only
  rw [View.canon_unit_zero origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At a later point the running column sums of squares are what was there plus the block's. -/
theorem out_B_7 (c : Dev nD) (i : grid11.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : ¬cond11_0 i)
    (x0 : Vec F S2000x200 .f32) (x1 : Vec F S1x200 .f32) (x2 : Vec F S200x200 .f32) (x3 : Vec F S2000x200 .f32) (x4 : Vec F S1x200 .f32) (xo6 xo7 : Vec F S1x200 .f32) :
    out11_B_7 c i a1 h1 a2 h2 a3 h3 a4 h4 a5 h5 a6 h6 a7 h7 a8 h8 hc x0 x1 x2 x3 x4 xo6 xo7 = k11_pay1 (k11_pay6 xo7) (k11_pay7 x0 x1 x2 x3 x4) := by
  unfold out11_B_7
  rw [View.read_writes_junk_eq_canon]
  unfold kernelRun11_B
  dsimp only
  sl_unfold_words
  rw [View.canon_unit_zero origin2]
  first | simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2] | skip

/-- At the first point the result block is the combined block of the loaded blocks. -/
theorem out_A_5 (c : Dev nD) (i : grid11.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : cond11_0 i)
    (x0 : Vec F S2000x200 .f32) (x1 : Vec F S1x200 .f32) (x2 : Vec F S200x200 .f32) (x3 : Vec F S2000x200 .f32) (x4 : Vec F S1x200 .f32) :
    out11_A_5 c i a1 h1 a2 h2 a3 h3 a4 h4 a5 h5 a6 h6 a7 h7 a8 h8 hc x0 x1 x2 x3 x4 = k11_pay4 x0 x1 x2 x3 x4 := by
  unfold out11_A_5
  rw [View.read_writes_junk_eq_canon]
  unfold kernelRun11_A
  dsimp only
  sl_unfold_words
  rw [View.canon_unit_zero origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At the first point the running column sums are zero plus the block's: the zero block is stored, read back and
    added to. -/
theorem out_A_6 (c : Dev nD) (i : grid11.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : cond11_0 i)
    (x0 : Vec F S2000x200 .f32) (x1 : Vec F S1x200 .f32) (x2 : Vec F S200x200 .f32) (x3 : Vec F S2000x200 .f32) (x4 : Vec F S1x200 .f32) :
    out11_A_6 c i a1 h1 a2 h2 a3 h3 a4 h4 a5 h5 a6 h6 a7 h7 a8 h8 hc x0 x1 x2 x3 x4 = k11_pay5 x0 x1 x2 x3 x4 (k11_pay2 (F := F)) := by
  unfold out11_A_6
  rw [View.read_writes_junk_eq_canon]
  unfold kernelRun11_A
  dsimp only
  sl_unfold_words
  rw [View.canon_cons_unit_zero (S := S1x200) origin2, View.readCov_unit_zero (S := S1x200) _ origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

/-- At the first point the running column sums of squares are zero plus the block's. -/
theorem out_A_7 (c : Dev nD) (i : grid11.Coords) (a1 : Memref sig .tc .vmem S2000x200 .f32) (h1 : a1.IsWhole) (a2 : Memref sig .tc .vmem S1x200 .f32) (h2 : a2.IsWhole) (a3 : Memref sig .tc .vmem S200x200 .f32) (h3 : a3.IsWhole) (a4 : Memref sig .tc .vmem S2000x200 .f32) (h4 : a4.IsWhole) (a5 : Memref sig .tc .vmem S1x200 .f32) (h5 : a5.IsWhole) (a6 : Memref sig .tc .vmem S2000x200 .f32) (h6 : a6.IsWhole) (a7 : Memref sig .tc .vmem S1x200 .f32) (h7 : a7.IsWhole) (a8 : Memref sig .tc .vmem S1x200 .f32) (h8 : a8.IsWhole) (hc : cond11_0 i)
    (x0 : Vec F S2000x200 .f32) (x1 : Vec F S1x200 .f32) (x2 : Vec F S200x200 .f32) (x3 : Vec F S2000x200 .f32) (x4 : Vec F S1x200 .f32) :
    out11_A_7 c i a1 h1 a2 h2 a3 h3 a4 h4 a5 h5 a6 h6 a7 h7 a8 h8 hc x0 x1 x2 x3 x4 = k11_pay1 (k11_pay6 (k11_pay3 (F := F))) (k11_pay7 x0 x1 x2 x3 x4) := by
  unfold out11_A_7
  rw [View.read_writes_junk_eq_canon]
  unfold kernelRun11_A
  dsimp only
  sl_unfold_words
  rw [View.canon_cons_unit_zero (S := S1x200) origin2, View.readCov_unit_zero (S := S1x200) _ origin2]
  simp only [View.readAt_eq_ld, h1.read_unread, h2.read_unread, h3.read_unread, h4.read_unread, h5.read_unread, h7.read_unread, h8.read_unread,
    View.ld_unit_zero (S := S2000x200) origin2, View.ld_unit_zero (S := S1x200) origin2, View.ld_unit_zero (S := S200x200) origin2]

end Pieces

/-! ## The three result blocks after each point, by the point's case -/

variable (V : (c : Dev nD) → (b : Ref sig .tc) → Buf (Elt Ideal) ((c : Thread nD τ).loc b))

/-- After the first point: the combined block of the point's blocks, and its two column moments added to zero. -/
theorem outs_first (c : Dev nD) (t : Fin cfg11.N) (h0 : t.val % 50 = 0) :
    outsAt11 V c t.val t.isLt
      = (k11_pay4 (iblk11 V c 0 t) (iblk11 V c 1 t) (iblk11 V c 2 t) (iblk11 V c 3 t) (iblk11 V c 4 t), k11_pay5 (iblk11 V c 0 t) (iblk11 V c 1 t) (iblk11 V c 2 t) (iblk11 V c 3 t) (iblk11 V c 4 t) (k11_pay2 (F := Ideal)),
          k11_pay1 (k11_pay6 (k11_pay3 (F := Ideal))) (k11_pay7 (iblk11 V c 0 t) (iblk11 V c 1 t) (iblk11 V c 2 t) (iblk11 V c 3 t) (iblk11 V c 4 t))) := by
  rw [outsAt11_A V c t h0]
  exact congrArg₂ Prod.mk (out_A_5 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t))
    (congrArg₂ Prod.mk (out_A_6 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t))
      (out_A_7 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t)))

/-- After a later point: the combined block of the point's blocks, and its two column moments added to what the
    point before left. -/
theorem outs_later (c : Dev nD) (t : Fin cfg11.N) (h0 : ¬t.val % 50 = 0) :
    outsAt11 V c t.val t.isLt
      = (k11_pay4 (iblk11 V c 0 t) (iblk11 V c 1 t) (iblk11 V c 2 t) (iblk11 V c 3 t) (iblk11 V c 4 t), k11_pay5 (iblk11 V c 0 t) (iblk11 V c 1 t) (iblk11 V c 2 t) (iblk11 V c 3 t) (iblk11 V c 4 t) (outsAt11 V c (t.val - 1) (Nat.lt_of_le_of_lt (Nat.sub_le _ _) t.isLt)).2.1,
          k11_pay1 (k11_pay6 (outsAt11 V c (t.val - 1) (Nat.lt_of_le_of_lt (Nat.sub_le _ _) t.isLt)).2.2) (k11_pay7 (iblk11 V c 0 t) (iblk11 V c 1 t) (iblk11 V c 2 t) (iblk11 V c 3 t) (iblk11 V c 4 t))) := by
  rw [outsAt11_B V c t h0]
  exact congrArg₂ Prod.mk (out_B_5 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (outsAt11 V c (t.val - 1) (Nat.lt_of_le_of_lt (Nat.sub_le _ _) t.isLt)).2.1 (outsAt11 V c (t.val - 1) (Nat.lt_of_le_of_lt (Nat.sub_le _ _) t.isLt)).2.2)
    (congrArg₂ Prod.mk (out_B_6 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (outsAt11 V c (t.val - 1) (Nat.lt_of_le_of_lt (Nat.sub_le _ _) t.isLt)).2.1 (outsAt11 V c (t.val - 1) (Nat.lt_of_le_of_lt (Nat.sub_le _ _) t.isLt)).2.2)
      (out_B_7 (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (outsAt11 V c (t.val - 1) (Nat.lt_of_le_of_lt (Nat.sub_le _ _) t.isLt)).2.1 (outsAt11 V c (t.val - 1) (Nat.lt_of_le_of_lt (Nat.sub_le _ _) t.isLt)).2.2))

/-! ## The blocks the windows read -/

/-- The block index of every window at a point: row block `t` for the three row-blocked arrays, the one block for the
    arrays loaded whole and for the two one-row results. -/
theorem block_index : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0
    ∧ win11_6.index t (0 : Fin 2) = 0 ∧ win11_6.index t (1 : Fin 2) = 0
    ∧ win11_7.index t (0 : Fin 2) = 0 ∧ win11_7.index t (1 : Fin 2) = 0 :=
  (by decide +kernel : ∀ t : Fin grid11.N, _)

/-- Row `p` of block `t` is a row of the array. -/
theorem row_lt (t : Fin cfg11.N) (p : Fin 2000) : t.val * 2000 + p.val < 100000 := by
  have hN : t.val < 50 := lt_of_lt_of_eq t.isLt (show cfg11.N = 50 from N_11)
  have hp := p.isLt
  omega

/-- Row `p` of block `t`, as a row of the array. -/
abbrev rowOf (t : Fin cfg11.N) (p : Fin 2000) : Fin 100000 := ⟨t.val * 2000 + p.val, row_lt t p⟩

/-- The node-feature block at a point is rows `2000 t …` of the node features. -/
theorem read_h (c : Dev nD) (t : Fin cfg11.N) (p : Fin 2000) (k : Fin 200) :
    (iblk11 V c 0 t : Vec Ideal S2000x200 .f32) (ix2 p k) = V c main_v139 (ix2 (rowOf t p) k) := by
  obtain ⟨e00, e01, e10, e11, e20, e21, e30, e31, e40, e41, -⟩ := block_index t
  unfold iblk11
  show V c main_v139 (((cfg11.win 0).blk t).view.emb (ix2 p k)) = _
  refine congrArg (V c main_v139) (funext fun a => Fin.ext ?_)
  match a with
  | ⟨0, _⟩ => show win11_0.index t (0 : Fin 2) * 2000 + 1 * p.val = _; rw [e00]; show t.val * 2000 + 1 * p.val = t.val * 2000 + p.val; omega
  | ⟨1, _⟩ => show win11_0.index t (1 : Fin 2) * 200 + 1 * k.val = _; rw [e01]; show 0 * 200 + 1 * k.val = k.val; omega

/-- The self-loop relation is loaded whole. -/
theorem read_l (c : Dev nD) (t : Fin cfg11.N) (k : Fin 200) :
    (iblk11 V c 1 t : Vec Ideal S1x200 .f32) (ix2 (0 : Fin 1) k) = V c main_arg20 (ix2 (0 : Fin 1) k) := by
  obtain ⟨e00, e01, e10, e11, e20, e21, e30, e31, e40, e41, -⟩ := block_index t
  unfold iblk11
  show V c main_arg20 (((cfg11.win 1).blk t).view.emb (ix2 (0 : Fin 1) k)) = _
  refine congrArg (V c main_arg20) (funext fun a => Fin.ext ?_)
  match a with
  | ⟨0, _⟩ => show win11_1.index t (0 : Fin 2) * 1 + 1 * 0 = _; rw [e10]; rfl
  | ⟨1, _⟩ => show win11_1.index t (1 : Fin 2) * 200 + 1 * k.val = _; rw [e11]; show 0 * 200 + 1 * k.val = k.val; omega

/-- The weight matrix is loaded whole. -/
theorem read_w (c : Dev nD) (t : Fin cfg11.N) (k q : Fin 200) :
    (iblk11 V c 2 t : Vec Ideal S200x200 .f32) (ix2 k q) = V c main_arg18 (ix2 k q) := by
  obtain ⟨e00, e01, e10, e11, e20, e21, e30, e31, e40, e41, -⟩ := block_index t
  unfold iblk11
  show V c main_arg18 (((cfg11.win 2).blk t).view.emb (ix2 k q)) = _
  refine congrArg (V c main_arg18) (funext fun a => Fin.ext ?_)
  match a with
  | ⟨0, _⟩ => show win11_2.index t (0 : Fin 2) * 200 + 1 * k.val = _; rw [e20]; show 0 * 200 + 1 * k.val = k.val; omega
  | ⟨1, _⟩ => show win11_2.index t (1 : Fin 2) * 200 + 1 * q.val = _; rw [e21]; show 0 * 200 + 1 * q.val = q.val; omega

/-- The message block at a point is rows `2000 t …` of the scattered messages. -/
theorem read_s (c : Dev nD) (t : Fin cfg11.N) (p : Fin 2000) (q : Fin 200) :
    (iblk11 V c 3 t : Vec Ideal S2000x200 .f32) (ix2 p q) = V c main_v262 (ix2 (rowOf t p) q) := by
  obtain ⟨e00, e01, e10, e11, e20, e21, e30, e31, e40, e41, -⟩ := block_index t
  unfold iblk11
  show V c main_v262 (((cfg11.win 3).blk t).view.emb (ix2 p q)) = _
  refine congrArg (V c main_v262) (funext fun a => Fin.ext ?_)
  match a with
  | ⟨0, _⟩ => show win11_3.index t (0 : Fin 2) * 2000 + 1 * p.val = _; rw [e30]; show t.val * 2000 + 1 * p.val = t.val * 2000 + p.val; omega
  | ⟨1, _⟩ => show win11_3.index t (1 : Fin 2) * 200 + 1 * q.val = _; rw [e31]; show 0 * 200 + 1 * q.val = q.val; omega

/-- The bias is loaded whole. -/
theorem read_b (c : Dev nD) (t : Fin cfg11.N) (q : Fin 200) :
    (iblk11 V c 4 t : Vec Ideal S1x200 .f32) (ix2 (0 : Fin 1) q) = V c main_v263 (ix2 (0 : Fin 1) q) := by
  obtain ⟨e00, e01, e10, e11, e20, e21, e30, e31, e40, e41, -⟩ := block_index t
  unfold iblk11
  show V c main_v263 (((cfg11.win 4).blk t).view.emb (ix2 (0 : Fin 1) q)) = _
  refine congrArg (V c main_v263) (funext fun a => Fin.ext ?_)
  match a with
  | ⟨0, _⟩ => show win11_4.index t (0 : Fin 2) * 1 + 1 * 0 = _; rw [e40]; rfl
  | ⟨1, _⟩ => show win11_4.index t (1 : Fin 2) * 200 + 1 * q.val = _; rw [e41]; show 0 * 200 + 1 * q.val = q.val; omega

/-- The combined pre-activation of the arrays as the region finds them. -/
abbrev pre11 (c : Dev nD) : Fin 100000 → Fin 200 → EReal :=
  Cert.GraphConv.combine (at2 (n0 := 100000) (n1 := 200) (V c main_v139)) (fun k => V c main_arg20 (ix2 (0 : Fin 1) k))
    (at2 (n0 := 200) (n1 := 200) (V c main_arg18)) (at2 (n0 := 100000) (n1 := 200) (V c main_v262)) (fun q => V c main_v263 (ix2 (0 : Fin 1) q))

/-- The combined block at an entry, from what its five operands hold at the entries it reads. -/
theorem blockOut_eq_of (x0 : Vec Ideal S2000x200 .f32) (x1 : Vec Ideal S1x200 .f32) (x2 : Vec Ideal S200x200 .f32)
    (x3 : Vec Ideal S2000x200 .f32) (x4 : Vec Ideal S1x200 .f32) (p : Fin 2000) (q : Fin 200)
    (A L W : Fin 200 → EReal) (S B : EReal)
    (h0 : ∀ k, x0 (ix2 p k) = A k) (h1 : ∀ k, x1 (ix2 (0 : Fin 1) k) = L k) (h2 : ∀ k, x2 (ix2 k q) = W k)
    (h3 : x3 (ix2 p q) = S) (h4 : x4 (ix2 (0 : Fin 1) q) = B) :
    blockOut x0 x1 x2 x3 x4 p q = (S + ∑ k : Fin 200, (A k - L k) * W k) * Ideal.ofBits .f32 0x3EAAAAAB#32 + B := by
  unfold blockOut
  rw [h3, h4]
  exact congrArg (fun z : EReal => (S + z) * Ideal.ofBits .f32 0x3EAAAAAB#32 + B)
    (Finset.sum_congr rfl fun k _ => by rw [h0 k, h1 k, h2 k])

/-- The combined block of the blocks loaded at point `t` is rows `2000 t …` of the combined pre-activation. -/
theorem block_eq (c : Dev nD) (t : Fin cfg11.N) (p : Fin 2000) (q : Fin 200) :
    blockOut (iblk11 V c 0 t) (iblk11 V c 1 t) (iblk11 V c 2 t) (iblk11 V c 3 t) (iblk11 V c 4 t) p q = pre11 V c (rowOf t p) q :=
  (blockOut_eq_of (iblk11 V c 0 t) (iblk11 V c 1 t) (iblk11 V c 2 t) (iblk11 V c 3 t) (iblk11 V c 4 t) p q
    (fun k => V c main_v139 (ix2 (rowOf t p) k)) (fun k => V c main_arg20 (ix2 (0 : Fin 1) k)) (fun k => V c main_arg18 (ix2 k q))
    (V c main_v262 (ix2 (rowOf t p) q)) (V c main_v263 (ix2 (0 : Fin 1) q))
    (read_h V c t p) (read_l V c t) (fun k => read_w V c t k q) (read_s V c t p q) (read_b V c t q)).trans rfl

/-! ## The two running one-row arrays after each point -/

/-- The column sums of row block `t` of the combined pre-activation (zero past the last block). -/
def colBlock (c : Dev nD) (t : Nat) (q : Fin 200) : EReal :=
  if h : t < cfg11.N then ∑ p : Fin 2000, pre11 V c (rowOf ⟨t, h⟩ p) q else 0

/-- The column sums of squares of row block `t` of the combined pre-activation (zero past the last block). -/
def sqBlock (c : Dev nD) (t : Nat) (q : Fin 200) : EReal :=
  if h : t < cfg11.N then ∑ p : Fin 2000, pre11 V c (rowOf ⟨t, h⟩ p) q * pre11 V c (rowOf ⟨t, h⟩ p) q else 0

/-- The column sums of the combined block loaded at point `t` are those of row block `t`. -/
theorem colBlock_eq (c : Dev nD) (t : Fin cfg11.N) (q : Fin 200) :
    ∑ p : Fin 2000, blockOut (iblk11 V c 0 t) (iblk11 V c 1 t) (iblk11 V c 2 t) (iblk11 V c 3 t) (iblk11 V c 4 t) p q = colBlock V c t.val q := by
  unfold colBlock
  rw [dif_pos t.isLt]
  exact Finset.sum_congr rfl fun p _ => block_eq V c t p q

/-- The column sums of squares of the combined block loaded at point `t` are those of row block `t`. -/
theorem sqBlock_eq (c : Dev nD) (t : Fin cfg11.N) (q : Fin 200) :
    ∑ p : Fin 2000, blockOut (iblk11 V c 0 t) (iblk11 V c 1 t) (iblk11 V c 2 t) (iblk11 V c 3 t) (iblk11 V c 4 t) p q * blockOut (iblk11 V c 0 t) (iblk11 V c 1 t) (iblk11 V c 2 t) (iblk11 V c 3 t) (iblk11 V c 4 t) p q = sqBlock V c t.val q := by
  unfold sqBlock
  rw [dif_pos t.isLt]
  exact Finset.sum_congr rfl fun p _ => by rw [block_eq V c t p q]

/-- At the first point the two running arrays are the first block's column sums and column sums of squares. -/
theorem sums_first (c : Dev nD) (t : Fin cfg11.N) (h0 : t.val % 50 = 0) (u : Fin 1) (q : Fin 200) :
    ((outsAt11 V c t.val t.isLt).2.1 : Vec Ideal S1x200 .f32) (ix2 u q) = colBlock V c t.val q
    ∧ ((outsAt11 V c t.val t.isLt).2.2 : Vec Ideal S1x200 .f32) (ix2 u q) = sqBlock V c t.val q := by
  rw [outs_first V c t h0]
  refine ⟨?_, ?_⟩
  · show k11_pay5 (F := Ideal) (iblk11 V c 0 t) (iblk11 V c 1 t) (iblk11 V c 2 t) (iblk11 V c 3 t) (iblk11 V c 4 t) (k11_pay2 (F := Ideal)) (ix2 u q) = _
    rw [pay5_apply' (iblk11 V c 0 t) (iblk11 V c 1 t) (iblk11 V c 2 t) (iblk11 V c 3 t) (iblk11 V c 4 t) (k11_pay2 (F := Ideal)) u q, pay2_apply' u q]
    exact (zero_add _).trans (colBlock_eq V c t q)
  · show k11_pay1 (F := Ideal) (k11_pay6 (k11_pay3 (F := Ideal))) (k11_pay7 (iblk11 V c 0 t) (iblk11 V c 1 t) (iblk11 V c 2 t) (iblk11 V c 3 t) (iblk11 V c 4 t)) (ix2 u q) = _
    rw [pay17_apply' (iblk11 V c 0 t) (iblk11 V c 1 t) (iblk11 V c 2 t) (iblk11 V c 3 t) (iblk11 V c 4 t) (k11_pay3 (F := Ideal)) u q, pay3_apply' u q]
    exact (zero_add _).trans (sqBlock_eq V c t q)

/-- At a later point each running array is what the point before left plus the block's. -/
theorem sums_later (c : Dev nD) (t : Fin cfg11.N) (h0 : ¬t.val % 50 = 0) (u : Fin 1) (q : Fin 200) :
    ((outsAt11 V c t.val t.isLt).2.1 : Vec Ideal S1x200 .f32) (ix2 u q)
        = ((outsAt11 V c (t.val - 1) (Nat.lt_of_le_of_lt (Nat.sub_le _ _) t.isLt)).2.1 : Vec Ideal S1x200 .f32) (ix2 u q) + colBlock V c t.val q
    ∧ ((outsAt11 V c t.val t.isLt).2.2 : Vec Ideal S1x200 .f32) (ix2 u q)
        = ((outsAt11 V c (t.val - 1) (Nat.lt_of_le_of_lt (Nat.sub_le _ _) t.isLt)).2.2 : Vec Ideal S1x200 .f32) (ix2 u q) + sqBlock V c t.val q := by
  rw [outs_later V c t h0]
  refine ⟨?_, ?_⟩
  · show k11_pay5 (F := Ideal) (iblk11 V c 0 t) (iblk11 V c 1 t) (iblk11 V c 2 t) (iblk11 V c 3 t) (iblk11 V c 4 t) (outsAt11 V c (t.val - 1) (Nat.lt_of_le_of_lt (Nat.sub_le _ _) t.isLt)).2.1 (ix2 u q) = _
    rw [pay5_apply' (iblk11 V c 0 t) (iblk11 V c 1 t) (iblk11 V c 2 t) (iblk11 V c 3 t) (iblk11 V c 4 t) (outsAt11 V c (t.val - 1) (Nat.lt_of_le_of_lt (Nat.sub_le _ _) t.isLt)).2.1 u q]
    exact congrArg (_ + ·) (colBlock_eq V c t q)
  · show k11_pay1 (F := Ideal) (k11_pay6 (outsAt11 V c (t.val - 1) (Nat.lt_of_le_of_lt (Nat.sub_le _ _) t.isLt)).2.2) (k11_pay7 (iblk11 V c 0 t) (iblk11 V c 1 t) (iblk11 V c 2 t) (iblk11 V c 3 t) (iblk11 V c 4 t)) (ix2 u q) = _
    rw [pay17_apply' (iblk11 V c 0 t) (iblk11 V c 1 t) (iblk11 V c 2 t) (iblk11 V c 3 t) (iblk11 V c 4 t) (outsAt11 V c (t.val - 1) (Nat.lt_of_le_of_lt (Nat.sub_le _ _) t.isLt)).2.2 u q]
    exact congrArg (_ + ·) (sqBlock_eq V c t q)

/-- After point `n` the two running arrays hold the sums, over the blocks `0 … n`, of the blocks' column sums and
    column sums of squares: by induction on the point. -/
theorem acc_eq (c : Dev nD) : ∀ (n : Nat) (h : n < cfg11.N),
    (∀ (u : Fin 1) (q : Fin 200), ((outsAt11 V c n h).2.1 : Vec Ideal S1x200 .f32) (ix2 u q)
        = ∑ t ∈ Finset.range (n + 1), colBlock V c t q)
    ∧ (∀ (u : Fin 1) (q : Fin 200), ((outsAt11 V c n h).2.2 : Vec Ideal S1x200 .f32) (ix2 u q)
        = ∑ t ∈ Finset.range (n + 1), sqBlock V c t q)
  | 0, h => by
    refine ⟨fun u q => ?_, fun u q => ?_⟩
    · exact ((sums_first V c ⟨0, h⟩ rfl u q).1).trans (CombineSum.sum_range_one' (fun t => colBlock V c t q)).symm
    · exact ((sums_first V c ⟨0, h⟩ rfl u q).2).trans (CombineSum.sum_range_one' (fun t => sqBlock V c t q)).symm
  | n + 1, h => by
    have hN : cfg11.N = 50 := N_11
    have hB : ¬(⟨n + 1, h⟩ : Fin cfg11.N).val % 50 = 0 := by dsimp only; omega
    obtain ⟨ih6, ih7⟩ := acc_eq c n (Nat.lt_of_succ_lt h)
    refine ⟨fun u q => ?_, fun u q => ?_⟩
    · rw [Finset.sum_range_succ _ (n + 1)]
      exact ((sums_later V c ⟨n + 1, h⟩ hB u q).1).trans (congrArg (· + colBlock V c (n + 1) q) (ih6 u q))
    · rw [Finset.sum_range_succ _ (n + 1)]
      exact ((sums_later V c ⟨n + 1, h⟩ hB u q).2).trans (congrArg (· + sqBlock V c (n + 1) q) (ih7 u q))

/-- Over all fifty blocks the blocks' column sums add up to the column sums over all rows. -/
theorem colBlock_total (c : Dev nD) (q : Fin 200) :
    ∑ t ∈ Finset.range 50, colBlock V c t q = Cert.GraphConv.colSum (pre11 V c) q := by
  unfold Cert.GraphConv.colSum
  rw [CombineSum.sum_rows_eq_sum_blocks (n := 50) (m := 2000) (N := 100000) (by decide) (fun r => pre11 V c r q), Finset.sum_range]
  refine Finset.sum_congr rfl fun t _ => ?_
  unfold colBlock
  rw [dif_pos (lt_of_lt_of_eq t.isLt (N_11).symm)]

/-- Over all fifty blocks the blocks' column sums of squares add up to those over all rows. -/
theorem sqBlock_total (c : Dev nD) (q : Fin 200) :
    ∑ t ∈ Finset.range 50, sqBlock V c t q = Cert.GraphConv.colSumSq (pre11 V c) q := by
  unfold Cert.GraphConv.colSumSq
  rw [CombineSum.sum_rows_eq_sum_blocks (n := 50) (m := 2000) (N := 100000) (by decide) (fun r => pre11 V c r q * pre11 V c r q), Finset.sum_range]
  refine Finset.sum_congr rfl fun t _ => ?_
  unfold sqBlock
  rw [dif_pos (lt_of_lt_of_eq t.isLt (N_11).symm)]

/-! ## The result array -/

/-- The combined pre-activation as an array of the program. -/
def outArr (c : Dev nD) : S100000x200.Idx → EReal := fun i => pre11 V c ⟨(i 0).val, idx2_lt0 i⟩ ⟨(i 1).val, idx2_lt1 i⟩

/-- What point `t` writes back of the result is block `t` of any array that holds, at row `2000 t + p`, the combined
    block's row `p`. -/
theorem flushed5_of (c : Dev nD) (t : Fin cfg11.N) (G : S100000x200.Idx → EReal)
    (hG : ∀ (p : Fin 2000) (q : Fin 200), k11_pay4 (F := Ideal) (iblk11 V c 0 t) (iblk11 V c 1 t) (iblk11 V c 2 t) (iblk11 V c 3 t) (iblk11 V c 4 t) (ix2 p q) = G (ix2 (rowOf t p) q)) :
    (dat11 V c).flushed 5 t = ((cfg11.win 5).blk t).view.read (Elt Ideal) G := by
  obtain ⟨-, -, -, -, -, -, -, -, -, -, e50, e51, -⟩ := block_index t
  show (cfg11.win 5).cut (grid11.coords t) ((dat11 V c).after 5 t) = _
  rw [after11_5]
  have hout : (outsAt11 V c t.val t.isLt).1 = k11_pay4 (iblk11 V c 0 t) (iblk11 V c 1 t) (iblk11 V c 2 t) (iblk11 V c 3 t) (iblk11 V c 4 t) := by
    by_cases h0 : t.val % 50 = 0
    · exact (congrArg Prod.fst (outs_first V c t h0)).trans rfl
    · exact (congrArg Prod.fst (outs_later V c t h0)).trans rfl
  rw [hout]
  funext j
  obtain ⟨p, q, rfl⟩ : ∃ (p : Fin 2000) (q : Fin 200), j = ix2 p q := ⟨j 0, j 1, eq_ix2 j⟩
  show k11_pay4 (F := Ideal) (iblk11 V c 0 t) (iblk11 V c 1 t) (iblk11 V c 2 t) (iblk11 V c 3 t) (iblk11 V c 4 t) (ix2 p q) = G (((cfg11.win 5).blk t).view.emb (ix2 p q))
  rw [hG p q]
  refine (congrArg G (funext fun a => Fin.ext ?_)).symm
  match a with
  | ⟨0, _⟩ => show win11_5.index t (0 : Fin 2) * 2000 + 1 * p.val = _; rw [e50]; show t.val * 2000 + 1 * p.val = t.val * 2000 + p.val; omega
  | ⟨1, _⟩ => show win11_5.index t (1 : Fin 2) * 200 + 1 * q.val = _; rw [e51]; show 0 * 200 + 1 * q.val = q.val; omega

/-- What point `t` writes back of the result is block `t` of the combined pre-activation. -/
theorem flushed5_eq (c : Dev nD) (t : Fin cfg11.N) :
    (dat11 V c).flushed 5 t = ((cfg11.win 5).blk t).view.read (Elt Ideal) (outArr V c) := by
  refine flushed5_of V c t (outArr V c) fun p q => ?_
  rw [pay4_apply' (iblk11 V c 0 t) (iblk11 V c 1 t) (iblk11 V c 2 t) (iblk11 V c 3 t) (iblk11 V c 4 t) p q, block_eq V c t p q]
  rfl

/-- Every one of the fifty row blocks is some point's. -/
theorem block_onto : ∀ q0 : Fin 50, ∃ t : Fin cfg11.N, win11_5.index t = ![q0.val, 0] :=
  (by decide +kernel : ∀ q0 : Fin 50, ∃ t : Fin grid11.N, win11_5.index t = ![q0.val, 0])

/-- Row `r` lies in the block of the point whose row block is `r / 2000`: the blocks cover the array. -/
theorem cover5 (i : S100000x200.Idx) :
    ∃ t : Fin cfg11.N, (cfg11.win 5).flush t = true ∧ i ∈ ((cfg11.win 5).blk t).view.set := by
  have hi0 : (i 0).val < 100000 := (i 0).isLt
  have hi1 : (i 1).val < 200 := (i 1).isLt
  obtain ⟨t, ht⟩ := block_onto ⟨(i 0).val / 2000, by omega⟩
  have q0 : win11_5.index t (0 : Fin 2) = (i 0).val / 2000 := congrFun ht 0
  have q1 : win11_5.index t (1 : Fin 2) = 0 := congrFun ht 1
  refine ⟨t, flush11_5 t, ?_⟩
  show i ∈ ((View.whole main_v264_0).slice (win11_5.rect t)).set
  rw [View.set_slice_whole, Rect.mem_set_unit]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 200 ≤ (i 1).val ∧ (i 1).val < win11_5.index t (1 : Fin 2) * 200 + 200; omega

/-- After the region the result array is the combined pre-activation. -/
theorem array5_eq (c : Dev nD) : (dat11 V c).arrAt 5 cfg11.N = outArr V c :=
  (dat11 V c).arrAt_eq_of_cover 5 _ (fun t _ => flushed5_eq V c t) cover5

/-! ## The two one-row arrays -/

/-- The last point of the grid. -/
abbrev lastPt : Fin cfg11.N := ⟨49, by rw [show cfg11.N = 50 from N_11]; decide⟩

/-- The column sums of the combined pre-activation as a one-row array of the program. -/
def sumArr (c : Dev nD) : S1x200.Idx → EReal := fun i => Cert.GraphConv.colSum (pre11 V c) ⟨(i 1).val, idx2_lt1 i⟩

/-- What a point writes back of this one-row array is any one-row array that holds, at column `q`, what the running
    array holds there after the point. -/
theorem flushed6_of (c : Dev nD) (t : Fin cfg11.N) (G : S1x200.Idx → EReal)
    (hG : ∀ (u : Fin 1) (q : Fin 200), ((outsAt11 V c t.val t.isLt).2.1 : Vec Ideal S1x200 .f32) (ix2 u q) = G (ix2 (0 : Fin 1) q)) :
    (dat11 V c).flushed 6 t = ((cfg11.win 6).blk t).view.read (Elt Ideal) G := by
  obtain ⟨-, -, -, -, -, -, -, -, -, -, -, -, e60, e61, e70, e71⟩ := block_index t
  show (cfg11.win 6).cut (grid11.coords t) ((dat11 V c).after 6 t) = _
  rw [after11_6]
  funext j
  obtain ⟨u, q, rfl⟩ : ∃ (u : Fin 1) (q : Fin 200), j = ix2 u q := ⟨j 0, j 1, eq_ix2 j⟩
  show ((outsAt11 V c t.val t.isLt).2.1 : Vec Ideal S1x200 .f32) (ix2 u q) = G (((cfg11.win 6).blk t).view.emb (ix2 u q))
  rw [hG u q]
  have hu : u.val = 0 := by have := u.isLt; omega
  refine (congrArg G (funext fun a => Fin.ext ?_)).symm
  match a with
  | ⟨0, _⟩ => show win11_6.index t (0 : Fin 2) * 1 + 1 * u.val = _; rw [e60]; show 0 * 1 + 1 * u.val = 0; omega
  | ⟨1, _⟩ => show win11_6.index t (1 : Fin 2) * 200 + 1 * q.val = _; rw [e61]; show 0 * 200 + 1 * q.val = q.val; omega

/-- The one write-back of this one-row array, after the last point, writes those sums. -/
theorem flushed6_eq (c : Dev nD) (t : Fin cfg11.N) (hf : (cfg11.win 6).flush t = true) :
    (dat11 V c).flushed 6 t = ((cfg11.win 6).blk t).view.read (Elt Ideal) (sumArr V c) := by
  have hN : cfg11.N = 50 := N_11
  have h49 : t.val = 49 := by have h1 := (flush11_6 t).mp hf; have h2 := t.isLt; omega
  refine flushed6_of V c t (sumArr V c) fun u q => ?_
  rw [(acc_eq V c t.val t.isLt).1 u q, h49]
  exact colBlock_total V c q

/-- The last point's block is the whole one-row array. -/
theorem cover6 (i : S1x200.Idx) :
    ∃ t : Fin cfg11.N, (cfg11.win 6).flush t = true ∧ i ∈ ((cfg11.win 6).blk t).view.set := by
  have hi0 : (i 0).val < 1 := (i 0).isLt
  have hi1 : (i 1).val < 200 := (i 1).isLt
  refine ⟨lastPt, (flush11_6 lastPt).mpr rfl, ?_⟩
  obtain ⟨-, -, -, -, -, -, -, -, -, -, -, -, e60, e61, e70, e71⟩ := block_index lastPt
  show i ∈ ((View.whole main_v264_1).slice (win11_6.rect lastPt)).set
  rw [View.set_slice_whole, Rect.mem_set_unit]
  intro a
  match a with
  | ⟨0, _⟩ => show win11_6.index lastPt (0 : Fin 2) * 1 ≤ (i 0).val ∧ (i 0).val < win11_6.index lastPt (0 : Fin 2) * 1 + 1; rw [e60]; omega
  | ⟨1, _⟩ => show win11_6.index lastPt (1 : Fin 2) * 200 ≤ (i 1).val ∧ (i 1).val < win11_6.index lastPt (1 : Fin 2) * 200 + 200; rw [e61]; omega

/-- After the region the first one-row array holds the column sums of the combined pre-activation. -/
theorem array6_eq (c : Dev nD) : (dat11 V c).arrAt 6 cfg11.N = sumArr V c :=
  (dat11 V c).arrAt_eq_of_cover 6 _ (flushed6_eq V c) cover6

/-- The column sums of squares of the combined pre-activation as a one-row array of the program. -/
def sumSqArr (c : Dev nD) : S1x200.Idx → EReal := fun i => Cert.GraphConv.colSumSq (pre11 V c) ⟨(i 1).val, idx2_lt1 i⟩

/-- What a point writes back of this one-row array is any one-row array that holds, at column `q`, what the running
    array holds there after the point. -/
theorem flushed7_of (c : Dev nD) (t : Fin cfg11.N) (G : S1x200.Idx → EReal)
    (hG : ∀ (u : Fin 1) (q : Fin 200), ((outsAt11 V c t.val t.isLt).2.2 : Vec Ideal S1x200 .f32) (ix2 u q) = G (ix2 (0 : Fin 1) q)) :
    (dat11 V c).flushed 7 t = ((cfg11.win 7).blk t).view.read (Elt Ideal) G := by
  obtain ⟨-, -, -, -, -, -, -, -, -, -, -, -, e60, e61, e70, e71⟩ := block_index t
  show (cfg11.win 7).cut (grid11.coords t) ((dat11 V c).after 7 t) = _
  rw [after11_7]
  funext j
  obtain ⟨u, q, rfl⟩ : ∃ (u : Fin 1) (q : Fin 200), j = ix2 u q := ⟨j 0, j 1, eq_ix2 j⟩
  show ((outsAt11 V c t.val t.isLt).2.2 : Vec Ideal S1x200 .f32) (ix2 u q) = G (((cfg11.win 7).blk t).view.emb (ix2 u q))
  rw [hG u q]
  have hu : u.val = 0 := by have := u.isLt; omega
  refine (congrArg G (funext fun a => Fin.ext ?_)).symm
  match a with
  | ⟨0, _⟩ => show win11_7.index t (0 : Fin 2) * 1 + 1 * u.val = _; rw [e70]; show 0 * 1 + 1 * u.val = 0; omega
  | ⟨1, _⟩ => show win11_7.index t (1 : Fin 2) * 200 + 1 * q.val = _; rw [e71]; show 0 * 200 + 1 * q.val = q.val; omega

/-- The one write-back of this one-row array, after the last point, writes those sums. -/
theorem flushed7_eq (c : Dev nD) (t : Fin cfg11.N) (hf : (cfg11.win 7).flush t = true) :
    (dat11 V c).flushed 7 t = ((cfg11.win 7).blk t).view.read (Elt Ideal) (sumSqArr V c) := by
  have hN : cfg11.N = 50 := N_11
  have h49 : t.val = 49 := by have h1 := (flush11_7 t).mp hf; have h2 := t.isLt; omega
  refine flushed7_of V c t (sumSqArr V c) fun u q => ?_
  rw [(acc_eq V c t.val t.isLt).2 u q, h49]
  exact sqBlock_total V c q

/-- The last point's block is the whole one-row array. -/
theorem cover7 (i : S1x200.Idx) :
    ∃ t : Fin cfg11.N, (cfg11.win 7).flush t = true ∧ i ∈ ((cfg11.win 7).blk t).view.set := by
  have hi0 : (i 0).val < 1 := (i 0).isLt
  have hi1 : (i 1).val < 200 := (i 1).isLt
  refine ⟨lastPt, (flush11_7 lastPt).mpr rfl, ?_⟩
  obtain ⟨-, -, -, -, -, -, -, -, -, -, -, -, e60, e61, e70, e71⟩ := block_index lastPt
  show i ∈ ((View.whole main_v264_2).slice (win11_7.rect lastPt)).set
  rw [View.set_slice_whole, Rect.mem_set_unit]
  intro a
  match a with
  | ⟨0, _⟩ => show win11_7.index lastPt (0 : Fin 2) * 1 ≤ (i 0).val ∧ (i 0).val < win11_7.index lastPt (0 : Fin 2) * 1 + 1; rw [e70]; omega
  | ⟨1, _⟩ => show win11_7.index lastPt (1 : Fin 2) * 200 ≤ (i 1).val ∧ (i 1).val < win11_7.index lastPt (1 : Fin 2) * 200 + 200; rw [e71]; omega

/-- After the region the second one-row array holds the column sums of squares of the combined pre-activation. -/
theorem array7_eq (c : Dev nD) : (dat11 V c).arrAt 7 cfg11.N = sumSqArr V c :=
  (dat11 V c).arrAt_eq_of_cover 7 _ (flushed7_eq V c) cover7

/-! ## Entry by entry -/

/-- The result array, entry by entry. -/
theorem entry11_out (c : Dev nD) (r : Fin 100000) (q : Fin 200) :
    (dat11 V c).arrAt 5 cfg11.N (ix2 r q) = pre11 V c r q := by
  rw [array5_eq]; rfl

/-- The column sums, entry by entry. -/
theorem entry11_sum (c : Dev nD) (q : Fin 200) :
    (dat11 V c).arrAt 6 cfg11.N (ix2 (0 : Fin 1) q) = Cert.GraphConv.colSum (pre11 V c) q := by
  rw [array6_eq]; rfl

/-- The column sums of squares, entry by entry. -/
theorem entry11_sumsq (c : Dev nD) (q : Fin 200) :
    (dat11 V c).arrAt 7 cfg11.N (ix2 (0 : Fin 1) q) = Cert.GraphConv.colSumSq (pre11 V c) q := by
  rw [array7_eq]; rfl

end Cert.KernelIdeal.CombineValue2

end
-- ==== Proof.KernelEqsSpecCombine.lean ====
/-
  The combined pre-activations and their two column moments, between final contents on the extended reals.

  Each of the two combine regions leaves three outputs: the combined pre-activation `(s + (h − ℓ) W) · (1/3) + b`
  of the five arrays it finds at entry, its column sums and its column sums of squares.  None of the eight buffers
  is written again, so the three formulas hold between final contents.
-/
import proofs.«103573_j30391188587216_1_alg».proof.Proof.KernelEqsRegion
import proofs.«103573_j30391188587216_1_alg».proof.Proof.CombineValue
import proofs.«103573_j30391188587216_1_alg».proof.Proof.CombineValue2
import proofs.«103573_j30391188587216_1_alg».proof.Proof.Spec

set_option maxRecDepth 16384

noncomputable section

namespace Cert.KernelIdeal.HandRun

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)
open Cert.GraphConv (matProd sum3 message combine colSum colSumSq normTanh at2)

variable (mI : (ℓ : Loc nD τ sig) → Buf (Elt Ideal) ℓ) (ρ : Dev nD → PrngReg)

/-- The combined pre-activation of region 5, read off the final contents of its five inputs. -/
abbrev pre5K (c : Dev nD) : Fin 100000 → Fin 200 → EReal :=
  combine (at2 (n0 := 100000) (n1 := 200) (K mI ρ c main_v3)) (fun k => K mI ρ c main_arg14 (ix2 (0 : Fin 1) k))
    (at2 (n0 := 200) (n1 := 200) (K mI ρ c main_arg12)) (at2 (n0 := 100000) (n1 := 200) (K mI ρ c main_v126)) (fun q => K mI ρ c main_v127 (ix2 (0 : Fin 1) q))

/-- What region 5 combines at entry is what the final contents combine to. -/
theorem pre5_final (c : Dev nD) : CombineValue.pre5 (V13 mI ρ) c = pre5K mI ρ c := by
  show combine (at2 (n0 := 100000) (n1 := 200) (V13 mI ρ c main_v3)) (fun k => V13 mI ρ c main_arg14 (ix2 (0 : Fin 1) k))
      (at2 (n0 := 200) (n1 := 200) (V13 mI ρ c main_arg12)) (at2 (n0 := 100000) (n1 := 200) (V13 mI ρ c main_v126)) (fun q => V13 mI ρ c main_v127 (ix2 (0 : Fin 1) q))
    = combine (at2 (n0 := 100000) (n1 := 200) (K mI ρ c main_v3)) (fun k => K mI ρ c main_arg14 (ix2 (0 : Fin 1) k))
      (at2 (n0 := 200) (n1 := 200) (K mI ρ c main_arg12)) (at2 (n0 := 100000) (n1 := 200) (K mI ρ c main_v126)) (fun q => K mI ρ c main_v127 (ix2 (0 : Fin 1) q))
  first
    | (rw [kin5_0 mI ρ c, kin5_1 mI ρ c, kin5_2 mI ρ c, kin5_3 mI ρ c, kin5_4 mI ρ c]; done)
    | simp only [kin5_0 mI ρ c, kin5_1 mI ρ c, kin5_2 mI ρ c, kin5_3 mI ρ c, kin5_4 mI ρ c]

/-- `main_v128_0` is the combined pre-activation, at the end of the program. -/
theorem spec_v128_0 (c : Dev nD) (r : Fin 100000) (q : Fin 200) :
    K mI ρ c main_v128_0 (ix2 r q) = pre5K mI ρ c r q := by
  first
    | (rw [kout5_5 mI ρ c, CombineValue.entry5_out (V13 mI ρ) c r q, pre5_final mI ρ c]; done)
    | exact (congrFun (kout5_5 mI ρ c) (ix2 r q)).trans ((CombineValue.entry5_out (V13 mI ρ) c r q).trans (congrFun (congrFun (pre5_final mI ρ c) r) q))

/-- `main_v128_1` holds its column sums. -/
theorem spec_v128_1 (c : Dev nD) (q : Fin 200) :
    K mI ρ c main_v128_1 (ix2 (0 : Fin 1) q) = colSum (pre5K mI ρ c) q := by
  first
    | (rw [kout5_6 mI ρ c, CombineValue.entry5_sum (V13 mI ρ) c q, pre5_final mI ρ c]; done)
    | exact (congrFun (kout5_6 mI ρ c) (ix2 (0 : Fin 1) q)).trans ((CombineValue.entry5_sum (V13 mI ρ) c q).trans (congrArg (fun p => colSum p q) (pre5_final mI ρ c)))

/-- `main_v128_2` holds its column sums of squares. -/
theorem spec_v128_2 (c : Dev nD) (q : Fin 200) :
    K mI ρ c main_v128_2 (ix2 (0 : Fin 1) q) = colSumSq (pre5K mI ρ c) q := by
  first
    | (rw [kout5_7 mI ρ c, CombineValue.entry5_sumsq (V13 mI ρ) c q, pre5_final mI ρ c]; done)
    | exact (congrFun (kout5_7 mI ρ c) (ix2 (0 : Fin 1) q)).trans ((CombineValue.entry5_sumsq (V13 mI ρ) c q).trans (congrArg (fun p => colSumSq p q) (pre5_final mI ρ c)))

/-- The combined pre-activation of region 11, read off the final contents of its five inputs. -/
abbrev pre11K (c : Dev nD) : Fin 100000 → Fin 200 → EReal :=
  combine (at2 (n0 := 100000) (n1 := 200) (K mI ρ c main_v139)) (fun k => K mI ρ c main_arg20 (ix2 (0 : Fin 1) k))
    (at2 (n0 := 200) (n1 := 200) (K mI ρ c main_arg18)) (at2 (n0 := 100000) (n1 := 200) (K mI ρ c main_v262)) (fun q => K mI ρ c main_v263 (ix2 (0 : Fin 1) q))

/-- What region 11 combines at entry is what the final contents combine to. -/
theorem pre11_final (c : Dev nD) : CombineValue2.pre11 (V28 mI ρ) c = pre11K mI ρ c := by
  show combine (at2 (n0 := 100000) (n1 := 200) (V28 mI ρ c main_v139)) (fun k => V28 mI ρ c main_arg20 (ix2 (0 : Fin 1) k))
      (at2 (n0 := 200) (n1 := 200) (V28 mI ρ c main_arg18)) (at2 (n0 := 100000) (n1 := 200) (V28 mI ρ c main_v262)) (fun q => V28 mI ρ c main_v263 (ix2 (0 : Fin 1) q))
    = combine (at2 (n0 := 100000) (n1 := 200) (K mI ρ c main_v139)) (fun k => K mI ρ c main_arg20 (ix2 (0 : Fin 1) k))
      (at2 (n0 := 200) (n1 := 200) (K mI ρ c main_arg18)) (at2 (n0 := 100000) (n1 := 200) (K mI ρ c main_v262)) (fun q => K mI ρ c main_v263 (ix2 (0 : Fin 1) q))
  first
    | (rw [kin11_0 mI ρ c, kin11_1 mI ρ c, kin11_2 mI ρ c, kin11_3 mI ρ c, kin11_4 mI ρ c]; done)
    | simp only [kin11_0 mI ρ c, kin11_1 mI ρ c, kin11_2 mI ρ c, kin11_3 mI ρ c, kin11_4 mI ρ c]

/-- `main_v264_0` is the combined pre-activation, at the end of the program. -/
theorem spec_v264_0 (c : Dev nD) (r : Fin 100000) (q : Fin 200) :
    K mI ρ c main_v264_0 (ix2 r q) = pre11K mI ρ c r q := by
  first
    | (rw [kout11_5 mI ρ c, CombineValue2.entry11_out (V28 mI ρ) c r q, pre11_final mI ρ c]; done)
    | exact (congrFun (kout11_5 mI ρ c) (ix2 r q)).trans ((CombineValue2.entry11_out (V28 mI ρ) c r q).trans (congrFun (congrFun (pre11_final mI ρ c) r) q))

/-- `main_v264_1` holds its column sums. -/
theorem spec_v264_1 (c : Dev nD) (q : Fin 200) :
    K mI ρ c main_v264_1 (ix2 (0 : Fin 1) q) = colSum (pre11K mI ρ c) q := by
  first
    | (rw [kout11_6 mI ρ c, CombineValue2.entry11_sum (V28 mI ρ) c q, pre11_final mI ρ c]; done)
    | exact (congrFun (kout11_6 mI ρ c) (ix2 (0 : Fin 1) q)).trans ((CombineValue2.entry11_sum (V28 mI ρ) c q).trans (congrArg (fun p => colSum p q) (pre11_final mI ρ c)))

/-- `main_v264_2` holds its column sums of squares. -/
theorem spec_v264_2 (c : Dev nD) (q : Fin 200) :
    K mI ρ c main_v264_2 (ix2 (0 : Fin 1) q) = colSumSq (pre11K mI ρ c) q := by
  first
    | (rw [kout11_7 mI ρ c, CombineValue2.entry11_sumsq (V28 mI ρ) c q, pre11_final mI ρ c]; done)
    | exact (congrFun (kout11_7 mI ρ c) (ix2 (0 : Fin 1) q)).trans ((CombineValue2.entry11_sumsq (V28 mI ρ) c q).trans (congrArg (fun p => colSumSq p q) (pre11_final mI ρ c)))

end Cert.KernelIdeal.HandRun

end
-- ==== Proof.NormValue.lean ====
/-
  The normalised activation of a layer, as one array.

  The region subtracts from every entry its column's mean, multiplies by the reciprocal square root of the column's
  variance plus a small constant, and takes the hyperbolic tangent.  Its grid has fifty points; point `t` loads rows
  `2000 t … 2000 t + 1999` of the operand and the whole mean row and variance row (one block each, the same at every
  point), and writes the same rows of the result.  The fifty row blocks tile the 100000 rows, so after the region the
  result array is `tanh ((x − μ) · (σ² + ε)^(−1/2))` entry by entry, of the arrays as the region found them.
-/
import proofs.«103573_j30391188587216_1_alg».proof.Proof.FrameKernelIdeal
import proofs.«103573_j30391188587216_1_alg».proof.Proof.Spec
import Idealize.ShloMosaic.Lib.Pipeline.Value
import Idealize.ShloMosaic.Lib.ValueLayout

set_option maxRecDepth 16384

noncomputable section

namespace Cert.KernelIdeal.NormValue

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)
open Cert.GraphConv (at2)

section Generic

variable {F : FTy → Type} [FloatOps F]
variable (V : (c : Dev nD) → (b : Ref sig .tc) → Buf (Elt F) ((c : Thread nD τ).loc b))

/-- The origin of a two-axis block. -/
theorem origin2 : (![0, 0] : Fin 2 → Nat) = fun _ => 0 := funext fun a => by fin_cases a <;> rfl

/-- One entry's normalised activation from the entry, its column's mean and its column's variance:
    `tanh ((a − m) · (v + ε)^(−1/2))`, with `ε` the single-precision `1e-5`. -/
abbrev normPt (a m v : Elt F .f32) : Elt F .f32 :=
  FloatOps.tanh (FloatOps.mulf (FloatOps.subf a m) (FloatOps.rsqrt (FloatOps.addf v (Scalar.ofBits .f32 0x3727C5AC#32))))

/-- The normalised activation of an array by a mean row and a variance row: entry `(r, q)` uses the rows' entries of
    column `q`. -/
abbrev normArr (x : S100000x200.Idx → Elt F .f32) (m v : S1x200.Idx → Elt F .f32) : S100000x200.Idx → Elt F .f32 :=
  fun i => normPt (x i) (m (ix2 (0 : Fin 1) (i 1 : Fin 200))) (v (ix2 (0 : Fin 1) (i 1 : Fin 200)))

/-! ## Region 6: `main_v135` from `main_v128_0`, the mean row `main_v130` and the variance row `main_v134` -/

/-- What the body stores, read at one entry of the block: the entry's normalised activation from the block's entry
    and the two rows' entries of its column (a `[1, 200]` row broadcast along the rows reads its one row). -/
theorem payload6_at (m v : Vec F S1x200 .f32) (x : Vec F S2000x200 .f32) (p : Fin 2000) (q : Fin 200) :
    k6_pay1 m v x (ix2 p q) = normPt (x (ix2 p q)) (m (ix2 (0 : Fin 1) q)) (v (ix2 (0 : Fin 1) q)) := by
  unfold k6_pay1
  simp only [shapeCast_self]
  show FloatOps.tanh (FloatOps.mulf (FloatOps.subf (x (ix2 p q)) (broadcastTo S2000x200 m broadcasts_S1x200_S2000x200 (ix2 p q)))
      (broadcastTo S2000x200 (rsqrt (addf v (broadcast S1x200 (Scalar.ofBits .f32 0x3727C5AC#32)))) broadcasts_S1x200_S2000x200 (ix2 p q))) = _
  rw [broadcastTo_1b_ab_apply, broadcastTo_1b_ab_apply]
  rfl

/-- The block indices at a point: the operand's block is the result's (row block `t`, column block `0`), and the two
    rows' block is block `(0, 0)` at every point. -/
theorem block_rows6 : ∀ t : Fin cfg6.N,
    win6_0.index t (0 : Fin 2) = win6_3.index t (0 : Fin 2) ∧ win6_0.index t (1 : Fin 2) = win6_3.index t (1 : Fin 2)
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) ≤ 49 ∧ win6_3.index t (1 : Fin 2) = 0 :=
  (by decide +kernel : ∀ t : Fin grid6.N, _)

/-- Every one of the fifty row blocks is some point's. -/
theorem block_onto6 : ∀ q0 : Fin 50, ∃ t : Fin cfg6.N, win6_3.index t = ![q0.val, 0] :=
  (by decide +kernel : ∀ q0 : Fin 50, ∃ t : Fin grid6.N, win6_3.index t = ![q0.val, 0])

/-- The operand's block sits in its array where the result's block sits in its own. -/
theorem emb6_0 (t : Fin cfg6.N) (p : Fin 2000) (q : Fin 200) :
    ((cfg6.win 0).blk t).view.emb (ix2 p q) = ((cfg6.win 3).blk t).view.emb (ix2 p q) := by
  obtain ⟨e0, e1, _, _, _, _, _, _⟩ := block_rows6 t
  funext a; apply Fin.ext
  match a with
  | ⟨0, _⟩ => show win6_0.index t (0 : Fin 2) * 2000 + 1 * p.val = win6_3.index t (0 : Fin 2) * 2000 + 1 * p.val; omega
  | ⟨1, _⟩ => show win6_0.index t (1 : Fin 2) * 200 + 1 * q.val = win6_3.index t (1 : Fin 2) * 200 + 1 * q.val; omega

/-- The mean row's block is the whole row at every point. -/
theorem emb6_1 (t : Fin cfg6.N) (q : Fin 200) :
    ((cfg6.win 1).blk t).view.emb (ix2 (0 : Fin 1) q) = ix2 (0 : Fin 1) q := by
  obtain ⟨_, _, e2, e3, _, _, _, _⟩ := block_rows6 t
  funext a; apply Fin.ext
  match a with
  | ⟨0, _⟩ => show win6_1.index t (0 : Fin 2) * 1 + 1 * 0 = 0; omega
  | ⟨1, _⟩ => show win6_1.index t (1 : Fin 2) * 200 + 1 * q.val = q.val; omega

/-- The variance row's block is the whole row at every point. -/
theorem emb6_2 (t : Fin cfg6.N) (q : Fin 200) :
    ((cfg6.win 2).blk t).view.emb (ix2 (0 : Fin 1) q) = ix2 (0 : Fin 1) q := by
  obtain ⟨_, _, _, _, e4, e5, _, _⟩ := block_rows6 t
  funext a; apply Fin.ext
  match a with
  | ⟨0, _⟩ => show win6_2.index t (0 : Fin 2) * 1 + 1 * 0 = 0; omega
  | ⟨1, _⟩ => show win6_2.index t (1 : Fin 2) * 200 + 1 * q.val = q.val; omega

/-- An entry of the result's block keeps its column in the array: the column block is `0`. -/
theorem col6 (t : Fin cfg6.N) (p : Fin 2000) (q : Fin 200) :
    ((((cfg6.win 3).blk t).view.emb (ix2 p q)) 1 : Fin 200) = q := by
  obtain ⟨_, _, _, _, _, _, _, e7⟩ := block_rows6 t
  apply Fin.ext
  show win6_3.index t (1 : Fin 2) * 200 + 1 * q.val = q.val
  omega

/-- What point `t` writes back is block `t` of the normalised activation of the arrays as the region found them. -/
theorem flushed6_eq (c : Dev nD) (t : Fin cfg6.N) :
    (dat6 V c).flushed 3 t
      = ((cfg6.win 3).blk t).view.read (Elt F) (normArr (V c main_v128_0) (V c main_v130) (V c main_v134)) := by
  show (cfg6.win 3).cut (grid6.coords t) ((dat6 V c).after 3 t) = _
  rw [after6_3]
  unfold out6_3
  rw [View.canon_unit_zero origin2]
  simp only [View.ld_unit_zero (S := S2000x200) origin2, View.ld_unit_zero (S := S1x200) origin2]
  funext j
  rw [eq_ix2 (n0 := 2000) (n1 := 200) j]
  generalize (j 0 : Fin 2000) = p
  generalize (j 1 : Fin 200) = q
  show k6_pay1 (iblk6 V c 1 t) (iblk6 V c 2 t) (iblk6 V c 0 t) (ix2 p q)
      = normPt (V c main_v128_0 (((cfg6.win 3).blk t).view.emb (ix2 p q)))
          (V c main_v130 (ix2 (0 : Fin 1) ((((cfg6.win 3).blk t).view.emb (ix2 p q)) 1 : Fin 200)))
          (V c main_v134 (ix2 (0 : Fin 1) ((((cfg6.win 3).blk t).view.emb (ix2 p q)) 1 : Fin 200)))
  rw [payload6_at (iblk6 V c 1 t) (iblk6 V c 2 t) (iblk6 V c 0 t) p q, col6 t p q]
  show normPt (V c main_v128_0 (((cfg6.win 0).blk t).view.emb (ix2 p q)))
        (V c main_v130 (((cfg6.win 1).blk t).view.emb (ix2 (0 : Fin 1) q)))
        (V c main_v134 (((cfg6.win 2).blk t).view.emb (ix2 (0 : Fin 1) q))) = _
  rw [emb6_0 t p q, emb6_1 t q, emb6_2 t q]

/-- An index of the array is in point `t`'s block iff each coordinate is in the block's range on its axis. -/
theorem mem_blk6 (t : Fin cfg6.N) (i : S100000x200.Idx) :
    i ∈ ((cfg6.win 3).blk t).view.set ↔ ∀ a : Fin 2, win6_3.index t a * S2000x200.size a ≤ (i a).val
      ∧ (i a).val < win6_3.index t a * S2000x200.size a + S2000x200.size a := by
  show i ∈ ((View.whole main_v135).slice (win6_3.rect t)).set ↔ _
  rw [View.set_slice_whole, Rect.mem_set_unit]
  exact Iff.rfl

/-- Row `r` lies in the block of the point whose row block is `r / 2000`: the blocks cover the array. -/
theorem cover6 (i : S100000x200.Idx) :
    ∃ t : Fin cfg6.N, (cfg6.win 3).flush t = true ∧ i ∈ ((cfg6.win 3).blk t).view.set := by
  have hi0 : (i 0).val < 100000 := (i 0).isLt
  have hi1 : (i 1).val < 200 := (i 1).isLt
  obtain ⟨t, ht⟩ := block_onto6 ⟨(i 0).val / 2000, by omega⟩
  have q0 : win6_3.index t (0 : Fin 2) = (i 0).val / 2000 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 200 ≤ (i 1).val ∧ (i 1).val < win6_3.index t (1 : Fin 2) * 200 + 200; omega

/-- After the region the result array is the normalised activation of the arrays as the region found them. -/
theorem array6_eq (c : Dev nD) :
    (dat6 V c).arrAt 3 cfg6.N = normArr (V c main_v128_0) (V c main_v130) (V c main_v134) :=
  (dat6 V c).arrAt_eq_of_cover 3 _ (fun t _ => flushed6_eq V c t) cover6

/-! ## Region 12: `main_v271` from `main_v264_0`, the mean row `main_v266` and the variance row `main_v270` -/

/-- What the body stores, read at one entry of the block: the entry's normalised activation from the block's entry
    and the two rows' entries of its column (a `[1, 200]` row broadcast along the rows reads its one row). -/
theorem payload12_at (m v : Vec F S1x200 .f32) (x : Vec F S2000x200 .f32) (p : Fin 2000) (q : Fin 200) :
    k12_pay1 m v x (ix2 p q) = normPt (x (ix2 p q)) (m (ix2 (0 : Fin 1) q)) (v (ix2 (0 : Fin 1) q)) := by
  unfold k12_pay1
  simp only [shapeCast_self]
  show FloatOps.tanh (FloatOps.mulf (FloatOps.subf (x (ix2 p q)) (broadcastTo S2000x200 m broadcasts_S1x200_S2000x200 (ix2 p q)))
      (broadcastTo S2000x200 (rsqrt (addf v (broadcast S1x200 (Scalar.ofBits .f32 0x3727C5AC#32)))) broadcasts_S1x200_S2000x200 (ix2 p q))) = _
  rw [broadcastTo_1b_ab_apply, broadcastTo_1b_ab_apply]
  rfl

/-- The block indices at a point: the operand's block is the result's (row block `t`, column block `0`), and the two
    rows' block is block `(0, 0)` at every point. -/
theorem block_rows12 : ∀ t : Fin cfg12.N,
    win12_0.index t (0 : Fin 2) = win12_3.index t (0 : Fin 2) ∧ win12_0.index t (1 : Fin 2) = win12_3.index t (1 : Fin 2)
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) ≤ 49 ∧ win12_3.index t (1 : Fin 2) = 0 :=
  (by decide +kernel : ∀ t : Fin grid12.N, _)

/-- Every one of the fifty row blocks is some point's. -/
theorem block_onto12 : ∀ q0 : Fin 50, ∃ t : Fin cfg12.N, win12_3.index t = ![q0.val, 0] :=
  (by decide +kernel : ∀ q0 : Fin 50, ∃ t : Fin grid12.N, win12_3.index t = ![q0.val, 0])

/-- The operand's block sits in its array where the result's block sits in its own. -/
theorem emb12_0 (t : Fin cfg12.N) (p : Fin 2000) (q : Fin 200) :
    ((cfg12.win 0).blk t).view.emb (ix2 p q) = ((cfg12.win 3).blk t).view.emb (ix2 p q) := by
  obtain ⟨e0, e1, _, _, _, _, _, _⟩ := block_rows12 t
  funext a; apply Fin.ext
  match a with
  | ⟨0, _⟩ => show win12_0.index t (0 : Fin 2) * 2000 + 1 * p.val = win12_3.index t (0 : Fin 2) * 2000 + 1 * p.val; omega
  | ⟨1, _⟩ => show win12_0.index t (1 : Fin 2) * 200 + 1 * q.val = win12_3.index t (1 : Fin 2) * 200 + 1 * q.val; omega

/-- The mean row's block is the whole row at every point. -/
theorem emb12_1 (t : Fin cfg12.N) (q : Fin 200) :
    ((cfg12.win 1).blk t).view.emb (ix2 (0 : Fin 1) q) = ix2 (0 : Fin 1) q := by
  obtain ⟨_, _, e2, e3, _, _, _, _⟩ := block_rows12 t
  funext a; apply Fin.ext
  match a with
  | ⟨0, _⟩ => show win12_1.index t (0 : Fin 2) * 1 + 1 * 0 = 0; omega
  | ⟨1, _⟩ => show win12_1.index t (1 : Fin 2) * 200 + 1 * q.val = q.val; omega

/-- The variance row's block is the whole row at every point. -/
theorem emb12_2 (t : Fin cfg12.N) (q : Fin 200) :
    ((cfg12.win 2).blk t).view.emb (ix2 (0 : Fin 1) q) = ix2 (0 : Fin 1) q := by
  obtain ⟨_, _, _, _, e4, e5, _, _⟩ := block_rows12 t
  funext a; apply Fin.ext
  match a with
  | ⟨0, _⟩ => show win12_2.index t (0 : Fin 2) * 1 + 1 * 0 = 0; omega
  | ⟨1, _⟩ => show win12_2.index t (1 : Fin 2) * 200 + 1 * q.val = q.val; omega

/-- An entry of the result's block keeps its column in the array: the column block is `0`. -/
theorem col12 (t : Fin cfg12.N) (p : Fin 2000) (q : Fin 200) :
    ((((cfg12.win 3).blk t).view.emb (ix2 p q)) 1 : Fin 200) = q := by
  obtain ⟨_, _, _, _, _, _, _, e7⟩ := block_rows12 t
  apply Fin.ext
  show win12_3.index t (1 : Fin 2) * 200 + 1 * q.val = q.val
  omega

/-- What point `t` writes back is block `t` of the normalised activation of the arrays as the region found them. -/
theorem flushed12_eq (c : Dev nD) (t : Fin cfg12.N) :
    (dat12 V c).flushed 3 t
      = ((cfg12.win 3).blk t).view.read (Elt F) (normArr (V c main_v264_0) (V c main_v266) (V c main_v270)) := by
  show (cfg12.win 3).cut (grid12.coords t) ((dat12 V c).after 3 t) = _
  rw [after12_3]
  unfold out12_3
  rw [View.canon_unit_zero origin2]
  simp only [View.ld_unit_zero (S := S2000x200) origin2, View.ld_unit_zero (S := S1x200) origin2]
  funext j
  rw [eq_ix2 (n0 := 2000) (n1 := 200) j]
  generalize (j 0 : Fin 2000) = p
  generalize (j 1 : Fin 200) = q
  show k12_pay1 (iblk12 V c 1 t) (iblk12 V c 2 t) (iblk12 V c 0 t) (ix2 p q)
      = normPt (V c main_v264_0 (((cfg12.win 3).blk t).view.emb (ix2 p q)))
          (V c main_v266 (ix2 (0 : Fin 1) ((((cfg12.win 3).blk t).view.emb (ix2 p q)) 1 : Fin 200)))
          (V c main_v270 (ix2 (0 : Fin 1) ((((cfg12.win 3).blk t).view.emb (ix2 p q)) 1 : Fin 200)))
  rw [payload12_at (iblk12 V c 1 t) (iblk12 V c 2 t) (iblk12 V c 0 t) p q, col12 t p q]
  show normPt (V c main_v264_0 (((cfg12.win 0).blk t).view.emb (ix2 p q)))
        (V c main_v266 (((cfg12.win 1).blk t).view.emb (ix2 (0 : Fin 1) q)))
        (V c main_v270 (((cfg12.win 2).blk t).view.emb (ix2 (0 : Fin 1) q))) = _
  rw [emb12_0 t p q, emb12_1 t q, emb12_2 t q]

/-- An index of the array is in point `t`'s block iff each coordinate is in the block's range on its axis. -/
theorem mem_blk12 (t : Fin cfg12.N) (i : S100000x200.Idx) :
    i ∈ ((cfg12.win 3).blk t).view.set ↔ ∀ a : Fin 2, win12_3.index t a * S2000x200.size a ≤ (i a).val
      ∧ (i a).val < win12_3.index t a * S2000x200.size a + S2000x200.size a := by
  show i ∈ ((View.whole main_v271).slice (win12_3.rect t)).set ↔ _
  rw [View.set_slice_whole, Rect.mem_set_unit]
  exact Iff.rfl

/-- Row `r` lies in the block of the point whose row block is `r / 2000`: the blocks cover the array. -/
theorem cover12 (i : S100000x200.Idx) :
    ∃ t : Fin cfg12.N, (cfg12.win 3).flush t = true ∧ i ∈ ((cfg12.win 3).blk t).view.set := by
  have hi0 : (i 0).val < 100000 := (i 0).isLt
  have hi1 : (i 1).val < 200 := (i 1).isLt
  obtain ⟨t, ht⟩ := block_onto12 ⟨(i 0).val / 2000, by omega⟩
  have q0 : win12_3.index t (0 : Fin 2) = (i 0).val / 2000 := congrFun ht 0
  have q1 : win12_3.index t (1 : Fin 2) = 0 := congrFun ht 1
  refine ⟨t, flush12_3 t, ?_⟩
  rw [mem_blk12]
  intro a
  match a with
  | ⟨0, _⟩ => show win12_3.index t (0 : Fin 2) * 2000 ≤ (i 0).val ∧ (i 0).val < win12_3.index t (0 : Fin 2) * 2000 + 2000; omega
  | ⟨1, _⟩ => show win12_3.index t (1 : Fin 2) * 200 ≤ (i 1).val ∧ (i 1).val < win12_3.index t (1 : Fin 2) * 200 + 200; omega

/-- After the region the result array is the normalised activation of the arrays as the region found them. -/
theorem array12_eq (c : Dev nD) :
    (dat12 V c).arrAt 3 cfg12.N = normArr (V c main_v264_0) (V c main_v266) (V c main_v270) :=
  (dat12 V c).arrAt_eq_of_cover 3 _ (fun t _ => flushed12_eq V c t) cover12

end Generic

/-! ## At the exact instance -/

section Exact

variable (V : (c : Dev nD) → (b : Ref sig .tc) → Buf (Elt Ideal) ((c : Thread nD τ).loc b))

/-- Region 6's result, entry by entry, is the specification's normalised activation. -/
theorem entry6 (c : Dev nD) (r : Fin 100000) (q : Fin 200) :
    (dat6 V c).arrAt 3 cfg6.N (ix2 r q)
      = Cert.GraphConv.normTanh (at2 (V c main_v128_0)) (fun q => V c main_v130 (ix2 (0 : Fin 1) q))
          (fun q => V c main_v134 (ix2 (0 : Fin 1) q)) r q := by
  rw [array6_eq V c]
  rfl

/-- Region 12's result, entry by entry, is the specification's normalised activation. -/
theorem entry12 (c : Dev nD) (r : Fin 100000) (q : Fin 200) :
    (dat12 V c).arrAt 3 cfg12.N (ix2 r q)
      = Cert.GraphConv.normTanh (at2 (V c main_v264_0)) (fun q => V c main_v266 (ix2 (0 : Fin 1) q))
          (fun q => V c main_v270 (ix2 (0 : Fin 1) q)) r q := by
  rw [array12_eq V c]
  rfl

end Exact

end Cert.KernelIdeal.NormValue

end
-- ==== Proof.KernelEqsSpecNorm.lean ====
/-
  The normalised activations, between final contents on the extended reals.

  Each of the two normalisation regions leaves in its output `tanh ((x − μ) (σ² + ε)^(−1/2))` of the array, the row
  of means and the row of variances it finds at entry; none of the four buffers is written again.
-/
import proofs.«103573_j30391188587216_1_alg».proof.Proof.KernelEqsRegion
import proofs.«103573_j30391188587216_1_alg».proof.Proof.NormValue
import proofs.«103573_j30391188587216_1_alg».proof.Proof.Spec

set_option maxRecDepth 16384

noncomputable section

namespace Cert.KernelIdeal.HandRun

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)
open Cert.GraphConv (matProd sum3 message combine colSum colSumSq normTanh at2)

variable (mI : (ℓ : Loc nD τ sig) → Buf (Elt Ideal) ℓ) (ρ : Dev nD → PrngReg)

/-- `main_v135` is the normalised activation of `main_v128_0` with means `main_v130` and variances `main_v134`, at the end of the program. -/
theorem spec_v135 (c : Dev nD) (r : Fin 100000) (q : Fin 200) :
    K mI ρ c main_v135 (ix2 r q)
      = normTanh (at2 (K mI ρ c main_v128_0)) (fun q => K mI ρ c main_v130 (ix2 (0 : Fin 1) q))
          (fun q => K mI ρ c main_v134 (ix2 (0 : Fin 1) q)) r q := by
  first
    | (rw [kout6_3 mI ρ c, NormValue.entry6 (V15 mI ρ) c r q]; rw [← kin6_0 mI ρ c, ← kin6_1 mI ρ c, ← kin6_2 mI ρ c]; done)
    | exact (congrFun (kout6_3 mI ρ c) (ix2 r q)).trans ((NormValue.entry6 (V15 mI ρ) c r q).trans (by rw [kin6_0 mI ρ c, kin6_1 mI ρ c, kin6_2 mI ρ c]))
    | exact (congrFun (kout6_3 mI ρ c) (ix2 r q)).trans ((NormValue.entry6 (V15 mI ρ) c r q).trans (by simp only [kin6_0 mI ρ c, kin6_1 mI ρ c, kin6_2 mI ρ c]))

/-- `main_v271` is the normalised activation of `main_v264_0` with means `main_v266` and variances `main_v270`, at the end of the program. -/
theorem spec_v271 (c : Dev nD) (r : Fin 100000) (q : Fin 200) :
    K mI ρ c main_v271 (ix2 r q)
      = normTanh (at2 (K mI ρ c main_v264_0)) (fun q => K mI ρ c main_v266 (ix2 (0 : Fin 1) q))
          (fun q => K mI ρ c main_v270 (ix2 (0 : Fin 1) q)) r q := by
  first
    | (rw [kout12_3 mI ρ c, NormValue.entry12 (V30 mI ρ) c r q]; rw [← kin12_0 mI ρ c, ← kin12_1 mI ρ c, ← kin12_2 mI ρ c]; done)
    | exact (congrFun (kout12_3 mI ρ c) (ix2 r q)).trans ((NormValue.entry12 (V30 mI ρ) c r q).trans (by rw [kin12_0 mI ρ c, kin12_1 mI ρ c, kin12_2 mI ρ c]))
    | exact (congrFun (kout12_3 mI ρ c) (ix2 r q)).trans ((NormValue.entry12 (V30 mI ρ) c r q).trans (by simp only [kin12_0 mI ρ c, kin12_1 mI ρ c, kin12_2 mI ρ c]))

end Cert.KernelIdeal.HandRun

end
-- ==== Proof.KernelEqsSpec.lean ====
/-
  The kernel program's dense results as specified functions of its final contents: one equation per region output
  (matrix products, sums of three arrays, edge messages, combined pre-activations with their column moments,
  normalised activations), gathered from the modules that prove them.
-/
import proofs.«103573_j30391188587216_1_alg».proof.Proof.KernelEqsSpecMatmul
import proofs.«103573_j30391188587216_1_alg».proof.Proof.KernelEqsSpecFuse
import proofs.«103573_j30391188587216_1_alg».proof.Proof.KernelEqsSpecMessage
import proofs.«103573_j30391188587216_1_alg».proof.Proof.KernelEqsSpecCombine
import proofs.«103573_j30391188587216_1_alg».proof.Proof.KernelEqsSpecNorm
-- ==== Proof.SpecFinite.lean ====
/-
  Finiteness of the specified mathematics, and the agreement of its two variances.

  Every step of the specification maps arrays of real numbers to arrays of real numbers: the
  matrix product, the entrywise sums, the edge message, the combination, the column sums and
  sums of squares, the mean and the two variances; the normalised hyperbolic tangent is real
  whatever its arguments. On real arrays of `100000` rows the variance taken from the two
  moments, `S₂/n − (S₁/n)²`, is the mean squared deviation from the mean, `(∑ (x − μ)²)/n`; it is
  a nonnegative real, so the normaliser `(σ² + ε)^(−1/2)` is a positive real.
-/
import proofs.«103573_j30391188587216_1_alg».proof.Proof.Spec
import proofs.«103573_j30391188587216_1_alg».proof.Proof.LibMoments
import proofs.«103573_j30391188587216_1_alg».proof.Proof.LibFiniteOps

open scoped BigOperators

namespace Cert.GraphConv

open Idealize.ShloMosaic Idealize.LibMoments Idealize.LibFiniteOps

variable {M K N E : Nat}

/-! ### The three literals -/

/-- The word of the number of rows denotes the real number `100000`. -/
theorem rows_eq : rows = ((100000 : ℝ) : EReal) := ofBits_f32_100000

/-- The number of rows is real. -/
theorem isReal_rows : IsReal rows := ⟨100000, rows_eq⟩

/-- The single-precision `1/3` is real. -/
theorem isReal_third : IsReal third := isReal_ofBits_f32 _ (by decide)

/-- The single-precision `1e-5` is real. -/
theorem isReal_eps : IsReal eps := isReal_ofBits_f32 _ (by decide)

/-- The single-precision `1e-5` is a positive real number. -/
theorem eps_pos : ∃ ε : ℝ, 0 < ε ∧ eps = (ε : EReal) := ofBits_f32_1em5_pos

/-- The single-precision `1/3` is a positive real number. -/
theorem third_pos : ∃ c : ℝ, 0 < c ∧ third = (c : EReal) := ofBits_f32_third_pos

/-- The quotient of a real by the number of rows is real. -/
theorem isReal_div_rows {x : EReal} (hx : IsReal x) : IsReal (Ideal.div x rows) := by
  rw [rows_eq]; exact hx.div_coe (by norm_num)

/-! ### Real arrays -/

/-- A two-axis array all of whose entries are real numbers. -/
def Real2 (x : Fin M → Fin N → EReal) : Prop := ∀ r q, IsReal (x r q)

/-- A one-axis array all of whose entries are real numbers. -/
def Real1 (v : Fin N → EReal) : Prop := ∀ q, IsReal (v q)

/-- The product of two real matrices is real: each entry is a finite sum of products. -/
theorem real2_matProd {A : Fin M → Fin K → EReal} {B : Fin K → Fin N → EReal} (hA : Real2 A) (hB : Real2 B) :
    Real2 (matProd A B) :=
  fun r c => isReal_sum _ fun k => (hA r k).mul (hB k c)

/-- The entrywise sum of three real arrays is real. -/
theorem real2_sum3 {a b c : Fin M → Fin N → EReal} (ha : Real2 a) (hb : Real2 b) (hc : Real2 c) :
    Real2 (sum3 a b c) :=
  fun r q => ((ha r q).add (hb r q)).add (hc r q)

/-- The edge messages of real differences, real normalisers and a real weight matrix are real. -/
theorem real2_message {diff : Fin E → Fin K → EReal} {norm : Fin E → EReal} {w : Fin K → Fin N → EReal}
    (hd : Real2 diff) (hn : Real1 norm) (hw : Real2 w) : Real2 (message diff norm w) :=
  fun e q => (real2_matProd hd hw e q).mul (hn e)

/-- The combination `(s + (h − ℓ) W) · (1/3) + b` of real arrays is real. -/
theorem real2_combine {h : Fin M → Fin K → EReal} {loopRel : Fin K → EReal} {w : Fin K → Fin N → EReal}
    {s : Fin M → Fin N → EReal} {b : Fin N → EReal} (hh : Real2 h) (hl : Real1 loopRel) (hw : Real2 w)
    (hs : Real2 s) (hb : Real1 b) : Real2 (combine h loopRel w s b) :=
  fun r q =>
    (((hs r q).add (isReal_sum _ fun k => ((hh r k).sub (hl k)).mul (hw k q))).mul isReal_third).add (hb q)

/-- The column sums of a real array are real. -/
theorem real1_colSum {x : Fin M → Fin N → EReal} (hx : Real2 x) : Real1 (colSum x) :=
  fun q => isReal_sum _ fun r => hx r q

/-- The column sums of squares of a real array are real. -/
theorem real1_colSumSq {x : Fin M → Fin N → EReal} (hx : Real2 x) : Real1 (colSumSq x) :=
  fun q => isReal_sum _ fun r => (hx r q).mul (hx r q)

/-- The means taken from real column sums are real. -/
theorem real1_meanOf {s1 : Fin N → EReal} (h1 : Real1 s1) : Real1 (meanOf s1) :=
  fun q => isReal_div_rows (h1 q)

/-- The variance taken from two real moments is real. -/
theorem real1_varOfMoments {s1 s2 : Fin N → EReal} (h1 : Real1 s1) (h2 : Real1 s2) :
    Real1 (varOfMoments s1 s2) :=
  fun q => (isReal_div_rows (h2 q)).sub ((real1_meanOf h1 q).mul (real1_meanOf h1 q))

/-- The mean squared deviation from the mean of a real array is real. -/
theorem real1_varCentred {x : Fin M → Fin N → EReal} (hx : Real2 x) : Real1 (varCentred x) :=
  fun q => isReal_div_rows (isReal_sum _ fun r =>
    ((hx r q).sub (real1_meanOf (real1_colSum hx) q)).mul ((hx r q).sub (real1_meanOf (real1_colSum hx) q)))

/-- The normalised hyperbolic tangent is real WHATEVER its arguments: `tanh` of any extended real
    is a real number in `[-1, 1]`. -/
theorem real2_normTanh (x : Fin M → Fin N → EReal) (mean var : Fin N → EReal) : Real2 (normTanh x mean var) :=
  fun _ _ => isReal_tanh _

/-! ### The two variances agree -/

/-- On a real array of `100000` rows the variance taken from the two moments is the mean squared
    deviation from the mean: `S₂/n − (S₁/n)² = (∑ᵣ (x r − μ)²)/n` with `n = 100000` the number of rows
    and `μ = S₁/n` (expand the square; `∑ᵣ μ² = n μ²` because there are `n` rows). -/
theorem var_forms (x : Fin 100000 → Fin N → EReal) (hx : Real2 x) (q : Fin N) :
    varOfMoments (colSum x) (colSumSq x) q = varCentred x q := by
  unfold varOfMoments varCentred meanOf colSum colSumSq
  rw [rows_eq]
  exact (variance_identity (fun r => x r q) (by norm_num) (by simp) fun r => hx r q).symm

/-- The same as an equality of arrays. -/
theorem var_forms' (x : Fin 100000 → Fin N → EReal) (hx : Real2 x) :
    varOfMoments (colSum x) (colSumSq x) = varCentred x :=
  funext (var_forms x hx)

/-- The mean squared deviation from the mean of a real array is nonnegative. -/
theorem varCentred_nonneg {x : Fin M → Fin N → EReal} (hx : Real2 x) (q : Fin N) : 0 ≤ varCentred x q := by
  unfold varCentred meanOf colSum
  rw [rows_eq]
  exact variance_nonneg (fun r => x r q) (by norm_num) fun r => hx r q

/-- The variance taken from the two moments of a real array of `100000` rows is nonnegative. -/
theorem varOfMoments_nonneg (x : Fin 100000 → Fin N → EReal) (hx : Real2 x) (q : Fin N) :
    0 ≤ varOfMoments (colSum x) (colSumSq x) q := by
  rw [var_forms x hx q]; exact varCentred_nonneg hx q

/-- The normaliser `(σ² + ε)^(−1/2)` of a real array is a positive real (`σ²` the mean squared
    deviation). -/
theorem isReal_rsqrt_varCentred_add_eps {x : Fin M → Fin N → EReal} (hx : Real2 x) (q : Fin N) :
    IsReal (Ideal.rsqrt (varCentred x q + eps)) ∧ 0 < Ideal.rsqrt (varCentred x q + eps) := by
  obtain ⟨ε, hε, he⟩ := eps_pos
  rw [he]
  exact ⟨(real1_varCentred hx q).rsqrt_add_coe (varCentred_nonneg hx q) hε,
    (real1_varCentred hx q).rsqrt_add_coe_pos (varCentred_nonneg hx q) hε⟩

/-- The normaliser `(σ² + ε)^(−1/2)` of a real array of `100000` rows is a positive real (`σ²` taken
    from the two moments). -/
theorem isReal_rsqrt_varOfMoments_add_eps (x : Fin 100000 → Fin N → EReal) (hx : Real2 x) (q : Fin N) :
    IsReal (Ideal.rsqrt (varOfMoments (colSum x) (colSumSq x) q + eps))
      ∧ 0 < Ideal.rsqrt (varOfMoments (colSum x) (colSumSq x) q + eps) := by
  rw [var_forms x hx q]; exact isReal_rsqrt_varCentred_add_eps hx q

/-- The normalised activation is the same array whichever of the two variances it is given, on a
    real array of `100000` rows. -/
theorem normTanh_var_forms (x y : Fin 100000 → Fin N → EReal) (hx : Real2 x) (mean : Fin N → EReal) :
    normTanh y mean (varOfMoments (colSum x) (colSumSq x)) = normTanh y mean (varCentred x) := by
  rw [var_forms' x hx]

/-! ### Sums taken in blocks -/

/-- A sum over the `100000` rows taken in `50` blocks of `2000` rows is the sum over the rows:
    `∑ₜ ∑ₚ f (2000 t + p) = ∑ᵣ f r`, in any commutative additive monoid. -/
theorem sum_rows_in_blocks {A : Type*} [AddCommMonoid A] (f : Fin 100000 → A) :
    (∑ t : Fin 50, ∑ p : Fin 2000, f ⟨2000 * t.val + p.val, by have := t.isLt; have := p.isLt; omega⟩)
      = ∑ r : Fin 100000, f r :=
  sum_blocks_50_2000 f

end Cert.GraphConv
-- ==== Proof.Seeds1.lean ====
/-
  The dense results of the first layer agree.

  Each dense result is, on the kernel side, a region's output — a specified function (matrix product, sum of three,
  edge message, combined pre-activation, normalised activation) of the final contents of the region's operands — and,
  on the reference side, the same specified function of the final contents of the twin operands.  Twin operands are
  equal (the irregular steps: `GlueBridge`; the arguments: `BridgeBase`; earlier dense results: hypotheses here), so
  the results are equal entry by entry.  For the batch statistics the kernel's variance from the two moments equals
  the reference's mean squared deviation because every entry of the combined pre-activation is a real number.
-/
import proofs.«103573_j30391188587216_1_alg».proof.Proof.SeedsA
import proofs.«103573_j30391188587216_1_alg».proof.Proof.KernelEqsSpec
import proofs.«103573_j30391188587216_1_alg».proof.Proof.RefStages
import proofs.«103573_j30391188587216_1_alg».proof.Proof.SpecFinite

set_option maxRecDepth 16384

noncomputable section

namespace Cert.Bridge

open Idealize.ShloMosaic Idealize.ShloMosaic.TcCoe Idealize.SL.Sem Idealize.ShloMosaic.StableHlo Idealize.ShloMosaic.ValueIdx
open Cert.GraphConv

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (hagree : Agree m m') (c : Dev Cert.KernelIdeal.nD)
include hagree

local notation "𝐊" => Cert.KernelIdeal.HandRun.K m ρ c
local notation "𝐀" b => after (Cert.ReferenceIdeal.HandRun.ops (F := Ideal)) (launchContents m' c) (b : DevRef Cert.ReferenceIdeal.τ Cert.ReferenceIdeal.sig)

/-! ## Layer 1 -/

/-- The bias row of the kernel side is the bias argument: a reshape from `[200]` to `[1, 200]` read at `(0, q)`. -/
theorem bias_row_1 : (fun q : Fin 200 => 𝐊 Cert.KernelIdeal.main_v127 (ix2 (0 : Fin 1) q)) = at1 (n := 200) (𝐊 Cert.KernelIdeal.main_arg15) := by
  funext q
  rw [Cert.KernelIdeal.HandRun.eq_v127 m ρ c]
  refine (shapeCast_addUnit_apply (n := 1) ![200] _ _ (ix2 (0 : Fin 1) q)).trans ?_
  exact congrArg _ (funext fun a => by match a with | ⟨0, _⟩ => rfl)

/-- The combined pre-activation: the same combination of equal operands. -/
theorem seed_v128_0 : 𝐊 Cert.KernelIdeal.main_v128_0 = 𝐀 Cert.ReferenceIdeal.main_v143 := by
  refine ext2 (n0 := 100000) (n1 := 200) fun r q => ?_
  rw [Cert.KernelIdeal.HandRun.spec_v128_0 m ρ c r q, Cert.ReferenceIdeal.HandRun.st_v143 (launchContents m' c) r q]
  unfold Cert.KernelIdeal.HandRun.pre5K
  rw [bias_row_1 m ρ m' hagree c,
    (seed_v3 m ρ m' hagree c), (br_v126 m ρ m' hagree c (seed_v56 m ρ m' hagree c) (seed_v117 m ρ m' hagree c)), bk_arg14 m ρ m' hagree c, Cert.ReferenceIdeal.HandRun.kept_arg14 (launchContents m' c), bk_arg12 m ρ m' hagree c, Cert.ReferenceIdeal.HandRun.kept_arg12 (launchContents m' c), bk_arg15 m ρ m' hagree c, Cert.ReferenceIdeal.HandRun.kept_arg15 (launchContents m' c)]

/-- The mean row of the kernel side is the column mean of its pre-activation: the column sums divided by the number of rows. -/
theorem mean_row_1 (q : Fin 200) :
    𝐊 Cert.KernelIdeal.main_v130 (ix2 (0 : Fin 1) q) = meanOf (colSum (at2 (n0 := 100000) (n1 := 200) (𝐊 Cert.KernelIdeal.main_v128_0))) q := by
  rw [Cert.KernelIdeal.HandRun.eq_v130 m ρ c, Cert.KernelIdeal.HandRun.eq_v129 m ρ c, Cert.KernelIdeal.HandRun.eq_cst_34 m ρ c]
  show Ideal.div (𝐊 Cert.KernelIdeal.main_v128_1 (ix2 (0 : Fin 1) q)) rows = _
  rw [Cert.KernelIdeal.HandRun.spec_v128_1 m ρ c q]
  unfold meanOf colSum
  refine congrArg (fun s => Ideal.div s rows) (Finset.sum_congr rfl fun r _ => ?_)
  exact (Cert.KernelIdeal.HandRun.spec_v128_0 m ρ c r q).symm

/-- The variance row of the kernel side is the variance from the two moments of its pre-activation. -/
theorem var_row_1 (q : Fin 200) :
    𝐊 Cert.KernelIdeal.main_v134 (ix2 (0 : Fin 1) q)
      = varOfMoments (colSum (at2 (n0 := 100000) (n1 := 200) (𝐊 Cert.KernelIdeal.main_v128_0))) (colSumSq (at2 (n0 := 100000) (n1 := 200) (𝐊 Cert.KernelIdeal.main_v128_0))) q := by
  rw [Cert.KernelIdeal.HandRun.eq_v134 m ρ c, Cert.KernelIdeal.HandRun.eq_v132 m ρ c, Cert.KernelIdeal.HandRun.eq_v133 m ρ c, Cert.KernelIdeal.HandRun.eq_v131 m ρ c, Cert.KernelIdeal.HandRun.eq_cst_35 m ρ c]
  show Ideal.div (𝐊 Cert.KernelIdeal.main_v128_2 (ix2 (0 : Fin 1) q)) rows
      - @HMul.hMul EReal EReal EReal instHMul (𝐊 Cert.KernelIdeal.main_v130 (ix2 (0 : Fin 1) q)) (𝐊 Cert.KernelIdeal.main_v130 (ix2 (0 : Fin 1) q)) = _
  have hs : colSumSq (Cert.KernelIdeal.HandRun.pre5K m ρ c) q = colSumSq (at2 (n0 := 100000) (n1 := 200) (𝐊 Cert.KernelIdeal.main_v128_0)) q := by
    unfold colSumSq
    exact Finset.sum_congr rfl fun r _ => by rw [← Cert.KernelIdeal.HandRun.spec_v128_0 m ρ c r q]
  rw [mean_row_1 m ρ m' hagree c q, Cert.KernelIdeal.HandRun.spec_v128_2 m ρ c q, hs]
  rfl

/-- The normalised activation agrees once every entry of the pre-activation is a real number: the variance from the
    two moments is then the mean squared deviation. -/
theorem seed_v135 (hreal1 : Real2 (at2 (n0 := 100000) (n1 := 200) (𝐊 Cert.KernelIdeal.main_v128_0))) :
    𝐊 Cert.KernelIdeal.main_v135 = 𝐀 Cert.ReferenceIdeal.main_v157 := by
  have hpre := seed_v128_0 m ρ m' hagree c
  refine ext2 (n0 := 100000) (n1 := 200) fun r q => ?_
  rw [Cert.KernelIdeal.HandRun.spec_v135 m ρ c r q, Cert.ReferenceIdeal.HandRun.st_v157 (launchContents m' c) r q]
  have hm : (fun q : Fin 200 => 𝐊 Cert.KernelIdeal.main_v130 (ix2 (0 : Fin 1) q)) = at1 (n := 200) (𝐀 Cert.ReferenceIdeal.main_v146) := by
    funext q; rw [mean_row_1 m ρ m' hagree c q, hpre]; exact (Cert.ReferenceIdeal.HandRun.st_v146 (launchContents m' c) q).symm
  have hv : (fun q : Fin 200 => 𝐊 Cert.KernelIdeal.main_v134 (ix2 (0 : Fin 1) q)) = at1 (n := 200) (𝐀 Cert.ReferenceIdeal.main_v147) := by
    funext q; rw [var_row_1 m ρ m' hagree c q, var_forms _ hreal1 q, hpre]; exact (Cert.ReferenceIdeal.HandRun.st_v147 (launchContents m' c) q).symm
  rw [hm, hv, hpre]

/-- The fused node features of the second layer. -/
theorem seed_v139 (hreal1 : Real2 (at2 (n0 := 100000) (n1 := 200) (𝐊 Cert.KernelIdeal.main_v128_0))) :
    𝐊 Cert.KernelIdeal.main_v139 = 𝐀 Cert.ReferenceIdeal.main_v162 := by
  refine ext2 (n0 := 100000) (n1 := 200) fun r q => ?_
  rw [Cert.KernelIdeal.HandRun.spec_v139 m ρ c r q, Cert.ReferenceIdeal.HandRun.st_v162 (launchContents m' c) r q,
    seed_v135 m ρ m' hagree c hreal1, seed_v0 m ρ m' hagree c, seed_v1 m ρ m' hagree c]

/-! ## Layer 2 -/

/-- The incoming edge messages: the same projected difference scaled by the same normaliser. -/
theorem seed_v192 (hreal1 : Real2 (at2 (n0 := 100000) (n1 := 200) (𝐊 Cert.KernelIdeal.main_v128_0))) : 𝐊 Cert.KernelIdeal.main_v192 = 𝐀 Cert.ReferenceIdeal.main_v217 := by
  refine ext2 (n0 := 200000) (n1 := 200) fun e q => ?_
  rw [Cert.KernelIdeal.HandRun.spec_v192 m ρ c e q, Cert.ReferenceIdeal.HandRun.st_v217 (launchContents m' c) e q,
    (br_v190 m ρ m' hagree c (seed_v139 m ρ m' hagree c hreal1) (seed_v136 m ρ m' hagree c)), (br_v191 m ρ m' hagree c), bk_arg16 m ρ m' hagree c, Cert.ReferenceIdeal.HandRun.kept_arg16 (launchContents m' c)]

/-- The outgoing edge messages. -/
theorem seed_v253 (hreal1 : Real2 (at2 (n0 := 100000) (n1 := 200) (𝐊 Cert.KernelIdeal.main_v128_0))) : 𝐊 Cert.KernelIdeal.main_v253 = 𝐀 Cert.ReferenceIdeal.main_v280 := by
  refine ext2 (n0 := 200000) (n1 := 200) fun e q => ?_
  rw [Cert.KernelIdeal.HandRun.spec_v253 m ρ c e q, Cert.ReferenceIdeal.HandRun.st_v280 (launchContents m' c) e q,
    (br_v251 m ρ m' hagree c (seed_v139 m ρ m' hagree c hreal1) (seed_v136 m ρ m' hagree c)), (br_v252 m ρ m' hagree c), bk_arg17 m ρ m' hagree c, Cert.ReferenceIdeal.HandRun.kept_arg17 (launchContents m' c)]

/-- The bias row of the kernel side is the bias argument: a reshape from `[200]` to `[1, 200]` read at `(0, q)`. -/
theorem bias_row_2 : (fun q : Fin 200 => 𝐊 Cert.KernelIdeal.main_v263 (ix2 (0 : Fin 1) q)) = at1 (n := 200) (𝐊 Cert.KernelIdeal.main_arg21) := by
  funext q
  rw [Cert.KernelIdeal.HandRun.eq_v263 m ρ c]
  refine (shapeCast_addUnit_apply (n := 1) ![200] _ _ (ix2 (0 : Fin 1) q)).trans ?_
  exact congrArg _ (funext fun a => by match a with | ⟨0, _⟩ => rfl)

/-- The combined pre-activation: the same combination of equal operands. -/
theorem seed_v264_0 (hreal1 : Real2 (at2 (n0 := 100000) (n1 := 200) (𝐊 Cert.KernelIdeal.main_v128_0))) : 𝐊 Cert.KernelIdeal.main_v264_0 = 𝐀 Cert.ReferenceIdeal.main_v301 := by
  refine ext2 (n0 := 100000) (n1 := 200) fun r q => ?_
  rw [Cert.KernelIdeal.HandRun.spec_v264_0 m ρ c r q, Cert.ReferenceIdeal.HandRun.st_v301 (launchContents m' c) r q]
  unfold Cert.KernelIdeal.HandRun.pre11K
  rw [bias_row_2 m ρ m' hagree c,
    (seed_v139 m ρ m' hagree c hreal1), (br_v262 m ρ m' hagree c (seed_v192 m ρ m' hagree c hreal1) (seed_v253 m ρ m' hagree c hreal1)), bk_arg20 m ρ m' hagree c, Cert.ReferenceIdeal.HandRun.kept_arg20 (launchContents m' c), bk_arg18 m ρ m' hagree c, Cert.ReferenceIdeal.HandRun.kept_arg18 (launchContents m' c), bk_arg21 m ρ m' hagree c, Cert.ReferenceIdeal.HandRun.kept_arg21 (launchContents m' c)]

/-- The mean row of the kernel side is the column mean of its pre-activation: the column sums divided by the number of rows. -/
theorem mean_row_2 (hreal1 : Real2 (at2 (n0 := 100000) (n1 := 200) (𝐊 Cert.KernelIdeal.main_v128_0))) (q : Fin 200) :
    𝐊 Cert.KernelIdeal.main_v266 (ix2 (0 : Fin 1) q) = meanOf (colSum (at2 (n0 := 100000) (n1 := 200) (𝐊 Cert.KernelIdeal.main_v264_0))) q := by
  rw [Cert.KernelIdeal.HandRun.eq_v266 m ρ c, Cert.KernelIdeal.HandRun.eq_v265 m ρ c, Cert.KernelIdeal.HandRun.eq_cst_72 m ρ c]
  show Ideal.div (𝐊 Cert.KernelIdeal.main_v264_1 (ix2 (0 : Fin 1) q)) rows = _
  rw [Cert.KernelIdeal.HandRun.spec_v264_1 m ρ c q]
  unfold meanOf colSum
  refine congrArg (fun s => Ideal.div s rows) (Finset.sum_congr rfl fun r _ => ?_)
  exact (Cert.KernelIdeal.HandRun.spec_v264_0 m ρ c r q).symm

/-- The variance row of the kernel side is the variance from the two moments of its pre-activation. -/
theorem var_row_2 (hreal1 : Real2 (at2 (n0 := 100000) (n1 := 200) (𝐊 Cert.KernelIdeal.main_v128_0))) (q : Fin 200) :
    𝐊 Cert.KernelIdeal.main_v270 (ix2 (0 : Fin 1) q)
      = varOfMoments (colSum (at2 (n0 := 100000) (n1 := 200) (𝐊 Cert.KernelIdeal.main_v264_0))) (colSumSq (at2 (n0 := 100000) (n1 := 200) (𝐊 Cert.KernelIdeal.main_v264_0))) q := by
  rw [Cert.KernelIdeal.HandRun.eq_v270 m ρ c, Cert.KernelIdeal.HandRun.eq_v268 m ρ c, Cert.KernelIdeal.HandRun.eq_v269 m ρ c, Cert.KernelIdeal.HandRun.eq_v267 m ρ c, Cert.KernelIdeal.HandRun.eq_cst_73 m ρ c]
  show Ideal.div (𝐊 Cert.KernelIdeal.main_v264_2 (ix2 (0 : Fin 1) q)) rows
      - @HMul.hMul EReal EReal EReal instHMul (𝐊 Cert.KernelIdeal.main_v266 (ix2 (0 : Fin 1) q)) (𝐊 Cert.KernelIdeal.main_v266 (ix2 (0 : Fin 1) q)) = _
  have hs : colSumSq (Cert.KernelIdeal.HandRun.pre11K m ρ c) q = colSumSq (at2 (n0 := 100000) (n1 := 200) (𝐊 Cert.KernelIdeal.main_v264_0)) q := by
    unfold colSumSq
    exact Finset.sum_congr rfl fun r _ => by rw [← Cert.KernelIdeal.HandRun.spec_v264_0 m ρ c r q]
  rw [mean_row_2 m ρ m' hagree c hreal1 q, Cert.KernelIdeal.HandRun.spec_v264_2 m ρ c q, hs]
  rfl

/-- The normalised activation agrees once every entry of the pre-activation is a real number: the variance from the
    two moments is then the mean squared deviation. -/
theorem seed_v271 (hreal1 : Real2 (at2 (n0 := 100000) (n1 := 200) (𝐊 Cert.KernelIdeal.main_v128_0))) (hreal2 : Real2 (at2 (n0 := 100000) (n1 := 200) (𝐊 Cert.KernelIdeal.main_v264_0))) :
    𝐊 Cert.KernelIdeal.main_v271 = 𝐀 Cert.ReferenceIdeal.main_v315 := by
  have hpre := seed_v264_0 m ρ m' hagree c hreal1
  refine ext2 (n0 := 100000) (n1 := 200) fun r q => ?_
  rw [Cert.KernelIdeal.HandRun.spec_v271 m ρ c r q, Cert.ReferenceIdeal.HandRun.st_v315 (launchContents m' c) r q]
  have hm : (fun q : Fin 200 => 𝐊 Cert.KernelIdeal.main_v266 (ix2 (0 : Fin 1) q)) = at1 (n := 200) (𝐀 Cert.ReferenceIdeal.main_v304) := by
    funext q; rw [mean_row_2 m ρ m' hagree c hreal1 q, hpre]; exact (Cert.ReferenceIdeal.HandRun.st_v304 (launchContents m' c) q).symm
  have hv : (fun q : Fin 200 => 𝐊 Cert.KernelIdeal.main_v270 (ix2 (0 : Fin 1) q)) = at1 (n := 200) (𝐀 Cert.ReferenceIdeal.main_v305) := by
    funext q; rw [var_row_2 m ρ m' hagree c hreal1 q, var_forms _ hreal2 q, hpre]; exact (Cert.ReferenceIdeal.HandRun.st_v305 (launchContents m' c) q).symm
  rw [hm, hv, hpre]

/-- The projected relation table: the same matrix product. -/
theorem seed_v272 (hreal1 : Real2 (at2 (n0 := 100000) (n1 := 200) (𝐊 Cert.KernelIdeal.main_v128_0))) : 𝐊 Cert.KernelIdeal.main_v272 = 𝐀 Cert.ReferenceIdeal.main_v316 := by
  refine ext2 (n0 := 401) (n1 := 200) fun r q => ?_
  rw [Cert.KernelIdeal.HandRun.spec_v272 m ρ c r q, Cert.ReferenceIdeal.HandRun.st_v316 (launchContents m' c) r q, (br_v138 m ρ m' hagree c (seed_v136 m ρ m' hagree c)), bk_arg19 m ρ m' hagree c, Cert.ReferenceIdeal.HandRun.kept_arg19 (launchContents m' c)]

/-! ## The three results -/

/-- The node features after the second layer agree. -/
theorem final_x (hreal1 : Real2 (at2 (n0 := 100000) (n1 := 200) (𝐊 Cert.KernelIdeal.main_v128_0))) (hreal2 : Real2 (at2 (n0 := 100000) (n1 := 200) (𝐊 Cert.KernelIdeal.main_v264_0))) :
    𝐊 Cert.KernelIdeal.main_v271 = 𝐀 Cert.ReferenceIdeal.main_v315 := seed_v271 m ρ m' hagree c hreal1 hreal2

/-- The gathered node embeddings agree: the same rows of equal arrays. -/
theorem final_sub (hreal1 : Real2 (at2 (n0 := 100000) (n1 := 200) (𝐊 Cert.KernelIdeal.main_v128_0))) (hreal2 : Real2 (at2 (n0 := 100000) (n1 := 200) (𝐊 Cert.KernelIdeal.main_v264_0))) :
    𝐊 Cert.KernelIdeal.main_v280 = 𝐀 Cert.ReferenceIdeal.main_v324 :=
  br_v280 m ρ m' hagree c (seed_v271 m ρ m' hagree c hreal1 hreal2)

/-- The gathered relation embeddings agree. -/
theorem final_rel (hreal1 : Real2 (at2 (n0 := 100000) (n1 := 200) (𝐊 Cert.KernelIdeal.main_v128_0))) :
    𝐊 Cert.KernelIdeal.main_v287 = 𝐀 Cert.ReferenceIdeal.main_v331 :=
  br_v287 m ρ m' hagree c (seed_v272 m ρ m' hagree c hreal1)

end Cert.Bridge

end
-- ==== Proof.PreFinite.lean ====
/-
  The precondition, opened: every entry of every float argument is a real number.

  The precondition is one bit: the conjunction, over the eighteen float arguments, of "every entry's absolute value
  is below +∞".  A conjunction that is one has both conjuncts one; an all-reduction by `and` that is one had a one at
  every entry; and an extended real whose absolute value `max x (−x)` is below `⊤` is neither `⊥` nor `⊤`.
-/
import proofs.«103573_j30391188587216_1_alg».proof.Defs
import Idealize.ShloMosaic.Lib.ReduceAll
import Idealize.ShloMosaic.Lib.ValueIdx

set_option maxRecDepth 16384

noncomputable section

namespace Cert.PreFinite

open Idealize.ShloMosaic Idealize.ShloMosaic.ValueIdx Cert.Pre_finite_inputs

variable [hPre_finite_inputs : Cert.Pre_finite_inputs.Facts]

/-- The scalar shape has one index. -/
instance : Subsingleton S_.Idx := ⟨fun a b => funext fun d => d.elim0⟩

/-- The word `0x7F800000` is `+∞`. -/
theorem top_word : Ideal.ofBits .f32 0x7F800000#32 = (⊤ : EReal) := by simp [Ideal.ofBits, Ideal.ieee]

/-- An extended real whose absolute value is below `+∞` is a real number. -/
theorem real_of_test (x : EReal)
    (h : FloatOps.cmpf (F := Ideal) .olt (FloatOps.absf (F := Ideal) (φ := .f32) x) (Ideal.ofBits .f32 0x7F800000#32) = 1#1) :
    ∃ r : ℝ, x = (r : EReal) := by
  rw [top_word] at h
  change BitVec.ofBool (decide (max x (-x) < (⊤ : EReal))) = 1#1 at h
  induction x using EReal.rec with
  | bot => exfalso; revert h; simp
  | coe r => exact ⟨r, rfl⟩
  | top => exfalso; revert h; simp

/-- One test: when the all-reduction of "the absolute value is below +∞" over an array is one, every entry is real. -/
theorem all_real {S : Shape} {axes : List (Fin S.rank)} (a : FVec Ideal S .f32) (bc : S_.BroadcastsInDim S (![] : Fin 0 → Fin S.rank))
    (red : S.ReducesTo axes S_) (hu : 0 < S_.numel)
    (h : Host.reduce IntOp.andi (cmpf .olt (Host.absf a) (broadcastInDim S ![] bc (constant (F := Ideal) S_ .f32 0x7F800000#32)))
      (constantI S_ 1 1#1) red hu ix0 = 1#1) (i : S.Idx) : ∃ r : ℝ, a i = (r : EReal) :=
  real_of_test (a i) (Host.reduce_andi_all _ _ red hu ix0 h i)

/-- A conjunction of two bits that is one has both bits one. -/
theorem split_and (a b : IVec S_ 1) (h : andi a b ix0 = 1#1) : a ix0 = 1#1 ∧ b ix0 = 1#1 := IntOp.andi_eq_one.mp h

/-- Under the precondition every entry of every float argument is a real number. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal))
      ∧ (∀ i, ∃ r : ℝ, m ((c.tc : Thread Cert.KernelIdeal.nD Cert.KernelIdeal.τ).loc Cert.KernelIdeal.main_arg17) i = (r : EReal))
      ∧ (∀ i, ∃ r : ℝ, m ((c.tc : Thread Cert.KernelIdeal.nD Cert.KernelIdeal.τ).loc Cert.KernelIdeal.main_arg18) i = (r : EReal))
      ∧ (∀ i, ∃ r : ℝ, m ((c.tc : Thread Cert.KernelIdeal.nD Cert.KernelIdeal.τ).loc Cert.KernelIdeal.main_arg19) i = (r : EReal))
      ∧ (∀ i, ∃ r : ℝ, m ((c.tc : Thread Cert.KernelIdeal.nD Cert.KernelIdeal.τ).loc Cert.KernelIdeal.main_arg20) i = (r : EReal))
      ∧ (∀ i, ∃ r : ℝ, m ((c.tc : Thread Cert.KernelIdeal.nD Cert.KernelIdeal.τ).loc Cert.KernelIdeal.main_arg21) i = (r : EReal)) := by
  have h := congrFun (hpre c) ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at h
  obtain ⟨h, h21⟩ := split_and _ _ h
  obtain ⟨h, h20⟩ := split_and _ _ h
  obtain ⟨h, h19⟩ := split_and _ _ h
  obtain ⟨h, h18⟩ := split_and _ _ h
  obtain ⟨h, h17⟩ := split_and _ _ h
  obtain ⟨h, h16⟩ := split_and _ _ h
  obtain ⟨h, h15⟩ := split_and _ _ h
  obtain ⟨h, h14⟩ := split_and _ _ h
  obtain ⟨h, h13⟩ := split_and _ _ h
  obtain ⟨h, h12⟩ := split_and _ _ h
  obtain ⟨h, h11⟩ := split_and _ _ h
  obtain ⟨h, h10⟩ := split_and _ _ h
  obtain ⟨h, h9⟩ := split_and _ _ h
  obtain ⟨h, h8⟩ := split_and _ _ h
  obtain ⟨h, h7⟩ := split_and _ _ h
  obtain ⟨h, h6⟩ := split_and _ _ h
  obtain ⟨h, h5⟩ := split_and _ _ h
  exact ⟨all_real _ _ _ _ h, all_real _ _ _ _ h5, all_real _ _ _ _ h6, all_real _ _ _ _ h7, all_real _ _ _ _ h8, all_real _ _ _ _ h9, all_real _ _ _ _ h10, all_real _ _ _ _ h11, all_real _ _ _ _ h12, all_real _ _ _ _ h13, all_real _ _ _ _ h14, all_real _ _ _ _ h15, all_real _ _ _ _ h16, all_real _ _ _ _ h17, all_real _ _ _ _ h18, all_real _ _ _ _ h19, all_real _ _ _ _ h20, all_real _ _ _ _ h21⟩

end Cert.PreFinite

end
-- ==== Proof.PreReal.lean ====
/-
  The precondition in the forms the layer statements use: every float argument is an array of
  real numbers.

  The precondition says that no entry of any of the eighteen float arguments is `+∞`, `−∞` or
  junk. Here that is restated argument by argument: as "all real" on the argument as the program
  holds it, and as a real array by coordinates (two axes: rows and columns; one axis: one
  coordinate; a one-row array also as its one row).
-/
import proofs.«103573_j30391188587216_1_alg».proof.Proof.PreFinite
import proofs.«103573_j30391188587216_1_alg».proof.Proof.Spec
import proofs.«103573_j30391188587216_1_alg».proof.Proof.LibMoments
import proofs.«103573_j30391188587216_1_alg».proof.Proof.LibFiniteOps
import proofs.«103573_j30391188587216_1_alg».proof.Proof.SpecFinite

noncomputable section

namespace Cert.PreReal

open Idealize.ShloMosaic Idealize.ShloMosaic.ValueIdx Idealize.LibMoments Idealize.LibFiniteOps Cert.GraphConv

variable [hPre_finite_inputs : Cert.Pre_finite_inputs.Facts]

variable (m : (ℓ : Loc Cert.KernelIdeal.nD Cert.KernelIdeal.τ Cert.KernelIdeal.sig) → Buf (Elt Ideal) ℓ)
  (hpre : Cert.Pre_KernelIdeal m) (c : Dev Cert.KernelIdeal.nD)

include hpre

/-- Under the precondition every entry of the initial node features (argument 4) is real. -/
theorem allReal_arg4 :
    AllReal (m ((c.tc : Thread Cert.KernelIdeal.nD Cert.KernelIdeal.τ).loc Cert.KernelIdeal.main_arg4)) :=
  (Cert.PreFinite.finite_args m hpre c).1

/-- Under the precondition the initial node features (argument 4), read by rows and columns, form a real array. -/
theorem real2_arg4 :
    Real2 (at2 (n0 := 100000) (n1 := 200) (m ((c.tc : Thread Cert.KernelIdeal.nD Cert.KernelIdeal.τ).loc Cert.KernelIdeal.main_arg4))) :=
  fun r q => (Cert.PreFinite.finite_args m hpre c).1 (ix2 r q)

/-- Under the precondition every entry of the raw image features (argument 5) is real. -/
theorem allReal_arg5 :
    AllReal (m ((c.tc : Thread Cert.KernelIdeal.nD Cert.KernelIdeal.τ).loc Cert.KernelIdeal.main_arg5)) :=
  (Cert.PreFinite.finite_args m hpre c).2.1

/-- Under the precondition the raw image features (argument 5), read by rows and columns, form a real array. -/
theorem real2_arg5 :
    Real2 (at2 (n0 := 100000) (n1 := 768) (m ((c.tc : Thread Cert.KernelIdeal.nD Cert.KernelIdeal.τ).loc Cert.KernelIdeal.main_arg5))) :=
  fun r q => (Cert.PreFinite.finite_args m hpre c).2.1 (ix2 r q)

/-- Under the precondition every entry of the image projection (argument 6) is real. -/
theorem allReal_arg6 :
    AllReal (m ((c.tc : Thread Cert.KernelIdeal.nD Cert.KernelIdeal.τ).loc Cert.KernelIdeal.main_arg6)) :=
  (Cert.PreFinite.finite_args m hpre c).2.2.1

/-- Under the precondition the image projection (argument 6), read by rows and columns, form a real array. -/
theorem real2_arg6 :
    Real2 (at2 (n0 := 768) (n1 := 200) (m ((c.tc : Thread Cert.KernelIdeal.nD Cert.KernelIdeal.τ).loc Cert.KernelIdeal.main_arg6))) :=
  fun r q => (Cert.PreFinite.finite_args m hpre c).2.2.1 (ix2 r q)

/-- Under the precondition every entry of the raw description features (argument 7) is real. -/
theorem allReal_arg7 :
    AllReal (m ((c.tc : Thread Cert.KernelIdeal.nD Cert.KernelIdeal.τ).loc Cert.KernelIdeal.main_arg7)) :=
  (Cert.PreFinite.finite_args m hpre c).2.2.2.1

/-- Under the precondition the raw description features (argument 7), read by rows and columns, form a real array. -/
theorem real2_arg7 :
    Real2 (at2 (n0 := 100000) (n1 := 768) (m ((c.tc : Thread Cert.KernelIdeal.nD Cert.KernelIdeal.τ).loc Cert.KernelIdeal.main_arg7))) :=
  fun r q => (Cert.PreFinite.finite_args m hpre c).2.2.2.1 (ix2 r q)

/-- Under the precondition every entry of the description projection (argument 8) is real. -/
theorem allReal_arg8 :
    AllReal (m ((c.tc : Thread Cert.KernelIdeal.nD Cert.KernelIdeal.τ).loc Cert.KernelIdeal.main_arg8)) :=
  (Cert.PreFinite.finite_args m hpre c).2.2.2.2.1

/-- Under the precondition the description projection (argument 8), read by rows and columns, form a real array. -/
theorem real2_arg8 :
    Real2 (at2 (n0 := 768) (n1 := 200) (m ((c.tc : Thread Cert.KernelIdeal.nD Cert.KernelIdeal.τ).loc Cert.KernelIdeal.main_arg8))) :=
  fun r q => (Cert.PreFinite.finite_args m hpre c).2.2.2.2.1 (ix2 r q)

/-- Under the precondition every entry of the initial relation embeddings (argument 9) is real. -/
theorem allReal_arg9 :
    AllReal (m ((c.tc : Thread Cert.KernelIdeal.nD Cert.KernelIdeal.τ).loc Cert.KernelIdeal.main_arg9)) :=
  (Cert.PreFinite.finite_args m hpre c).2.2.2.2.2.1

/-- Under the precondition the initial relation embeddings (argument 9), read by rows and columns, form a real array. -/
theorem real2_arg9 :
    Real2 (at2 (n0 := 400) (n1 := 200) (m ((c.tc : Thread Cert.KernelIdeal.nD Cert.KernelIdeal.τ).loc Cert.KernelIdeal.main_arg9))) :=
  fun r q => (Cert.PreFinite.finite_args m hpre c).2.2.2.2.2.1 (ix2 r q)

/-- Under the precondition every entry of the first layer's in-edge weights (argument 10) is real. -/
theorem allReal_arg10 :
    AllReal (m ((c.tc : Thread Cert.KernelIdeal.nD Cert.KernelIdeal.τ).loc Cert.KernelIdeal.main_arg10)) :=
  (Cert.PreFinite.finite_args m hpre c).2.2.2.2.2.2.1

/-- Under the precondition the first layer's in-edge weights (argument 10), read by rows and columns, form a real array. -/
theorem real2_arg10 :
    Real2 (at2 (n0 := 200) (n1 := 200) (m ((c.tc : Thread Cert.KernelIdeal.nD Cert.KernelIdeal.τ).loc Cert.KernelIdeal.main_arg10))) :=
  fun r q => (Cert.PreFinite.finite_args m hpre c).2.2.2.2.2.2.1 (ix2 r q)

/-- Under the precondition every entry of the first layer's out-edge weights (argument 11) is real. -/
theorem allReal_arg11 :
    AllReal (m ((c.tc : Thread Cert.KernelIdeal.nD Cert.KernelIdeal.τ).loc Cert.KernelIdeal.main_arg11)) :=
  (Cert.PreFinite.finite_args m hpre c).2.2.2.2.2.2.2.1

/-- Under the precondition the first layer's out-edge weights (argument 11), read by rows and columns, form a real array. -/
theorem real2_arg11 :
    Real2 (at2 (n0 := 200) (n1 := 200) (m ((c.tc : Thread Cert.KernelIdeal.nD Cert.KernelIdeal.τ).loc Cert.KernelIdeal.main_arg11))) :=
  fun r q => (Cert.PreFinite.finite_args m hpre c).2.2.2.2.2.2.2.1 (ix2 r q)

/-- Under the precondition every entry of the first layer's self-loop weights (argument 12) is real. -/
theorem allReal_arg12 :
    AllReal (m ((c.tc : Thread Cert.KernelIdeal.nD Cert.KernelIdeal.τ).loc Cert.KernelIdeal.main_arg12)) :=
  (Cert.PreFinite.finite_args m hpre c).2.2.2.2.2.2.2.2.1

/-- Under the precondition the first layer's self-loop weights (argument 12), read by rows and columns, form a real array. -/
theorem real2_arg12 :
    Real2 (at2 (n0 := 200) (n1 := 200) (m ((c.tc : Thread Cert.KernelIdeal.nD Cert.KernelIdeal.τ).loc Cert.KernelIdeal.main_arg12))) :=
  fun r q => (Cert.PreFinite.finite_args m hpre c).2.2.2.2.2.2.2.2.1 (ix2 r q)

/-- Under the precondition every entry of the first layer's relation weights (argument 13) is real. -/
theorem allReal_arg13 :
    AllReal (m ((c.tc : Thread Cert.KernelIdeal.nD Cert.KernelIdeal.τ).loc Cert.KernelIdeal.main_arg13)) :=
  (Cert.PreFinite.finite_args m hpre c).2.2.2.2.2.2.2.2.2.1

/-- Under the precondition the first layer's relation weights (argument 13), read by rows and columns, form a real array. -/
theorem real2_arg13 :
    Real2 (at2 (n0 := 200) (n1 := 200) (m ((c.tc : Thread Cert.KernelIdeal.nD Cert.KernelIdeal.τ).loc Cert.KernelIdeal.main_arg13))) :=
  fun r q => (Cert.PreFinite.finite_args m hpre c).2.2.2.2.2.2.2.2.2.1 (ix2 r q)

/-- Under the precondition every entry of the first layer's self-loop relation (argument 14) is real. -/
theorem allReal_arg14 :
    AllReal (m ((c.tc : Thread Cert.KernelIdeal.nD Cert.KernelIdeal.τ).loc Cert.KernelIdeal.main_arg14)) :=
  (Cert.PreFinite.finite_args m hpre c).2.2.2.2.2.2.2.2.2.2.1

/-- Under the precondition the first layer's self-loop relation (argument 14), read by rows and columns, form a real array. -/
theorem real2_arg14 :
    Real2 (at2 (n0 := 1) (n1 := 200) (m ((c.tc : Thread Cert.KernelIdeal.nD Cert.KernelIdeal.τ).loc Cert.KernelIdeal.main_arg14))) :=
  fun r q => (Cert.PreFinite.finite_args m hpre c).2.2.2.2.2.2.2.2.2.2.1 (ix2 r q)

/-- Under the precondition the one row of the first layer's self-loop relation (argument 14) is real. -/
theorem real1_row_arg14 :
    Real1 (fun k : Fin 200 => m ((c.tc : Thread Cert.KernelIdeal.nD Cert.KernelIdeal.τ).loc Cert.KernelIdeal.main_arg14) (ix2 (0 : Fin 1) k)) :=
  fun k => (Cert.PreFinite.finite_args m hpre c).2.2.2.2.2.2.2.2.2.2.1 (ix2 (0 : Fin 1) k)

/-- Under the precondition every entry of the first layer's bias (argument 15) is real. -/
theorem allReal_arg15 :
    AllReal (m ((c.tc : Thread Cert.KernelIdeal.nD Cert.KernelIdeal.τ).loc Cert.KernelIdeal.main_arg15)) :=
  (Cert.PreFinite.finite_args m hpre c).2.2.2.2.2.2.2.2.2.2.2.1

/-- Under the precondition the first layer's bias (argument 15), read by its coordinate, forms a real array. -/
theorem real1_arg15 :
    Real1 (at1 (n := 200) (m ((c.tc : Thread Cert.KernelIdeal.nD Cert.KernelIdeal.τ).loc Cert.KernelIdeal.main_arg15))) :=
  fun q => (Cert.PreFinite.finite_args m hpre c).2.2.2.2.2.2.2.2.2.2.2.1 (ix1 q)

/-- Under the precondition every entry of the second layer's in-edge weights (argument 16) is real. -/
theorem allReal_arg16 :
    AllReal (m ((c.tc : Thread Cert.KernelIdeal.nD Cert.KernelIdeal.τ).loc Cert.KernelIdeal.main_arg16)) :=
  (Cert.PreFinite.finite_args m hpre c).2.2.2.2.2.2.2.2.2.2.2.2.1

/-- Under the precondition the second layer's in-edge weights (argument 16), read by rows and columns, form a real array. -/
theorem real2_arg16 :
    Real2 (at2 (n0 := 200) (n1 := 200) (m ((c.tc : Thread Cert.KernelIdeal.nD Cert.KernelIdeal.τ).loc Cert.KernelIdeal.main_arg16))) :=
  fun r q => (Cert.PreFinite.finite_args m hpre c).2.2.2.2.2.2.2.2.2.2.2.2.1 (ix2 r q)

/-- Under the precondition every entry of the second layer's out-edge weights (argument 17) is real. -/
theorem allReal_arg17 :
    AllReal (m ((c.tc : Thread Cert.KernelIdeal.nD Cert.KernelIdeal.τ).loc Cert.KernelIdeal.main_arg17)) :=
  (Cert.PreFinite.finite_args m hpre c).2.2.2.2.2.2.2.2.2.2.2.2.2.1

/-- Under the precondition the second layer's out-edge weights (argument 17), read by rows and columns, form a real array. -/
theorem real2_arg17 :
    Real2 (at2 (n0 := 200) (n1 := 200) (m ((c.tc : Thread Cert.KernelIdeal.nD Cert.KernelIdeal.τ).loc Cert.KernelIdeal.main_arg17))) :=
  fun r q => (Cert.PreFinite.finite_args m hpre c).2.2.2.2.2.2.2.2.2.2.2.2.2.1 (ix2 r q)

/-- Under the precondition every entry of the second layer's self-loop weights (argument 18) is real. -/
theorem allReal_arg18 :
    AllReal (m ((c.tc : Thread Cert.KernelIdeal.nD Cert.KernelIdeal.τ).loc Cert.KernelIdeal.main_arg18)) :=
  (Cert.PreFinite.finite_args m hpre c).2.2.2.2.2.2.2.2.2.2.2.2.2.2.1

/-- Under the precondition the second layer's self-loop weights (argument 18), read by rows and columns, form a real array. -/
theorem real2_arg18 :
    Real2 (at2 (n0 := 200) (n1 := 200) (m ((c.tc : Thread Cert.KernelIdeal.nD Cert.KernelIdeal.τ).loc Cert.KernelIdeal.main_arg18))) :=
  fun r q => (Cert.PreFinite.finite_args m hpre c).2.2.2.2.2.2.2.2.2.2.2.2.2.2.1 (ix2 r q)

/-- Under the precondition every entry of the second layer's relation weights (argument 19) is real. -/
theorem allReal_arg19 :
    AllReal (m ((c.tc : Thread Cert.KernelIdeal.nD Cert.KernelIdeal.τ).loc Cert.KernelIdeal.main_arg19)) :=
  (Cert.PreFinite.finite_args m hpre c).2.2.2.2.2.2.2.2.2.2.2.2.2.2.2.1

/-- Under the precondition the second layer's relation weights (argument 19), read by rows and columns, form a real array. -/
theorem real2_arg19 :
    Real2 (at2 (n0 := 200) (n1 := 200) (m ((c.tc : Thread Cert.KernelIdeal.nD Cert.KernelIdeal.τ).loc Cert.KernelIdeal.main_arg19))) :=
  fun r q => (Cert.PreFinite.finite_args m hpre c).2.2.2.2.2.2.2.2.2.2.2.2.2.2.2.1 (ix2 r q)

/-- Under the precondition every entry of the second layer's self-loop relation (argument 20) is real. -/
theorem allReal_arg20 :
    AllReal (m ((c.tc : Thread Cert.KernelIdeal.nD Cert.KernelIdeal.τ).loc Cert.KernelIdeal.main_arg20)) :=
  (Cert.PreFinite.finite_args m hpre c).2.2.2.2.2.2.2.2.2.2.2.2.2.2.2.2.1

/-- Under the precondition the second layer's self-loop relation (argument 20), read by rows and columns, form a real array. -/
theorem real2_arg20 :
    Real2 (at2 (n0 := 1) (n1 := 200) (m ((c.tc : Thread Cert.KernelIdeal.nD Cert.KernelIdeal.τ).loc Cert.KernelIdeal.main_arg20))) :=
  fun r q => (Cert.PreFinite.finite_args m hpre c).2.2.2.2.2.2.2.2.2.2.2.2.2.2.2.2.1 (ix2 r q)

/-- Under the precondition the one row of the second layer's self-loop relation (argument 20) is real. -/
theorem real1_row_arg20 :
    Real1 (fun k : Fin 200 => m ((c.tc : Thread Cert.KernelIdeal.nD Cert.KernelIdeal.τ).loc Cert.KernelIdeal.main_arg20) (ix2 (0 : Fin 1) k)) :=
  fun k => (Cert.PreFinite.finite_args m hpre c).2.2.2.2.2.2.2.2.2.2.2.2.2.2.2.2.1 (ix2 (0 : Fin 1) k)

/-- Under the precondition every entry of the second layer's bias (argument 21) is real. -/
theorem allReal_arg21 :
    AllReal (m ((c.tc : Thread Cert.KernelIdeal.nD Cert.KernelIdeal.τ).loc Cert.KernelIdeal.main_arg21)) :=
  (Cert.PreFinite.finite_args m hpre c).2.2.2.2.2.2.2.2.2.2.2.2.2.2.2.2.2

/-- Under the precondition the second layer's bias (argument 21), read by its coordinate, forms a real array. -/
theorem real1_arg21 :
    Real1 (at1 (n := 200) (m ((c.tc : Thread Cert.KernelIdeal.nD Cert.KernelIdeal.τ).loc Cert.KernelIdeal.main_arg21))) :=
  fun q => (Cert.PreFinite.finite_args m hpre c).2.2.2.2.2.2.2.2.2.2.2.2.2.2.2.2.2 (ix1 q)

end Cert.PreReal

end
-- ==== Proof.GlueFinite.lean ====
/-
  The irregular steps of the network keep every entry real.

  The degree of a node is a count: ones scattered and added into zeros. Its inverse square root
  is taken of `max (deg, 1)`, which is at least `1`, so it is a positive real whatever the edge
  list; where the degree is not positive the result is replaced by `0`. An edge's normaliser is
  the product of two gathered inverse roots; the difference an edge projects is a gathered
  feature row minus a gathered relation row; the messages are scattered and added into zeros.
  A gather reads entries of its operand and an accumulating scatter adds finitely many updates
  to an entry, so each of these arrays is all real as soon as its operands are — for ANY
  dimension numbers and ANY integer index arrays.
-/
import proofs.«103573_j30391188587216_1_alg».proof.Proof.Spec
import proofs.«103573_j30391188587216_1_alg».proof.Proof.LibMoments
import proofs.«103573_j30391188587216_1_alg».proof.Proof.LibFiniteOps
import proofs.«103573_j30391188587216_1_alg».proof.Proof.SpecFinite

open scoped BigOperators

namespace Cert.GraphConv

open Idealize.ShloMosaic Idealize.ShloMosaic.ValueIdx Idealize.LibMoments Idealize.LibFiniteOps

/-! ### The inverse square roots of the degrees -/

/-- The inverse-root degrees `where (deg > z', rsqrt (max (deg, o')), z'')` with
    `deg = scatter-add (z, idx, o)` are all real, for ANY scatter dimension numbers and ANY index
    array, as soon as: the operand `z` and the updates `o` are all real (then so is `deg`: an entry
    plus finitely many updates); every entry of `o'` is `1` (then `max (deg, o') ≥ 1 > 0`, a positive
    real, whose reciprocal square root is real — nothing is asked of the sign of `deg`); and the
    alternative `z''` is all real. The compared vector `z'` is arbitrary: a selection between two
    all-real vectors is all real whatever the condition. -/
theorem real_invRootDeg_of {s si u : Shape} {φ : FTy} {w : Nat} (d : ScatterDims s si u) (idx : IVec si w)
    {zeros : FVec Ideal s φ} {ones : FVec Ideal u φ} (zeros' : FVec Ideal s φ) {ones' zeros'' : FVec Ideal s φ}
    (hz : AllReal zeros) (ho : AllReal ones) (ho' : ∀ i, ones' i = 1) (hz'' : AllReal zeros'') :
    AllReal (select (cmpf .ogt (Host.scatterAdd d zeros idx ones) zeros')
      (Host.rsqrt (maximumf (Host.scatterAdd d zeros idx ones) ones')) zeros'') := by
  have hdeg : AllReal (Host.scatterAdd d zeros idx ones) := allReal_hostScatterAdd d idx hz ho
  have hone : AllReal ones' := fun i => by rw [ho' i]; exact isReal_one
  have hmax : AllReal (maximumf (Host.scatterAdd d zeros idx ones) ones') := allReal_maximumf hdeg hone
  exact allReal_select _ (allReal_hostRsqrt hmax fun i => (one_le_maximumf_of_right_eq_one _ ho' i).2) hz''

/-- The broadcast of the constant `0.0` is all real. -/
theorem allReal_bcast_zero {s0 s : Shape} (ds : Fin s0.rank → Fin s.rank) (hs : s0.BroadcastsInDim s ds) :
    AllReal (broadcastInDim s ds hs (constant (F := Ideal) s0 .f32 0x00000000#32)) :=
  allReal_broadcastInDim s ds hs (allReal_constant_f32_zero s0)

/-- The broadcast of the constant `1.0` is all real. -/
theorem allReal_bcast_one {s0 s : Shape} (ds : Fin s0.rank → Fin s.rank) (hs : s0.BroadcastsInDim s ds) :
    AllReal (broadcastInDim s ds hs (constant (F := Ideal) s0 .f32 0x3F800000#32)) :=
  allReal_broadcastInDim s ds hs (allReal_constant_f32_one s0)

/-- Every entry of the broadcast of the constant `1.0` is `1`. -/
theorem bcast_one_apply {s0 s : Shape} (ds : Fin s0.rank → Fin s.rank) (hs : s0.BroadcastsInDim s ds) (i : s.Idx) :
    broadcastInDim s ds hs (constant (F := Ideal) s0 .f32 0x3F800000#32) i = 1 :=
  (broadcastInDim_constant_apply ds hs _ i).trans ofBits_f32_one

/-- Every entry of the broadcast of the constant `0.0` is `0`. -/
theorem bcast_zero_apply {s0 s : Shape} (ds : Fin s0.rank → Fin s.rank) (hs : s0.BroadcastsInDim s ds) (i : s.Idx) :
    broadcastInDim s ds hs (constant (F := Ideal) s0 .f32 0x00000000#32) i = 0 :=
  (broadcastInDim_constant_apply ds hs _ i).trans ofBits_f32_zero

/-- The inverse-root degrees in the operation forms of the programs — ones (the broadcast constant
    `1.0`) scattered and added into zeros (the broadcast constant `0.0`), compared with zeros,
    maximum with ones, reciprocal square root, selection against zeros — are all real, for ANY
    scatter dimension numbers and ANY index array. -/
theorem real_invRootDeg {s si u s0 : Shape} {w : Nat} (d : ScatterDims s si u) (idx : IVec si w)
    (ds : Fin s0.rank → Fin s.rank) (hs : s0.BroadcastsInDim s ds)
    (du : Fin s0.rank → Fin u.rank) (hu : s0.BroadcastsInDim u du) :
    AllReal (select
      (cmpf .ogt
        (Host.scatterAdd d (broadcastInDim s ds hs (constant (F := Ideal) s0 .f32 0x00000000#32)) idx
          (broadcastInDim u du hu (constant (F := Ideal) s0 .f32 0x3F800000#32)))
        (broadcastInDim s ds hs (constant (F := Ideal) s0 .f32 0x00000000#32)))
      (Host.rsqrt (maximumf
        (Host.scatterAdd d (broadcastInDim s ds hs (constant (F := Ideal) s0 .f32 0x00000000#32)) idx
          (broadcastInDim u du hu (constant (F := Ideal) s0 .f32 0x3F800000#32)))
        (broadcastInDim s ds hs (constant (F := Ideal) s0 .f32 0x3F800000#32))))
      (broadcastInDim s ds hs (constant (F := Ideal) s0 .f32 0x00000000#32))) :=
  real_invRootDeg_of d idx _ (allReal_bcast_zero ds hs) (allReal_bcast_one du hu) (bcast_one_apply ds hs)
    (allReal_bcast_zero ds hs)

/-! ### The edge normaliser, the projected difference, the scattered messages -/

/-- An edge normaliser, the product of two gathers from all-real inverse roots, is all real for
    ANY gather dimension numbers and index arrays. -/
theorem real_norm {s si1 si2 t : Shape} {φ : FTy} {w1 w2 : Nat} (g1 : GatherDims s si1 t) (g2 : GatherDims s si2 t)
    {dinv : FVec Ideal s φ} (hd : AllReal dinv) (i1 : IVec si1 w1) (i2 : IVec si2 w2) :
    AllReal (mulf (Host.gather g1 dinv i1 : FVec Ideal t φ) (Host.gather g2 dinv i2)) :=
  allReal_mulf (allReal_hostGather g1 hd i1) (allReal_hostGather g2 hd i2)

/-- ... and so is its broadcast to a column. -/
theorem real_norm_col {s si1 si2 t tc : Shape} {φ : FTy} {w1 w2 : Nat} (g1 : GatherDims s si1 t)
    (g2 : GatherDims s si2 t) {dinv : FVec Ideal s φ} (hd : AllReal dinv) (i1 : IVec si1 w1) (i2 : IVec si2 w2)
    (dims : Fin t.rank → Fin tc.rank) (h : t.BroadcastsInDim tc dims) :
    AllReal (broadcastInDim tc dims h (mulf (Host.gather g1 dinv i1 : FVec Ideal t φ) (Host.gather g2 dinv i2))) :=
  allReal_broadcastInDim tc dims h (real_norm g1 g2 hd i1 i2)

/-- The difference of a gather from all-real features and a gather from an all-real relation table
    is all real, for ANY gather dimension numbers and index arrays. -/
theorem real_diff {s1 s2 si1 si2 t : Shape} {φ : FTy} {w1 w2 : Nat} (g1 : GatherDims s1 si1 t)
    (g2 : GatherDims s2 si2 t) {h : FVec Ideal s1 φ} {rel : FVec Ideal s2 φ} (hh : AllReal h) (hrel : AllReal rel)
    (i1 : IVec si1 w1) (i2 : IVec si2 w2) :
    AllReal (subf (Host.gather g1 h i1 : FVec Ideal t φ) (Host.gather g2 rel i2)) :=
  allReal_subf (allReal_hostGather g1 hh i1) (allReal_hostGather g2 hrel i2)

/-- All-real messages scattered and added into zeros (the broadcast constant `0.0`) are all real,
    for ANY scatter dimension numbers and index array. -/
theorem real_scatter {s si u s0 : Shape} {w : Nat} (d : ScatterDims s si u) (idx : IVec si w)
    (ds : Fin s0.rank → Fin s.rank) (hs : s0.BroadcastsInDim s ds) {msg : FVec Ideal u .f32} (hm : AllReal msg) :
    AllReal (Host.scatterAdd d (broadcastInDim s ds hs (constant (F := Ideal) s0 .f32 0x00000000#32)) idx msg) :=
  allReal_hostScatterAdd d idx (allReal_bcast_zero ds hs) hm

/-! ### Arrays of the programs and arrays by coordinates -/

/-- A two-axis array of a program is all real exactly when its reading by coordinates is. -/
theorem allReal_iff_real2_at2 {n0 n1 : Nat} {a : (⟨2, ![n0, n1]⟩ : Shape).Idx → EReal} :
    AllReal a ↔ Real2 (at2 a) :=
  ⟨fun h r c => h (ix2 r c), fun h j => by rw [eq_ix2 j]; exact h (j 0) (j 1)⟩

/-- The reading by coordinates of an all-real two-axis array is real. -/
theorem real2_at2 {n0 n1 : Nat} {a : (⟨2, ![n0, n1]⟩ : Shape).Idx → EReal} (h : AllReal a) : Real2 (at2 a) :=
  allReal_iff_real2_at2.mp h

/-- A two-axis array whose reading by coordinates is real is all real. -/
theorem allReal_of_real2_at2 {n0 n1 : Nat} {a : (⟨2, ![n0, n1]⟩ : Shape).Idx → EReal} (h : Real2 (at2 a)) :
    AllReal a :=
  allReal_iff_real2_at2.mpr h

/-- A one-axis array of a program is all real exactly when its reading by its coordinate is. -/
theorem allReal_iff_real1_at1 {n : Nat} {a : (⟨1, ![n]⟩ : Shape).Idx → EReal} : AllReal a ↔ Real1 (at1 a) :=
  ⟨fun h r => h (ix1 r), fun h j => by rw [eq_ix1 j]; exact h (j 0)⟩

/-- The reading by its coordinate of an all-real one-axis array is real. -/
theorem real1_at1 {n : Nat} {a : (⟨1, ![n]⟩ : Shape).Idx → EReal} (h : AllReal a) : Real1 (at1 a) :=
  allReal_iff_real1_at1.mp h

/-- A one-axis array whose reading by its coordinate is real is all real. -/
theorem allReal_of_real1_at1 {n : Nat} {a : (⟨1, ![n]⟩ : Shape).Idx → EReal} (h : Real1 (at1 a)) : AllReal a :=
  allReal_iff_real1_at1.mpr h

/-- A column array (second extent one) is all real exactly when its one column is. -/
theorem allReal_iff_real1_col {n : Nat} {c : (⟨2, ![n, 1]⟩ : Shape).Idx → EReal} :
    AllReal c ↔ Real1 (fun e : Fin n => c (ix2 e (0 : Fin 1))) :=
  ⟨fun h e => h (ix2 e 0), fun h j => by
    have e : j = ix2 (j 0) (0 : Fin 1) := by
      funext a
      match a with
      | ⟨0, _⟩ => rfl
      | ⟨1, _⟩ => exact Fin.ext (Nat.lt_one_iff.mp (idx2_lt1 j))
    rw [e]; exact h (j 0)⟩

/-- The one column of an all-real column array is real. -/
theorem real1_col {n : Nat} {c : (⟨2, ![n, 1]⟩ : Shape).Idx → EReal} (h : AllReal c) :
    Real1 (fun e : Fin n => c (ix2 e (0 : Fin 1))) :=
  allReal_iff_real1_col.mp h

/-! ### The results read out at the end -/

/-- Rows gathered from an all-real array are all real (ANY dimension numbers and indices). -/
theorem real_rows_gather {s si t : Shape} {w : Nat} (g : GatherDims s si t) {x : s.Idx → EReal} (hx : AllReal x)
    (idx : IVec si w) : AllReal (Host.gather g x idx) :=
  allReal_hostGather g hx idx

/-- Rows gathered from a slice of an all-real array are all real. -/
theorem real_slice_gather {s ss si t : Shape} {w : Nat} (off : Fin s.rank → Nat) (hsl : s.Slices off ss)
    (g : GatherDims ss si t) {x : s.Idx → EReal} (hx : AllReal x) (idx : IVec si w) :
    AllReal (Host.gather g (extractStridedSlice ss off x hsl) idx) :=
  allReal_hostGather g (allReal_extractStridedSlice ss off hx hsl) idx

end Cert.GraphConv
-- ==== Proof.Reality.lean ====
/-
  Every array the kernel program combines is an array of real numbers.

  Under the precondition the float arguments are real. From them, step by step and in the order
  the program computes: the two modality projections and the fused features (finite sums of
  products, sums); the relation table with its loop row appended (entries of the operands); the
  inverse square roots of the degrees (a count of ones scattered into zeros; its maximum with
  `1` is at least `1`, so the reciprocal square root is real whatever the edge list; a selection
  against zeros); the edge normalisers (products of gathered inverse roots) and their column; the
  gathered differences; the messages; their scattered sums (an entry plus finitely many updates);
  the sum of the two directions; the bias row. Hence the first layer's combined array is real.
  The first layer's output is a hyperbolic tangent, real with no hypothesis, and the second layer
  repeats the chain from it.

  Each fact is a lemma of its own, named after the buffer it speaks of, proved from the one
  equation its operation leaves between final contents and the closure lemma of that operation.
-/
import proofs.«103573_j30391188587216_1_alg».proof.Proof.KernelEqsAll
import proofs.«103573_j30391188587216_1_alg».proof.Proof.KernelEqsSpec
import proofs.«103573_j30391188587216_1_alg».proof.Proof.PreReal
import proofs.«103573_j30391188587216_1_alg».proof.Proof.GlueFinite
import proofs.«103573_j30391188587216_1_alg».proof.Proof.SpecFinite

set_option maxRecDepth 16384

noncomputable section

namespace Cert.Bridge

open Cert.KernelIdeal Cert.KernelIdeal.Gen Cert.KernelIdeal.GenP Cert.KernelIdeal.HandRun
open Idealize.ShloMosaic Idealize.ShloMosaic.TcCoe Idealize.ShloMosaic.ValueIdx
open Idealize.LibMoments Idealize.LibFiniteOps Cert.GraphConv

variable [hPre_finite_inputs : Cert.Pre_finite_inputs.Facts]
variable (m : (ℓ : Loc Cert.KernelIdeal.nD Cert.KernelIdeal.τ Cert.KernelIdeal.sig) → Buf (Elt Ideal) ℓ)
  (ρ : Dev Cert.KernelIdeal.nD → PrngReg) (hpre : Cert.Pre_KernelIdeal m) (c : Dev Cert.KernelIdeal.nD)

include hpre

/-! ### The arguments: their final contents are their launch contents -/

/-- Argument 4 is never written: its final contents are its launch contents. -/
theorem karg4 : K m ρ c main_arg4 = m ((c.tc : Thread Cert.KernelIdeal.nD Cert.KernelIdeal.τ).loc Cert.KernelIdeal.main_arg4) :=
  W33_main_arg4 m ρ c

/-- Every entry of argument 4 is real. -/
theorem allReal_arg4 : AllReal (K m ρ c main_arg4) := by
  rw [karg4 m ρ hpre c]; exact Cert.PreReal.allReal_arg4 m hpre c

/-- Argument 4, read by rows and columns, is a real array. -/
theorem real2_arg4 : Real2 (at2 (n0 := 100000) (n1 := 200) (K m ρ c main_arg4)) := by
  rw [karg4 m ρ hpre c]; exact Cert.PreReal.real2_arg4 m hpre c

/-- Argument 5 is never written: its final contents are its launch contents. -/
theorem karg5 : K m ρ c main_arg5 = m ((c.tc : Thread Cert.KernelIdeal.nD Cert.KernelIdeal.τ).loc Cert.KernelIdeal.main_arg5) :=
  W33_main_arg5 m ρ c

/-- Every entry of argument 5 is real. -/
theorem allReal_arg5 : AllReal (K m ρ c main_arg5) := by
  rw [karg5 m ρ hpre c]; exact Cert.PreReal.allReal_arg5 m hpre c

/-- Argument 5, read by rows and columns, is a real array. -/
theorem real2_arg5 : Real2 (at2 (n0 := 100000) (n1 := 768) (K m ρ c main_arg5)) := by
  rw [karg5 m ρ hpre c]; exact Cert.PreReal.real2_arg5 m hpre c

/-- Argument 6 is never written: its final contents are its launch contents. -/
theorem karg6 : K m ρ c main_arg6 = m ((c.tc : Thread Cert.KernelIdeal.nD Cert.KernelIdeal.τ).loc Cert.KernelIdeal.main_arg6) :=
  W33_main_arg6 m ρ c

/-- Every entry of argument 6 is real. -/
theorem allReal_arg6 : AllReal (K m ρ c main_arg6) := by
  rw [karg6 m ρ hpre c]; exact Cert.PreReal.allReal_arg6 m hpre c

/-- Argument 6, read by rows and columns, is a real array. -/
theorem real2_arg6 : Real2 (at2 (n0 := 768) (n1 := 200) (K m ρ c main_arg6)) := by
  rw [karg6 m ρ hpre c]; exact Cert.PreReal.real2_arg6 m hpre c

/-- Argument 7 is never written: its final contents are its launch contents. -/
theorem karg7 : K m ρ c main_arg7 = m ((c.tc : Thread Cert.KernelIdeal.nD Cert.KernelIdeal.τ).loc Cert.KernelIdeal.main_arg7) :=
  W33_main_arg7 m ρ c

/-- Every entry of argument 7 is real. -/
theorem allReal_arg7 : AllReal (K m ρ c main_arg7) := by
  rw [karg7 m ρ hpre c]; exact Cert.PreReal.allReal_arg7 m hpre c

/-- Argument 7, read by rows and columns, is a real array. -/
theorem real2_arg7 : Real2 (at2 (n0 := 100000) (n1 := 768) (K m ρ c main_arg7)) := by
  rw [karg7 m ρ hpre c]; exact Cert.PreReal.real2_arg7 m hpre c

/-- Argument 8 is never written: its final contents are its launch contents. -/
theorem karg8 : K m ρ c main_arg8 = m ((c.tc : Thread Cert.KernelIdeal.nD Cert.KernelIdeal.τ).loc Cert.KernelIdeal.main_arg8) :=
  W33_main_arg8 m ρ c

/-- Every entry of argument 8 is real. -/
theorem allReal_arg8 : AllReal (K m ρ c main_arg8) := by
  rw [karg8 m ρ hpre c]; exact Cert.PreReal.allReal_arg8 m hpre c

/-- Argument 8, read by rows and columns, is a real array. -/
theorem real2_arg8 : Real2 (at2 (n0 := 768) (n1 := 200) (K m ρ c main_arg8)) := by
  rw [karg8 m ρ hpre c]; exact Cert.PreReal.real2_arg8 m hpre c

/-- Argument 9 is never written: its final contents are its launch contents. -/
theorem karg9 : K m ρ c main_arg9 = m ((c.tc : Thread Cert.KernelIdeal.nD Cert.KernelIdeal.τ).loc Cert.KernelIdeal.main_arg9) :=
  W33_main_arg9 m ρ c

/-- Every entry of argument 9 is real. -/
theorem allReal_arg9 : AllReal (K m ρ c main_arg9) := by
  rw [karg9 m ρ hpre c]; exact Cert.PreReal.allReal_arg9 m hpre c

/-- Argument 9, read by rows and columns, is a real array. -/
theorem real2_arg9 : Real2 (at2 (n0 := 400) (n1 := 200) (K m ρ c main_arg9)) := by
  rw [karg9 m ρ hpre c]; exact Cert.PreReal.real2_arg9 m hpre c

/-- Argument 10 is never written: its final contents are its launch contents. -/
theorem karg10 : K m ρ c main_arg10 = m ((c.tc : Thread Cert.KernelIdeal.nD Cert.KernelIdeal.τ).loc Cert.KernelIdeal.main_arg10) :=
  W33_main_arg10 m ρ c

/-- Every entry of argument 10 is real. -/
theorem allReal_arg10 : AllReal (K m ρ c main_arg10) := by
  rw [karg10 m ρ hpre c]; exact Cert.PreReal.allReal_arg10 m hpre c

/-- Argument 10, read by rows and columns, is a real array. -/
theorem real2_arg10 : Real2 (at2 (n0 := 200) (n1 := 200) (K m ρ c main_arg10)) := by
  rw [karg10 m ρ hpre c]; exact Cert.PreReal.real2_arg10 m hpre c

/-- Argument 11 is never written: its final contents are its launch contents. -/
theorem karg11 : K m ρ c main_arg11 = m ((c.tc : Thread Cert.KernelIdeal.nD Cert.KernelIdeal.τ).loc Cert.KernelIdeal.main_arg11) :=
  W33_main_arg11 m ρ c

/-- Every entry of argument 11 is real. -/
theorem allReal_arg11 : AllReal (K m ρ c main_arg11) := by
  rw [karg11 m ρ hpre c]; exact Cert.PreReal.allReal_arg11 m hpre c

/-- Argument 11, read by rows and columns, is a real array. -/
theorem real2_arg11 : Real2 (at2 (n0 := 200) (n1 := 200) (K m ρ c main_arg11)) := by
  rw [karg11 m ρ hpre c]; exact Cert.PreReal.real2_arg11 m hpre c

/-- Argument 12 is never written: its final contents are its launch contents. -/
theorem karg12 : K m ρ c main_arg12 = m ((c.tc : Thread Cert.KernelIdeal.nD Cert.KernelIdeal.τ).loc Cert.KernelIdeal.main_arg12) :=
  W33_main_arg12 m ρ c

/-- Every entry of argument 12 is real. -/
theorem allReal_arg12 : AllReal (K m ρ c main_arg12) := by
  rw [karg12 m ρ hpre c]; exact Cert.PreReal.allReal_arg12 m hpre c

/-- Argument 12, read by rows and columns, is a real array. -/
theorem real2_arg12 : Real2 (at2 (n0 := 200) (n1 := 200) (K m ρ c main_arg12)) := by
  rw [karg12 m ρ hpre c]; exact Cert.PreReal.real2_arg12 m hpre c

/-- Argument 13 is never written: its final contents are its launch contents. -/
theorem karg13 : K m ρ c main_arg13 = m ((c.tc : Thread Cert.KernelIdeal.nD Cert.KernelIdeal.τ).loc Cert.KernelIdeal.main_arg13) :=
  W33_main_arg13 m ρ c

/-- Every entry of argument 13 is real. -/
theorem allReal_arg13 : AllReal (K m ρ c main_arg13) := by
  rw [karg13 m ρ hpre c]; exact Cert.PreReal.allReal_arg13 m hpre c

/-- Argument 13, read by rows and columns, is a real array. -/
theorem real2_arg13 : Real2 (at2 (n0 := 200) (n1 := 200) (K m ρ c main_arg13)) := by
  rw [karg13 m ρ hpre c]; exact Cert.PreReal.real2_arg13 m hpre c

/-- Argument 14 is never written: its final contents are its launch contents. -/
theorem karg14 : K m ρ c main_arg14 = m ((c.tc : Thread Cert.KernelIdeal.nD Cert.KernelIdeal.τ).loc Cert.KernelIdeal.main_arg14) :=
  W33_main_arg14 m ρ c

/-- Every entry of argument 14 is real. -/
theorem allReal_arg14 : AllReal (K m ρ c main_arg14) := by
  rw [karg14 m ρ hpre c]; exact Cert.PreReal.allReal_arg14 m hpre c

/-- Argument 14, read by rows and columns, is a real array. -/
theorem real2_arg14 : Real2 (at2 (n0 := 1) (n1 := 200) (K m ρ c main_arg14)) := by
  rw [karg14 m ρ hpre c]; exact Cert.PreReal.real2_arg14 m hpre c

/-- Argument 15 is never written: its final contents are its launch contents. -/
theorem karg15 : K m ρ c main_arg15 = m ((c.tc : Thread Cert.KernelIdeal.nD Cert.KernelIdeal.τ).loc Cert.KernelIdeal.main_arg15) :=
  W33_main_arg15 m ρ c

/-- Every entry of argument 15 is real. -/
theorem allReal_arg15 : AllReal (K m ρ c main_arg15) := by
  rw [karg15 m ρ hpre c]; exact Cert.PreReal.allReal_arg15 m hpre c

/-- Argument 16 is never written: its final contents are its launch contents. -/
theorem karg16 : K m ρ c main_arg16 = m ((c.tc : Thread Cert.KernelIdeal.nD Cert.KernelIdeal.τ).loc Cert.KernelIdeal.main_arg16) :=
  W33_main_arg16 m ρ c

/-- Every entry of argument 16 is real. -/
theorem allReal_arg16 : AllReal (K m ρ c main_arg16) := by
  rw [karg16 m ρ hpre c]; exact Cert.PreReal.allReal_arg16 m hpre c

/-- Argument 16, read by rows and columns, is a real array. -/
theorem real2_arg16 : Real2 (at2 (n0 := 200) (n1 := 200) (K m ρ c main_arg16)) := by
  rw [karg16 m ρ hpre c]; exact Cert.PreReal.real2_arg16 m hpre c

/-- Argument 17 is never written: its final contents are its launch contents. -/
theorem karg17 : K m ρ c main_arg17 = m ((c.tc : Thread Cert.KernelIdeal.nD Cert.KernelIdeal.τ).loc Cert.KernelIdeal.main_arg17) :=
  W33_main_arg17 m ρ c

/-- Every entry of argument 17 is real. -/
theorem allReal_arg17 : AllReal (K m ρ c main_arg17) := by
  rw [karg17 m ρ hpre c]; exact Cert.PreReal.allReal_arg17 m hpre c

/-- Argument 17, read by rows and columns, is a real array. -/
theorem real2_arg17 : Real2 (at2 (n0 := 200) (n1 := 200) (K m ρ c main_arg17)) := by
  rw [karg17 m ρ hpre c]; exact Cert.PreReal.real2_arg17 m hpre c

/-- Argument 18 is never written: its final contents are its launch contents. -/
theorem karg18 : K m ρ c main_arg18 = m ((c.tc : Thread Cert.KernelIdeal.nD Cert.KernelIdeal.τ).loc Cert.KernelIdeal.main_arg18) :=
  W33_main_arg18 m ρ c

/-- Every entry of argument 18 is real. -/
theorem allReal_arg18 : AllReal (K m ρ c main_arg18) := by
  rw [karg18 m ρ hpre c]; exact Cert.PreReal.allReal_arg18 m hpre c

/-- Argument 18, read by rows and columns, is a real array. -/
theorem real2_arg18 : Real2 (at2 (n0 := 200) (n1 := 200) (K m ρ c main_arg18)) := by
  rw [karg18 m ρ hpre c]; exact Cert.PreReal.real2_arg18 m hpre c

/-- Argument 20 is never written: its final contents are its launch contents. -/
theorem karg20 : K m ρ c main_arg20 = m ((c.tc : Thread Cert.KernelIdeal.nD Cert.KernelIdeal.τ).loc Cert.KernelIdeal.main_arg20) :=
  W33_main_arg20 m ρ c

/-- Every entry of argument 20 is real. -/
theorem allReal_arg20 : AllReal (K m ρ c main_arg20) := by
  rw [karg20 m ρ hpre c]; exact Cert.PreReal.allReal_arg20 m hpre c

/-- Argument 20, read by rows and columns, is a real array. -/
theorem real2_arg20 : Real2 (at2 (n0 := 1) (n1 := 200) (K m ρ c main_arg20)) := by
  rw [karg20 m ρ hpre c]; exact Cert.PreReal.real2_arg20 m hpre c

/-- Argument 21 is never written: its final contents are its launch contents. -/
theorem karg21 : K m ρ c main_arg21 = m ((c.tc : Thread Cert.KernelIdeal.nD Cert.KernelIdeal.τ).loc Cert.KernelIdeal.main_arg21) :=
  W33_main_arg21 m ρ c

/-- Every entry of argument 21 is real. -/
theorem allReal_arg21 : AllReal (K m ρ c main_arg21) := by
  rw [karg21 m ρ hpre c]; exact Cert.PreReal.allReal_arg21 m hpre c

/-- The one row of argument 14 (the first layer's loop relation) is real. -/
theorem real1_row_arg14 : Real1 (fun k : Fin 200 => K m ρ c main_arg14 (ix2 (0 : Fin 1) k)) :=
  fun k => allReal_arg14 m ρ hpre c _

/-- The one row of argument 20 (the second layer's loop relation) is real. -/
theorem real1_row_arg20 : Real1 (fun k : Fin 200 => K m ρ c main_arg20 (ix2 (0 : Fin 1) k)) :=
  fun k => allReal_arg20 m ρ hpre c _

/-! ### The projections, the fused features, the relation table -/

/-- The image projection (buffer `v0`), a product of real matrices, is real. -/
theorem real2_v0 : Real2 (at2 (n0 := 100000) (n1 := 200) (K m ρ c main_v0)) := by
  intro r q
  show IsReal (K m ρ c main_v0 (ix2 r q))
  rw [spec_v0 m ρ c r q]
  exact real2_matProd (real2_arg5 m ρ hpre c) (real2_arg6 m ρ hpre c) r q

/-- The description projection (buffer `v1`), a product of real matrices, is real. -/
theorem real2_v1 : Real2 (at2 (n0 := 100000) (n1 := 200) (K m ρ c main_v1)) := by
  intro r q
  show IsReal (K m ρ c main_v1 (ix2 r q))
  rw [spec_v1 m ρ c r q]
  exact real2_matProd (real2_arg7 m ρ hpre c) (real2_arg8 m ρ hpre c) r q

/-- The fused features (buffer `v3`), the sum of three real arrays, are real. -/
theorem real2_v3 : Real2 (at2 (n0 := 100000) (n1 := 200) (K m ρ c main_v3)) := by
  intro r q
  show IsReal (K m ρ c main_v3 (ix2 r q))
  rw [spec_v3 m ρ c r q]
  exact real2_sum3 (real2_arg4 m ρ hpre c) (real2_v0 m ρ hpre c) (real2_v1 m ρ hpre c) r q

/-- Every entry of buffer `v3` is real. -/
theorem allReal_v3 : AllReal (K m ρ c main_v3) :=
  allReal_of_real2_at2 (n0 := 100000) (n1 := 200) (real2_v3 m ρ hpre c)

/-- A concatenation (buffer `v2`) of two real arrays is real. -/
theorem allReal_v2 : AllReal (K m ρ c main_v2) := by
  rw [eq_v2 m ρ c]; exact allReal_concatenate₂ _ _ (allReal_arg9 m ρ hpre c) (allReal_arg14 m ρ hpre c) _

/-- Buffer `v2`, read by rows and columns, is a real array. -/
theorem real2_v2 : Real2 (at2 (n0 := 401) (n1 := 200) (K m ρ c main_v2)) :=
  real2_at2 (n0 := 401) (n1 := 200) (allReal_v2 m ρ hpre c)

/-! ### The first layer, incoming edges -/

/-- The constant `0.0` (buffer `cst`) is real. -/
theorem allReal_cst : AllReal (K m ρ c main_cst) := by
  rw [eq_cst m ρ c]; exact allReal_constant_f32_zero _

/-- A broadcast (buffer `v10`) of a real array is real. -/
theorem allReal_v10 : AllReal (K m ρ c main_v10) := by
  rw [eq_v10 m ρ c]; exact allReal_broadcastInDim _ _ _ (allReal_cst m ρ hpre c)

/-- The constant `1.0` (buffer `cst_1`) is real. -/
theorem allReal_cst_1 : AllReal (K m ρ c main_cst_1) := by
  rw [eq_cst_1 m ρ c]; exact allReal_constant_f32_one _

/-- A broadcast (buffer `v17`) of a real array is real. -/
theorem allReal_v17 : AllReal (K m ρ c main_v17) := by
  rw [eq_v17 m ρ c]; exact allReal_broadcastInDim _ _ _ (allReal_cst_1 m ρ hpre c)

/-- A scatter-add (buffer `v18`) of real updates into a real array is real: an entry plus finitely many updates. -/
theorem allReal_v18 : AllReal (K m ρ c main_v18) := by
  rw [eq_v18 m ρ c]; exact allReal_hostScatterAdd _ _ (allReal_v10 m ρ hpre c) (allReal_v17 m ρ hpre c)

/-- Every entry of the broadcast constant `1.0` (buffer `v21`) is `1`. -/
theorem v21_eq_one (i) : K m ρ c main_v21 i = (1 : EReal) := by
  rw [eq_v21 m ρ c, eq_cst_3 m ρ c]; exact bcast_one_apply _ _ i

/-- The maximum (buffer `v22`) of a real array with ones is real. -/
theorem allReal_v22 : AllReal (K m ρ c main_v22) := by
  rw [eq_v22 m ρ c]
  exact allReal_maximumf (allReal_v18 m ρ hpre c) fun i => by rw [v21_eq_one m ρ hpre c i]; exact isReal_one

/-- The maximum with ones (buffer `v22`) is at least `1`, so positive. -/
theorem v22_pos (i) : (0 : EReal) < K m ρ c main_v22 i := by
  rw [eq_v22 m ρ c]; exact (one_le_maximumf_of_right_eq_one _ (v21_eq_one m ρ hpre c) i).2

/-- The reciprocal square root (buffer `v23`) of positive reals is real. -/
theorem allReal_v23 : AllReal (K m ρ c main_v23) := by
  rw [eq_v23 m ρ c]; exact allReal_hostRsqrt (allReal_v22 m ρ hpre c) (v22_pos m ρ hpre c)

/-- The constant `0.0` (buffer `cst_4`) is real. -/
theorem allReal_cst_4 : AllReal (K m ρ c main_cst_4) := by
  rw [eq_cst_4 m ρ c]; exact allReal_constant_f32_zero _

/-- A copy (buffer `call0_v0`) of a real array is real. -/
theorem allReal_call0_v0 : AllReal (K m ρ c main_call0_v0) := by
  rw [eq_call0_v0 m ρ c, id_eq]; exact allReal_cst_4 m ρ hpre c

/-- A broadcast (buffer `call0_v1`) of a real array is real. -/
theorem allReal_call0_v1 : AllReal (K m ρ c main_call0_v1) := by
  rw [eq_call0_v1 m ρ c]; exact allReal_broadcastInDim _ _ _ (allReal_call0_v0 m ρ hpre c)

/-- A selection (buffer `v24`) between two real arrays is real. -/
theorem allReal_v24 : AllReal (K m ρ c main_v24) := by
  rw [eq_v24 m ρ c]; exact allReal_select (φ := .f32) _ (allReal_v23 m ρ hpre c) (allReal_call0_v1 m ρ hpre c)

/-- A gather (buffer `v31`) from a real array is real: its entries are entries of the array. -/
theorem allReal_v31 : AllReal (K m ρ c main_v31) := by
  rw [eq_v31 m ρ c]; exact allReal_hostGather _ (allReal_v24 m ρ hpre c) _

/-- A gather (buffer `v38`) from a real array is real: its entries are entries of the array. -/
theorem allReal_v38 : AllReal (K m ρ c main_v38) := by
  rw [eq_v38 m ρ c]; exact allReal_hostGather _ (allReal_v24 m ρ hpre c) _

/-- The entrywise product (buffer `v39`) of two real arrays is real. -/
theorem allReal_v39 : AllReal (K m ρ c main_v39) := by
  rw [eq_v39 m ρ c]; exact allReal_mulf (allReal_v31 m ρ hpre c) (allReal_v38 m ρ hpre c)

/-- A broadcast (buffer `v55`) of a real array is real. -/
theorem allReal_v55 : AllReal (K m ρ c main_v55) := by
  rw [eq_v55 m ρ c]; exact allReal_broadcastInDim _ _ _ (allReal_v39 m ρ hpre c)

/-- The one column of buffer `v55` is real. -/
theorem real1_col_v55 : Real1 (fun e : Fin 200000 => K m ρ c main_v55 (ix2 e (0 : Fin 1))) :=
  fun e => allReal_v55 m ρ hpre c _

/-- A gather (buffer `v46`) from a real array is real: its entries are entries of the array. -/
theorem allReal_v46 : AllReal (K m ρ c main_v46) := by
  rw [eq_v46 m ρ c]; exact allReal_hostGather _ (allReal_v3 m ρ hpre c) _

/-- A gather (buffer `v53`) from a real array is real: its entries are entries of the array. -/
theorem allReal_v53 : AllReal (K m ρ c main_v53) := by
  rw [eq_v53 m ρ c]; exact allReal_hostGather _ (allReal_v2 m ρ hpre c) _

/-- The entrywise difference (buffer `v54`) of two real arrays is real. -/
theorem allReal_v54 : AllReal (K m ρ c main_v54) := by
  rw [eq_v54 m ρ c]; exact allReal_subf (allReal_v46 m ρ hpre c) (allReal_v53 m ρ hpre c)

/-- Buffer `v54`, read by rows and columns, is a real array. -/
theorem real2_v54 : Real2 (at2 (n0 := 200000) (n1 := 200) (K m ρ c main_v54)) :=
  real2_at2 (n0 := 200000) (n1 := 200) (allReal_v54 m ρ hpre c)

/-- The edge messages (buffer `v56`) of real differences, real normalisers and real weights are real. -/
theorem real2_v56 : Real2 (at2 (n0 := 200000) (n1 := 200) (K m ρ c main_v56)) := by
  intro e q
  show IsReal (K m ρ c main_v56 (ix2 e q))
  rw [spec_v56 m ρ c e q]
  exact real2_message (real2_v54 m ρ hpre c) (real1_col_v55 m ρ hpre c) (real2_arg10 m ρ hpre c) e q

/-- Every entry of buffer `v56` is real. -/
theorem allReal_v56 : AllReal (K m ρ c main_v56) :=
  allReal_of_real2_at2 (n0 := 200000) (n1 := 200) (real2_v56 m ρ hpre c)

/-- The constant `0.0` (buffer `cst_13`) is real. -/
theorem allReal_cst_13 : AllReal (K m ρ c main_cst_13) := by
  rw [eq_cst_13 m ρ c]; exact allReal_constant_f32_zero _

/-- A broadcast (buffer `v57`) of a real array is real. -/
theorem allReal_v57 : AllReal (K m ρ c main_v57) := by
  rw [eq_v57 m ρ c]; exact allReal_broadcastInDim _ _ _ (allReal_cst_13 m ρ hpre c)

/-- A scatter-add (buffer `v64`) of real updates into a real array is real: an entry plus finitely many updates. -/
theorem allReal_v64 : AllReal (K m ρ c main_v64) := by
  rw [eq_v64 m ρ c]; exact allReal_hostScatterAdd _ _ (allReal_v57 m ρ hpre c) (allReal_v56 m ρ hpre c)

/-! ### The first layer, outgoing edges -/

/-- The constant `0.0` (buffer `cst_16`) is real. -/
theorem allReal_cst_16 : AllReal (K m ρ c main_cst_16) := by
  rw [eq_cst_16 m ρ c]; exact allReal_constant_f32_zero _

/-- A broadcast (buffer `v71`) of a real array is real. -/
theorem allReal_v71 : AllReal (K m ρ c main_v71) := by
  rw [eq_v71 m ρ c]; exact allReal_broadcastInDim _ _ _ (allReal_cst_16 m ρ hpre c)

/-- The constant `1.0` (buffer `cst_19`) is real. -/
theorem allReal_cst_19 : AllReal (K m ρ c main_cst_19) := by
  rw [eq_cst_19 m ρ c]; exact allReal_constant_f32_one _

/-- A broadcast (buffer `v78`) of a real array is real. -/
theorem allReal_v78 : AllReal (K m ρ c main_v78) := by
  rw [eq_v78 m ρ c]; exact allReal_broadcastInDim _ _ _ (allReal_cst_19 m ρ hpre c)

/-- A scatter-add (buffer `v79`) of real updates into a real array is real: an entry plus finitely many updates. -/
theorem allReal_v79 : AllReal (K m ρ c main_v79) := by
  rw [eq_v79 m ρ c]; exact allReal_hostScatterAdd _ _ (allReal_v71 m ρ hpre c) (allReal_v78 m ρ hpre c)

/-- Every entry of the broadcast constant `1.0` (buffer `v82`) is `1`. -/
theorem v82_eq_one (i) : K m ρ c main_v82 i = (1 : EReal) := by
  rw [eq_v82 m ρ c, eq_cst_21 m ρ c]; exact bcast_one_apply _ _ i

/-- The maximum (buffer `v83`) of a real array with ones is real. -/
theorem allReal_v83 : AllReal (K m ρ c main_v83) := by
  rw [eq_v83 m ρ c]
  exact allReal_maximumf (allReal_v79 m ρ hpre c) fun i => by rw [v82_eq_one m ρ hpre c i]; exact isReal_one

/-- The maximum with ones (buffer `v83`) is at least `1`, so positive. -/
theorem v83_pos (i) : (0 : EReal) < K m ρ c main_v83 i := by
  rw [eq_v83 m ρ c]; exact (one_le_maximumf_of_right_eq_one _ (v82_eq_one m ρ hpre c) i).2

/-- The reciprocal square root (buffer `v84`) of positive reals is real. -/
theorem allReal_v84 : AllReal (K m ρ c main_v84) := by
  rw [eq_v84 m ρ c]; exact allReal_hostRsqrt (allReal_v83 m ρ hpre c) (v83_pos m ρ hpre c)

/-- The constant `0.0` (buffer `cst_22`) is real. -/
theorem allReal_cst_22 : AllReal (K m ρ c main_cst_22) := by
  rw [eq_cst_22 m ρ c]; exact allReal_constant_f32_zero _

/-- A copy (buffer `call1_v0`) of a real array is real. -/
theorem allReal_call1_v0 : AllReal (K m ρ c main_call1_v0) := by
  rw [eq_call1_v0 m ρ c, id_eq]; exact allReal_cst_22 m ρ hpre c

/-- A broadcast (buffer `call1_v1`) of a real array is real. -/
theorem allReal_call1_v1 : AllReal (K m ρ c main_call1_v1) := by
  rw [eq_call1_v1 m ρ c]; exact allReal_broadcastInDim _ _ _ (allReal_call1_v0 m ρ hpre c)

/-- A selection (buffer `v85`) between two real arrays is real. -/
theorem allReal_v85 : AllReal (K m ρ c main_v85) := by
  rw [eq_v85 m ρ c]; exact allReal_select (φ := .f32) _ (allReal_v84 m ρ hpre c) (allReal_call1_v1 m ρ hpre c)

/-- A gather (buffer `v92`) from a real array is real: its entries are entries of the array. -/
theorem allReal_v92 : AllReal (K m ρ c main_v92) := by
  rw [eq_v92 m ρ c]; exact allReal_hostGather _ (allReal_v85 m ρ hpre c) _

/-- A gather (buffer `v99`) from a real array is real: its entries are entries of the array. -/
theorem allReal_v99 : AllReal (K m ρ c main_v99) := by
  rw [eq_v99 m ρ c]; exact allReal_hostGather _ (allReal_v85 m ρ hpre c) _

/-- The entrywise product (buffer `v100`) of two real arrays is real. -/
theorem allReal_v100 : AllReal (K m ρ c main_v100) := by
  rw [eq_v100 m ρ c]; exact allReal_mulf (allReal_v92 m ρ hpre c) (allReal_v99 m ρ hpre c)

/-- A broadcast (buffer `v116`) of a real array is real. -/
theorem allReal_v116 : AllReal (K m ρ c main_v116) := by
  rw [eq_v116 m ρ c]; exact allReal_broadcastInDim _ _ _ (allReal_v100 m ρ hpre c)

/-- The one column of buffer `v116` is real. -/
theorem real1_col_v116 : Real1 (fun e : Fin 200000 => K m ρ c main_v116 (ix2 e (0 : Fin 1))) :=
  fun e => allReal_v116 m ρ hpre c _

/-- A gather (buffer `v107`) from a real array is real: its entries are entries of the array. -/
theorem allReal_v107 : AllReal (K m ρ c main_v107) := by
  rw [eq_v107 m ρ c]; exact allReal_hostGather _ (allReal_v3 m ρ hpre c) _

/-- A gather (buffer `v114`) from a real array is real: its entries are entries of the array. -/
theorem allReal_v114 : AllReal (K m ρ c main_v114) := by
  rw [eq_v114 m ρ c]; exact allReal_hostGather _ (allReal_v2 m ρ hpre c) _

/-- The entrywise difference (buffer `v115`) of two real arrays is real. -/
theorem allReal_v115 : AllReal (K m ρ c main_v115) := by
  rw [eq_v115 m ρ c]; exact allReal_subf (allReal_v107 m ρ hpre c) (allReal_v114 m ρ hpre c)

/-- Buffer `v115`, read by rows and columns, is a real array. -/
theorem real2_v115 : Real2 (at2 (n0 := 200000) (n1 := 200) (K m ρ c main_v115)) :=
  real2_at2 (n0 := 200000) (n1 := 200) (allReal_v115 m ρ hpre c)

/-- The edge messages (buffer `v117`) of real differences, real normalisers and real weights are real. -/
theorem real2_v117 : Real2 (at2 (n0 := 200000) (n1 := 200) (K m ρ c main_v117)) := by
  intro e q
  show IsReal (K m ρ c main_v117 (ix2 e q))
  rw [spec_v117 m ρ c e q]
  exact real2_message (real2_v115 m ρ hpre c) (real1_col_v116 m ρ hpre c) (real2_arg11 m ρ hpre c) e q

/-- Every entry of buffer `v117` is real. -/
theorem allReal_v117 : AllReal (K m ρ c main_v117) :=
  allReal_of_real2_at2 (n0 := 200000) (n1 := 200) (real2_v117 m ρ hpre c)

/-- The constant `0.0` (buffer `cst_31`) is real. -/
theorem allReal_cst_31 : AllReal (K m ρ c main_cst_31) := by
  rw [eq_cst_31 m ρ c]; exact allReal_constant_f32_zero _

/-- A broadcast (buffer `v118`) of a real array is real. -/
theorem allReal_v118 : AllReal (K m ρ c main_v118) := by
  rw [eq_v118 m ρ c]; exact allReal_broadcastInDim _ _ _ (allReal_cst_31 m ρ hpre c)

/-- A scatter-add (buffer `v125`) of real updates into a real array is real: an entry plus finitely many updates. -/
theorem allReal_v125 : AllReal (K m ρ c main_v125) := by
  rw [eq_v125 m ρ c]; exact allReal_hostScatterAdd _ _ (allReal_v118 m ρ hpre c) (allReal_v117 m ρ hpre c)

/-! ### The first layer's combined array -/

/-- The entrywise sum (buffer `v126`) of two real arrays is real. -/
theorem allReal_v126 : AllReal (K m ρ c main_v126) := by
  rw [eq_v126 m ρ c]; exact allReal_addf (allReal_v64 m ρ hpre c) (allReal_v125 m ρ hpre c)

/-- Buffer `v126`, read by rows and columns, is a real array. -/
theorem real2_v126 : Real2 (at2 (n0 := 100000) (n1 := 200) (K m ρ c main_v126)) :=
  real2_at2 (n0 := 100000) (n1 := 200) (allReal_v126 m ρ hpre c)

/-- A reshape (buffer `v127`) of a real array is real. -/
theorem allReal_v127 : AllReal (K m ρ c main_v127) := by
  rw [eq_v127 m ρ c]; exact allReal_shapeCast _ (allReal_arg15 m ρ hpre c) _

/-- The one row of buffer `v127` is real. -/
theorem real1_row_v127 : Real1 (fun q : Fin 200 => K m ρ c main_v127 (ix2 (0 : Fin 1) q)) :=
  fun q => allReal_v127 m ρ hpre c _

/-- THE FIRST LAYER'S COMBINED ARRAY IS REAL: the combination `(s + (h − ℓ) W) · (1/3) + b` of real arrays. -/
theorem real_pre1 : Real2 (at2 (n0 := 100000) (n1 := 200) (K m ρ c main_v128_0)) := by
  intro r q
  show IsReal (K m ρ c main_v128_0 (ix2 r q))
  rw [spec_v128_0 m ρ c r q]
  exact real2_combine (real2_v3 m ρ hpre c) (real1_row_arg14 m ρ hpre c) (real2_arg12 m ρ hpre c) (real2_v126 m ρ hpre c) (real1_row_v127 m ρ hpre c) r q

/-! ### Between the layers -/

/-- The first layer's output (buffer `v135`) is real with no hypothesis on its operands: it is a hyperbolic tangent. -/
theorem real2_v135 : Real2 (at2 (n0 := 100000) (n1 := 200) (K m ρ c main_v135)) := by
  intro r q
  show IsReal (K m ρ c main_v135 (ix2 r q))
  rw [spec_v135 m ρ c r q]
  exact real2_normTanh _ _ _ r q

/-- The first layer's new relation table (buffer `v136`), a product of real matrices, is real. -/
theorem real2_v136 : Real2 (at2 (n0 := 401) (n1 := 200) (K m ρ c main_v136)) := by
  intro r q
  show IsReal (K m ρ c main_v136 (ix2 r q))
  rw [spec_v136 m ρ c r q]
  exact real2_matProd (real2_v2 m ρ hpre c) (real2_arg13 m ρ hpre c) r q

/-- Every entry of buffer `v136` is real. -/
theorem allReal_v136 : AllReal (K m ρ c main_v136) :=
  allReal_of_real2_at2 (n0 := 401) (n1 := 200) (real2_v136 m ρ hpre c)

/-- A slice (buffer `v137`) of a real array is real. -/
theorem allReal_v137 : AllReal (K m ρ c main_v137) := by
  rw [eq_v137 m ρ c]; exact allReal_extractStridedSlice _ _ (allReal_v136 m ρ hpre c) _

/-- A concatenation (buffer `v138`) of two real arrays is real. -/
theorem allReal_v138 : AllReal (K m ρ c main_v138) := by
  rw [eq_v138 m ρ c]; exact allReal_concatenate₂ _ _ (allReal_v137 m ρ hpre c) (allReal_arg20 m ρ hpre c) _

/-- Buffer `v138`, read by rows and columns, is a real array. -/
theorem real2_v138 : Real2 (at2 (n0 := 401) (n1 := 200) (K m ρ c main_v138)) :=
  real2_at2 (n0 := 401) (n1 := 200) (allReal_v138 m ρ hpre c)

/-- The second layer's fused features (buffer `v139`), the sum of three real arrays, are real. -/
theorem real2_v139 : Real2 (at2 (n0 := 100000) (n1 := 200) (K m ρ c main_v139)) := by
  intro r q
  show IsReal (K m ρ c main_v139 (ix2 r q))
  rw [spec_v139 m ρ c r q]
  exact real2_sum3 (real2_v135 m ρ hpre c) (real2_v0 m ρ hpre c) (real2_v1 m ρ hpre c) r q

/-- Every entry of buffer `v139` is real. -/
theorem allReal_v139 : AllReal (K m ρ c main_v139) :=
  allReal_of_real2_at2 (n0 := 100000) (n1 := 200) (real2_v139 m ρ hpre c)

/-! ### The second layer, incoming edges -/

/-- The constant `0.0` (buffer `cst_36`) is real. -/
theorem allReal_cst_36 : AllReal (K m ρ c main_cst_36) := by
  rw [eq_cst_36 m ρ c]; exact allReal_constant_f32_zero _

/-- A broadcast (buffer `v146`) of a real array is real. -/
theorem allReal_v146 : AllReal (K m ρ c main_v146) := by
  rw [eq_v146 m ρ c]; exact allReal_broadcastInDim _ _ _ (allReal_cst_36 m ρ hpre c)

/-- The constant `1.0` (buffer `cst_39`) is real. -/
theorem allReal_cst_39 : AllReal (K m ρ c main_cst_39) := by
  rw [eq_cst_39 m ρ c]; exact allReal_constant_f32_one _

/-- A broadcast (buffer `v153`) of a real array is real. -/
theorem allReal_v153 : AllReal (K m ρ c main_v153) := by
  rw [eq_v153 m ρ c]; exact allReal_broadcastInDim _ _ _ (allReal_cst_39 m ρ hpre c)

/-- A scatter-add (buffer `v154`) of real updates into a real array is real: an entry plus finitely many updates. -/
theorem allReal_v154 : AllReal (K m ρ c main_v154) := by
  rw [eq_v154 m ρ c]; exact allReal_hostScatterAdd _ _ (allReal_v146 m ρ hpre c) (allReal_v153 m ρ hpre c)

/-- Every entry of the broadcast constant `1.0` (buffer `v157`) is `1`. -/
theorem v157_eq_one (i) : K m ρ c main_v157 i = (1 : EReal) := by
  rw [eq_v157 m ρ c, eq_cst_41 m ρ c]; exact bcast_one_apply _ _ i

/-- The maximum (buffer `v158`) of a real array with ones is real. -/
theorem allReal_v158 : AllReal (K m ρ c main_v158) := by
  rw [eq_v158 m ρ c]
  exact allReal_maximumf (allReal_v154 m ρ hpre c) fun i => by rw [v157_eq_one m ρ hpre c i]; exact isReal_one

/-- The maximum with ones (buffer `v158`) is at least `1`, so positive. -/
theorem v158_pos (i) : (0 : EReal) < K m ρ c main_v158 i := by
  rw [eq_v158 m ρ c]; exact (one_le_maximumf_of_right_eq_one _ (v157_eq_one m ρ hpre c) i).2

/-- The reciprocal square root (buffer `v159`) of positive reals is real. -/
theorem allReal_v159 : AllReal (K m ρ c main_v159) := by
  rw [eq_v159 m ρ c]; exact allReal_hostRsqrt (allReal_v158 m ρ hpre c) (v158_pos m ρ hpre c)

/-- The constant `0.0` (buffer `cst_42`) is real. -/
theorem allReal_cst_42 : AllReal (K m ρ c main_cst_42) := by
  rw [eq_cst_42 m ρ c]; exact allReal_constant_f32_zero _

/-- A copy (buffer `call2_v0`) of a real array is real. -/
theorem allReal_call2_v0 : AllReal (K m ρ c main_call2_v0) := by
  rw [eq_call2_v0 m ρ c, id_eq]; exact allReal_cst_42 m ρ hpre c

/-- A broadcast (buffer `call2_v1`) of a real array is real. -/
theorem allReal_call2_v1 : AllReal (K m ρ c main_call2_v1) := by
  rw [eq_call2_v1 m ρ c]; exact allReal_broadcastInDim _ _ _ (allReal_call2_v0 m ρ hpre c)

/-- A selection (buffer `v160`) between two real arrays is real. -/
theorem allReal_v160 : AllReal (K m ρ c main_v160) := by
  rw [eq_v160 m ρ c]; exact allReal_select (φ := .f32) _ (allReal_v159 m ρ hpre c) (allReal_call2_v1 m ρ hpre c)

/-- A gather (buffer `v167`) from a real array is real: its entries are entries of the array. -/
theorem allReal_v167 : AllReal (K m ρ c main_v167) := by
  rw [eq_v167 m ρ c]; exact allReal_hostGather _ (allReal_v160 m ρ hpre c) _

/-- A gather (buffer `v174`) from a real array is real: its entries are entries of the array. -/
theorem allReal_v174 : AllReal (K m ρ c main_v174) := by
  rw [eq_v174 m ρ c]; exact allReal_hostGather _ (allReal_v160 m ρ hpre c) _

/-- The entrywise product (buffer `v175`) of two real arrays is real. -/
theorem allReal_v175 : AllReal (K m ρ c main_v175) := by
  rw [eq_v175 m ρ c]; exact allReal_mulf (allReal_v167 m ρ hpre c) (allReal_v174 m ρ hpre c)

/-- A broadcast (buffer `v191`) of a real array is real. -/
theorem allReal_v191 : AllReal (K m ρ c main_v191) := by
  rw [eq_v191 m ρ c]; exact allReal_broadcastInDim _ _ _ (allReal_v175 m ρ hpre c)

/-- The one column of buffer `v191` is real. -/
theorem real1_col_v191 : Real1 (fun e : Fin 200000 => K m ρ c main_v191 (ix2 e (0 : Fin 1))) :=
  fun e => allReal_v191 m ρ hpre c _

/-- A gather (buffer `v182`) from a real array is real: its entries are entries of the array. -/
theorem allReal_v182 : AllReal (K m ρ c main_v182) := by
  rw [eq_v182 m ρ c]; exact allReal_hostGather _ (allReal_v139 m ρ hpre c) _

/-- A gather (buffer `v189`) from a real array is real: its entries are entries of the array. -/
theorem allReal_v189 : AllReal (K m ρ c main_v189) := by
  rw [eq_v189 m ρ c]; exact allReal_hostGather _ (allReal_v138 m ρ hpre c) _

/-- The entrywise difference (buffer `v190`) of two real arrays is real. -/
theorem allReal_v190 : AllReal (K m ρ c main_v190) := by
  rw [eq_v190 m ρ c]; exact allReal_subf (allReal_v182 m ρ hpre c) (allReal_v189 m ρ hpre c)

/-- Buffer `v190`, read by rows and columns, is a real array. -/
theorem real2_v190 : Real2 (at2 (n0 := 200000) (n1 := 200) (K m ρ c main_v190)) :=
  real2_at2 (n0 := 200000) (n1 := 200) (allReal_v190 m ρ hpre c)

/-- The edge messages (buffer `v192`) of real differences, real normalisers and real weights are real. -/
theorem real2_v192 : Real2 (at2 (n0 := 200000) (n1 := 200) (K m ρ c main_v192)) := by
  intro e q
  show IsReal (K m ρ c main_v192 (ix2 e q))
  rw [spec_v192 m ρ c e q]
  exact real2_message (real2_v190 m ρ hpre c) (real1_col_v191 m ρ hpre c) (real2_arg16 m ρ hpre c) e q

/-- Every entry of buffer `v192` is real. -/
theorem allReal_v192 : AllReal (K m ρ c main_v192) :=
  allReal_of_real2_at2 (n0 := 200000) (n1 := 200) (real2_v192 m ρ hpre c)

/-- The constant `0.0` (buffer `cst_51`) is real. -/
theorem allReal_cst_51 : AllReal (K m ρ c main_cst_51) := by
  rw [eq_cst_51 m ρ c]; exact allReal_constant_f32_zero _

/-- A broadcast (buffer `v193`) of a real array is real. -/
theorem allReal_v193 : AllReal (K m ρ c main_v193) := by
  rw [eq_v193 m ρ c]; exact allReal_broadcastInDim _ _ _ (allReal_cst_51 m ρ hpre c)

/-- A scatter-add (buffer `v200`) of real updates into a real array is real: an entry plus finitely many updates. -/
theorem allReal_v200 : AllReal (K m ρ c main_v200) := by
  rw [eq_v200 m ρ c]; exact allReal_hostScatterAdd _ _ (allReal_v193 m ρ hpre c) (allReal_v192 m ρ hpre c)

/-! ### The second layer, outgoing edges -/

/-- The constant `0.0` (buffer `cst_54`) is real. -/
theorem allReal_cst_54 : AllReal (K m ρ c main_cst_54) := by
  rw [eq_cst_54 m ρ c]; exact allReal_constant_f32_zero _

/-- A broadcast (buffer `v207`) of a real array is real. -/
theorem allReal_v207 : AllReal (K m ρ c main_v207) := by
  rw [eq_v207 m ρ c]; exact allReal_broadcastInDim _ _ _ (allReal_cst_54 m ρ hpre c)

/-- The constant `1.0` (buffer `cst_57`) is real. -/
theorem allReal_cst_57 : AllReal (K m ρ c main_cst_57) := by
  rw [eq_cst_57 m ρ c]; exact allReal_constant_f32_one _

/-- A broadcast (buffer `v214`) of a real array is real. -/
theorem allReal_v214 : AllReal (K m ρ c main_v214) := by
  rw [eq_v214 m ρ c]; exact allReal_broadcastInDim _ _ _ (allReal_cst_57 m ρ hpre c)

/-- A scatter-add (buffer `v215`) of real updates into a real array is real: an entry plus finitely many updates. -/
theorem allReal_v215 : AllReal (K m ρ c main_v215) := by
  rw [eq_v215 m ρ c]; exact allReal_hostScatterAdd _ _ (allReal_v207 m ρ hpre c) (allReal_v214 m ρ hpre c)

/-- Every entry of the broadcast constant `1.0` (buffer `v218`) is `1`. -/
theorem v218_eq_one (i) : K m ρ c main_v218 i = (1 : EReal) := by
  rw [eq_v218 m ρ c, eq_cst_59 m ρ c]; exact bcast_one_apply _ _ i

/-- The maximum (buffer `v219`) of a real array with ones is real. -/
theorem allReal_v219 : AllReal (K m ρ c main_v219) := by
  rw [eq_v219 m ρ c]
  exact allReal_maximumf (allReal_v215 m ρ hpre c) fun i => by rw [v218_eq_one m ρ hpre c i]; exact isReal_one

/-- The maximum with ones (buffer `v219`) is at least `1`, so positive. -/
theorem v219_pos (i) : (0 : EReal) < K m ρ c main_v219 i := by
  rw [eq_v219 m ρ c]; exact (one_le_maximumf_of_right_eq_one _ (v218_eq_one m ρ hpre c) i).2

/-- The reciprocal square root (buffer `v220`) of positive reals is real. -/
theorem allReal_v220 : AllReal (K m ρ c main_v220) := by
  rw [eq_v220 m ρ c]; exact allReal_hostRsqrt (allReal_v219 m ρ hpre c) (v219_pos m ρ hpre c)

/-- The constant `0.0` (buffer `cst_60`) is real. -/
theorem allReal_cst_60 : AllReal (K m ρ c main_cst_60) := by
  rw [eq_cst_60 m ρ c]; exact allReal_constant_f32_zero _

/-- A copy (buffer `call3_v0`) of a real array is real. -/
theorem allReal_call3_v0 : AllReal (K m ρ c main_call3_v0) := by
  rw [eq_call3_v0 m ρ c, id_eq]; exact allReal_cst_60 m ρ hpre c

/-- A broadcast (buffer `call3_v1`) of a real array is real. -/
theorem allReal_call3_v1 : AllReal (K m ρ c main_call3_v1) := by
  rw [eq_call3_v1 m ρ c]; exact allReal_broadcastInDim _ _ _ (allReal_call3_v0 m ρ hpre c)

/-- A selection (buffer `v221`) between two real arrays is real. -/
theorem allReal_v221 : AllReal (K m ρ c main_v221) := by
  rw [eq_v221 m ρ c]; exact allReal_select (φ := .f32) _ (allReal_v220 m ρ hpre c) (allReal_call3_v1 m ρ hpre c)

/-- A gather (buffer `v228`) from a real array is real: its entries are entries of the array. -/
theorem allReal_v228 : AllReal (K m ρ c main_v228) := by
  rw [eq_v228 m ρ c]; exact allReal_hostGather _ (allReal_v221 m ρ hpre c) _

/-- A gather (buffer `v235`) from a real array is real: its entries are entries of the array. -/
theorem allReal_v235 : AllReal (K m ρ c main_v235) := by
  rw [eq_v235 m ρ c]; exact allReal_hostGather _ (allReal_v221 m ρ hpre c) _

/-- The entrywise product (buffer `v236`) of two real arrays is real. -/
theorem allReal_v236 : AllReal (K m ρ c main_v236) := by
  rw [eq_v236 m ρ c]; exact allReal_mulf (allReal_v228 m ρ hpre c) (allReal_v235 m ρ hpre c)

/-- A broadcast (buffer `v252`) of a real array is real. -/
theorem allReal_v252 : AllReal (K m ρ c main_v252) := by
  rw [eq_v252 m ρ c]; exact allReal_broadcastInDim _ _ _ (allReal_v236 m ρ hpre c)

/-- The one column of buffer `v252` is real. -/
theorem real1_col_v252 : Real1 (fun e : Fin 200000 => K m ρ c main_v252 (ix2 e (0 : Fin 1))) :=
  fun e => allReal_v252 m ρ hpre c _

/-- A gather (buffer `v243`) from a real array is real: its entries are entries of the array. -/
theorem allReal_v243 : AllReal (K m ρ c main_v243) := by
  rw [eq_v243 m ρ c]; exact allReal_hostGather _ (allReal_v139 m ρ hpre c) _

/-- A gather (buffer `v250`) from a real array is real: its entries are entries of the array. -/
theorem allReal_v250 : AllReal (K m ρ c main_v250) := by
  rw [eq_v250 m ρ c]; exact allReal_hostGather _ (allReal_v138 m ρ hpre c) _

/-- The entrywise difference (buffer `v251`) of two real arrays is real. -/
theorem allReal_v251 : AllReal (K m ρ c main_v251) := by
  rw [eq_v251 m ρ c]; exact allReal_subf (allReal_v243 m ρ hpre c) (allReal_v250 m ρ hpre c)

/-- Buffer `v251`, read by rows and columns, is a real array. -/
theorem real2_v251 : Real2 (at2 (n0 := 200000) (n1 := 200) (K m ρ c main_v251)) :=
  real2_at2 (n0 := 200000) (n1 := 200) (allReal_v251 m ρ hpre c)

/-- The edge messages (buffer `v253`) of real differences, real normalisers and real weights are real. -/
theorem real2_v253 : Real2 (at2 (n0 := 200000) (n1 := 200) (K m ρ c main_v253)) := by
  intro e q
  show IsReal (K m ρ c main_v253 (ix2 e q))
  rw [spec_v253 m ρ c e q]
  exact real2_message (real2_v251 m ρ hpre c) (real1_col_v252 m ρ hpre c) (real2_arg17 m ρ hpre c) e q

/-- Every entry of buffer `v253` is real. -/
theorem allReal_v253 : AllReal (K m ρ c main_v253) :=
  allReal_of_real2_at2 (n0 := 200000) (n1 := 200) (real2_v253 m ρ hpre c)

/-- The constant `0.0` (buffer `cst_69`) is real. -/
theorem allReal_cst_69 : AllReal (K m ρ c main_cst_69) := by
  rw [eq_cst_69 m ρ c]; exact allReal_constant_f32_zero _

/-- A broadcast (buffer `v254`) of a real array is real. -/
theorem allReal_v254 : AllReal (K m ρ c main_v254) := by
  rw [eq_v254 m ρ c]; exact allReal_broadcastInDim _ _ _ (allReal_cst_69 m ρ hpre c)

/-- A scatter-add (buffer `v261`) of real updates into a real array is real: an entry plus finitely many updates. -/
theorem allReal_v261 : AllReal (K m ρ c main_v261) := by
  rw [eq_v261 m ρ c]; exact allReal_hostScatterAdd _ _ (allReal_v254 m ρ hpre c) (allReal_v253 m ρ hpre c)

/-! ### The second layer's combined array -/

/-- The entrywise sum (buffer `v262`) of two real arrays is real. -/
theorem allReal_v262 : AllReal (K m ρ c main_v262) := by
  rw [eq_v262 m ρ c]; exact allReal_addf (allReal_v200 m ρ hpre c) (allReal_v261 m ρ hpre c)

/-- Buffer `v262`, read by rows and columns, is a real array. -/
theorem real2_v262 : Real2 (at2 (n0 := 100000) (n1 := 200) (K m ρ c main_v262)) :=
  real2_at2 (n0 := 100000) (n1 := 200) (allReal_v262 m ρ hpre c)

/-- A reshape (buffer `v263`) of a real array is real. -/
theorem allReal_v263 : AllReal (K m ρ c main_v263) := by
  rw [eq_v263 m ρ c]; exact allReal_shapeCast _ (allReal_arg21 m ρ hpre c) _

/-- The one row of buffer `v263` is real. -/
theorem real1_row_v263 : Real1 (fun q : Fin 200 => K m ρ c main_v263 (ix2 (0 : Fin 1) q)) :=
  fun q => allReal_v263 m ρ hpre c _

/-- THE SECOND LAYER'S COMBINED ARRAY IS REAL. -/
theorem real_pre2 : Real2 (at2 (n0 := 100000) (n1 := 200) (K m ρ c main_v264_0)) := by
  intro r q
  show IsReal (K m ρ c main_v264_0 (ix2 r q))
  rw [spec_v264_0 m ρ c r q]
  exact real2_combine (real2_v139 m ρ hpre c) (real1_row_arg20 m ρ hpre c) (real2_arg18 m ρ hpre c) (real2_v262 m ρ hpre c) (real1_row_v263 m ρ hpre c) r q

end Cert.Bridge

end
-- ==== Proof.Bridge.lean ====
/-
  The two programs end with the same three results.

  `K b` is the kernel program's final contents of buffer `b` (the last boundary's fold from the launch memory `m`) and
  `A b` the reference's (its operations' fold from the launch memory `m'`).  Both satisfy one equation per operation.
  Stage by stage the equations are the same mathematics on equal operands — matrix products, the entrywise sum of
  three arrays, edge messages, gathers and scatter-adds on the same index arrays, the combined pre-activation —
  except for the batch statistics, where the kernel's variance from the two moments equals the reference's mean squared
  deviation because every entry of the combined array is a real number: the inputs are finite and every step keeps
  entries real.
-/
import proofs.«103573_j30391188587216_1_alg».proof.Proof.Seeds1
import proofs.«103573_j30391188587216_1_alg».proof.Proof.Reality

noncomputable section

namespace Cert.Bridge

open Idealize.ShloMosaic Idealize.ShloMosaic.TcCoe Idealize.SL.Sem Idealize.ShloMosaic.StableHlo

variable [hPre_finite_inputs : Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The gathered node embeddings agree. -/
theorem result_sub (hpre : Cert.Pre_KernelIdeal m) (hagree : Agree m m') (c : Dev Cert.KernelIdeal.nD) :
    after (Cert.ReferenceIdeal.HandRun.ops (F := Ideal)) (launchContents m' c) (Cert.ReferenceIdeal.main_v324 : DevRef Cert.ReferenceIdeal.τ Cert.ReferenceIdeal.sig)
      = Cert.KernelIdeal.GenP.W33 m ρ c (Proc.devRef .tc Cert.KernelIdeal.main_v280) :=
  (final_sub m ρ m' hagree c (real_pre1 m ρ hpre c) (real_pre2 m ρ hpre c)).symm

/-- The gathered relation embeddings agree. -/
theorem result_rel (hpre : Cert.Pre_KernelIdeal m) (hagree : Agree m m') (c : Dev Cert.KernelIdeal.nD) :
    after (Cert.ReferenceIdeal.HandRun.ops (F := Ideal)) (launchContents m' c) (Cert.ReferenceIdeal.main_v331 : DevRef Cert.ReferenceIdeal.τ Cert.ReferenceIdeal.sig)
      = Cert.KernelIdeal.GenP.W33 m ρ c (Proc.devRef .tc Cert.KernelIdeal.main_v287) :=
  (final_rel m ρ m' hagree c (real_pre1 m ρ hpre c)).symm

/-- The node features after the second layer agree. -/
theorem result_x (hpre : Cert.Pre_KernelIdeal m) (hagree : Agree m m') (c : Dev Cert.KernelIdeal.nD) :
    after (Cert.ReferenceIdeal.HandRun.ops (F := Ideal)) (launchContents m' c) (Cert.ReferenceIdeal.main_v315 : DevRef Cert.ReferenceIdeal.τ Cert.ReferenceIdeal.sig)
      = Cert.KernelIdeal.GenP.W33 m ρ c (Proc.devRef .tc Cert.KernelIdeal.main_v271) :=
  (final_x m ρ m' hagree c (real_pre1 m ρ hpre c) (real_pre2 m ρ hpre c)).symm

end Cert.Bridge

end
-- ==== Proof.lean ====
/-
  The certificate of the two-layer graph convolution: the kernel program (fourteen kernel regions among host
  operations) against its jnp reference.

  The three frames: the kernel program's two (as printed, and idealized) are the generated frame theorems (cited from copies of the generated frame modules that raise one elaboration limit); the
  reference has no kernel, and its frame is its run — a straight line of host operations, each outlined function
  inlined at its call — with the results dropped.  The idealization rewrote nothing, so `preserves` is trivial.
  The value claim: both runs end with every buffer at a fold of the operations from the launch memory, and the three
  result buffers of the two folds are equal (`Cert.Bridge`).
-/
import proofs.«103573_j30391188587216_1_alg».proof.Defs
import proofs.«103573_j30391188587216_1_alg».proof.Proof.Gen.Kernel
import proofs.«103573_j30391188587216_1_alg».proof.Proof.Gen.Kernel.Skeleton
import proofs.«103573_j30391188587216_1_alg».proof.Proof.Gen.Kernel.Launch
import proofs.«103573_j30391188587216_1_alg».proof.Proof.Gen.Kernel.Points
import proofs.«103573_j30391188587216_1_alg».proof.Proof.FrameKernel
import proofs.«103573_j30391188587216_1_alg».proof.Proof.Gen.KernelIdeal
import proofs.«103573_j30391188587216_1_alg».proof.Proof.Gen.KernelIdeal.Skeleton
import proofs.«103573_j30391188587216_1_alg».proof.Proof.Gen.KernelIdeal.Launch
import proofs.«103573_j30391188587216_1_alg».proof.Proof.Gen.KernelIdeal.Points
import proofs.«103573_j30391188587216_1_alg».proof.Proof.FrameKernelIdeal
import proofs.«103573_j30391188587216_1_alg».proof.Proof.Gen.ReferenceIdeal
import proofs.«103573_j30391188587216_1_alg».proof.Proof.Gen.Pre_finite_inputs
import proofs.«103573_j30391188587216_1_alg».proof.Proof.KernelRun
import proofs.«103573_j30391188587216_1_alg».proof.Proof.RefRun
import proofs.«103573_j30391188587216_1_alg».proof.Proof.Bridge
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.GenP.frame m ρ

theorem frame_ki : Cert.frame_KernelIdeal := fun m ρ _ => Cert.KernelIdeal.GenP.frame m ρ

/-- The reference's run with the results dropped: no operation writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandRun.kept_arg0 _),
      (h c Cert.ReferenceIdeal.main_arg1).trans (Cert.ReferenceIdeal.HandRun.kept_arg1 _),
      (h c Cert.ReferenceIdeal.main_arg2).trans (Cert.ReferenceIdeal.HandRun.kept_arg2 _),
      (h c Cert.ReferenceIdeal.main_arg3).trans (Cert.ReferenceIdeal.HandRun.kept_arg3 _),
      (h c Cert.ReferenceIdeal.main_arg4).trans (Cert.ReferenceIdeal.HandRun.kept_arg4 _),
      (h c Cert.ReferenceIdeal.main_arg5).trans (Cert.ReferenceIdeal.HandRun.kept_arg5 _),
      (h c Cert.ReferenceIdeal.main_arg6).trans (Cert.ReferenceIdeal.HandRun.kept_arg6 _),
      (h c Cert.ReferenceIdeal.main_arg7).trans (Cert.ReferenceIdeal.HandRun.kept_arg7 _),
      (h c Cert.ReferenceIdeal.main_arg8).trans (Cert.ReferenceIdeal.HandRun.kept_arg8 _),
      (h c Cert.ReferenceIdeal.main_arg9).trans (Cert.ReferenceIdeal.HandRun.kept_arg9 _),
      (h c Cert.ReferenceIdeal.main_arg10).trans (Cert.ReferenceIdeal.HandRun.kept_arg10 _),
      (h c Cert.ReferenceIdeal.main_arg11).trans (Cert.ReferenceIdeal.HandRun.kept_arg11 _),
      (h c Cert.ReferenceIdeal.main_arg12).trans (Cert.ReferenceIdeal.HandRun.kept_arg12 _),
      (h c Cert.ReferenceIdeal.main_arg13).trans (Cert.ReferenceIdeal.HandRun.kept_arg13 _),
      (h c Cert.ReferenceIdeal.main_arg14).trans (Cert.ReferenceIdeal.HandRun.kept_arg14 _),
      (h c Cert.ReferenceIdeal.main_arg15).trans (Cert.ReferenceIdeal.HandRun.kept_arg15 _),
      (h c Cert.ReferenceIdeal.main_arg16).trans (Cert.ReferenceIdeal.HandRun.kept_arg16 _),
      (h c Cert.ReferenceIdeal.main_arg17).trans (Cert.ReferenceIdeal.HandRun.kept_arg17 _),
      (h c Cert.ReferenceIdeal.main_arg18).trans (Cert.ReferenceIdeal.HandRun.kept_arg18 _),
      (h c Cert.ReferenceIdeal.main_arg19).trans (Cert.ReferenceIdeal.HandRun.kept_arg19 _),
      (h c Cert.ReferenceIdeal.main_arg20).trans (Cert.ReferenceIdeal.HandRun.kept_arg20 _),
      (h c Cert.ReferenceIdeal.main_arg21).trans (Cert.ReferenceIdeal.HandRun.kept_arg21 _)⟩)
    (Cert.ReferenceIdeal.HandRun.run_main (F := Ideal) m ρ)

/-- The idealization rewrote no operation. -/
theorem preserves : Cert.preserves_Kernel_KernelIdeal := trivial

/-- Both runs end with their buffers at the folds; the result buffers of the two folds are equal. -/
theorem algebraic : Cert.algebraic_KernelIdeal_ReferenceIdeal := by
  intro m ρ m' ρ' hpre hagree
  refine ⟨fun c => Cert.KernelIdeal.GenP.W33 m ρ c (Proc.devRef .tc Cert.KernelIdeal.main_v280),
    fun c => Cert.KernelIdeal.GenP.W33 m ρ c (Proc.devRef .tc Cert.KernelIdeal.main_v287),
    fun c => Cert.KernelIdeal.GenP.W33 m ρ c (Proc.devRef .tc Cert.KernelIdeal.main_v271), ?_, ?_⟩
  · exact (θ_run Cert.KernelIdeal.defs _ _).mono (fun r h c =>
      ⟨h c Cert.KernelIdeal.main_v280 (by decide), h c Cert.KernelIdeal.main_v287 (by decide), h c Cert.KernelIdeal.main_v271 (by decide),
      (h c Cert.KernelIdeal.main_arg0 (by decide)).trans (Cert.KernelIdeal.GenP.W33_main_arg0 m ρ c),
      (h c Cert.KernelIdeal.main_arg1 (by decide)).trans (Cert.KernelIdeal.GenP.W33_main_arg1 m ρ c),
      (h c Cert.KernelIdeal.main_arg2 (by decide)).trans (Cert.KernelIdeal.GenP.W33_main_arg2 m ρ c),
      (h c Cert.KernelIdeal.main_arg3 (by decide)).trans (Cert.KernelIdeal.GenP.W33_main_arg3 m ρ c),
      (h c Cert.KernelIdeal.main_arg4 (by decide)).trans (Cert.KernelIdeal.GenP.W33_main_arg4 m ρ c),
      (h c Cert.KernelIdeal.main_arg5 (by decide)).trans (Cert.KernelIdeal.GenP.W33_main_arg5 m ρ c),
      (h c Cert.KernelIdeal.main_arg6 (by decide)).trans (Cert.KernelIdeal.GenP.W33_main_arg6 m ρ c),
      (h c Cert.KernelIdeal.main_arg7 (by decide)).trans (Cert.KernelIdeal.GenP.W33_main_arg7 m ρ c),
      (h c Cert.KernelIdeal.main_arg8 (by decide)).trans (Cert.KernelIdeal.GenP.W33_main_arg8 m ρ c),
      (h c Cert.KernelIdeal.main_arg9 (by decide)).trans (Cert.KernelIdeal.GenP.W33_main_arg9 m ρ c),
      (h c Cert.KernelIdeal.main_arg10 (by decide)).trans (Cert.KernelIdeal.GenP.W33_main_arg10 m ρ c),
      (h c Cert.KernelIdeal.main_arg11 (by decide)).trans (Cert.KernelIdeal.GenP.W33_main_arg11 m ρ c),
      (h c Cert.KernelIdeal.main_arg12 (by decide)).trans (Cert.KernelIdeal.GenP.W33_main_arg12 m ρ c),
      (h c Cert.KernelIdeal.main_arg13 (by decide)).trans (Cert.KernelIdeal.GenP.W33_main_arg13 m ρ c),
      (h c Cert.KernelIdeal.main_arg14 (by decide)).trans (Cert.KernelIdeal.GenP.W33_main_arg14 m ρ c),
      (h c Cert.KernelIdeal.main_arg15 (by decide)).trans (Cert.KernelIdeal.GenP.W33_main_arg15 m ρ c),
      (h c Cert.KernelIdeal.main_arg16 (by decide)).trans (Cert.KernelIdeal.GenP.W33_main_arg16 m ρ c),
      (h c Cert.KernelIdeal.main_arg17 (by decide)).trans (Cert.KernelIdeal.GenP.W33_main_arg17 m ρ c),
      (h c Cert.KernelIdeal.main_arg18 (by decide)).trans (Cert.KernelIdeal.GenP.W33_main_arg18 m ρ c),
      (h c Cert.KernelIdeal.main_arg19 (by decide)).trans (Cert.KernelIdeal.GenP.W33_main_arg19 m ρ c),
      (h c Cert.KernelIdeal.main_arg20 (by decide)).trans (Cert.KernelIdeal.GenP.W33_main_arg20 m ρ c),
      (h c Cert.KernelIdeal.main_arg21 (by decide)).trans (Cert.KernelIdeal.GenP.W33_main_arg21 m ρ c)⟩)
      (Cert.KernelIdeal.HandRun.run_all (F := Ideal) m ρ)
  · exact (θ_run Cert.ReferenceIdeal.defs _ _).mono (fun r h c =>
      ⟨(h c Cert.ReferenceIdeal.main_v324).trans (Cert.Bridge.result_sub m ρ m' hpre hagree c),
      (h c Cert.ReferenceIdeal.main_v331).trans (Cert.Bridge.result_rel m ρ m' hpre hagree c),
      (h c Cert.ReferenceIdeal.main_v315).trans (Cert.Bridge.result_x m ρ m' hpre hagree c),
      (h c Cert.ReferenceIdeal.main_arg0).trans (Cert.ReferenceIdeal.HandRun.kept_arg0 _),
      (h c Cert.ReferenceIdeal.main_arg1).trans (Cert.ReferenceIdeal.HandRun.kept_arg1 _),
      (h c Cert.ReferenceIdeal.main_arg2).trans (Cert.ReferenceIdeal.HandRun.kept_arg2 _),
      (h c Cert.ReferenceIdeal.main_arg3).trans (Cert.ReferenceIdeal.HandRun.kept_arg3 _),
      (h c Cert.ReferenceIdeal.main_arg4).trans (Cert.ReferenceIdeal.HandRun.kept_arg4 _),
      (h c Cert.ReferenceIdeal.main_arg5).trans (Cert.ReferenceIdeal.HandRun.kept_arg5 _),
      (h c Cert.ReferenceIdeal.main_arg6).trans (Cert.ReferenceIdeal.HandRun.kept_arg6 _),
      (h c Cert.ReferenceIdeal.main_arg7).trans (Cert.ReferenceIdeal.HandRun.kept_arg7 _),
      (h c Cert.ReferenceIdeal.main_arg8).trans (Cert.ReferenceIdeal.HandRun.kept_arg8 _),
      (h c Cert.ReferenceIdeal.main_arg9).trans (Cert.ReferenceIdeal.HandRun.kept_arg9 _),
      (h c Cert.ReferenceIdeal.main_arg10).trans (Cert.ReferenceIdeal.HandRun.kept_arg10 _),
      (h c Cert.ReferenceIdeal.main_arg11).trans (Cert.ReferenceIdeal.HandRun.kept_arg11 _),
      (h c Cert.ReferenceIdeal.main_arg12).trans (Cert.ReferenceIdeal.HandRun.kept_arg12 _),
      (h c Cert.ReferenceIdeal.main_arg13).trans (Cert.ReferenceIdeal.HandRun.kept_arg13 _),
      (h c Cert.ReferenceIdeal.main_arg14).trans (Cert.ReferenceIdeal.HandRun.kept_arg14 _),
      (h c Cert.ReferenceIdeal.main_arg15).trans (Cert.ReferenceIdeal.HandRun.kept_arg15 _),
      (h c Cert.ReferenceIdeal.main_arg16).trans (Cert.ReferenceIdeal.HandRun.kept_arg16 _),
      (h c Cert.ReferenceIdeal.main_arg17).trans (Cert.ReferenceIdeal.HandRun.kept_arg17 _),
      (h c Cert.ReferenceIdeal.main_arg18).trans (Cert.ReferenceIdeal.HandRun.kept_arg18 _),
      (h c Cert.ReferenceIdeal.main_arg19).trans (Cert.ReferenceIdeal.HandRun.kept_arg19 _),
      (h c Cert.ReferenceIdeal.main_arg20).trans (Cert.ReferenceIdeal.HandRun.kept_arg20 _),
      (h c Cert.ReferenceIdeal.main_arg21).trans (Cert.ReferenceIdeal.HandRun.kept_arg21 _)⟩)
      (Cert.ReferenceIdeal.HandRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
